-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v322)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v322) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v490) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S3x2x1600000 : Shape := ⟨3, ![3, 2, 1600000]⟩
abbrev S50000 : Shape := ⟨1, ![50000]⟩
abbrev S3x128x64 : Shape := ⟨3, ![3, 128, 64]⟩
abbrev S3x64 : Shape := ⟨2, ![3, 64]⟩
abbrev S3x64x32 : Shape := ⟨3, ![3, 64, 32]⟩
abbrev S3x32 : Shape := ⟨2, ![3, 32]⟩
abbrev S3 : Shape := ⟨1, ![3]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x64 : S_.BroadcastsInDim S3x128x64 (![] : Fin 0 → Fin S3x128x64.rank)
  reducesTo_S3x128x64_S_d0_1_2 : S3x128x64.ReducesTo [0, 1, 2] S_
  bcast_S_S3x64 : S_.BroadcastsInDim S3x64 (![] : Fin 0 → Fin S3x64.rank)
  reducesTo_S3x64_S_d0_1 : S3x64.ReducesTo [0, 1] S_
  bcast_S_S3x64x32 : S_.BroadcastsInDim S3x64x32 (![] : Fin 0 → Fin S3x64x32.rank)
  reducesTo_S3x64x32_S_d0_1_2 : S3x64x32.ReducesTo [0, 1, 2] S_
  bcast_S_S3x32 : S_.BroadcastsInDim S3x32 (![] : Fin 0 → Fin S3x32.rank)
  reducesTo_S3x32_S_d0_1 : S3x32.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_v48 : IVec S_ 1) (main_v49 : FVec F S3x32 .f32) (main_v50 : FVec F S3x32 .f32) : IVec S_ 1 :=
  let main_v51 : IVec S3x32 1 := cmpf .olt main_v49 main_v50
  let main_c_19 : IVec S_ 1 := constantI S_ 1 1#1
  let main_v52 : IVec S_ 1 := (fun x v => Host.reduce IntOp.andi x v reducesTo_S3x32_S_d0_1 h_S_) main_v51 main_c_19
  let main_v53 : IVec S_ 1 := andi main_v48 main_v52
  main_v53

def fn_part2 {F : FTy → Type} [FloatOps F] (main_arg9 : FVec F S3x64 .f32) (main_arg10 : FVec F S3x64 .f32) (main_arg11 : FVec F S3x32 .f32) (main_arg12 : FVec F S3x32 .f32) (main_v33 : IVec S_ 1) : IVec S_ 1 :=
  let main_v34 : FVec F S3x64 .f32 := Host.absf main_arg9
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S3x64 .f32 := Host.absf main_arg10
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  let main_v44 : FVec F S3x32 .f32 := Host.absf main_arg11
  let main_cst_16 : FVec F S_ .f32 := constant S_ .f32 0x7F800000#32
  let main_v45 : FVec F S3x32 .f32 := broadcastInDim S3x32 ![] bcast_S_S3x32 main_cst_16
  let main_v46 : IVec S3x32 1 := cmpf .olt main_v44 main_v45
  let main_c_17 : IVec S_ 1 := constantI S_ 1 1#1
  let main_v47 : IVec S_ 1 := (fun x v => Host.reduce IntOp.andi x v reducesTo_S3x32_S_d0_1 h_S_) main_v46 main_c_17
  let main_v48 : IVec S_ 1 := andi main_v43 main_v47
  let main_v49 : FVec F S3x32 .f32 := Host.absf main_arg12
  let main_cst_18 : FVec F S_ .f32 := constant S_ .f32 0x7F800000#32
  let main_v50 : FVec F S3x32 .f32 := broadcastInDim S3x32 ![] bcast_S_S3x32 main_cst_18
  fn_part3 (F := F) main_v48 main_v49 main_v50

def fn_part1 {F : FTy → Type} [FloatOps F] (main_arg6 : FVec F S3x32 .f32) (main_arg7 : FVec F S3 .f32) (main_arg8 : FVec F S3 .f32) (main_arg9 : FVec F S3x64 .f32) (main_arg10 : FVec F S3x64 .f32) (main_arg11 : FVec F S3x32 .f32) (main_arg12 : FVec F S3x32 .f32) (main_v13 : IVec S_ 1) (main_v16 : IVec S3x64x32 1) : IVec S_ 1 :=
  let main_c_5 : IVec S_ 1 := constantI S_ 1 1#1
  let main_v17 : IVec S_ 1 := (fun x v => Host.reduce IntOp.andi x v reducesTo_S3x64x32_S_d0_1_2 h_S_) main_v16 main_c_5
  let main_v18 : IVec S_ 1 := andi main_v13 main_v17
  let main_v19 : FVec F S3x32 .f32 := Host.absf main_arg6
  let main_cst_6 : FVec F S_ .f32 := constant S_ .f32 0x7F800000#32
  let main_v20 : FVec F S3x32 .f32 := broadcastInDim S3x32 ![] bcast_S_S3x32 main_cst_6
  let main_v21 : IVec S3x32 1 := cmpf .olt main_v19 main_v20
  let main_c_7 : IVec S_ 1 := constantI S_ 1 1#1
  let main_v22 : IVec S_ 1 := (fun x v => Host.reduce IntOp.andi x v reducesTo_S3x32_S_d0_1 h_S_) main_v21 main_c_7
  let main_v23 : IVec S_ 1 := andi main_v18 main_v22
  let main_v24 : FVec F S3 .f32 := Host.absf main_arg7
  let main_cst_8 : FVec F S_ .f32 := constant S_ .f32 0x7F800000#32
  let main_v25 : FVec F S3 .f32 := broadcastInDim S3 ![] bcast_S_S3 main_cst_8
  let main_v26 : IVec S3 1 := cmpf .olt main_v24 main_v25
  let main_c_9 : IVec S_ 1 := constantI S_ 1 1#1
  let main_v27 : IVec S_ 1 := (fun x v => Host.reduce IntOp.andi x v reducesTo_S3_S_d0 h_S_) main_v26 main_c_9
  let main_v28 : IVec S_ 1 := andi main_v23 main_v27
  let main_v29 : FVec F S3 .f32 := Host.absf main_arg8
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S3x2x1600000 32) (main_arg2 : IVec S50000 32) (main_arg3 : FVec F S3x128x64 .f32) (main_arg4 : FVec F S3x64 .f32) (main_arg5 : FVec F S3x64x32 .f32) (main_arg6 : FVec F S3x32 .f32) (main_arg7 : FVec F S3 .f32) (main_arg8 : FVec F S3 .f32) (main_arg9 : FVec F S3x64 .f32) (main_arg10 : FVec F S3x64 .f32) (main_arg11 : FVec F S3x32 .f32) (main_arg12 : FVec F S3x32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x64 .f32 := Host.absf main_arg3
  let main_cst_0 : FVec F S_ .f32 := constant S_ .f32 0x7F800000#32
  let main_v5 : FVec F S3x128x64 .f32 := broadcastInDim S3x128x64 ![] bcast_S_S3x128x64 main_cst_0
  let main_v6 : IVec S3x128x64 1 := cmpf .olt main_v4 main_v5
  let main_c_1 : IVec S_ 1 := constantI S_ 1 1#1
  let main_v7 : IVec S_ 1 := (fun x v => Host.reduce IntOp.andi x v reducesTo_S3x128x64_S_d0_1_2 h_S_) main_v6 main_c_1
  let main_v8 : IVec S_ 1 := andi main_v3 main_v7
  let main_v9 : FVec F S3x64 .f32 := Host.absf main_arg4
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S3x64x32 .f32 := Host.absf main_arg5
  let main_cst_4 : FVec F S_ .f32 := constant S_ .f32 0x7F800000#32
  let main_v15 : FVec F S3x64x32 .f32 := broadcastInDim S3x64x32 ![] bcast_S_S3x64x32 main_cst_4
  let main_v16 : IVec S3x64x32 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S3x2x1600000 : Shape := ⟨3, ![3, 2, 1600000]⟩
abbrev S50000 : Shape := ⟨1, ![50000]⟩
abbrev S3x128x64 : Shape := ⟨3, ![3, 128, 64]⟩
abbrev S3x64 : Shape := ⟨2, ![3, 64]⟩
abbrev S3x64x32 : Shape := ⟨3, ![3, 64, 32]⟩
abbrev S3x32 : Shape := ⟨2, ![3, 32]⟩
abbrev S3 : Shape := ⟨1, ![3]⟩
abbrev S1x1x1600000 : Shape := ⟨3, ![1, 1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x128x64 : Shape := ⟨3, ![1, 128, 64]⟩
abbrev S128x64 : Shape := ⟨2, ![128, 64]⟩
abbrev S1x64 : Shape := ⟨2, ![1, 64]⟩
abbrev S64 : Shape := ⟨1, ![64]⟩
abbrev S100000x64 : Shape := ⟨2, ![100000, 64]⟩
abbrev S10000x128 : Shape := ⟨2, ![10000, 128]⟩
abbrev S10000x64 : Shape := ⟨2, ![10000, 64]⟩
abbrev S1600000x64 : Shape := ⟨2, ![1600000, 64]⟩
abbrev S1 : Shape := ⟨1, ![1]⟩
abbrev S1x1 : Shape := ⟨2, ![1, 1]⟩
abbrev S1x64x32 : Shape := ⟨3, ![1, 64, 32]⟩
abbrev S64x32 : Shape := ⟨2, ![64, 32]⟩
abbrev S1x32 : Shape := ⟨2, ![1, 32]⟩
abbrev S32 : Shape := ⟨1, ![32]⟩
abbrev S100000x32 : Shape := ⟨2, ![100000, 32]⟩
abbrev S10000x32 : Shape := ⟨2, ![10000, 32]⟩
abbrev S1600000x32 : Shape := ⟨2, ![1600000, 32]⟩
abbrev S50000x1 : Shape := ⟨2, ![50000, 1]⟩
abbrev S50000x32 : Shape := ⟨2, ![50000, 32]⟩
abbrev S50000x1x32 : Shape := ⟨3, ![50000, 1, 32]⟩
abbrev S50000x3x32 : Shape := ⟨3, ![50000, 3, 32]⟩
abbrev S50000x96 : Shape := ⟨2, ![50000, 96]⟩

abbrev nBuf : Space → Nat
  | .hbm => 447
  | .vmem => 138
  | .smem => 0
  | _ => 0

abbrev hbmTy0_0 (i : Nat) : BufTy := match i % 128 with
  | 0 => ⟨S100000x128, .f32⟩
  | 1 => ⟨S3x2x1600000, .i32⟩
  | 2 => ⟨S50000, .i32⟩
  | 3 => ⟨S3x128x64, .f32⟩
  | 4 => ⟨S3x64, .f32⟩
  | 5 => ⟨S3x64x32, .f32⟩
  | 6 => ⟨S3x32, .f32⟩
  | 7 => ⟨S3, .f32⟩
  | 8 => ⟨S3, .f32⟩
  | 9 => ⟨S3x64, .f32⟩
  | 10 => ⟨S3x64, .f32⟩
  | 11 => ⟨S3x32, .f32⟩
  | 12 => ⟨S3x32, .f32⟩
  | 13 => ⟨S1x1x1600000, .i32⟩
  | 14 => ⟨S1600000, .i32⟩
  | 15 => ⟨S1x1x1600000, .i32⟩
  | 16 => ⟨S1600000, .i32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000, .f32⟩
  | 45 => ⟨S1600000, .f32⟩
  | 46 => ⟨S1x128x64, .f32⟩
  | 47 => ⟨S128x64, .f32⟩
  | 48 => ⟨S1x64, .f32⟩
  | 49 => ⟨S64, .f32⟩
  | 50 => ⟨S1x64, .f32⟩
  | 51 => ⟨S100000x64, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x64, .f32⟩
  | 61 => ⟨S1600000x1, .f32⟩
  | 62 => ⟨S1600000x64, .f32⟩
  | 63 => ⟨S1600000x64, .f32⟩
  | 64 => ⟨S_, .f32⟩
  | 65 => ⟨S100000x64, .f32⟩
  | 66 => ⟨S1600000x1, .i32⟩
  | 67 => ⟨S100000x64, .f32⟩
  | 68 => ⟨S1, .f32⟩
  | 69 => ⟨S_, .f32⟩
  | 70 => ⟨S1x64, .f32⟩
  | 71 => ⟨S64, .f32⟩
  | 72 => ⟨S1x64, .f32⟩
  | 73 => ⟨S64, .f32⟩
  | 74 => ⟨S1x1, .f32⟩
  | 75 => ⟨S100000x64, .f32⟩
  | 76 => ⟨S1x64, .f32⟩
  | 77 => ⟨S1x64, .f32⟩
  | 78 => ⟨S_, .f32⟩
  | 79 => ⟨S1x64, .f32⟩
  | 80 => ⟨S1x64, .f32⟩
  | 81 => ⟨S_, .f32⟩
  | 82 => ⟨S1x64, .f32⟩
  | 83 => ⟨S1x64, .f32⟩
  | 84 => ⟨S1x64, .f32⟩
  | 85 => ⟨S1x64, .f32⟩
  | 86 => ⟨S1x64, .f32⟩
  | 87 => ⟨S1x64, .f32⟩
  | 88 => ⟨S100000x64, .f32⟩
  | 89 => ⟨S1x64x32, .f32⟩
  | 90 => ⟨S64x32, .f32⟩
  | 91 => ⟨S1x32, .f32⟩
  | 92 => ⟨S32, .f32⟩
  | 93 => ⟨S1x32, .f32⟩
  | 94 => ⟨S100000x32, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x32, .f32⟩
  | 104 => ⟨S1600000x1, .f32⟩
  | 105 => ⟨S1600000x32, .f32⟩
  | 106 => ⟨S1600000x32, .f32⟩
  | 107 => ⟨S_, .f32⟩
  | 108 => ⟨S100000x32, .f32⟩
  | 109 => ⟨S1600000x1, .i32⟩
  | 110 => ⟨S100000x32, .f32⟩
  | 111 => ⟨S1, .f32⟩
  | 112 => ⟨S_, .f32⟩
  | 113 => ⟨S1x32, .f32⟩
  | 114 => ⟨S32, .f32⟩
  | 115 => ⟨S1x32, .f32⟩
  | 116 => ⟨S32, .f32⟩
  | 117 => ⟨S1x1, .f32⟩
  | 118 => ⟨S100000x32, .f32⟩
  | 119 => ⟨S1x32, .f32⟩
  | 120 => ⟨S1x32, .f32⟩
  | 121 => ⟨S_, .f32⟩
  | 122 => ⟨S1x32, .f32⟩
  | 123 => ⟨S1x32, .f32⟩
  | 124 => ⟨S_, .f32⟩
  | 125 => ⟨S1x32, .f32⟩
  | 126 => ⟨S1x32, .f32⟩
  | 127 => ⟨S1x32, .f32⟩
  | _ => ⟨S100000x128, .f32⟩

abbrev hbmTy0_1 (i : Nat) : BufTy := match i % 128 with
  | 0 => ⟨S1x32, .f32⟩
  | 1 => ⟨S1x32, .f32⟩
  | 2 => ⟨S1x32, .f32⟩
  | 3 => ⟨S100000x32, .f32⟩
  | 4 => ⟨S_, .i32⟩
  | 5 => ⟨S50000, .i32⟩
  | 6 => ⟨S50000, .i1⟩
  | 7 => ⟨S_, .i32⟩
  | 8 => ⟨S50000, .i32⟩
  | 9 => ⟨S50000, .i32⟩
  | 10 => ⟨S50000, .i32⟩
  | 11 => ⟨S50000x1, .i32⟩
  | 12 => ⟨S50000x32, .f32⟩
  | 13 => ⟨S_, .f32⟩
  | 14 => ⟨S50000, .f32⟩
  | 15 => ⟨S_, .f32⟩
  | 16 => ⟨S50000, .f32⟩
  | 17 => ⟨S50000, .f32⟩
  | 18 => ⟨S50000x1, .f32⟩
  | 19 => ⟨S50000x32, .f32⟩
  | 20 => ⟨S50000x32, .f32⟩
  | 21 => ⟨S50000x32, .f32⟩
  | 22 => ⟨S_, .f32⟩
  | 23 => ⟨S50000, .f32⟩
  | 24 => ⟨S50000x1, .f32⟩
  | 25 => ⟨S50000x1, .f32⟩
  | 26 => ⟨S50000x32, .f32⟩
  | 27 => ⟨S50000x32, .f32⟩
  | 28 => ⟨S1x1x1600000, .i32⟩
  | 29 => ⟨S1600000, .i32⟩
  | 30 => ⟨S1x1x1600000, .i32⟩
  | 31 => ⟨S1600000, .i32⟩
  | 32 => ⟨S_, .f32⟩
  | 33 => ⟨S1600000, .f32⟩
  | 34 => ⟨S_, .f32⟩
  | 35 => ⟨S100000, .f32⟩
  | 36 => ⟨S1600000x1, .i32⟩
  | 37 => ⟨S100000, .f32⟩
  | 38 => ⟨S_, .f32⟩
  | 39 => ⟨S100000, .f32⟩
  | 40 => ⟨S100000, .f32⟩
  | 41 => ⟨S100000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000, .f32⟩
  | 60 => ⟨S1600000, .f32⟩
  | 61 => ⟨S1x128x64, .f32⟩
  | 62 => ⟨S128x64, .f32⟩
  | 63 => ⟨S1x64, .f32⟩
  | 64 => ⟨S64, .f32⟩
  | 65 => ⟨S1x64, .f32⟩
  | 66 => ⟨S100000x64, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x64, .f32⟩
  | 76 => ⟨S1600000x1, .f32⟩
  | 77 => ⟨S1600000x64, .f32⟩
  | 78 => ⟨S1600000x64, .f32⟩
  | 79 => ⟨S_, .f32⟩
  | 80 => ⟨S100000x64, .f32⟩
  | 81 => ⟨S1600000x1, .i32⟩
  | 82 => ⟨S100000x64, .f32⟩
  | 83 => ⟨S1, .f32⟩
  | 84 => ⟨S_, .f32⟩
  | 85 => ⟨S1x64, .f32⟩
  | 86 => ⟨S64, .f32⟩
  | 87 => ⟨S1x64, .f32⟩
  | 88 => ⟨S64, .f32⟩
  | 89 => ⟨S1x1, .f32⟩
  | 90 => ⟨S100000x64, .f32⟩
  | 91 => ⟨S1x64, .f32⟩
  | 92 => ⟨S1x64, .f32⟩
  | 93 => ⟨S_, .f32⟩
  | 94 => ⟨S1x64, .f32⟩
  | 95 => ⟨S1x64, .f32⟩
  | 96 => ⟨S_, .f32⟩
  | 97 => ⟨S1x64, .f32⟩
  | 98 => ⟨S1x64, .f32⟩
  | 99 => ⟨S1x64, .f32⟩
  | 100 => ⟨S1x64, .f32⟩
  | 101 => ⟨S1x64, .f32⟩
  | 102 => ⟨S1x64, .f32⟩
  | 103 => ⟨S100000x64, .f32⟩
  | 104 => ⟨S1x64x32, .f32⟩
  | 105 => ⟨S64x32, .f32⟩
  | 106 => ⟨S1x32, .f32⟩
  | 107 => ⟨S32, .f32⟩
  | 108 => ⟨S1x32, .f32⟩
  | 109 => ⟨S100000x32, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x32, .f32⟩
  | 119 => ⟨S1600000x1, .f32⟩
  | 120 => ⟨S1600000x32, .f32⟩
  | 121 => ⟨S1600000x32, .f32⟩
  | 122 => ⟨S_, .f32⟩
  | 123 => ⟨S100000x32, .f32⟩
  | 124 => ⟨S1600000x1, .i32⟩
  | 125 => ⟨S100000x32, .f32⟩
  | 126 => ⟨S1, .f32⟩
  | 127 => ⟨S_, .f32⟩
  | _ => ⟨S100000x128, .f32⟩

abbrev hbmTy0_2 (i : Nat) : BufTy := match i % 128 with
  | 0 => ⟨S1x32, .f32⟩
  | 1 => ⟨S32, .f32⟩
  | 2 => ⟨S1x32, .f32⟩
  | 3 => ⟨S32, .f32⟩
  | 4 => ⟨S1x1, .f32⟩
  | 5 => ⟨S100000x32, .f32⟩
  | 6 => ⟨S1x32, .f32⟩
  | 7 => ⟨S1x32, .f32⟩
  | 8 => ⟨S_, .f32⟩
  | 9 => ⟨S1x32, .f32⟩
  | 10 => ⟨S1x32, .f32⟩
  | 11 => ⟨S_, .f32⟩
  | 12 => ⟨S1x32, .f32⟩
  | 13 => ⟨S1x32, .f32⟩
  | 14 => ⟨S1x32, .f32⟩
  | 15 => ⟨S1x32, .f32⟩
  | 16 => ⟨S1x32, .f32⟩
  | 17 => ⟨S1x32, .f32⟩
  | 18 => ⟨S100000x32, .f32⟩
  | 19 => ⟨S_, .i32⟩
  | 20 => ⟨S50000, .i32⟩
  | 21 => ⟨S50000, .i1⟩
  | 22 => ⟨S_, .i32⟩
  | 23 => ⟨S50000, .i32⟩
  | 24 => ⟨S50000, .i32⟩
  | 25 => ⟨S50000, .i32⟩
  | 26 => ⟨S50000x1, .i32⟩
  | 27 => ⟨S50000x32, .f32⟩
  | 28 => ⟨S_, .f32⟩
  | 29 => ⟨S50000, .f32⟩
  | 30 => ⟨S_, .f32⟩
  | 31 => ⟨S50000, .f32⟩
  | 32 => ⟨S50000, .f32⟩
  | 33 => ⟨S50000x1, .f32⟩
  | 34 => ⟨S50000x32, .f32⟩
  | 35 => ⟨S50000x32, .f32⟩
  | 36 => ⟨S50000x32, .f32⟩
  | 37 => ⟨S_, .f32⟩
  | 38 => ⟨S50000, .f32⟩
  | 39 => ⟨S50000x1, .f32⟩
  | 40 => ⟨S50000x1, .f32⟩
  | 41 => ⟨S50000x32, .f32⟩
  | 42 => ⟨S50000x32, .f32⟩
  | 43 => ⟨S1x1x1600000, .i32⟩
  | 44 => ⟨S1600000, .i32⟩
  | 45 => ⟨S1x1x1600000, .i32⟩
  | 46 => ⟨S1600000, .i32⟩
  | 47 => ⟨S_, .f32⟩
  | 48 => ⟨S1600000, .f32⟩
  | 49 => ⟨S_, .f32⟩
  | 50 => ⟨S100000, .f32⟩
  | 51 => ⟨S1600000x1, .i32⟩
  | 52 => ⟨S100000, .f32⟩
  | 53 => ⟨S_, .f32⟩
  | 54 => ⟨S100000, .f32⟩
  | 55 => ⟨S100000, .f32⟩
  | 56 => ⟨S100000, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S1600000, .f32⟩
  | 75 => ⟨S1600000, .f32⟩
  | 76 => ⟨S1x128x64, .f32⟩
  | 77 => ⟨S128x64, .f32⟩
  | 78 => ⟨S1x64, .f32⟩
  | 79 => ⟨S64, .f32⟩
  | 80 => ⟨S1x64, .f32⟩
  | 81 => ⟨S100000x64, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000x64, .f32⟩
  | 91 => ⟨S1600000x1, .f32⟩
  | 92 => ⟨S1600000x64, .f32⟩
  | 93 => ⟨S1600000x64, .f32⟩
  | 94 => ⟨S_, .f32⟩
  | 95 => ⟨S100000x64, .f32⟩
  | 96 => ⟨S1600000x1, .i32⟩
  | 97 => ⟨S100000x64, .f32⟩
  | 98 => ⟨S1, .f32⟩
  | 99 => ⟨S_, .f32⟩
  | 100 => ⟨S1x64, .f32⟩
  | 101 => ⟨S64, .f32⟩
  | 102 => ⟨S1x64, .f32⟩
  | 103 => ⟨S64, .f32⟩
  | 104 => ⟨S1x1, .f32⟩
  | 105 => ⟨S100000x64, .f32⟩
  | 106 => ⟨S1x64, .f32⟩
  | 107 => ⟨S1x64, .f32⟩
  | 108 => ⟨S_, .f32⟩
  | 109 => ⟨S1x64, .f32⟩
  | 110 => ⟨S1x64, .f32⟩
  | 111 => ⟨S_, .f32⟩
  | 112 => ⟨S1x64, .f32⟩
  | 113 => ⟨S1x64, .f32⟩
  | 114 => ⟨S1x64, .f32⟩
  | 115 => ⟨S1x64, .f32⟩
  | 116 => ⟨S1x64, .f32⟩
  | 117 => ⟨S1x64, .f32⟩
  | 118 => ⟨S100000x64, .f32⟩
  | 119 => ⟨S1x64x32, .f32⟩
  | 120 => ⟨S64x32, .f32⟩
  | 121 => ⟨S1x32, .f32⟩
  | 122 => ⟨S32, .f32⟩
  | 123 => ⟨S1x32, .f32⟩
  | 124 => ⟨S100000x32, .f32⟩
  | 125 => ⟨S_, .i32⟩
  | 126 => ⟨S1600000, .i32⟩
  | 127 => ⟨S1600000, .i1⟩
  | _ => ⟨S100000x128, .f32⟩

abbrev hbmTy0_3 (i : Nat) : BufTy := match i % 128 with
  | 0 => ⟨S_, .i32⟩
  | 1 => ⟨S1600000, .i32⟩
  | 2 => ⟨S1600000, .i32⟩
  | 3 => ⟨S1600000, .i32⟩
  | 4 => ⟨S1600000x1, .i32⟩
  | 5 => ⟨S1600000x32, .f32⟩
  | 6 => ⟨S1600000x1, .f32⟩
  | 7 => ⟨S1600000x32, .f32⟩
  | 8 => ⟨S1600000x32, .f32⟩
  | 9 => ⟨S_, .f32⟩
  | 10 => ⟨S100000x32, .f32⟩
  | 11 => ⟨S1600000x1, .i32⟩
  | 12 => ⟨S100000x32, .f32⟩
  | 13 => ⟨S1, .f32⟩
  | 14 => ⟨S_, .f32⟩
  | 15 => ⟨S1x32, .f32⟩
  | 16 => ⟨S32, .f32⟩
  | 17 => ⟨S1x32, .f32⟩
  | 18 => ⟨S32, .f32⟩
  | 19 => ⟨S1x1, .f32⟩
  | 20 => ⟨S100000x32, .f32⟩
  | 21 => ⟨S1x32, .f32⟩
  | 22 => ⟨S1x32, .f32⟩
  | 23 => ⟨S_, .f32⟩
  | 24 => ⟨S1x32, .f32⟩
  | 25 => ⟨S1x32, .f32⟩
  | 26 => ⟨S_, .f32⟩
  | 27 => ⟨S1x32, .f32⟩
  | 28 => ⟨S1x32, .f32⟩
  | 29 => ⟨S1x32, .f32⟩
  | 30 => ⟨S1x32, .f32⟩
  | 31 => ⟨S1x32, .f32⟩
  | 32 => ⟨S1x32, .f32⟩
  | 33 => ⟨S100000x32, .f32⟩
  | 34 => ⟨S_, .i32⟩
  | 35 => ⟨S50000, .i32⟩
  | 36 => ⟨S50000, .i1⟩
  | 37 => ⟨S_, .i32⟩
  | 38 => ⟨S50000, .i32⟩
  | 39 => ⟨S50000, .i32⟩
  | 40 => ⟨S50000, .i32⟩
  | 41 => ⟨S50000x1, .i32⟩
  | 42 => ⟨S50000x32, .f32⟩
  | 43 => ⟨S_, .f32⟩
  | 44 => ⟨S50000, .f32⟩
  | 45 => ⟨S_, .f32⟩
  | 46 => ⟨S50000, .f32⟩
  | 47 => ⟨S50000, .f32⟩
  | 48 => ⟨S50000x1, .f32⟩
  | 49 => ⟨S50000x32, .f32⟩
  | 50 => ⟨S50000x32, .f32⟩
  | 51 => ⟨S50000x32, .f32⟩
  | 52 => ⟨S_, .f32⟩
  | 53 => ⟨S50000, .f32⟩
  | 54 => ⟨S50000x1, .f32⟩
  | 55 => ⟨S50000x1, .f32⟩
  | 56 => ⟨S50000x32, .f32⟩
  | 57 => ⟨S50000x32, .f32⟩
  | 58 => ⟨S50000x1x32, .f32⟩
  | 59 => ⟨S50000x1x32, .f32⟩
  | 60 => ⟨S50000x1x32, .f32⟩
  | 61 => ⟨S50000x3x32, .f32⟩
  | 62 => ⟨S50000x96, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev vmemTy0_0 (i : Nat) : BufTy := match i % 128 with
  | 0 => ⟨S10000x128, .f32⟩
  | 1 => ⟨S10000x128, .f32⟩
  | 2 => ⟨S128x64, .f32⟩
  | 3 => ⟨S1x64, .f32⟩
  | 4 => ⟨S10000x64, .f32⟩
  | 5 => ⟨S10000x64, .f32⟩
  | 6 => ⟨S10000x64, .f32⟩
  | 7 => ⟨S10000x64, .f32⟩
  | 8 => ⟨S10000x64, .f32⟩
  | 9 => ⟨S10000x64, .f32⟩
  | 10 => ⟨S1x1, .f32⟩
  | 11 => ⟨S10000x64, .f32⟩
  | 12 => ⟨S10000x64, .f32⟩
  | 13 => ⟨S1x64, .f32⟩
  | 14 => ⟨S1x64, .f32⟩
  | 15 => ⟨S10000x64, .f32⟩
  | 16 => ⟨S10000x64, .f32⟩
  | 17 => ⟨S1x64, .f32⟩
  | 18 => ⟨S1x64, .f32⟩
  | 19 => ⟨S1x64, .f32⟩
  | 20 => ⟨S1x64, .f32⟩
  | 21 => ⟨S10000x64, .f32⟩
  | 22 => ⟨S10000x64, .f32⟩
  | 23 => ⟨S10000x64, .f32⟩
  | 24 => ⟨S10000x64, .f32⟩
  | 25 => ⟨S64x32, .f32⟩
  | 26 => ⟨S1x32, .f32⟩
  | 27 => ⟨S10000x32, .f32⟩
  | 28 => ⟨S10000x32, .f32⟩
  | 29 => ⟨S10000x32, .f32⟩
  | 30 => ⟨S10000x32, .f32⟩
  | 31 => ⟨S10000x32, .f32⟩
  | 32 => ⟨S10000x32, .f32⟩
  | 33 => ⟨S1x1, .f32⟩
  | 34 => ⟨S10000x32, .f32⟩
  | 35 => ⟨S10000x32, .f32⟩
  | 36 => ⟨S1x32, .f32⟩
  | 37 => ⟨S1x32, .f32⟩
  | 38 => ⟨S10000x32, .f32⟩
  | 39 => ⟨S10000x32, .f32⟩
  | 40 => ⟨S1x32, .f32⟩
  | 41 => ⟨S1x32, .f32⟩
  | 42 => ⟨S1x32, .f32⟩
  | 43 => ⟨S1x32, .f32⟩
  | 44 => ⟨S10000x32, .f32⟩
  | 45 => ⟨S10000x32, .f32⟩
  | 46 => ⟨S10000x128, .f32⟩
  | 47 => ⟨S10000x128, .f32⟩
  | 48 => ⟨S128x64, .f32⟩
  | 49 => ⟨S1x64, .f32⟩
  | 50 => ⟨S10000x64, .f32⟩
  | 51 => ⟨S10000x64, .f32⟩
  | 52 => ⟨S10000x64, .f32⟩
  | 53 => ⟨S10000x64, .f32⟩
  | 54 => ⟨S10000x64, .f32⟩
  | 55 => ⟨S10000x64, .f32⟩
  | 56 => ⟨S1x1, .f32⟩
  | 57 => ⟨S10000x64, .f32⟩
  | 58 => ⟨S10000x64, .f32⟩
  | 59 => ⟨S1x64, .f32⟩
  | 60 => ⟨S1x64, .f32⟩
  | 61 => ⟨S10000x64, .f32⟩
  | 62 => ⟨S10000x64, .f32⟩
  | 63 => ⟨S1x64, .f32⟩
  | 64 => ⟨S1x64, .f32⟩
  | 65 => ⟨S1x64, .f32⟩
  | 66 => ⟨S1x64, .f32⟩
  | 67 => ⟨S10000x64, .f32⟩
  | 68 => ⟨S10000x64, .f32⟩
  | 69 => ⟨S10000x64, .f32⟩
  | 70 => ⟨S10000x64, .f32⟩
  | 71 => ⟨S64x32, .f32⟩
  | 72 => ⟨S1x32, .f32⟩
  | 73 => ⟨S10000x32, .f32⟩
  | 74 => ⟨S10000x32, .f32⟩
  | 75 => ⟨S10000x32, .f32⟩
  | 76 => ⟨S10000x32, .f32⟩
  | 77 => ⟨S10000x32, .f32⟩
  | 78 => ⟨S10000x32, .f32⟩
  | 79 => ⟨S1x1, .f32⟩
  | 80 => ⟨S10000x32, .f32⟩
  | 81 => ⟨S10000x32, .f32⟩
  | 82 => ⟨S1x32, .f32⟩
  | 83 => ⟨S1x32, .f32⟩
  | 84 => ⟨S10000x32, .f32⟩
  | 85 => ⟨S10000x32, .f32⟩
  | 86 => ⟨S1x32, .f32⟩
  | 87 => ⟨S1x32, .f32⟩
  | 88 => ⟨S1x32, .f32⟩
  | 89 => ⟨S1x32, .f32⟩
  | 90 => ⟨S10000x32, .f32⟩
  | 91 => ⟨S10000x32, .f32⟩
  | 92 => ⟨S10000x128, .f32⟩
  | 93 => ⟨S10000x128, .f32⟩
  | 94 => ⟨S128x64, .f32⟩
  | 95 => ⟨S1x64, .f32⟩
  | 96 => ⟨S10000x64, .f32⟩
  | 97 => ⟨S10000x64, .f32⟩
  | 98 => ⟨S10000x64, .f32⟩
  | 99 => ⟨S10000x64, .f32⟩
  | 100 => ⟨S10000x64, .f32⟩
  | 101 => ⟨S10000x64, .f32⟩
  | 102 => ⟨S1x1, .f32⟩
  | 103 => ⟨S10000x64, .f32⟩
  | 104 => ⟨S10000x64, .f32⟩
  | 105 => ⟨S1x64, .f32⟩
  | 106 => ⟨S1x64, .f32⟩
  | 107 => ⟨S10000x64, .f32⟩
  | 108 => ⟨S10000x64, .f32⟩
  | 109 => ⟨S1x64, .f32⟩
  | 110 => ⟨S1x64, .f32⟩
  | 111 => ⟨S1x64, .f32⟩
  | 112 => ⟨S1x64, .f32⟩
  | 113 => ⟨S10000x64, .f32⟩
  | 114 => ⟨S10000x64, .f32⟩
  | 115 => ⟨S10000x64, .f32⟩
  | 116 => ⟨S10000x64, .f32⟩
  | 117 => ⟨S64x32, .f32⟩
  | 118 => ⟨S1x32, .f32⟩
  | 119 => ⟨S10000x32, .f32⟩
  | 120 => ⟨S10000x32, .f32⟩
  | 121 => ⟨S10000x32, .f32⟩
  | 122 => ⟨S10000x32, .f32⟩
  | 123 => ⟨S10000x32, .f32⟩
  | 124 => ⟨S10000x32, .f32⟩
  | 125 => ⟨S1x1, .f32⟩
  | 126 => ⟨S10000x32, .f32⟩
  | 127 => ⟨S10000x32, .f32⟩
  | _ => ⟨S100000x128, .f32⟩

abbrev vmemTy0_1 (i : Nat) : BufTy := match i % 128 with
  | 0 => ⟨S1x32, .f32⟩
  | 1 => ⟨S1x32, .f32⟩
  | 2 => ⟨S10000x32, .f32⟩
  | 3 => ⟨S10000x32, .f32⟩
  | 4 => ⟨S1x32, .f32⟩
  | 5 => ⟨S1x32, .f32⟩
  | 6 => ⟨S1x32, .f32⟩
  | 7 => ⟨S1x32, .f32⟩
  | 8 => ⟨S10000x32, .f32⟩
  | 9 => ⟨S10000x32, .f32⟩
  | _ => ⟨S100000x128, .f32⟩

abbrev vmemTy (i : Nat) : BufTy := match i / 128 with
  | 0 => vmemTy0_0 i
  | 1 => vmemTy0_1 i
  | _ => ⟨S100000x128, .f32⟩

abbrev bufTy : (tb : Table) → Fin (tcTables nBuf tb) → BufTy
  | .hbm, ⟨i, _⟩ => hbmTy i
  | .local _ .vmem, ⟨i, _⟩ => vmemTy i
  | _, _ => ⟨S100000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 138 → Bool
  | ⟨i, _⟩ => dmaSemScopedAt i

abbrev sig : RefSig :=
  ofTc nBuf bufTy 0 138 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52_0 : Ref sig .tc := ⟨.hbm, 75, rfl⟩
abbrev main_v52_1 : Ref sig .tc := ⟨.hbm, 76, rfl⟩
abbrev main_v52_2 : Ref sig .tc := ⟨.hbm, 77, rfl⟩
abbrev main_cst_8 : Ref sig .tc := ⟨.hbm, 78, rfl⟩
abbrev main_v53 : Ref sig .tc := ⟨.hbm, 79, rfl⟩
abbrev main_v54 : Ref sig .tc := ⟨.hbm, 80, rfl⟩
abbrev main_cst_9 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_10 : Ref sig .tc := ⟨.hbm, 95, rfl⟩
abbrev main_v68 : Ref sig .tc := ⟨.hbm, 96, rfl⟩
abbrev main_v69 : Ref sig .tc := ⟨.hbm, 97, rfl⟩
abbrev main_c_11 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_12 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88_0 : Ref sig .tc := ⟨.hbm, 118, rfl⟩
abbrev main_v88_1 : Ref sig .tc := ⟨.hbm, 119, rfl⟩
abbrev main_v88_2 : Ref sig .tc := ⟨.hbm, 120, rfl⟩
abbrev main_cst_13 : Ref sig .tc := ⟨.hbm, 121, rfl⟩
abbrev main_v89 : Ref sig .tc := ⟨.hbm, 122, rfl⟩
abbrev main_v90 : Ref sig .tc := ⟨.hbm, 123, rfl⟩
abbrev main_cst_14 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_c_15 : Ref sig .tc := ⟨.hbm, 132, rfl⟩
abbrev main_v98 : Ref sig .tc := ⟨.hbm, 133, rfl⟩
abbrev main_v99 : Ref sig .tc := ⟨.hbm, 134, rfl⟩
abbrev main_c_16 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_call0_cst : Ref sig .tc := ⟨.hbm, 141, rfl⟩
abbrev main_call0_v0 : Ref sig .tc := ⟨.hbm, 142, rfl⟩
abbrev main_call0_cst_0 : Ref sig .tc := ⟨.hbm, 143, rfl⟩
abbrev main_call0_v1 : Ref sig .tc := ⟨.hbm, 144, rfl⟩
abbrev main_call0_v2 : Ref sig .tc := ⟨.hbm, 145, rfl⟩
abbrev main_call0_v3 : Ref sig .tc := ⟨.hbm, 146, rfl⟩
abbrev main_call0_v4 : Ref sig .tc := ⟨.hbm, 147, rfl⟩
abbrev main_call0_v5 : Ref sig .tc := ⟨.hbm, 148, rfl⟩
abbrev main_call0_v6 : Ref sig .tc := ⟨.hbm, 149, rfl⟩
abbrev main_call0_cst_1 : Ref sig .tc := ⟨.hbm, 150, rfl⟩
abbrev main_call0_v7 : Ref sig .tc := ⟨.hbm, 151, rfl⟩
abbrev main_call0_v8 : Ref sig .tc := ⟨.hbm, 152, rfl⟩
abbrev main_call0_v9 : Ref sig .tc := ⟨.hbm, 153, rfl⟩
abbrev main_call0_v10 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_cst_17 : Ref sig .tc := ⟨.hbm, 160, rfl⟩
abbrev main_v110 : Ref sig .tc := ⟨.hbm, 161, rfl⟩
abbrev main_cst_18 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_cst_19 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_c_20 : Ref sig .tc := ⟨.hbm, 170, rfl⟩
abbrev main_v117 : Ref sig .tc := ⟨.hbm, 171, rfl⟩
abbrev main_v118 : Ref sig .tc := ⟨.hbm, 172, rfl⟩
abbrev main_c_21 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_c_22 : Ref sig .tc := ⟨.hbm, 179, rfl⟩
abbrev main_v124 : Ref sig .tc := ⟨.hbm, 180, rfl⟩
abbrev main_v125 : Ref sig .tc := ⟨.hbm, 181, rfl⟩
abbrev main_c_23 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_c_24 : Ref sig .tc := ⟨.hbm, 195, rfl⟩
abbrev main_v138 : Ref sig .tc := ⟨.hbm, 196, rfl⟩
abbrev main_v139 : Ref sig .tc := ⟨.hbm, 197, rfl⟩
abbrev main_c_25 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_cst_26 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158_0 : Ref sig .tc := ⟨.hbm, 218, rfl⟩
abbrev main_v158_1 : Ref sig .tc := ⟨.hbm, 219, rfl⟩
abbrev main_v158_2 : Ref sig .tc := ⟨.hbm, 220, rfl⟩
abbrev main_cst_27 : Ref sig .tc := ⟨.hbm, 221, rfl⟩
abbrev main_v159 : Ref sig .tc := ⟨.hbm, 222, rfl⟩
abbrev main_v160 : Ref sig .tc := ⟨.hbm, 223, rfl⟩
abbrev main_cst_28 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_c_29 : Ref sig .tc := ⟨.hbm, 238, rfl⟩
abbrev main_v174 : Ref sig .tc := ⟨.hbm, 239, rfl⟩
abbrev main_v175 : Ref sig .tc := ⟨.hbm, 240, rfl⟩
abbrev main_c_30 : Ref sig .tc := ⟨.hbm, 241, rfl⟩
abbrev main_v176 : Ref sig .tc := ⟨.hbm, 242, rfl⟩
abbrev main_v177 : Ref sig .tc := ⟨.hbm, 243, rfl⟩
abbrev main_v178 : Ref sig .tc := ⟨.hbm, 244, rfl⟩
abbrev main_v179 : Ref sig .tc := ⟨.hbm, 245, rfl⟩
abbrev main_v180 : Ref sig .tc := ⟨.hbm, 246, rfl⟩
abbrev main_v181 : Ref sig .tc := ⟨.hbm, 247, rfl⟩
abbrev main_v182 : Ref sig .tc := ⟨.hbm, 248, rfl⟩
abbrev main_v183 : Ref sig .tc := ⟨.hbm, 249, rfl⟩
abbrev main_cst_31 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194_0 : Ref sig .tc := ⟨.hbm, 261, rfl⟩
abbrev main_v194_1 : Ref sig .tc := ⟨.hbm, 262, rfl⟩
abbrev main_v194_2 : Ref sig .tc := ⟨.hbm, 263, rfl⟩
abbrev main_cst_32 : Ref sig .tc := ⟨.hbm, 264, rfl⟩
abbrev main_v195 : Ref sig .tc := ⟨.hbm, 265, rfl⟩
abbrev main_v196 : Ref sig .tc := ⟨.hbm, 266, rfl⟩
abbrev main_cst_33 : Ref sig .tc := ⟨.hbm, 267, rfl⟩
abbrev main_v197 : Ref sig .tc := ⟨.hbm, 268, rfl⟩
abbrev main_v198 : Ref sig .tc := ⟨.hbm, 269, rfl⟩
abbrev main_v199 : Ref sig .tc := ⟨.hbm, 270, rfl⟩
abbrev main_v200 : Ref sig .tc := ⟨.hbm, 271, rfl⟩
abbrev main_v201 : Ref sig .tc := ⟨.hbm, 272, rfl⟩
abbrev main_v202 : Ref sig .tc := ⟨.hbm, 273, rfl⟩
abbrev main_v203 : Ref sig .tc := ⟨.hbm, 274, rfl⟩
abbrev main_c_34 : Ref sig .tc := ⟨.hbm, 275, rfl⟩
abbrev main_v204 : Ref sig .tc := ⟨.hbm, 276, rfl⟩
abbrev main_v205 : Ref sig .tc := ⟨.hbm, 277, rfl⟩
abbrev main_c_35 : Ref sig .tc := ⟨.hbm, 278, rfl⟩
abbrev main_v206 : Ref sig .tc := ⟨.hbm, 279, rfl⟩
abbrev main_v207 : Ref sig .tc := ⟨.hbm, 280, rfl⟩
abbrev main_v208 : Ref sig .tc := ⟨.hbm, 281, rfl⟩
abbrev main_v209 : Ref sig .tc := ⟨.hbm, 282, rfl⟩
abbrev main_v210 : Ref sig .tc := ⟨.hbm, 283, rfl⟩
abbrev main_call1_cst : Ref sig .tc := ⟨.hbm, 284, rfl⟩
abbrev main_call1_v0 : Ref sig .tc := ⟨.hbm, 285, rfl⟩
abbrev main_call1_cst_0 : Ref sig .tc := ⟨.hbm, 286, rfl⟩
abbrev main_call1_v1 : Ref sig .tc := ⟨.hbm, 287, rfl⟩
abbrev main_call1_v2 : Ref sig .tc := ⟨.hbm, 288, rfl⟩
abbrev main_call1_v3 : Ref sig .tc := ⟨.hbm, 289, rfl⟩
abbrev main_call1_v4 : Ref sig .tc := ⟨.hbm, 290, rfl⟩
abbrev main_call1_v5 : Ref sig .tc := ⟨.hbm, 291, rfl⟩
abbrev main_call1_v6 : Ref sig .tc := ⟨.hbm, 292, rfl⟩
abbrev main_call1_cst_1 : Ref sig .tc := ⟨.hbm, 293, rfl⟩
abbrev main_call1_v7 : Ref sig .tc := ⟨.hbm, 294, rfl⟩
abbrev main_call1_v8 : Ref sig .tc := ⟨.hbm, 295, rfl⟩
abbrev main_call1_v9 : Ref sig .tc := ⟨.hbm, 296, rfl⟩
abbrev main_call1_v10 : Ref sig .tc := ⟨.hbm, 297, rfl⟩
abbrev main_v211 : Ref sig .tc := ⟨.hbm, 298, rfl⟩
abbrev main_v212 : Ref sig .tc := ⟨.hbm, 299, rfl⟩
abbrev main_v213 : Ref sig .tc := ⟨.hbm, 300, rfl⟩
abbrev main_v214 : Ref sig .tc := ⟨.hbm, 301, rfl⟩
abbrev main_v215 : Ref sig .tc := ⟨.hbm, 302, rfl⟩
abbrev main_cst_36 : Ref sig .tc := ⟨.hbm, 303, rfl⟩
abbrev main_v216 : Ref sig .tc := ⟨.hbm, 304, rfl⟩
abbrev main_cst_37 : Ref sig .tc := ⟨.hbm, 305, rfl⟩
abbrev main_v217 : Ref sig .tc := ⟨.hbm, 306, rfl⟩
abbrev main_v218 : Ref sig .tc := ⟨.hbm, 307, rfl⟩
abbrev main_v219 : Ref sig .tc := ⟨.hbm, 308, rfl⟩
abbrev main_cst_38 : Ref sig .tc := ⟨.hbm, 309, rfl⟩
abbrev main_v220 : Ref sig .tc := ⟨.hbm, 310, rfl⟩
abbrev main_v221 : Ref sig .tc := ⟨.hbm, 311, rfl⟩
abbrev main_v222 : Ref sig .tc := ⟨.hbm, 312, rfl⟩
abbrev main_c_39 : Ref sig .tc := ⟨.hbm, 313, rfl⟩
abbrev main_v223 : Ref sig .tc := ⟨.hbm, 314, rfl⟩
abbrev main_v224 : Ref sig .tc := ⟨.hbm, 315, rfl⟩
abbrev main_c_40 : Ref sig .tc := ⟨.hbm, 316, rfl⟩
abbrev main_v225 : Ref sig .tc := ⟨.hbm, 317, rfl⟩
abbrev main_v226 : Ref sig .tc := ⟨.hbm, 318, rfl⟩
abbrev main_v227 : Ref sig .tc := ⟨.hbm, 319, rfl⟩
abbrev main_v228 : Ref sig .tc := ⟨.hbm, 320, rfl⟩
abbrev main_v229 : Ref sig .tc := ⟨.hbm, 321, rfl⟩
abbrev main_c_41 : Ref sig .tc := ⟨.hbm, 322, rfl⟩
abbrev main_v230 : Ref sig .tc := ⟨.hbm, 323, rfl⟩
abbrev main_v231 : Ref sig .tc := ⟨.hbm, 324, rfl⟩
abbrev main_c_42 : Ref sig .tc := ⟨.hbm, 325, rfl⟩
abbrev main_v232 : Ref sig .tc := ⟨.hbm, 326, rfl⟩
abbrev main_v233 : Ref sig .tc := ⟨.hbm, 327, rfl⟩
abbrev main_v234 : Ref sig .tc := ⟨.hbm, 328, rfl⟩
abbrev main_v235 : Ref sig .tc := ⟨.hbm, 329, rfl⟩
abbrev main_v236 : Ref sig .tc := ⟨.hbm, 330, rfl⟩
abbrev main_v237 : Ref sig .tc := ⟨.hbm, 331, rfl⟩
abbrev main_v238 : Ref sig .tc := ⟨.hbm, 332, rfl⟩
abbrev main_v239 : Ref sig .tc := ⟨.hbm, 333, rfl⟩
abbrev main_v240 : Ref sig .tc := ⟨.hbm, 334, rfl⟩
abbrev main_v241 : Ref sig .tc := ⟨.hbm, 335, rfl⟩
abbrev main_v242 : Ref sig .tc := ⟨.hbm, 336, rfl⟩
abbrev main_v243 : Ref sig .tc := ⟨.hbm, 337, rfl⟩
abbrev main_c_43 : Ref sig .tc := ⟨.hbm, 338, rfl⟩
abbrev main_v244 : Ref sig .tc := ⟨.hbm, 339, rfl⟩
abbrev main_v245 : Ref sig .tc := ⟨.hbm, 340, rfl⟩
abbrev main_c_44 : Ref sig .tc := ⟨.hbm, 341, rfl⟩
abbrev main_v246 : Ref sig .tc := ⟨.hbm, 342, rfl⟩
abbrev main_v247 : Ref sig .tc := ⟨.hbm, 343, rfl⟩
abbrev main_v248 : Ref sig .tc := ⟨.hbm, 344, rfl⟩
abbrev main_v249 : Ref sig .tc := ⟨.hbm, 345, rfl⟩
abbrev main_v250 : Ref sig .tc := ⟨.hbm, 346, rfl⟩
abbrev main_v251 : Ref sig .tc := ⟨.hbm, 347, rfl⟩
abbrev main_v252 : Ref sig .tc := ⟨.hbm, 348, rfl⟩
abbrev main_v253 : Ref sig .tc := ⟨.hbm, 349, rfl⟩
abbrev main_cst_45 : Ref sig .tc := ⟨.hbm, 350, rfl⟩
abbrev main_v254 : Ref sig .tc := ⟨.hbm, 351, rfl⟩
abbrev main_v255 : Ref sig .tc := ⟨.hbm, 352, rfl⟩
abbrev main_v256 : Ref sig .tc := ⟨.hbm, 353, rfl⟩
abbrev main_v257 : Ref sig .tc := ⟨.hbm, 354, rfl⟩
abbrev main_v258 : Ref sig .tc := ⟨.hbm, 355, rfl⟩
abbrev main_v259 : Ref sig .tc := ⟨.hbm, 356, rfl⟩
abbrev main_v260 : Ref sig .tc := ⟨.hbm, 357, rfl⟩
abbrev main_v261 : Ref sig .tc := ⟨.hbm, 358, rfl⟩
abbrev main_v262 : Ref sig .tc := ⟨.hbm, 359, rfl⟩
abbrev main_v263 : Ref sig .tc := ⟨.hbm, 360, rfl⟩
abbrev main_v264_0 : Ref sig .tc := ⟨.hbm, 361, rfl⟩
abbrev main_v264_1 : Ref sig .tc := ⟨.hbm, 362, rfl⟩
abbrev main_v264_2 : Ref sig .tc := ⟨.hbm, 363, rfl⟩
abbrev main_cst_46 : Ref sig .tc := ⟨.hbm, 364, rfl⟩
abbrev main_v265 : Ref sig .tc := ⟨.hbm, 365, rfl⟩
abbrev main_v266 : Ref sig .tc := ⟨.hbm, 366, rfl⟩
abbrev main_cst_47 : Ref sig .tc := ⟨.hbm, 367, rfl⟩
abbrev main_v267 : Ref sig .tc := ⟨.hbm, 368, rfl⟩
abbrev main_v268 : Ref sig .tc := ⟨.hbm, 369, rfl⟩
abbrev main_v269 : Ref sig .tc := ⟨.hbm, 370, rfl⟩
abbrev main_v270 : Ref sig .tc := ⟨.hbm, 371, rfl⟩
abbrev main_v271 : Ref sig .tc := ⟨.hbm, 372, rfl⟩
abbrev main_v272 : Ref sig .tc := ⟨.hbm, 373, rfl⟩
abbrev main_v273 : Ref sig .tc := ⟨.hbm, 374, rfl⟩
abbrev main_v274 : Ref sig .tc := ⟨.hbm, 375, rfl⟩
abbrev main_v275 : Ref sig .tc := ⟨.hbm, 376, rfl⟩
abbrev main_v276 : Ref sig .tc := ⟨.hbm, 377, rfl⟩
abbrev main_v277 : Ref sig .tc := ⟨.hbm, 378, rfl⟩
abbrev main_v278 : Ref sig .tc := ⟨.hbm, 379, rfl⟩
abbrev main_v279 : Ref sig .tc := ⟨.hbm, 380, rfl⟩
abbrev main_c_48 : Ref sig .tc := ⟨.hbm, 381, rfl⟩
abbrev main_v280 : Ref sig .tc := ⟨.hbm, 382, rfl⟩
abbrev main_v281 : Ref sig .tc := ⟨.hbm, 383, rfl⟩
abbrev main_c_49 : Ref sig .tc := ⟨.hbm, 384, rfl⟩
abbrev main_v282 : Ref sig .tc := ⟨.hbm, 385, rfl⟩
abbrev main_v283 : Ref sig .tc := ⟨.hbm, 386, rfl⟩
abbrev main_v284 : Ref sig .tc := ⟨.hbm, 387, rfl⟩
abbrev main_v285 : Ref sig .tc := ⟨.hbm, 388, rfl⟩
abbrev main_v286 : Ref sig .tc := ⟨.hbm, 389, rfl⟩
abbrev main_v287 : Ref sig .tc := ⟨.hbm, 390, rfl⟩
abbrev main_v288 : Ref sig .tc := ⟨.hbm, 391, rfl⟩
abbrev main_v289 : Ref sig .tc := ⟨.hbm, 392, rfl⟩
abbrev main_cst_50 : Ref sig .tc := ⟨.hbm, 393, rfl⟩
abbrev main_v290 : Ref sig .tc := ⟨.hbm, 394, rfl⟩
abbrev main_v291 : Ref sig .tc := ⟨.hbm, 395, rfl⟩
abbrev main_v292 : Ref sig .tc := ⟨.hbm, 396, rfl⟩
abbrev main_v293 : Ref sig .tc := ⟨.hbm, 397, rfl⟩
abbrev main_v294 : Ref sig .tc := ⟨.hbm, 398, rfl⟩
abbrev main_v295 : Ref sig .tc := ⟨.hbm, 399, rfl⟩
abbrev main_v296 : Ref sig .tc := ⟨.hbm, 400, rfl⟩
abbrev main_v297 : Ref sig .tc := ⟨.hbm, 401, rfl⟩
abbrev main_v298 : Ref sig .tc := ⟨.hbm, 402, rfl⟩
abbrev main_v299 : Ref sig .tc := ⟨.hbm, 403, rfl⟩
abbrev main_v300_0 : Ref sig .tc := ⟨.hbm, 404, rfl⟩
abbrev main_v300_1 : Ref sig .tc := ⟨.hbm, 405, rfl⟩
abbrev main_v300_2 : Ref sig .tc := ⟨.hbm, 406, rfl⟩
abbrev main_cst_51 : Ref sig .tc := ⟨.hbm, 407, rfl⟩
abbrev main_v301 : Ref sig .tc := ⟨.hbm, 408, rfl⟩
abbrev main_v302 : Ref sig .tc := ⟨.hbm, 409, rfl⟩
abbrev main_cst_52 : Ref sig .tc := ⟨.hbm, 410, rfl⟩
abbrev main_v303 : Ref sig .tc := ⟨.hbm, 411, rfl⟩
abbrev main_v304 : Ref sig .tc := ⟨.hbm, 412, rfl⟩
abbrev main_v305 : Ref sig .tc := ⟨.hbm, 413, rfl⟩
abbrev main_v306 : Ref sig .tc := ⟨.hbm, 414, rfl⟩
abbrev main_v307 : Ref sig .tc := ⟨.hbm, 415, rfl⟩
abbrev main_v308 : Ref sig .tc := ⟨.hbm, 416, rfl⟩
abbrev main_v309 : Ref sig .tc := ⟨.hbm, 417, rfl⟩
abbrev main_c_53 : Ref sig .tc := ⟨.hbm, 418, rfl⟩
abbrev main_v310 : Ref sig .tc := ⟨.hbm, 419, rfl⟩
abbrev main_v311 : Ref sig .tc := ⟨.hbm, 420, rfl⟩
abbrev main_c_54 : Ref sig .tc := ⟨.hbm, 421, rfl⟩
abbrev main_v312 : Ref sig .tc := ⟨.hbm, 422, rfl⟩
abbrev main_v313 : Ref sig .tc := ⟨.hbm, 423, rfl⟩
abbrev main_v314 : Ref sig .tc := ⟨.hbm, 424, rfl⟩
abbrev main_v315 : Ref sig .tc := ⟨.hbm, 425, rfl⟩
abbrev main_v316 : Ref sig .tc := ⟨.hbm, 426, rfl⟩
abbrev main_call2_cst : Ref sig .tc := ⟨.hbm, 427, rfl⟩
abbrev main_call2_v0 : Ref sig .tc := ⟨.hbm, 428, rfl⟩
abbrev main_call2_cst_0 : Ref sig .tc := ⟨.hbm, 429, rfl⟩
abbrev main_call2_v1 : Ref sig .tc := ⟨.hbm, 430, rfl⟩
abbrev main_call2_v2 : Ref sig .tc := ⟨.hbm, 431, rfl⟩
abbrev main_call2_v3 : Ref sig .tc := ⟨.hbm, 432, rfl⟩
abbrev main_call2_v4 : Ref sig .tc := ⟨.hbm, 433, rfl⟩
abbrev main_call2_v5 : Ref sig .tc := ⟨.hbm, 434, rfl⟩
abbrev main_call2_v6 : Ref sig .tc := ⟨.hbm, 435, rfl⟩
abbrev main_call2_cst_1 : Ref sig .tc := ⟨.hbm, 436, rfl⟩
abbrev main_call2_v7 : Ref sig .tc := ⟨.hbm, 437, rfl⟩
abbrev main_call2_v8 : Ref sig .tc := ⟨.hbm, 438, rfl⟩
abbrev main_call2_v9 : Ref sig .tc := ⟨.hbm, 439, rfl⟩
abbrev main_call2_v10 : Ref sig .tc := ⟨.hbm, 440, rfl⟩
abbrev main_v317 : Ref sig .tc := ⟨.hbm, 441, rfl⟩
abbrev main_v318 : Ref sig .tc := ⟨.hbm, 442, rfl⟩
abbrev main_v319 : Ref sig .tc := ⟨.hbm, 443, rfl⟩
abbrev main_v320 : Ref sig .tc := ⟨.hbm, 444, rfl⟩
abbrev main_v321 : Ref sig .tc := ⟨.hbm, 445, rfl⟩
abbrev main_v322 : Ref sig .tc := ⟨.hbm, 446, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc4_stg4_0 : Ref sig .tc := ⟨.vmem, 36, rfl⟩
abbrev cc4_stg5_0 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg4_0 : Ref sig .tc := ⟨.vmem, 43, rfl⟩
abbrev cc5_stg5_0 : Ref sig .tc := ⟨.vmem, 44, rfl⟩
abbrev cc5_stg5_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg2_0 : Ref sig .tc := ⟨.vmem, 49, rfl⟩
abbrev cc6_stg3_0 : Ref sig .tc := ⟨.vmem, 50, rfl⟩
abbrev cc6_stg3_1 : Ref sig .tc := ⟨.vmem, 51, rfl⟩
abbrev cc7_stg0_0 : Ref sig .tc := ⟨.vmem, 52, rfl⟩
abbrev cc7_stg0_1 : Ref sig .tc := ⟨.vmem, 53, rfl⟩
abbrev cc7_stg1_0 : Ref sig .tc := ⟨.vmem, 54, rfl⟩
abbrev cc7_stg1_1 : Ref sig .tc := ⟨.vmem, 55, rfl⟩
abbrev cc7_stg2_0 : Ref sig .tc := ⟨.vmem, 56, rfl⟩
abbrev cc7_stg3_0 : Ref sig .tc := ⟨.vmem, 57, rfl⟩
abbrev cc7_stg3_1 : Ref sig .tc := ⟨.vmem, 58, rfl⟩
abbrev cc7_stg4_0 : Ref sig .tc := ⟨.vmem, 59, rfl⟩
abbrev cc7_stg5_0 : Ref sig .tc := ⟨.vmem, 60, rfl⟩
abbrev cc8_stg0_0 : Ref sig .tc := ⟨.vmem, 61, rfl⟩
abbrev cc8_stg0_1 : Ref sig .tc := ⟨.vmem, 62, rfl⟩
abbrev cc8_stg1_0 : Ref sig .tc := ⟨.vmem, 63, rfl⟩
abbrev cc8_stg2_0 : Ref sig .tc := ⟨.vmem, 64, rfl⟩
abbrev cc8_stg3_0 : Ref sig .tc := ⟨.vmem, 65, rfl⟩
abbrev cc8_stg4_0 : Ref sig .tc := ⟨.vmem, 66, rfl⟩
abbrev cc8_stg5_0 : Ref sig .tc := ⟨.vmem, 67, rfl⟩
abbrev cc8_stg5_1 : Ref sig .tc := ⟨.vmem, 68, rfl⟩
abbrev cc9_stg0_0 : Ref sig .tc := ⟨.vmem, 69, rfl⟩
abbrev cc9_stg0_1 : Ref sig .tc := ⟨.vmem, 70, rfl⟩
abbrev cc9_stg1_0 : Ref sig .tc := ⟨.vmem, 71, rfl⟩
abbrev cc9_stg2_0 : Ref sig .tc := ⟨.vmem, 72, rfl⟩
abbrev cc9_stg3_0 : Ref sig .tc := ⟨.vmem, 73, rfl⟩
abbrev cc9_stg3_1 : Ref sig .tc := ⟨.vmem, 74, rfl⟩
abbrev cc10_stg0_0 : Ref sig .tc := ⟨.vmem, 75, rfl⟩
abbrev cc10_stg0_1 : Ref sig .tc := ⟨.vmem, 76, rfl⟩
abbrev cc10_stg1_0 : Ref sig .tc := ⟨.vmem, 77, rfl⟩
abbrev cc10_stg1_1 : Ref sig .tc := ⟨.vmem, 78, rfl⟩
abbrev cc10_stg2_0 : Ref sig .tc := ⟨.vmem, 79, rfl⟩
abbrev cc10_stg3_0 : Ref sig .tc := ⟨.vmem, 80, rfl⟩
abbrev cc10_stg3_1 : Ref sig .tc := ⟨.vmem, 81, rfl⟩
abbrev cc10_stg4_0 : Ref sig .tc := ⟨.vmem, 82, rfl⟩
abbrev cc10_stg5_0 : Ref sig .tc := ⟨.vmem, 83, rfl⟩
abbrev cc11_stg0_0 : Ref sig .tc := ⟨.vmem, 84, rfl⟩
abbrev cc11_stg0_1 : Ref sig .tc := ⟨.vmem, 85, rfl⟩
abbrev cc11_stg1_0 : Ref sig .tc := ⟨.vmem, 86, rfl⟩
abbrev cc11_stg2_0 : Ref sig .tc := ⟨.vmem, 87, rfl⟩
abbrev cc11_stg3_0 : Ref sig .tc := ⟨.vmem, 88, rfl⟩
abbrev cc11_stg4_0 : Ref sig .tc := ⟨.vmem, 89, rfl⟩
abbrev cc11_stg5_0 : Ref sig .tc := ⟨.vmem, 90, rfl⟩
abbrev cc11_stg5_1 : Ref sig .tc := ⟨.vmem, 91, rfl⟩
abbrev cc12_stg0_0 : Ref sig .tc := ⟨.vmem, 92, rfl⟩
abbrev cc12_stg0_1 : Ref sig .tc := ⟨.vmem, 93, rfl⟩
abbrev cc12_stg1_0 : Ref sig .tc := ⟨.vmem, 94, rfl⟩
abbrev cc12_stg2_0 : Ref sig .tc := ⟨.vmem, 95, rfl⟩
abbrev cc12_stg3_0 : Ref sig .tc := ⟨.vmem, 96, rfl⟩
abbrev cc12_stg3_1 : Ref sig .tc := ⟨.vmem, 97, rfl⟩
abbrev cc13_stg0_0 : Ref sig .tc := ⟨.vmem, 98, rfl⟩
abbrev cc13_stg0_1 : Ref sig .tc := ⟨.vmem, 99, rfl⟩
abbrev cc13_stg1_0 : Ref sig .tc := ⟨.vmem, 100, rfl⟩
abbrev cc13_stg1_1 : Ref sig .tc := ⟨.vmem, 101, rfl⟩
abbrev cc13_stg2_0 : Ref sig .tc := ⟨.vmem, 102, rfl⟩
abbrev cc13_stg3_0 : Ref sig .tc := ⟨.vmem, 103, rfl⟩
abbrev cc13_stg3_1 : Ref sig .tc := ⟨.vmem, 104, rfl⟩
abbrev cc13_stg4_0 : Ref sig .tc := ⟨.vmem, 105, rfl⟩
abbrev cc13_stg5_0 : Ref sig .tc := ⟨.vmem, 106, rfl⟩
abbrev cc14_stg0_0 : Ref sig .tc := ⟨.vmem, 107, rfl⟩
abbrev cc14_stg0_1 : Ref sig .tc := ⟨.vmem, 108, rfl⟩
abbrev cc14_stg1_0 : Ref sig .tc := ⟨.vmem, 109, rfl⟩
abbrev cc14_stg2_0 : Ref sig .tc := ⟨.vmem, 110, rfl⟩
abbrev cc14_stg3_0 : Ref sig .tc := ⟨.vmem, 111, rfl⟩
abbrev cc14_stg4_0 : Ref sig .tc := ⟨.vmem, 112, rfl⟩
abbrev cc14_stg5_0 : Ref sig .tc := ⟨.vmem, 113, rfl⟩
abbrev cc14_stg5_1 : Ref sig .tc := ⟨.vmem, 114, rfl⟩
abbrev cc15_stg0_0 : Ref sig .tc := ⟨.vmem, 115, rfl⟩
abbrev cc15_stg0_1 : Ref sig .tc := ⟨.vmem, 116, rfl⟩
abbrev cc15_stg1_0 : Ref sig .tc := ⟨.vmem, 117, rfl⟩
abbrev cc15_stg2_0 : Ref sig .tc := ⟨.vmem, 118, rfl⟩
abbrev cc15_stg3_0 : Ref sig .tc := ⟨.vmem, 119, rfl⟩
abbrev cc15_stg3_1 : Ref sig .tc := ⟨.vmem, 120, rfl⟩
abbrev cc16_stg0_0 : Ref sig .tc := ⟨.vmem, 121, rfl⟩
abbrev cc16_stg0_1 : Ref sig .tc := ⟨.vmem, 122, rfl⟩
abbrev cc16_stg1_0 : Ref sig .tc := ⟨.vmem, 123, rfl⟩
abbrev cc16_stg1_1 : Ref sig .tc := ⟨.vmem, 124, rfl⟩
abbrev cc16_stg2_0 : Ref sig .tc := ⟨.vmem, 125, rfl⟩
abbrev cc16_stg3_0 : Ref sig .tc := ⟨.vmem, 126, rfl⟩
abbrev cc16_stg3_1 : Ref sig .tc := ⟨.vmem, 127, rfl⟩
abbrev cc16_stg4_0 : Ref sig .tc := ⟨.vmem, 128, rfl⟩
abbrev cc16_stg5_0 : Ref sig .tc := ⟨.vmem, 129, rfl⟩
abbrev cc17_stg0_0 : Ref sig .tc := ⟨.vmem, 130, rfl⟩
abbrev cc17_stg0_1 : Ref sig .tc := ⟨.vmem, 131, rfl⟩
abbrev cc17_stg1_0 : Ref sig .tc := ⟨.vmem, 132, rfl⟩
abbrev cc17_stg2_0 : Ref sig .tc := ⟨.vmem, 133, rfl⟩
abbrev cc17_stg3_0 : Ref sig .tc := ⟨.vmem, 134, rfl⟩
abbrev cc17_stg4_0 : Ref sig .tc := ⟨.vmem, 135, rfl⟩
abbrev cc17_stg5_0 : Ref sig .tc := ⟨.vmem, 136, rfl⟩
abbrev cc17_stg5_1 : Ref sig .tc := ⟨.vmem, 137, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem5_0 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem5_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem3_0 : DmaSem sig := 34
abbrev cc4_sem3_1 : DmaSem sig := 35
abbrev cc4_sem4_0 : DmaSem sig := 36
abbrev cc4_sem5_0 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem3_0 : DmaSem sig := 42
abbrev cc5_sem4_0 : DmaSem sig := 43
abbrev cc5_sem5_0 : DmaSem sig := 44
abbrev cc5_sem5_1 : DmaSem sig := 45
abbrev cc6_sem0_0 : DmaSem sig := 46
abbrev cc6_sem0_1 : DmaSem sig := 47
abbrev cc6_sem1_0 : DmaSem sig := 48
abbrev cc6_sem2_0 : DmaSem sig := 49
abbrev cc6_sem3_0 : DmaSem sig := 50
abbrev cc6_sem3_1 : DmaSem sig := 51
abbrev cc7_sem0_0 : DmaSem sig := 52
abbrev cc7_sem0_1 : DmaSem sig := 53
abbrev cc7_sem1_0 : DmaSem sig := 54
abbrev cc7_sem1_1 : DmaSem sig := 55
abbrev cc7_sem2_0 : DmaSem sig := 56
abbrev cc7_sem3_0 : DmaSem sig := 57
abbrev cc7_sem3_1 : DmaSem sig := 58
abbrev cc7_sem4_0 : DmaSem sig := 59
abbrev cc7_sem5_0 : DmaSem sig := 60
abbrev cc8_sem0_0 : DmaSem sig := 61
abbrev cc8_sem0_1 : DmaSem sig := 62
abbrev cc8_sem1_0 : DmaSem sig := 63
abbrev cc8_sem2_0 : DmaSem sig := 64
abbrev cc8_sem3_0 : DmaSem sig := 65
abbrev cc8_sem4_0 : DmaSem sig := 66
abbrev cc8_sem5_0 : DmaSem sig := 67
abbrev cc8_sem5_1 : DmaSem sig := 68
abbrev cc9_sem0_0 : DmaSem sig := 69
abbrev cc9_sem0_1 : DmaSem sig := 70
abbrev cc9_sem1_0 : DmaSem sig := 71
abbrev cc9_sem2_0 : DmaSem sig := 72
abbrev cc9_sem3_0 : DmaSem sig := 73
abbrev cc9_sem3_1 : DmaSem sig := 74
abbrev cc10_sem0_0 : DmaSem sig := 75
abbrev cc10_sem0_1 : DmaSem sig := 76
abbrev cc10_sem1_0 : DmaSem sig := 77
abbrev cc10_sem1_1 : DmaSem sig := 78
abbrev cc10_sem2_0 : DmaSem sig := 79
abbrev cc10_sem3_0 : DmaSem sig := 80
abbrev cc10_sem3_1 : DmaSem sig := 81
abbrev cc10_sem4_0 : DmaSem sig := 82
abbrev cc10_sem5_0 : DmaSem sig := 83
abbrev cc11_sem0_0 : DmaSem sig := 84
abbrev cc11_sem0_1 : DmaSem sig := 85
abbrev cc11_sem1_0 : DmaSem sig := 86
abbrev cc11_sem2_0 : DmaSem sig := 87
abbrev cc11_sem3_0 : DmaSem sig := 88
abbrev cc11_sem4_0 : DmaSem sig := 89
abbrev cc11_sem5_0 : DmaSem sig := 90
abbrev cc11_sem5_1 : DmaSem sig := 91
abbrev cc12_sem0_0 : DmaSem sig := 92
abbrev cc12_sem0_1 : DmaSem sig := 93
abbrev cc12_sem1_0 : DmaSem sig := 94
abbrev cc12_sem2_0 : DmaSem sig := 95
abbrev cc12_sem3_0 : DmaSem sig := 96
abbrev cc12_sem3_1 : DmaSem sig := 97
abbrev cc13_sem0_0 : DmaSem sig := 98
abbrev cc13_sem0_1 : DmaSem sig := 99
abbrev cc13_sem1_0 : DmaSem sig := 100
abbrev cc13_sem1_1 : DmaSem sig := 101
abbrev cc13_sem2_0 : DmaSem sig := 102
abbrev cc13_sem3_0 : DmaSem sig := 103
abbrev cc13_sem3_1 : DmaSem sig := 104
abbrev cc13_sem4_0 : DmaSem sig := 105
abbrev cc13_sem5_0 : DmaSem sig := 106
abbrev cc14_sem0_0 : DmaSem sig := 107
abbrev cc14_sem0_1 : DmaSem sig := 108
abbrev cc14_sem1_0 : DmaSem sig := 109
abbrev cc14_sem2_0 : DmaSem sig := 110
abbrev cc14_sem3_0 : DmaSem sig := 111
abbrev cc14_sem4_0 : DmaSem sig := 112
abbrev cc14_sem5_0 : DmaSem sig := 113
abbrev cc14_sem5_1 : DmaSem sig := 114
abbrev cc15_sem0_0 : DmaSem sig := 115
abbrev cc15_sem0_1 : DmaSem sig := 116
abbrev cc15_sem1_0 : DmaSem sig := 117
abbrev cc15_sem2_0 : DmaSem sig := 118
abbrev cc15_sem3_0 : DmaSem sig := 119
abbrev cc15_sem3_1 : DmaSem sig := 120
abbrev cc16_sem0_0 : DmaSem sig := 121
abbrev cc16_sem0_1 : DmaSem sig := 122
abbrev cc16_sem1_0 : DmaSem sig := 123
abbrev cc16_sem1_1 : DmaSem sig := 124
abbrev cc16_sem2_0 : DmaSem sig := 125
abbrev cc16_sem3_0 : DmaSem sig := 126
abbrev cc16_sem3_1 : DmaSem sig := 127
abbrev cc16_sem4_0 : DmaSem sig := 128
abbrev cc16_sem5_0 : DmaSem sig := 129
abbrev cc17_sem0_0 : DmaSem sig := 130
abbrev cc17_sem0_1 : DmaSem sig := 131
abbrev cc17_sem1_0 : DmaSem sig := 132
abbrev cc17_sem2_0 : DmaSem sig := 133
abbrev cc17_sem3_0 : DmaSem sig := 134
abbrev cc17_sem4_0 : DmaSem sig := 135
abbrev cc17_sem5_0 : DmaSem sig := 136
abbrev cc17_sem5_1 : DmaSem sig := 137

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x32 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x32 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x32 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S10000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x1 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S10000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S10000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x32 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x32 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S10000x32 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S10000x32 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S10000x32 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S1x1 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S10000x32 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev stage10_4 : Fin 1 → Memref sig .tc .vmem S1x32 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S1x32 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S10000x32 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x32 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x32 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x32 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x32 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S10000x32 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S10000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S128x64 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x64 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S10000x64 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev grid13 : Pipeline.Grid := ⟨1, ![10], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 2 → Memref sig .tc .vmem S10000x64 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S10000x64 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S1x1 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 2 → Memref sig .tc .vmem S10000x64 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

abbrev stage13_4 : Fin 1 → Memref sig .tc .vmem S1x64 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S1x64 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S10000x64 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x64 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x64 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x64 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x64 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 2 → Memref sig .tc .vmem S10000x64 .f32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

abbrev grid15 : Pipeline.Grid := ⟨1, ![10], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S10000x64 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S64x32 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x32 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 2 → Memref sig .tc .vmem S10000x32 .f32 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true]

abbrev grid16 : Pipeline.Grid := ⟨1, ![10], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_4 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_5 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage16_0 : Fin 2 → Memref sig .tc .vmem S10000x32 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S10000x32 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 1 → Memref sig .tc .vmem S1x1 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 2 → Memref sig .tc .vmem S10000x32 .f32 := fun | 0 => Memref.whole cc16_stg3_0 | 1 => Memref.whole cc16_stg3_1 | ⟨_ + 2, h⟩ => absurd h (Nat.not_lt.2 (Nat.le_add_left _ _))
abbrev sem16_3 : Fin 2 → DmaSem sig := fun | 0 => cc16_sem3_0 | 1 => cc16_sem3_1 | ⟨_ + 2, h⟩ => absurd h (Nat.not_lt.2 (Nat.le_add_left _ _))
abbrev reads16_3 : Fin grid16.rank → Bool := ![true]

abbrev stage16_4 : Fin 1 → Memref sig .tc .vmem S1x32 .f32 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))
abbrev reads16_4 : Fin grid16.rank → Bool := ![false]

abbrev stage16_5 : Fin 1 → Memref sig .tc .vmem S1x32 .f32 := fun | 0 => Memref.whole cc16_stg5_0 | ⟨_ + 1, h⟩ => absurd h (Nat.not_lt.2 (Nat.le_add_left _ _))
abbrev sem16_5 : Fin 1 → DmaSem sig := fun | 0 => cc16_sem5_0 | ⟨_ + 1, h⟩ => absurd h (Nat.not_lt.2 (Nat.le_add_left _ _))
abbrev reads16_5 : Fin grid16.rank → Bool := ![false]

abbrev grid17 : Pipeline.Grid := ⟨1, ![10], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_4 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_5 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S10000x32 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S1x32 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 1 → Memref sig .tc .vmem S1x32 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 1 → Memref sig .tc .vmem S1x32 .f32 := fun | 0 => Memref.whole cc17_stg3_0 | ⟨_ + 1, h⟩ => absurd h (Nat.not_lt.2 (Nat.le_add_left _ _))
abbrev sem17_3 : Fin 1 → DmaSem sig := fun | 0 => cc17_sem3_0 | ⟨_ + 1, h⟩ => absurd h (Nat.not_lt.2 (Nat.le_add_left _ _))
abbrev reads17_3 : Fin grid17.rank → Bool := ![false]

abbrev stage17_4 : Fin 1 → Memref sig .tc .vmem S1x32 .f32 := fun | 0 => Memref.whole cc17_stg4_0 | ⟨_ + 1, h⟩ => absurd h (Nat.not_lt.2 (Nat.le_add_left _ _))
abbrev sem17_4 : Fin 1 → DmaSem sig := fun | 0 => cc17_sem4_0 | ⟨_ + 1, h⟩ => absurd h (Nat.not_lt.2 (Nat.le_add_left _ _))
abbrev reads17_4 : Fin grid17.rank → Bool := ![false]

abbrev stage17_5 : Fin 2 → Memref sig .tc .vmem S10000x32 .f32 := fun | 0 => Memref.whole cc17_stg5_0 | 1 => Memref.whole cc17_stg5_1 | ⟨_ + 2, h⟩ => absurd h (Nat.not_lt.2 (Nat.le_add_left _ _))
abbrev sem17_5 : Fin 2 → DmaSem sig := fun | 0 => cc17_sem5_0 | 1 => cc17_sem5_1 | ⟨_ + 2, h⟩ => absurd h (Nat.not_lt.2 (Nat.le_add_left _ _))
abbrev reads17_5 : Fin grid17.rank → Bool := ![true]

class Facts₀ : Prop where
  slices_S3x2x1600000_S1x1x1600000_0_0_0 : S3x2x1600000.Slices ![0, 0, 0] S1x1x1600000
  shapeCasts_S1x1x1600000_S1600000 : S1x1x1600000.ShapeCasts S1600000
  slices_S3x2x1600000_S1x1x1600000_0_1_0 : S3x2x1600000.Slices ![0, 1, 0] S1x1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  slices_S3x128x64_S1x128x64_0_0_0 : S3x128x64.Slices ![0, 0, 0] S1x128x64
  shapeCasts_S1x128x64_S128x64 : S1x128x64.ShapeCasts S128x64
  slices_S3x64_S1x64_0_0 : S3x64.Slices ![0, 0] S1x64
  shapeCasts_S1x64_S64 : S1x64.ShapeCasts S64
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S3_S1_0 : S3.Slices ![0] S1
  shapeCasts_S1_S_ : S1.ShapeCasts S_
  shapeCasts_S_S1x1 : S_.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S10000x64_S10000x64 : S10000x64.ShapeCasts S10000x64
  broadcasts_S1x1_S10000x64 : S1x1.Broadcasts S10000x64
  reduces_S10000x64_S64 : S10000x64.Reduces [0] S64
  bcast_S_S1x64 : S_.BroadcastsInDim S1x64 (![] : Fin 0 → Fin S1x64.rank)
  slices_S3x64x32_S1x64x32_0_0_0 : S3x64x32.Slices ![0, 0, 0] S1x64x32
  shapeCasts_S1x64x32_S64x32 : S1x64x32.ShapeCasts S64x32
  slices_S3x32_S1x32_0_0 : S3x32.Slices ![0, 0] S1x32
  shapeCasts_S1x32_S32 : S1x32.ShapeCasts S32
  shapeCasts_S32_S1x32 : S32.ShapeCasts S1x32
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  shapeCasts_S10000x32_S10000x32 : S10000x32.ShapeCasts S10000x32
  broadcasts_S1x1_S10000x32 : S1x1.Broadcasts S10000x32
  reduces_S10000x32_S32 : S10000x32.Reduces [0] S32
  bcast_S_S1x32 : S_.BroadcastsInDim S1x32 (![] : Fin 0 → Fin S1x32.rank)
  bcast_S_S50000 : S_.BroadcastsInDim S50000 (![] : Fin 0 → Fin S50000.rank)
  bcast_S50000_S50000x1_0 : S50000.BroadcastsInDim S50000x1 (![0] : Fin 1 → Fin S50000x1.rank)
  reducesTo_S50000x32_S50000_d1 : S50000x32.ReducesTo [1] S50000
  h_S_ : 0 < S_.numel
  bcast_S50000x1_S50000x32_0_1 : S50000x1.BroadcastsInDim S50000x32 (![0, 1] : Fin 2 → Fin S50000x32.rank)
  slices_S3x2x1600000_S1x1x1600000_1_0_0 : S3x2x1600000.Slices ![1, 0, 0] S1x1x1600000
  slices_S3x2x1600000_S1x1x1600000_1_1_0 : S3x2x1600000.Slices ![1, 1, 0] S1x1x1600000
  slices_S3x128x64_S1x128x64_1_0_0 : S3x128x64.Slices ![1, 0, 0] S1x128x64
  slices_S3x64_S1x64_1_0 : S3x64.Slices ![1, 0] S1x64
  slices_S3_S1_1 : S3.Slices ![1] S1
  slices_S3x64x32_S1x64x32_1_0_0 : S3x64x32.Slices ![1, 0, 0] S1x64x32
  slices_S3x32_S1x32_1_0 : S3x32.Slices ![1, 0] S1x32
  slices_S3x2x1600000_S1x1x1600000_2_0_0 : S3x2x1600000.Slices ![2, 0, 0] S1x1x1600000
  slices_S3x2x1600000_S1x1x1600000_2_1_0 : S3x2x1600000.Slices ![2, 1, 0] S1x1x1600000
  slices_S3x128x64_S1x128x64_2_0_0 : S3x128x64.Slices ![2, 0, 0] S1x128x64
  slices_S3x64_S1x64_2_0 : S3x64.Slices ![2, 0] S1x64
  slices_S3_S1_2 : S3.Slices ![2] S1
  slices_S3x64x32_S1x64x32_2_0_0 : S3x64x32.Slices ![2, 0, 0] S1x64x32
  slices_S3x32_S1x32_2_0 : S3x32.Slices ![2, 0] S1x32
  bcast_S50000x32_S50000x1x32_0_2 : S50000x32.BroadcastsInDim S50000x1x32 (![0, 2] : Fin 2 → Fin S50000x1x32.rank)
  concatenates_S50000x1x32_S50000x1x32_S50000x1x32_S50000x3x32_d1 : Shape.Concatenates [S50000x1x32, S50000x1x32, S50000x1x32] S50000x3x32 1
  shapeCasts_S50000x3x32_S50000x96 : S50000x3x32.ShapeCasts S50000x96
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x32_S10000x32_1_0_0_1_n_n_wf : DotDims.WF S10000x64 S64x32 S10000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  gather_S100000x32_S50000x1_S50000x32_1_0_n_n_0_1_132_wf : GatherDims.WF S100000x32 S50000x1 S50000x32 [1] [0] [] [0] [] 1 ![1, 32]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x32.size a ≤ S64x32.size a
  hwx3_1 : ∀ i : grid3.Coords, EltTy.bits .f32 = 32 ∨ (Rect.block (s := S64x32) S64x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x32.size a ≤ S100000x32.size a
  hwx3_3 : ∀ i : grid3.Coords, EltTy.bits .f32 = 32 ∨ (Rect.block (s := S100000x32) S10000x32.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S100000x32.size a
  hwx4_0 : ∀ i : grid4.Coords, EltTy.bits .f32 = 32 ∨ (Rect.block (s := S100000x32) S10000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x32.size a ≤ S100000x32.size a
  hwx4_1 : ∀ i : grid4.Coords, EltTy.bits .f32 = 32 ∨ (Rect.block (s := S100000x32) S10000x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x32.size a ≤ S100000x32.size a
  hwx4_3 : ∀ i : grid4.Coords, EltTy.bits .f32 = 32 ∨ (Rect.block (s := S100000x32) S10000x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x32.size a ≤ S1x32.size a
  hwx4_4 : ∀ i : grid4.Coords, EltTy.bits .f32 = 32 ∨ (Rect.block (s := S1x32) S1x32.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x32.size a ≤ S1x32.size a
  hwx4_5 : ∀ i : grid4.Coords, EltTy.bits .f32 = 32 ∨ (Rect.block (s := S1x32) S1x32.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x32.size a ≤ S100000x32.size a
  hwx5_0 : ∀ i : grid5.Coords, EltTy.bits .f32 = 32 ∨ (Rect.block (s := S100000x32) S10000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x32.size a ≤ S1x32.size a
  hwx5_4 : ∀ i : grid5.Coords, EltTy.bits .f32 = 32 ∨ (Rect.block (s := S1x32) S1x32.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x32.size a ≤ S100000x32.size a
  hwx5_5 : ∀ i : grid5.Coords, EltTy.bits .f32 = 32 ∨ (Rect.block (s := S100000x32) S10000x32.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S100000x128.size a
  hwx6_0 : ∀ i : grid6.Coords, EltTy.bits .f32 = 32 ∨ (Rect.block (s := S100000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x64.size a ≤ S100000x64.size a
  hwx6_3 : ∀ i : grid6.Coords, EltTy.bits .f32 = 32 ∨ (Rect.block (s := S100000x64) S10000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x64.size a ≤ S100000x64.size a
  hwx7_1 : ∀ i : grid7.Coords, EltTy.bits .f32 = 32 ∨ (Rect.block (s := S100000x64) S10000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x1.size a ≤ S1x1.size a
  hwx7_2 : ∀ i : grid7.Coords, EltTy.bits .f32 = 32 ∨ (Rect.block (s := S1x1) S1x1.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S10000x64.size a ≤ S100000x64.size a
  hwx7_3 : ∀ i : grid7.Coords, EltTy.bits .f32 = 32 ∨ (Rect.block (s := S100000x64) S10000x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x64.size a ≤ S1x64.size a
  hwx7_5 : ∀ i : grid7.Coords, EltTy.bits .f32 = 32 ∨ (Rect.block (s := S1x64) S1x64.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S100000x64.size a
  hwx8_0 : ∀ i : grid8.Coords, EltTy.bits .f32 = 32 ∨ (Rect.block (s := S100000x64) S10000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S10000x64.size a ≤ S100000x64.size a
  hwx8_5 : ∀ i : grid8.Coords, EltTy.bits .f32 = 32 ∨ (Rect.block (s := S100000x64) S10000x64.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S100000x64.size a
  hwx9_0 : ∀ i : grid9.Coords, EltTy.bits .f32 = 32 ∨ (Rect.block (s := S100000x64) S10000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x32.size a ≤ S64x32.size a
  hwx9_1 : ∀ i : grid9.Coords, EltTy.bits .f32 = 32 ∨ (Rect.block (s := S64x32) S64x32.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x32.size a ≤ S1x32.size a
  hwx9_2 : ∀ i : grid9.Coords, EltTy.bits .f32 = 32 ∨ (Rect.block (s := S1x32) S1x32.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S10000x32.size a ≤ S100000x32.size a
  hwx9_3 : ∀ i : grid9.Coords, EltTy.bits .f32 = 32 ∨ (Rect.block (s := S100000x32) S10000x32.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x32.size a ≤ S100000x32.size a
  hwx10_0 : ∀ i : grid10.Coords, EltTy.bits .f32 = 32 ∨ (Rect.block (s := S100000x32) S10000x32.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S10000x32.size a ≤ S100000x32.size a
  hwx10_1 : ∀ i : grid10.Coords, EltTy.bits .f32 = 32 ∨ (Rect.block (s := S100000x32) S10000x32.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x1.size a ≤ S1x1.size a
  hwx10_2 : ∀ i : grid10.Coords, EltTy.bits .f32 = 32 ∨ (Rect.block (s := S1x1) S1x1.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S10000x32.size a ≤ S100000x32.size a
  hwx10_3 : ∀ i : grid10.Coords, EltTy.bits .f32 = 32 ∨ (Rect.block (s := S100000x32) S10000x32.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x32.size a ≤ S1x32.size a
  hwx10_4 : ∀ i : grid10.Coords, EltTy.bits .f32 = 32 ∨ (Rect.block (s := S1x32) S1x32.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S1x32.size a ≤ S1x32.size a
  hwx10_5 : ∀ i : grid10.Coords, EltTy.bits .f32 = 32 ∨ (Rect.block (s := S1x32) S1x32.size (cc10_transform_5 i) (hinb10_5 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x32.size a ≤ S100000x32.size a
  hwx11_0 : ∀ i : grid11.Coords, EltTy.bits .f32 = 32 ∨ (Rect.block (s := S100000x32) S10000x32.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x32.size a ≤ S1x32.size a
  hwx11_1 : ∀ i : grid11.Coords, EltTy.bits .f32 = 32 ∨ (Rect.block (s := S1x32) S1x32.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x32.size a ≤ S1x32.size a
  hwx11_2 : ∀ i : grid11.Coords, EltTy.bits .f32 = 32 ∨ (Rect.block (s := S1x32) S1x32.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x32.size a ≤ S1x32.size a
  hwx11_3 : ∀ i : grid11.Coords, EltTy.bits .f32 = 32 ∨ (Rect.block (s := S1x32) S1x32.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x32.size a ≤ S1x32.size a
  hwx11_4 : ∀ i : grid11.Coords, EltTy.bits .f32 = 32 ∨ (Rect.block (s := S1x32) S1x32.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S10000x32.size a ≤ S100000x32.size a
  hwx11_5 : ∀ i : grid11.Coords, EltTy.bits .f32 = 32 ∨ (Rect.block (s := S100000x32) S10000x32.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S10000x128.size a ≤ S100000x128.size a
  hwx12_0 : ∀ i : grid12.Coords, EltTy.bits .f32 = 32 ∨ (Rect.block (s := S100000x128) S10000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S128x64.size a ≤ S128x64.size a
  hwx12_1 : ∀ i : grid12.Coords, EltTy.bits .f32 = 32 ∨ (Rect.block (s := S128x64) S128x64.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x64.size a ≤ S1x64.size a
  hwx12_2 : ∀ i : grid12.Coords, EltTy.bits .f32 = 32 ∨ (Rect.block (s := S1x64) S1x64.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S10000x64.size a ≤ S100000x64.size a
  hwx12_3 : ∀ i : grid12.Coords, EltTy.bits .f32 = 32 ∨ (Rect.block (s := S100000x64) S10000x64.size (cc12_transform_3 i) (hinb12_3 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S10000x64.size a ≤ S100000x64.size a
  hwx13_0 : ∀ i : grid13.Coords, EltTy.bits .f32 = 32 ∨ (Rect.block (s := S100000x64) S10000x64.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S10000x64.size a ≤ S100000x64.size a
  hwx13_1 : ∀ i : grid13.Coords, EltTy.bits .f32 = 32 ∨ (Rect.block (s := S100000x64) S10000x64.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x1.size a ≤ S1x1.size a
  hwx13_2 : ∀ i : grid13.Coords, EltTy.bits .f32 = 32 ∨ (Rect.block (s := S1x1) S1x1.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S10000x64.size a ≤ S100000x64.size a
  hwx13_3 : ∀ i : grid13.Coords, EltTy.bits .f32 = 32 ∨ (Rect.block (s := S100000x64) S10000x64.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x64.size a ≤ S1x64.size a
  hwx13_4 : ∀ i : grid13.Coords, EltTy.bits .f32 = 32 ∨ (Rect.block (s := S1x64) S1x64.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S1x64.size a ≤ S1x64.size a
  hwx13_5 : ∀ i : grid13.Coords, EltTy.bits .f32 = 32 ∨ (Rect.block (s := S1x64) S1x64.size (cc13_transform_5 i) (hinb13_5 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S10000x64.size a ≤ S100000x64.size a
  hwx14_0 : ∀ i : grid14.Coords, EltTy.bits .f32 = 32 ∨ (Rect.block (s := S100000x64) S10000x64.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x64.size a ≤ S1x64.size a
  hwx14_1 : ∀ i : grid14.Coords, EltTy.bits .f32 = 32 ∨ (Rect.block (s := S1x64) S1x64.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x64.size a ≤ S1x64.size a
  hwx14_2 : ∀ i : grid14.Coords, EltTy.bits .f32 = 32 ∨ (Rect.block (s := S1x64) S1x64.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x64.size a ≤ S1x64.size a
  hwx14_3 : ∀ i : grid14.Coords, EltTy.bits .f32 = 32 ∨ (Rect.block (s := S1x64) S1x64.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x64.size a ≤ S1x64.size a
  hwx14_4 : ∀ i : grid14.Coords, EltTy.bits .f32 = 32 ∨ (Rect.block (s := S1x64) S1x64.size (cc14_transform_4 i) (hinb14_4 i)).WholeWords (EltTy.packing .f32)
  hstage14_5 : ∀ j, (stage14_5 j).IsWhole
  nbuf14_5 : grid14.bufCount reads14_5 false = 2
  hreads14_5 : ∀ i i' : grid14.Coords, (∀ a, reads14_5 a = true → i a = i' a) → cc14_transform_5 i = cc14_transform_5 i'
  hinb14_5 : ∀ (i : grid14.Coords) a, (cc14_transform_5 i a + 1) * S10000x64.size a ≤ S100000x64.size a
  hwx14_5 : ∀ i : grid14.Coords, EltTy.bits .f32 = 32 ∨ (Rect.block (s := S100000x64) S10000x64.size (cc14_transform_5 i) (hinb14_5 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S10000x64.size a ≤ S100000x64.size a
  hwx15_0 : ∀ i : grid15.Coords, EltTy.bits .f32 = 32 ∨ (Rect.block (s := S100000x64) S10000x64.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S64x32.size a ≤ S64x32.size a
  hwx15_1 : ∀ i : grid15.Coords, EltTy.bits .f32 = 32 ∨ (Rect.block (s := S64x32) S64x32.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x32.size a ≤ S1x32.size a
  hwx15_2 : ∀ i : grid15.Coords, EltTy.bits .f32 = 32 ∨ (Rect.block (s := S1x32) S1x32.size (cc15_transform_2 i) (hinb15_2 i)).WholeWords (EltTy.packing .f32)
  hstage15_3 : ∀ j, (stage15_3 j).IsWhole
  nbuf15_3 : grid15.bufCount reads15_3 false = 2
  hreads15_3 : ∀ i i' : grid15.Coords, (∀ a, reads15_3 a = true → i a = i' a) → cc15_transform_3 i = cc15_transform_3 i'
  hinb15_3 : ∀ (i : grid15.Coords) a, (cc15_transform_3 i a + 1) * S10000x32.size a ≤ S100000x32.size a
  hwx15_3 : ∀ i : grid15.Coords, EltTy.bits .f32 = 32 ∨ (Rect.block (s := S100000x32) S10000x32.size (cc15_transform_3 i) (hinb15_3 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S10000x32.size a ≤ S100000x32.size a
  hwx16_0 : ∀ i : grid16.Coords, EltTy.bits .f32 = 32 ∨ (Rect.block (s := S100000x32) S10000x32.size (cc16_transform_0 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S10000x32.size a ≤ S100000x32.size a
  hwx16_1 : ∀ i : grid16.Coords, EltTy.bits .f32 = 32 ∨ (Rect.block (s := S100000x32) S10000x32.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x1.size a ≤ S1x1.size a
  hwx16_2 : ∀ i : grid16.Coords, EltTy.bits .f32 = 32 ∨ (Rect.block (s := S1x1) S1x1.size (cc16_transform_2 i) (hinb16_2 i)).WholeWords (EltTy.packing .f32)
  hstage16_3 : ∀ j, (stage16_3 j).IsWhole
  nbuf16_3 : grid16.bufCount reads16_3 false = 2
  hreads16_3 : ∀ i i' : grid16.Coords, (∀ a, reads16_3 a = true → i a = i' a) → cc16_transform_3 i = cc16_transform_3 i'
  hinb16_3 : ∀ (i : grid16.Coords) a, (cc16_transform_3 i a + 1) * S10000x32.size a ≤ S100000x32.size a
  hwx16_3 : ∀ i : grid16.Coords, EltTy.bits .f32 = 32 ∨ (Rect.block (s := S100000x32) S10000x32.size (cc16_transform_3 i) (hinb16_3 i)).WholeWords (EltTy.packing .f32)
  hstage16_4 : ∀ j, (stage16_4 j).IsWhole
  nbuf16_4 : grid16.bufCount reads16_4 true = 1
  hreads16_4 : ∀ i i' : grid16.Coords, (∀ a, reads16_4 a = true → i a = i' a) → cc16_transform_4 i = cc16_transform_4 i'
  hinb16_4 : ∀ (i : grid16.Coords) a, (cc16_transform_4 i a + 1) * S1x32.size a ≤ S1x32.size a
  hwx16_4 : ∀ i : grid16.Coords, EltTy.bits .f32 = 32 ∨ (Rect.block (s := S1x32) S1x32.size (cc16_transform_4 i) (hinb16_4 i)).WholeWords (EltTy.packing .f32)
  hstage16_5 : ∀ j, (stage16_5 j).IsWhole
  nbuf16_5 : grid16.bufCount reads16_5 true = 1
  hreads16_5 : ∀ i i' : grid16.Coords, (∀ a, reads16_5 a = true → i a = i' a) → cc16_transform_5 i = cc16_transform_5 i'
  hinb16_5 : ∀ (i : grid16.Coords) a, (cc16_transform_5 i a + 1) * S1x32.size a ≤ S1x32.size a
  hwx16_5 : ∀ i : grid16.Coords, EltTy.bits .f32 = 32 ∨ (Rect.block (s := S1x32) S1x32.size (cc16_transform_5 i) (hinb16_5 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S10000x32.size a ≤ S100000x32.size a
  hwx17_0 : ∀ i : grid17.Coords, EltTy.bits .f32 = 32 ∨ (Rect.block (s := S100000x32) S10000x32.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S1x32.size a ≤ S1x32.size a
  hwx17_1 : ∀ i : grid17.Coords, EltTy.bits .f32 = 32 ∨ (Rect.block (s := S1x32) S1x32.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S1x32.size a ≤ S1x32.size a
  hwx17_2 : ∀ i : grid17.Coords, EltTy.bits .f32 = 32 ∨ (Rect.block (s := S1x32) S1x32.size (cc17_transform_2 i) (hinb17_2 i)).WholeWords (EltTy.packing .f32)
  hstage17_3 : ∀ j, (stage17_3 j).IsWhole
  nbuf17_3 : grid17.bufCount reads17_3 true = 1
  hreads17_3 : ∀ i i' : grid17.Coords, (∀ a, reads17_3 a = true → i a = i' a) → cc17_transform_3 i = cc17_transform_3 i'
  hinb17_3 : ∀ (i : grid17.Coords) a, (cc17_transform_3 i a + 1) * S1x32.size a ≤ S1x32.size a
  hwx17_3 : ∀ i : grid17.Coords, EltTy.bits .f32 = 32 ∨ (Rect.block (s := S1x32) S1x32.size (cc17_transform_3 i) (hinb17_3 i)).WholeWords (EltTy.packing .f32)
  hstage17_4 : ∀ j, (stage17_4 j).IsWhole
  nbuf17_4 : grid17.bufCount reads17_4 true = 1
  hreads17_4 : ∀ i i' : grid17.Coords, (∀ a, reads17_4 a = true → i a = i' a) → cc17_transform_4 i = cc17_transform_4 i'
  hinb17_4 : ∀ (i : grid17.Coords) a, (cc17_transform_4 i a + 1) * S1x32.size a ≤ S1x32.size a
  hwx17_4 : ∀ i : grid17.Coords, EltTy.bits .f32 = 32 ∨ (Rect.block (s := S1x32) S1x32.size (cc17_transform_4 i) (hinb17_4 i)).WholeWords (EltTy.packing .f32)
  hstage17_5 : ∀ j, (stage17_5 j).IsWhole
  nbuf17_5 : grid17.bufCount reads17_5 false = 2
  hreads17_5 : ∀ i i' : grid17.Coords, (∀ a, reads17_5 a = true → i a = i' a) → cc17_transform_5 i = cc17_transform_5 i'
  hinb17_5 : ∀ (i : grid17.Coords) a, (cc17_transform_5 i a + 1) * S10000x32.size a ≤ S100000x32.size a
  hwx17_5 : ∀ i : grid17.Coords, EltTy.bits .f32 = 32 ∨ (Rect.block (s := S100000x32) S10000x32.size (cc17_transform_5 i) (hinb17_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def gather_S100000x32_S50000x1_S50000x32_1_0_n_n_0_1_132 : GatherDims S100000x32 S50000x1 S50000x32 where
  offsetDims := [1]
  collapsedSliceDims := [0]
  operandBatchingDims := []
  startIndicesBatchingDims := []
  startIndexMap := [0]
  indexVectorDim := 1
  sliceSizes := ![1, 32]
  wf := gather_S100000x32_S50000x1_S50000x32_1_0_n_n_0_1_132_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v51) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52_0) S10000x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v52_1) S1x64.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52_2) S1x64.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52_0) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v61) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v61) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S64x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67) S10000x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v67) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v80) S10000x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v87) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v88_0) S10000x32.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v88_1) S1x32.size cc4_transform_4 reads4_4 true true 1 stage4_4 sem4_4
    hrank4 hreads4_4 hinb4_4 nbuf4_4 (Memref.isWhole_whole _) hwx4_4 hstage4_4

abbrev win4_5 : Pipeline.Window sig grid4 :=
  Pipeline.Window.ofSpec (Memref.whole main_v88_2) S1x32.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v88_0) S10000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v90) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v94) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v95) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v96) S1x32.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v97) S10000x32.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_arg0) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v133) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v136) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v137) S10000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v137) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v150) S10000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v157) S1x1.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v158_0) S10000x64.size cc7_transform_3 reads7_3 true false 2 stage7_3 sem7_3
    hrank7 hreads7_3 hinb7_3 nbuf7_3 (Memref.isWhole_whole _) hwx7_3 hstage7_3

abbrev win7_4 : Pipeline.Window sig grid7 :=
  Pipeline.Window.ofSpec (Memref.whole main_v158_1) S1x64.size cc7_transform_4 reads7_4 true true 1 stage7_4 sem7_4
    hrank7 hreads7_4 hinb7_4 nbuf7_4 (Memref.isWhole_whole _) hwx7_4 hstage7_4

abbrev win7_5 : Pipeline.Window sig grid7 :=
  Pipeline.Window.ofSpec (Memref.whole main_v158_2) S1x64.size cc7_transform_5 reads7_5 true true 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v158_0) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v160) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v164) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v165) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v166) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v167) S10000x64.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v167) S10000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v169) S64x32.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v172) S1x32.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v173) S10000x32.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v173) S10000x32.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v186) S10000x32.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v193) S1x1.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v194_0) S10000x32.size cc10_transform_3 reads10_3 true false 2 stage10_3 sem10_3
    hrank10 hreads10_3 hinb10_3 nbuf10_3 (Memref.isWhole_whole _) hwx10_3 hstage10_3

abbrev win10_4 : Pipeline.Window sig grid10 :=
  Pipeline.Window.ofSpec (Memref.whole main_v194_1) S1x32.size cc10_transform_4 reads10_4 true true 1 stage10_4 sem10_4
    hrank10 hreads10_4 hinb10_4 nbuf10_4 (Memref.isWhole_whole _) hwx10_4 hstage10_4

abbrev win10_5 : Pipeline.Window sig grid10 :=
  Pipeline.Window.ofSpec (Memref.whole main_v194_2) S1x32.size cc10_transform_5 reads10_5 true true 1 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

abbrev win11_0 : Pipeline.Window sig grid11 :=
  Pipeline.Window.ofSpec (Memref.whole main_v194_0) S10000x32.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v196) S1x32.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v200) S1x32.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v201) S1x32.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v202) S1x32.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v203) S10000x32.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_arg0) S10000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v239) S128x64.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v242) S1x64.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v243) S10000x64.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev win13_0 : Pipeline.Window sig grid13 :=
  Pipeline.Window.ofSpec (Memref.whole main_v243) S10000x64.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v256) S10000x64.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v263) S1x1.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v264_0) S10000x64.size cc13_transform_3 reads13_3 true false 2 stage13_3 sem13_3
    hrank13 hreads13_3 hinb13_3 nbuf13_3 (Memref.isWhole_whole _) hwx13_3 hstage13_3

abbrev win13_4 : Pipeline.Window sig grid13 :=
  Pipeline.Window.ofSpec (Memref.whole main_v264_1) S1x64.size cc13_transform_4 reads13_4 true true 1 stage13_4 sem13_4
    hrank13 hreads13_4 hinb13_4 nbuf13_4 (Memref.isWhole_whole _) hwx13_4 hstage13_4

abbrev win13_5 : Pipeline.Window sig grid13 :=
  Pipeline.Window.ofSpec (Memref.whole main_v264_2) S1x64.size cc13_transform_5 reads13_5 true true 1 stage13_5 sem13_5
    hrank13 hreads13_5 hinb13_5 nbuf13_5 (Memref.isWhole_whole _) hwx13_5 hstage13_5

abbrev win13 : Fin 6 → Pipeline.Window sig grid13 := fun | 0 => win13_0 | 1 => win13_1 | 2 => win13_2 | 3 => win13_3 | 4 => win13_4 | 5 => win13_5 | ⟨_ + 6, h⟩ => absurd h (Nat.not_lt.2 (Nat.le_add_left _ _))
abbrev spec13 : Fin 6 → Pipeline.WinSpec sig grid13.rank := fun w => (win13 w).toWinSpec

abbrev win14_0 : Pipeline.Window sig grid14 :=
  Pipeline.Window.ofSpec (Memref.whole main_v264_0) S10000x64.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v266) S1x64.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v270) S1x64.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v271) S1x64.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v272) S1x64.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v273) S10000x64.size cc14_transform_5 reads14_5 true false 2 stage14_5 sem14_5
    hrank14 hreads14_5 hinb14_5 nbuf14_5 (Memref.isWhole_whole _) hwx14_5 hstage14_5

abbrev win14 : Fin 6 → Pipeline.Window sig grid14 := fun | 0 => win14_0 | 1 => win14_1 | 2 => win14_2 | 3 => win14_3 | 4 => win14_4 | 5 => win14_5 | ⟨_ + 6, h⟩ => absurd h (Nat.not_lt.2 (Nat.le_add_left _ _))
abbrev spec14 : Fin 6 → Pipeline.WinSpec sig grid14.rank := fun w => (win14 w).toWinSpec

abbrev win15_0 : Pipeline.Window sig grid15 :=
  Pipeline.Window.ofSpec (Memref.whole main_v273) S10000x64.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v275) S64x32.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v278) S1x32.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v279) S10000x32.size cc15_transform_3 reads15_3 true false 2 stage15_3 sem15_3
    hrank15 hreads15_3 hinb15_3 nbuf15_3 (Memref.isWhole_whole _) hwx15_3 hstage15_3

abbrev win15 : Fin 4 → Pipeline.Window sig grid15 := fun | 0 => win15_0 | 1 => win15_1 | 2 => win15_2 | 3 => win15_3 | ⟨_ + 4, h⟩ => absurd h (Nat.not_lt.2 (Nat.le_add_left _ _))
abbrev spec15 : Fin 4 → Pipeline.WinSpec sig grid15.rank := fun w => (win15 w).toWinSpec

abbrev win16_0 : Pipeline.Window sig grid16 :=
  Pipeline.Window.ofSpec (Memref.whole main_v279) S10000x32.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v292) S10000x32.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v299) S1x1.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v300_0) S10000x32.size cc16_transform_3 reads16_3 true false 2 stage16_3 sem16_3
    hrank16 hreads16_3 hinb16_3 nbuf16_3 (Memref.isWhole_whole _) hwx16_3 hstage16_3

abbrev win16_4 : Pipeline.Window sig grid16 :=
  Pipeline.Window.ofSpec (Memref.whole main_v300_1) S1x32.size cc16_transform_4 reads16_4 true true 1 stage16_4 sem16_4
    hrank16 hreads16_4 hinb16_4 nbuf16_4 (Memref.isWhole_whole _) hwx16_4 hstage16_4

abbrev win16_5 : Pipeline.Window sig grid16 :=
  Pipeline.Window.ofSpec (Memref.whole main_v300_2) S1x32.size cc16_transform_5 reads16_5 true true 1 stage16_5 sem16_5
    hrank16 hreads16_5 hinb16_5 nbuf16_5 (Memref.isWhole_whole _) hwx16_5 hstage16_5

abbrev win16 : Fin 6 → Pipeline.Window sig grid16 := fun | 0 => win16_0 | 1 => win16_1 | 2 => win16_2 | 3 => win16_3 | 4 => win16_4 | 5 => win16_5 | ⟨_ + 6, h⟩ => absurd h (Nat.not_lt.2 (Nat.le_add_left _ _))
abbrev spec16 : Fin 6 → Pipeline.WinSpec sig grid16.rank := fun w => (win16 w).toWinSpec

abbrev win17_0 : Pipeline.Window sig grid17 :=
  Pipeline.Window.ofSpec (Memref.whole main_v300_0) S10000x32.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v302) S1x32.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v306) S1x32.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_v307) S1x32.size cc17_transform_3 reads17_3 false true 1 stage17_3 sem17_3
    hrank17 hreads17_3 hinb17_3 nbuf17_3 (Memref.isWhole_whole _) hwx17_3 hstage17_3

abbrev win17_4 : Pipeline.Window sig grid17 :=
  Pipeline.Window.ofSpec (Memref.whole main_v308) S1x32.size cc17_transform_4 reads17_4 false true 1 stage17_4 sem17_4
    hrank17 hreads17_4 hinb17_4 nbuf17_4 (Memref.isWhole_whole _) hwx17_4 hstage17_4

abbrev win17_5 : Pipeline.Window sig grid17 :=
  Pipeline.Window.ofSpec (Memref.whole main_v309) S10000x32.size cc17_transform_5 reads17_5 true false 2 stage17_5 sem17_5
    hrank17 hreads17_5 hinb17_5 nbuf17_5 (Memref.isWhole_whole _) hwx17_5 hstage17_5

abbrev win17 : Fin 6 → Pipeline.Window sig grid17 := fun | 0 => win17_0 | 1 => win17_1 | 2 => win17_2 | 3 => win17_3 | 4 => win17_4 | 5 => win17_5 | ⟨_ + 6, h⟩ => absurd h (Nat.not_lt.2 (Nat.le_add_left _ _))
abbrev spec17 : Fin 6 → Pipeline.WinSpec sig grid17.rank := fun w => (win17 w).toWinSpec

class Facts : Prop extends Facts₀ where

variable [Facts]
-- ==== ReferenceIdeal.lean ====
abbrev S100000x128 : Shape := ⟨2, ![100000, 128]⟩
abbrev S3x2x1600000 : Shape := ⟨3, ![3, 2, 1600000]⟩
abbrev S50000 : Shape := ⟨1, ![50000]⟩
abbrev S3x128x64 : Shape := ⟨3, ![3, 128, 64]⟩
abbrev S3x64 : Shape := ⟨2, ![3, 64]⟩
abbrev S3x64x32 : Shape := ⟨3, ![3, 64, 32]⟩
abbrev S3x32 : Shape := ⟨2, ![3, 32]⟩
abbrev S3 : Shape := ⟨1, ![3]⟩
abbrev S1x1x1600000 : Shape := ⟨3, ![1, 1, 1600000]⟩
abbrev S1600000 : Shape := ⟨1, ![1600000]⟩
abbrev S1x128x64 : Shape := ⟨3, ![1, 128, 64]⟩
abbrev S128x64 : Shape := ⟨2, ![128, 64]⟩
abbrev S1x64 : Shape := ⟨2, ![1, 64]⟩
abbrev S64 : Shape := ⟨1, ![64]⟩
abbrev S1 : Shape := ⟨1, ![1]⟩
abbrev S_ : Shape := ⟨0, ![]⟩
abbrev S100000x64 : Shape := ⟨2, ![100000, 64]⟩
abbrev S100000 : Shape := ⟨1, ![100000]⟩
abbrev S1600000x1 : Shape := ⟨2, ![1600000, 1]⟩
abbrev S1600000x64 : Shape := ⟨2, ![1600000, 64]⟩
abbrev S1x64x32 : Shape := ⟨3, ![1, 64, 32]⟩
abbrev S64x32 : Shape := ⟨2, ![64, 32]⟩
abbrev S1x32 : Shape := ⟨2, ![1, 32]⟩
abbrev S32 : Shape := ⟨1, ![32]⟩
abbrev S100000x32 : Shape := ⟨2, ![100000, 32]⟩
abbrev S1600000x32 : Shape := ⟨2, ![1600000, 32]⟩
abbrev S50000x1 : Shape := ⟨2, ![50000, 1]⟩
abbrev S50000x32 : Shape := ⟨2, ![50000, 32]⟩
abbrev S50000x1x32 : Shape := ⟨3, ![50000, 1, 32]⟩
abbrev S50000x3x32 : Shape := ⟨3, ![50000, 3, 32]⟩
abbrev S50000x96 : Shape := ⟨2, ![50000, 96]⟩

abbrev nBuf : Space → Nat
  | .hbm => 780
  | .vmem => 0
  | .smem => 0
  | _ => 0

abbrev hbmTy0_0 (i : Nat) : BufTy := match i % 128 with
  | 0 => ⟨S100000x128, .f32⟩
  | 1 => ⟨S3x2x1600000, .i32⟩
  | 2 => ⟨S50000, .i32⟩
  | 3 => ⟨S3x128x64, .f32⟩
  | 4 => ⟨S3x64, .f32⟩
  | 5 => ⟨S3x64x32, .f32⟩
  | 6 => ⟨S3x32, .f32⟩
  | 7 => ⟨S3, .f32⟩
  | 8 => ⟨S3, .f32⟩
  | 9 => ⟨S3x64, .f32⟩
  | 10 => ⟨S3x64, .f32⟩
  | 11 => ⟨S3x32, .f32⟩
  | 12 => ⟨S3x32, .f32⟩
  | 13 => ⟨S1x1x1600000, .i32⟩
  | 14 => ⟨S1600000, .i32⟩
  | 15 => ⟨S1x1x1600000, .i32⟩
  | 16 => ⟨S1600000, .i32⟩
  | 17 => ⟨S1x128x64, .f32⟩
  | 18 => ⟨S128x64, .f32⟩
  | 19 => ⟨S1x64, .f32⟩
  | 20 => ⟨S64, .f32⟩
  | 21 => ⟨S1, .f32⟩
  | 22 => ⟨S_, .f32⟩
  | 23 => ⟨S100000x64, .f32⟩
  | 24 => ⟨S1x64, .f32⟩
  | 25 => ⟨S100000x64, .f32⟩
  | 26 => ⟨S100000x64, .f32⟩
  | 27 => ⟨S_, .f32⟩
  | 28 => ⟨S1600000, .f32⟩
  | 29 => ⟨S_, .f32⟩
  | 30 => ⟨S100000, .f32⟩
  | 31 => ⟨S1600000x1, .i32⟩
  | 32 => ⟨S100000, .f32⟩
  | 33 => ⟨S_, .f32⟩
  | 34 => ⟨S100000, .f32⟩
  | 35 => ⟨S100000, .f32⟩
  | 36 => ⟨S100000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000, .f32⟩
  | 55 => ⟨S1600000, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x64, .f32⟩
  | 65 => ⟨S1600000x1, .f32⟩
  | 66 => ⟨S1600000x64, .f32⟩
  | 67 => ⟨S1600000x64, .f32⟩
  | 68 => ⟨S_, .f32⟩
  | 69 => ⟨S100000x64, .f32⟩
  | 70 => ⟨S1600000x1, .i32⟩
  | 71 => ⟨S100000x64, .f32⟩
  | 72 => ⟨S100000x64, .f32⟩
  | 73 => ⟨S100000x64, .f32⟩
  | 74 => ⟨S_, .f32⟩
  | 75 => ⟨S_, .f32⟩
  | 76 => ⟨S100000x64, .f32⟩
  | 77 => ⟨S100000x64, .f32⟩
  | 78 => ⟨S100000x64, .f32⟩
  | 79 => ⟨S1x64, .f32⟩
  | 80 => ⟨S64, .f32⟩
  | 81 => ⟨S1x64, .f32⟩
  | 82 => ⟨S64, .f32⟩
  | 83 => ⟨S_, .f32⟩
  | 84 => ⟨S64, .f32⟩
  | 85 => ⟨S_, .f32⟩
  | 86 => ⟨S64, .f32⟩
  | 87 => ⟨S64, .f32⟩
  | 88 => ⟨S_, .i32⟩
  | 89 => ⟨S_, .f32⟩
  | 90 => ⟨S64, .f32⟩
  | 91 => ⟨S1x64, .f32⟩
  | 92 => ⟨S_, .f32⟩
  | 93 => ⟨S1x64, .f32⟩
  | 94 => ⟨S1x64, .f32⟩
  | 95 => ⟨S100000x64, .f32⟩
  | 96 => ⟨S100000x64, .f32⟩
  | 97 => ⟨S100000x64, .f32⟩
  | 98 => ⟨S_, .f32⟩
  | 99 => ⟨S_, .f32⟩
  | 100 => ⟨S_, .f32⟩
  | 101 => ⟨S_, .f32⟩
  | 102 => ⟨S64, .f32⟩
  | 103 => ⟨S64, .f32⟩
  | 104 => ⟨S64, .f32⟩
  | 105 => ⟨S_, .f32⟩
  | 106 => ⟨S_, .i1⟩
  | 107 => ⟨S_, .f32⟩
  | 108 => ⟨S_, .f32⟩
  | 109 => ⟨S64, .f32⟩
  | 110 => ⟨S64, .f32⟩
  | 111 => ⟨S1x64, .f32⟩
  | 112 => ⟨S100000x64, .f32⟩
  | 113 => ⟨S100000x64, .f32⟩
  | 114 => ⟨S_, .f32⟩
  | 115 => ⟨S64, .f32⟩
  | 116 => ⟨S64, .f32⟩
  | 117 => ⟨S64, .f32⟩
  | 118 => ⟨S1x64, .f32⟩
  | 119 => ⟨S100000x64, .f32⟩
  | 120 => ⟨S100000x64, .f32⟩
  | 121 => ⟨S1x64, .f32⟩
  | 122 => ⟨S100000x64, .f32⟩
  | 123 => ⟨S100000x64, .f32⟩
  | 124 => ⟨S1x64, .f32⟩
  | 125 => ⟨S100000x64, .f32⟩
  | 126 => ⟨S100000x64, .f32⟩
  | 127 => ⟨S_, .f32⟩
  | _ => ⟨S100000x128, .f32⟩

abbrev hbmTy0_1 (i : Nat) : BufTy := match i % 128 with
  | 0 => ⟨S100000x64, .f32⟩
  | 1 => ⟨S100000x64, .f32⟩
  | 2 => ⟨S1x64x32, .f32⟩
  | 3 => ⟨S64x32, .f32⟩
  | 4 => ⟨S1x32, .f32⟩
  | 5 => ⟨S32, .f32⟩
  | 6 => ⟨S1, .f32⟩
  | 7 => ⟨S_, .f32⟩
  | 8 => ⟨S100000x32, .f32⟩
  | 9 => ⟨S1x32, .f32⟩
  | 10 => ⟨S100000x32, .f32⟩
  | 11 => ⟨S100000x32, .f32⟩
  | 12 => ⟨S_, .f32⟩
  | 13 => ⟨S1600000, .f32⟩
  | 14 => ⟨S_, .f32⟩
  | 15 => ⟨S100000, .f32⟩
  | 16 => ⟨S1600000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S1600000, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000x32, .f32⟩
  | 50 => ⟨S1600000x1, .f32⟩
  | 51 => ⟨S1600000x32, .f32⟩
  | 52 => ⟨S1600000x32, .f32⟩
  | 53 => ⟨S_, .f32⟩
  | 54 => ⟨S100000x32, .f32⟩
  | 55 => ⟨S1600000x1, .i32⟩
  | 56 => ⟨S100000x32, .f32⟩
  | 57 => ⟨S100000x32, .f32⟩
  | 58 => ⟨S100000x32, .f32⟩
  | 59 => ⟨S_, .f32⟩
  | 60 => ⟨S_, .f32⟩
  | 61 => ⟨S100000x32, .f32⟩
  | 62 => ⟨S100000x32, .f32⟩
  | 63 => ⟨S100000x32, .f32⟩
  | 64 => ⟨S1x32, .f32⟩
  | 65 => ⟨S32, .f32⟩
  | 66 => ⟨S1x32, .f32⟩
  | 67 => ⟨S32, .f32⟩
  | 68 => ⟨S_, .f32⟩
  | 69 => ⟨S32, .f32⟩
  | 70 => ⟨S_, .f32⟩
  | 71 => ⟨S32, .f32⟩
  | 72 => ⟨S32, .f32⟩
  | 73 => ⟨S_, .i32⟩
  | 74 => ⟨S_, .f32⟩
  | 75 => ⟨S32, .f32⟩
  | 76 => ⟨S1x32, .f32⟩
  | 77 => ⟨S_, .f32⟩
  | 78 => ⟨S1x32, .f32⟩
  | 79 => ⟨S1x32, .f32⟩
  | 80 => ⟨S100000x32, .f32⟩
  | 81 => ⟨S100000x32, .f32⟩
  | 82 => ⟨S100000x32, .f32⟩
  | 83 => ⟨S_, .f32⟩
  | 84 => ⟨S_, .f32⟩
  | 85 => ⟨S_, .f32⟩
  | 86 => ⟨S_, .f32⟩
  | 87 => ⟨S32, .f32⟩
  | 88 => ⟨S32, .f32⟩
  | 89 => ⟨S32, .f32⟩
  | 90 => ⟨S_, .f32⟩
  | 91 => ⟨S_, .i1⟩
  | 92 => ⟨S_, .f32⟩
  | 93 => ⟨S_, .f32⟩
  | 94 => ⟨S32, .f32⟩
  | 95 => ⟨S32, .f32⟩
  | 96 => ⟨S1x32, .f32⟩
  | 97 => ⟨S100000x32, .f32⟩
  | 98 => ⟨S100000x32, .f32⟩
  | 99 => ⟨S_, .f32⟩
  | 100 => ⟨S32, .f32⟩
  | 101 => ⟨S32, .f32⟩
  | 102 => ⟨S32, .f32⟩
  | 103 => ⟨S1x32, .f32⟩
  | 104 => ⟨S100000x32, .f32⟩
  | 105 => ⟨S100000x32, .f32⟩
  | 106 => ⟨S1x32, .f32⟩
  | 107 => ⟨S100000x32, .f32⟩
  | 108 => ⟨S100000x32, .f32⟩
  | 109 => ⟨S1x32, .f32⟩
  | 110 => ⟨S100000x32, .f32⟩
  | 111 => ⟨S100000x32, .f32⟩
  | 112 => ⟨S_, .f32⟩
  | 113 => ⟨S100000x32, .f32⟩
  | 114 => ⟨S100000x32, .f32⟩
  | 115 => ⟨S_, .i32⟩
  | 116 => ⟨S50000, .i32⟩
  | 117 => ⟨S50000, .i1⟩
  | 118 => ⟨S_, .i32⟩
  | 119 => ⟨S50000, .i32⟩
  | 120 => ⟨S50000, .i32⟩
  | 121 => ⟨S50000, .i32⟩
  | 122 => ⟨S50000x1, .i32⟩
  | 123 => ⟨S50000x32, .f32⟩
  | 124 => ⟨S_, .f32⟩
  | 125 => ⟨S50000, .f32⟩
  | 126 => ⟨S_, .f32⟩
  | 127 => ⟨S50000, .f32⟩
  | _ => ⟨S100000x128, .f32⟩

abbrev hbmTy0_2 (i : Nat) : BufTy := match i % 128 with
  | 0 => ⟨S50000, .f32⟩
  | 1 => ⟨S50000x1, .f32⟩
  | 2 => ⟨S50000x32, .f32⟩
  | 3 => ⟨S50000x32, .f32⟩
  | 4 => ⟨S50000x32, .f32⟩
  | 5 => ⟨S_, .f32⟩
  | 6 => ⟨S50000, .f32⟩
  | 7 => ⟨S50000x1, .f32⟩
  | 8 => ⟨S50000x1, .f32⟩
  | 9 => ⟨S50000x32, .f32⟩
  | 10 => ⟨S50000x32, .f32⟩
  | 11 => ⟨S1x1x1600000, .i32⟩
  | 12 => ⟨S1600000, .i32⟩
  | 13 => ⟨S1x1x1600000, .i32⟩
  | 14 => ⟨S1600000, .i32⟩
  | 15 => ⟨S1x128x64, .f32⟩
  | 16 => ⟨S128x64, .f32⟩
  | 17 => ⟨S1x64, .f32⟩
  | 18 => ⟨S64, .f32⟩
  | 19 => ⟨S1, .f32⟩
  | 20 => ⟨S_, .f32⟩
  | 21 => ⟨S100000x64, .f32⟩
  | 22 => ⟨S1x64, .f32⟩
  | 23 => ⟨S100000x64, .f32⟩
  | 24 => ⟨S100000x64, .f32⟩
  | 25 => ⟨S_, .f32⟩
  | 26 => ⟨S1600000, .f32⟩
  | 27 => ⟨S_, .f32⟩
  | 28 => ⟨S100000, .f32⟩
  | 29 => ⟨S1600000x1, .i32⟩
  | 30 => ⟨S100000, .f32⟩
  | 31 => ⟨S_, .f32⟩
  | 32 => ⟨S100000, .f32⟩
  | 33 => ⟨S100000, .f32⟩
  | 34 => ⟨S100000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000, .f32⟩
  | 53 => ⟨S1600000, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x64, .f32⟩
  | 63 => ⟨S1600000x1, .f32⟩
  | 64 => ⟨S1600000x64, .f32⟩
  | 65 => ⟨S1600000x64, .f32⟩
  | 66 => ⟨S_, .f32⟩
  | 67 => ⟨S100000x64, .f32⟩
  | 68 => ⟨S1600000x1, .i32⟩
  | 69 => ⟨S100000x64, .f32⟩
  | 70 => ⟨S100000x64, .f32⟩
  | 71 => ⟨S100000x64, .f32⟩
  | 72 => ⟨S_, .f32⟩
  | 73 => ⟨S_, .f32⟩
  | 74 => ⟨S100000x64, .f32⟩
  | 75 => ⟨S100000x64, .f32⟩
  | 76 => ⟨S100000x64, .f32⟩
  | 77 => ⟨S1x64, .f32⟩
  | 78 => ⟨S64, .f32⟩
  | 79 => ⟨S1x64, .f32⟩
  | 80 => ⟨S64, .f32⟩
  | 81 => ⟨S_, .f32⟩
  | 82 => ⟨S64, .f32⟩
  | 83 => ⟨S_, .f32⟩
  | 84 => ⟨S64, .f32⟩
  | 85 => ⟨S64, .f32⟩
  | 86 => ⟨S_, .i32⟩
  | 87 => ⟨S_, .f32⟩
  | 88 => ⟨S64, .f32⟩
  | 89 => ⟨S1x64, .f32⟩
  | 90 => ⟨S_, .f32⟩
  | 91 => ⟨S1x64, .f32⟩
  | 92 => ⟨S1x64, .f32⟩
  | 93 => ⟨S100000x64, .f32⟩
  | 94 => ⟨S100000x64, .f32⟩
  | 95 => ⟨S100000x64, .f32⟩
  | 96 => ⟨S_, .f32⟩
  | 97 => ⟨S_, .f32⟩
  | 98 => ⟨S_, .f32⟩
  | 99 => ⟨S_, .f32⟩
  | 100 => ⟨S64, .f32⟩
  | 101 => ⟨S64, .f32⟩
  | 102 => ⟨S64, .f32⟩
  | 103 => ⟨S_, .f32⟩
  | 104 => ⟨S_, .i1⟩
  | 105 => ⟨S_, .f32⟩
  | 106 => ⟨S_, .f32⟩
  | 107 => ⟨S64, .f32⟩
  | 108 => ⟨S64, .f32⟩
  | 109 => ⟨S1x64, .f32⟩
  | 110 => ⟨S100000x64, .f32⟩
  | 111 => ⟨S100000x64, .f32⟩
  | 112 => ⟨S_, .f32⟩
  | 113 => ⟨S64, .f32⟩
  | 114 => ⟨S64, .f32⟩
  | 115 => ⟨S64, .f32⟩
  | 116 => ⟨S1x64, .f32⟩
  | 117 => ⟨S100000x64, .f32⟩
  | 118 => ⟨S100000x64, .f32⟩
  | 119 => ⟨S1x64, .f32⟩
  | 120 => ⟨S100000x64, .f32⟩
  | 121 => ⟨S100000x64, .f32⟩
  | 122 => ⟨S1x64, .f32⟩
  | 123 => ⟨S100000x64, .f32⟩
  | 124 => ⟨S100000x64, .f32⟩
  | 125 => ⟨S_, .f32⟩
  | 126 => ⟨S100000x64, .f32⟩
  | 127 => ⟨S100000x64, .f32⟩
  | _ => ⟨S100000x128, .f32⟩

abbrev hbmTy0_3 (i : Nat) : BufTy := match i % 128 with
  | 0 => ⟨S1x64x32, .f32⟩
  | 1 => ⟨S64x32, .f32⟩
  | 2 => ⟨S1x32, .f32⟩
  | 3 => ⟨S32, .f32⟩
  | 4 => ⟨S1, .f32⟩
  | 5 => ⟨S_, .f32⟩
  | 6 => ⟨S100000x32, .f32⟩
  | 7 => ⟨S1x32, .f32⟩
  | 8 => ⟨S100000x32, .f32⟩
  | 9 => ⟨S100000x32, .f32⟩
  | 10 => ⟨S_, .f32⟩
  | 11 => ⟨S1600000, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S100000, .f32⟩
  | 19 => ⟨S100000, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000, .f32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000x32, .f32⟩
  | 48 => ⟨S1600000x1, .f32⟩
  | 49 => ⟨S1600000x32, .f32⟩
  | 50 => ⟨S1600000x32, .f32⟩
  | 51 => ⟨S_, .f32⟩
  | 52 => ⟨S100000x32, .f32⟩
  | 53 => ⟨S1600000x1, .i32⟩
  | 54 => ⟨S100000x32, .f32⟩
  | 55 => ⟨S100000x32, .f32⟩
  | 56 => ⟨S100000x32, .f32⟩
  | 57 => ⟨S_, .f32⟩
  | 58 => ⟨S_, .f32⟩
  | 59 => ⟨S100000x32, .f32⟩
  | 60 => ⟨S100000x32, .f32⟩
  | 61 => ⟨S100000x32, .f32⟩
  | 62 => ⟨S1x32, .f32⟩
  | 63 => ⟨S32, .f32⟩
  | 64 => ⟨S1x32, .f32⟩
  | 65 => ⟨S32, .f32⟩
  | 66 => ⟨S_, .f32⟩
  | 67 => ⟨S32, .f32⟩
  | 68 => ⟨S_, .f32⟩
  | 69 => ⟨S32, .f32⟩
  | 70 => ⟨S32, .f32⟩
  | 71 => ⟨S_, .i32⟩
  | 72 => ⟨S_, .f32⟩
  | 73 => ⟨S32, .f32⟩
  | 74 => ⟨S1x32, .f32⟩
  | 75 => ⟨S_, .f32⟩
  | 76 => ⟨S1x32, .f32⟩
  | 77 => ⟨S1x32, .f32⟩
  | 78 => ⟨S100000x32, .f32⟩
  | 79 => ⟨S100000x32, .f32⟩
  | 80 => ⟨S100000x32, .f32⟩
  | 81 => ⟨S_, .f32⟩
  | 82 => ⟨S_, .f32⟩
  | 83 => ⟨S_, .f32⟩
  | 84 => ⟨S_, .f32⟩
  | 85 => ⟨S32, .f32⟩
  | 86 => ⟨S32, .f32⟩
  | 87 => ⟨S32, .f32⟩
  | 88 => ⟨S_, .f32⟩
  | 89 => ⟨S_, .i1⟩
  | 90 => ⟨S_, .f32⟩
  | 91 => ⟨S_, .f32⟩
  | 92 => ⟨S32, .f32⟩
  | 93 => ⟨S32, .f32⟩
  | 94 => ⟨S1x32, .f32⟩
  | 95 => ⟨S100000x32, .f32⟩
  | 96 => ⟨S100000x32, .f32⟩
  | 97 => ⟨S_, .f32⟩
  | 98 => ⟨S32, .f32⟩
  | 99 => ⟨S32, .f32⟩
  | 100 => ⟨S32, .f32⟩
  | 101 => ⟨S1x32, .f32⟩
  | 102 => ⟨S100000x32, .f32⟩
  | 103 => ⟨S100000x32, .f32⟩
  | 104 => ⟨S1x32, .f32⟩
  | 105 => ⟨S100000x32, .f32⟩
  | 106 => ⟨S100000x32, .f32⟩
  | 107 => ⟨S1x32, .f32⟩
  | 108 => ⟨S100000x32, .f32⟩
  | 109 => ⟨S100000x32, .f32⟩
  | 110 => ⟨S_, .f32⟩
  | 111 => ⟨S100000x32, .f32⟩
  | 112 => ⟨S100000x32, .f32⟩
  | 113 => ⟨S_, .i32⟩
  | 114 => ⟨S50000, .i32⟩
  | 115 => ⟨S50000, .i1⟩
  | 116 => ⟨S_, .i32⟩
  | 117 => ⟨S50000, .i32⟩
  | 118 => ⟨S50000, .i32⟩
  | 119 => ⟨S50000, .i32⟩
  | 120 => ⟨S50000x1, .i32⟩
  | 121 => ⟨S50000x32, .f32⟩
  | 122 => ⟨S_, .f32⟩
  | 123 => ⟨S50000, .f32⟩
  | 124 => ⟨S_, .f32⟩
  | 125 => ⟨S50000, .f32⟩
  | 126 => ⟨S50000, .f32⟩
  | 127 => ⟨S50000x1, .f32⟩
  | _ => ⟨S100000x128, .f32⟩

abbrev hbmTy0_4 (i : Nat) : BufTy := match i % 128 with
  | 0 => ⟨S50000x32, .f32⟩
  | 1 => ⟨S50000x32, .f32⟩
  | 2 => ⟨S50000x32, .f32⟩
  | 3 => ⟨S_, .f32⟩
  | 4 => ⟨S50000, .f32⟩
  | 5 => ⟨S50000x1, .f32⟩
  | 6 => ⟨S50000x1, .f32⟩
  | 7 => ⟨S50000x32, .f32⟩
  | 8 => ⟨S50000x32, .f32⟩
  | 9 => ⟨S1x1x1600000, .i32⟩
  | 10 => ⟨S1600000, .i32⟩
  | 11 => ⟨S1x1x1600000, .i32⟩
  | 12 => ⟨S1600000, .i32⟩
  | 13 => ⟨S1x128x64, .f32⟩
  | 14 => ⟨S128x64, .f32⟩
  | 15 => ⟨S1x64, .f32⟩
  | 16 => ⟨S64, .f32⟩
  | 17 => ⟨S1, .f32⟩
  | 18 => ⟨S_, .f32⟩
  | 19 => ⟨S100000x64, .f32⟩
  | 20 => ⟨S1x64, .f32⟩
  | 21 => ⟨S100000x64, .f32⟩
  | 22 => ⟨S100000x64, .f32⟩
  | 23 => ⟨S_, .f32⟩
  | 24 => ⟨S1600000, .f32⟩
  | 25 => ⟨S_, .f32⟩
  | 26 => ⟨S100000, .f32⟩
  | 27 => ⟨S1600000x1, .i32⟩
  | 28 => ⟨S100000, .f32⟩
  | 29 => ⟨S_, .f32⟩
  | 30 => ⟨S100000, .f32⟩
  | 31 => ⟨S100000, .f32⟩
  | 32 => ⟨S100000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000, .f32⟩
  | 51 => ⟨S1600000, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x64, .f32⟩
  | 61 => ⟨S1600000x1, .f32⟩
  | 62 => ⟨S1600000x64, .f32⟩
  | 63 => ⟨S1600000x64, .f32⟩
  | 64 => ⟨S_, .f32⟩
  | 65 => ⟨S100000x64, .f32⟩
  | 66 => ⟨S1600000x1, .i32⟩
  | 67 => ⟨S100000x64, .f32⟩
  | 68 => ⟨S100000x64, .f32⟩
  | 69 => ⟨S100000x64, .f32⟩
  | 70 => ⟨S_, .f32⟩
  | 71 => ⟨S_, .f32⟩
  | 72 => ⟨S100000x64, .f32⟩
  | 73 => ⟨S100000x64, .f32⟩
  | 74 => ⟨S100000x64, .f32⟩
  | 75 => ⟨S1x64, .f32⟩
  | 76 => ⟨S64, .f32⟩
  | 77 => ⟨S1x64, .f32⟩
  | 78 => ⟨S64, .f32⟩
  | 79 => ⟨S_, .f32⟩
  | 80 => ⟨S64, .f32⟩
  | 81 => ⟨S_, .f32⟩
  | 82 => ⟨S64, .f32⟩
  | 83 => ⟨S64, .f32⟩
  | 84 => ⟨S_, .i32⟩
  | 85 => ⟨S_, .f32⟩
  | 86 => ⟨S64, .f32⟩
  | 87 => ⟨S1x64, .f32⟩
  | 88 => ⟨S_, .f32⟩
  | 89 => ⟨S1x64, .f32⟩
  | 90 => ⟨S1x64, .f32⟩
  | 91 => ⟨S100000x64, .f32⟩
  | 92 => ⟨S100000x64, .f32⟩
  | 93 => ⟨S100000x64, .f32⟩
  | 94 => ⟨S_, .f32⟩
  | 95 => ⟨S_, .f32⟩
  | 96 => ⟨S_, .f32⟩
  | 97 => ⟨S_, .f32⟩
  | 98 => ⟨S64, .f32⟩
  | 99 => ⟨S64, .f32⟩
  | 100 => ⟨S64, .f32⟩
  | 101 => ⟨S_, .f32⟩
  | 102 => ⟨S_, .i1⟩
  | 103 => ⟨S_, .f32⟩
  | 104 => ⟨S_, .f32⟩
  | 105 => ⟨S64, .f32⟩
  | 106 => ⟨S64, .f32⟩
  | 107 => ⟨S1x64, .f32⟩
  | 108 => ⟨S100000x64, .f32⟩
  | 109 => ⟨S100000x64, .f32⟩
  | 110 => ⟨S_, .f32⟩
  | 111 => ⟨S64, .f32⟩
  | 112 => ⟨S64, .f32⟩
  | 113 => ⟨S64, .f32⟩
  | 114 => ⟨S1x64, .f32⟩
  | 115 => ⟨S100000x64, .f32⟩
  | 116 => ⟨S100000x64, .f32⟩
  | 117 => ⟨S1x64, .f32⟩
  | 118 => ⟨S100000x64, .f32⟩
  | 119 => ⟨S100000x64, .f32⟩
  | 120 => ⟨S1x64, .f32⟩
  | 121 => ⟨S100000x64, .f32⟩
  | 122 => ⟨S100000x64, .f32⟩
  | 123 => ⟨S_, .f32⟩
  | 124 => ⟨S100000x64, .f32⟩
  | 125 => ⟨S100000x64, .f32⟩
  | 126 => ⟨S1x64x32, .f32⟩
  | 127 => ⟨S64x32, .f32⟩
  | _ => ⟨S100000x128, .f32⟩

abbrev hbmTy0_5 (i : Nat) : BufTy := match i % 128 with
  | 0 => ⟨S1x32, .f32⟩
  | 1 => ⟨S32, .f32⟩
  | 2 => ⟨S1, .f32⟩
  | 3 => ⟨S_, .f32⟩
  | 4 => ⟨S100000x32, .f32⟩
  | 5 => ⟨S1x32, .f32⟩
  | 6 => ⟨S100000x32, .f32⟩
  | 7 => ⟨S100000x32, .f32⟩
  | 8 => ⟨S_, .f32⟩
  | 9 => ⟨S1600000, .f32⟩
  | 10 => ⟨S_, .f32⟩
  | 11 => ⟨S100000, .f32⟩
  | 12 => ⟨S1600000x1, .i32⟩
  | 13 => ⟨S100000, .f32⟩
  | 14 => ⟨S_, .f32⟩
  | 15 => ⟨S100000, .f32⟩
  | 16 => ⟨S100000, .f32⟩
  | 17 => ⟨S100000, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000x32, .f32⟩
  | 46 => ⟨S1600000x1, .f32⟩
  | 47 => ⟨S1600000x32, .f32⟩
  | 48 => ⟨S1600000x32, .f32⟩
  | 49 => ⟨S_, .f32⟩
  | 50 => ⟨S100000x32, .f32⟩
  | 51 => ⟨S1600000x1, .i32⟩
  | 52 => ⟨S100000x32, .f32⟩
  | 53 => ⟨S100000x32, .f32⟩
  | 54 => ⟨S100000x32, .f32⟩
  | 55 => ⟨S_, .f32⟩
  | 56 => ⟨S_, .f32⟩
  | 57 => ⟨S100000x32, .f32⟩
  | 58 => ⟨S100000x32, .f32⟩
  | 59 => ⟨S100000x32, .f32⟩
  | 60 => ⟨S1x32, .f32⟩
  | 61 => ⟨S32, .f32⟩
  | 62 => ⟨S1x32, .f32⟩
  | 63 => ⟨S32, .f32⟩
  | 64 => ⟨S_, .f32⟩
  | 65 => ⟨S32, .f32⟩
  | 66 => ⟨S_, .f32⟩
  | 67 => ⟨S32, .f32⟩
  | 68 => ⟨S32, .f32⟩
  | 69 => ⟨S_, .i32⟩
  | 70 => ⟨S_, .f32⟩
  | 71 => ⟨S32, .f32⟩
  | 72 => ⟨S1x32, .f32⟩
  | 73 => ⟨S_, .f32⟩
  | 74 => ⟨S1x32, .f32⟩
  | 75 => ⟨S1x32, .f32⟩
  | 76 => ⟨S100000x32, .f32⟩
  | 77 => ⟨S100000x32, .f32⟩
  | 78 => ⟨S100000x32, .f32⟩
  | 79 => ⟨S_, .f32⟩
  | 80 => ⟨S_, .f32⟩
  | 81 => ⟨S_, .f32⟩
  | 82 => ⟨S_, .f32⟩
  | 83 => ⟨S32, .f32⟩
  | 84 => ⟨S32, .f32⟩
  | 85 => ⟨S32, .f32⟩
  | 86 => ⟨S_, .f32⟩
  | 87 => ⟨S_, .i1⟩
  | 88 => ⟨S_, .f32⟩
  | 89 => ⟨S_, .f32⟩
  | 90 => ⟨S32, .f32⟩
  | 91 => ⟨S32, .f32⟩
  | 92 => ⟨S1x32, .f32⟩
  | 93 => ⟨S100000x32, .f32⟩
  | 94 => ⟨S100000x32, .f32⟩
  | 95 => ⟨S_, .f32⟩
  | 96 => ⟨S32, .f32⟩
  | 97 => ⟨S32, .f32⟩
  | 98 => ⟨S32, .f32⟩
  | 99 => ⟨S1x32, .f32⟩
  | 100 => ⟨S100000x32, .f32⟩
  | 101 => ⟨S100000x32, .f32⟩
  | 102 => ⟨S1x32, .f32⟩
  | 103 => ⟨S100000x32, .f32⟩
  | 104 => ⟨S100000x32, .f32⟩
  | 105 => ⟨S1x32, .f32⟩
  | 106 => ⟨S100000x32, .f32⟩
  | 107 => ⟨S100000x32, .f32⟩
  | 108 => ⟨S_, .f32⟩
  | 109 => ⟨S100000x32, .f32⟩
  | 110 => ⟨S100000x32, .f32⟩
  | 111 => ⟨S_, .i32⟩
  | 112 => ⟨S50000, .i32⟩
  | 113 => ⟨S50000, .i1⟩
  | 114 => ⟨S_, .i32⟩
  | 115 => ⟨S50000, .i32⟩
  | 116 => ⟨S50000, .i32⟩
  | 117 => ⟨S50000, .i32⟩
  | 118 => ⟨S50000x1, .i32⟩
  | 119 => ⟨S50000x32, .f32⟩
  | 120 => ⟨S_, .f32⟩
  | 121 => ⟨S50000, .f32⟩
  | 122 => ⟨S_, .f32⟩
  | 123 => ⟨S50000, .f32⟩
  | 124 => ⟨S50000, .f32⟩
  | 125 => ⟨S50000x1, .f32⟩
  | 126 => ⟨S50000x32, .f32⟩
  | 127 => ⟨S50000x32, .f32⟩
  | _ => ⟨S100000x128, .f32⟩

abbrev hbmTy0_6 (i : Nat) : BufTy := match i % 128 with
  | 0 => ⟨S50000x32, .f32⟩
  | 1 => ⟨S_, .f32⟩
  | 2 => ⟨S50000, .f32⟩
  | 3 => ⟨S50000x1, .f32⟩
  | 4 => ⟨S50000x1, .f32⟩
  | 5 => ⟨S50000x32, .f32⟩
  | 6 => ⟨S50000x32, .f32⟩
  | 7 => ⟨S50000x1x32, .f32⟩
  | 8 => ⟨S50000x1x32, .f32⟩
  | 9 => ⟨S50000x1x32, .f32⟩
  | 10 => ⟨S50000x3x32, .f32⟩
  | 11 => ⟨S50000x96, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c : Ref sig .tc := ⟨.hbm, 37, rfl⟩
abbrev main_v21 : Ref sig .tc := ⟨.hbm, 38, rfl⟩
abbrev main_v22 : Ref sig .tc := ⟨.hbm, 39, rfl⟩
abbrev main_c_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_3 : Ref sig .tc := ⟨.hbm, 46, rfl⟩
abbrev main_v28 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_5 : Ref sig .tc := ⟨.hbm, 56, rfl⟩
abbrev main_v36 : Ref sig .tc := ⟨.hbm, 57, rfl⟩
abbrev main_v37 : Ref sig .tc := ⟨.hbm, 58, rfl⟩
abbrev main_c_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_8 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_9 : Ref sig .tc := ⟨.hbm, 83, rfl⟩
abbrev main_v59 : Ref sig .tc := ⟨.hbm, 84, rfl⟩
abbrev main_cst_10 : Ref sig .tc := ⟨.hbm, 85, rfl⟩
abbrev main_v60 : Ref sig .tc := ⟨.hbm, 86, rfl⟩
abbrev main_v61 : Ref sig .tc := ⟨.hbm, 87, rfl⟩
abbrev main_c_11 : Ref sig .tc := ⟨.hbm, 88, rfl⟩
abbrev main_call0_cst : Ref sig .tc := ⟨.hbm, 89, rfl⟩
abbrev main_call0_v0 : Ref sig .tc := ⟨.hbm, 90, rfl⟩
abbrev main_call0_v1 : Ref sig .tc := ⟨.hbm, 91, rfl⟩
abbrev main_call0_cst_0 : Ref sig .tc := ⟨.hbm, 92, rfl⟩
abbrev main_call0_v2 : Ref sig .tc := ⟨.hbm, 93, rfl⟩
abbrev main_call0_v3 : Ref sig .tc := ⟨.hbm, 94, rfl⟩
abbrev main_call0_v4 : Ref sig .tc := ⟨.hbm, 95, rfl⟩
abbrev main_call0_v5 : Ref sig .tc := ⟨.hbm, 96, rfl⟩
abbrev main_call0_v6 : Ref sig .tc := ⟨.hbm, 97, rfl⟩
abbrev main_call0_v7 : Ref sig .tc := ⟨.hbm, 98, rfl⟩
abbrev main_call0_cst_1 : Ref sig .tc := ⟨.hbm, 99, rfl⟩
abbrev main_call0_v8 : Ref sig .tc := ⟨.hbm, 100, rfl⟩
abbrev main_call0_cst_2 : Ref sig .tc := ⟨.hbm, 101, rfl⟩
abbrev main_call0_v9 : Ref sig .tc := ⟨.hbm, 102, rfl⟩
abbrev main_call0_v10 : Ref sig .tc := ⟨.hbm, 103, rfl⟩
abbrev main_call0_v11 : Ref sig .tc := ⟨.hbm, 104, rfl⟩
abbrev main_call0_cst_3 : Ref sig .tc := ⟨.hbm, 105, rfl⟩
abbrev main_call0_v12 : Ref sig .tc := ⟨.hbm, 106, rfl⟩
abbrev main_call0_cst_4 : Ref sig .tc := ⟨.hbm, 107, rfl⟩
abbrev main_call0_call0_v0 : Ref sig .tc := ⟨.hbm, 108, rfl⟩
abbrev main_call0_call0_v1 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_cst_12 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_call1_cst : Ref sig .tc := ⟨.hbm, 127, rfl⟩
abbrev main_call1_v0 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_cst_13 : Ref sig .tc := ⟨.hbm, 140, rfl⟩
abbrev main_v89 : Ref sig .tc := ⟨.hbm, 141, rfl⟩
abbrev main_cst_14 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_cst_15 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_c_16 : Ref sig .tc := ⟨.hbm, 150, rfl⟩
abbrev main_v96 : Ref sig .tc := ⟨.hbm, 151, rfl⟩
abbrev main_v97 : Ref sig .tc := ⟨.hbm, 152, rfl⟩
abbrev main_c_17 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_c_18 : Ref sig .tc := ⟨.hbm, 159, rfl⟩
abbrev main_v103 : Ref sig .tc := ⟨.hbm, 160, rfl⟩
abbrev main_v104 : Ref sig .tc := ⟨.hbm, 161, rfl⟩
abbrev main_c_19 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_c_20 : Ref sig .tc := ⟨.hbm, 169, rfl⟩
abbrev main_v111 : Ref sig .tc := ⟨.hbm, 170, rfl⟩
abbrev main_v112 : Ref sig .tc := ⟨.hbm, 171, rfl⟩
abbrev main_c_21 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_cst_22 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_cst_23 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_cst_24 : Ref sig .tc := ⟨.hbm, 196, rfl⟩
abbrev main_v134 : Ref sig .tc := ⟨.hbm, 197, rfl⟩
abbrev main_cst_25 : Ref sig .tc := ⟨.hbm, 198, rfl⟩
abbrev main_v135 : Ref sig .tc := ⟨.hbm, 199, rfl⟩
abbrev main_v136 : Ref sig .tc := ⟨.hbm, 200, rfl⟩
abbrev main_c_26 : Ref sig .tc := ⟨.hbm, 201, rfl⟩
abbrev main_call2_cst : Ref sig .tc := ⟨.hbm, 202, rfl⟩
abbrev main_call2_v0 : Ref sig .tc := ⟨.hbm, 203, rfl⟩
abbrev main_call2_v1 : Ref sig .tc := ⟨.hbm, 204, rfl⟩
abbrev main_call2_cst_0 : Ref sig .tc := ⟨.hbm, 205, rfl⟩
abbrev main_call2_v2 : Ref sig .tc := ⟨.hbm, 206, rfl⟩
abbrev main_call2_v3 : Ref sig .tc := ⟨.hbm, 207, rfl⟩
abbrev main_call2_v4 : Ref sig .tc := ⟨.hbm, 208, rfl⟩
abbrev main_call2_v5 : Ref sig .tc := ⟨.hbm, 209, rfl⟩
abbrev main_call2_v6 : Ref sig .tc := ⟨.hbm, 210, rfl⟩
abbrev main_call2_v7 : Ref sig .tc := ⟨.hbm, 211, rfl⟩
abbrev main_call2_cst_1 : Ref sig .tc := ⟨.hbm, 212, rfl⟩
abbrev main_call2_v8 : Ref sig .tc := ⟨.hbm, 213, rfl⟩
abbrev main_call2_cst_2 : Ref sig .tc := ⟨.hbm, 214, rfl⟩
abbrev main_call2_v9 : Ref sig .tc := ⟨.hbm, 215, rfl⟩
abbrev main_call2_v10 : Ref sig .tc := ⟨.hbm, 216, rfl⟩
abbrev main_call2_v11 : Ref sig .tc := ⟨.hbm, 217, rfl⟩
abbrev main_call2_cst_3 : Ref sig .tc := ⟨.hbm, 218, rfl⟩
abbrev main_call2_v12 : Ref sig .tc := ⟨.hbm, 219, rfl⟩
abbrev main_call2_cst_4 : Ref sig .tc := ⟨.hbm, 220, rfl⟩
abbrev main_call2_call0_v0 : Ref sig .tc := ⟨.hbm, 221, rfl⟩
abbrev main_call2_call0_v1 : Ref sig .tc := ⟨.hbm, 222, rfl⟩
abbrev main_v137 : Ref sig .tc := ⟨.hbm, 223, rfl⟩
abbrev main_v138 : Ref sig .tc := ⟨.hbm, 224, rfl⟩
abbrev main_v139 : Ref sig .tc := ⟨.hbm, 225, rfl⟩
abbrev main_v140 : Ref sig .tc := ⟨.hbm, 226, rfl⟩
abbrev main_cst_27 : Ref sig .tc := ⟨.hbm, 227, rfl⟩
abbrev main_v141 : Ref sig .tc := ⟨.hbm, 228, rfl⟩
abbrev main_v142 : Ref sig .tc := ⟨.hbm, 229, rfl⟩
abbrev main_v143 : Ref sig .tc := ⟨.hbm, 230, rfl⟩
abbrev main_v144 : Ref sig .tc := ⟨.hbm, 231, rfl⟩
abbrev main_v145 : Ref sig .tc := ⟨.hbm, 232, rfl⟩
abbrev main_v146 : Ref sig .tc := ⟨.hbm, 233, rfl⟩
abbrev main_v147 : Ref sig .tc := ⟨.hbm, 234, rfl⟩
abbrev main_v148 : Ref sig .tc := ⟨.hbm, 235, rfl⟩
abbrev main_v149 : Ref sig .tc := ⟨.hbm, 236, rfl⟩
abbrev main_v150 : Ref sig .tc := ⟨.hbm, 237, rfl⟩
abbrev main_v151 : Ref sig .tc := ⟨.hbm, 238, rfl⟩
abbrev main_v152 : Ref sig .tc := ⟨.hbm, 239, rfl⟩
abbrev main_call3_cst : Ref sig .tc := ⟨.hbm, 240, rfl⟩
abbrev main_call3_v0 : Ref sig .tc := ⟨.hbm, 241, rfl⟩
abbrev main_v153 : Ref sig .tc := ⟨.hbm, 242, rfl⟩
abbrev main_c_28 : Ref sig .tc := ⟨.hbm, 243, rfl⟩
abbrev main_v154 : Ref sig .tc := ⟨.hbm, 244, rfl⟩
abbrev main_v155 : Ref sig .tc := ⟨.hbm, 245, rfl⟩
abbrev main_c_29 : Ref sig .tc := ⟨.hbm, 246, rfl⟩
abbrev main_v156 : Ref sig .tc := ⟨.hbm, 247, rfl⟩
abbrev main_v157 : Ref sig .tc := ⟨.hbm, 248, rfl⟩
abbrev main_v158 : Ref sig .tc := ⟨.hbm, 249, rfl⟩
abbrev main_v159 : Ref sig .tc := ⟨.hbm, 250, rfl⟩
abbrev main_v160 : Ref sig .tc := ⟨.hbm, 251, rfl⟩
abbrev main_call4_cst : Ref sig .tc := ⟨.hbm, 252, rfl⟩
abbrev main_call4_v0 : Ref sig .tc := ⟨.hbm, 253, rfl⟩
abbrev main_call4_cst_0 : Ref sig .tc := ⟨.hbm, 254, rfl⟩
abbrev main_call4_v1 : Ref sig .tc := ⟨.hbm, 255, rfl⟩
abbrev main_call4_v2 : Ref sig .tc := ⟨.hbm, 256, rfl⟩
abbrev main_call4_v3 : Ref sig .tc := ⟨.hbm, 257, rfl⟩
abbrev main_call4_v4 : Ref sig .tc := ⟨.hbm, 258, rfl⟩
abbrev main_call4_v5 : Ref sig .tc := ⟨.hbm, 259, rfl⟩
abbrev main_call4_v6 : Ref sig .tc := ⟨.hbm, 260, rfl⟩
abbrev main_call4_cst_1 : Ref sig .tc := ⟨.hbm, 261, rfl⟩
abbrev main_call4_v7 : Ref sig .tc := ⟨.hbm, 262, rfl⟩
abbrev main_call4_v8 : Ref sig .tc := ⟨.hbm, 263, rfl⟩
abbrev main_call4_v9 : Ref sig .tc := ⟨.hbm, 264, rfl⟩
abbrev main_call4_v10 : Ref sig .tc := ⟨.hbm, 265, rfl⟩
abbrev main_v161 : Ref sig .tc := ⟨.hbm, 266, rfl⟩
abbrev main_v162 : Ref sig .tc := ⟨.hbm, 267, rfl⟩
abbrev main_v163 : Ref sig .tc := ⟨.hbm, 268, rfl⟩
abbrev main_v164 : Ref sig .tc := ⟨.hbm, 269, rfl⟩
abbrev main_v165 : Ref sig .tc := ⟨.hbm, 270, rfl⟩
abbrev main_v166 : Ref sig .tc := ⟨.hbm, 271, rfl⟩
abbrev main_v167 : Ref sig .tc := ⟨.hbm, 272, rfl⟩
abbrev main_v168 : Ref sig .tc := ⟨.hbm, 273, rfl⟩
abbrev main_v169 : Ref sig .tc := ⟨.hbm, 274, rfl⟩
abbrev main_v170 : Ref sig .tc := ⟨.hbm, 275, rfl⟩
abbrev main_v171 : Ref sig .tc := ⟨.hbm, 276, rfl⟩
abbrev main_v172 : Ref sig .tc := ⟨.hbm, 277, rfl⟩
abbrev main_v173 : Ref sig .tc := ⟨.hbm, 278, rfl⟩
abbrev main_v174 : Ref sig .tc := ⟨.hbm, 279, rfl⟩
abbrev main_v175 : Ref sig .tc := ⟨.hbm, 280, rfl⟩
abbrev main_cst_30 : Ref sig .tc := ⟨.hbm, 281, rfl⟩
abbrev main_v176 : Ref sig .tc := ⟨.hbm, 282, rfl⟩
abbrev main_cst_31 : Ref sig .tc := ⟨.hbm, 283, rfl⟩
abbrev main_v177 : Ref sig .tc := ⟨.hbm, 284, rfl⟩
abbrev main_v178 : Ref sig .tc := ⟨.hbm, 285, rfl⟩
abbrev main_v179 : Ref sig .tc := ⟨.hbm, 286, rfl⟩
abbrev main_cst_32 : Ref sig .tc := ⟨.hbm, 287, rfl⟩
abbrev main_v180 : Ref sig .tc := ⟨.hbm, 288, rfl⟩
abbrev main_v181 : Ref sig .tc := ⟨.hbm, 289, rfl⟩
abbrev main_v182 : Ref sig .tc := ⟨.hbm, 290, rfl⟩
abbrev main_c_33 : Ref sig .tc := ⟨.hbm, 291, rfl⟩
abbrev main_v183 : Ref sig .tc := ⟨.hbm, 292, rfl⟩
abbrev main_v184 : Ref sig .tc := ⟨.hbm, 293, rfl⟩
abbrev main_c_34 : Ref sig .tc := ⟨.hbm, 294, rfl⟩
abbrev main_v185 : Ref sig .tc := ⟨.hbm, 295, rfl⟩
abbrev main_v186 : Ref sig .tc := ⟨.hbm, 296, rfl⟩
abbrev main_v187 : Ref sig .tc := ⟨.hbm, 297, rfl⟩
abbrev main_v188 : Ref sig .tc := ⟨.hbm, 298, rfl⟩
abbrev main_v189 : Ref sig .tc := ⟨.hbm, 299, rfl⟩
abbrev main_c_35 : Ref sig .tc := ⟨.hbm, 300, rfl⟩
abbrev main_v190 : Ref sig .tc := ⟨.hbm, 301, rfl⟩
abbrev main_v191 : Ref sig .tc := ⟨.hbm, 302, rfl⟩
abbrev main_c_36 : Ref sig .tc := ⟨.hbm, 303, rfl⟩
abbrev main_v192 : Ref sig .tc := ⟨.hbm, 304, rfl⟩
abbrev main_v193 : Ref sig .tc := ⟨.hbm, 305, rfl⟩
abbrev main_v194 : Ref sig .tc := ⟨.hbm, 306, rfl⟩
abbrev main_v195 : Ref sig .tc := ⟨.hbm, 307, rfl⟩
abbrev main_v196 : Ref sig .tc := ⟨.hbm, 308, rfl⟩
abbrev main_v197 : Ref sig .tc := ⟨.hbm, 309, rfl⟩
abbrev main_c_37 : Ref sig .tc := ⟨.hbm, 310, rfl⟩
abbrev main_v198 : Ref sig .tc := ⟨.hbm, 311, rfl⟩
abbrev main_v199 : Ref sig .tc := ⟨.hbm, 312, rfl⟩
abbrev main_c_38 : Ref sig .tc := ⟨.hbm, 313, rfl⟩
abbrev main_v200 : Ref sig .tc := ⟨.hbm, 314, rfl⟩
abbrev main_v201 : Ref sig .tc := ⟨.hbm, 315, rfl⟩
abbrev main_v202 : Ref sig .tc := ⟨.hbm, 316, rfl⟩
abbrev main_v203 : Ref sig .tc := ⟨.hbm, 317, rfl⟩
abbrev main_v204 : Ref sig .tc := ⟨.hbm, 318, rfl⟩
abbrev main_v205 : Ref sig .tc := ⟨.hbm, 319, rfl⟩
abbrev main_v206 : Ref sig .tc := ⟨.hbm, 320, rfl⟩
abbrev main_v207 : Ref sig .tc := ⟨.hbm, 321, rfl⟩
abbrev main_cst_39 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_v211 : Ref sig .tc := ⟨.hbm, 326, rfl⟩
abbrev main_v212 : Ref sig .tc := ⟨.hbm, 327, rfl⟩
abbrev main_cst_40 : Ref sig .tc := ⟨.hbm, 328, rfl⟩
abbrev main_v213 : Ref sig .tc := ⟨.hbm, 329, rfl⟩
abbrev main_v214 : Ref sig .tc := ⟨.hbm, 330, rfl⟩
abbrev main_v215 : Ref sig .tc := ⟨.hbm, 331, rfl⟩
abbrev main_v216 : Ref sig .tc := ⟨.hbm, 332, rfl⟩
abbrev main_v217 : Ref sig .tc := ⟨.hbm, 333, rfl⟩
abbrev main_v218 : Ref sig .tc := ⟨.hbm, 334, rfl⟩
abbrev main_v219 : Ref sig .tc := ⟨.hbm, 335, rfl⟩
abbrev main_v220 : Ref sig .tc := ⟨.hbm, 336, rfl⟩
abbrev main_cst_41 : Ref sig .tc := ⟨.hbm, 337, rfl⟩
abbrev main_v221 : Ref sig .tc := ⟨.hbm, 338, rfl⟩
abbrev main_cst_42 : Ref sig .tc := ⟨.hbm, 339, rfl⟩
abbrev main_v222 : Ref sig .tc := ⟨.hbm, 340, rfl⟩
abbrev main_v223 : Ref sig .tc := ⟨.hbm, 341, rfl⟩
abbrev main_c_43 : Ref sig .tc := ⟨.hbm, 342, rfl⟩
abbrev main_call5_cst : Ref sig .tc := ⟨.hbm, 343, rfl⟩
abbrev main_call5_v0 : Ref sig .tc := ⟨.hbm, 344, rfl⟩
abbrev main_call5_v1 : Ref sig .tc := ⟨.hbm, 345, rfl⟩
abbrev main_call5_cst_0 : Ref sig .tc := ⟨.hbm, 346, rfl⟩
abbrev main_call5_v2 : Ref sig .tc := ⟨.hbm, 347, rfl⟩
abbrev main_call5_v3 : Ref sig .tc := ⟨.hbm, 348, rfl⟩
abbrev main_call5_v4 : Ref sig .tc := ⟨.hbm, 349, rfl⟩
abbrev main_call5_v5 : Ref sig .tc := ⟨.hbm, 350, rfl⟩
abbrev main_call5_v6 : Ref sig .tc := ⟨.hbm, 351, rfl⟩
abbrev main_call5_v7 : Ref sig .tc := ⟨.hbm, 352, rfl⟩
abbrev main_call5_cst_1 : Ref sig .tc := ⟨.hbm, 353, rfl⟩
abbrev main_call5_v8 : Ref sig .tc := ⟨.hbm, 354, rfl⟩
abbrev main_call5_cst_2 : Ref sig .tc := ⟨.hbm, 355, rfl⟩
abbrev main_call5_v9 : Ref sig .tc := ⟨.hbm, 356, rfl⟩
abbrev main_call5_v10 : Ref sig .tc := ⟨.hbm, 357, rfl⟩
abbrev main_call5_v11 : Ref sig .tc := ⟨.hbm, 358, rfl⟩
abbrev main_call5_cst_3 : Ref sig .tc := ⟨.hbm, 359, rfl⟩
abbrev main_call5_v12 : Ref sig .tc := ⟨.hbm, 360, rfl⟩
abbrev main_call5_cst_4 : Ref sig .tc := ⟨.hbm, 361, rfl⟩
abbrev main_call5_call0_v0 : Ref sig .tc := ⟨.hbm, 362, rfl⟩
abbrev main_call5_call0_v1 : Ref sig .tc := ⟨.hbm, 363, rfl⟩
abbrev main_v224 : Ref sig .tc := ⟨.hbm, 364, rfl⟩
abbrev main_v225 : Ref sig .tc := ⟨.hbm, 365, rfl⟩
abbrev main_v226 : Ref sig .tc := ⟨.hbm, 366, rfl⟩
abbrev main_v227 : Ref sig .tc := ⟨.hbm, 367, rfl⟩
abbrev main_cst_44 : Ref sig .tc := ⟨.hbm, 368, rfl⟩
abbrev main_v228 : Ref sig .tc := ⟨.hbm, 369, rfl⟩
abbrev main_v229 : Ref sig .tc := ⟨.hbm, 370, rfl⟩
abbrev main_v230 : Ref sig .tc := ⟨.hbm, 371, rfl⟩
abbrev main_v231 : Ref sig .tc := ⟨.hbm, 372, rfl⟩
abbrev main_v232 : Ref sig .tc := ⟨.hbm, 373, rfl⟩
abbrev main_v233 : Ref sig .tc := ⟨.hbm, 374, rfl⟩
abbrev main_v234 : Ref sig .tc := ⟨.hbm, 375, rfl⟩
abbrev main_v235 : Ref sig .tc := ⟨.hbm, 376, rfl⟩
abbrev main_v236 : Ref sig .tc := ⟨.hbm, 377, rfl⟩
abbrev main_v237 : Ref sig .tc := ⟨.hbm, 378, rfl⟩
abbrev main_v238 : Ref sig .tc := ⟨.hbm, 379, rfl⟩
abbrev main_v239 : Ref sig .tc := ⟨.hbm, 380, rfl⟩
abbrev main_call6_cst : Ref sig .tc := ⟨.hbm, 381, rfl⟩
abbrev main_call6_v0 : Ref sig .tc := ⟨.hbm, 382, rfl⟩
abbrev main_v240 : Ref sig .tc := ⟨.hbm, 383, rfl⟩
abbrev main_v241 : Ref sig .tc := ⟨.hbm, 384, rfl⟩
abbrev main_v242 : Ref sig .tc := ⟨.hbm, 385, rfl⟩
abbrev main_v243 : Ref sig .tc := ⟨.hbm, 386, rfl⟩
abbrev main_v244 : Ref sig .tc := ⟨.hbm, 387, rfl⟩
abbrev main_v245 : Ref sig .tc := ⟨.hbm, 388, rfl⟩
abbrev main_v246 : Ref sig .tc := ⟨.hbm, 389, rfl⟩
abbrev main_v247 : Ref sig .tc := ⟨.hbm, 390, rfl⟩
abbrev main_v248 : Ref sig .tc := ⟨.hbm, 391, rfl⟩
abbrev main_v249 : Ref sig .tc := ⟨.hbm, 392, rfl⟩
abbrev main_v250 : Ref sig .tc := ⟨.hbm, 393, rfl⟩
abbrev main_cst_45 : Ref sig .tc := ⟨.hbm, 394, rfl⟩
abbrev main_v251 : Ref sig .tc := ⟨.hbm, 395, rfl⟩
abbrev main_cst_46 : Ref sig .tc := ⟨.hbm, 396, rfl⟩
abbrev main_v252 : Ref sig .tc := ⟨.hbm, 397, rfl⟩
abbrev main_v253 : Ref sig .tc := ⟨.hbm, 398, rfl⟩
abbrev main_v254 : Ref sig .tc := ⟨.hbm, 399, rfl⟩
abbrev main_cst_47 : Ref sig .tc := ⟨.hbm, 400, rfl⟩
abbrev main_v255 : Ref sig .tc := ⟨.hbm, 401, rfl⟩
abbrev main_v256 : Ref sig .tc := ⟨.hbm, 402, rfl⟩
abbrev main_v257 : Ref sig .tc := ⟨.hbm, 403, rfl⟩
abbrev main_c_48 : Ref sig .tc := ⟨.hbm, 404, rfl⟩
abbrev main_v258 : Ref sig .tc := ⟨.hbm, 405, rfl⟩
abbrev main_v259 : Ref sig .tc := ⟨.hbm, 406, rfl⟩
abbrev main_c_49 : Ref sig .tc := ⟨.hbm, 407, rfl⟩
abbrev main_v260 : Ref sig .tc := ⟨.hbm, 408, rfl⟩
abbrev main_v261 : Ref sig .tc := ⟨.hbm, 409, rfl⟩
abbrev main_v262 : Ref sig .tc := ⟨.hbm, 410, rfl⟩
abbrev main_v263 : Ref sig .tc := ⟨.hbm, 411, rfl⟩
abbrev main_v264 : Ref sig .tc := ⟨.hbm, 412, rfl⟩
abbrev main_c_50 : Ref sig .tc := ⟨.hbm, 413, rfl⟩
abbrev main_v265 : Ref sig .tc := ⟨.hbm, 414, rfl⟩
abbrev main_v266 : Ref sig .tc := ⟨.hbm, 415, rfl⟩
abbrev main_c_51 : Ref sig .tc := ⟨.hbm, 416, rfl⟩
abbrev main_v267 : Ref sig .tc := ⟨.hbm, 417, rfl⟩
abbrev main_v268 : Ref sig .tc := ⟨.hbm, 418, rfl⟩
abbrev main_v269 : Ref sig .tc := ⟨.hbm, 419, rfl⟩
abbrev main_v270 : Ref sig .tc := ⟨.hbm, 420, rfl⟩
abbrev main_v271 : Ref sig .tc := ⟨.hbm, 421, rfl⟩
abbrev main_v272 : Ref sig .tc := ⟨.hbm, 422, rfl⟩
abbrev main_c_52 : Ref sig .tc := ⟨.hbm, 423, rfl⟩
abbrev main_v273 : Ref sig .tc := ⟨.hbm, 424, rfl⟩
abbrev main_v274 : Ref sig .tc := ⟨.hbm, 425, rfl⟩
abbrev main_c_53 : Ref sig .tc := ⟨.hbm, 426, rfl⟩
abbrev main_v275 : Ref sig .tc := ⟨.hbm, 427, rfl⟩
abbrev main_v276 : Ref sig .tc := ⟨.hbm, 428, rfl⟩
abbrev main_v277 : Ref sig .tc := ⟨.hbm, 429, rfl⟩
abbrev main_v278 : Ref sig .tc := ⟨.hbm, 430, rfl⟩
abbrev main_v279 : Ref sig .tc := ⟨.hbm, 431, rfl⟩
abbrev main_v280 : Ref sig .tc := ⟨.hbm, 432, rfl⟩
abbrev main_v281 : Ref sig .tc := ⟨.hbm, 433, rfl⟩
abbrev main_v282 : Ref sig .tc := ⟨.hbm, 434, rfl⟩
abbrev main_cst_54 : Ref sig .tc := ⟨.hbm, 435, rfl⟩
abbrev main_v283 : Ref sig .tc := ⟨.hbm, 436, rfl⟩
abbrev main_v284 : Ref sig .tc := ⟨.hbm, 437, rfl⟩
abbrev main_v285 : Ref sig .tc := ⟨.hbm, 438, rfl⟩
abbrev main_v286 : Ref sig .tc := ⟨.hbm, 439, rfl⟩
abbrev main_v287 : Ref sig .tc := ⟨.hbm, 440, rfl⟩
abbrev main_cst_55 : Ref sig .tc := ⟨.hbm, 441, rfl⟩
abbrev main_v288 : Ref sig .tc := ⟨.hbm, 442, rfl⟩
abbrev main_v289 : Ref sig .tc := ⟨.hbm, 443, rfl⟩
abbrev main_v290 : Ref sig .tc := ⟨.hbm, 444, rfl⟩
abbrev main_v291 : Ref sig .tc := ⟨.hbm, 445, rfl⟩
abbrev main_v292 : Ref sig .tc := ⟨.hbm, 446, rfl⟩
abbrev main_v293 : Ref sig .tc := ⟨.hbm, 447, rfl⟩
abbrev main_v294 : Ref sig .tc := ⟨.hbm, 448, rfl⟩
abbrev main_v295 : Ref sig .tc := ⟨.hbm, 449, rfl⟩
abbrev main_cst_56 : Ref sig .tc := ⟨.hbm, 450, rfl⟩
abbrev main_v296 : Ref sig .tc := ⟨.hbm, 451, rfl⟩
abbrev main_cst_57 : Ref sig .tc := ⟨.hbm, 452, rfl⟩
abbrev main_v297 : Ref sig .tc := ⟨.hbm, 453, rfl⟩
abbrev main_v298 : Ref sig .tc := ⟨.hbm, 454, rfl⟩
abbrev main_c_58 : Ref sig .tc := ⟨.hbm, 455, rfl⟩
abbrev main_call7_cst : Ref sig .tc := ⟨.hbm, 456, rfl⟩
abbrev main_call7_v0 : Ref sig .tc := ⟨.hbm, 457, rfl⟩
abbrev main_call7_v1 : Ref sig .tc := ⟨.hbm, 458, rfl⟩
abbrev main_call7_cst_0 : Ref sig .tc := ⟨.hbm, 459, rfl⟩
abbrev main_call7_v2 : Ref sig .tc := ⟨.hbm, 460, rfl⟩
abbrev main_call7_v3 : Ref sig .tc := ⟨.hbm, 461, rfl⟩
abbrev main_call7_v4 : Ref sig .tc := ⟨.hbm, 462, rfl⟩
abbrev main_call7_v5 : Ref sig .tc := ⟨.hbm, 463, rfl⟩
abbrev main_call7_v6 : Ref sig .tc := ⟨.hbm, 464, rfl⟩
abbrev main_call7_v7 : Ref sig .tc := ⟨.hbm, 465, rfl⟩
abbrev main_call7_cst_1 : Ref sig .tc := ⟨.hbm, 466, rfl⟩
abbrev main_call7_v8 : Ref sig .tc := ⟨.hbm, 467, rfl⟩
abbrev main_call7_cst_2 : Ref sig .tc := ⟨.hbm, 468, rfl⟩
abbrev main_call7_v9 : Ref sig .tc := ⟨.hbm, 469, rfl⟩
abbrev main_call7_v10 : Ref sig .tc := ⟨.hbm, 470, rfl⟩
abbrev main_call7_v11 : Ref sig .tc := ⟨.hbm, 471, rfl⟩
abbrev main_call7_cst_3 : Ref sig .tc := ⟨.hbm, 472, rfl⟩
abbrev main_call7_v12 : Ref sig .tc := ⟨.hbm, 473, rfl⟩
abbrev main_call7_cst_4 : Ref sig .tc := ⟨.hbm, 474, rfl⟩
abbrev main_call7_call0_v0 : Ref sig .tc := ⟨.hbm, 475, rfl⟩
abbrev main_call7_call0_v1 : Ref sig .tc := ⟨.hbm, 476, rfl⟩
abbrev main_v299 : Ref sig .tc := ⟨.hbm, 477, rfl⟩
abbrev main_v300 : Ref sig .tc := ⟨.hbm, 478, rfl⟩
abbrev main_v301 : Ref sig .tc := ⟨.hbm, 479, rfl⟩
abbrev main_v302 : Ref sig .tc := ⟨.hbm, 480, rfl⟩
abbrev main_cst_59 : Ref sig .tc := ⟨.hbm, 481, rfl⟩
abbrev main_v303 : Ref sig .tc := ⟨.hbm, 482, rfl⟩
abbrev main_v304 : Ref sig .tc := ⟨.hbm, 483, rfl⟩
abbrev main_v305 : Ref sig .tc := ⟨.hbm, 484, rfl⟩
abbrev main_v306 : Ref sig .tc := ⟨.hbm, 485, rfl⟩
abbrev main_v307 : Ref sig .tc := ⟨.hbm, 486, rfl⟩
abbrev main_v308 : Ref sig .tc := ⟨.hbm, 487, rfl⟩
abbrev main_v309 : Ref sig .tc := ⟨.hbm, 488, rfl⟩
abbrev main_v310 : Ref sig .tc := ⟨.hbm, 489, rfl⟩
abbrev main_v311 : Ref sig .tc := ⟨.hbm, 490, rfl⟩
abbrev main_v312 : Ref sig .tc := ⟨.hbm, 491, rfl⟩
abbrev main_v313 : Ref sig .tc := ⟨.hbm, 492, rfl⟩
abbrev main_v314 : Ref sig .tc := ⟨.hbm, 493, rfl⟩
abbrev main_call8_cst : Ref sig .tc := ⟨.hbm, 494, rfl⟩
abbrev main_call8_v0 : Ref sig .tc := ⟨.hbm, 495, rfl⟩
abbrev main_v315 : Ref sig .tc := ⟨.hbm, 496, rfl⟩
abbrev main_c_60 : Ref sig .tc := ⟨.hbm, 497, rfl⟩
abbrev main_v316 : Ref sig .tc := ⟨.hbm, 498, rfl⟩
abbrev main_v317 : Ref sig .tc := ⟨.hbm, 499, rfl⟩
abbrev main_c_61 : Ref sig .tc := ⟨.hbm, 500, rfl⟩
abbrev main_v318 : Ref sig .tc := ⟨.hbm, 501, rfl⟩
abbrev main_v319 : Ref sig .tc := ⟨.hbm, 502, rfl⟩
abbrev main_v320 : Ref sig .tc := ⟨.hbm, 503, rfl⟩
abbrev main_v321 : Ref sig .tc := ⟨.hbm, 504, rfl⟩
abbrev main_v322 : Ref sig .tc := ⟨.hbm, 505, rfl⟩
abbrev main_call9_cst : Ref sig .tc := ⟨.hbm, 506, rfl⟩
abbrev main_call9_v0 : Ref sig .tc := ⟨.hbm, 507, rfl⟩
abbrev main_call9_cst_0 : Ref sig .tc := ⟨.hbm, 508, rfl⟩
abbrev main_call9_v1 : Ref sig .tc := ⟨.hbm, 509, rfl⟩
abbrev main_call9_v2 : Ref sig .tc := ⟨.hbm, 510, rfl⟩
abbrev main_call9_v3 : Ref sig .tc := ⟨.hbm, 511, rfl⟩
abbrev main_call9_v4 : Ref sig .tc := ⟨.hbm, 512, rfl⟩
abbrev main_call9_v5 : Ref sig .tc := ⟨.hbm, 513, rfl⟩
abbrev main_call9_v6 : Ref sig .tc := ⟨.hbm, 514, rfl⟩
abbrev main_call9_cst_1 : Ref sig .tc := ⟨.hbm, 515, rfl⟩
abbrev main_call9_v7 : Ref sig .tc := ⟨.hbm, 516, rfl⟩
abbrev main_call9_v8 : Ref sig .tc := ⟨.hbm, 517, rfl⟩
abbrev main_call9_v9 : Ref sig .tc := ⟨.hbm, 518, rfl⟩
abbrev main_call9_v10 : Ref sig .tc := ⟨.hbm, 519, rfl⟩
abbrev main_v323 : Ref sig .tc := ⟨.hbm, 520, rfl⟩
abbrev main_v324 : Ref sig .tc := ⟨.hbm, 521, rfl⟩
abbrev main_v325 : Ref sig .tc := ⟨.hbm, 522, rfl⟩
abbrev main_v326 : Ref sig .tc := ⟨.hbm, 523, rfl⟩
abbrev main_v327 : Ref sig .tc := ⟨.hbm, 524, rfl⟩
abbrev main_v328 : Ref sig .tc := ⟨.hbm, 525, rfl⟩
abbrev main_v329 : Ref sig .tc := ⟨.hbm, 526, rfl⟩
abbrev main_v330 : Ref sig .tc := ⟨.hbm, 527, rfl⟩
abbrev main_v331 : Ref sig .tc := ⟨.hbm, 528, rfl⟩
abbrev main_v332 : Ref sig .tc := ⟨.hbm, 529, rfl⟩
abbrev main_v333 : Ref sig .tc := ⟨.hbm, 530, rfl⟩
abbrev main_v334 : Ref sig .tc := ⟨.hbm, 531, rfl⟩
abbrev main_v335 : Ref sig .tc := ⟨.hbm, 532, rfl⟩
abbrev main_v336 : Ref sig .tc := ⟨.hbm, 533, rfl⟩
abbrev main_v337 : Ref sig .tc := ⟨.hbm, 534, rfl⟩
abbrev main_cst_62 : Ref sig .tc := ⟨.hbm, 535, rfl⟩
abbrev main_v338 : Ref sig .tc := ⟨.hbm, 536, rfl⟩
abbrev main_cst_63 : Ref sig .tc := ⟨.hbm, 537, rfl⟩
abbrev main_v339 : Ref sig .tc := ⟨.hbm, 538, rfl⟩
abbrev main_v340 : Ref sig .tc := ⟨.hbm, 539, rfl⟩
abbrev main_v341 : Ref sig .tc := ⟨.hbm, 540, rfl⟩
abbrev main_cst_64 : Ref sig .tc := ⟨.hbm, 541, rfl⟩
abbrev main_v342 : Ref sig .tc := ⟨.hbm, 542, rfl⟩
abbrev main_v343 : Ref sig .tc := ⟨.hbm, 543, rfl⟩
abbrev main_v344 : Ref sig .tc := ⟨.hbm, 544, rfl⟩
abbrev main_c_65 : Ref sig .tc := ⟨.hbm, 545, rfl⟩
abbrev main_v345 : Ref sig .tc := ⟨.hbm, 546, rfl⟩
abbrev main_v346 : Ref sig .tc := ⟨.hbm, 547, rfl⟩
abbrev main_c_66 : Ref sig .tc := ⟨.hbm, 548, rfl⟩
abbrev main_v347 : Ref sig .tc := ⟨.hbm, 549, rfl⟩
abbrev main_v348 : Ref sig .tc := ⟨.hbm, 550, rfl⟩
abbrev main_v349 : Ref sig .tc := ⟨.hbm, 551, rfl⟩
abbrev main_v350 : Ref sig .tc := ⟨.hbm, 552, rfl⟩
abbrev main_v351 : Ref sig .tc := ⟨.hbm, 553, rfl⟩
abbrev main_c_67 : Ref sig .tc := ⟨.hbm, 554, rfl⟩
abbrev main_v352 : Ref sig .tc := ⟨.hbm, 555, rfl⟩
abbrev main_v353 : Ref sig .tc := ⟨.hbm, 556, rfl⟩
abbrev main_c_68 : Ref sig .tc := ⟨.hbm, 557, rfl⟩
abbrev main_v354 : Ref sig .tc := ⟨.hbm, 558, rfl⟩
abbrev main_v355 : Ref sig .tc := ⟨.hbm, 559, rfl⟩
abbrev main_v356 : Ref sig .tc := ⟨.hbm, 560, rfl⟩
abbrev main_v357 : Ref sig .tc := ⟨.hbm, 561, rfl⟩
abbrev main_v358 : Ref sig .tc := ⟨.hbm, 562, rfl⟩
abbrev main_v359 : Ref sig .tc := ⟨.hbm, 563, rfl⟩
abbrev main_c_69 : Ref sig .tc := ⟨.hbm, 564, rfl⟩
abbrev main_v360 : Ref sig .tc := ⟨.hbm, 565, rfl⟩
abbrev main_v361 : Ref sig .tc := ⟨.hbm, 566, rfl⟩
abbrev main_c_70 : Ref sig .tc := ⟨.hbm, 567, rfl⟩
abbrev main_v362 : Ref sig .tc := ⟨.hbm, 568, rfl⟩
abbrev main_v363 : Ref sig .tc := ⟨.hbm, 569, rfl⟩
abbrev main_v364 : Ref sig .tc := ⟨.hbm, 570, rfl⟩
abbrev main_v365 : Ref sig .tc := ⟨.hbm, 571, rfl⟩
abbrev main_v366 : Ref sig .tc := ⟨.hbm, 572, rfl⟩
abbrev main_v367 : Ref sig .tc := ⟨.hbm, 573, rfl⟩
abbrev main_v368 : Ref sig .tc := ⟨.hbm, 574, rfl⟩
abbrev main_v369 : Ref sig .tc := ⟨.hbm, 575, rfl⟩
abbrev main_cst_71 : Ref sig .tc := ⟨.hbm, 576, rfl⟩
abbrev main_v370 : Ref sig .tc := ⟨.hbm, 577, rfl⟩
abbrev main_v371 : Ref sig .tc := ⟨.hbm, 578, rfl⟩
abbrev main_v372 : Ref sig .tc := ⟨.hbm, 579, rfl⟩
abbrev main_v373 : Ref sig .tc := ⟨.hbm, 580, rfl⟩
abbrev main_v374 : Ref sig .tc := ⟨.hbm, 581, rfl⟩
abbrev main_cst_72 : Ref sig .tc := ⟨.hbm, 582, rfl⟩
abbrev main_v375 : Ref sig .tc := ⟨.hbm, 583, rfl⟩
abbrev main_v376 : Ref sig .tc := ⟨.hbm, 584, rfl⟩
abbrev main_v377 : Ref sig .tc := ⟨.hbm, 585, rfl⟩
abbrev main_v378 : Ref sig .tc := ⟨.hbm, 586, rfl⟩
abbrev main_v379 : Ref sig .tc := ⟨.hbm, 587, rfl⟩
abbrev main_v380 : Ref sig .tc := ⟨.hbm, 588, rfl⟩
abbrev main_v381 : Ref sig .tc := ⟨.hbm, 589, rfl⟩
abbrev main_v382 : Ref sig .tc := ⟨.hbm, 590, rfl⟩
abbrev main_cst_73 : Ref sig .tc := ⟨.hbm, 591, rfl⟩
abbrev main_v383 : Ref sig .tc := ⟨.hbm, 592, rfl⟩
abbrev main_cst_74 : Ref sig .tc := ⟨.hbm, 593, rfl⟩
abbrev main_v384 : Ref sig .tc := ⟨.hbm, 594, rfl⟩
abbrev main_v385 : Ref sig .tc := ⟨.hbm, 595, rfl⟩
abbrev main_c_75 : Ref sig .tc := ⟨.hbm, 596, rfl⟩
abbrev main_call10_cst : Ref sig .tc := ⟨.hbm, 597, rfl⟩
abbrev main_call10_v0 : Ref sig .tc := ⟨.hbm, 598, rfl⟩
abbrev main_call10_v1 : Ref sig .tc := ⟨.hbm, 599, rfl⟩
abbrev main_call10_cst_0 : Ref sig .tc := ⟨.hbm, 600, rfl⟩
abbrev main_call10_v2 : Ref sig .tc := ⟨.hbm, 601, rfl⟩
abbrev main_call10_v3 : Ref sig .tc := ⟨.hbm, 602, rfl⟩
abbrev main_call10_v4 : Ref sig .tc := ⟨.hbm, 603, rfl⟩
abbrev main_call10_v5 : Ref sig .tc := ⟨.hbm, 604, rfl⟩
abbrev main_call10_v6 : Ref sig .tc := ⟨.hbm, 605, rfl⟩
abbrev main_call10_v7 : Ref sig .tc := ⟨.hbm, 606, rfl⟩
abbrev main_call10_cst_1 : Ref sig .tc := ⟨.hbm, 607, rfl⟩
abbrev main_call10_v8 : Ref sig .tc := ⟨.hbm, 608, rfl⟩
abbrev main_call10_cst_2 : Ref sig .tc := ⟨.hbm, 609, rfl⟩
abbrev main_call10_v9 : Ref sig .tc := ⟨.hbm, 610, rfl⟩
abbrev main_call10_v10 : Ref sig .tc := ⟨.hbm, 611, rfl⟩
abbrev main_call10_v11 : Ref sig .tc := ⟨.hbm, 612, rfl⟩
abbrev main_call10_cst_3 : Ref sig .tc := ⟨.hbm, 613, rfl⟩
abbrev main_call10_v12 : Ref sig .tc := ⟨.hbm, 614, rfl⟩
abbrev main_call10_cst_4 : Ref sig .tc := ⟨.hbm, 615, rfl⟩
abbrev main_call10_call0_v0 : Ref sig .tc := ⟨.hbm, 616, rfl⟩
abbrev main_call10_call0_v1 : Ref sig .tc := ⟨.hbm, 617, rfl⟩
abbrev main_v386 : Ref sig .tc := ⟨.hbm, 618, rfl⟩
abbrev main_v387 : Ref sig .tc := ⟨.hbm, 619, rfl⟩
abbrev main_v388 : Ref sig .tc := ⟨.hbm, 620, rfl⟩
abbrev main_v389 : Ref sig .tc := ⟨.hbm, 621, rfl⟩
abbrev main_cst_76 : Ref sig .tc := ⟨.hbm, 622, rfl⟩
abbrev main_v390 : Ref sig .tc := ⟨.hbm, 623, rfl⟩
abbrev main_v391 : Ref sig .tc := ⟨.hbm, 624, rfl⟩
abbrev main_v392 : Ref sig .tc := ⟨.hbm, 625, rfl⟩
abbrev main_v393 : Ref sig .tc := ⟨.hbm, 626, rfl⟩
abbrev main_v394 : Ref sig .tc := ⟨.hbm, 627, rfl⟩
abbrev main_v395 : Ref sig .tc := ⟨.hbm, 628, rfl⟩
abbrev main_v396 : Ref sig .tc := ⟨.hbm, 629, rfl⟩
abbrev main_v397 : Ref sig .tc := ⟨.hbm, 630, rfl⟩
abbrev main_v398 : Ref sig .tc := ⟨.hbm, 631, rfl⟩
abbrev main_v399 : Ref sig .tc := ⟨.hbm, 632, rfl⟩
abbrev main_v400 : Ref sig .tc := ⟨.hbm, 633, rfl⟩
abbrev main_v401 : Ref sig .tc := ⟨.hbm, 634, rfl⟩
abbrev main_call11_cst : Ref sig .tc := ⟨.hbm, 635, rfl⟩
abbrev main_call11_v0 : Ref sig .tc := ⟨.hbm, 636, rfl⟩
abbrev main_v402 : Ref sig .tc := ⟨.hbm, 637, rfl⟩
abbrev main_v403 : Ref sig .tc := ⟨.hbm, 638, rfl⟩
abbrev main_v404 : Ref sig .tc := ⟨.hbm, 639, rfl⟩
abbrev main_v405 : Ref sig .tc := ⟨.hbm, 640, rfl⟩
abbrev main_v406 : Ref sig .tc := ⟨.hbm, 641, rfl⟩
abbrev main_v407 : Ref sig .tc := ⟨.hbm, 642, rfl⟩
abbrev main_v408 : Ref sig .tc := ⟨.hbm, 643, rfl⟩
abbrev main_v409 : Ref sig .tc := ⟨.hbm, 644, rfl⟩
abbrev main_v410 : Ref sig .tc := ⟨.hbm, 645, rfl⟩
abbrev main_v411 : Ref sig .tc := ⟨.hbm, 646, rfl⟩
abbrev main_v412 : Ref sig .tc := ⟨.hbm, 647, rfl⟩
abbrev main_cst_77 : Ref sig .tc := ⟨.hbm, 648, rfl⟩
abbrev main_v413 : Ref sig .tc := ⟨.hbm, 649, rfl⟩
abbrev main_cst_78 : Ref sig .tc := ⟨.hbm, 650, rfl⟩
abbrev main_v414 : Ref sig .tc := ⟨.hbm, 651, rfl⟩
abbrev main_v415 : Ref sig .tc := ⟨.hbm, 652, rfl⟩
abbrev main_v416 : Ref sig .tc := ⟨.hbm, 653, rfl⟩
abbrev main_cst_79 : Ref sig .tc := ⟨.hbm, 654, rfl⟩
abbrev main_v417 : Ref sig .tc := ⟨.hbm, 655, rfl⟩
abbrev main_v418 : Ref sig .tc := ⟨.hbm, 656, rfl⟩
abbrev main_v419 : Ref sig .tc := ⟨.hbm, 657, rfl⟩
abbrev main_c_80 : Ref sig .tc := ⟨.hbm, 658, rfl⟩
abbrev main_v420 : Ref sig .tc := ⟨.hbm, 659, rfl⟩
abbrev main_v421 : Ref sig .tc := ⟨.hbm, 660, rfl⟩
abbrev main_c_81 : Ref sig .tc := ⟨.hbm, 661, rfl⟩
abbrev main_v422 : Ref sig .tc := ⟨.hbm, 662, rfl⟩
abbrev main_v423 : Ref sig .tc := ⟨.hbm, 663, rfl⟩
abbrev main_v424 : Ref sig .tc := ⟨.hbm, 664, rfl⟩
abbrev main_v425 : Ref sig .tc := ⟨.hbm, 665, rfl⟩
abbrev main_v426 : Ref sig .tc := ⟨.hbm, 666, rfl⟩
abbrev main_c_82 : Ref sig .tc := ⟨.hbm, 667, rfl⟩
abbrev main_v427 : Ref sig .tc := ⟨.hbm, 668, rfl⟩
abbrev main_v428 : Ref sig .tc := ⟨.hbm, 669, rfl⟩
abbrev main_c_83 : Ref sig .tc := ⟨.hbm, 670, rfl⟩
abbrev main_v429 : Ref sig .tc := ⟨.hbm, 671, rfl⟩
abbrev main_v430 : Ref sig .tc := ⟨.hbm, 672, rfl⟩
abbrev main_v431 : Ref sig .tc := ⟨.hbm, 673, rfl⟩
abbrev main_v432 : Ref sig .tc := ⟨.hbm, 674, rfl⟩
abbrev main_v433 : Ref sig .tc := ⟨.hbm, 675, rfl⟩
abbrev main_v434 : Ref sig .tc := ⟨.hbm, 676, rfl⟩
abbrev main_c_84 : Ref sig .tc := ⟨.hbm, 677, rfl⟩
abbrev main_v435 : Ref sig .tc := ⟨.hbm, 678, rfl⟩
abbrev main_v436 : Ref sig .tc := ⟨.hbm, 679, rfl⟩
abbrev main_c_85 : Ref sig .tc := ⟨.hbm, 680, rfl⟩
abbrev main_v437 : Ref sig .tc := ⟨.hbm, 681, rfl⟩
abbrev main_v438 : Ref sig .tc := ⟨.hbm, 682, rfl⟩
abbrev main_v439 : Ref sig .tc := ⟨.hbm, 683, rfl⟩
abbrev main_v440 : Ref sig .tc := ⟨.hbm, 684, rfl⟩
abbrev main_v441 : Ref sig .tc := ⟨.hbm, 685, rfl⟩
abbrev main_v442 : Ref sig .tc := ⟨.hbm, 686, rfl⟩
abbrev main_v443 : Ref sig .tc := ⟨.hbm, 687, rfl⟩
abbrev main_v444 : Ref sig .tc := ⟨.hbm, 688, rfl⟩
abbrev main_cst_86 : Ref sig .tc := ⟨.hbm, 689, rfl⟩
abbrev main_v445 : Ref sig .tc := ⟨.hbm, 690, rfl⟩
abbrev main_v446 : Ref sig .tc := ⟨.hbm, 691, rfl⟩
abbrev main_v447 : Ref sig .tc := ⟨.hbm, 692, rfl⟩
abbrev main_v448 : Ref sig .tc := ⟨.hbm, 693, rfl⟩
abbrev main_v449 : Ref sig .tc := ⟨.hbm, 694, rfl⟩
abbrev main_cst_87 : Ref sig .tc := ⟨.hbm, 695, rfl⟩
abbrev main_v450 : Ref sig .tc := ⟨.hbm, 696, rfl⟩
abbrev main_v451 : Ref sig .tc := ⟨.hbm, 697, rfl⟩
abbrev main_v452 : Ref sig .tc := ⟨.hbm, 698, rfl⟩
abbrev main_v453 : Ref sig .tc := ⟨.hbm, 699, rfl⟩
abbrev main_v454 : Ref sig .tc := ⟨.hbm, 700, rfl⟩
abbrev main_v455 : Ref sig .tc := ⟨.hbm, 701, rfl⟩
abbrev main_v456 : Ref sig .tc := ⟨.hbm, 702, rfl⟩
abbrev main_v457 : Ref sig .tc := ⟨.hbm, 703, rfl⟩
abbrev main_cst_88 : Ref sig .tc := ⟨.hbm, 704, rfl⟩
abbrev main_v458 : Ref sig .tc := ⟨.hbm, 705, rfl⟩
abbrev main_cst_89 : Ref sig .tc := ⟨.hbm, 706, rfl⟩
abbrev main_v459 : Ref sig .tc := ⟨.hbm, 707, rfl⟩
abbrev main_v460 : Ref sig .tc := ⟨.hbm, 708, rfl⟩
abbrev main_c_90 : Ref sig .tc := ⟨.hbm, 709, rfl⟩
abbrev main_call12_cst : Ref sig .tc := ⟨.hbm, 710, rfl⟩
abbrev main_call12_v0 : Ref sig .tc := ⟨.hbm, 711, rfl⟩
abbrev main_call12_v1 : Ref sig .tc := ⟨.hbm, 712, rfl⟩
abbrev main_call12_cst_0 : Ref sig .tc := ⟨.hbm, 713, rfl⟩
abbrev main_call12_v2 : Ref sig .tc := ⟨.hbm, 714, rfl⟩
abbrev main_call12_v3 : Ref sig .tc := ⟨.hbm, 715, rfl⟩
abbrev main_call12_v4 : Ref sig .tc := ⟨.hbm, 716, rfl⟩
abbrev main_call12_v5 : Ref sig .tc := ⟨.hbm, 717, rfl⟩
abbrev main_call12_v6 : Ref sig .tc := ⟨.hbm, 718, rfl⟩
abbrev main_call12_v7 : Ref sig .tc := ⟨.hbm, 719, rfl⟩
abbrev main_call12_cst_1 : Ref sig .tc := ⟨.hbm, 720, rfl⟩
abbrev main_call12_v8 : Ref sig .tc := ⟨.hbm, 721, rfl⟩
abbrev main_call12_cst_2 : Ref sig .tc := ⟨.hbm, 722, rfl⟩
abbrev main_call12_v9 : Ref sig .tc := ⟨.hbm, 723, rfl⟩
abbrev main_call12_v10 : Ref sig .tc := ⟨.hbm, 724, rfl⟩
abbrev main_call12_v11 : Ref sig .tc := ⟨.hbm, 725, rfl⟩
abbrev main_call12_cst_3 : Ref sig .tc := ⟨.hbm, 726, rfl⟩
abbrev main_call12_v12 : Ref sig .tc := ⟨.hbm, 727, rfl⟩
abbrev main_call12_cst_4 : Ref sig .tc := ⟨.hbm, 728, rfl⟩
abbrev main_call12_call0_v0 : Ref sig .tc := ⟨.hbm, 729, rfl⟩
abbrev main_call12_call0_v1 : Ref sig .tc := ⟨.hbm, 730, rfl⟩
abbrev main_v461 : Ref sig .tc := ⟨.hbm, 731, rfl⟩
abbrev main_v462 : Ref sig .tc := ⟨.hbm, 732, rfl⟩
abbrev main_v463 : Ref sig .tc := ⟨.hbm, 733, rfl⟩
abbrev main_v464 : Ref sig .tc := ⟨.hbm, 734, rfl⟩
abbrev main_cst_91 : Ref sig .tc := ⟨.hbm, 735, rfl⟩
abbrev main_v465 : Ref sig .tc := ⟨.hbm, 736, rfl⟩
abbrev main_v466 : Ref sig .tc := ⟨.hbm, 737, rfl⟩
abbrev main_v467 : Ref sig .tc := ⟨.hbm, 738, rfl⟩
abbrev main_v468 : Ref sig .tc := ⟨.hbm, 739, rfl⟩
abbrev main_v469 : Ref sig .tc := ⟨.hbm, 740, rfl⟩
abbrev main_v470 : Ref sig .tc := ⟨.hbm, 741, rfl⟩
abbrev main_v471 : Ref sig .tc := ⟨.hbm, 742, rfl⟩
abbrev main_v472 : Ref sig .tc := ⟨.hbm, 743, rfl⟩
abbrev main_v473 : Ref sig .tc := ⟨.hbm, 744, rfl⟩
abbrev main_v474 : Ref sig .tc := ⟨.hbm, 745, rfl⟩
abbrev main_v475 : Ref sig .tc := ⟨.hbm, 746, rfl⟩
abbrev main_v476 : Ref sig .tc := ⟨.hbm, 747, rfl⟩
abbrev main_call13_cst : Ref sig .tc := ⟨.hbm, 748, rfl⟩
abbrev main_call13_v0 : Ref sig .tc := ⟨.hbm, 749, rfl⟩
abbrev main_v477 : Ref sig .tc := ⟨.hbm, 750, rfl⟩
abbrev main_c_92 : Ref sig .tc := ⟨.hbm, 751, rfl⟩
abbrev main_v478 : Ref sig .tc := ⟨.hbm, 752, rfl⟩
abbrev main_v479 : Ref sig .tc := ⟨.hbm, 753, rfl⟩
abbrev main_c_93 : Ref sig .tc := ⟨.hbm, 754, rfl⟩
abbrev main_v480 : Ref sig .tc := ⟨.hbm, 755, rfl⟩
abbrev main_v481 : Ref sig .tc := ⟨.hbm, 756, rfl⟩
abbrev main_v482 : Ref sig .tc := ⟨.hbm, 757, rfl⟩
abbrev main_v483 : Ref sig .tc := ⟨.hbm, 758, rfl⟩
abbrev main_v484 : Ref sig .tc := ⟨.hbm, 759, rfl⟩
abbrev main_call14_cst : Ref sig .tc := ⟨.hbm, 760, rfl⟩
abbrev main_call14_v0 : Ref sig .tc := ⟨.hbm, 761, rfl⟩
abbrev main_call14_cst_0 : Ref sig .tc := ⟨.hbm, 762, rfl⟩
abbrev main_call14_v1 : Ref sig .tc := ⟨.hbm, 763, rfl⟩
abbrev main_call14_v2 : Ref sig .tc := ⟨.hbm, 764, rfl⟩
abbrev main_call14_v3 : Ref sig .tc := ⟨.hbm, 765, rfl⟩
abbrev main_call14_v4 : Ref sig .tc := ⟨.hbm, 766, rfl⟩
abbrev main_call14_v5 : Ref sig .tc := ⟨.hbm, 767, rfl⟩
abbrev main_call14_v6 : Ref sig .tc := ⟨.hbm, 768, rfl⟩
abbrev main_call14_cst_1 : Ref sig .tc := ⟨.hbm, 769, rfl⟩
abbrev main_call14_v7 : Ref sig .tc := ⟨.hbm, 770, rfl⟩
abbrev main_call14_v8 : Ref sig .tc := ⟨.hbm, 771, rfl⟩
abbrev main_call14_v9 : Ref sig .tc := ⟨.hbm, 772, rfl⟩
abbrev main_call14_v10 : Ref sig .tc := ⟨.hbm, 773, rfl⟩
abbrev main_v485 : Ref sig .tc := ⟨.hbm, 774, rfl⟩
abbrev main_v486 : Ref sig .tc := ⟨.hbm, 775, rfl⟩
abbrev main_v487 : Ref sig .tc := ⟨.hbm, 776, rfl⟩
abbrev main_v488 : Ref sig .tc := ⟨.hbm, 777, rfl⟩
abbrev main_v489 : Ref sig .tc := ⟨.hbm, 778, rfl⟩
abbrev main_v490 : Ref sig .tc := ⟨.hbm, 779, rfl⟩

abbrev nD : Nat := 1
abbrev τ : Topo := Topo.v7x

variable {F : FTy → Type} [FloatOps F]

class Facts₀ : Prop where
  slices_S3x2x1600000_S1x1x1600000_0_0_0 : S3x2x1600000.Slices ![0, 0, 0] S1x1x1600000
  shapeCasts_S1x1x1600000_S1600000 : S1x1x1600000.ShapeCasts S1600000
  slices_S3x2x1600000_S1x1x1600000_0_1_0 : S3x2x1600000.Slices ![0, 1, 0] S1x1x1600000
  slices_S3x128x64_S1x128x64_0_0_0 : S3x128x64.Slices ![0, 0, 0] S1x128x64
  shapeCasts_S1x128x64_S128x64 : S1x128x64.ShapeCasts S128x64
  slices_S3x64_S1x64_0_0 : S3x64.Slices ![0, 0] S1x64
  shapeCasts_S1x64_S64 : S1x64.ShapeCasts S64
  slices_S3_S1_0 : S3.Slices ![0] S1
  shapeCasts_S1_S_ : S1.ShapeCasts S_
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  slices_S3x64x32_S1x64x32_0_0_0 : S3x64x32.Slices ![0, 0, 0] S1x64x32
  shapeCasts_S1x64x32_S64x32 : S1x64x32.ShapeCasts S64x32
  slices_S3x32_S1x32_0_0 : S3x32.Slices ![0, 0] S1x32
  shapeCasts_S1x32_S32 : S1x32.ShapeCasts S32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  reducesTo_S100000x32_S32_d0 : S100000x32.ReducesTo [0] S32
  bcast_S_S32 : S_.BroadcastsInDim S32 (![] : Fin 0 → Fin S32.rank)
  bcast_S_S1x32 : S_.BroadcastsInDim S1x32 (![] : Fin 0 → Fin S1x32.rank)
  bcast_S_S50000 : S_.BroadcastsInDim S50000 (![] : Fin 0 → Fin S50000.rank)
  bcast_S50000_S50000x1_0 : S50000.BroadcastsInDim S50000x1 (![0] : Fin 1 → Fin S50000x1.rank)
  reducesTo_S50000x32_S50000_d1 : S50000x32.ReducesTo [1] S50000
  bcast_S50000x1_S50000x32_0_1 : S50000x1.BroadcastsInDim S50000x32 (![0, 1] : Fin 2 → Fin S50000x32.rank)
  slices_S3x2x1600000_S1x1x1600000_1_0_0 : S3x2x1600000.Slices ![1, 0, 0] S1x1x1600000
  slices_S3x2x1600000_S1x1x1600000_1_1_0 : S3x2x1600000.Slices ![1, 1, 0] S1x1x1600000
  slices_S3x128x64_S1x128x64_1_0_0 : S3x128x64.Slices ![1, 0, 0] S1x128x64
  slices_S3x64_S1x64_1_0 : S3x64.Slices ![1, 0] S1x64
  slices_S3_S1_1 : S3.Slices ![1] S1
  slices_S3x64x32_S1x64x32_1_0_0 : S3x64x32.Slices ![1, 0, 0] S1x64x32
  slices_S3x32_S1x32_1_0 : S3x32.Slices ![1, 0] S1x32
  slices_S3x2x1600000_S1x1x1600000_2_0_0 : S3x2x1600000.Slices ![2, 0, 0] S1x1x1600000
  slices_S3x2x1600000_S1x1x1600000_2_1_0 : S3x2x1600000.Slices ![2, 1, 0] S1x1x1600000
  slices_S3x128x64_S1x128x64_2_0_0 : S3x128x64.Slices ![2, 0, 0] S1x128x64
  slices_S3x64_S1x64_2_0 : S3x64.Slices ![2, 0] S1x64
  slices_S3_S1_2 : S3.Slices ![2] S1
  slices_S3x64x32_S1x64x32_2_0_0 : S3x64x32.Slices ![2, 0, 0] S1x64x32
  slices_S3x32_S1x32_2_0 : S3x32.Slices ![2, 0] S1x32
  bcast_S50000x32_S50000x1x32_0_2 : S50000x32.BroadcastsInDim S50000x1x32 (![0, 2] : Fin 2 → Fin S50000x1x32.rank)
  concatenates_S50000x1x32_S50000x1x32_S50000x1x32_S50000x3x32_d1 : Shape.Concatenates [S50000x1x32, S50000x1x32, S50000x1x32] S50000x3x32 1
  shapeCasts_S50000x3x32_S50000x96 : S50000x3x32.ShapeCasts S50000x96
  dot_S100000x128_S128x64_S100000x64_1_0_0_1_n_n_wf : DotDims.WF S100000x128 S128x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  gather_S100000x32_S50000x1_S50000x32_1_0_n_n_0_1_132_wf : GatherDims.WF S100000x32 S50000x1 S50000x32 [1] [0] [] [0] [] 1 ![1, 32]

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def gather_S100000x32_S50000x1_S50000x32_1_0_n_n_0_1_132 : GatherDims S100000x32 S50000x1 S50000x32 where
  offsetDims := [1]
  collapsedSliceDims := [0]
  operandBatchingDims := []
  startIndicesBatchingDims := []
  startIndexMap := [0]
  indexVectorDim := 1
  sliceSizes := ![1, 32]
  wf := gather_S100000x32_S50000x1_S50000x32_1_0_n_n_0_1_132_wf

class Facts : Prop extends Facts₀ where

variable [Facts]
-- ==== Proof.KRegion0.lean ====
/-
  Region 0 of the program: a dense layer's tile kernel: the tile's rows times the whole weight, plus the bias row repeated down the rows, one grid point at a time.

  At a grid point the body loads its 3 input blocks whole and stores one value into its output block, also whole.
  The inputs are read only, so after the body each holds its block as before and the output block holds that one
  stored value; nothing else of the core's state moves. This is the body's obligation to the pipeline, at any float instance.
-/
import proofs.«140713_j1864015806535_2_alg».proof.Proof.Gen.Kernel.Launch
import proofs.«140713_j1864015806535_2_alg».proof.Proof.Gen.Kernel.Skeleton
import proofs.«140713_j1864015806535_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_0 : Rect S10000x128 := Rect.unit (s := S10000x128) ![0, 0] S10000x128.size inb_S10000x128_S10000x128_0_0
abbrev r0_1 : Rect S128x64 := Rect.unit (s := S128x64) ![0, 0] S128x64.size inb_S128x64_S128x64_0_0
abbrev r0_2 : Rect S1x64 := Rect.unit (s := S1x64) ![0, 0] S1x64.size inb_S1x64_S1x64_0_0
abbrev r0_3 : Rect S10000x64 := Rect.unit (s := S10000x64) ![0, 0] S10000x64.size inb_S10000x64_S10000x64_0_0

/-- The output block after the body: the one store's value of the input blocks. -/
def out0_3 (x0 : Vec F S10000x128 .f32) (x1 : Vec F S128x64 .f32) (x2 : Vec F S1x64 .f32) : Vec F S10000x64 .f32 :=
  View.canon [⟨r0_3, k0_pay1 (View.ld x0 r0_0) (View.ld x1 r0_1) (View.ld x2 r0_2)⟩]

/-- The one store covers the whole output block. -/
theorem cover0_3 (p0 : Vec F S10000x64 .f32) (y : S10000x64.Idx) :
    ∃ pc ∈ ([⟨r0_3, p0⟩] : List (View.Piece (Elt F) S10000x64 .f32)), y ∈ pc.1.set :=
  View.cover_of_tiled [⟨r0_3, p0⟩] S10000x64.size (by rfl) y

set_option maxHeartbeats 1000000 in
/-- The body on whole staging buffers: the inputs stay, the output ends at out0_3 of the inputs. -/
theorem sound_kernel0 (c : Dev nD) (E : Set ℕ) (i : grid0.Coords) (arg1 : Memref sig .tc .vmem S10000x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x128 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__matmul_bias_kernel i arg1 harg1 arg2 harg2 arg3 harg3 arg4 harg4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of this pipeline on core c: the arrays as the region finds them; after the body at point t each
    input's buffer at its block and the output's at the stored value of the input blocks; the invariant the untouched
    scoped rest and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so sound_kernel0 applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Body

end
-- ==== Proof.KRegion1.lean ====
/-
  Region 1 of the program: the mix-and-accumulate tile kernel, one grid point at a time.

  At grid point t the body loads its tile of h and of agg (windows 0 and 1) and the 1×1 mixing weight g (window 2),
  stores xm = g·agg + (1 − g)·h into its tile of the output (window 3), and adds the column sums of xm and of xm·xm
  to two one-row outputs (windows 4 and 5) that stay in place over the whole grid: at the first point the rows are
  first set to zero, at every later point they hold what the point before left. So the body has two cases, told apart
  by the grid coordinate alone; in the first it reads none of its outputs before covering them, in the second it
  reads the two rows. What the three outputs hold after point n is defined by recursion on n, and the body's
  obligation to the pipeline is proved case by case. At any float instance.
-/
import proofs.«140713_j1864015806535_2_alg».proof.Proof.Gen.Kernel.Launch
import proofs.«140713_j1864015806535_2_alg».proof.Proof.Gen.Kernel.Skeleton
import proofs.«140713_j1864015806535_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's branch condition from the grid coordinate: "this is the first point". -/
abbrev cond1_0 (i : grid1.Coords) : Prop := (Scalar.cmpi .ne (Scalar.extui (Scalar.cmpi .eq (BitVec.ofNat 32 (i 0).val) 0#32)) 0#32) = 1#1
/-- It holds at the first point only: decided over the grid. -/
theorem hcond1_0 : ∀ t : Fin cfg1.N, cond1_0 (grid1.coords t) ↔ t.val % 10 = 0 :=
  (by decide +kernel : ∀ t : Fin grid1.N, cond1_0 (grid1.coords t) ↔ t.val % 10 = 0)

/-- One staging buffer of each output window, through which its contents are stated. -/
abbrev VO1_3 : View sig .tc .vmem S10000x64 .f32 := (Memref.whole cc1_stg3_0 : Memref sig .tc .vmem S10000x64 .f32).view
abbrev VO1_4 : View sig .tc .vmem S1x64 .f32 := (Memref.whole cc1_stg4_0 : Memref sig .tc .vmem S1x64 .f32).view
abbrev VO1_5 : View sig .tc .vmem S1x64 .f32 := (Memref.whole cc1_stg5_0 : Memref sig .tc .vmem S1x64 .f32).view

/-- Each window's current staging buffer at point t, as the pipeline passes it, and its wholeness. -/
abbrev ms1_0 (t : Fin cfg1.N) : Memref sig .tc .vmem S10000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S10000x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x64 .f32 := win1_5.stage (cfg1.slots t 5)
abbrev hs1_5 (t : Fin cfg1.N) : (ms1_5 t).IsWhole := hstage1_5 ((cfg1.slots t 5).cast nbuf1_5)

/-- The three outputs' piece lists, and their contents. -/
abbrev Pcs1 : Type := List (View.Piece (Elt F) S10000x64 .f32) × List (View.Piece (Elt F) S1x64 .f32) × List (View.Piece (Elt F) S1x64 .f32)
abbrev Outs1 : Type := Vec F S10000x64 .f32 × Vec F S1x64 .f32 × Vec F S1x64 .f32

set_option maxHeartbeats 4000000 in
/-- THE FIRST POINT (the branch taken): what the body's stores leave in each output's staging buffer, as pieces (last
    first), with the proof that on whole staging buffers, the inputs' at their contents and the outputs' at anything,
    the body runs to the continuation holding the inputs' as they were and each output's with its pieces written. -/
noncomputable def kernelRun1_A (c : Dev nD) (i : grid1.Coords)
    (arg1 : Memref sig .tc .vmem S10000x64 .f32) (harg1 : arg1.IsWhole) (arg2 : Memref sig .tc .vmem S10000x64 .f32) (harg2 : arg2.IsWhole)
    (arg3 : Memref sig .tc .vmem S1x1 .f32) (harg3 : arg3.IsWhole) (arg4 : Memref sig .tc .vmem S10000x64 .f32) (harg4 : arg4.IsWhole)
    (arg5 : Memref sig .tc .vmem S1x64 .f32) (harg5 : arg5.IsWhole) (arg6 : Memref sig .tc .vmem S1x64 .f32) (harg6 : arg6.IsWhole)
    (hc0 : cond1_0 i) (x0 : Vec F S10000x64 .f32) (x1 : Vec F S10000x64 .f32) (x2 : Vec F S1x1 .f32) :
    { L : Pcs1 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2.1)
                ∗ (∃ f, arg6.view.loc (c : Thread nD τ) ↦[arg6.view.set]{fullShare} arg6.view.writes (Elt F) f L.2.2)) -∗ K ⟨⟩))
          ⊢ wp frame (wpE (defs₀ (F := F)) Variants.none c none) E (cc1__mix_reduce_kernel i arg1 harg1 arg2 harg2 arg3 harg3 arg4 harg4 arg5 harg5 arg6 harg6) K } := by
  refine ⟨(?_, ?_, ?_), fun E K => ?run⟩
  case run =>
    simp only [cc1__mix_reduce_kernel_eq_skeleton]; unfold cc1__mix_reduce_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0
    obtain rfl := harg2.eq_unread hf1
    obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

set_option maxHeartbeats 4000000 in
/-- EVERY LATER POINT (the branch not taken): the same, the two rows entered at their running contents xo4, xo5. -/
noncomputable def kernelRun1_B (c : Dev nD) (i : grid1.Coords)
    (arg1 : Memref sig .tc .vmem S10000x64 .f32) (harg1 : arg1.IsWhole) (arg2 : Memref sig .tc .vmem S10000x64 .f32) (harg2 : arg2.IsWhole)
    (arg3 : Memref sig .tc .vmem S1x1 .f32) (harg3 : arg3.IsWhole) (arg4 : Memref sig .tc .vmem S10000x64 .f32) (harg4 : arg4.IsWhole)
    (arg5 : Memref sig .tc .vmem S1x64 .f32) (harg5 : arg5.IsWhole) (arg6 : Memref sig .tc .vmem S1x64 .f32) (harg6 : arg6.IsWhole)
    (hc0 : ¬cond1_0 i) (x0 : Vec F S10000x64 .f32) (x1 : Vec F S10000x64 .f32) (x2 : Vec F S1x1 .f32) (xo4 : Vec F S1x64 .f32) (xo5 : Vec F S1x64 .f32) :
    { L : Pcs1 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2.1)
                ∗ (∃ f, arg6.view.loc (c : Thread nD τ) ↦[arg6.view.set]{fullShare} arg6.view.writes (Elt F) f L.2.2)) -∗ K ⟨⟩))
          ⊢ wp frame (wpE (defs₀ (F := F)) Variants.none c none) E (cc1__mix_reduce_kernel i arg1 harg1 arg2 harg2 arg3 harg3 arg4 harg4 arg5 harg5 arg6 harg6) K } := by
  refine ⟨(?_, ?_, ?_), fun E K => ?run⟩
  case run =>
    simp only [cc1__mix_reduce_kernel_eq_skeleton]; unfold cc1__mix_reduce_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg1.eq_unread hf0
    obtain rfl := harg2.eq_unread hf1
    obtain rfl := harg3.eq_unread hf2
    obtain rfl := harg5.eq_unread hf4
    obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

/-- The two runs at a grid point, on the point's staging buffers and input blocks. -/
abbrev runA1 (c : Dev nD) (t : Fin cfg1.N) (h : cond1_0 (grid1.coords t)) :=
  kernelRun1_A (F := F) c (grid1.coords t) (ms1_0 t) (hs1_0 t) (ms1_1 t) (hs1_1 t) (ms1_2 t) (hs1_2 t) (ms1_3 t) (hs1_3 t)
    (ms1_4 t) (hs1_4 t) (ms1_5 t) (hs1_5 t) h (iblk1 V c 0 t) (iblk1 V c 1 t) (iblk1 V c 2 t)
abbrev runB1 (c : Dev nD) (t : Fin cfg1.N) (h : ¬cond1_0 (grid1.coords t)) (xo4 : Vec F S1x64 .f32) (xo5 : Vec F S1x64 .f32) :=
  kernelRun1_B (F := F) c (grid1.coords t) (ms1_0 t) (hs1_0 t) (ms1_1 t) (hs1_1 t) (ms1_2 t) (hs1_2 t) (ms1_3 t) (hs1_3 t)
    (ms1_4 t) (hs1_4 t) (ms1_5 t) (hs1_5 t) h (iblk1 V c 0 t) (iblk1 V c 1 t) (iblk1 V c 2 t) xo4 xo5

/-- What a list of pieces leaves in each output's staging buffer: the pieces read back over junk. -/
def readBack1 (L : Pcs1 (F := F)) : Outs1 (F := F) :=
  (VO1_3.read (Elt F) (VO1_3.writes (Elt F) VO1_3.junk L.1),
   VO1_4.read (Elt F) (VO1_4.writes (Elt F) VO1_4.junk L.2.1),
   VO1_5.read (Elt F) (VO1_5.writes (Elt F) VO1_5.junk L.2.2))

/-- Each case's pieces tile their output's block (checked by evaluation), so they cover it. -/
theorem cover1_A_3 (c : Dev nD) (t : Fin cfg1.N) (h : cond1_0 (grid1.coords t)) (y : S10000x64.Idx) :
    ∃ pc ∈ (runA1 V c t h).1.1, y ∈ pc.1.set := View.cover_of_tiledL (runA1 V c t h).1.1 S10000x64.size (by sl_kernel_rfl) y
theorem cover1_A_4 (c : Dev nD) (t : Fin cfg1.N) (h : cond1_0 (grid1.coords t)) (y : S1x64.Idx) :
    ∃ pc ∈ (runA1 V c t h).1.2.1, y ∈ pc.1.set := View.cover_of_tiledL (runA1 V c t h).1.2.1 S1x64.size (by sl_kernel_rfl) y
theorem cover1_A_5 (c : Dev nD) (t : Fin cfg1.N) (h : cond1_0 (grid1.coords t)) (y : S1x64.Idx) :
    ∃ pc ∈ (runA1 V c t h).1.2.2, y ∈ pc.1.set := View.cover_of_tiledL (runA1 V c t h).1.2.2 S1x64.size (by sl_kernel_rfl) y
theorem cover1_B_3 (c : Dev nD) (t : Fin cfg1.N) (h : ¬cond1_0 (grid1.coords t)) (xo4 xo5) (y : S10000x64.Idx) :
    ∃ pc ∈ (runB1 V c t h xo4 xo5).1.1, y ∈ pc.1.set := View.cover_of_tiledL (runB1 V c t h xo4 xo5).1.1 S10000x64.size (by sl_kernel_rfl) y
theorem cover1_B_4 (c : Dev nD) (t : Fin cfg1.N) (h : ¬cond1_0 (grid1.coords t)) (xo4 xo5) (y : S1x64.Idx) :
    ∃ pc ∈ (runB1 V c t h xo4 xo5).1.2.1, y ∈ pc.1.set := View.cover_of_tiledL (runB1 V c t h xo4 xo5).1.2.1 S1x64.size (by sl_kernel_rfl) y
theorem cover1_B_5 (c : Dev nD) (t : Fin cfg1.N) (h : ¬cond1_0 (grid1.coords t)) (xo4 xo5) (y : S1x64.Idx) :
    ∃ pc ∈ (runB1 V c t h xo4 xo5).1.2.2, y ∈ pc.1.set := View.cover_of_tiledL (runB1 V c t h xo4 xo5).1.2.2 S1x64.size (by sl_kernel_rfl) y

/-- THE ACCUMULATION. What the three outputs' staging buffers hold after the body at position n: the first point's
    case at 0, the later points' case after that, the two rows entered at what position n − 1 left. -/
def outsAt1 (c : Dev nD) : (n : ℕ) → n < cfg1.N → Outs1 (F := F)
  | 0, hn => readBack1 (runA1 V c ⟨0, hn⟩ ((hcond1_0 ⟨0, hn⟩).mpr (Nat.zero_mod _))).1
  | n + 1, hn =>
    if h0 : (n + 1) % 10 = 0 then
      readBack1 (runA1 V c ⟨n + 1, hn⟩ ((hcond1_0 ⟨n + 1, hn⟩).mpr h0)).1
    else
      readBack1 (runB1 V c ⟨n + 1, hn⟩ (fun h => h0 ((hcond1_0 ⟨n + 1, hn⟩).mp h))
        (outsAt1 c n (Nat.lt_of_succ_lt hn)).2.1 (outsAt1 c n (Nat.lt_of_succ_lt hn)).2.2).1

theorem outsAt1_A (c : Dev nD) (t : Fin cfg1.N) (h0 : t.val % 10 = 0) :
    outsAt1 V c t.val t.isLt = readBack1 (runA1 V c t ((hcond1_0 t).mpr h0)).1 := by
  obtain ⟨n, hn⟩ := t
  cases n with
  | zero => exact rfl
  | succ n => exact (dif_pos h0).trans rfl

theorem outsAt1_B (c : Dev nD) (t : Fin cfg1.N) (h0 : ¬t.val % 10 = 0) :
    outsAt1 V c t.val t.isLt = readBack1 (runB1 V c t (fun h => h0 ((hcond1_0 t).mp h))
      (outsAt1 V c (t.val - 1) (Nat.lt_of_le_of_lt (Nat.sub_le _ _) t.isLt)).2.1
      (outsAt1 V c (t.val - 1) (Nat.lt_of_le_of_lt (Nat.sub_le _ _) t.isLt)).2.2).1 := by
  obtain ⟨n, hn⟩ := t
  cases n with
  | zero => exact (by exfalso; (try dsimp only at h0); exact absurd (Nat.zero_mod _) h0)
  | succ n => exact (dif_neg h0).trans rfl

/-- The proof data of this pipeline on core c: the arrays as the region finds them; after the body at point t each
    input's buffer at its block and the outputs' at outsAt; the invariant the untouched scoped rest and the
    generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
    | ⟨5, _⟩ => (outsAt1 V c t.val t.isLt).2.2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]
theorem after1_5 (c : Dev nD) (t : Fin cfg1.N) : (dat1 V c).after 5 t = (outsAt1 V c t.val t.isLt).2.2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- At a later point each row's current staging buffer holds what the body left at the point before: the point is not
    the first, and the row is written back at the last point only. -/
theorem before1_4_B (c : Dev nD) (t : Fin cfg1.N) (h0 : ¬t.val % 10 = 0) (d) :
    (dat1 V c).before 4 t d = (outsAt1 V c (t.val - 1) (Nat.lt_of_le_of_lt (Nat.sub_le _ _) t.isLt)).2.1 := by
  have hN : t.val < 10 := lt_of_lt_of_eq t.isLt (show cfg1.N = 10 from N_1)
  rw [Dat.before_out_kept _ 4 rfl t (by omega) (Bool.eq_false_iff.mpr fun h => by have := (flush1_4 _).mp h; dsimp only at this; omega)
    (fun _ => rfl) (fun _ _ => rfl)]
  dsimp only [dat1]
theorem before1_5_B (c : Dev nD) (t : Fin cfg1.N) (h0 : ¬t.val % 10 = 0) (d) :
    (dat1 V c).before 5 t d = (outsAt1 V c (t.val - 1) (Nat.lt_of_le_of_lt (Nat.sub_le _ _) t.isLt)).2.2 := by
  have hN : t.val < 10 := lt_of_lt_of_eq t.isLt (show cfg1.N = 10 from N_1)
  rw [Dat.before_out_kept _ 5 rfl t (by omega) (Bool.eq_false_iff.mpr fun h => by have := (flush1_5 _).mp h; dsimp only at this; omega)
    (fun _ => rfl) (fun _ _ => rfl)]
  dsimp only [dat1]

/-- What the body is called with at point t, window by window, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 2000000 in
/-- The body at any point: the inputs' buffers hold their blocks; the closed form of the condition says which case the
    point is in; at a later point the two rows hold what the point before left; so that case's run applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4, after1_5]
  have hN : t.val < 10 := lt_of_lt_of_eq t.isLt (show cfg1.N = 10 from N_1)
  by_cases h0 : t.val % 10 = 0
  · rw [outsAt1_A V c t h0]
    unfold readBack1
    dsimp only
    iintro ⟨HΦ, Ho, ⟨%d0, H0⟩, ⟨%d1, H1⟩, ⟨%d2, H2⟩, ⟨%d3, H3⟩, ⟨%d4, H4⟩, ⟨%d5, H5⟩⟩
    iapply ((runA1 V c t ((hcond1_0 t).mpr h0)).2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover1_A_3 V c t _)
    isplitl [H4]
    · unfold owns; iexists _; isplitr
      swap; · iexact H4
      ipureintro; exact View.read_writes_of_cover _ _ _ _ _ (cover1_A_4 V c t _)
    unfold owns; iexists _; isplitr
    swap; · iexact H5
    ipureintro; exact View.read_writes_of_cover _ _ _ _ _ (cover1_A_5 V c t _)
  · rw [outsAt1_B V c t h0]
    simp only [before1_4_B V c t h0, before1_5_B V c t h0]
    unfold readBack1
    dsimp only
    iintro ⟨HΦ, Ho, ⟨%d0, H0⟩, ⟨%d1, H1⟩, ⟨%d2, H2⟩, ⟨%d3, H3⟩, ⟨%d4, H4⟩, ⟨%d5, H5⟩⟩
    iapply ((runB1 V c t (fun h => h0 ((hcond1_0 t).mp h)) _ _).2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover1_B_3 V c t _ _ _)
    isplitl [H4]
    · unfold owns; iexists _; isplitr
      swap; · iexact H4
      ipureintro; exact View.read_writes_of_cover _ _ _ _ _ (cover1_B_4 V c t _ _ _)
    unfold owns; iexists _; isplitr
    swap; · iexact H5
    ipureintro; exact View.read_writes_of_cover _ _ _ _ _ (cover1_B_5 V c t _ _ _)

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Body

end
-- ==== Proof.KRegion2.lean ====
/-
  Region 2 of the program: the normalise-and-cut-off tile kernel: (x − mean)·rsqrt(max(var, 0) + ε)·scale + bias, cut off at 0, the four rows repeated down the tile, one grid point at a time.

  At a grid point the body loads its 5 input blocks whole and stores one value into its output block, also whole.
  The inputs are read only, so after the body each holds its block as before and the output block holds that one
  stored value; nothing else of the core's state moves. This is the body's obligation to the pipeline, at any float instance.
-/
import proofs.«140713_j1864015806535_2_alg».proof.Proof.Gen.Kernel.Launch
import proofs.«140713_j1864015806535_2_alg».proof.Proof.Gen.Kernel.Skeleton
import proofs.«140713_j1864015806535_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_0 : Rect S10000x64 := Rect.unit (s := S10000x64) ![0, 0] S10000x64.size inb_S10000x64_S10000x64_0_0
abbrev r2_1 : Rect S1x64 := Rect.unit (s := S1x64) ![0, 0] S1x64.size inb_S1x64_S1x64_0_0
abbrev r2_2 : Rect S1x64 := Rect.unit (s := S1x64) ![0, 0] S1x64.size inb_S1x64_S1x64_0_0
abbrev r2_3 : Rect S1x64 := Rect.unit (s := S1x64) ![0, 0] S1x64.size inb_S1x64_S1x64_0_0
abbrev r2_4 : Rect S1x64 := Rect.unit (s := S1x64) ![0, 0] S1x64.size inb_S1x64_S1x64_0_0
abbrev r2_5 : Rect S10000x64 := Rect.unit (s := S10000x64) ![0, 0] S10000x64.size inb_S10000x64_S10000x64_0_0

/-- The output block after the body: the one store's value of the input blocks. -/
def out2_5 (x0 : Vec F S10000x64 .f32) (x1 : Vec F S1x64 .f32) (x2 : Vec F S1x64 .f32) (x3 : Vec F S1x64 .f32) (x4 : Vec F S1x64 .f32) : Vec F S10000x64 .f32 :=
  View.canon [⟨r2_5, k2_pay1 (View.ld x0 r2_0) (View.ld x1 r2_1) (View.ld x2 r2_2) (View.ld x3 r2_3) (View.ld x4 r2_4)⟩]

/-- The one store covers the whole output block. -/
theorem cover2_5 (p0 : Vec F S10000x64 .f32) (y : S10000x64.Idx) :
    ∃ pc ∈ ([⟨r2_5, p0⟩] : List (View.Piece (Elt F) S10000x64 .f32)), y ∈ pc.1.set :=
  View.cover_of_tiled [⟨r2_5, p0⟩] S10000x64.size (by rfl) y

set_option maxHeartbeats 1000000 in
/-- The body on whole staging buffers: the inputs stay, the output ends at out2_5 of the inputs. -/
theorem sound_kernel2 (c : Dev nD) (E : Set ℕ) (i : grid2.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__bn_relu_kernel i arg1 harg1 arg2 harg2 arg3 harg3 arg4 harg4 arg5 harg5 arg6 harg6) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The proof data of this pipeline on core c: the arrays as the region finds them; after the body at point t each
    input's buffer at its block and the output's at the stored value of the input blocks; the invariant the untouched
    scoped rest and the generator register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point t, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so sound_kernel2 applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Body

end
-- ==== Proof.KRegion3.lean ====
/-
  Region 3 of the program: a dense layer's tile kernel: the tile's rows times the whole weight, plus the bias row repeated down the rows, one grid point at a time.

  At a grid point the body loads its 3 input blocks whole and stores one value into its output block, also whole.
  The inputs are read only, so after the body each holds its block as before and the output block holds that one
  stored value; nothing else of the core's state moves. This is the body's obligation to the pipeline, at any float instance.
-/
import proofs.«140713_j1864015806535_2_alg».proof.Proof.Gen.Kernel.Launch
import proofs.«140713_j1864015806535_2_alg».proof.Proof.Gen.Kernel.Skeleton
import proofs.«140713_j1864015806535_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev r3_0 : Rect S10000x64 := Rect.unit (s := S10000x64) ![0, 0] S10000x64.size inb_S10000x64_S10000x64_0_0
abbrev r3_1 : Rect S64x32 := Rect.unit (s := S64x32) ![0, 0] S64x32.size inb_S64x32_S64x32_0_0
abbrev r3_2 : Rect S1x32 := Rect.unit (s := S1x32) ![0, 0] S1x32.size inb_S1x32_S1x32_0_0
abbrev r3_3 : Rect S10000x32 := Rect.unit (s := S10000x32) ![0, 0] S10000x32.size inb_S10000x32_S10000x32_0_0

/-- The output block after the body: the one store's value of the input blocks. -/
def out3_3 (x0 : Vec F S10000x64 .f32) (x1 : Vec F S64x32 .f32) (x2 : Vec F S1x32 .f32) : Vec F S10000x32 .f32 :=
  View.canon [⟨r3_3, k3_pay1 (View.ld x0 r3_0) (View.ld x1 r3_1) (View.ld x2 r3_2)⟩]

/-- The one store covers the whole output block. -/
theorem cover3_3 (p0 : Vec F S10000x32 .f32) (y : S10000x32.Idx) :
    ∃ pc ∈ ([⟨r3_3, p0⟩] : List (View.Piece (Elt F) S10000x32 .f32)), y ∈ pc.1.set :=
  View.cover_of_tiled [⟨r3_3, p0⟩] S10000x32.size (by rfl) y

set_option maxHeartbeats 1000000 in
/-- The body on whole staging buffers: the inputs stay, the output ends at out3_3 of the inputs. -/
theorem sound_kernel3 (c : Dev nD) (E : Set ℕ) (i : grid3.Coords) (arg1 : Memref sig .tc .vmem S10000x64 .f32) (harg1 : arg1.IsWhole) (arg2 : Memref sig .tc .vmem S64x32 .f32) (harg2 : arg2.IsWhole) (arg3 : Memref sig .tc .vmem S1x32 .f32) (harg3 : arg3.IsWhole) (arg4 : Memref sig .tc .vmem S10000x32 .f32) (harg4 : arg4.IsWhole)
    (x0 : Vec F S10000x64 .f32) (x1 : Vec F S64x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__matmul_bias_kernel i arg1 harg1 arg2 harg2 arg3 harg3 arg4 harg4) K := by
  simp only [cc3__matmul_bias_kernel_eq_skeleton]; unfold cc3__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of this pipeline on core c: the arrays as the region finds them; after the body at point t each
    input's buffer at its block and the output's at the stored value of the input blocks; the invariant the untouched
    scoped rest and the generator register; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point t, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so sound_kernel3 applies; the invariant and what the
    core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Body

end
-- ==== Proof.KRegion4.lean ====
/-
  Region 4 of the program: the mix-and-accumulate tile kernel, one grid point at a time.

  At grid point t the body loads its tile of h and of agg (windows 0 and 1) and the 1×1 mixing weight g (window 2),
  stores xm = g·agg + (1 − g)·h into its tile of the output (window 3), and adds the column sums of xm and of xm·xm
  to two one-row outputs (windows 4 and 5) that stay in place over the whole grid: at the first point the rows are
  first set to zero, at every later point they hold what the point before left. So the body has two cases, told apart
  by the grid coordinate alone; in the first it reads none of its outputs before covering them, in the second it
  reads the two rows. What the three outputs hold after point n is defined by recursion on n, and the body's
  obligation to the pipeline is proved case by case. At any float instance.
-/
import proofs.«140713_j1864015806535_2_alg».proof.Proof.Gen.Kernel.Launch
import proofs.«140713_j1864015806535_2_alg».proof.Proof.Gen.Kernel.Skeleton
import proofs.«140713_j1864015806535_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The body's branch condition from the grid coordinate: "this is the first point". -/
abbrev cond4_0 (i : grid4.Coords) : Prop := (Scalar.cmpi .ne (Scalar.extui (Scalar.cmpi .eq (BitVec.ofNat 32 (i 0).val) 0#32)) 0#32) = 1#1
/-- It holds at the first point only: decided over the grid. -/
theorem hcond4_0 : ∀ t : Fin cfg4.N, cond4_0 (grid4.coords t) ↔ t.val % 10 = 0 :=
  (by decide +kernel : ∀ t : Fin grid4.N, cond4_0 (grid4.coords t) ↔ t.val % 10 = 0)

/-- One staging buffer of each output window, through which its contents are stated. -/
abbrev VO4_3 : View sig .tc .vmem S10000x32 .f32 := (Memref.whole cc4_stg3_0 : Memref sig .tc .vmem S10000x32 .f32).view
abbrev VO4_4 : View sig .tc .vmem S1x32 .f32 := (Memref.whole cc4_stg4_0 : Memref sig .tc .vmem S1x32 .f32).view
abbrev VO4_5 : View sig .tc .vmem S1x32 .f32 := (Memref.whole cc4_stg5_0 : Memref sig .tc .vmem S1x32 .f32).view

/-- Each window's current staging buffer at point t, as the pipeline passes it, and its wholeness. -/
abbrev ms4_0 (t : Fin cfg4.N) : Memref sig .tc .vmem S10000x32 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S10000x32 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x1 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S10000x32 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x32 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x32 .f32 := win4_5.stage (cfg4.slots t 5)
abbrev hs4_5 (t : Fin cfg4.N) : (ms4_5 t).IsWhole := hstage4_5 ((cfg4.slots t 5).cast nbuf4_5)

/-- The three outputs' piece lists, and their contents. -/
abbrev Pcs4 : Type := List (View.Piece (Elt F) S10000x32 .f32) × List (View.Piece (Elt F) S1x32 .f32) × List (View.Piece (Elt F) S1x32 .f32)
abbrev Outs4 : Type := Vec F S10000x32 .f32 × Vec F S1x32 .f32 × Vec F S1x32 .f32

set_option maxHeartbeats 4000000 in
/-- THE FIRST POINT (the branch taken): what the body's stores leave in each output's staging buffer, as pieces (last
    first), with the proof that on whole staging buffers, the inputs' at their contents and the outputs' at anything,
    the body runs to the continuation holding the inputs' as they were and each output's with its pieces written. -/
noncomputable def kernelRun4_A (c : Dev nD) (i : grid4.Coords)
    (arg1 : Memref sig .tc .vmem S10000x32 .f32) (harg1 : arg1.IsWhole) (arg2 : Memref sig .tc .vmem S10000x32 .f32) (harg2 : arg2.IsWhole)
    (arg3 : Memref sig .tc .vmem S1x1 .f32) (harg3 : arg3.IsWhole) (arg4 : Memref sig .tc .vmem S10000x32 .f32) (harg4 : arg4.IsWhole)
    (arg5 : Memref sig .tc .vmem S1x32 .f32) (harg5 : arg5.IsWhole) (arg6 : Memref sig .tc .vmem S1x32 .f32) (harg6 : arg6.IsWhole)
    (hc0 : cond4_0 i) (x0 : Vec F S10000x32 .f32) (x1 : Vec F S10000x32 .f32) (x2 : Vec F S1x1 .f32) :
    { L : Pcs4 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2.1)
                ∗ (∃ f, arg6.view.loc (c : Thread nD τ) ↦[arg6.view.set]{fullShare} arg6.view.writes (Elt F) f L.2.2)) -∗ K ⟨⟩))
          ⊢ wp frame (wpE (defs₀ (F := F)) Variants.none c none) E (cc4__mix_reduce_kernel i arg1 harg1 arg2 harg2 arg3 harg3 arg4 harg4 arg5 harg5 arg6 harg6) K } := by
  refine ⟨(?_, ?_, ?_), fun E K => ?run⟩
  case run =>
    simp only [cc4__mix_reduce_kernel_eq_skeleton]; unfold cc4__mix_reduce_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0
    obtain rfl := harg2.eq_unread hf1
    obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

set_option maxHeartbeats 4000000 in
/-- EVERY LATER POINT (the branch not taken): the same, the two rows entered at their running contents xo4, xo5. -/
noncomputable def kernelRun4_B (c : Dev nD) (i : grid4.Coords)
    (arg1 : Memref sig .tc .vmem S10000x32 .f32) (harg1 : arg1.IsWhole) (arg2 : Memref sig .tc .vmem S10000x32 .f32) (harg2 : arg2.IsWhole)
    (arg3 : Memref sig .tc .vmem S1x1 .f32) (harg3 : arg3.IsWhole) (arg4 : Memref sig .tc .vmem S10000x32 .f32) (harg4 : arg4.IsWhole)
    (arg5 : Memref sig .tc .vmem S1x32 .f32) (harg5 : arg5.IsWhole) (arg6 : Memref sig .tc .vmem S1x32 .f32) (harg6 : arg6.IsWhole)
    (hc0 : ¬cond4_0 i) (x0 : Vec F S10000x32 .f32) (x1 : Vec F S10000x32 .f32) (x2 : Vec F S1x1 .f32) (xo4 : Vec F S1x32 .f32) (xo5 : Vec F S1x32 .f32) :
    { L : Pcs4 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2.1)
                ∗ (∃ f, arg6.view.loc (c : Thread nD τ) ↦[arg6.view.set]{fullShare} arg6.view.writes (Elt F) f L.2.2)) -∗ K ⟨⟩))
          ⊢ wp frame (wpE (defs₀ (F := F)) Variants.none c none) E (cc4__mix_reduce_kernel i arg1 harg1 arg2 harg2 arg3 harg3 arg4 harg4 arg5 harg5 arg6 harg6) K } := by
  refine ⟨(?_, ?_, ?_), fun E K => ?run⟩
  case run =>
    simp only [cc4__mix_reduce_kernel_eq_skeleton]; unfold cc4__mix_reduce_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg1.eq_unread hf0
    obtain rfl := harg2.eq_unread hf1
    obtain rfl := harg3.eq_unread hf2
    obtain rfl := harg5.eq_unread hf4
    obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

/-- The two runs at a grid point, on the point's staging buffers and input blocks. -/
abbrev runA4 (c : Dev nD) (t : Fin cfg4.N) (h : cond4_0 (grid4.coords t)) :=
  kernelRun4_A (F := F) c (grid4.coords t) (ms4_0 t) (hs4_0 t) (ms4_1 t) (hs4_1 t) (ms4_2 t) (hs4_2 t) (ms4_3 t) (hs4_3 t)
    (ms4_4 t) (hs4_4 t) (ms4_5 t) (hs4_5 t) h (iblk4 V c 0 t) (iblk4 V c 1 t) (iblk4 V c 2 t)
abbrev runB4 (c : Dev nD) (t : Fin cfg4.N) (h : ¬cond4_0 (grid4.coords t)) (xo4 : Vec F S1x32 .f32) (xo5 : Vec F S1x32 .f32) :=
  kernelRun4_B (F := F) c (grid4.coords t) (ms4_0 t) (hs4_0 t) (ms4_1 t) (hs4_1 t) (ms4_2 t) (hs4_2 t) (ms4_3 t) (hs4_3 t)
    (ms4_4 t) (hs4_4 t) (ms4_5 t) (hs4_5 t) h (iblk4 V c 0 t) (iblk4 V c 1 t) (iblk4 V c 2 t) xo4 xo5

/-- What a list of pieces leaves in each output's staging buffer: the pieces read back over junk. -/
def readBack4 (L : Pcs4 (F := F)) : Outs4 (F := F) :=
  (VO4_3.read (Elt F) (VO4_3.writes (Elt F) VO4_3.junk L.1),
   VO4_4.read (Elt F) (VO4_4.writes (Elt F) VO4_4.junk L.2.1),
   VO4_5.read (Elt F) (VO4_5.writes (Elt F) VO4_5.junk L.2.2))

/-- Each case's pieces tile their output's block (checked by evaluation), so they cover it. -/
theorem cover4_A_3 (c : Dev nD) (t : Fin cfg4.N) (h : cond4_0 (grid4.coords t)) (y : S10000x32.Idx) :
    ∃ pc ∈ (runA4 V c t h).1.1, y ∈ pc.1.set := View.cover_of_tiledL (runA4 V c t h).1.1 S10000x32.size (by sl_kernel_rfl) y
theorem cover4_A_4 (c : Dev nD) (t : Fin cfg4.N) (h : cond4_0 (grid4.coords t)) (y : S1x32.Idx) :
    ∃ pc ∈ (runA4 V c t h).1.2.1, y ∈ pc.1.set := View.cover_of_tiledL (runA4 V c t h).1.2.1 S1x32.size (by sl_kernel_rfl) y
theorem cover4_A_5 (c : Dev nD) (t : Fin cfg4.N) (h : cond4_0 (grid4.coords t)) (y : S1x32.Idx) :
    ∃ pc ∈ (runA4 V c t h).1.2.2, y ∈ pc.1.set := View.cover_of_tiledL (runA4 V c t h).1.2.2 S1x32.size (by sl_kernel_rfl) y
theorem cover4_B_3 (c : Dev nD) (t : Fin cfg4.N) (h : ¬cond4_0 (grid4.coords t)) (xo4 xo5) (y : S10000x32.Idx) :
    ∃ pc ∈ (runB4 V c t h xo4 xo5).1.1, y ∈ pc.1.set := View.cover_of_tiledL (runB4 V c t h xo4 xo5).1.1 S10000x32.size (by sl_kernel_rfl) y
theorem cover4_B_4 (c : Dev nD) (t : Fin cfg4.N) (h : ¬cond4_0 (grid4.coords t)) (xo4 xo5) (y : S1x32.Idx) :
    ∃ pc ∈ (runB4 V c t h xo4 xo5).1.2.1, y ∈ pc.1.set := View.cover_of_tiledL (runB4 V c t h xo4 xo5).1.2.1 S1x32.size (by sl_kernel_rfl) y
theorem cover4_B_5 (c : Dev nD) (t : Fin cfg4.N) (h : ¬cond4_0 (grid4.coords t)) (xo4 xo5) (y : S1x32.Idx) :
    ∃ pc ∈ (runB4 V c t h xo4 xo5).1.2.2, y ∈ pc.1.set := View.cover_of_tiledL (runB4 V c t h xo4 xo5).1.2.2 S1x32.size (by sl_kernel_rfl) y

/-- THE ACCUMULATION. What the three outputs' staging buffers hold after the body at position n: the first point's
    case at 0, the later points' case after that, the two rows entered at what position n − 1 left. -/
def outsAt4 (c : Dev nD) : (n : ℕ) → n < cfg4.N → Outs4 (F := F)
  | 0, hn => readBack4 (runA4 V c ⟨0, hn⟩ ((hcond4_0 ⟨0, hn⟩).mpr (Nat.zero_mod _))).1
  | n + 1, hn =>
    if h0 : (n + 1) % 10 = 0 then
      readBack4 (runA4 V c ⟨n + 1, hn⟩ ((hcond4_0 ⟨n + 1, hn⟩).mpr h0)).1
    else
      readBack4 (runB4 V c ⟨n + 1, hn⟩ (fun h => h0 ((hcond4_0 ⟨n + 1, hn⟩).mp h))
        (outsAt4 c n (Nat.lt_of_succ_lt hn)).2.1 (outsAt4 c n (Nat.lt_of_succ_lt hn)).2.2).1

theorem outsAt4_A (c : Dev nD) (t : Fin cfg4.N) (h0 : t.val % 10 = 0) :
    outsAt4 V c t.val t.isLt = readBack4 (runA4 V c t ((hcond4_0 t).mpr h0)).1 := by
  obtain ⟨n, hn⟩ := t
  cases n with
  | zero => exact rfl
  | succ n => exact (dif_pos h0).trans rfl

theorem outsAt4_B (c : Dev nD) (t : Fin cfg4.N) (h0 : ¬t.val % 10 = 0) :
    outsAt4 V c t.val t.isLt = readBack4 (runB4 V c t (fun h => h0 ((hcond4_0 t).mp h))
      (outsAt4 V c (t.val - 1) (Nat.lt_of_le_of_lt (Nat.sub_le _ _) t.isLt)).2.1
      (outsAt4 V c (t.val - 1) (Nat.lt_of_le_of_lt (Nat.sub_le _ _) t.isLt)).2.2).1 := by
  obtain ⟨n, hn⟩ := t
  cases n with
  | zero => exact (by exfalso; (try dsimp only at h0); exact absurd (Nat.zero_mod _) h0)
  | succ n => exact (dif_neg h0).trans rfl

/-- The proof data of this pipeline on core c: the arrays as the region finds them; after the body at point t each
    input's buffer at its block and the outputs' at outsAt; the invariant the untouched scoped rest and the
    generator register; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
    | ⟨4, _⟩ => (outsAt4 V c t.val t.isLt).2.1
    | ⟨5, _⟩ => (outsAt4 V c t.val t.isLt).2.2
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]
theorem after4_4 (c : Dev nD) (t : Fin cfg4.N) : (dat4 V c).after 4 t = (outsAt4 V c t.val t.isLt).2.1 := by dsimp only [dat4]
theorem after4_5 (c : Dev nD) (t : Fin cfg4.N) : (dat4 V c).after 5 t = (outsAt4 V c t.val t.isLt).2.2 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- At a later point each row's current staging buffer holds what the body left at the point before: the point is not
    the first, and the row is written back at the last point only. -/
theorem before4_4_B (c : Dev nD) (t : Fin cfg4.N) (h0 : ¬t.val % 10 = 0) (d) :
    (dat4 V c).before 4 t d = (outsAt4 V c (t.val - 1) (Nat.lt_of_le_of_lt (Nat.sub_le _ _) t.isLt)).2.1 := by
  have hN : t.val < 10 := lt_of_lt_of_eq t.isLt (show cfg4.N = 10 from N_4)
  rw [Dat.before_out_kept _ 4 rfl t (by omega) (Bool.eq_false_iff.mpr fun h => by have := (flush4_4 _).mp h; dsimp only at this; omega)
    (fun _ => rfl) (fun _ _ => rfl)]
  dsimp only [dat4]
theorem before4_5_B (c : Dev nD) (t : Fin cfg4.N) (h0 : ¬t.val % 10 = 0) (d) :
    (dat4 V c).before 5 t d = (outsAt4 V c (t.val - 1) (Nat.lt_of_le_of_lt (Nat.sub_le _ _) t.isLt)).2.2 := by
  have hN : t.val < 10 := lt_of_lt_of_eq t.isLt (show cfg4.N = 10 from N_4)
  rw [Dat.before_out_kept _ 5 rfl t (by omega) (Bool.eq_false_iff.mpr fun h => by have := (flush4_5 _).mp h; dsimp only at this; omega)
    (fun _ => rfl) (fun _ _ => rfl)]
  dsimp only [dat4]

/-- What the body is called with at point t, window by window, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t)
    ∗ owns (c : Thread nD τ) (ms4_5 t) fullShare ((dat4 V c).after 5 t))

set_option maxHeartbeats 2000000 in
/-- The body at any point: the inputs' buffers hold their blocks; the closed form of the condition says which case the
    point is in; at a later point the two rows hold what the point before left; so that case's run applies; the
    invariant and what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3, after4_4, after4_5]
  have hN : t.val < 10 := lt_of_lt_of_eq t.isLt (show cfg4.N = 10 from N_4)
  by_cases h0 : t.val % 10 = 0
  · rw [outsAt4_A V c t h0]
    unfold readBack4
    dsimp only
    iintro ⟨HΦ, Ho, ⟨%d0, H0⟩, ⟨%d1, H1⟩, ⟨%d2, H2⟩, ⟨%d3, H3⟩, ⟨%d4, H4⟩, ⟨%d5, H5⟩⟩
    iapply ((runA4 V c t ((hcond4_0 t).mpr h0)).2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover4_A_3 V c t _)
    isplitl [H4]
    · unfold owns; iexists _; isplitr
      swap; · iexact H4
      ipureintro; exact View.read_writes_of_cover _ _ _ _ _ (cover4_A_4 V c t _)
    unfold owns; iexists _; isplitr
    swap; · iexact H5
    ipureintro; exact View.read_writes_of_cover _ _ _ _ _ (cover4_A_5 V c t _)
  · rw [outsAt4_B V c t h0]
    simp only [before4_4_B V c t h0, before4_5_B V c t h0]
    unfold readBack4
    dsimp only
    iintro ⟨HΦ, Ho, ⟨%d0, H0⟩, ⟨%d1, H1⟩, ⟨%d2, H2⟩, ⟨%d3, H3⟩, ⟨%d4, H4⟩, ⟨%d5, H5⟩⟩
    iapply ((runB4 V c t (fun h => h0 ((hcond4_0 t).mp h)) _ _).2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover4_B_3 V c t _ _ _)
    isplitl [H4]
    · unfold owns; iexists _; isplitr
      swap; · iexact H4
      ipureintro; exact View.read_writes_of_cover _ _ _ _ _ (cover4_B_4 V c t _ _ _)
    unfold owns; iexists _; isplitr
    swap; · iexact H5
    ipureintro; exact View.read_writes_of_cover _ _ _ _ _ (cover4_B_5 V c t _ _ _)

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Body

end
-- ==== Proof.KRegion5.lean ====
/-
  Region 5 of the program: the normalise-and-cut-off tile kernel: (x − mean)·rsqrt(max(var, 0) + ε)·scale + bias, cut off at 0, the four rows repeated down the tile, one grid point at a time.

  At a grid point the body loads its 5 input blocks whole and stores one value into its output block, also whole.
  The inputs are read only, so after the body each holds its block as before and the output block holds that one
  stored value; nothing else of the core's state moves. This is the body's obligation to the pipeline, at any float instance.
-/
import proofs.«140713_j1864015806535_2_alg».proof.Proof.Gen.Kernel.Launch
import proofs.«140713_j1864015806535_2_alg».proof.Proof.Gen.Kernel.Skeleton
import proofs.«140713_j1864015806535_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- The whole-buffer rectangles the body loads and stores through. -/
abbrev r5_0 : Rect S10000x32 := Rect.unit (s := S10000x32) ![0, 0] S10000x32.size inb_S10000x32_S10000x32_0_0
abbrev r5_1 : Rect S1x32 := Rect.unit (s := S1x32) ![0, 0] S1x32.size inb_S1x32_S1x32_0_0
abbrev r5_2 : Rect S1x32 := Rect.unit (s := S1x32) ![0, 0] S1x32.size inb_S1x32_S1x32_0_0
abbrev r5_3 : Rect S1x32 := Rect.unit (s := S1x32) ![0, 0] S1x32.size inb_S1x32_S1x32_0_0
abbrev r5_4 : Rect S1x32 := Rect.unit (s := S1x32) ![0, 0] S1x32.size inb_S1x32_S1x32_0_0
abbrev r5_5 : Rect S10000x32 := Rect.unit (s := S10000x32) ![0, 0] S10000x32.size inb_S10000x32_S10000x32_0_0

/-- The output block after the body: the one store's value of the input blocks. -/
def out5_5 (x0 : Vec F S10000x32 .f32) (x1 : Vec F S1x32 .f32) (x2 : Vec F S1x32 .f32) (x3 : Vec F S1x32 .f32) (x4 : Vec F S1x32 .f32) : Vec F S10000x32 .f32 :=
  View.canon [⟨r5_5, k5_pay1 (View.ld x0 r5_0) (View.ld x1 r5_1) (View.ld x2 r5_2) (View.ld x3 r5_3) (View.ld x4 r5_4)⟩]

/-- The one store covers the whole output block. -/
theorem cover5_5 (p0 : Vec F S10000x32 .f32) (y : S10000x32.Idx) :
    ∃ pc ∈ ([⟨r5_5, p0⟩] : List (View.Piece (Elt F) S10000x32 .f32)), y ∈ pc.1.set :=
  View.cover_of_tiled [⟨r5_5, p0⟩] S10000x32.size (by rfl) y

set_option maxHeartbeats 1000000 in
/-- The body on whole staging buffers: the inputs stay, the output ends at out5_5 of the inputs. -/
theorem sound_kernel5 (c : Dev nD) (E : Set ℕ) (i : grid5.Coords) (arg1 : Memref sig .tc .vmem S10000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S10000x32 .f32) (harg6 : arg6.IsWhole)
    (x0 : Vec F S10000x32 .f32) (x1 : Vec F S1x32 .f32) (x2 : Vec F S1x32 .f32) (x3 : Vec F S1x32 .f32) (x4 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The proof data of this pipeline on core c: the arrays as the region finds them; after the body at point t each
    input's buffer at its block and the output's at the stored value of the input blocks; the invariant the untouched
    scoped rest and the generator register; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point t, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' buffers hold their blocks, so sound_kernel5 applies; the invariant and what the
    core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Body

end
-- ==== Proof.KRegion6.lean ====
/-
  Region 6 of the program: a dense layer's tile kernel: the tile's rows times the whole weight, plus the bias row repeated down the rows, one grid point at a time.

  At a grid point the body loads its 3 input blocks whole and stores one value into its output block, also whole.
  The inputs are read only, so after the body each holds its block as before and the output block holds that one
  stored value; nothing else of the core's state moves. This is the body's obligation to the pipeline, at any float instance.
-/
import proofs.«140713_j1864015806535_2_alg».proof.Proof.Gen.Kernel.Launch
import proofs.«140713_j1864015806535_2_alg».proof.Proof.Gen.Kernel.Skeleton
import proofs.«140713_j1864015806535_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The whole-buffer rectangles the body loads and stores through. -/
abbrev r6_0 : Rect S10000x128 := Rect.unit (s := S10000x128) ![0, 0] S10000x128.size inb_S10000x128_S10000x128_0_0
abbrev r6_1 : Rect S128x64 := Rect.unit (s := S128x64) ![0, 0] S128x64.size inb_S128x64_S128x64_0_0
abbrev r6_2 : Rect S1x64 := Rect.unit (s := S1x64) ![0, 0] S1x64.size inb_S1x64_S1x64_0_0
abbrev r6_3 : Rect S10000x64 := Rect.unit (s := S10000x64) ![0, 0] S10000x64.size inb_S10000x64_S10000x64_0_0

/-- The output block after the body: the one store's value of the input blocks. -/
def out6_3 (x0 : Vec F S10000x128 .f32) (x1 : Vec F S128x64 .f32) (x2 : Vec F S1x64 .f32) : Vec F S10000x64 .f32 :=
  View.canon [⟨r6_3, k6_pay1 (View.ld x0 r6_0) (View.ld x1 r6_1) (View.ld x2 r6_2)⟩]

/-- The one store covers the whole output block. -/
theorem cover6_3 (p0 : Vec F S10000x64 .f32) (y : S10000x64.Idx) :
    ∃ pc ∈ ([⟨r6_3, p0⟩] : List (View.Piece (Elt F) S10000x64 .f32)), y ∈ pc.1.set :=
  View.cover_of_tiled [⟨r6_3, p0⟩] S10000x64.size (by rfl) y

set_option maxHeartbeats 1000000 in
/-- The body on whole staging buffers: the inputs stay, the output ends at out6_3 of the inputs. -/
theorem sound_kernel6 (c : Dev nD) (E : Set ℕ) (i : grid6.Coords) (arg1 : Memref sig .tc .vmem S10000x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x128 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__matmul_bias_kernel i arg1 harg1 arg2 harg2 arg3 harg3 arg4 harg4) K := by
  simp only [cc6__matmul_bias_kernel_eq_skeleton]; unfold cc6__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-- The proof data of this pipeline on core c: the arrays as the region finds them; after the body at point t each
    input's buffer at its block and the output's at the stored value of the input blocks; the invariant the untouched
    scoped rest and the generator register; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point t, window by window, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' buffers hold their blocks, so sound_kernel6 applies; the invariant and what the
    core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Body

end
-- ==== Proof.KRegion7.lean ====
/-
  Region 7 of the program: the mix-and-accumulate tile kernel, one grid point at a time.

  At grid point t the body loads its tile of h and of agg (windows 0 and 1) and the 1×1 mixing weight g (window 2),
  stores xm = g·agg + (1 − g)·h into its tile of the output (window 3), and adds the column sums of xm and of xm·xm
  to two one-row outputs (windows 4 and 5) that stay in place over the whole grid: at the first point the rows are
  first set to zero, at every later point they hold what the point before left. So the body has two cases, told apart
  by the grid coordinate alone; in the first it reads none of its outputs before covering them, in the second it
  reads the two rows. What the three outputs hold after point n is defined by recursion on n, and the body's
  obligation to the pipeline is proved case by case. At any float instance.
-/
import proofs.«140713_j1864015806535_2_alg».proof.Proof.Gen.Kernel.Launch
import proofs.«140713_j1864015806535_2_alg».proof.Proof.Gen.Kernel.Skeleton
import proofs.«140713_j1864015806535_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- The body's branch condition from the grid coordinate: "this is the first point". -/
abbrev cond7_0 (i : grid7.Coords) : Prop := (Scalar.cmpi .ne (Scalar.extui (Scalar.cmpi .eq (BitVec.ofNat 32 (i 0).val) 0#32)) 0#32) = 1#1
/-- It holds at the first point only: decided over the grid. -/
theorem hcond7_0 : ∀ t : Fin cfg7.N, cond7_0 (grid7.coords t) ↔ t.val % 10 = 0 :=
  (by decide +kernel : ∀ t : Fin grid7.N, cond7_0 (grid7.coords t) ↔ t.val % 10 = 0)

/-- One staging buffer of each output window, through which its contents are stated. -/
abbrev VO7_3 : View sig .tc .vmem S10000x64 .f32 := (Memref.whole cc7_stg3_0 : Memref sig .tc .vmem S10000x64 .f32).view
abbrev VO7_4 : View sig .tc .vmem S1x64 .f32 := (Memref.whole cc7_stg4_0 : Memref sig .tc .vmem S1x64 .f32).view
abbrev VO7_5 : View sig .tc .vmem S1x64 .f32 := (Memref.whole cc7_stg5_0 : Memref sig .tc .vmem S1x64 .f32).view

/-- Each window's current staging buffer at point t, as the pipeline passes it, and its wholeness. -/
abbrev ms7_0 (t : Fin cfg7.N) : Memref sig .tc .vmem S10000x64 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S10000x64 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x1 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S10000x64 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S1x64 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S1x64 .f32 := win7_5.stage (cfg7.slots t 5)
abbrev hs7_5 (t : Fin cfg7.N) : (ms7_5 t).IsWhole := hstage7_5 ((cfg7.slots t 5).cast nbuf7_5)

/-- The three outputs' piece lists, and their contents. -/
abbrev Pcs7 : Type := List (View.Piece (Elt F) S10000x64 .f32) × List (View.Piece (Elt F) S1x64 .f32) × List (View.Piece (Elt F) S1x64 .f32)
abbrev Outs7 : Type := Vec F S10000x64 .f32 × Vec F S1x64 .f32 × Vec F S1x64 .f32

set_option maxHeartbeats 4000000 in
/-- THE FIRST POINT (the branch taken): what the body's stores leave in each output's staging buffer, as pieces (last
    first), with the proof that on whole staging buffers, the inputs' at their contents and the outputs' at anything,
    the body runs to the continuation holding the inputs' as they were and each output's with its pieces written. -/
noncomputable def kernelRun7_A (c : Dev nD) (i : grid7.Coords)
    (arg1 : Memref sig .tc .vmem S10000x64 .f32) (harg1 : arg1.IsWhole) (arg2 : Memref sig .tc .vmem S10000x64 .f32) (harg2 : arg2.IsWhole)
    (arg3 : Memref sig .tc .vmem S1x1 .f32) (harg3 : arg3.IsWhole) (arg4 : Memref sig .tc .vmem S10000x64 .f32) (harg4 : arg4.IsWhole)
    (arg5 : Memref sig .tc .vmem S1x64 .f32) (harg5 : arg5.IsWhole) (arg6 : Memref sig .tc .vmem S1x64 .f32) (harg6 : arg6.IsWhole)
    (hc0 : cond7_0 i) (x0 : Vec F S10000x64 .f32) (x1 : Vec F S10000x64 .f32) (x2 : Vec F S1x1 .f32) :
    { L : Pcs7 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2.1)
                ∗ (∃ f, arg6.view.loc (c : Thread nD τ) ↦[arg6.view.set]{fullShare} arg6.view.writes (Elt F) f L.2.2)) -∗ K ⟨⟩))
          ⊢ wp frame (wpE (defs₀ (F := F)) Variants.none c none) E (cc7__mix_reduce_kernel i arg1 harg1 arg2 harg2 arg3 harg3 arg4 harg4 arg5 harg5 arg6 harg6) K } := by
  refine ⟨(?_, ?_, ?_), fun E K => ?run⟩
  case run =>
    simp only [cc7__mix_reduce_kernel_eq_skeleton]; unfold cc7__mix_reduce_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0
    obtain rfl := harg2.eq_unread hf1
    obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

set_option maxHeartbeats 4000000 in
/-- EVERY LATER POINT (the branch not taken): the same, the two rows entered at their running contents xo4, xo5. -/
noncomputable def kernelRun7_B (c : Dev nD) (i : grid7.Coords)
    (arg1 : Memref sig .tc .vmem S10000x64 .f32) (harg1 : arg1.IsWhole) (arg2 : Memref sig .tc .vmem S10000x64 .f32) (harg2 : arg2.IsWhole)
    (arg3 : Memref sig .tc .vmem S1x1 .f32) (harg3 : arg3.IsWhole) (arg4 : Memref sig .tc .vmem S10000x64 .f32) (harg4 : arg4.IsWhole)
    (arg5 : Memref sig .tc .vmem S1x64 .f32) (harg5 : arg5.IsWhole) (arg6 : Memref sig .tc .vmem S1x64 .f32) (harg6 : arg6.IsWhole)
    (hc0 : ¬cond7_0 i) (x0 : Vec F S10000x64 .f32) (x1 : Vec F S10000x64 .f32) (x2 : Vec F S1x1 .f32) (xo4 : Vec F S1x64 .f32) (xo5 : Vec F S1x64 .f32) :
    { L : Pcs7 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2.1)
                ∗ (∃ f, arg6.view.loc (c : Thread nD τ) ↦[arg6.view.set]{fullShare} arg6.view.writes (Elt F) f L.2.2)) -∗ K ⟨⟩))
          ⊢ wp frame (wpE (defs₀ (F := F)) Variants.none c none) E (cc7__mix_reduce_kernel i arg1 harg1 arg2 harg2 arg3 harg3 arg4 harg4 arg5 harg5 arg6 harg6) K } := by
  refine ⟨(?_, ?_, ?_), fun E K => ?run⟩
  case run =>
    simp only [cc7__mix_reduce_kernel_eq_skeleton]; unfold cc7__mix_reduce_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg1.eq_unread hf0
    obtain rfl := harg2.eq_unread hf1
    obtain rfl := harg3.eq_unread hf2
    obtain rfl := harg5.eq_unread hf4
    obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

/-- The two runs at a grid point, on the point's staging buffers and input blocks. -/
abbrev runA7 (c : Dev nD) (t : Fin cfg7.N) (h : cond7_0 (grid7.coords t)) :=
  kernelRun7_A (F := F) c (grid7.coords t) (ms7_0 t) (hs7_0 t) (ms7_1 t) (hs7_1 t) (ms7_2 t) (hs7_2 t) (ms7_3 t) (hs7_3 t)
    (ms7_4 t) (hs7_4 t) (ms7_5 t) (hs7_5 t) h (iblk7 V c 0 t) (iblk7 V c 1 t) (iblk7 V c 2 t)
abbrev runB7 (c : Dev nD) (t : Fin cfg7.N) (h : ¬cond7_0 (grid7.coords t)) (xo4 : Vec F S1x64 .f32) (xo5 : Vec F S1x64 .f32) :=
  kernelRun7_B (F := F) c (grid7.coords t) (ms7_0 t) (hs7_0 t) (ms7_1 t) (hs7_1 t) (ms7_2 t) (hs7_2 t) (ms7_3 t) (hs7_3 t)
    (ms7_4 t) (hs7_4 t) (ms7_5 t) (hs7_5 t) h (iblk7 V c 0 t) (iblk7 V c 1 t) (iblk7 V c 2 t) xo4 xo5

/-- What a list of pieces leaves in each output's staging buffer: the pieces read back over junk. -/
def readBack7 (L : Pcs7 (F := F)) : Outs7 (F := F) :=
  (VO7_3.read (Elt F) (VO7_3.writes (Elt F) VO7_3.junk L.1),
   VO7_4.read (Elt F) (VO7_4.writes (Elt F) VO7_4.junk L.2.1),
   VO7_5.read (Elt F) (VO7_5.writes (Elt F) VO7_5.junk L.2.2))

/-- Each case's pieces tile their output's block (checked by evaluation), so they cover it. -/
theorem cover7_A_3 (c : Dev nD) (t : Fin cfg7.N) (h : cond7_0 (grid7.coords t)) (y : S10000x64.Idx) :
    ∃ pc ∈ (runA7 V c t h).1.1, y ∈ pc.1.set := View.cover_of_tiledL (runA7 V c t h).1.1 S10000x64.size (by sl_kernel_rfl) y
theorem cover7_A_4 (c : Dev nD) (t : Fin cfg7.N) (h : cond7_0 (grid7.coords t)) (y : S1x64.Idx) :
    ∃ pc ∈ (runA7 V c t h).1.2.1, y ∈ pc.1.set := View.cover_of_tiledL (runA7 V c t h).1.2.1 S1x64.size (by sl_kernel_rfl) y
theorem cover7_A_5 (c : Dev nD) (t : Fin cfg7.N) (h : cond7_0 (grid7.coords t)) (y : S1x64.Idx) :
    ∃ pc ∈ (runA7 V c t h).1.2.2, y ∈ pc.1.set := View.cover_of_tiledL (runA7 V c t h).1.2.2 S1x64.size (by sl_kernel_rfl) y
theorem cover7_B_3 (c : Dev nD) (t : Fin cfg7.N) (h : ¬cond7_0 (grid7.coords t)) (xo4 xo5) (y : S10000x64.Idx) :
    ∃ pc ∈ (runB7 V c t h xo4 xo5).1.1, y ∈ pc.1.set := View.cover_of_tiledL (runB7 V c t h xo4 xo5).1.1 S10000x64.size (by sl_kernel_rfl) y
theorem cover7_B_4 (c : Dev nD) (t : Fin cfg7.N) (h : ¬cond7_0 (grid7.coords t)) (xo4 xo5) (y : S1x64.Idx) :
    ∃ pc ∈ (runB7 V c t h xo4 xo5).1.2.1, y ∈ pc.1.set := View.cover_of_tiledL (runB7 V c t h xo4 xo5).1.2.1 S1x64.size (by sl_kernel_rfl) y
theorem cover7_B_5 (c : Dev nD) (t : Fin cfg7.N) (h : ¬cond7_0 (grid7.coords t)) (xo4 xo5) (y : S1x64.Idx) :
    ∃ pc ∈ (runB7 V c t h xo4 xo5).1.2.2, y ∈ pc.1.set := View.cover_of_tiledL (runB7 V c t h xo4 xo5).1.2.2 S1x64.size (by sl_kernel_rfl) y

/-- THE ACCUMULATION. What the three outputs' staging buffers hold after the body at position n: the first point's
    case at 0, the later points' case after that, the two rows entered at what position n − 1 left. -/
def outsAt7 (c : Dev nD) : (n : ℕ) → n < cfg7.N → Outs7 (F := F)
  | 0, hn => readBack7 (runA7 V c ⟨0, hn⟩ ((hcond7_0 ⟨0, hn⟩).mpr (Nat.zero_mod _))).1
  | n + 1, hn =>
    if h0 : (n + 1) % 10 = 0 then
      readBack7 (runA7 V c ⟨n + 1, hn⟩ ((hcond7_0 ⟨n + 1, hn⟩).mpr h0)).1
    else
      readBack7 (runB7 V c ⟨n + 1, hn⟩ (fun h => h0 ((hcond7_0 ⟨n + 1, hn⟩).mp h))
        (outsAt7 c n (Nat.lt_of_succ_lt hn)).2.1 (outsAt7 c n (Nat.lt_of_succ_lt hn)).2.2).1

theorem outsAt7_A (c : Dev nD) (t : Fin cfg7.N) (h0 : t.val % 10 = 0) :
    outsAt7 V c t.val t.isLt = readBack7 (runA7 V c t ((hcond7_0 t).mpr h0)).1 := by
  obtain ⟨n, hn⟩ := t
  cases n with
  | zero => exact rfl
  | succ n => exact (dif_pos h0).trans rfl

theorem outsAt7_B (c : Dev nD) (t : Fin cfg7.N) (h0 : ¬t.val % 10 = 0) :
    outsAt7 V c t.val t.isLt = readBack7 (runB7 V c t (fun h => h0 ((hcond7_0 t).mp h))
      (outsAt7 V c (t.val - 1) (Nat.lt_of_le_of_lt (Nat.sub_le _ _) t.isLt)).2.1
      (outsAt7 V c (t.val - 1) (Nat.lt_of_le_of_lt (Nat.sub_le _ _) t.isLt)).2.2).1 := by
  obtain ⟨n, hn⟩ := t
  cases n with
  | zero => exact (by exfalso; (try dsimp only at h0); exact absurd (Nat.zero_mod _) h0)
  | succ n => exact (dif_neg h0).trans rfl

/-- The proof data of this pipeline on core c: the arrays as the region finds them; after the body at point t each
    input's buffer at its block and the outputs' at outsAt; the invariant the untouched scoped rest and the
    generator register; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => (outsAt7 V c t.val t.isLt).1
    | ⟨4, _⟩ => (outsAt7 V c t.val t.isLt).2.1
    | ⟨5, _⟩ => (outsAt7 V c t.val t.isLt).2.2
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = (outsAt7 V c t.val t.isLt).1 := by dsimp only [dat7]
theorem after7_4 (c : Dev nD) (t : Fin cfg7.N) : (dat7 V c).after 4 t = (outsAt7 V c t.val t.isLt).2.1 := by dsimp only [dat7]
theorem after7_5 (c : Dev nD) (t : Fin cfg7.N) : (dat7 V c).after 5 t = (outsAt7 V c t.val t.isLt).2.2 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-- At a later point each row's current staging buffer holds what the body left at the point before: the point is not
    the first, and the row is written back at the last point only. -/
theorem before7_4_B (c : Dev nD) (t : Fin cfg7.N) (h0 : ¬t.val % 10 = 0) (d) :
    (dat7 V c).before 4 t d = (outsAt7 V c (t.val - 1) (Nat.lt_of_le_of_lt (Nat.sub_le _ _) t.isLt)).2.1 := by
  have hN : t.val < 10 := lt_of_lt_of_eq t.isLt (show cfg7.N = 10 from N_7)
  rw [Dat.before_out_kept _ 4 rfl t (by omega) (Bool.eq_false_iff.mpr fun h => by have := (flush7_4 _).mp h; dsimp only at this; omega)
    (fun _ => rfl) (fun _ _ => rfl)]
  dsimp only [dat7]
theorem before7_5_B (c : Dev nD) (t : Fin cfg7.N) (h0 : ¬t.val % 10 = 0) (d) :
    (dat7 V c).before 5 t d = (outsAt7 V c (t.val - 1) (Nat.lt_of_le_of_lt (Nat.sub_le _ _) t.isLt)).2.2 := by
  have hN : t.val < 10 := lt_of_lt_of_eq t.isLt (show cfg7.N = 10 from N_7)
  rw [Dat.before_out_kept _ 5 rfl t (by omega) (Bool.eq_false_iff.mpr fun h => by have := (flush7_5 _).mp h; dsimp only at this; omega)
    (fun _ => rfl) (fun _ _ => rfl)]
  dsimp only [dat7]

/-- What the body is called with at point t, window by window, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (ms7_0 t) fullShare ((dat7 V c).after 0 t)
    ∗ owns (c : Thread nD τ) (ms7_1 t) fullShare ((dat7 V c).after 1 t)
    ∗ owns (c : Thread nD τ) (ms7_2 t) fullShare ((dat7 V c).after 2 t)
    ∗ owns (c : Thread nD τ) (ms7_3 t) fullShare ((dat7 V c).after 3 t)
    ∗ owns (c : Thread nD τ) (ms7_4 t) fullShare ((dat7 V c).after 4 t)
    ∗ owns (c : Thread nD τ) (ms7_5 t) fullShare ((dat7 V c).after 5 t))

set_option maxHeartbeats 2000000 in
/-- The body at any point: the inputs' buffers hold their blocks; the closed form of the condition says which case the
    point is in; at a later point the two rows hold what the point before left; so that case's run applies; the
    invariant and what the core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3, after7_4, after7_5]
  have hN : t.val < 10 := lt_of_lt_of_eq t.isLt (show cfg7.N = 10 from N_7)
  by_cases h0 : t.val % 10 = 0
  · rw [outsAt7_A V c t h0]
    unfold readBack7
    dsimp only
    iintro ⟨HΦ, Ho, ⟨%d0, H0⟩, ⟨%d1, H1⟩, ⟨%d2, H2⟩, ⟨%d3, H3⟩, ⟨%d4, H4⟩, ⟨%d5, H5⟩⟩
    iapply ((runA7 V c t ((hcond7_0 t).mpr h0)).2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover7_A_3 V c t _)
    isplitl [H4]
    · unfold owns; iexists _; isplitr
      swap; · iexact H4
      ipureintro; exact View.read_writes_of_cover _ _ _ _ _ (cover7_A_4 V c t _)
    unfold owns; iexists _; isplitr
    swap; · iexact H5
    ipureintro; exact View.read_writes_of_cover _ _ _ _ _ (cover7_A_5 V c t _)
  · rw [outsAt7_B V c t h0]
    simp only [before7_4_B V c t h0, before7_5_B V c t h0]
    unfold readBack7
    dsimp only
    iintro ⟨HΦ, Ho, ⟨%d0, H0⟩, ⟨%d1, H1⟩, ⟨%d2, H2⟩, ⟨%d3, H3⟩, ⟨%d4, H4⟩, ⟨%d5, H5⟩⟩
    iapply ((runB7 V c t (fun h => h0 ((hcond7_0 t).mp h)) _ _).2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover7_B_3 V c t _ _ _)
    isplitl [H4]
    · unfold owns; iexists _; isplitr
      swap; · iexact H4
      ipureintro; exact View.read_writes_of_cover _ _ _ _ _ (cover7_B_4 V c t _ _ _)
    unfold owns; iexists _; isplitr
    swap; · iexact H5
    ipureintro; exact View.read_writes_of_cover _ _ _ _ _ (cover7_B_5 V c t _ _ _)

/-- The pipeline's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Body

end
-- ==== Proof.KRegion8.lean ====
/-
  Region 8 of the program: the normalise-and-cut-off tile kernel: (x − mean)·rsqrt(max(var, 0) + ε)·scale + bias, cut off at 0, the four rows repeated down the tile, one grid point at a time.

  At a grid point the body loads its 5 input blocks whole and stores one value into its output block, also whole.
  The inputs are read only, so after the body each holds its block as before and the output block holds that one
  stored value; nothing else of the core's state moves. This is the body's obligation to the pipeline, at any float instance.
-/
import proofs.«140713_j1864015806535_2_alg».proof.Proof.Gen.Kernel.Launch
import proofs.«140713_j1864015806535_2_alg».proof.Proof.Gen.Kernel.Skeleton
import proofs.«140713_j1864015806535_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at every point, fetched there or not. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- The whole-buffer rectangles the body loads and stores through. -/
abbrev r8_0 : Rect S10000x64 := Rect.unit (s := S10000x64) ![0, 0] S10000x64.size inb_S10000x64_S10000x64_0_0
abbrev r8_1 : Rect S1x64 := Rect.unit (s := S1x64) ![0, 0] S1x64.size inb_S1x64_S1x64_0_0
abbrev r8_2 : Rect S1x64 := Rect.unit (s := S1x64) ![0, 0] S1x64.size inb_S1x64_S1x64_0_0
abbrev r8_3 : Rect S1x64 := Rect.unit (s := S1x64) ![0, 0] S1x64.size inb_S1x64_S1x64_0_0
abbrev r8_4 : Rect S1x64 := Rect.unit (s := S1x64) ![0, 0] S1x64.size inb_S1x64_S1x64_0_0
abbrev r8_5 : Rect S10000x64 := Rect.unit (s := S10000x64) ![0, 0] S10000x64.size inb_S10000x64_S10000x64_0_0

/-- The output block after the body: the one store's value of the input blocks. -/
def out8_5 (x0 : Vec F S10000x64 .f32) (x1 : Vec F S1x64 .f32) (x2 : Vec F S1x64 .f32) (x3 : Vec F S1x64 .f32) (x4 : Vec F S1x64 .f32) : Vec F S10000x64 .f32 :=
  View.canon [⟨r8_5, k8_pay1 (View.ld x0 r8_0) (View.ld x1 r8_1) (View.ld x2 r8_2) (View.ld x3 r8_3) (View.ld x4 r8_4)⟩]

/-- The one store covers the whole output block. -/
theorem cover8_5 (p0 : Vec F S10000x64 .f32) (y : S10000x64.Idx) :
    ∃ pc ∈ ([⟨r8_5, p0⟩] : List (View.Piece (Elt F) S10000x64 .f32)), y ∈ pc.1.set :=
  View.cover_of_tiled [⟨r8_5, p0⟩] S10000x64.size (by rfl) y

set_option maxHeartbeats 1000000 in
/-- The body on whole staging buffers: the inputs stay, the output ends at out8_5 of the inputs. -/
theorem sound_kernel8 (c : Dev nD) (E : Set ℕ) (i : grid8.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out8_5 x0 x1 x2 x3 x4)) -∗ K ⟨⟩))
      ⊢ wp frame (wpE (defs₀ (F := F)) Variants.none c none) E (cc8__bn_relu_kernel i arg1 harg1 arg2 harg2 arg3 harg3 arg4 harg4 arg5 harg5 arg6 harg6) K := by
  simp only [cc8__bn_relu_kernel_eq_skeleton]; unfold cc8__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-- The proof data of this pipeline on core c: the arrays as the region finds them; after the body at point t each
    input's buffer at its block and the output's at the stored value of the input blocks; the invariant the untouched
    scoped rest and the generator register; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) :
    (dat8 V c).after 5 t = out8_5 (iblk8 V c 0 t) (iblk8 V c 1 t) (iblk8 V c 2 t) (iblk8 V c 3 t) (iblk8 V c 4 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-- What the body is called with at point t, window by window, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' buffers hold their blocks, so sound_kernel8 applies; the invariant and what the
    core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Body

end
-- ==== Proof.KRegion9.lean ====
/-
  Region 9 of the program: a dense layer's tile kernel: the tile's rows times the whole weight, plus the bias row repeated down the rows, one grid point at a time.

  At a grid point the body loads its 3 input blocks whole and stores one value into its output block, also whole.
  The inputs are read only, so after the body each holds its block as before and the output block holds that one
  stored value; nothing else of the core's state moves. This is the body's obligation to the pipeline, at any float instance.
-/
import proofs.«140713_j1864015806535_2_alg».proof.Proof.Gen.Kernel.Launch
import proofs.«140713_j1864015806535_2_alg».proof.Proof.Gen.Kernel.Skeleton
import proofs.«140713_j1864015806535_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's current staging buffer holds its block at every point, fetched there or not. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- The whole-buffer rectangles the body loads and stores through. -/
abbrev r9_0 : Rect S10000x64 := Rect.unit (s := S10000x64) ![0, 0] S10000x64.size inb_S10000x64_S10000x64_0_0
abbrev r9_1 : Rect S64x32 := Rect.unit (s := S64x32) ![0, 0] S64x32.size inb_S64x32_S64x32_0_0
abbrev r9_2 : Rect S1x32 := Rect.unit (s := S1x32) ![0, 0] S1x32.size inb_S1x32_S1x32_0_0
abbrev r9_3 : Rect S10000x32 := Rect.unit (s := S10000x32) ![0, 0] S10000x32.size inb_S10000x32_S10000x32_0_0

/-- The output block after the body: the one store's value of the input blocks. -/
def out9_3 (x0 : Vec F S10000x64 .f32) (x1 : Vec F S64x32 .f32) (x2 : Vec F S1x32 .f32) : Vec F S10000x32 .f32 :=
  View.canon [⟨r9_3, k9_pay1 (View.ld x0 r9_0) (View.ld x1 r9_1) (View.ld x2 r9_2)⟩]

/-- The one store covers the whole output block. -/
theorem cover9_3 (p0 : Vec F S10000x32 .f32) (y : S10000x32.Idx) :
    ∃ pc ∈ ([⟨r9_3, p0⟩] : List (View.Piece (Elt F) S10000x32 .f32)), y ∈ pc.1.set :=
  View.cover_of_tiled [⟨r9_3, p0⟩] S10000x32.size (by rfl) y

set_option maxHeartbeats 1000000 in
/-- The body on whole staging buffers: the inputs stay, the output ends at out9_3 of the inputs. -/
theorem sound_kernel9 (c : Dev nD) (E : Set ℕ) (i : grid9.Coords) (arg1 : Memref sig .tc .vmem S10000x64 .f32) (harg1 : arg1.IsWhole) (arg2 : Memref sig .tc .vmem S64x32 .f32) (harg2 : arg2.IsWhole) (arg3 : Memref sig .tc .vmem S1x32 .f32) (harg3 : arg3.IsWhole) (arg4 : Memref sig .tc .vmem S10000x32 .f32) (harg4 : arg4.IsWhole)
    (x0 : Vec F S10000x64 .f32) (x1 : Vec F S64x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out9_3 x0 x1 x2)) -∗ K ⟨⟩))
      ⊢ wp frame (wpE (defs₀ (F := F)) Variants.none c none) E (cc9__matmul_bias_kernel i arg1 harg1 arg2 harg2 arg3 harg3 arg4 harg4) K := by
  simp only [cc9__matmul_bias_kernel_eq_skeleton]; unfold cc9__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-- The proof data of this pipeline on core c: the arrays as the region finds them; after the body at point t each
    input's buffer at its block and the output's at the stored value of the input blocks; the invariant the untouched
    scoped rest and the generator register; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) :
    (dat9 V c).after 3 t = out9_3 (iblk9 V c 0 t) (iblk9 V c 1 t) (iblk9 V c 2 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-- What the body is called with at point t, window by window, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

/-- The body at any point: the inputs' buffers hold their blocks, so sound_kernel9 applies; the invariant and what the
    core owes pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ _ _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Body

end
-- ==== Proof.KRegion10.lean ====
/-
  Region 10 of the program: the mix-and-accumulate tile kernel, one grid point at a time.

  At grid point t the body loads its tile of h and of agg (windows 0 and 1) and the 1×1 mixing weight g (window 2),
  stores xm = g·agg + (1 − g)·h into its tile of the output (window 3), and adds the column sums of xm and of xm·xm
  to two one-row outputs (windows 4 and 5) that stay in place over the whole grid: at the first point the rows are
  first set to zero, at every later point they hold what the point before left. So the body has two cases, told apart
  by the grid coordinate alone; in the first it reads none of its outputs before covering them, in the second it
  reads the two rows. What the three outputs hold after point n is defined by recursion on n, and the body's
  obligation to the pipeline is proved case by case. At any float instance.
-/
import proofs.«140713_j1864015806535_2_alg».proof.Proof.Gen.Kernel.Launch
import proofs.«140713_j1864015806535_2_alg».proof.Proof.Gen.Kernel.Skeleton
import proofs.«140713_j1864015806535_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's current staging buffer holds its block at every point, fetched there or not. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- The body's branch condition from the grid coordinate: "this is the first point". -/
abbrev cond10_0 (i : grid10.Coords) : Prop := (Scalar.cmpi .ne (Scalar.extui (Scalar.cmpi .eq (BitVec.ofNat 32 (i 0).val) 0#32)) 0#32) = 1#1
/-- It holds at the first point only: decided over the grid. -/
theorem hcond10_0 : ∀ t : Fin cfg10.N, cond10_0 (grid10.coords t) ↔ t.val % 10 = 0 :=
  (by decide +kernel : ∀ t : Fin grid10.N, cond10_0 (grid10.coords t) ↔ t.val % 10 = 0)

/-- One staging buffer of each output window, through which its contents are stated. -/
abbrev VO10_3 : View sig .tc .vmem S10000x32 .f32 := (Memref.whole cc10_stg3_0 : Memref sig .tc .vmem S10000x32 .f32).view
abbrev VO10_4 : View sig .tc .vmem S1x32 .f32 := (Memref.whole cc10_stg4_0 : Memref sig .tc .vmem S1x32 .f32).view
abbrev VO10_5 : View sig .tc .vmem S1x32 .f32 := (Memref.whole cc10_stg5_0 : Memref sig .tc .vmem S1x32 .f32).view

/-- Each window's current staging buffer at point t, as the pipeline passes it, and its wholeness. -/
abbrev ms10_0 (t : Fin cfg10.N) : Memref sig .tc .vmem S10000x32 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S10000x32 .f32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S1x1 .f32 := win10_2.stage (cfg10.slots t 2)
abbrev hs10_2 (t : Fin cfg10.N) : (ms10_2 t).IsWhole := hstage10_2 ((cfg10.slots t 2).cast nbuf10_2)
abbrev ms10_3 (t : Fin cfg10.N) : Memref sig .tc .vmem S10000x32 .f32 := win10_3.stage (cfg10.slots t 3)
abbrev hs10_3 (t : Fin cfg10.N) : (ms10_3 t).IsWhole := hstage10_3 ((cfg10.slots t 3).cast nbuf10_3)
abbrev ms10_4 (t : Fin cfg10.N) : Memref sig .tc .vmem S1x32 .f32 := win10_4.stage (cfg10.slots t 4)
abbrev hs10_4 (t : Fin cfg10.N) : (ms10_4 t).IsWhole := hstage10_4 ((cfg10.slots t 4).cast nbuf10_4)
abbrev ms10_5 (t : Fin cfg10.N) : Memref sig .tc .vmem S1x32 .f32 := win10_5.stage (cfg10.slots t 5)
abbrev hs10_5 (t : Fin cfg10.N) : (ms10_5 t).IsWhole := hstage10_5 ((cfg10.slots t 5).cast nbuf10_5)

/-- The three outputs' piece lists, and their contents. -/
abbrev Pcs10 : Type := List (View.Piece (Elt F) S10000x32 .f32) × List (View.Piece (Elt F) S1x32 .f32) × List (View.Piece (Elt F) S1x32 .f32)
abbrev Outs10 : Type := Vec F S10000x32 .f32 × Vec F S1x32 .f32 × Vec F S1x32 .f32

set_option maxHeartbeats 4000000 in
/-- THE FIRST POINT (the branch taken): what the body's stores leave in each output's staging buffer, as pieces (last
    first), with the proof that on whole staging buffers, the inputs' at their contents and the outputs' at anything,
    the body runs to the continuation holding the inputs' as they were and each output's with its pieces written. -/
noncomputable def kernelRun10_A (c : Dev nD) (i : grid10.Coords)
    (arg1 : Memref sig .tc .vmem S10000x32 .f32) (harg1 : arg1.IsWhole) (arg2 : Memref sig .tc .vmem S10000x32 .f32) (harg2 : arg2.IsWhole)
    (arg3 : Memref sig .tc .vmem S1x1 .f32) (harg3 : arg3.IsWhole) (arg4 : Memref sig .tc .vmem S10000x32 .f32) (harg4 : arg4.IsWhole)
    (arg5 : Memref sig .tc .vmem S1x32 .f32) (harg5 : arg5.IsWhole) (arg6 : Memref sig .tc .vmem S1x32 .f32) (harg6 : arg6.IsWhole)
    (hc0 : cond10_0 i) (x0 : Vec F S10000x32 .f32) (x1 : Vec F S10000x32 .f32) (x2 : Vec F S1x1 .f32) :
    { L : Pcs10 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2.1)
                ∗ (∃ f, arg6.view.loc (c : Thread nD τ) ↦[arg6.view.set]{fullShare} arg6.view.writes (Elt F) f L.2.2)) -∗ K ⟨⟩))
          ⊢ wp frame (wpE (defs₀ (F := F)) Variants.none c none) E (cc10__mix_reduce_kernel i arg1 harg1 arg2 harg2 arg3 harg3 arg4 harg4 arg5 harg5 arg6 harg6) K } := by
  refine ⟨(?_, ?_, ?_), fun E K => ?run⟩
  case run =>
    simp only [cc10__mix_reduce_kernel_eq_skeleton]; unfold cc10__mix_reduce_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0
    obtain rfl := harg2.eq_unread hf1
    obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

set_option maxHeartbeats 4000000 in
/-- EVERY LATER POINT (the branch not taken): the same, the two rows entered at their running contents xo4, xo5. -/
noncomputable def kernelRun10_B (c : Dev nD) (i : grid10.Coords)
    (arg1 : Memref sig .tc .vmem S10000x32 .f32) (harg1 : arg1.IsWhole) (arg2 : Memref sig .tc .vmem S10000x32 .f32) (harg2 : arg2.IsWhole)
    (arg3 : Memref sig .tc .vmem S1x1 .f32) (harg3 : arg3.IsWhole) (arg4 : Memref sig .tc .vmem S10000x32 .f32) (harg4 : arg4.IsWhole)
    (arg5 : Memref sig .tc .vmem S1x32 .f32) (harg5 : arg5.IsWhole) (arg6 : Memref sig .tc .vmem S1x32 .f32) (harg6 : arg6.IsWhole)
    (hc0 : ¬cond10_0 i) (x0 : Vec F S10000x32 .f32) (x1 : Vec F S10000x32 .f32) (x2 : Vec F S1x1 .f32) (xo4 : Vec F S1x32 .f32) (xo5 : Vec F S1x32 .f32) :
    { L : Pcs10 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2.1)
                ∗ (∃ f, arg6.view.loc (c : Thread nD τ) ↦[arg6.view.set]{fullShare} arg6.view.writes (Elt F) f L.2.2)) -∗ K ⟨⟩))
          ⊢ wp frame (wpE (defs₀ (F := F)) Variants.none c none) E (cc10__mix_reduce_kernel i arg1 harg1 arg2 harg2 arg3 harg3 arg4 harg4 arg5 harg5 arg6 harg6) K } := by
  refine ⟨(?_, ?_, ?_), fun E K => ?run⟩
  case run =>
    simp only [cc10__mix_reduce_kernel_eq_skeleton]; unfold cc10__mix_reduce_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg1.eq_unread hf0
    obtain rfl := harg2.eq_unread hf1
    obtain rfl := harg3.eq_unread hf2
    obtain rfl := harg5.eq_unread hf4
    obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

/-- The two runs at a grid point, on the point's staging buffers and input blocks. -/
abbrev runA10 (c : Dev nD) (t : Fin cfg10.N) (h : cond10_0 (grid10.coords t)) :=
  kernelRun10_A (F := F) c (grid10.coords t) (ms10_0 t) (hs10_0 t) (ms10_1 t) (hs10_1 t) (ms10_2 t) (hs10_2 t) (ms10_3 t) (hs10_3 t)
    (ms10_4 t) (hs10_4 t) (ms10_5 t) (hs10_5 t) h (iblk10 V c 0 t) (iblk10 V c 1 t) (iblk10 V c 2 t)
abbrev runB10 (c : Dev nD) (t : Fin cfg10.N) (h : ¬cond10_0 (grid10.coords t)) (xo4 : Vec F S1x32 .f32) (xo5 : Vec F S1x32 .f32) :=
  kernelRun10_B (F := F) c (grid10.coords t) (ms10_0 t) (hs10_0 t) (ms10_1 t) (hs10_1 t) (ms10_2 t) (hs10_2 t) (ms10_3 t) (hs10_3 t)
    (ms10_4 t) (hs10_4 t) (ms10_5 t) (hs10_5 t) h (iblk10 V c 0 t) (iblk10 V c 1 t) (iblk10 V c 2 t) xo4 xo5

/-- What a list of pieces leaves in each output's staging buffer: the pieces read back over junk. -/
def readBack10 (L : Pcs10 (F := F)) : Outs10 (F := F) :=
  (VO10_3.read (Elt F) (VO10_3.writes (Elt F) VO10_3.junk L.1),
   VO10_4.read (Elt F) (VO10_4.writes (Elt F) VO10_4.junk L.2.1),
   VO10_5.read (Elt F) (VO10_5.writes (Elt F) VO10_5.junk L.2.2))

/-- Each case's pieces tile their output's block (checked by evaluation), so they cover it. -/
theorem cover10_A_3 (c : Dev nD) (t : Fin cfg10.N) (h : cond10_0 (grid10.coords t)) (y : S10000x32.Idx) :
    ∃ pc ∈ (runA10 V c t h).1.1, y ∈ pc.1.set := View.cover_of_tiledL (runA10 V c t h).1.1 S10000x32.size (by sl_kernel_rfl) y
theorem cover10_A_4 (c : Dev nD) (t : Fin cfg10.N) (h : cond10_0 (grid10.coords t)) (y : S1x32.Idx) :
    ∃ pc ∈ (runA10 V c t h).1.2.1, y ∈ pc.1.set := View.cover_of_tiledL (runA10 V c t h).1.2.1 S1x32.size (by sl_kernel_rfl) y
theorem cover10_A_5 (c : Dev nD) (t : Fin cfg10.N) (h : cond10_0 (grid10.coords t)) (y : S1x32.Idx) :
    ∃ pc ∈ (runA10 V c t h).1.2.2, y ∈ pc.1.set := View.cover_of_tiledL (runA10 V c t h).1.2.2 S1x32.size (by sl_kernel_rfl) y
theorem cover10_B_3 (c : Dev nD) (t : Fin cfg10.N) (h : ¬cond10_0 (grid10.coords t)) (xo4 xo5) (y : S10000x32.Idx) :
    ∃ pc ∈ (runB10 V c t h xo4 xo5).1.1, y ∈ pc.1.set := View.cover_of_tiledL (runB10 V c t h xo4 xo5).1.1 S10000x32.size (by sl_kernel_rfl) y
theorem cover10_B_4 (c : Dev nD) (t : Fin cfg10.N) (h : ¬cond10_0 (grid10.coords t)) (xo4 xo5) (y : S1x32.Idx) :
    ∃ pc ∈ (runB10 V c t h xo4 xo5).1.2.1, y ∈ pc.1.set := View.cover_of_tiledL (runB10 V c t h xo4 xo5).1.2.1 S1x32.size (by sl_kernel_rfl) y
theorem cover10_B_5 (c : Dev nD) (t : Fin cfg10.N) (h : ¬cond10_0 (grid10.coords t)) (xo4 xo5) (y : S1x32.Idx) :
    ∃ pc ∈ (runB10 V c t h xo4 xo5).1.2.2, y ∈ pc.1.set := View.cover_of_tiledL (runB10 V c t h xo4 xo5).1.2.2 S1x32.size (by sl_kernel_rfl) y

/-- THE ACCUMULATION. What the three outputs' staging buffers hold after the body at position n: the first point's
    case at 0, the later points' case after that, the two rows entered at what position n − 1 left. -/
def outsAt10 (c : Dev nD) : (n : ℕ) → n < cfg10.N → Outs10 (F := F)
  | 0, hn => readBack10 (runA10 V c ⟨0, hn⟩ ((hcond10_0 ⟨0, hn⟩).mpr (Nat.zero_mod _))).1
  | n + 1, hn =>
    if h0 : (n + 1) % 10 = 0 then
      readBack10 (runA10 V c ⟨n + 1, hn⟩ ((hcond10_0 ⟨n + 1, hn⟩).mpr h0)).1
    else
      readBack10 (runB10 V c ⟨n + 1, hn⟩ (fun h => h0 ((hcond10_0 ⟨n + 1, hn⟩).mp h))
        (outsAt10 c n (Nat.lt_of_succ_lt hn)).2.1 (outsAt10 c n (Nat.lt_of_succ_lt hn)).2.2).1

theorem outsAt10_A (c : Dev nD) (t : Fin cfg10.N) (h0 : t.val % 10 = 0) :
    outsAt10 V c t.val t.isLt = readBack10 (runA10 V c t ((hcond10_0 t).mpr h0)).1 := by
  obtain ⟨n, hn⟩ := t
  cases n with
  | zero => exact rfl
  | succ n => exact (dif_pos h0).trans rfl

theorem outsAt10_B (c : Dev nD) (t : Fin cfg10.N) (h0 : ¬t.val % 10 = 0) :
    outsAt10 V c t.val t.isLt = readBack10 (runB10 V c t (fun h => h0 ((hcond10_0 t).mp h))
      (outsAt10 V c (t.val - 1) (Nat.lt_of_le_of_lt (Nat.sub_le _ _) t.isLt)).2.1
      (outsAt10 V c (t.val - 1) (Nat.lt_of_le_of_lt (Nat.sub_le _ _) t.isLt)).2.2).1 := by
  obtain ⟨n, hn⟩ := t
  cases n with
  | zero => exact (by exfalso; (try dsimp only at h0); exact absurd (Nat.zero_mod _) h0)
  | succ n => exact (dif_neg h0).trans rfl

/-- The proof data of this pipeline on core c: the arrays as the region finds them; after the body at point t each
    input's buffer at its block and the outputs' at outsAt; the invariant the untouched scoped rest and the
    generator register; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => (outsAt10 V c t.val t.isLt).1
    | ⟨4, _⟩ => (outsAt10 V c t.val t.isLt).2.1
    | ⟨5, _⟩ => (outsAt10 V c t.val t.isLt).2.2
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = (outsAt10 V c t.val t.isLt).1 := by dsimp only [dat10]
theorem after10_4 (c : Dev nD) (t : Fin cfg10.N) : (dat10 V c).after 4 t = (outsAt10 V c t.val t.isLt).2.1 := by dsimp only [dat10]
theorem after10_5 (c : Dev nD) (t : Fin cfg10.N) : (dat10 V c).after 5 t = (outsAt10 V c t.val t.isLt).2.2 := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d

/-- At a later point each row's current staging buffer holds what the body left at the point before: the point is not
    the first, and the row is written back at the last point only. -/
theorem before10_4_B (c : Dev nD) (t : Fin cfg10.N) (h0 : ¬t.val % 10 = 0) (d) :
    (dat10 V c).before 4 t d = (outsAt10 V c (t.val - 1) (Nat.lt_of_le_of_lt (Nat.sub_le _ _) t.isLt)).2.1 := by
  have hN : t.val < 10 := lt_of_lt_of_eq t.isLt (show cfg10.N = 10 from N_10)
  rw [Dat.before_out_kept _ 4 rfl t (by omega) (Bool.eq_false_iff.mpr fun h => by have := (flush10_4 _).mp h; dsimp only at this; omega)
    (fun _ => rfl) (fun _ _ => rfl)]
  dsimp only [dat10]
theorem before10_5_B (c : Dev nD) (t : Fin cfg10.N) (h0 : ¬t.val % 10 = 0) (d) :
    (dat10 V c).before 5 t d = (outsAt10 V c (t.val - 1) (Nat.lt_of_le_of_lt (Nat.sub_le _ _) t.isLt)).2.2 := by
  have hN : t.val < 10 := lt_of_lt_of_eq t.isLt (show cfg10.N = 10 from N_10)
  rw [Dat.before_out_kept _ 5 rfl t (by omega) (Bool.eq_false_iff.mpr fun h => by have := (flush10_5 _).mp h; dsimp only at this; omega)
    (fun _ => rfl) (fun _ _ => rfl)]
  dsimp only [dat10]

/-- What the body is called with at point t, window by window, -/
def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d))
    ∗ (∃ d, owns (c : Thread nD τ) (ms10_3 t) fullShare ((dat10 V c).before 3 t d))
    ∗ (∃ d, owns (c : Thread nD τ) (ms10_4 t) fullShare ((dat10 V c).before 4 t d))
    ∗ (∃ d, owns (c : Thread nD τ) (ms10_5 t) fullShare ((dat10 V c).before 5 t d)))

/-- and what it returns. -/
def bodyPost10 (c : Dev nD) (t : Fin cfg10.N) : sProp 𝕄 :=
  iprop((dat10 V c).Φ t.succ ∗ (dat10 V c).owesAt () t.succ
    ∗ owns (c : Thread nD τ) (ms10_0 t) fullShare ((dat10 V c).after 0 t)
    ∗ owns (c : Thread nD τ) (ms10_1 t) fullShare ((dat10 V c).after 1 t)
    ∗ owns (c : Thread nD τ) (ms10_2 t) fullShare ((dat10 V c).after 2 t)
    ∗ owns (c : Thread nD τ) (ms10_3 t) fullShare ((dat10 V c).after 3 t)
    ∗ owns (c : Thread nD τ) (ms10_4 t) fullShare ((dat10 V c).after 4 t)
    ∗ owns (c : Thread nD τ) (ms10_5 t) fullShare ((dat10 V c).after 5 t))

set_option maxHeartbeats 2000000 in
/-- The body at any point: the inputs' buffers hold their blocks; the closed form of the condition says which case the
    point is in; at a later point the two rows hold what the point before left; so that case's run applies; the
    invariant and what the core owes pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2]
  rw [show (dat10 V c).Φ t.succ = (dat10 V c).Φ t.castSucc from rfl,
    show (dat10 V c).owesAt () t.succ = (dat10 V c).owesAt () t.castSucc from rfl,
    after10_0, after10_1, after10_2, after10_3, after10_4, after10_5]
  have hN : t.val < 10 := lt_of_lt_of_eq t.isLt (show cfg10.N = 10 from N_10)
  by_cases h0 : t.val % 10 = 0
  · rw [outsAt10_A V c t h0]
    unfold readBack10
    dsimp only
    iintro ⟨HΦ, Ho, ⟨%d0, H0⟩, ⟨%d1, H1⟩, ⟨%d2, H2⟩, ⟨%d3, H3⟩, ⟨%d4, H4⟩, ⟨%d5, H5⟩⟩
    iapply ((runA10 V c t ((hcond10_0 t).mpr h0)).2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover10_A_3 V c t _)
    isplitl [H4]
    · unfold owns; iexists _; isplitr
      swap; · iexact H4
      ipureintro; exact View.read_writes_of_cover _ _ _ _ _ (cover10_A_4 V c t _)
    unfold owns; iexists _; isplitr
    swap; · iexact H5
    ipureintro; exact View.read_writes_of_cover _ _ _ _ _ (cover10_A_5 V c t _)
  · rw [outsAt10_B V c t h0]
    simp only [before10_4_B V c t h0, before10_5_B V c t h0]
    unfold readBack10
    dsimp only
    iintro ⟨HΦ, Ho, ⟨%d0, H0⟩, ⟨%d1, H1⟩, ⟨%d2, H2⟩, ⟨%d3, H3⟩, ⟨%d4, H4⟩, ⟨%d5, H5⟩⟩
    iapply ((runB10 V c t (fun h => h0 ((hcond10_0 t).mp h)) _ _).2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover10_B_3 V c t _ _ _)
    isplitl [H4]
    · unfold owns; iexists _; isplitr
      swap; · iexact H4
      ipureintro; exact View.read_writes_of_cover _ _ _ _ _ (cover10_B_4 V c t _ _ _)
    unfold owns; iexists _; isplitr
    swap; · iexact H5
    ipureintro; exact View.read_writes_of_cover _ _ _ _ _ (cover10_B_5 V c t _ _ _)

/-- The pipeline's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Body

end
-- ==== Proof.KRegion11.lean ====
/-
  Region 11 of the program: the normalise-and-cut-off tile kernel: (x − mean)·rsqrt(max(var, 0) + ε)·scale + bias, cut off at 0, the four rows repeated down the tile, one grid point at a time.

  At a grid point the body loads its 5 input blocks whole and stores one value into its output block, also whole.
  The inputs are read only, so after the body each holds its block as before and the output block holds that one
  stored value; nothing else of the core's state moves. This is the body's obligation to the pipeline, at any float instance.
-/
import proofs.«140713_j1864015806535_2_alg».proof.Proof.Gen.Kernel.Launch
import proofs.«140713_j1864015806535_2_alg».proof.Proof.Gen.Kernel.Skeleton
import proofs.«140713_j1864015806535_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's current staging buffer holds its block at every point, fetched there or not. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-- The whole-buffer rectangles the body loads and stores through. -/
abbrev r11_0 : Rect S10000x32 := Rect.unit (s := S10000x32) ![0, 0] S10000x32.size inb_S10000x32_S10000x32_0_0
abbrev r11_1 : Rect S1x32 := Rect.unit (s := S1x32) ![0, 0] S1x32.size inb_S1x32_S1x32_0_0
abbrev r11_2 : Rect S1x32 := Rect.unit (s := S1x32) ![0, 0] S1x32.size inb_S1x32_S1x32_0_0
abbrev r11_3 : Rect S1x32 := Rect.unit (s := S1x32) ![0, 0] S1x32.size inb_S1x32_S1x32_0_0
abbrev r11_4 : Rect S1x32 := Rect.unit (s := S1x32) ![0, 0] S1x32.size inb_S1x32_S1x32_0_0
abbrev r11_5 : Rect S10000x32 := Rect.unit (s := S10000x32) ![0, 0] S10000x32.size inb_S10000x32_S10000x32_0_0

/-- The output block after the body: the one store's value of the input blocks. -/
def out11_5 (x0 : Vec F S10000x32 .f32) (x1 : Vec F S1x32 .f32) (x2 : Vec F S1x32 .f32) (x3 : Vec F S1x32 .f32) (x4 : Vec F S1x32 .f32) : Vec F S10000x32 .f32 :=
  View.canon [⟨r11_5, k11_pay1 (View.ld x0 r11_0) (View.ld x1 r11_1) (View.ld x2 r11_2) (View.ld x3 r11_3) (View.ld x4 r11_4)⟩]

/-- The one store covers the whole output block. -/
theorem cover11_5 (p0 : Vec F S10000x32 .f32) (y : S10000x32.Idx) :
    ∃ pc ∈ ([⟨r11_5, p0⟩] : List (View.Piece (Elt F) S10000x32 .f32)), y ∈ pc.1.set :=
  View.cover_of_tiled [⟨r11_5, p0⟩] S10000x32.size (by rfl) y

set_option maxHeartbeats 1000000 in
/-- The body on whole staging buffers: the inputs stay, the output ends at out11_5 of the inputs. -/
theorem sound_kernel11 (c : Dev nD) (E : Set ℕ) (i : grid11.Coords) (arg1 : Memref sig .tc .vmem S10000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S10000x32 .f32) (harg6 : arg6.IsWhole)
    (x0 : Vec F S10000x32 .f32) (x1 : Vec F S1x32 .f32) (x2 : Vec F S1x32 .f32) (x3 : Vec F S1x32 .f32) (x4 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out11_5 x0 x1 x2 x3 x4)) -∗ K ⟨⟩))
      ⊢ wp frame (wpE (defs₀ (F := F)) Variants.none c none) E (cc11__bn_relu_kernel i arg1 harg1 arg2 harg2 arg3 harg3 arg4 harg4 arg5 harg5 arg6 harg6) K := by
  simp only [cc11__bn_relu_kernel_eq_skeleton]; unfold cc11__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover11_5 _)

/-- The proof data of this pipeline on core c: the arrays as the region finds them; after the body at point t each
    input's buffer at its block and the output's at the stored value of the input blocks; the invariant the untouched
    scoped rest and the generator register; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out11_5 (iblk11 V c 0 t) (iblk11 V c 1 t) (iblk11 V c 2 t) (iblk11 V c 3 t) (iblk11 V c 4 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) :
    (dat11 V c).after 5 t = out11_5 (iblk11 V c 0 t) (iblk11 V c 1 t) (iblk11 V c 2 t) (iblk11 V c 3 t) (iblk11 V c 4 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d

/-- What the body is called with at point t, window by window, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

/-- The body at any point: the inputs' buffers hold their blocks, so sound_kernel11 applies; the invariant and what the
    core owes pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5]
  iintro ⟨HΦ, Ho, ⟨%d0, H0⟩, ⟨%d1, H1⟩, ⟨%d2, H2⟩, ⟨%d3, H3⟩, ⟨%d4, H4⟩, ⟨%d5, H5⟩⟩
  iapply (sound_kernel11 c Set.univ _ _ _ _ _ _ _ _ _ _ _ _ _ (iblk11 V c 0 t) (iblk11 V c 1 t) (iblk11 V c 2 t) (iblk11 V c 3 t) (iblk11 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation11 (c : Dev nD) : BodyObligation (dat11 (F := F) V c) (defs₀ (F := F)) Variants.none () Set.univ := fun t => by
  rw [bigSep_W11, bigSep_W11]
  exact sound_body11 V c t

end Cert.Kernel.Body

end
-- ==== Proof.KRegion12.lean ====
/-
  Region 12 of the program: a dense layer's tile kernel: the tile's rows times the whole weight, plus the bias row repeated down the rows, one grid point at a time.

  At a grid point the body loads its 3 input blocks whole and stores one value into its output block, also whole.
  The inputs are read only, so after the body each holds its block as before and the output block holds that one
  stored value; nothing else of the core's state moves. This is the body's obligation to the pipeline, at any float instance.
-/
import proofs.«140713_j1864015806535_2_alg».proof.Proof.Gen.Kernel.Launch
import proofs.«140713_j1864015806535_2_alg».proof.Proof.Gen.Kernel.Skeleton
import proofs.«140713_j1864015806535_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- An input window's current staging buffer holds its block at every point, fetched there or not. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-- The whole-buffer rectangles the body loads and stores through. -/
abbrev r12_0 : Rect S10000x128 := Rect.unit (s := S10000x128) ![0, 0] S10000x128.size inb_S10000x128_S10000x128_0_0
abbrev r12_1 : Rect S128x64 := Rect.unit (s := S128x64) ![0, 0] S128x64.size inb_S128x64_S128x64_0_0
abbrev r12_2 : Rect S1x64 := Rect.unit (s := S1x64) ![0, 0] S1x64.size inb_S1x64_S1x64_0_0
abbrev r12_3 : Rect S10000x64 := Rect.unit (s := S10000x64) ![0, 0] S10000x64.size inb_S10000x64_S10000x64_0_0

/-- The output block after the body: the one store's value of the input blocks. -/
def out12_3 (x0 : Vec F S10000x128 .f32) (x1 : Vec F S128x64 .f32) (x2 : Vec F S1x64 .f32) : Vec F S10000x64 .f32 :=
  View.canon [⟨r12_3, k12_pay1 (View.ld x0 r12_0) (View.ld x1 r12_1) (View.ld x2 r12_2)⟩]

/-- The one store covers the whole output block. -/
theorem cover12_3 (p0 : Vec F S10000x64 .f32) (y : S10000x64.Idx) :
    ∃ pc ∈ ([⟨r12_3, p0⟩] : List (View.Piece (Elt F) S10000x64 .f32)), y ∈ pc.1.set :=
  View.cover_of_tiled [⟨r12_3, p0⟩] S10000x64.size (by rfl) y

set_option maxHeartbeats 1000000 in
/-- The body on whole staging buffers: the inputs stay, the output ends at out12_3 of the inputs. -/
theorem sound_kernel12 (c : Dev nD) (E : Set ℕ) (i : grid12.Coords) (arg1 : Memref sig .tc .vmem S10000x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x128 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out12_3 x0 x1 x2)) -∗ K ⟨⟩))
      ⊢ wp frame (wpE (defs₀ (F := F)) Variants.none c none) E (cc12__matmul_bias_kernel i arg1 harg1 arg2 harg2 arg3 harg3 arg4 harg4) K := by
  simp only [cc12__matmul_bias_kernel_eq_skeleton]; unfold cc12__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover12_3 _)

/-- The proof data of this pipeline on core c: the arrays as the region finds them; after the body at point t each
    input's buffer at its block and the output's at the stored value of the input blocks; the invariant the untouched
    scoped rest and the generator register; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => out12_3 (iblk12 V c 0 t) (iblk12 V c 1 t) (iblk12 V c 2 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) :
    (dat12 V c).after 3 t = out12_3 (iblk12 V c 0 t) (iblk12 V c 1 t) (iblk12 V c 2 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d

/-- What the body is called with at point t, window by window, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t))

/-- The body at any point: the inputs' buffers hold their blocks, so sound_kernel12 applies; the invariant and what the
    core owes pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2]
  rw [show (dat12 V c).Φ t.succ = (dat12 V c).Φ t.castSucc from rfl,
    show (dat12 V c).owesAt () t.succ = (dat12 V c).owesAt () t.castSucc from rfl,
    after12_0, after12_1, after12_2, after12_3]
  iintro ⟨HΦ, Ho, ⟨%d0, H0⟩, ⟨%d1, H1⟩, ⟨%d2, H2⟩, ⟨%d3, H3⟩⟩
  iapply (sound_kernel12 c Set.univ _ _ _ _ _ _ _ _ _ (iblk12 V c 0 t) (iblk12 V c 1 t) (iblk12 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation12 (c : Dev nD) : BodyObligation (dat12 (F := F) V c) (defs₀ (F := F)) Variants.none () Set.univ := fun t => by
  rw [bigSep_W12, bigSep_W12]
  exact sound_body12 V c t

end Cert.Kernel.Body

end
-- ==== Proof.KRegion13.lean ====
/-
  Region 13 of the program: the mix-and-accumulate tile kernel, one grid point at a time.

  At grid point t the body loads its tile of h and of agg (windows 0 and 1) and the 1×1 mixing weight g (window 2),
  stores xm = g·agg + (1 − g)·h into its tile of the output (window 3), and adds the column sums of xm and of xm·xm
  to two one-row outputs (windows 4 and 5) that stay in place over the whole grid: at the first point the rows are
  first set to zero, at every later point they hold what the point before left. So the body has two cases, told apart
  by the grid coordinate alone; in the first it reads none of its outputs before covering them, in the second it
  reads the two rows. What the three outputs hold after point n is defined by recursion on n, and the body's
  obligation to the pipeline is proved case by case. At any float instance.
-/
import proofs.«140713_j1864015806535_2_alg».proof.Proof.Gen.Kernel.Launch
import proofs.«140713_j1864015806535_2_alg».proof.Proof.Gen.Kernel.Skeleton
import proofs.«140713_j1864015806535_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- An input window's current staging buffer holds its block at every point, fetched there or not. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-- The body's branch condition from the grid coordinate: "this is the first point". -/
abbrev cond13_0 (i : grid13.Coords) : Prop := (Scalar.cmpi .ne (Scalar.extui (Scalar.cmpi .eq (BitVec.ofNat 32 (i 0).val) 0#32)) 0#32) = 1#1
/-- It holds at the first point only: decided over the grid. -/
theorem hcond13_0 : ∀ t : Fin cfg13.N, cond13_0 (grid13.coords t) ↔ t.val % 10 = 0 :=
  (by decide +kernel : ∀ t : Fin grid13.N, cond13_0 (grid13.coords t) ↔ t.val % 10 = 0)

/-- One staging buffer of each output window, through which its contents are stated. -/
abbrev VO13_3 : View sig .tc .vmem S10000x64 .f32 := (Memref.whole cc13_stg3_0 : Memref sig .tc .vmem S10000x64 .f32).view
abbrev VO13_4 : View sig .tc .vmem S1x64 .f32 := (Memref.whole cc13_stg4_0 : Memref sig .tc .vmem S1x64 .f32).view
abbrev VO13_5 : View sig .tc .vmem S1x64 .f32 := (Memref.whole cc13_stg5_0 : Memref sig .tc .vmem S1x64 .f32).view

/-- Each window's current staging buffer at point t, as the pipeline passes it, and its wholeness. -/
abbrev ms13_0 (t : Fin cfg13.N) : Memref sig .tc .vmem S10000x64 .f32 := win13_0.stage (cfg13.slots t 0)
abbrev hs13_0 (t : Fin cfg13.N) : (ms13_0 t).IsWhole := hstage13_0 ((cfg13.slots t 0).cast nbuf13_0)
abbrev ms13_1 (t : Fin cfg13.N) : Memref sig .tc .vmem S10000x64 .f32 := win13_1.stage (cfg13.slots t 1)
abbrev hs13_1 (t : Fin cfg13.N) : (ms13_1 t).IsWhole := hstage13_1 ((cfg13.slots t 1).cast nbuf13_1)
abbrev ms13_2 (t : Fin cfg13.N) : Memref sig .tc .vmem S1x1 .f32 := win13_2.stage (cfg13.slots t 2)
abbrev hs13_2 (t : Fin cfg13.N) : (ms13_2 t).IsWhole := hstage13_2 ((cfg13.slots t 2).cast nbuf13_2)
abbrev ms13_3 (t : Fin cfg13.N) : Memref sig .tc .vmem S10000x64 .f32 := win13_3.stage (cfg13.slots t 3)
abbrev hs13_3 (t : Fin cfg13.N) : (ms13_3 t).IsWhole := hstage13_3 ((cfg13.slots t 3).cast nbuf13_3)
abbrev ms13_4 (t : Fin cfg13.N) : Memref sig .tc .vmem S1x64 .f32 := win13_4.stage (cfg13.slots t 4)
abbrev hs13_4 (t : Fin cfg13.N) : (ms13_4 t).IsWhole := hstage13_4 ((cfg13.slots t 4).cast nbuf13_4)
abbrev ms13_5 (t : Fin cfg13.N) : Memref sig .tc .vmem S1x64 .f32 := win13_5.stage (cfg13.slots t 5)
abbrev hs13_5 (t : Fin cfg13.N) : (ms13_5 t).IsWhole := hstage13_5 ((cfg13.slots t 5).cast nbuf13_5)

/-- The three outputs' piece lists, and their contents. -/
abbrev Pcs13 : Type := List (View.Piece (Elt F) S10000x64 .f32) × List (View.Piece (Elt F) S1x64 .f32) × List (View.Piece (Elt F) S1x64 .f32)
abbrev Outs13 : Type := Vec F S10000x64 .f32 × Vec F S1x64 .f32 × Vec F S1x64 .f32

set_option maxHeartbeats 4000000 in
/-- THE FIRST POINT (the branch taken): what the body's stores leave in each output's staging buffer, as pieces (last
    first), with the proof that on whole staging buffers, the inputs' at their contents and the outputs' at anything,
    the body runs to the continuation holding the inputs' as they were and each output's with its pieces written. -/
noncomputable def kernelRun13_A (c : Dev nD) (i : grid13.Coords)
    (arg1 : Memref sig .tc .vmem S10000x64 .f32) (harg1 : arg1.IsWhole) (arg2 : Memref sig .tc .vmem S10000x64 .f32) (harg2 : arg2.IsWhole)
    (arg3 : Memref sig .tc .vmem S1x1 .f32) (harg3 : arg3.IsWhole) (arg4 : Memref sig .tc .vmem S10000x64 .f32) (harg4 : arg4.IsWhole)
    (arg5 : Memref sig .tc .vmem S1x64 .f32) (harg5 : arg5.IsWhole) (arg6 : Memref sig .tc .vmem S1x64 .f32) (harg6 : arg6.IsWhole)
    (hc0 : cond13_0 i) (x0 : Vec F S10000x64 .f32) (x1 : Vec F S10000x64 .f32) (x2 : Vec F S1x1 .f32) :
    { L : Pcs13 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2.1)
                ∗ (∃ f, arg6.view.loc (c : Thread nD τ) ↦[arg6.view.set]{fullShare} arg6.view.writes (Elt F) f L.2.2)) -∗ K ⟨⟩))
          ⊢ wp frame (wpE (defs₀ (F := F)) Variants.none c none) E (cc13__mix_reduce_kernel i arg1 harg1 arg2 harg2 arg3 harg3 arg4 harg4 arg5 harg5 arg6 harg6) K } := by
  refine ⟨(?_, ?_, ?_), fun E K => ?run⟩
  case run =>
    simp only [cc13__mix_reduce_kernel_eq_skeleton]; unfold cc13__mix_reduce_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0
    obtain rfl := harg2.eq_unread hf1
    obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

set_option maxHeartbeats 4000000 in
/-- EVERY LATER POINT (the branch not taken): the same, the two rows entered at their running contents xo4, xo5. -/
noncomputable def kernelRun13_B (c : Dev nD) (i : grid13.Coords)
    (arg1 : Memref sig .tc .vmem S10000x64 .f32) (harg1 : arg1.IsWhole) (arg2 : Memref sig .tc .vmem S10000x64 .f32) (harg2 : arg2.IsWhole)
    (arg3 : Memref sig .tc .vmem S1x1 .f32) (harg3 : arg3.IsWhole) (arg4 : Memref sig .tc .vmem S10000x64 .f32) (harg4 : arg4.IsWhole)
    (arg5 : Memref sig .tc .vmem S1x64 .f32) (harg5 : arg5.IsWhole) (arg6 : Memref sig .tc .vmem S1x64 .f32) (harg6 : arg6.IsWhole)
    (hc0 : ¬cond13_0 i) (x0 : Vec F S10000x64 .f32) (x1 : Vec F S10000x64 .f32) (x2 : Vec F S1x1 .f32) (xo4 : Vec F S1x64 .f32) (xo5 : Vec F S1x64 .f32) :
    { L : Pcs13 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2.1)
                ∗ (∃ f, arg6.view.loc (c : Thread nD τ) ↦[arg6.view.set]{fullShare} arg6.view.writes (Elt F) f L.2.2)) -∗ K ⟨⟩))
          ⊢ wp frame (wpE (defs₀ (F := F)) Variants.none c none) E (cc13__mix_reduce_kernel i arg1 harg1 arg2 harg2 arg3 harg3 arg4 harg4 arg5 harg5 arg6 harg6) K } := by
  refine ⟨(?_, ?_, ?_), fun E K => ?run⟩
  case run =>
    simp only [cc13__mix_reduce_kernel_eq_skeleton]; unfold cc13__mix_reduce_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg1.eq_unread hf0
    obtain rfl := harg2.eq_unread hf1
    obtain rfl := harg3.eq_unread hf2
    obtain rfl := harg5.eq_unread hf4
    obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

/-- The two runs at a grid point, on the point's staging buffers and input blocks. -/
abbrev runA13 (c : Dev nD) (t : Fin cfg13.N) (h : cond13_0 (grid13.coords t)) :=
  kernelRun13_A (F := F) c (grid13.coords t) (ms13_0 t) (hs13_0 t) (ms13_1 t) (hs13_1 t) (ms13_2 t) (hs13_2 t) (ms13_3 t) (hs13_3 t)
    (ms13_4 t) (hs13_4 t) (ms13_5 t) (hs13_5 t) h (iblk13 V c 0 t) (iblk13 V c 1 t) (iblk13 V c 2 t)
abbrev runB13 (c : Dev nD) (t : Fin cfg13.N) (h : ¬cond13_0 (grid13.coords t)) (xo4 : Vec F S1x64 .f32) (xo5 : Vec F S1x64 .f32) :=
  kernelRun13_B (F := F) c (grid13.coords t) (ms13_0 t) (hs13_0 t) (ms13_1 t) (hs13_1 t) (ms13_2 t) (hs13_2 t) (ms13_3 t) (hs13_3 t)
    (ms13_4 t) (hs13_4 t) (ms13_5 t) (hs13_5 t) h (iblk13 V c 0 t) (iblk13 V c 1 t) (iblk13 V c 2 t) xo4 xo5

/-- What a list of pieces leaves in each output's staging buffer: the pieces read back over junk. -/
def readBack13 (L : Pcs13 (F := F)) : Outs13 (F := F) :=
  (VO13_3.read (Elt F) (VO13_3.writes (Elt F) VO13_3.junk L.1),
   VO13_4.read (Elt F) (VO13_4.writes (Elt F) VO13_4.junk L.2.1),
   VO13_5.read (Elt F) (VO13_5.writes (Elt F) VO13_5.junk L.2.2))

/-- Each case's pieces tile their output's block (checked by evaluation), so they cover it. -/
theorem cover13_A_3 (c : Dev nD) (t : Fin cfg13.N) (h : cond13_0 (grid13.coords t)) (y : S10000x64.Idx) :
    ∃ pc ∈ (runA13 V c t h).1.1, y ∈ pc.1.set := View.cover_of_tiledL (runA13 V c t h).1.1 S10000x64.size (by sl_kernel_rfl) y
theorem cover13_A_4 (c : Dev nD) (t : Fin cfg13.N) (h : cond13_0 (grid13.coords t)) (y : S1x64.Idx) :
    ∃ pc ∈ (runA13 V c t h).1.2.1, y ∈ pc.1.set := View.cover_of_tiledL (runA13 V c t h).1.2.1 S1x64.size (by sl_kernel_rfl) y
theorem cover13_A_5 (c : Dev nD) (t : Fin cfg13.N) (h : cond13_0 (grid13.coords t)) (y : S1x64.Idx) :
    ∃ pc ∈ (runA13 V c t h).1.2.2, y ∈ pc.1.set := View.cover_of_tiledL (runA13 V c t h).1.2.2 S1x64.size (by sl_kernel_rfl) y
theorem cover13_B_3 (c : Dev nD) (t : Fin cfg13.N) (h : ¬cond13_0 (grid13.coords t)) (xo4 xo5) (y : S10000x64.Idx) :
    ∃ pc ∈ (runB13 V c t h xo4 xo5).1.1, y ∈ pc.1.set := View.cover_of_tiledL (runB13 V c t h xo4 xo5).1.1 S10000x64.size (by sl_kernel_rfl) y
theorem cover13_B_4 (c : Dev nD) (t : Fin cfg13.N) (h : ¬cond13_0 (grid13.coords t)) (xo4 xo5) (y : S1x64.Idx) :
    ∃ pc ∈ (runB13 V c t h xo4 xo5).1.2.1, y ∈ pc.1.set := View.cover_of_tiledL (runB13 V c t h xo4 xo5).1.2.1 S1x64.size (by sl_kernel_rfl) y
theorem cover13_B_5 (c : Dev nD) (t : Fin cfg13.N) (h : ¬cond13_0 (grid13.coords t)) (xo4 xo5) (y : S1x64.Idx) :
    ∃ pc ∈ (runB13 V c t h xo4 xo5).1.2.2, y ∈ pc.1.set := View.cover_of_tiledL (runB13 V c t h xo4 xo5).1.2.2 S1x64.size (by sl_kernel_rfl) y

/-- THE ACCUMULATION. What the three outputs' staging buffers hold after the body at position n: the first point's
    case at 0, the later points' case after that, the two rows entered at what position n − 1 left. -/
def outsAt13 (c : Dev nD) : (n : ℕ) → n < cfg13.N → Outs13 (F := F)
  | 0, hn => readBack13 (runA13 V c ⟨0, hn⟩ ((hcond13_0 ⟨0, hn⟩).mpr (Nat.zero_mod _))).1
  | n + 1, hn =>
    if h0 : (n + 1) % 10 = 0 then
      readBack13 (runA13 V c ⟨n + 1, hn⟩ ((hcond13_0 ⟨n + 1, hn⟩).mpr h0)).1
    else
      readBack13 (runB13 V c ⟨n + 1, hn⟩ (fun h => h0 ((hcond13_0 ⟨n + 1, hn⟩).mp h))
        (outsAt13 c n (Nat.lt_of_succ_lt hn)).2.1 (outsAt13 c n (Nat.lt_of_succ_lt hn)).2.2).1

theorem outsAt13_A (c : Dev nD) (t : Fin cfg13.N) (h0 : t.val % 10 = 0) :
    outsAt13 V c t.val t.isLt = readBack13 (runA13 V c t ((hcond13_0 t).mpr h0)).1 := by
  obtain ⟨n, hn⟩ := t
  cases n with
  | zero => exact rfl
  | succ n => exact (dif_pos h0).trans rfl

theorem outsAt13_B (c : Dev nD) (t : Fin cfg13.N) (h0 : ¬t.val % 10 = 0) :
    outsAt13 V c t.val t.isLt = readBack13 (runB13 V c t (fun h => h0 ((hcond13_0 t).mp h))
      (outsAt13 V c (t.val - 1) (Nat.lt_of_le_of_lt (Nat.sub_le _ _) t.isLt)).2.1
      (outsAt13 V c (t.val - 1) (Nat.lt_of_le_of_lt (Nat.sub_le _ _) t.isLt)).2.2).1 := by
  obtain ⟨n, hn⟩ := t
  cases n with
  | zero => exact (by exfalso; (try dsimp only at h0); exact absurd (Nat.zero_mod _) h0)
  | succ n => exact (dif_neg h0).trans rfl

/-- The proof data of this pipeline on core c: the arrays as the region finds them; after the body at point t each
    input's buffer at its block and the outputs' at outsAt; the invariant the untouched scoped rest and the
    generator register; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => (outsAt13 V c t.val t.isLt).1
    | ⟨4, _⟩ => (outsAt13 V c t.val t.isLt).2.1
    | ⟨5, _⟩ => (outsAt13 V c t.val t.isLt).2.2
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = (outsAt13 V c t.val t.isLt).1 := by dsimp only [dat13]
theorem after13_4 (c : Dev nD) (t : Fin cfg13.N) : (dat13 V c).after 4 t = (outsAt13 V c t.val t.isLt).2.1 := by dsimp only [dat13]
theorem after13_5 (c : Dev nD) (t : Fin cfg13.N) : (dat13 V c).after 5 t = (outsAt13 V c t.val t.isLt).2.2 := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d

/-- At a later point each row's current staging buffer holds what the body left at the point before: the point is not
    the first, and the row is written back at the last point only. -/
theorem before13_4_B (c : Dev nD) (t : Fin cfg13.N) (h0 : ¬t.val % 10 = 0) (d) :
    (dat13 V c).before 4 t d = (outsAt13 V c (t.val - 1) (Nat.lt_of_le_of_lt (Nat.sub_le _ _) t.isLt)).2.1 := by
  have hN : t.val < 10 := lt_of_lt_of_eq t.isLt (show cfg13.N = 10 from N_13)
  rw [Dat.before_out_kept _ 4 rfl t (by omega) (Bool.eq_false_iff.mpr fun h => by have := (flush13_4 _).mp h; dsimp only at this; omega)
    (fun _ => rfl) (fun _ _ => rfl)]
  dsimp only [dat13]
theorem before13_5_B (c : Dev nD) (t : Fin cfg13.N) (h0 : ¬t.val % 10 = 0) (d) :
    (dat13 V c).before 5 t d = (outsAt13 V c (t.val - 1) (Nat.lt_of_le_of_lt (Nat.sub_le _ _) t.isLt)).2.2 := by
  have hN : t.val < 10 := lt_of_lt_of_eq t.isLt (show cfg13.N = 10 from N_13)
  rw [Dat.before_out_kept _ 5 rfl t (by omega) (Bool.eq_false_iff.mpr fun h => by have := (flush13_5 _).mp h; dsimp only at this; omega)
    (fun _ => rfl) (fun _ _ => rfl)]
  dsimp only [dat13]

/-- What the body is called with at point t, window by window, -/
def bodyPre13 (c : Dev nD) (t : Fin cfg13.N) : sProp 𝕄 :=
  iprop((dat13 V c).Φ t.castSucc ∗ (dat13 V c).owesAt () t.castSucc
    ∗ (∃ d, owns (c : Thread nD τ) (ms13_0 t) fullShare ((dat13 V c).before 0 t d))
    ∗ (∃ d, owns (c : Thread nD τ) (ms13_1 t) fullShare ((dat13 V c).before 1 t d))
    ∗ (∃ d, owns (c : Thread nD τ) (ms13_2 t) fullShare ((dat13 V c).before 2 t d))
    ∗ (∃ d, owns (c : Thread nD τ) (ms13_3 t) fullShare ((dat13 V c).before 3 t d))
    ∗ (∃ d, owns (c : Thread nD τ) (ms13_4 t) fullShare ((dat13 V c).before 4 t d))
    ∗ (∃ d, owns (c : Thread nD τ) (ms13_5 t) fullShare ((dat13 V c).before 5 t d)))

/-- and what it returns. -/
def bodyPost13 (c : Dev nD) (t : Fin cfg13.N) : sProp 𝕄 :=
  iprop((dat13 V c).Φ t.succ ∗ (dat13 V c).owesAt () t.succ
    ∗ owns (c : Thread nD τ) (ms13_0 t) fullShare ((dat13 V c).after 0 t)
    ∗ owns (c : Thread nD τ) (ms13_1 t) fullShare ((dat13 V c).after 1 t)
    ∗ owns (c : Thread nD τ) (ms13_2 t) fullShare ((dat13 V c).after 2 t)
    ∗ owns (c : Thread nD τ) (ms13_3 t) fullShare ((dat13 V c).after 3 t)
    ∗ owns (c : Thread nD τ) (ms13_4 t) fullShare ((dat13 V c).after 4 t)
    ∗ owns (c : Thread nD τ) (ms13_5 t) fullShare ((dat13 V c).after 5 t))

set_option maxHeartbeats 2000000 in
/-- The body at any point: the inputs' buffers hold their blocks; the closed form of the condition says which case the
    point is in; at a later point the two rows hold what the point before left; so that case's run applies; the
    invariant and what the core owes pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2]
  rw [show (dat13 V c).Φ t.succ = (dat13 V c).Φ t.castSucc from rfl,
    show (dat13 V c).owesAt () t.succ = (dat13 V c).owesAt () t.castSucc from rfl,
    after13_0, after13_1, after13_2, after13_3, after13_4, after13_5]
  have hN : t.val < 10 := lt_of_lt_of_eq t.isLt (show cfg13.N = 10 from N_13)
  by_cases h0 : t.val % 10 = 0
  · rw [outsAt13_A V c t h0]
    unfold readBack13
    dsimp only
    iintro ⟨HΦ, Ho, ⟨%d0, H0⟩, ⟨%d1, H1⟩, ⟨%d2, H2⟩, ⟨%d3, H3⟩, ⟨%d4, H4⟩, ⟨%d5, H5⟩⟩
    iapply ((runA13 V c t ((hcond13_0 t).mpr h0)).2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover13_A_3 V c t _)
    isplitl [H4]
    · unfold owns; iexists _; isplitr
      swap; · iexact H4
      ipureintro; exact View.read_writes_of_cover _ _ _ _ _ (cover13_A_4 V c t _)
    unfold owns; iexists _; isplitr
    swap; · iexact H5
    ipureintro; exact View.read_writes_of_cover _ _ _ _ _ (cover13_A_5 V c t _)
  · rw [outsAt13_B V c t h0]
    simp only [before13_4_B V c t h0, before13_5_B V c t h0]
    unfold readBack13
    dsimp only
    iintro ⟨HΦ, Ho, ⟨%d0, H0⟩, ⟨%d1, H1⟩, ⟨%d2, H2⟩, ⟨%d3, H3⟩, ⟨%d4, H4⟩, ⟨%d5, H5⟩⟩
    iapply ((runB13 V c t (fun h => h0 ((hcond13_0 t).mp h)) _ _).2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover13_B_3 V c t _ _ _)
    isplitl [H4]
    · unfold owns; iexists _; isplitr
      swap; · iexact H4
      ipureintro; exact View.read_writes_of_cover _ _ _ _ _ (cover13_B_4 V c t _ _ _)
    unfold owns; iexists _; isplitr
    swap; · iexact H5
    ipureintro; exact View.read_writes_of_cover _ _ _ _ _ (cover13_B_5 V c t _ _ _)

/-- The pipeline's body obligation, at every point. -/
theorem body_obligation13 (c : Dev nD) : BodyObligation (dat13 (F := F) V c) (defs₀ (F := F)) Variants.none () Set.univ := fun t => by
  rw [bigSep_W13, bigSep_W13]
  exact sound_body13 V c t

end Cert.Kernel.Body

end
-- ==== Proof.KRegion14.lean ====
/-
  Region 14 of the program: the normalise-and-cut-off tile kernel: (x − mean)·rsqrt(max(var, 0) + ε)·scale + bias, cut off at 0, the four rows repeated down the tile, one grid point at a time.

  At a grid point the body loads its 5 input blocks whole and stores one value into its output block, also whole.
  The inputs are read only, so after the body each holds its block as before and the output block holds that one
  stored value; nothing else of the core's state moves. This is the body's obligation to the pipeline, at any float instance.
-/
import proofs.«140713_j1864015806535_2_alg».proof.Proof.Gen.Kernel.Launch
import proofs.«140713_j1864015806535_2_alg».proof.Proof.Gen.Kernel.Skeleton
import proofs.«140713_j1864015806535_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- An input window's current staging buffer holds its block at every point, fetched there or not. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)
theorem before14_3_of {c : Dev nD} (dat : Dat τ (Elt F) Unit ℕ (UR sig nD τ) ℕ cfg14 c) (hA : dat.A 3 = V c (Pipeline.arrRef spec14 3))
    (hafter : ∀ t, dat.after 3 t = iblk14 V c 3 t) (t : Fin cfg14.N) (d) : dat.before 3 t d = iblk14 V c 3 t :=
  (dat.before_in_eq_fetched 3 rfl (fun _ => rfl) (fun _ _ _ => rfl) (fun t => by rw [hafter]; unfold Dat.blockOf iblk14; rw [hA]; try rfl) t d).trans
    (by unfold Dat.fetched Dat.blockOf iblk14; rw [hA]; try rfl)
theorem before14_4_of {c : Dev nD} (dat : Dat τ (Elt F) Unit ℕ (UR sig nD τ) ℕ cfg14 c) (hA : dat.A 4 = V c (Pipeline.arrRef spec14 4))
    (hafter : ∀ t, dat.after 4 t = iblk14 V c 4 t) (t : Fin cfg14.N) (d) : dat.before 4 t d = iblk14 V c 4 t :=
  (dat.before_in_eq_fetched 4 rfl (fun _ => rfl) (fun _ _ _ => rfl) (fun t => by rw [hafter]; unfold Dat.blockOf iblk14; rw [hA]; try rfl) t d).trans
    (by unfold Dat.fetched Dat.blockOf iblk14; rw [hA]; try rfl)

/-- The whole-buffer rectangles the body loads and stores through. -/
abbrev r14_0 : Rect S10000x64 := Rect.unit (s := S10000x64) ![0, 0] S10000x64.size inb_S10000x64_S10000x64_0_0
abbrev r14_1 : Rect S1x64 := Rect.unit (s := S1x64) ![0, 0] S1x64.size inb_S1x64_S1x64_0_0
abbrev r14_2 : Rect S1x64 := Rect.unit (s := S1x64) ![0, 0] S1x64.size inb_S1x64_S1x64_0_0
abbrev r14_3 : Rect S1x64 := Rect.unit (s := S1x64) ![0, 0] S1x64.size inb_S1x64_S1x64_0_0
abbrev r14_4 : Rect S1x64 := Rect.unit (s := S1x64) ![0, 0] S1x64.size inb_S1x64_S1x64_0_0
abbrev r14_5 : Rect S10000x64 := Rect.unit (s := S10000x64) ![0, 0] S10000x64.size inb_S10000x64_S10000x64_0_0

/-- The output block after the body: the one store's value of the input blocks. -/
def out14_5 (x0 : Vec F S10000x64 .f32) (x1 : Vec F S1x64 .f32) (x2 : Vec F S1x64 .f32) (x3 : Vec F S1x64 .f32) (x4 : Vec F S1x64 .f32) : Vec F S10000x64 .f32 :=
  View.canon [⟨r14_5, k14_pay1 (View.ld x0 r14_0) (View.ld x1 r14_1) (View.ld x2 r14_2) (View.ld x3 r14_3) (View.ld x4 r14_4)⟩]

/-- The one store covers the whole output block. -/
theorem cover14_5 (p0 : Vec F S10000x64 .f32) (y : S10000x64.Idx) :
    ∃ pc ∈ ([⟨r14_5, p0⟩] : List (View.Piece (Elt F) S10000x64 .f32)), y ∈ pc.1.set :=
  View.cover_of_tiled [⟨r14_5, p0⟩] S10000x64.size (by rfl) y

set_option maxHeartbeats 1000000 in
/-- The body on whole staging buffers: the inputs stay, the output ends at out14_5 of the inputs. -/
theorem sound_kernel14 (c : Dev nD) (E : Set ℕ) (i : grid14.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out14_5 x0 x1 x2 x3 x4)) -∗ K ⟨⟩))
      ⊢ wp frame (wpE (defs₀ (F := F)) Variants.none c none) E (cc14__bn_relu_kernel i arg1 harg1 arg2 harg2 arg3 harg3 arg4 harg4 arg5 harg5 arg6 harg6) K := by
  simp only [cc14__bn_relu_kernel_eq_skeleton]; unfold cc14__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover14_5 _)

/-- The proof data of this pipeline on core c: the arrays as the region finds them; after the body at point t each
    input's buffer at its block and the output's at the stored value of the input blocks; the invariant the untouched
    scoped rest and the generator register; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => iblk14 V c 4 t
    | ⟨5, _⟩ => out14_5 (iblk14 V c 0 t) (iblk14 V c 1 t) (iblk14 V c 2 t) (iblk14 V c 3 t) (iblk14 V c 4 t)
  Φ _ := Pipeline.ΦA spec14 c
  q _ := fullShare
  owed _ := 0

theorem A_eq14 (c : Dev nD) (w : Fin cfg14.W) : (dat14 V c).A w = V c (Pipeline.arrRef spec14 w) := by
  dsimp only [dat14]

theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = iblk14 V c 4 t := by dsimp only [dat14]
theorem after14_5 (c : Dev nD) (t : Fin cfg14.N) :
    (dat14 V c).after 5 t = out14_5 (iblk14 V c 0 t) (iblk14 V c 1 t) (iblk14 V c 2 t) (iblk14 V c 3 t) (iblk14 V c 4 t) := by dsimp only [dat14]

theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d
theorem before14_3 (c : Dev nD) (t : Fin cfg14.N) (d) : (dat14 V c).before 3 t d = iblk14 V c 3 t :=
  before14_3_of V (dat14 V c) (A_eq14 V c 3) (after14_3 V c) t d
theorem before14_4 (c : Dev nD) (t : Fin cfg14.N) (d) : (dat14 V c).before 4 t d = iblk14 V c 4 t :=
  before14_4_of V (dat14 V c) (A_eq14 V c 4) (after14_4 V c) t d

/-- What the body is called with at point t, window by window, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d))
    ∗ (∃ d, owns (c : Thread nD τ) (st14_5 t) fullShare ((dat14 V c).before 5 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t)
    ∗ owns (c : Thread nD τ) (st14_5 t) fullShare ((dat14 V c).after 5 t))

/-- The body at any point: the inputs' buffers hold their blocks, so sound_kernel14 applies; the invariant and what the
    core owes pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3, before14_4]
  rw [show (dat14 V c).Φ t.succ = (dat14 V c).Φ t.castSucc from rfl,
    show (dat14 V c).owesAt () t.succ = (dat14 V c).owesAt () t.castSucc from rfl,
    after14_0, after14_1, after14_2, after14_3, after14_4, after14_5]
  iintro ⟨HΦ, Ho, ⟨%d0, H0⟩, ⟨%d1, H1⟩, ⟨%d2, H2⟩, ⟨%d3, H3⟩, ⟨%d4, H4⟩, ⟨%d5, H5⟩⟩
  iapply (sound_kernel14 c Set.univ _ _ _ _ _ _ _ _ _ _ _ _ _ (iblk14 V c 0 t) (iblk14 V c 1 t) (iblk14 V c 2 t) (iblk14 V c 3 t) (iblk14 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation14 (c : Dev nD) : BodyObligation (dat14 (F := F) V c) (defs₀ (F := F)) Variants.none () Set.univ := fun t => by
  rw [bigSep_W14, bigSep_W14]
  exact sound_body14 V c t

end Cert.Kernel.Body

end
-- ==== Proof.KRegion15.lean ====
/-
  Region 15 of the program: a dense layer's tile kernel: the tile's rows times the whole weight, plus the bias row repeated down the rows, one grid point at a time.

  At a grid point the body loads its 3 input blocks whole and stores one value into its output block, also whole.
  The inputs are read only, so after the body each holds its block as before and the output block holds that one
  stored value; nothing else of the core's state moves. This is the body's obligation to the pipeline, at any float instance.
-/
import proofs.«140713_j1864015806535_2_alg».proof.Proof.Gen.Kernel.Launch
import proofs.«140713_j1864015806535_2_alg».proof.Proof.Gen.Kernel.Skeleton
import proofs.«140713_j1864015806535_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- An input window's current staging buffer holds its block at every point, fetched there or not. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)
theorem before15_2_of {c : Dev nD} (dat : Dat τ (Elt F) Unit ℕ (UR sig nD τ) ℕ cfg15 c) (hA : dat.A 2 = V c (Pipeline.arrRef spec15 2))
    (hafter : ∀ t, dat.after 2 t = iblk15 V c 2 t) (t : Fin cfg15.N) (d) : dat.before 2 t d = iblk15 V c 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)

/-- The whole-buffer rectangles the body loads and stores through. -/
abbrev r15_0 : Rect S10000x64 := Rect.unit (s := S10000x64) ![0, 0] S10000x64.size inb_S10000x64_S10000x64_0_0
abbrev r15_1 : Rect S64x32 := Rect.unit (s := S64x32) ![0, 0] S64x32.size inb_S64x32_S64x32_0_0
abbrev r15_2 : Rect S1x32 := Rect.unit (s := S1x32) ![0, 0] S1x32.size inb_S1x32_S1x32_0_0
abbrev r15_3 : Rect S10000x32 := Rect.unit (s := S10000x32) ![0, 0] S10000x32.size inb_S10000x32_S10000x32_0_0

/-- The output block after the body: the one store's value of the input blocks. -/
def out15_3 (x0 : Vec F S10000x64 .f32) (x1 : Vec F S64x32 .f32) (x2 : Vec F S1x32 .f32) : Vec F S10000x32 .f32 :=
  View.canon [⟨r15_3, k15_pay1 (View.ld x0 r15_0) (View.ld x1 r15_1) (View.ld x2 r15_2)⟩]

/-- The one store covers the whole output block. -/
theorem cover15_3 (p0 : Vec F S10000x32 .f32) (y : S10000x32.Idx) :
    ∃ pc ∈ ([⟨r15_3, p0⟩] : List (View.Piece (Elt F) S10000x32 .f32)), y ∈ pc.1.set :=
  View.cover_of_tiled [⟨r15_3, p0⟩] S10000x32.size (by rfl) y

set_option maxHeartbeats 1000000 in
/-- The body on whole staging buffers: the inputs stay, the output ends at out15_3 of the inputs. -/
theorem sound_kernel15 (c : Dev nD) (E : Set ℕ) (i : grid15.Coords) (arg1 : Memref sig .tc .vmem S10000x64 .f32) (harg1 : arg1.IsWhole) (arg2 : Memref sig .tc .vmem S64x32 .f32) (harg2 : arg2.IsWhole) (arg3 : Memref sig .tc .vmem S1x32 .f32) (harg3 : arg3.IsWhole) (arg4 : Memref sig .tc .vmem S10000x32 .f32) (harg4 : arg4.IsWhole)
    (x0 : Vec F S10000x64 .f32) (x1 : Vec F S64x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out15_3 x0 x1 x2)) -∗ K ⟨⟩))
      ⊢ wp frame (wpE (defs₀ (F := F)) Variants.none c none) E (cc15__matmul_bias_kernel i arg1 harg1 arg2 harg2 arg3 harg3 arg4 harg4) K := by
  simp only [cc15__matmul_bias_kernel_eq_skeleton]; unfold cc15__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover15_3 _)

/-- The proof data of this pipeline on core c: the arrays as the region finds them; after the body at point t each
    input's buffer at its block and the output's at the stored value of the input blocks; the invariant the untouched
    scoped rest and the generator register; nothing owed; full shares. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => out15_3 (iblk15 V c 0 t) (iblk15 V c 1 t) (iblk15 V c 2 t)
  Φ _ := Pipeline.ΦA spec15 c
  q _ := fullShare
  owed _ := 0

theorem A_eq15 (c : Dev nD) (w : Fin cfg15.W) : (dat15 V c).A w = V c (Pipeline.arrRef spec15 w) := by
  dsimp only [dat15]

theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) :
    (dat15 V c).after 3 t = out15_3 (iblk15 V c 0 t) (iblk15 V c 1 t) (iblk15 V c 2 t) := by dsimp only [dat15]

theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d
theorem before15_2 (c : Dev nD) (t : Fin cfg15.N) (d) : (dat15 V c).before 2 t d = iblk15 V c 2 t :=
  before15_2_of V (dat15 V c) (A_eq15 V c 2) (after15_2 V c) t d

/-- What the body is called with at point t, window by window, -/
def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d))
    ∗ (∃ d, owns (c : Thread nD τ) (st15_3 t) fullShare ((dat15 V c).before 3 t d)))

/-- and what it returns. -/
def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t)
    ∗ owns (c : Thread nD τ) (st15_3 t) fullShare ((dat15 V c).after 3 t))

/-- The body at any point: the inputs' buffers hold their blocks, so sound_kernel15 applies; the invariant and what the
    core owes pass through unread. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2]
  rw [show (dat15 V c).Φ t.succ = (dat15 V c).Φ t.castSucc from rfl,
    show (dat15 V c).owesAt () t.succ = (dat15 V c).owesAt () t.castSucc from rfl,
    after15_0, after15_1, after15_2, after15_3]
  iintro ⟨HΦ, Ho, ⟨%d0, H0⟩, ⟨%d1, H1⟩, ⟨%d2, H2⟩, ⟨%d3, H3⟩⟩
  iapply (sound_kernel15 c Set.univ _ _ _ _ _ _ _ _ _ (iblk15 V c 0 t) (iblk15 V c 1 t) (iblk15 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation15 (c : Dev nD) : BodyObligation (dat15 (F := F) V c) (defs₀ (F := F)) Variants.none () Set.univ := fun t => by
  rw [bigSep_W15, bigSep_W15]
  exact sound_body15 V c t

end Cert.Kernel.Body

end
-- ==== Proof.KRegion16.lean ====
/-
  Region 16 of the program: the mix-and-accumulate tile kernel, one grid point at a time.

  At grid point t the body loads its tile of h and of agg (windows 0 and 1) and the 1×1 mixing weight g (window 2),
  stores xm = g·agg + (1 − g)·h into its tile of the output (window 3), and adds the column sums of xm and of xm·xm
  to two one-row outputs (windows 4 and 5) that stay in place over the whole grid: at the first point the rows are
  first set to zero, at every later point they hold what the point before left. So the body has two cases, told apart
  by the grid coordinate alone; in the first it reads none of its outputs before covering them, in the second it
  reads the two rows. What the three outputs hold after point n is defined by recursion on n, and the body's
  obligation to the pipeline is proved case by case. At any float instance.
-/
import proofs.«140713_j1864015806535_2_alg».proof.Proof.Gen.Kernel.Launch
import proofs.«140713_j1864015806535_2_alg».proof.Proof.Gen.Kernel.Skeleton
import proofs.«140713_j1864015806535_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- An input window's current staging buffer holds its block at every point, fetched there or not. -/
theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)
theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)
theorem before16_2_of {c : Dev nD} (dat : Dat τ (Elt F) Unit ℕ (UR sig nD τ) ℕ cfg16 c) (hA : dat.A 2 = V c (Pipeline.arrRef spec16 2))
    (hafter : ∀ t, dat.after 2 t = iblk16 V c 2 t) (t : Fin cfg16.N) (d) : dat.before 2 t d = iblk16 V c 2 t :=
  (dat.before_in_eq_fetched 2 rfl (fun _ => rfl) (fun _ _ _ => rfl) (fun t => by rw [hafter]; unfold Dat.blockOf iblk16; rw [hA]; try rfl) t d).trans
    (by unfold Dat.fetched Dat.blockOf iblk16; rw [hA]; try rfl)

/-- The body's branch condition from the grid coordinate: "this is the first point". -/
abbrev cond16_0 (i : grid16.Coords) : Prop := (Scalar.cmpi .ne (Scalar.extui (Scalar.cmpi .eq (BitVec.ofNat 32 (i 0).val) 0#32)) 0#32) = 1#1
/-- It holds at the first point only: decided over the grid. -/
theorem hcond16_0 : ∀ t : Fin cfg16.N, cond16_0 (grid16.coords t) ↔ t.val % 10 = 0 :=
  (by decide +kernel : ∀ t : Fin grid16.N, cond16_0 (grid16.coords t) ↔ t.val % 10 = 0)

/-- One staging buffer of each output window, through which its contents are stated. -/
abbrev VO16_3 : View sig .tc .vmem S10000x32 .f32 := (Memref.whole cc16_stg3_0 : Memref sig .tc .vmem S10000x32 .f32).view
abbrev VO16_4 : View sig .tc .vmem S1x32 .f32 := (Memref.whole cc16_stg4_0 : Memref sig .tc .vmem S1x32 .f32).view
abbrev VO16_5 : View sig .tc .vmem S1x32 .f32 := (Memref.whole cc16_stg5_0 : Memref sig .tc .vmem S1x32 .f32).view

/-- Each window's current staging buffer at point t, as the pipeline passes it, and its wholeness. -/
abbrev ms16_0 (t : Fin cfg16.N) : Memref sig .tc .vmem S10000x32 .f32 := win16_0.stage (cfg16.slots t 0)
abbrev hs16_0 (t : Fin cfg16.N) : (ms16_0 t).IsWhole := hstage16_0 ((cfg16.slots t 0).cast nbuf16_0)
abbrev ms16_1 (t : Fin cfg16.N) : Memref sig .tc .vmem S10000x32 .f32 := win16_1.stage (cfg16.slots t 1)
abbrev hs16_1 (t : Fin cfg16.N) : (ms16_1 t).IsWhole := hstage16_1 ((cfg16.slots t 1).cast nbuf16_1)
abbrev ms16_2 (t : Fin cfg16.N) : Memref sig .tc .vmem S1x1 .f32 := win16_2.stage (cfg16.slots t 2)
abbrev hs16_2 (t : Fin cfg16.N) : (ms16_2 t).IsWhole := hstage16_2 ((cfg16.slots t 2).cast nbuf16_2)
abbrev ms16_3 (t : Fin cfg16.N) : Memref sig .tc .vmem S10000x32 .f32 := win16_3.stage (cfg16.slots t 3)
abbrev hs16_3 (t : Fin cfg16.N) : (ms16_3 t).IsWhole := hstage16_3 ((cfg16.slots t 3).cast nbuf16_3)
abbrev ms16_4 (t : Fin cfg16.N) : Memref sig .tc .vmem S1x32 .f32 := win16_4.stage (cfg16.slots t 4)
abbrev hs16_4 (t : Fin cfg16.N) : (ms16_4 t).IsWhole := hstage16_4 ((cfg16.slots t 4).cast nbuf16_4)
abbrev ms16_5 (t : Fin cfg16.N) : Memref sig .tc .vmem S1x32 .f32 := win16_5.stage (cfg16.slots t 5)
abbrev hs16_5 (t : Fin cfg16.N) : (ms16_5 t).IsWhole := hstage16_5 ((cfg16.slots t 5).cast nbuf16_5)

/-- The three outputs' piece lists, and their contents. -/
abbrev Pcs16 : Type := List (View.Piece (Elt F) S10000x32 .f32) × List (View.Piece (Elt F) S1x32 .f32) × List (View.Piece (Elt F) S1x32 .f32)
abbrev Outs16 : Type := Vec F S10000x32 .f32 × Vec F S1x32 .f32 × Vec F S1x32 .f32

set_option maxHeartbeats 4000000 in
/-- THE FIRST POINT (the branch taken): what the body's stores leave in each output's staging buffer, as pieces (last
    first), with the proof that on whole staging buffers, the inputs' at their contents and the outputs' at anything,
    the body runs to the continuation holding the inputs' as they were and each output's with its pieces written. -/
noncomputable def kernelRun16_A (c : Dev nD) (i : grid16.Coords)
    (arg1 : Memref sig .tc .vmem S10000x32 .f32) (harg1 : arg1.IsWhole) (arg2 : Memref sig .tc .vmem S10000x32 .f32) (harg2 : arg2.IsWhole)
    (arg3 : Memref sig .tc .vmem S1x1 .f32) (harg3 : arg3.IsWhole) (arg4 : Memref sig .tc .vmem S10000x32 .f32) (harg4 : arg4.IsWhole)
    (arg5 : Memref sig .tc .vmem S1x32 .f32) (harg5 : arg5.IsWhole) (arg6 : Memref sig .tc .vmem S1x32 .f32) (harg6 : arg6.IsWhole)
    (hc0 : cond16_0 i) (x0 : Vec F S10000x32 .f32) (x1 : Vec F S10000x32 .f32) (x2 : Vec F S1x1 .f32) :
    { L : Pcs16 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2.1)
                ∗ (∃ f, arg6.view.loc (c : Thread nD τ) ↦[arg6.view.set]{fullShare} arg6.view.writes (Elt F) f L.2.2)) -∗ K ⟨⟩))
          ⊢ wp frame (wpE (defs₀ (F := F)) Variants.none c none) E (cc16__mix_reduce_kernel i arg1 harg1 arg2 harg2 arg3 harg3 arg4 harg4 arg5 harg5 arg6 harg6) K } := by
  refine ⟨(?_, ?_, ?_), fun E K => ?run⟩
  case run =>
    simp only [cc16__mix_reduce_kernel_eq_skeleton]; unfold cc16__mix_reduce_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0
    obtain rfl := harg2.eq_unread hf1
    obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

set_option maxHeartbeats 4000000 in
/-- EVERY LATER POINT (the branch not taken): the same, the two rows entered at their running contents xo4, xo5. -/
noncomputable def kernelRun16_B (c : Dev nD) (i : grid16.Coords)
    (arg1 : Memref sig .tc .vmem S10000x32 .f32) (harg1 : arg1.IsWhole) (arg2 : Memref sig .tc .vmem S10000x32 .f32) (harg2 : arg2.IsWhole)
    (arg3 : Memref sig .tc .vmem S1x1 .f32) (harg3 : arg3.IsWhole) (arg4 : Memref sig .tc .vmem S10000x32 .f32) (harg4 : arg4.IsWhole)
    (arg5 : Memref sig .tc .vmem S1x32 .f32) (harg5 : arg5.IsWhole) (arg6 : Memref sig .tc .vmem S1x32 .f32) (harg6 : arg6.IsWhole)
    (hc0 : ¬cond16_0 i) (x0 : Vec F S10000x32 .f32) (x1 : Vec F S10000x32 .f32) (x2 : Vec F S1x1 .f32) (xo4 : Vec F S1x32 .f32) (xo5 : Vec F S1x32 .f32) :
    { L : Pcs16 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2.1)
                ∗ (∃ f, arg6.view.loc (c : Thread nD τ) ↦[arg6.view.set]{fullShare} arg6.view.writes (Elt F) f L.2.2)) -∗ K ⟨⟩))
          ⊢ wp frame (wpE (defs₀ (F := F)) Variants.none c none) E (cc16__mix_reduce_kernel i arg1 harg1 arg2 harg2 arg3 harg3 arg4 harg4 arg5 harg5 arg6 harg6) K } := by
  refine ⟨(?_, ?_, ?_), fun E K => ?run⟩
  case run =>
    simp only [cc16__mix_reduce_kernel_eq_skeleton]; unfold cc16__mix_reduce_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg1.eq_unread hf0
    obtain rfl := harg2.eq_unread hf1
    obtain rfl := harg3.eq_unread hf2
    obtain rfl := harg5.eq_unread hf4
    obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

/-- The two runs at a grid point, on the point's staging buffers and input blocks. -/
abbrev runA16 (c : Dev nD) (t : Fin cfg16.N) (h : cond16_0 (grid16.coords t)) :=
  kernelRun16_A (F := F) c (grid16.coords t) (ms16_0 t) (hs16_0 t) (ms16_1 t) (hs16_1 t) (ms16_2 t) (hs16_2 t) (ms16_3 t) (hs16_3 t)
    (ms16_4 t) (hs16_4 t) (ms16_5 t) (hs16_5 t) h (iblk16 V c 0 t) (iblk16 V c 1 t) (iblk16 V c 2 t)
abbrev runB16 (c : Dev nD) (t : Fin cfg16.N) (h : ¬cond16_0 (grid16.coords t)) (xo4 : Vec F S1x32 .f32) (xo5 : Vec F S1x32 .f32) :=
  kernelRun16_B (F := F) c (grid16.coords t) (ms16_0 t) (hs16_0 t) (ms16_1 t) (hs16_1 t) (ms16_2 t) (hs16_2 t) (ms16_3 t) (hs16_3 t)
    (ms16_4 t) (hs16_4 t) (ms16_5 t) (hs16_5 t) h (iblk16 V c 0 t) (iblk16 V c 1 t) (iblk16 V c 2 t) xo4 xo5

/-- What a list of pieces leaves in each output's staging buffer: the pieces read back over junk. -/
def readBack16 (L : Pcs16 (F := F)) : Outs16 (F := F) :=
  (VO16_3.read (Elt F) (VO16_3.writes (Elt F) VO16_3.junk L.1),
   VO16_4.read (Elt F) (VO16_4.writes (Elt F) VO16_4.junk L.2.1),
   VO16_5.read (Elt F) (VO16_5.writes (Elt F) VO16_5.junk L.2.2))

/-- Each case's pieces tile their output's block (checked by evaluation), so they cover it. -/
theorem cover16_A_3 (c : Dev nD) (t : Fin cfg16.N) (h : cond16_0 (grid16.coords t)) (y : S10000x32.Idx) :
    ∃ pc ∈ (runA16 V c t h).1.1, y ∈ pc.1.set := View.cover_of_tiledL (runA16 V c t h).1.1 S10000x32.size (by sl_kernel_rfl) y
theorem cover16_A_4 (c : Dev nD) (t : Fin cfg16.N) (h : cond16_0 (grid16.coords t)) (y : S1x32.Idx) :
    ∃ pc ∈ (runA16 V c t h).1.2.1, y ∈ pc.1.set := View.cover_of_tiledL (runA16 V c t h).1.2.1 S1x32.size (by sl_kernel_rfl) y
theorem cover16_A_5 (c : Dev nD) (t : Fin cfg16.N) (h : cond16_0 (grid16.coords t)) (y : S1x32.Idx) :
    ∃ pc ∈ (runA16 V c t h).1.2.2, y ∈ pc.1.set := View.cover_of_tiledL (runA16 V c t h).1.2.2 S1x32.size (by sl_kernel_rfl) y
theorem cover16_B_3 (c : Dev nD) (t : Fin cfg16.N) (h : ¬cond16_0 (grid16.coords t)) (xo4 xo5) (y : S10000x32.Idx) :
    ∃ pc ∈ (runB16 V c t h xo4 xo5).1.1, y ∈ pc.1.set := View.cover_of_tiledL (runB16 V c t h xo4 xo5).1.1 S10000x32.size (by sl_kernel_rfl) y
theorem cover16_B_4 (c : Dev nD) (t : Fin cfg16.N) (h : ¬cond16_0 (grid16.coords t)) (xo4 xo5) (y : S1x32.Idx) :
    ∃ pc ∈ (runB16 V c t h xo4 xo5).1.2.1, y ∈ pc.1.set := View.cover_of_tiledL (runB16 V c t h xo4 xo5).1.2.1 S1x32.size (by sl_kernel_rfl) y
theorem cover16_B_5 (c : Dev nD) (t : Fin cfg16.N) (h : ¬cond16_0 (grid16.coords t)) (xo4 xo5) (y : S1x32.Idx) :
    ∃ pc ∈ (runB16 V c t h xo4 xo5).1.2.2, y ∈ pc.1.set := View.cover_of_tiledL (runB16 V c t h xo4 xo5).1.2.2 S1x32.size (by sl_kernel_rfl) y

/-- THE ACCUMULATION. What the three outputs' staging buffers hold after the body at position n: the first point's
    case at 0, the later points' case after that, the two rows entered at what position n − 1 left. -/
def outsAt16 (c : Dev nD) : (n : ℕ) → n < cfg16.N → Outs16 (F := F)
  | 0, hn => readBack16 (runA16 V c ⟨0, hn⟩ ((hcond16_0 ⟨0, hn⟩).mpr (Nat.zero_mod _))).1
  | n + 1, hn =>
    if h0 : (n + 1) % 10 = 0 then
      readBack16 (runA16 V c ⟨n + 1, hn⟩ ((hcond16_0 ⟨n + 1, hn⟩).mpr h0)).1
    else
      readBack16 (runB16 V c ⟨n + 1, hn⟩ (fun h => h0 ((hcond16_0 ⟨n + 1, hn⟩).mp h))
        (outsAt16 c n (Nat.lt_of_succ_lt hn)).2.1 (outsAt16 c n (Nat.lt_of_succ_lt hn)).2.2).1

theorem outsAt16_A (c : Dev nD) (t : Fin cfg16.N) (h0 : t.val % 10 = 0) :
    outsAt16 V c t.val t.isLt = readBack16 (runA16 V c t ((hcond16_0 t).mpr h0)).1 := by
  obtain ⟨n, hn⟩ := t
  cases n with
  | zero => exact rfl
  | succ n => exact (dif_pos h0).trans rfl

theorem outsAt16_B (c : Dev nD) (t : Fin cfg16.N) (h0 : ¬t.val % 10 = 0) :
    outsAt16 V c t.val t.isLt = readBack16 (runB16 V c t (fun h => h0 ((hcond16_0 t).mp h))
      (outsAt16 V c (t.val - 1) (Nat.lt_of_le_of_lt (Nat.sub_le _ _) t.isLt)).2.1
      (outsAt16 V c (t.val - 1) (Nat.lt_of_le_of_lt (Nat.sub_le _ _) t.isLt)).2.2).1 := by
  obtain ⟨n, hn⟩ := t
  cases n with
  | zero => exact (by exfalso; (try dsimp only at h0); exact absurd (Nat.zero_mod _) h0)
  | succ n => exact (dif_neg h0).trans rfl

/-- The proof data of this pipeline on core c: the arrays as the region finds them; after the body at point t each
    input's buffer at its block and the outputs' at outsAt; the invariant the untouched scoped rest and the
    generator register; nothing owed; full shares. -/
def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => (outsAt16 V c t.val t.isLt).1
    | ⟨4, _⟩ => (outsAt16 V c t.val t.isLt).2.1
    | ⟨5, _⟩ => (outsAt16 V c t.val t.isLt).2.2
  Φ _ := Pipeline.ΦA spec16 c
  q _ := fullShare
  owed _ := 0

theorem A_eq16 (c : Dev nD) (w : Fin cfg16.W) : (dat16 V c).A w = V c (Pipeline.arrRef spec16 w) := by
  dsimp only [dat16]

theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) : (dat16 V c).after 3 t = (outsAt16 V c t.val t.isLt).1 := by dsimp only [dat16]
theorem after16_4 (c : Dev nD) (t : Fin cfg16.N) : (dat16 V c).after 4 t = (outsAt16 V c t.val t.isLt).2.1 := by dsimp only [dat16]
theorem after16_5 (c : Dev nD) (t : Fin cfg16.N) : (dat16 V c).after 5 t = (outsAt16 V c t.val t.isLt).2.2 := by dsimp only [dat16]

theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d
theorem before16_2 (c : Dev nD) (t : Fin cfg16.N) (d) : (dat16 V c).before 2 t d = iblk16 V c 2 t :=
  before16_2_of V (dat16 V c) (A_eq16 V c 2) (after16_2 V c) t d

/-- At a later point each row's current staging buffer holds what the body left at the point before: the point is not
    the first, and the row is written back at the last point only. -/
theorem before16_4_B (c : Dev nD) (t : Fin cfg16.N) (h0 : ¬t.val % 10 = 0) (d) :
    (dat16 V c).before 4 t d = (outsAt16 V c (t.val - 1) (Nat.lt_of_le_of_lt (Nat.sub_le _ _) t.isLt)).2.1 := by
  have hN : t.val < 10 := lt_of_lt_of_eq t.isLt (show cfg16.N = 10 from N_16)
  rw [Dat.before_out_kept _ 4 rfl t (by omega) (Bool.eq_false_iff.mpr fun h => by have := (flush16_4 _).mp h; dsimp only at this; omega)
    (fun _ => rfl) (fun _ _ => rfl)]
  dsimp only [dat16]
theorem before16_5_B (c : Dev nD) (t : Fin cfg16.N) (h0 : ¬t.val % 10 = 0) (d) :
    (dat16 V c).before 5 t d = (outsAt16 V c (t.val - 1) (Nat.lt_of_le_of_lt (Nat.sub_le _ _) t.isLt)).2.2 := by
  have hN : t.val < 10 := lt_of_lt_of_eq t.isLt (show cfg16.N = 10 from N_16)
  rw [Dat.before_out_kept _ 5 rfl t (by omega) (Bool.eq_false_iff.mpr fun h => by have := (flush16_5 _).mp h; dsimp only at this; omega)
    (fun _ => rfl) (fun _ _ => rfl)]
  dsimp only [dat16]

/-- What the body is called with at point t, window by window, -/
def bodyPre16 (c : Dev nD) (t : Fin cfg16.N) : sProp 𝕄 :=
  iprop((dat16 V c).Φ t.castSucc ∗ (dat16 V c).owesAt () t.castSucc
    ∗ (∃ d, owns (c : Thread nD τ) (ms16_0 t) fullShare ((dat16 V c).before 0 t d))
    ∗ (∃ d, owns (c : Thread nD τ) (ms16_1 t) fullShare ((dat16 V c).before 1 t d))
    ∗ (∃ d, owns (c : Thread nD τ) (ms16_2 t) fullShare ((dat16 V c).before 2 t d))
    ∗ (∃ d, owns (c : Thread nD τ) (ms16_3 t) fullShare ((dat16 V c).before 3 t d))
    ∗ (∃ d, owns (c : Thread nD τ) (ms16_4 t) fullShare ((dat16 V c).before 4 t d))
    ∗ (∃ d, owns (c : Thread nD τ) (ms16_5 t) fullShare ((dat16 V c).before 5 t d)))

/-- and what it returns. -/
def bodyPost16 (c : Dev nD) (t : Fin cfg16.N) : sProp 𝕄 :=
  iprop((dat16 V c).Φ t.succ ∗ (dat16 V c).owesAt () t.succ
    ∗ owns (c : Thread nD τ) (ms16_0 t) fullShare ((dat16 V c).after 0 t)
    ∗ owns (c : Thread nD τ) (ms16_1 t) fullShare ((dat16 V c).after 1 t)
    ∗ owns (c : Thread nD τ) (ms16_2 t) fullShare ((dat16 V c).after 2 t)
    ∗ owns (c : Thread nD τ) (ms16_3 t) fullShare ((dat16 V c).after 3 t)
    ∗ owns (c : Thread nD τ) (ms16_4 t) fullShare ((dat16 V c).after 4 t)
    ∗ owns (c : Thread nD τ) (ms16_5 t) fullShare ((dat16 V c).after 5 t))

set_option maxHeartbeats 2000000 in
/-- The body at any point: the inputs' buffers hold their blocks; the closed form of the condition says which case the
    point is in; at a later point the two rows hold what the point before left; so that case's run applies; the
    invariant and what the core owes pass through unread. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2]
  rw [show (dat16 V c).Φ t.succ = (dat16 V c).Φ t.castSucc from rfl,
    show (dat16 V c).owesAt () t.succ = (dat16 V c).owesAt () t.castSucc from rfl,
    after16_0, after16_1, after16_2, after16_3, after16_4, after16_5]
  have hN : t.val < 10 := lt_of_lt_of_eq t.isLt (show cfg16.N = 10 from N_16)
  by_cases h0 : t.val % 10 = 0
  · rw [outsAt16_A V c t h0]
    unfold readBack16
    dsimp only
    iintro ⟨HΦ, Ho, ⟨%d0, H0⟩, ⟨%d1, H1⟩, ⟨%d2, H2⟩, ⟨%d3, H3⟩, ⟨%d4, H4⟩, ⟨%d5, H5⟩⟩
    iapply ((runA16 V c t ((hcond16_0 t).mpr h0)).2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover16_A_3 V c t _)
    isplitl [H4]
    · unfold owns; iexists _; isplitr
      swap; · iexact H4
      ipureintro; exact View.read_writes_of_cover _ _ _ _ _ (cover16_A_4 V c t _)
    unfold owns; iexists _; isplitr
    swap; · iexact H5
    ipureintro; exact View.read_writes_of_cover _ _ _ _ _ (cover16_A_5 V c t _)
  · rw [outsAt16_B V c t h0]
    simp only [before16_4_B V c t h0, before16_5_B V c t h0]
    unfold readBack16
    dsimp only
    iintro ⟨HΦ, Ho, ⟨%d0, H0⟩, ⟨%d1, H1⟩, ⟨%d2, H2⟩, ⟨%d3, H3⟩, ⟨%d4, H4⟩, ⟨%d5, H5⟩⟩
    iapply ((runB16 V c t (fun h => h0 ((hcond16_0 t).mp h)) _ _).2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover16_B_3 V c t _ _ _)
    isplitl [H4]
    · unfold owns; iexists _; isplitr
      swap; · iexact H4
      ipureintro; exact View.read_writes_of_cover _ _ _ _ _ (cover16_B_4 V c t _ _ _)
    unfold owns; iexists _; isplitr
    swap; · iexact H5
    ipureintro; exact View.read_writes_of_cover _ _ _ _ _ (cover16_B_5 V c t _ _ _)

/-- The pipeline's body obligation, at every point. -/
theorem body_obligation16 (c : Dev nD) : BodyObligation (dat16 (F := F) V c) (defs₀ (F := F)) Variants.none () Set.univ := fun t => by
  rw [bigSep_W16, bigSep_W16]
  exact sound_body16 V c t

end Cert.Kernel.Body

end
-- ==== Proof.KRegion17.lean ====
/-
  Region 17 of the program: the normalise-and-cut-off tile kernel: (x − mean)·rsqrt(max(var, 0) + ε)·scale + bias, cut off at 0, the four rows repeated down the tile, one grid point at a time.

  At a grid point the body loads its 5 input blocks whole and stores one value into its output block, also whole.
  The inputs are read only, so after the body each holds its block as before and the output block holds that one
  stored value; nothing else of the core's state moves. This is the body's obligation to the pipeline, at any float instance.
-/
import proofs.«140713_j1864015806535_2_alg».proof.Proof.Gen.Kernel.Launch
import proofs.«140713_j1864015806535_2_alg».proof.Proof.Gen.Kernel.Skeleton
import proofs.«140713_j1864015806535_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-- An input window's current staging buffer holds its block at every point, fetched there or not. -/
theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)
theorem before17_1_of {c : Dev nD} (dat : Dat τ (Elt F) Unit ℕ (UR sig nD τ) ℕ cfg17 c) (hA : dat.A 1 = V c (Pipeline.arrRef spec17 1))
    (hafter : ∀ t, dat.after 1 t = iblk17 V c 1 t) (t : Fin cfg17.N) (d) : dat.before 1 t d = iblk17 V c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)
theorem before17_2_of {c : Dev nD} (dat : Dat τ (Elt F) Unit ℕ (UR sig nD τ) ℕ cfg17 c) (hA : dat.A 2 = V c (Pipeline.arrRef spec17 2))
    (hafter : ∀ t, dat.after 2 t = iblk17 V c 2 t) (t : Fin cfg17.N) (d) : dat.before 2 t d = iblk17 V c 2 t :=
  (dat.before_in_eq_fetched 2 rfl (fun _ => rfl) (fun _ _ _ => rfl) (fun t => by rw [hafter]; unfold Dat.blockOf iblk17; rw [hA]; try rfl) t d).trans
    (by unfold Dat.fetched Dat.blockOf iblk17; rw [hA]; try rfl)
theorem before17_3_of {c : Dev nD} (dat : Dat τ (Elt F) Unit ℕ (UR sig nD τ) ℕ cfg17 c) (hA : dat.A 3 = V c (Pipeline.arrRef spec17 3))
    (hafter : ∀ t, dat.after 3 t = iblk17 V c 3 t) (t : Fin cfg17.N) (d) : dat.before 3 t d = iblk17 V c 3 t :=
  (dat.before_in_eq_fetched 3 rfl (fun _ => rfl) (fun _ _ _ => rfl) (fun t => by rw [hafter]; unfold Dat.blockOf iblk17; rw [hA]; try rfl) t d).trans
    (by unfold Dat.fetched Dat.blockOf iblk17; rw [hA]; try rfl)
theorem before17_4_of {c : Dev nD} (dat : Dat τ (Elt F) Unit ℕ (UR sig nD τ) ℕ cfg17 c) (hA : dat.A 4 = V c (Pipeline.arrRef spec17 4))
    (hafter : ∀ t, dat.after 4 t = iblk17 V c 4 t) (t : Fin cfg17.N) (d) : dat.before 4 t d = iblk17 V c 4 t :=
  (dat.before_in_eq_fetched 4 rfl (fun _ => rfl) (fun _ _ _ => rfl) (fun t => by rw [hafter]; unfold Dat.blockOf iblk17; rw [hA]; try rfl) t d).trans
    (by unfold Dat.fetched Dat.blockOf iblk17; rw [hA]; try rfl)

/-- The whole-buffer rectangles the body loads and stores through. -/
abbrev r17_0 : Rect S10000x32 := Rect.unit (s := S10000x32) ![0, 0] S10000x32.size inb_S10000x32_S10000x32_0_0
abbrev r17_1 : Rect S1x32 := Rect.unit (s := S1x32) ![0, 0] S1x32.size inb_S1x32_S1x32_0_0
abbrev r17_2 : Rect S1x32 := Rect.unit (s := S1x32) ![0, 0] S1x32.size inb_S1x32_S1x32_0_0
abbrev r17_3 : Rect S1x32 := Rect.unit (s := S1x32) ![0, 0] S1x32.size inb_S1x32_S1x32_0_0
abbrev r17_4 : Rect S1x32 := Rect.unit (s := S1x32) ![0, 0] S1x32.size inb_S1x32_S1x32_0_0
abbrev r17_5 : Rect S10000x32 := Rect.unit (s := S10000x32) ![0, 0] S10000x32.size inb_S10000x32_S10000x32_0_0

/-- The output block after the body: the one store's value of the input blocks. -/
def out17_5 (x0 : Vec F S10000x32 .f32) (x1 : Vec F S1x32 .f32) (x2 : Vec F S1x32 .f32) (x3 : Vec F S1x32 .f32) (x4 : Vec F S1x32 .f32) : Vec F S10000x32 .f32 :=
  View.canon [⟨r17_5, k17_pay1 (View.ld x0 r17_0) (View.ld x1 r17_1) (View.ld x2 r17_2) (View.ld x3 r17_3) (View.ld x4 r17_4)⟩]

/-- The one store covers the whole output block. -/
theorem cover17_5 (p0 : Vec F S10000x32 .f32) (y : S10000x32.Idx) :
    ∃ pc ∈ ([⟨r17_5, p0⟩] : List (View.Piece (Elt F) S10000x32 .f32)), y ∈ pc.1.set :=
  View.cover_of_tiled [⟨r17_5, p0⟩] S10000x32.size (by rfl) y

set_option maxHeartbeats 1000000 in
/-- The body on whole staging buffers: the inputs stay, the output ends at out17_5 of the inputs. -/
theorem sound_kernel17 (c : Dev nD) (E : Set ℕ) (i : grid17.Coords) (arg1 : Memref sig .tc .vmem S10000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S10000x32 .f32) (harg6 : arg6.IsWhole)
    (x0 : Vec F S10000x32 .f32) (x1 : Vec F S1x32 .f32) (x2 : Vec F S1x32 .f32) (x3 : Vec F S1x32 .f32) (x4 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out17_5 x0 x1 x2 x3 x4)) -∗ K ⟨⟩))
      ⊢ wp frame (wpE (defs₀ (F := F)) Variants.none c none) E (cc17__bn_relu_kernel i arg1 harg1 arg2 harg2 arg3 harg3 arg4 harg4 arg5 harg5 arg6 harg6) K := by
  simp only [cc17__bn_relu_kernel_eq_skeleton]; unfold cc17__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover17_5 _)

/-- The proof data of this pipeline on core c: the arrays as the region finds them; after the body at point t each
    input's buffer at its block and the output's at the stored value of the input blocks; the invariant the untouched
    scoped rest and the generator register; nothing owed; full shares. -/
def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => iblk17 V c 2 t
    | ⟨3, _⟩ => iblk17 V c 3 t
    | ⟨4, _⟩ => iblk17 V c 4 t
    | ⟨5, _⟩ => out17_5 (iblk17 V c 0 t) (iblk17 V c 1 t) (iblk17 V c 2 t) (iblk17 V c 3 t) (iblk17 V c 4 t)
  Φ _ := Pipeline.ΦA spec17 c
  q _ := fullShare
  owed _ := 0

theorem A_eq17 (c : Dev nD) (w : Fin cfg17.W) : (dat17 V c).A w = V c (Pipeline.arrRef spec17 w) := by
  dsimp only [dat17]

theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = iblk17 V c 2 t := by dsimp only [dat17]
theorem after17_3 (c : Dev nD) (t : Fin cfg17.N) : (dat17 V c).after 3 t = iblk17 V c 3 t := by dsimp only [dat17]
theorem after17_4 (c : Dev nD) (t : Fin cfg17.N) : (dat17 V c).after 4 t = iblk17 V c 4 t := by dsimp only [dat17]
theorem after17_5 (c : Dev nD) (t : Fin cfg17.N) :
    (dat17 V c).after 5 t = out17_5 (iblk17 V c 0 t) (iblk17 V c 1 t) (iblk17 V c 2 t) (iblk17 V c 3 t) (iblk17 V c 4 t) := by dsimp only [dat17]

theorem before17_0 (c : Dev nD) (t : Fin cfg17.N) (d) : (dat17 V c).before 0 t d = iblk17 V c 0 t :=
  before17_0_of V (dat17 V c) (A_eq17 V c 0) (after17_0 V c) t d
theorem before17_1 (c : Dev nD) (t : Fin cfg17.N) (d) : (dat17 V c).before 1 t d = iblk17 V c 1 t :=
  before17_1_of V (dat17 V c) (A_eq17 V c 1) (after17_1 V c) t d
theorem before17_2 (c : Dev nD) (t : Fin cfg17.N) (d) : (dat17 V c).before 2 t d = iblk17 V c 2 t :=
  before17_2_of V (dat17 V c) (A_eq17 V c 2) (after17_2 V c) t d
theorem before17_3 (c : Dev nD) (t : Fin cfg17.N) (d) : (dat17 V c).before 3 t d = iblk17 V c 3 t :=
  before17_3_of V (dat17 V c) (A_eq17 V c 3) (after17_3 V c) t d
theorem before17_4 (c : Dev nD) (t : Fin cfg17.N) (d) : (dat17 V c).before 4 t d = iblk17 V c 4 t :=
  before17_4_of V (dat17 V c) (A_eq17 V c 4) (after17_4 V c) t d

/-- What the body is called with at point t, window by window, -/
def bodyPre17 (c : Dev nD) (t : Fin cfg17.N) : sProp 𝕄 :=
  iprop((dat17 V c).Φ t.castSucc ∗ (dat17 V c).owesAt () t.castSucc
    ∗ (∃ d, owns (c : Thread nD τ) (st17_0 t) fullShare ((dat17 V c).before 0 t d))
    ∗ (∃ d, owns (c : Thread nD τ) (st17_1 t) fullShare ((dat17 V c).before 1 t d))
    ∗ (∃ d, owns (c : Thread nD τ) (st17_2 t) fullShare ((dat17 V c).before 2 t d))
    ∗ (∃ d, owns (c : Thread nD τ) (st17_3 t) fullShare ((dat17 V c).before 3 t d))
    ∗ (∃ d, owns (c : Thread nD τ) (st17_4 t) fullShare ((dat17 V c).before 4 t d))
    ∗ (∃ d, owns (c : Thread nD τ) (st17_5 t) fullShare ((dat17 V c).before 5 t d)))

/-- and what it returns. -/
def bodyPost17 (c : Dev nD) (t : Fin cfg17.N) : sProp 𝕄 :=
  iprop((dat17 V c).Φ t.succ ∗ (dat17 V c).owesAt () t.succ
    ∗ owns (c : Thread nD τ) (st17_0 t) fullShare ((dat17 V c).after 0 t)
    ∗ owns (c : Thread nD τ) (st17_1 t) fullShare ((dat17 V c).after 1 t)
    ∗ owns (c : Thread nD τ) (st17_2 t) fullShare ((dat17 V c).after 2 t)
    ∗ owns (c : Thread nD τ) (st17_3 t) fullShare ((dat17 V c).after 3 t)
    ∗ owns (c : Thread nD τ) (st17_4 t) fullShare ((dat17 V c).after 4 t)
    ∗ owns (c : Thread nD τ) (st17_5 t) fullShare ((dat17 V c).after 5 t))

/-- The body at any point: the inputs' buffers hold their blocks, so sound_kernel17 applies; the invariant and what the
    core owes pass through unread. -/
theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1, before17_2, before17_3, before17_4]
  rw [show (dat17 V c).Φ t.succ = (dat17 V c).Φ t.castSucc from rfl,
    show (dat17 V c).owesAt () t.succ = (dat17 V c).owesAt () t.castSucc from rfl,
    after17_0, after17_1, after17_2, after17_3, after17_4, after17_5]
  iintro ⟨HΦ, Ho, ⟨%d0, H0⟩, ⟨%d1, H1⟩, ⟨%d2, H2⟩, ⟨%d3, H3⟩, ⟨%d4, H4⟩, ⟨%d5, H5⟩⟩
  iapply (sound_kernel17 c Set.univ _ _ _ _ _ _ _ _ _ _ _ _ _ (iblk17 V c 0 t) (iblk17 V c 1 t) (iblk17 V c 2 t) (iblk17 V c 3 t) (iblk17 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation17 (c : Dev nD) : BodyObligation (dat17 (F := F) V c) (defs₀ (F := F)) Variants.none () Set.univ := fun t => by
  rw [bigSep_W17, bigSep_W17]
  exact sound_body17 V c t

end Cert.Kernel.Body

end
-- ==== Proof.LibClassARegion.lean ====
/-
  A pipelined region as one segment of a host program, when its body needs nothing but its windows.

  Between two segments of a host program a core holds every unscoped buffer at a known valuation, beside its
  generator register (at some state) and the fact that it owes no other core anything. A pipelined region entered
  from such a state at the valuation Vin takes its windows' arrays out of the unscoped buffers, runs its grid, and
  puts the arrays back; it is left at any valuation Vout that holds each array at what the write-backs leave in it
  and agrees with Vin everywhere else. That is the whole protocol when the region's invariant is "the scoped buffers
  no window stages, and the generator register, untouched", the body owes nothing and bounds no recorded waits, the arrays are held whole, there
  are no prefetched tables and the kernel has no semaphores of its own: the four entailments below only move
  resources from one side to the other. Stated for any program (any signature, mesh, pipeline family and proof
  data), so that a program of many regions states one such segment per region.

  How the pieces fit for a program of n regions among host stretches: define the valuation after each item from the
  launch contents (after a stretch its fold; after a region the valuation before it with the region's outputs set to
  what its proof data leave at the last point), one segment per region by `region` with the hypotheses hA (the proof
  data's arrays are the entry valuation's), hF (each array ends at the exit valuation's contents) and hrest (every
  other buffer is untouched), and feed the segments to the program's launch theorem with the state between items
  `state V`: at the launch `launch_own` and `rest_of_launch` make the first state, and `owes_of_rest` closes the last.
  `eq_withArrays` says that a pointwise description of an exit valuation determines it.
-/
import Idealize.ShloMosaic.Lib.Pipeline.Frame
import Idealize.ShloMosaic.Lib.Pipeline.FrameBody
import Idealize.ShloMosaic.Lib.Pipeline.Regions
import Idealize.ShloMosaic.Lib.Pipeline.RegionsLoop
import Idealize.ShloMosaic.Lib.Pipeline.FrameSuffix

noncomputable section

namespace Cert.LibClassARegion

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type} [∀ e, Nonempty (Val e)]
variable {U : Type} [URA U]
variable {Λ₀ : Idealize.SL.Sem.Labels} {P : Type} [Fintype P]

local notation "𝕄" => MT nD τ sig Unit Val ℕ U ℕ

variable (pcs : P → PCfg sig Λ₀ Val) (a : (p : P) → (pcs p).Adm)
  (pdats : (p : P) → (c : Dev nD) → Dat τ Val Unit ℕ U ℕ (pin pcs a p) c)
  (defs₀ : Defs nD τ sig Val Λ₀) (𝒱₀ : Variants)
  (L : GSem nD τ sig → Finset Unit) (lv : GSem nD τ sig → Unit → ℕ)

/-- What rides beside the buffers through every segment: the core's generator register at some state, and the core
    owing nothing. -/
abbrev rest (c : Dev nD) : sProp 𝕄 :=
  iprop((∃ r, prngReg c r) ∗ ∃ W, owes (c.tc : Thread nD τ) (0 : CellTallies nD τ sig Unit) W)

/-- The thread state between two segments: every unscoped buffer at the valuation V, beside the rest. -/
abbrev state (V : Dev nD → Valuation τ sig Val) (c : Dev nD) : sProp 𝕄 :=
  iprop(StableHlo.held (c.tc : Thread nD τ) (ucRefs τ sig) (V c) ∗ rest (U := U) c)

/-- The segment of pipeline p entered at Vin and left at Vout. -/
def region (p : P)
    (hw₀ : WinFacts₀ (pcs p).spec) (hw : WinFacts (pin pcs a p).spec)
    (hbp : ∀ w : Fin (pin pcs a p).W, 0 < ((pin pcs a p).spec w).block.numel)
    (hsw : ∀ (w : Fin (pin pcs a p).W) (s : Fin ((pin pcs a p).spec w).nbuf), (((pin pcs a p).spec w).stage s).IsWhole)
    (harr : ∀ w, ((pin pcs a p).spec w).arr.IsWhole)
    (hbody : ∀ c, BodyObligation (pdats p c) defs₀ 𝒱₀ () Set.univ)
    (howed : ∀ c t, (pdats p c).owed t = 0)
    (hrec : ∀ c t, (pdats p c).recorded t = Set.univ)
    (hshare : ∀ c w, (pdats p c).share w = fullShare)
    (hΦ0 : ∀ c, (pdats p c).Φ 0 = ΦA (U := U) (pin pcs a p).spec c)
    (hΦN : ∀ c, (pdats p c).Φ (Fin.last (pin pcs a p).N) = ΦA (U := U) (pin pcs a p).spec c)
    (hpref : ∀ c, (BI.emp : sProp 𝕄) ⊢ prefHeld (pcs p).pre c (fun _ => fullShare) (a p).1)
    (Vin Vout : Dev nD → Valuation τ sig Val)
    (hA : ∀ c w, (pdats p c).A w = Vin c (arrRef (pin pcs a p).spec w))
    (hF : ∀ c w, (pdats p c).arrAt w (pin pcs a p).N = Vout c (arrRef (pin pcs a p).spec w))
    (hrest : ∀ c (b : Ref sig .tc), b ∉ Finset.univ.image (arrRef (pin pcs a p).spec) → Vout c b = Vin c b) :
    RegionSeg pcs a pdats () defs₀ 𝒱₀ L lv p where
  win := hw₀
  block_pos := hbp
  stage_whole := hsw
  K := PEmpty
  osem k := k.elim
  ho := OwnSemFacts.none _
  hbody c := (hbody c).loose
  hwaits := hwaits_of_owed_zero _ _ _ _ L lv p howed
  pre := state (U := U) Vin
  post := state (U := U) Vout
  X c := iprop(∃ r, prngReg c r)
  Y c := iprop(∃ r, prngReg c r)
  Z c := unscopedRest (Ix := Unit) (Name := ℕ) (U := U) (Lvl := ℕ) (pin pcs a p).spec c (fun b => Vin c b)
  hentry c := by
    rw [ownSems0_none]
    have hsplit := arrays_of_unscopedBufs (p := p) pcs a pdats hw harr c (hshare c) (fun b => Vin c b) (hA c)
    rw [unscopedBufs_held] at hsplit
    iintro ⟨⟨Hub, Hp, HO⟩, -, -⟩
    ihave H := hsplit $$ Hub
    icases H with ⟨Ha, Hrest⟩
    imodintro
    isplitl [Ha]; · iexact Ha
    isplitr; · iapply (hpref c); iempintro
    isplitl [HO]
    · unfold Dat.owesAt owesWithin Dat.bound
      rw [howed c 0, hrec c 0]
      icases HO with ⟨%W, HO⟩; iexists W; isplitr; · ipureintro; exact fun _ _ => Or.inl trivial
      iexact HO
    isplitl [Hp]; · iexact Hp
    iexact Hrest
  hin c := by
    rw [hΦ0 c]; unfold ΦA
    iintro ⟨Hp, -, Hr⟩
    isplitl [Hr]; · iexact Hr
    iexact Hp
  hout c := by
    rw [ownSems0_none, hΦN c]; unfold ΦA
    iintro ⟨Hr, Hp⟩
    isplitl [Hp]; · iexact Hp
    isplitr; · iempintro
    iexact Hr
  hexit c := by
    have hjoin := unscopedBufs_of_arrays (p := p) pcs a (Ix := Unit) (Name := ℕ) (U := U) (Lvl := ℕ)
      hw harr c pdats (hshare c) (fun b => Vin c b) (fun b => Vout c b) ((pdats p c).arrAt · (pin pcs a p).N) (hF c) (hrest c)
    rw [unscopedBufs_held] at hjoin
    iintro ⟨Ha, HO, HY, Hrest⟩
    imodintro
    isplitl [Ha Hrest]
    · iapply hjoin; isplitl [Ha] <;> iassumption
    isplitl [HY]; · iexact HY
    unfold Dat.owesAt owesWithin
    rw [howed c (Fin.last (pin pcs a p).N)]
    icases HO with ⟨%W, -, HO⟩; iexists W; iexact HO

/-- A valuation that holds each array of a region at A and agrees with V at every other buffer is V with the
    region's arrays set to A. -/
theorem eq_withArrays {gr W : Nat} (win : Fin W → WinSpec sig gr) (hinj : Function.Injective (arrRef win))
    (c : Dev nD) (V V' : Valuation τ sig Val) (A : (w : Fin W) → Buf Val ((win w).arr.view.loc (c.tc : Thread nD τ)))
    (hF : ∀ w, V' (Proc.devRef .tc (arrRef win w)) = A w)
    (hrest : ∀ b : DevRef τ sig, (¬ ∃ w, Proc.devRef .tc (arrRef win w) = b) → V' b = V b) :
    V' = withArrays win c V A := by
  funext b
  by_cases h : ∃ w, Proc.devRef .tc (arrRef win w) = b
  · obtain ⟨w, rfl⟩ := h
    rw [withArrays_arr win hinj c V A w, hF w]
  · unfold withArrays
    rw [dif_neg h]
    exact hrest b h

/-- At the launch the core's generator register and its owing nothing make the rest that rides along. -/
theorem rest_of_launch (c : Dev nD) (O₀ : Dev nD → CellTallies nD τ sig Unit) (hO : O₀ c = 0) (g : PrngReg) (X Y Z : sProp 𝕄) :
    iprop(X ∗ owes (c.tc : Thread nD τ) (O₀ c) ∅ ∗ Y ∗ prngReg c g ∗ Z) ⊢ (|={Set.univ}=> rest (U := U) c : sProp 𝕄) := by
  rw [hO]
  iintro ⟨-, HO, -, Hp, -⟩
  imodintro
  isplitl [Hp]; · iexists _; iexact Hp
  iexists ∅; iexact HO

/-- At the launch the whole user component is handed to the pipeline library's embedding, and nothing else is needed
    per core: for any launch element x, owning x yields owning its embedding beside an empty share for every core. -/
theorem launch_own (x : U) :
    (ownU x : sProp 𝕄) ⊢ |={Set.univ}=> iprop(BI.own (emb₁ (nD := nD) (τ := τ) (sig := sig) (Ix := Unit) (Val := Val) (Name := ℕ) (Lvl := ℕ) x)
      ∗ bigSep Finset.univ (fun _ : Dev nD => (BI.emp : sProp 𝕄))) := by
  iintro Hu; imodintro
  isplitl [Hu]
  · iapply (show (ownU x : sProp 𝕄) ⊢ BI.own (emb₁ (nD := nD) (τ := τ) (sig := sig) (Ix := Unit) (Val := Val) (Name := ℕ) (Lvl := ℕ) x) from .rfl)
    iexact Hu
  iapply (show (BI.emp : sProp 𝕄) ⊢ bigSep Finset.univ (fun _ : Dev nD => (BI.emp : sProp 𝕄)) from by rw [BI.bigSep_emp_const])
  iempintro

/-- The rest holds that the core owes nothing. -/
theorem owes_of_rest (c : Dev nD) :
    (rest (U := U) c : sProp 𝕄) ⊢ iprop(∃ W, owes (c.tc : Thread nD τ) (0 : CellTallies nD τ sig Unit) W) := by
  iintro ⟨-, H⟩; iexact H

end Cert.LibClassARegion

end
-- ==== Proof.KFrameBase.lean ====
/-
  The frame of the program: it runs to the end, faults nowhere, and leaves its thirteen argument arrays as launched.

  The program is 43 items in a row: stretches of host operations and 18 pipelined regions. Between two items a core
  holds every unscoped buffer at a known valuation. The valuations are defined one after the other from the launch
  memory: after a stretch, the stretch's fold over the valuation before it; after a region, the valuation before it
  with the region's output arrays set to what its write-backs leave (read off the region's proof data at the last
  point). A host operation writes a buffer of its own and a region writes its outputs only, so no item touches an
  argument array. Each region is one segment entered at the valuation before it and left at the one after it
  (Proof/LibClassARegion.lean), from its body obligation (Proof/KRegion0.lean to KRegion17.lean); the conditional frame over
  the segments (Proof/RegionsKernel.lean) then gives the claim.
-/
import proofs.«140713_j1864015806535_2_alg».proof.Proof.KRegion0
import proofs.«140713_j1864015806535_2_alg».proof.Proof.KRegion1
import proofs.«140713_j1864015806535_2_alg».proof.Proof.KRegion2
import proofs.«140713_j1864015806535_2_alg».proof.Proof.KRegion3
import proofs.«140713_j1864015806535_2_alg».proof.Proof.KRegion4
import proofs.«140713_j1864015806535_2_alg».proof.Proof.KRegion5
import proofs.«140713_j1864015806535_2_alg».proof.Proof.KRegion6
import proofs.«140713_j1864015806535_2_alg».proof.Proof.KRegion7
import proofs.«140713_j1864015806535_2_alg».proof.Proof.KRegion8
import proofs.«140713_j1864015806535_2_alg».proof.Proof.KRegion9
import proofs.«140713_j1864015806535_2_alg».proof.Proof.KRegion10
import proofs.«140713_j1864015806535_2_alg».proof.Proof.KRegion11
import proofs.«140713_j1864015806535_2_alg».proof.Proof.KRegion12
import proofs.«140713_j1864015806535_2_alg».proof.Proof.KRegion13
import proofs.«140713_j1864015806535_2_alg».proof.Proof.KRegion14
import proofs.«140713_j1864015806535_2_alg».proof.Proof.KRegion15
import proofs.«140713_j1864015806535_2_alg».proof.Proof.KRegion16
import proofs.«140713_j1864015806535_2_alg».proof.Proof.KRegion17
import proofs.«140713_j1864015806535_2_alg».proof.Proof.RegionsKernel
import proofs.«140713_j1864015806535_2_alg».proof.Proof.LibClassARegion

set_option maxRecDepth 65536

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents between items -/

/-- Core c's unscoped buffers at launch. -/
abbrev W0 : Dev nD → Valuation τ sig (Elt F) := fun c b => m (c, b)
/-- After the host stretch hostOps0. -/
abbrev W1 : Dev nD → Valuation τ sig (Elt F) := fun c => StableHlo.after hostOps0 (W0 m c)
/-- Region 0's entry contents read at the TensorCore's references. -/
abbrev E1 : (c : Dev nD) → (b : Ref sig .tc) → Buf (Elt F) ((c : Thread nD τ).loc b) := fun c b => W1 m c b
/-- What region 0 leaves in main_v31: its write-backs folded over the grid. -/
def O0_0 (c : Dev nD) : Buf (Elt F) ((c : Thread nD τ).loc main_v31) := (dat0 (E1 m) c).arrAt 3 cfg0.N
/-- After region 0: its outputs at what it leaves, every other buffer as before. -/
def W2 (c : Dev nD) : Valuation τ sig (Elt F) := Function.update (W1 m c) main_v31 (O0_0 m c)
/-- After the host stretch hostOps1. -/
abbrev W3 : Dev nD → Valuation τ sig (Elt F) := fun c => StableHlo.after hostOps1 (W2 m c)
/-- Region 1's entry contents read at the TensorCore's references. -/
abbrev E3 : (c : Dev nD) → (b : Ref sig .tc) → Buf (Elt F) ((c : Thread nD τ).loc b) := fun c b => W3 m c b
/-- What region 1 leaves in main_v52_0: its write-backs folded over the grid. -/
def O1_0 (c : Dev nD) : Buf (Elt F) ((c : Thread nD τ).loc main_v52_0) := (dat1 (E3 m) c).arrAt 3 cfg1.N
/-- What region 1 leaves in main_v52_1: its write-backs folded over the grid. -/
def O1_1 (c : Dev nD) : Buf (Elt F) ((c : Thread nD τ).loc main_v52_1) := (dat1 (E3 m) c).arrAt 4 cfg1.N
/-- What region 1 leaves in main_v52_2: its write-backs folded over the grid. -/
def O1_2 (c : Dev nD) : Buf (Elt F) ((c : Thread nD τ).loc main_v52_2) := (dat1 (E3 m) c).arrAt 5 cfg1.N
/-- After region 1: its outputs at what it leaves, every other buffer as before. -/
def W4 (c : Dev nD) : Valuation τ sig (Elt F) := Function.update (Function.update (Function.update (W3 m c) main_v52_0 (O1_0 m c)) main_v52_1 (O1_1 m c)) main_v52_2 (O1_2 m c)
/-- After the host stretch hostOps2. -/
abbrev W5 : Dev nD → Valuation τ sig (Elt F) := fun c => StableHlo.after hostOps2 (W4 m c)
/-- Region 2's entry contents read at the TensorCore's references. -/
abbrev E5 : (c : Dev nD) → (b : Ref sig .tc) → Buf (Elt F) ((c : Thread nD τ).loc b) := fun c b => W5 m c b
/-- What region 2 leaves in main_v61: its write-backs folded over the grid. -/
def O2_0 (c : Dev nD) : Buf (Elt F) ((c : Thread nD τ).loc main_v61) := (dat2 (E5 m) c).arrAt 5 cfg2.N
/-- After region 2: its outputs at what it leaves, every other buffer as before. -/
def W6 (c : Dev nD) : Valuation τ sig (Elt F) := Function.update (W5 m c) main_v61 (O2_0 m c)
/-- After the host stretch hostOps3. -/
abbrev W7 : Dev nD → Valuation τ sig (Elt F) := fun c => StableHlo.after hostOps3 (W6 m c)
/-- Region 3's entry contents read at the TensorCore's references. -/
abbrev E7 : (c : Dev nD) → (b : Ref sig .tc) → Buf (Elt F) ((c : Thread nD τ).loc b) := fun c b => W7 m c b
/-- What region 3 leaves in main_v67: its write-backs folded over the grid. -/
def O3_0 (c : Dev nD) : Buf (Elt F) ((c : Thread nD τ).loc main_v67) := (dat3 (E7 m) c).arrAt 3 cfg3.N
/-- After region 3: its outputs at what it leaves, every other buffer as before. -/
def W8 (c : Dev nD) : Valuation τ sig (Elt F) := Function.update (W7 m c) main_v67 (O3_0 m c)
/-- After the host stretch hostOps4. -/
abbrev W9 : Dev nD → Valuation τ sig (Elt F) := fun c => StableHlo.after hostOps4 (W8 m c)
/-- Region 4's entry contents read at the TensorCore's references. -/
abbrev E9 : (c : Dev nD) → (b : Ref sig .tc) → Buf (Elt F) ((c : Thread nD τ).loc b) := fun c b => W9 m c b
/-- What region 4 leaves in main_v88_0: its write-backs folded over the grid. -/
def O4_0 (c : Dev nD) : Buf (Elt F) ((c : Thread nD τ).loc main_v88_0) := (dat4 (E9 m) c).arrAt 3 cfg4.N
/-- What region 4 leaves in main_v88_1: its write-backs folded over the grid. -/
def O4_1 (c : Dev nD) : Buf (Elt F) ((c : Thread nD τ).loc main_v88_1) := (dat4 (E9 m) c).arrAt 4 cfg4.N
/-- What region 4 leaves in main_v88_2: its write-backs folded over the grid. -/
def O4_2 (c : Dev nD) : Buf (Elt F) ((c : Thread nD τ).loc main_v88_2) := (dat4 (E9 m) c).arrAt 5 cfg4.N
/-- After region 4: its outputs at what it leaves, every other buffer as before. -/
def W10 (c : Dev nD) : Valuation τ sig (Elt F) := Function.update (Function.update (Function.update (W9 m c) main_v88_0 (O4_0 m c)) main_v88_1 (O4_1 m c)) main_v88_2 (O4_2 m c)
/-- After the host stretch hostOps5. -/
abbrev W11 : Dev nD → Valuation τ sig (Elt F) := fun c => StableHlo.after hostOps5 (W10 m c)
/-- Region 5's entry contents read at the TensorCore's references. -/
abbrev E11 : (c : Dev nD) → (b : Ref sig .tc) → Buf (Elt F) ((c : Thread nD τ).loc b) := fun c b => W11 m c b
/-- What region 5 leaves in main_v97: its write-backs folded over the grid. -/
def O5_0 (c : Dev nD) : Buf (Elt F) ((c : Thread nD τ).loc main_v97) := (dat5 (E11 m) c).arrAt 5 cfg5.N
/-- After region 5: its outputs at what it leaves, every other buffer as before. -/
def W12 (c : Dev nD) : Valuation τ sig (Elt F) := Function.update (W11 m c) main_v97 (O5_0 m c)
/-- After the host stretch hostOps6. -/
abbrev W13 : Dev nD → Valuation τ sig (Elt F) := fun c => StableHlo.after hostOps6 (W12 m c)
/-- After the host stretch hostOps6_1. -/
abbrev W14 : Dev nD → Valuation τ sig (Elt F) := fun c => StableHlo.after hostOps6_1 (W13 m c)
/-- After the host stretch hostOps6_2. -/
abbrev W15 : Dev nD → Valuation τ sig (Elt F) := fun c => StableHlo.after hostOps6_2 (W14 m c)
/-- Region 6's entry contents read at the TensorCore's references. -/
abbrev E15 : (c : Dev nD) → (b : Ref sig .tc) → Buf (Elt F) ((c : Thread nD τ).loc b) := fun c b => W15 m c b
/-- What region 6 leaves in main_v137: its write-backs folded over the grid. -/
def O6_0 (c : Dev nD) : Buf (Elt F) ((c : Thread nD τ).loc main_v137) := (dat6 (E15 m) c).arrAt 3 cfg6.N
/-- After region 6: its outputs at what it leaves, every other buffer as before. -/
def W16 (c : Dev nD) : Valuation τ sig (Elt F) := Function.update (W15 m c) main_v137 (O6_0 m c)
/-- After the host stretch hostOps7. -/
abbrev W17 : Dev nD → Valuation τ sig (Elt F) := fun c => StableHlo.after hostOps7 (W16 m c)
/-- Region 7's entry contents read at the TensorCore's references. -/
abbrev E17 : (c : Dev nD) → (b : Ref sig .tc) → Buf (Elt F) ((c : Thread nD τ).loc b) := fun c b => W17 m c b
/-- What region 7 leaves in main_v158_0: its write-backs folded over the grid. -/
def O7_0 (c : Dev nD) : Buf (Elt F) ((c : Thread nD τ).loc main_v158_0) := (dat7 (E17 m) c).arrAt 3 cfg7.N
/-- What region 7 leaves in main_v158_1: its write-backs folded over the grid. -/
def O7_1 (c : Dev nD) : Buf (Elt F) ((c : Thread nD τ).loc main_v158_1) := (dat7 (E17 m) c).arrAt 4 cfg7.N
/-- What region 7 leaves in main_v158_2: its write-backs folded over the grid. -/
def O7_2 (c : Dev nD) : Buf (Elt F) ((c : Thread nD τ).loc main_v158_2) := (dat7 (E17 m) c).arrAt 5 cfg7.N
/-- After region 7: its outputs at what it leaves, every other buffer as before. -/
def W18 (c : Dev nD) : Valuation τ sig (Elt F) := Function.update (Function.update (Function.update (W17 m c) main_v158_0 (O7_0 m c)) main_v158_1 (O7_1 m c)) main_v158_2 (O7_2 m c)
/-- After the host stretch hostOps8. -/
abbrev W19 : Dev nD → Valuation τ sig (Elt F) := fun c => StableHlo.after hostOps8 (W18 m c)
/-- Region 8's entry contents read at the TensorCore's references. -/
abbrev E19 : (c : Dev nD) → (b : Ref sig .tc) → Buf (Elt F) ((c : Thread nD τ).loc b) := fun c b => W19 m c b
/-- What region 8 leaves in main_v167: its write-backs folded over the grid. -/
def O8_0 (c : Dev nD) : Buf (Elt F) ((c : Thread nD τ).loc main_v167) := (dat8 (E19 m) c).arrAt 5 cfg8.N
/-- After region 8: its outputs at what it leaves, every other buffer as before. -/
def W20 (c : Dev nD) : Valuation τ sig (Elt F) := Function.update (W19 m c) main_v167 (O8_0 m c)
/-- After the host stretch hostOps9. -/
abbrev W21 : Dev nD → Valuation τ sig (Elt F) := fun c => StableHlo.after hostOps9 (W20 m c)
/-- Region 9's entry contents read at the TensorCore's references. -/
abbrev E21 : (c : Dev nD) → (b : Ref sig .tc) → Buf (Elt F) ((c : Thread nD τ).loc b) := fun c b => W21 m c b
/-- What region 9 leaves in main_v173: its write-backs folded over the grid. -/
def O9_0 (c : Dev nD) : Buf (Elt F) ((c : Thread nD τ).loc main_v173) := (dat9 (E21 m) c).arrAt 3 cfg9.N
/-- After region 9: its outputs at what it leaves, every other buffer as before. -/
def W22 (c : Dev nD) : Valuation τ sig (Elt F) := Function.update (W21 m c) main_v173 (O9_0 m c)
/-- After the host stretch hostOps10. -/
abbrev W23 : Dev nD → Valuation τ sig (Elt F) := fun c => StableHlo.after hostOps10 (W22 m c)
/-- Region 10's entry contents read at the TensorCore's references. -/
abbrev E23 : (c : Dev nD) → (b : Ref sig .tc) → Buf (Elt F) ((c : Thread nD τ).loc b) := fun c b => W23 m c b
/-- What region 10 leaves in main_v194_0: its write-backs folded over the grid. -/
def O10_0 (c : Dev nD) : Buf (Elt F) ((c : Thread nD τ).loc main_v194_0) := (dat10 (E23 m) c).arrAt 3 cfg10.N
/-- What region 10 leaves in main_v194_1: its write-backs folded over the grid. -/
def O10_1 (c : Dev nD) : Buf (Elt F) ((c : Thread nD τ).loc main_v194_1) := (dat10 (E23 m) c).arrAt 4 cfg10.N
/-- What region 10 leaves in main_v194_2: its write-backs folded over the grid. -/
def O10_2 (c : Dev nD) : Buf (Elt F) ((c : Thread nD τ).loc main_v194_2) := (dat10 (E23 m) c).arrAt 5 cfg10.N
/-- After region 10: its outputs at what it leaves, every other buffer as before. -/
def W24 (c : Dev nD) : Valuation τ sig (Elt F) := Function.update (Function.update (Function.update (W23 m c) main_v194_0 (O10_0 m c)) main_v194_1 (O10_1 m c)) main_v194_2 (O10_2 m c)
/-- After the host stretch hostOps11. -/
abbrev W25 : Dev nD → Valuation τ sig (Elt F) := fun c => StableHlo.after hostOps11 (W24 m c)
/-- Region 11's entry contents read at the TensorCore's references. -/
abbrev E25 : (c : Dev nD) → (b : Ref sig .tc) → Buf (Elt F) ((c : Thread nD τ).loc b) := fun c b => W25 m c b
/-- What region 11 leaves in main_v203: its write-backs folded over the grid. -/
def O11_0 (c : Dev nD) : Buf (Elt F) ((c : Thread nD τ).loc main_v203) := (dat11 (E25 m) c).arrAt 5 cfg11.N
/-- After region 11: its outputs at what it leaves, every other buffer as before. -/
def W26 (c : Dev nD) : Valuation τ sig (Elt F) := Function.update (W25 m c) main_v203 (O11_0 m c)
/-- After the host stretch hostOps12. -/
abbrev W27 : Dev nD → Valuation τ sig (Elt F) := fun c => StableHlo.after hostOps12 (W26 m c)
/-- After the host stretch hostOps12_1. -/
abbrev W28 : Dev nD → Valuation τ sig (Elt F) := fun c => StableHlo.after hostOps12_1 (W27 m c)
/-- After the host stretch hostOps12_2. -/
abbrev W29 : Dev nD → Valuation τ sig (Elt F) := fun c => StableHlo.after hostOps12_2 (W28 m c)
/-- Region 12's entry contents read at the TensorCore's references. -/
abbrev E29 : (c : Dev nD) → (b : Ref sig .tc) → Buf (Elt F) ((c : Thread nD τ).loc b) := fun c b => W29 m c b
/-- What region 12 leaves in main_v243: its write-backs folded over the grid. -/
def O12_0 (c : Dev nD) : Buf (Elt F) ((c : Thread nD τ).loc main_v243) := (dat12 (E29 m) c).arrAt 3 cfg12.N
/-- After region 12: its outputs at what it leaves, every other buffer as before. -/
def W30 (c : Dev nD) : Valuation τ sig (Elt F) := Function.update (W29 m c) main_v243 (O12_0 m c)
/-- After the host stretch hostOps13. -/
abbrev W31 : Dev nD → Valuation τ sig (Elt F) := fun c => StableHlo.after hostOps13 (W30 m c)
/-- Region 13's entry contents read at the TensorCore's references. -/
abbrev E31 : (c : Dev nD) → (b : Ref sig .tc) → Buf (Elt F) ((c : Thread nD τ).loc b) := fun c b => W31 m c b
/-- What region 13 leaves in main_v264_0: its write-backs folded over the grid. -/
def O13_0 (c : Dev nD) : Buf (Elt F) ((c : Thread nD τ).loc main_v264_0) := (dat13 (E31 m) c).arrAt 3 cfg13.N
/-- What region 13 leaves in main_v264_1: its write-backs folded over the grid. -/
def O13_1 (c : Dev nD) : Buf (Elt F) ((c : Thread nD τ).loc main_v264_1) := (dat13 (E31 m) c).arrAt 4 cfg13.N
/-- What region 13 leaves in main_v264_2: its write-backs folded over the grid. -/
def O13_2 (c : Dev nD) : Buf (Elt F) ((c : Thread nD τ).loc main_v264_2) := (dat13 (E31 m) c).arrAt 5 cfg13.N
/-- After region 13: its outputs at what it leaves, every other buffer as before. -/
def W32 (c : Dev nD) : Valuation τ sig (Elt F) := Function.update (Function.update (Function.update (W31 m c) main_v264_0 (O13_0 m c)) main_v264_1 (O13_1 m c)) main_v264_2 (O13_2 m c)
/-- After the host stretch hostOps14. -/
abbrev W33 : Dev nD → Valuation τ sig (Elt F) := fun c => StableHlo.after hostOps14 (W32 m c)
/-- Region 14's entry contents read at the TensorCore's references. -/
abbrev E33 : (c : Dev nD) → (b : Ref sig .tc) → Buf (Elt F) ((c : Thread nD τ).loc b) := fun c b => W33 m c b
/-- What region 14 leaves in main_v273: its write-backs folded over the grid. -/
def O14_0 (c : Dev nD) : Buf (Elt F) ((c : Thread nD τ).loc main_v273) := (dat14 (E33 m) c).arrAt 5 cfg14.N
/-- After region 14: its outputs at what it leaves, every other buffer as before. -/
def W34 (c : Dev nD) : Valuation τ sig (Elt F) := Function.update (W33 m c) main_v273 (O14_0 m c)
/-- After the host stretch hostOps15. -/
abbrev W35 : Dev nD → Valuation τ sig (Elt F) := fun c => StableHlo.after hostOps15 (W34 m c)
/-- Region 15's entry contents read at the TensorCore's references. -/
abbrev E35 : (c : Dev nD) → (b : Ref sig .tc) → Buf (Elt F) ((c : Thread nD τ).loc b) := fun c b => W35 m c b
/-- What region 15 leaves in main_v279: its write-backs folded over the grid. -/
def O15_0 (c : Dev nD) : Buf (Elt F) ((c : Thread nD τ).loc main_v279) := (dat15 (E35 m) c).arrAt 3 cfg15.N
/-- After region 15: its outputs at what it leaves, every other buffer as before. -/
def W36 (c : Dev nD) : Valuation τ sig (Elt F) := Function.update (W35 m c) main_v279 (O15_0 m c)
/-- After the host stretch hostOps16. -/
abbrev W37 : Dev nD → Valuation τ sig (Elt F) := fun c => StableHlo.after hostOps16 (W36 m c)
/-- Region 16's entry contents read at the TensorCore's references. -/
abbrev E37 : (c : Dev nD) → (b : Ref sig .tc) → Buf (Elt F) ((c : Thread nD τ).loc b) := fun c b => W37 m c b
/-- What region 16 leaves in main_v300_0: its write-backs folded over the grid. -/
def O16_0 (c : Dev nD) : Buf (Elt F) ((c : Thread nD τ).loc main_v300_0) := (dat16 (E37 m) c).arrAt 3 cfg16.N
/-- What region 16 leaves in main_v300_1: its write-backs folded over the grid. -/
def O16_1 (c : Dev nD) : Buf (Elt F) ((c : Thread nD τ).loc main_v300_1) := (dat16 (E37 m) c).arrAt 4 cfg16.N
/-- What region 16 leaves in main_v300_2: its write-backs folded over the grid. -/
def O16_2 (c : Dev nD) : Buf (Elt F) ((c : Thread nD τ).loc main_v300_2) := (dat16 (E37 m) c).arrAt 5 cfg16.N
/-- After region 16: its outputs at what it leaves, every other buffer as before. -/
def W38 (c : Dev nD) : Valuation τ sig (Elt F) := Function.update (Function.update (Function.update (W37 m c) main_v300_0 (O16_0 m c)) main_v300_1 (O16_1 m c)) main_v300_2 (O16_2 m c)
/-- After the host stretch hostOps17. -/
abbrev W39 : Dev nD → Valuation τ sig (Elt F) := fun c => StableHlo.after hostOps17 (W38 m c)
/-- Region 17's entry contents read at the TensorCore's references. -/
abbrev E39 : (c : Dev nD) → (b : Ref sig .tc) → Buf (Elt F) ((c : Thread nD τ).loc b) := fun c b => W39 m c b
/-- What region 17 leaves in main_v309: its write-backs folded over the grid. -/
def O17_0 (c : Dev nD) : Buf (Elt F) ((c : Thread nD τ).loc main_v309) := (dat17 (E39 m) c).arrAt 5 cfg17.N
/-- After region 17: its outputs at what it leaves, every other buffer as before. -/
def W40 (c : Dev nD) : Valuation τ sig (Elt F) := Function.update (W39 m c) main_v309 (O17_0 m c)
/-- After the host stretch hostOps18. -/
abbrev W41 : Dev nD → Valuation τ sig (Elt F) := fun c => StableHlo.after hostOps18 (W40 m c)
/-- After the host stretch hostOps18_1. -/
abbrev W42 : Dev nD → Valuation τ sig (Elt F) := fun c => StableHlo.after hostOps18_1 (W41 m c)
/-- After the host stretch hostOps18_2. -/
abbrev W43 : Dev nD → Valuation τ sig (Elt F) := fun c => StableHlo.after hostOps18_2 (W42 m c)

/-! ## What the regions leave, as one family over the references -/

/-- The contents a region leaves in each of its output arrays (any other reference: its launch contents, never read). -/
def outs : GenP.Outs (F := F) := fun _ r c =>
  if h : r = main_v31 then h ▸ O0_0 m c
  else if h : r = main_v52_0 then h ▸ O1_0 m c
  else if h : r = main_v52_1 then h ▸ O1_1 m c
  else if h : r = main_v52_2 then h ▸ O1_2 m c
  else if h : r = main_v61 then h ▸ O2_0 m c
  else if h : r = main_v67 then h ▸ O3_0 m c
  else if h : r = main_v88_0 then h ▸ O4_0 m c
  else if h : r = main_v88_1 then h ▸ O4_1 m c
  else if h : r = main_v88_2 then h ▸ O4_2 m c
  else if h : r = main_v97 then h ▸ O5_0 m c
  else if h : r = main_v137 then h ▸ O6_0 m c
  else if h : r = main_v158_0 then h ▸ O7_0 m c
  else if h : r = main_v158_1 then h ▸ O7_1 m c
  else if h : r = main_v158_2 then h ▸ O7_2 m c
  else if h : r = main_v167 then h ▸ O8_0 m c
  else if h : r = main_v173 then h ▸ O9_0 m c
  else if h : r = main_v194_0 then h ▸ O10_0 m c
  else if h : r = main_v194_1 then h ▸ O10_1 m c
  else if h : r = main_v194_2 then h ▸ O10_2 m c
  else if h : r = main_v203 then h ▸ O11_0 m c
  else if h : r = main_v243 then h ▸ O12_0 m c
  else if h : r = main_v264_0 then h ▸ O13_0 m c
  else if h : r = main_v264_1 then h ▸ O13_1 m c
  else if h : r = main_v264_2 then h ▸ O13_2 m c
  else if h : r = main_v273 then h ▸ O14_0 m c
  else if h : r = main_v279 then h ▸ O15_0 m c
  else if h : r = main_v300_0 then h ▸ O16_0 m c
  else if h : r = main_v300_1 then h ▸ O16_1 m c
  else if h : r = main_v300_2 then h ▸ O16_2 m c
  else if h : r = main_v309 then h ▸ O17_0 m c
  else W0 m c r

theorem outs_main_v31 (J : ℕ) (c : Dev nD) : outs m J main_v31 c = O0_0 m c := by
  unfold outs; rw [dif_pos rfl]
theorem outs_main_v52_0 (J : ℕ) (c : Dev nD) : outs m J main_v52_0 c = O1_0 m c := by
  unfold outs; rw [dif_neg (by decide : ¬ main_v52_0 = main_v31), dif_pos rfl]
theorem outs_main_v52_1 (J : ℕ) (c : Dev nD) : outs m J main_v52_1 c = O1_1 m c := by
  unfold outs; rw [dif_neg (by decide : ¬ main_v52_1 = main_v31), dif_neg (by decide : ¬ main_v52_1 = main_v52_0), dif_pos rfl]
theorem outs_main_v52_2 (J : ℕ) (c : Dev nD) : outs m J main_v52_2 c = O1_2 m c := by
  unfold outs; rw [dif_neg (by decide : ¬ main_v52_2 = main_v31), dif_neg (by decide : ¬ main_v52_2 = main_v52_0), dif_neg (by decide : ¬ main_v52_2 = main_v52_1), dif_pos rfl]
theorem outs_main_v61 (J : ℕ) (c : Dev nD) : outs m J main_v61 c = O2_0 m c := by
  unfold outs; rw [dif_neg (by decide : ¬ main_v61 = main_v31), dif_neg (by decide : ¬ main_v61 = main_v52_0), dif_neg (by decide : ¬ main_v61 = main_v52_1), dif_neg (by decide : ¬ main_v61 = main_v52_2), dif_pos rfl]
theorem outs_main_v67 (J : ℕ) (c : Dev nD) : outs m J main_v67 c = O3_0 m c := by
  unfold outs; rw [dif_neg (by decide : ¬ main_v67 = main_v31), dif_neg (by decide : ¬ main_v67 = main_v52_0), dif_neg (by decide : ¬ main_v67 = main_v52_1), dif_neg (by decide : ¬ main_v67 = main_v52_2), dif_neg (by decide : ¬ main_v67 = main_v61), dif_pos rfl]
theorem outs_main_v88_0 (J : ℕ) (c : Dev nD) : outs m J main_v88_0 c = O4_0 m c := by
  unfold outs; rw [dif_neg (by decide : ¬ main_v88_0 = main_v31), dif_neg (by decide : ¬ main_v88_0 = main_v52_0), dif_neg (by decide : ¬ main_v88_0 = main_v52_1), dif_neg (by decide : ¬ main_v88_0 = main_v52_2), dif_neg (by decide : ¬ main_v88_0 = main_v61), dif_neg (by decide : ¬ main_v88_0 = main_v67), dif_pos rfl]
theorem outs_main_v88_1 (J : ℕ) (c : Dev nD) : outs m J main_v88_1 c = O4_1 m c := by
  unfold outs; rw [dif_neg (by decide : ¬ main_v88_1 = main_v31), dif_neg (by decide : ¬ main_v88_1 = main_v52_0), dif_neg (by decide : ¬ main_v88_1 = main_v52_1), dif_neg (by decide : ¬ main_v88_1 = main_v52_2), dif_neg (by decide : ¬ main_v88_1 = main_v61), dif_neg (by decide : ¬ main_v88_1 = main_v67), dif_neg (by decide : ¬ main_v88_1 = main_v88_0), dif_pos rfl]
theorem outs_main_v88_2 (J : ℕ) (c : Dev nD) : outs m J main_v88_2 c = O4_2 m c := by
  unfold outs; rw [dif_neg (by decide : ¬ main_v88_2 = main_v31), dif_neg (by decide : ¬ main_v88_2 = main_v52_0), dif_neg (by decide : ¬ main_v88_2 = main_v52_1), dif_neg (by decide : ¬ main_v88_2 = main_v52_2), dif_neg (by decide : ¬ main_v88_2 = main_v61), dif_neg (by decide : ¬ main_v88_2 = main_v67), dif_neg (by decide : ¬ main_v88_2 = main_v88_0), dif_neg (by decide : ¬ main_v88_2 = main_v88_1), dif_pos rfl]
theorem outs_main_v97 (J : ℕ) (c : Dev nD) : outs m J main_v97 c = O5_0 m c := by
  unfold outs; rw [dif_neg (by decide : ¬ main_v97 = main_v31), dif_neg (by decide : ¬ main_v97 = main_v52_0), dif_neg (by decide : ¬ main_v97 = main_v52_1), dif_neg (by decide : ¬ main_v97 = main_v52_2), dif_neg (by decide : ¬ main_v97 = main_v61), dif_neg (by decide : ¬ main_v97 = main_v67), dif_neg (by decide : ¬ main_v97 = main_v88_0), dif_neg (by decide : ¬ main_v97 = main_v88_1), dif_neg (by decide : ¬ main_v97 = main_v88_2), dif_pos rfl]
theorem outs_main_v137 (J : ℕ) (c : Dev nD) : outs m J main_v137 c = O6_0 m c := by
  unfold outs; rw [dif_neg (by decide : ¬ main_v137 = main_v31), dif_neg (by decide : ¬ main_v137 = main_v52_0), dif_neg (by decide : ¬ main_v137 = main_v52_1), dif_neg (by decide : ¬ main_v137 = main_v52_2), dif_neg (by decide : ¬ main_v137 = main_v61), dif_neg (by decide : ¬ main_v137 = main_v67), dif_neg (by decide : ¬ main_v137 = main_v88_0), dif_neg (by decide : ¬ main_v137 = main_v88_1), dif_neg (by decide : ¬ main_v137 = main_v88_2), dif_neg (by decide : ¬ main_v137 = main_v97), dif_pos rfl]
theorem outs_main_v158_0 (J : ℕ) (c : Dev nD) : outs m J main_v158_0 c = O7_0 m c := by
  unfold outs; rw [dif_neg (by decide : ¬ main_v158_0 = main_v31), dif_neg (by decide : ¬ main_v158_0 = main_v52_0), dif_neg (by decide : ¬ main_v158_0 = main_v52_1), dif_neg (by decide : ¬ main_v158_0 = main_v52_2), dif_neg (by decide : ¬ main_v158_0 = main_v61), dif_neg (by decide : ¬ main_v158_0 = main_v67), dif_neg (by decide : ¬ main_v158_0 = main_v88_0), dif_neg (by decide : ¬ main_v158_0 = main_v88_1), dif_neg (by decide : ¬ main_v158_0 = main_v88_2), dif_neg (by decide : ¬ main_v158_0 = main_v97), dif_neg (by decide : ¬ main_v158_0 = main_v137), dif_pos rfl]
theorem outs_main_v158_1 (J : ℕ) (c : Dev nD) : outs m J main_v158_1 c = O7_1 m c := by
  unfold outs; rw [dif_neg (by decide : ¬ main_v158_1 = main_v31), dif_neg (by decide : ¬ main_v158_1 = main_v52_0), dif_neg (by decide : ¬ main_v158_1 = main_v52_1), dif_neg (by decide : ¬ main_v158_1 = main_v52_2), dif_neg (by decide : ¬ main_v158_1 = main_v61), dif_neg (by decide : ¬ main_v158_1 = main_v67), dif_neg (by decide : ¬ main_v158_1 = main_v88_0), dif_neg (by decide : ¬ main_v158_1 = main_v88_1), dif_neg (by decide : ¬ main_v158_1 = main_v88_2), dif_neg (by decide : ¬ main_v158_1 = main_v97), dif_neg (by decide : ¬ main_v158_1 = main_v137), dif_neg (by decide : ¬ main_v158_1 = main_v158_0), dif_pos rfl]
theorem outs_main_v158_2 (J : ℕ) (c : Dev nD) : outs m J main_v158_2 c = O7_2 m c := by
  unfold outs; rw [dif_neg (by decide : ¬ main_v158_2 = main_v31), dif_neg (by decide : ¬ main_v158_2 = main_v52_0), dif_neg (by decide : ¬ main_v158_2 = main_v52_1), dif_neg (by decide : ¬ main_v158_2 = main_v52_2), dif_neg (by decide : ¬ main_v158_2 = main_v61), dif_neg (by decide : ¬ main_v158_2 = main_v67), dif_neg (by decide : ¬ main_v158_2 = main_v88_0), dif_neg (by decide : ¬ main_v158_2 = main_v88_1), dif_neg (by decide : ¬ main_v158_2 = main_v88_2), dif_neg (by decide : ¬ main_v158_2 = main_v97), dif_neg (by decide : ¬ main_v158_2 = main_v137), dif_neg (by decide : ¬ main_v158_2 = main_v158_0), dif_neg (by decide : ¬ main_v158_2 = main_v158_1), dif_pos rfl]
theorem outs_main_v167 (J : ℕ) (c : Dev nD) : outs m J main_v167 c = O8_0 m c := by
  unfold outs; rw [dif_neg (by decide : ¬ main_v167 = main_v31), dif_neg (by decide : ¬ main_v167 = main_v52_0), dif_neg (by decide : ¬ main_v167 = main_v52_1), dif_neg (by decide : ¬ main_v167 = main_v52_2), dif_neg (by decide : ¬ main_v167 = main_v61), dif_neg (by decide : ¬ main_v167 = main_v67), dif_neg (by decide : ¬ main_v167 = main_v88_0), dif_neg (by decide : ¬ main_v167 = main_v88_1), dif_neg (by decide : ¬ main_v167 = main_v88_2), dif_neg (by decide : ¬ main_v167 = main_v97), dif_neg (by decide : ¬ main_v167 = main_v137), dif_neg (by decide : ¬ main_v167 = main_v158_0), dif_neg (by decide : ¬ main_v167 = main_v158_1), dif_neg (by decide : ¬ main_v167 = main_v158_2), dif_pos rfl]
theorem outs_main_v173 (J : ℕ) (c : Dev nD) : outs m J main_v173 c = O9_0 m c := by
  unfold outs; rw [dif_neg (by decide : ¬ main_v173 = main_v31), dif_neg (by decide : ¬ main_v173 = main_v52_0), dif_neg (by decide : ¬ main_v173 = main_v52_1), dif_neg (by decide : ¬ main_v173 = main_v52_2), dif_neg (by decide : ¬ main_v173 = main_v61), dif_neg (by decide : ¬ main_v173 = main_v67), dif_neg (by decide : ¬ main_v173 = main_v88_0), dif_neg (by decide : ¬ main_v173 = main_v88_1), dif_neg (by decide : ¬ main_v173 = main_v88_2), dif_neg (by decide : ¬ main_v173 = main_v97), dif_neg (by decide : ¬ main_v173 = main_v137), dif_neg (by decide : ¬ main_v173 = main_v158_0), dif_neg (by decide : ¬ main_v173 = main_v158_1), dif_neg (by decide : ¬ main_v173 = main_v158_2), dif_neg (by decide : ¬ main_v173 = main_v167), dif_pos rfl]
theorem outs_main_v194_0 (J : ℕ) (c : Dev nD) : outs m J main_v194_0 c = O10_0 m c := by
  unfold outs; rw [dif_neg (by decide : ¬ main_v194_0 = main_v31), dif_neg (by decide : ¬ main_v194_0 = main_v52_0), dif_neg (by decide : ¬ main_v194_0 = main_v52_1), dif_neg (by decide : ¬ main_v194_0 = main_v52_2), dif_neg (by decide : ¬ main_v194_0 = main_v61), dif_neg (by decide : ¬ main_v194_0 = main_v67), dif_neg (by decide : ¬ main_v194_0 = main_v88_0), dif_neg (by decide : ¬ main_v194_0 = main_v88_1), dif_neg (by decide : ¬ main_v194_0 = main_v88_2), dif_neg (by decide : ¬ main_v194_0 = main_v97), dif_neg (by decide : ¬ main_v194_0 = main_v137), dif_neg (by decide : ¬ main_v194_0 = main_v158_0), dif_neg (by decide : ¬ main_v194_0 = main_v158_1), dif_neg (by decide : ¬ main_v194_0 = main_v158_2), dif_neg (by decide : ¬ main_v194_0 = main_v167), dif_neg (by decide : ¬ main_v194_0 = main_v173), dif_pos rfl]
theorem outs_main_v194_1 (J : ℕ) (c : Dev nD) : outs m J main_v194_1 c = O10_1 m c := by
  unfold outs; rw [dif_neg (by decide : ¬ main_v194_1 = main_v31), dif_neg (by decide : ¬ main_v194_1 = main_v52_0), dif_neg (by decide : ¬ main_v194_1 = main_v52_1), dif_neg (by decide : ¬ main_v194_1 = main_v52_2), dif_neg (by decide : ¬ main_v194_1 = main_v61), dif_neg (by decide : ¬ main_v194_1 = main_v67), dif_neg (by decide : ¬ main_v194_1 = main_v88_0), dif_neg (by decide : ¬ main_v194_1 = main_v88_1), dif_neg (by decide : ¬ main_v194_1 = main_v88_2), dif_neg (by decide : ¬ main_v194_1 = main_v97), dif_neg (by decide : ¬ main_v194_1 = main_v137), dif_neg (by decide : ¬ main_v194_1 = main_v158_0), dif_neg (by decide : ¬ main_v194_1 = main_v158_1), dif_neg (by decide : ¬ main_v194_1 = main_v158_2), dif_neg (by decide : ¬ main_v194_1 = main_v167), dif_neg (by decide : ¬ main_v194_1 = main_v173), dif_neg (by decide : ¬ main_v194_1 = main_v194_0), dif_pos rfl]
theorem outs_main_v194_2 (J : ℕ) (c : Dev nD) : outs m J main_v194_2 c = O10_2 m c := by
  unfold outs; rw [dif_neg (by decide : ¬ main_v194_2 = main_v31), dif_neg (by decide : ¬ main_v194_2 = main_v52_0), dif_neg (by decide : ¬ main_v194_2 = main_v52_1), dif_neg (by decide : ¬ main_v194_2 = main_v52_2), dif_neg (by decide : ¬ main_v194_2 = main_v61), dif_neg (by decide : ¬ main_v194_2 = main_v67), dif_neg (by decide : ¬ main_v194_2 = main_v88_0), dif_neg (by decide : ¬ main_v194_2 = main_v88_1), dif_neg (by decide : ¬ main_v194_2 = main_v88_2), dif_neg (by decide : ¬ main_v194_2 = main_v97), dif_neg (by decide : ¬ main_v194_2 = main_v137), dif_neg (by decide : ¬ main_v194_2 = main_v158_0), dif_neg (by decide : ¬ main_v194_2 = main_v158_1), dif_neg (by decide : ¬ main_v194_2 = main_v158_2), dif_neg (by decide : ¬ main_v194_2 = main_v167), dif_neg (by decide : ¬ main_v194_2 = main_v173), dif_neg (by decide : ¬ main_v194_2 = main_v194_0), dif_neg (by decide : ¬ main_v194_2 = main_v194_1), dif_pos rfl]
theorem outs_main_v203 (J : ℕ) (c : Dev nD) : outs m J main_v203 c = O11_0 m c := by
  unfold outs; rw [dif_neg (by decide : ¬ main_v203 = main_v31), dif_neg (by decide : ¬ main_v203 = main_v52_0), dif_neg (by decide : ¬ main_v203 = main_v52_1), dif_neg (by decide : ¬ main_v203 = main_v52_2), dif_neg (by decide : ¬ main_v203 = main_v61), dif_neg (by decide : ¬ main_v203 = main_v67), dif_neg (by decide : ¬ main_v203 = main_v88_0), dif_neg (by decide : ¬ main_v203 = main_v88_1), dif_neg (by decide : ¬ main_v203 = main_v88_2), dif_neg (by decide : ¬ main_v203 = main_v97), dif_neg (by decide : ¬ main_v203 = main_v137), dif_neg (by decide : ¬ main_v203 = main_v158_0), dif_neg (by decide : ¬ main_v203 = main_v158_1), dif_neg (by decide : ¬ main_v203 = main_v158_2), dif_neg (by decide : ¬ main_v203 = main_v167), dif_neg (by decide : ¬ main_v203 = main_v173), dif_neg (by decide : ¬ main_v203 = main_v194_0), dif_neg (by decide : ¬ main_v203 = main_v194_1), dif_neg (by decide : ¬ main_v203 = main_v194_2), dif_pos rfl]
theorem outs_main_v243 (J : ℕ) (c : Dev nD) : outs m J main_v243 c = O12_0 m c := by
  unfold outs; rw [dif_neg (by decide : ¬ main_v243 = main_v31), dif_neg (by decide : ¬ main_v243 = main_v52_0), dif_neg (by decide : ¬ main_v243 = main_v52_1), dif_neg (by decide : ¬ main_v243 = main_v52_2), dif_neg (by decide : ¬ main_v243 = main_v61), dif_neg (by decide : ¬ main_v243 = main_v67), dif_neg (by decide : ¬ main_v243 = main_v88_0), dif_neg (by decide : ¬ main_v243 = main_v88_1), dif_neg (by decide : ¬ main_v243 = main_v88_2), dif_neg (by decide : ¬ main_v243 = main_v97), dif_neg (by decide : ¬ main_v243 = main_v137), dif_neg (by decide : ¬ main_v243 = main_v158_0), dif_neg (by decide : ¬ main_v243 = main_v158_1), dif_neg (by decide : ¬ main_v243 = main_v158_2), dif_neg (by decide : ¬ main_v243 = main_v167), dif_neg (by decide : ¬ main_v243 = main_v173), dif_neg (by decide : ¬ main_v243 = main_v194_0), dif_neg (by decide : ¬ main_v243 = main_v194_1), dif_neg (by decide : ¬ main_v243 = main_v194_2), dif_neg (by decide : ¬ main_v243 = main_v203), dif_pos rfl]
theorem outs_main_v264_0 (J : ℕ) (c : Dev nD) : outs m J main_v264_0 c = O13_0 m c := by
  unfold outs; rw [dif_neg (by decide : ¬ main_v264_0 = main_v31), dif_neg (by decide : ¬ main_v264_0 = main_v52_0), dif_neg (by decide : ¬ main_v264_0 = main_v52_1), dif_neg (by decide : ¬ main_v264_0 = main_v52_2), dif_neg (by decide : ¬ main_v264_0 = main_v61), dif_neg (by decide : ¬ main_v264_0 = main_v67), dif_neg (by decide : ¬ main_v264_0 = main_v88_0), dif_neg (by decide : ¬ main_v264_0 = main_v88_1), dif_neg (by decide : ¬ main_v264_0 = main_v88_2), dif_neg (by decide : ¬ main_v264_0 = main_v97), dif_neg (by decide : ¬ main_v264_0 = main_v137), dif_neg (by decide : ¬ main_v264_0 = main_v158_0), dif_neg (by decide : ¬ main_v264_0 = main_v158_1), dif_neg (by decide : ¬ main_v264_0 = main_v158_2), dif_neg (by decide : ¬ main_v264_0 = main_v167), dif_neg (by decide : ¬ main_v264_0 = main_v173), dif_neg (by decide : ¬ main_v264_0 = main_v194_0), dif_neg (by decide : ¬ main_v264_0 = main_v194_1), dif_neg (by decide : ¬ main_v264_0 = main_v194_2), dif_neg (by decide : ¬ main_v264_0 = main_v203), dif_neg (by decide : ¬ main_v264_0 = main_v243), dif_pos rfl]
theorem outs_main_v264_1 (J : ℕ) (c : Dev nD) : outs m J main_v264_1 c = O13_1 m c := by
  unfold outs; rw [dif_neg (by decide : ¬ main_v264_1 = main_v31), dif_neg (by decide : ¬ main_v264_1 = main_v52_0), dif_neg (by decide : ¬ main_v264_1 = main_v52_1), dif_neg (by decide : ¬ main_v264_1 = main_v52_2), dif_neg (by decide : ¬ main_v264_1 = main_v61), dif_neg (by decide : ¬ main_v264_1 = main_v67), dif_neg (by decide : ¬ main_v264_1 = main_v88_0), dif_neg (by decide : ¬ main_v264_1 = main_v88_1), dif_neg (by decide : ¬ main_v264_1 = main_v88_2), dif_neg (by decide : ¬ main_v264_1 = main_v97), dif_neg (by decide : ¬ main_v264_1 = main_v137), dif_neg (by decide : ¬ main_v264_1 = main_v158_0), dif_neg (by decide : ¬ main_v264_1 = main_v158_1), dif_neg (by decide : ¬ main_v264_1 = main_v158_2), dif_neg (by decide : ¬ main_v264_1 = main_v167), dif_neg (by decide : ¬ main_v264_1 = main_v173), dif_neg (by decide : ¬ main_v264_1 = main_v194_0), dif_neg (by decide : ¬ main_v264_1 = main_v194_1), dif_neg (by decide : ¬ main_v264_1 = main_v194_2), dif_neg (by decide : ¬ main_v264_1 = main_v203), dif_neg (by decide : ¬ main_v264_1 = main_v243), dif_neg (by decide : ¬ main_v264_1 = main_v264_0), dif_pos rfl]
theorem outs_main_v264_2 (J : ℕ) (c : Dev nD) : outs m J main_v264_2 c = O13_2 m c := by
  unfold outs; rw [dif_neg (by decide : ¬ main_v264_2 = main_v31), dif_neg (by decide : ¬ main_v264_2 = main_v52_0), dif_neg (by decide : ¬ main_v264_2 = main_v52_1), dif_neg (by decide : ¬ main_v264_2 = main_v52_2), dif_neg (by decide : ¬ main_v264_2 = main_v61), dif_neg (by decide : ¬ main_v264_2 = main_v67), dif_neg (by decide : ¬ main_v264_2 = main_v88_0), dif_neg (by decide : ¬ main_v264_2 = main_v88_1), dif_neg (by decide : ¬ main_v264_2 = main_v88_2), dif_neg (by decide : ¬ main_v264_2 = main_v97), dif_neg (by decide : ¬ main_v264_2 = main_v137), dif_neg (by decide : ¬ main_v264_2 = main_v158_0), dif_neg (by decide : ¬ main_v264_2 = main_v158_1), dif_neg (by decide : ¬ main_v264_2 = main_v158_2), dif_neg (by decide : ¬ main_v264_2 = main_v167), dif_neg (by decide : ¬ main_v264_2 = main_v173), dif_neg (by decide : ¬ main_v264_2 = main_v194_0), dif_neg (by decide : ¬ main_v264_2 = main_v194_1), dif_neg (by decide : ¬ main_v264_2 = main_v194_2), dif_neg (by decide : ¬ main_v264_2 = main_v203), dif_neg (by decide : ¬ main_v264_2 = main_v243), dif_neg (by decide : ¬ main_v264_2 = main_v264_0), dif_neg (by decide : ¬ main_v264_2 = main_v264_1), dif_pos rfl]
theorem outs_main_v273 (J : ℕ) (c : Dev nD) : outs m J main_v273 c = O14_0 m c := by
  unfold outs; rw [dif_neg (by decide : ¬ main_v273 = main_v31), dif_neg (by decide : ¬ main_v273 = main_v52_0), dif_neg (by decide : ¬ main_v273 = main_v52_1), dif_neg (by decide : ¬ main_v273 = main_v52_2), dif_neg (by decide : ¬ main_v273 = main_v61), dif_neg (by decide : ¬ main_v273 = main_v67), dif_neg (by decide : ¬ main_v273 = main_v88_0), dif_neg (by decide : ¬ main_v273 = main_v88_1), dif_neg (by decide : ¬ main_v273 = main_v88_2), dif_neg (by decide : ¬ main_v273 = main_v97), dif_neg (by decide : ¬ main_v273 = main_v137), dif_neg (by decide : ¬ main_v273 = main_v158_0), dif_neg (by decide : ¬ main_v273 = main_v158_1), dif_neg (by decide : ¬ main_v273 = main_v158_2), dif_neg (by decide : ¬ main_v273 = main_v167), dif_neg (by decide : ¬ main_v273 = main_v173), dif_neg (by decide : ¬ main_v273 = main_v194_0), dif_neg (by decide : ¬ main_v273 = main_v194_1), dif_neg (by decide : ¬ main_v273 = main_v194_2), dif_neg (by decide : ¬ main_v273 = main_v203), dif_neg (by decide : ¬ main_v273 = main_v243), dif_neg (by decide : ¬ main_v273 = main_v264_0), dif_neg (by decide : ¬ main_v273 = main_v264_1), dif_neg (by decide : ¬ main_v273 = main_v264_2), dif_pos rfl]
theorem outs_main_v279 (J : ℕ) (c : Dev nD) : outs m J main_v279 c = O15_0 m c := by
  unfold outs; rw [dif_neg (by decide : ¬ main_v279 = main_v31), dif_neg (by decide : ¬ main_v279 = main_v52_0), dif_neg (by decide : ¬ main_v279 = main_v52_1), dif_neg (by decide : ¬ main_v279 = main_v52_2), dif_neg (by decide : ¬ main_v279 = main_v61), dif_neg (by decide : ¬ main_v279 = main_v67), dif_neg (by decide : ¬ main_v279 = main_v88_0), dif_neg (by decide : ¬ main_v279 = main_v88_1), dif_neg (by decide : ¬ main_v279 = main_v88_2), dif_neg (by decide : ¬ main_v279 = main_v97), dif_neg (by decide : ¬ main_v279 = main_v137), dif_neg (by decide : ¬ main_v279 = main_v158_0), dif_neg (by decide : ¬ main_v279 = main_v158_1), dif_neg (by decide : ¬ main_v279 = main_v158_2), dif_neg (by decide : ¬ main_v279 = main_v167), dif_neg (by decide : ¬ main_v279 = main_v173), dif_neg (by decide : ¬ main_v279 = main_v194_0), dif_neg (by decide : ¬ main_v279 = main_v194_1), dif_neg (by decide : ¬ main_v279 = main_v194_2), dif_neg (by decide : ¬ main_v279 = main_v203), dif_neg (by decide : ¬ main_v279 = main_v243), dif_neg (by decide : ¬ main_v279 = main_v264_0), dif_neg (by decide : ¬ main_v279 = main_v264_1), dif_neg (by decide : ¬ main_v279 = main_v264_2), dif_neg (by decide : ¬ main_v279 = main_v273), dif_pos rfl]
theorem outs_main_v300_0 (J : ℕ) (c : Dev nD) : outs m J main_v300_0 c = O16_0 m c := by
  unfold outs; rw [dif_neg (by decide : ¬ main_v300_0 = main_v31), dif_neg (by decide : ¬ main_v300_0 = main_v52_0), dif_neg (by decide : ¬ main_v300_0 = main_v52_1), dif_neg (by decide : ¬ main_v300_0 = main_v52_2), dif_neg (by decide : ¬ main_v300_0 = main_v61), dif_neg (by decide : ¬ main_v300_0 = main_v67), dif_neg (by decide : ¬ main_v300_0 = main_v88_0), dif_neg (by decide : ¬ main_v300_0 = main_v88_1), dif_neg (by decide : ¬ main_v300_0 = main_v88_2), dif_neg (by decide : ¬ main_v300_0 = main_v97), dif_neg (by decide : ¬ main_v300_0 = main_v137), dif_neg (by decide : ¬ main_v300_0 = main_v158_0), dif_neg (by decide : ¬ main_v300_0 = main_v158_1), dif_neg (by decide : ¬ main_v300_0 = main_v158_2), dif_neg (by decide : ¬ main_v300_0 = main_v167), dif_neg (by decide : ¬ main_v300_0 = main_v173), dif_neg (by decide : ¬ main_v300_0 = main_v194_0), dif_neg (by decide : ¬ main_v300_0 = main_v194_1), dif_neg (by decide : ¬ main_v300_0 = main_v194_2), dif_neg (by decide : ¬ main_v300_0 = main_v203), dif_neg (by decide : ¬ main_v300_0 = main_v243), dif_neg (by decide : ¬ main_v300_0 = main_v264_0), dif_neg (by decide : ¬ main_v300_0 = main_v264_1), dif_neg (by decide : ¬ main_v300_0 = main_v264_2), dif_neg (by decide : ¬ main_v300_0 = main_v273), dif_neg (by decide : ¬ main_v300_0 = main_v279), dif_pos rfl]
theorem outs_main_v300_1 (J : ℕ) (c : Dev nD) : outs m J main_v300_1 c = O16_1 m c := by
  unfold outs; rw [dif_neg (by decide : ¬ main_v300_1 = main_v31), dif_neg (by decide : ¬ main_v300_1 = main_v52_0), dif_neg (by decide : ¬ main_v300_1 = main_v52_1), dif_neg (by decide : ¬ main_v300_1 = main_v52_2), dif_neg (by decide : ¬ main_v300_1 = main_v61), dif_neg (by decide : ¬ main_v300_1 = main_v67), dif_neg (by decide : ¬ main_v300_1 = main_v88_0), dif_neg (by decide : ¬ main_v300_1 = main_v88_1), dif_neg (by decide : ¬ main_v300_1 = main_v88_2), dif_neg (by decide : ¬ main_v300_1 = main_v97), dif_neg (by decide : ¬ main_v300_1 = main_v137), dif_neg (by decide : ¬ main_v300_1 = main_v158_0), dif_neg (by decide : ¬ main_v300_1 = main_v158_1), dif_neg (by decide : ¬ main_v300_1 = main_v158_2), dif_neg (by decide : ¬ main_v300_1 = main_v167), dif_neg (by decide : ¬ main_v300_1 = main_v173), dif_neg (by decide : ¬ main_v300_1 = main_v194_0), dif_neg (by decide : ¬ main_v300_1 = main_v194_1), dif_neg (by decide : ¬ main_v300_1 = main_v194_2), dif_neg (by decide : ¬ main_v300_1 = main_v203), dif_neg (by decide : ¬ main_v300_1 = main_v243), dif_neg (by decide : ¬ main_v300_1 = main_v264_0), dif_neg (by decide : ¬ main_v300_1 = main_v264_1), dif_neg (by decide : ¬ main_v300_1 = main_v264_2), dif_neg (by decide : ¬ main_v300_1 = main_v273), dif_neg (by decide : ¬ main_v300_1 = main_v279), dif_neg (by decide : ¬ main_v300_1 = main_v300_0), dif_pos rfl]
theorem outs_main_v300_2 (J : ℕ) (c : Dev nD) : outs m J main_v300_2 c = O16_2 m c := by
  unfold outs; rw [dif_neg (by decide : ¬ main_v300_2 = main_v31), dif_neg (by decide : ¬ main_v300_2 = main_v52_0), dif_neg (by decide : ¬ main_v300_2 = main_v52_1), dif_neg (by decide : ¬ main_v300_2 = main_v52_2), dif_neg (by decide : ¬ main_v300_2 = main_v61), dif_neg (by decide : ¬ main_v300_2 = main_v67), dif_neg (by decide : ¬ main_v300_2 = main_v88_0), dif_neg (by decide : ¬ main_v300_2 = main_v88_1), dif_neg (by decide : ¬ main_v300_2 = main_v88_2), dif_neg (by decide : ¬ main_v300_2 = main_v97), dif_neg (by decide : ¬ main_v300_2 = main_v137), dif_neg (by decide : ¬ main_v300_2 = main_v158_0), dif_neg (by decide : ¬ main_v300_2 = main_v158_1), dif_neg (by decide : ¬ main_v300_2 = main_v158_2), dif_neg (by decide : ¬ main_v300_2 = main_v167), dif_neg (by decide : ¬ main_v300_2 = main_v173), dif_neg (by decide : ¬ main_v300_2 = main_v194_0), dif_neg (by decide : ¬ main_v300_2 = main_v194_1), dif_neg (by decide : ¬ main_v300_2 = main_v194_2), dif_neg (by decide : ¬ main_v300_2 = main_v203), dif_neg (by decide : ¬ main_v300_2 = main_v243), dif_neg (by decide : ¬ main_v300_2 = main_v264_0), dif_neg (by decide : ¬ main_v300_2 = main_v264_1), dif_neg (by decide : ¬ main_v300_2 = main_v264_2), dif_neg (by decide : ¬ main_v300_2 = main_v273), dif_neg (by decide : ¬ main_v300_2 = main_v279), dif_neg (by decide : ¬ main_v300_2 = main_v300_0), dif_neg (by decide : ¬ main_v300_2 = main_v300_1), dif_pos rfl]
theorem outs_main_v309 (J : ℕ) (c : Dev nD) : outs m J main_v309 c = O17_0 m c := by
  unfold outs; rw [dif_neg (by decide : ¬ main_v309 = main_v31), dif_neg (by decide : ¬ main_v309 = main_v52_0), dif_neg (by decide : ¬ main_v309 = main_v52_1), dif_neg (by decide : ¬ main_v309 = main_v52_2), dif_neg (by decide : ¬ main_v309 = main_v61), dif_neg (by decide : ¬ main_v309 = main_v67), dif_neg (by decide : ¬ main_v309 = main_v88_0), dif_neg (by decide : ¬ main_v309 = main_v88_1), dif_neg (by decide : ¬ main_v309 = main_v88_2), dif_neg (by decide : ¬ main_v309 = main_v97), dif_neg (by decide : ¬ main_v309 = main_v137), dif_neg (by decide : ¬ main_v309 = main_v158_0), dif_neg (by decide : ¬ main_v309 = main_v158_1), dif_neg (by decide : ¬ main_v309 = main_v158_2), dif_neg (by decide : ¬ main_v309 = main_v167), dif_neg (by decide : ¬ main_v309 = main_v173), dif_neg (by decide : ¬ main_v309 = main_v194_0), dif_neg (by decide : ¬ main_v309 = main_v194_1), dif_neg (by decide : ¬ main_v309 = main_v194_2), dif_neg (by decide : ¬ main_v309 = main_v203), dif_neg (by decide : ¬ main_v309 = main_v243), dif_neg (by decide : ¬ main_v309 = main_v264_0), dif_neg (by decide : ¬ main_v309 = main_v264_1), dif_neg (by decide : ¬ main_v309 = main_v264_2), dif_neg (by decide : ¬ main_v309 = main_v273), dif_neg (by decide : ¬ main_v309 = main_v279), dif_neg (by decide : ¬ main_v309 = main_v300_0), dif_neg (by decide : ¬ main_v309 = main_v300_1), dif_neg (by decide : ¬ main_v309 = main_v300_2), dif_pos rfl]

/-! ## The valuations of the conditional frame are these -/

theorem hV0 (c : Dev nD) : GenP.V0 m c = W0 m c := rfl
theorem hV1 (c : Dev nD) : GenP.V1 m c = W1 m c := by
  show StableHlo.after hostOps0 (GenP.V0 m c) = StableHlo.after hostOps0 (W0 m c)
  rw [hV0 m c]
theorem hV2 (c : Dev nD) : GenP.V2 m (outs m) c = W2 m c := by
  show Function.update (GenP.V1 m c) main_v31 (outs m 2 main_v31 c) = _
  rw [hV1 m c, outs_main_v31 m 2 c]
  rfl
theorem hV3 (c : Dev nD) : GenP.V3 m (outs m) c = W3 m c := by
  show StableHlo.after hostOps1 (GenP.V2 m (outs m) c) = StableHlo.after hostOps1 (W2 m c)
  rw [hV2 m c]
theorem hV4 (c : Dev nD) : GenP.V4 m (outs m) c = W4 m c := by
  show Function.update (Function.update (Function.update (GenP.V3 m (outs m) c) main_v52_0 (outs m 4 main_v52_0 c)) main_v52_1 (outs m 4 main_v52_1 c)) main_v52_2 (outs m 4 main_v52_2 c) = _
  rw [hV3 m c, outs_main_v52_0 m 4 c, outs_main_v52_1 m 4 c, outs_main_v52_2 m 4 c]
  rfl
theorem hV5 (c : Dev nD) : GenP.V5 m (outs m) c = W5 m c := by
  show StableHlo.after hostOps2 (GenP.V4 m (outs m) c) = StableHlo.after hostOps2 (W4 m c)
  rw [hV4 m c]
theorem hV6 (c : Dev nD) : GenP.V6 m (outs m) c = W6 m c := by
  show Function.update (GenP.V5 m (outs m) c) main_v61 (outs m 6 main_v61 c) = _
  rw [hV5 m c, outs_main_v61 m 6 c]
  rfl
theorem hV7 (c : Dev nD) : GenP.V7 m (outs m) c = W7 m c := by
  show StableHlo.after hostOps3 (GenP.V6 m (outs m) c) = StableHlo.after hostOps3 (W6 m c)
  rw [hV6 m c]
theorem hV8 (c : Dev nD) : GenP.V8 m (outs m) c = W8 m c := by
  show Function.update (GenP.V7 m (outs m) c) main_v67 (outs m 8 main_v67 c) = _
  rw [hV7 m c, outs_main_v67 m 8 c]
  rfl
theorem hV9 (c : Dev nD) : GenP.V9 m (outs m) c = W9 m c := by
  show StableHlo.after hostOps4 (GenP.V8 m (outs m) c) = StableHlo.after hostOps4 (W8 m c)
  rw [hV8 m c]
theorem hV10 (c : Dev nD) : GenP.V10 m (outs m) c = W10 m c := by
  show Function.update (Function.update (Function.update (GenP.V9 m (outs m) c) main_v88_0 (outs m 10 main_v88_0 c)) main_v88_1 (outs m 10 main_v88_1 c)) main_v88_2 (outs m 10 main_v88_2 c) = _
  rw [hV9 m c, outs_main_v88_0 m 10 c, outs_main_v88_1 m 10 c, outs_main_v88_2 m 10 c]
  rfl
theorem hV11 (c : Dev nD) : GenP.V11 m (outs m) c = W11 m c := by
  show StableHlo.after hostOps5 (GenP.V10 m (outs m) c) = StableHlo.after hostOps5 (W10 m c)
  rw [hV10 m c]
theorem hV12 (c : Dev nD) : GenP.V12 m (outs m) c = W12 m c := by
  show Function.update (GenP.V11 m (outs m) c) main_v97 (outs m 12 main_v97 c) = _
  rw [hV11 m c, outs_main_v97 m 12 c]
  rfl
theorem hV13 (c : Dev nD) : GenP.V13 m (outs m) c = W13 m c := by
  show StableHlo.after hostOps6 (GenP.V12 m (outs m) c) = StableHlo.after hostOps6 (W12 m c)
  rw [hV12 m c]
theorem hV14 (c : Dev nD) : GenP.V14 m (outs m) c = W14 m c := by
  show StableHlo.after hostOps6_1 (GenP.V13 m (outs m) c) = StableHlo.after hostOps6_1 (W13 m c)
  rw [hV13 m c]
theorem hV15 (c : Dev nD) : GenP.V15 m (outs m) c = W15 m c := by
  show StableHlo.after hostOps6_2 (GenP.V14 m (outs m) c) = StableHlo.after hostOps6_2 (W14 m c)
  rw [hV14 m c]
theorem hV16 (c : Dev nD) : GenP.V16 m (outs m) c = W16 m c := by
  show Function.update (GenP.V15 m (outs m) c) main_v137 (outs m 16 main_v137 c) = _
  rw [hV15 m c, outs_main_v137 m 16 c]
  rfl
theorem hV17 (c : Dev nD) : GenP.V17 m (outs m) c = W17 m c := by
  show StableHlo.after hostOps7 (GenP.V16 m (outs m) c) = StableHlo.after hostOps7 (W16 m c)
  rw [hV16 m c]
theorem hV18 (c : Dev nD) : GenP.V18 m (outs m) c = W18 m c := by
  show Function.update (Function.update (Function.update (GenP.V17 m (outs m) c) main_v158_0 (outs m 18 main_v158_0 c)) main_v158_1 (outs m 18 main_v158_1 c)) main_v158_2 (outs m 18 main_v158_2 c) = _
  rw [hV17 m c, outs_main_v158_0 m 18 c, outs_main_v158_1 m 18 c, outs_main_v158_2 m 18 c]
  rfl
theorem hV19 (c : Dev nD) : GenP.V19 m (outs m) c = W19 m c := by
  show StableHlo.after hostOps8 (GenP.V18 m (outs m) c) = StableHlo.after hostOps8 (W18 m c)
  rw [hV18 m c]
theorem hV20 (c : Dev nD) : GenP.V20 m (outs m) c = W20 m c := by
  show Function.update (GenP.V19 m (outs m) c) main_v167 (outs m 20 main_v167 c) = _
  rw [hV19 m c, outs_main_v167 m 20 c]
  rfl
theorem hV21 (c : Dev nD) : GenP.V21 m (outs m) c = W21 m c := by
  show StableHlo.after hostOps9 (GenP.V20 m (outs m) c) = StableHlo.after hostOps9 (W20 m c)
  rw [hV20 m c]
theorem hV22 (c : Dev nD) : GenP.V22 m (outs m) c = W22 m c := by
  show Function.update (GenP.V21 m (outs m) c) main_v173 (outs m 22 main_v173 c) = _
  rw [hV21 m c, outs_main_v173 m 22 c]
  rfl
theorem hV23 (c : Dev nD) : GenP.V23 m (outs m) c = W23 m c := by
  show StableHlo.after hostOps10 (GenP.V22 m (outs m) c) = StableHlo.after hostOps10 (W22 m c)
  rw [hV22 m c]
theorem hV24 (c : Dev nD) : GenP.V24 m (outs m) c = W24 m c := by
  show Function.update (Function.update (Function.update (GenP.V23 m (outs m) c) main_v194_0 (outs m 24 main_v194_0 c)) main_v194_1 (outs m 24 main_v194_1 c)) main_v194_2 (outs m 24 main_v194_2 c) = _
  rw [hV23 m c, outs_main_v194_0 m 24 c, outs_main_v194_1 m 24 c, outs_main_v194_2 m 24 c]
  rfl
theorem hV25 (c : Dev nD) : GenP.V25 m (outs m) c = W25 m c := by
  show StableHlo.after hostOps11 (GenP.V24 m (outs m) c) = StableHlo.after hostOps11 (W24 m c)
  rw [hV24 m c]
theorem hV26 (c : Dev nD) : GenP.V26 m (outs m) c = W26 m c := by
  show Function.update (GenP.V25 m (outs m) c) main_v203 (outs m 26 main_v203 c) = _
  rw [hV25 m c, outs_main_v203 m 26 c]
  rfl
theorem hV27 (c : Dev nD) : GenP.V27 m (outs m) c = W27 m c := by
  show StableHlo.after hostOps12 (GenP.V26 m (outs m) c) = StableHlo.after hostOps12 (W26 m c)
  rw [hV26 m c]
theorem hV28 (c : Dev nD) : GenP.V28 m (outs m) c = W28 m c := by
  show StableHlo.after hostOps12_1 (GenP.V27 m (outs m) c) = StableHlo.after hostOps12_1 (W27 m c)
  rw [hV27 m c]
theorem hV29 (c : Dev nD) : GenP.V29 m (outs m) c = W29 m c := by
  show StableHlo.after hostOps12_2 (GenP.V28 m (outs m) c) = StableHlo.after hostOps12_2 (W28 m c)
  rw [hV28 m c]
theorem hV30 (c : Dev nD) : GenP.V30 m (outs m) c = W30 m c := by
  show Function.update (GenP.V29 m (outs m) c) main_v243 (outs m 30 main_v243 c) = _
  rw [hV29 m c, outs_main_v243 m 30 c]
  rfl
theorem hV31 (c : Dev nD) : GenP.V31 m (outs m) c = W31 m c := by
  show StableHlo.after hostOps13 (GenP.V30 m (outs m) c) = StableHlo.after hostOps13 (W30 m c)
  rw [hV30 m c]
theorem hV32 (c : Dev nD) : GenP.V32 m (outs m) c = W32 m c := by
  show Function.update (Function.update (Function.update (GenP.V31 m (outs m) c) main_v264_0 (outs m 32 main_v264_0 c)) main_v264_1 (outs m 32 main_v264_1 c)) main_v264_2 (outs m 32 main_v264_2 c) = _
  rw [hV31 m c, outs_main_v264_0 m 32 c, outs_main_v264_1 m 32 c, outs_main_v264_2 m 32 c]
  rfl
theorem hV33 (c : Dev nD) : GenP.V33 m (outs m) c = W33 m c := by
  show StableHlo.after hostOps14 (GenP.V32 m (outs m) c) = StableHlo.after hostOps14 (W32 m c)
  rw [hV32 m c]
theorem hV34 (c : Dev nD) : GenP.V34 m (outs m) c = W34 m c := by
  show Function.update (GenP.V33 m (outs m) c) main_v273 (outs m 34 main_v273 c) = _
  rw [hV33 m c, outs_main_v273 m 34 c]
  rfl
theorem hV35 (c : Dev nD) : GenP.V35 m (outs m) c = W35 m c := by
  show StableHlo.after hostOps15 (GenP.V34 m (outs m) c) = StableHlo.after hostOps15 (W34 m c)
  rw [hV34 m c]
theorem hV36 (c : Dev nD) : GenP.V36 m (outs m) c = W36 m c := by
  show Function.update (GenP.V35 m (outs m) c) main_v279 (outs m 36 main_v279 c) = _
  rw [hV35 m c, outs_main_v279 m 36 c]
  rfl
theorem hV37 (c : Dev nD) : GenP.V37 m (outs m) c = W37 m c := by
  show StableHlo.after hostOps16 (GenP.V36 m (outs m) c) = StableHlo.after hostOps16 (W36 m c)
  rw [hV36 m c]
theorem hV38 (c : Dev nD) : GenP.V38 m (outs m) c = W38 m c := by
  show Function.update (Function.update (Function.update (GenP.V37 m (outs m) c) main_v300_0 (outs m 38 main_v300_0 c)) main_v300_1 (outs m 38 main_v300_1 c)) main_v300_2 (outs m 38 main_v300_2 c) = _
  rw [hV37 m c, outs_main_v300_0 m 38 c, outs_main_v300_1 m 38 c, outs_main_v300_2 m 38 c]
  rfl
theorem hV39 (c : Dev nD) : GenP.V39 m (outs m) c = W39 m c := by
  show StableHlo.after hostOps17 (GenP.V38 m (outs m) c) = StableHlo.after hostOps17 (W38 m c)
  rw [hV38 m c]
theorem hV40 (c : Dev nD) : GenP.V40 m (outs m) c = W40 m c := by
  show Function.update (GenP.V39 m (outs m) c) main_v309 (outs m 40 main_v309 c) = _
  rw [hV39 m c, outs_main_v309 m 40 c]
  rfl
theorem hV41 (c : Dev nD) : GenP.V41 m (outs m) c = W41 m c := by
  show StableHlo.after hostOps18 (GenP.V40 m (outs m) c) = StableHlo.after hostOps18 (W40 m c)
  rw [hV40 m c]
theorem hV42 (c : Dev nD) : GenP.V42 m (outs m) c = W42 m c := by
  show StableHlo.after hostOps18_1 (GenP.V41 m (outs m) c) = StableHlo.after hostOps18_1 (W41 m c)
  rw [hV41 m c]
theorem hV43 (c : Dev nD) : GenP.V43 m (outs m) c = W43 m c := by
  show StableHlo.after hostOps18_2 (GenP.V42 m (outs m) c) = StableHlo.after hostOps18_2 (W42 m c)
  rw [hV42 m c]

/-! ## The proof data family and the segments -/

/-- Every pipeline's proof data, each at its region's entry contents: a literal match on the pipeline. -/
def pdats : (p : Fin 18) → (c : Dev nD) → Dat τ (Elt F) Unit ℕ (UR sig nD τ) ℕ (cfgs p) c
  | ⟨0, _⟩ => fun c => dat0 (E1 m) c
  | ⟨1, _⟩ => fun c => dat1 (E3 m) c
  | ⟨2, _⟩ => fun c => dat2 (E5 m) c
  | ⟨3, _⟩ => fun c => dat3 (E7 m) c
  | ⟨4, _⟩ => fun c => dat4 (E9 m) c
  | ⟨5, _⟩ => fun c => dat5 (E11 m) c
  | ⟨6, _⟩ => fun c => dat6 (E15 m) c
  | ⟨7, _⟩ => fun c => dat7 (E17 m) c
  | ⟨8, _⟩ => fun c => dat8 (E19 m) c
  | ⟨9, _⟩ => fun c => dat9 (E21 m) c
  | ⟨10, _⟩ => fun c => dat10 (E23 m) c
  | ⟨11, _⟩ => fun c => dat11 (E25 m) c
  | ⟨12, _⟩ => fun c => dat12 (E29 m) c
  | ⟨13, _⟩ => fun c => dat13 (E31 m) c
  | ⟨14, _⟩ => fun c => dat14 (E33 m) c
  | ⟨15, _⟩ => fun c => dat15 (E35 m) c
  | ⟨16, _⟩ => fun c => dat16 (E37 m) c
  | ⟨17, _⟩ => fun c => dat17 (E39 m) c
  | ⟨n + 18, h⟩ => absurd h (by omega)

abbrev Lz : GSem nD τ sig → Finset Unit := fun _ => ∅
abbrev lvz : GSem nD τ sig → Unit → ℕ := fun _ _ => 0

end Cert.Kernel.Body

end
-- ==== Proof.KFrameSeg0.lean ====
/-
  The frame of the program: it runs to the end, faults nowhere, and leaves its thirteen argument arrays as launched.

  The program is 43 items in a row: stretches of host operations and 18 pipelined regions. Between two items a core
  holds every unscoped buffer at a known valuation. The valuations are defined one after the other from the launch
  memory: after a stretch, the stretch's fold over the valuation before it; after a region, the valuation before it
  with the region's output arrays set to what its write-backs leave (read off the region's proof data at the last
  point). A host operation writes a buffer of its own and a region writes its outputs only, so no item touches an
  argument array. Each region is one segment entered at the valuation before it and left at the one after it
  (Proof/LibClassARegion.lean), from its body obligation (Proof/KRegion0.lean to KRegion17.lean); the conditional frame over
  the segments (Proof/RegionsKernel.lean) then gives the claim.
-/
import proofs.«140713_j1864015806535_2_alg».proof.Proof.KFrameBase

set_option maxRecDepth 65536

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
set_option backward.isDefEq.respectTransparency.types false in
/-- Region 0 as a segment: entered at the valuation before it, left at the one after it. -/
def reg0 : Pipeline.RegionSeg (pcfgs (F := F)) GenP.adm (pdats m) () defs₀ Variants.none Lz lvz 0 :=
  Cert.LibClassARegion.region (pcfgs (F := F)) GenP.adm (pdats m) defs₀ Variants.none Lz lvz 0
    launch0.win.to₀ launch0.win launch0.block_pos launch0.stage_whole launch0.arr_whole
    (fun c => body_obligation0 (E1 m) c) (fun _ _ => rfl) (fun _ _ => rfl)
    (fun c => (pdats m 0 c).share_full fun _ => rfl) (fun _ => rfl) (fun _ => rfl)
    (fun c => by unfold Pipeline.prefHeld; rw [show (Finset.univ : Finset (Fin 0)) = ∅ from rfl, BI.bigSep_empty])
    (GenP.V1 m) (GenP.V2 m (outs m))
    (fun c w => by rw [hV1 m c]; exact A_eq0 (E1 m) c w)
    (fun c w => by
      match w with
      | ⟨0, _⟩ =>
        show (dat0 (E1 m) c).arrAt 0 cfg0.N = GenP.V2 m (outs m) c main_arg0
        rw [GenP.V2_of m (outs m) c main_arg0 (by decide), hV1 m c]
        exact ((dat0 (E1 m) c).arrAt_in 0 rfl _).trans (A_eq0 (E1 m) c 0)
      | ⟨1, _⟩ =>
        show (dat0 (E1 m) c).arrAt 1 cfg0.N = GenP.V2 m (outs m) c main_v27
        rw [GenP.V2_of m (outs m) c main_v27 (by decide), hV1 m c]
        exact ((dat0 (E1 m) c).arrAt_in 1 rfl _).trans (A_eq0 (E1 m) c 1)
      | ⟨2, _⟩ =>
        show (dat0 (E1 m) c).arrAt 2 cfg0.N = GenP.V2 m (outs m) c main_v30
        rw [GenP.V2_of m (outs m) c main_v30 (by decide), hV1 m c]
        exact ((dat0 (E1 m) c).arrAt_in 2 rfl _).trans (A_eq0 (E1 m) c 2)
      | ⟨3, _⟩ =>
        show (dat0 (E1 m) c).arrAt 3 cfg0.N = GenP.V2 m (outs m) c main_v31
        rw [hV2 m c]; unfold W2
        simp only [Function.update_self]
        rfl
    )
    (fun c b hb => GenP.V2_of m (outs m) c b (by
      intro h
      simp only [List.mem_cons, List.mem_singleton, List.not_mem_nil, or_false] at h
      exact hb (h ▸ Finset.mem_image.mpr ⟨3, Finset.mem_univ _, rfl⟩)))

end Cert.Kernel.Body

end
-- ==== Proof.KFrameSeg1.lean ====
/-
  The frame of the program: it runs to the end, faults nowhere, and leaves its thirteen argument arrays as launched.

  The program is 43 items in a row: stretches of host operations and 18 pipelined regions. Between two items a core
  holds every unscoped buffer at a known valuation. The valuations are defined one after the other from the launch
  memory: after a stretch, the stretch's fold over the valuation before it; after a region, the valuation before it
  with the region's output arrays set to what its write-backs leave (read off the region's proof data at the last
  point). A host operation writes a buffer of its own and a region writes its outputs only, so no item touches an
  argument array. Each region is one segment entered at the valuation before it and left at the one after it
  (Proof/LibClassARegion.lean), from its body obligation (Proof/KRegion0.lean to KRegion17.lean); the conditional frame over
  the segments (Proof/RegionsKernel.lean) then gives the claim.
-/
import proofs.«140713_j1864015806535_2_alg».proof.Proof.KFrameBase

set_option maxRecDepth 65536

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
set_option backward.isDefEq.respectTransparency.types false in
/-- Region 1 as a segment: entered at the valuation before it, left at the one after it. -/
def reg1 : Pipeline.RegionSeg (pcfgs (F := F)) GenP.adm (pdats m) () defs₀ Variants.none Lz lvz 1 :=
  Cert.LibClassARegion.region (pcfgs (F := F)) GenP.adm (pdats m) defs₀ Variants.none Lz lvz 1
    launch1.win.to₀ launch1.win launch1.block_pos launch1.stage_whole launch1.arr_whole
    (fun c => body_obligation1 (E3 m) c) (fun _ _ => rfl) (fun _ _ => rfl)
    (fun c => (pdats m 1 c).share_full fun _ => rfl) (fun _ => rfl) (fun _ => rfl)
    (fun c => by unfold Pipeline.prefHeld; rw [show (Finset.univ : Finset (Fin 0)) = ∅ from rfl, BI.bigSep_empty])
    (GenP.V3 m (outs m)) (GenP.V4 m (outs m))
    (fun c w => by rw [hV3 m c]; exact A_eq1 (E3 m) c w)
    (fun c w => by
      match w with
      | ⟨0, _⟩ =>
        show (dat1 (E3 m) c).arrAt 0 cfg1.N = GenP.V4 m (outs m) c main_v31
        rw [GenP.V4_of m (outs m) c main_v31 (by decide), hV3 m c]
        exact ((dat1 (E3 m) c).arrAt_in 0 rfl _).trans (A_eq1 (E3 m) c 0)
      | ⟨1, _⟩ =>
        show (dat1 (E3 m) c).arrAt 1 cfg1.N = GenP.V4 m (outs m) c main_v44
        rw [GenP.V4_of m (outs m) c main_v44 (by decide), hV3 m c]
        exact ((dat1 (E3 m) c).arrAt_in 1 rfl _).trans (A_eq1 (E3 m) c 1)
      | ⟨2, _⟩ =>
        show (dat1 (E3 m) c).arrAt 2 cfg1.N = GenP.V4 m (outs m) c main_v51
        rw [GenP.V4_of m (outs m) c main_v51 (by decide), hV3 m c]
        exact ((dat1 (E3 m) c).arrAt_in 2 rfl _).trans (A_eq1 (E3 m) c 2)
      | ⟨3, _⟩ =>
        show (dat1 (E3 m) c).arrAt 3 cfg1.N = GenP.V4 m (outs m) c main_v52_0
        rw [hV4 m c]; unfold W4
        simp only [Function.update_self, Function.update_of_ne (StableHlo.devRef_ne_of_ne (by decide : main_v52_0 ≠ main_v52_2) : (Proc.devRef .tc main_v52_0 : DevRef τ sig) ≠ Proc.devRef .tc main_v52_2), Function.update_of_ne (StableHlo.devRef_ne_of_ne (by decide : main_v52_0 ≠ main_v52_1) : (Proc.devRef .tc main_v52_0 : DevRef τ sig) ≠ Proc.devRef .tc main_v52_1)]
        rfl
      | ⟨4, _⟩ =>
        show (dat1 (E3 m) c).arrAt 4 cfg1.N = GenP.V4 m (outs m) c main_v52_1
        rw [hV4 m c]; unfold W4
        simp only [Function.update_self, Function.update_of_ne (StableHlo.devRef_ne_of_ne (by decide : main_v52_1 ≠ main_v52_2) : (Proc.devRef .tc main_v52_1 : DevRef τ sig) ≠ Proc.devRef .tc main_v52_2)]
        rfl
      | ⟨5, _⟩ =>
        show (dat1 (E3 m) c).arrAt 5 cfg1.N = GenP.V4 m (outs m) c main_v52_2
        rw [hV4 m c]; unfold W4
        simp only [Function.update_self]
        rfl
    )
    (fun c b hb => GenP.V4_of m (outs m) c b (by
      intro h
      simp only [List.mem_cons, List.mem_singleton, List.not_mem_nil, or_false] at h
      rcases h with h | h | h
      · exact hb (h ▸ Finset.mem_image.mpr ⟨3, Finset.mem_univ _, rfl⟩)
      · exact hb (h ▸ Finset.mem_image.mpr ⟨4, Finset.mem_univ _, rfl⟩)
      · exact hb (h ▸ Finset.mem_image.mpr ⟨5, Finset.mem_univ _, rfl⟩)))

end Cert.Kernel.Body

end
-- ==== Proof.KFrameSeg2.lean ====
/-
  The frame of the program: it runs to the end, faults nowhere, and leaves its thirteen argument arrays as launched.

  The program is 43 items in a row: stretches of host operations and 18 pipelined regions. Between two items a core
  holds every unscoped buffer at a known valuation. The valuations are defined one after the other from the launch
  memory: after a stretch, the stretch's fold over the valuation before it; after a region, the valuation before it
  with the region's output arrays set to what its write-backs leave (read off the region's proof data at the last
  point). A host operation writes a buffer of its own and a region writes its outputs only, so no item touches an
  argument array. Each region is one segment entered at the valuation before it and left at the one after it
  (Proof/LibClassARegion.lean), from its body obligation (Proof/KRegion0.lean to KRegion17.lean); the conditional frame over
  the segments (Proof/RegionsKernel.lean) then gives the claim.
-/
import proofs.«140713_j1864015806535_2_alg».proof.Proof.KFrameBase

set_option maxRecDepth 65536

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
set_option backward.isDefEq.respectTransparency.types false in
/-- Region 2 as a segment: entered at the valuation before it, left at the one after it. -/
def reg2 : Pipeline.RegionSeg (pcfgs (F := F)) GenP.adm (pdats m) () defs₀ Variants.none Lz lvz 2 :=
  Cert.LibClassARegion.region (pcfgs (F := F)) GenP.adm (pdats m) defs₀ Variants.none Lz lvz 2
    launch2.win.to₀ launch2.win launch2.block_pos launch2.stage_whole launch2.arr_whole
    (fun c => body_obligation2 (E5 m) c) (fun _ _ => rfl) (fun _ _ => rfl)
    (fun c => (pdats m 2 c).share_full fun _ => rfl) (fun _ => rfl) (fun _ => rfl)
    (fun c => by unfold Pipeline.prefHeld; rw [show (Finset.univ : Finset (Fin 0)) = ∅ from rfl, BI.bigSep_empty])
    (GenP.V5 m (outs m)) (GenP.V6 m (outs m))
    (fun c w => by rw [hV5 m c]; exact A_eq2 (E5 m) c w)
    (fun c w => by
      match w with
      | ⟨0, _⟩ =>
        show (dat2 (E5 m) c).arrAt 0 cfg2.N = GenP.V6 m (outs m) c main_v52_0
        rw [GenP.V6_of m (outs m) c main_v52_0 (by decide), hV5 m c]
        exact ((dat2 (E5 m) c).arrAt_in 0 rfl _).trans (A_eq2 (E5 m) c 0)
      | ⟨1, _⟩ =>
        show (dat2 (E5 m) c).arrAt 1 cfg2.N = GenP.V6 m (outs m) c main_v54
        rw [GenP.V6_of m (outs m) c main_v54 (by decide), hV5 m c]
        exact ((dat2 (E5 m) c).arrAt_in 1 rfl _).trans (A_eq2 (E5 m) c 1)
      | ⟨2, _⟩ =>
        show (dat2 (E5 m) c).arrAt 2 cfg2.N = GenP.V6 m (outs m) c main_v58
        rw [GenP.V6_of m (outs m) c main_v58 (by decide), hV5 m c]
        exact ((dat2 (E5 m) c).arrAt_in 2 rfl _).trans (A_eq2 (E5 m) c 2)
      | ⟨3, _⟩ =>
        show (dat2 (E5 m) c).arrAt 3 cfg2.N = GenP.V6 m (outs m) c main_v59
        rw [GenP.V6_of m (outs m) c main_v59 (by decide), hV5 m c]
        exact ((dat2 (E5 m) c).arrAt_in 3 rfl _).trans (A_eq2 (E5 m) c 3)
      | ⟨4, _⟩ =>
        show (dat2 (E5 m) c).arrAt 4 cfg2.N = GenP.V6 m (outs m) c main_v60
        rw [GenP.V6_of m (outs m) c main_v60 (by decide), hV5 m c]
        exact ((dat2 (E5 m) c).arrAt_in 4 rfl _).trans (A_eq2 (E5 m) c 4)
      | ⟨5, _⟩ =>
        show (dat2 (E5 m) c).arrAt 5 cfg2.N = GenP.V6 m (outs m) c main_v61
        rw [hV6 m c]; unfold W6
        simp only [Function.update_self]
        rfl
    )
    (fun c b hb => GenP.V6_of m (outs m) c b (by
      intro h
      simp only [List.mem_cons, List.mem_singleton, List.not_mem_nil, or_false] at h
      exact hb (h ▸ Finset.mem_image.mpr ⟨5, Finset.mem_univ _, rfl⟩)))

end Cert.Kernel.Body

end
-- ==== Proof.KFrameSeg3.lean ====
/-
  The frame of the program: it runs to the end, faults nowhere, and leaves its thirteen argument arrays as launched.

  The program is 43 items in a row: stretches of host operations and 18 pipelined regions. Between two items a core
  holds every unscoped buffer at a known valuation. The valuations are defined one after the other from the launch
  memory: after a stretch, the stretch's fold over the valuation before it; after a region, the valuation before it
  with the region's output arrays set to what its write-backs leave (read off the region's proof data at the last
  point). A host operation writes a buffer of its own and a region writes its outputs only, so no item touches an
  argument array. Each region is one segment entered at the valuation before it and left at the one after it
  (Proof/LibClassARegion.lean), from its body obligation (Proof/KRegion0.lean to KRegion17.lean); the conditional frame over
  the segments (Proof/RegionsKernel.lean) then gives the claim.
-/
import proofs.«140713_j1864015806535_2_alg».proof.Proof.KFrameBase

set_option maxRecDepth 65536

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
set_option backward.isDefEq.respectTransparency.types false in
/-- Region 3 as a segment: entered at the valuation before it, left at the one after it. -/
def reg3 : Pipeline.RegionSeg (pcfgs (F := F)) GenP.adm (pdats m) () defs₀ Variants.none Lz lvz 3 :=
  Cert.LibClassARegion.region (pcfgs (F := F)) GenP.adm (pdats m) defs₀ Variants.none Lz lvz 3
    launch3.win.to₀ launch3.win launch3.block_pos launch3.stage_whole launch3.arr_whole
    (fun c => body_obligation3 (E7 m) c) (fun _ _ => rfl) (fun _ _ => rfl)
    (fun c => (pdats m 3 c).share_full fun _ => rfl) (fun _ => rfl) (fun _ => rfl)
    (fun c => by unfold Pipeline.prefHeld; rw [show (Finset.univ : Finset (Fin 0)) = ∅ from rfl, BI.bigSep_empty])
    (GenP.V7 m (outs m)) (GenP.V8 m (outs m))
    (fun c w => by rw [hV7 m c]; exact A_eq3 (E7 m) c w)
    (fun c w => by
      match w with
      | ⟨0, _⟩ =>
        show (dat3 (E7 m) c).arrAt 0 cfg3.N = GenP.V8 m (outs m) c main_v61
        rw [GenP.V8_of m (outs m) c main_v61 (by decide), hV7 m c]
        exact ((dat3 (E7 m) c).arrAt_in 0 rfl _).trans (A_eq3 (E7 m) c 0)
      | ⟨1, _⟩ =>
        show (dat3 (E7 m) c).arrAt 1 cfg3.N = GenP.V8 m (outs m) c main_v63
        rw [GenP.V8_of m (outs m) c main_v63 (by decide), hV7 m c]
        exact ((dat3 (E7 m) c).arrAt_in 1 rfl _).trans (A_eq3 (E7 m) c 1)
      | ⟨2, _⟩ =>
        show (dat3 (E7 m) c).arrAt 2 cfg3.N = GenP.V8 m (outs m) c main_v66
        rw [GenP.V8_of m (outs m) c main_v66 (by decide), hV7 m c]
        exact ((dat3 (E7 m) c).arrAt_in 2 rfl _).trans (A_eq3 (E7 m) c 2)
      | ⟨3, _⟩ =>
        show (dat3 (E7 m) c).arrAt 3 cfg3.N = GenP.V8 m (outs m) c main_v67
        rw [hV8 m c]; unfold W8
        simp only [Function.update_self]
        rfl
    )
    (fun c b hb => GenP.V8_of m (outs m) c b (by
      intro h
      simp only [List.mem_cons, List.mem_singleton, List.not_mem_nil, or_false] at h
      exact hb (h ▸ Finset.mem_image.mpr ⟨3, Finset.mem_univ _, rfl⟩)))

end Cert.Kernel.Body

end
-- ==== Proof.KFrameSeg4.lean ====
/-
  The frame of the program: it runs to the end, faults nowhere, and leaves its thirteen argument arrays as launched.

  The program is 43 items in a row: stretches of host operations and 18 pipelined regions. Between two items a core
  holds every unscoped buffer at a known valuation. The valuations are defined one after the other from the launch
  memory: after a stretch, the stretch's fold over the valuation before it; after a region, the valuation before it
  with the region's output arrays set to what its write-backs leave (read off the region's proof data at the last
  point). A host operation writes a buffer of its own and a region writes its outputs only, so no item touches an
  argument array. Each region is one segment entered at the valuation before it and left at the one after it
  (Proof/LibClassARegion.lean), from its body obligation (Proof/KRegion0.lean to KRegion17.lean); the conditional frame over
  the segments (Proof/RegionsKernel.lean) then gives the claim.
-/
import proofs.«140713_j1864015806535_2_alg».proof.Proof.KFrameBase

set_option maxRecDepth 65536

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
set_option backward.isDefEq.respectTransparency.types false in
/-- Region 4 as a segment: entered at the valuation before it, left at the one after it. -/
def reg4 : Pipeline.RegionSeg (pcfgs (F := F)) GenP.adm (pdats m) () defs₀ Variants.none Lz lvz 4 :=
  Cert.LibClassARegion.region (pcfgs (F := F)) GenP.adm (pdats m) defs₀ Variants.none Lz lvz 4
    launch4.win.to₀ launch4.win launch4.block_pos launch4.stage_whole launch4.arr_whole
    (fun c => body_obligation4 (E9 m) c) (fun _ _ => rfl) (fun _ _ => rfl)
    (fun c => (pdats m 4 c).share_full fun _ => rfl) (fun _ => rfl) (fun _ => rfl)
    (fun c => by unfold Pipeline.prefHeld; rw [show (Finset.univ : Finset (Fin 0)) = ∅ from rfl, BI.bigSep_empty])
    (GenP.V9 m (outs m)) (GenP.V10 m (outs m))
    (fun c w => by rw [hV9 m c]; exact A_eq4 (E9 m) c w)
    (fun c w => by
      match w with
      | ⟨0, _⟩ =>
        show (dat4 (E9 m) c).arrAt 0 cfg4.N = GenP.V10 m (outs m) c main_v67
        rw [GenP.V10_of m (outs m) c main_v67 (by decide), hV9 m c]
        exact ((dat4 (E9 m) c).arrAt_in 0 rfl _).trans (A_eq4 (E9 m) c 0)
      | ⟨1, _⟩ =>
        show (dat4 (E9 m) c).arrAt 1 cfg4.N = GenP.V10 m (outs m) c main_v80
        rw [GenP.V10_of m (outs m) c main_v80 (by decide), hV9 m c]
        exact ((dat4 (E9 m) c).arrAt_in 1 rfl _).trans (A_eq4 (E9 m) c 1)
      | ⟨2, _⟩ =>
        show (dat4 (E9 m) c).arrAt 2 cfg4.N = GenP.V10 m (outs m) c main_v87
        rw [GenP.V10_of m (outs m) c main_v87 (by decide), hV9 m c]
        exact ((dat4 (E9 m) c).arrAt_in 2 rfl _).trans (A_eq4 (E9 m) c 2)
      | ⟨3, _⟩ =>
        show (dat4 (E9 m) c).arrAt 3 cfg4.N = GenP.V10 m (outs m) c main_v88_0
        rw [hV10 m c]; unfold W10
        simp only [Function.update_self, Function.update_of_ne (StableHlo.devRef_ne_of_ne (by decide : main_v88_0 ≠ main_v88_2) : (Proc.devRef .tc main_v88_0 : DevRef τ sig) ≠ Proc.devRef .tc main_v88_2), Function.update_of_ne (StableHlo.devRef_ne_of_ne (by decide : main_v88_0 ≠ main_v88_1) : (Proc.devRef .tc main_v88_0 : DevRef τ sig) ≠ Proc.devRef .tc main_v88_1)]
        rfl
      | ⟨4, _⟩ =>
        show (dat4 (E9 m) c).arrAt 4 cfg4.N = GenP.V10 m (outs m) c main_v88_1
        rw [hV10 m c]; unfold W10
        simp only [Function.update_self, Function.update_of_ne (StableHlo.devRef_ne_of_ne (by decide : main_v88_1 ≠ main_v88_2) : (Proc.devRef .tc main_v88_1 : DevRef τ sig) ≠ Proc.devRef .tc main_v88_2)]
        rfl
      | ⟨5, _⟩ =>
        show (dat4 (E9 m) c).arrAt 5 cfg4.N = GenP.V10 m (outs m) c main_v88_2
        rw [hV10 m c]; unfold W10
        simp only [Function.update_self]
        rfl
    )
    (fun c b hb => GenP.V10_of m (outs m) c b (by
      intro h
      simp only [List.mem_cons, List.mem_singleton, List.not_mem_nil, or_false] at h
      rcases h with h | h | h
      · exact hb (h ▸ Finset.mem_image.mpr ⟨3, Finset.mem_univ _, rfl⟩)
      · exact hb (h ▸ Finset.mem_image.mpr ⟨4, Finset.mem_univ _, rfl⟩)
      · exact hb (h ▸ Finset.mem_image.mpr ⟨5, Finset.mem_univ _, rfl⟩)))

end Cert.Kernel.Body

end
-- ==== Proof.KFrameSeg5.lean ====
/-
  The frame of the program: it runs to the end, faults nowhere, and leaves its thirteen argument arrays as launched.

  The program is 43 items in a row: stretches of host operations and 18 pipelined regions. Between two items a core
  holds every unscoped buffer at a known valuation. The valuations are defined one after the other from the launch
  memory: after a stretch, the stretch's fold over the valuation before it; after a region, the valuation before it
  with the region's output arrays set to what its write-backs leave (read off the region's proof data at the last
  point). A host operation writes a buffer of its own and a region writes its outputs only, so no item touches an
  argument array. Each region is one segment entered at the valuation before it and left at the one after it
  (Proof/LibClassARegion.lean), from its body obligation (Proof/KRegion0.lean to KRegion17.lean); the conditional frame over
  the segments (Proof/RegionsKernel.lean) then gives the claim.
-/
import proofs.«140713_j1864015806535_2_alg».proof.Proof.KFrameBase

set_option maxRecDepth 65536

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
set_option backward.isDefEq.respectTransparency.types false in
/-- Region 5 as a segment: entered at the valuation before it, left at the one after it. -/
def reg5 : Pipeline.RegionSeg (pcfgs (F := F)) GenP.adm (pdats m) () defs₀ Variants.none Lz lvz 5 :=
  Cert.LibClassARegion.region (pcfgs (F := F)) GenP.adm (pdats m) defs₀ Variants.none Lz lvz 5
    launch5.win.to₀ launch5.win launch5.block_pos launch5.stage_whole launch5.arr_whole
    (fun c => body_obligation5 (E11 m) c) (fun _ _ => rfl) (fun _ _ => rfl)
    (fun c => (pdats m 5 c).share_full fun _ => rfl) (fun _ => rfl) (fun _ => rfl)
    (fun c => by unfold Pipeline.prefHeld; rw [show (Finset.univ : Finset (Fin 0)) = ∅ from rfl, BI.bigSep_empty])
    (GenP.V11 m (outs m)) (GenP.V12 m (outs m))
    (fun c w => by rw [hV11 m c]; exact A_eq5 (E11 m) c w)
    (fun c w => by
      match w with
      | ⟨0, _⟩ =>
        show (dat5 (E11 m) c).arrAt 0 cfg5.N = GenP.V12 m (outs m) c main_v88_0
        rw [GenP.V12_of m (outs m) c main_v88_0 (by decide), hV11 m c]
        exact ((dat5 (E11 m) c).arrAt_in 0 rfl _).trans (A_eq5 (E11 m) c 0)
      | ⟨1, _⟩ =>
        show (dat5 (E11 m) c).arrAt 1 cfg5.N = GenP.V12 m (outs m) c main_v90
        rw [GenP.V12_of m (outs m) c main_v90 (by decide), hV11 m c]
        exact ((dat5 (E11 m) c).arrAt_in 1 rfl _).trans (A_eq5 (E11 m) c 1)
      | ⟨2, _⟩ =>
        show (dat5 (E11 m) c).arrAt 2 cfg5.N = GenP.V12 m (outs m) c main_v94
        rw [GenP.V12_of m (outs m) c main_v94 (by decide), hV11 m c]
        exact ((dat5 (E11 m) c).arrAt_in 2 rfl _).trans (A_eq5 (E11 m) c 2)
      | ⟨3, _⟩ =>
        show (dat5 (E11 m) c).arrAt 3 cfg5.N = GenP.V12 m (outs m) c main_v95
        rw [GenP.V12_of m (outs m) c main_v95 (by decide), hV11 m c]
        exact ((dat5 (E11 m) c).arrAt_in 3 rfl _).trans (A_eq5 (E11 m) c 3)
      | ⟨4, _⟩ =>
        show (dat5 (E11 m) c).arrAt 4 cfg5.N = GenP.V12 m (outs m) c main_v96
        rw [GenP.V12_of m (outs m) c main_v96 (by decide), hV11 m c]
        exact ((dat5 (E11 m) c).arrAt_in 4 rfl _).trans (A_eq5 (E11 m) c 4)
      | ⟨5, _⟩ =>
        show (dat5 (E11 m) c).arrAt 5 cfg5.N = GenP.V12 m (outs m) c main_v97
        rw [hV12 m c]; unfold W12
        simp only [Function.update_self]
        rfl
    )
    (fun c b hb => GenP.V12_of m (outs m) c b (by
      intro h
      simp only [List.mem_cons, List.mem_singleton, List.not_mem_nil, or_false] at h
      exact hb (h ▸ Finset.mem_image.mpr ⟨5, Finset.mem_univ _, rfl⟩)))

end Cert.Kernel.Body

end
-- ==== Proof.KFrameSeg6.lean ====
/-
  The frame of the program: it runs to the end, faults nowhere, and leaves its thirteen argument arrays as launched.

  The program is 43 items in a row: stretches of host operations and 18 pipelined regions. Between two items a core
  holds every unscoped buffer at a known valuation. The valuations are defined one after the other from the launch
  memory: after a stretch, the stretch's fold over the valuation before it; after a region, the valuation before it
  with the region's output arrays set to what its write-backs leave (read off the region's proof data at the last
  point). A host operation writes a buffer of its own and a region writes its outputs only, so no item touches an
  argument array. Each region is one segment entered at the valuation before it and left at the one after it
  (Proof/LibClassARegion.lean), from its body obligation (Proof/KRegion0.lean to KRegion17.lean); the conditional frame over
  the segments (Proof/RegionsKernel.lean) then gives the claim.
-/
import proofs.«140713_j1864015806535_2_alg».proof.Proof.KFrameBase

set_option maxRecDepth 65536

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
set_option backward.isDefEq.respectTransparency.types false in
/-- Region 6 as a segment: entered at the valuation before it, left at the one after it. -/
def reg6 : Pipeline.RegionSeg (pcfgs (F := F)) GenP.adm (pdats m) () defs₀ Variants.none Lz lvz 6 :=
  Cert.LibClassARegion.region (pcfgs (F := F)) GenP.adm (pdats m) defs₀ Variants.none Lz lvz 6
    launch6.win.to₀ launch6.win launch6.block_pos launch6.stage_whole launch6.arr_whole
    (fun c => body_obligation6 (E15 m) c) (fun _ _ => rfl) (fun _ _ => rfl)
    (fun c => (pdats m 6 c).share_full fun _ => rfl) (fun _ => rfl) (fun _ => rfl)
    (fun c => by unfold Pipeline.prefHeld; rw [show (Finset.univ : Finset (Fin 0)) = ∅ from rfl, BI.bigSep_empty])
    (GenP.V15 m (outs m)) (GenP.V16 m (outs m))
    (fun c w => by rw [hV15 m c]; exact A_eq6 (E15 m) c w)
    (fun c w => by
      match w with
      | ⟨0, _⟩ =>
        show (dat6 (E15 m) c).arrAt 0 cfg6.N = GenP.V16 m (outs m) c main_arg0
        rw [GenP.V16_of m (outs m) c main_arg0 (by decide), hV15 m c]
        exact ((dat6 (E15 m) c).arrAt_in 0 rfl _).trans (A_eq6 (E15 m) c 0)
      | ⟨1, _⟩ =>
        show (dat6 (E15 m) c).arrAt 1 cfg6.N = GenP.V16 m (outs m) c main_v133
        rw [GenP.V16_of m (outs m) c main_v133 (by decide), hV15 m c]
        exact ((dat6 (E15 m) c).arrAt_in 1 rfl _).trans (A_eq6 (E15 m) c 1)
      | ⟨2, _⟩ =>
        show (dat6 (E15 m) c).arrAt 2 cfg6.N = GenP.V16 m (outs m) c main_v136
        rw [GenP.V16_of m (outs m) c main_v136 (by decide), hV15 m c]
        exact ((dat6 (E15 m) c).arrAt_in 2 rfl _).trans (A_eq6 (E15 m) c 2)
      | ⟨3, _⟩ =>
        show (dat6 (E15 m) c).arrAt 3 cfg6.N = GenP.V16 m (outs m) c main_v137
        rw [hV16 m c]; unfold W16
        simp only [Function.update_self]
        rfl
    )
    (fun c b hb => GenP.V16_of m (outs m) c b (by
      intro h
      simp only [List.mem_cons, List.mem_singleton, List.not_mem_nil, or_false] at h
      exact hb (h ▸ Finset.mem_image.mpr ⟨3, Finset.mem_univ _, rfl⟩)))

end Cert.Kernel.Body

end
-- ==== Proof.KFrameSeg7.lean ====
/-
  The frame of the program: it runs to the end, faults nowhere, and leaves its thirteen argument arrays as launched.

  The program is 43 items in a row: stretches of host operations and 18 pipelined regions. Between two items a core
  holds every unscoped buffer at a known valuation. The valuations are defined one after the other from the launch
  memory: after a stretch, the stretch's fold over the valuation before it; after a region, the valuation before it
  with the region's output arrays set to what its write-backs leave (read off the region's proof data at the last
  point). A host operation writes a buffer of its own and a region writes its outputs only, so no item touches an
  argument array. Each region is one segment entered at the valuation before it and left at the one after it
  (Proof/LibClassARegion.lean), from its body obligation (Proof/KRegion0.lean to KRegion17.lean); the conditional frame over
  the segments (Proof/RegionsKernel.lean) then gives the claim.
-/
import proofs.«140713_j1864015806535_2_alg».proof.Proof.KFrameBase

set_option maxRecDepth 65536

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
set_option backward.isDefEq.respectTransparency.types false in
/-- Region 7 as a segment: entered at the valuation before it, left at the one after it. -/
def reg7 : Pipeline.RegionSeg (pcfgs (F := F)) GenP.adm (pdats m) () defs₀ Variants.none Lz lvz 7 :=
  Cert.LibClassARegion.region (pcfgs (F := F)) GenP.adm (pdats m) defs₀ Variants.none Lz lvz 7
    launch7.win.to₀ launch7.win launch7.block_pos launch7.stage_whole launch7.arr_whole
    (fun c => body_obligation7 (E17 m) c) (fun _ _ => rfl) (fun _ _ => rfl)
    (fun c => (pdats m 7 c).share_full fun _ => rfl) (fun _ => rfl) (fun _ => rfl)
    (fun c => by unfold Pipeline.prefHeld; rw [show (Finset.univ : Finset (Fin 0)) = ∅ from rfl, BI.bigSep_empty])
    (GenP.V17 m (outs m)) (GenP.V18 m (outs m))
    (fun c w => by rw [hV17 m c]; exact A_eq7 (E17 m) c w)
    (fun c w => by
      match w with
      | ⟨0, _⟩ =>
        show (dat7 (E17 m) c).arrAt 0 cfg7.N = GenP.V18 m (outs m) c main_v137
        rw [GenP.V18_of m (outs m) c main_v137 (by decide), hV17 m c]
        exact ((dat7 (E17 m) c).arrAt_in 0 rfl _).trans (A_eq7 (E17 m) c 0)
      | ⟨1, _⟩ =>
        show (dat7 (E17 m) c).arrAt 1 cfg7.N = GenP.V18 m (outs m) c main_v150
        rw [GenP.V18_of m (outs m) c main_v150 (by decide), hV17 m c]
        exact ((dat7 (E17 m) c).arrAt_in 1 rfl _).trans (A_eq7 (E17 m) c 1)
      | ⟨2, _⟩ =>
        show (dat7 (E17 m) c).arrAt 2 cfg7.N = GenP.V18 m (outs m) c main_v157
        rw [GenP.V18_of m (outs m) c main_v157 (by decide), hV17 m c]
        exact ((dat7 (E17 m) c).arrAt_in 2 rfl _).trans (A_eq7 (E17 m) c 2)
      | ⟨3, _⟩ =>
        show (dat7 (E17 m) c).arrAt 3 cfg7.N = GenP.V18 m (outs m) c main_v158_0
        rw [hV18 m c]; unfold W18
        simp only [Function.update_self, Function.update_of_ne (StableHlo.devRef_ne_of_ne (by decide : main_v158_0 ≠ main_v158_2) : (Proc.devRef .tc main_v158_0 : DevRef τ sig) ≠ Proc.devRef .tc main_v158_2), Function.update_of_ne (StableHlo.devRef_ne_of_ne (by decide : main_v158_0 ≠ main_v158_1) : (Proc.devRef .tc main_v158_0 : DevRef τ sig) ≠ Proc.devRef .tc main_v158_1)]
        rfl
      | ⟨4, _⟩ =>
        show (dat7 (E17 m) c).arrAt 4 cfg7.N = GenP.V18 m (outs m) c main_v158_1
        rw [hV18 m c]; unfold W18
        simp only [Function.update_self, Function.update_of_ne (StableHlo.devRef_ne_of_ne (by decide : main_v158_1 ≠ main_v158_2) : (Proc.devRef .tc main_v158_1 : DevRef τ sig) ≠ Proc.devRef .tc main_v158_2)]
        rfl
      | ⟨5, _⟩ =>
        show (dat7 (E17 m) c).arrAt 5 cfg7.N = GenP.V18 m (outs m) c main_v158_2
        rw [hV18 m c]; unfold W18
        simp only [Function.update_self]
        rfl
    )
    (fun c b hb => GenP.V18_of m (outs m) c b (by
      intro h
      simp only [List.mem_cons, List.mem_singleton, List.not_mem_nil, or_false] at h
      rcases h with h | h | h
      · exact hb (h ▸ Finset.mem_image.mpr ⟨3, Finset.mem_univ _, rfl⟩)
      · exact hb (h ▸ Finset.mem_image.mpr ⟨4, Finset.mem_univ _, rfl⟩)
      · exact hb (h ▸ Finset.mem_image.mpr ⟨5, Finset.mem_univ _, rfl⟩)))

end Cert.Kernel.Body

end
-- ==== Proof.KFrameSeg8.lean ====
/-
  The frame of the program: it runs to the end, faults nowhere, and leaves its thirteen argument arrays as launched.

  The program is 43 items in a row: stretches of host operations and 18 pipelined regions. Between two items a core
  holds every unscoped buffer at a known valuation. The valuations are defined one after the other from the launch
  memory: after a stretch, the stretch's fold over the valuation before it; after a region, the valuation before it
  with the region's output arrays set to what its write-backs leave (read off the region's proof data at the last
  point). A host operation writes a buffer of its own and a region writes its outputs only, so no item touches an
  argument array. Each region is one segment entered at the valuation before it and left at the one after it
  (Proof/LibClassARegion.lean), from its body obligation (Proof/KRegion0.lean to KRegion17.lean); the conditional frame over
  the segments (Proof/RegionsKernel.lean) then gives the claim.
-/
import proofs.«140713_j1864015806535_2_alg».proof.Proof.KFrameBase

set_option maxRecDepth 65536

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
set_option backward.isDefEq.respectTransparency.types false in
/-- Region 8 as a segment: entered at the valuation before it, left at the one after it. -/
def reg8 : Pipeline.RegionSeg (pcfgs (F := F)) GenP.adm (pdats m) () defs₀ Variants.none Lz lvz 8 :=
  Cert.LibClassARegion.region (pcfgs (F := F)) GenP.adm (pdats m) defs₀ Variants.none Lz lvz 8
    launch8.win.to₀ launch8.win launch8.block_pos launch8.stage_whole launch8.arr_whole
    (fun c => body_obligation8 (E19 m) c) (fun _ _ => rfl) (fun _ _ => rfl)
    (fun c => (pdats m 8 c).share_full fun _ => rfl) (fun _ => rfl) (fun _ => rfl)
    (fun c => by unfold Pipeline.prefHeld; rw [show (Finset.univ : Finset (Fin 0)) = ∅ from rfl, BI.bigSep_empty])
    (GenP.V19 m (outs m)) (GenP.V20 m (outs m))
    (fun c w => by rw [hV19 m c]; exact A_eq8 (E19 m) c w)
    (fun c w => by
      match w with
      | ⟨0, _⟩ =>
        show (dat8 (E19 m) c).arrAt 0 cfg8.N = GenP.V20 m (outs m) c main_v158_0
        rw [GenP.V20_of m (outs m) c main_v158_0 (by decide), hV19 m c]
        exact ((dat8 (E19 m) c).arrAt_in 0 rfl _).trans (A_eq8 (E19 m) c 0)
      | ⟨1, _⟩ =>
        show (dat8 (E19 m) c).arrAt 1 cfg8.N = GenP.V20 m (outs m) c main_v160
        rw [GenP.V20_of m (outs m) c main_v160 (by decide), hV19 m c]
        exact ((dat8 (E19 m) c).arrAt_in 1 rfl _).trans (A_eq8 (E19 m) c 1)
      | ⟨2, _⟩ =>
        show (dat8 (E19 m) c).arrAt 2 cfg8.N = GenP.V20 m (outs m) c main_v164
        rw [GenP.V20_of m (outs m) c main_v164 (by decide), hV19 m c]
        exact ((dat8 (E19 m) c).arrAt_in 2 rfl _).trans (A_eq8 (E19 m) c 2)
      | ⟨3, _⟩ =>
        show (dat8 (E19 m) c).arrAt 3 cfg8.N = GenP.V20 m (outs m) c main_v165
        rw [GenP.V20_of m (outs m) c main_v165 (by decide), hV19 m c]
        exact ((dat8 (E19 m) c).arrAt_in 3 rfl _).trans (A_eq8 (E19 m) c 3)
      | ⟨4, _⟩ =>
        show (dat8 (E19 m) c).arrAt 4 cfg8.N = GenP.V20 m (outs m) c main_v166
        rw [GenP.V20_of m (outs m) c main_v166 (by decide), hV19 m c]
        exact ((dat8 (E19 m) c).arrAt_in 4 rfl _).trans (A_eq8 (E19 m) c 4)
      | ⟨5, _⟩ =>
        show (dat8 (E19 m) c).arrAt 5 cfg8.N = GenP.V20 m (outs m) c main_v167
        rw [hV20 m c]; unfold W20
        simp only [Function.update_self]
        rfl
    )
    (fun c b hb => GenP.V20_of m (outs m) c b (by
      intro h
      simp only [List.mem_cons, List.mem_singleton, List.not_mem_nil, or_false] at h
      exact hb (h ▸ Finset.mem_image.mpr ⟨5, Finset.mem_univ _, rfl⟩)))

end Cert.Kernel.Body

end
-- ==== Proof.KFrameSeg9.lean ====
/-
  The frame of the program: it runs to the end, faults nowhere, and leaves its thirteen argument arrays as launched.

  The program is 43 items in a row: stretches of host operations and 18 pipelined regions. Between two items a core
  holds every unscoped buffer at a known valuation. The valuations are defined one after the other from the launch
  memory: after a stretch, the stretch's fold over the valuation before it; after a region, the valuation before it
  with the region's output arrays set to what its write-backs leave (read off the region's proof data at the last
  point). A host operation writes a buffer of its own and a region writes its outputs only, so no item touches an
  argument array. Each region is one segment entered at the valuation before it and left at the one after it
  (Proof/LibClassARegion.lean), from its body obligation (Proof/KRegion0.lean to KRegion17.lean); the conditional frame over
  the segments (Proof/RegionsKernel.lean) then gives the claim.
-/
import proofs.«140713_j1864015806535_2_alg».proof.Proof.KFrameBase

set_option maxRecDepth 65536

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
set_option backward.isDefEq.respectTransparency.types false in
/-- Region 9 as a segment: entered at the valuation before it, left at the one after it. -/
def reg9 : Pipeline.RegionSeg (pcfgs (F := F)) GenP.adm (pdats m) () defs₀ Variants.none Lz lvz 9 :=
  Cert.LibClassARegion.region (pcfgs (F := F)) GenP.adm (pdats m) defs₀ Variants.none Lz lvz 9
    launch9.win.to₀ launch9.win launch9.block_pos launch9.stage_whole launch9.arr_whole
    (fun c => body_obligation9 (E21 m) c) (fun _ _ => rfl) (fun _ _ => rfl)
    (fun c => (pdats m 9 c).share_full fun _ => rfl) (fun _ => rfl) (fun _ => rfl)
    (fun c => by unfold Pipeline.prefHeld; rw [show (Finset.univ : Finset (Fin 0)) = ∅ from rfl, BI.bigSep_empty])
    (GenP.V21 m (outs m)) (GenP.V22 m (outs m))
    (fun c w => by rw [hV21 m c]; exact A_eq9 (E21 m) c w)
    (fun c w => by
      match w with
      | ⟨0, _⟩ =>
        show (dat9 (E21 m) c).arrAt 0 cfg9.N = GenP.V22 m (outs m) c main_v167
        rw [GenP.V22_of m (outs m) c main_v167 (by decide), hV21 m c]
        exact ((dat9 (E21 m) c).arrAt_in 0 rfl _).trans (A_eq9 (E21 m) c 0)
      | ⟨1, _⟩ =>
        show (dat9 (E21 m) c).arrAt 1 cfg9.N = GenP.V22 m (outs m) c main_v169
        rw [GenP.V22_of m (outs m) c main_v169 (by decide), hV21 m c]
        exact ((dat9 (E21 m) c).arrAt_in 1 rfl _).trans (A_eq9 (E21 m) c 1)
      | ⟨2, _⟩ =>
        show (dat9 (E21 m) c).arrAt 2 cfg9.N = GenP.V22 m (outs m) c main_v172
        rw [GenP.V22_of m (outs m) c main_v172 (by decide), hV21 m c]
        exact ((dat9 (E21 m) c).arrAt_in 2 rfl _).trans (A_eq9 (E21 m) c 2)
      | ⟨3, _⟩ =>
        show (dat9 (E21 m) c).arrAt 3 cfg9.N = GenP.V22 m (outs m) c main_v173
        rw [hV22 m c]; unfold W22
        simp only [Function.update_self]
        rfl
    )
    (fun c b hb => GenP.V22_of m (outs m) c b (by
      intro h
      simp only [List.mem_cons, List.mem_singleton, List.not_mem_nil, or_false] at h
      exact hb (h ▸ Finset.mem_image.mpr ⟨3, Finset.mem_univ _, rfl⟩)))

end Cert.Kernel.Body

end
-- ==== Proof.KFrameSeg10.lean ====
/-
  The frame of the program: it runs to the end, faults nowhere, and leaves its thirteen argument arrays as launched.

  The program is 43 items in a row: stretches of host operations and 18 pipelined regions. Between two items a core
  holds every unscoped buffer at a known valuation. The valuations are defined one after the other from the launch
  memory: after a stretch, the stretch's fold over the valuation before it; after a region, the valuation before it
  with the region's output arrays set to what its write-backs leave (read off the region's proof data at the last
  point). A host operation writes a buffer of its own and a region writes its outputs only, so no item touches an
  argument array. Each region is one segment entered at the valuation before it and left at the one after it
  (Proof/LibClassARegion.lean), from its body obligation (Proof/KRegion0.lean to KRegion17.lean); the conditional frame over
  the segments (Proof/RegionsKernel.lean) then gives the claim.
-/
import proofs.«140713_j1864015806535_2_alg».proof.Proof.KFrameBase

set_option maxRecDepth 65536

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
set_option backward.isDefEq.respectTransparency.types false in
/-- Region 10 as a segment: entered at the valuation before it, left at the one after it. -/
def reg10 : Pipeline.RegionSeg (pcfgs (F := F)) GenP.adm (pdats m) () defs₀ Variants.none Lz lvz 10 :=
  Cert.LibClassARegion.region (pcfgs (F := F)) GenP.adm (pdats m) defs₀ Variants.none Lz lvz 10
    launch10.win.to₀ launch10.win launch10.block_pos launch10.stage_whole launch10.arr_whole
    (fun c => body_obligation10 (E23 m) c) (fun _ _ => rfl) (fun _ _ => rfl)
    (fun c => (pdats m 10 c).share_full fun _ => rfl) (fun _ => rfl) (fun _ => rfl)
    (fun c => by unfold Pipeline.prefHeld; rw [show (Finset.univ : Finset (Fin 0)) = ∅ from rfl, BI.bigSep_empty])
    (GenP.V23 m (outs m)) (GenP.V24 m (outs m))
    (fun c w => by rw [hV23 m c]; exact A_eq10 (E23 m) c w)
    (fun c w => by
      match w with
      | ⟨0, _⟩ =>
        show (dat10 (E23 m) c).arrAt 0 cfg10.N = GenP.V24 m (outs m) c main_v173
        rw [GenP.V24_of m (outs m) c main_v173 (by decide), hV23 m c]
        exact ((dat10 (E23 m) c).arrAt_in 0 rfl _).trans (A_eq10 (E23 m) c 0)
      | ⟨1, _⟩ =>
        show (dat10 (E23 m) c).arrAt 1 cfg10.N = GenP.V24 m (outs m) c main_v186
        rw [GenP.V24_of m (outs m) c main_v186 (by decide), hV23 m c]
        exact ((dat10 (E23 m) c).arrAt_in 1 rfl _).trans (A_eq10 (E23 m) c 1)
      | ⟨2, _⟩ =>
        show (dat10 (E23 m) c).arrAt 2 cfg10.N = GenP.V24 m (outs m) c main_v193
        rw [GenP.V24_of m (outs m) c main_v193 (by decide), hV23 m c]
        exact ((dat10 (E23 m) c).arrAt_in 2 rfl _).trans (A_eq10 (E23 m) c 2)
      | ⟨3, _⟩ =>
        show (dat10 (E23 m) c).arrAt 3 cfg10.N = GenP.V24 m (outs m) c main_v194_0
        rw [hV24 m c]; unfold W24
        simp only [Function.update_self, Function.update_of_ne (StableHlo.devRef_ne_of_ne (by decide : main_v194_0 ≠ main_v194_2) : (Proc.devRef .tc main_v194_0 : DevRef τ sig) ≠ Proc.devRef .tc main_v194_2), Function.update_of_ne (StableHlo.devRef_ne_of_ne (by decide : main_v194_0 ≠ main_v194_1) : (Proc.devRef .tc main_v194_0 : DevRef τ sig) ≠ Proc.devRef .tc main_v194_1)]
        rfl
      | ⟨4, _⟩ =>
        show (dat10 (E23 m) c).arrAt 4 cfg10.N = GenP.V24 m (outs m) c main_v194_1
        rw [hV24 m c]; unfold W24
        simp only [Function.update_self, Function.update_of_ne (StableHlo.devRef_ne_of_ne (by decide : main_v194_1 ≠ main_v194_2) : (Proc.devRef .tc main_v194_1 : DevRef τ sig) ≠ Proc.devRef .tc main_v194_2)]
        rfl
      | ⟨5, _⟩ =>
        show (dat10 (E23 m) c).arrAt 5 cfg10.N = GenP.V24 m (outs m) c main_v194_2
        rw [hV24 m c]; unfold W24
        simp only [Function.update_self]
        rfl
    )
    (fun c b hb => GenP.V24_of m (outs m) c b (by
      intro h
      simp only [List.mem_cons, List.mem_singleton, List.not_mem_nil, or_false] at h
      rcases h with h | h | h
      · exact hb (h ▸ Finset.mem_image.mpr ⟨3, Finset.mem_univ _, rfl⟩)
      · exact hb (h ▸ Finset.mem_image.mpr ⟨4, Finset.mem_univ _, rfl⟩)
      · exact hb (h ▸ Finset.mem_image.mpr ⟨5, Finset.mem_univ _, rfl⟩)))

end Cert.Kernel.Body

end
-- ==== Proof.KFrameSeg11.lean ====
/-
  The frame of the program: it runs to the end, faults nowhere, and leaves its thirteen argument arrays as launched.

  The program is 43 items in a row: stretches of host operations and 18 pipelined regions. Between two items a core
  holds every unscoped buffer at a known valuation. The valuations are defined one after the other from the launch
  memory: after a stretch, the stretch's fold over the valuation before it; after a region, the valuation before it
  with the region's output arrays set to what its write-backs leave (read off the region's proof data at the last
  point). A host operation writes a buffer of its own and a region writes its outputs only, so no item touches an
  argument array. Each region is one segment entered at the valuation before it and left at the one after it
  (Proof/LibClassARegion.lean), from its body obligation (Proof/KRegion0.lean to KRegion17.lean); the conditional frame over
  the segments (Proof/RegionsKernel.lean) then gives the claim.
-/
import proofs.«140713_j1864015806535_2_alg».proof.Proof.KFrameBase

set_option maxRecDepth 65536

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
set_option backward.isDefEq.respectTransparency.types false in
/-- Region 11 as a segment: entered at the valuation before it, left at the one after it. -/
def reg11 : Pipeline.RegionSeg (pcfgs (F := F)) GenP.adm (pdats m) () defs₀ Variants.none Lz lvz 11 :=
  Cert.LibClassARegion.region (pcfgs (F := F)) GenP.adm (pdats m) defs₀ Variants.none Lz lvz 11
    launch11.win.to₀ launch11.win launch11.block_pos launch11.stage_whole launch11.arr_whole
    (fun c => body_obligation11 (E25 m) c) (fun _ _ => rfl) (fun _ _ => rfl)
    (fun c => (pdats m 11 c).share_full fun _ => rfl) (fun _ => rfl) (fun _ => rfl)
    (fun c => by unfold Pipeline.prefHeld; rw [show (Finset.univ : Finset (Fin 0)) = ∅ from rfl, BI.bigSep_empty])
    (GenP.V25 m (outs m)) (GenP.V26 m (outs m))
    (fun c w => by rw [hV25 m c]; exact A_eq11 (E25 m) c w)
    (fun c w => by
      match w with
      | ⟨0, _⟩ =>
        show (dat11 (E25 m) c).arrAt 0 cfg11.N = GenP.V26 m (outs m) c main_v194_0
        rw [GenP.V26_of m (outs m) c main_v194_0 (by decide), hV25 m c]
        exact ((dat11 (E25 m) c).arrAt_in 0 rfl _).trans (A_eq11 (E25 m) c 0)
      | ⟨1, _⟩ =>
        show (dat11 (E25 m) c).arrAt 1 cfg11.N = GenP.V26 m (outs m) c main_v196
        rw [GenP.V26_of m (outs m) c main_v196 (by decide), hV25 m c]
        exact ((dat11 (E25 m) c).arrAt_in 1 rfl _).trans (A_eq11 (E25 m) c 1)
      | ⟨2, _⟩ =>
        show (dat11 (E25 m) c).arrAt 2 cfg11.N = GenP.V26 m (outs m) c main_v200
        rw [GenP.V26_of m (outs m) c main_v200 (by decide), hV25 m c]
        exact ((dat11 (E25 m) c).arrAt_in 2 rfl _).trans (A_eq11 (E25 m) c 2)
      | ⟨3, _⟩ =>
        show (dat11 (E25 m) c).arrAt 3 cfg11.N = GenP.V26 m (outs m) c main_v201
        rw [GenP.V26_of m (outs m) c main_v201 (by decide), hV25 m c]
        exact ((dat11 (E25 m) c).arrAt_in 3 rfl _).trans (A_eq11 (E25 m) c 3)
      | ⟨4, _⟩ =>
        show (dat11 (E25 m) c).arrAt 4 cfg11.N = GenP.V26 m (outs m) c main_v202
        rw [GenP.V26_of m (outs m) c main_v202 (by decide), hV25 m c]
        exact ((dat11 (E25 m) c).arrAt_in 4 rfl _).trans (A_eq11 (E25 m) c 4)
      | ⟨5, _⟩ =>
        show (dat11 (E25 m) c).arrAt 5 cfg11.N = GenP.V26 m (outs m) c main_v203
        rw [hV26 m c]; unfold W26
        simp only [Function.update_self]
        rfl
    )
    (fun c b hb => GenP.V26_of m (outs m) c b (by
      intro h
      simp only [List.mem_cons, List.mem_singleton, List.not_mem_nil, or_false] at h
      exact hb (h ▸ Finset.mem_image.mpr ⟨5, Finset.mem_univ _, rfl⟩)))

end Cert.Kernel.Body

end
-- ==== Proof.KFrameSeg12.lean ====
/-
  The frame of the program: it runs to the end, faults nowhere, and leaves its thirteen argument arrays as launched.

  The program is 43 items in a row: stretches of host operations and 18 pipelined regions. Between two items a core
  holds every unscoped buffer at a known valuation. The valuations are defined one after the other from the launch
  memory: after a stretch, the stretch's fold over the valuation before it; after a region, the valuation before it
  with the region's output arrays set to what its write-backs leave (read off the region's proof data at the last
  point). A host operation writes a buffer of its own and a region writes its outputs only, so no item touches an
  argument array. Each region is one segment entered at the valuation before it and left at the one after it
  (Proof/LibClassARegion.lean), from its body obligation (Proof/KRegion0.lean to KRegion17.lean); the conditional frame over
  the segments (Proof/RegionsKernel.lean) then gives the claim.
-/
import proofs.«140713_j1864015806535_2_alg».proof.Proof.KFrameBase

set_option maxRecDepth 65536

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
set_option backward.isDefEq.respectTransparency.types false in
/-- Region 12 as a segment: entered at the valuation before it, left at the one after it. -/
def reg12 : Pipeline.RegionSeg (pcfgs (F := F)) GenP.adm (pdats m) () defs₀ Variants.none Lz lvz 12 :=
  Cert.LibClassARegion.region (pcfgs (F := F)) GenP.adm (pdats m) defs₀ Variants.none Lz lvz 12
    launch12.win.to₀ launch12.win launch12.block_pos launch12.stage_whole launch12.arr_whole
    (fun c => body_obligation12 (E29 m) c) (fun _ _ => rfl) (fun _ _ => rfl)
    (fun c => (pdats m 12 c).share_full fun _ => rfl) (fun _ => rfl) (fun _ => rfl)
    (fun c => by unfold Pipeline.prefHeld; rw [show (Finset.univ : Finset (Fin 0)) = ∅ from rfl, BI.bigSep_empty])
    (GenP.V29 m (outs m)) (GenP.V30 m (outs m))
    (fun c w => by rw [hV29 m c]; exact A_eq12 (E29 m) c w)
    (fun c w => by
      match w with
      | ⟨0, _⟩ =>
        show (dat12 (E29 m) c).arrAt 0 cfg12.N = GenP.V30 m (outs m) c main_arg0
        rw [GenP.V30_of m (outs m) c main_arg0 (by decide), hV29 m c]
        exact ((dat12 (E29 m) c).arrAt_in 0 rfl _).trans (A_eq12 (E29 m) c 0)
      | ⟨1, _⟩ =>
        show (dat12 (E29 m) c).arrAt 1 cfg12.N = GenP.V30 m (outs m) c main_v239
        rw [GenP.V30_of m (outs m) c main_v239 (by decide), hV29 m c]
        exact ((dat12 (E29 m) c).arrAt_in 1 rfl _).trans (A_eq12 (E29 m) c 1)
      | ⟨2, _⟩ =>
        show (dat12 (E29 m) c).arrAt 2 cfg12.N = GenP.V30 m (outs m) c main_v242
        rw [GenP.V30_of m (outs m) c main_v242 (by decide), hV29 m c]
        exact ((dat12 (E29 m) c).arrAt_in 2 rfl _).trans (A_eq12 (E29 m) c 2)
      | ⟨3, _⟩ =>
        show (dat12 (E29 m) c).arrAt 3 cfg12.N = GenP.V30 m (outs m) c main_v243
        rw [hV30 m c]; unfold W30
        simp only [Function.update_self]
        rfl
    )
    (fun c b hb => GenP.V30_of m (outs m) c b (by
      intro h
      simp only [List.mem_cons, List.mem_singleton, List.not_mem_nil, or_false] at h
      exact hb (h ▸ Finset.mem_image.mpr ⟨3, Finset.mem_univ _, rfl⟩)))

end Cert.Kernel.Body

end
-- ==== Proof.KFrameSeg13.lean ====
/-
  The frame of the program: it runs to the end, faults nowhere, and leaves its thirteen argument arrays as launched.

  The program is 43 items in a row: stretches of host operations and 18 pipelined regions. Between two items a core
  holds every unscoped buffer at a known valuation. The valuations are defined one after the other from the launch
  memory: after a stretch, the stretch's fold over the valuation before it; after a region, the valuation before it
  with the region's output arrays set to what its write-backs leave (read off the region's proof data at the last
  point). A host operation writes a buffer of its own and a region writes its outputs only, so no item touches an
  argument array. Each region is one segment entered at the valuation before it and left at the one after it
  (Proof/LibClassARegion.lean), from its body obligation (Proof/KRegion0.lean to KRegion17.lean); the conditional frame over
  the segments (Proof/RegionsKernel.lean) then gives the claim.
-/
import proofs.«140713_j1864015806535_2_alg».proof.Proof.KFrameBase

set_option maxRecDepth 65536

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
set_option backward.isDefEq.respectTransparency.types false in
/-- Region 13 as a segment: entered at the valuation before it, left at the one after it. -/
def reg13 : Pipeline.RegionSeg (pcfgs (F := F)) GenP.adm (pdats m) () defs₀ Variants.none Lz lvz 13 :=
  Cert.LibClassARegion.region (pcfgs (F := F)) GenP.adm (pdats m) defs₀ Variants.none Lz lvz 13
    launch13.win.to₀ launch13.win launch13.block_pos launch13.stage_whole launch13.arr_whole
    (fun c => body_obligation13 (E31 m) c) (fun _ _ => rfl) (fun _ _ => rfl)
    (fun c => (pdats m 13 c).share_full fun _ => rfl) (fun _ => rfl) (fun _ => rfl)
    (fun c => by unfold Pipeline.prefHeld; rw [show (Finset.univ : Finset (Fin 0)) = ∅ from rfl, BI.bigSep_empty])
    (GenP.V31 m (outs m)) (GenP.V32 m (outs m))
    (fun c w => by rw [hV31 m c]; exact A_eq13 (E31 m) c w)
    (fun c w => by
      match w with
      | ⟨0, _⟩ =>
        show (dat13 (E31 m) c).arrAt 0 cfg13.N = GenP.V32 m (outs m) c main_v243
        rw [GenP.V32_of m (outs m) c main_v243 (by decide), hV31 m c]
        exact ((dat13 (E31 m) c).arrAt_in 0 rfl _).trans (A_eq13 (E31 m) c 0)
      | ⟨1, _⟩ =>
        show (dat13 (E31 m) c).arrAt 1 cfg13.N = GenP.V32 m (outs m) c main_v256
        rw [GenP.V32_of m (outs m) c main_v256 (by decide), hV31 m c]
        exact ((dat13 (E31 m) c).arrAt_in 1 rfl _).trans (A_eq13 (E31 m) c 1)
      | ⟨2, _⟩ =>
        show (dat13 (E31 m) c).arrAt 2 cfg13.N = GenP.V32 m (outs m) c main_v263
        rw [GenP.V32_of m (outs m) c main_v263 (by decide), hV31 m c]
        exact ((dat13 (E31 m) c).arrAt_in 2 rfl _).trans (A_eq13 (E31 m) c 2)
      | ⟨3, _⟩ =>
        show (dat13 (E31 m) c).arrAt 3 cfg13.N = GenP.V32 m (outs m) c main_v264_0
        rw [hV32 m c]; unfold W32
        simp only [Function.update_self, Function.update_of_ne (StableHlo.devRef_ne_of_ne (by decide : main_v264_0 ≠ main_v264_2) : (Proc.devRef .tc main_v264_0 : DevRef τ sig) ≠ Proc.devRef .tc main_v264_2), Function.update_of_ne (StableHlo.devRef_ne_of_ne (by decide : main_v264_0 ≠ main_v264_1) : (Proc.devRef .tc main_v264_0 : DevRef τ sig) ≠ Proc.devRef .tc main_v264_1)]
        rfl
      | ⟨4, _⟩ =>
        show (dat13 (E31 m) c).arrAt 4 cfg13.N = GenP.V32 m (outs m) c main_v264_1
        rw [hV32 m c]; unfold W32
        simp only [Function.update_self, Function.update_of_ne (StableHlo.devRef_ne_of_ne (by decide : main_v264_1 ≠ main_v264_2) : (Proc.devRef .tc main_v264_1 : DevRef τ sig) ≠ Proc.devRef .tc main_v264_2)]
        rfl
      | ⟨5, _⟩ =>
        show (dat13 (E31 m) c).arrAt 5 cfg13.N = GenP.V32 m (outs m) c main_v264_2
        rw [hV32 m c]; unfold W32
        simp only [Function.update_self]
        rfl
    )
    (fun c b hb => GenP.V32_of m (outs m) c b (by
      intro h
      simp only [List.mem_cons, List.mem_singleton, List.not_mem_nil, or_false] at h
      rcases h with h | h | h
      · exact hb (h ▸ Finset.mem_image.mpr ⟨3, Finset.mem_univ _, rfl⟩)
      · exact hb (h ▸ Finset.mem_image.mpr ⟨4, Finset.mem_univ _, rfl⟩)
      · exact hb (h ▸ Finset.mem_image.mpr ⟨5, Finset.mem_univ _, rfl⟩)))

end Cert.Kernel.Body

end
-- ==== Proof.KFrameSeg14.lean ====
/-
  The frame of the program: it runs to the end, faults nowhere, and leaves its thirteen argument arrays as launched.

  The program is 43 items in a row: stretches of host operations and 18 pipelined regions. Between two items a core
  holds every unscoped buffer at a known valuation. The valuations are defined one after the other from the launch
  memory: after a stretch, the stretch's fold over the valuation before it; after a region, the valuation before it
  with the region's output arrays set to what its write-backs leave (read off the region's proof data at the last
  point). A host operation writes a buffer of its own and a region writes its outputs only, so no item touches an
  argument array. Each region is one segment entered at the valuation before it and left at the one after it
  (Proof/LibClassARegion.lean), from its body obligation (Proof/KRegion0.lean to KRegion17.lean); the conditional frame over
  the segments (Proof/RegionsKernel.lean) then gives the claim.
-/
import proofs.«140713_j1864015806535_2_alg».proof.Proof.KFrameBase

set_option maxRecDepth 65536

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
set_option backward.isDefEq.respectTransparency.types false in
/-- Region 14 as a segment: entered at the valuation before it, left at the one after it. -/
def reg14 : Pipeline.RegionSeg (pcfgs (F := F)) GenP.adm (pdats m) () defs₀ Variants.none Lz lvz 14 :=
  Cert.LibClassARegion.region (pcfgs (F := F)) GenP.adm (pdats m) defs₀ Variants.none Lz lvz 14
    launch14.win.to₀ launch14.win launch14.block_pos launch14.stage_whole launch14.arr_whole
    (fun c => body_obligation14 (E33 m) c) (fun _ _ => rfl) (fun _ _ => rfl)
    (fun c => (pdats m 14 c).share_full fun _ => rfl) (fun _ => rfl) (fun _ => rfl)
    (fun c => by unfold Pipeline.prefHeld; rw [show (Finset.univ : Finset (Fin 0)) = ∅ from rfl, BI.bigSep_empty])
    (GenP.V33 m (outs m)) (GenP.V34 m (outs m))
    (fun c w => by rw [hV33 m c]; exact A_eq14 (E33 m) c w)
    (fun c w => by
      match w with
      | ⟨0, _⟩ =>
        show (dat14 (E33 m) c).arrAt 0 cfg14.N = GenP.V34 m (outs m) c main_v264_0
        rw [GenP.V34_of m (outs m) c main_v264_0 (by decide), hV33 m c]
        exact ((dat14 (E33 m) c).arrAt_in 0 rfl _).trans (A_eq14 (E33 m) c 0)
      | ⟨1, _⟩ =>
        show (dat14 (E33 m) c).arrAt 1 cfg14.N = GenP.V34 m (outs m) c main_v266
        rw [GenP.V34_of m (outs m) c main_v266 (by decide), hV33 m c]
        exact ((dat14 (E33 m) c).arrAt_in 1 rfl _).trans (A_eq14 (E33 m) c 1)
      | ⟨2, _⟩ =>
        show (dat14 (E33 m) c).arrAt 2 cfg14.N = GenP.V34 m (outs m) c main_v270
        rw [GenP.V34_of m (outs m) c main_v270 (by decide), hV33 m c]
        exact ((dat14 (E33 m) c).arrAt_in 2 rfl _).trans (A_eq14 (E33 m) c 2)
      | ⟨3, _⟩ =>
        show (dat14 (E33 m) c).arrAt 3 cfg14.N = GenP.V34 m (outs m) c main_v271
        rw [GenP.V34_of m (outs m) c main_v271 (by decide), hV33 m c]
        exact ((dat14 (E33 m) c).arrAt_in 3 rfl _).trans (A_eq14 (E33 m) c 3)
      | ⟨4, _⟩ =>
        show (dat14 (E33 m) c).arrAt 4 cfg14.N = GenP.V34 m (outs m) c main_v272
        rw [GenP.V34_of m (outs m) c main_v272 (by decide), hV33 m c]
        exact ((dat14 (E33 m) c).arrAt_in 4 rfl _).trans (A_eq14 (E33 m) c 4)
      | ⟨5, _⟩ =>
        show (dat14 (E33 m) c).arrAt 5 cfg14.N = GenP.V34 m (outs m) c main_v273
        rw [hV34 m c]; unfold W34
        simp only [Function.update_self]
        rfl
    )
    (fun c b hb => GenP.V34_of m (outs m) c b (by
      intro h
      simp only [List.mem_cons, List.mem_singleton, List.not_mem_nil, or_false] at h
      exact hb (h ▸ Finset.mem_image.mpr ⟨5, Finset.mem_univ _, rfl⟩)))

end Cert.Kernel.Body

end
-- ==== Proof.KFrameSeg15.lean ====
/-
  The frame of the program: it runs to the end, faults nowhere, and leaves its thirteen argument arrays as launched.

  The program is 43 items in a row: stretches of host operations and 18 pipelined regions. Between two items a core
  holds every unscoped buffer at a known valuation. The valuations are defined one after the other from the launch
  memory: after a stretch, the stretch's fold over the valuation before it; after a region, the valuation before it
  with the region's output arrays set to what its write-backs leave (read off the region's proof data at the last
  point). A host operation writes a buffer of its own and a region writes its outputs only, so no item touches an
  argument array. Each region is one segment entered at the valuation before it and left at the one after it
  (Proof/LibClassARegion.lean), from its body obligation (Proof/KRegion0.lean to KRegion17.lean); the conditional frame over
  the segments (Proof/RegionsKernel.lean) then gives the claim.
-/
import proofs.«140713_j1864015806535_2_alg».proof.Proof.KFrameBase

set_option maxRecDepth 65536

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
set_option backward.isDefEq.respectTransparency.types false in
/-- Region 15 as a segment: entered at the valuation before it, left at the one after it. -/
def reg15 : Pipeline.RegionSeg (pcfgs (F := F)) GenP.adm (pdats m) () defs₀ Variants.none Lz lvz 15 :=
  Cert.LibClassARegion.region (pcfgs (F := F)) GenP.adm (pdats m) defs₀ Variants.none Lz lvz 15
    launch15.win.to₀ launch15.win launch15.block_pos launch15.stage_whole launch15.arr_whole
    (fun c => body_obligation15 (E35 m) c) (fun _ _ => rfl) (fun _ _ => rfl)
    (fun c => (pdats m 15 c).share_full fun _ => rfl) (fun _ => rfl) (fun _ => rfl)
    (fun c => by unfold Pipeline.prefHeld; rw [show (Finset.univ : Finset (Fin 0)) = ∅ from rfl, BI.bigSep_empty])
    (GenP.V35 m (outs m)) (GenP.V36 m (outs m))
    (fun c w => by rw [hV35 m c]; exact A_eq15 (E35 m) c w)
    (fun c w => by
      match w with
      | ⟨0, _⟩ =>
        show (dat15 (E35 m) c).arrAt 0 cfg15.N = GenP.V36 m (outs m) c main_v273
        rw [GenP.V36_of m (outs m) c main_v273 (by decide), hV35 m c]
        exact ((dat15 (E35 m) c).arrAt_in 0 rfl _).trans (A_eq15 (E35 m) c 0)
      | ⟨1, _⟩ =>
        show (dat15 (E35 m) c).arrAt 1 cfg15.N = GenP.V36 m (outs m) c main_v275
        rw [GenP.V36_of m (outs m) c main_v275 (by decide), hV35 m c]
        exact ((dat15 (E35 m) c).arrAt_in 1 rfl _).trans (A_eq15 (E35 m) c 1)
      | ⟨2, _⟩ =>
        show (dat15 (E35 m) c).arrAt 2 cfg15.N = GenP.V36 m (outs m) c main_v278
        rw [GenP.V36_of m (outs m) c main_v278 (by decide), hV35 m c]
        exact ((dat15 (E35 m) c).arrAt_in 2 rfl _).trans (A_eq15 (E35 m) c 2)
      | ⟨3, _⟩ =>
        show (dat15 (E35 m) c).arrAt 3 cfg15.N = GenP.V36 m (outs m) c main_v279
        rw [hV36 m c]; unfold W36
        simp only [Function.update_self]
        rfl
    )
    (fun c b hb => GenP.V36_of m (outs m) c b (by
      intro h
      simp only [List.mem_cons, List.mem_singleton, List.not_mem_nil, or_false] at h
      exact hb (h ▸ Finset.mem_image.mpr ⟨3, Finset.mem_univ _, rfl⟩)))

end Cert.Kernel.Body

end
-- ==== Proof.KFrameSeg16.lean ====
/-
  The frame of the program: it runs to the end, faults nowhere, and leaves its thirteen argument arrays as launched.

  The program is 43 items in a row: stretches of host operations and 18 pipelined regions. Between two items a core
  holds every unscoped buffer at a known valuation. The valuations are defined one after the other from the launch
  memory: after a stretch, the stretch's fold over the valuation before it; after a region, the valuation before it
  with the region's output arrays set to what its write-backs leave (read off the region's proof data at the last
  point). A host operation writes a buffer of its own and a region writes its outputs only, so no item touches an
  argument array. Each region is one segment entered at the valuation before it and left at the one after it
  (Proof/LibClassARegion.lean), from its body obligation (Proof/KRegion0.lean to KRegion17.lean); the conditional frame over
  the segments (Proof/RegionsKernel.lean) then gives the claim.
-/
import proofs.«140713_j1864015806535_2_alg».proof.Proof.KFrameBase

set_option maxRecDepth 65536

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
set_option backward.isDefEq.respectTransparency.types false in
/-- Region 16 as a segment: entered at the valuation before it, left at the one after it. -/
def reg16 : Pipeline.RegionSeg (pcfgs (F := F)) GenP.adm (pdats m) () defs₀ Variants.none Lz lvz 16 :=
  Cert.LibClassARegion.region (pcfgs (F := F)) GenP.adm (pdats m) defs₀ Variants.none Lz lvz 16
    launch16.win.to₀ launch16.win launch16.block_pos launch16.stage_whole launch16.arr_whole
    (fun c => body_obligation16 (E37 m) c) (fun _ _ => rfl) (fun _ _ => rfl)
    (fun c => (pdats m 16 c).share_full fun _ => rfl) (fun _ => rfl) (fun _ => rfl)
    (fun c => by unfold Pipeline.prefHeld; rw [show (Finset.univ : Finset (Fin 0)) = ∅ from rfl, BI.bigSep_empty])
    (GenP.V37 m (outs m)) (GenP.V38 m (outs m))
    (fun c w => by rw [hV37 m c]; exact A_eq16 (E37 m) c w)
    (fun c w => by
      match w with
      | ⟨0, _⟩ =>
        show (dat16 (E37 m) c).arrAt 0 cfg16.N = GenP.V38 m (outs m) c main_v279
        rw [GenP.V38_of m (outs m) c main_v279 (by decide), hV37 m c]
        exact ((dat16 (E37 m) c).arrAt_in 0 rfl _).trans (A_eq16 (E37 m) c 0)
      | ⟨1, _⟩ =>
        show (dat16 (E37 m) c).arrAt 1 cfg16.N = GenP.V38 m (outs m) c main_v292
        rw [GenP.V38_of m (outs m) c main_v292 (by decide), hV37 m c]
        exact ((dat16 (E37 m) c).arrAt_in 1 rfl _).trans (A_eq16 (E37 m) c 1)
      | ⟨2, _⟩ =>
        show (dat16 (E37 m) c).arrAt 2 cfg16.N = GenP.V38 m (outs m) c main_v299
        rw [GenP.V38_of m (outs m) c main_v299 (by decide), hV37 m c]
        exact ((dat16 (E37 m) c).arrAt_in 2 rfl _).trans (A_eq16 (E37 m) c 2)
      | ⟨3, _⟩ =>
        show (dat16 (E37 m) c).arrAt 3 cfg16.N = GenP.V38 m (outs m) c main_v300_0
        rw [hV38 m c]; unfold W38
        simp only [Function.update_self, Function.update_of_ne (StableHlo.devRef_ne_of_ne (by decide : main_v300_0 ≠ main_v300_2) : (Proc.devRef .tc main_v300_0 : DevRef τ sig) ≠ Proc.devRef .tc main_v300_2), Function.update_of_ne (StableHlo.devRef_ne_of_ne (by decide : main_v300_0 ≠ main_v300_1) : (Proc.devRef .tc main_v300_0 : DevRef τ sig) ≠ Proc.devRef .tc main_v300_1)]
        rfl
      | ⟨4, _⟩ =>
        show (dat16 (E37 m) c).arrAt 4 cfg16.N = GenP.V38 m (outs m) c main_v300_1
        rw [hV38 m c]; unfold W38
        simp only [Function.update_self, Function.update_of_ne (StableHlo.devRef_ne_of_ne (by decide : main_v300_1 ≠ main_v300_2) : (Proc.devRef .tc main_v300_1 : DevRef τ sig) ≠ Proc.devRef .tc main_v300_2)]
        rfl
      | ⟨5, _⟩ =>
        show (dat16 (E37 m) c).arrAt 5 cfg16.N = GenP.V38 m (outs m) c main_v300_2
        rw [hV38 m c]; unfold W38
        simp only [Function.update_self]
        rfl
    )
    (fun c b hb => GenP.V38_of m (outs m) c b (by
      intro h
      simp only [List.mem_cons, List.mem_singleton, List.not_mem_nil, or_false] at h
      rcases h with h | h | h
      · exact hb (h ▸ Finset.mem_image.mpr ⟨3, Finset.mem_univ _, rfl⟩)
      · exact hb (h ▸ Finset.mem_image.mpr ⟨4, Finset.mem_univ _, rfl⟩)
      · exact hb (h ▸ Finset.mem_image.mpr ⟨5, Finset.mem_univ _, rfl⟩)))

end Cert.Kernel.Body

end
-- ==== Proof.KFrameSeg17.lean ====
/-
  The frame of the program: it runs to the end, faults nowhere, and leaves its thirteen argument arrays as launched.

  The program is 43 items in a row: stretches of host operations and 18 pipelined regions. Between two items a core
  holds every unscoped buffer at a known valuation. The valuations are defined one after the other from the launch
  memory: after a stretch, the stretch's fold over the valuation before it; after a region, the valuation before it
  with the region's output arrays set to what its write-backs leave (read off the region's proof data at the last
  point). A host operation writes a buffer of its own and a region writes its outputs only, so no item touches an
  argument array. Each region is one segment entered at the valuation before it and left at the one after it
  (Proof/LibClassARegion.lean), from its body obligation (Proof/KRegion0.lean to KRegion17.lean); the conditional frame over
  the segments (Proof/RegionsKernel.lean) then gives the claim.
-/
import proofs.«140713_j1864015806535_2_alg».proof.Proof.KFrameBase

set_option maxRecDepth 65536

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
set_option backward.isDefEq.respectTransparency.types false in
/-- Region 17 as a segment: entered at the valuation before it, left at the one after it. -/
def reg17 : Pipeline.RegionSeg (pcfgs (F := F)) GenP.adm (pdats m) () defs₀ Variants.none Lz lvz 17 :=
  Cert.LibClassARegion.region (pcfgs (F := F)) GenP.adm (pdats m) defs₀ Variants.none Lz lvz 17
    launch17.win.to₀ launch17.win launch17.block_pos launch17.stage_whole launch17.arr_whole
    (fun c => body_obligation17 (E39 m) c) (fun _ _ => rfl) (fun _ _ => rfl)
    (fun c => (pdats m 17 c).share_full fun _ => rfl) (fun _ => rfl) (fun _ => rfl)
    (fun c => by unfold Pipeline.prefHeld; rw [show (Finset.univ : Finset (Fin 0)) = ∅ from rfl, BI.bigSep_empty])
    (GenP.V39 m (outs m)) (GenP.V40 m (outs m))
    (fun c w => by rw [hV39 m c]; exact A_eq17 (E39 m) c w)
    (fun c w => by
      match w with
      | ⟨0, _⟩ =>
        show (dat17 (E39 m) c).arrAt 0 cfg17.N = GenP.V40 m (outs m) c main_v300_0
        rw [GenP.V40_of m (outs m) c main_v300_0 (by decide), hV39 m c]
        exact ((dat17 (E39 m) c).arrAt_in 0 rfl _).trans (A_eq17 (E39 m) c 0)
      | ⟨1, _⟩ =>
        show (dat17 (E39 m) c).arrAt 1 cfg17.N = GenP.V40 m (outs m) c main_v302
        rw [GenP.V40_of m (outs m) c main_v302 (by decide), hV39 m c]
        exact ((dat17 (E39 m) c).arrAt_in 1 rfl _).trans (A_eq17 (E39 m) c 1)
      | ⟨2, _⟩ =>
        show (dat17 (E39 m) c).arrAt 2 cfg17.N = GenP.V40 m (outs m) c main_v306
        rw [GenP.V40_of m (outs m) c main_v306 (by decide), hV39 m c]
        exact ((dat17 (E39 m) c).arrAt_in 2 rfl _).trans (A_eq17 (E39 m) c 2)
      | ⟨3, _⟩ =>
        show (dat17 (E39 m) c).arrAt 3 cfg17.N = GenP.V40 m (outs m) c main_v307
        rw [GenP.V40_of m (outs m) c main_v307 (by decide), hV39 m c]
        exact ((dat17 (E39 m) c).arrAt_in 3 rfl _).trans (A_eq17 (E39 m) c 3)
      | ⟨4, _⟩ =>
        show (dat17 (E39 m) c).arrAt 4 cfg17.N = GenP.V40 m (outs m) c main_v308
        rw [GenP.V40_of m (outs m) c main_v308 (by decide), hV39 m c]
        exact ((dat17 (E39 m) c).arrAt_in 4 rfl _).trans (A_eq17 (E39 m) c 4)
      | ⟨5, _⟩ =>
        show (dat17 (E39 m) c).arrAt 5 cfg17.N = GenP.V40 m (outs m) c main_v309
        rw [hV40 m c]; unfold W40
        simp only [Function.update_self]
        rfl
    )
    (fun c b hb => GenP.V40_of m (outs m) c b (by
      intro h
      simp only [List.mem_cons, List.mem_singleton, List.not_mem_nil, or_false] at h
      exact hb (h ▸ Finset.mem_image.mpr ⟨5, Finset.mem_univ _, rfl⟩)))

end Cert.Kernel.Body

end
-- ==== Proof.KFrame.lean ====
/-
  The frame of the program: it runs to the end, faults nowhere, and leaves its thirteen argument arrays as launched.

  The program is 43 items in a row: stretches of host operations and 18 pipelined regions. Between two items a core
  holds every unscoped buffer at a known valuation. The valuations are defined one after the other from the launch
  memory: after a stretch, the stretch's fold over the valuation before it; after a region, the valuation before it
  with the region's output arrays set to what its write-backs leave (read off the region's proof data at the last
  point). A host operation writes a buffer of its own and a region writes its outputs only, so no item touches an
  argument array. Each region is one segment entered at the valuation before it and left at the one after it
  (Proof/LibClassARegion.lean), from its body obligation (Proof/KRegion0.lean to KRegion17.lean); the conditional frame over
  the segments (Proof/RegionsKernel.lean) then gives the claim.
-/
import proofs.«140713_j1864015806535_2_alg».proof.Proof.KFrameSeg0
import proofs.«140713_j1864015806535_2_alg».proof.Proof.KFrameSeg1
import proofs.«140713_j1864015806535_2_alg».proof.Proof.KFrameSeg2
import proofs.«140713_j1864015806535_2_alg».proof.Proof.KFrameSeg3
import proofs.«140713_j1864015806535_2_alg».proof.Proof.KFrameSeg4
import proofs.«140713_j1864015806535_2_alg».proof.Proof.KFrameSeg5
import proofs.«140713_j1864015806535_2_alg».proof.Proof.KFrameSeg6
import proofs.«140713_j1864015806535_2_alg».proof.Proof.KFrameSeg7
import proofs.«140713_j1864015806535_2_alg».proof.Proof.KFrameSeg8
import proofs.«140713_j1864015806535_2_alg».proof.Proof.KFrameSeg9
import proofs.«140713_j1864015806535_2_alg».proof.Proof.KFrameSeg10
import proofs.«140713_j1864015806535_2_alg».proof.Proof.KFrameSeg11
import proofs.«140713_j1864015806535_2_alg».proof.Proof.KFrameSeg12
import proofs.«140713_j1864015806535_2_alg».proof.Proof.KFrameSeg13
import proofs.«140713_j1864015806535_2_alg».proof.Proof.KFrameSeg14
import proofs.«140713_j1864015806535_2_alg».proof.Proof.KFrameSeg15
import proofs.«140713_j1864015806535_2_alg».proof.Proof.KFrameSeg16
import proofs.«140713_j1864015806535_2_alg».proof.Proof.KFrameSeg17

set_option maxRecDepth 65536

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The frame -/

variable (ρ : Dev nD → PrngReg)

set_option maxHeartbeats 16000000 in
set_option backward.isDefEq.respectTransparency.types false in
/-- From any memory with zero counters every weakly fair execution of @main terminates, nothing faults, and every
    final memory holds each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  GenP.frame_cond (m := m) (EP := emb₁) (ι := ()) (𝒱₀ := Variants.none) (L := Lz) (lv := lvz) (hL := fun _ _ => rfl) (ρ := ρ)
    (outs := outs m) (pdats := pdats m) (O₀ := 0) (G := fun _ => iprop(emp))
    (u₀ := initOf (Pipeline.cells cfgs cellOf_inj) (Pipeline.launchToks cfgs cellOf_inj))
    (hu₀ := Cert.LibClassARegion.launch_own (U := UR sig nD τ) _)
    (E := fun _ c => Cert.LibClassARegion.rest (U := UR sig nD τ) c)
    (hE0 := Pipeline.initEach Lz lvz fun c => by
      iintro ⟨H, -⟩
      iapply (Cert.LibClassARegion.rest_of_launch (U := UR sig nD τ) c 0 rfl (ρ c) _ _ _)
      iexact H)
    (hE18 := fun c => Cert.LibClassARegion.owes_of_rest (U := UR sig nD τ) c)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)
    (R3 := reg3 m) (hpre3 := fun _ => .rfl) (hpost3 := fun _ => .rfl)
    (R4 := reg4 m) (hpre4 := fun _ => .rfl) (hpost4 := fun _ => .rfl)
    (R5 := reg5 m) (hpre5 := fun _ => .rfl) (hpost5 := fun _ => .rfl)
    (R6 := reg6 m) (hpre6 := fun _ => .rfl) (hpost6 := fun _ => .rfl)
    (R7 := reg7 m) (hpre7 := fun _ => .rfl) (hpost7 := fun _ => .rfl)
    (R8 := reg8 m) (hpre8 := fun _ => .rfl) (hpost8 := fun _ => .rfl)
    (R9 := reg9 m) (hpre9 := fun _ => .rfl) (hpost9 := fun _ => .rfl)
    (R10 := reg10 m) (hpre10 := fun _ => .rfl) (hpost10 := fun _ => .rfl)
    (R11 := reg11 m) (hpre11 := fun _ => .rfl) (hpost11 := fun _ => .rfl)
    (R12 := reg12 m) (hpre12 := fun _ => .rfl) (hpost12 := fun _ => .rfl)
    (R13 := reg13 m) (hpre13 := fun _ => .rfl) (hpost13 := fun _ => .rfl)
    (R14 := reg14 m) (hpre14 := fun _ => .rfl) (hpost14 := fun _ => .rfl)
    (R15 := reg15 m) (hpre15 := fun _ => .rfl) (hpost15 := fun _ => .rfl)
    (R16 := reg16 m) (hpre16 := fun _ => .rfl) (hpost16 := fun _ => .rfl)
    (R17 := reg17 m) (hpre17 := fun _ => .rfl) (hpost17 := fun _ => .rfl)

end Cert.Kernel.Body

end
-- ==== Proof.KIRegion0.lean ====
/-
  Region 0 of the program: the first dense layer's tile kernel, one grid point at a time.

  A grid point t of the 10-point grid loads its 10000×128 block of the node features (window 0), the whole 128×64
  weight (window 1) and the 1×64 bias row (window 2), and stores into its 10000×64 output block (window 3) the product
  of the two plus the bias row repeated down the rows. The three inputs are read only, so after the body each holds
  its block as before, and the output block holds that one stored value; nothing else of the core's state moves.
  This is the body's obligation to the pipeline, at any float instance.
-/
import proofs.«140713_j1864015806535_2_alg».proof.Proof.Gen.KernelIdeal.Launch
import proofs.«140713_j1864015806535_2_alg».proof.Proof.Gen.KernelIdeal.Skeleton
import proofs.«140713_j1864015806535_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The four whole-buffer rectangles the body loads and stores through. -/
abbrev rx0 : Rect S10000x128 := Rect.unit (s := S10000x128) ![0, 0] S10000x128.size inb_S10000x128_S10000x128_0_0
abbrev rw0 : Rect S128x64 := Rect.unit (s := S128x64) ![0, 0] S128x64.size inb_S128x64_S128x64_0_0
abbrev rb0 : Rect S1x64 := Rect.unit (s := S1x64) ![0, 0] S1x64.size inb_S1x64_S1x64_0_0
abbrev ro0 : Rect S10000x64 := Rect.unit (s := S10000x64) ![0, 0] S10000x64.size inb_S10000x64_S10000x64_0_0

/-- The output block after the body: the one store's value, x·w + b, of the three input blocks. -/
def out0_3 (x0 : Vec F S10000x128 .f32) (x1 : Vec F S128x64 .f32) (x2 : Vec F S1x64 .f32) : Vec F S10000x64 .f32 :=
  View.canon [⟨ro0, k0_pay1 (View.ld x0 rx0) (View.ld x1 rw0) (View.ld x2 rb0)⟩]

/-- The one store covers the whole output block. -/
theorem cover0_3 (p0 : Vec F S10000x64 .f32) (y : S10000x64.Idx) :
    ∃ pc ∈ ([⟨ro0, p0⟩] : List (View.Piece (Elt F) S10000x64 .f32)), y ∈ pc.1.set :=
  View.cover_of_tiled [⟨ro0, p0⟩] S10000x64.size (by rfl) y

set_option maxHeartbeats 1000000 in
/-- The body on whole staging buffers: the inputs stay, the output ends at out0_3 of the inputs. -/
theorem sound_kernel0 (c : Dev nD) (E : Set ℕ) (i : grid0.Coords)
    (arg1 : Memref sig .tc .vmem S10000x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S10000x64 .f32) (harg4 : arg4.IsWhole)
    (x0 : Vec F S10000x128 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__matmul_bias_kernel i arg1 harg1 arg2 harg2 arg3 harg3 arg4 harg4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the first pipeline on core c: the arrays as the region finds them; after the body at point t each
    input's buffer at its block and the output's at out0_3 of the input blocks; the region's invariant the untouched
    scoped rest and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so sound_kernel0 applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Body

end
-- ==== Proof.KIRegion1.lean ====
/-
  Region 1 of the program: the mix-and-accumulate tile kernel, one grid point at a time.

  At grid point t the body loads its tile of h and of agg (windows 0 and 1) and the 1×1 mixing weight g (window 2),
  stores xm = g·agg + (1 − g)·h into its tile of the output (window 3), and adds the column sums of xm and of xm·xm
  to two one-row outputs (windows 4 and 5) that stay in place over the whole grid: at the first point the rows are
  first set to zero, at every later point they hold what the point before left. So the body has two cases, told apart
  by the grid coordinate alone; in the first it reads none of its outputs before covering them, in the second it
  reads the two rows. What the three outputs hold after point n is defined by recursion on n, and the body's
  obligation to the pipeline is proved case by case. At any float instance.
-/
import proofs.«140713_j1864015806535_2_alg».proof.Proof.Gen.KernelIdeal.Launch
import proofs.«140713_j1864015806535_2_alg».proof.Proof.Gen.KernelIdeal.Skeleton
import proofs.«140713_j1864015806535_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's branch condition from the grid coordinate: "this is the first point". -/
abbrev cond1_0 (i : grid1.Coords) : Prop := (Scalar.cmpi .ne (Scalar.extui (Scalar.cmpi .eq (BitVec.ofNat 32 (i 0).val) 0#32)) 0#32) = 1#1
/-- It holds at the first point only: decided over the grid. -/
theorem hcond1_0 : ∀ t : Fin cfg1.N, cond1_0 (grid1.coords t) ↔ t.val % 10 = 0 :=
  (by decide +kernel : ∀ t : Fin grid1.N, cond1_0 (grid1.coords t) ↔ t.val % 10 = 0)

/-- One staging buffer of each output window, through which its contents are stated. -/
abbrev VO1_3 : View sig .tc .vmem S10000x64 .f32 := (Memref.whole cc1_stg3_0 : Memref sig .tc .vmem S10000x64 .f32).view
abbrev VO1_4 : View sig .tc .vmem S1x64 .f32 := (Memref.whole cc1_stg4_0 : Memref sig .tc .vmem S1x64 .f32).view
abbrev VO1_5 : View sig .tc .vmem S1x64 .f32 := (Memref.whole cc1_stg5_0 : Memref sig .tc .vmem S1x64 .f32).view

/-- Each window's current staging buffer at point t, as the pipeline passes it, and its wholeness. -/
abbrev ms1_0 (t : Fin cfg1.N) : Memref sig .tc .vmem S10000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S10000x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S10000x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x64 .f32 := win1_5.stage (cfg1.slots t 5)
abbrev hs1_5 (t : Fin cfg1.N) : (ms1_5 t).IsWhole := hstage1_5 ((cfg1.slots t 5).cast nbuf1_5)

/-- The three outputs' piece lists, and their contents. -/
abbrev Pcs1 : Type := List (View.Piece (Elt F) S10000x64 .f32) × List (View.Piece (Elt F) S1x64 .f32) × List (View.Piece (Elt F) S1x64 .f32)
abbrev Outs1 : Type := Vec F S10000x64 .f32 × Vec F S1x64 .f32 × Vec F S1x64 .f32

set_option maxHeartbeats 4000000 in
/-- THE FIRST POINT (the branch taken): what the body's stores leave in each output's staging buffer, as pieces (last
    first), with the proof that on whole staging buffers, the inputs' at their contents and the outputs' at anything,
    the body runs to the continuation holding the inputs' as they were and each output's with its pieces written. -/
noncomputable def kernelRun1_A (c : Dev nD) (i : grid1.Coords)
    (arg1 : Memref sig .tc .vmem S10000x64 .f32) (harg1 : arg1.IsWhole) (arg2 : Memref sig .tc .vmem S10000x64 .f32) (harg2 : arg2.IsWhole)
    (arg3 : Memref sig .tc .vmem S1x1 .f32) (harg3 : arg3.IsWhole) (arg4 : Memref sig .tc .vmem S10000x64 .f32) (harg4 : arg4.IsWhole)
    (arg5 : Memref sig .tc .vmem S1x64 .f32) (harg5 : arg5.IsWhole) (arg6 : Memref sig .tc .vmem S1x64 .f32) (harg6 : arg6.IsWhole)
    (hc0 : cond1_0 i) (x0 : Vec F S10000x64 .f32) (x1 : Vec F S10000x64 .f32) (x2 : Vec F S1x1 .f32) :
    { L : Pcs1 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2.1)
                ∗ (∃ f, arg6.view.loc (c : Thread nD τ) ↦[arg6.view.set]{fullShare} arg6.view.writes (Elt F) f L.2.2)) -∗ K ⟨⟩))
          ⊢ wp frame (wpE (defs₀ (F := F)) Variants.none c none) E (cc1__mix_reduce_kernel i arg1 harg1 arg2 harg2 arg3 harg3 arg4 harg4 arg5 harg5 arg6 harg6) K } := by
  refine ⟨(?_, ?_, ?_), fun E K => ?run⟩
  case run =>
    simp only [cc1__mix_reduce_kernel_eq_skeleton]; unfold cc1__mix_reduce_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0
    obtain rfl := harg2.eq_unread hf1
    obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

set_option maxHeartbeats 4000000 in
/-- EVERY LATER POINT (the branch not taken): the same, the two rows entered at their running contents xo4, xo5. -/
noncomputable def kernelRun1_B (c : Dev nD) (i : grid1.Coords)
    (arg1 : Memref sig .tc .vmem S10000x64 .f32) (harg1 : arg1.IsWhole) (arg2 : Memref sig .tc .vmem S10000x64 .f32) (harg2 : arg2.IsWhole)
    (arg3 : Memref sig .tc .vmem S1x1 .f32) (harg3 : arg3.IsWhole) (arg4 : Memref sig .tc .vmem S10000x64 .f32) (harg4 : arg4.IsWhole)
    (arg5 : Memref sig .tc .vmem S1x64 .f32) (harg5 : arg5.IsWhole) (arg6 : Memref sig .tc .vmem S1x64 .f32) (harg6 : arg6.IsWhole)
    (hc0 : ¬cond1_0 i) (x0 : Vec F S10000x64 .f32) (x1 : Vec F S10000x64 .f32) (x2 : Vec F S1x1 .f32) (xo4 : Vec F S1x64 .f32) (xo5 : Vec F S1x64 .f32) :
    { L : Pcs1 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2.1)
                ∗ (∃ f, arg6.view.loc (c : Thread nD τ) ↦[arg6.view.set]{fullShare} arg6.view.writes (Elt F) f L.2.2)) -∗ K ⟨⟩))
          ⊢ wp frame (wpE (defs₀ (F := F)) Variants.none c none) E (cc1__mix_reduce_kernel i arg1 harg1 arg2 harg2 arg3 harg3 arg4 harg4 arg5 harg5 arg6 harg6) K } := by
  refine ⟨(?_, ?_, ?_), fun E K => ?run⟩
  case run =>
    simp only [cc1__mix_reduce_kernel_eq_skeleton]; unfold cc1__mix_reduce_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg1.eq_unread hf0
    obtain rfl := harg2.eq_unread hf1
    obtain rfl := harg3.eq_unread hf2
    obtain rfl := harg5.eq_unread hf4
    obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

/-- The two runs at a grid point, on the point's staging buffers and input blocks. -/
abbrev runA1 (c : Dev nD) (t : Fin cfg1.N) (h : cond1_0 (grid1.coords t)) :=
  kernelRun1_A (F := F) c (grid1.coords t) (ms1_0 t) (hs1_0 t) (ms1_1 t) (hs1_1 t) (ms1_2 t) (hs1_2 t) (ms1_3 t) (hs1_3 t)
    (ms1_4 t) (hs1_4 t) (ms1_5 t) (hs1_5 t) h (iblk1 V c 0 t) (iblk1 V c 1 t) (iblk1 V c 2 t)
abbrev runB1 (c : Dev nD) (t : Fin cfg1.N) (h : ¬cond1_0 (grid1.coords t)) (xo4 : Vec F S1x64 .f32) (xo5 : Vec F S1x64 .f32) :=
  kernelRun1_B (F := F) c (grid1.coords t) (ms1_0 t) (hs1_0 t) (ms1_1 t) (hs1_1 t) (ms1_2 t) (hs1_2 t) (ms1_3 t) (hs1_3 t)
    (ms1_4 t) (hs1_4 t) (ms1_5 t) (hs1_5 t) h (iblk1 V c 0 t) (iblk1 V c 1 t) (iblk1 V c 2 t) xo4 xo5

/-- What a list of pieces leaves in each output's staging buffer: the pieces read back over junk. -/
def readBack1 (L : Pcs1 (F := F)) : Outs1 (F := F) :=
  (VO1_3.read (Elt F) (VO1_3.writes (Elt F) VO1_3.junk L.1),
   VO1_4.read (Elt F) (VO1_4.writes (Elt F) VO1_4.junk L.2.1),
   VO1_5.read (Elt F) (VO1_5.writes (Elt F) VO1_5.junk L.2.2))

/-- Each case's pieces tile their output's block (checked by evaluation), so they cover it. -/
theorem cover1_A_3 (c : Dev nD) (t : Fin cfg1.N) (h : cond1_0 (grid1.coords t)) (y : S10000x64.Idx) :
    ∃ pc ∈ (runA1 V c t h).1.1, y ∈ pc.1.set := View.cover_of_tiledL (runA1 V c t h).1.1 S10000x64.size (by sl_kernel_rfl) y
theorem cover1_A_4 (c : Dev nD) (t : Fin cfg1.N) (h : cond1_0 (grid1.coords t)) (y : S1x64.Idx) :
    ∃ pc ∈ (runA1 V c t h).1.2.1, y ∈ pc.1.set := View.cover_of_tiledL (runA1 V c t h).1.2.1 S1x64.size (by sl_kernel_rfl) y
theorem cover1_A_5 (c : Dev nD) (t : Fin cfg1.N) (h : cond1_0 (grid1.coords t)) (y : S1x64.Idx) :
    ∃ pc ∈ (runA1 V c t h).1.2.2, y ∈ pc.1.set := View.cover_of_tiledL (runA1 V c t h).1.2.2 S1x64.size (by sl_kernel_rfl) y
theorem cover1_B_3 (c : Dev nD) (t : Fin cfg1.N) (h : ¬cond1_0 (grid1.coords t)) (xo4 xo5) (y : S10000x64.Idx) :
    ∃ pc ∈ (runB1 V c t h xo4 xo5).1.1, y ∈ pc.1.set := View.cover_of_tiledL (runB1 V c t h xo4 xo5).1.1 S10000x64.size (by sl_kernel_rfl) y
theorem cover1_B_4 (c : Dev nD) (t : Fin cfg1.N) (h : ¬cond1_0 (grid1.coords t)) (xo4 xo5) (y : S1x64.Idx) :
    ∃ pc ∈ (runB1 V c t h xo4 xo5).1.2.1, y ∈ pc.1.set := View.cover_of_tiledL (runB1 V c t h xo4 xo5).1.2.1 S1x64.size (by sl_kernel_rfl) y
theorem cover1_B_5 (c : Dev nD) (t : Fin cfg1.N) (h : ¬cond1_0 (grid1.coords t)) (xo4 xo5) (y : S1x64.Idx) :
    ∃ pc ∈ (runB1 V c t h xo4 xo5).1.2.2, y ∈ pc.1.set := View.cover_of_tiledL (runB1 V c t h xo4 xo5).1.2.2 S1x64.size (by sl_kernel_rfl) y

/-- THE ACCUMULATION. What the three outputs' staging buffers hold after the body at position n: the first point's
    case at 0, the later points' case after that, the two rows entered at what position n − 1 left. -/
def outsAt1 (c : Dev nD) : (n : ℕ) → n < cfg1.N → Outs1 (F := F)
  | 0, hn => readBack1 (runA1 V c ⟨0, hn⟩ ((hcond1_0 ⟨0, hn⟩).mpr (Nat.zero_mod _))).1
  | n + 1, hn =>
    if h0 : (n + 1) % 10 = 0 then
      readBack1 (runA1 V c ⟨n + 1, hn⟩ ((hcond1_0 ⟨n + 1, hn⟩).mpr h0)).1
    else
      readBack1 (runB1 V c ⟨n + 1, hn⟩ (fun h => h0 ((hcond1_0 ⟨n + 1, hn⟩).mp h))
        (outsAt1 c n (Nat.lt_of_succ_lt hn)).2.1 (outsAt1 c n (Nat.lt_of_succ_lt hn)).2.2).1

theorem outsAt1_A (c : Dev nD) (t : Fin cfg1.N) (h0 : t.val % 10 = 0) :
    outsAt1 V c t.val t.isLt = readBack1 (runA1 V c t ((hcond1_0 t).mpr h0)).1 := by
  obtain ⟨n, hn⟩ := t
  cases n with
  | zero => exact rfl
  | succ n => exact (dif_pos h0).trans rfl

theorem outsAt1_B (c : Dev nD) (t : Fin cfg1.N) (h0 : ¬t.val % 10 = 0) :
    outsAt1 V c t.val t.isLt = readBack1 (runB1 V c t (fun h => h0 ((hcond1_0 t).mp h))
      (outsAt1 V c (t.val - 1) (Nat.lt_of_le_of_lt (Nat.sub_le _ _) t.isLt)).2.1
      (outsAt1 V c (t.val - 1) (Nat.lt_of_le_of_lt (Nat.sub_le _ _) t.isLt)).2.2).1 := by
  obtain ⟨n, hn⟩ := t
  cases n with
  | zero => exact (by exfalso; (try dsimp only at h0); exact absurd (Nat.zero_mod _) h0)
  | succ n => exact (dif_neg h0).trans rfl

/-- The proof data of this pipeline on core c: the arrays as the region finds them; after the body at point t each
    input's buffer at its block and the outputs' at outsAt; the invariant the untouched scoped rest and the
    generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
    | ⟨5, _⟩ => (outsAt1 V c t.val t.isLt).2.2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]
theorem after1_5 (c : Dev nD) (t : Fin cfg1.N) : (dat1 V c).after 5 t = (outsAt1 V c t.val t.isLt).2.2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- At a later point each row's current staging buffer holds what the body left at the point before: the point is not
    the first, and the row is written back at the last point only. -/
theorem before1_4_B (c : Dev nD) (t : Fin cfg1.N) (h0 : ¬t.val % 10 = 0) (d) :
    (dat1 V c).before 4 t d = (outsAt1 V c (t.val - 1) (Nat.lt_of_le_of_lt (Nat.sub_le _ _) t.isLt)).2.1 := by
  have hN : t.val < 10 := lt_of_lt_of_eq t.isLt (show cfg1.N = 10 from N_1)
  rw [Dat.before_out_kept _ 4 rfl t (by omega) (Bool.eq_false_iff.mpr fun h => by have := (flush1_4 _).mp h; dsimp only at this; omega)
    (fun _ => rfl) (fun _ _ => rfl)]
  dsimp only [dat1]
theorem before1_5_B (c : Dev nD) (t : Fin cfg1.N) (h0 : ¬t.val % 10 = 0) (d) :
    (dat1 V c).before 5 t d = (outsAt1 V c (t.val - 1) (Nat.lt_of_le_of_lt (Nat.sub_le _ _) t.isLt)).2.2 := by
  have hN : t.val < 10 := lt_of_lt_of_eq t.isLt (show cfg1.N = 10 from N_1)
  rw [Dat.before_out_kept _ 5 rfl t (by omega) (Bool.eq_false_iff.mpr fun h => by have := (flush1_5 _).mp h; dsimp only at this; omega)
    (fun _ => rfl) (fun _ _ => rfl)]
  dsimp only [dat1]

/-- What the body is called with at point t, window by window, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 2000000 in
/-- The body at any point: the inputs' buffers hold their blocks; the closed form of the condition says which case the
    point is in; at a later point the two rows hold what the point before left; so that case's run applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4, after1_5]
  have hN : t.val < 10 := lt_of_lt_of_eq t.isLt (show cfg1.N = 10 from N_1)
  by_cases h0 : t.val % 10 = 0
  · rw [outsAt1_A V c t h0]
    unfold readBack1
    dsimp only
    iintro ⟨HΦ, Ho, ⟨%d0, H0⟩, ⟨%d1, H1⟩, ⟨%d2, H2⟩, ⟨%d3, H3⟩, ⟨%d4, H4⟩, ⟨%d5, H5⟩⟩
    iapply ((runA1 V c t ((hcond1_0 t).mpr h0)).2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover1_A_3 V c t _)
    isplitl [H4]
    · unfold owns; iexists _; isplitr
      swap; · iexact H4
      ipureintro; exact View.read_writes_of_cover _ _ _ _ _ (cover1_A_4 V c t _)
    unfold owns; iexists _; isplitr
    swap; · iexact H5
    ipureintro; exact View.read_writes_of_cover _ _ _ _ _ (cover1_A_5 V c t _)
  · rw [outsAt1_B V c t h0]
    simp only [before1_4_B V c t h0, before1_5_B V c t h0]
    unfold readBack1
    dsimp only
    iintro ⟨HΦ, Ho, ⟨%d0, H0⟩, ⟨%d1, H1⟩, ⟨%d2, H2⟩, ⟨%d3, H3⟩, ⟨%d4, H4⟩, ⟨%d5, H5⟩⟩
    iapply ((runB1 V c t (fun h => h0 ((hcond1_0 t).mp h)) _ _).2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover1_B_3 V c t _ _ _)
    isplitl [H4]
    · unfold owns; iexists _; isplitr
      swap; · iexact H4
      ipureintro; exact View.read_writes_of_cover _ _ _ _ _ (cover1_B_4 V c t _ _ _)
    unfold owns; iexists _; isplitr
    swap; · iexact H5
    ipureintro; exact View.read_writes_of_cover _ _ _ _ _ (cover1_B_5 V c t _ _ _)

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Body

end
-- ==== Proof.KIRegion2.lean ====
/-
  Region 2 of the program: the normalise-and-cut-off tile kernel: (x − mean)·rsqrt(max(var, 0) + ε)·scale + bias, cut off at 0, the four rows repeated down the tile, one grid point at a time.

  At a grid point the body loads its 5 input blocks whole and stores one value into its output block, also whole.
  The inputs are read only, so after the body each holds its block as before and the output block holds that one
  stored value; nothing else of the core's state moves. This is the body's obligation to the pipeline, at any float instance.
-/
import proofs.«140713_j1864015806535_2_alg».proof.Proof.Gen.KernelIdeal.Launch
import proofs.«140713_j1864015806535_2_alg».proof.Proof.Gen.KernelIdeal.Skeleton
import proofs.«140713_j1864015806535_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_0 : Rect S10000x64 := Rect.unit (s := S10000x64) ![0, 0] S10000x64.size inb_S10000x64_S10000x64_0_0
abbrev r2_1 : Rect S1x64 := Rect.unit (s := S1x64) ![0, 0] S1x64.size inb_S1x64_S1x64_0_0
abbrev r2_2 : Rect S1x64 := Rect.unit (s := S1x64) ![0, 0] S1x64.size inb_S1x64_S1x64_0_0
abbrev r2_3 : Rect S1x64 := Rect.unit (s := S1x64) ![0, 0] S1x64.size inb_S1x64_S1x64_0_0
abbrev r2_4 : Rect S1x64 := Rect.unit (s := S1x64) ![0, 0] S1x64.size inb_S1x64_S1x64_0_0
abbrev r2_5 : Rect S10000x64 := Rect.unit (s := S10000x64) ![0, 0] S10000x64.size inb_S10000x64_S10000x64_0_0

/-- The output block after the body: the one store's value of the input blocks. -/
def out2_5 (x0 : Vec F S10000x64 .f32) (x1 : Vec F S1x64 .f32) (x2 : Vec F S1x64 .f32) (x3 : Vec F S1x64 .f32) (x4 : Vec F S1x64 .f32) : Vec F S10000x64 .f32 :=
  View.canon [⟨r2_5, k2_pay1 (View.ld x0 r2_0) (View.ld x1 r2_1) (View.ld x2 r2_2) (View.ld x3 r2_3) (View.ld x4 r2_4)⟩]

/-- The one store covers the whole output block. -/
theorem cover2_5 (p0 : Vec F S10000x64 .f32) (y : S10000x64.Idx) :
    ∃ pc ∈ ([⟨r2_5, p0⟩] : List (View.Piece (Elt F) S10000x64 .f32)), y ∈ pc.1.set :=
  View.cover_of_tiled [⟨r2_5, p0⟩] S10000x64.size (by rfl) y

set_option maxHeartbeats 1000000 in
/-- The body on whole staging buffers: the inputs stay, the output ends at out2_5 of the inputs. -/
theorem sound_kernel2 (c : Dev nD) (E : Set ℕ) (i : grid2.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__bn_relu_kernel i arg1 harg1 arg2 harg2 arg3 harg3 arg4 harg4 arg5 harg5 arg6 harg6) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The proof data of this pipeline on core c: the arrays as the region finds them; after the body at point t each
    input's buffer at its block and the output's at the stored value of the input blocks; the invariant the untouched
    scoped rest and the generator register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point t, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so sound_kernel2 applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Body

end
-- ==== Proof.KIRegion3.lean ====
/-
  Region 3 of the program: a dense layer's tile kernel: the tile's rows times the whole weight, plus the bias row repeated down the rows, one grid point at a time.

  At a grid point the body loads its 3 input blocks whole and stores one value into its output block, also whole.
  The inputs are read only, so after the body each holds its block as before and the output block holds that one
  stored value; nothing else of the core's state moves. This is the body's obligation to the pipeline, at any float instance.
-/
import proofs.«140713_j1864015806535_2_alg».proof.Proof.Gen.KernelIdeal.Launch
import proofs.«140713_j1864015806535_2_alg».proof.Proof.Gen.KernelIdeal.Skeleton
import proofs.«140713_j1864015806535_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev r3_0 : Rect S10000x64 := Rect.unit (s := S10000x64) ![0, 0] S10000x64.size inb_S10000x64_S10000x64_0_0
abbrev r3_1 : Rect S64x32 := Rect.unit (s := S64x32) ![0, 0] S64x32.size inb_S64x32_S64x32_0_0
abbrev r3_2 : Rect S1x32 := Rect.unit (s := S1x32) ![0, 0] S1x32.size inb_S1x32_S1x32_0_0
abbrev r3_3 : Rect S10000x32 := Rect.unit (s := S10000x32) ![0, 0] S10000x32.size inb_S10000x32_S10000x32_0_0

/-- The output block after the body: the one store's value of the input blocks. -/
def out3_3 (x0 : Vec F S10000x64 .f32) (x1 : Vec F S64x32 .f32) (x2 : Vec F S1x32 .f32) : Vec F S10000x32 .f32 :=
  View.canon [⟨r3_3, k3_pay1 (View.ld x0 r3_0) (View.ld x1 r3_1) (View.ld x2 r3_2)⟩]

/-- The one store covers the whole output block. -/
theorem cover3_3 (p0 : Vec F S10000x32 .f32) (y : S10000x32.Idx) :
    ∃ pc ∈ ([⟨r3_3, p0⟩] : List (View.Piece (Elt F) S10000x32 .f32)), y ∈ pc.1.set :=
  View.cover_of_tiled [⟨r3_3, p0⟩] S10000x32.size (by rfl) y

set_option maxHeartbeats 1000000 in
/-- The body on whole staging buffers: the inputs stay, the output ends at out3_3 of the inputs. -/
theorem sound_kernel3 (c : Dev nD) (E : Set ℕ) (i : grid3.Coords) (arg1 : Memref sig .tc .vmem S10000x64 .f32) (harg1 : arg1.IsWhole) (arg2 : Memref sig .tc .vmem S64x32 .f32) (harg2 : arg2.IsWhole) (arg3 : Memref sig .tc .vmem S1x32 .f32) (harg3 : arg3.IsWhole) (arg4 : Memref sig .tc .vmem S10000x32 .f32) (harg4 : arg4.IsWhole)
    (x0 : Vec F S10000x64 .f32) (x1 : Vec F S64x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__matmul_bias_kernel i arg1 harg1 arg2 harg2 arg3 harg3 arg4 harg4) K := by
  simp only [cc3__matmul_bias_kernel_eq_skeleton]; unfold cc3__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of this pipeline on core c: the arrays as the region finds them; after the body at point t each
    input's buffer at its block and the output's at the stored value of the input blocks; the invariant the untouched
    scoped rest and the generator register; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point t, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so sound_kernel3 applies; the invariant and what the
    core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Body

end
-- ==== Proof.KIRegion4.lean ====
/-
  Region 4 of the program: the mix-and-accumulate tile kernel, one grid point at a time.

  At grid point t the body loads its tile of h and of agg (windows 0 and 1) and the 1×1 mixing weight g (window 2),
  stores xm = g·agg + (1 − g)·h into its tile of the output (window 3), and adds the column sums of xm and of xm·xm
  to two one-row outputs (windows 4 and 5) that stay in place over the whole grid: at the first point the rows are
  first set to zero, at every later point they hold what the point before left. So the body has two cases, told apart
  by the grid coordinate alone; in the first it reads none of its outputs before covering them, in the second it
  reads the two rows. What the three outputs hold after point n is defined by recursion on n, and the body's
  obligation to the pipeline is proved case by case. At any float instance.
-/
import proofs.«140713_j1864015806535_2_alg».proof.Proof.Gen.KernelIdeal.Launch
import proofs.«140713_j1864015806535_2_alg».proof.Proof.Gen.KernelIdeal.Skeleton
import proofs.«140713_j1864015806535_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The body's branch condition from the grid coordinate: "this is the first point". -/
abbrev cond4_0 (i : grid4.Coords) : Prop := (Scalar.cmpi .ne (Scalar.extui (Scalar.cmpi .eq (BitVec.ofNat 32 (i 0).val) 0#32)) 0#32) = 1#1
/-- It holds at the first point only: decided over the grid. -/
theorem hcond4_0 : ∀ t : Fin cfg4.N, cond4_0 (grid4.coords t) ↔ t.val % 10 = 0 :=
  (by decide +kernel : ∀ t : Fin grid4.N, cond4_0 (grid4.coords t) ↔ t.val % 10 = 0)

/-- One staging buffer of each output window, through which its contents are stated. -/
abbrev VO4_3 : View sig .tc .vmem S10000x32 .f32 := (Memref.whole cc4_stg3_0 : Memref sig .tc .vmem S10000x32 .f32).view
abbrev VO4_4 : View sig .tc .vmem S1x32 .f32 := (Memref.whole cc4_stg4_0 : Memref sig .tc .vmem S1x32 .f32).view
abbrev VO4_5 : View sig .tc .vmem S1x32 .f32 := (Memref.whole cc4_stg5_0 : Memref sig .tc .vmem S1x32 .f32).view

/-- Each window's current staging buffer at point t, as the pipeline passes it, and its wholeness. -/
abbrev ms4_0 (t : Fin cfg4.N) : Memref sig .tc .vmem S10000x32 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S10000x32 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x1 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S10000x32 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x32 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x32 .f32 := win4_5.stage (cfg4.slots t 5)
abbrev hs4_5 (t : Fin cfg4.N) : (ms4_5 t).IsWhole := hstage4_5 ((cfg4.slots t 5).cast nbuf4_5)

/-- The three outputs' piece lists, and their contents. -/
abbrev Pcs4 : Type := List (View.Piece (Elt F) S10000x32 .f32) × List (View.Piece (Elt F) S1x32 .f32) × List (View.Piece (Elt F) S1x32 .f32)
abbrev Outs4 : Type := Vec F S10000x32 .f32 × Vec F S1x32 .f32 × Vec F S1x32 .f32

set_option maxHeartbeats 4000000 in
/-- THE FIRST POINT (the branch taken): what the body's stores leave in each output's staging buffer, as pieces (last
    first), with the proof that on whole staging buffers, the inputs' at their contents and the outputs' at anything,
    the body runs to the continuation holding the inputs' as they were and each output's with its pieces written. -/
noncomputable def kernelRun4_A (c : Dev nD) (i : grid4.Coords)
    (arg1 : Memref sig .tc .vmem S10000x32 .f32) (harg1 : arg1.IsWhole) (arg2 : Memref sig .tc .vmem S10000x32 .f32) (harg2 : arg2.IsWhole)
    (arg3 : Memref sig .tc .vmem S1x1 .f32) (harg3 : arg3.IsWhole) (arg4 : Memref sig .tc .vmem S10000x32 .f32) (harg4 : arg4.IsWhole)
    (arg5 : Memref sig .tc .vmem S1x32 .f32) (harg5 : arg5.IsWhole) (arg6 : Memref sig .tc .vmem S1x32 .f32) (harg6 : arg6.IsWhole)
    (hc0 : cond4_0 i) (x0 : Vec F S10000x32 .f32) (x1 : Vec F S10000x32 .f32) (x2 : Vec F S1x1 .f32) :
    { L : Pcs4 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2.1)
                ∗ (∃ f, arg6.view.loc (c : Thread nD τ) ↦[arg6.view.set]{fullShare} arg6.view.writes (Elt F) f L.2.2)) -∗ K ⟨⟩))
          ⊢ wp frame (wpE (defs₀ (F := F)) Variants.none c none) E (cc4__mix_reduce_kernel i arg1 harg1 arg2 harg2 arg3 harg3 arg4 harg4 arg5 harg5 arg6 harg6) K } := by
  refine ⟨(?_, ?_, ?_), fun E K => ?run⟩
  case run =>
    simp only [cc4__mix_reduce_kernel_eq_skeleton]; unfold cc4__mix_reduce_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0
    obtain rfl := harg2.eq_unread hf1
    obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

set_option maxHeartbeats 4000000 in
/-- EVERY LATER POINT (the branch not taken): the same, the two rows entered at their running contents xo4, xo5. -/
noncomputable def kernelRun4_B (c : Dev nD) (i : grid4.Coords)
    (arg1 : Memref sig .tc .vmem S10000x32 .f32) (harg1 : arg1.IsWhole) (arg2 : Memref sig .tc .vmem S10000x32 .f32) (harg2 : arg2.IsWhole)
    (arg3 : Memref sig .tc .vmem S1x1 .f32) (harg3 : arg3.IsWhole) (arg4 : Memref sig .tc .vmem S10000x32 .f32) (harg4 : arg4.IsWhole)
    (arg5 : Memref sig .tc .vmem S1x32 .f32) (harg5 : arg5.IsWhole) (arg6 : Memref sig .tc .vmem S1x32 .f32) (harg6 : arg6.IsWhole)
    (hc0 : ¬cond4_0 i) (x0 : Vec F S10000x32 .f32) (x1 : Vec F S10000x32 .f32) (x2 : Vec F S1x1 .f32) (xo4 : Vec F S1x32 .f32) (xo5 : Vec F S1x32 .f32) :
    { L : Pcs4 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2.1)
                ∗ (∃ f, arg6.view.loc (c : Thread nD τ) ↦[arg6.view.set]{fullShare} arg6.view.writes (Elt F) f L.2.2)) -∗ K ⟨⟩))
          ⊢ wp frame (wpE (defs₀ (F := F)) Variants.none c none) E (cc4__mix_reduce_kernel i arg1 harg1 arg2 harg2 arg3 harg3 arg4 harg4 arg5 harg5 arg6 harg6) K } := by
  refine ⟨(?_, ?_, ?_), fun E K => ?run⟩
  case run =>
    simp only [cc4__mix_reduce_kernel_eq_skeleton]; unfold cc4__mix_reduce_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg1.eq_unread hf0
    obtain rfl := harg2.eq_unread hf1
    obtain rfl := harg3.eq_unread hf2
    obtain rfl := harg5.eq_unread hf4
    obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

/-- The two runs at a grid point, on the point's staging buffers and input blocks. -/
abbrev runA4 (c : Dev nD) (t : Fin cfg4.N) (h : cond4_0 (grid4.coords t)) :=
  kernelRun4_A (F := F) c (grid4.coords t) (ms4_0 t) (hs4_0 t) (ms4_1 t) (hs4_1 t) (ms4_2 t) (hs4_2 t) (ms4_3 t) (hs4_3 t)
    (ms4_4 t) (hs4_4 t) (ms4_5 t) (hs4_5 t) h (iblk4 V c 0 t) (iblk4 V c 1 t) (iblk4 V c 2 t)
abbrev runB4 (c : Dev nD) (t : Fin cfg4.N) (h : ¬cond4_0 (grid4.coords t)) (xo4 : Vec F S1x32 .f32) (xo5 : Vec F S1x32 .f32) :=
  kernelRun4_B (F := F) c (grid4.coords t) (ms4_0 t) (hs4_0 t) (ms4_1 t) (hs4_1 t) (ms4_2 t) (hs4_2 t) (ms4_3 t) (hs4_3 t)
    (ms4_4 t) (hs4_4 t) (ms4_5 t) (hs4_5 t) h (iblk4 V c 0 t) (iblk4 V c 1 t) (iblk4 V c 2 t) xo4 xo5

/-- What a list of pieces leaves in each output's staging buffer: the pieces read back over junk. -/
def readBack4 (L : Pcs4 (F := F)) : Outs4 (F := F) :=
  (VO4_3.read (Elt F) (VO4_3.writes (Elt F) VO4_3.junk L.1),
   VO4_4.read (Elt F) (VO4_4.writes (Elt F) VO4_4.junk L.2.1),
   VO4_5.read (Elt F) (VO4_5.writes (Elt F) VO4_5.junk L.2.2))

/-- Each case's pieces tile their output's block (checked by evaluation), so they cover it. -/
theorem cover4_A_3 (c : Dev nD) (t : Fin cfg4.N) (h : cond4_0 (grid4.coords t)) (y : S10000x32.Idx) :
    ∃ pc ∈ (runA4 V c t h).1.1, y ∈ pc.1.set := View.cover_of_tiledL (runA4 V c t h).1.1 S10000x32.size (by sl_kernel_rfl) y
theorem cover4_A_4 (c : Dev nD) (t : Fin cfg4.N) (h : cond4_0 (grid4.coords t)) (y : S1x32.Idx) :
    ∃ pc ∈ (runA4 V c t h).1.2.1, y ∈ pc.1.set := View.cover_of_tiledL (runA4 V c t h).1.2.1 S1x32.size (by sl_kernel_rfl) y
theorem cover4_A_5 (c : Dev nD) (t : Fin cfg4.N) (h : cond4_0 (grid4.coords t)) (y : S1x32.Idx) :
    ∃ pc ∈ (runA4 V c t h).1.2.2, y ∈ pc.1.set := View.cover_of_tiledL (runA4 V c t h).1.2.2 S1x32.size (by sl_kernel_rfl) y
theorem cover4_B_3 (c : Dev nD) (t : Fin cfg4.N) (h : ¬cond4_0 (grid4.coords t)) (xo4 xo5) (y : S10000x32.Idx) :
    ∃ pc ∈ (runB4 V c t h xo4 xo5).1.1, y ∈ pc.1.set := View.cover_of_tiledL (runB4 V c t h xo4 xo5).1.1 S10000x32.size (by sl_kernel_rfl) y
theorem cover4_B_4 (c : Dev nD) (t : Fin cfg4.N) (h : ¬cond4_0 (grid4.coords t)) (xo4 xo5) (y : S1x32.Idx) :
    ∃ pc ∈ (runB4 V c t h xo4 xo5).1.2.1, y ∈ pc.1.set := View.cover_of_tiledL (runB4 V c t h xo4 xo5).1.2.1 S1x32.size (by sl_kernel_rfl) y
theorem cover4_B_5 (c : Dev nD) (t : Fin cfg4.N) (h : ¬cond4_0 (grid4.coords t)) (xo4 xo5) (y : S1x32.Idx) :
    ∃ pc ∈ (runB4 V c t h xo4 xo5).1.2.2, y ∈ pc.1.set := View.cover_of_tiledL (runB4 V c t h xo4 xo5).1.2.2 S1x32.size (by sl_kernel_rfl) y

/-- THE ACCUMULATION. What the three outputs' staging buffers hold after the body at position n: the first point's
    case at 0, the later points' case after that, the two rows entered at what position n − 1 left. -/
def outsAt4 (c : Dev nD) : (n : ℕ) → n < cfg4.N → Outs4 (F := F)
  | 0, hn => readBack4 (runA4 V c ⟨0, hn⟩ ((hcond4_0 ⟨0, hn⟩).mpr (Nat.zero_mod _))).1
  | n + 1, hn =>
    if h0 : (n + 1) % 10 = 0 then
      readBack4 (runA4 V c ⟨n + 1, hn⟩ ((hcond4_0 ⟨n + 1, hn⟩).mpr h0)).1
    else
      readBack4 (runB4 V c ⟨n + 1, hn⟩ (fun h => h0 ((hcond4_0 ⟨n + 1, hn⟩).mp h))
        (outsAt4 c n (Nat.lt_of_succ_lt hn)).2.1 (outsAt4 c n (Nat.lt_of_succ_lt hn)).2.2).1

theorem outsAt4_A (c : Dev nD) (t : Fin cfg4.N) (h0 : t.val % 10 = 0) :
    outsAt4 V c t.val t.isLt = readBack4 (runA4 V c t ((hcond4_0 t).mpr h0)).1 := by
  obtain ⟨n, hn⟩ := t
  cases n with
  | zero => exact rfl
  | succ n => exact (dif_pos h0).trans rfl

theorem outsAt4_B (c : Dev nD) (t : Fin cfg4.N) (h0 : ¬t.val % 10 = 0) :
    outsAt4 V c t.val t.isLt = readBack4 (runB4 V c t (fun h => h0 ((hcond4_0 t).mp h))
      (outsAt4 V c (t.val - 1) (Nat.lt_of_le_of_lt (Nat.sub_le _ _) t.isLt)).2.1
      (outsAt4 V c (t.val - 1) (Nat.lt_of_le_of_lt (Nat.sub_le _ _) t.isLt)).2.2).1 := by
  obtain ⟨n, hn⟩ := t
  cases n with
  | zero => exact (by exfalso; (try dsimp only at h0); exact absurd (Nat.zero_mod _) h0)
  | succ n => exact (dif_neg h0).trans rfl

/-- The proof data of this pipeline on core c: the arrays as the region finds them; after the body at point t each
    input's buffer at its block and the outputs' at outsAt; the invariant the untouched scoped rest and the
    generator register; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
    | ⟨4, _⟩ => (outsAt4 V c t.val t.isLt).2.1
    | ⟨5, _⟩ => (outsAt4 V c t.val t.isLt).2.2
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]
theorem after4_4 (c : Dev nD) (t : Fin cfg4.N) : (dat4 V c).after 4 t = (outsAt4 V c t.val t.isLt).2.1 := by dsimp only [dat4]
theorem after4_5 (c : Dev nD) (t : Fin cfg4.N) : (dat4 V c).after 5 t = (outsAt4 V c t.val t.isLt).2.2 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- At a later point each row's current staging buffer holds what the body left at the point before: the point is not
    the first, and the row is written back at the last point only. -/
theorem before4_4_B (c : Dev nD) (t : Fin cfg4.N) (h0 : ¬t.val % 10 = 0) (d) :
    (dat4 V c).before 4 t d = (outsAt4 V c (t.val - 1) (Nat.lt_of_le_of_lt (Nat.sub_le _ _) t.isLt)).2.1 := by
  have hN : t.val < 10 := lt_of_lt_of_eq t.isLt (show cfg4.N = 10 from N_4)
  rw [Dat.before_out_kept _ 4 rfl t (by omega) (Bool.eq_false_iff.mpr fun h => by have := (flush4_4 _).mp h; dsimp only at this; omega)
    (fun _ => rfl) (fun _ _ => rfl)]
  dsimp only [dat4]
theorem before4_5_B (c : Dev nD) (t : Fin cfg4.N) (h0 : ¬t.val % 10 = 0) (d) :
    (dat4 V c).before 5 t d = (outsAt4 V c (t.val - 1) (Nat.lt_of_le_of_lt (Nat.sub_le _ _) t.isLt)).2.2 := by
  have hN : t.val < 10 := lt_of_lt_of_eq t.isLt (show cfg4.N = 10 from N_4)
  rw [Dat.before_out_kept _ 5 rfl t (by omega) (Bool.eq_false_iff.mpr fun h => by have := (flush4_5 _).mp h; dsimp only at this; omega)
    (fun _ => rfl) (fun _ _ => rfl)]
  dsimp only [dat4]

/-- What the body is called with at point t, window by window, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t)
    ∗ owns (c : Thread nD τ) (ms4_5 t) fullShare ((dat4 V c).after 5 t))

set_option maxHeartbeats 2000000 in
/-- The body at any point: the inputs' buffers hold their blocks; the closed form of the condition says which case the
    point is in; at a later point the two rows hold what the point before left; so that case's run applies; the
    invariant and what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3, after4_4, after4_5]
  have hN : t.val < 10 := lt_of_lt_of_eq t.isLt (show cfg4.N = 10 from N_4)
  by_cases h0 : t.val % 10 = 0
  · rw [outsAt4_A V c t h0]
    unfold readBack4
    dsimp only
    iintro ⟨HΦ, Ho, ⟨%d0, H0⟩, ⟨%d1, H1⟩, ⟨%d2, H2⟩, ⟨%d3, H3⟩, ⟨%d4, H4⟩, ⟨%d5, H5⟩⟩
    iapply ((runA4 V c t ((hcond4_0 t).mpr h0)).2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover4_A_3 V c t _)
    isplitl [H4]
    · unfold owns; iexists _; isplitr
      swap; · iexact H4
      ipureintro; exact View.read_writes_of_cover _ _ _ _ _ (cover4_A_4 V c t _)
    unfold owns; iexists _; isplitr
    swap; · iexact H5
    ipureintro; exact View.read_writes_of_cover _ _ _ _ _ (cover4_A_5 V c t _)
  · rw [outsAt4_B V c t h0]
    simp only [before4_4_B V c t h0, before4_5_B V c t h0]
    unfold readBack4
    dsimp only
    iintro ⟨HΦ, Ho, ⟨%d0, H0⟩, ⟨%d1, H1⟩, ⟨%d2, H2⟩, ⟨%d3, H3⟩, ⟨%d4, H4⟩, ⟨%d5, H5⟩⟩
    iapply ((runB4 V c t (fun h => h0 ((hcond4_0 t).mp h)) _ _).2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover4_B_3 V c t _ _ _)
    isplitl [H4]
    · unfold owns; iexists _; isplitr
      swap; · iexact H4
      ipureintro; exact View.read_writes_of_cover _ _ _ _ _ (cover4_B_4 V c t _ _ _)
    unfold owns; iexists _; isplitr
    swap; · iexact H5
    ipureintro; exact View.read_writes_of_cover _ _ _ _ _ (cover4_B_5 V c t _ _ _)

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Body

end
-- ==== Proof.KIRegion5.lean ====
/-
  Region 5 of the program: the normalise-and-cut-off tile kernel: (x − mean)·rsqrt(max(var, 0) + ε)·scale + bias, cut off at 0, the four rows repeated down the tile, one grid point at a time.

  At a grid point the body loads its 5 input blocks whole and stores one value into its output block, also whole.
  The inputs are read only, so after the body each holds its block as before and the output block holds that one
  stored value; nothing else of the core's state moves. This is the body's obligation to the pipeline, at any float instance.
-/
import proofs.«140713_j1864015806535_2_alg».proof.Proof.Gen.KernelIdeal.Launch
import proofs.«140713_j1864015806535_2_alg».proof.Proof.Gen.KernelIdeal.Skeleton
import proofs.«140713_j1864015806535_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- The whole-buffer rectangles the body loads and stores through. -/
abbrev r5_0 : Rect S10000x32 := Rect.unit (s := S10000x32) ![0, 0] S10000x32.size inb_S10000x32_S10000x32_0_0
abbrev r5_1 : Rect S1x32 := Rect.unit (s := S1x32) ![0, 0] S1x32.size inb_S1x32_S1x32_0_0
abbrev r5_2 : Rect S1x32 := Rect.unit (s := S1x32) ![0, 0] S1x32.size inb_S1x32_S1x32_0_0
abbrev r5_3 : Rect S1x32 := Rect.unit (s := S1x32) ![0, 0] S1x32.size inb_S1x32_S1x32_0_0
abbrev r5_4 : Rect S1x32 := Rect.unit (s := S1x32) ![0, 0] S1x32.size inb_S1x32_S1x32_0_0
abbrev r5_5 : Rect S10000x32 := Rect.unit (s := S10000x32) ![0, 0] S10000x32.size inb_S10000x32_S10000x32_0_0

/-- The output block after the body: the one store's value of the input blocks. -/
def out5_5 (x0 : Vec F S10000x32 .f32) (x1 : Vec F S1x32 .f32) (x2 : Vec F S1x32 .f32) (x3 : Vec F S1x32 .f32) (x4 : Vec F S1x32 .f32) : Vec F S10000x32 .f32 :=
  View.canon [⟨r5_5, k5_pay1 (View.ld x0 r5_0) (View.ld x1 r5_1) (View.ld x2 r5_2) (View.ld x3 r5_3) (View.ld x4 r5_4)⟩]

/-- The one store covers the whole output block. -/
theorem cover5_5 (p0 : Vec F S10000x32 .f32) (y : S10000x32.Idx) :
    ∃ pc ∈ ([⟨r5_5, p0⟩] : List (View.Piece (Elt F) S10000x32 .f32)), y ∈ pc.1.set :=
  View.cover_of_tiled [⟨r5_5, p0⟩] S10000x32.size (by rfl) y

set_option maxHeartbeats 1000000 in
/-- The body on whole staging buffers: the inputs stay, the output ends at out5_5 of the inputs. -/
theorem sound_kernel5 (c : Dev nD) (E : Set ℕ) (i : grid5.Coords) (arg1 : Memref sig .tc .vmem S10000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S10000x32 .f32) (harg6 : arg6.IsWhole)
    (x0 : Vec F S10000x32 .f32) (x1 : Vec F S1x32 .f32) (x2 : Vec F S1x32 .f32) (x3 : Vec F S1x32 .f32) (x4 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The proof data of this pipeline on core c: the arrays as the region finds them; after the body at point t each
    input's buffer at its block and the output's at the stored value of the input blocks; the invariant the untouched
    scoped rest and the generator register; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point t, window by window, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' buffers hold their blocks, so sound_kernel5 applies; the invariant and what the
    core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Body

end
-- ==== Proof.KIRegion6.lean ====
/-
  Region 6 of the program: a dense layer's tile kernel: the tile's rows times the whole weight, plus the bias row repeated down the rows, one grid point at a time.

  At a grid point the body loads its 3 input blocks whole and stores one value into its output block, also whole.
  The inputs are read only, so after the body each holds its block as before and the output block holds that one
  stored value; nothing else of the core's state moves. This is the body's obligation to the pipeline, at any float instance.
-/
import proofs.«140713_j1864015806535_2_alg».proof.Proof.Gen.KernelIdeal.Launch
import proofs.«140713_j1864015806535_2_alg».proof.Proof.Gen.KernelIdeal.Skeleton
import proofs.«140713_j1864015806535_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The whole-buffer rectangles the body loads and stores through. -/
abbrev r6_0 : Rect S10000x128 := Rect.unit (s := S10000x128) ![0, 0] S10000x128.size inb_S10000x128_S10000x128_0_0
abbrev r6_1 : Rect S128x64 := Rect.unit (s := S128x64) ![0, 0] S128x64.size inb_S128x64_S128x64_0_0
abbrev r6_2 : Rect S1x64 := Rect.unit (s := S1x64) ![0, 0] S1x64.size inb_S1x64_S1x64_0_0
abbrev r6_3 : Rect S10000x64 := Rect.unit (s := S10000x64) ![0, 0] S10000x64.size inb_S10000x64_S10000x64_0_0

/-- The output block after the body: the one store's value of the input blocks. -/
def out6_3 (x0 : Vec F S10000x128 .f32) (x1 : Vec F S128x64 .f32) (x2 : Vec F S1x64 .f32) : Vec F S10000x64 .f32 :=
  View.canon [⟨r6_3, k6_pay1 (View.ld x0 r6_0) (View.ld x1 r6_1) (View.ld x2 r6_2)⟩]

/-- The one store covers the whole output block. -/
theorem cover6_3 (p0 : Vec F S10000x64 .f32) (y : S10000x64.Idx) :
    ∃ pc ∈ ([⟨r6_3, p0⟩] : List (View.Piece (Elt F) S10000x64 .f32)), y ∈ pc.1.set :=
  View.cover_of_tiled [⟨r6_3, p0⟩] S10000x64.size (by rfl) y

set_option maxHeartbeats 1000000 in
/-- The body on whole staging buffers: the inputs stay, the output ends at out6_3 of the inputs. -/
theorem sound_kernel6 (c : Dev nD) (E : Set ℕ) (i : grid6.Coords) (arg1 : Memref sig .tc .vmem S10000x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x128 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__matmul_bias_kernel i arg1 harg1 arg2 harg2 arg3 harg3 arg4 harg4) K := by
  simp only [cc6__matmul_bias_kernel_eq_skeleton]; unfold cc6__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-- The proof data of this pipeline on core c: the arrays as the region finds them; after the body at point t each
    input's buffer at its block and the output's at the stored value of the input blocks; the invariant the untouched
    scoped rest and the generator register; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point t, window by window, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' buffers hold their blocks, so sound_kernel6 applies; the invariant and what the
    core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Body

end
-- ==== Proof.KIRegion7.lean ====
/-
  Region 7 of the program: the mix-and-accumulate tile kernel, one grid point at a time.

  At grid point t the body loads its tile of h and of agg (windows 0 and 1) and the 1×1 mixing weight g (window 2),
  stores xm = g·agg + (1 − g)·h into its tile of the output (window 3), and adds the column sums of xm and of xm·xm
  to two one-row outputs (windows 4 and 5) that stay in place over the whole grid: at the first point the rows are
  first set to zero, at every later point they hold what the point before left. So the body has two cases, told apart
  by the grid coordinate alone; in the first it reads none of its outputs before covering them, in the second it
  reads the two rows. What the three outputs hold after point n is defined by recursion on n, and the body's
  obligation to the pipeline is proved case by case. At any float instance.
-/
import proofs.«140713_j1864015806535_2_alg».proof.Proof.Gen.KernelIdeal.Launch
import proofs.«140713_j1864015806535_2_alg».proof.Proof.Gen.KernelIdeal.Skeleton
import proofs.«140713_j1864015806535_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- The body's branch condition from the grid coordinate: "this is the first point". -/
abbrev cond7_0 (i : grid7.Coords) : Prop := (Scalar.cmpi .ne (Scalar.extui (Scalar.cmpi .eq (BitVec.ofNat 32 (i 0).val) 0#32)) 0#32) = 1#1
/-- It holds at the first point only: decided over the grid. -/
theorem hcond7_0 : ∀ t : Fin cfg7.N, cond7_0 (grid7.coords t) ↔ t.val % 10 = 0 :=
  (by decide +kernel : ∀ t : Fin grid7.N, cond7_0 (grid7.coords t) ↔ t.val % 10 = 0)

/-- One staging buffer of each output window, through which its contents are stated. -/
abbrev VO7_3 : View sig .tc .vmem S10000x64 .f32 := (Memref.whole cc7_stg3_0 : Memref sig .tc .vmem S10000x64 .f32).view
abbrev VO7_4 : View sig .tc .vmem S1x64 .f32 := (Memref.whole cc7_stg4_0 : Memref sig .tc .vmem S1x64 .f32).view
abbrev VO7_5 : View sig .tc .vmem S1x64 .f32 := (Memref.whole cc7_stg5_0 : Memref sig .tc .vmem S1x64 .f32).view

/-- Each window's current staging buffer at point t, as the pipeline passes it, and its wholeness. -/
abbrev ms7_0 (t : Fin cfg7.N) : Memref sig .tc .vmem S10000x64 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S10000x64 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x1 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S10000x64 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S1x64 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S1x64 .f32 := win7_5.stage (cfg7.slots t 5)
abbrev hs7_5 (t : Fin cfg7.N) : (ms7_5 t).IsWhole := hstage7_5 ((cfg7.slots t 5).cast nbuf7_5)

/-- The three outputs' piece lists, and their contents. -/
abbrev Pcs7 : Type := List (View.Piece (Elt F) S10000x64 .f32) × List (View.Piece (Elt F) S1x64 .f32) × List (View.Piece (Elt F) S1x64 .f32)
abbrev Outs7 : Type := Vec F S10000x64 .f32 × Vec F S1x64 .f32 × Vec F S1x64 .f32

set_option maxHeartbeats 4000000 in
/-- THE FIRST POINT (the branch taken): what the body's stores leave in each output's staging buffer, as pieces (last
    first), with the proof that on whole staging buffers, the inputs' at their contents and the outputs' at anything,
    the body runs to the continuation holding the inputs' as they were and each output's with its pieces written. -/
noncomputable def kernelRun7_A (c : Dev nD) (i : grid7.Coords)
    (arg1 : Memref sig .tc .vmem S10000x64 .f32) (harg1 : arg1.IsWhole) (arg2 : Memref sig .tc .vmem S10000x64 .f32) (harg2 : arg2.IsWhole)
    (arg3 : Memref sig .tc .vmem S1x1 .f32) (harg3 : arg3.IsWhole) (arg4 : Memref sig .tc .vmem S10000x64 .f32) (harg4 : arg4.IsWhole)
    (arg5 : Memref sig .tc .vmem S1x64 .f32) (harg5 : arg5.IsWhole) (arg6 : Memref sig .tc .vmem S1x64 .f32) (harg6 : arg6.IsWhole)
    (hc0 : cond7_0 i) (x0 : Vec F S10000x64 .f32) (x1 : Vec F S10000x64 .f32) (x2 : Vec F S1x1 .f32) :
    { L : Pcs7 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2.1)
                ∗ (∃ f, arg6.view.loc (c : Thread nD τ) ↦[arg6.view.set]{fullShare} arg6.view.writes (Elt F) f L.2.2)) -∗ K ⟨⟩))
          ⊢ wp frame (wpE (defs₀ (F := F)) Variants.none c none) E (cc7__mix_reduce_kernel i arg1 harg1 arg2 harg2 arg3 harg3 arg4 harg4 arg5 harg5 arg6 harg6) K } := by
  refine ⟨(?_, ?_, ?_), fun E K => ?run⟩
  case run =>
    simp only [cc7__mix_reduce_kernel_eq_skeleton]; unfold cc7__mix_reduce_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0
    obtain rfl := harg2.eq_unread hf1
    obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

set_option maxHeartbeats 4000000 in
/-- EVERY LATER POINT (the branch not taken): the same, the two rows entered at their running contents xo4, xo5. -/
noncomputable def kernelRun7_B (c : Dev nD) (i : grid7.Coords)
    (arg1 : Memref sig .tc .vmem S10000x64 .f32) (harg1 : arg1.IsWhole) (arg2 : Memref sig .tc .vmem S10000x64 .f32) (harg2 : arg2.IsWhole)
    (arg3 : Memref sig .tc .vmem S1x1 .f32) (harg3 : arg3.IsWhole) (arg4 : Memref sig .tc .vmem S10000x64 .f32) (harg4 : arg4.IsWhole)
    (arg5 : Memref sig .tc .vmem S1x64 .f32) (harg5 : arg5.IsWhole) (arg6 : Memref sig .tc .vmem S1x64 .f32) (harg6 : arg6.IsWhole)
    (hc0 : ¬cond7_0 i) (x0 : Vec F S10000x64 .f32) (x1 : Vec F S10000x64 .f32) (x2 : Vec F S1x1 .f32) (xo4 : Vec F S1x64 .f32) (xo5 : Vec F S1x64 .f32) :
    { L : Pcs7 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2.1)
                ∗ (∃ f, arg6.view.loc (c : Thread nD τ) ↦[arg6.view.set]{fullShare} arg6.view.writes (Elt F) f L.2.2)) -∗ K ⟨⟩))
          ⊢ wp frame (wpE (defs₀ (F := F)) Variants.none c none) E (cc7__mix_reduce_kernel i arg1 harg1 arg2 harg2 arg3 harg3 arg4 harg4 arg5 harg5 arg6 harg6) K } := by
  refine ⟨(?_, ?_, ?_), fun E K => ?run⟩
  case run =>
    simp only [cc7__mix_reduce_kernel_eq_skeleton]; unfold cc7__mix_reduce_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg1.eq_unread hf0
    obtain rfl := harg2.eq_unread hf1
    obtain rfl := harg3.eq_unread hf2
    obtain rfl := harg5.eq_unread hf4
    obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

/-- The two runs at a grid point, on the point's staging buffers and input blocks. -/
abbrev runA7 (c : Dev nD) (t : Fin cfg7.N) (h : cond7_0 (grid7.coords t)) :=
  kernelRun7_A (F := F) c (grid7.coords t) (ms7_0 t) (hs7_0 t) (ms7_1 t) (hs7_1 t) (ms7_2 t) (hs7_2 t) (ms7_3 t) (hs7_3 t)
    (ms7_4 t) (hs7_4 t) (ms7_5 t) (hs7_5 t) h (iblk7 V c 0 t) (iblk7 V c 1 t) (iblk7 V c 2 t)
abbrev runB7 (c : Dev nD) (t : Fin cfg7.N) (h : ¬cond7_0 (grid7.coords t)) (xo4 : Vec F S1x64 .f32) (xo5 : Vec F S1x64 .f32) :=
  kernelRun7_B (F := F) c (grid7.coords t) (ms7_0 t) (hs7_0 t) (ms7_1 t) (hs7_1 t) (ms7_2 t) (hs7_2 t) (ms7_3 t) (hs7_3 t)
    (ms7_4 t) (hs7_4 t) (ms7_5 t) (hs7_5 t) h (iblk7 V c 0 t) (iblk7 V c 1 t) (iblk7 V c 2 t) xo4 xo5

/-- What a list of pieces leaves in each output's staging buffer: the pieces read back over junk. -/
def readBack7 (L : Pcs7 (F := F)) : Outs7 (F := F) :=
  (VO7_3.read (Elt F) (VO7_3.writes (Elt F) VO7_3.junk L.1),
   VO7_4.read (Elt F) (VO7_4.writes (Elt F) VO7_4.junk L.2.1),
   VO7_5.read (Elt F) (VO7_5.writes (Elt F) VO7_5.junk L.2.2))

/-- Each case's pieces tile their output's block (checked by evaluation), so they cover it. -/
theorem cover7_A_3 (c : Dev nD) (t : Fin cfg7.N) (h : cond7_0 (grid7.coords t)) (y : S10000x64.Idx) :
    ∃ pc ∈ (runA7 V c t h).1.1, y ∈ pc.1.set := View.cover_of_tiledL (runA7 V c t h).1.1 S10000x64.size (by sl_kernel_rfl) y
theorem cover7_A_4 (c : Dev nD) (t : Fin cfg7.N) (h : cond7_0 (grid7.coords t)) (y : S1x64.Idx) :
    ∃ pc ∈ (runA7 V c t h).1.2.1, y ∈ pc.1.set := View.cover_of_tiledL (runA7 V c t h).1.2.1 S1x64.size (by sl_kernel_rfl) y
theorem cover7_A_5 (c : Dev nD) (t : Fin cfg7.N) (h : cond7_0 (grid7.coords t)) (y : S1x64.Idx) :
    ∃ pc ∈ (runA7 V c t h).1.2.2, y ∈ pc.1.set := View.cover_of_tiledL (runA7 V c t h).1.2.2 S1x64.size (by sl_kernel_rfl) y
theorem cover7_B_3 (c : Dev nD) (t : Fin cfg7.N) (h : ¬cond7_0 (grid7.coords t)) (xo4 xo5) (y : S10000x64.Idx) :
    ∃ pc ∈ (runB7 V c t h xo4 xo5).1.1, y ∈ pc.1.set := View.cover_of_tiledL (runB7 V c t h xo4 xo5).1.1 S10000x64.size (by sl_kernel_rfl) y
theorem cover7_B_4 (c : Dev nD) (t : Fin cfg7.N) (h : ¬cond7_0 (grid7.coords t)) (xo4 xo5) (y : S1x64.Idx) :
    ∃ pc ∈ (runB7 V c t h xo4 xo5).1.2.1, y ∈ pc.1.set := View.cover_of_tiledL (runB7 V c t h xo4 xo5).1.2.1 S1x64.size (by sl_kernel_rfl) y
theorem cover7_B_5 (c : Dev nD) (t : Fin cfg7.N) (h : ¬cond7_0 (grid7.coords t)) (xo4 xo5) (y : S1x64.Idx) :
    ∃ pc ∈ (runB7 V c t h xo4 xo5).1.2.2, y ∈ pc.1.set := View.cover_of_tiledL (runB7 V c t h xo4 xo5).1.2.2 S1x64.size (by sl_kernel_rfl) y

/-- THE ACCUMULATION. What the three outputs' staging buffers hold after the body at position n: the first point's
    case at 0, the later points' case after that, the two rows entered at what position n − 1 left. -/
def outsAt7 (c : Dev nD) : (n : ℕ) → n < cfg7.N → Outs7 (F := F)
  | 0, hn => readBack7 (runA7 V c ⟨0, hn⟩ ((hcond7_0 ⟨0, hn⟩).mpr (Nat.zero_mod _))).1
  | n + 1, hn =>
    if h0 : (n + 1) % 10 = 0 then
      readBack7 (runA7 V c ⟨n + 1, hn⟩ ((hcond7_0 ⟨n + 1, hn⟩).mpr h0)).1
    else
      readBack7 (runB7 V c ⟨n + 1, hn⟩ (fun h => h0 ((hcond7_0 ⟨n + 1, hn⟩).mp h))
        (outsAt7 c n (Nat.lt_of_succ_lt hn)).2.1 (outsAt7 c n (Nat.lt_of_succ_lt hn)).2.2).1

theorem outsAt7_A (c : Dev nD) (t : Fin cfg7.N) (h0 : t.val % 10 = 0) :
    outsAt7 V c t.val t.isLt = readBack7 (runA7 V c t ((hcond7_0 t).mpr h0)).1 := by
  obtain ⟨n, hn⟩ := t
  cases n with
  | zero => exact rfl
  | succ n => exact (dif_pos h0).trans rfl

theorem outsAt7_B (c : Dev nD) (t : Fin cfg7.N) (h0 : ¬t.val % 10 = 0) :
    outsAt7 V c t.val t.isLt = readBack7 (runB7 V c t (fun h => h0 ((hcond7_0 t).mp h))
      (outsAt7 V c (t.val - 1) (Nat.lt_of_le_of_lt (Nat.sub_le _ _) t.isLt)).2.1
      (outsAt7 V c (t.val - 1) (Nat.lt_of_le_of_lt (Nat.sub_le _ _) t.isLt)).2.2).1 := by
  obtain ⟨n, hn⟩ := t
  cases n with
  | zero => exact (by exfalso; (try dsimp only at h0); exact absurd (Nat.zero_mod _) h0)
  | succ n => exact (dif_neg h0).trans rfl

/-- The proof data of this pipeline on core c: the arrays as the region finds them; after the body at point t each
    input's buffer at its block and the outputs' at outsAt; the invariant the untouched scoped rest and the
    generator register; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => (outsAt7 V c t.val t.isLt).1
    | ⟨4, _⟩ => (outsAt7 V c t.val t.isLt).2.1
    | ⟨5, _⟩ => (outsAt7 V c t.val t.isLt).2.2
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = (outsAt7 V c t.val t.isLt).1 := by dsimp only [dat7]
theorem after7_4 (c : Dev nD) (t : Fin cfg7.N) : (dat7 V c).after 4 t = (outsAt7 V c t.val t.isLt).2.1 := by dsimp only [dat7]
theorem after7_5 (c : Dev nD) (t : Fin cfg7.N) : (dat7 V c).after 5 t = (outsAt7 V c t.val t.isLt).2.2 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-- At a later point each row's current staging buffer holds what the body left at the point before: the point is not
    the first, and the row is written back at the last point only. -/
theorem before7_4_B (c : Dev nD) (t : Fin cfg7.N) (h0 : ¬t.val % 10 = 0) (d) :
    (dat7 V c).before 4 t d = (outsAt7 V c (t.val - 1) (Nat.lt_of_le_of_lt (Nat.sub_le _ _) t.isLt)).2.1 := by
  have hN : t.val < 10 := lt_of_lt_of_eq t.isLt (show cfg7.N = 10 from N_7)
  rw [Dat.before_out_kept _ 4 rfl t (by omega) (Bool.eq_false_iff.mpr fun h => by have := (flush7_4 _).mp h; dsimp only at this; omega)
    (fun _ => rfl) (fun _ _ => rfl)]
  dsimp only [dat7]
theorem before7_5_B (c : Dev nD) (t : Fin cfg7.N) (h0 : ¬t.val % 10 = 0) (d) :
    (dat7 V c).before 5 t d = (outsAt7 V c (t.val - 1) (Nat.lt_of_le_of_lt (Nat.sub_le _ _) t.isLt)).2.2 := by
  have hN : t.val < 10 := lt_of_lt_of_eq t.isLt (show cfg7.N = 10 from N_7)
  rw [Dat.before_out_kept _ 5 rfl t (by omega) (Bool.eq_false_iff.mpr fun h => by have := (flush7_5 _).mp h; dsimp only at this; omega)
    (fun _ => rfl) (fun _ _ => rfl)]
  dsimp only [dat7]

/-- What the body is called with at point t, window by window, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (ms7_0 t) fullShare ((dat7 V c).after 0 t)
    ∗ owns (c : Thread nD τ) (ms7_1 t) fullShare ((dat7 V c).after 1 t)
    ∗ owns (c : Thread nD τ) (ms7_2 t) fullShare ((dat7 V c).after 2 t)
    ∗ owns (c : Thread nD τ) (ms7_3 t) fullShare ((dat7 V c).after 3 t)
    ∗ owns (c : Thread nD τ) (ms7_4 t) fullShare ((dat7 V c).after 4 t)
    ∗ owns (c : Thread nD τ) (ms7_5 t) fullShare ((dat7 V c).after 5 t))

set_option maxHeartbeats 2000000 in
/-- The body at any point: the inputs' buffers hold their blocks; the closed form of the condition says which case the
    point is in; at a later point the two rows hold what the point before left; so that case's run applies; the
    invariant and what the core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3, after7_4, after7_5]
  have hN : t.val < 10 := lt_of_lt_of_eq t.isLt (show cfg7.N = 10 from N_7)
  by_cases h0 : t.val % 10 = 0
  · rw [outsAt7_A V c t h0]
    unfold readBack7
    dsimp only
    iintro ⟨HΦ, Ho, ⟨%d0, H0⟩, ⟨%d1, H1⟩, ⟨%d2, H2⟩, ⟨%d3, H3⟩, ⟨%d4, H4⟩, ⟨%d5, H5⟩⟩
    iapply ((runA7 V c t ((hcond7_0 t).mpr h0)).2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover7_A_3 V c t _)
    isplitl [H4]
    · unfold owns; iexists _; isplitr
      swap; · iexact H4
      ipureintro; exact View.read_writes_of_cover _ _ _ _ _ (cover7_A_4 V c t _)
    unfold owns; iexists _; isplitr
    swap; · iexact H5
    ipureintro; exact View.read_writes_of_cover _ _ _ _ _ (cover7_A_5 V c t _)
  · rw [outsAt7_B V c t h0]
    simp only [before7_4_B V c t h0, before7_5_B V c t h0]
    unfold readBack7
    dsimp only
    iintro ⟨HΦ, Ho, ⟨%d0, H0⟩, ⟨%d1, H1⟩, ⟨%d2, H2⟩, ⟨%d3, H3⟩, ⟨%d4, H4⟩, ⟨%d5, H5⟩⟩
    iapply ((runB7 V c t (fun h => h0 ((hcond7_0 t).mp h)) _ _).2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover7_B_3 V c t _ _ _)
    isplitl [H4]
    · unfold owns; iexists _; isplitr
      swap; · iexact H4
      ipureintro; exact View.read_writes_of_cover _ _ _ _ _ (cover7_B_4 V c t _ _ _)
    unfold owns; iexists _; isplitr
    swap; · iexact H5
    ipureintro; exact View.read_writes_of_cover _ _ _ _ _ (cover7_B_5 V c t _ _ _)

/-- The pipeline's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Body

end
-- ==== Proof.KIRegion8.lean ====
/-
  Region 8 of the program: the normalise-and-cut-off tile kernel: (x − mean)·rsqrt(max(var, 0) + ε)·scale + bias, cut off at 0, the four rows repeated down the tile, one grid point at a time.

  At a grid point the body loads its 5 input blocks whole and stores one value into its output block, also whole.
  The inputs are read only, so after the body each holds its block as before and the output block holds that one
  stored value; nothing else of the core's state moves. This is the body's obligation to the pipeline, at any float instance.
-/
import proofs.«140713_j1864015806535_2_alg».proof.Proof.Gen.KernelIdeal.Launch
import proofs.«140713_j1864015806535_2_alg».proof.Proof.Gen.KernelIdeal.Skeleton
import proofs.«140713_j1864015806535_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at every point, fetched there or not. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- The whole-buffer rectangles the body loads and stores through. -/
abbrev r8_0 : Rect S10000x64 := Rect.unit (s := S10000x64) ![0, 0] S10000x64.size inb_S10000x64_S10000x64_0_0
abbrev r8_1 : Rect S1x64 := Rect.unit (s := S1x64) ![0, 0] S1x64.size inb_S1x64_S1x64_0_0
abbrev r8_2 : Rect S1x64 := Rect.unit (s := S1x64) ![0, 0] S1x64.size inb_S1x64_S1x64_0_0
abbrev r8_3 : Rect S1x64 := Rect.unit (s := S1x64) ![0, 0] S1x64.size inb_S1x64_S1x64_0_0
abbrev r8_4 : Rect S1x64 := Rect.unit (s := S1x64) ![0, 0] S1x64.size inb_S1x64_S1x64_0_0
abbrev r8_5 : Rect S10000x64 := Rect.unit (s := S10000x64) ![0, 0] S10000x64.size inb_S10000x64_S10000x64_0_0

/-- The output block after the body: the one store's value of the input blocks. -/
def out8_5 (x0 : Vec F S10000x64 .f32) (x1 : Vec F S1x64 .f32) (x2 : Vec F S1x64 .f32) (x3 : Vec F S1x64 .f32) (x4 : Vec F S1x64 .f32) : Vec F S10000x64 .f32 :=
  View.canon [⟨r8_5, k8_pay1 (View.ld x0 r8_0) (View.ld x1 r8_1) (View.ld x2 r8_2) (View.ld x3 r8_3) (View.ld x4 r8_4)⟩]

/-- The one store covers the whole output block. -/
theorem cover8_5 (p0 : Vec F S10000x64 .f32) (y : S10000x64.Idx) :
    ∃ pc ∈ ([⟨r8_5, p0⟩] : List (View.Piece (Elt F) S10000x64 .f32)), y ∈ pc.1.set :=
  View.cover_of_tiled [⟨r8_5, p0⟩] S10000x64.size (by rfl) y

set_option maxHeartbeats 1000000 in
/-- The body on whole staging buffers: the inputs stay, the output ends at out8_5 of the inputs. -/
theorem sound_kernel8 (c : Dev nD) (E : Set ℕ) (i : grid8.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out8_5 x0 x1 x2 x3 x4)) -∗ K ⟨⟩))
      ⊢ wp frame (wpE (defs₀ (F := F)) Variants.none c none) E (cc8__bn_relu_kernel i arg1 harg1 arg2 harg2 arg3 harg3 arg4 harg4 arg5 harg5 arg6 harg6) K := by
  simp only [cc8__bn_relu_kernel_eq_skeleton]; unfold cc8__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-- The proof data of this pipeline on core c: the arrays as the region finds them; after the body at point t each
    input's buffer at its block and the output's at the stored value of the input blocks; the invariant the untouched
    scoped rest and the generator register; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) :
    (dat8 V c).after 5 t = out8_5 (iblk8 V c 0 t) (iblk8 V c 1 t) (iblk8 V c 2 t) (iblk8 V c 3 t) (iblk8 V c 4 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-- What the body is called with at point t, window by window, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' buffers hold their blocks, so sound_kernel8 applies; the invariant and what the
    core owes pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Body

end
-- ==== Proof.KIRegion9.lean ====
/-
  Region 9 of the program: a dense layer's tile kernel: the tile's rows times the whole weight, plus the bias row repeated down the rows, one grid point at a time.

  At a grid point the body loads its 3 input blocks whole and stores one value into its output block, also whole.
  The inputs are read only, so after the body each holds its block as before and the output block holds that one
  stored value; nothing else of the core's state moves. This is the body's obligation to the pipeline, at any float instance.
-/
import proofs.«140713_j1864015806535_2_alg».proof.Proof.Gen.KernelIdeal.Launch
import proofs.«140713_j1864015806535_2_alg».proof.Proof.Gen.KernelIdeal.Skeleton
import proofs.«140713_j1864015806535_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's current staging buffer holds its block at every point, fetched there or not. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- The whole-buffer rectangles the body loads and stores through. -/
abbrev r9_0 : Rect S10000x64 := Rect.unit (s := S10000x64) ![0, 0] S10000x64.size inb_S10000x64_S10000x64_0_0
abbrev r9_1 : Rect S64x32 := Rect.unit (s := S64x32) ![0, 0] S64x32.size inb_S64x32_S64x32_0_0
abbrev r9_2 : Rect S1x32 := Rect.unit (s := S1x32) ![0, 0] S1x32.size inb_S1x32_S1x32_0_0
abbrev r9_3 : Rect S10000x32 := Rect.unit (s := S10000x32) ![0, 0] S10000x32.size inb_S10000x32_S10000x32_0_0

/-- The output block after the body: the one store's value of the input blocks. -/
def out9_3 (x0 : Vec F S10000x64 .f32) (x1 : Vec F S64x32 .f32) (x2 : Vec F S1x32 .f32) : Vec F S10000x32 .f32 :=
  View.canon [⟨r9_3, k9_pay1 (View.ld x0 r9_0) (View.ld x1 r9_1) (View.ld x2 r9_2)⟩]

/-- The one store covers the whole output block. -/
theorem cover9_3 (p0 : Vec F S10000x32 .f32) (y : S10000x32.Idx) :
    ∃ pc ∈ ([⟨r9_3, p0⟩] : List (View.Piece (Elt F) S10000x32 .f32)), y ∈ pc.1.set :=
  View.cover_of_tiled [⟨r9_3, p0⟩] S10000x32.size (by rfl) y

set_option maxHeartbeats 1000000 in
/-- The body on whole staging buffers: the inputs stay, the output ends at out9_3 of the inputs. -/
theorem sound_kernel9 (c : Dev nD) (E : Set ℕ) (i : grid9.Coords) (arg1 : Memref sig .tc .vmem S10000x64 .f32) (harg1 : arg1.IsWhole) (arg2 : Memref sig .tc .vmem S64x32 .f32) (harg2 : arg2.IsWhole) (arg3 : Memref sig .tc .vmem S1x32 .f32) (harg3 : arg3.IsWhole) (arg4 : Memref sig .tc .vmem S10000x32 .f32) (harg4 : arg4.IsWhole)
    (x0 : Vec F S10000x64 .f32) (x1 : Vec F S64x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out9_3 x0 x1 x2)) -∗ K ⟨⟩))
      ⊢ wp frame (wpE (defs₀ (F := F)) Variants.none c none) E (cc9__matmul_bias_kernel i arg1 harg1 arg2 harg2 arg3 harg3 arg4 harg4) K := by
  simp only [cc9__matmul_bias_kernel_eq_skeleton]; unfold cc9__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-- The proof data of this pipeline on core c: the arrays as the region finds them; after the body at point t each
    input's buffer at its block and the output's at the stored value of the input blocks; the invariant the untouched
    scoped rest and the generator register; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) :
    (dat9 V c).after 3 t = out9_3 (iblk9 V c 0 t) (iblk9 V c 1 t) (iblk9 V c 2 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-- What the body is called with at point t, window by window, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

/-- The body at any point: the inputs' buffers hold their blocks, so sound_kernel9 applies; the invariant and what the
    core owes pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ _ _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Body

end
-- ==== Proof.KIRegion10.lean ====
/-
  Region 10 of the program: the mix-and-accumulate tile kernel, one grid point at a time.

  At grid point t the body loads its tile of h and of agg (windows 0 and 1) and the 1×1 mixing weight g (window 2),
  stores xm = g·agg + (1 − g)·h into its tile of the output (window 3), and adds the column sums of xm and of xm·xm
  to two one-row outputs (windows 4 and 5) that stay in place over the whole grid: at the first point the rows are
  first set to zero, at every later point they hold what the point before left. So the body has two cases, told apart
  by the grid coordinate alone; in the first it reads none of its outputs before covering them, in the second it
  reads the two rows. What the three outputs hold after point n is defined by recursion on n, and the body's
  obligation to the pipeline is proved case by case. At any float instance.
-/
import proofs.«140713_j1864015806535_2_alg».proof.Proof.Gen.KernelIdeal.Launch
import proofs.«140713_j1864015806535_2_alg».proof.Proof.Gen.KernelIdeal.Skeleton
import proofs.«140713_j1864015806535_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's current staging buffer holds its block at every point, fetched there or not. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- The body's branch condition from the grid coordinate: "this is the first point". -/
abbrev cond10_0 (i : grid10.Coords) : Prop := (Scalar.cmpi .ne (Scalar.extui (Scalar.cmpi .eq (BitVec.ofNat 32 (i 0).val) 0#32)) 0#32) = 1#1
/-- It holds at the first point only: decided over the grid. -/
theorem hcond10_0 : ∀ t : Fin cfg10.N, cond10_0 (grid10.coords t) ↔ t.val % 10 = 0 :=
  (by decide +kernel : ∀ t : Fin grid10.N, cond10_0 (grid10.coords t) ↔ t.val % 10 = 0)

/-- One staging buffer of each output window, through which its contents are stated. -/
abbrev VO10_3 : View sig .tc .vmem S10000x32 .f32 := (Memref.whole cc10_stg3_0 : Memref sig .tc .vmem S10000x32 .f32).view
abbrev VO10_4 : View sig .tc .vmem S1x32 .f32 := (Memref.whole cc10_stg4_0 : Memref sig .tc .vmem S1x32 .f32).view
abbrev VO10_5 : View sig .tc .vmem S1x32 .f32 := (Memref.whole cc10_stg5_0 : Memref sig .tc .vmem S1x32 .f32).view

/-- Each window's current staging buffer at point t, as the pipeline passes it, and its wholeness. -/
abbrev ms10_0 (t : Fin cfg10.N) : Memref sig .tc .vmem S10000x32 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S10000x32 .f32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S1x1 .f32 := win10_2.stage (cfg10.slots t 2)
abbrev hs10_2 (t : Fin cfg10.N) : (ms10_2 t).IsWhole := hstage10_2 ((cfg10.slots t 2).cast nbuf10_2)
abbrev ms10_3 (t : Fin cfg10.N) : Memref sig .tc .vmem S10000x32 .f32 := win10_3.stage (cfg10.slots t 3)
abbrev hs10_3 (t : Fin cfg10.N) : (ms10_3 t).IsWhole := hstage10_3 ((cfg10.slots t 3).cast nbuf10_3)
abbrev ms10_4 (t : Fin cfg10.N) : Memref sig .tc .vmem S1x32 .f32 := win10_4.stage (cfg10.slots t 4)
abbrev hs10_4 (t : Fin cfg10.N) : (ms10_4 t).IsWhole := hstage10_4 ((cfg10.slots t 4).cast nbuf10_4)
abbrev ms10_5 (t : Fin cfg10.N) : Memref sig .tc .vmem S1x32 .f32 := win10_5.stage (cfg10.slots t 5)
abbrev hs10_5 (t : Fin cfg10.N) : (ms10_5 t).IsWhole := hstage10_5 ((cfg10.slots t 5).cast nbuf10_5)

/-- The three outputs' piece lists, and their contents. -/
abbrev Pcs10 : Type := List (View.Piece (Elt F) S10000x32 .f32) × List (View.Piece (Elt F) S1x32 .f32) × List (View.Piece (Elt F) S1x32 .f32)
abbrev Outs10 : Type := Vec F S10000x32 .f32 × Vec F S1x32 .f32 × Vec F S1x32 .f32

set_option maxHeartbeats 4000000 in
/-- THE FIRST POINT (the branch taken): what the body's stores leave in each output's staging buffer, as pieces (last
    first), with the proof that on whole staging buffers, the inputs' at their contents and the outputs' at anything,
    the body runs to the continuation holding the inputs' as they were and each output's with its pieces written. -/
noncomputable def kernelRun10_A (c : Dev nD) (i : grid10.Coords)
    (arg1 : Memref sig .tc .vmem S10000x32 .f32) (harg1 : arg1.IsWhole) (arg2 : Memref sig .tc .vmem S10000x32 .f32) (harg2 : arg2.IsWhole)
    (arg3 : Memref sig .tc .vmem S1x1 .f32) (harg3 : arg3.IsWhole) (arg4 : Memref sig .tc .vmem S10000x32 .f32) (harg4 : arg4.IsWhole)
    (arg5 : Memref sig .tc .vmem S1x32 .f32) (harg5 : arg5.IsWhole) (arg6 : Memref sig .tc .vmem S1x32 .f32) (harg6 : arg6.IsWhole)
    (hc0 : cond10_0 i) (x0 : Vec F S10000x32 .f32) (x1 : Vec F S10000x32 .f32) (x2 : Vec F S1x1 .f32) :
    { L : Pcs10 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2.1)
                ∗ (∃ f, arg6.view.loc (c : Thread nD τ) ↦[arg6.view.set]{fullShare} arg6.view.writes (Elt F) f L.2.2)) -∗ K ⟨⟩))
          ⊢ wp frame (wpE (defs₀ (F := F)) Variants.none c none) E (cc10__mix_reduce_kernel i arg1 harg1 arg2 harg2 arg3 harg3 arg4 harg4 arg5 harg5 arg6 harg6) K } := by
  refine ⟨(?_, ?_, ?_), fun E K => ?run⟩
  case run =>
    simp only [cc10__mix_reduce_kernel_eq_skeleton]; unfold cc10__mix_reduce_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0
    obtain rfl := harg2.eq_unread hf1
    obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

set_option maxHeartbeats 4000000 in
/-- EVERY LATER POINT (the branch not taken): the same, the two rows entered at their running contents xo4, xo5. -/
noncomputable def kernelRun10_B (c : Dev nD) (i : grid10.Coords)
    (arg1 : Memref sig .tc .vmem S10000x32 .f32) (harg1 : arg1.IsWhole) (arg2 : Memref sig .tc .vmem S10000x32 .f32) (harg2 : arg2.IsWhole)
    (arg3 : Memref sig .tc .vmem S1x1 .f32) (harg3 : arg3.IsWhole) (arg4 : Memref sig .tc .vmem S10000x32 .f32) (harg4 : arg4.IsWhole)
    (arg5 : Memref sig .tc .vmem S1x32 .f32) (harg5 : arg5.IsWhole) (arg6 : Memref sig .tc .vmem S1x32 .f32) (harg6 : arg6.IsWhole)
    (hc0 : ¬cond10_0 i) (x0 : Vec F S10000x32 .f32) (x1 : Vec F S10000x32 .f32) (x2 : Vec F S1x1 .f32) (xo4 : Vec F S1x32 .f32) (xo5 : Vec F S1x32 .f32) :
    { L : Pcs10 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2.1)
                ∗ (∃ f, arg6.view.loc (c : Thread nD τ) ↦[arg6.view.set]{fullShare} arg6.view.writes (Elt F) f L.2.2)) -∗ K ⟨⟩))
          ⊢ wp frame (wpE (defs₀ (F := F)) Variants.none c none) E (cc10__mix_reduce_kernel i arg1 harg1 arg2 harg2 arg3 harg3 arg4 harg4 arg5 harg5 arg6 harg6) K } := by
  refine ⟨(?_, ?_, ?_), fun E K => ?run⟩
  case run =>
    simp only [cc10__mix_reduce_kernel_eq_skeleton]; unfold cc10__mix_reduce_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg1.eq_unread hf0
    obtain rfl := harg2.eq_unread hf1
    obtain rfl := harg3.eq_unread hf2
    obtain rfl := harg5.eq_unread hf4
    obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

/-- The two runs at a grid point, on the point's staging buffers and input blocks. -/
abbrev runA10 (c : Dev nD) (t : Fin cfg10.N) (h : cond10_0 (grid10.coords t)) :=
  kernelRun10_A (F := F) c (grid10.coords t) (ms10_0 t) (hs10_0 t) (ms10_1 t) (hs10_1 t) (ms10_2 t) (hs10_2 t) (ms10_3 t) (hs10_3 t)
    (ms10_4 t) (hs10_4 t) (ms10_5 t) (hs10_5 t) h (iblk10 V c 0 t) (iblk10 V c 1 t) (iblk10 V c 2 t)
abbrev runB10 (c : Dev nD) (t : Fin cfg10.N) (h : ¬cond10_0 (grid10.coords t)) (xo4 : Vec F S1x32 .f32) (xo5 : Vec F S1x32 .f32) :=
  kernelRun10_B (F := F) c (grid10.coords t) (ms10_0 t) (hs10_0 t) (ms10_1 t) (hs10_1 t) (ms10_2 t) (hs10_2 t) (ms10_3 t) (hs10_3 t)
    (ms10_4 t) (hs10_4 t) (ms10_5 t) (hs10_5 t) h (iblk10 V c 0 t) (iblk10 V c 1 t) (iblk10 V c 2 t) xo4 xo5

/-- What a list of pieces leaves in each output's staging buffer: the pieces read back over junk. -/
def readBack10 (L : Pcs10 (F := F)) : Outs10 (F := F) :=
  (VO10_3.read (Elt F) (VO10_3.writes (Elt F) VO10_3.junk L.1),
   VO10_4.read (Elt F) (VO10_4.writes (Elt F) VO10_4.junk L.2.1),
   VO10_5.read (Elt F) (VO10_5.writes (Elt F) VO10_5.junk L.2.2))

/-- Each case's pieces tile their output's block (checked by evaluation), so they cover it. -/
theorem cover10_A_3 (c : Dev nD) (t : Fin cfg10.N) (h : cond10_0 (grid10.coords t)) (y : S10000x32.Idx) :
    ∃ pc ∈ (runA10 V c t h).1.1, y ∈ pc.1.set := View.cover_of_tiledL (runA10 V c t h).1.1 S10000x32.size (by sl_kernel_rfl) y
theorem cover10_A_4 (c : Dev nD) (t : Fin cfg10.N) (h : cond10_0 (grid10.coords t)) (y : S1x32.Idx) :
    ∃ pc ∈ (runA10 V c t h).1.2.1, y ∈ pc.1.set := View.cover_of_tiledL (runA10 V c t h).1.2.1 S1x32.size (by sl_kernel_rfl) y
theorem cover10_A_5 (c : Dev nD) (t : Fin cfg10.N) (h : cond10_0 (grid10.coords t)) (y : S1x32.Idx) :
    ∃ pc ∈ (runA10 V c t h).1.2.2, y ∈ pc.1.set := View.cover_of_tiledL (runA10 V c t h).1.2.2 S1x32.size (by sl_kernel_rfl) y
theorem cover10_B_3 (c : Dev nD) (t : Fin cfg10.N) (h : ¬cond10_0 (grid10.coords t)) (xo4 xo5) (y : S10000x32.Idx) :
    ∃ pc ∈ (runB10 V c t h xo4 xo5).1.1, y ∈ pc.1.set := View.cover_of_tiledL (runB10 V c t h xo4 xo5).1.1 S10000x32.size (by sl_kernel_rfl) y
theorem cover10_B_4 (c : Dev nD) (t : Fin cfg10.N) (h : ¬cond10_0 (grid10.coords t)) (xo4 xo5) (y : S1x32.Idx) :
    ∃ pc ∈ (runB10 V c t h xo4 xo5).1.2.1, y ∈ pc.1.set := View.cover_of_tiledL (runB10 V c t h xo4 xo5).1.2.1 S1x32.size (by sl_kernel_rfl) y
theorem cover10_B_5 (c : Dev nD) (t : Fin cfg10.N) (h : ¬cond10_0 (grid10.coords t)) (xo4 xo5) (y : S1x32.Idx) :
    ∃ pc ∈ (runB10 V c t h xo4 xo5).1.2.2, y ∈ pc.1.set := View.cover_of_tiledL (runB10 V c t h xo4 xo5).1.2.2 S1x32.size (by sl_kernel_rfl) y

/-- THE ACCUMULATION. What the three outputs' staging buffers hold after the body at position n: the first point's
    case at 0, the later points' case after that, the two rows entered at what position n − 1 left. -/
def outsAt10 (c : Dev nD) : (n : ℕ) → n < cfg10.N → Outs10 (F := F)
  | 0, hn => readBack10 (runA10 V c ⟨0, hn⟩ ((hcond10_0 ⟨0, hn⟩).mpr (Nat.zero_mod _))).1
  | n + 1, hn =>
    if h0 : (n + 1) % 10 = 0 then
      readBack10 (runA10 V c ⟨n + 1, hn⟩ ((hcond10_0 ⟨n + 1, hn⟩).mpr h0)).1
    else
      readBack10 (runB10 V c ⟨n + 1, hn⟩ (fun h => h0 ((hcond10_0 ⟨n + 1, hn⟩).mp h))
        (outsAt10 c n (Nat.lt_of_succ_lt hn)).2.1 (outsAt10 c n (Nat.lt_of_succ_lt hn)).2.2).1

theorem outsAt10_A (c : Dev nD) (t : Fin cfg10.N) (h0 : t.val % 10 = 0) :
    outsAt10 V c t.val t.isLt = readBack10 (runA10 V c t ((hcond10_0 t).mpr h0)).1 := by
  obtain ⟨n, hn⟩ := t
  cases n with
  | zero => exact rfl
  | succ n => exact (dif_pos h0).trans rfl

theorem outsAt10_B (c : Dev nD) (t : Fin cfg10.N) (h0 : ¬t.val % 10 = 0) :
    outsAt10 V c t.val t.isLt = readBack10 (runB10 V c t (fun h => h0 ((hcond10_0 t).mp h))
      (outsAt10 V c (t.val - 1) (Nat.lt_of_le_of_lt (Nat.sub_le _ _) t.isLt)).2.1
      (outsAt10 V c (t.val - 1) (Nat.lt_of_le_of_lt (Nat.sub_le _ _) t.isLt)).2.2).1 := by
  obtain ⟨n, hn⟩ := t
  cases n with
  | zero => exact (by exfalso; (try dsimp only at h0); exact absurd (Nat.zero_mod _) h0)
  | succ n => exact (dif_neg h0).trans rfl

/-- The proof data of this pipeline on core c: the arrays as the region finds them; after the body at point t each
    input's buffer at its block and the outputs' at outsAt; the invariant the untouched scoped rest and the
    generator register; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => (outsAt10 V c t.val t.isLt).1
    | ⟨4, _⟩ => (outsAt10 V c t.val t.isLt).2.1
    | ⟨5, _⟩ => (outsAt10 V c t.val t.isLt).2.2
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = (outsAt10 V c t.val t.isLt).1 := by dsimp only [dat10]
theorem after10_4 (c : Dev nD) (t : Fin cfg10.N) : (dat10 V c).after 4 t = (outsAt10 V c t.val t.isLt).2.1 := by dsimp only [dat10]
theorem after10_5 (c : Dev nD) (t : Fin cfg10.N) : (dat10 V c).after 5 t = (outsAt10 V c t.val t.isLt).2.2 := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d

/-- At a later point each row's current staging buffer holds what the body left at the point before: the point is not
    the first, and the row is written back at the last point only. -/
theorem before10_4_B (c : Dev nD) (t : Fin cfg10.N) (h0 : ¬t.val % 10 = 0) (d) :
    (dat10 V c).before 4 t d = (outsAt10 V c (t.val - 1) (Nat.lt_of_le_of_lt (Nat.sub_le _ _) t.isLt)).2.1 := by
  have hN : t.val < 10 := lt_of_lt_of_eq t.isLt (show cfg10.N = 10 from N_10)
  rw [Dat.before_out_kept _ 4 rfl t (by omega) (Bool.eq_false_iff.mpr fun h => by have := (flush10_4 _).mp h; dsimp only at this; omega)
    (fun _ => rfl) (fun _ _ => rfl)]
  dsimp only [dat10]
theorem before10_5_B (c : Dev nD) (t : Fin cfg10.N) (h0 : ¬t.val % 10 = 0) (d) :
    (dat10 V c).before 5 t d = (outsAt10 V c (t.val - 1) (Nat.lt_of_le_of_lt (Nat.sub_le _ _) t.isLt)).2.2 := by
  have hN : t.val < 10 := lt_of_lt_of_eq t.isLt (show cfg10.N = 10 from N_10)
  rw [Dat.before_out_kept _ 5 rfl t (by omega) (Bool.eq_false_iff.mpr fun h => by have := (flush10_5 _).mp h; dsimp only at this; omega)
    (fun _ => rfl) (fun _ _ => rfl)]
  dsimp only [dat10]

/-- What the body is called with at point t, window by window, -/
def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d))
    ∗ (∃ d, owns (c : Thread nD τ) (ms10_3 t) fullShare ((dat10 V c).before 3 t d))
    ∗ (∃ d, owns (c : Thread nD τ) (ms10_4 t) fullShare ((dat10 V c).before 4 t d))
    ∗ (∃ d, owns (c : Thread nD τ) (ms10_5 t) fullShare ((dat10 V c).before 5 t d)))

/-- and what it returns. -/
def bodyPost10 (c : Dev nD) (t : Fin cfg10.N) : sProp 𝕄 :=
  iprop((dat10 V c).Φ t.succ ∗ (dat10 V c).owesAt () t.succ
    ∗ owns (c : Thread nD τ) (ms10_0 t) fullShare ((dat10 V c).after 0 t)
    ∗ owns (c : Thread nD τ) (ms10_1 t) fullShare ((dat10 V c).after 1 t)
    ∗ owns (c : Thread nD τ) (ms10_2 t) fullShare ((dat10 V c).after 2 t)
    ∗ owns (c : Thread nD τ) (ms10_3 t) fullShare ((dat10 V c).after 3 t)
    ∗ owns (c : Thread nD τ) (ms10_4 t) fullShare ((dat10 V c).after 4 t)
    ∗ owns (c : Thread nD τ) (ms10_5 t) fullShare ((dat10 V c).after 5 t))

set_option maxHeartbeats 2000000 in
/-- The body at any point: the inputs' buffers hold their blocks; the closed form of the condition says which case the
    point is in; at a later point the two rows hold what the point before left; so that case's run applies; the
    invariant and what the core owes pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2]
  rw [show (dat10 V c).Φ t.succ = (dat10 V c).Φ t.castSucc from rfl,
    show (dat10 V c).owesAt () t.succ = (dat10 V c).owesAt () t.castSucc from rfl,
    after10_0, after10_1, after10_2, after10_3, after10_4, after10_5]
  have hN : t.val < 10 := lt_of_lt_of_eq t.isLt (show cfg10.N = 10 from N_10)
  by_cases h0 : t.val % 10 = 0
  · rw [outsAt10_A V c t h0]
    unfold readBack10
    dsimp only
    iintro ⟨HΦ, Ho, ⟨%d0, H0⟩, ⟨%d1, H1⟩, ⟨%d2, H2⟩, ⟨%d3, H3⟩, ⟨%d4, H4⟩, ⟨%d5, H5⟩⟩
    iapply ((runA10 V c t ((hcond10_0 t).mpr h0)).2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover10_A_3 V c t _)
    isplitl [H4]
    · unfold owns; iexists _; isplitr
      swap; · iexact H4
      ipureintro; exact View.read_writes_of_cover _ _ _ _ _ (cover10_A_4 V c t _)
    unfold owns; iexists _; isplitr
    swap; · iexact H5
    ipureintro; exact View.read_writes_of_cover _ _ _ _ _ (cover10_A_5 V c t _)
  · rw [outsAt10_B V c t h0]
    simp only [before10_4_B V c t h0, before10_5_B V c t h0]
    unfold readBack10
    dsimp only
    iintro ⟨HΦ, Ho, ⟨%d0, H0⟩, ⟨%d1, H1⟩, ⟨%d2, H2⟩, ⟨%d3, H3⟩, ⟨%d4, H4⟩, ⟨%d5, H5⟩⟩
    iapply ((runB10 V c t (fun h => h0 ((hcond10_0 t).mp h)) _ _).2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover10_B_3 V c t _ _ _)
    isplitl [H4]
    · unfold owns; iexists _; isplitr
      swap; · iexact H4
      ipureintro; exact View.read_writes_of_cover _ _ _ _ _ (cover10_B_4 V c t _ _ _)
    unfold owns; iexists _; isplitr
    swap; · iexact H5
    ipureintro; exact View.read_writes_of_cover _ _ _ _ _ (cover10_B_5 V c t _ _ _)

/-- The pipeline's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Body

end
-- ==== Proof.KIRegion11.lean ====
/-
  Region 11 of the program: the normalise-and-cut-off tile kernel: (x − mean)·rsqrt(max(var, 0) + ε)·scale + bias, cut off at 0, the four rows repeated down the tile, one grid point at a time.

  At a grid point the body loads its 5 input blocks whole and stores one value into its output block, also whole.
  The inputs are read only, so after the body each holds its block as before and the output block holds that one
  stored value; nothing else of the core's state moves. This is the body's obligation to the pipeline, at any float instance.
-/
import proofs.«140713_j1864015806535_2_alg».proof.Proof.Gen.KernelIdeal.Launch
import proofs.«140713_j1864015806535_2_alg».proof.Proof.Gen.KernelIdeal.Skeleton
import proofs.«140713_j1864015806535_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's current staging buffer holds its block at every point, fetched there or not. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-- The whole-buffer rectangles the body loads and stores through. -/
abbrev r11_0 : Rect S10000x32 := Rect.unit (s := S10000x32) ![0, 0] S10000x32.size inb_S10000x32_S10000x32_0_0
abbrev r11_1 : Rect S1x32 := Rect.unit (s := S1x32) ![0, 0] S1x32.size inb_S1x32_S1x32_0_0
abbrev r11_2 : Rect S1x32 := Rect.unit (s := S1x32) ![0, 0] S1x32.size inb_S1x32_S1x32_0_0
abbrev r11_3 : Rect S1x32 := Rect.unit (s := S1x32) ![0, 0] S1x32.size inb_S1x32_S1x32_0_0
abbrev r11_4 : Rect S1x32 := Rect.unit (s := S1x32) ![0, 0] S1x32.size inb_S1x32_S1x32_0_0
abbrev r11_5 : Rect S10000x32 := Rect.unit (s := S10000x32) ![0, 0] S10000x32.size inb_S10000x32_S10000x32_0_0

/-- The output block after the body: the one store's value of the input blocks. -/
def out11_5 (x0 : Vec F S10000x32 .f32) (x1 : Vec F S1x32 .f32) (x2 : Vec F S1x32 .f32) (x3 : Vec F S1x32 .f32) (x4 : Vec F S1x32 .f32) : Vec F S10000x32 .f32 :=
  View.canon [⟨r11_5, k11_pay1 (View.ld x0 r11_0) (View.ld x1 r11_1) (View.ld x2 r11_2) (View.ld x3 r11_3) (View.ld x4 r11_4)⟩]

/-- The one store covers the whole output block. -/
theorem cover11_5 (p0 : Vec F S10000x32 .f32) (y : S10000x32.Idx) :
    ∃ pc ∈ ([⟨r11_5, p0⟩] : List (View.Piece (Elt F) S10000x32 .f32)), y ∈ pc.1.set :=
  View.cover_of_tiled [⟨r11_5, p0⟩] S10000x32.size (by rfl) y

set_option maxHeartbeats 1000000 in
/-- The body on whole staging buffers: the inputs stay, the output ends at out11_5 of the inputs. -/
theorem sound_kernel11 (c : Dev nD) (E : Set ℕ) (i : grid11.Coords) (arg1 : Memref sig .tc .vmem S10000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S10000x32 .f32) (harg6 : arg6.IsWhole)
    (x0 : Vec F S10000x32 .f32) (x1 : Vec F S1x32 .f32) (x2 : Vec F S1x32 .f32) (x3 : Vec F S1x32 .f32) (x4 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out11_5 x0 x1 x2 x3 x4)) -∗ K ⟨⟩))
      ⊢ wp frame (wpE (defs₀ (F := F)) Variants.none c none) E (cc11__bn_relu_kernel i arg1 harg1 arg2 harg2 arg3 harg3 arg4 harg4 arg5 harg5 arg6 harg6) K := by
  simp only [cc11__bn_relu_kernel_eq_skeleton]; unfold cc11__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover11_5 _)

/-- The proof data of this pipeline on core c: the arrays as the region finds them; after the body at point t each
    input's buffer at its block and the output's at the stored value of the input blocks; the invariant the untouched
    scoped rest and the generator register; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out11_5 (iblk11 V c 0 t) (iblk11 V c 1 t) (iblk11 V c 2 t) (iblk11 V c 3 t) (iblk11 V c 4 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) :
    (dat11 V c).after 5 t = out11_5 (iblk11 V c 0 t) (iblk11 V c 1 t) (iblk11 V c 2 t) (iblk11 V c 3 t) (iblk11 V c 4 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d

/-- What the body is called with at point t, window by window, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

/-- The body at any point: the inputs' buffers hold their blocks, so sound_kernel11 applies; the invariant and what the
    core owes pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5]
  iintro ⟨HΦ, Ho, ⟨%d0, H0⟩, ⟨%d1, H1⟩, ⟨%d2, H2⟩, ⟨%d3, H3⟩, ⟨%d4, H4⟩, ⟨%d5, H5⟩⟩
  iapply (sound_kernel11 c Set.univ _ _ _ _ _ _ _ _ _ _ _ _ _ (iblk11 V c 0 t) (iblk11 V c 1 t) (iblk11 V c 2 t) (iblk11 V c 3 t) (iblk11 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Body

end
-- ==== Proof.KIRegion12.lean ====
/-
  Region 12 of the program: a dense layer's tile kernel: the tile's rows times the whole weight, plus the bias row repeated down the rows, one grid point at a time.

  At a grid point the body loads its 3 input blocks whole and stores one value into its output block, also whole.
  The inputs are read only, so after the body each holds its block as before and the output block holds that one
  stored value; nothing else of the core's state moves. This is the body's obligation to the pipeline, at any float instance.
-/
import proofs.«140713_j1864015806535_2_alg».proof.Proof.Gen.KernelIdeal.Launch
import proofs.«140713_j1864015806535_2_alg».proof.Proof.Gen.KernelIdeal.Skeleton
import proofs.«140713_j1864015806535_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- An input window's current staging buffer holds its block at every point, fetched there or not. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-- The whole-buffer rectangles the body loads and stores through. -/
abbrev r12_0 : Rect S10000x128 := Rect.unit (s := S10000x128) ![0, 0] S10000x128.size inb_S10000x128_S10000x128_0_0
abbrev r12_1 : Rect S128x64 := Rect.unit (s := S128x64) ![0, 0] S128x64.size inb_S128x64_S128x64_0_0
abbrev r12_2 : Rect S1x64 := Rect.unit (s := S1x64) ![0, 0] S1x64.size inb_S1x64_S1x64_0_0
abbrev r12_3 : Rect S10000x64 := Rect.unit (s := S10000x64) ![0, 0] S10000x64.size inb_S10000x64_S10000x64_0_0

/-- The output block after the body: the one store's value of the input blocks. -/
def out12_3 (x0 : Vec F S10000x128 .f32) (x1 : Vec F S128x64 .f32) (x2 : Vec F S1x64 .f32) : Vec F S10000x64 .f32 :=
  View.canon [⟨r12_3, k12_pay1 (View.ld x0 r12_0) (View.ld x1 r12_1) (View.ld x2 r12_2)⟩]

/-- The one store covers the whole output block. -/
theorem cover12_3 (p0 : Vec F S10000x64 .f32) (y : S10000x64.Idx) :
    ∃ pc ∈ ([⟨r12_3, p0⟩] : List (View.Piece (Elt F) S10000x64 .f32)), y ∈ pc.1.set :=
  View.cover_of_tiled [⟨r12_3, p0⟩] S10000x64.size (by rfl) y

set_option maxHeartbeats 1000000 in
/-- The body on whole staging buffers: the inputs stay, the output ends at out12_3 of the inputs. -/
theorem sound_kernel12 (c : Dev nD) (E : Set ℕ) (i : grid12.Coords) (arg1 : Memref sig .tc .vmem S10000x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x128 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out12_3 x0 x1 x2)) -∗ K ⟨⟩))
      ⊢ wp frame (wpE (defs₀ (F := F)) Variants.none c none) E (cc12__matmul_bias_kernel i arg1 harg1 arg2 harg2 arg3 harg3 arg4 harg4) K := by
  simp only [cc12__matmul_bias_kernel_eq_skeleton]; unfold cc12__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover12_3 _)

/-- The proof data of this pipeline on core c: the arrays as the region finds them; after the body at point t each
    input's buffer at its block and the output's at the stored value of the input blocks; the invariant the untouched
    scoped rest and the generator register; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => out12_3 (iblk12 V c 0 t) (iblk12 V c 1 t) (iblk12 V c 2 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) :
    (dat12 V c).after 3 t = out12_3 (iblk12 V c 0 t) (iblk12 V c 1 t) (iblk12 V c 2 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d

/-- What the body is called with at point t, window by window, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t))

/-- The body at any point: the inputs' buffers hold their blocks, so sound_kernel12 applies; the invariant and what the
    core owes pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2]
  rw [show (dat12 V c).Φ t.succ = (dat12 V c).Φ t.castSucc from rfl,
    show (dat12 V c).owesAt () t.succ = (dat12 V c).owesAt () t.castSucc from rfl,
    after12_0, after12_1, after12_2, after12_3]
  iintro ⟨HΦ, Ho, ⟨%d0, H0⟩, ⟨%d1, H1⟩, ⟨%d2, H2⟩, ⟨%d3, H3⟩⟩
  iapply (sound_kernel12 c Set.univ _ _ _ _ _ _ _ _ _ (iblk12 V c 0 t) (iblk12 V c 1 t) (iblk12 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation12 (c : Dev nD) : BodyObligation (dat12 (F := F) V c) (defs₀ (F := F)) Variants.none () Set.univ := fun t => by
  rw [bigSep_W12, bigSep_W12]
  exact sound_body12 V c t

end Cert.KernelIdeal.Body

end
-- ==== Proof.KIRegion13.lean ====
/-
  Region 13 of the program: the mix-and-accumulate tile kernel, one grid point at a time.

  At grid point t the body loads its tile of h and of agg (windows 0 and 1) and the 1×1 mixing weight g (window 2),
  stores xm = g·agg + (1 − g)·h into its tile of the output (window 3), and adds the column sums of xm and of xm·xm
  to two one-row outputs (windows 4 and 5) that stay in place over the whole grid: at the first point the rows are
  first set to zero, at every later point they hold what the point before left. So the body has two cases, told apart
  by the grid coordinate alone; in the first it reads none of its outputs before covering them, in the second it
  reads the two rows. What the three outputs hold after point n is defined by recursion on n, and the body's
  obligation to the pipeline is proved case by case. At any float instance.
-/
import proofs.«140713_j1864015806535_2_alg».proof.Proof.Gen.KernelIdeal.Launch
import proofs.«140713_j1864015806535_2_alg».proof.Proof.Gen.KernelIdeal.Skeleton
import proofs.«140713_j1864015806535_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- An input window's current staging buffer holds its block at every point, fetched there or not. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-- The body's branch condition from the grid coordinate: "this is the first point". -/
abbrev cond13_0 (i : grid13.Coords) : Prop := (Scalar.cmpi .ne (Scalar.extui (Scalar.cmpi .eq (BitVec.ofNat 32 (i 0).val) 0#32)) 0#32) = 1#1
/-- It holds at the first point only: decided over the grid. -/
theorem hcond13_0 : ∀ t : Fin cfg13.N, cond13_0 (grid13.coords t) ↔ t.val % 10 = 0 :=
  (by decide +kernel : ∀ t : Fin grid13.N, cond13_0 (grid13.coords t) ↔ t.val % 10 = 0)

/-- One staging buffer of each output window, through which its contents are stated. -/
abbrev VO13_3 : View sig .tc .vmem S10000x64 .f32 := (Memref.whole cc13_stg3_0 : Memref sig .tc .vmem S10000x64 .f32).view
abbrev VO13_4 : View sig .tc .vmem S1x64 .f32 := (Memref.whole cc13_stg4_0 : Memref sig .tc .vmem S1x64 .f32).view
abbrev VO13_5 : View sig .tc .vmem S1x64 .f32 := (Memref.whole cc13_stg5_0 : Memref sig .tc .vmem S1x64 .f32).view

/-- Each window's current staging buffer at point t, as the pipeline passes it, and its wholeness. -/
abbrev ms13_0 (t : Fin cfg13.N) : Memref sig .tc .vmem S10000x64 .f32 := win13_0.stage (cfg13.slots t 0)
abbrev hs13_0 (t : Fin cfg13.N) : (ms13_0 t).IsWhole := hstage13_0 ((cfg13.slots t 0).cast nbuf13_0)
abbrev ms13_1 (t : Fin cfg13.N) : Memref sig .tc .vmem S10000x64 .f32 := win13_1.stage (cfg13.slots t 1)
abbrev hs13_1 (t : Fin cfg13.N) : (ms13_1 t).IsWhole := hstage13_1 ((cfg13.slots t 1).cast nbuf13_1)
abbrev ms13_2 (t : Fin cfg13.N) : Memref sig .tc .vmem S1x1 .f32 := win13_2.stage (cfg13.slots t 2)
abbrev hs13_2 (t : Fin cfg13.N) : (ms13_2 t).IsWhole := hstage13_2 ((cfg13.slots t 2).cast nbuf13_2)
abbrev ms13_3 (t : Fin cfg13.N) : Memref sig .tc .vmem S10000x64 .f32 := win13_3.stage (cfg13.slots t 3)
abbrev hs13_3 (t : Fin cfg13.N) : (ms13_3 t).IsWhole := hstage13_3 ((cfg13.slots t 3).cast nbuf13_3)
abbrev ms13_4 (t : Fin cfg13.N) : Memref sig .tc .vmem S1x64 .f32 := win13_4.stage (cfg13.slots t 4)
abbrev hs13_4 (t : Fin cfg13.N) : (ms13_4 t).IsWhole := hstage13_4 ((cfg13.slots t 4).cast nbuf13_4)
abbrev ms13_5 (t : Fin cfg13.N) : Memref sig .tc .vmem S1x64 .f32 := win13_5.stage (cfg13.slots t 5)
abbrev hs13_5 (t : Fin cfg13.N) : (ms13_5 t).IsWhole := hstage13_5 ((cfg13.slots t 5).cast nbuf13_5)

/-- The three outputs' piece lists, and their contents. -/
abbrev Pcs13 : Type := List (View.Piece (Elt F) S10000x64 .f32) × List (View.Piece (Elt F) S1x64 .f32) × List (View.Piece (Elt F) S1x64 .f32)
abbrev Outs13 : Type := Vec F S10000x64 .f32 × Vec F S1x64 .f32 × Vec F S1x64 .f32

set_option maxHeartbeats 4000000 in
/-- THE FIRST POINT (the branch taken): what the body's stores leave in each output's staging buffer, as pieces (last
    first), with the proof that on whole staging buffers, the inputs' at their contents and the outputs' at anything,
    the body runs to the continuation holding the inputs' as they were and each output's with its pieces written. -/
noncomputable def kernelRun13_A (c : Dev nD) (i : grid13.Coords)
    (arg1 : Memref sig .tc .vmem S10000x64 .f32) (harg1 : arg1.IsWhole) (arg2 : Memref sig .tc .vmem S10000x64 .f32) (harg2 : arg2.IsWhole)
    (arg3 : Memref sig .tc .vmem S1x1 .f32) (harg3 : arg3.IsWhole) (arg4 : Memref sig .tc .vmem S10000x64 .f32) (harg4 : arg4.IsWhole)
    (arg5 : Memref sig .tc .vmem S1x64 .f32) (harg5 : arg5.IsWhole) (arg6 : Memref sig .tc .vmem S1x64 .f32) (harg6 : arg6.IsWhole)
    (hc0 : cond13_0 i) (x0 : Vec F S10000x64 .f32) (x1 : Vec F S10000x64 .f32) (x2 : Vec F S1x1 .f32) :
    { L : Pcs13 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2.1)
                ∗ (∃ f, arg6.view.loc (c : Thread nD τ) ↦[arg6.view.set]{fullShare} arg6.view.writes (Elt F) f L.2.2)) -∗ K ⟨⟩))
          ⊢ wp frame (wpE (defs₀ (F := F)) Variants.none c none) E (cc13__mix_reduce_kernel i arg1 harg1 arg2 harg2 arg3 harg3 arg4 harg4 arg5 harg5 arg6 harg6) K } := by
  refine ⟨(?_, ?_, ?_), fun E K => ?run⟩
  case run =>
    simp only [cc13__mix_reduce_kernel_eq_skeleton]; unfold cc13__mix_reduce_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0
    obtain rfl := harg2.eq_unread hf1
    obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

set_option maxHeartbeats 4000000 in
/-- EVERY LATER POINT (the branch not taken): the same, the two rows entered at their running contents xo4, xo5. -/
noncomputable def kernelRun13_B (c : Dev nD) (i : grid13.Coords)
    (arg1 : Memref sig .tc .vmem S10000x64 .f32) (harg1 : arg1.IsWhole) (arg2 : Memref sig .tc .vmem S10000x64 .f32) (harg2 : arg2.IsWhole)
    (arg3 : Memref sig .tc .vmem S1x1 .f32) (harg3 : arg3.IsWhole) (arg4 : Memref sig .tc .vmem S10000x64 .f32) (harg4 : arg4.IsWhole)
    (arg5 : Memref sig .tc .vmem S1x64 .f32) (harg5 : arg5.IsWhole) (arg6 : Memref sig .tc .vmem S1x64 .f32) (harg6 : arg6.IsWhole)
    (hc0 : ¬cond13_0 i) (x0 : Vec F S10000x64 .f32) (x1 : Vec F S10000x64 .f32) (x2 : Vec F S1x1 .f32) (xo4 : Vec F S1x64 .f32) (xo5 : Vec F S1x64 .f32) :
    { L : Pcs13 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2.1)
                ∗ (∃ f, arg6.view.loc (c : Thread nD τ) ↦[arg6.view.set]{fullShare} arg6.view.writes (Elt F) f L.2.2)) -∗ K ⟨⟩))
          ⊢ wp frame (wpE (defs₀ (F := F)) Variants.none c none) E (cc13__mix_reduce_kernel i arg1 harg1 arg2 harg2 arg3 harg3 arg4 harg4 arg5 harg5 arg6 harg6) K } := by
  refine ⟨(?_, ?_, ?_), fun E K => ?run⟩
  case run =>
    simp only [cc13__mix_reduce_kernel_eq_skeleton]; unfold cc13__mix_reduce_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg1.eq_unread hf0
    obtain rfl := harg2.eq_unread hf1
    obtain rfl := harg3.eq_unread hf2
    obtain rfl := harg5.eq_unread hf4
    obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

/-- The two runs at a grid point, on the point's staging buffers and input blocks. -/
abbrev runA13 (c : Dev nD) (t : Fin cfg13.N) (h : cond13_0 (grid13.coords t)) :=
  kernelRun13_A (F := F) c (grid13.coords t) (ms13_0 t) (hs13_0 t) (ms13_1 t) (hs13_1 t) (ms13_2 t) (hs13_2 t) (ms13_3 t) (hs13_3 t)
    (ms13_4 t) (hs13_4 t) (ms13_5 t) (hs13_5 t) h (iblk13 V c 0 t) (iblk13 V c 1 t) (iblk13 V c 2 t)
abbrev runB13 (c : Dev nD) (t : Fin cfg13.N) (h : ¬cond13_0 (grid13.coords t)) (xo4 : Vec F S1x64 .f32) (xo5 : Vec F S1x64 .f32) :=
  kernelRun13_B (F := F) c (grid13.coords t) (ms13_0 t) (hs13_0 t) (ms13_1 t) (hs13_1 t) (ms13_2 t) (hs13_2 t) (ms13_3 t) (hs13_3 t)
    (ms13_4 t) (hs13_4 t) (ms13_5 t) (hs13_5 t) h (iblk13 V c 0 t) (iblk13 V c 1 t) (iblk13 V c 2 t) xo4 xo5

/-- What a list of pieces leaves in each output's staging buffer: the pieces read back over junk. -/
def readBack13 (L : Pcs13 (F := F)) : Outs13 (F := F) :=
  (VO13_3.read (Elt F) (VO13_3.writes (Elt F) VO13_3.junk L.1),
   VO13_4.read (Elt F) (VO13_4.writes (Elt F) VO13_4.junk L.2.1),
   VO13_5.read (Elt F) (VO13_5.writes (Elt F) VO13_5.junk L.2.2))

/-- Each case's pieces tile their output's block (checked by evaluation), so they cover it. -/
theorem cover13_A_3 (c : Dev nD) (t : Fin cfg13.N) (h : cond13_0 (grid13.coords t)) (y : S10000x64.Idx) :
    ∃ pc ∈ (runA13 V c t h).1.1, y ∈ pc.1.set := View.cover_of_tiledL (runA13 V c t h).1.1 S10000x64.size (by sl_kernel_rfl) y
theorem cover13_A_4 (c : Dev nD) (t : Fin cfg13.N) (h : cond13_0 (grid13.coords t)) (y : S1x64.Idx) :
    ∃ pc ∈ (runA13 V c t h).1.2.1, y ∈ pc.1.set := View.cover_of_tiledL (runA13 V c t h).1.2.1 S1x64.size (by sl_kernel_rfl) y
theorem cover13_A_5 (c : Dev nD) (t : Fin cfg13.N) (h : cond13_0 (grid13.coords t)) (y : S1x64.Idx) :
    ∃ pc ∈ (runA13 V c t h).1.2.2, y ∈ pc.1.set := View.cover_of_tiledL (runA13 V c t h).1.2.2 S1x64.size (by sl_kernel_rfl) y
theorem cover13_B_3 (c : Dev nD) (t : Fin cfg13.N) (h : ¬cond13_0 (grid13.coords t)) (xo4 xo5) (y : S10000x64.Idx) :
    ∃ pc ∈ (runB13 V c t h xo4 xo5).1.1, y ∈ pc.1.set := View.cover_of_tiledL (runB13 V c t h xo4 xo5).1.1 S10000x64.size (by sl_kernel_rfl) y
theorem cover13_B_4 (c : Dev nD) (t : Fin cfg13.N) (h : ¬cond13_0 (grid13.coords t)) (xo4 xo5) (y : S1x64.Idx) :
    ∃ pc ∈ (runB13 V c t h xo4 xo5).1.2.1, y ∈ pc.1.set := View.cover_of_tiledL (runB13 V c t h xo4 xo5).1.2.1 S1x64.size (by sl_kernel_rfl) y
theorem cover13_B_5 (c : Dev nD) (t : Fin cfg13.N) (h : ¬cond13_0 (grid13.coords t)) (xo4 xo5) (y : S1x64.Idx) :
    ∃ pc ∈ (runB13 V c t h xo4 xo5).1.2.2, y ∈ pc.1.set := View.cover_of_tiledL (runB13 V c t h xo4 xo5).1.2.2 S1x64.size (by sl_kernel_rfl) y

/-- THE ACCUMULATION. What the three outputs' staging buffers hold after the body at position n: the first point's
    case at 0, the later points' case after that, the two rows entered at what position n − 1 left. -/
def outsAt13 (c : Dev nD) : (n : ℕ) → n < cfg13.N → Outs13 (F := F)
  | 0, hn => readBack13 (runA13 V c ⟨0, hn⟩ ((hcond13_0 ⟨0, hn⟩).mpr (Nat.zero_mod _))).1
  | n + 1, hn =>
    if h0 : (n + 1) % 10 = 0 then
      readBack13 (runA13 V c ⟨n + 1, hn⟩ ((hcond13_0 ⟨n + 1, hn⟩).mpr h0)).1
    else
      readBack13 (runB13 V c ⟨n + 1, hn⟩ (fun h => h0 ((hcond13_0 ⟨n + 1, hn⟩).mp h))
        (outsAt13 c n (Nat.lt_of_succ_lt hn)).2.1 (outsAt13 c n (Nat.lt_of_succ_lt hn)).2.2).1

theorem outsAt13_A (c : Dev nD) (t : Fin cfg13.N) (h0 : t.val % 10 = 0) :
    outsAt13 V c t.val t.isLt = readBack13 (runA13 V c t ((hcond13_0 t).mpr h0)).1 := by
  obtain ⟨n, hn⟩ := t
  cases n with
  | zero => exact rfl
  | succ n => exact (dif_pos h0).trans rfl

theorem outsAt13_B (c : Dev nD) (t : Fin cfg13.N) (h0 : ¬t.val % 10 = 0) :
    outsAt13 V c t.val t.isLt = readBack13 (runB13 V c t (fun h => h0 ((hcond13_0 t).mp h))
      (outsAt13 V c (t.val - 1) (Nat.lt_of_le_of_lt (Nat.sub_le _ _) t.isLt)).2.1
      (outsAt13 V c (t.val - 1) (Nat.lt_of_le_of_lt (Nat.sub_le _ _) t.isLt)).2.2).1 := by
  obtain ⟨n, hn⟩ := t
  cases n with
  | zero => exact (by exfalso; (try dsimp only at h0); exact absurd (Nat.zero_mod _) h0)
  | succ n => exact (dif_neg h0).trans rfl

/-- The proof data of this pipeline on core c: the arrays as the region finds them; after the body at point t each
    input's buffer at its block and the outputs' at outsAt; the invariant the untouched scoped rest and the
    generator register; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => (outsAt13 V c t.val t.isLt).1
    | ⟨4, _⟩ => (outsAt13 V c t.val t.isLt).2.1
    | ⟨5, _⟩ => (outsAt13 V c t.val t.isLt).2.2
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = (outsAt13 V c t.val t.isLt).1 := by dsimp only [dat13]
theorem after13_4 (c : Dev nD) (t : Fin cfg13.N) : (dat13 V c).after 4 t = (outsAt13 V c t.val t.isLt).2.1 := by dsimp only [dat13]
theorem after13_5 (c : Dev nD) (t : Fin cfg13.N) : (dat13 V c).after 5 t = (outsAt13 V c t.val t.isLt).2.2 := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d

/-- At a later point each row's current staging buffer holds what the body left at the point before: the point is not
    the first, and the row is written back at the last point only. -/
theorem before13_4_B (c : Dev nD) (t : Fin cfg13.N) (h0 : ¬t.val % 10 = 0) (d) :
    (dat13 V c).before 4 t d = (outsAt13 V c (t.val - 1) (Nat.lt_of_le_of_lt (Nat.sub_le _ _) t.isLt)).2.1 := by
  have hN : t.val < 10 := lt_of_lt_of_eq t.isLt (show cfg13.N = 10 from N_13)
  rw [Dat.before_out_kept _ 4 rfl t (by omega) (Bool.eq_false_iff.mpr fun h => by have := (flush13_4 _).mp h; dsimp only at this; omega)
    (fun _ => rfl) (fun _ _ => rfl)]
  dsimp only [dat13]
theorem before13_5_B (c : Dev nD) (t : Fin cfg13.N) (h0 : ¬t.val % 10 = 0) (d) :
    (dat13 V c).before 5 t d = (outsAt13 V c (t.val - 1) (Nat.lt_of_le_of_lt (Nat.sub_le _ _) t.isLt)).2.2 := by
  have hN : t.val < 10 := lt_of_lt_of_eq t.isLt (show cfg13.N = 10 from N_13)
  rw [Dat.before_out_kept _ 5 rfl t (by omega) (Bool.eq_false_iff.mpr fun h => by have := (flush13_5 _).mp h; dsimp only at this; omega)
    (fun _ => rfl) (fun _ _ => rfl)]
  dsimp only [dat13]

/-- What the body is called with at point t, window by window, -/
def bodyPre13 (c : Dev nD) (t : Fin cfg13.N) : sProp 𝕄 :=
  iprop((dat13 V c).Φ t.castSucc ∗ (dat13 V c).owesAt () t.castSucc
    ∗ (∃ d, owns (c : Thread nD τ) (ms13_0 t) fullShare ((dat13 V c).before 0 t d))
    ∗ (∃ d, owns (c : Thread nD τ) (ms13_1 t) fullShare ((dat13 V c).before 1 t d))
    ∗ (∃ d, owns (c : Thread nD τ) (ms13_2 t) fullShare ((dat13 V c).before 2 t d))
    ∗ (∃ d, owns (c : Thread nD τ) (ms13_3 t) fullShare ((dat13 V c).before 3 t d))
    ∗ (∃ d, owns (c : Thread nD τ) (ms13_4 t) fullShare ((dat13 V c).before 4 t d))
    ∗ (∃ d, owns (c : Thread nD τ) (ms13_5 t) fullShare ((dat13 V c).before 5 t d)))

/-- and what it returns. -/
def bodyPost13 (c : Dev nD) (t : Fin cfg13.N) : sProp 𝕄 :=
  iprop((dat13 V c).Φ t.succ ∗ (dat13 V c).owesAt () t.succ
    ∗ owns (c : Thread nD τ) (ms13_0 t) fullShare ((dat13 V c).after 0 t)
    ∗ owns (c : Thread nD τ) (ms13_1 t) fullShare ((dat13 V c).after 1 t)
    ∗ owns (c : Thread nD τ) (ms13_2 t) fullShare ((dat13 V c).after 2 t)
    ∗ owns (c : Thread nD τ) (ms13_3 t) fullShare ((dat13 V c).after 3 t)
    ∗ owns (c : Thread nD τ) (ms13_4 t) fullShare ((dat13 V c).after 4 t)
    ∗ owns (c : Thread nD τ) (ms13_5 t) fullShare ((dat13 V c).after 5 t))

set_option maxHeartbeats 2000000 in
/-- The body at any point: the inputs' buffers hold their blocks; the closed form of the condition says which case the
    point is in; at a later point the two rows hold what the point before left; so that case's run applies; the
    invariant and what the core owes pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2]
  rw [show (dat13 V c).Φ t.succ = (dat13 V c).Φ t.castSucc from rfl,
    show (dat13 V c).owesAt () t.succ = (dat13 V c).owesAt () t.castSucc from rfl,
    after13_0, after13_1, after13_2, after13_3, after13_4, after13_5]
  have hN : t.val < 10 := lt_of_lt_of_eq t.isLt (show cfg13.N = 10 from N_13)
  by_cases h0 : t.val % 10 = 0
  · rw [outsAt13_A V c t h0]
    unfold readBack13
    dsimp only
    iintro ⟨HΦ, Ho, ⟨%d0, H0⟩, ⟨%d1, H1⟩, ⟨%d2, H2⟩, ⟨%d3, H3⟩, ⟨%d4, H4⟩, ⟨%d5, H5⟩⟩
    iapply ((runA13 V c t ((hcond13_0 t).mpr h0)).2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover13_A_3 V c t _)
    isplitl [H4]
    · unfold owns; iexists _; isplitr
      swap; · iexact H4
      ipureintro; exact View.read_writes_of_cover _ _ _ _ _ (cover13_A_4 V c t _)
    unfold owns; iexists _; isplitr
    swap; · iexact H5
    ipureintro; exact View.read_writes_of_cover _ _ _ _ _ (cover13_A_5 V c t _)
  · rw [outsAt13_B V c t h0]
    simp only [before13_4_B V c t h0, before13_5_B V c t h0]
    unfold readBack13
    dsimp only
    iintro ⟨HΦ, Ho, ⟨%d0, H0⟩, ⟨%d1, H1⟩, ⟨%d2, H2⟩, ⟨%d3, H3⟩, ⟨%d4, H4⟩, ⟨%d5, H5⟩⟩
    iapply ((runB13 V c t (fun h => h0 ((hcond13_0 t).mp h)) _ _).2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover13_B_3 V c t _ _ _)
    isplitl [H4]
    · unfold owns; iexists _; isplitr
      swap; · iexact H4
      ipureintro; exact View.read_writes_of_cover _ _ _ _ _ (cover13_B_4 V c t _ _ _)
    unfold owns; iexists _; isplitr
    swap; · iexact H5
    ipureintro; exact View.read_writes_of_cover _ _ _ _ _ (cover13_B_5 V c t _ _ _)

/-- The pipeline's body obligation, at every point. -/
theorem body_obligation13 (c : Dev nD) : BodyObligation (dat13 (F := F) V c) (defs₀ (F := F)) Variants.none () Set.univ := fun t => by
  rw [bigSep_W13, bigSep_W13]
  exact sound_body13 V c t

end Cert.KernelIdeal.Body

end
-- ==== Proof.KIRegion14.lean ====
/-
  Region 14 of the program: the normalise-and-cut-off tile kernel: (x − mean)·rsqrt(max(var, 0) + ε)·scale + bias, cut off at 0, the four rows repeated down the tile, one grid point at a time.

  At a grid point the body loads its 5 input blocks whole and stores one value into its output block, also whole.
  The inputs are read only, so after the body each holds its block as before and the output block holds that one
  stored value; nothing else of the core's state moves. This is the body's obligation to the pipeline, at any float instance.
-/
import proofs.«140713_j1864015806535_2_alg».proof.Proof.Gen.KernelIdeal.Launch
import proofs.«140713_j1864015806535_2_alg».proof.Proof.Gen.KernelIdeal.Skeleton
import proofs.«140713_j1864015806535_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- An input window's current staging buffer holds its block at every point, fetched there or not. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)
theorem before14_3_of {c : Dev nD} (dat : Dat τ (Elt F) Unit ℕ (UR sig nD τ) ℕ cfg14 c) (hA : dat.A 3 = V c (Pipeline.arrRef spec14 3))
    (hafter : ∀ t, dat.after 3 t = iblk14 V c 3 t) (t : Fin cfg14.N) (d) : dat.before 3 t d = iblk14 V c 3 t :=
  (dat.before_in_eq_fetched 3 rfl (fun _ => rfl) (fun _ _ _ => rfl) (fun t => by rw [hafter]; unfold Dat.blockOf iblk14; rw [hA]; try rfl) t d).trans
    (by unfold Dat.fetched Dat.blockOf iblk14; rw [hA]; try rfl)
theorem before14_4_of {c : Dev nD} (dat : Dat τ (Elt F) Unit ℕ (UR sig nD τ) ℕ cfg14 c) (hA : dat.A 4 = V c (Pipeline.arrRef spec14 4))
    (hafter : ∀ t, dat.after 4 t = iblk14 V c 4 t) (t : Fin cfg14.N) (d) : dat.before 4 t d = iblk14 V c 4 t :=
  (dat.before_in_eq_fetched 4 rfl (fun _ => rfl) (fun _ _ _ => rfl) (fun t => by rw [hafter]; unfold Dat.blockOf iblk14; rw [hA]; try rfl) t d).trans
    (by unfold Dat.fetched Dat.blockOf iblk14; rw [hA]; try rfl)

/-- The whole-buffer rectangles the body loads and stores through. -/
abbrev r14_0 : Rect S10000x64 := Rect.unit (s := S10000x64) ![0, 0] S10000x64.size inb_S10000x64_S10000x64_0_0
abbrev r14_1 : Rect S1x64 := Rect.unit (s := S1x64) ![0, 0] S1x64.size inb_S1x64_S1x64_0_0
abbrev r14_2 : Rect S1x64 := Rect.unit (s := S1x64) ![0, 0] S1x64.size inb_S1x64_S1x64_0_0
abbrev r14_3 : Rect S1x64 := Rect.unit (s := S1x64) ![0, 0] S1x64.size inb_S1x64_S1x64_0_0
abbrev r14_4 : Rect S1x64 := Rect.unit (s := S1x64) ![0, 0] S1x64.size inb_S1x64_S1x64_0_0
abbrev r14_5 : Rect S10000x64 := Rect.unit (s := S10000x64) ![0, 0] S10000x64.size inb_S10000x64_S10000x64_0_0

/-- The output block after the body: the one store's value of the input blocks. -/
def out14_5 (x0 : Vec F S10000x64 .f32) (x1 : Vec F S1x64 .f32) (x2 : Vec F S1x64 .f32) (x3 : Vec F S1x64 .f32) (x4 : Vec F S1x64 .f32) : Vec F S10000x64 .f32 :=
  View.canon [⟨r14_5, k14_pay1 (View.ld x0 r14_0) (View.ld x1 r14_1) (View.ld x2 r14_2) (View.ld x3 r14_3) (View.ld x4 r14_4)⟩]

/-- The one store covers the whole output block. -/
theorem cover14_5 (p0 : Vec F S10000x64 .f32) (y : S10000x64.Idx) :
    ∃ pc ∈ ([⟨r14_5, p0⟩] : List (View.Piece (Elt F) S10000x64 .f32)), y ∈ pc.1.set :=
  View.cover_of_tiled [⟨r14_5, p0⟩] S10000x64.size (by rfl) y

set_option maxHeartbeats 1000000 in
/-- The body on whole staging buffers: the inputs stay, the output ends at out14_5 of the inputs. -/
theorem sound_kernel14 (c : Dev nD) (E : Set ℕ) (i : grid14.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out14_5 x0 x1 x2 x3 x4)) -∗ K ⟨⟩))
      ⊢ wp frame (wpE (defs₀ (F := F)) Variants.none c none) E (cc14__bn_relu_kernel i arg1 harg1 arg2 harg2 arg3 harg3 arg4 harg4 arg5 harg5 arg6 harg6) K := by
  simp only [cc14__bn_relu_kernel_eq_skeleton]; unfold cc14__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover14_5 _)

/-- The proof data of this pipeline on core c: the arrays as the region finds them; after the body at point t each
    input's buffer at its block and the output's at the stored value of the input blocks; the invariant the untouched
    scoped rest and the generator register; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => iblk14 V c 4 t
    | ⟨5, _⟩ => out14_5 (iblk14 V c 0 t) (iblk14 V c 1 t) (iblk14 V c 2 t) (iblk14 V c 3 t) (iblk14 V c 4 t)
  Φ _ := Pipeline.ΦA spec14 c
  q _ := fullShare
  owed _ := 0

theorem A_eq14 (c : Dev nD) (w : Fin cfg14.W) : (dat14 V c).A w = V c (Pipeline.arrRef spec14 w) := by
  dsimp only [dat14]

theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = iblk14 V c 4 t := by dsimp only [dat14]
theorem after14_5 (c : Dev nD) (t : Fin cfg14.N) :
    (dat14 V c).after 5 t = out14_5 (iblk14 V c 0 t) (iblk14 V c 1 t) (iblk14 V c 2 t) (iblk14 V c 3 t) (iblk14 V c 4 t) := by dsimp only [dat14]

theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d
theorem before14_3 (c : Dev nD) (t : Fin cfg14.N) (d) : (dat14 V c).before 3 t d = iblk14 V c 3 t :=
  before14_3_of V (dat14 V c) (A_eq14 V c 3) (after14_3 V c) t d
theorem before14_4 (c : Dev nD) (t : Fin cfg14.N) (d) : (dat14 V c).before 4 t d = iblk14 V c 4 t :=
  before14_4_of V (dat14 V c) (A_eq14 V c 4) (after14_4 V c) t d

/-- What the body is called with at point t, window by window, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d))
    ∗ (∃ d, owns (c : Thread nD τ) (st14_5 t) fullShare ((dat14 V c).before 5 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t)
    ∗ owns (c : Thread nD τ) (st14_5 t) fullShare ((dat14 V c).after 5 t))

/-- The body at any point: the inputs' buffers hold their blocks, so sound_kernel14 applies; the invariant and what the
    core owes pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3, before14_4]
  rw [show (dat14 V c).Φ t.succ = (dat14 V c).Φ t.castSucc from rfl,
    show (dat14 V c).owesAt () t.succ = (dat14 V c).owesAt () t.castSucc from rfl,
    after14_0, after14_1, after14_2, after14_3, after14_4, after14_5]
  iintro ⟨HΦ, Ho, ⟨%d0, H0⟩, ⟨%d1, H1⟩, ⟨%d2, H2⟩, ⟨%d3, H3⟩, ⟨%d4, H4⟩, ⟨%d5, H5⟩⟩
  iapply (sound_kernel14 c Set.univ _ _ _ _ _ _ _ _ _ _ _ _ _ (iblk14 V c 0 t) (iblk14 V c 1 t) (iblk14 V c 2 t) (iblk14 V c 3 t) (iblk14 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation14 (c : Dev nD) : BodyObligation (dat14 (F := F) V c) (defs₀ (F := F)) Variants.none () Set.univ := fun t => by
  rw [bigSep_W14, bigSep_W14]
  exact sound_body14 V c t

end Cert.KernelIdeal.Body

end
-- ==== Proof.KIRegion15.lean ====
/-
  Region 15 of the program: a dense layer's tile kernel: the tile's rows times the whole weight, plus the bias row repeated down the rows, one grid point at a time.

  At a grid point the body loads its 3 input blocks whole and stores one value into its output block, also whole.
  The inputs are read only, so after the body each holds its block as before and the output block holds that one
  stored value; nothing else of the core's state moves. This is the body's obligation to the pipeline, at any float instance.
-/
import proofs.«140713_j1864015806535_2_alg».proof.Proof.Gen.KernelIdeal.Launch
import proofs.«140713_j1864015806535_2_alg».proof.Proof.Gen.KernelIdeal.Skeleton
import proofs.«140713_j1864015806535_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- An input window's current staging buffer holds its block at every point, fetched there or not. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)
theorem before15_2_of {c : Dev nD} (dat : Dat τ (Elt F) Unit ℕ (UR sig nD τ) ℕ cfg15 c) (hA : dat.A 2 = V c (Pipeline.arrRef spec15 2))
    (hafter : ∀ t, dat.after 2 t = iblk15 V c 2 t) (t : Fin cfg15.N) (d) : dat.before 2 t d = iblk15 V c 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)

/-- The whole-buffer rectangles the body loads and stores through. -/
abbrev r15_0 : Rect S10000x64 := Rect.unit (s := S10000x64) ![0, 0] S10000x64.size inb_S10000x64_S10000x64_0_0
abbrev r15_1 : Rect S64x32 := Rect.unit (s := S64x32) ![0, 0] S64x32.size inb_S64x32_S64x32_0_0
abbrev r15_2 : Rect S1x32 := Rect.unit (s := S1x32) ![0, 0] S1x32.size inb_S1x32_S1x32_0_0
abbrev r15_3 : Rect S10000x32 := Rect.unit (s := S10000x32) ![0, 0] S10000x32.size inb_S10000x32_S10000x32_0_0

/-- The output block after the body: the one store's value of the input blocks. -/
def out15_3 (x0 : Vec F S10000x64 .f32) (x1 : Vec F S64x32 .f32) (x2 : Vec F S1x32 .f32) : Vec F S10000x32 .f32 :=
  View.canon [⟨r15_3, k15_pay1 (View.ld x0 r15_0) (View.ld x1 r15_1) (View.ld x2 r15_2)⟩]

/-- The one store covers the whole output block. -/
theorem cover15_3 (p0 : Vec F S10000x32 .f32) (y : S10000x32.Idx) :
    ∃ pc ∈ ([⟨r15_3, p0⟩] : List (View.Piece (Elt F) S10000x32 .f32)), y ∈ pc.1.set :=
  View.cover_of_tiled [⟨r15_3, p0⟩] S10000x32.size (by rfl) y

set_option maxHeartbeats 1000000 in
/-- The body on whole staging buffers: the inputs stay, the output ends at out15_3 of the inputs. -/
theorem sound_kernel15 (c : Dev nD) (E : Set ℕ) (i : grid15.Coords) (arg1 : Memref sig .tc .vmem S10000x64 .f32) (harg1 : arg1.IsWhole) (arg2 : Memref sig .tc .vmem S64x32 .f32) (harg2 : arg2.IsWhole) (arg3 : Memref sig .tc .vmem S1x32 .f32) (harg3 : arg3.IsWhole) (arg4 : Memref sig .tc .vmem S10000x32 .f32) (harg4 : arg4.IsWhole)
    (x0 : Vec F S10000x64 .f32) (x1 : Vec F S64x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out15_3 x0 x1 x2)) -∗ K ⟨⟩))
      ⊢ wp frame (wpE (defs₀ (F := F)) Variants.none c none) E (cc15__matmul_bias_kernel i arg1 harg1 arg2 harg2 arg3 harg3 arg4 harg4) K := by
  simp only [cc15__matmul_bias_kernel_eq_skeleton]; unfold cc15__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover15_3 _)

/-- The proof data of this pipeline on core c: the arrays as the region finds them; after the body at point t each
    input's buffer at its block and the output's at the stored value of the input blocks; the invariant the untouched
    scoped rest and the generator register; nothing owed; full shares. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => out15_3 (iblk15 V c 0 t) (iblk15 V c 1 t) (iblk15 V c 2 t)
  Φ _ := Pipeline.ΦA spec15 c
  q _ := fullShare
  owed _ := 0

theorem A_eq15 (c : Dev nD) (w : Fin cfg15.W) : (dat15 V c).A w = V c (Pipeline.arrRef spec15 w) := by
  dsimp only [dat15]

theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) :
    (dat15 V c).after 3 t = out15_3 (iblk15 V c 0 t) (iblk15 V c 1 t) (iblk15 V c 2 t) := by dsimp only [dat15]

theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d
theorem before15_2 (c : Dev nD) (t : Fin cfg15.N) (d) : (dat15 V c).before 2 t d = iblk15 V c 2 t :=
  before15_2_of V (dat15 V c) (A_eq15 V c 2) (after15_2 V c) t d

/-- What the body is called with at point t, window by window, -/
def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d))
    ∗ (∃ d, owns (c : Thread nD τ) (st15_3 t) fullShare ((dat15 V c).before 3 t d)))

/-- and what it returns. -/
def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t)
    ∗ owns (c : Thread nD τ) (st15_3 t) fullShare ((dat15 V c).after 3 t))

/-- The body at any point: the inputs' buffers hold their blocks, so sound_kernel15 applies; the invariant and what the
    core owes pass through unread. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2]
  rw [show (dat15 V c).Φ t.succ = (dat15 V c).Φ t.castSucc from rfl,
    show (dat15 V c).owesAt () t.succ = (dat15 V c).owesAt () t.castSucc from rfl,
    after15_0, after15_1, after15_2, after15_3]
  iintro ⟨HΦ, Ho, ⟨%d0, H0⟩, ⟨%d1, H1⟩, ⟨%d2, H2⟩, ⟨%d3, H3⟩⟩
  iapply (sound_kernel15 c Set.univ _ _ _ _ _ _ _ _ _ (iblk15 V c 0 t) (iblk15 V c 1 t) (iblk15 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation15 (c : Dev nD) : BodyObligation (dat15 (F := F) V c) (defs₀ (F := F)) Variants.none () Set.univ := fun t => by
  rw [bigSep_W15, bigSep_W15]
  exact sound_body15 V c t

end Cert.KernelIdeal.Body

end
-- ==== Proof.KIRegion16.lean ====
/-
  Region 16 of the program: the mix-and-accumulate tile kernel, one grid point at a time.

  At grid point t the body loads its tile of h and of agg (windows 0 and 1) and the 1×1 mixing weight g (window 2),
  stores xm = g·agg + (1 − g)·h into its tile of the output (window 3), and adds the column sums of xm and of xm·xm
  to two one-row outputs (windows 4 and 5) that stay in place over the whole grid: at the first point the rows are
  first set to zero, at every later point they hold what the point before left. So the body has two cases, told apart
  by the grid coordinate alone; in the first it reads none of its outputs before covering them, in the second it
  reads the two rows. What the three outputs hold after point n is defined by recursion on n, and the body's
  obligation to the pipeline is proved case by case. At any float instance.
-/
import proofs.«140713_j1864015806535_2_alg».proof.Proof.Gen.KernelIdeal.Launch
import proofs.«140713_j1864015806535_2_alg».proof.Proof.Gen.KernelIdeal.Skeleton
import proofs.«140713_j1864015806535_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- An input window's current staging buffer holds its block at every point, fetched there or not. -/
theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)
theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)
theorem before16_2_of {c : Dev nD} (dat : Dat τ (Elt F) Unit ℕ (UR sig nD τ) ℕ cfg16 c) (hA : dat.A 2 = V c (Pipeline.arrRef spec16 2))
    (hafter : ∀ t, dat.after 2 t = iblk16 V c 2 t) (t : Fin cfg16.N) (d) : dat.before 2 t d = iblk16 V c 2 t :=
  (dat.before_in_eq_fetched 2 rfl (fun _ => rfl) (fun _ _ _ => rfl) (fun t => by rw [hafter]; unfold Dat.blockOf iblk16; rw [hA]; try rfl) t d).trans
    (by unfold Dat.fetched Dat.blockOf iblk16; rw [hA]; try rfl)

/-- The body's branch condition from the grid coordinate: "this is the first point". -/
abbrev cond16_0 (i : grid16.Coords) : Prop := (Scalar.cmpi .ne (Scalar.extui (Scalar.cmpi .eq (BitVec.ofNat 32 (i 0).val) 0#32)) 0#32) = 1#1
/-- It holds at the first point only: decided over the grid. -/
theorem hcond16_0 : ∀ t : Fin cfg16.N, cond16_0 (grid16.coords t) ↔ t.val % 10 = 0 :=
  (by decide +kernel : ∀ t : Fin grid16.N, cond16_0 (grid16.coords t) ↔ t.val % 10 = 0)

/-- One staging buffer of each output window, through which its contents are stated. -/
abbrev VO16_3 : View sig .tc .vmem S10000x32 .f32 := (Memref.whole cc16_stg3_0 : Memref sig .tc .vmem S10000x32 .f32).view
abbrev VO16_4 : View sig .tc .vmem S1x32 .f32 := (Memref.whole cc16_stg4_0 : Memref sig .tc .vmem S1x32 .f32).view
abbrev VO16_5 : View sig .tc .vmem S1x32 .f32 := (Memref.whole cc16_stg5_0 : Memref sig .tc .vmem S1x32 .f32).view

/-- Each window's current staging buffer at point t, as the pipeline passes it, and its wholeness. -/
abbrev ms16_0 (t : Fin cfg16.N) : Memref sig .tc .vmem S10000x32 .f32 := win16_0.stage (cfg16.slots t 0)
abbrev hs16_0 (t : Fin cfg16.N) : (ms16_0 t).IsWhole := hstage16_0 ((cfg16.slots t 0).cast nbuf16_0)
abbrev ms16_1 (t : Fin cfg16.N) : Memref sig .tc .vmem S10000x32 .f32 := win16_1.stage (cfg16.slots t 1)
abbrev hs16_1 (t : Fin cfg16.N) : (ms16_1 t).IsWhole := hstage16_1 ((cfg16.slots t 1).cast nbuf16_1)
abbrev ms16_2 (t : Fin cfg16.N) : Memref sig .tc .vmem S1x1 .f32 := win16_2.stage (cfg16.slots t 2)
abbrev hs16_2 (t : Fin cfg16.N) : (ms16_2 t).IsWhole := hstage16_2 ((cfg16.slots t 2).cast nbuf16_2)
abbrev ms16_3 (t : Fin cfg16.N) : Memref sig .tc .vmem S10000x32 .f32 := win16_3.stage (cfg16.slots t 3)
abbrev hs16_3 (t : Fin cfg16.N) : (ms16_3 t).IsWhole := hstage16_3 ((cfg16.slots t 3).cast nbuf16_3)
abbrev ms16_4 (t : Fin cfg16.N) : Memref sig .tc .vmem S1x32 .f32 := win16_4.stage (cfg16.slots t 4)
abbrev hs16_4 (t : Fin cfg16.N) : (ms16_4 t).IsWhole := hstage16_4 ((cfg16.slots t 4).cast nbuf16_4)
abbrev ms16_5 (t : Fin cfg16.N) : Memref sig .tc .vmem S1x32 .f32 := win16_5.stage (cfg16.slots t 5)
abbrev hs16_5 (t : Fin cfg16.N) : (ms16_5 t).IsWhole := hstage16_5 ((cfg16.slots t 5).cast nbuf16_5)

/-- The three outputs' piece lists, and their contents. -/
abbrev Pcs16 : Type := List (View.Piece (Elt F) S10000x32 .f32) × List (View.Piece (Elt F) S1x32 .f32) × List (View.Piece (Elt F) S1x32 .f32)
abbrev Outs16 : Type := Vec F S10000x32 .f32 × Vec F S1x32 .f32 × Vec F S1x32 .f32

set_option maxHeartbeats 4000000 in
/-- THE FIRST POINT (the branch taken): what the body's stores leave in each output's staging buffer, as pieces (last
    first), with the proof that on whole staging buffers, the inputs' at their contents and the outputs' at anything,
    the body runs to the continuation holding the inputs' as they were and each output's with its pieces written. -/
noncomputable def kernelRun16_A (c : Dev nD) (i : grid16.Coords)
    (arg1 : Memref sig .tc .vmem S10000x32 .f32) (harg1 : arg1.IsWhole) (arg2 : Memref sig .tc .vmem S10000x32 .f32) (harg2 : arg2.IsWhole)
    (arg3 : Memref sig .tc .vmem S1x1 .f32) (harg3 : arg3.IsWhole) (arg4 : Memref sig .tc .vmem S10000x32 .f32) (harg4 : arg4.IsWhole)
    (arg5 : Memref sig .tc .vmem S1x32 .f32) (harg5 : arg5.IsWhole) (arg6 : Memref sig .tc .vmem S1x32 .f32) (harg6 : arg6.IsWhole)
    (hc0 : cond16_0 i) (x0 : Vec F S10000x32 .f32) (x1 : Vec F S10000x32 .f32) (x2 : Vec F S1x1 .f32) :
    { L : Pcs16 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2.1)
                ∗ (∃ f, arg6.view.loc (c : Thread nD τ) ↦[arg6.view.set]{fullShare} arg6.view.writes (Elt F) f L.2.2)) -∗ K ⟨⟩))
          ⊢ wp frame (wpE (defs₀ (F := F)) Variants.none c none) E (cc16__mix_reduce_kernel i arg1 harg1 arg2 harg2 arg3 harg3 arg4 harg4 arg5 harg5 arg6 harg6) K } := by
  refine ⟨(?_, ?_, ?_), fun E K => ?run⟩
  case run =>
    simp only [cc16__mix_reduce_kernel_eq_skeleton]; unfold cc16__mix_reduce_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0
    obtain rfl := harg2.eq_unread hf1
    obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

set_option maxHeartbeats 4000000 in
/-- EVERY LATER POINT (the branch not taken): the same, the two rows entered at their running contents xo4, xo5. -/
noncomputable def kernelRun16_B (c : Dev nD) (i : grid16.Coords)
    (arg1 : Memref sig .tc .vmem S10000x32 .f32) (harg1 : arg1.IsWhole) (arg2 : Memref sig .tc .vmem S10000x32 .f32) (harg2 : arg2.IsWhole)
    (arg3 : Memref sig .tc .vmem S1x1 .f32) (harg3 : arg3.IsWhole) (arg4 : Memref sig .tc .vmem S10000x32 .f32) (harg4 : arg4.IsWhole)
    (arg5 : Memref sig .tc .vmem S1x32 .f32) (harg5 : arg5.IsWhole) (arg6 : Memref sig .tc .vmem S1x32 .f32) (harg6 : arg6.IsWhole)
    (hc0 : ¬cond16_0 i) (x0 : Vec F S10000x32 .f32) (x1 : Vec F S10000x32 .f32) (x2 : Vec F S1x1 .f32) (xo4 : Vec F S1x32 .f32) (xo5 : Vec F S1x32 .f32) :
    { L : Pcs16 (F := F) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2.1)
                ∗ (∃ f, arg6.view.loc (c : Thread nD τ) ↦[arg6.view.set]{fullShare} arg6.view.writes (Elt F) f L.2.2)) -∗ K ⟨⟩))
          ⊢ wp frame (wpE (defs₀ (F := F)) Variants.none c none) E (cc16__mix_reduce_kernel i arg1 harg1 arg2 harg2 arg3 harg3 arg4 harg4 arg5 harg5 arg6 harg6) K } := by
  refine ⟨(?_, ?_, ?_), fun E K => ?run⟩
  case run =>
    simp only [cc16__mix_reduce_kernel_eq_skeleton]; unfold cc16__mix_reduce_kernel_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg1.eq_unread hf0
    obtain rfl := harg2.eq_unread hf1
    obtain rfl := harg3.eq_unread hf2
    obtain rfl := harg5.eq_unread hf4
    obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

/-- The two runs at a grid point, on the point's staging buffers and input blocks. -/
abbrev runA16 (c : Dev nD) (t : Fin cfg16.N) (h : cond16_0 (grid16.coords t)) :=
  kernelRun16_A (F := F) c (grid16.coords t) (ms16_0 t) (hs16_0 t) (ms16_1 t) (hs16_1 t) (ms16_2 t) (hs16_2 t) (ms16_3 t) (hs16_3 t)
    (ms16_4 t) (hs16_4 t) (ms16_5 t) (hs16_5 t) h (iblk16 V c 0 t) (iblk16 V c 1 t) (iblk16 V c 2 t)
abbrev runB16 (c : Dev nD) (t : Fin cfg16.N) (h : ¬cond16_0 (grid16.coords t)) (xo4 : Vec F S1x32 .f32) (xo5 : Vec F S1x32 .f32) :=
  kernelRun16_B (F := F) c (grid16.coords t) (ms16_0 t) (hs16_0 t) (ms16_1 t) (hs16_1 t) (ms16_2 t) (hs16_2 t) (ms16_3 t) (hs16_3 t)
    (ms16_4 t) (hs16_4 t) (ms16_5 t) (hs16_5 t) h (iblk16 V c 0 t) (iblk16 V c 1 t) (iblk16 V c 2 t) xo4 xo5

/-- What a list of pieces leaves in each output's staging buffer: the pieces read back over junk. -/
def readBack16 (L : Pcs16 (F := F)) : Outs16 (F := F) :=
  (VO16_3.read (Elt F) (VO16_3.writes (Elt F) VO16_3.junk L.1),
   VO16_4.read (Elt F) (VO16_4.writes (Elt F) VO16_4.junk L.2.1),
   VO16_5.read (Elt F) (VO16_5.writes (Elt F) VO16_5.junk L.2.2))

/-- Each case's pieces tile their output's block (checked by evaluation), so they cover it. -/
theorem cover16_A_3 (c : Dev nD) (t : Fin cfg16.N) (h : cond16_0 (grid16.coords t)) (y : S10000x32.Idx) :
    ∃ pc ∈ (runA16 V c t h).1.1, y ∈ pc.1.set := View.cover_of_tiledL (runA16 V c t h).1.1 S10000x32.size (by sl_kernel_rfl) y
theorem cover16_A_4 (c : Dev nD) (t : Fin cfg16.N) (h : cond16_0 (grid16.coords t)) (y : S1x32.Idx) :
    ∃ pc ∈ (runA16 V c t h).1.2.1, y ∈ pc.1.set := View.cover_of_tiledL (runA16 V c t h).1.2.1 S1x32.size (by sl_kernel_rfl) y
theorem cover16_A_5 (c : Dev nD) (t : Fin cfg16.N) (h : cond16_0 (grid16.coords t)) (y : S1x32.Idx) :
    ∃ pc ∈ (runA16 V c t h).1.2.2, y ∈ pc.1.set := View.cover_of_tiledL (runA16 V c t h).1.2.2 S1x32.size (by sl_kernel_rfl) y
theorem cover16_B_3 (c : Dev nD) (t : Fin cfg16.N) (h : ¬cond16_0 (grid16.coords t)) (xo4 xo5) (y : S10000x32.Idx) :
    ∃ pc ∈ (runB16 V c t h xo4 xo5).1.1, y ∈ pc.1.set := View.cover_of_tiledL (runB16 V c t h xo4 xo5).1.1 S10000x32.size (by sl_kernel_rfl) y
theorem cover16_B_4 (c : Dev nD) (t : Fin cfg16.N) (h : ¬cond16_0 (grid16.coords t)) (xo4 xo5) (y : S1x32.Idx) :
    ∃ pc ∈ (runB16 V c t h xo4 xo5).1.2.1, y ∈ pc.1.set := View.cover_of_tiledL (runB16 V c t h xo4 xo5).1.2.1 S1x32.size (by sl_kernel_rfl) y
theorem cover16_B_5 (c : Dev nD) (t : Fin cfg16.N) (h : ¬cond16_0 (grid16.coords t)) (xo4 xo5) (y : S1x32.Idx) :
    ∃ pc ∈ (runB16 V c t h xo4 xo5).1.2.2, y ∈ pc.1.set := View.cover_of_tiledL (runB16 V c t h xo4 xo5).1.2.2 S1x32.size (by sl_kernel_rfl) y

/-- THE ACCUMULATION. What the three outputs' staging buffers hold after the body at position n: the first point's
    case at 0, the later points' case after that, the two rows entered at what position n − 1 left. -/
def outsAt16 (c : Dev nD) : (n : ℕ) → n < cfg16.N → Outs16 (F := F)
  | 0, hn => readBack16 (runA16 V c ⟨0, hn⟩ ((hcond16_0 ⟨0, hn⟩).mpr (Nat.zero_mod _))).1
  | n + 1, hn =>
    if h0 : (n + 1) % 10 = 0 then
      readBack16 (runA16 V c ⟨n + 1, hn⟩ ((hcond16_0 ⟨n + 1, hn⟩).mpr h0)).1
    else
      readBack16 (runB16 V c ⟨n + 1, hn⟩ (fun h => h0 ((hcond16_0 ⟨n + 1, hn⟩).mp h))
        (outsAt16 c n (Nat.lt_of_succ_lt hn)).2.1 (outsAt16 c n (Nat.lt_of_succ_lt hn)).2.2).1

theorem outsAt16_A (c : Dev nD) (t : Fin cfg16.N) (h0 : t.val % 10 = 0) :
    outsAt16 V c t.val t.isLt = readBack16 (runA16 V c t ((hcond16_0 t).mpr h0)).1 := by
  obtain ⟨n, hn⟩ := t
  cases n with
  | zero => exact rfl
  | succ n => exact (dif_pos h0).trans rfl

theorem outsAt16_B (c : Dev nD) (t : Fin cfg16.N) (h0 : ¬t.val % 10 = 0) :
    outsAt16 V c t.val t.isLt = readBack16 (runB16 V c t (fun h => h0 ((hcond16_0 t).mp h))
      (outsAt16 V c (t.val - 1) (Nat.lt_of_le_of_lt (Nat.sub_le _ _) t.isLt)).2.1
      (outsAt16 V c (t.val - 1) (Nat.lt_of_le_of_lt (Nat.sub_le _ _) t.isLt)).2.2).1 := by
  obtain ⟨n, hn⟩ := t
  cases n with
  | zero => exact (by exfalso; (try dsimp only at h0); exact absurd (Nat.zero_mod _) h0)
  | succ n => exact (dif_neg h0).trans rfl

/-- The proof data of this pipeline on core c: the arrays as the region finds them; after the body at point t each
    input's buffer at its block and the outputs' at outsAt; the invariant the untouched scoped rest and the
    generator register; nothing owed; full shares. -/
def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => (outsAt16 V c t.val t.isLt).1
    | ⟨4, _⟩ => (outsAt16 V c t.val t.isLt).2.1
    | ⟨5, _⟩ => (outsAt16 V c t.val t.isLt).2.2
  Φ _ := Pipeline.ΦA spec16 c
  q _ := fullShare
  owed _ := 0

theorem A_eq16 (c : Dev nD) (w : Fin cfg16.W) : (dat16 V c).A w = V c (Pipeline.arrRef spec16 w) := by
  dsimp only [dat16]

theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) : (dat16 V c).after 3 t = (outsAt16 V c t.val t.isLt).1 := by dsimp only [dat16]
theorem after16_4 (c : Dev nD) (t : Fin cfg16.N) : (dat16 V c).after 4 t = (outsAt16 V c t.val t.isLt).2.1 := by dsimp only [dat16]
theorem after16_5 (c : Dev nD) (t : Fin cfg16.N) : (dat16 V c).after 5 t = (outsAt16 V c t.val t.isLt).2.2 := by dsimp only [dat16]

theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d
theorem before16_2 (c : Dev nD) (t : Fin cfg16.N) (d) : (dat16 V c).before 2 t d = iblk16 V c 2 t :=
  before16_2_of V (dat16 V c) (A_eq16 V c 2) (after16_2 V c) t d

/-- At a later point each row's current staging buffer holds what the body left at the point before: the point is not
    the first, and the row is written back at the last point only. -/
theorem before16_4_B (c : Dev nD) (t : Fin cfg16.N) (h0 : ¬t.val % 10 = 0) (d) :
    (dat16 V c).before 4 t d = (outsAt16 V c (t.val - 1) (Nat.lt_of_le_of_lt (Nat.sub_le _ _) t.isLt)).2.1 := by
  have hN : t.val < 10 := lt_of_lt_of_eq t.isLt (show cfg16.N = 10 from N_16)
  rw [Dat.before_out_kept _ 4 rfl t (by omega) (Bool.eq_false_iff.mpr fun h => by have := (flush16_4 _).mp h; dsimp only at this; omega)
    (fun _ => rfl) (fun _ _ => rfl)]
  dsimp only [dat16]
theorem before16_5_B (c : Dev nD) (t : Fin cfg16.N) (h0 : ¬t.val % 10 = 0) (d) :
    (dat16 V c).before 5 t d = (outsAt16 V c (t.val - 1) (Nat.lt_of_le_of_lt (Nat.sub_le _ _) t.isLt)).2.2 := by
  have hN : t.val < 10 := lt_of_lt_of_eq t.isLt (show cfg16.N = 10 from N_16)
  rw [Dat.before_out_kept _ 5 rfl t (by omega) (Bool.eq_false_iff.mpr fun h => by have := (flush16_5 _).mp h; dsimp only at this; omega)
    (fun _ => rfl) (fun _ _ => rfl)]
  dsimp only [dat16]

/-- What the body is called with at point t, window by window, -/
def bodyPre16 (c : Dev nD) (t : Fin cfg16.N) : sProp 𝕄 :=
  iprop((dat16 V c).Φ t.castSucc ∗ (dat16 V c).owesAt () t.castSucc
    ∗ (∃ d, owns (c : Thread nD τ) (ms16_0 t) fullShare ((dat16 V c).before 0 t d))
    ∗ (∃ d, owns (c : Thread nD τ) (ms16_1 t) fullShare ((dat16 V c).before 1 t d))
    ∗ (∃ d, owns (c : Thread nD τ) (ms16_2 t) fullShare ((dat16 V c).before 2 t d))
    ∗ (∃ d, owns (c : Thread nD τ) (ms16_3 t) fullShare ((dat16 V c).before 3 t d))
    ∗ (∃ d, owns (c : Thread nD τ) (ms16_4 t) fullShare ((dat16 V c).before 4 t d))
    ∗ (∃ d, owns (c : Thread nD τ) (ms16_5 t) fullShare ((dat16 V c).before 5 t d)))

/-- and what it returns. -/
def bodyPost16 (c : Dev nD) (t : Fin cfg16.N) : sProp 𝕄 :=
  iprop((dat16 V c).Φ t.succ ∗ (dat16 V c).owesAt () t.succ
    ∗ owns (c : Thread nD τ) (ms16_0 t) fullShare ((dat16 V c).after 0 t)
    ∗ owns (c : Thread nD τ) (ms16_1 t) fullShare ((dat16 V c).after 1 t)
    ∗ owns (c : Thread nD τ) (ms16_2 t) fullShare ((dat16 V c).after 2 t)
    ∗ owns (c : Thread nD τ) (ms16_3 t) fullShare ((dat16 V c).after 3 t)
    ∗ owns (c : Thread nD τ) (ms16_4 t) fullShare ((dat16 V c).after 4 t)
    ∗ owns (c : Thread nD τ) (ms16_5 t) fullShare ((dat16 V c).after 5 t))

set_option maxHeartbeats 2000000 in
/-- The body at any point: the inputs' buffers hold their blocks; the closed form of the condition says which case the
    point is in; at a later point the two rows hold what the point before left; so that case's run applies; the
    invariant and what the core owes pass through unread. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2]
  rw [show (dat16 V c).Φ t.succ = (dat16 V c).Φ t.castSucc from rfl,
    show (dat16 V c).owesAt () t.succ = (dat16 V c).owesAt () t.castSucc from rfl,
    after16_0, after16_1, after16_2, after16_3, after16_4, after16_5]
  have hN : t.val < 10 := lt_of_lt_of_eq t.isLt (show cfg16.N = 10 from N_16)
  by_cases h0 : t.val % 10 = 0
  · rw [outsAt16_A V c t h0]
    unfold readBack16
    dsimp only
    iintro ⟨HΦ, Ho, ⟨%d0, H0⟩, ⟨%d1, H1⟩, ⟨%d2, H2⟩, ⟨%d3, H3⟩, ⟨%d4, H4⟩, ⟨%d5, H5⟩⟩
    iapply ((runA16 V c t ((hcond16_0 t).mpr h0)).2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover16_A_3 V c t _)
    isplitl [H4]
    · unfold owns; iexists _; isplitr
      swap; · iexact H4
      ipureintro; exact View.read_writes_of_cover _ _ _ _ _ (cover16_A_4 V c t _)
    unfold owns; iexists _; isplitr
    swap; · iexact H5
    ipureintro; exact View.read_writes_of_cover _ _ _ _ _ (cover16_A_5 V c t _)
  · rw [outsAt16_B V c t h0]
    simp only [before16_4_B V c t h0, before16_5_B V c t h0]
    unfold readBack16
    dsimp only
    iintro ⟨HΦ, Ho, ⟨%d0, H0⟩, ⟨%d1, H1⟩, ⟨%d2, H2⟩, ⟨%d3, H3⟩, ⟨%d4, H4⟩, ⟨%d5, H5⟩⟩
    iapply ((runB16 V c t (fun h => h0 ((hcond16_0 t).mp h)) _ _).2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover16_B_3 V c t _ _ _)
    isplitl [H4]
    · unfold owns; iexists _; isplitr
      swap; · iexact H4
      ipureintro; exact View.read_writes_of_cover _ _ _ _ _ (cover16_B_4 V c t _ _ _)
    unfold owns; iexists _; isplitr
    swap; · iexact H5
    ipureintro; exact View.read_writes_of_cover _ _ _ _ _ (cover16_B_5 V c t _ _ _)

/-- The pipeline's body obligation, at every point. -/
theorem body_obligation16 (c : Dev nD) : BodyObligation (dat16 (F := F) V c) (defs₀ (F := F)) Variants.none () Set.univ := fun t => by
  rw [bigSep_W16, bigSep_W16]
  exact sound_body16 V c t

end Cert.KernelIdeal.Body

end
-- ==== Proof.KIRegion17.lean ====
/-
  Region 17 of the program: the normalise-and-cut-off tile kernel: (x − mean)·rsqrt(max(var, 0) + ε)·scale + bias, cut off at 0, the four rows repeated down the tile, one grid point at a time.

  At a grid point the body loads its 5 input blocks whole and stores one value into its output block, also whole.
  The inputs are read only, so after the body each holds its block as before and the output block holds that one
  stored value; nothing else of the core's state moves. This is the body's obligation to the pipeline, at any float instance.
-/
import proofs.«140713_j1864015806535_2_alg».proof.Proof.Gen.KernelIdeal.Launch
import proofs.«140713_j1864015806535_2_alg».proof.Proof.Gen.KernelIdeal.Skeleton
import proofs.«140713_j1864015806535_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the region finds it. -/
def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-- An input window's current staging buffer holds its block at every point, fetched there or not. -/
theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)
theorem before17_1_of {c : Dev nD} (dat : Dat τ (Elt F) Unit ℕ (UR sig nD τ) ℕ cfg17 c) (hA : dat.A 1 = V c (Pipeline.arrRef spec17 1))
    (hafter : ∀ t, dat.after 1 t = iblk17 V c 1 t) (t : Fin cfg17.N) (d) : dat.before 1 t d = iblk17 V c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)
theorem before17_2_of {c : Dev nD} (dat : Dat τ (Elt F) Unit ℕ (UR sig nD τ) ℕ cfg17 c) (hA : dat.A 2 = V c (Pipeline.arrRef spec17 2))
    (hafter : ∀ t, dat.after 2 t = iblk17 V c 2 t) (t : Fin cfg17.N) (d) : dat.before 2 t d = iblk17 V c 2 t :=
  (dat.before_in_eq_fetched 2 rfl (fun _ => rfl) (fun _ _ _ => rfl) (fun t => by rw [hafter]; unfold Dat.blockOf iblk17; rw [hA]; try rfl) t d).trans
    (by unfold Dat.fetched Dat.blockOf iblk17; rw [hA]; try rfl)
theorem before17_3_of {c : Dev nD} (dat : Dat τ (Elt F) Unit ℕ (UR sig nD τ) ℕ cfg17 c) (hA : dat.A 3 = V c (Pipeline.arrRef spec17 3))
    (hafter : ∀ t, dat.after 3 t = iblk17 V c 3 t) (t : Fin cfg17.N) (d) : dat.before 3 t d = iblk17 V c 3 t :=
  (dat.before_in_eq_fetched 3 rfl (fun _ => rfl) (fun _ _ _ => rfl) (fun t => by rw [hafter]; unfold Dat.blockOf iblk17; rw [hA]; try rfl) t d).trans
    (by unfold Dat.fetched Dat.blockOf iblk17; rw [hA]; try rfl)
theorem before17_4_of {c : Dev nD} (dat : Dat τ (Elt F) Unit ℕ (UR sig nD τ) ℕ cfg17 c) (hA : dat.A 4 = V c (Pipeline.arrRef spec17 4))
    (hafter : ∀ t, dat.after 4 t = iblk17 V c 4 t) (t : Fin cfg17.N) (d) : dat.before 4 t d = iblk17 V c 4 t :=
  (dat.before_in_eq_fetched 4 rfl (fun _ => rfl) (fun _ _ _ => rfl) (fun t => by rw [hafter]; unfold Dat.blockOf iblk17; rw [hA]; try rfl) t d).trans
    (by unfold Dat.fetched Dat.blockOf iblk17; rw [hA]; try rfl)

/-- The whole-buffer rectangles the body loads and stores through. -/
abbrev r17_0 : Rect S10000x32 := Rect.unit (s := S10000x32) ![0, 0] S10000x32.size inb_S10000x32_S10000x32_0_0
abbrev r17_1 : Rect S1x32 := Rect.unit (s := S1x32) ![0, 0] S1x32.size inb_S1x32_S1x32_0_0
abbrev r17_2 : Rect S1x32 := Rect.unit (s := S1x32) ![0, 0] S1x32.size inb_S1x32_S1x32_0_0
abbrev r17_3 : Rect S1x32 := Rect.unit (s := S1x32) ![0, 0] S1x32.size inb_S1x32_S1x32_0_0
abbrev r17_4 : Rect S1x32 := Rect.unit (s := S1x32) ![0, 0] S1x32.size inb_S1x32_S1x32_0_0
abbrev r17_5 : Rect S10000x32 := Rect.unit (s := S10000x32) ![0, 0] S10000x32.size inb_S10000x32_S10000x32_0_0

/-- The output block after the body: the one store's value of the input blocks. -/
def out17_5 (x0 : Vec F S10000x32 .f32) (x1 : Vec F S1x32 .f32) (x2 : Vec F S1x32 .f32) (x3 : Vec F S1x32 .f32) (x4 : Vec F S1x32 .f32) : Vec F S10000x32 .f32 :=
  View.canon [⟨r17_5, k17_pay1 (View.ld x0 r17_0) (View.ld x1 r17_1) (View.ld x2 r17_2) (View.ld x3 r17_3) (View.ld x4 r17_4)⟩]

/-- The one store covers the whole output block. -/
theorem cover17_5 (p0 : Vec F S10000x32 .f32) (y : S10000x32.Idx) :
    ∃ pc ∈ ([⟨r17_5, p0⟩] : List (View.Piece (Elt F) S10000x32 .f32)), y ∈ pc.1.set :=
  View.cover_of_tiled [⟨r17_5, p0⟩] S10000x32.size (by rfl) y

set_option maxHeartbeats 1000000 in
/-- The body on whole staging buffers: the inputs stay, the output ends at out17_5 of the inputs. -/
theorem sound_kernel17 (c : Dev nD) (E : Set ℕ) (i : grid17.Coords) (arg1 : Memref sig .tc .vmem S10000x32 .f32) (harg1 : arg1.IsWhole) (arg2 : Memref sig .tc .vmem S1x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S10000x32 .f32) (harg6 : arg6.IsWhole)
    (x0 : Vec F S10000x32 .f32) (x1 : Vec F S1x32 .f32) (x2 : Vec F S1x32 .f32) (x3 : Vec F S1x32 .f32) (x4 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out17_5 x0 x1 x2 x3 x4)) -∗ K ⟨⟩))
      ⊢ wp frame (wpE (defs₀ (F := F)) Variants.none c none) E (cc17__bn_relu_kernel i arg1 harg1 arg2 harg2 arg3 harg3 arg4 harg4 arg5 harg5 arg6 harg6) K := by
  simp only [cc17__bn_relu_kernel_eq_skeleton]; unfold cc17__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover17_5 _)

/-- The proof data of this pipeline on core c: the arrays as the region finds them; after the body at point t each
    input's buffer at its block and the output's at the stored value of the input blocks; the invariant the untouched
    scoped rest and the generator register; nothing owed; full shares. -/
def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => iblk17 V c 2 t
    | ⟨3, _⟩ => iblk17 V c 3 t
    | ⟨4, _⟩ => iblk17 V c 4 t
    | ⟨5, _⟩ => out17_5 (iblk17 V c 0 t) (iblk17 V c 1 t) (iblk17 V c 2 t) (iblk17 V c 3 t) (iblk17 V c 4 t)
  Φ _ := Pipeline.ΦA spec17 c
  q _ := fullShare
  owed _ := 0

theorem A_eq17 (c : Dev nD) (w : Fin cfg17.W) : (dat17 V c).A w = V c (Pipeline.arrRef spec17 w) := by
  dsimp only [dat17]

theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = iblk17 V c 2 t := by dsimp only [dat17]
theorem after17_3 (c : Dev nD) (t : Fin cfg17.N) : (dat17 V c).after 3 t = iblk17 V c 3 t := by dsimp only [dat17]
theorem after17_4 (c : Dev nD) (t : Fin cfg17.N) : (dat17 V c).after 4 t = iblk17 V c 4 t := by dsimp only [dat17]
theorem after17_5 (c : Dev nD) (t : Fin cfg17.N) :
    (dat17 V c).after 5 t = out17_5 (iblk17 V c 0 t) (iblk17 V c 1 t) (iblk17 V c 2 t) (iblk17 V c 3 t) (iblk17 V c 4 t) := by dsimp only [dat17]

theorem before17_0 (c : Dev nD) (t : Fin cfg17.N) (d) : (dat17 V c).before 0 t d = iblk17 V c 0 t :=
  before17_0_of V (dat17 V c) (A_eq17 V c 0) (after17_0 V c) t d
theorem before17_1 (c : Dev nD) (t : Fin cfg17.N) (d) : (dat17 V c).before 1 t d = iblk17 V c 1 t :=
  before17_1_of V (dat17 V c) (A_eq17 V c 1) (after17_1 V c) t d
theorem before17_2 (c : Dev nD) (t : Fin cfg17.N) (d) : (dat17 V c).before 2 t d = iblk17 V c 2 t :=
  before17_2_of V (dat17 V c) (A_eq17 V c 2) (after17_2 V c) t d
theorem before17_3 (c : Dev nD) (t : Fin cfg17.N) (d) : (dat17 V c).before 3 t d = iblk17 V c 3 t :=
  before17_3_of V (dat17 V c) (A_eq17 V c 3) (after17_3 V c) t d
theorem before17_4 (c : Dev nD) (t : Fin cfg17.N) (d) : (dat17 V c).before 4 t d = iblk17 V c 4 t :=
  before17_4_of V (dat17 V c) (A_eq17 V c 4) (after17_4 V c) t d

/-- What the body is called with at point t, window by window, -/
def bodyPre17 (c : Dev nD) (t : Fin cfg17.N) : sProp 𝕄 :=
  iprop((dat17 V c).Φ t.castSucc ∗ (dat17 V c).owesAt () t.castSucc
    ∗ (∃ d, owns (c : Thread nD τ) (st17_0 t) fullShare ((dat17 V c).before 0 t d))
    ∗ (∃ d, owns (c : Thread nD τ) (st17_1 t) fullShare ((dat17 V c).before 1 t d))
    ∗ (∃ d, owns (c : Thread nD τ) (st17_2 t) fullShare ((dat17 V c).before 2 t d))
    ∗ (∃ d, owns (c : Thread nD τ) (st17_3 t) fullShare ((dat17 V c).before 3 t d))
    ∗ (∃ d, owns (c : Thread nD τ) (st17_4 t) fullShare ((dat17 V c).before 4 t d))
    ∗ (∃ d, owns (c : Thread nD τ) (st17_5 t) fullShare ((dat17 V c).before 5 t d)))

/-- and what it returns. -/
def bodyPost17 (c : Dev nD) (t : Fin cfg17.N) : sProp 𝕄 :=
  iprop((dat17 V c).Φ t.succ ∗ (dat17 V c).owesAt () t.succ
    ∗ owns (c : Thread nD τ) (st17_0 t) fullShare ((dat17 V c).after 0 t)
    ∗ owns (c : Thread nD τ) (st17_1 t) fullShare ((dat17 V c).after 1 t)
    ∗ owns (c : Thread nD τ) (st17_2 t) fullShare ((dat17 V c).after 2 t)
    ∗ owns (c : Thread nD τ) (st17_3 t) fullShare ((dat17 V c).after 3 t)
    ∗ owns (c : Thread nD τ) (st17_4 t) fullShare ((dat17 V c).after 4 t)
    ∗ owns (c : Thread nD τ) (st17_5 t) fullShare ((dat17 V c).after 5 t))

/-- The body at any point: the inputs' buffers hold their blocks, so sound_kernel17 applies; the invariant and what the
    core owes pass through unread. -/
theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1, before17_2, before17_3, before17_4]
  rw [show (dat17 V c).Φ t.succ = (dat17 V c).Φ t.castSucc from rfl,
    show (dat17 V c).owesAt () t.succ = (dat17 V c).owesAt () t.castSucc from rfl,
    after17_0, after17_1, after17_2, after17_3, after17_4, after17_5]
  iintro ⟨HΦ, Ho, ⟨%d0, H0⟩, ⟨%d1, H1⟩, ⟨%d2, H2⟩, ⟨%d3, H3⟩, ⟨%d4, H4⟩, ⟨%d5, H5⟩⟩
  iapply (sound_kernel17 c Set.univ _ _ _ _ _ _ _ _ _ _ _ _ _ (iblk17 V c 0 t) (iblk17 V c 1 t) (iblk17 V c 2 t) (iblk17 V c 3 t) (iblk17 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation17 (c : Dev nD) : BodyObligation (dat17 (F := F) V c) (defs₀ (F := F)) Variants.none () Set.univ := fun t => by
  rw [bigSep_W17, bigSep_W17]
  exact sound_body17 V c t

end Cert.KernelIdeal.Body

end
-- ==== Proof.KIFrameBase.lean ====
/-
  The frame of the program: it runs to the end, faults nowhere, and leaves its thirteen argument arrays as launched.

  The program is 43 items in a row: stretches of host operations and 18 pipelined regions. Between two items a core
  holds every unscoped buffer at a known valuation. The valuations are defined one after the other from the launch
  memory: after a stretch, the stretch's fold over the valuation before it; after a region, the valuation before it
  with the region's output arrays set to what its write-backs leave (read off the region's proof data at the last
  point). A host operation writes a buffer of its own and a region writes its outputs only, so no item touches an
  argument array. Each region is one segment entered at the valuation before it and left at the one after it
  (Proof/LibClassARegion.lean), from its body obligation (Proof/KIRegion0.lean to KIRegion17.lean); the conditional frame over
  the segments (Proof/RegionsKernelIdeal.lean) then gives the claim.
-/
import proofs.«140713_j1864015806535_2_alg».proof.Proof.KIRegion0
import proofs.«140713_j1864015806535_2_alg».proof.Proof.KIRegion1
import proofs.«140713_j1864015806535_2_alg».proof.Proof.KIRegion2
import proofs.«140713_j1864015806535_2_alg».proof.Proof.KIRegion3
import proofs.«140713_j1864015806535_2_alg».proof.Proof.KIRegion4
import proofs.«140713_j1864015806535_2_alg».proof.Proof.KIRegion5
import proofs.«140713_j1864015806535_2_alg».proof.Proof.KIRegion6
import proofs.«140713_j1864015806535_2_alg».proof.Proof.KIRegion7
import proofs.«140713_j1864015806535_2_alg».proof.Proof.KIRegion8
import proofs.«140713_j1864015806535_2_alg».proof.Proof.KIRegion9
import proofs.«140713_j1864015806535_2_alg».proof.Proof.KIRegion10
import proofs.«140713_j1864015806535_2_alg».proof.Proof.KIRegion11
import proofs.«140713_j1864015806535_2_alg».proof.Proof.KIRegion12
import proofs.«140713_j1864015806535_2_alg».proof.Proof.KIRegion13
import proofs.«140713_j1864015806535_2_alg».proof.Proof.KIRegion14
import proofs.«140713_j1864015806535_2_alg».proof.Proof.KIRegion15
import proofs.«140713_j1864015806535_2_alg».proof.Proof.KIRegion16
import proofs.«140713_j1864015806535_2_alg».proof.Proof.KIRegion17
import proofs.«140713_j1864015806535_2_alg».proof.Proof.RegionsKernelIdeal
import proofs.«140713_j1864015806535_2_alg».proof.Proof.LibClassARegion

set_option maxRecDepth 65536

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents between items -/

/-- Core c's unscoped buffers at launch. -/
abbrev W0 : Dev nD → Valuation τ sig (Elt F) := fun c b => m (c, b)
/-- After the host stretch hostOps0. -/
abbrev W1 : Dev nD → Valuation τ sig (Elt F) := fun c => StableHlo.after hostOps0 (W0 m c)
/-- Region 0's entry contents read at the TensorCore's references. -/
abbrev E1 : (c : Dev nD) → (b : Ref sig .tc) → Buf (Elt F) ((c : Thread nD τ).loc b) := fun c b => W1 m c b
/-- What region 0 leaves in main_v31: its write-backs folded over the grid. -/
def O0_0 (c : Dev nD) : Buf (Elt F) ((c : Thread nD τ).loc main_v31) := (dat0 (E1 m) c).arrAt 3 cfg0.N
/-- After region 0: its outputs at what it leaves, every other buffer as before. -/
def W2 (c : Dev nD) : Valuation τ sig (Elt F) := Function.update (W1 m c) main_v31 (O0_0 m c)
/-- After the host stretch hostOps1. -/
abbrev W3 : Dev nD → Valuation τ sig (Elt F) := fun c => StableHlo.after hostOps1 (W2 m c)
/-- Region 1's entry contents read at the TensorCore's references. -/
abbrev E3 : (c : Dev nD) → (b : Ref sig .tc) → Buf (Elt F) ((c : Thread nD τ).loc b) := fun c b => W3 m c b
/-- What region 1 leaves in main_v52_0: its write-backs folded over the grid. -/
def O1_0 (c : Dev nD) : Buf (Elt F) ((c : Thread nD τ).loc main_v52_0) := (dat1 (E3 m) c).arrAt 3 cfg1.N
/-- What region 1 leaves in main_v52_1: its write-backs folded over the grid. -/
def O1_1 (c : Dev nD) : Buf (Elt F) ((c : Thread nD τ).loc main_v52_1) := (dat1 (E3 m) c).arrAt 4 cfg1.N
/-- What region 1 leaves in main_v52_2: its write-backs folded over the grid. -/
def O1_2 (c : Dev nD) : Buf (Elt F) ((c : Thread nD τ).loc main_v52_2) := (dat1 (E3 m) c).arrAt 5 cfg1.N
/-- After region 1: its outputs at what it leaves, every other buffer as before. -/
def W4 (c : Dev nD) : Valuation τ sig (Elt F) := Function.update (Function.update (Function.update (W3 m c) main_v52_0 (O1_0 m c)) main_v52_1 (O1_1 m c)) main_v52_2 (O1_2 m c)
/-- After the host stretch hostOps2. -/
abbrev W5 : Dev nD → Valuation τ sig (Elt F) := fun c => StableHlo.after hostOps2 (W4 m c)
/-- Region 2's entry contents read at the TensorCore's references. -/
abbrev E5 : (c : Dev nD) → (b : Ref sig .tc) → Buf (Elt F) ((c : Thread nD τ).loc b) := fun c b => W5 m c b
/-- What region 2 leaves in main_v61: its write-backs folded over the grid. -/
def O2_0 (c : Dev nD) : Buf (Elt F) ((c : Thread nD τ).loc main_v61) := (dat2 (E5 m) c).arrAt 5 cfg2.N
/-- After region 2: its outputs at what it leaves, every other buffer as before. -/
def W6 (c : Dev nD) : Valuation τ sig (Elt F) := Function.update (W5 m c) main_v61 (O2_0 m c)
/-- After the host stretch hostOps3. -/
abbrev W7 : Dev nD → Valuation τ sig (Elt F) := fun c => StableHlo.after hostOps3 (W6 m c)
/-- Region 3's entry contents read at the TensorCore's references. -/
abbrev E7 : (c : Dev nD) → (b : Ref sig .tc) → Buf (Elt F) ((c : Thread nD τ).loc b) := fun c b => W7 m c b
/-- What region 3 leaves in main_v67: its write-backs folded over the grid. -/
def O3_0 (c : Dev nD) : Buf (Elt F) ((c : Thread nD τ).loc main_v67) := (dat3 (E7 m) c).arrAt 3 cfg3.N
/-- After region 3: its outputs at what it leaves, every other buffer as before. -/
def W8 (c : Dev nD) : Valuation τ sig (Elt F) := Function.update (W7 m c) main_v67 (O3_0 m c)
/-- After the host stretch hostOps4. -/
abbrev W9 : Dev nD → Valuation τ sig (Elt F) := fun c => StableHlo.after hostOps4 (W8 m c)
/-- Region 4's entry contents read at the TensorCore's references. -/
abbrev E9 : (c : Dev nD) → (b : Ref sig .tc) → Buf (Elt F) ((c : Thread nD τ).loc b) := fun c b => W9 m c b
/-- What region 4 leaves in main_v88_0: its write-backs folded over the grid. -/
def O4_0 (c : Dev nD) : Buf (Elt F) ((c : Thread nD τ).loc main_v88_0) := (dat4 (E9 m) c).arrAt 3 cfg4.N
/-- What region 4 leaves in main_v88_1: its write-backs folded over the grid. -/
def O4_1 (c : Dev nD) : Buf (Elt F) ((c : Thread nD τ).loc main_v88_1) := (dat4 (E9 m) c).arrAt 4 cfg4.N
/-- What region 4 leaves in main_v88_2: its write-backs folded over the grid. -/
def O4_2 (c : Dev nD) : Buf (Elt F) ((c : Thread nD τ).loc main_v88_2) := (dat4 (E9 m) c).arrAt 5 cfg4.N
/-- After region 4: its outputs at what it leaves, every other buffer as before. -/
def W10 (c : Dev nD) : Valuation τ sig (Elt F) := Function.update (Function.update (Function.update (W9 m c) main_v88_0 (O4_0 m c)) main_v88_1 (O4_1 m c)) main_v88_2 (O4_2 m c)
/-- After the host stretch hostOps5. -/
abbrev W11 : Dev nD → Valuation τ sig (Elt F) := fun c => StableHlo.after hostOps5 (W10 m c)
/-- Region 5's entry contents read at the TensorCore's references. -/
abbrev E11 : (c : Dev nD) → (b : Ref sig .tc) → Buf (Elt F) ((c : Thread nD τ).loc b) := fun c b => W11 m c b
/-- What region 5 leaves in main_v97: its write-backs folded over the grid. -/
def O5_0 (c : Dev nD) : Buf (Elt F) ((c : Thread nD τ).loc main_v97) := (dat5 (E11 m) c).arrAt 5 cfg5.N
/-- After region 5: its outputs at what it leaves, every other buffer as before. -/
def W12 (c : Dev nD) : Valuation τ sig (Elt F) := Function.update (W11 m c) main_v97 (O5_0 m c)
/-- After the host stretch hostOps6. -/
abbrev W13 : Dev nD → Valuation τ sig (Elt F) := fun c => StableHlo.after hostOps6 (W12 m c)
/-- After the host stretch hostOps6_1. -/
abbrev W14 : Dev nD → Valuation τ sig (Elt F) := fun c => StableHlo.after hostOps6_1 (W13 m c)
/-- After the host stretch hostOps6_2. -/
abbrev W15 : Dev nD → Valuation τ sig (Elt F) := fun c => StableHlo.after hostOps6_2 (W14 m c)
/-- Region 6's entry contents read at the TensorCore's references. -/
abbrev E15 : (c : Dev nD) → (b : Ref sig .tc) → Buf (Elt F) ((c : Thread nD τ).loc b) := fun c b => W15 m c b
/-- What region 6 leaves in main_v137: its write-backs folded over the grid. -/
def O6_0 (c : Dev nD) : Buf (Elt F) ((c : Thread nD τ).loc main_v137) := (dat6 (E15 m) c).arrAt 3 cfg6.N
/-- After region 6: its outputs at what it leaves, every other buffer as before. -/
def W16 (c : Dev nD) : Valuation τ sig (Elt F) := Function.update (W15 m c) main_v137 (O6_0 m c)
/-- After the host stretch hostOps7. -/
abbrev W17 : Dev nD → Valuation τ sig (Elt F) := fun c => StableHlo.after hostOps7 (W16 m c)
/-- Region 7's entry contents read at the TensorCore's references. -/
abbrev E17 : (c : Dev nD) → (b : Ref sig .tc) → Buf (Elt F) ((c : Thread nD τ).loc b) := fun c b => W17 m c b
/-- What region 7 leaves in main_v158_0: its write-backs folded over the grid. -/
def O7_0 (c : Dev nD) : Buf (Elt F) ((c : Thread nD τ).loc main_v158_0) := (dat7 (E17 m) c).arrAt 3 cfg7.N
/-- What region 7 leaves in main_v158_1: its write-backs folded over the grid. -/
def O7_1 (c : Dev nD) : Buf (Elt F) ((c : Thread nD τ).loc main_v158_1) := (dat7 (E17 m) c).arrAt 4 cfg7.N
/-- What region 7 leaves in main_v158_2: its write-backs folded over the grid. -/
def O7_2 (c : Dev nD) : Buf (Elt F) ((c : Thread nD τ).loc main_v158_2) := (dat7 (E17 m) c).arrAt 5 cfg7.N
/-- After region 7: its outputs at what it leaves, every other buffer as before. -/
def W18 (c : Dev nD) : Valuation τ sig (Elt F) := Function.update (Function.update (Function.update (W17 m c) main_v158_0 (O7_0 m c)) main_v158_1 (O7_1 m c)) main_v158_2 (O7_2 m c)
/-- After the host stretch hostOps8. -/
abbrev W19 : Dev nD → Valuation τ sig (Elt F) := fun c => StableHlo.after hostOps8 (W18 m c)
/-- Region 8's entry contents read at the TensorCore's references. -/
abbrev E19 : (c : Dev nD) → (b : Ref sig .tc) → Buf (Elt F) ((c : Thread nD τ).loc b) := fun c b => W19 m c b
/-- What region 8 leaves in main_v167: its write-backs folded over the grid. -/
def O8_0 (c : Dev nD) : Buf (Elt F) ((c : Thread nD τ).loc main_v167) := (dat8 (E19 m) c).arrAt 5 cfg8.N
/-- After region 8: its outputs at what it leaves, every other buffer as before. -/
def W20 (c : Dev nD) : Valuation τ sig (Elt F) := Function.update (W19 m c) main_v167 (O8_0 m c)
/-- After the host stretch hostOps9. -/
abbrev W21 : Dev nD → Valuation τ sig (Elt F) := fun c => StableHlo.after hostOps9 (W20 m c)
/-- Region 9's entry contents read at the TensorCore's references. -/
abbrev E21 : (c : Dev nD) → (b : Ref sig .tc) → Buf (Elt F) ((c : Thread nD τ).loc b) := fun c b => W21 m c b
/-- What region 9 leaves in main_v173: its write-backs folded over the grid. -/
def O9_0 (c : Dev nD) : Buf (Elt F) ((c : Thread nD τ).loc main_v173) := (dat9 (E21 m) c).arrAt 3 cfg9.N
/-- After region 9: its outputs at what it leaves, every other buffer as before. -/
def W22 (c : Dev nD) : Valuation τ sig (Elt F) := Function.update (W21 m c) main_v173 (O9_0 m c)
/-- After the host stretch hostOps10. -/
abbrev W23 : Dev nD → Valuation τ sig (Elt F) := fun c => StableHlo.after hostOps10 (W22 m c)
/-- Region 10's entry contents read at the TensorCore's references. -/
abbrev E23 : (c : Dev nD) → (b : Ref sig .tc) → Buf (Elt F) ((c : Thread nD τ).loc b) := fun c b => W23 m c b
/-- What region 10 leaves in main_v194_0: its write-backs folded over the grid. -/
def O10_0 (c : Dev nD) : Buf (Elt F) ((c : Thread nD τ).loc main_v194_0) := (dat10 (E23 m) c).arrAt 3 cfg10.N
/-- What region 10 leaves in main_v194_1: its write-backs folded over the grid. -/
def O10_1 (c : Dev nD) : Buf (Elt F) ((c : Thread nD τ).loc main_v194_1) := (dat10 (E23 m) c).arrAt 4 cfg10.N
/-- What region 10 leaves in main_v194_2: its write-backs folded over the grid. -/
def O10_2 (c : Dev nD) : Buf (Elt F) ((c : Thread nD τ).loc main_v194_2) := (dat10 (E23 m) c).arrAt 5 cfg10.N
/-- After region 10: its outputs at what it leaves, every other buffer as before. -/
def W24 (c : Dev nD) : Valuation τ sig (Elt F) := Function.update (Function.update (Function.update (W23 m c) main_v194_0 (O10_0 m c)) main_v194_1 (O10_1 m c)) main_v194_2 (O10_2 m c)
/-- After the host stretch hostOps11. -/
abbrev W25 : Dev nD → Valuation τ sig (Elt F) := fun c => StableHlo.after hostOps11 (W24 m c)
/-- Region 11's entry contents read at the TensorCore's references. -/
abbrev E25 : (c : Dev nD) → (b : Ref sig .tc) → Buf (Elt F) ((c : Thread nD τ).loc b) := fun c b => W25 m c b
/-- What region 11 leaves in main_v203: its write-backs folded over the grid. -/
def O11_0 (c : Dev nD) : Buf (Elt F) ((c : Thread nD τ).loc main_v203) := (dat11 (E25 m) c).arrAt 5 cfg11.N
/-- After region 11: its outputs at what it leaves, every other buffer as before. -/
def W26 (c : Dev nD) : Valuation τ sig (Elt F) := Function.update (W25 m c) main_v203 (O11_0 m c)
/-- After the host stretch hostOps12. -/
abbrev W27 : Dev nD → Valuation τ sig (Elt F) := fun c => StableHlo.after hostOps12 (W26 m c)
/-- After the host stretch hostOps12_1. -/
abbrev W28 : Dev nD → Valuation τ sig (Elt F) := fun c => StableHlo.after hostOps12_1 (W27 m c)
/-- After the host stretch hostOps12_2. -/
abbrev W29 : Dev nD → Valuation τ sig (Elt F) := fun c => StableHlo.after hostOps12_2 (W28 m c)
/-- Region 12's entry contents read at the TensorCore's references. -/
abbrev E29 : (c : Dev nD) → (b : Ref sig .tc) → Buf (Elt F) ((c : Thread nD τ).loc b) := fun c b => W29 m c b
/-- What region 12 leaves in main_v243: its write-backs folded over the grid. -/
def O12_0 (c : Dev nD) : Buf (Elt F) ((c : Thread nD τ).loc main_v243) := (dat12 (E29 m) c).arrAt 3 cfg12.N
/-- After region 12: its outputs at what it leaves, every other buffer as before. -/
def W30 (c : Dev nD) : Valuation τ sig (Elt F) := Function.update (W29 m c) main_v243 (O12_0 m c)
/-- After the host stretch hostOps13. -/
abbrev W31 : Dev nD → Valuation τ sig (Elt F) := fun c => StableHlo.after hostOps13 (W30 m c)
/-- Region 13's entry contents read at the TensorCore's references. -/
abbrev E31 : (c : Dev nD) → (b : Ref sig .tc) → Buf (Elt F) ((c : Thread nD τ).loc b) := fun c b => W31 m c b
/-- What region 13 leaves in main_v264_0: its write-backs folded over the grid. -/
def O13_0 (c : Dev nD) : Buf (Elt F) ((c : Thread nD τ).loc main_v264_0) := (dat13 (E31 m) c).arrAt 3 cfg13.N
/-- What region 13 leaves in main_v264_1: its write-backs folded over the grid. -/
def O13_1 (c : Dev nD) : Buf (Elt F) ((c : Thread nD τ).loc main_v264_1) := (dat13 (E31 m) c).arrAt 4 cfg13.N
/-- What region 13 leaves in main_v264_2: its write-backs folded over the grid. -/
def O13_2 (c : Dev nD) : Buf (Elt F) ((c : Thread nD τ).loc main_v264_2) := (dat13 (E31 m) c).arrAt 5 cfg13.N
/-- After region 13: its outputs at what it leaves, every other buffer as before. -/
def W32 (c : Dev nD) : Valuation τ sig (Elt F) := Function.update (Function.update (Function.update (W31 m c) main_v264_0 (O13_0 m c)) main_v264_1 (O13_1 m c)) main_v264_2 (O13_2 m c)
/-- After the host stretch hostOps14. -/
abbrev W33 : Dev nD → Valuation τ sig (Elt F) := fun c => StableHlo.after hostOps14 (W32 m c)
/-- Region 14's entry contents read at the TensorCore's references. -/
abbrev E33 : (c : Dev nD) → (b : Ref sig .tc) → Buf (Elt F) ((c : Thread nD τ).loc b) := fun c b => W33 m c b
/-- What region 14 leaves in main_v273: its write-backs folded over the grid. -/
def O14_0 (c : Dev nD) : Buf (Elt F) ((c : Thread nD τ).loc main_v273) := (dat14 (E33 m) c).arrAt 5 cfg14.N
/-- After region 14: its outputs at what it leaves, every other buffer as before. -/
def W34 (c : Dev nD) : Valuation τ sig (Elt F) := Function.update (W33 m c) main_v273 (O14_0 m c)
/-- After the host stretch hostOps15. -/
abbrev W35 : Dev nD → Valuation τ sig (Elt F) := fun c => StableHlo.after hostOps15 (W34 m c)
/-- Region 15's entry contents read at the TensorCore's references. -/
abbrev E35 : (c : Dev nD) → (b : Ref sig .tc) → Buf (Elt F) ((c : Thread nD τ).loc b) := fun c b => W35 m c b
/-- What region 15 leaves in main_v279: its write-backs folded over the grid. -/
def O15_0 (c : Dev nD) : Buf (Elt F) ((c : Thread nD τ).loc main_v279) := (dat15 (E35 m) c).arrAt 3 cfg15.N
/-- After region 15: its outputs at what it leaves, every other buffer as before. -/
def W36 (c : Dev nD) : Valuation τ sig (Elt F) := Function.update (W35 m c) main_v279 (O15_0 m c)
/-- After the host stretch hostOps16. -/
abbrev W37 : Dev nD → Valuation τ sig (Elt F) := fun c => StableHlo.after hostOps16 (W36 m c)
/-- Region 16's entry contents read at the TensorCore's references. -/
abbrev E37 : (c : Dev nD) → (b : Ref sig .tc) → Buf (Elt F) ((c : Thread nD τ).loc b) := fun c b => W37 m c b
/-- What region 16 leaves in main_v300_0: its write-backs folded over the grid. -/
def O16_0 (c : Dev nD) : Buf (Elt F) ((c : Thread nD τ).loc main_v300_0) := (dat16 (E37 m) c).arrAt 3 cfg16.N
/-- What region 16 leaves in main_v300_1: its write-backs folded over the grid. -/
def O16_1 (c : Dev nD) : Buf (Elt F) ((c : Thread nD τ).loc main_v300_1) := (dat16 (E37 m) c).arrAt 4 cfg16.N
/-- What region 16 leaves in main_v300_2: its write-backs folded over the grid. -/
def O16_2 (c : Dev nD) : Buf (Elt F) ((c : Thread nD τ).loc main_v300_2) := (dat16 (E37 m) c).arrAt 5 cfg16.N
/-- After region 16: its outputs at what it leaves, every other buffer as before. -/
def W38 (c : Dev nD) : Valuation τ sig (Elt F) := Function.update (Function.update (Function.update (W37 m c) main_v300_0 (O16_0 m c)) main_v300_1 (O16_1 m c)) main_v300_2 (O16_2 m c)
/-- After the host stretch hostOps17. -/
abbrev W39 : Dev nD → Valuation τ sig (Elt F) := fun c => StableHlo.after hostOps17 (W38 m c)
/-- Region 17's entry contents read at the TensorCore's references. -/
abbrev E39 : (c : Dev nD) → (b : Ref sig .tc) → Buf (Elt F) ((c : Thread nD τ).loc b) := fun c b => W39 m c b
/-- What region 17 leaves in main_v309: its write-backs folded over the grid. -/
def O17_0 (c : Dev nD) : Buf (Elt F) ((c : Thread nD τ).loc main_v309) := (dat17 (E39 m) c).arrAt 5 cfg17.N
/-- After region 17: its outputs at what it leaves, every other buffer as before. -/
def W40 (c : Dev nD) : Valuation τ sig (Elt F) := Function.update (W39 m c) main_v309 (O17_0 m c)
/-- After the host stretch hostOps18. -/
abbrev W41 : Dev nD → Valuation τ sig (Elt F) := fun c => StableHlo.after hostOps18 (W40 m c)
/-- After the host stretch hostOps18_1. -/
abbrev W42 : Dev nD → Valuation τ sig (Elt F) := fun c => StableHlo.after hostOps18_1 (W41 m c)
/-- After the host stretch hostOps18_2. -/
abbrev W43 : Dev nD → Valuation τ sig (Elt F) := fun c => StableHlo.after hostOps18_2 (W42 m c)

/-! ## What the regions leave, as one family over the references -/

/-- The contents a region leaves in each of its output arrays (any other reference: its launch contents, never read). -/
def outs : GenP.Outs (F := F) := fun _ r c =>
  if h : r = main_v31 then h ▸ O0_0 m c
  else if h : r = main_v52_0 then h ▸ O1_0 m c
  else if h : r = main_v52_1 then h ▸ O1_1 m c
  else if h : r = main_v52_2 then h ▸ O1_2 m c
  else if h : r = main_v61 then h ▸ O2_0 m c
  else if h : r = main_v67 then h ▸ O3_0 m c
  else if h : r = main_v88_0 then h ▸ O4_0 m c
  else if h : r = main_v88_1 then h ▸ O4_1 m c
  else if h : r = main_v88_2 then h ▸ O4_2 m c
  else if h : r = main_v97 then h ▸ O5_0 m c
  else if h : r = main_v137 then h ▸ O6_0 m c
  else if h : r = main_v158_0 then h ▸ O7_0 m c
  else if h : r = main_v158_1 then h ▸ O7_1 m c
  else if h : r = main_v158_2 then h ▸ O7_2 m c
  else if h : r = main_v167 then h ▸ O8_0 m c
  else if h : r = main_v173 then h ▸ O9_0 m c
  else if h : r = main_v194_0 then h ▸ O10_0 m c
  else if h : r = main_v194_1 then h ▸ O10_1 m c
  else if h : r = main_v194_2 then h ▸ O10_2 m c
  else if h : r = main_v203 then h ▸ O11_0 m c
  else if h : r = main_v243 then h ▸ O12_0 m c
  else if h : r = main_v264_0 then h ▸ O13_0 m c
  else if h : r = main_v264_1 then h ▸ O13_1 m c
  else if h : r = main_v264_2 then h ▸ O13_2 m c
  else if h : r = main_v273 then h ▸ O14_0 m c
  else if h : r = main_v279 then h ▸ O15_0 m c
  else if h : r = main_v300_0 then h ▸ O16_0 m c
  else if h : r = main_v300_1 then h ▸ O16_1 m c
  else if h : r = main_v300_2 then h ▸ O16_2 m c
  else if h : r = main_v309 then h ▸ O17_0 m c
  else W0 m c r

theorem outs_main_v31 (J : ℕ) (c : Dev nD) : outs m J main_v31 c = O0_0 m c := by
  unfold outs; rw [dif_pos rfl]
theorem outs_main_v52_0 (J : ℕ) (c : Dev nD) : outs m J main_v52_0 c = O1_0 m c := by
  unfold outs; rw [dif_neg (by decide : ¬ main_v52_0 = main_v31), dif_pos rfl]
theorem outs_main_v52_1 (J : ℕ) (c : Dev nD) : outs m J main_v52_1 c = O1_1 m c := by
  unfold outs; rw [dif_neg (by decide : ¬ main_v52_1 = main_v31), dif_neg (by decide : ¬ main_v52_1 = main_v52_0), dif_pos rfl]
theorem outs_main_v52_2 (J : ℕ) (c : Dev nD) : outs m J main_v52_2 c = O1_2 m c := by
  unfold outs; rw [dif_neg (by decide : ¬ main_v52_2 = main_v31), dif_neg (by decide : ¬ main_v52_2 = main_v52_0), dif_neg (by decide : ¬ main_v52_2 = main_v52_1), dif_pos rfl]
theorem outs_main_v61 (J : ℕ) (c : Dev nD) : outs m J main_v61 c = O2_0 m c := by
  unfold outs; rw [dif_neg (by decide : ¬ main_v61 = main_v31), dif_neg (by decide : ¬ main_v61 = main_v52_0), dif_neg (by decide : ¬ main_v61 = main_v52_1), dif_neg (by decide : ¬ main_v61 = main_v52_2), dif_pos rfl]
theorem outs_main_v67 (J : ℕ) (c : Dev nD) : outs m J main_v67 c = O3_0 m c := by
  unfold outs; rw [dif_neg (by decide : ¬ main_v67 = main_v31), dif_neg (by decide : ¬ main_v67 = main_v52_0), dif_neg (by decide : ¬ main_v67 = main_v52_1), dif_neg (by decide : ¬ main_v67 = main_v52_2), dif_neg (by decide : ¬ main_v67 = main_v61), dif_pos rfl]
theorem outs_main_v88_0 (J : ℕ) (c : Dev nD) : outs m J main_v88_0 c = O4_0 m c := by
  unfold outs; rw [dif_neg (by decide : ¬ main_v88_0 = main_v31), dif_neg (by decide : ¬ main_v88_0 = main_v52_0), dif_neg (by decide : ¬ main_v88_0 = main_v52_1), dif_neg (by decide : ¬ main_v88_0 = main_v52_2), dif_neg (by decide : ¬ main_v88_0 = main_v61), dif_neg (by decide : ¬ main_v88_0 = main_v67), dif_pos rfl]
theorem outs_main_v88_1 (J : ℕ) (c : Dev nD) : outs m J main_v88_1 c = O4_1 m c := by
  unfold outs; rw [dif_neg (by decide : ¬ main_v88_1 = main_v31), dif_neg (by decide : ¬ main_v88_1 = main_v52_0), dif_neg (by decide : ¬ main_v88_1 = main_v52_1), dif_neg (by decide : ¬ main_v88_1 = main_v52_2), dif_neg (by decide : ¬ main_v88_1 = main_v61), dif_neg (by decide : ¬ main_v88_1 = main_v67), dif_neg (by decide : ¬ main_v88_1 = main_v88_0), dif_pos rfl]
theorem outs_main_v88_2 (J : ℕ) (c : Dev nD) : outs m J main_v88_2 c = O4_2 m c := by
  unfold outs; rw [dif_neg (by decide : ¬ main_v88_2 = main_v31), dif_neg (by decide : ¬ main_v88_2 = main_v52_0), dif_neg (by decide : ¬ main_v88_2 = main_v52_1), dif_neg (by decide : ¬ main_v88_2 = main_v52_2), dif_neg (by decide : ¬ main_v88_2 = main_v61), dif_neg (by decide : ¬ main_v88_2 = main_v67), dif_neg (by decide : ¬ main_v88_2 = main_v88_0), dif_neg (by decide : ¬ main_v88_2 = main_v88_1), dif_pos rfl]
theorem outs_main_v97 (J : ℕ) (c : Dev nD) : outs m J main_v97 c = O5_0 m c := by
  unfold outs; rw [dif_neg (by decide : ¬ main_v97 = main_v31), dif_neg (by decide : ¬ main_v97 = main_v52_0), dif_neg (by decide : ¬ main_v97 = main_v52_1), dif_neg (by decide : ¬ main_v97 = main_v52_2), dif_neg (by decide : ¬ main_v97 = main_v61), dif_neg (by decide : ¬ main_v97 = main_v67), dif_neg (by decide : ¬ main_v97 = main_v88_0), dif_neg (by decide : ¬ main_v97 = main_v88_1), dif_neg (by decide : ¬ main_v97 = main_v88_2), dif_pos rfl]
theorem outs_main_v137 (J : ℕ) (c : Dev nD) : outs m J main_v137 c = O6_0 m c := by
  unfold outs; rw [dif_neg (by decide : ¬ main_v137 = main_v31), dif_neg (by decide : ¬ main_v137 = main_v52_0), dif_neg (by decide : ¬ main_v137 = main_v52_1), dif_neg (by decide : ¬ main_v137 = main_v52_2), dif_neg (by decide : ¬ main_v137 = main_v61), dif_neg (by decide : ¬ main_v137 = main_v67), dif_neg (by decide : ¬ main_v137 = main_v88_0), dif_neg (by decide : ¬ main_v137 = main_v88_1), dif_neg (by decide : ¬ main_v137 = main_v88_2), dif_neg (by decide : ¬ main_v137 = main_v97), dif_pos rfl]
theorem outs_main_v158_0 (J : ℕ) (c : Dev nD) : outs m J main_v158_0 c = O7_0 m c := by
  unfold outs; rw [dif_neg (by decide : ¬ main_v158_0 = main_v31), dif_neg (by decide : ¬ main_v158_0 = main_v52_0), dif_neg (by decide : ¬ main_v158_0 = main_v52_1), dif_neg (by decide : ¬ main_v158_0 = main_v52_2), dif_neg (by decide : ¬ main_v158_0 = main_v61), dif_neg (by decide : ¬ main_v158_0 = main_v67), dif_neg (by decide : ¬ main_v158_0 = main_v88_0), dif_neg (by decide : ¬ main_v158_0 = main_v88_1), dif_neg (by decide : ¬ main_v158_0 = main_v88_2), dif_neg (by decide : ¬ main_v158_0 = main_v97), dif_neg (by decide : ¬ main_v158_0 = main_v137), dif_pos rfl]
theorem outs_main_v158_1 (J : ℕ) (c : Dev nD) : outs m J main_v158_1 c = O7_1 m c := by
  unfold outs; rw [dif_neg (by decide : ¬ main_v158_1 = main_v31), dif_neg (by decide : ¬ main_v158_1 = main_v52_0), dif_neg (by decide : ¬ main_v158_1 = main_v52_1), dif_neg (by decide : ¬ main_v158_1 = main_v52_2), dif_neg (by decide : ¬ main_v158_1 = main_v61), dif_neg (by decide : ¬ main_v158_1 = main_v67), dif_neg (by decide : ¬ main_v158_1 = main_v88_0), dif_neg (by decide : ¬ main_v158_1 = main_v88_1), dif_neg (by decide : ¬ main_v158_1 = main_v88_2), dif_neg (by decide : ¬ main_v158_1 = main_v97), dif_neg (by decide : ¬ main_v158_1 = main_v137), dif_neg (by decide : ¬ main_v158_1 = main_v158_0), dif_pos rfl]
theorem outs_main_v158_2 (J : ℕ) (c : Dev nD) : outs m J main_v158_2 c = O7_2 m c := by
  unfold outs; rw [dif_neg (by decide : ¬ main_v158_2 = main_v31), dif_neg (by decide : ¬ main_v158_2 = main_v52_0), dif_neg (by decide : ¬ main_v158_2 = main_v52_1), dif_neg (by decide : ¬ main_v158_2 = main_v52_2), dif_neg (by decide : ¬ main_v158_2 = main_v61), dif_neg (by decide : ¬ main_v158_2 = main_v67), dif_neg (by decide : ¬ main_v158_2 = main_v88_0), dif_neg (by decide : ¬ main_v158_2 = main_v88_1), dif_neg (by decide : ¬ main_v158_2 = main_v88_2), dif_neg (by decide : ¬ main_v158_2 = main_v97), dif_neg (by decide : ¬ main_v158_2 = main_v137), dif_neg (by decide : ¬ main_v158_2 = main_v158_0), dif_neg (by decide : ¬ main_v158_2 = main_v158_1), dif_pos rfl]
theorem outs_main_v167 (J : ℕ) (c : Dev nD) : outs m J main_v167 c = O8_0 m c := by
  unfold outs; rw [dif_neg (by decide : ¬ main_v167 = main_v31), dif_neg (by decide : ¬ main_v167 = main_v52_0), dif_neg (by decide : ¬ main_v167 = main_v52_1), dif_neg (by decide : ¬ main_v167 = main_v52_2), dif_neg (by decide : ¬ main_v167 = main_v61), dif_neg (by decide : ¬ main_v167 = main_v67), dif_neg (by decide : ¬ main_v167 = main_v88_0), dif_neg (by decide : ¬ main_v167 = main_v88_1), dif_neg (by decide : ¬ main_v167 = main_v88_2), dif_neg (by decide : ¬ main_v167 = main_v97), dif_neg (by decide : ¬ main_v167 = main_v137), dif_neg (by decide : ¬ main_v167 = main_v158_0), dif_neg (by decide : ¬ main_v167 = main_v158_1), dif_neg (by decide : ¬ main_v167 = main_v158_2), dif_pos rfl]
theorem outs_main_v173 (J : ℕ) (c : Dev nD) : outs m J main_v173 c = O9_0 m c := by
  unfold outs; rw [dif_neg (by decide : ¬ main_v173 = main_v31), dif_neg (by decide : ¬ main_v173 = main_v52_0), dif_neg (by decide : ¬ main_v173 = main_v52_1), dif_neg (by decide : ¬ main_v173 = main_v52_2), dif_neg (by decide : ¬ main_v173 = main_v61), dif_neg (by decide : ¬ main_v173 = main_v67), dif_neg (by decide : ¬ main_v173 = main_v88_0), dif_neg (by decide : ¬ main_v173 = main_v88_1), dif_neg (by decide : ¬ main_v173 = main_v88_2), dif_neg (by decide : ¬ main_v173 = main_v97), dif_neg (by decide : ¬ main_v173 = main_v137), dif_neg (by decide : ¬ main_v173 = main_v158_0), dif_neg (by decide : ¬ main_v173 = main_v158_1), dif_neg (by decide : ¬ main_v173 = main_v158_2), dif_neg (by decide : ¬ main_v173 = main_v167), dif_pos rfl]
theorem outs_main_v194_0 (J : ℕ) (c : Dev nD) : outs m J main_v194_0 c = O10_0 m c := by
  unfold outs; rw [dif_neg (by decide : ¬ main_v194_0 = main_v31), dif_neg (by decide : ¬ main_v194_0 = main_v52_0), dif_neg (by decide : ¬ main_v194_0 = main_v52_1), dif_neg (by decide : ¬ main_v194_0 = main_v52_2), dif_neg (by decide : ¬ main_v194_0 = main_v61), dif_neg (by decide : ¬ main_v194_0 = main_v67), dif_neg (by decide : ¬ main_v194_0 = main_v88_0), dif_neg (by decide : ¬ main_v194_0 = main_v88_1), dif_neg (by decide : ¬ main_v194_0 = main_v88_2), dif_neg (by decide : ¬ main_v194_0 = main_v97), dif_neg (by decide : ¬ main_v194_0 = main_v137), dif_neg (by decide : ¬ main_v194_0 = main_v158_0), dif_neg (by decide : ¬ main_v194_0 = main_v158_1), dif_neg (by decide : ¬ main_v194_0 = main_v158_2), dif_neg (by decide : ¬ main_v194_0 = main_v167), dif_neg (by decide : ¬ main_v194_0 = main_v173), dif_pos rfl]
theorem outs_main_v194_1 (J : ℕ) (c : Dev nD) : outs m J main_v194_1 c = O10_1 m c := by
  unfold outs; rw [dif_neg (by decide : ¬ main_v194_1 = main_v31), dif_neg (by decide : ¬ main_v194_1 = main_v52_0), dif_neg (by decide : ¬ main_v194_1 = main_v52_1), dif_neg (by decide : ¬ main_v194_1 = main_v52_2), dif_neg (by decide : ¬ main_v194_1 = main_v61), dif_neg (by decide : ¬ main_v194_1 = main_v67), dif_neg (by decide : ¬ main_v194_1 = main_v88_0), dif_neg (by decide : ¬ main_v194_1 = main_v88_1), dif_neg (by decide : ¬ main_v194_1 = main_v88_2), dif_neg (by decide : ¬ main_v194_1 = main_v97), dif_neg (by decide : ¬ main_v194_1 = main_v137), dif_neg (by decide : ¬ main_v194_1 = main_v158_0), dif_neg (by decide : ¬ main_v194_1 = main_v158_1), dif_neg (by decide : ¬ main_v194_1 = main_v158_2), dif_neg (by decide : ¬ main_v194_1 = main_v167), dif_neg (by decide : ¬ main_v194_1 = main_v173), dif_neg (by decide : ¬ main_v194_1 = main_v194_0), dif_pos rfl]
theorem outs_main_v194_2 (J : ℕ) (c : Dev nD) : outs m J main_v194_2 c = O10_2 m c := by
  unfold outs; rw [dif_neg (by decide : ¬ main_v194_2 = main_v31), dif_neg (by decide : ¬ main_v194_2 = main_v52_0), dif_neg (by decide : ¬ main_v194_2 = main_v52_1), dif_neg (by decide : ¬ main_v194_2 = main_v52_2), dif_neg (by decide : ¬ main_v194_2 = main_v61), dif_neg (by decide : ¬ main_v194_2 = main_v67), dif_neg (by decide : ¬ main_v194_2 = main_v88_0), dif_neg (by decide : ¬ main_v194_2 = main_v88_1), dif_neg (by decide : ¬ main_v194_2 = main_v88_2), dif_neg (by decide : ¬ main_v194_2 = main_v97), dif_neg (by decide : ¬ main_v194_2 = main_v137), dif_neg (by decide : ¬ main_v194_2 = main_v158_0), dif_neg (by decide : ¬ main_v194_2 = main_v158_1), dif_neg (by decide : ¬ main_v194_2 = main_v158_2), dif_neg (by decide : ¬ main_v194_2 = main_v167), dif_neg (by decide : ¬ main_v194_2 = main_v173), dif_neg (by decide : ¬ main_v194_2 = main_v194_0), dif_neg (by decide : ¬ main_v194_2 = main_v194_1), dif_pos rfl]
theorem outs_main_v203 (J : ℕ) (c : Dev nD) : outs m J main_v203 c = O11_0 m c := by
  unfold outs; rw [dif_neg (by decide : ¬ main_v203 = main_v31), dif_neg (by decide : ¬ main_v203 = main_v52_0), dif_neg (by decide : ¬ main_v203 = main_v52_1), dif_neg (by decide : ¬ main_v203 = main_v52_2), dif_neg (by decide : ¬ main_v203 = main_v61), dif_neg (by decide : ¬ main_v203 = main_v67), dif_neg (by decide : ¬ main_v203 = main_v88_0), dif_neg (by decide : ¬ main_v203 = main_v88_1), dif_neg (by decide : ¬ main_v203 = main_v88_2), dif_neg (by decide : ¬ main_v203 = main_v97), dif_neg (by decide : ¬ main_v203 = main_v137), dif_neg (by decide : ¬ main_v203 = main_v158_0), dif_neg (by decide : ¬ main_v203 = main_v158_1), dif_neg (by decide : ¬ main_v203 = main_v158_2), dif_neg (by decide : ¬ main_v203 = main_v167), dif_neg (by decide : ¬ main_v203 = main_v173), dif_neg (by decide : ¬ main_v203 = main_v194_0), dif_neg (by decide : ¬ main_v203 = main_v194_1), dif_neg (by decide : ¬ main_v203 = main_v194_2), dif_pos rfl]
theorem outs_main_v243 (J : ℕ) (c : Dev nD) : outs m J main_v243 c = O12_0 m c := by
  unfold outs; rw [dif_neg (by decide : ¬ main_v243 = main_v31), dif_neg (by decide : ¬ main_v243 = main_v52_0), dif_neg (by decide : ¬ main_v243 = main_v52_1), dif_neg (by decide : ¬ main_v243 = main_v52_2), dif_neg (by decide : ¬ main_v243 = main_v61), dif_neg (by decide : ¬ main_v243 = main_v67), dif_neg (by decide : ¬ main_v243 = main_v88_0), dif_neg (by decide : ¬ main_v243 = main_v88_1), dif_neg (by decide : ¬ main_v243 = main_v88_2), dif_neg (by decide : ¬ main_v243 = main_v97), dif_neg (by decide : ¬ main_v243 = main_v137), dif_neg (by decide : ¬ main_v243 = main_v158_0), dif_neg (by decide : ¬ main_v243 = main_v158_1), dif_neg (by decide : ¬ main_v243 = main_v158_2), dif_neg (by decide : ¬ main_v243 = main_v167), dif_neg (by decide : ¬ main_v243 = main_v173), dif_neg (by decide : ¬ main_v243 = main_v194_0), dif_neg (by decide : ¬ main_v243 = main_v194_1), dif_neg (by decide : ¬ main_v243 = main_v194_2), dif_neg (by decide : ¬ main_v243 = main_v203), dif_pos rfl]
theorem outs_main_v264_0 (J : ℕ) (c : Dev nD) : outs m J main_v264_0 c = O13_0 m c := by
  unfold outs; rw [dif_neg (by decide : ¬ main_v264_0 = main_v31), dif_neg (by decide : ¬ main_v264_0 = main_v52_0), dif_neg (by decide : ¬ main_v264_0 = main_v52_1), dif_neg (by decide : ¬ main_v264_0 = main_v52_2), dif_neg (by decide : ¬ main_v264_0 = main_v61), dif_neg (by decide : ¬ main_v264_0 = main_v67), dif_neg (by decide : ¬ main_v264_0 = main_v88_0), dif_neg (by decide : ¬ main_v264_0 = main_v88_1), dif_neg (by decide : ¬ main_v264_0 = main_v88_2), dif_neg (by decide : ¬ main_v264_0 = main_v97), dif_neg (by decide : ¬ main_v264_0 = main_v137), dif_neg (by decide : ¬ main_v264_0 = main_v158_0), dif_neg (by decide : ¬ main_v264_0 = main_v158_1), dif_neg (by decide : ¬ main_v264_0 = main_v158_2), dif_neg (by decide : ¬ main_v264_0 = main_v167), dif_neg (by decide : ¬ main_v264_0 = main_v173), dif_neg (by decide : ¬ main_v264_0 = main_v194_0), dif_neg (by decide : ¬ main_v264_0 = main_v194_1), dif_neg (by decide : ¬ main_v264_0 = main_v194_2), dif_neg (by decide : ¬ main_v264_0 = main_v203), dif_neg (by decide : ¬ main_v264_0 = main_v243), dif_pos rfl]
theorem outs_main_v264_1 (J : ℕ) (c : Dev nD) : outs m J main_v264_1 c = O13_1 m c := by
  unfold outs; rw [dif_neg (by decide : ¬ main_v264_1 = main_v31), dif_neg (by decide : ¬ main_v264_1 = main_v52_0), dif_neg (by decide : ¬ main_v264_1 = main_v52_1), dif_neg (by decide : ¬ main_v264_1 = main_v52_2), dif_neg (by decide : ¬ main_v264_1 = main_v61), dif_neg (by decide : ¬ main_v264_1 = main_v67), dif_neg (by decide : ¬ main_v264_1 = main_v88_0), dif_neg (by decide : ¬ main_v264_1 = main_v88_1), dif_neg (by decide : ¬ main_v264_1 = main_v88_2), dif_neg (by decide : ¬ main_v264_1 = main_v97), dif_neg (by decide : ¬ main_v264_1 = main_v137), dif_neg (by decide : ¬ main_v264_1 = main_v158_0), dif_neg (by decide : ¬ main_v264_1 = main_v158_1), dif_neg (by decide : ¬ main_v264_1 = main_v158_2), dif_neg (by decide : ¬ main_v264_1 = main_v167), dif_neg (by decide : ¬ main_v264_1 = main_v173), dif_neg (by decide : ¬ main_v264_1 = main_v194_0), dif_neg (by decide : ¬ main_v264_1 = main_v194_1), dif_neg (by decide : ¬ main_v264_1 = main_v194_2), dif_neg (by decide : ¬ main_v264_1 = main_v203), dif_neg (by decide : ¬ main_v264_1 = main_v243), dif_neg (by decide : ¬ main_v264_1 = main_v264_0), dif_pos rfl]
theorem outs_main_v264_2 (J : ℕ) (c : Dev nD) : outs m J main_v264_2 c = O13_2 m c := by
  unfold outs; rw [dif_neg (by decide : ¬ main_v264_2 = main_v31), dif_neg (by decide : ¬ main_v264_2 = main_v52_0), dif_neg (by decide : ¬ main_v264_2 = main_v52_1), dif_neg (by decide : ¬ main_v264_2 = main_v52_2), dif_neg (by decide : ¬ main_v264_2 = main_v61), dif_neg (by decide : ¬ main_v264_2 = main_v67), dif_neg (by decide : ¬ main_v264_2 = main_v88_0), dif_neg (by decide : ¬ main_v264_2 = main_v88_1), dif_neg (by decide : ¬ main_v264_2 = main_v88_2), dif_neg (by decide : ¬ main_v264_2 = main_v97), dif_neg (by decide : ¬ main_v264_2 = main_v137), dif_neg (by decide : ¬ main_v264_2 = main_v158_0), dif_neg (by decide : ¬ main_v264_2 = main_v158_1), dif_neg (by decide : ¬ main_v264_2 = main_v158_2), dif_neg (by decide : ¬ main_v264_2 = main_v167), dif_neg (by decide : ¬ main_v264_2 = main_v173), dif_neg (by decide : ¬ main_v264_2 = main_v194_0), dif_neg (by decide : ¬ main_v264_2 = main_v194_1), dif_neg (by decide : ¬ main_v264_2 = main_v194_2), dif_neg (by decide : ¬ main_v264_2 = main_v203), dif_neg (by decide : ¬ main_v264_2 = main_v243), dif_neg (by decide : ¬ main_v264_2 = main_v264_0), dif_neg (by decide : ¬ main_v264_2 = main_v264_1), dif_pos rfl]
theorem outs_main_v273 (J : ℕ) (c : Dev nD) : outs m J main_v273 c = O14_0 m c := by
  unfold outs; rw [dif_neg (by decide : ¬ main_v273 = main_v31), dif_neg (by decide : ¬ main_v273 = main_v52_0), dif_neg (by decide : ¬ main_v273 = main_v52_1), dif_neg (by decide : ¬ main_v273 = main_v52_2), dif_neg (by decide : ¬ main_v273 = main_v61), dif_neg (by decide : ¬ main_v273 = main_v67), dif_neg (by decide : ¬ main_v273 = main_v88_0), dif_neg (by decide : ¬ main_v273 = main_v88_1), dif_neg (by decide : ¬ main_v273 = main_v88_2), dif_neg (by decide : ¬ main_v273 = main_v97), dif_neg (by decide : ¬ main_v273 = main_v137), dif_neg (by decide : ¬ main_v273 = main_v158_0), dif_neg (by decide : ¬ main_v273 = main_v158_1), dif_neg (by decide : ¬ main_v273 = main_v158_2), dif_neg (by decide : ¬ main_v273 = main_v167), dif_neg (by decide : ¬ main_v273 = main_v173), dif_neg (by decide : ¬ main_v273 = main_v194_0), dif_neg (by decide : ¬ main_v273 = main_v194_1), dif_neg (by decide : ¬ main_v273 = main_v194_2), dif_neg (by decide : ¬ main_v273 = main_v203), dif_neg (by decide : ¬ main_v273 = main_v243), dif_neg (by decide : ¬ main_v273 = main_v264_0), dif_neg (by decide : ¬ main_v273 = main_v264_1), dif_neg (by decide : ¬ main_v273 = main_v264_2), dif_pos rfl]
theorem outs_main_v279 (J : ℕ) (c : Dev nD) : outs m J main_v279 c = O15_0 m c := by
  unfold outs; rw [dif_neg (by decide : ¬ main_v279 = main_v31), dif_neg (by decide : ¬ main_v279 = main_v52_0), dif_neg (by decide : ¬ main_v279 = main_v52_1), dif_neg (by decide : ¬ main_v279 = main_v52_2), dif_neg (by decide : ¬ main_v279 = main_v61), dif_neg (by decide : ¬ main_v279 = main_v67), dif_neg (by decide : ¬ main_v279 = main_v88_0), dif_neg (by decide : ¬ main_v279 = main_v88_1), dif_neg (by decide : ¬ main_v279 = main_v88_2), dif_neg (by decide : ¬ main_v279 = main_v97), dif_neg (by decide : ¬ main_v279 = main_v137), dif_neg (by decide : ¬ main_v279 = main_v158_0), dif_neg (by decide : ¬ main_v279 = main_v158_1), dif_neg (by decide : ¬ main_v279 = main_v158_2), dif_neg (by decide : ¬ main_v279 = main_v167), dif_neg (by decide : ¬ main_v279 = main_v173), dif_neg (by decide : ¬ main_v279 = main_v194_0), dif_neg (by decide : ¬ main_v279 = main_v194_1), dif_neg (by decide : ¬ main_v279 = main_v194_2), dif_neg (by decide : ¬ main_v279 = main_v203), dif_neg (by decide : ¬ main_v279 = main_v243), dif_neg (by decide : ¬ main_v279 = main_v264_0), dif_neg (by decide : ¬ main_v279 = main_v264_1), dif_neg (by decide : ¬ main_v279 = main_v264_2), dif_neg (by decide : ¬ main_v279 = main_v273), dif_pos rfl]
theorem outs_main_v300_0 (J : ℕ) (c : Dev nD) : outs m J main_v300_0 c = O16_0 m c := by
  unfold outs; rw [dif_neg (by decide : ¬ main_v300_0 = main_v31), dif_neg (by decide : ¬ main_v300_0 = main_v52_0), dif_neg (by decide : ¬ main_v300_0 = main_v52_1), dif_neg (by decide : ¬ main_v300_0 = main_v52_2), dif_neg (by decide : ¬ main_v300_0 = main_v61), dif_neg (by decide : ¬ main_v300_0 = main_v67), dif_neg (by decide : ¬ main_v300_0 = main_v88_0), dif_neg (by decide : ¬ main_v300_0 = main_v88_1), dif_neg (by decide : ¬ main_v300_0 = main_v88_2), dif_neg (by decide : ¬ main_v300_0 = main_v97), dif_neg (by decide : ¬ main_v300_0 = main_v137), dif_neg (by decide : ¬ main_v300_0 = main_v158_0), dif_neg (by decide : ¬ main_v300_0 = main_v158_1), dif_neg (by decide : ¬ main_v300_0 = main_v158_2), dif_neg (by decide : ¬ main_v300_0 = main_v167), dif_neg (by decide : ¬ main_v300_0 = main_v173), dif_neg (by decide : ¬ main_v300_0 = main_v194_0), dif_neg (by decide : ¬ main_v300_0 = main_v194_1), dif_neg (by decide : ¬ main_v300_0 = main_v194_2), dif_neg (by decide : ¬ main_v300_0 = main_v203), dif_neg (by decide : ¬ main_v300_0 = main_v243), dif_neg (by decide : ¬ main_v300_0 = main_v264_0), dif_neg (by decide : ¬ main_v300_0 = main_v264_1), dif_neg (by decide : ¬ main_v300_0 = main_v264_2), dif_neg (by decide : ¬ main_v300_0 = main_v273), dif_neg (by decide : ¬ main_v300_0 = main_v279), dif_pos rfl]
theorem outs_main_v300_1 (J : ℕ) (c : Dev nD) : outs m J main_v300_1 c = O16_1 m c := by
  unfold outs; rw [dif_neg (by decide : ¬ main_v300_1 = main_v31), dif_neg (by decide : ¬ main_v300_1 = main_v52_0), dif_neg (by decide : ¬ main_v300_1 = main_v52_1), dif_neg (by decide : ¬ main_v300_1 = main_v52_2), dif_neg (by decide : ¬ main_v300_1 = main_v61), dif_neg (by decide : ¬ main_v300_1 = main_v67), dif_neg (by decide : ¬ main_v300_1 = main_v88_0), dif_neg (by decide : ¬ main_v300_1 = main_v88_1), dif_neg (by decide : ¬ main_v300_1 = main_v88_2), dif_neg (by decide : ¬ main_v300_1 = main_v97), dif_neg (by decide : ¬ main_v300_1 = main_v137), dif_neg (by decide : ¬ main_v300_1 = main_v158_0), dif_neg (by decide : ¬ main_v300_1 = main_v158_1), dif_neg (by decide : ¬ main_v300_1 = main_v158_2), dif_neg (by decide : ¬ main_v300_1 = main_v167), dif_neg (by decide : ¬ main_v300_1 = main_v173), dif_neg (by decide : ¬ main_v300_1 = main_v194_0), dif_neg (by decide : ¬ main_v300_1 = main_v194_1), dif_neg (by decide : ¬ main_v300_1 = main_v194_2), dif_neg (by decide : ¬ main_v300_1 = main_v203), dif_neg (by decide : ¬ main_v300_1 = main_v243), dif_neg (by decide : ¬ main_v300_1 = main_v264_0), dif_neg (by decide : ¬ main_v300_1 = main_v264_1), dif_neg (by decide : ¬ main_v300_1 = main_v264_2), dif_neg (by decide : ¬ main_v300_1 = main_v273), dif_neg (by decide : ¬ main_v300_1 = main_v279), dif_neg (by decide : ¬ main_v300_1 = main_v300_0), dif_pos rfl]
theorem outs_main_v300_2 (J : ℕ) (c : Dev nD) : outs m J main_v300_2 c = O16_2 m c := by
  unfold outs; rw [dif_neg (by decide : ¬ main_v300_2 = main_v31), dif_neg (by decide : ¬ main_v300_2 = main_v52_0), dif_neg (by decide : ¬ main_v300_2 = main_v52_1), dif_neg (by decide : ¬ main_v300_2 = main_v52_2), dif_neg (by decide : ¬ main_v300_2 = main_v61), dif_neg (by decide : ¬ main_v300_2 = main_v67), dif_neg (by decide : ¬ main_v300_2 = main_v88_0), dif_neg (by decide : ¬ main_v300_2 = main_v88_1), dif_neg (by decide : ¬ main_v300_2 = main_v88_2), dif_neg (by decide : ¬ main_v300_2 = main_v97), dif_neg (by decide : ¬ main_v300_2 = main_v137), dif_neg (by decide : ¬ main_v300_2 = main_v158_0), dif_neg (by decide : ¬ main_v300_2 = main_v158_1), dif_neg (by decide : ¬ main_v300_2 = main_v158_2), dif_neg (by decide : ¬ main_v300_2 = main_v167), dif_neg (by decide : ¬ main_v300_2 = main_v173), dif_neg (by decide : ¬ main_v300_2 = main_v194_0), dif_neg (by decide : ¬ main_v300_2 = main_v194_1), dif_neg (by decide : ¬ main_v300_2 = main_v194_2), dif_neg (by decide : ¬ main_v300_2 = main_v203), dif_neg (by decide : ¬ main_v300_2 = main_v243), dif_neg (by decide : ¬ main_v300_2 = main_v264_0), dif_neg (by decide : ¬ main_v300_2 = main_v264_1), dif_neg (by decide : ¬ main_v300_2 = main_v264_2), dif_neg (by decide : ¬ main_v300_2 = main_v273), dif_neg (by decide : ¬ main_v300_2 = main_v279), dif_neg (by decide : ¬ main_v300_2 = main_v300_0), dif_neg (by decide : ¬ main_v300_2 = main_v300_1), dif_pos rfl]
theorem outs_main_v309 (J : ℕ) (c : Dev nD) : outs m J main_v309 c = O17_0 m c := by
  unfold outs; rw [dif_neg (by decide : ¬ main_v309 = main_v31), dif_neg (by decide : ¬ main_v309 = main_v52_0), dif_neg (by decide : ¬ main_v309 = main_v52_1), dif_neg (by decide : ¬ main_v309 = main_v52_2), dif_neg (by decide : ¬ main_v309 = main_v61), dif_neg (by decide : ¬ main_v309 = main_v67), dif_neg (by decide : ¬ main_v309 = main_v88_0), dif_neg (by decide : ¬ main_v309 = main_v88_1), dif_neg (by decide : ¬ main_v309 = main_v88_2), dif_neg (by decide : ¬ main_v309 = main_v97), dif_neg (by decide : ¬ main_v309 = main_v137), dif_neg (by decide : ¬ main_v309 = main_v158_0), dif_neg (by decide : ¬ main_v309 = main_v158_1), dif_neg (by decide : ¬ main_v309 = main_v158_2), dif_neg (by decide : ¬ main_v309 = main_v167), dif_neg (by decide : ¬ main_v309 = main_v173), dif_neg (by decide : ¬ main_v309 = main_v194_0), dif_neg (by decide : ¬ main_v309 = main_v194_1), dif_neg (by decide : ¬ main_v309 = main_v194_2), dif_neg (by decide : ¬ main_v309 = main_v203), dif_neg (by decide : ¬ main_v309 = main_v243), dif_neg (by decide : ¬ main_v309 = main_v264_0), dif_neg (by decide : ¬ main_v309 = main_v264_1), dif_neg (by decide : ¬ main_v309 = main_v264_2), dif_neg (by decide : ¬ main_v309 = main_v273), dif_neg (by decide : ¬ main_v309 = main_v279), dif_neg (by decide : ¬ main_v309 = main_v300_0), dif_neg (by decide : ¬ main_v309 = main_v300_1), dif_neg (by decide : ¬ main_v309 = main_v300_2), dif_pos rfl]

/-! ## The valuations of the conditional frame are these -/

theorem hV0 (c : Dev nD) : GenP.V0 m c = W0 m c := rfl
theorem hV1 (c : Dev nD) : GenP.V1 m c = W1 m c := by
  show StableHlo.after hostOps0 (GenP.V0 m c) = StableHlo.after hostOps0 (W0 m c)
  rw [hV0 m c]
theorem hV2 (c : Dev nD) : GenP.V2 m (outs m) c = W2 m c := by
  show Function.update (GenP.V1 m c) main_v31 (outs m 2 main_v31 c) = _
  rw [hV1 m c, outs_main_v31 m 2 c]
  rfl
theorem hV3 (c : Dev nD) : GenP.V3 m (outs m) c = W3 m c := by
  show StableHlo.after hostOps1 (GenP.V2 m (outs m) c) = StableHlo.after hostOps1 (W2 m c)
  rw [hV2 m c]
theorem hV4 (c : Dev nD) : GenP.V4 m (outs m) c = W4 m c := by
  show Function.update (Function.update (Function.update (GenP.V3 m (outs m) c) main_v52_0 (outs m 4 main_v52_0 c)) main_v52_1 (outs m 4 main_v52_1 c)) main_v52_2 (outs m 4 main_v52_2 c) = _
  rw [hV3 m c, outs_main_v52_0 m 4 c, outs_main_v52_1 m 4 c, outs_main_v52_2 m 4 c]
  rfl
theorem hV5 (c : Dev nD) : GenP.V5 m (outs m) c = W5 m c := by
  show StableHlo.after hostOps2 (GenP.V4 m (outs m) c) = StableHlo.after hostOps2 (W4 m c)
  rw [hV4 m c]
theorem hV6 (c : Dev nD) : GenP.V6 m (outs m) c = W6 m c := by
  show Function.update (GenP.V5 m (outs m) c) main_v61 (outs m 6 main_v61 c) = _
  rw [hV5 m c, outs_main_v61 m 6 c]
  rfl
theorem hV7 (c : Dev nD) : GenP.V7 m (outs m) c = W7 m c := by
  show StableHlo.after hostOps3 (GenP.V6 m (outs m) c) = StableHlo.after hostOps3 (W6 m c)
  rw [hV6 m c]
theorem hV8 (c : Dev nD) : GenP.V8 m (outs m) c = W8 m c := by
  show Function.update (GenP.V7 m (outs m) c) main_v67 (outs m 8 main_v67 c) = _
  rw [hV7 m c, outs_main_v67 m 8 c]
  rfl
theorem hV9 (c : Dev nD) : GenP.V9 m (outs m) c = W9 m c := by
  show StableHlo.after hostOps4 (GenP.V8 m (outs m) c) = StableHlo.after hostOps4 (W8 m c)
  rw [hV8 m c]
theorem hV10 (c : Dev nD) : GenP.V10 m (outs m) c = W10 m c := by
  show Function.update (Function.update (Function.update (GenP.V9 m (outs m) c) main_v88_0 (outs m 10 main_v88_0 c)) main_v88_1 (outs m 10 main_v88_1 c)) main_v88_2 (outs m 10 main_v88_2 c) = _
  rw [hV9 m c, outs_main_v88_0 m 10 c, outs_main_v88_1 m 10 c, outs_main_v88_2 m 10 c]
  rfl
theorem hV11 (c : Dev nD) : GenP.V11 m (outs m) c = W11 m c := by
  show StableHlo.after hostOps5 (GenP.V10 m (outs m) c) = StableHlo.after hostOps5 (W10 m c)
  rw [hV10 m c]
theorem hV12 (c : Dev nD) : GenP.V12 m (outs m) c = W12 m c := by
  show Function.update (GenP.V11 m (outs m) c) main_v97 (outs m 12 main_v97 c) = _
  rw [hV11 m c, outs_main_v97 m 12 c]
  rfl
theorem hV13 (c : Dev nD) : GenP.V13 m (outs m) c = W13 m c := by
  show StableHlo.after hostOps6 (GenP.V12 m (outs m) c) = StableHlo.after hostOps6 (W12 m c)
  rw [hV12 m c]
theorem hV14 (c : Dev nD) : GenP.V14 m (outs m) c = W14 m c := by
  show StableHlo.after hostOps6_1 (GenP.V13 m (outs m) c) = StableHlo.after hostOps6_1 (W13 m c)
  rw [hV13 m c]
theorem hV15 (c : Dev nD) : GenP.V15 m (outs m) c = W15 m c := by
  show StableHlo.after hostOps6_2 (GenP.V14 m (outs m) c) = StableHlo.after hostOps6_2 (W14 m c)
  rw [hV14 m c]
theorem hV16 (c : Dev nD) : GenP.V16 m (outs m) c = W16 m c := by
  show Function.update (GenP.V15 m (outs m) c) main_v137 (outs m 16 main_v137 c) = _
  rw [hV15 m c, outs_main_v137 m 16 c]
  rfl
theorem hV17 (c : Dev nD) : GenP.V17 m (outs m) c = W17 m c := by
  show StableHlo.after hostOps7 (GenP.V16 m (outs m) c) = StableHlo.after hostOps7 (W16 m c)
  rw [hV16 m c]
theorem hV18 (c : Dev nD) : GenP.V18 m (outs m) c = W18 m c := by
  show Function.update (Function.update (Function.update (GenP.V17 m (outs m) c) main_v158_0 (outs m 18 main_v158_0 c)) main_v158_1 (outs m 18 main_v158_1 c)) main_v158_2 (outs m 18 main_v158_2 c) = _
  rw [hV17 m c, outs_main_v158_0 m 18 c, outs_main_v158_1 m 18 c, outs_main_v158_2 m 18 c]
  rfl
theorem hV19 (c : Dev nD) : GenP.V19 m (outs m) c = W19 m c := by
  show StableHlo.after hostOps8 (GenP.V18 m (outs m) c) = StableHlo.after hostOps8 (W18 m c)
  rw [hV18 m c]
theorem hV20 (c : Dev nD) : GenP.V20 m (outs m) c = W20 m c := by
  show Function.update (GenP.V19 m (outs m) c) main_v167 (outs m 20 main_v167 c) = _
  rw [hV19 m c, outs_main_v167 m 20 c]
  rfl
theorem hV21 (c : Dev nD) : GenP.V21 m (outs m) c = W21 m c := by
  show StableHlo.after hostOps9 (GenP.V20 m (outs m) c) = StableHlo.after hostOps9 (W20 m c)
  rw [hV20 m c]
theorem hV22 (c : Dev nD) : GenP.V22 m (outs m) c = W22 m c := by
  show Function.update (GenP.V21 m (outs m) c) main_v173 (outs m 22 main_v173 c) = _
  rw [hV21 m c, outs_main_v173 m 22 c]
  rfl
theorem hV23 (c : Dev nD) : GenP.V23 m (outs m) c = W23 m c := by
  show StableHlo.after hostOps10 (GenP.V22 m (outs m) c) = StableHlo.after hostOps10 (W22 m c)
  rw [hV22 m c]
theorem hV24 (c : Dev nD) : GenP.V24 m (outs m) c = W24 m c := by
  show Function.update (Function.update (Function.update (GenP.V23 m (outs m) c) main_v194_0 (outs m 24 main_v194_0 c)) main_v194_1 (outs m 24 main_v194_1 c)) main_v194_2 (outs m 24 main_v194_2 c) = _
  rw [hV23 m c, outs_main_v194_0 m 24 c, outs_main_v194_1 m 24 c, outs_main_v194_2 m 24 c]
  rfl
theorem hV25 (c : Dev nD) : GenP.V25 m (outs m) c = W25 m c := by
  show StableHlo.after hostOps11 (GenP.V24 m (outs m) c) = StableHlo.after hostOps11 (W24 m c)
  rw [hV24 m c]
theorem hV26 (c : Dev nD) : GenP.V26 m (outs m) c = W26 m c := by
  show Function.update (GenP.V25 m (outs m) c) main_v203 (outs m 26 main_v203 c) = _
  rw [hV25 m c, outs_main_v203 m 26 c]
  rfl
theorem hV27 (c : Dev nD) : GenP.V27 m (outs m) c = W27 m c := by
  show StableHlo.after hostOps12 (GenP.V26 m (outs m) c) = StableHlo.after hostOps12 (W26 m c)
  rw [hV26 m c]
theorem hV28 (c : Dev nD) : GenP.V28 m (outs m) c = W28 m c := by
  show StableHlo.after hostOps12_1 (GenP.V27 m (outs m) c) = StableHlo.after hostOps12_1 (W27 m c)
  rw [hV27 m c]
theorem hV29 (c : Dev nD) : GenP.V29 m (outs m) c = W29 m c := by
  show StableHlo.after hostOps12_2 (GenP.V28 m (outs m) c) = StableHlo.after hostOps12_2 (W28 m c)
  rw [hV28 m c]
theorem hV30 (c : Dev nD) : GenP.V30 m (outs m) c = W30 m c := by
  show Function.update (GenP.V29 m (outs m) c) main_v243 (outs m 30 main_v243 c) = _
  rw [hV29 m c, outs_main_v243 m 30 c]
  rfl
theorem hV31 (c : Dev nD) : GenP.V31 m (outs m) c = W31 m c := by
  show StableHlo.after hostOps13 (GenP.V30 m (outs m) c) = StableHlo.after hostOps13 (W30 m c)
  rw [hV30 m c]
theorem hV32 (c : Dev nD) : GenP.V32 m (outs m) c = W32 m c := by
  show Function.update (Function.update (Function.update (GenP.V31 m (outs m) c) main_v264_0 (outs m 32 main_v264_0 c)) main_v264_1 (outs m 32 main_v264_1 c)) main_v264_2 (outs m 32 main_v264_2 c) = _
  rw [hV31 m c, outs_main_v264_0 m 32 c, outs_main_v264_1 m 32 c, outs_main_v264_2 m 32 c]
  rfl
theorem hV33 (c : Dev nD) : GenP.V33 m (outs m) c = W33 m c := by
  show StableHlo.after hostOps14 (GenP.V32 m (outs m) c) = StableHlo.after hostOps14 (W32 m c)
  rw [hV32 m c]
theorem hV34 (c : Dev nD) : GenP.V34 m (outs m) c = W34 m c := by
  show Function.update (GenP.V33 m (outs m) c) main_v273 (outs m 34 main_v273 c) = _
  rw [hV33 m c, outs_main_v273 m 34 c]
  rfl
theorem hV35 (c : Dev nD) : GenP.V35 m (outs m) c = W35 m c := by
  show StableHlo.after hostOps15 (GenP.V34 m (outs m) c) = StableHlo.after hostOps15 (W34 m c)
  rw [hV34 m c]
theorem hV36 (c : Dev nD) : GenP.V36 m (outs m) c = W36 m c := by
  show Function.update (GenP.V35 m (outs m) c) main_v279 (outs m 36 main_v279 c) = _
  rw [hV35 m c, outs_main_v279 m 36 c]
  rfl
theorem hV37 (c : Dev nD) : GenP.V37 m (outs m) c = W37 m c := by
  show StableHlo.after hostOps16 (GenP.V36 m (outs m) c) = StableHlo.after hostOps16 (W36 m c)
  rw [hV36 m c]
theorem hV38 (c : Dev nD) : GenP.V38 m (outs m) c = W38 m c := by
  show Function.update (Function.update (Function.update (GenP.V37 m (outs m) c) main_v300_0 (outs m 38 main_v300_0 c)) main_v300_1 (outs m 38 main_v300_1 c)) main_v300_2 (outs m 38 main_v300_2 c) = _
  rw [hV37 m c, outs_main_v300_0 m 38 c, outs_main_v300_1 m 38 c, outs_main_v300_2 m 38 c]
  rfl
theorem hV39 (c : Dev nD) : GenP.V39 m (outs m) c = W39 m c := by
  show StableHlo.after hostOps17 (GenP.V38 m (outs m) c) = StableHlo.after hostOps17 (W38 m c)
  rw [hV38 m c]
theorem hV40 (c : Dev nD) : GenP.V40 m (outs m) c = W40 m c := by
  show Function.update (GenP.V39 m (outs m) c) main_v309 (outs m 40 main_v309 c) = _
  rw [hV39 m c, outs_main_v309 m 40 c]
  rfl
theorem hV41 (c : Dev nD) : GenP.V41 m (outs m) c = W41 m c := by
  show StableHlo.after hostOps18 (GenP.V40 m (outs m) c) = StableHlo.after hostOps18 (W40 m c)
  rw [hV40 m c]
theorem hV42 (c : Dev nD) : GenP.V42 m (outs m) c = W42 m c := by
  show StableHlo.after hostOps18_1 (GenP.V41 m (outs m) c) = StableHlo.after hostOps18_1 (W41 m c)
  rw [hV41 m c]
theorem hV43 (c : Dev nD) : GenP.V43 m (outs m) c = W43 m c := by
  show StableHlo.after hostOps18_2 (GenP.V42 m (outs m) c) = StableHlo.after hostOps18_2 (W42 m c)
  rw [hV42 m c]

/-! ## The proof data family and the segments -/

/-- Every pipeline's proof data, each at its region's entry contents: a literal match on the pipeline. -/
def pdats : (p : Fin 18) → (c : Dev nD) → Dat τ (Elt F) Unit ℕ (UR sig nD τ) ℕ (cfgs p) c
  | ⟨0, _⟩ => fun c => dat0 (E1 m) c
  | ⟨1, _⟩ => fun c => dat1 (E3 m) c
  | ⟨2, _⟩ => fun c => dat2 (E5 m) c
  | ⟨3, _⟩ => fun c => dat3 (E7 m) c
  | ⟨4, _⟩ => fun c => dat4 (E9 m) c
  | ⟨5, _⟩ => fun c => dat5 (E11 m) c
  | ⟨6, _⟩ => fun c => dat6 (E15 m) c
  | ⟨7, _⟩ => fun c => dat7 (E17 m) c
  | ⟨8, _⟩ => fun c => dat8 (E19 m) c
  | ⟨9, _⟩ => fun c => dat9 (E21 m) c
  | ⟨10, _⟩ => fun c => dat10 (E23 m) c
  | ⟨11, _⟩ => fun c => dat11 (E25 m) c
  | ⟨12, _⟩ => fun c => dat12 (E29 m) c
  | ⟨13, _⟩ => fun c => dat13 (E31 m) c
  | ⟨14, _⟩ => fun c => dat14 (E33 m) c
  | ⟨15, _⟩ => fun c => dat15 (E35 m) c
  | ⟨16, _⟩ => fun c => dat16 (E37 m) c
  | ⟨17, _⟩ => fun c => dat17 (E39 m) c
  | ⟨n + 18, h⟩ => absurd h (by omega)

abbrev Lz : GSem nD τ sig → Finset Unit := fun _ => ∅
abbrev lvz : GSem nD τ sig → Unit → ℕ := fun _ _ => 0

end Cert.KernelIdeal.Body

end
-- ==== Proof.KIFrameSeg0.lean ====
/-
  The frame of the program: it runs to the end, faults nowhere, and leaves its thirteen argument arrays as launched.

  The program is 43 items in a row: stretches of host operations and 18 pipelined regions. Between two items a core
  holds every unscoped buffer at a known valuation. The valuations are defined one after the other from the launch
  memory: after a stretch, the stretch's fold over the valuation before it; after a region, the valuation before it
  with the region's output arrays set to what its write-backs leave (read off the region's proof data at the last
  point). A host operation writes a buffer of its own and a region writes its outputs only, so no item touches an
  argument array. Each region is one segment entered at the valuation before it and left at the one after it
  (Proof/LibClassARegion.lean), from its body obligation (Proof/KIRegion0.lean to KIRegion17.lean); the conditional frame over
  the segments (Proof/RegionsKernelIdeal.lean) then gives the claim.
-/
import proofs.«140713_j1864015806535_2_alg».proof.Proof.KIFrameBase

set_option maxRecDepth 65536

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
set_option backward.isDefEq.respectTransparency.types false in
/-- Region 0 as a segment: entered at the valuation before it, left at the one after it. -/
def reg0 : Pipeline.RegionSeg (pcfgs (F := F)) GenP.adm (pdats m) () defs₀ Variants.none Lz lvz 0 :=
  Cert.LibClassARegion.region (pcfgs (F := F)) GenP.adm (pdats m) defs₀ Variants.none Lz lvz 0
    launch0.win.to₀ launch0.win launch0.block_pos launch0.stage_whole launch0.arr_whole
    (fun c => body_obligation0 (E1 m) c) (fun _ _ => rfl) (fun _ _ => rfl)
    (fun c => (pdats m 0 c).share_full fun _ => rfl) (fun _ => rfl) (fun _ => rfl)
    (fun c => by unfold Pipeline.prefHeld; rw [show (Finset.univ : Finset (Fin 0)) = ∅ from rfl, BI.bigSep_empty])
    (GenP.V1 m) (GenP.V2 m (outs m))
    (fun c w => by rw [hV1 m c]; exact A_eq0 (E1 m) c w)
    (fun c w => by
      match w with
      | ⟨0, _⟩ =>
        show (dat0 (E1 m) c).arrAt 0 cfg0.N = GenP.V2 m (outs m) c main_arg0
        rw [GenP.V2_of m (outs m) c main_arg0 (by decide), hV1 m c]
        exact ((dat0 (E1 m) c).arrAt_in 0 rfl _).trans (A_eq0 (E1 m) c 0)
      | ⟨1, _⟩ =>
        show (dat0 (E1 m) c).arrAt 1 cfg0.N = GenP.V2 m (outs m) c main_v27
        rw [GenP.V2_of m (outs m) c main_v27 (by decide), hV1 m c]
        exact ((dat0 (E1 m) c).arrAt_in 1 rfl _).trans (A_eq0 (E1 m) c 1)
      | ⟨2, _⟩ =>
        show (dat0 (E1 m) c).arrAt 2 cfg0.N = GenP.V2 m (outs m) c main_v30
        rw [GenP.V2_of m (outs m) c main_v30 (by decide), hV1 m c]
        exact ((dat0 (E1 m) c).arrAt_in 2 rfl _).trans (A_eq0 (E1 m) c 2)
      | ⟨3, _⟩ =>
        show (dat0 (E1 m) c).arrAt 3 cfg0.N = GenP.V2 m (outs m) c main_v31
        rw [hV2 m c]; unfold W2
        simp only [Function.update_self]
        rfl
    )
    (fun c b hb => GenP.V2_of m (outs m) c b (by
      intro h
      simp only [List.mem_cons, List.mem_singleton, List.not_mem_nil, or_false] at h
      exact hb (h ▸ Finset.mem_image.mpr ⟨3, Finset.mem_univ _, rfl⟩)))

end Cert.KernelIdeal.Body

end
-- ==== Proof.KIFrameSeg1.lean ====
/-
  The frame of the program: it runs to the end, faults nowhere, and leaves its thirteen argument arrays as launched.

  The program is 43 items in a row: stretches of host operations and 18 pipelined regions. Between two items a core
  holds every unscoped buffer at a known valuation. The valuations are defined one after the other from the launch
  memory: after a stretch, the stretch's fold over the valuation before it; after a region, the valuation before it
  with the region's output arrays set to what its write-backs leave (read off the region's proof data at the last
  point). A host operation writes a buffer of its own and a region writes its outputs only, so no item touches an
  argument array. Each region is one segment entered at the valuation before it and left at the one after it
  (Proof/LibClassARegion.lean), from its body obligation (Proof/KIRegion0.lean to KIRegion17.lean); the conditional frame over
  the segments (Proof/RegionsKernelIdeal.lean) then gives the claim.
-/
import proofs.«140713_j1864015806535_2_alg».proof.Proof.KIFrameBase

set_option maxRecDepth 65536

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
set_option backward.isDefEq.respectTransparency.types false in
/-- Region 1 as a segment: entered at the valuation before it, left at the one after it. -/
def reg1 : Pipeline.RegionSeg (pcfgs (F := F)) GenP.adm (pdats m) () defs₀ Variants.none Lz lvz 1 :=
  Cert.LibClassARegion.region (pcfgs (F := F)) GenP.adm (pdats m) defs₀ Variants.none Lz lvz 1
    launch1.win.to₀ launch1.win launch1.block_pos launch1.stage_whole launch1.arr_whole
    (fun c => body_obligation1 (E3 m) c) (fun _ _ => rfl) (fun _ _ => rfl)
    (fun c => (pdats m 1 c).share_full fun _ => rfl) (fun _ => rfl) (fun _ => rfl)
    (fun c => by unfold Pipeline.prefHeld; rw [show (Finset.univ : Finset (Fin 0)) = ∅ from rfl, BI.bigSep_empty])
    (GenP.V3 m (outs m)) (GenP.V4 m (outs m))
    (fun c w => by rw [hV3 m c]; exact A_eq1 (E3 m) c w)
    (fun c w => by
      match w with
      | ⟨0, _⟩ =>
        show (dat1 (E3 m) c).arrAt 0 cfg1.N = GenP.V4 m (outs m) c main_v31
        rw [GenP.V4_of m (outs m) c main_v31 (by decide), hV3 m c]
        exact ((dat1 (E3 m) c).arrAt_in 0 rfl _).trans (A_eq1 (E3 m) c 0)
      | ⟨1, _⟩ =>
        show (dat1 (E3 m) c).arrAt 1 cfg1.N = GenP.V4 m (outs m) c main_v44
        rw [GenP.V4_of m (outs m) c main_v44 (by decide), hV3 m c]
        exact ((dat1 (E3 m) c).arrAt_in 1 rfl _).trans (A_eq1 (E3 m) c 1)
      | ⟨2, _⟩ =>
        show (dat1 (E3 m) c).arrAt 2 cfg1.N = GenP.V4 m (outs m) c main_v51
        rw [GenP.V4_of m (outs m) c main_v51 (by decide), hV3 m c]
        exact ((dat1 (E3 m) c).arrAt_in 2 rfl _).trans (A_eq1 (E3 m) c 2)
      | ⟨3, _⟩ =>
        show (dat1 (E3 m) c).arrAt 3 cfg1.N = GenP.V4 m (outs m) c main_v52_0
        rw [hV4 m c]; unfold W4
        simp only [Function.update_self, Function.update_of_ne (StableHlo.devRef_ne_of_ne (by decide : main_v52_0 ≠ main_v52_2) : (Proc.devRef .tc main_v52_0 : DevRef τ sig) ≠ Proc.devRef .tc main_v52_2), Function.update_of_ne (StableHlo.devRef_ne_of_ne (by decide : main_v52_0 ≠ main_v52_1) : (Proc.devRef .tc main_v52_0 : DevRef τ sig) ≠ Proc.devRef .tc main_v52_1)]
        rfl
      | ⟨4, _⟩ =>
        show (dat1 (E3 m) c).arrAt 4 cfg1.N = GenP.V4 m (outs m) c main_v52_1
        rw [hV4 m c]; unfold W4
        simp only [Function.update_self, Function.update_of_ne (StableHlo.devRef_ne_of_ne (by decide : main_v52_1 ≠ main_v52_2) : (Proc.devRef .tc main_v52_1 : DevRef τ sig) ≠ Proc.devRef .tc main_v52_2)]
        rfl
      | ⟨5, _⟩ =>
        show (dat1 (E3 m) c).arrAt 5 cfg1.N = GenP.V4 m (outs m) c main_v52_2
        rw [hV4 m c]; unfold W4
        simp only [Function.update_self]
        rfl
    )
    (fun c b hb => GenP.V4_of m (outs m) c b (by
      intro h
      simp only [List.mem_cons, List.mem_singleton, List.not_mem_nil, or_false] at h
      rcases h with h | h | h
      · exact hb (h ▸ Finset.mem_image.mpr ⟨3, Finset.mem_univ _, rfl⟩)
      · exact hb (h ▸ Finset.mem_image.mpr ⟨4, Finset.mem_univ _, rfl⟩)
      · exact hb (h ▸ Finset.mem_image.mpr ⟨5, Finset.mem_univ _, rfl⟩)))

end Cert.KernelIdeal.Body

end
-- ==== Proof.KIFrameSeg2.lean ====
/-
  The frame of the program: it runs to the end, faults nowhere, and leaves its thirteen argument arrays as launched.

  The program is 43 items in a row: stretches of host operations and 18 pipelined regions. Between two items a core
  holds every unscoped buffer at a known valuation. The valuations are defined one after the other from the launch
  memory: after a stretch, the stretch's fold over the valuation before it; after a region, the valuation before it
  with the region's output arrays set to what its write-backs leave (read off the region's proof data at the last
  point). A host operation writes a buffer of its own and a region writes its outputs only, so no item touches an
  argument array. Each region is one segment entered at the valuation before it and left at the one after it
  (Proof/LibClassARegion.lean), from its body obligation (Proof/KIRegion0.lean to KIRegion17.lean); the conditional frame over
  the segments (Proof/RegionsKernelIdeal.lean) then gives the claim.
-/
import proofs.«140713_j1864015806535_2_alg».proof.Proof.KIFrameBase

set_option maxRecDepth 65536

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
set_option backward.isDefEq.respectTransparency.types false in
/-- Region 2 as a segment: entered at the valuation before it, left at the one after it. -/
def reg2 : Pipeline.RegionSeg (pcfgs (F := F)) GenP.adm (pdats m) () defs₀ Variants.none Lz lvz 2 :=
  Cert.LibClassARegion.region (pcfgs (F := F)) GenP.adm (pdats m) defs₀ Variants.none Lz lvz 2
    launch2.win.to₀ launch2.win launch2.block_pos launch2.stage_whole launch2.arr_whole
    (fun c => body_obligation2 (E5 m) c) (fun _ _ => rfl) (fun _ _ => rfl)
    (fun c => (pdats m 2 c).share_full fun _ => rfl) (fun _ => rfl) (fun _ => rfl)
    (fun c => by unfold Pipeline.prefHeld; rw [show (Finset.univ : Finset (Fin 0)) = ∅ from rfl, BI.bigSep_empty])
    (GenP.V5 m (outs m)) (GenP.V6 m (outs m))
    (fun c w => by rw [hV5 m c]; exact A_eq2 (E5 m) c w)
    (fun c w => by
      match w with
      | ⟨0, _⟩ =>
        show (dat2 (E5 m) c).arrAt 0 cfg2.N = GenP.V6 m (outs m) c main_v52_0
        rw [GenP.V6_of m (outs m) c main_v52_0 (by decide), hV5 m c]
        exact ((dat2 (E5 m) c).arrAt_in 0 rfl _).trans (A_eq2 (E5 m) c 0)
      | ⟨1, _⟩ =>
        show (dat2 (E5 m) c).arrAt 1 cfg2.N = GenP.V6 m (outs m) c main_v54
        rw [GenP.V6_of m (outs m) c main_v54 (by decide), hV5 m c]
        exact ((dat2 (E5 m) c).arrAt_in 1 rfl _).trans (A_eq2 (E5 m) c 1)
      | ⟨2, _⟩ =>
        show (dat2 (E5 m) c).arrAt 2 cfg2.N = GenP.V6 m (outs m) c main_v58
        rw [GenP.V6_of m (outs m) c main_v58 (by decide), hV5 m c]
        exact ((dat2 (E5 m) c).arrAt_in 2 rfl _).trans (A_eq2 (E5 m) c 2)
      | ⟨3, _⟩ =>
        show (dat2 (E5 m) c).arrAt 3 cfg2.N = GenP.V6 m (outs m) c main_v59
        rw [GenP.V6_of m (outs m) c main_v59 (by decide), hV5 m c]
        exact ((dat2 (E5 m) c).arrAt_in 3 rfl _).trans (A_eq2 (E5 m) c 3)
      | ⟨4, _⟩ =>
        show (dat2 (E5 m) c).arrAt 4 cfg2.N = GenP.V6 m (outs m) c main_v60
        rw [GenP.V6_of m (outs m) c main_v60 (by decide), hV5 m c]
        exact ((dat2 (E5 m) c).arrAt_in 4 rfl _).trans (A_eq2 (E5 m) c 4)
      | ⟨5, _⟩ =>
        show (dat2 (E5 m) c).arrAt 5 cfg2.N = GenP.V6 m (outs m) c main_v61
        rw [hV6 m c]; unfold W6
        simp only [Function.update_self]
        rfl
    )
    (fun c b hb => GenP.V6_of m (outs m) c b (by
      intro h
      simp only [List.mem_cons, List.mem_singleton, List.not_mem_nil, or_false] at h
      exact hb (h ▸ Finset.mem_image.mpr ⟨5, Finset.mem_univ _, rfl⟩)))

end Cert.KernelIdeal.Body

end
-- ==== Proof.KIFrameSeg3.lean ====
/-
  The frame of the program: it runs to the end, faults nowhere, and leaves its thirteen argument arrays as launched.

  The program is 43 items in a row: stretches of host operations and 18 pipelined regions. Between two items a core
  holds every unscoped buffer at a known valuation. The valuations are defined one after the other from the launch
  memory: after a stretch, the stretch's fold over the valuation before it; after a region, the valuation before it
  with the region's output arrays set to what its write-backs leave (read off the region's proof data at the last
  point). A host operation writes a buffer of its own and a region writes its outputs only, so no item touches an
  argument array. Each region is one segment entered at the valuation before it and left at the one after it
  (Proof/LibClassARegion.lean), from its body obligation (Proof/KIRegion0.lean to KIRegion17.lean); the conditional frame over
  the segments (Proof/RegionsKernelIdeal.lean) then gives the claim.
-/
import proofs.«140713_j1864015806535_2_alg».proof.Proof.KIFrameBase

set_option maxRecDepth 65536

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
set_option backward.isDefEq.respectTransparency.types false in
/-- Region 3 as a segment: entered at the valuation before it, left at the one after it. -/
def reg3 : Pipeline.RegionSeg (pcfgs (F := F)) GenP.adm (pdats m) () defs₀ Variants.none Lz lvz 3 :=
  Cert.LibClassARegion.region (pcfgs (F := F)) GenP.adm (pdats m) defs₀ Variants.none Lz lvz 3
    launch3.win.to₀ launch3.win launch3.block_pos launch3.stage_whole launch3.arr_whole
    (fun c => body_obligation3 (E7 m) c) (fun _ _ => rfl) (fun _ _ => rfl)
    (fun c => (pdats m 3 c).share_full fun _ => rfl) (fun _ => rfl) (fun _ => rfl)
    (fun c => by unfold Pipeline.prefHeld; rw [show (Finset.univ : Finset (Fin 0)) = ∅ from rfl, BI.bigSep_empty])
    (GenP.V7 m (outs m)) (GenP.V8 m (outs m))
    (fun c w => by rw [hV7 m c]; exact A_eq3 (E7 m) c w)
    (fun c w => by
      match w with
      | ⟨0, _⟩ =>
        show (dat3 (E7 m) c).arrAt 0 cfg3.N = GenP.V8 m (outs m) c main_v61
        rw [GenP.V8_of m (outs m) c main_v61 (by decide), hV7 m c]
        exact ((dat3 (E7 m) c).arrAt_in 0 rfl _).trans (A_eq3 (E7 m) c 0)
      | ⟨1, _⟩ =>
        show (dat3 (E7 m) c).arrAt 1 cfg3.N = GenP.V8 m (outs m) c main_v63
        rw [GenP.V8_of m (outs m) c main_v63 (by decide), hV7 m c]
        exact ((dat3 (E7 m) c).arrAt_in 1 rfl _).trans (A_eq3 (E7 m) c 1)
      | ⟨2, _⟩ =>
        show (dat3 (E7 m) c).arrAt 2 cfg3.N = GenP.V8 m (outs m) c main_v66
        rw [GenP.V8_of m (outs m) c main_v66 (by decide), hV7 m c]
        exact ((dat3 (E7 m) c).arrAt_in 2 rfl _).trans (A_eq3 (E7 m) c 2)
      | ⟨3, _⟩ =>
        show (dat3 (E7 m) c).arrAt 3 cfg3.N = GenP.V8 m (outs m) c main_v67
        rw [hV8 m c]; unfold W8
        simp only [Function.update_self]
        rfl
    )
    (fun c b hb => GenP.V8_of m (outs m) c b (by
      intro h
      simp only [List.mem_cons, List.mem_singleton, List.not_mem_nil, or_false] at h
      exact hb (h ▸ Finset.mem_image.mpr ⟨3, Finset.mem_univ _, rfl⟩)))

end Cert.KernelIdeal.Body

end
-- ==== Proof.KIFrameSeg4.lean ====
/-
  The frame of the program: it runs to the end, faults nowhere, and leaves its thirteen argument arrays as launched.

  The program is 43 items in a row: stretches of host operations and 18 pipelined regions. Between two items a core
  holds every unscoped buffer at a known valuation. The valuations are defined one after the other from the launch
  memory: after a stretch, the stretch's fold over the valuation before it; after a region, the valuation before it
  with the region's output arrays set to what its write-backs leave (read off the region's proof data at the last
  point). A host operation writes a buffer of its own and a region writes its outputs only, so no item touches an
  argument array. Each region is one segment entered at the valuation before it and left at the one after it
  (Proof/LibClassARegion.lean), from its body obligation (Proof/KIRegion0.lean to KIRegion17.lean); the conditional frame over
  the segments (Proof/RegionsKernelIdeal.lean) then gives the claim.
-/
import proofs.«140713_j1864015806535_2_alg».proof.Proof.KIFrameBase

set_option maxRecDepth 65536

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
set_option backward.isDefEq.respectTransparency.types false in
/-- Region 4 as a segment: entered at the valuation before it, left at the one after it. -/
def reg4 : Pipeline.RegionSeg (pcfgs (F := F)) GenP.adm (pdats m) () defs₀ Variants.none Lz lvz 4 :=
  Cert.LibClassARegion.region (pcfgs (F := F)) GenP.adm (pdats m) defs₀ Variants.none Lz lvz 4
    launch4.win.to₀ launch4.win launch4.block_pos launch4.stage_whole launch4.arr_whole
    (fun c => body_obligation4 (E9 m) c) (fun _ _ => rfl) (fun _ _ => rfl)
    (fun c => (pdats m 4 c).share_full fun _ => rfl) (fun _ => rfl) (fun _ => rfl)
    (fun c => by unfold Pipeline.prefHeld; rw [show (Finset.univ : Finset (Fin 0)) = ∅ from rfl, BI.bigSep_empty])
    (GenP.V9 m (outs m)) (GenP.V10 m (outs m))
    (fun c w => by rw [hV9 m c]; exact A_eq4 (E9 m) c w)
    (fun c w => by
      match w with
      | ⟨0, _⟩ =>
        show (dat4 (E9 m) c).arrAt 0 cfg4.N = GenP.V10 m (outs m) c main_v67
        rw [GenP.V10_of m (outs m) c main_v67 (by decide), hV9 m c]
        exact ((dat4 (E9 m) c).arrAt_in 0 rfl _).trans (A_eq4 (E9 m) c 0)
      | ⟨1, _⟩ =>
        show (dat4 (E9 m) c).arrAt 1 cfg4.N = GenP.V10 m (outs m) c main_v80
        rw [GenP.V10_of m (outs m) c main_v80 (by decide), hV9 m c]
        exact ((dat4 (E9 m) c).arrAt_in 1 rfl _).trans (A_eq4 (E9 m) c 1)
      | ⟨2, _⟩ =>
        show (dat4 (E9 m) c).arrAt 2 cfg4.N = GenP.V10 m (outs m) c main_v87
        rw [GenP.V10_of m (outs m) c main_v87 (by decide), hV9 m c]
        exact ((dat4 (E9 m) c).arrAt_in 2 rfl _).trans (A_eq4 (E9 m) c 2)
      | ⟨3, _⟩ =>
        show (dat4 (E9 m) c).arrAt 3 cfg4.N = GenP.V10 m (outs m) c main_v88_0
        rw [hV10 m c]; unfold W10
        simp only [Function.update_self, Function.update_of_ne (StableHlo.devRef_ne_of_ne (by decide : main_v88_0 ≠ main_v88_2) : (Proc.devRef .tc main_v88_0 : DevRef τ sig) ≠ Proc.devRef .tc main_v88_2), Function.update_of_ne (StableHlo.devRef_ne_of_ne (by decide : main_v88_0 ≠ main_v88_1) : (Proc.devRef .tc main_v88_0 : DevRef τ sig) ≠ Proc.devRef .tc main_v88_1)]
        rfl
      | ⟨4, _⟩ =>
        show (dat4 (E9 m) c).arrAt 4 cfg4.N = GenP.V10 m (outs m) c main_v88_1
        rw [hV10 m c]; unfold W10
        simp only [Function.update_self, Function.update_of_ne (StableHlo.devRef_ne_of_ne (by decide : main_v88_1 ≠ main_v88_2) : (Proc.devRef .tc main_v88_1 : DevRef τ sig) ≠ Proc.devRef .tc main_v88_2)]
        rfl
      | ⟨5, _⟩ =>
        show (dat4 (E9 m) c).arrAt 5 cfg4.N = GenP.V10 m (outs m) c main_v88_2
        rw [hV10 m c]; unfold W10
        simp only [Function.update_self]
        rfl
    )
    (fun c b hb => GenP.V10_of m (outs m) c b (by
      intro h
      simp only [List.mem_cons, List.mem_singleton, List.not_mem_nil, or_false] at h
      rcases h with h | h | h
      · exact hb (h ▸ Finset.mem_image.mpr ⟨3, Finset.mem_univ _, rfl⟩)
      · exact hb (h ▸ Finset.mem_image.mpr ⟨4, Finset.mem_univ _, rfl⟩)
      · exact hb (h ▸ Finset.mem_image.mpr ⟨5, Finset.mem_univ _, rfl⟩)))

end Cert.KernelIdeal.Body

end
-- ==== Proof.KIFrameSeg5.lean ====
/-
  The frame of the program: it runs to the end, faults nowhere, and leaves its thirteen argument arrays as launched.

  The program is 43 items in a row: stretches of host operations and 18 pipelined regions. Between two items a core
  holds every unscoped buffer at a known valuation. The valuations are defined one after the other from the launch
  memory: after a stretch, the stretch's fold over the valuation before it; after a region, the valuation before it
  with the region's output arrays set to what its write-backs leave (read off the region's proof data at the last
  point). A host operation writes a buffer of its own and a region writes its outputs only, so no item touches an
  argument array. Each region is one segment entered at the valuation before it and left at the one after it
  (Proof/LibClassARegion.lean), from its body obligation (Proof/KIRegion0.lean to KIRegion17.lean); the conditional frame over
  the segments (Proof/RegionsKernelIdeal.lean) then gives the claim.
-/
import proofs.«140713_j1864015806535_2_alg».proof.Proof.KIFrameBase

set_option maxRecDepth 65536

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
set_option backward.isDefEq.respectTransparency.types false in
/-- Region 5 as a segment: entered at the valuation before it, left at the one after it. -/
def reg5 : Pipeline.RegionSeg (pcfgs (F := F)) GenP.adm (pdats m) () defs₀ Variants.none Lz lvz 5 :=
  Cert.LibClassARegion.region (pcfgs (F := F)) GenP.adm (pdats m) defs₀ Variants.none Lz lvz 5
    launch5.win.to₀ launch5.win launch5.block_pos launch5.stage_whole launch5.arr_whole
    (fun c => body_obligation5 (E11 m) c) (fun _ _ => rfl) (fun _ _ => rfl)
    (fun c => (pdats m 5 c).share_full fun _ => rfl) (fun _ => rfl) (fun _ => rfl)
    (fun c => by unfold Pipeline.prefHeld; rw [show (Finset.univ : Finset (Fin 0)) = ∅ from rfl, BI.bigSep_empty])
    (GenP.V11 m (outs m)) (GenP.V12 m (outs m))
    (fun c w => by rw [hV11 m c]; exact A_eq5 (E11 m) c w)
    (fun c w => by
      match w with
      | ⟨0, _⟩ =>
        show (dat5 (E11 m) c).arrAt 0 cfg5.N = GenP.V12 m (outs m) c main_v88_0
        rw [GenP.V12_of m (outs m) c main_v88_0 (by decide), hV11 m c]
        exact ((dat5 (E11 m) c).arrAt_in 0 rfl _).trans (A_eq5 (E11 m) c 0)
      | ⟨1, _⟩ =>
        show (dat5 (E11 m) c).arrAt 1 cfg5.N = GenP.V12 m (outs m) c main_v90
        rw [GenP.V12_of m (outs m) c main_v90 (by decide), hV11 m c]
        exact ((dat5 (E11 m) c).arrAt_in 1 rfl _).trans (A_eq5 (E11 m) c 1)
      | ⟨2, _⟩ =>
        show (dat5 (E11 m) c).arrAt 2 cfg5.N = GenP.V12 m (outs m) c main_v94
        rw [GenP.V12_of m (outs m) c main_v94 (by decide), hV11 m c]
        exact ((dat5 (E11 m) c).arrAt_in 2 rfl _).trans (A_eq5 (E11 m) c 2)
      | ⟨3, _⟩ =>
        show (dat5 (E11 m) c).arrAt 3 cfg5.N = GenP.V12 m (outs m) c main_v95
        rw [GenP.V12_of m (outs m) c main_v95 (by decide), hV11 m c]
        exact ((dat5 (E11 m) c).arrAt_in 3 rfl _).trans (A_eq5 (E11 m) c 3)
      | ⟨4, _⟩ =>
        show (dat5 (E11 m) c).arrAt 4 cfg5.N = GenP.V12 m (outs m) c main_v96
        rw [GenP.V12_of m (outs m) c main_v96 (by decide), hV11 m c]
        exact ((dat5 (E11 m) c).arrAt_in 4 rfl _).trans (A_eq5 (E11 m) c 4)
      | ⟨5, _⟩ =>
        show (dat5 (E11 m) c).arrAt 5 cfg5.N = GenP.V12 m (outs m) c main_v97
        rw [hV12 m c]; unfold W12
        simp only [Function.update_self]
        rfl
    )
    (fun c b hb => GenP.V12_of m (outs m) c b (by
      intro h
      simp only [List.mem_cons, List.mem_singleton, List.not_mem_nil, or_false] at h
      exact hb (h ▸ Finset.mem_image.mpr ⟨5, Finset.mem_univ _, rfl⟩)))

end Cert.KernelIdeal.Body

end
-- ==== Proof.KIFrameSeg6.lean ====
/-
  The frame of the program: it runs to the end, faults nowhere, and leaves its thirteen argument arrays as launched.

  The program is 43 items in a row: stretches of host operations and 18 pipelined regions. Between two items a core
  holds every unscoped buffer at a known valuation. The valuations are defined one after the other from the launch
  memory: after a stretch, the stretch's fold over the valuation before it; after a region, the valuation before it
  with the region's output arrays set to what its write-backs leave (read off the region's proof data at the last
  point). A host operation writes a buffer of its own and a region writes its outputs only, so no item touches an
  argument array. Each region is one segment entered at the valuation before it and left at the one after it
  (Proof/LibClassARegion.lean), from its body obligation (Proof/KIRegion0.lean to KIRegion17.lean); the conditional frame over
  the segments (Proof/RegionsKernelIdeal.lean) then gives the claim.
-/
import proofs.«140713_j1864015806535_2_alg».proof.Proof.KIFrameBase

set_option maxRecDepth 65536

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
set_option backward.isDefEq.respectTransparency.types false in
/-- Region 6 as a segment: entered at the valuation before it, left at the one after it. -/
def reg6 : Pipeline.RegionSeg (pcfgs (F := F)) GenP.adm (pdats m) () defs₀ Variants.none Lz lvz 6 :=
  Cert.LibClassARegion.region (pcfgs (F := F)) GenP.adm (pdats m) defs₀ Variants.none Lz lvz 6
    launch6.win.to₀ launch6.win launch6.block_pos launch6.stage_whole launch6.arr_whole
    (fun c => body_obligation6 (E15 m) c) (fun _ _ => rfl) (fun _ _ => rfl)
    (fun c => (pdats m 6 c).share_full fun _ => rfl) (fun _ => rfl) (fun _ => rfl)
    (fun c => by unfold Pipeline.prefHeld; rw [show (Finset.univ : Finset (Fin 0)) = ∅ from rfl, BI.bigSep_empty])
    (GenP.V15 m (outs m)) (GenP.V16 m (outs m))
    (fun c w => by rw [hV15 m c]; exact A_eq6 (E15 m) c w)
    (fun c w => by
      match w with
      | ⟨0, _⟩ =>
        show (dat6 (E15 m) c).arrAt 0 cfg6.N = GenP.V16 m (outs m) c main_arg0
        rw [GenP.V16_of m (outs m) c main_arg0 (by decide), hV15 m c]
        exact ((dat6 (E15 m) c).arrAt_in 0 rfl _).trans (A_eq6 (E15 m) c 0)
      | ⟨1, _⟩ =>
        show (dat6 (E15 m) c).arrAt 1 cfg6.N = GenP.V16 m (outs m) c main_v133
        rw [GenP.V16_of m (outs m) c main_v133 (by decide), hV15 m c]
        exact ((dat6 (E15 m) c).arrAt_in 1 rfl _).trans (A_eq6 (E15 m) c 1)
      | ⟨2, _⟩ =>
        show (dat6 (E15 m) c).arrAt 2 cfg6.N = GenP.V16 m (outs m) c main_v136
        rw [GenP.V16_of m (outs m) c main_v136 (by decide), hV15 m c]
        exact ((dat6 (E15 m) c).arrAt_in 2 rfl _).trans (A_eq6 (E15 m) c 2)
      | ⟨3, _⟩ =>
        show (dat6 (E15 m) c).arrAt 3 cfg6.N = GenP.V16 m (outs m) c main_v137
        rw [hV16 m c]; unfold W16
        simp only [Function.update_self]
        rfl
    )
    (fun c b hb => GenP.V16_of m (outs m) c b (by
      intro h
      simp only [List.mem_cons, List.mem_singleton, List.not_mem_nil, or_false] at h
      exact hb (h ▸ Finset.mem_image.mpr ⟨3, Finset.mem_univ _, rfl⟩)))

end Cert.KernelIdeal.Body

end
-- ==== Proof.KIFrameSeg7.lean ====
/-
  The frame of the program: it runs to the end, faults nowhere, and leaves its thirteen argument arrays as launched.

  The program is 43 items in a row: stretches of host operations and 18 pipelined regions. Between two items a core
  holds every unscoped buffer at a known valuation. The valuations are defined one after the other from the launch
  memory: after a stretch, the stretch's fold over the valuation before it; after a region, the valuation before it
  with the region's output arrays set to what its write-backs leave (read off the region's proof data at the last
  point). A host operation writes a buffer of its own and a region writes its outputs only, so no item touches an
  argument array. Each region is one segment entered at the valuation before it and left at the one after it
  (Proof/LibClassARegion.lean), from its body obligation (Proof/KIRegion0.lean to KIRegion17.lean); the conditional frame over
  the segments (Proof/RegionsKernelIdeal.lean) then gives the claim.
-/
import proofs.«140713_j1864015806535_2_alg».proof.Proof.KIFrameBase

set_option maxRecDepth 65536

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
set_option backward.isDefEq.respectTransparency.types false in
/-- Region 7 as a segment: entered at the valuation before it, left at the one after it. -/
def reg7 : Pipeline.RegionSeg (pcfgs (F := F)) GenP.adm (pdats m) () defs₀ Variants.none Lz lvz 7 :=
  Cert.LibClassARegion.region (pcfgs (F := F)) GenP.adm (pdats m) defs₀ Variants.none Lz lvz 7
    launch7.win.to₀ launch7.win launch7.block_pos launch7.stage_whole launch7.arr_whole
    (fun c => body_obligation7 (E17 m) c) (fun _ _ => rfl) (fun _ _ => rfl)
    (fun c => (pdats m 7 c).share_full fun _ => rfl) (fun _ => rfl) (fun _ => rfl)
    (fun c => by unfold Pipeline.prefHeld; rw [show (Finset.univ : Finset (Fin 0)) = ∅ from rfl, BI.bigSep_empty])
    (GenP.V17 m (outs m)) (GenP.V18 m (outs m))
    (fun c w => by rw [hV17 m c]; exact A_eq7 (E17 m) c w)
    (fun c w => by
      match w with
      | ⟨0, _⟩ =>
        show (dat7 (E17 m) c).arrAt 0 cfg7.N = GenP.V18 m (outs m) c main_v137
        rw [GenP.V18_of m (outs m) c main_v137 (by decide), hV17 m c]
        exact ((dat7 (E17 m) c).arrAt_in 0 rfl _).trans (A_eq7 (E17 m) c 0)
      | ⟨1, _⟩ =>
        show (dat7 (E17 m) c).arrAt 1 cfg7.N = GenP.V18 m (outs m) c main_v150
        rw [GenP.V18_of m (outs m) c main_v150 (by decide), hV17 m c]
        exact ((dat7 (E17 m) c).arrAt_in 1 rfl _).trans (A_eq7 (E17 m) c 1)
      | ⟨2, _⟩ =>
        show (dat7 (E17 m) c).arrAt 2 cfg7.N = GenP.V18 m (outs m) c main_v157
        rw [GenP.V18_of m (outs m) c main_v157 (by decide), hV17 m c]
        exact ((dat7 (E17 m) c).arrAt_in 2 rfl _).trans (A_eq7 (E17 m) c 2)
      | ⟨3, _⟩ =>
        show (dat7 (E17 m) c).arrAt 3 cfg7.N = GenP.V18 m (outs m) c main_v158_0
        rw [hV18 m c]; unfold W18
        simp only [Function.update_self, Function.update_of_ne (StableHlo.devRef_ne_of_ne (by decide : main_v158_0 ≠ main_v158_2) : (Proc.devRef .tc main_v158_0 : DevRef τ sig) ≠ Proc.devRef .tc main_v158_2), Function.update_of_ne (StableHlo.devRef_ne_of_ne (by decide : main_v158_0 ≠ main_v158_1) : (Proc.devRef .tc main_v158_0 : DevRef τ sig) ≠ Proc.devRef .tc main_v158_1)]
        rfl
      | ⟨4, _⟩ =>
        show (dat7 (E17 m) c).arrAt 4 cfg7.N = GenP.V18 m (outs m) c main_v158_1
        rw [hV18 m c]; unfold W18
        simp only [Function.update_self, Function.update_of_ne (StableHlo.devRef_ne_of_ne (by decide : main_v158_1 ≠ main_v158_2) : (Proc.devRef .tc main_v158_1 : DevRef τ sig) ≠ Proc.devRef .tc main_v158_2)]
        rfl
      | ⟨5, _⟩ =>
        show (dat7 (E17 m) c).arrAt 5 cfg7.N = GenP.V18 m (outs m) c main_v158_2
        rw [hV18 m c]; unfold W18
        simp only [Function.update_self]
        rfl
    )
    (fun c b hb => GenP.V18_of m (outs m) c b (by
      intro h
      simp only [List.mem_cons, List.mem_singleton, List.not_mem_nil, or_false] at h
      rcases h with h | h | h
      · exact hb (h ▸ Finset.mem_image.mpr ⟨3, Finset.mem_univ _, rfl⟩)
      · exact hb (h ▸ Finset.mem_image.mpr ⟨4, Finset.mem_univ _, rfl⟩)
      · exact hb (h ▸ Finset.mem_image.mpr ⟨5, Finset.mem_univ _, rfl⟩)))

end Cert.KernelIdeal.Body

end
-- ==== Proof.KIFrameSeg8.lean ====
/-
  The frame of the program: it runs to the end, faults nowhere, and leaves its thirteen argument arrays as launched.

  The program is 43 items in a row: stretches of host operations and 18 pipelined regions. Between two items a core
  holds every unscoped buffer at a known valuation. The valuations are defined one after the other from the launch
  memory: after a stretch, the stretch's fold over the valuation before it; after a region, the valuation before it
  with the region's output arrays set to what its write-backs leave (read off the region's proof data at the last
  point). A host operation writes a buffer of its own and a region writes its outputs only, so no item touches an
  argument array. Each region is one segment entered at the valuation before it and left at the one after it
  (Proof/LibClassARegion.lean), from its body obligation (Proof/KIRegion0.lean to KIRegion17.lean); the conditional frame over
  the segments (Proof/RegionsKernelIdeal.lean) then gives the claim.
-/
import proofs.«140713_j1864015806535_2_alg».proof.Proof.KIFrameBase

set_option maxRecDepth 65536

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
set_option backward.isDefEq.respectTransparency.types false in
/-- Region 8 as a segment: entered at the valuation before it, left at the one after it. -/
def reg8 : Pipeline.RegionSeg (pcfgs (F := F)) GenP.adm (pdats m) () defs₀ Variants.none Lz lvz 8 :=
  Cert.LibClassARegion.region (pcfgs (F := F)) GenP.adm (pdats m) defs₀ Variants.none Lz lvz 8
    launch8.win.to₀ launch8.win launch8.block_pos launch8.stage_whole launch8.arr_whole
    (fun c => body_obligation8 (E19 m) c) (fun _ _ => rfl) (fun _ _ => rfl)
    (fun c => (pdats m 8 c).share_full fun _ => rfl) (fun _ => rfl) (fun _ => rfl)
    (fun c => by unfold Pipeline.prefHeld; rw [show (Finset.univ : Finset (Fin 0)) = ∅ from rfl, BI.bigSep_empty])
    (GenP.V19 m (outs m)) (GenP.V20 m (outs m))
    (fun c w => by rw [hV19 m c]; exact A_eq8 (E19 m) c w)
    (fun c w => by
      match w with
      | ⟨0, _⟩ =>
        show (dat8 (E19 m) c).arrAt 0 cfg8.N = GenP.V20 m (outs m) c main_v158_0
        rw [GenP.V20_of m (outs m) c main_v158_0 (by decide), hV19 m c]
        exact ((dat8 (E19 m) c).arrAt_in 0 rfl _).trans (A_eq8 (E19 m) c 0)
      | ⟨1, _⟩ =>
        show (dat8 (E19 m) c).arrAt 1 cfg8.N = GenP.V20 m (outs m) c main_v160
        rw [GenP.V20_of m (outs m) c main_v160 (by decide), hV19 m c]
        exact ((dat8 (E19 m) c).arrAt_in 1 rfl _).trans (A_eq8 (E19 m) c 1)
      | ⟨2, _⟩ =>
        show (dat8 (E19 m) c).arrAt 2 cfg8.N = GenP.V20 m (outs m) c main_v164
        rw [GenP.V20_of m (outs m) c main_v164 (by decide), hV19 m c]
        exact ((dat8 (E19 m) c).arrAt_in 2 rfl _).trans (A_eq8 (E19 m) c 2)
      | ⟨3, _⟩ =>
        show (dat8 (E19 m) c).arrAt 3 cfg8.N = GenP.V20 m (outs m) c main_v165
        rw [GenP.V20_of m (outs m) c main_v165 (by decide), hV19 m c]
        exact ((dat8 (E19 m) c).arrAt_in 3 rfl _).trans (A_eq8 (E19 m) c 3)
      | ⟨4, _⟩ =>
        show (dat8 (E19 m) c).arrAt 4 cfg8.N = GenP.V20 m (outs m) c main_v166
        rw [GenP.V20_of m (outs m) c main_v166 (by decide), hV19 m c]
        exact ((dat8 (E19 m) c).arrAt_in 4 rfl _).trans (A_eq8 (E19 m) c 4)
      | ⟨5, _⟩ =>
        show (dat8 (E19 m) c).arrAt 5 cfg8.N = GenP.V20 m (outs m) c main_v167
        rw [hV20 m c]; unfold W20
        simp only [Function.update_self]
        rfl
    )
    (fun c b hb => GenP.V20_of m (outs m) c b (by
      intro h
      simp only [List.mem_cons, List.mem_singleton, List.not_mem_nil, or_false] at h
      exact hb (h ▸ Finset.mem_image.mpr ⟨5, Finset.mem_univ _, rfl⟩)))

end Cert.KernelIdeal.Body

end
-- ==== Proof.KIFrameSeg9.lean ====
/-
  The frame of the program: it runs to the end, faults nowhere, and leaves its thirteen argument arrays as launched.

  The program is 43 items in a row: stretches of host operations and 18 pipelined regions. Between two items a core
  holds every unscoped buffer at a known valuation. The valuations are defined one after the other from the launch
  memory: after a stretch, the stretch's fold over the valuation before it; after a region, the valuation before it
  with the region's output arrays set to what its write-backs leave (read off the region's proof data at the last
  point). A host operation writes a buffer of its own and a region writes its outputs only, so no item touches an
  argument array. Each region is one segment entered at the valuation before it and left at the one after it
  (Proof/LibClassARegion.lean), from its body obligation (Proof/KIRegion0.lean to KIRegion17.lean); the conditional frame over
  the segments (Proof/RegionsKernelIdeal.lean) then gives the claim.
-/
import proofs.«140713_j1864015806535_2_alg».proof.Proof.KIFrameBase

set_option maxRecDepth 65536

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
set_option backward.isDefEq.respectTransparency.types false in
/-- Region 9 as a segment: entered at the valuation before it, left at the one after it. -/
def reg9 : Pipeline.RegionSeg (pcfgs (F := F)) GenP.adm (pdats m) () defs₀ Variants.none Lz lvz 9 :=
  Cert.LibClassARegion.region (pcfgs (F := F)) GenP.adm (pdats m) defs₀ Variants.none Lz lvz 9
    launch9.win.to₀ launch9.win launch9.block_pos launch9.stage_whole launch9.arr_whole
    (fun c => body_obligation9 (E21 m) c) (fun _ _ => rfl) (fun _ _ => rfl)
    (fun c => (pdats m 9 c).share_full fun _ => rfl) (fun _ => rfl) (fun _ => rfl)
    (fun c => by unfold Pipeline.prefHeld; rw [show (Finset.univ : Finset (Fin 0)) = ∅ from rfl, BI.bigSep_empty])
    (GenP.V21 m (outs m)) (GenP.V22 m (outs m))
    (fun c w => by rw [hV21 m c]; exact A_eq9 (E21 m) c w)
    (fun c w => by
      match w with
      | ⟨0, _⟩ =>
        show (dat9 (E21 m) c).arrAt 0 cfg9.N = GenP.V22 m (outs m) c main_v167
        rw [GenP.V22_of m (outs m) c main_v167 (by decide), hV21 m c]
        exact ((dat9 (E21 m) c).arrAt_in 0 rfl _).trans (A_eq9 (E21 m) c 0)
      | ⟨1, _⟩ =>
        show (dat9 (E21 m) c).arrAt 1 cfg9.N = GenP.V22 m (outs m) c main_v169
        rw [GenP.V22_of m (outs m) c main_v169 (by decide), hV21 m c]
        exact ((dat9 (E21 m) c).arrAt_in 1 rfl _).trans (A_eq9 (E21 m) c 1)
      | ⟨2, _⟩ =>
        show (dat9 (E21 m) c).arrAt 2 cfg9.N = GenP.V22 m (outs m) c main_v172
        rw [GenP.V22_of m (outs m) c main_v172 (by decide), hV21 m c]
        exact ((dat9 (E21 m) c).arrAt_in 2 rfl _).trans (A_eq9 (E21 m) c 2)
      | ⟨3, _⟩ =>
        show (dat9 (E21 m) c).arrAt 3 cfg9.N = GenP.V22 m (outs m) c main_v173
        rw [hV22 m c]; unfold W22
        simp only [Function.update_self]
        rfl
    )
    (fun c b hb => GenP.V22_of m (outs m) c b (by
      intro h
      simp only [List.mem_cons, List.mem_singleton, List.not_mem_nil, or_false] at h
      exact hb (h ▸ Finset.mem_image.mpr ⟨3, Finset.mem_univ _, rfl⟩)))

end Cert.KernelIdeal.Body

end
-- ==== Proof.KIFrameSeg10.lean ====
/-
  The frame of the program: it runs to the end, faults nowhere, and leaves its thirteen argument arrays as launched.

  The program is 43 items in a row: stretches of host operations and 18 pipelined regions. Between two items a core
  holds every unscoped buffer at a known valuation. The valuations are defined one after the other from the launch
  memory: after a stretch, the stretch's fold over the valuation before it; after a region, the valuation before it
  with the region's output arrays set to what its write-backs leave (read off the region's proof data at the last
  point). A host operation writes a buffer of its own and a region writes its outputs only, so no item touches an
  argument array. Each region is one segment entered at the valuation before it and left at the one after it
  (Proof/LibClassARegion.lean), from its body obligation (Proof/KIRegion0.lean to KIRegion17.lean); the conditional frame over
  the segments (Proof/RegionsKernelIdeal.lean) then gives the claim.
-/
import proofs.«140713_j1864015806535_2_alg».proof.Proof.KIFrameBase

set_option maxRecDepth 65536

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
set_option backward.isDefEq.respectTransparency.types false in
/-- Region 10 as a segment: entered at the valuation before it, left at the one after it. -/
def reg10 : Pipeline.RegionSeg (pcfgs (F := F)) GenP.adm (pdats m) () defs₀ Variants.none Lz lvz 10 :=
  Cert.LibClassARegion.region (pcfgs (F := F)) GenP.adm (pdats m) defs₀ Variants.none Lz lvz 10
    launch10.win.to₀ launch10.win launch10.block_pos launch10.stage_whole launch10.arr_whole
    (fun c => body_obligation10 (E23 m) c) (fun _ _ => rfl) (fun _ _ => rfl)
    (fun c => (pdats m 10 c).share_full fun _ => rfl) (fun _ => rfl) (fun _ => rfl)
    (fun c => by unfold Pipeline.prefHeld; rw [show (Finset.univ : Finset (Fin 0)) = ∅ from rfl, BI.bigSep_empty])
    (GenP.V23 m (outs m)) (GenP.V24 m (outs m))
    (fun c w => by rw [hV23 m c]; exact A_eq10 (E23 m) c w)
    (fun c w => by
      match w with
      | ⟨0, _⟩ =>
        show (dat10 (E23 m) c).arrAt 0 cfg10.N = GenP.V24 m (outs m) c main_v173
        rw [GenP.V24_of m (outs m) c main_v173 (by decide), hV23 m c]
        exact ((dat10 (E23 m) c).arrAt_in 0 rfl _).trans (A_eq10 (E23 m) c 0)
      | ⟨1, _⟩ =>
        show (dat10 (E23 m) c).arrAt 1 cfg10.N = GenP.V24 m (outs m) c main_v186
        rw [GenP.V24_of m (outs m) c main_v186 (by decide), hV23 m c]
        exact ((dat10 (E23 m) c).arrAt_in 1 rfl _).trans (A_eq10 (E23 m) c 1)
      | ⟨2, _⟩ =>
        show (dat10 (E23 m) c).arrAt 2 cfg10.N = GenP.V24 m (outs m) c main_v193
        rw [GenP.V24_of m (outs m) c main_v193 (by decide), hV23 m c]
        exact ((dat10 (E23 m) c).arrAt_in 2 rfl _).trans (A_eq10 (E23 m) c 2)
      | ⟨3, _⟩ =>
        show (dat10 (E23 m) c).arrAt 3 cfg10.N = GenP.V24 m (outs m) c main_v194_0
        rw [hV24 m c]; unfold W24
        simp only [Function.update_self, Function.update_of_ne (StableHlo.devRef_ne_of_ne (by decide : main_v194_0 ≠ main_v194_2) : (Proc.devRef .tc main_v194_0 : DevRef τ sig) ≠ Proc.devRef .tc main_v194_2), Function.update_of_ne (StableHlo.devRef_ne_of_ne (by decide : main_v194_0 ≠ main_v194_1) : (Proc.devRef .tc main_v194_0 : DevRef τ sig) ≠ Proc.devRef .tc main_v194_1)]
        rfl
      | ⟨4, _⟩ =>
        show (dat10 (E23 m) c).arrAt 4 cfg10.N = GenP.V24 m (outs m) c main_v194_1
        rw [hV24 m c]; unfold W24
        simp only [Function.update_self, Function.update_of_ne (StableHlo.devRef_ne_of_ne (by decide : main_v194_1 ≠ main_v194_2) : (Proc.devRef .tc main_v194_1 : DevRef τ sig) ≠ Proc.devRef .tc main_v194_2)]
        rfl
      | ⟨5, _⟩ =>
        show (dat10 (E23 m) c).arrAt 5 cfg10.N = GenP.V24 m (outs m) c main_v194_2
        rw [hV24 m c]; unfold W24
        simp only [Function.update_self]
        rfl
    )
    (fun c b hb => GenP.V24_of m (outs m) c b (by
      intro h
      simp only [List.mem_cons, List.mem_singleton, List.not_mem_nil, or_false] at h
      rcases h with h | h | h
      · exact hb (h ▸ Finset.mem_image.mpr ⟨3, Finset.mem_univ _, rfl⟩)
      · exact hb (h ▸ Finset.mem_image.mpr ⟨4, Finset.mem_univ _, rfl⟩)
      · exact hb (h ▸ Finset.mem_image.mpr ⟨5, Finset.mem_univ _, rfl⟩)))

end Cert.KernelIdeal.Body

end
-- ==== Proof.KIFrameSeg11.lean ====
/-
  The frame of the program: it runs to the end, faults nowhere, and leaves its thirteen argument arrays as launched.

  The program is 43 items in a row: stretches of host operations and 18 pipelined regions. Between two items a core
  holds every unscoped buffer at a known valuation. The valuations are defined one after the other from the launch
  memory: after a stretch, the stretch's fold over the valuation before it; after a region, the valuation before it
  with the region's output arrays set to what its write-backs leave (read off the region's proof data at the last
  point). A host operation writes a buffer of its own and a region writes its outputs only, so no item touches an
  argument array. Each region is one segment entered at the valuation before it and left at the one after it
  (Proof/LibClassARegion.lean), from its body obligation (Proof/KIRegion0.lean to KIRegion17.lean); the conditional frame over
  the segments (Proof/RegionsKernelIdeal.lean) then gives the claim.
-/
import proofs.«140713_j1864015806535_2_alg».proof.Proof.KIFrameBase

set_option maxRecDepth 65536

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
set_option backward.isDefEq.respectTransparency.types false in
/-- Region 11 as a segment: entered at the valuation before it, left at the one after it. -/
def reg11 : Pipeline.RegionSeg (pcfgs (F := F)) GenP.adm (pdats m) () defs₀ Variants.none Lz lvz 11 :=
  Cert.LibClassARegion.region (pcfgs (F := F)) GenP.adm (pdats m) defs₀ Variants.none Lz lvz 11
    launch11.win.to₀ launch11.win launch11.block_pos launch11.stage_whole launch11.arr_whole
    (fun c => body_obligation11 (E25 m) c) (fun _ _ => rfl) (fun _ _ => rfl)
    (fun c => (pdats m 11 c).share_full fun _ => rfl) (fun _ => rfl) (fun _ => rfl)
    (fun c => by unfold Pipeline.prefHeld; rw [show (Finset.univ : Finset (Fin 0)) = ∅ from rfl, BI.bigSep_empty])
    (GenP.V25 m (outs m)) (GenP.V26 m (outs m))
    (fun c w => by rw [hV25 m c]; exact A_eq11 (E25 m) c w)
    (fun c w => by
      match w with
      | ⟨0, _⟩ =>
        show (dat11 (E25 m) c).arrAt 0 cfg11.N = GenP.V26 m (outs m) c main_v194_0
        rw [GenP.V26_of m (outs m) c main_v194_0 (by decide), hV25 m c]
        exact ((dat11 (E25 m) c).arrAt_in 0 rfl _).trans (A_eq11 (E25 m) c 0)
      | ⟨1, _⟩ =>
        show (dat11 (E25 m) c).arrAt 1 cfg11.N = GenP.V26 m (outs m) c main_v196
        rw [GenP.V26_of m (outs m) c main_v196 (by decide), hV25 m c]
        exact ((dat11 (E25 m) c).arrAt_in 1 rfl _).trans (A_eq11 (E25 m) c 1)
      | ⟨2, _⟩ =>
        show (dat11 (E25 m) c).arrAt 2 cfg11.N = GenP.V26 m (outs m) c main_v200
        rw [GenP.V26_of m (outs m) c main_v200 (by decide), hV25 m c]
        exact ((dat11 (E25 m) c).arrAt_in 2 rfl _).trans (A_eq11 (E25 m) c 2)
      | ⟨3, _⟩ =>
        show (dat11 (E25 m) c).arrAt 3 cfg11.N = GenP.V26 m (outs m) c main_v201
        rw [GenP.V26_of m (outs m) c main_v201 (by decide), hV25 m c]
        exact ((dat11 (E25 m) c).arrAt_in 3 rfl _).trans (A_eq11 (E25 m) c 3)
      | ⟨4, _⟩ =>
        show (dat11 (E25 m) c).arrAt 4 cfg11.N = GenP.V26 m (outs m) c main_v202
        rw [GenP.V26_of m (outs m) c main_v202 (by decide), hV25 m c]
        exact ((dat11 (E25 m) c).arrAt_in 4 rfl _).trans (A_eq11 (E25 m) c 4)
      | ⟨5, _⟩ =>
        show (dat11 (E25 m) c).arrAt 5 cfg11.N = GenP.V26 m (outs m) c main_v203
        rw [hV26 m c]; unfold W26
        simp only [Function.update_self]
        rfl
    )
    (fun c b hb => GenP.V26_of m (outs m) c b (by
      intro h
      simp only [List.mem_cons, List.mem_singleton, List.not_mem_nil, or_false] at h
      exact hb (h ▸ Finset.mem_image.mpr ⟨5, Finset.mem_univ _, rfl⟩)))

end Cert.KernelIdeal.Body

end
-- ==== Proof.KIFrameSeg12.lean ====
/-
  The frame of the program: it runs to the end, faults nowhere, and leaves its thirteen argument arrays as launched.

  The program is 43 items in a row: stretches of host operations and 18 pipelined regions. Between two items a core
  holds every unscoped buffer at a known valuation. The valuations are defined one after the other from the launch
  memory: after a stretch, the stretch's fold over the valuation before it; after a region, the valuation before it
  with the region's output arrays set to what its write-backs leave (read off the region's proof data at the last
  point). A host operation writes a buffer of its own and a region writes its outputs only, so no item touches an
  argument array. Each region is one segment entered at the valuation before it and left at the one after it
  (Proof/LibClassARegion.lean), from its body obligation (Proof/KIRegion0.lean to KIRegion17.lean); the conditional frame over
  the segments (Proof/RegionsKernelIdeal.lean) then gives the claim.
-/
import proofs.«140713_j1864015806535_2_alg».proof.Proof.KIFrameBase

set_option maxRecDepth 65536

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
set_option backward.isDefEq.respectTransparency.types false in
/-- Region 12 as a segment: entered at the valuation before it, left at the one after it. -/
def reg12 : Pipeline.RegionSeg (pcfgs (F := F)) GenP.adm (pdats m) () defs₀ Variants.none Lz lvz 12 :=
  Cert.LibClassARegion.region (pcfgs (F := F)) GenP.adm (pdats m) defs₀ Variants.none Lz lvz 12
    launch12.win.to₀ launch12.win launch12.block_pos launch12.stage_whole launch12.arr_whole
    (fun c => body_obligation12 (E29 m) c) (fun _ _ => rfl) (fun _ _ => rfl)
    (fun c => (pdats m 12 c).share_full fun _ => rfl) (fun _ => rfl) (fun _ => rfl)
    (fun c => by unfold Pipeline.prefHeld; rw [show (Finset.univ : Finset (Fin 0)) = ∅ from rfl, BI.bigSep_empty])
    (GenP.V29 m (outs m)) (GenP.V30 m (outs m))
    (fun c w => by rw [hV29 m c]; exact A_eq12 (E29 m) c w)
    (fun c w => by
      match w with
      | ⟨0, _⟩ =>
        show (dat12 (E29 m) c).arrAt 0 cfg12.N = GenP.V30 m (outs m) c main_arg0
        rw [GenP.V30_of m (outs m) c main_arg0 (by decide), hV29 m c]
        exact ((dat12 (E29 m) c).arrAt_in 0 rfl _).trans (A_eq12 (E29 m) c 0)
      | ⟨1, _⟩ =>
        show (dat12 (E29 m) c).arrAt 1 cfg12.N = GenP.V30 m (outs m) c main_v239
        rw [GenP.V30_of m (outs m) c main_v239 (by decide), hV29 m c]
        exact ((dat12 (E29 m) c).arrAt_in 1 rfl _).trans (A_eq12 (E29 m) c 1)
      | ⟨2, _⟩ =>
        show (dat12 (E29 m) c).arrAt 2 cfg12.N = GenP.V30 m (outs m) c main_v242
        rw [GenP.V30_of m (outs m) c main_v242 (by decide), hV29 m c]
        exact ((dat12 (E29 m) c).arrAt_in 2 rfl _).trans (A_eq12 (E29 m) c 2)
      | ⟨3, _⟩ =>
        show (dat12 (E29 m) c).arrAt 3 cfg12.N = GenP.V30 m (outs m) c main_v243
        rw [hV30 m c]; unfold W30
        simp only [Function.update_self]
        rfl
    )
    (fun c b hb => GenP.V30_of m (outs m) c b (by
      intro h
      simp only [List.mem_cons, List.mem_singleton, List.not_mem_nil, or_false] at h
      exact hb (h ▸ Finset.mem_image.mpr ⟨3, Finset.mem_univ _, rfl⟩)))

end Cert.KernelIdeal.Body

end
-- ==== Proof.KIFrameSeg13.lean ====
/-
  The frame of the program: it runs to the end, faults nowhere, and leaves its thirteen argument arrays as launched.

  The program is 43 items in a row: stretches of host operations and 18 pipelined regions. Between two items a core
  holds every unscoped buffer at a known valuation. The valuations are defined one after the other from the launch
  memory: after a stretch, the stretch's fold over the valuation before it; after a region, the valuation before it
  with the region's output arrays set to what its write-backs leave (read off the region's proof data at the last
  point). A host operation writes a buffer of its own and a region writes its outputs only, so no item touches an
  argument array. Each region is one segment entered at the valuation before it and left at the one after it
  (Proof/LibClassARegion.lean), from its body obligation (Proof/KIRegion0.lean to KIRegion17.lean); the conditional frame over
  the segments (Proof/RegionsKernelIdeal.lean) then gives the claim.
-/
import proofs.«140713_j1864015806535_2_alg».proof.Proof.KIFrameBase

set_option maxRecDepth 65536

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
set_option backward.isDefEq.respectTransparency.types false in
/-- Region 13 as a segment: entered at the valuation before it, left at the one after it. -/
def reg13 : Pipeline.RegionSeg (pcfgs (F := F)) GenP.adm (pdats m) () defs₀ Variants.none Lz lvz 13 :=
  Cert.LibClassARegion.region (pcfgs (F := F)) GenP.adm (pdats m) defs₀ Variants.none Lz lvz 13
    launch13.win.to₀ launch13.win launch13.block_pos launch13.stage_whole launch13.arr_whole
    (fun c => body_obligation13 (E31 m) c) (fun _ _ => rfl) (fun _ _ => rfl)
    (fun c => (pdats m 13 c).share_full fun _ => rfl) (fun _ => rfl) (fun _ => rfl)
    (fun c => by unfold Pipeline.prefHeld; rw [show (Finset.univ : Finset (Fin 0)) = ∅ from rfl, BI.bigSep_empty])
    (GenP.V31 m (outs m)) (GenP.V32 m (outs m))
    (fun c w => by rw [hV31 m c]; exact A_eq13 (E31 m) c w)
    (fun c w => by
      match w with
      | ⟨0, _⟩ =>
        show (dat13 (E31 m) c).arrAt 0 cfg13.N = GenP.V32 m (outs m) c main_v243
        rw [GenP.V32_of m (outs m) c main_v243 (by decide), hV31 m c]
        exact ((dat13 (E31 m) c).arrAt_in 0 rfl _).trans (A_eq13 (E31 m) c 0)
      | ⟨1, _⟩ =>
        show (dat13 (E31 m) c).arrAt 1 cfg13.N = GenP.V32 m (outs m) c main_v256
        rw [GenP.V32_of m (outs m) c main_v256 (by decide), hV31 m c]
        exact ((dat13 (E31 m) c).arrAt_in 1 rfl _).trans (A_eq13 (E31 m) c 1)
      | ⟨2, _⟩ =>
        show (dat13 (E31 m) c).arrAt 2 cfg13.N = GenP.V32 m (outs m) c main_v263
        rw [GenP.V32_of m (outs m) c main_v263 (by decide), hV31 m c]
        exact ((dat13 (E31 m) c).arrAt_in 2 rfl _).trans (A_eq13 (E31 m) c 2)
      | ⟨3, _⟩ =>
        show (dat13 (E31 m) c).arrAt 3 cfg13.N = GenP.V32 m (outs m) c main_v264_0
        rw [hV32 m c]; unfold W32
        simp only [Function.update_self, Function.update_of_ne (StableHlo.devRef_ne_of_ne (by decide : main_v264_0 ≠ main_v264_2) : (Proc.devRef .tc main_v264_0 : DevRef τ sig) ≠ Proc.devRef .tc main_v264_2), Function.update_of_ne (StableHlo.devRef_ne_of_ne (by decide : main_v264_0 ≠ main_v264_1) : (Proc.devRef .tc main_v264_0 : DevRef τ sig) ≠ Proc.devRef .tc main_v264_1)]
        rfl
      | ⟨4, _⟩ =>
        show (dat13 (E31 m) c).arrAt 4 cfg13.N = GenP.V32 m (outs m) c main_v264_1
        rw [hV32 m c]; unfold W32
        simp only [Function.update_self, Function.update_of_ne (StableHlo.devRef_ne_of_ne (by decide : main_v264_1 ≠ main_v264_2) : (Proc.devRef .tc main_v264_1 : DevRef τ sig) ≠ Proc.devRef .tc main_v264_2)]
        rfl
      | ⟨5, _⟩ =>
        show (dat13 (E31 m) c).arrAt 5 cfg13.N = GenP.V32 m (outs m) c main_v264_2
        rw [hV32 m c]; unfold W32
        simp only [Function.update_self]
        rfl
    )
    (fun c b hb => GenP.V32_of m (outs m) c b (by
      intro h
      simp only [List.mem_cons, List.mem_singleton, List.not_mem_nil, or_false] at h
      rcases h with h | h | h
      · exact hb (h ▸ Finset.mem_image.mpr ⟨3, Finset.mem_univ _, rfl⟩)
      · exact hb (h ▸ Finset.mem_image.mpr ⟨4, Finset.mem_univ _, rfl⟩)
      · exact hb (h ▸ Finset.mem_image.mpr ⟨5, Finset.mem_univ _, rfl⟩)))

end Cert.KernelIdeal.Body

end
-- ==== Proof.KIFrameSeg14.lean ====
/-
  The frame of the program: it runs to the end, faults nowhere, and leaves its thirteen argument arrays as launched.

  The program is 43 items in a row: stretches of host operations and 18 pipelined regions. Between two items a core
  holds every unscoped buffer at a known valuation. The valuations are defined one after the other from the launch
  memory: after a stretch, the stretch's fold over the valuation before it; after a region, the valuation before it
  with the region's output arrays set to what its write-backs leave (read off the region's proof data at the last
  point). A host operation writes a buffer of its own and a region writes its outputs only, so no item touches an
  argument array. Each region is one segment entered at the valuation before it and left at the one after it
  (Proof/LibClassARegion.lean), from its body obligation (Proof/KIRegion0.lean to KIRegion17.lean); the conditional frame over
  the segments (Proof/RegionsKernelIdeal.lean) then gives the claim.
-/
import proofs.«140713_j1864015806535_2_alg».proof.Proof.KIFrameBase

set_option maxRecDepth 65536

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
set_option backward.isDefEq.respectTransparency.types false in
/-- Region 14 as a segment: entered at the valuation before it, left at the one after it. -/
def reg14 : Pipeline.RegionSeg (pcfgs (F := F)) GenP.adm (pdats m) () defs₀ Variants.none Lz lvz 14 :=
  Cert.LibClassARegion.region (pcfgs (F := F)) GenP.adm (pdats m) defs₀ Variants.none Lz lvz 14
    launch14.win.to₀ launch14.win launch14.block_pos launch14.stage_whole launch14.arr_whole
    (fun c => body_obligation14 (E33 m) c) (fun _ _ => rfl) (fun _ _ => rfl)
    (fun c => (pdats m 14 c).share_full fun _ => rfl) (fun _ => rfl) (fun _ => rfl)
    (fun c => by unfold Pipeline.prefHeld; rw [show (Finset.univ : Finset (Fin 0)) = ∅ from rfl, BI.bigSep_empty])
    (GenP.V33 m (outs m)) (GenP.V34 m (outs m))
    (fun c w => by rw [hV33 m c]; exact A_eq14 (E33 m) c w)
    (fun c w => by
      match w with
      | ⟨0, _⟩ =>
        show (dat14 (E33 m) c).arrAt 0 cfg14.N = GenP.V34 m (outs m) c main_v264_0
        rw [GenP.V34_of m (outs m) c main_v264_0 (by decide), hV33 m c]
        exact ((dat14 (E33 m) c).arrAt_in 0 rfl _).trans (A_eq14 (E33 m) c 0)
      | ⟨1, _⟩ =>
        show (dat14 (E33 m) c).arrAt 1 cfg14.N = GenP.V34 m (outs m) c main_v266
        rw [GenP.V34_of m (outs m) c main_v266 (by decide), hV33 m c]
        exact ((dat14 (E33 m) c).arrAt_in 1 rfl _).trans (A_eq14 (E33 m) c 1)
      | ⟨2, _⟩ =>
        show (dat14 (E33 m) c).arrAt 2 cfg14.N = GenP.V34 m (outs m) c main_v270
        rw [GenP.V34_of m (outs m) c main_v270 (by decide), hV33 m c]
        exact ((dat14 (E33 m) c).arrAt_in 2 rfl _).trans (A_eq14 (E33 m) c 2)
      | ⟨3, _⟩ =>
        show (dat14 (E33 m) c).arrAt 3 cfg14.N = GenP.V34 m (outs m) c main_v271
        rw [GenP.V34_of m (outs m) c main_v271 (by decide), hV33 m c]
        exact ((dat14 (E33 m) c).arrAt_in 3 rfl _).trans (A_eq14 (E33 m) c 3)
      | ⟨4, _⟩ =>
        show (dat14 (E33 m) c).arrAt 4 cfg14.N = GenP.V34 m (outs m) c main_v272
        rw [GenP.V34_of m (outs m) c main_v272 (by decide), hV33 m c]
        exact ((dat14 (E33 m) c).arrAt_in 4 rfl _).trans (A_eq14 (E33 m) c 4)
      | ⟨5, _⟩ =>
        show (dat14 (E33 m) c).arrAt 5 cfg14.N = GenP.V34 m (outs m) c main_v273
        rw [hV34 m c]; unfold W34
        simp only [Function.update_self]
        rfl
    )
    (fun c b hb => GenP.V34_of m (outs m) c b (by
      intro h
      simp only [List.mem_cons, List.mem_singleton, List.not_mem_nil, or_false] at h
      exact hb (h ▸ Finset.mem_image.mpr ⟨5, Finset.mem_univ _, rfl⟩)))

end Cert.KernelIdeal.Body

end
-- ==== Proof.KIFrameSeg15.lean ====
/-
  The frame of the program: it runs to the end, faults nowhere, and leaves its thirteen argument arrays as launched.

  The program is 43 items in a row: stretches of host operations and 18 pipelined regions. Between two items a core
  holds every unscoped buffer at a known valuation. The valuations are defined one after the other from the launch
  memory: after a stretch, the stretch's fold over the valuation before it; after a region, the valuation before it
  with the region's output arrays set to what its write-backs leave (read off the region's proof data at the last
  point). A host operation writes a buffer of its own and a region writes its outputs only, so no item touches an
  argument array. Each region is one segment entered at the valuation before it and left at the one after it
  (Proof/LibClassARegion.lean), from its body obligation (Proof/KIRegion0.lean to KIRegion17.lean); the conditional frame over
  the segments (Proof/RegionsKernelIdeal.lean) then gives the claim.
-/
import proofs.«140713_j1864015806535_2_alg».proof.Proof.KIFrameBase

set_option maxRecDepth 65536

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
set_option backward.isDefEq.respectTransparency.types false in
/-- Region 15 as a segment: entered at the valuation before it, left at the one after it. -/
def reg15 : Pipeline.RegionSeg (pcfgs (F := F)) GenP.adm (pdats m) () defs₀ Variants.none Lz lvz 15 :=
  Cert.LibClassARegion.region (pcfgs (F := F)) GenP.adm (pdats m) defs₀ Variants.none Lz lvz 15
    launch15.win.to₀ launch15.win launch15.block_pos launch15.stage_whole launch15.arr_whole
    (fun c => body_obligation15 (E35 m) c) (fun _ _ => rfl) (fun _ _ => rfl)
    (fun c => (pdats m 15 c).share_full fun _ => rfl) (fun _ => rfl) (fun _ => rfl)
    (fun c => by unfold Pipeline.prefHeld; rw [show (Finset.univ : Finset (Fin 0)) = ∅ from rfl, BI.bigSep_empty])
    (GenP.V35 m (outs m)) (GenP.V36 m (outs m))
    (fun c w => by rw [hV35 m c]; exact A_eq15 (E35 m) c w)
    (fun c w => by
      match w with
      | ⟨0, _⟩ =>
        show (dat15 (E35 m) c).arrAt 0 cfg15.N = GenP.V36 m (outs m) c main_v273
        rw [GenP.V36_of m (outs m) c main_v273 (by decide), hV35 m c]
        exact ((dat15 (E35 m) c).arrAt_in 0 rfl _).trans (A_eq15 (E35 m) c 0)
      | ⟨1, _⟩ =>
        show (dat15 (E35 m) c).arrAt 1 cfg15.N = GenP.V36 m (outs m) c main_v275
        rw [GenP.V36_of m (outs m) c main_v275 (by decide), hV35 m c]
        exact ((dat15 (E35 m) c).arrAt_in 1 rfl _).trans (A_eq15 (E35 m) c 1)
      | ⟨2, _⟩ =>
        show (dat15 (E35 m) c).arrAt 2 cfg15.N = GenP.V36 m (outs m) c main_v278
        rw [GenP.V36_of m (outs m) c main_v278 (by decide), hV35 m c]
        exact ((dat15 (E35 m) c).arrAt_in 2 rfl _).trans (A_eq15 (E35 m) c 2)
      | ⟨3, _⟩ =>
        show (dat15 (E35 m) c).arrAt 3 cfg15.N = GenP.V36 m (outs m) c main_v279
        rw [hV36 m c]; unfold W36
        simp only [Function.update_self]
        rfl
    )
    (fun c b hb => GenP.V36_of m (outs m) c b (by
      intro h
      simp only [List.mem_cons, List.mem_singleton, List.not_mem_nil, or_false] at h
      exact hb (h ▸ Finset.mem_image.mpr ⟨3, Finset.mem_univ _, rfl⟩)))

end Cert.KernelIdeal.Body

end
-- ==== Proof.KIFrameSeg16.lean ====
/-
  The frame of the program: it runs to the end, faults nowhere, and leaves its thirteen argument arrays as launched.

  The program is 43 items in a row: stretches of host operations and 18 pipelined regions. Between two items a core
  holds every unscoped buffer at a known valuation. The valuations are defined one after the other from the launch
  memory: after a stretch, the stretch's fold over the valuation before it; after a region, the valuation before it
  with the region's output arrays set to what its write-backs leave (read off the region's proof data at the last
  point). A host operation writes a buffer of its own and a region writes its outputs only, so no item touches an
  argument array. Each region is one segment entered at the valuation before it and left at the one after it
  (Proof/LibClassARegion.lean), from its body obligation (Proof/KIRegion0.lean to KIRegion17.lean); the conditional frame over
  the segments (Proof/RegionsKernelIdeal.lean) then gives the claim.
-/
import proofs.«140713_j1864015806535_2_alg».proof.Proof.KIFrameBase

set_option maxRecDepth 65536

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
set_option backward.isDefEq.respectTransparency.types false in
/-- Region 16 as a segment: entered at the valuation before it, left at the one after it. -/
def reg16 : Pipeline.RegionSeg (pcfgs (F := F)) GenP.adm (pdats m) () defs₀ Variants.none Lz lvz 16 :=
  Cert.LibClassARegion.region (pcfgs (F := F)) GenP.adm (pdats m) defs₀ Variants.none Lz lvz 16
    launch16.win.to₀ launch16.win launch16.block_pos launch16.stage_whole launch16.arr_whole
    (fun c => body_obligation16 (E37 m) c) (fun _ _ => rfl) (fun _ _ => rfl)
    (fun c => (pdats m 16 c).share_full fun _ => rfl) (fun _ => rfl) (fun _ => rfl)
    (fun c => by unfold Pipeline.prefHeld; rw [show (Finset.univ : Finset (Fin 0)) = ∅ from rfl, BI.bigSep_empty])
    (GenP.V37 m (outs m)) (GenP.V38 m (outs m))
    (fun c w => by rw [hV37 m c]; exact A_eq16 (E37 m) c w)
    (fun c w => by
      match w with
      | ⟨0, _⟩ =>
        show (dat16 (E37 m) c).arrAt 0 cfg16.N = GenP.V38 m (outs m) c main_v279
        rw [GenP.V38_of m (outs m) c main_v279 (by decide), hV37 m c]
        exact ((dat16 (E37 m) c).arrAt_in 0 rfl _).trans (A_eq16 (E37 m) c 0)
      | ⟨1, _⟩ =>
        show (dat16 (E37 m) c).arrAt 1 cfg16.N = GenP.V38 m (outs m) c main_v292
        rw [GenP.V38_of m (outs m) c main_v292 (by decide), hV37 m c]
        exact ((dat16 (E37 m) c).arrAt_in 1 rfl _).trans (A_eq16 (E37 m) c 1)
      | ⟨2, _⟩ =>
        show (dat16 (E37 m) c).arrAt 2 cfg16.N = GenP.V38 m (outs m) c main_v299
        rw [GenP.V38_of m (outs m) c main_v299 (by decide), hV37 m c]
        exact ((dat16 (E37 m) c).arrAt_in 2 rfl _).trans (A_eq16 (E37 m) c 2)
      | ⟨3, _⟩ =>
        show (dat16 (E37 m) c).arrAt 3 cfg16.N = GenP.V38 m (outs m) c main_v300_0
        rw [hV38 m c]; unfold W38
        simp only [Function.update_self, Function.update_of_ne (StableHlo.devRef_ne_of_ne (by decide : main_v300_0 ≠ main_v300_2) : (Proc.devRef .tc main_v300_0 : DevRef τ sig) ≠ Proc.devRef .tc main_v300_2), Function.update_of_ne (StableHlo.devRef_ne_of_ne (by decide : main_v300_0 ≠ main_v300_1) : (Proc.devRef .tc main_v300_0 : DevRef τ sig) ≠ Proc.devRef .tc main_v300_1)]
        rfl
      | ⟨4, _⟩ =>
        show (dat16 (E37 m) c).arrAt 4 cfg16.N = GenP.V38 m (outs m) c main_v300_1
        rw [hV38 m c]; unfold W38
        simp only [Function.update_self, Function.update_of_ne (StableHlo.devRef_ne_of_ne (by decide : main_v300_1 ≠ main_v300_2) : (Proc.devRef .tc main_v300_1 : DevRef τ sig) ≠ Proc.devRef .tc main_v300_2)]
        rfl
      | ⟨5, _⟩ =>
        show (dat16 (E37 m) c).arrAt 5 cfg16.N = GenP.V38 m (outs m) c main_v300_2
        rw [hV38 m c]; unfold W38
        simp only [Function.update_self]
        rfl
    )
    (fun c b hb => GenP.V38_of m (outs m) c b (by
      intro h
      simp only [List.mem_cons, List.mem_singleton, List.not_mem_nil, or_false] at h
      rcases h with h | h | h
      · exact hb (h ▸ Finset.mem_image.mpr ⟨3, Finset.mem_univ _, rfl⟩)
      · exact hb (h ▸ Finset.mem_image.mpr ⟨4, Finset.mem_univ _, rfl⟩)
      · exact hb (h ▸ Finset.mem_image.mpr ⟨5, Finset.mem_univ _, rfl⟩)))

end Cert.KernelIdeal.Body

end
-- ==== Proof.KIFrameSeg17.lean ====
/-
  The frame of the program: it runs to the end, faults nowhere, and leaves its thirteen argument arrays as launched.

  The program is 43 items in a row: stretches of host operations and 18 pipelined regions. Between two items a core
  holds every unscoped buffer at a known valuation. The valuations are defined one after the other from the launch
  memory: after a stretch, the stretch's fold over the valuation before it; after a region, the valuation before it
  with the region's output arrays set to what its write-backs leave (read off the region's proof data at the last
  point). A host operation writes a buffer of its own and a region writes its outputs only, so no item touches an
  argument array. Each region is one segment entered at the valuation before it and left at the one after it
  (Proof/LibClassARegion.lean), from its body obligation (Proof/KIRegion0.lean to KIRegion17.lean); the conditional frame over
  the segments (Proof/RegionsKernelIdeal.lean) then gives the claim.
-/
import proofs.«140713_j1864015806535_2_alg».proof.Proof.KIFrameBase

set_option maxRecDepth 65536

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
set_option backward.isDefEq.respectTransparency.types false in
/-- Region 17 as a segment: entered at the valuation before it, left at the one after it. -/
def reg17 : Pipeline.RegionSeg (pcfgs (F := F)) GenP.adm (pdats m) () defs₀ Variants.none Lz lvz 17 :=
  Cert.LibClassARegion.region (pcfgs (F := F)) GenP.adm (pdats m) defs₀ Variants.none Lz lvz 17
    launch17.win.to₀ launch17.win launch17.block_pos launch17.stage_whole launch17.arr_whole
    (fun c => body_obligation17 (E39 m) c) (fun _ _ => rfl) (fun _ _ => rfl)
    (fun c => (pdats m 17 c).share_full fun _ => rfl) (fun _ => rfl) (fun _ => rfl)
    (fun c => by unfold Pipeline.prefHeld; rw [show (Finset.univ : Finset (Fin 0)) = ∅ from rfl, BI.bigSep_empty])
    (GenP.V39 m (outs m)) (GenP.V40 m (outs m))
    (fun c w => by rw [hV39 m c]; exact A_eq17 (E39 m) c w)
    (fun c w => by
      match w with
      | ⟨0, _⟩ =>
        show (dat17 (E39 m) c).arrAt 0 cfg17.N = GenP.V40 m (outs m) c main_v300_0
        rw [GenP.V40_of m (outs m) c main_v300_0 (by decide), hV39 m c]
        exact ((dat17 (E39 m) c).arrAt_in 0 rfl _).trans (A_eq17 (E39 m) c 0)
      | ⟨1, _⟩ =>
        show (dat17 (E39 m) c).arrAt 1 cfg17.N = GenP.V40 m (outs m) c main_v302
        rw [GenP.V40_of m (outs m) c main_v302 (by decide), hV39 m c]
        exact ((dat17 (E39 m) c).arrAt_in 1 rfl _).trans (A_eq17 (E39 m) c 1)
      | ⟨2, _⟩ =>
        show (dat17 (E39 m) c).arrAt 2 cfg17.N = GenP.V40 m (outs m) c main_v306
        rw [GenP.V40_of m (outs m) c main_v306 (by decide), hV39 m c]
        exact ((dat17 (E39 m) c).arrAt_in 2 rfl _).trans (A_eq17 (E39 m) c 2)
      | ⟨3, _⟩ =>
        show (dat17 (E39 m) c).arrAt 3 cfg17.N = GenP.V40 m (outs m) c main_v307
        rw [GenP.V40_of m (outs m) c main_v307 (by decide), hV39 m c]
        exact ((dat17 (E39 m) c).arrAt_in 3 rfl _).trans (A_eq17 (E39 m) c 3)
      | ⟨4, _⟩ =>
        show (dat17 (E39 m) c).arrAt 4 cfg17.N = GenP.V40 m (outs m) c main_v308
        rw [GenP.V40_of m (outs m) c main_v308 (by decide), hV39 m c]
        exact ((dat17 (E39 m) c).arrAt_in 4 rfl _).trans (A_eq17 (E39 m) c 4)
      | ⟨5, _⟩ =>
        show (dat17 (E39 m) c).arrAt 5 cfg17.N = GenP.V40 m (outs m) c main_v309
        rw [hV40 m c]; unfold W40
        simp only [Function.update_self]
        rfl
    )
    (fun c b hb => GenP.V40_of m (outs m) c b (by
      intro h
      simp only [List.mem_cons, List.mem_singleton, List.not_mem_nil, or_false] at h
      exact hb (h ▸ Finset.mem_image.mpr ⟨5, Finset.mem_univ _, rfl⟩)))

end Cert.KernelIdeal.Body

end
-- ==== Proof.KIFrame.lean ====
/-
  The frame of the program: it runs to the end, faults nowhere, and leaves its thirteen argument arrays as launched.

  The program is 43 items in a row: stretches of host operations and 18 pipelined regions. Between two items a core
  holds every unscoped buffer at a known valuation. The valuations are defined one after the other from the launch
  memory: after a stretch, the stretch's fold over the valuation before it; after a region, the valuation before it
  with the region's output arrays set to what its write-backs leave (read off the region's proof data at the last
  point). A host operation writes a buffer of its own and a region writes its outputs only, so no item touches an
  argument array. Each region is one segment entered at the valuation before it and left at the one after it
  (Proof/LibClassARegion.lean), from its body obligation (Proof/KIRegion0.lean to KIRegion17.lean); the conditional frame over
  the segments (Proof/RegionsKernelIdeal.lean) then gives the claim.
-/
import proofs.«140713_j1864015806535_2_alg».proof.Proof.KIFrameSeg0
import proofs.«140713_j1864015806535_2_alg».proof.Proof.KIFrameSeg1
import proofs.«140713_j1864015806535_2_alg».proof.Proof.KIFrameSeg2
import proofs.«140713_j1864015806535_2_alg».proof.Proof.KIFrameSeg3
import proofs.«140713_j1864015806535_2_alg».proof.Proof.KIFrameSeg4
import proofs.«140713_j1864015806535_2_alg».proof.Proof.KIFrameSeg5
import proofs.«140713_j1864015806535_2_alg».proof.Proof.KIFrameSeg6
import proofs.«140713_j1864015806535_2_alg».proof.Proof.KIFrameSeg7
import proofs.«140713_j1864015806535_2_alg».proof.Proof.KIFrameSeg8
import proofs.«140713_j1864015806535_2_alg».proof.Proof.KIFrameSeg9
import proofs.«140713_j1864015806535_2_alg».proof.Proof.KIFrameSeg10
import proofs.«140713_j1864015806535_2_alg».proof.Proof.KIFrameSeg11
import proofs.«140713_j1864015806535_2_alg».proof.Proof.KIFrameSeg12
import proofs.«140713_j1864015806535_2_alg».proof.Proof.KIFrameSeg13
import proofs.«140713_j1864015806535_2_alg».proof.Proof.KIFrameSeg14
import proofs.«140713_j1864015806535_2_alg».proof.Proof.KIFrameSeg15
import proofs.«140713_j1864015806535_2_alg».proof.Proof.KIFrameSeg16
import proofs.«140713_j1864015806535_2_alg».proof.Proof.KIFrameSeg17

set_option maxRecDepth 65536

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The frame -/

variable (ρ : Dev nD → PrngReg)

set_option maxHeartbeats 16000000 in
set_option backward.isDefEq.respectTransparency.types false in
/-- From any memory with zero counters every weakly fair execution of @main terminates, nothing faults, and every
    final memory holds each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  GenP.frame_cond (m := m) (EP := emb₁) (ι := ()) (𝒱₀ := Variants.none) (L := Lz) (lv := lvz) (hL := fun _ _ => rfl) (ρ := ρ)
    (outs := outs m) (pdats := pdats m) (O₀ := 0) (G := fun _ => iprop(emp))
    (u₀ := initOf (Pipeline.cells cfgs cellOf_inj) (Pipeline.launchToks cfgs cellOf_inj))
    (hu₀ := Cert.LibClassARegion.launch_own (U := UR sig nD τ) _)
    (E := fun _ c => Cert.LibClassARegion.rest (U := UR sig nD τ) c)
    (hE0 := Pipeline.initEach Lz lvz fun c => by
      iintro ⟨H, -⟩
      iapply (Cert.LibClassARegion.rest_of_launch (U := UR sig nD τ) c 0 rfl (ρ c) _ _ _)
      iexact H)
    (hE18 := fun c => Cert.LibClassARegion.owes_of_rest (U := UR sig nD τ) c)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)
    (R3 := reg3 m) (hpre3 := fun _ => .rfl) (hpost3 := fun _ => .rfl)
    (R4 := reg4 m) (hpre4 := fun _ => .rfl) (hpost4 := fun _ => .rfl)
    (R5 := reg5 m) (hpre5 := fun _ => .rfl) (hpost5 := fun _ => .rfl)
    (R6 := reg6 m) (hpre6 := fun _ => .rfl) (hpost6 := fun _ => .rfl)
    (R7 := reg7 m) (hpre7 := fun _ => .rfl) (hpost7 := fun _ => .rfl)
    (R8 := reg8 m) (hpre8 := fun _ => .rfl) (hpost8 := fun _ => .rfl)
    (R9 := reg9 m) (hpre9 := fun _ => .rfl) (hpost9 := fun _ => .rfl)
    (R10 := reg10 m) (hpre10 := fun _ => .rfl) (hpost10 := fun _ => .rfl)
    (R11 := reg11 m) (hpre11 := fun _ => .rfl) (hpost11 := fun _ => .rfl)
    (R12 := reg12 m) (hpre12 := fun _ => .rfl) (hpost12 := fun _ => .rfl)
    (R13 := reg13 m) (hpre13 := fun _ => .rfl) (hpost13 := fun _ => .rfl)
    (R14 := reg14 m) (hpre14 := fun _ => .rfl) (hpost14 := fun _ => .rfl)
    (R15 := reg15 m) (hpre15 := fun _ => .rfl) (hpost15 := fun _ => .rfl)
    (R16 := reg16 m) (hpre16 := fun _ => .rfl) (hpost16 := fun _ => .rfl)
    (R17 := reg17 m) (hpre17 := fun _ => .rfl) (hpost17 := fun _ => .rfl)

end Cert.KernelIdeal.Body

end
-- ==== Proof.RefPart0.lean ====
/-
  Window 0 of the reference program as a straight line of 60 host operations: the outlined functions it calls
  unfolded at their calls and the sequencing re-associated. Every operation names TensorCore buffers only, allocates
  none, and writes one buffer of its own, listed here; no argument array is among them.
-/
import proofs.«140713_j1864015806535_2_alg».proof.Proof.Gen.ReferenceIdeal
import Idealize.ShloMosaic.Lib.StableHlo.Run

set_option maxRecDepth 65536

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
abbrev ops0 : List (HloOp τ sig (Elt F)) :=
  [ StableHlo.unary main_arg1 main_v0 ((extractStridedSlice S1x1x1600000 ![0, 0, 0] · slices_S3x2x1600000_S1x1x1600000_0_0_0) : (⟨S3x2x1600000, .i32⟩ : BufTy).Contents (Elt F) → (⟨S1x1x1600000, .i32⟩ : BufTy).Contents (Elt F)),
    StableHlo.reshape main_v0 main_v1 rfl shapeCasts_S1x1x1600000_S1600000,
    StableHlo.unary main_arg1 main_v2 ((extractStridedSlice S1x1x1600000 ![0, 1, 0] · slices_S3x2x1600000_S1x1x1600000_0_1_0) : (⟨S3x2x1600000, .i32⟩ : BufTy).Contents (Elt F) → (⟨S1x1x1600000, .i32⟩ : BufTy).Contents (Elt F)),
    StableHlo.reshape main_v2 main_v3 rfl shapeCasts_S1x1x1600000_S1600000,
    StableHlo.unary main_arg3 main_v4 ((extractStridedSlice S1x128x64 ![0, 0, 0] · slices_S3x128x64_S1x128x64_0_0_0) : (⟨S3x128x64, .f32⟩ : BufTy).Contents (Elt F) → (⟨S1x128x64, .f32⟩ : BufTy).Contents (Elt F)),
    StableHlo.reshape main_v4 main_v5 rfl shapeCasts_S1x128x64_S128x64,
    StableHlo.unary main_arg4 main_v6 ((extractStridedSlice S1x64 ![0, 0] · slices_S3x64_S1x64_0_0) : (⟨S3x64, .f32⟩ : BufTy).Contents (Elt F) → (⟨S1x64, .f32⟩ : BufTy).Contents (Elt F)),
    StableHlo.reshape main_v6 main_v7 rfl shapeCasts_S1x64_S64,
    StableHlo.unary main_arg7 main_v8 ((extractStridedSlice S1 ![0] · slices_S3_S1_0) : (⟨S3, .f32⟩ : BufTy).Contents (Elt F) → (⟨S1, .f32⟩ : BufTy).Contents (Elt F)),
    StableHlo.reshape main_v8 main_v9 rfl shapeCasts_S1_S_,
    StableHlo.binary main_arg0 main_v5 main_v10 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_v7 main_v11 (broadcastInDim S1x64 ![1] bcast_S64_S1x64_1 : (⟨S64, .f32⟩ : BufTy).Contents (Elt F) → (⟨S1x64, .f32⟩ : BufTy).Contents (Elt F)),
    StableHlo.unary main_v11 main_v12 (broadcastInDim S100000x64 ![0, 1] bcast_S1x64_S100000x64_0_1 : (⟨S1x64, .f32⟩ : BufTy).Contents (Elt F) → (⟨S100000x64, .f32⟩ : BufTy).Contents (Elt F)),
    StableHlo.binary main_v10 main_v12 main_v13 (addf : (⟨S100000x64, .f32⟩ : BufTy).Contents (Elt F) → (⟨S100000x64, .f32⟩ : BufTy).Contents (Elt F) → (⟨S100000x64, .f32⟩ : BufTy).Contents (Elt F)),
    StableHlo.nullary main_cst (constant S_ .f32 0x3F800000#32),
    StableHlo.unary main_cst main_v14 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v15 (broadcastInDim S100000 ![] bcast_S_S100000 : (⟨S_, .f32⟩ : BufTy).Contents (Elt F) → (⟨S100000, .f32⟩ : BufTy).Contents (Elt F)),
    StableHlo.unary main_v3 main_v16 (broadcastInDim S1600000x1 ![0] bcast_S1600000_S1600000x1_0 : (⟨S1600000, .i32⟩ : BufTy).Contents (Elt F) → (⟨S1600000x1, .i32⟩ : BufTy).Contents (Elt F)),
    StableHlo.ternary main_v15 main_v16 main_v14 main_v17 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x3F800000#32),
    StableHlo.unary main_cst_1 main_v18 (broadcastInDim S100000 ![] bcast_S_S100000 : (⟨S_, .f32⟩ : BufTy).Contents (Elt F) → (⟨S100000, .f32⟩ : BufTy).Contents (Elt F)),
    StableHlo.binary main_v17 main_v18 main_v19 (maximumf : (⟨S100000, .f32⟩ : BufTy).Contents (Elt F) → (⟨S100000, .f32⟩ : BufTy).Contents (Elt F) → (⟨S100000, .f32⟩ : BufTy).Contents (Elt F)),
    StableHlo.unary main_v19 main_v20 (Host.rsqrt : (⟨S100000, .f32⟩ : BufTy).Contents (Elt F) → (⟨S100000, .f32⟩ : BufTy).Contents (Elt F)),
    StableHlo.nullary main_c (constantI S_ 32 0#32),
    StableHlo.unary main_c main_v21 (broadcastInDim S1600000 ![] bcast_S_S1600000 : (⟨S_, .i32⟩ : BufTy).Contents (Elt F) → (⟨S1600000, .i32⟩ : BufTy).Contents (Elt F)),
    StableHlo.binary main_v1 main_v21 main_v22 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v23 (broadcastInDim S1600000 ![] bcast_S_S1600000 : (⟨S_, .i32⟩ : BufTy).Contents (Elt F) → (⟨S1600000, .i32⟩ : BufTy).Contents (Elt F)),
    StableHlo.binary main_v1 main_v23 main_v24 (addi : (⟨S1600000, .i32⟩ : BufTy).Contents (Elt F) → (⟨S1600000, .i32⟩ : BufTy).Contents (Elt F) → (⟨S1600000, .i32⟩ : BufTy).Contents (Elt F)),
    StableHlo.ternary main_v22 main_v24 main_v1 main_v25 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v25 main_v26 (broadcastInDim S1600000x1 ![0] bcast_S1600000_S1600000x1_0 : (⟨S1600000, .i32⟩ : BufTy).Contents (Elt F) → (⟨S1600000x1, .i32⟩ : BufTy).Contents (Elt F)),
    StableHlo.binary main_v20 main_v26 main_v27 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_3 (constantI S_ 32 0#32),
    StableHlo.unary main_c_3 main_v28 (broadcastInDim S1600000 ![] bcast_S_S1600000 : (⟨S_, .i32⟩ : BufTy).Contents (Elt F) → (⟨S1600000, .i32⟩ : BufTy).Contents (Elt F)),
    StableHlo.binary main_v3 main_v28 main_v29 (cmpi .slt : (⟨S1600000, .i32⟩ : BufTy).Contents (Elt F) → (⟨S1600000, .i32⟩ : BufTy).Contents (Elt F) → (⟨S1600000, .i1⟩ : BufTy).Contents (Elt F)),
    StableHlo.nullary main_c_4 (constantI S_ 32 100000#32),
    StableHlo.unary main_c_4 main_v30 (broadcastInDim S1600000 ![] bcast_S_S1600000 : (⟨S_, .i32⟩ : BufTy).Contents (Elt F) → (⟨S1600000, .i32⟩ : BufTy).Contents (Elt F)),
    StableHlo.binary main_v3 main_v30 main_v31 (addi : (⟨S1600000, .i32⟩ : BufTy).Contents (Elt F) → (⟨S1600000, .i32⟩ : BufTy).Contents (Elt F) → (⟨S1600000, .i32⟩ : BufTy).Contents (Elt F)),
    StableHlo.ternary main_v29 main_v31 main_v3 main_v32 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v32 main_v33 (broadcastInDim S1600000x1 ![0] bcast_S1600000_S1600000x1_0 : (⟨S1600000, .i32⟩ : BufTy).Contents (Elt F) → (⟨S1600000x1, .i32⟩ : BufTy).Contents (Elt F)),
    StableHlo.binary main_v20 main_v33 main_v34 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v27 main_v34 main_v35 (mulf : (⟨S1600000, .f32⟩ : BufTy).Contents (Elt F) → (⟨S1600000, .f32⟩ : BufTy).Contents (Elt F) → (⟨S1600000, .f32⟩ : BufTy).Contents (Elt F)),
    StableHlo.nullary main_c_5 (constantI S_ 32 0#32),
    StableHlo.unary main_c_5 main_v36 (broadcastInDim S1600000 ![] bcast_S_S1600000 : (⟨S_, .i32⟩ : BufTy).Contents (Elt F) → (⟨S1600000, .i32⟩ : BufTy).Contents (Elt F)),
    StableHlo.binary main_v1 main_v36 main_v37 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v38 (broadcastInDim S1600000 ![] bcast_S_S1600000 : (⟨S_, .i32⟩ : BufTy).Contents (Elt F) → (⟨S1600000, .i32⟩ : BufTy).Contents (Elt F)),
    StableHlo.binary main_v1 main_v38 main_v39 (addi : (⟨S1600000, .i32⟩ : BufTy).Contents (Elt F) → (⟨S1600000, .i32⟩ : BufTy).Contents (Elt F) → (⟨S1600000, .i32⟩ : BufTy).Contents (Elt F)),
    StableHlo.ternary main_v37 main_v39 main_v1 main_v40 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v40 main_v41 (broadcastInDim S1600000x1 ![0] bcast_S1600000_S1600000x1_0 : (⟨S1600000, .i32⟩ : BufTy).Contents (Elt F) → (⟨S1600000x1, .i32⟩ : BufTy).Contents (Elt F)),
    StableHlo.binary main_v13 main_v41 main_v42 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v35 main_v43 (broadcastInDim S1600000x1 ![0] bcast_S1600000_S1600000x1_0 : (⟨S1600000, .f32⟩ : BufTy).Contents (Elt F) → (⟨S1600000x1, .f32⟩ : BufTy).Contents (Elt F)),
    StableHlo.unary main_v43 main_v44 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v42 main_v44 main_v45 (mulf : (⟨S1600000x64, .f32⟩ : BufTy).Contents (Elt F) → (⟨S1600000x64, .f32⟩ : BufTy).Contents (Elt F) → (⟨S1600000x64, .f32⟩ : BufTy).Contents (Elt F)),
    StableHlo.nullary main_cst_7 (constant S_ .f32 0x00000000#32),
    StableHlo.unary main_cst_7 main_v46 (broadcastInDim S100000x64 ![] bcast_S_S100000x64 : (⟨S_, .f32⟩ : BufTy).Contents (Elt F) → (⟨S100000x64, .f32⟩ : BufTy).Contents (Elt F)),
    StableHlo.unary main_v3 main_v47 (broadcastInDim S1600000x1 ![0] bcast_S1600000_S1600000x1_0 : (⟨S1600000, .i32⟩ : BufTy).Contents (Elt F) → (⟨S1600000x1, .i32⟩ : BufTy).Contents (Elt F)),
    StableHlo.ternary main_v46 main_v47 main_v45 main_v48 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v9 main_v49 (broadcastInDim S100000x64 ![] bcast_S_S100000x64 : (⟨S_, .f32⟩ : BufTy).Contents (Elt F) → (⟨S100000x64, .f32⟩ : BufTy).Contents (Elt F)) ]

set_option maxHeartbeats 16000000 in
theorem part0_eq (c : Dev nD) : main_part0 (F := F) c = seq ops0 := by
  simp only [main_part0, seq, bind_assoc, pure_bind]
  try rfl

theorem ops0_sub : (ops0 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub ..⟩

theorem ops0_fresh : (ops0 : List (HloOp τ sig (Elt F))).Forall fun op => op.fresh = ∅ := by
  simp only [List.Forall]; repeat' constructor

/-- The references the window's operations write. -/
abbrev ops0_W : List (Ref sig .tc) := [main_v0, main_v1, main_v2, main_v3, main_v4, main_v5, main_v6, main_v7, main_v8, main_v9, main_v10, main_v11, main_v12, main_v13, main_cst, main_v14, main_cst_0, main_v15, main_v16, main_v17, main_cst_1, main_v18, main_v19, main_v20, main_c, main_v21, main_v22, main_c_2, main_v23, main_v24, main_v25, main_v26, main_v27, main_c_3, main_v28, main_v29, main_c_4, main_v30, main_v31, main_v32, main_v33, main_v34, main_v35, main_c_5, main_v36, main_v37, main_c_6, main_v38, main_v39, main_v40, main_v41, main_v42, main_v43, main_v44, main_v45, main_cst_7, main_v46, main_v47, main_v48, main_v49]

set_option maxHeartbeats 16000000 in
theorem ops0_writes : (ops0 : List (HloOp τ sig (Elt F))).Forall fun op => op.writes ⊆ (ops0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

end Cert.ReferenceIdeal.RefRun

end
-- ==== Proof.RefPart1.lean ====
/-
  Window 1 of the reference program as a straight line of 83 host operations: the outlined functions it calls
  unfolded at their calls and the sequencing re-associated. Every operation names TensorCore buffers only, allocates
  none, and writes one buffer of its own, listed here; no argument array is among them.
-/
import proofs.«140713_j1864015806535_2_alg».proof.Proof.Gen.ReferenceIdeal
import Idealize.ShloMosaic.Lib.StableHlo.Run

set_option maxRecDepth 65536

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
abbrev ops1 : List (HloOp τ sig (Elt F)) :=
  [ StableHlo.binary main_v49 main_v48 main_v50 (mulf : (⟨S100000x64, .f32⟩ : BufTy).Contents (Elt F) → (⟨S100000x64, .f32⟩ : BufTy).Contents (Elt F) → (⟨S100000x64, .f32⟩ : BufTy).Contents (Elt F)),
    StableHlo.nullary main_cst_8 (constant S_ .f32 0x3F800000#32),
    StableHlo.binary main_cst_8 main_v9 main_v51 (subf : (⟨S_, .f32⟩ : BufTy).Contents (Elt F) → (⟨S_, .f32⟩ : BufTy).Contents (Elt F) → (⟨S_, .f32⟩ : BufTy).Contents (Elt F)),
    StableHlo.unary main_v51 main_v52 (broadcastInDim S100000x64 ![] bcast_S_S100000x64 : (⟨S_, .f32⟩ : BufTy).Contents (Elt F) → (⟨S100000x64, .f32⟩ : BufTy).Contents (Elt F)),
    StableHlo.binary main_v52 main_v13 main_v53 (mulf : (⟨S100000x64, .f32⟩ : BufTy).Contents (Elt F) → (⟨S100000x64, .f32⟩ : BufTy).Contents (Elt F) → (⟨S100000x64, .f32⟩ : BufTy).Contents (Elt F)),
    StableHlo.binary main_v50 main_v53 main_v54 (addf : (⟨S100000x64, .f32⟩ : BufTy).Contents (Elt F) → (⟨S100000x64, .f32⟩ : BufTy).Contents (Elt F) → (⟨S100000x64, .f32⟩ : BufTy).Contents (Elt F)),
    StableHlo.unary main_arg9 main_v55 ((extractStridedSlice S1x64 ![0, 0] · slices_S3x64_S1x64_0_0) : (⟨S3x64, .f32⟩ : BufTy).Contents (Elt F) → (⟨S1x64, .f32⟩ : BufTy).Contents (Elt F)),
    StableHlo.reshape main_v55 main_v56 rfl shapeCasts_S1x64_S64,
    StableHlo.unary main_arg10 main_v57 ((extractStridedSlice S1x64 ![0, 0] · slices_S3x64_S1x64_0_0) : (⟨S3x64, .f32⟩ : BufTy).Contents (Elt F) → (⟨S1x64, .f32⟩ : BufTy).Contents (Elt F)),
    StableHlo.reshape main_v57 main_v58 rfl shapeCasts_S1x64_S64,
    StableHlo.nullary main_cst_9 (constant S_ .f32 0x00000000#32),
    StableHlo.binary main_v54 main_cst_9 main_v59 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_10 (constant S_ .f32 0x47C35000#32),
    StableHlo.unary main_cst_10 main_v60 (broadcastInDim S64 ![] bcast_S_S64 : (⟨S_, .f32⟩ : BufTy).Contents (Elt F) → (⟨S64, .f32⟩ : BufTy).Contents (Elt F)),
    StableHlo.binary main_v59 main_v60 main_v61 (Host.divf : (⟨S64, .f32⟩ : BufTy).Contents (Elt F) → (⟨S64, .f32⟩ : BufTy).Contents (Elt F) → (⟨S64, .f32⟩ : BufTy).Contents (Elt F)),
    StableHlo.nullary main_c_11 (constantI S_ 32 0#32),
    StableHlo.TRef.nullary main_call0.cst (constant S_ .f32 0x00000000#32),
    StableHlo.TRef.binary (.of main_v54 : StableHlo.TRef sig ⟨S100000x64, .f32⟩) main_call0.cst main_call0.v0 (fun x v => Host.reduceAdd x v reducesTo_S100000x64_S64_d0 h_S_),
    StableHlo.TRef.unary main_call0.v0 main_call0.v1 (broadcastInDim S1x64 ![1] bcast_S64_S1x64_1),
    StableHlo.TRef.nullary main_call0.cst_0 (constant S_ .f32 0x47C35000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S100000x64 ![0, 1] bcast_S1x64_S100000x64_0_1),
    StableHlo.TRef.binary (.of main_v54 : StableHlo.TRef sig ⟨S100000x64, .f32⟩) main_call0.v4 main_call0.v5 subf,
    StableHlo.TRef.binary main_call0.v5 main_call0.v5 main_call0.v6 mulf,
    StableHlo.TRef.unary (.of main_c_11 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v61 main_v63 (broadcastInDim S1x64 ![1] bcast_S64_S1x64_1 : (⟨S64, .f32⟩ : BufTy).Contents (Elt F) → (⟨S1x64, .f32⟩ : BufTy).Contents (Elt F)),
    StableHlo.unary main_v63 main_v64 (broadcastInDim S100000x64 ![0, 1] bcast_S1x64_S100000x64_0_1 : (⟨S1x64, .f32⟩ : BufTy).Contents (Elt F) → (⟨S100000x64, .f32⟩ : BufTy).Contents (Elt F)),
    StableHlo.binary main_v54 main_v64 main_v65 (subf : (⟨S100000x64, .f32⟩ : BufTy).Contents (Elt F) → (⟨S100000x64, .f32⟩ : BufTy).Contents (Elt F) → (⟨S100000x64, .f32⟩ : BufTy).Contents (Elt F)),
    StableHlo.nullary main_cst_12 (constant S_ .f32 0x3727C5AC#32),
    StableHlo.unary main_cst_12 main_v66 (broadcastInDim S64 ![] bcast_S_S64 : (⟨S_, .f32⟩ : BufTy).Contents (Elt F) → (⟨S64, .f32⟩ : BufTy).Contents (Elt F)),
    StableHlo.binary main_v62 main_v66 main_v67 (addf : (⟨S64, .f32⟩ : BufTy).Contents (Elt F) → (⟨S64, .f32⟩ : BufTy).Contents (Elt F) → (⟨S64, .f32⟩ : BufTy).Contents (Elt F)),
    StableHlo.unary main_v67 main_v68 (Host.rsqrt : (⟨S64, .f32⟩ : BufTy).Contents (Elt F) → (⟨S64, .f32⟩ : BufTy).Contents (Elt F)),
    StableHlo.unary main_v68 main_v69 (broadcastInDim S1x64 ![1] bcast_S64_S1x64_1 : (⟨S64, .f32⟩ : BufTy).Contents (Elt F) → (⟨S1x64, .f32⟩ : BufTy).Contents (Elt F)),
    StableHlo.unary main_v69 main_v70 (broadcastInDim S100000x64 ![0, 1] bcast_S1x64_S100000x64_0_1 : (⟨S1x64, .f32⟩ : BufTy).Contents (Elt F) → (⟨S100000x64, .f32⟩ : BufTy).Contents (Elt F)),
    StableHlo.binary main_v65 main_v70 main_v71 (mulf : (⟨S100000x64, .f32⟩ : BufTy).Contents (Elt F) → (⟨S100000x64, .f32⟩ : BufTy).Contents (Elt F) → (⟨S100000x64, .f32⟩ : BufTy).Contents (Elt F)),
    StableHlo.unary main_v56 main_v72 (broadcastInDim S1x64 ![1] bcast_S64_S1x64_1 : (⟨S64, .f32⟩ : BufTy).Contents (Elt F) → (⟨S1x64, .f32⟩ : BufTy).Contents (Elt F)),
    StableHlo.unary main_v72 main_v73 (broadcastInDim S100000x64 ![0, 1] bcast_S1x64_S100000x64_0_1 : (⟨S1x64, .f32⟩ : BufTy).Contents (Elt F) → (⟨S100000x64, .f32⟩ : BufTy).Contents (Elt F)),
    StableHlo.binary main_v71 main_v73 main_v74 (mulf : (⟨S100000x64, .f32⟩ : BufTy).Contents (Elt F) → (⟨S100000x64, .f32⟩ : BufTy).Contents (Elt F) → (⟨S100000x64, .f32⟩ : BufTy).Contents (Elt F)),
    StableHlo.unary main_v58 main_v75 (broadcastInDim S1x64 ![1] bcast_S64_S1x64_1 : (⟨S64, .f32⟩ : BufTy).Contents (Elt F) → (⟨S1x64, .f32⟩ : BufTy).Contents (Elt F)),
    StableHlo.unary main_v75 main_v76 (broadcastInDim S100000x64 ![0, 1] bcast_S1x64_S100000x64_0_1 : (⟨S1x64, .f32⟩ : BufTy).Contents (Elt F) → (⟨S100000x64, .f32⟩ : BufTy).Contents (Elt F)),
    StableHlo.binary main_v74 main_v76 main_v77 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (.of main_v77 : StableHlo.TRef sig ⟨S100000x64, .f32⟩) main_call1.v0 main_call1.v1 maximumf,
    StableHlo.unary main_arg5 main_v79 ((extractStridedSlice S1x64x32 ![0, 0, 0] · slices_S3x64x32_S1x64x32_0_0_0) : (⟨S3x64x32, .f32⟩ : BufTy).Contents (Elt F) → (⟨S1x64x32, .f32⟩ : BufTy).Contents (Elt F)),
    StableHlo.reshape main_v79 main_v80 rfl shapeCasts_S1x64x32_S64x32,
    StableHlo.unary main_arg6 main_v81 ((extractStridedSlice S1x32 ![0, 0] · slices_S3x32_S1x32_0_0) : (⟨S3x32, .f32⟩ : BufTy).Contents (Elt F) → (⟨S1x32, .f32⟩ : BufTy).Contents (Elt F)),
    StableHlo.reshape main_v81 main_v82 rfl shapeCasts_S1x32_S32,
    StableHlo.unary main_arg8 main_v83 ((extractStridedSlice S1 ![0] · slices_S3_S1_0) : (⟨S3, .f32⟩ : BufTy).Contents (Elt F) → (⟨S1, .f32⟩ : BufTy).Contents (Elt F)),
    StableHlo.reshape main_v83 main_v84 rfl shapeCasts_S1_S_,
    StableHlo.binary main_v78 main_v80 main_v85 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_v82 main_v86 (broadcastInDim S1x32 ![1] bcast_S32_S1x32_1 : (⟨S32, .f32⟩ : BufTy).Contents (Elt F) → (⟨S1x32, .f32⟩ : BufTy).Contents (Elt F)),
    StableHlo.unary main_v86 main_v87 (broadcastInDim S100000x32 ![0, 1] bcast_S1x32_S100000x32_0_1 : (⟨S1x32, .f32⟩ : BufTy).Contents (Elt F) → (⟨S100000x32, .f32⟩ : BufTy).Contents (Elt F)),
    StableHlo.binary main_v85 main_v87 main_v88 (addf : (⟨S100000x32, .f32⟩ : BufTy).Contents (Elt F) → (⟨S100000x32, .f32⟩ : BufTy).Contents (Elt F) → (⟨S100000x32, .f32⟩ : BufTy).Contents (Elt F)),
    StableHlo.nullary main_cst_13 (constant S_ .f32 0x3F800000#32),
    StableHlo.unary main_cst_13 main_v89 (broadcastInDim S1600000 ![] bcast_S_S1600000 : (⟨S_, .f32⟩ : BufTy).Contents (Elt F) → (⟨S1600000, .f32⟩ : BufTy).Contents (Elt F)),
    StableHlo.nullary main_cst_14 (constant S_ .f32 0x00000000#32),
    StableHlo.unary main_cst_14 main_v90 (broadcastInDim S100000 ![] bcast_S_S100000 : (⟨S_, .f32⟩ : BufTy).Contents (Elt F) → (⟨S100000, .f32⟩ : BufTy).Contents (Elt F)),
    StableHlo.unary main_v3 main_v91 (broadcastInDim S1600000x1 ![0] bcast_S1600000_S1600000x1_0 : (⟨S1600000, .i32⟩ : BufTy).Contents (Elt F) → (⟨S1600000x1, .i32⟩ : BufTy).Contents (Elt F)),
    StableHlo.ternary main_v90 main_v91 main_v89 main_v92 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_15 (constant S_ .f32 0x3F800000#32),
    StableHlo.unary main_cst_15 main_v93 (broadcastInDim S100000 ![] bcast_S_S100000 : (⟨S_, .f32⟩ : BufTy).Contents (Elt F) → (⟨S100000, .f32⟩ : BufTy).Contents (Elt F)),
    StableHlo.binary main_v92 main_v93 main_v94 (maximumf : (⟨S100000, .f32⟩ : BufTy).Contents (Elt F) → (⟨S100000, .f32⟩ : BufTy).Contents (Elt F) → (⟨S100000, .f32⟩ : BufTy).Contents (Elt F)),
    StableHlo.unary main_v94 main_v95 (Host.rsqrt : (⟨S100000, .f32⟩ : BufTy).Contents (Elt F) → (⟨S100000, .f32⟩ : BufTy).Contents (Elt F)),
    StableHlo.nullary main_c_16 (constantI S_ 32 0#32),
    StableHlo.unary main_c_16 main_v96 (broadcastInDim S1600000 ![] bcast_S_S1600000 : (⟨S_, .i32⟩ : BufTy).Contents (Elt F) → (⟨S1600000, .i32⟩ : BufTy).Contents (Elt F)),
    StableHlo.binary main_v1 main_v96 main_v97 (cmpi .slt : (⟨S1600000, .i32⟩ : BufTy).Contents (Elt F) → (⟨S1600000, .i32⟩ : BufTy).Contents (Elt F) → (⟨S1600000, .i1⟩ : BufTy).Contents (Elt F)),
    StableHlo.nullary main_c_17 (constantI S_ 32 100000#32),
    StableHlo.unary main_c_17 main_v98 (broadcastInDim S1600000 ![] bcast_S_S1600000 : (⟨S_, .i32⟩ : BufTy).Contents (Elt F) → (⟨S1600000, .i32⟩ : BufTy).Contents (Elt F)),
    StableHlo.binary main_v1 main_v98 main_v99 (addi : (⟨S1600000, .i32⟩ : BufTy).Contents (Elt F) → (⟨S1600000, .i32⟩ : BufTy).Contents (Elt F) → (⟨S1600000, .i32⟩ : BufTy).Contents (Elt F)) ]

set_option maxHeartbeats 16000000 in
theorem part1_eq (c : Dev nD) : main_part1 (F := F) c = seq ops1 := by
  simp only [main_part1, fn_var.body, fn_where.body, fn_relu.body, seq, bind_assoc, pure_bind]
  try rfl

theorem ops1_sub : (ops1 : List (HloOp τ sig (Elt F))).Forall fun op => op.bufs ⊆ tcRefs τ sig :=
  ⟨binary_bufs_sub .., nullary_bufs_sub .., binary_bufs_sub .., unary_bufs_sub .., binary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub ..⟩

theorem ops1_fresh : (ops1 : List (HloOp τ sig (Elt F))).Forall fun op => op.fresh = ∅ := by
  simp only [List.Forall]; repeat' constructor

/-- The references the window's operations write. -/
abbrev ops1_W : List (Ref sig .tc) := [main_v50, main_cst_8, main_v51, main_v52, main_v53, main_v54, main_v55, main_v56, main_v57, main_v58, main_cst_9, main_v59, main_cst_10, main_v60, main_v61, main_c_11, (main_call0.cst).ref, (main_call0.v0).ref, (main_call0.v1).ref, (main_call0.cst_0).ref, (main_call0.v2).ref, (main_call0.v3).ref, (main_call0.v4).ref, (main_call0.v5).ref, (main_call0.v6).ref, (main_call0.v7).ref, (main_call0.cst_1).ref, (main_call0.v8).ref, (main_call0.cst_2).ref, (main_call0.v9).ref, (main_call0.v10).ref, (main_call0.v11).ref, (main_call0.cst_3).ref, (main_call0.v12).ref, (main_call0.cst_4).ref, (main_call0.call0.v0).ref, (main_call0.call0.v1).ref, (main_call0.call0.v2).ref, main_v63, main_v64, main_v65, main_cst_12, main_v66, main_v67, main_v68, main_v69, main_v70, main_v71, main_v72, main_v73, main_v74, main_v75, main_v76, main_v77, (main_call1.cst).ref, (main_call1.v0).ref, (main_call1.v1).ref, main_v79, main_v80, main_v81, main_v82, main_v83, main_v84, main_v85, main_v86, main_v87, main_v88, main_cst_13, main_v89, main_cst_14, main_v90, main_v91, main_v92, main_cst_15, main_v93, main_v94, main_v95, main_c_16, main_v96, main_v97, main_c_17, main_v98, main_v99]

set_option maxHeartbeats 16000000 in
theorem ops1_writes : (ops1 : List (HloOp τ sig (Elt F))).Forall fun op => op.writes ⊆ (ops1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

end Cert.ReferenceIdeal.RefRun

end
-- ==== Proof.RefPart2.lean ====
/-
  Window 2 of the reference program as a straight line of 81 host operations: the outlined functions it calls
  unfolded at their calls and the sequencing re-associated. Every operation names TensorCore buffers only, allocates
  none, and writes one buffer of its own, listed here; no argument array is among them.
-/
import proofs.«140713_j1864015806535_2_alg».proof.Proof.Gen.ReferenceIdeal
import Idealize.ShloMosaic.Lib.StableHlo.Run

set_option maxRecDepth 65536

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
abbrev ops2 : List (HloOp τ sig (Elt F)) :=
  [ StableHlo.ternary main_v97 main_v99 main_v1 main_v100 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v100 main_v101 (broadcastInDim S1600000x1 ![0] bcast_S1600000_S1600000x1_0 : (⟨S1600000, .i32⟩ : BufTy).Contents (Elt F) → (⟨S1600000x1, .i32⟩ : BufTy).Contents (Elt F)),
    StableHlo.binary main_v95 main_v101 main_v102 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_18 (constantI S_ 32 0#32),
    StableHlo.unary main_c_18 main_v103 (broadcastInDim S1600000 ![] bcast_S_S1600000 : (⟨S_, .i32⟩ : BufTy).Contents (Elt F) → (⟨S1600000, .i32⟩ : BufTy).Contents (Elt F)),
    StableHlo.binary main_v3 main_v103 main_v104 (cmpi .slt : (⟨S1600000, .i32⟩ : BufTy).Contents (Elt F) → (⟨S1600000, .i32⟩ : BufTy).Contents (Elt F) → (⟨S1600000, .i1⟩ : BufTy).Contents (Elt F)),
    StableHlo.nullary main_c_19 (constantI S_ 32 100000#32),
    StableHlo.unary main_c_19 main_v105 (broadcastInDim S1600000 ![] bcast_S_S1600000 : (⟨S_, .i32⟩ : BufTy).Contents (Elt F) → (⟨S1600000, .i32⟩ : BufTy).Contents (Elt F)),
    StableHlo.binary main_v3 main_v105 main_v106 (addi : (⟨S1600000, .i32⟩ : BufTy).Contents (Elt F) → (⟨S1600000, .i32⟩ : BufTy).Contents (Elt F) → (⟨S1600000, .i32⟩ : BufTy).Contents (Elt F)),
    StableHlo.ternary main_v104 main_v106 main_v3 main_v107 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v107 main_v108 (broadcastInDim S1600000x1 ![0] bcast_S1600000_S1600000x1_0 : (⟨S1600000, .i32⟩ : BufTy).Contents (Elt F) → (⟨S1600000x1, .i32⟩ : BufTy).Contents (Elt F)),
    StableHlo.binary main_v95 main_v108 main_v109 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v102 main_v109 main_v110 (mulf : (⟨S1600000, .f32⟩ : BufTy).Contents (Elt F) → (⟨S1600000, .f32⟩ : BufTy).Contents (Elt F) → (⟨S1600000, .f32⟩ : BufTy).Contents (Elt F)),
    StableHlo.nullary main_c_20 (constantI S_ 32 0#32),
    StableHlo.unary main_c_20 main_v111 (broadcastInDim S1600000 ![] bcast_S_S1600000 : (⟨S_, .i32⟩ : BufTy).Contents (Elt F) → (⟨S1600000, .i32⟩ : BufTy).Contents (Elt F)),
    StableHlo.binary main_v1 main_v111 main_v112 (cmpi .slt : (⟨S1600000, .i32⟩ : BufTy).Contents (Elt F) → (⟨S1600000, .i32⟩ : BufTy).Contents (Elt F) → (⟨S1600000, .i1⟩ : BufTy).Contents (Elt F)),
    StableHlo.nullary main_c_21 (constantI S_ 32 100000#32),
    StableHlo.unary main_c_21 main_v113 (broadcastInDim S1600000 ![] bcast_S_S1600000 : (⟨S_, .i32⟩ : BufTy).Contents (Elt F) → (⟨S1600000, .i32⟩ : BufTy).Contents (Elt F)),
    StableHlo.binary main_v1 main_v113 main_v114 (addi : (⟨S1600000, .i32⟩ : BufTy).Contents (Elt F) → (⟨S1600000, .i32⟩ : BufTy).Contents (Elt F) → (⟨S1600000, .i32⟩ : BufTy).Contents (Elt F)),
    StableHlo.ternary main_v112 main_v114 main_v1 main_v115 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v115 main_v116 (broadcastInDim S1600000x1 ![0] bcast_S1600000_S1600000x1_0 : (⟨S1600000, .i32⟩ : BufTy).Contents (Elt F) → (⟨S1600000x1, .i32⟩ : BufTy).Contents (Elt F)),
    StableHlo.binary main_v88 main_v116 main_v117 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.unary main_v110 main_v118 (broadcastInDim S1600000x1 ![0] bcast_S1600000_S1600000x1_0 : (⟨S1600000, .f32⟩ : BufTy).Contents (Elt F) → (⟨S1600000x1, .f32⟩ : BufTy).Contents (Elt F)),
    StableHlo.unary main_v118 main_v119 (broadcastInDim S1600000x32 ![0, 1] bcast_S1600000x1_S1600000x32_0_1 : (⟨S1600000x1, .f32⟩ : BufTy).Contents (Elt F) → (⟨S1600000x32, .f32⟩ : BufTy).Contents (Elt F)),
    StableHlo.binary main_v117 main_v119 main_v120 (mulf : (⟨S1600000x32, .f32⟩ : BufTy).Contents (Elt F) → (⟨S1600000x32, .f32⟩ : BufTy).Contents (Elt F) → (⟨S1600000x32, .f32⟩ : BufTy).Contents (Elt F)),
    StableHlo.nullary main_cst_22 (constant S_ .f32 0x00000000#32),
    StableHlo.unary main_cst_22 main_v121 (broadcastInDim S100000x32 ![] bcast_S_S100000x32 : (⟨S_, .f32⟩ : BufTy).Contents (Elt F) → (⟨S100000x32, .f32⟩ : BufTy).Contents (Elt F)),
    StableHlo.unary main_v3 main_v122 (broadcastInDim S1600000x1 ![0] bcast_S1600000_S1600000x1_0 : (⟨S1600000, .i32⟩ : BufTy).Contents (Elt F) → (⟨S1600000x1, .i32⟩ : BufTy).Contents (Elt F)),
    StableHlo.ternary main_v121 main_v122 main_v120 main_v123 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    StableHlo.unary main_v84 main_v124 (broadcastInDim S100000x32 ![] bcast_S_S100000x32 : (⟨S_, .f32⟩ : BufTy).Contents (Elt F) → (⟨S100000x32, .f32⟩ : BufTy).Contents (Elt F)),
    StableHlo.binary main_v124 main_v123 main_v125 (mulf : (⟨S100000x32, .f32⟩ : BufTy).Contents (Elt F) → (⟨S100000x32, .f32⟩ : BufTy).Contents (Elt F) → (⟨S100000x32, .f32⟩ : BufTy).Contents (Elt F)),
    StableHlo.nullary main_cst_23 (constant S_ .f32 0x3F800000#32),
    StableHlo.binary main_cst_23 main_v84 main_v126 (subf : (⟨S_, .f32⟩ : BufTy).Contents (Elt F) → (⟨S_, .f32⟩ : BufTy).Contents (Elt F) → (⟨S_, .f32⟩ : BufTy).Contents (Elt F)),
    StableHlo.unary main_v126 main_v127 (broadcastInDim S100000x32 ![] bcast_S_S100000x32 : (⟨S_, .f32⟩ : BufTy).Contents (Elt F) → (⟨S100000x32, .f32⟩ : BufTy).Contents (Elt F)),
    StableHlo.binary main_v127 main_v88 main_v128 (mulf : (⟨S100000x32, .f32⟩ : BufTy).Contents (Elt F) → (⟨S100000x32, .f32⟩ : BufTy).Contents (Elt F) → (⟨S100000x32, .f32⟩ : BufTy).Contents (Elt F)),
    StableHlo.binary main_v125 main_v128 main_v129 (addf : (⟨S100000x32, .f32⟩ : BufTy).Contents (Elt F) → (⟨S100000x32, .f32⟩ : BufTy).Contents (Elt F) → (⟨S100000x32, .f32⟩ : BufTy).Contents (Elt F)),
    StableHlo.unary main_arg11 main_v130 ((extractStridedSlice S1x32 ![0, 0] · slices_S3x32_S1x32_0_0) : (⟨S3x32, .f32⟩ : BufTy).Contents (Elt F) → (⟨S1x32, .f32⟩ : BufTy).Contents (Elt F)),
    StableHlo.reshape main_v130 main_v131 rfl shapeCasts_S1x32_S32,
    StableHlo.unary main_arg12 main_v132 ((extractStridedSlice S1x32 ![0, 0] · slices_S3x32_S1x32_0_0) : (⟨S3x32, .f32⟩ : BufTy).Contents (Elt F) → (⟨S1x32, .f32⟩ : BufTy).Contents (Elt F)),
    StableHlo.reshape main_v132 main_v133 rfl shapeCasts_S1x32_S32,
    StableHlo.nullary main_cst_24 (constant S_ .f32 0x00000000#32),
    StableHlo.binary main_v129 main_cst_24 main_v134 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.nullary main_cst_25 (constant S_ .f32 0x47C35000#32),
    StableHlo.unary main_cst_25 main_v135 (broadcastInDim S32 ![] bcast_S_S32 : (⟨S_, .f32⟩ : BufTy).Contents (Elt F) → (⟨S32, .f32⟩ : BufTy).Contents (Elt F)),
    StableHlo.binary main_v134 main_v135 main_v136 (Host.divf : (⟨S32, .f32⟩ : BufTy).Contents (Elt F) → (⟨S32, .f32⟩ : BufTy).Contents (Elt F) → (⟨S32, .f32⟩ : BufTy).Contents (Elt F)),
    StableHlo.nullary main_c_26 (constantI S_ 32 0#32),
    StableHlo.TRef.nullary main_call2.cst (constant S_ .f32 0x00000000#32),
    StableHlo.TRef.binary (.of main_v129 : StableHlo.TRef sig ⟨S100000x32, .f32⟩) main_call2.cst main_call2.v0 (fun x v => Host.reduceAdd x v reducesTo_S100000x32_S32_d0 h_S_),
    StableHlo.TRef.unary main_call2.v0 main_call2.v1 (broadcastInDim S1x32 ![1] bcast_S32_S1x32_1),
    StableHlo.TRef.nullary main_call2.cst_0 (constant S_ .f32 0x47C35000#32),
    StableHlo.TRef.unary main_call2.cst_0 main_call2.v2 (broadcastInDim S1x32 ![] bcast_S_S1x32),
    StableHlo.TRef.binary main_call2.v1 main_call2.v2 main_call2.v3 Host.divf,
    StableHlo.TRef.unary main_call2.v3 main_call2.v4 (broadcastInDim S100000x32 ![0, 1] bcast_S1x32_S100000x32_0_1),
    StableHlo.TRef.binary (.of main_v129 : StableHlo.TRef sig ⟨S100000x32, .f32⟩) main_call2.v4 main_call2.v5 subf,
    StableHlo.TRef.binary main_call2.v5 main_call2.v5 main_call2.v6 mulf,
    StableHlo.TRef.unary (.of main_c_26 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x32_S32_d0 h_S_),
    StableHlo.TRef.unary main_call2.v8 main_call2.v10 (broadcastInDim S32 ![] bcast_S_S32),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S32 ![] bcast_S_S32),
    StableHlo.TRef.ternary main_call2.v12 main_call2.v11 main_call2.call0.v1 main_call2.call0.v2 (fun p a b => select (broadcastInDim S32 ![] bcast_S_S32 p) a b),
    StableHlo.unary main_v136 main_v138 (broadcastInDim S1x32 ![1] bcast_S32_S1x32_1 : (⟨S32, .f32⟩ : BufTy).Contents (Elt F) → (⟨S1x32, .f32⟩ : BufTy).Contents (Elt F)),
    StableHlo.unary main_v138 main_v139 (broadcastInDim S100000x32 ![0, 1] bcast_S1x32_S100000x32_0_1 : (⟨S1x32, .f32⟩ : BufTy).Contents (Elt F) → (⟨S100000x32, .f32⟩ : BufTy).Contents (Elt F)),
    StableHlo.binary main_v129 main_v139 main_v140 (subf : (⟨S100000x32, .f32⟩ : BufTy).Contents (Elt F) → (⟨S100000x32, .f32⟩ : BufTy).Contents (Elt F) → (⟨S100000x32, .f32⟩ : BufTy).Contents (Elt F)),
    StableHlo.nullary main_cst_27 (constant S_ .f32 0x3727C5AC#32),
    StableHlo.unary main_cst_27 main_v141 (broadcastInDim S32 ![] bcast_S_S32 : (⟨S_, .f32⟩ : BufTy).Contents (Elt F) → (⟨S32, .f32⟩ : BufTy).Contents (Elt F)),
    StableHlo.binary main_v137 main_v141 main_v142 (addf : (⟨S32, .f32⟩ : BufTy).Contents (Elt F) → (⟨S32, .f32⟩ : BufTy).Contents (Elt F) → (⟨S32, .f32⟩ : BufTy).Contents (Elt F)),
    StableHlo.unary main_v142 main_v143 (Host.rsqrt : (⟨S32, .f32⟩ : BufTy).Contents (Elt F) → (⟨S32, .f32⟩ : BufTy).Contents (Elt F)),
    StableHlo.unary main_v143 main_v144 (broadcastInDim S1x32 ![1] bcast_S32_S1x32_1 : (⟨S32, .f32⟩ : BufTy).Contents (Elt F) → (⟨S1x32, .f32⟩ : BufTy).Contents (Elt F)),
    StableHlo.unary main_v144 main_v145 (broadcastInDim S100000x32 ![0, 1] bcast_S1x32_S100000x32_0_1 : (⟨S1x32, .f32⟩ : BufTy).Contents (Elt F) → (⟨S100000x32, .f32⟩ : BufTy).Contents (Elt F)),
    StableHlo.binary main_v140 main_v145 main_v146 (mulf : (⟨S100000x32, .f32⟩ : BufTy).Contents (Elt F) → (⟨S100000x32, .f32⟩ : BufTy).Contents (Elt F) → (⟨S100000x32, .f32⟩ : BufTy).Contents (Elt F)),
    StableHlo.unary main_v131 main_v147 (broadcastInDim S1x32 ![1] bcast_S32_S1x32_1 : (⟨S32, .f32⟩ : BufTy).Contents (Elt F) → (⟨S1x32, .f32⟩ : BufTy).Contents (Elt F)),
    StableHlo.unary main_v147 main_v148 (broadcastInDim S100000x32 ![0, 1] bcast_S1x32_S100000x32_0_1 : (⟨S1x32, .f32⟩ : BufTy).Contents (Elt F) → (⟨S100000x32, .f32⟩ : BufTy).Contents (Elt F)),
    StableHlo.binary main_v146 main_v148 main_v149 (mulf : (⟨S100000x32, .f32⟩ : BufTy).Contents (Elt F) → (⟨S100000x32, .f32⟩ : BufTy).Contents (Elt F) → (⟨S100000x32, .f32⟩ : BufTy).Contents (Elt F)) ]

set_option maxHeartbeats 16000000 in
theorem part2_eq (c : Dev nD) : main_part2 (F := F) c = seq ops2 := by
  simp only [main_part2, fn_var_0.body, fn_where_1.body, seq, bind_assoc, pure_bind]
  try rfl

theorem ops2_sub : (ops2 : List (HloOp τ sig (Elt F))).Forall fun op => op.bufs ⊆ tcRefs τ sig :=
  ⟨ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., binary_bufs_sub .., nullary_bufs_sub .., binary_bufs_sub .., unary_bufs_sub .., binary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩

theorem ops2_fresh : (ops2 : List (HloOp τ sig (Elt F))).Forall fun op => op.fresh = ∅ := by
  simp only [List.Forall]; repeat' constructor

/-- The references the window's operations write. -/
abbrev ops2_W : List (Ref sig .tc) := [main_v100, main_v101, main_v102, main_c_18, main_v103, main_v104, main_c_19, main_v105, main_v106, main_v107, main_v108, main_v109, main_v110, main_c_20, main_v111, main_v112, main_c_21, main_v113, main_v114, main_v115, main_v116, main_v117, main_v118, main_v119, main_v120, main_cst_22, main_v121, main_v122, main_v123, main_v124, main_v125, main_cst_23, main_v126, main_v127, main_v128, main_v129, main_v130, main_v131, main_v132, main_v133, main_cst_24, main_v134, main_cst_25, main_v135, main_v136, main_c_26, (main_call2.cst).ref, (main_call2.v0).ref, (main_call2.v1).ref, (main_call2.cst_0).ref, (main_call2.v2).ref, (main_call2.v3).ref, (main_call2.v4).ref, (main_call2.v5).ref, (main_call2.v6).ref, (main_call2.v7).ref, (main_call2.cst_1).ref, (main_call2.v8).ref, (main_call2.cst_2).ref, (main_call2.v9).ref, (main_call2.v10).ref, (main_call2.v11).ref, (main_call2.cst_3).ref, (main_call2.v12).ref, (main_call2.cst_4).ref, (main_call2.call0.v0).ref, (main_call2.call0.v1).ref, (main_call2.call0.v2).ref, main_v138, main_v139, main_v140, main_cst_27, main_v141, main_v142, main_v143, main_v144, main_v145, main_v146, main_v147, main_v148, main_v149]

set_option maxHeartbeats 16000000 in
theorem ops2_writes : (ops2 : List (HloOp τ sig (Elt F))).Forall fun op => op.writes ⊆ (ops2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

end Cert.ReferenceIdeal.RefRun

end
-- ==== Proof.RefPart3.lean ====
/-
  Window 3 of the reference program as a straight line of 76 host operations: the outlined functions it calls
  unfolded at their calls and the sequencing re-associated. Every operation names TensorCore buffers only, allocates
  none, and writes one buffer of its own, listed here; no argument array is among them.
-/
import proofs.«140713_j1864015806535_2_alg».proof.Proof.Gen.ReferenceIdeal
import Idealize.ShloMosaic.Lib.StableHlo.Run

set_option maxRecDepth 65536

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
abbrev ops3 : List (HloOp τ sig (Elt F)) :=
  [ StableHlo.unary main_v133 main_v150 (broadcastInDim S1x32 ![1] bcast_S32_S1x32_1 : (⟨S32, .f32⟩ : BufTy).Contents (Elt F) → (⟨S1x32, .f32⟩ : BufTy).Contents (Elt F)),
    StableHlo.unary main_v150 main_v151 (broadcastInDim S100000x32 ![0, 1] bcast_S1x32_S100000x32_0_1 : (⟨S1x32, .f32⟩ : BufTy).Contents (Elt F) → (⟨S100000x32, .f32⟩ : BufTy).Contents (Elt F)),
    StableHlo.binary main_v149 main_v151 main_v152 (addf : (⟨S100000x32, .f32⟩ : BufTy).Contents (Elt F) → (⟨S100000x32, .f32⟩ : BufTy).Contents (Elt F) → (⟨S100000x32, .f32⟩ : BufTy).Contents (Elt F)),
    StableHlo.TRef.nullary main_call3.cst (constant S_ .f32 0x00000000#32),
    StableHlo.TRef.unary main_call3.cst main_call3.v0 (broadcastInDim S100000x32 ![] bcast_S_S100000x32),
    StableHlo.TRef.binary (.of main_v152 : StableHlo.TRef sig ⟨S100000x32, .f32⟩) main_call3.v0 main_call3.v1 maximumf,
    StableHlo.nullary main_c_28 (constantI S_ 32 0#32),
    StableHlo.unary main_c_28 main_v154 (broadcastInDim S50000 ![] bcast_S_S50000 : (⟨S_, .i32⟩ : BufTy).Contents (Elt F) → (⟨S50000, .i32⟩ : BufTy).Contents (Elt F)),
    StableHlo.binary main_arg2 main_v154 main_v155 (cmpi .slt : (⟨S50000, .i32⟩ : BufTy).Contents (Elt F) → (⟨S50000, .i32⟩ : BufTy).Contents (Elt F) → (⟨S50000, .i1⟩ : BufTy).Contents (Elt F)),
    StableHlo.nullary main_c_29 (constantI S_ 32 100000#32),
    StableHlo.unary main_c_29 main_v156 (broadcastInDim S50000 ![] bcast_S_S50000 : (⟨S_, .i32⟩ : BufTy).Contents (Elt F) → (⟨S50000, .i32⟩ : BufTy).Contents (Elt F)),
    StableHlo.binary main_arg2 main_v156 main_v157 (addi : (⟨S50000, .i32⟩ : BufTy).Contents (Elt F) → (⟨S50000, .i32⟩ : BufTy).Contents (Elt F) → (⟨S50000, .i32⟩ : BufTy).Contents (Elt F)),
    StableHlo.ternary main_v155 main_v157 main_arg2 main_v158 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v158 main_v159 (broadcastInDim S50000x1 ![0] bcast_S50000_S50000x1_0 : (⟨S50000, .i32⟩ : BufTy).Contents (Elt F) → (⟨S50000x1, .i32⟩ : BufTy).Contents (Elt F)),
    StableHlo.binary main_v153 main_v159 main_v160 ((fun x i => Host.gather gather_S100000x32_S50000x1_S50000x32_1_0_n_n_0_1_132 x i) : (⟨S100000x32, .f32⟩ : BufTy).Contents (Elt F) → (⟨S50000x1, .i32⟩ : BufTy).Contents (Elt F) → (⟨S50000x32, .f32⟩ : BufTy).Contents (Elt F)),
    StableHlo.TRef.nullary main_call4.cst (constant S_ .f32 0xFF800000#32),
    StableHlo.TRef.binary (.of main_v160 : StableHlo.TRef sig ⟨S50000x32, .f32⟩) main_call4.cst main_call4.v0 (fun x v => Host.reduce FloatOps.maximumf x v reducesTo_S50000x32_S50000_d1 h_S_),
    StableHlo.TRef.nullary main_call4.cst_0 (constant S_ .f32 0xFF800000#32),
    StableHlo.TRef.unary main_call4.cst_0 main_call4.v1 (broadcastInDim S50000 ![] bcast_S_S50000),
    StableHlo.TRef.binary main_call4.v1 main_call4.v0 main_call4.v2 maximumf,
    StableHlo.TRef.unary main_call4.v2 main_call4.v3 (broadcastInDim S50000x1 ![0] bcast_S50000_S50000x1_0),
    StableHlo.TRef.unary main_call4.v3 main_call4.v4 (broadcastInDim S50000x32 ![0, 1] bcast_S50000x1_S50000x32_0_1),
    StableHlo.TRef.binary (.of main_v160 : StableHlo.TRef sig ⟨S50000x32, .f32⟩) main_call4.v4 main_call4.v5 subf,
    StableHlo.TRef.unary main_call4.v5 main_call4.v6 Host.exp,
    StableHlo.TRef.nullary main_call4.cst_1 (constant S_ .f32 0x00000000#32),
    StableHlo.TRef.binary main_call4.v6 main_call4.cst_1 main_call4.v7 (fun x v => Host.reduceAdd x v reducesTo_S50000x32_S50000_d1 h_S_),
    StableHlo.TRef.unary main_call4.v7 main_call4.v8 (broadcastInDim S50000x1 ![0] bcast_S50000_S50000x1_0),
    StableHlo.TRef.unary main_call4.v8 main_call4.v9 Host.log,
    StableHlo.TRef.unary main_call4.v9 main_call4.v10 (broadcastInDim S50000x32 ![0, 1] bcast_S50000x1_S50000x32_0_1),
    StableHlo.TRef.binary main_call4.v5 main_call4.v10 main_call4.v11 subf,
    StableHlo.unary main_arg1 main_v162 ((extractStridedSlice S1x1x1600000 ![1, 0, 0] · slices_S3x2x1600000_S1x1x1600000_1_0_0) : (⟨S3x2x1600000, .i32⟩ : BufTy).Contents (Elt F) → (⟨S1x1x1600000, .i32⟩ : BufTy).Contents (Elt F)),
    StableHlo.reshape main_v162 main_v163 rfl shapeCasts_S1x1x1600000_S1600000,
    StableHlo.unary main_arg1 main_v164 ((extractStridedSlice S1x1x1600000 ![1, 1, 0] · slices_S3x2x1600000_S1x1x1600000_1_1_0) : (⟨S3x2x1600000, .i32⟩ : BufTy).Contents (Elt F) → (⟨S1x1x1600000, .i32⟩ : BufTy).Contents (Elt F)),
    StableHlo.reshape main_v164 main_v165 rfl shapeCasts_S1x1x1600000_S1600000,
    StableHlo.unary main_arg3 main_v166 ((extractStridedSlice S1x128x64 ![1, 0, 0] · slices_S3x128x64_S1x128x64_1_0_0) : (⟨S3x128x64, .f32⟩ : BufTy).Contents (Elt F) → (⟨S1x128x64, .f32⟩ : BufTy).Contents (Elt F)),
    StableHlo.reshape main_v166 main_v167 rfl shapeCasts_S1x128x64_S128x64,
    StableHlo.unary main_arg4 main_v168 ((extractStridedSlice S1x64 ![1, 0] · slices_S3x64_S1x64_1_0) : (⟨S3x64, .f32⟩ : BufTy).Contents (Elt F) → (⟨S1x64, .f32⟩ : BufTy).Contents (Elt F)),
    StableHlo.reshape main_v168 main_v169 rfl shapeCasts_S1x64_S64,
    StableHlo.unary main_arg7 main_v170 ((extractStridedSlice S1 ![1] · slices_S3_S1_1) : (⟨S3, .f32⟩ : BufTy).Contents (Elt F) → (⟨S1, .f32⟩ : BufTy).Contents (Elt F)),
    StableHlo.reshape main_v170 main_v171 rfl shapeCasts_S1_S_,
    StableHlo.binary main_arg0 main_v167 main_v172 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_v169 main_v173 (broadcastInDim S1x64 ![1] bcast_S64_S1x64_1 : (⟨S64, .f32⟩ : BufTy).Contents (Elt F) → (⟨S1x64, .f32⟩ : BufTy).Contents (Elt F)),
    StableHlo.unary main_v173 main_v174 (broadcastInDim S100000x64 ![0, 1] bcast_S1x64_S100000x64_0_1 : (⟨S1x64, .f32⟩ : BufTy).Contents (Elt F) → (⟨S100000x64, .f32⟩ : BufTy).Contents (Elt F)),
    StableHlo.binary main_v172 main_v174 main_v175 (addf : (⟨S100000x64, .f32⟩ : BufTy).Contents (Elt F) → (⟨S100000x64, .f32⟩ : BufTy).Contents (Elt F) → (⟨S100000x64, .f32⟩ : BufTy).Contents (Elt F)),
    StableHlo.nullary main_cst_30 (constant S_ .f32 0x3F800000#32),
    StableHlo.unary main_cst_30 main_v176 (broadcastInDim S1600000 ![] bcast_S_S1600000 : (⟨S_, .f32⟩ : BufTy).Contents (Elt F) → (⟨S1600000, .f32⟩ : BufTy).Contents (Elt F)),
    StableHlo.nullary main_cst_31 (constant S_ .f32 0x00000000#32),
    StableHlo.unary main_cst_31 main_v177 (broadcastInDim S100000 ![] bcast_S_S100000 : (⟨S_, .f32⟩ : BufTy).Contents (Elt F) → (⟨S100000, .f32⟩ : BufTy).Contents (Elt F)),
    StableHlo.unary main_v165 main_v178 (broadcastInDim S1600000x1 ![0] bcast_S1600000_S1600000x1_0 : (⟨S1600000, .i32⟩ : BufTy).Contents (Elt F) → (⟨S1600000x1, .i32⟩ : BufTy).Contents (Elt F)),
    StableHlo.ternary main_v177 main_v178 main_v176 main_v179 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_32 (constant S_ .f32 0x3F800000#32),
    StableHlo.unary main_cst_32 main_v180 (broadcastInDim S100000 ![] bcast_S_S100000 : (⟨S_, .f32⟩ : BufTy).Contents (Elt F) → (⟨S100000, .f32⟩ : BufTy).Contents (Elt F)),
    StableHlo.binary main_v179 main_v180 main_v181 (maximumf : (⟨S100000, .f32⟩ : BufTy).Contents (Elt F) → (⟨S100000, .f32⟩ : BufTy).Contents (Elt F) → (⟨S100000, .f32⟩ : BufTy).Contents (Elt F)),
    StableHlo.unary main_v181 main_v182 (Host.rsqrt : (⟨S100000, .f32⟩ : BufTy).Contents (Elt F) → (⟨S100000, .f32⟩ : BufTy).Contents (Elt F)),
    StableHlo.nullary main_c_33 (constantI S_ 32 0#32),
    StableHlo.unary main_c_33 main_v183 (broadcastInDim S1600000 ![] bcast_S_S1600000 : (⟨S_, .i32⟩ : BufTy).Contents (Elt F) → (⟨S1600000, .i32⟩ : BufTy).Contents (Elt F)),
    StableHlo.binary main_v163 main_v183 main_v184 (cmpi .slt : (⟨S1600000, .i32⟩ : BufTy).Contents (Elt F) → (⟨S1600000, .i32⟩ : BufTy).Contents (Elt F) → (⟨S1600000, .i1⟩ : BufTy).Contents (Elt F)),
    StableHlo.nullary main_c_34 (constantI S_ 32 100000#32),
    StableHlo.unary main_c_34 main_v185 (broadcastInDim S1600000 ![] bcast_S_S1600000 : (⟨S_, .i32⟩ : BufTy).Contents (Elt F) → (⟨S1600000, .i32⟩ : BufTy).Contents (Elt F)),
    StableHlo.binary main_v163 main_v185 main_v186 (addi : (⟨S1600000, .i32⟩ : BufTy).Contents (Elt F) → (⟨S1600000, .i32⟩ : BufTy).Contents (Elt F) → (⟨S1600000, .i32⟩ : BufTy).Contents (Elt F)),
    StableHlo.ternary main_v184 main_v186 main_v163 main_v187 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v187 main_v188 (broadcastInDim S1600000x1 ![0] bcast_S1600000_S1600000x1_0 : (⟨S1600000, .i32⟩ : BufTy).Contents (Elt F) → (⟨S1600000x1, .i32⟩ : BufTy).Contents (Elt F)),
    StableHlo.binary main_v182 main_v188 main_v189 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_35 (constantI S_ 32 0#32),
    StableHlo.unary main_c_35 main_v190 (broadcastInDim S1600000 ![] bcast_S_S1600000 : (⟨S_, .i32⟩ : BufTy).Contents (Elt F) → (⟨S1600000, .i32⟩ : BufTy).Contents (Elt F)),
    StableHlo.binary main_v165 main_v190 main_v191 (cmpi .slt : (⟨S1600000, .i32⟩ : BufTy).Contents (Elt F) → (⟨S1600000, .i32⟩ : BufTy).Contents (Elt F) → (⟨S1600000, .i1⟩ : BufTy).Contents (Elt F)),
    StableHlo.nullary main_c_36 (constantI S_ 32 100000#32),
    StableHlo.unary main_c_36 main_v192 (broadcastInDim S1600000 ![] bcast_S_S1600000 : (⟨S_, .i32⟩ : BufTy).Contents (Elt F) → (⟨S1600000, .i32⟩ : BufTy).Contents (Elt F)),
    StableHlo.binary main_v165 main_v192 main_v193 (addi : (⟨S1600000, .i32⟩ : BufTy).Contents (Elt F) → (⟨S1600000, .i32⟩ : BufTy).Contents (Elt F) → (⟨S1600000, .i32⟩ : BufTy).Contents (Elt F)),
    StableHlo.ternary main_v191 main_v193 main_v165 main_v194 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v194 main_v195 (broadcastInDim S1600000x1 ![0] bcast_S1600000_S1600000x1_0 : (⟨S1600000, .i32⟩ : BufTy).Contents (Elt F) → (⟨S1600000x1, .i32⟩ : BufTy).Contents (Elt F)),
    StableHlo.binary main_v182 main_v195 main_v196 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v189 main_v196 main_v197 (mulf : (⟨S1600000, .f32⟩ : BufTy).Contents (Elt F) → (⟨S1600000, .f32⟩ : BufTy).Contents (Elt F) → (⟨S1600000, .f32⟩ : BufTy).Contents (Elt F)),
    StableHlo.nullary main_c_37 (constantI S_ 32 0#32),
    StableHlo.unary main_c_37 main_v198 (broadcastInDim S1600000 ![] bcast_S_S1600000 : (⟨S_, .i32⟩ : BufTy).Contents (Elt F) → (⟨S1600000, .i32⟩ : BufTy).Contents (Elt F)),
    StableHlo.binary main_v163 main_v198 main_v199 (cmpi .slt : (⟨S1600000, .i32⟩ : BufTy).Contents (Elt F) → (⟨S1600000, .i32⟩ : BufTy).Contents (Elt F) → (⟨S1600000, .i1⟩ : BufTy).Contents (Elt F)) ]

set_option maxHeartbeats 16000000 in
theorem part3_eq (c : Dev nD) : main_part3 (F := F) c = seq ops3 := by
  simp only [main_part3, fn_relu_2.body, fn_log_softmax.body, seq, bind_assoc, pure_bind]
  try rfl

theorem ops3_sub : (ops3 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub ..⟩

theorem ops3_fresh : (ops3 : List (HloOp τ sig (Elt F))).Forall fun op => op.fresh = ∅ := by
  simp only [List.Forall]; repeat' constructor

/-- The references the window's operations write. -/
abbrev ops3_W : List (Ref sig .tc) := [main_v150, main_v151, main_v152, (main_call3.cst).ref, (main_call3.v0).ref, (main_call3.v1).ref, main_c_28, main_v154, main_v155, main_c_29, main_v156, main_v157, main_v158, main_v159, main_v160, (main_call4.cst).ref, (main_call4.v0).ref, (main_call4.cst_0).ref, (main_call4.v1).ref, (main_call4.v2).ref, (main_call4.v3).ref, (main_call4.v4).ref, (main_call4.v5).ref, (main_call4.v6).ref, (main_call4.cst_1).ref, (main_call4.v7).ref, (main_call4.v8).ref, (main_call4.v9).ref, (main_call4.v10).ref, (main_call4.v11).ref, main_v162, main_v163, main_v164, main_v165, main_v166, main_v167, main_v168, main_v169, main_v170, main_v171, main_v172, main_v173, main_v174, main_v175, main_cst_30, main_v176, main_cst_31, main_v177, main_v178, main_v179, main_cst_32, main_v180, main_v181, main_v182, main_c_33, main_v183, main_v184, main_c_34, main_v185, main_v186, main_v187, main_v188, main_v189, main_c_35, main_v190, main_v191, main_c_36, main_v192, main_v193, main_v194, main_v195, main_v196, main_v197, main_c_37, main_v198, main_v199]

set_option maxHeartbeats 16000000 in
theorem ops3_writes : (ops3 : List (HloOp τ sig (Elt F))).Forall fun op => op.writes ⊆ (ops3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

end Cert.ReferenceIdeal.RefRun

end
-- ==== Proof.RefPart4.lean ====
/-
  Window 4 of the reference program as a straight line of 83 host operations: the outlined functions it calls
  unfolded at their calls and the sequencing re-associated. Every operation names TensorCore buffers only, allocates
  none, and writes one buffer of its own, listed here; no argument array is among them.
-/
import proofs.«140713_j1864015806535_2_alg».proof.Proof.Gen.ReferenceIdeal
import Idealize.ShloMosaic.Lib.StableHlo.Run

set_option maxRecDepth 65536

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
abbrev ops4 : List (HloOp τ sig (Elt F)) :=
  [ StableHlo.nullary main_c_38 (constantI S_ 32 100000#32),
    StableHlo.unary main_c_38 main_v200 (broadcastInDim S1600000 ![] bcast_S_S1600000 : (⟨S_, .i32⟩ : BufTy).Contents (Elt F) → (⟨S1600000, .i32⟩ : BufTy).Contents (Elt F)),
    StableHlo.binary main_v163 main_v200 main_v201 (addi : (⟨S1600000, .i32⟩ : BufTy).Contents (Elt F) → (⟨S1600000, .i32⟩ : BufTy).Contents (Elt F) → (⟨S1600000, .i32⟩ : BufTy).Contents (Elt F)),
    StableHlo.ternary main_v199 main_v201 main_v163 main_v202 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v202 main_v203 (broadcastInDim S1600000x1 ![0] bcast_S1600000_S1600000x1_0 : (⟨S1600000, .i32⟩ : BufTy).Contents (Elt F) → (⟨S1600000x1, .i32⟩ : BufTy).Contents (Elt F)),
    StableHlo.binary main_v175 main_v203 main_v204 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v197 main_v205 (broadcastInDim S1600000x1 ![0] bcast_S1600000_S1600000x1_0 : (⟨S1600000, .f32⟩ : BufTy).Contents (Elt F) → (⟨S1600000x1, .f32⟩ : BufTy).Contents (Elt F)),
    StableHlo.unary main_v205 main_v206 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v204 main_v206 main_v207 (mulf : (⟨S1600000x64, .f32⟩ : BufTy).Contents (Elt F) → (⟨S1600000x64, .f32⟩ : BufTy).Contents (Elt F) → (⟨S1600000x64, .f32⟩ : BufTy).Contents (Elt F)),
    StableHlo.nullary main_cst_39 (constant S_ .f32 0x00000000#32),
    StableHlo.unary main_cst_39 main_v208 (broadcastInDim S100000x64 ![] bcast_S_S100000x64 : (⟨S_, .f32⟩ : BufTy).Contents (Elt F) → (⟨S100000x64, .f32⟩ : BufTy).Contents (Elt F)),
    StableHlo.unary main_v165 main_v209 (broadcastInDim S1600000x1 ![0] bcast_S1600000_S1600000x1_0 : (⟨S1600000, .i32⟩ : BufTy).Contents (Elt F) → (⟨S1600000x1, .i32⟩ : BufTy).Contents (Elt F)),
    StableHlo.ternary main_v208 main_v209 main_v207 main_v210 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v171 main_v211 (broadcastInDim S100000x64 ![] bcast_S_S100000x64 : (⟨S_, .f32⟩ : BufTy).Contents (Elt F) → (⟨S100000x64, .f32⟩ : BufTy).Contents (Elt F)),
    StableHlo.binary main_v211 main_v210 main_v212 (mulf : (⟨S100000x64, .f32⟩ : BufTy).Contents (Elt F) → (⟨S100000x64, .f32⟩ : BufTy).Contents (Elt F) → (⟨S100000x64, .f32⟩ : BufTy).Contents (Elt F)),
    StableHlo.nullary main_cst_40 (constant S_ .f32 0x3F800000#32),
    StableHlo.binary main_cst_40 main_v171 main_v213 (subf : (⟨S_, .f32⟩ : BufTy).Contents (Elt F) → (⟨S_, .f32⟩ : BufTy).Contents (Elt F) → (⟨S_, .f32⟩ : BufTy).Contents (Elt F)),
    StableHlo.unary main_v213 main_v214 (broadcastInDim S100000x64 ![] bcast_S_S100000x64 : (⟨S_, .f32⟩ : BufTy).Contents (Elt F) → (⟨S100000x64, .f32⟩ : BufTy).Contents (Elt F)),
    StableHlo.binary main_v214 main_v175 main_v215 (mulf : (⟨S100000x64, .f32⟩ : BufTy).Contents (Elt F) → (⟨S100000x64, .f32⟩ : BufTy).Contents (Elt F) → (⟨S100000x64, .f32⟩ : BufTy).Contents (Elt F)),
    StableHlo.binary main_v212 main_v215 main_v216 (addf : (⟨S100000x64, .f32⟩ : BufTy).Contents (Elt F) → (⟨S100000x64, .f32⟩ : BufTy).Contents (Elt F) → (⟨S100000x64, .f32⟩ : BufTy).Contents (Elt F)),
    StableHlo.unary main_arg9 main_v217 ((extractStridedSlice S1x64 ![1, 0] · slices_S3x64_S1x64_1_0) : (⟨S3x64, .f32⟩ : BufTy).Contents (Elt F) → (⟨S1x64, .f32⟩ : BufTy).Contents (Elt F)),
    StableHlo.reshape main_v217 main_v218 rfl shapeCasts_S1x64_S64,
    StableHlo.unary main_arg10 main_v219 ((extractStridedSlice S1x64 ![1, 0] · slices_S3x64_S1x64_1_0) : (⟨S3x64, .f32⟩ : BufTy).Contents (Elt F) → (⟨S1x64, .f32⟩ : BufTy).Contents (Elt F)),
    StableHlo.reshape main_v219 main_v220 rfl shapeCasts_S1x64_S64,
    StableHlo.nullary main_cst_41 (constant S_ .f32 0x00000000#32),
    StableHlo.binary main_v216 main_cst_41 main_v221 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_42 (constant S_ .f32 0x47C35000#32),
    StableHlo.unary main_cst_42 main_v222 (broadcastInDim S64 ![] bcast_S_S64 : (⟨S_, .f32⟩ : BufTy).Contents (Elt F) → (⟨S64, .f32⟩ : BufTy).Contents (Elt F)),
    StableHlo.binary main_v221 main_v222 main_v223 (Host.divf : (⟨S64, .f32⟩ : BufTy).Contents (Elt F) → (⟨S64, .f32⟩ : BufTy).Contents (Elt F) → (⟨S64, .f32⟩ : BufTy).Contents (Elt F)),
    StableHlo.nullary main_c_43 (constantI S_ 32 0#32),
    StableHlo.TRef.nullary main_call5.cst (constant S_ .f32 0x00000000#32),
    StableHlo.TRef.binary (.of main_v216 : StableHlo.TRef sig ⟨S100000x64, .f32⟩) main_call5.cst main_call5.v0 (fun x v => Host.reduceAdd x v reducesTo_S100000x64_S64_d0 h_S_),
    StableHlo.TRef.unary main_call5.v0 main_call5.v1 (broadcastInDim S1x64 ![1] bcast_S64_S1x64_1),
    StableHlo.TRef.nullary main_call5.cst_0 (constant S_ .f32 0x47C35000#32),
    StableHlo.TRef.unary main_call5.cst_0 main_call5.v2 (broadcastInDim S1x64 ![] bcast_S_S1x64),
    StableHlo.TRef.binary main_call5.v1 main_call5.v2 main_call5.v3 Host.divf,
    StableHlo.TRef.unary main_call5.v3 main_call5.v4 (broadcastInDim S100000x64 ![0, 1] bcast_S1x64_S100000x64_0_1),
    StableHlo.TRef.binary (.of main_v216 : StableHlo.TRef sig ⟨S100000x64, .f32⟩) main_call5.v4 main_call5.v5 subf,
    StableHlo.TRef.binary main_call5.v5 main_call5.v5 main_call5.v6 mulf,
    StableHlo.TRef.unary (.of main_c_43 : StableHlo.TRef sig ⟨S_, .i32⟩) main_call5.v7 (sitofp .f32),
    StableHlo.TRef.nullary main_call5.cst_1 (constant S_ .f32 0x47C35000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S100000x64_S64_d0 h_S_),
    StableHlo.TRef.unary main_call5.v8 main_call5.v10 (broadcastInDim S64 ![] bcast_S_S64),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S64 ![] bcast_S_S64),
    StableHlo.TRef.ternary main_call5.v12 main_call5.v11 main_call5.call0.v1 main_call5.call0.v2 (fun p a b => select (broadcastInDim S64 ![] bcast_S_S64 p) a b),
    StableHlo.unary main_v223 main_v225 (broadcastInDim S1x64 ![1] bcast_S64_S1x64_1 : (⟨S64, .f32⟩ : BufTy).Contents (Elt F) → (⟨S1x64, .f32⟩ : BufTy).Contents (Elt F)),
    StableHlo.unary main_v225 main_v226 (broadcastInDim S100000x64 ![0, 1] bcast_S1x64_S100000x64_0_1 : (⟨S1x64, .f32⟩ : BufTy).Contents (Elt F) → (⟨S100000x64, .f32⟩ : BufTy).Contents (Elt F)),
    StableHlo.binary main_v216 main_v226 main_v227 (subf : (⟨S100000x64, .f32⟩ : BufTy).Contents (Elt F) → (⟨S100000x64, .f32⟩ : BufTy).Contents (Elt F) → (⟨S100000x64, .f32⟩ : BufTy).Contents (Elt F)),
    StableHlo.nullary main_cst_44 (constant S_ .f32 0x3727C5AC#32),
    StableHlo.unary main_cst_44 main_v228 (broadcastInDim S64 ![] bcast_S_S64 : (⟨S_, .f32⟩ : BufTy).Contents (Elt F) → (⟨S64, .f32⟩ : BufTy).Contents (Elt F)),
    StableHlo.binary main_v224 main_v228 main_v229 (addf : (⟨S64, .f32⟩ : BufTy).Contents (Elt F) → (⟨S64, .f32⟩ : BufTy).Contents (Elt F) → (⟨S64, .f32⟩ : BufTy).Contents (Elt F)),
    StableHlo.unary main_v229 main_v230 (Host.rsqrt : (⟨S64, .f32⟩ : BufTy).Contents (Elt F) → (⟨S64, .f32⟩ : BufTy).Contents (Elt F)),
    StableHlo.unary main_v230 main_v231 (broadcastInDim S1x64 ![1] bcast_S64_S1x64_1 : (⟨S64, .f32⟩ : BufTy).Contents (Elt F) → (⟨S1x64, .f32⟩ : BufTy).Contents (Elt F)),
    StableHlo.unary main_v231 main_v232 (broadcastInDim S100000x64 ![0, 1] bcast_S1x64_S100000x64_0_1 : (⟨S1x64, .f32⟩ : BufTy).Contents (Elt F) → (⟨S100000x64, .f32⟩ : BufTy).Contents (Elt F)),
    StableHlo.binary main_v227 main_v232 main_v233 (mulf : (⟨S100000x64, .f32⟩ : BufTy).Contents (Elt F) → (⟨S100000x64, .f32⟩ : BufTy).Contents (Elt F) → (⟨S100000x64, .f32⟩ : BufTy).Contents (Elt F)),
    StableHlo.unary main_v218 main_v234 (broadcastInDim S1x64 ![1] bcast_S64_S1x64_1 : (⟨S64, .f32⟩ : BufTy).Contents (Elt F) → (⟨S1x64, .f32⟩ : BufTy).Contents (Elt F)),
    StableHlo.unary main_v234 main_v235 (broadcastInDim S100000x64 ![0, 1] bcast_S1x64_S100000x64_0_1 : (⟨S1x64, .f32⟩ : BufTy).Contents (Elt F) → (⟨S100000x64, .f32⟩ : BufTy).Contents (Elt F)),
    StableHlo.binary main_v233 main_v235 main_v236 (mulf : (⟨S100000x64, .f32⟩ : BufTy).Contents (Elt F) → (⟨S100000x64, .f32⟩ : BufTy).Contents (Elt F) → (⟨S100000x64, .f32⟩ : BufTy).Contents (Elt F)),
    StableHlo.unary main_v220 main_v237 (broadcastInDim S1x64 ![1] bcast_S64_S1x64_1 : (⟨S64, .f32⟩ : BufTy).Contents (Elt F) → (⟨S1x64, .f32⟩ : BufTy).Contents (Elt F)),
    StableHlo.unary main_v237 main_v238 (broadcastInDim S100000x64 ![0, 1] bcast_S1x64_S100000x64_0_1 : (⟨S1x64, .f32⟩ : BufTy).Contents (Elt F) → (⟨S100000x64, .f32⟩ : BufTy).Contents (Elt F)),
    StableHlo.binary main_v236 main_v238 main_v239 (addf : (⟨S100000x64, .f32⟩ : BufTy).Contents (Elt F) → (⟨S100000x64, .f32⟩ : BufTy).Contents (Elt F) → (⟨S100000x64, .f32⟩ : BufTy).Contents (Elt F)),
    StableHlo.TRef.nullary main_call6.cst (constant S_ .f32 0x00000000#32),
    StableHlo.TRef.unary main_call6.cst main_call6.v0 (broadcastInDim S100000x64 ![] bcast_S_S100000x64),
    StableHlo.TRef.binary (.of main_v239 : StableHlo.TRef sig ⟨S100000x64, .f32⟩) main_call6.v0 main_call6.v1 maximumf,
    StableHlo.unary main_arg5 main_v241 ((extractStridedSlice S1x64x32 ![1, 0, 0] · slices_S3x64x32_S1x64x32_1_0_0) : (⟨S3x64x32, .f32⟩ : BufTy).Contents (Elt F) → (⟨S1x64x32, .f32⟩ : BufTy).Contents (Elt F)),
    StableHlo.reshape main_v241 main_v242 rfl shapeCasts_S1x64x32_S64x32,
    StableHlo.unary main_arg6 main_v243 ((extractStridedSlice S1x32 ![1, 0] · slices_S3x32_S1x32_1_0) : (⟨S3x32, .f32⟩ : BufTy).Contents (Elt F) → (⟨S1x32, .f32⟩ : BufTy).Contents (Elt F)),
    StableHlo.reshape main_v243 main_v244 rfl shapeCasts_S1x32_S32,
    StableHlo.unary main_arg8 main_v245 ((extractStridedSlice S1 ![1] · slices_S3_S1_1) : (⟨S3, .f32⟩ : BufTy).Contents (Elt F) → (⟨S1, .f32⟩ : BufTy).Contents (Elt F)),
    StableHlo.reshape main_v245 main_v246 rfl shapeCasts_S1_S_,
    StableHlo.binary main_v240 main_v242 main_v247 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_v244 main_v248 (broadcastInDim S1x32 ![1] bcast_S32_S1x32_1 : (⟨S32, .f32⟩ : BufTy).Contents (Elt F) → (⟨S1x32, .f32⟩ : BufTy).Contents (Elt F)),
    StableHlo.unary main_v248 main_v249 (broadcastInDim S100000x32 ![0, 1] bcast_S1x32_S100000x32_0_1 : (⟨S1x32, .f32⟩ : BufTy).Contents (Elt F) → (⟨S100000x32, .f32⟩ : BufTy).Contents (Elt F)),
    StableHlo.binary main_v247 main_v249 main_v250 (addf : (⟨S100000x32, .f32⟩ : BufTy).Contents (Elt F) → (⟨S100000x32, .f32⟩ : BufTy).Contents (Elt F) → (⟨S100000x32, .f32⟩ : BufTy).Contents (Elt F)),
    StableHlo.nullary main_cst_45 (constant S_ .f32 0x3F800000#32),
    StableHlo.unary main_cst_45 main_v251 (broadcastInDim S1600000 ![] bcast_S_S1600000 : (⟨S_, .f32⟩ : BufTy).Contents (Elt F) → (⟨S1600000, .f32⟩ : BufTy).Contents (Elt F)) ]

set_option maxHeartbeats 16000000 in
theorem part4_eq (c : Dev nD) : main_part4 (F := F) c = seq ops4 := by
  simp only [main_part4, fn_var.body, fn_where.body, fn_relu.body, seq, bind_assoc, pure_bind]
  try rfl

theorem ops4_sub : (ops4 : List (HloOp τ sig (Elt F))).Forall fun op => op.bufs ⊆ tcRefs τ sig :=
  ⟨nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., binary_bufs_sub .., nullary_bufs_sub .., binary_bufs_sub .., unary_bufs_sub .., binary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub ..⟩

theorem ops4_fresh : (ops4 : List (HloOp τ sig (Elt F))).Forall fun op => op.fresh = ∅ := by
  simp only [List.Forall]; repeat' constructor

/-- The references the window's operations write. -/
abbrev ops4_W : List (Ref sig .tc) := [main_c_38, main_v200, main_v201, main_v202, main_v203, main_v204, main_v205, main_v206, main_v207, main_cst_39, main_v208, main_v209, main_v210, main_v211, main_v212, main_cst_40, main_v213, main_v214, main_v215, main_v216, main_v217, main_v218, main_v219, main_v220, main_cst_41, main_v221, main_cst_42, main_v222, main_v223, main_c_43, (main_call5.cst).ref, (main_call5.v0).ref, (main_call5.v1).ref, (main_call5.cst_0).ref, (main_call5.v2).ref, (main_call5.v3).ref, (main_call5.v4).ref, (main_call5.v5).ref, (main_call5.v6).ref, (main_call5.v7).ref, (main_call5.cst_1).ref, (main_call5.v8).ref, (main_call5.cst_2).ref, (main_call5.v9).ref, (main_call5.v10).ref, (main_call5.v11).ref, (main_call5.cst_3).ref, (main_call5.v12).ref, (main_call5.cst_4).ref, (main_call5.call0.v0).ref, (main_call5.call0.v1).ref, (main_call5.call0.v2).ref, main_v225, main_v226, main_v227, main_cst_44, main_v228, main_v229, main_v230, main_v231, main_v232, main_v233, main_v234, main_v235, main_v236, main_v237, main_v238, main_v239, (main_call6.cst).ref, (main_call6.v0).ref, (main_call6.v1).ref, main_v241, main_v242, main_v243, main_v244, main_v245, main_v246, main_v247, main_v248, main_v249, main_v250, main_cst_45, main_v251]

set_option maxHeartbeats 16000000 in
theorem ops4_writes : (ops4 : List (HloOp τ sig (Elt F))).Forall fun op => op.writes ⊆ (ops4_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

end Cert.ReferenceIdeal.RefRun

end
-- ==== Proof.RefPart5.lean ====
/-
  Window 5 of the reference program as a straight line of 60 host operations: the outlined functions it calls
  unfolded at their calls and the sequencing re-associated. Every operation names TensorCore buffers only, allocates
  none, and writes one buffer of its own, listed here; no argument array is among them.
-/
import proofs.«140713_j1864015806535_2_alg».proof.Proof.Gen.ReferenceIdeal
import Idealize.ShloMosaic.Lib.StableHlo.Run

set_option maxRecDepth 65536

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
abbrev ops5 : List (HloOp τ sig (Elt F)) :=
  [ StableHlo.nullary main_cst_46 (constant S_ .f32 0x00000000#32),
    StableHlo.unary main_cst_46 main_v252 (broadcastInDim S100000 ![] bcast_S_S100000 : (⟨S_, .f32⟩ : BufTy).Contents (Elt F) → (⟨S100000, .f32⟩ : BufTy).Contents (Elt F)),
    StableHlo.unary main_v165 main_v253 (broadcastInDim S1600000x1 ![0] bcast_S1600000_S1600000x1_0 : (⟨S1600000, .i32⟩ : BufTy).Contents (Elt F) → (⟨S1600000x1, .i32⟩ : BufTy).Contents (Elt F)),
    StableHlo.ternary main_v252 main_v253 main_v251 main_v254 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_47 (constant S_ .f32 0x3F800000#32),
    StableHlo.unary main_cst_47 main_v255 (broadcastInDim S100000 ![] bcast_S_S100000 : (⟨S_, .f32⟩ : BufTy).Contents (Elt F) → (⟨S100000, .f32⟩ : BufTy).Contents (Elt F)),
    StableHlo.binary main_v254 main_v255 main_v256 (maximumf : (⟨S100000, .f32⟩ : BufTy).Contents (Elt F) → (⟨S100000, .f32⟩ : BufTy).Contents (Elt F) → (⟨S100000, .f32⟩ : BufTy).Contents (Elt F)),
    StableHlo.unary main_v256 main_v257 (Host.rsqrt : (⟨S100000, .f32⟩ : BufTy).Contents (Elt F) → (⟨S100000, .f32⟩ : BufTy).Contents (Elt F)),
    StableHlo.nullary main_c_48 (constantI S_ 32 0#32),
    StableHlo.unary main_c_48 main_v258 (broadcastInDim S1600000 ![] bcast_S_S1600000 : (⟨S_, .i32⟩ : BufTy).Contents (Elt F) → (⟨S1600000, .i32⟩ : BufTy).Contents (Elt F)),
    StableHlo.binary main_v163 main_v258 main_v259 (cmpi .slt : (⟨S1600000, .i32⟩ : BufTy).Contents (Elt F) → (⟨S1600000, .i32⟩ : BufTy).Contents (Elt F) → (⟨S1600000, .i1⟩ : BufTy).Contents (Elt F)),
    StableHlo.nullary main_c_49 (constantI S_ 32 100000#32),
    StableHlo.unary main_c_49 main_v260 (broadcastInDim S1600000 ![] bcast_S_S1600000 : (⟨S_, .i32⟩ : BufTy).Contents (Elt F) → (⟨S1600000, .i32⟩ : BufTy).Contents (Elt F)),
    StableHlo.binary main_v163 main_v260 main_v261 (addi : (⟨S1600000, .i32⟩ : BufTy).Contents (Elt F) → (⟨S1600000, .i32⟩ : BufTy).Contents (Elt F) → (⟨S1600000, .i32⟩ : BufTy).Contents (Elt F)),
    StableHlo.ternary main_v259 main_v261 main_v163 main_v262 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v262 main_v263 (broadcastInDim S1600000x1 ![0] bcast_S1600000_S1600000x1_0 : (⟨S1600000, .i32⟩ : BufTy).Contents (Elt F) → (⟨S1600000x1, .i32⟩ : BufTy).Contents (Elt F)),
    StableHlo.binary main_v257 main_v263 main_v264 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_50 (constantI S_ 32 0#32),
    StableHlo.unary main_c_50 main_v265 (broadcastInDim S1600000 ![] bcast_S_S1600000 : (⟨S_, .i32⟩ : BufTy).Contents (Elt F) → (⟨S1600000, .i32⟩ : BufTy).Contents (Elt F)),
    StableHlo.binary main_v165 main_v265 main_v266 (cmpi .slt : (⟨S1600000, .i32⟩ : BufTy).Contents (Elt F) → (⟨S1600000, .i32⟩ : BufTy).Contents (Elt F) → (⟨S1600000, .i1⟩ : BufTy).Contents (Elt F)),
    StableHlo.nullary main_c_51 (constantI S_ 32 100000#32),
    StableHlo.unary main_c_51 main_v267 (broadcastInDim S1600000 ![] bcast_S_S1600000 : (⟨S_, .i32⟩ : BufTy).Contents (Elt F) → (⟨S1600000, .i32⟩ : BufTy).Contents (Elt F)),
    StableHlo.binary main_v165 main_v267 main_v268 (addi : (⟨S1600000, .i32⟩ : BufTy).Contents (Elt F) → (⟨S1600000, .i32⟩ : BufTy).Contents (Elt F) → (⟨S1600000, .i32⟩ : BufTy).Contents (Elt F)),
    StableHlo.ternary main_v266 main_v268 main_v165 main_v269 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v269 main_v270 (broadcastInDim S1600000x1 ![0] bcast_S1600000_S1600000x1_0 : (⟨S1600000, .i32⟩ : BufTy).Contents (Elt F) → (⟨S1600000x1, .i32⟩ : BufTy).Contents (Elt F)),
    StableHlo.binary main_v257 main_v270 main_v271 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v264 main_v271 main_v272 (mulf : (⟨S1600000, .f32⟩ : BufTy).Contents (Elt F) → (⟨S1600000, .f32⟩ : BufTy).Contents (Elt F) → (⟨S1600000, .f32⟩ : BufTy).Contents (Elt F)),
    StableHlo.nullary main_c_52 (constantI S_ 32 0#32),
    StableHlo.unary main_c_52 main_v273 (broadcastInDim S1600000 ![] bcast_S_S1600000 : (⟨S_, .i32⟩ : BufTy).Contents (Elt F) → (⟨S1600000, .i32⟩ : BufTy).Contents (Elt F)),
    StableHlo.binary main_v163 main_v273 main_v274 (cmpi .slt : (⟨S1600000, .i32⟩ : BufTy).Contents (Elt F) → (⟨S1600000, .i32⟩ : BufTy).Contents (Elt F) → (⟨S1600000, .i1⟩ : BufTy).Contents (Elt F)),
    StableHlo.nullary main_c_53 (constantI S_ 32 100000#32),
    StableHlo.unary main_c_53 main_v275 (broadcastInDim S1600000 ![] bcast_S_S1600000 : (⟨S_, .i32⟩ : BufTy).Contents (Elt F) → (⟨S1600000, .i32⟩ : BufTy).Contents (Elt F)),
    StableHlo.binary main_v163 main_v275 main_v276 (addi : (⟨S1600000, .i32⟩ : BufTy).Contents (Elt F) → (⟨S1600000, .i32⟩ : BufTy).Contents (Elt F) → (⟨S1600000, .i32⟩ : BufTy).Contents (Elt F)),
    StableHlo.ternary main_v274 main_v276 main_v163 main_v277 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v277 main_v278 (broadcastInDim S1600000x1 ![0] bcast_S1600000_S1600000x1_0 : (⟨S1600000, .i32⟩ : BufTy).Contents (Elt F) → (⟨S1600000x1, .i32⟩ : BufTy).Contents (Elt F)),
    StableHlo.binary main_v250 main_v278 main_v279 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.unary main_v272 main_v280 (broadcastInDim S1600000x1 ![0] bcast_S1600000_S1600000x1_0 : (⟨S1600000, .f32⟩ : BufTy).Contents (Elt F) → (⟨S1600000x1, .f32⟩ : BufTy).Contents (Elt F)),
    StableHlo.unary main_v280 main_v281 (broadcastInDim S1600000x32 ![0, 1] bcast_S1600000x1_S1600000x32_0_1 : (⟨S1600000x1, .f32⟩ : BufTy).Contents (Elt F) → (⟨S1600000x32, .f32⟩ : BufTy).Contents (Elt F)),
    StableHlo.binary main_v279 main_v281 main_v282 (mulf : (⟨S1600000x32, .f32⟩ : BufTy).Contents (Elt F) → (⟨S1600000x32, .f32⟩ : BufTy).Contents (Elt F) → (⟨S1600000x32, .f32⟩ : BufTy).Contents (Elt F)),
    StableHlo.nullary main_cst_54 (constant S_ .f32 0x00000000#32),
    StableHlo.unary main_cst_54 main_v283 (broadcastInDim S100000x32 ![] bcast_S_S100000x32 : (⟨S_, .f32⟩ : BufTy).Contents (Elt F) → (⟨S100000x32, .f32⟩ : BufTy).Contents (Elt F)),
    StableHlo.unary main_v165 main_v284 (broadcastInDim S1600000x1 ![0] bcast_S1600000_S1600000x1_0 : (⟨S1600000, .i32⟩ : BufTy).Contents (Elt F) → (⟨S1600000x1, .i32⟩ : BufTy).Contents (Elt F)),
    StableHlo.ternary main_v283 main_v284 main_v282 main_v285 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    StableHlo.unary main_v246 main_v286 (broadcastInDim S100000x32 ![] bcast_S_S100000x32 : (⟨S_, .f32⟩ : BufTy).Contents (Elt F) → (⟨S100000x32, .f32⟩ : BufTy).Contents (Elt F)),
    StableHlo.binary main_v286 main_v285 main_v287 (mulf : (⟨S100000x32, .f32⟩ : BufTy).Contents (Elt F) → (⟨S100000x32, .f32⟩ : BufTy).Contents (Elt F) → (⟨S100000x32, .f32⟩ : BufTy).Contents (Elt F)),
    StableHlo.nullary main_cst_55 (constant S_ .f32 0x3F800000#32),
    StableHlo.binary main_cst_55 main_v246 main_v288 (subf : (⟨S_, .f32⟩ : BufTy).Contents (Elt F) → (⟨S_, .f32⟩ : BufTy).Contents (Elt F) → (⟨S_, .f32⟩ : BufTy).Contents (Elt F)),
    StableHlo.unary main_v288 main_v289 (broadcastInDim S100000x32 ![] bcast_S_S100000x32 : (⟨S_, .f32⟩ : BufTy).Contents (Elt F) → (⟨S100000x32, .f32⟩ : BufTy).Contents (Elt F)),
    StableHlo.binary main_v289 main_v250 main_v290 (mulf : (⟨S100000x32, .f32⟩ : BufTy).Contents (Elt F) → (⟨S100000x32, .f32⟩ : BufTy).Contents (Elt F) → (⟨S100000x32, .f32⟩ : BufTy).Contents (Elt F)),
    StableHlo.binary main_v287 main_v290 main_v291 (addf : (⟨S100000x32, .f32⟩ : BufTy).Contents (Elt F) → (⟨S100000x32, .f32⟩ : BufTy).Contents (Elt F) → (⟨S100000x32, .f32⟩ : BufTy).Contents (Elt F)),
    StableHlo.unary main_arg11 main_v292 ((extractStridedSlice S1x32 ![1, 0] · slices_S3x32_S1x32_1_0) : (⟨S3x32, .f32⟩ : BufTy).Contents (Elt F) → (⟨S1x32, .f32⟩ : BufTy).Contents (Elt F)),
    StableHlo.reshape main_v292 main_v293 rfl shapeCasts_S1x32_S32,
    StableHlo.unary main_arg12 main_v294 ((extractStridedSlice S1x32 ![1, 0] · slices_S3x32_S1x32_1_0) : (⟨S3x32, .f32⟩ : BufTy).Contents (Elt F) → (⟨S1x32, .f32⟩ : BufTy).Contents (Elt F)),
    StableHlo.reshape main_v294 main_v295 rfl shapeCasts_S1x32_S32,
    StableHlo.nullary main_cst_56 (constant S_ .f32 0x00000000#32),
    StableHlo.binary main_v291 main_cst_56 main_v296 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.nullary main_cst_57 (constant S_ .f32 0x47C35000#32),
    StableHlo.unary main_cst_57 main_v297 (broadcastInDim S32 ![] bcast_S_S32 : (⟨S_, .f32⟩ : BufTy).Contents (Elt F) → (⟨S32, .f32⟩ : BufTy).Contents (Elt F)),
    StableHlo.binary main_v296 main_v297 main_v298 (Host.divf : (⟨S32, .f32⟩ : BufTy).Contents (Elt F) → (⟨S32, .f32⟩ : BufTy).Contents (Elt F) → (⟨S32, .f32⟩ : BufTy).Contents (Elt F)),
    StableHlo.nullary main_c_58 (constantI S_ 32 0#32) ]

set_option maxHeartbeats 16000000 in
theorem part5_eq (c : Dev nD) : main_part5 (F := F) c = seq ops5 := by
  simp only [main_part5, seq, bind_assoc, pure_bind]
  try rfl

theorem ops5_sub : (ops5 : List (HloOp τ sig (Elt F))).Forall fun op => op.bufs ⊆ tcRefs τ sig :=
  ⟨nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., binary_bufs_sub .., nullary_bufs_sub .., binary_bufs_sub .., unary_bufs_sub .., binary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub ..⟩

theorem ops5_fresh : (ops5 : List (HloOp τ sig (Elt F))).Forall fun op => op.fresh = ∅ := by
  simp only [List.Forall]; repeat' constructor

/-- The references the window's operations write. -/
abbrev ops5_W : List (Ref sig .tc) := [main_cst_46, main_v252, main_v253, main_v254, main_cst_47, main_v255, main_v256, main_v257, main_c_48, main_v258, main_v259, main_c_49, main_v260, main_v261, main_v262, main_v263, main_v264, main_c_50, main_v265, main_v266, main_c_51, main_v267, main_v268, main_v269, main_v270, main_v271, main_v272, main_c_52, main_v273, main_v274, main_c_53, main_v275, main_v276, main_v277, main_v278, main_v279, main_v280, main_v281, main_v282, main_cst_54, main_v283, main_v284, main_v285, main_v286, main_v287, main_cst_55, main_v288, main_v289, main_v290, main_v291, main_v292, main_v293, main_v294, main_v295, main_cst_56, main_v296, main_cst_57, main_v297, main_v298, main_c_58]

set_option maxHeartbeats 16000000 in
theorem ops5_writes : (ops5 : List (HloOp τ sig (Elt F))).Forall fun op => op.writes ⊆ (ops5_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

end Cert.ReferenceIdeal.RefRun

end
-- ==== Proof.RefPart6.lean ====
/-
  Window 6 of the reference program as a straight line of 97 host operations: the outlined functions it calls
  unfolded at their calls and the sequencing re-associated. Every operation names TensorCore buffers only, allocates
  none, and writes one buffer of its own, listed here; no argument array is among them.
-/
import proofs.«140713_j1864015806535_2_alg».proof.Proof.Gen.ReferenceIdeal
import Idealize.ShloMosaic.Lib.StableHlo.Run

set_option maxRecDepth 65536

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
abbrev ops6 : List (HloOp τ sig (Elt F)) :=
  [ StableHlo.TRef.nullary main_call7.cst (constant S_ .f32 0x00000000#32),
    StableHlo.TRef.binary (.of main_v291 : StableHlo.TRef sig ⟨S100000x32, .f32⟩) main_call7.cst main_call7.v0 (fun x v => Host.reduceAdd x v reducesTo_S100000x32_S32_d0 h_S_),
    StableHlo.TRef.unary main_call7.v0 main_call7.v1 (broadcastInDim S1x32 ![1] bcast_S32_S1x32_1),
    StableHlo.TRef.nullary main_call7.cst_0 (constant S_ .f32 0x47C35000#32),
    StableHlo.TRef.unary main_call7.cst_0 main_call7.v2 (broadcastInDim S1x32 ![] bcast_S_S1x32),
    StableHlo.TRef.binary main_call7.v1 main_call7.v2 main_call7.v3 Host.divf,
    StableHlo.TRef.unary main_call7.v3 main_call7.v4 (broadcastInDim S100000x32 ![0, 1] bcast_S1x32_S100000x32_0_1),
    StableHlo.TRef.binary (.of main_v291 : StableHlo.TRef sig ⟨S100000x32, .f32⟩) main_call7.v4 main_call7.v5 subf,
    StableHlo.TRef.binary main_call7.v5 main_call7.v5 main_call7.v6 mulf,
    StableHlo.TRef.unary (.of main_c_58 : StableHlo.TRef sig ⟨S_, .i32⟩) main_call7.v7 (sitofp .f32),
    StableHlo.TRef.nullary main_call7.cst_1 (constant S_ .f32 0x47C35000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S100000x32_S32_d0 h_S_),
    StableHlo.TRef.unary main_call7.v8 main_call7.v10 (broadcastInDim S32 ![] bcast_S_S32),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S32 ![] bcast_S_S32),
    StableHlo.TRef.ternary main_call7.v12 main_call7.v11 main_call7.call0.v1 main_call7.call0.v2 (fun p a b => select (broadcastInDim S32 ![] bcast_S_S32 p) a b),
    StableHlo.unary main_v298 main_v300 (broadcastInDim S1x32 ![1] bcast_S32_S1x32_1 : (⟨S32, .f32⟩ : BufTy).Contents (Elt F) → (⟨S1x32, .f32⟩ : BufTy).Contents (Elt F)),
    StableHlo.unary main_v300 main_v301 (broadcastInDim S100000x32 ![0, 1] bcast_S1x32_S100000x32_0_1 : (⟨S1x32, .f32⟩ : BufTy).Contents (Elt F) → (⟨S100000x32, .f32⟩ : BufTy).Contents (Elt F)),
    StableHlo.binary main_v291 main_v301 main_v302 (subf : (⟨S100000x32, .f32⟩ : BufTy).Contents (Elt F) → (⟨S100000x32, .f32⟩ : BufTy).Contents (Elt F) → (⟨S100000x32, .f32⟩ : BufTy).Contents (Elt F)),
    StableHlo.nullary main_cst_59 (constant S_ .f32 0x3727C5AC#32),
    StableHlo.unary main_cst_59 main_v303 (broadcastInDim S32 ![] bcast_S_S32 : (⟨S_, .f32⟩ : BufTy).Contents (Elt F) → (⟨S32, .f32⟩ : BufTy).Contents (Elt F)),
    StableHlo.binary main_v299 main_v303 main_v304 (addf : (⟨S32, .f32⟩ : BufTy).Contents (Elt F) → (⟨S32, .f32⟩ : BufTy).Contents (Elt F) → (⟨S32, .f32⟩ : BufTy).Contents (Elt F)),
    StableHlo.unary main_v304 main_v305 (Host.rsqrt : (⟨S32, .f32⟩ : BufTy).Contents (Elt F) → (⟨S32, .f32⟩ : BufTy).Contents (Elt F)),
    StableHlo.unary main_v305 main_v306 (broadcastInDim S1x32 ![1] bcast_S32_S1x32_1 : (⟨S32, .f32⟩ : BufTy).Contents (Elt F) → (⟨S1x32, .f32⟩ : BufTy).Contents (Elt F)),
    StableHlo.unary main_v306 main_v307 (broadcastInDim S100000x32 ![0, 1] bcast_S1x32_S100000x32_0_1 : (⟨S1x32, .f32⟩ : BufTy).Contents (Elt F) → (⟨S100000x32, .f32⟩ : BufTy).Contents (Elt F)),
    StableHlo.binary main_v302 main_v307 main_v308 (mulf : (⟨S100000x32, .f32⟩ : BufTy).Contents (Elt F) → (⟨S100000x32, .f32⟩ : BufTy).Contents (Elt F) → (⟨S100000x32, .f32⟩ : BufTy).Contents (Elt F)),
    StableHlo.unary main_v293 main_v309 (broadcastInDim S1x32 ![1] bcast_S32_S1x32_1 : (⟨S32, .f32⟩ : BufTy).Contents (Elt F) → (⟨S1x32, .f32⟩ : BufTy).Contents (Elt F)),
    StableHlo.unary main_v309 main_v310 (broadcastInDim S100000x32 ![0, 1] bcast_S1x32_S100000x32_0_1 : (⟨S1x32, .f32⟩ : BufTy).Contents (Elt F) → (⟨S100000x32, .f32⟩ : BufTy).Contents (Elt F)),
    StableHlo.binary main_v308 main_v310 main_v311 (mulf : (⟨S100000x32, .f32⟩ : BufTy).Contents (Elt F) → (⟨S100000x32, .f32⟩ : BufTy).Contents (Elt F) → (⟨S100000x32, .f32⟩ : BufTy).Contents (Elt F)),
    StableHlo.unary main_v295 main_v312 (broadcastInDim S1x32 ![1] bcast_S32_S1x32_1 : (⟨S32, .f32⟩ : BufTy).Contents (Elt F) → (⟨S1x32, .f32⟩ : BufTy).Contents (Elt F)),
    StableHlo.unary main_v312 main_v313 (broadcastInDim S100000x32 ![0, 1] bcast_S1x32_S100000x32_0_1 : (⟨S1x32, .f32⟩ : BufTy).Contents (Elt F) → (⟨S100000x32, .f32⟩ : BufTy).Contents (Elt F)),
    StableHlo.binary main_v311 main_v313 main_v314 (addf : (⟨S100000x32, .f32⟩ : BufTy).Contents (Elt F) → (⟨S100000x32, .f32⟩ : BufTy).Contents (Elt F) → (⟨S100000x32, .f32⟩ : BufTy).Contents (Elt F)),
    StableHlo.TRef.nullary main_call8.cst (constant S_ .f32 0x00000000#32),
    StableHlo.TRef.unary main_call8.cst main_call8.v0 (broadcastInDim S100000x32 ![] bcast_S_S100000x32),
    StableHlo.TRef.binary (.of main_v314 : StableHlo.TRef sig ⟨S100000x32, .f32⟩) main_call8.v0 main_call8.v1 maximumf,
    StableHlo.nullary main_c_60 (constantI S_ 32 0#32),
    StableHlo.unary main_c_60 main_v316 (broadcastInDim S50000 ![] bcast_S_S50000 : (⟨S_, .i32⟩ : BufTy).Contents (Elt F) → (⟨S50000, .i32⟩ : BufTy).Contents (Elt F)),
    StableHlo.binary main_arg2 main_v316 main_v317 (cmpi .slt : (⟨S50000, .i32⟩ : BufTy).Contents (Elt F) → (⟨S50000, .i32⟩ : BufTy).Contents (Elt F) → (⟨S50000, .i1⟩ : BufTy).Contents (Elt F)),
    StableHlo.nullary main_c_61 (constantI S_ 32 100000#32),
    StableHlo.unary main_c_61 main_v318 (broadcastInDim S50000 ![] bcast_S_S50000 : (⟨S_, .i32⟩ : BufTy).Contents (Elt F) → (⟨S50000, .i32⟩ : BufTy).Contents (Elt F)),
    StableHlo.binary main_arg2 main_v318 main_v319 (addi : (⟨S50000, .i32⟩ : BufTy).Contents (Elt F) → (⟨S50000, .i32⟩ : BufTy).Contents (Elt F) → (⟨S50000, .i32⟩ : BufTy).Contents (Elt F)),
    StableHlo.ternary main_v317 main_v319 main_arg2 main_v320 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v320 main_v321 (broadcastInDim S50000x1 ![0] bcast_S50000_S50000x1_0 : (⟨S50000, .i32⟩ : BufTy).Contents (Elt F) → (⟨S50000x1, .i32⟩ : BufTy).Contents (Elt F)),
    StableHlo.binary main_v315 main_v321 main_v322 ((fun x i => Host.gather gather_S100000x32_S50000x1_S50000x32_1_0_n_n_0_1_132 x i) : (⟨S100000x32, .f32⟩ : BufTy).Contents (Elt F) → (⟨S50000x1, .i32⟩ : BufTy).Contents (Elt F) → (⟨S50000x32, .f32⟩ : BufTy).Contents (Elt F)),
    StableHlo.TRef.nullary main_call9.cst (constant S_ .f32 0xFF800000#32),
    StableHlo.TRef.binary (.of main_v322 : StableHlo.TRef sig ⟨S50000x32, .f32⟩) main_call9.cst main_call9.v0 (fun x v => Host.reduce FloatOps.maximumf x v reducesTo_S50000x32_S50000_d1 h_S_),
    StableHlo.TRef.nullary main_call9.cst_0 (constant S_ .f32 0xFF800000#32),
    StableHlo.TRef.unary main_call9.cst_0 main_call9.v1 (broadcastInDim S50000 ![] bcast_S_S50000),
    StableHlo.TRef.binary main_call9.v1 main_call9.v0 main_call9.v2 maximumf,
    StableHlo.TRef.unary main_call9.v2 main_call9.v3 (broadcastInDim S50000x1 ![0] bcast_S50000_S50000x1_0),
    StableHlo.TRef.unary main_call9.v3 main_call9.v4 (broadcastInDim S50000x32 ![0, 1] bcast_S50000x1_S50000x32_0_1),
    StableHlo.TRef.binary (.of main_v322 : StableHlo.TRef sig ⟨S50000x32, .f32⟩) main_call9.v4 main_call9.v5 subf,
    StableHlo.TRef.unary main_call9.v5 main_call9.v6 Host.exp,
    StableHlo.TRef.nullary main_call9.cst_1 (constant S_ .f32 0x00000000#32),
    StableHlo.TRef.binary main_call9.v6 main_call9.cst_1 main_call9.v7 (fun x v => Host.reduceAdd x v reducesTo_S50000x32_S50000_d1 h_S_),
    StableHlo.TRef.unary main_call9.v7 main_call9.v8 (broadcastInDim S50000x1 ![0] bcast_S50000_S50000x1_0),
    StableHlo.TRef.unary main_call9.v8 main_call9.v9 Host.log,
    StableHlo.TRef.unary main_call9.v9 main_call9.v10 (broadcastInDim S50000x32 ![0, 1] bcast_S50000x1_S50000x32_0_1),
    StableHlo.TRef.binary main_call9.v5 main_call9.v10 main_call9.v11 subf,
    StableHlo.unary main_arg1 main_v324 ((extractStridedSlice S1x1x1600000 ![2, 0, 0] · slices_S3x2x1600000_S1x1x1600000_2_0_0) : (⟨S3x2x1600000, .i32⟩ : BufTy).Contents (Elt F) → (⟨S1x1x1600000, .i32⟩ : BufTy).Contents (Elt F)),
    StableHlo.reshape main_v324 main_v325 rfl shapeCasts_S1x1x1600000_S1600000,
    StableHlo.unary main_arg1 main_v326 ((extractStridedSlice S1x1x1600000 ![2, 1, 0] · slices_S3x2x1600000_S1x1x1600000_2_1_0) : (⟨S3x2x1600000, .i32⟩ : BufTy).Contents (Elt F) → (⟨S1x1x1600000, .i32⟩ : BufTy).Contents (Elt F)),
    StableHlo.reshape main_v326 main_v327 rfl shapeCasts_S1x1x1600000_S1600000,
    StableHlo.unary main_arg3 main_v328 ((extractStridedSlice S1x128x64 ![2, 0, 0] · slices_S3x128x64_S1x128x64_2_0_0) : (⟨S3x128x64, .f32⟩ : BufTy).Contents (Elt F) → (⟨S1x128x64, .f32⟩ : BufTy).Contents (Elt F)),
    StableHlo.reshape main_v328 main_v329 rfl shapeCasts_S1x128x64_S128x64,
    StableHlo.unary main_arg4 main_v330 ((extractStridedSlice S1x64 ![2, 0] · slices_S3x64_S1x64_2_0) : (⟨S3x64, .f32⟩ : BufTy).Contents (Elt F) → (⟨S1x64, .f32⟩ : BufTy).Contents (Elt F)),
    StableHlo.reshape main_v330 main_v331 rfl shapeCasts_S1x64_S64,
    StableHlo.unary main_arg7 main_v332 ((extractStridedSlice S1 ![2] · slices_S3_S1_2) : (⟨S3, .f32⟩ : BufTy).Contents (Elt F) → (⟨S1, .f32⟩ : BufTy).Contents (Elt F)),
    StableHlo.reshape main_v332 main_v333 rfl shapeCasts_S1_S_,
    StableHlo.binary main_arg0 main_v329 main_v334 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_v331 main_v335 (broadcastInDim S1x64 ![1] bcast_S64_S1x64_1 : (⟨S64, .f32⟩ : BufTy).Contents (Elt F) → (⟨S1x64, .f32⟩ : BufTy).Contents (Elt F)),
    StableHlo.unary main_v335 main_v336 (broadcastInDim S100000x64 ![0, 1] bcast_S1x64_S100000x64_0_1 : (⟨S1x64, .f32⟩ : BufTy).Contents (Elt F) → (⟨S100000x64, .f32⟩ : BufTy).Contents (Elt F)),
    StableHlo.binary main_v334 main_v336 main_v337 (addf : (⟨S100000x64, .f32⟩ : BufTy).Contents (Elt F) → (⟨S100000x64, .f32⟩ : BufTy).Contents (Elt F) → (⟨S100000x64, .f32⟩ : BufTy).Contents (Elt F)),
    StableHlo.nullary main_cst_62 (constant S_ .f32 0x3F800000#32),
    StableHlo.unary main_cst_62 main_v338 (broadcastInDim S1600000 ![] bcast_S_S1600000 : (⟨S_, .f32⟩ : BufTy).Contents (Elt F) → (⟨S1600000, .f32⟩ : BufTy).Contents (Elt F)),
    StableHlo.nullary main_cst_63 (constant S_ .f32 0x00000000#32),
    StableHlo.unary main_cst_63 main_v339 (broadcastInDim S100000 ![] bcast_S_S100000 : (⟨S_, .f32⟩ : BufTy).Contents (Elt F) → (⟨S100000, .f32⟩ : BufTy).Contents (Elt F)),
    StableHlo.unary main_v327 main_v340 (broadcastInDim S1600000x1 ![0] bcast_S1600000_S1600000x1_0 : (⟨S1600000, .i32⟩ : BufTy).Contents (Elt F) → (⟨S1600000x1, .i32⟩ : BufTy).Contents (Elt F)),
    StableHlo.ternary main_v339 main_v340 main_v338 main_v341 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_64 (constant S_ .f32 0x3F800000#32),
    StableHlo.unary main_cst_64 main_v342 (broadcastInDim S100000 ![] bcast_S_S100000 : (⟨S_, .f32⟩ : BufTy).Contents (Elt F) → (⟨S100000, .f32⟩ : BufTy).Contents (Elt F)),
    StableHlo.binary main_v341 main_v342 main_v343 (maximumf : (⟨S100000, .f32⟩ : BufTy).Contents (Elt F) → (⟨S100000, .f32⟩ : BufTy).Contents (Elt F) → (⟨S100000, .f32⟩ : BufTy).Contents (Elt F)),
    StableHlo.unary main_v343 main_v344 (Host.rsqrt : (⟨S100000, .f32⟩ : BufTy).Contents (Elt F) → (⟨S100000, .f32⟩ : BufTy).Contents (Elt F)),
    StableHlo.nullary main_c_65 (constantI S_ 32 0#32),
    StableHlo.unary main_c_65 main_v345 (broadcastInDim S1600000 ![] bcast_S_S1600000 : (⟨S_, .i32⟩ : BufTy).Contents (Elt F) → (⟨S1600000, .i32⟩ : BufTy).Contents (Elt F)),
    StableHlo.binary main_v325 main_v345 main_v346 (cmpi .slt : (⟨S1600000, .i32⟩ : BufTy).Contents (Elt F) → (⟨S1600000, .i32⟩ : BufTy).Contents (Elt F) → (⟨S1600000, .i1⟩ : BufTy).Contents (Elt F)),
    StableHlo.nullary main_c_66 (constantI S_ 32 100000#32),
    StableHlo.unary main_c_66 main_v347 (broadcastInDim S1600000 ![] bcast_S_S1600000 : (⟨S_, .i32⟩ : BufTy).Contents (Elt F) → (⟨S1600000, .i32⟩ : BufTy).Contents (Elt F)),
    StableHlo.binary main_v325 main_v347 main_v348 (addi : (⟨S1600000, .i32⟩ : BufTy).Contents (Elt F) → (⟨S1600000, .i32⟩ : BufTy).Contents (Elt F) → (⟨S1600000, .i32⟩ : BufTy).Contents (Elt F)),
    StableHlo.ternary main_v346 main_v348 main_v325 main_v349 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v349 main_v350 (broadcastInDim S1600000x1 ![0] bcast_S1600000_S1600000x1_0 : (⟨S1600000, .i32⟩ : BufTy).Contents (Elt F) → (⟨S1600000x1, .i32⟩ : BufTy).Contents (Elt F)) ]

set_option maxHeartbeats 16000000 in
theorem part6_eq (c : Dev nD) : main_part6 (F := F) c = seq ops6 := by
  simp only [main_part6, fn_var_0.body, fn_where_1.body, fn_relu_2.body, fn_log_softmax.body, seq, bind_assoc, pure_bind]
  try rfl

theorem ops6_sub : (ops6 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub ..⟩

theorem ops6_fresh : (ops6 : List (HloOp τ sig (Elt F))).Forall fun op => op.fresh = ∅ := by
  simp only [List.Forall]; repeat' constructor

/-- The references the window's operations write. -/
abbrev ops6_W : List (Ref sig .tc) := [(main_call7.cst).ref, (main_call7.v0).ref, (main_call7.v1).ref, (main_call7.cst_0).ref, (main_call7.v2).ref, (main_call7.v3).ref, (main_call7.v4).ref, (main_call7.v5).ref, (main_call7.v6).ref, (main_call7.v7).ref, (main_call7.cst_1).ref, (main_call7.v8).ref, (main_call7.cst_2).ref, (main_call7.v9).ref, (main_call7.v10).ref, (main_call7.v11).ref, (main_call7.cst_3).ref, (main_call7.v12).ref, (main_call7.cst_4).ref, (main_call7.call0.v0).ref, (main_call7.call0.v1).ref, (main_call7.call0.v2).ref, main_v300, main_v301, main_v302, main_cst_59, main_v303, main_v304, main_v305, main_v306, main_v307, main_v308, main_v309, main_v310, main_v311, main_v312, main_v313, main_v314, (main_call8.cst).ref, (main_call8.v0).ref, (main_call8.v1).ref, main_c_60, main_v316, main_v317, main_c_61, main_v318, main_v319, main_v320, main_v321, main_v322, (main_call9.cst).ref, (main_call9.v0).ref, (main_call9.cst_0).ref, (main_call9.v1).ref, (main_call9.v2).ref, (main_call9.v3).ref, (main_call9.v4).ref, (main_call9.v5).ref, (main_call9.v6).ref, (main_call9.cst_1).ref, (main_call9.v7).ref, (main_call9.v8).ref, (main_call9.v9).ref, (main_call9.v10).ref, (main_call9.v11).ref, main_v324, main_v325, main_v326, main_v327, main_v328, main_v329, main_v330, main_v331, main_v332, main_v333, main_v334, main_v335, main_v336, main_v337, main_cst_62, main_v338, main_cst_63, main_v339, main_v340, main_v341, main_cst_64, main_v342, main_v343, main_v344, main_c_65, main_v345, main_v346, main_c_66, main_v347, main_v348, main_v349, main_v350]

set_option maxHeartbeats 16000000 in
theorem ops6_writes : (ops6 : List (HloOp τ sig (Elt F))).Forall fun op => op.writes ⊆ (ops6_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

end Cert.ReferenceIdeal.RefRun

end
-- ==== Proof.RefPart7.lean ====
/-
  Window 7 of the reference program as a straight line of 81 host operations: the outlined functions it calls
  unfolded at their calls and the sequencing re-associated. Every operation names TensorCore buffers only, allocates
  none, and writes one buffer of its own, listed here; no argument array is among them.
-/
import proofs.«140713_j1864015806535_2_alg».proof.Proof.Gen.ReferenceIdeal
import Idealize.ShloMosaic.Lib.StableHlo.Run

set_option maxRecDepth 65536

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
abbrev ops7 : List (HloOp τ sig (Elt F)) :=
  [ StableHlo.binary main_v344 main_v350 main_v351 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_67 (constantI S_ 32 0#32),
    StableHlo.unary main_c_67 main_v352 (broadcastInDim S1600000 ![] bcast_S_S1600000 : (⟨S_, .i32⟩ : BufTy).Contents (Elt F) → (⟨S1600000, .i32⟩ : BufTy).Contents (Elt F)),
    StableHlo.binary main_v327 main_v352 main_v353 (cmpi .slt : (⟨S1600000, .i32⟩ : BufTy).Contents (Elt F) → (⟨S1600000, .i32⟩ : BufTy).Contents (Elt F) → (⟨S1600000, .i1⟩ : BufTy).Contents (Elt F)),
    StableHlo.nullary main_c_68 (constantI S_ 32 100000#32),
    StableHlo.unary main_c_68 main_v354 (broadcastInDim S1600000 ![] bcast_S_S1600000 : (⟨S_, .i32⟩ : BufTy).Contents (Elt F) → (⟨S1600000, .i32⟩ : BufTy).Contents (Elt F)),
    StableHlo.binary main_v327 main_v354 main_v355 (addi : (⟨S1600000, .i32⟩ : BufTy).Contents (Elt F) → (⟨S1600000, .i32⟩ : BufTy).Contents (Elt F) → (⟨S1600000, .i32⟩ : BufTy).Contents (Elt F)),
    StableHlo.ternary main_v353 main_v355 main_v327 main_v356 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v356 main_v357 (broadcastInDim S1600000x1 ![0] bcast_S1600000_S1600000x1_0 : (⟨S1600000, .i32⟩ : BufTy).Contents (Elt F) → (⟨S1600000x1, .i32⟩ : BufTy).Contents (Elt F)),
    StableHlo.binary main_v344 main_v357 main_v358 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v351 main_v358 main_v359 (mulf : (⟨S1600000, .f32⟩ : BufTy).Contents (Elt F) → (⟨S1600000, .f32⟩ : BufTy).Contents (Elt F) → (⟨S1600000, .f32⟩ : BufTy).Contents (Elt F)),
    StableHlo.nullary main_c_69 (constantI S_ 32 0#32),
    StableHlo.unary main_c_69 main_v360 (broadcastInDim S1600000 ![] bcast_S_S1600000 : (⟨S_, .i32⟩ : BufTy).Contents (Elt F) → (⟨S1600000, .i32⟩ : BufTy).Contents (Elt F)),
    StableHlo.binary main_v325 main_v360 main_v361 (cmpi .slt : (⟨S1600000, .i32⟩ : BufTy).Contents (Elt F) → (⟨S1600000, .i32⟩ : BufTy).Contents (Elt F) → (⟨S1600000, .i1⟩ : BufTy).Contents (Elt F)),
    StableHlo.nullary main_c_70 (constantI S_ 32 100000#32),
    StableHlo.unary main_c_70 main_v362 (broadcastInDim S1600000 ![] bcast_S_S1600000 : (⟨S_, .i32⟩ : BufTy).Contents (Elt F) → (⟨S1600000, .i32⟩ : BufTy).Contents (Elt F)),
    StableHlo.binary main_v325 main_v362 main_v363 (addi : (⟨S1600000, .i32⟩ : BufTy).Contents (Elt F) → (⟨S1600000, .i32⟩ : BufTy).Contents (Elt F) → (⟨S1600000, .i32⟩ : BufTy).Contents (Elt F)),
    StableHlo.ternary main_v361 main_v363 main_v325 main_v364 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v364 main_v365 (broadcastInDim S1600000x1 ![0] bcast_S1600000_S1600000x1_0 : (⟨S1600000, .i32⟩ : BufTy).Contents (Elt F) → (⟨S1600000x1, .i32⟩ : BufTy).Contents (Elt F)),
    StableHlo.binary main_v337 main_v365 main_v366 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v359 main_v367 (broadcastInDim S1600000x1 ![0] bcast_S1600000_S1600000x1_0 : (⟨S1600000, .f32⟩ : BufTy).Contents (Elt F) → (⟨S1600000x1, .f32⟩ : BufTy).Contents (Elt F)),
    StableHlo.unary main_v367 main_v368 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v366 main_v368 main_v369 (mulf : (⟨S1600000x64, .f32⟩ : BufTy).Contents (Elt F) → (⟨S1600000x64, .f32⟩ : BufTy).Contents (Elt F) → (⟨S1600000x64, .f32⟩ : BufTy).Contents (Elt F)),
    StableHlo.nullary main_cst_71 (constant S_ .f32 0x00000000#32),
    StableHlo.unary main_cst_71 main_v370 (broadcastInDim S100000x64 ![] bcast_S_S100000x64 : (⟨S_, .f32⟩ : BufTy).Contents (Elt F) → (⟨S100000x64, .f32⟩ : BufTy).Contents (Elt F)),
    StableHlo.unary main_v327 main_v371 (broadcastInDim S1600000x1 ![0] bcast_S1600000_S1600000x1_0 : (⟨S1600000, .i32⟩ : BufTy).Contents (Elt F) → (⟨S1600000x1, .i32⟩ : BufTy).Contents (Elt F)),
    StableHlo.ternary main_v370 main_v371 main_v369 main_v372 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_v333 main_v373 (broadcastInDim S100000x64 ![] bcast_S_S100000x64 : (⟨S_, .f32⟩ : BufTy).Contents (Elt F) → (⟨S100000x64, .f32⟩ : BufTy).Contents (Elt F)),
    StableHlo.binary main_v373 main_v372 main_v374 (mulf : (⟨S100000x64, .f32⟩ : BufTy).Contents (Elt F) → (⟨S100000x64, .f32⟩ : BufTy).Contents (Elt F) → (⟨S100000x64, .f32⟩ : BufTy).Contents (Elt F)),
    StableHlo.nullary main_cst_72 (constant S_ .f32 0x3F800000#32),
    StableHlo.binary main_cst_72 main_v333 main_v375 (subf : (⟨S_, .f32⟩ : BufTy).Contents (Elt F) → (⟨S_, .f32⟩ : BufTy).Contents (Elt F) → (⟨S_, .f32⟩ : BufTy).Contents (Elt F)),
    StableHlo.unary main_v375 main_v376 (broadcastInDim S100000x64 ![] bcast_S_S100000x64 : (⟨S_, .f32⟩ : BufTy).Contents (Elt F) → (⟨S100000x64, .f32⟩ : BufTy).Contents (Elt F)),
    StableHlo.binary main_v376 main_v337 main_v377 (mulf : (⟨S100000x64, .f32⟩ : BufTy).Contents (Elt F) → (⟨S100000x64, .f32⟩ : BufTy).Contents (Elt F) → (⟨S100000x64, .f32⟩ : BufTy).Contents (Elt F)),
    StableHlo.binary main_v374 main_v377 main_v378 (addf : (⟨S100000x64, .f32⟩ : BufTy).Contents (Elt F) → (⟨S100000x64, .f32⟩ : BufTy).Contents (Elt F) → (⟨S100000x64, .f32⟩ : BufTy).Contents (Elt F)),
    StableHlo.unary main_arg9 main_v379 ((extractStridedSlice S1x64 ![2, 0] · slices_S3x64_S1x64_2_0) : (⟨S3x64, .f32⟩ : BufTy).Contents (Elt F) → (⟨S1x64, .f32⟩ : BufTy).Contents (Elt F)),
    StableHlo.reshape main_v379 main_v380 rfl shapeCasts_S1x64_S64,
    StableHlo.unary main_arg10 main_v381 ((extractStridedSlice S1x64 ![2, 0] · slices_S3x64_S1x64_2_0) : (⟨S3x64, .f32⟩ : BufTy).Contents (Elt F) → (⟨S1x64, .f32⟩ : BufTy).Contents (Elt F)),
    StableHlo.reshape main_v381 main_v382 rfl shapeCasts_S1x64_S64,
    StableHlo.nullary main_cst_73 (constant S_ .f32 0x00000000#32),
    StableHlo.binary main_v378 main_cst_73 main_v383 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_74 (constant S_ .f32 0x47C35000#32),
    StableHlo.unary main_cst_74 main_v384 (broadcastInDim S64 ![] bcast_S_S64 : (⟨S_, .f32⟩ : BufTy).Contents (Elt F) → (⟨S64, .f32⟩ : BufTy).Contents (Elt F)),
    StableHlo.binary main_v383 main_v384 main_v385 (Host.divf : (⟨S64, .f32⟩ : BufTy).Contents (Elt F) → (⟨S64, .f32⟩ : BufTy).Contents (Elt F) → (⟨S64, .f32⟩ : BufTy).Contents (Elt F)),
    StableHlo.nullary main_c_75 (constantI S_ 32 0#32),
    StableHlo.TRef.nullary main_call10.cst (constant S_ .f32 0x00000000#32),
    StableHlo.TRef.binary (.of main_v378 : StableHlo.TRef sig ⟨S100000x64, .f32⟩) main_call10.cst main_call10.v0 (fun x v => Host.reduceAdd x v reducesTo_S100000x64_S64_d0 h_S_),
    StableHlo.TRef.unary main_call10.v0 main_call10.v1 (broadcastInDim S1x64 ![1] bcast_S64_S1x64_1),
    StableHlo.TRef.nullary main_call10.cst_0 (constant S_ .f32 0x47C35000#32),
    StableHlo.TRef.unary main_call10.cst_0 main_call10.v2 (broadcastInDim S1x64 ![] bcast_S_S1x64),
    StableHlo.TRef.binary main_call10.v1 main_call10.v2 main_call10.v3 Host.divf,
    StableHlo.TRef.unary main_call10.v3 main_call10.v4 (broadcastInDim S100000x64 ![0, 1] bcast_S1x64_S100000x64_0_1),
    StableHlo.TRef.binary (.of main_v378 : StableHlo.TRef sig ⟨S100000x64, .f32⟩) main_call10.v4 main_call10.v5 subf,
    StableHlo.TRef.binary main_call10.v5 main_call10.v5 main_call10.v6 mulf,
    StableHlo.TRef.unary (.of main_c_75 : StableHlo.TRef sig ⟨S_, .i32⟩) main_call10.v7 (sitofp .f32),
    StableHlo.TRef.nullary main_call10.cst_1 (constant S_ .f32 0x47C35000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S100000x64_S64_d0 h_S_),
    StableHlo.TRef.unary main_call10.v8 main_call10.v10 (broadcastInDim S64 ![] bcast_S_S64),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S64 ![] bcast_S_S64),
    StableHlo.TRef.ternary main_call10.v12 main_call10.v11 main_call10.call0.v1 main_call10.call0.v2 (fun p a b => select (broadcastInDim S64 ![] bcast_S_S64 p) a b),
    StableHlo.unary main_v385 main_v387 (broadcastInDim S1x64 ![1] bcast_S64_S1x64_1 : (⟨S64, .f32⟩ : BufTy).Contents (Elt F) → (⟨S1x64, .f32⟩ : BufTy).Contents (Elt F)),
    StableHlo.unary main_v387 main_v388 (broadcastInDim S100000x64 ![0, 1] bcast_S1x64_S100000x64_0_1 : (⟨S1x64, .f32⟩ : BufTy).Contents (Elt F) → (⟨S100000x64, .f32⟩ : BufTy).Contents (Elt F)),
    StableHlo.binary main_v378 main_v388 main_v389 (subf : (⟨S100000x64, .f32⟩ : BufTy).Contents (Elt F) → (⟨S100000x64, .f32⟩ : BufTy).Contents (Elt F) → (⟨S100000x64, .f32⟩ : BufTy).Contents (Elt F)),
    StableHlo.nullary main_cst_76 (constant S_ .f32 0x3727C5AC#32),
    StableHlo.unary main_cst_76 main_v390 (broadcastInDim S64 ![] bcast_S_S64 : (⟨S_, .f32⟩ : BufTy).Contents (Elt F) → (⟨S64, .f32⟩ : BufTy).Contents (Elt F)),
    StableHlo.binary main_v386 main_v390 main_v391 (addf : (⟨S64, .f32⟩ : BufTy).Contents (Elt F) → (⟨S64, .f32⟩ : BufTy).Contents (Elt F) → (⟨S64, .f32⟩ : BufTy).Contents (Elt F)),
    StableHlo.unary main_v391 main_v392 (Host.rsqrt : (⟨S64, .f32⟩ : BufTy).Contents (Elt F) → (⟨S64, .f32⟩ : BufTy).Contents (Elt F)),
    StableHlo.unary main_v392 main_v393 (broadcastInDim S1x64 ![1] bcast_S64_S1x64_1 : (⟨S64, .f32⟩ : BufTy).Contents (Elt F) → (⟨S1x64, .f32⟩ : BufTy).Contents (Elt F)),
    StableHlo.unary main_v393 main_v394 (broadcastInDim S100000x64 ![0, 1] bcast_S1x64_S100000x64_0_1 : (⟨S1x64, .f32⟩ : BufTy).Contents (Elt F) → (⟨S100000x64, .f32⟩ : BufTy).Contents (Elt F)),
    StableHlo.binary main_v389 main_v394 main_v395 (mulf : (⟨S100000x64, .f32⟩ : BufTy).Contents (Elt F) → (⟨S100000x64, .f32⟩ : BufTy).Contents (Elt F) → (⟨S100000x64, .f32⟩ : BufTy).Contents (Elt F)),
    StableHlo.unary main_v380 main_v396 (broadcastInDim S1x64 ![1] bcast_S64_S1x64_1 : (⟨S64, .f32⟩ : BufTy).Contents (Elt F) → (⟨S1x64, .f32⟩ : BufTy).Contents (Elt F)),
    StableHlo.unary main_v396 main_v397 (broadcastInDim S100000x64 ![0, 1] bcast_S1x64_S100000x64_0_1 : (⟨S1x64, .f32⟩ : BufTy).Contents (Elt F) → (⟨S100000x64, .f32⟩ : BufTy).Contents (Elt F)),
    StableHlo.binary main_v395 main_v397 main_v398 (mulf : (⟨S100000x64, .f32⟩ : BufTy).Contents (Elt F) → (⟨S100000x64, .f32⟩ : BufTy).Contents (Elt F) → (⟨S100000x64, .f32⟩ : BufTy).Contents (Elt F)),
    StableHlo.unary main_v382 main_v399 (broadcastInDim S1x64 ![1] bcast_S64_S1x64_1 : (⟨S64, .f32⟩ : BufTy).Contents (Elt F) → (⟨S1x64, .f32⟩ : BufTy).Contents (Elt F)),
    StableHlo.unary main_v399 main_v400 (broadcastInDim S100000x64 ![0, 1] bcast_S1x64_S100000x64_0_1 : (⟨S1x64, .f32⟩ : BufTy).Contents (Elt F) → (⟨S100000x64, .f32⟩ : BufTy).Contents (Elt F)) ]

set_option maxHeartbeats 16000000 in
theorem part7_eq (c : Dev nD) : main_part7 (F := F) c = seq ops7 := by
  simp only [main_part7, fn_var.body, fn_where.body, seq, bind_assoc, pure_bind]
  try rfl

theorem ops7_sub : (ops7 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., binary_bufs_sub .., nullary_bufs_sub .., binary_bufs_sub .., unary_bufs_sub .., binary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub ..⟩

theorem ops7_fresh : (ops7 : List (HloOp τ sig (Elt F))).Forall fun op => op.fresh = ∅ := by
  simp only [List.Forall]; repeat' constructor

/-- The references the window's operations write. -/
abbrev ops7_W : List (Ref sig .tc) := [main_v351, main_c_67, main_v352, main_v353, main_c_68, main_v354, main_v355, main_v356, main_v357, main_v358, main_v359, main_c_69, main_v360, main_v361, main_c_70, main_v362, main_v363, main_v364, main_v365, main_v366, main_v367, main_v368, main_v369, main_cst_71, main_v370, main_v371, main_v372, main_v373, main_v374, main_cst_72, main_v375, main_v376, main_v377, main_v378, main_v379, main_v380, main_v381, main_v382, main_cst_73, main_v383, main_cst_74, main_v384, main_v385, main_c_75, (main_call10.cst).ref, (main_call10.v0).ref, (main_call10.v1).ref, (main_call10.cst_0).ref, (main_call10.v2).ref, (main_call10.v3).ref, (main_call10.v4).ref, (main_call10.v5).ref, (main_call10.v6).ref, (main_call10.v7).ref, (main_call10.cst_1).ref, (main_call10.v8).ref, (main_call10.cst_2).ref, (main_call10.v9).ref, (main_call10.v10).ref, (main_call10.v11).ref, (main_call10.cst_3).ref, (main_call10.v12).ref, (main_call10.cst_4).ref, (main_call10.call0.v0).ref, (main_call10.call0.v1).ref, (main_call10.call0.v2).ref, main_v387, main_v388, main_v389, main_cst_76, main_v390, main_v391, main_v392, main_v393, main_v394, main_v395, main_v396, main_v397, main_v398, main_v399, main_v400]

set_option maxHeartbeats 16000000 in
theorem ops7_writes : (ops7 : List (HloOp τ sig (Elt F))).Forall fun op => op.writes ⊆ (ops7_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

end Cert.ReferenceIdeal.RefRun

end
-- ==== Proof.RefPart8.lean ====
/-
  Window 8 of the reference program as a straight line of 62 host operations: the outlined functions it calls
  unfolded at their calls and the sequencing re-associated. Every operation names TensorCore buffers only, allocates
  none, and writes one buffer of its own, listed here; no argument array is among them.
-/
import proofs.«140713_j1864015806535_2_alg».proof.Proof.Gen.ReferenceIdeal
import Idealize.ShloMosaic.Lib.StableHlo.Run

set_option maxRecDepth 65536

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
abbrev ops8 : List (HloOp τ sig (Elt F)) :=
  [ StableHlo.binary main_v398 main_v400 main_v401 (addf : (⟨S100000x64, .f32⟩ : BufTy).Contents (Elt F) → (⟨S100000x64, .f32⟩ : BufTy).Contents (Elt F) → (⟨S100000x64, .f32⟩ : BufTy).Contents (Elt F)),
    StableHlo.TRef.nullary main_call11.cst (constant S_ .f32 0x00000000#32),
    StableHlo.TRef.unary main_call11.cst main_call11.v0 (broadcastInDim S100000x64 ![] bcast_S_S100000x64),
    StableHlo.TRef.binary (.of main_v401 : StableHlo.TRef sig ⟨S100000x64, .f32⟩) main_call11.v0 main_call11.v1 maximumf,
    StableHlo.unary main_arg5 main_v403 ((extractStridedSlice S1x64x32 ![2, 0, 0] · slices_S3x64x32_S1x64x32_2_0_0) : (⟨S3x64x32, .f32⟩ : BufTy).Contents (Elt F) → (⟨S1x64x32, .f32⟩ : BufTy).Contents (Elt F)),
    StableHlo.reshape main_v403 main_v404 rfl shapeCasts_S1x64x32_S64x32,
    StableHlo.unary main_arg6 main_v405 ((extractStridedSlice S1x32 ![2, 0] · slices_S3x32_S1x32_2_0) : (⟨S3x32, .f32⟩ : BufTy).Contents (Elt F) → (⟨S1x32, .f32⟩ : BufTy).Contents (Elt F)),
    StableHlo.reshape main_v405 main_v406 rfl shapeCasts_S1x32_S32,
    StableHlo.unary main_arg8 main_v407 ((extractStridedSlice S1 ![2] · slices_S3_S1_2) : (⟨S3, .f32⟩ : BufTy).Contents (Elt F) → (⟨S1, .f32⟩ : BufTy).Contents (Elt F)),
    StableHlo.reshape main_v407 main_v408 rfl shapeCasts_S1_S_,
    StableHlo.binary main_v402 main_v404 main_v409 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_v406 main_v410 (broadcastInDim S1x32 ![1] bcast_S32_S1x32_1 : (⟨S32, .f32⟩ : BufTy).Contents (Elt F) → (⟨S1x32, .f32⟩ : BufTy).Contents (Elt F)),
    StableHlo.unary main_v410 main_v411 (broadcastInDim S100000x32 ![0, 1] bcast_S1x32_S100000x32_0_1 : (⟨S1x32, .f32⟩ : BufTy).Contents (Elt F) → (⟨S100000x32, .f32⟩ : BufTy).Contents (Elt F)),
    StableHlo.binary main_v409 main_v411 main_v412 (addf : (⟨S100000x32, .f32⟩ : BufTy).Contents (Elt F) → (⟨S100000x32, .f32⟩ : BufTy).Contents (Elt F) → (⟨S100000x32, .f32⟩ : BufTy).Contents (Elt F)),
    StableHlo.nullary main_cst_77 (constant S_ .f32 0x3F800000#32),
    StableHlo.unary main_cst_77 main_v413 (broadcastInDim S1600000 ![] bcast_S_S1600000 : (⟨S_, .f32⟩ : BufTy).Contents (Elt F) → (⟨S1600000, .f32⟩ : BufTy).Contents (Elt F)),
    StableHlo.nullary main_cst_78 (constant S_ .f32 0x00000000#32),
    StableHlo.unary main_cst_78 main_v414 (broadcastInDim S100000 ![] bcast_S_S100000 : (⟨S_, .f32⟩ : BufTy).Contents (Elt F) → (⟨S100000, .f32⟩ : BufTy).Contents (Elt F)),
    StableHlo.unary main_v327 main_v415 (broadcastInDim S1600000x1 ![0] bcast_S1600000_S1600000x1_0 : (⟨S1600000, .i32⟩ : BufTy).Contents (Elt F) → (⟨S1600000x1, .i32⟩ : BufTy).Contents (Elt F)),
    StableHlo.ternary main_v414 main_v415 main_v413 main_v416 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_79 (constant S_ .f32 0x3F800000#32),
    StableHlo.unary main_cst_79 main_v417 (broadcastInDim S100000 ![] bcast_S_S100000 : (⟨S_, .f32⟩ : BufTy).Contents (Elt F) → (⟨S100000, .f32⟩ : BufTy).Contents (Elt F)),
    StableHlo.binary main_v416 main_v417 main_v418 (maximumf : (⟨S100000, .f32⟩ : BufTy).Contents (Elt F) → (⟨S100000, .f32⟩ : BufTy).Contents (Elt F) → (⟨S100000, .f32⟩ : BufTy).Contents (Elt F)),
    StableHlo.unary main_v418 main_v419 (Host.rsqrt : (⟨S100000, .f32⟩ : BufTy).Contents (Elt F) → (⟨S100000, .f32⟩ : BufTy).Contents (Elt F)),
    StableHlo.nullary main_c_80 (constantI S_ 32 0#32),
    StableHlo.unary main_c_80 main_v420 (broadcastInDim S1600000 ![] bcast_S_S1600000 : (⟨S_, .i32⟩ : BufTy).Contents (Elt F) → (⟨S1600000, .i32⟩ : BufTy).Contents (Elt F)),
    StableHlo.binary main_v325 main_v420 main_v421 (cmpi .slt : (⟨S1600000, .i32⟩ : BufTy).Contents (Elt F) → (⟨S1600000, .i32⟩ : BufTy).Contents (Elt F) → (⟨S1600000, .i1⟩ : BufTy).Contents (Elt F)),
    StableHlo.nullary main_c_81 (constantI S_ 32 100000#32),
    StableHlo.unary main_c_81 main_v422 (broadcastInDim S1600000 ![] bcast_S_S1600000 : (⟨S_, .i32⟩ : BufTy).Contents (Elt F) → (⟨S1600000, .i32⟩ : BufTy).Contents (Elt F)),
    StableHlo.binary main_v325 main_v422 main_v423 (addi : (⟨S1600000, .i32⟩ : BufTy).Contents (Elt F) → (⟨S1600000, .i32⟩ : BufTy).Contents (Elt F) → (⟨S1600000, .i32⟩ : BufTy).Contents (Elt F)),
    StableHlo.ternary main_v421 main_v423 main_v325 main_v424 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v424 main_v425 (broadcastInDim S1600000x1 ![0] bcast_S1600000_S1600000x1_0 : (⟨S1600000, .i32⟩ : BufTy).Contents (Elt F) → (⟨S1600000x1, .i32⟩ : BufTy).Contents (Elt F)),
    StableHlo.binary main_v419 main_v425 main_v426 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_82 (constantI S_ 32 0#32),
    StableHlo.unary main_c_82 main_v427 (broadcastInDim S1600000 ![] bcast_S_S1600000 : (⟨S_, .i32⟩ : BufTy).Contents (Elt F) → (⟨S1600000, .i32⟩ : BufTy).Contents (Elt F)),
    StableHlo.binary main_v327 main_v427 main_v428 (cmpi .slt : (⟨S1600000, .i32⟩ : BufTy).Contents (Elt F) → (⟨S1600000, .i32⟩ : BufTy).Contents (Elt F) → (⟨S1600000, .i1⟩ : BufTy).Contents (Elt F)),
    StableHlo.nullary main_c_83 (constantI S_ 32 100000#32),
    StableHlo.unary main_c_83 main_v429 (broadcastInDim S1600000 ![] bcast_S_S1600000 : (⟨S_, .i32⟩ : BufTy).Contents (Elt F) → (⟨S1600000, .i32⟩ : BufTy).Contents (Elt F)),
    StableHlo.binary main_v327 main_v429 main_v430 (addi : (⟨S1600000, .i32⟩ : BufTy).Contents (Elt F) → (⟨S1600000, .i32⟩ : BufTy).Contents (Elt F) → (⟨S1600000, .i32⟩ : BufTy).Contents (Elt F)),
    StableHlo.ternary main_v428 main_v430 main_v327 main_v431 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v431 main_v432 (broadcastInDim S1600000x1 ![0] bcast_S1600000_S1600000x1_0 : (⟨S1600000, .i32⟩ : BufTy).Contents (Elt F) → (⟨S1600000x1, .i32⟩ : BufTy).Contents (Elt F)),
    StableHlo.binary main_v419 main_v432 main_v433 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v426 main_v433 main_v434 (mulf : (⟨S1600000, .f32⟩ : BufTy).Contents (Elt F) → (⟨S1600000, .f32⟩ : BufTy).Contents (Elt F) → (⟨S1600000, .f32⟩ : BufTy).Contents (Elt F)),
    StableHlo.nullary main_c_84 (constantI S_ 32 0#32),
    StableHlo.unary main_c_84 main_v435 (broadcastInDim S1600000 ![] bcast_S_S1600000 : (⟨S_, .i32⟩ : BufTy).Contents (Elt F) → (⟨S1600000, .i32⟩ : BufTy).Contents (Elt F)),
    StableHlo.binary main_v325 main_v435 main_v436 (cmpi .slt : (⟨S1600000, .i32⟩ : BufTy).Contents (Elt F) → (⟨S1600000, .i32⟩ : BufTy).Contents (Elt F) → (⟨S1600000, .i1⟩ : BufTy).Contents (Elt F)),
    StableHlo.nullary main_c_85 (constantI S_ 32 100000#32),
    StableHlo.unary main_c_85 main_v437 (broadcastInDim S1600000 ![] bcast_S_S1600000 : (⟨S_, .i32⟩ : BufTy).Contents (Elt F) → (⟨S1600000, .i32⟩ : BufTy).Contents (Elt F)),
    StableHlo.binary main_v325 main_v437 main_v438 (addi : (⟨S1600000, .i32⟩ : BufTy).Contents (Elt F) → (⟨S1600000, .i32⟩ : BufTy).Contents (Elt F) → (⟨S1600000, .i32⟩ : BufTy).Contents (Elt F)),
    StableHlo.ternary main_v436 main_v438 main_v325 main_v439 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v439 main_v440 (broadcastInDim S1600000x1 ![0] bcast_S1600000_S1600000x1_0 : (⟨S1600000, .i32⟩ : BufTy).Contents (Elt F) → (⟨S1600000x1, .i32⟩ : BufTy).Contents (Elt F)),
    StableHlo.binary main_v412 main_v440 main_v441 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.unary main_v434 main_v442 (broadcastInDim S1600000x1 ![0] bcast_S1600000_S1600000x1_0 : (⟨S1600000, .f32⟩ : BufTy).Contents (Elt F) → (⟨S1600000x1, .f32⟩ : BufTy).Contents (Elt F)),
    StableHlo.unary main_v442 main_v443 (broadcastInDim S1600000x32 ![0, 1] bcast_S1600000x1_S1600000x32_0_1 : (⟨S1600000x1, .f32⟩ : BufTy).Contents (Elt F) → (⟨S1600000x32, .f32⟩ : BufTy).Contents (Elt F)),
    StableHlo.binary main_v441 main_v443 main_v444 (mulf : (⟨S1600000x32, .f32⟩ : BufTy).Contents (Elt F) → (⟨S1600000x32, .f32⟩ : BufTy).Contents (Elt F) → (⟨S1600000x32, .f32⟩ : BufTy).Contents (Elt F)),
    StableHlo.nullary main_cst_86 (constant S_ .f32 0x00000000#32),
    StableHlo.unary main_cst_86 main_v445 (broadcastInDim S100000x32 ![] bcast_S_S100000x32 : (⟨S_, .f32⟩ : BufTy).Contents (Elt F) → (⟨S100000x32, .f32⟩ : BufTy).Contents (Elt F)),
    StableHlo.unary main_v327 main_v446 (broadcastInDim S1600000x1 ![0] bcast_S1600000_S1600000x1_0 : (⟨S1600000, .i32⟩ : BufTy).Contents (Elt F) → (⟨S1600000x1, .i32⟩ : BufTy).Contents (Elt F)),
    StableHlo.ternary main_v445 main_v446 main_v444 main_v447 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    StableHlo.unary main_v408 main_v448 (broadcastInDim S100000x32 ![] bcast_S_S100000x32 : (⟨S_, .f32⟩ : BufTy).Contents (Elt F) → (⟨S100000x32, .f32⟩ : BufTy).Contents (Elt F)),
    StableHlo.binary main_v448 main_v447 main_v449 (mulf : (⟨S100000x32, .f32⟩ : BufTy).Contents (Elt F) → (⟨S100000x32, .f32⟩ : BufTy).Contents (Elt F) → (⟨S100000x32, .f32⟩ : BufTy).Contents (Elt F)),
    StableHlo.nullary main_cst_87 (constant S_ .f32 0x3F800000#32) ]

set_option maxHeartbeats 16000000 in
theorem part8_eq (c : Dev nD) : main_part8 (F := F) c = seq ops8 := by
  simp only [main_part8, fn_relu.body, seq, bind_assoc, pure_bind]
  try rfl

theorem ops8_sub : (ops8 : List (HloOp τ sig (Elt F))).Forall fun op => op.bufs ⊆ tcRefs τ sig :=
  ⟨binary_bufs_sub .., nullary_bufs_sub .., unary_bufs_sub .., binary_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., binary_bufs_sub .., nullary_bufs_sub ..⟩

theorem ops8_fresh : (ops8 : List (HloOp τ sig (Elt F))).Forall fun op => op.fresh = ∅ := by
  simp only [List.Forall]; repeat' constructor

/-- The references the window's operations write. -/
abbrev ops8_W : List (Ref sig .tc) := [main_v401, (main_call11.cst).ref, (main_call11.v0).ref, (main_call11.v1).ref, main_v403, main_v404, main_v405, main_v406, main_v407, main_v408, main_v409, main_v410, main_v411, main_v412, main_cst_77, main_v413, main_cst_78, main_v414, main_v415, main_v416, main_cst_79, main_v417, main_v418, main_v419, main_c_80, main_v420, main_v421, main_c_81, main_v422, main_v423, main_v424, main_v425, main_v426, main_c_82, main_v427, main_v428, main_c_83, main_v429, main_v430, main_v431, main_v432, main_v433, main_v434, main_c_84, main_v435, main_v436, main_c_85, main_v437, main_v438, main_v439, main_v440, main_v441, main_v442, main_v443, main_v444, main_cst_86, main_v445, main_v446, main_v447, main_v448, main_v449, main_cst_87]

set_option maxHeartbeats 16000000 in
theorem ops8_writes : (ops8 : List (HloOp τ sig (Elt F))).Forall fun op => op.writes ⊆ (ops8_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

end Cert.ReferenceIdeal.RefRun

end
-- ==== Proof.RefPart9.lean ====
/-
  Window 9 of the reference program as a straight line of 84 host operations: the outlined functions it calls
  unfolded at their calls and the sequencing re-associated. Every operation names TensorCore buffers only, allocates
  none, and writes one buffer of its own, listed here; no argument array is among them.
-/
import proofs.«140713_j1864015806535_2_alg».proof.Proof.Gen.ReferenceIdeal
import Idealize.ShloMosaic.Lib.StableHlo.Run

set_option maxRecDepth 65536

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
abbrev ops9 : List (HloOp τ sig (Elt F)) :=
  [ StableHlo.binary main_cst_87 main_v408 main_v450 (subf : (⟨S_, .f32⟩ : BufTy).Contents (Elt F) → (⟨S_, .f32⟩ : BufTy).Contents (Elt F) → (⟨S_, .f32⟩ : BufTy).Contents (Elt F)),
    StableHlo.unary main_v450 main_v451 (broadcastInDim S100000x32 ![] bcast_S_S100000x32 : (⟨S_, .f32⟩ : BufTy).Contents (Elt F) → (⟨S100000x32, .f32⟩ : BufTy).Contents (Elt F)),
    StableHlo.binary main_v451 main_v412 main_v452 (mulf : (⟨S100000x32, .f32⟩ : BufTy).Contents (Elt F) → (⟨S100000x32, .f32⟩ : BufTy).Contents (Elt F) → (⟨S100000x32, .f32⟩ : BufTy).Contents (Elt F)),
    StableHlo.binary main_v449 main_v452 main_v453 (addf : (⟨S100000x32, .f32⟩ : BufTy).Contents (Elt F) → (⟨S100000x32, .f32⟩ : BufTy).Contents (Elt F) → (⟨S100000x32, .f32⟩ : BufTy).Contents (Elt F)),
    StableHlo.unary main_arg11 main_v454 ((extractStridedSlice S1x32 ![2, 0] · slices_S3x32_S1x32_2_0) : (⟨S3x32, .f32⟩ : BufTy).Contents (Elt F) → (⟨S1x32, .f32⟩ : BufTy).Contents (Elt F)),
    StableHlo.reshape main_v454 main_v455 rfl shapeCasts_S1x32_S32,
    StableHlo.unary main_arg12 main_v456 ((extractStridedSlice S1x32 ![2, 0] · slices_S3x32_S1x32_2_0) : (⟨S3x32, .f32⟩ : BufTy).Contents (Elt F) → (⟨S1x32, .f32⟩ : BufTy).Contents (Elt F)),
    StableHlo.reshape main_v456 main_v457 rfl shapeCasts_S1x32_S32,
    StableHlo.nullary main_cst_88 (constant S_ .f32 0x00000000#32),
    StableHlo.binary main_v453 main_cst_88 main_v458 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.nullary main_cst_89 (constant S_ .f32 0x47C35000#32),
    StableHlo.unary main_cst_89 main_v459 (broadcastInDim S32 ![] bcast_S_S32 : (⟨S_, .f32⟩ : BufTy).Contents (Elt F) → (⟨S32, .f32⟩ : BufTy).Contents (Elt F)),
    StableHlo.binary main_v458 main_v459 main_v460 (Host.divf : (⟨S32, .f32⟩ : BufTy).Contents (Elt F) → (⟨S32, .f32⟩ : BufTy).Contents (Elt F) → (⟨S32, .f32⟩ : BufTy).Contents (Elt F)),
    StableHlo.nullary main_c_90 (constantI S_ 32 0#32),
    StableHlo.TRef.nullary main_call12.cst (constant S_ .f32 0x00000000#32),
    StableHlo.TRef.binary (.of main_v453 : StableHlo.TRef sig ⟨S100000x32, .f32⟩) main_call12.cst main_call12.v0 (fun x v => Host.reduceAdd x v reducesTo_S100000x32_S32_d0 h_S_),
    StableHlo.TRef.unary main_call12.v0 main_call12.v1 (broadcastInDim S1x32 ![1] bcast_S32_S1x32_1),
    StableHlo.TRef.nullary main_call12.cst_0 (constant S_ .f32 0x47C35000#32),
    StableHlo.TRef.unary main_call12.cst_0 main_call12.v2 (broadcastInDim S1x32 ![] bcast_S_S1x32),
    StableHlo.TRef.binary main_call12.v1 main_call12.v2 main_call12.v3 Host.divf,
    StableHlo.TRef.unary main_call12.v3 main_call12.v4 (broadcastInDim S100000x32 ![0, 1] bcast_S1x32_S100000x32_0_1),
    StableHlo.TRef.binary (.of main_v453 : StableHlo.TRef sig ⟨S100000x32, .f32⟩) main_call12.v4 main_call12.v5 subf,
    StableHlo.TRef.binary main_call12.v5 main_call12.v5 main_call12.v6 mulf,
    StableHlo.TRef.unary (.of main_c_90 : StableHlo.TRef sig ⟨S_, .i32⟩) main_call12.v7 (sitofp .f32),
    StableHlo.TRef.nullary main_call12.cst_1 (constant S_ .f32 0x47C35000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S100000x32_S32_d0 h_S_),
    StableHlo.TRef.unary main_call12.v8 main_call12.v10 (broadcastInDim S32 ![] bcast_S_S32),
    StableHlo.TRef.binary main_call12.v9 main_call12.v10 main_call12.v11 Host.divf,
    StableHlo.TRef.nullary main_call12.cst_3 (constant S_ .f32 0x00000000#32),
    StableHlo.TRef.binary main_call12.v8 main_call12.cst_3 main_call12.v12 (cmpf .ogt),
    StableHlo.TRef.nullary main_call12.cst_4 (constant S_ .f32 0x7FC00000#32),
    StableHlo.TRef.unary main_call12.cst_4 main_call12.call0.v0 id,
    StableHlo.TRef.unary main_call12.call0.v0 main_call12.call0.v1 (broadcastInDim S32 ![] bcast_S_S32),
    StableHlo.TRef.ternary main_call12.v12 main_call12.v11 main_call12.call0.v1 main_call12.call0.v2 (fun p a b => select (broadcastInDim S32 ![] bcast_S_S32 p) a b),
    StableHlo.unary main_v460 main_v462 (broadcastInDim S1x32 ![1] bcast_S32_S1x32_1 : (⟨S32, .f32⟩ : BufTy).Contents (Elt F) → (⟨S1x32, .f32⟩ : BufTy).Contents (Elt F)),
    StableHlo.unary main_v462 main_v463 (broadcastInDim S100000x32 ![0, 1] bcast_S1x32_S100000x32_0_1 : (⟨S1x32, .f32⟩ : BufTy).Contents (Elt F) → (⟨S100000x32, .f32⟩ : BufTy).Contents (Elt F)),
    StableHlo.binary main_v453 main_v463 main_v464 (subf : (⟨S100000x32, .f32⟩ : BufTy).Contents (Elt F) → (⟨S100000x32, .f32⟩ : BufTy).Contents (Elt F) → (⟨S100000x32, .f32⟩ : BufTy).Contents (Elt F)),
    StableHlo.nullary main_cst_91 (constant S_ .f32 0x3727C5AC#32),
    StableHlo.unary main_cst_91 main_v465 (broadcastInDim S32 ![] bcast_S_S32 : (⟨S_, .f32⟩ : BufTy).Contents (Elt F) → (⟨S32, .f32⟩ : BufTy).Contents (Elt F)),
    StableHlo.binary main_v461 main_v465 main_v466 (addf : (⟨S32, .f32⟩ : BufTy).Contents (Elt F) → (⟨S32, .f32⟩ : BufTy).Contents (Elt F) → (⟨S32, .f32⟩ : BufTy).Contents (Elt F)),
    StableHlo.unary main_v466 main_v467 (Host.rsqrt : (⟨S32, .f32⟩ : BufTy).Contents (Elt F) → (⟨S32, .f32⟩ : BufTy).Contents (Elt F)),
    StableHlo.unary main_v467 main_v468 (broadcastInDim S1x32 ![1] bcast_S32_S1x32_1 : (⟨S32, .f32⟩ : BufTy).Contents (Elt F) → (⟨S1x32, .f32⟩ : BufTy).Contents (Elt F)),
    StableHlo.unary main_v468 main_v469 (broadcastInDim S100000x32 ![0, 1] bcast_S1x32_S100000x32_0_1 : (⟨S1x32, .f32⟩ : BufTy).Contents (Elt F) → (⟨S100000x32, .f32⟩ : BufTy).Contents (Elt F)),
    StableHlo.binary main_v464 main_v469 main_v470 (mulf : (⟨S100000x32, .f32⟩ : BufTy).Contents (Elt F) → (⟨S100000x32, .f32⟩ : BufTy).Contents (Elt F) → (⟨S100000x32, .f32⟩ : BufTy).Contents (Elt F)),
    StableHlo.unary main_v455 main_v471 (broadcastInDim S1x32 ![1] bcast_S32_S1x32_1 : (⟨S32, .f32⟩ : BufTy).Contents (Elt F) → (⟨S1x32, .f32⟩ : BufTy).Contents (Elt F)),
    StableHlo.unary main_v471 main_v472 (broadcastInDim S100000x32 ![0, 1] bcast_S1x32_S100000x32_0_1 : (⟨S1x32, .f32⟩ : BufTy).Contents (Elt F) → (⟨S100000x32, .f32⟩ : BufTy).Contents (Elt F)),
    StableHlo.binary main_v470 main_v472 main_v473 (mulf : (⟨S100000x32, .f32⟩ : BufTy).Contents (Elt F) → (⟨S100000x32, .f32⟩ : BufTy).Contents (Elt F) → (⟨S100000x32, .f32⟩ : BufTy).Contents (Elt F)),
    StableHlo.unary main_v457 main_v474 (broadcastInDim S1x32 ![1] bcast_S32_S1x32_1 : (⟨S32, .f32⟩ : BufTy).Contents (Elt F) → (⟨S1x32, .f32⟩ : BufTy).Contents (Elt F)),
    StableHlo.unary main_v474 main_v475 (broadcastInDim S100000x32 ![0, 1] bcast_S1x32_S100000x32_0_1 : (⟨S1x32, .f32⟩ : BufTy).Contents (Elt F) → (⟨S100000x32, .f32⟩ : BufTy).Contents (Elt F)),
    StableHlo.binary main_v473 main_v475 main_v476 (addf : (⟨S100000x32, .f32⟩ : BufTy).Contents (Elt F) → (⟨S100000x32, .f32⟩ : BufTy).Contents (Elt F) → (⟨S100000x32, .f32⟩ : BufTy).Contents (Elt F)),
    StableHlo.TRef.nullary main_call13.cst (constant S_ .f32 0x00000000#32),
    StableHlo.TRef.unary main_call13.cst main_call13.v0 (broadcastInDim S100000x32 ![] bcast_S_S100000x32),
    StableHlo.TRef.binary (.of main_v476 : StableHlo.TRef sig ⟨S100000x32, .f32⟩) main_call13.v0 main_call13.v1 maximumf,
    StableHlo.nullary main_c_92 (constantI S_ 32 0#32),
    StableHlo.unary main_c_92 main_v478 (broadcastInDim S50000 ![] bcast_S_S50000 : (⟨S_, .i32⟩ : BufTy).Contents (Elt F) → (⟨S50000, .i32⟩ : BufTy).Contents (Elt F)),
    StableHlo.binary main_arg2 main_v478 main_v479 (cmpi .slt : (⟨S50000, .i32⟩ : BufTy).Contents (Elt F) → (⟨S50000, .i32⟩ : BufTy).Contents (Elt F) → (⟨S50000, .i1⟩ : BufTy).Contents (Elt F)),
    StableHlo.nullary main_c_93 (constantI S_ 32 100000#32),
    StableHlo.unary main_c_93 main_v480 (broadcastInDim S50000 ![] bcast_S_S50000 : (⟨S_, .i32⟩ : BufTy).Contents (Elt F) → (⟨S50000, .i32⟩ : BufTy).Contents (Elt F)),
    StableHlo.binary main_arg2 main_v480 main_v481 (addi : (⟨S50000, .i32⟩ : BufTy).Contents (Elt F) → (⟨S50000, .i32⟩ : BufTy).Contents (Elt F) → (⟨S50000, .i32⟩ : BufTy).Contents (Elt F)),
    StableHlo.ternary main_v479 main_v481 main_arg2 main_v482 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v482 main_v483 (broadcastInDim S50000x1 ![0] bcast_S50000_S50000x1_0 : (⟨S50000, .i32⟩ : BufTy).Contents (Elt F) → (⟨S50000x1, .i32⟩ : BufTy).Contents (Elt F)),
    StableHlo.binary main_v477 main_v483 main_v484 ((fun x i => Host.gather gather_S100000x32_S50000x1_S50000x32_1_0_n_n_0_1_132 x i) : (⟨S100000x32, .f32⟩ : BufTy).Contents (Elt F) → (⟨S50000x1, .i32⟩ : BufTy).Contents (Elt F) → (⟨S50000x32, .f32⟩ : BufTy).Contents (Elt F)),
    StableHlo.TRef.nullary main_call14.cst (constant S_ .f32 0xFF800000#32),
    StableHlo.TRef.binary (.of main_v484 : StableHlo.TRef sig ⟨S50000x32, .f32⟩) main_call14.cst main_call14.v0 (fun x v => Host.reduce FloatOps.maximumf x v reducesTo_S50000x32_S50000_d1 h_S_),
    StableHlo.TRef.nullary main_call14.cst_0 (constant S_ .f32 0xFF800000#32),
    StableHlo.TRef.unary main_call14.cst_0 main_call14.v1 (broadcastInDim S50000 ![] bcast_S_S50000),
    StableHlo.TRef.binary main_call14.v1 main_call14.v0 main_call14.v2 maximumf,
    StableHlo.TRef.unary main_call14.v2 main_call14.v3 (broadcastInDim S50000x1 ![0] bcast_S50000_S50000x1_0),
    StableHlo.TRef.unary main_call14.v3 main_call14.v4 (broadcastInDim S50000x32 ![0, 1] bcast_S50000x1_S50000x32_0_1),
    StableHlo.TRef.binary (.of main_v484 : StableHlo.TRef sig ⟨S50000x32, .f32⟩) main_call14.v4 main_call14.v5 subf,
    StableHlo.TRef.unary main_call14.v5 main_call14.v6 Host.exp,
    StableHlo.TRef.nullary main_call14.cst_1 (constant S_ .f32 0x00000000#32),
    StableHlo.TRef.binary main_call14.v6 main_call14.cst_1 main_call14.v7 (fun x v => Host.reduceAdd x v reducesTo_S50000x32_S50000_d1 h_S_),
    StableHlo.TRef.unary main_call14.v7 main_call14.v8 (broadcastInDim S50000x1 ![0] bcast_S50000_S50000x1_0),
    StableHlo.TRef.unary main_call14.v8 main_call14.v9 Host.log,
    StableHlo.TRef.unary main_call14.v9 main_call14.v10 (broadcastInDim S50000x32 ![0, 1] bcast_S50000x1_S50000x32_0_1),
    StableHlo.TRef.binary main_call14.v5 main_call14.v10 main_call14.v11 subf,
    StableHlo.unary main_v161 main_v486 (broadcastInDim S50000x1x32 ![0, 2] bcast_S50000x32_S50000x1x32_0_2 : (⟨S50000x32, .f32⟩ : BufTy).Contents (Elt F) → (⟨S50000x1x32, .f32⟩ : BufTy).Contents (Elt F)),
    StableHlo.unary main_v323 main_v487 (broadcastInDim S50000x1x32 ![0, 2] bcast_S50000x32_S50000x1x32_0_2 : (⟨S50000x32, .f32⟩ : BufTy).Contents (Elt F) → (⟨S50000x1x32, .f32⟩ : BufTy).Contents (Elt F)),
    StableHlo.unary main_v485 main_v488 (broadcastInDim S50000x1x32 ![0, 2] bcast_S50000x32_S50000x1x32_0_2 : (⟨S50000x32, .f32⟩ : BufTy).Contents (Elt F) → (⟨S50000x1x32, .f32⟩ : BufTy).Contents (Elt F)),
    StableHlo.nary ![main_v486, main_v487, main_v488] main_v489 (fun u => concatenate S50000x3x32 1 [⟨S50000x1x32, u 0⟩, ⟨S50000x1x32, u 1⟩, ⟨S50000x1x32, u 2⟩] concatenates_S50000x1x32_S50000x1x32_S50000x1x32_S50000x3x32_d1),
    StableHlo.reshape main_v489 main_v490 rfl shapeCasts_S50000x3x32_S50000x96 ]

set_option maxHeartbeats 16000000 in
theorem part9_eq (c : Dev nD) : main_part9 (F := F) c = seq ops9 := by
  simp only [main_part9, fn_var_0.body, fn_where_1.body, fn_relu_2.body, fn_log_softmax.body, seq, bind_assoc, pure_bind]
  try rfl

theorem ops9_sub : (ops9 : List (HloOp τ sig (Elt F))).Forall fun op => op.bufs ⊆ tcRefs τ sig :=
  ⟨binary_bufs_sub .., unary_bufs_sub .., binary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., unary_bufs_sub .., unary_bufs_sub .., nary_bufs_sub .., reshape_bufs_sub ..⟩

theorem ops9_fresh : (ops9 : List (HloOp τ sig (Elt F))).Forall fun op => op.fresh = ∅ := by
  simp only [List.Forall]; repeat' constructor

/-- The references the window's operations write. -/
abbrev ops9_W : List (Ref sig .tc) := [main_v450, main_v451, main_v452, main_v453, main_v454, main_v455, main_v456, main_v457, main_cst_88, main_v458, main_cst_89, main_v459, main_v460, main_c_90, (main_call12.cst).ref, (main_call12.v0).ref, (main_call12.v1).ref, (main_call12.cst_0).ref, (main_call12.v2).ref, (main_call12.v3).ref, (main_call12.v4).ref, (main_call12.v5).ref, (main_call12.v6).ref, (main_call12.v7).ref, (main_call12.cst_1).ref, (main_call12.v8).ref, (main_call12.cst_2).ref, (main_call12.v9).ref, (main_call12.v10).ref, (main_call12.v11).ref, (main_call12.cst_3).ref, (main_call12.v12).ref, (main_call12.cst_4).ref, (main_call12.call0.v0).ref, (main_call12.call0.v1).ref, (main_call12.call0.v2).ref, main_v462, main_v463, main_v464, main_cst_91, main_v465, main_v466, main_v467, main_v468, main_v469, main_v470, main_v471, main_v472, main_v473, main_v474, main_v475, main_v476, (main_call13.cst).ref, (main_call13.v0).ref, (main_call13.v1).ref, main_c_92, main_v478, main_v479, main_c_93, main_v480, main_v481, main_v482, main_v483, main_v484, (main_call14.cst).ref, (main_call14.v0).ref, (main_call14.cst_0).ref, (main_call14.v1).ref, (main_call14.v2).ref, (main_call14.v3).ref, (main_call14.v4).ref, (main_call14.v5).ref, (main_call14.v6).ref, (main_call14.cst_1).ref, (main_call14.v7).ref, (main_call14.v8).ref, (main_call14.v9).ref, (main_call14.v10).ref, (main_call14.v11).ref, main_v486, main_v487, main_v488, main_v489, main_v490]

set_option maxHeartbeats 16000000 in
theorem ops9_writes : (ops9 : List (HloOp τ sig (Elt F))).Forall fun op => op.writes ⊆ (ops9_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

end Cert.ReferenceIdeal.RefRun

end
-- ==== Proof.RefFrame.lean ====
/-
  The reference program's frame: it runs to the end, faults nowhere, and leaves its thirteen argument arrays as launched.

  @main is its ten windows one after the other, each a straight line of host operations (Proof/RefPart0.lean to
  RefPart9.lean); lines run one after the other are their concatenation run as one, so every weakly fair execution
  terminates with each buffer at the fold of all the operations over the launch contents. The fold of a
  concatenation is the folds one after the other, and no window writes an argument array, so the fold leaves each
  argument as launched.
-/
import proofs.«140713_j1864015806535_2_alg».proof.Proof.RefPart0
import proofs.«140713_j1864015806535_2_alg».proof.Proof.RefPart1
import proofs.«140713_j1864015806535_2_alg».proof.Proof.RefPart2
import proofs.«140713_j1864015806535_2_alg».proof.Proof.RefPart3
import proofs.«140713_j1864015806535_2_alg».proof.Proof.RefPart4
import proofs.«140713_j1864015806535_2_alg».proof.Proof.RefPart5
import proofs.«140713_j1864015806535_2_alg».proof.Proof.RefPart6
import proofs.«140713_j1864015806535_2_alg».proof.Proof.RefPart7
import proofs.«140713_j1864015806535_2_alg».proof.Proof.RefPart8
import proofs.«140713_j1864015806535_2_alg».proof.Proof.RefPart9

set_option maxRecDepth 65536

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The fold of two lines one after the other. -/
theorem after_append (l₁ l₂ : List (HloOp τ sig (Elt F))) (V : Valuation τ sig (Elt F)) : after (l₁ ++ l₂) V = after l₂ (after l₁ V) := by
  induction l₁ generalizing V with
  | nil => rfl
  | cons op l ih => exact ih (op.result V)

theorem forall_append {p : HloOp τ sig (Elt F) → Prop} {l₁ l₂ : List (HloOp τ sig (Elt F))} (h₁ : l₁.Forall p) (h₂ : l₂.Forall p) : (l₁ ++ l₂).Forall p :=
  List.forall_iff_forall_mem.mpr fun x hx => (List.mem_append.mp hx).elim (List.forall_iff_forall_mem.mp h₁ x) (List.forall_iff_forall_mem.mp h₂ x)

/-- All of @main's operations, in order. -/
abbrev ops : List (HloOp τ sig (Elt F)) := (ops0 ++ (ops1 ++ (ops2 ++ (ops3 ++ (ops4 ++ (ops5 ++ (ops6 ++ (ops7 ++ (ops8 ++ ops9)))))))))

theorem main_eq (c : Dev nD) : main (F := F) c = seq ops := by
  simp only [ops, seq_append, main, part0_eq, part1_eq, part2_eq, part3_eq, part4_eq, part5_eq, part6_eq, part7_eq, part8_eq, part9_eq]

theorem ops_sub : (ops : List (HloOp τ sig (Elt F))).Forall fun op => op.bufs ⊆ tcRefs τ sig := (forall_append ops0_sub (forall_append ops1_sub (forall_append ops2_sub (forall_append ops3_sub (forall_append ops4_sub (forall_append ops5_sub (forall_append ops6_sub (forall_append ops7_sub (forall_append ops8_sub ops9_sub)))))))))
theorem ops_fresh : (ops : List (HloOp τ sig (Elt F))).Forall fun op => op.fresh = ∅ := (forall_append ops0_fresh (forall_append ops1_fresh (forall_append ops2_fresh (forall_append ops3_fresh (forall_append ops4_fresh (forall_append ops5_fresh (forall_append ops6_fresh (forall_append ops7_fresh (forall_append ops8_fresh ops9_fresh)))))))))

theorem scopedRefs_eq : (Finset.univ.filter fun b : Ref sig .tc => b.isScoped) = ∅ := by decide
theorem scopedSems_eq : (Finset.univ.filter fun sm : SemLoc sig => sm.isScoped .tc) = ∅ := by decide

/-- A reference no window writes keeps its contents through the whole fold. -/
theorem keep (r : Ref sig .tc) (h0 : r ∉ (ops0_W : List (Ref sig .tc))) (h1 : r ∉ (ops1_W : List (Ref sig .tc))) (h2 : r ∉ (ops2_W : List (Ref sig .tc))) (h3 : r ∉ (ops3_W : List (Ref sig .tc))) (h4 : r ∉ (ops4_W : List (Ref sig .tc))) (h5 : r ∉ (ops5_W : List (Ref sig .tc))) (h6 : r ∉ (ops6_W : List (Ref sig .tc))) (h7 : r ∉ (ops7_W : List (Ref sig .tc))) (h8 : r ∉ (ops8_W : List (Ref sig .tc))) (h9 : r ∉ (ops9_W : List (Ref sig .tc))) (V : Valuation τ sig (Elt F)) :
    after (ops (F := F)) V (Proc.devRef .tc r) = V (Proc.devRef .tc r) := by
  simp only [ops, after_append]
  rw [after_of_writes_sub ops9 _ ops9_writes h9, after_of_writes_sub ops8 _ ops8_writes h8, after_of_writes_sub ops7 _ ops7_writes h7, after_of_writes_sub ops6 _ ops6_writes h6, after_of_writes_sub ops5 _ ops5_writes h5, after_of_writes_sub ops4 _ ops4_writes h4, after_of_writes_sub ops3 _ ops3_writes h3, after_of_writes_sub ops2 _ ops2_writes h2, after_of_writes_sub ops1 _ ops1_writes h1, after_of_writes_sub ops0 _ ops0_writes h0]

/-- Every weakly fair execution of @main terminates with each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => List.forall_iff_forall_mem.mp ops_fresh)

/-- The frame: the arguments end as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c main_arg0).trans (keep main_arg0 (by decide) (by decide) (by decide) (by decide) (by decide) (by decide) (by decide) (by decide) (by decide) (by decide) _),
      (h c main_arg1).trans (keep main_arg1 (by decide) (by decide) (by decide) (by decide) (by decide) (by decide) (by decide) (by decide) (by decide) (by decide) _),
      (h c main_arg2).trans (keep main_arg2 (by decide) (by decide) (by decide) (by decide) (by decide) (by decide) (by decide) (by decide) (by decide) (by decide) _),
      (h c main_arg3).trans (keep main_arg3 (by decide) (by decide) (by decide) (by decide) (by decide) (by decide) (by decide) (by decide) (by decide) (by decide) _),
      (h c main_arg4).trans (keep main_arg4 (by decide) (by decide) (by decide) (by decide) (by decide) (by decide) (by decide) (by decide) (by decide) (by decide) _),
      (h c main_arg5).trans (keep main_arg5 (by decide) (by decide) (by decide) (by decide) (by decide) (by decide) (by decide) (by decide) (by decide) (by decide) _),
      (h c main_arg6).trans (keep main_arg6 (by decide) (by decide) (by decide) (by decide) (by decide) (by decide) (by decide) (by decide) (by decide) (by decide) _),
      (h c main_arg7).trans (keep main_arg7 (by decide) (by decide) (by decide) (by decide) (by decide) (by decide) (by decide) (by decide) (by decide) (by decide) _),
      (h c main_arg8).trans (keep main_arg8 (by decide) (by decide) (by decide) (by decide) (by decide) (by decide) (by decide) (by decide) (by decide) (by decide) _),
      (h c main_arg9).trans (keep main_arg9 (by decide) (by decide) (by decide) (by decide) (by decide) (by decide) (by decide) (by decide) (by decide) (by decide) _),
      (h c main_arg10).trans (keep main_arg10 (by decide) (by decide) (by decide) (by decide) (by decide) (by decide) (by decide) (by decide) (by decide) (by decide) _),
      (h c main_arg11).trans (keep main_arg11 (by decide) (by decide) (by decide) (by decide) (by decide) (by decide) (by decide) (by decide) (by decide) (by decide) _),
      (h c main_arg12).trans (keep main_arg12 (by decide) (by decide) (by decide) (by decide) (by decide) (by decide) (by decide) (by decide) (by decide) (by decide) _)⟩)
    (run_main m ρ)

/-- The run in the value claim's shape: the result array at the fold's contents, the arguments as launched. -/
theorem run_value (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v490) = after ops (launchContents m c) (main_v490 : DevRef τ sig)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨h c main_v490, (h c main_arg0).trans (keep main_arg0 (by decide) (by decide) (by decide) (by decide) (by decide) (by decide) (by decide) (by decide) (by decide) (by decide) _),
      (h c main_arg1).trans (keep main_arg1 (by decide) (by decide) (by decide) (by decide) (by decide) (by decide) (by decide) (by decide) (by decide) (by decide) _),
      (h c main_arg2).trans (keep main_arg2 (by decide) (by decide) (by decide) (by decide) (by decide) (by decide) (by decide) (by decide) (by decide) (by decide) _),
      (h c main_arg3).trans (keep main_arg3 (by decide) (by decide) (by decide) (by decide) (by decide) (by decide) (by decide) (by decide) (by decide) (by decide) _),
      (h c main_arg4).trans (keep main_arg4 (by decide) (by decide) (by decide) (by decide) (by decide) (by decide) (by decide) (by decide) (by decide) (by decide) _),
      (h c main_arg5).trans (keep main_arg5 (by decide) (by decide) (by decide) (by decide) (by decide) (by decide) (by decide) (by decide) (by decide) (by decide) _),
      (h c main_arg6).trans (keep main_arg6 (by decide) (by decide) (by decide) (by decide) (by decide) (by decide) (by decide) (by decide) (by decide) (by decide) _),
      (h c main_arg7).trans (keep main_arg7 (by decide) (by decide) (by decide) (by decide) (by decide) (by decide) (by decide) (by decide) (by decide) (by decide) _),
      (h c main_arg8).trans (keep main_arg8 (by decide) (by decide) (by decide) (by decide) (by decide) (by decide) (by decide) (by decide) (by decide) (by decide) _),
      (h c main_arg9).trans (keep main_arg9 (by decide) (by decide) (by decide) (by decide) (by decide) (by decide) (by decide) (by decide) (by decide) (by decide) _),
      (h c main_arg10).trans (keep main_arg10 (by decide) (by decide) (by decide) (by decide) (by decide) (by decide) (by decide) (by decide) (by decide) (by decide) _),
      (h c main_arg11).trans (keep main_arg11 (by decide) (by decide) (by decide) (by decide) (by decide) (by decide) (by decide) (by decide) (by decide) (by decide) _),
      (h c main_arg12).trans (keep main_arg12 (by decide) (by decide) (by decide) (by decide) (by decide) (by decide) (by decide) (by decide) (by decide) (by decide) _)⟩)
    (run_main m ρ)

end Cert.ReferenceIdeal.RefRun

end
-- ==== Proof.KIRunCond.lean ====
/-
  The program's run with every buffer read back.

  The conditional frame reads the thirteen argument arrays off the last thread state. The same launch over the same
  segments reads any unscoped buffer there, a result array too: every final memory holds each unscoped buffer at the
  valuation after the last item. What a value claim needs of the program is this run.
-/
import proofs.«140713_j1864015806535_2_alg».proof.Proof.RegionsKernelIdeal

set_option maxRecDepth 65536

noncomputable section

namespace Cert.KernelIdeal.GenP

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option maxHeartbeats 16000000 in
set_option backward.isDefEq.respectTransparency.types false in
/-- THE CONDITIONAL RUN. Under the same hypotheses as the conditional frame (one segment record per region, entered from
    and left at this module's thread states), every weakly fair execution of @main from memory m with zero counters
    terminates, and every final memory holds every unscoped buffer at the last valuation. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 18) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 19 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE18 : ∀ c : Dev nD, E 18 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V15 m outs c) ∗ E 6 c) ⊢ R6.pre c)
    (hpost6 : ∀ c : Dev nD, R6.post c ⊢ iprop(StableHlo.held (c : Thread nD τ) (Pipeline.ucRefs τ sig) (V16 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V17 m outs c) ∗ E 7 c) ⊢ R7.pre c)
    (hpost7 : ∀ c : Dev nD, R7.post c ⊢ iprop(StableHlo.held (c : Thread nD τ) (Pipeline.ucRefs τ sig) (V18 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V19 m outs c) ∗ E 8 c) ⊢ R8.pre c)
    (hpost8 : ∀ c : Dev nD, R8.post c ⊢ iprop(StableHlo.held (c : Thread nD τ) (Pipeline.ucRefs τ sig) (V20 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V21 m outs c) ∗ E 9 c) ⊢ R9.pre c)
    (hpost9 : ∀ c : Dev nD, R9.post c ⊢ iprop(StableHlo.held (c : Thread nD τ) (Pipeline.ucRefs τ sig) (V22 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V23 m outs c) ∗ E 10 c) ⊢ R10.pre c)
    (hpost10 : ∀ c : Dev nD, R10.post c ⊢ iprop(StableHlo.held (c : Thread nD τ) (Pipeline.ucRefs τ sig) (V24 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V25 m outs c) ∗ E 11 c) ⊢ R11.pre c)
    (hpost11 : ∀ c : Dev nD, R11.post c ⊢ iprop(StableHlo.held (c : Thread nD τ) (Pipeline.ucRefs τ sig) (V26 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V29 m outs c) ∗ E 12 c) ⊢ R12.pre c)
    (hpost12 : ∀ c : Dev nD, R12.post c ⊢ iprop(StableHlo.held (c : Thread nD τ) (Pipeline.ucRefs τ sig) (V30 m outs c) ∗ E 13 c))
    (R13 : RegionSeg (pcfgs (F := F)) adm pdats ι defs₀ 𝒱₀ L lv 13)
    (hpre13 : ∀ c : Dev nD, iprop(StableHlo.held (c : Thread nD τ) (Pipeline.ucRefs τ sig) (V31 m outs c) ∗ E 13 c) ⊢ R13.pre c)
    (hpost13 : ∀ c : Dev nD, R13.post c ⊢ iprop(StableHlo.held (c : Thread nD τ) (Pipeline.ucRefs τ sig) (V32 m outs c) ∗ E 14 c))
    (R14 : RegionSeg (pcfgs (F := F)) adm pdats ι defs₀ 𝒱₀ L lv 14)
    (hpre14 : ∀ c : Dev nD, iprop(StableHlo.held (c : Thread nD τ) (Pipeline.ucRefs τ sig) (V33 m outs c) ∗ E 14 c) ⊢ R14.pre c)
    (hpost14 : ∀ c : Dev nD, R14.post c ⊢ iprop(StableHlo.held (c : Thread nD τ) (Pipeline.ucRefs τ sig) (V34 m outs c) ∗ E 15 c))
    (R15 : RegionSeg (pcfgs (F := F)) adm pdats ι defs₀ 𝒱₀ L lv 15)
    (hpre15 : ∀ c : Dev nD, iprop(StableHlo.held (c : Thread nD τ) (Pipeline.ucRefs τ sig) (V35 m outs c) ∗ E 15 c) ⊢ R15.pre c)
    (hpost15 : ∀ c : Dev nD, R15.post c ⊢ iprop(StableHlo.held (c : Thread nD τ) (Pipeline.ucRefs τ sig) (V36 m outs c) ∗ E 16 c))
    (R16 : RegionSeg (pcfgs (F := F)) adm pdats ι defs₀ 𝒱₀ L lv 16)
    (hpre16 : ∀ c : Dev nD, iprop(StableHlo.held (c : Thread nD τ) (Pipeline.ucRefs τ sig) (V37 m outs c) ∗ E 16 c) ⊢ R16.pre c)
    (hpost16 : ∀ c : Dev nD, R16.post c ⊢ iprop(StableHlo.held (c : Thread nD τ) (Pipeline.ucRefs τ sig) (V38 m outs c) ∗ E 17 c))
    (R17 : RegionSeg (pcfgs (F := F)) adm pdats ι defs₀ 𝒱₀ L lv 17)
    (hpre17 : ∀ c : Dev nD, iprop(StableHlo.held (c : Thread nD τ) (Pipeline.ucRefs τ sig) (V39 m outs c) ∗ E 17 c) ⊢ R17.pre c)
    (hpost17 : ∀ c : Dev nD, R17.post c ⊢ iprop(StableHlo.held (c : Thread nD τ) (Pipeline.ucRefs τ sig) (V40 m outs c) ∗ E 18 c)) :
    θ_run defs (onTc (τ := τ) (main (F := F))) ⟨m, fun _ => 0, ρ⟩ (fun r => ∀ c : Dev nD,
      ∀ b ∈ Pipeline.ucRefs τ sig, r.2.mem (((c : Thread nD τ)).1, b) = V43 m outs c b) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12 R13 R14 R15 R16 R17)
    (fun c Q => by
      rewrite [main_chain c, Seg.run_eq_chain,
        show (segs m outs 𝒱₀ L lv E ι pdats R0 R1 R2 R3 R4 R5 R6 R7 R8 R9 R10 R11 R12 R13 R14 R15 R16 R17 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          StableHlo.seq hostOps6_1,
          StableHlo.seq hostOps6_2,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          StableHlo.seq hostOps12_1,
          StableHlo.seq hostOps12_2,
          Prog.lift (.customCall (Pipeline.entry 12) ()),
          StableHlo.seq hostOps13,
          Prog.lift (.customCall (Pipeline.entry 13) ()),
          StableHlo.seq hostOps14,
          Prog.lift (.customCall (Pipeline.entry 14) ()),
          StableHlo.seq hostOps15,
          Prog.lift (.customCall (Pipeline.entry 15) ()),
          StableHlo.seq hostOps16,
          Prog.lift (.customCall (Pipeline.entry 16) ()),
          StableHlo.seq hostOps17,
          Prog.lift (.customCall (Pipeline.entry 17) ()),
          StableHlo.seq hostOps18,
          StableHlo.seq hostOps18_1,
          StableHlo.seq hostOps18_2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V43 m outs c))
    (hch := fun c => ⟨.rfl, hpre0 c, hpost0 c, hpre1 c, hpost1 c, hpre2 c, hpost2 c, hpre3 c, hpost3 c, hpre4 c, hpost4 c, hpre5 c, hpost5 c, .rfl, .rfl, hpre6 c, hpost6 c, hpre7 c, hpost7 c, hpre8 c, hpost8 c, hpre9 c, hpost9 c, hpre10 c, hpost10 c, hpre11 c, hpost11 c, .rfl, .rfl, hpre12 c, hpost12 c, hpre13 c, hpost13 c, hpre14 c, hpost14 c, hpre15 c, hpost15 c, hpre16 c, hpost16 c, hpre17 c, hpost17 c, .rfl, .rfl, sep_mono .rfl (hE18 c)⟩)
    (hinit := ?_) (QY := fun c s => ∀ b ∈ Pipeline.ucRefs τ sig, s.mem (((c : Thread nD τ)).1, b) = V43 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V43 m outs c) s') $$ [Hh HSI]
    · isplitl [Hh] <;> iassumption
    icases Hr with ⟨%h, HSI⟩
    imodintro
    isplitr
    · ipureintro
      exact h
    · iexact HSI

end Cert.KernelIdeal.GenP

end
-- ==== Proof.KIRun.lean ====
/-
  The program's run: every weakly fair execution terminates with every unscoped buffer at the valuation after the last
  item (W43), from the conditional run over the 18 segments. In particular the result array ends at W43's contents.
-/
import proofs.«140713_j1864015806535_2_alg».proof.Proof.KIFrame
import proofs.«140713_j1864015806535_2_alg».proof.Proof.KIRunCond

set_option maxRecDepth 65536

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The frame -/

variable (ρ : Dev nD → PrngReg)

set_option maxHeartbeats 16000000 in
set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W43 m c b) :=
  (θ_run defs _ _).mono (fun _ h c b hb => (h c b hb).trans (congrFun (hV43 m c) b))
  (GenP.run_cond (m := m) (EP := emb₁) (ι := ()) (𝒱₀ := Variants.none) (L := Lz) (lv := lvz) (hL := fun _ _ => rfl) (ρ := ρ)
    (outs := outs m) (pdats := pdats m) (O₀ := 0) (G := fun _ => iprop(emp))
    (u₀ := initOf (Pipeline.cells cfgs cellOf_inj) (Pipeline.launchToks cfgs cellOf_inj))
    (hu₀ := Cert.LibClassARegion.launch_own (U := UR sig nD τ) _)
    (E := fun _ c => Cert.LibClassARegion.rest (U := UR sig nD τ) c)
    (hE0 := Pipeline.initEach Lz lvz fun c => by
      iintro ⟨H, -⟩
      iapply (Cert.LibClassARegion.rest_of_launch (U := UR sig nD τ) c 0 rfl (ρ c) _ _ _)
      iexact H)
    (hE18 := fun c => Cert.LibClassARegion.owes_of_rest (U := UR sig nD τ) c)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)
    (R3 := reg3 m) (hpre3 := fun _ => .rfl) (hpost3 := fun _ => .rfl)
    (R4 := reg4 m) (hpre4 := fun _ => .rfl) (hpost4 := fun _ => .rfl)
    (R5 := reg5 m) (hpre5 := fun _ => .rfl) (hpost5 := fun _ => .rfl)
    (R6 := reg6 m) (hpre6 := fun _ => .rfl) (hpost6 := fun _ => .rfl)
    (R7 := reg7 m) (hpre7 := fun _ => .rfl) (hpost7 := fun _ => .rfl)
    (R8 := reg8 m) (hpre8 := fun _ => .rfl) (hpost8 := fun _ => .rfl)
    (R9 := reg9 m) (hpre9 := fun _ => .rfl) (hpost9 := fun _ => .rfl)
    (R10 := reg10 m) (hpre10 := fun _ => .rfl) (hpost10 := fun _ => .rfl)
    (R11 := reg11 m) (hpre11 := fun _ => .rfl) (hpost11 := fun _ => .rfl)
    (R12 := reg12 m) (hpre12 := fun _ => .rfl) (hpost12 := fun _ => .rfl)
    (R13 := reg13 m) (hpre13 := fun _ => .rfl) (hpost13 := fun _ => .rfl)
    (R14 := reg14 m) (hpre14 := fun _ => .rfl) (hpost14 := fun _ => .rfl)
    (R15 := reg15 m) (hpre15 := fun _ => .rfl) (hpost15 := fun _ => .rfl)
    (R16 := reg16 m) (hpre16 := fun _ => .rfl) (hpost16 := fun _ => .rfl)
    (R17 := reg17 m) (hpre17 := fun _ => .rfl) (hpost17 := fun _ => .rfl))

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run in the value claim's shape: the result array at the last valuation's contents, the arguments as launched. -/
theorem run_value : θ_run defs (onTc (τ := τ) (main (F := F))) ⟨m, fun _ => 0, ρ⟩ (fun r => ∀ c : Dev nD,
      r.2.mem ((c.tc : Thread nD τ).loc main_v322) = W43 m c main_v322
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨h c _ (mem_uc main_v322 (by decide)),
      ((h c _ (mem_uc main_arg0 (by decide))).trans (congrFun (hV43 m c) _).symm).trans (GenP.V43_main_arg0 m (outs m) c),
      ((h c _ (mem_uc main_arg1 (by decide))).trans (congrFun (hV43 m c) _).symm).trans (GenP.V43_main_arg1 m (outs m) c),
      ((h c _ (mem_uc main_arg2 (by decide))).trans (congrFun (hV43 m c) _).symm).trans (GenP.V43_main_arg2 m (outs m) c),
      ((h c _ (mem_uc main_arg3 (by decide))).trans (congrFun (hV43 m c) _).symm).trans (GenP.V43_main_arg3 m (outs m) c),
      ((h c _ (mem_uc main_arg4 (by decide))).trans (congrFun (hV43 m c) _).symm).trans (GenP.V43_main_arg4 m (outs m) c),
      ((h c _ (mem_uc main_arg5 (by decide))).trans (congrFun (hV43 m c) _).symm).trans (GenP.V43_main_arg5 m (outs m) c),
      ((h c _ (mem_uc main_arg6 (by decide))).trans (congrFun (hV43 m c) _).symm).trans (GenP.V43_main_arg6 m (outs m) c),
      ((h c _ (mem_uc main_arg7 (by decide))).trans (congrFun (hV43 m c) _).symm).trans (GenP.V43_main_arg7 m (outs m) c),
      ((h c _ (mem_uc main_arg8 (by decide))).trans (congrFun (hV43 m c) _).symm).trans (GenP.V43_main_arg8 m (outs m) c),
      ((h c _ (mem_uc main_arg9 (by decide))).trans (congrFun (hV43 m c) _).symm).trans (GenP.V43_main_arg9 m (outs m) c),
      ((h c _ (mem_uc main_arg10 (by decide))).trans (congrFun (hV43 m c) _).symm).trans (GenP.V43_main_arg10 m (outs m) c),
      ((h c _ (mem_uc main_arg11 (by decide))).trans (congrFun (hV43 m c) _).symm).trans (GenP.V43_main_arg11 m (outs m) c),
      ((h c _ (mem_uc main_arg12 (by decide))).trans (congrFun (hV43 m c) _).symm).trans (GenP.V43_main_arg12 m (outs m) c)⟩)
    (run_all m ρ)

end Cert.KernelIdeal.Body

end
-- ==== Proof.KIStageFinal.lean ====
/-
  The end of both programs: the three relations' results side by side.

  Each program broadcasts its three 50000×32 result arrays to 50000×1×32, concatenates them along the middle axis to
  50000×3×32 and reshapes to 50000×96. The function below names this over the literal shapes; each program's last array is
  read as that function of its three results, and the last lemma concludes: if the three results are equal, pair by
  pair, so are the two programs' output arrays.
-/
import proofs.«140713_j1864015806535_2_alg».proof.Proof.KIFrameBase
import proofs.«140713_j1864015806535_2_alg».proof.Proof.RefFrame
import Idealize.ShloMosaic.Lib.StableHlo.Run
import Idealize.ShloMosaic.PureOps.Ideal.Laws

set_option maxRecDepth 65536

noncomputable section

namespace Cert.Proof.Value
open Idealize.ShloMosaic Idealize.ShloMosaic.TcCoe Idealize.ShloMosaic.StableHlo

/-- Three 50000×32 arrays side by side as one 50000×96 array. -/
def catOf (hb : (⟨2, ![50000, 32]⟩ : Shape).BroadcastsInDim ⟨3, ![50000, 1, 32]⟩ (![0, 2] : Fin 2 → Fin 3))
    (hcat : Shape.Concatenates [(⟨3, ![50000, 1, 32]⟩ : Shape), ⟨3, ![50000, 1, 32]⟩, ⟨3, ![50000, 1, 32]⟩] ⟨3, ![50000, 3, 32]⟩ 1)
    (hc : (⟨3, ![50000, 3, 32]⟩ : Shape).ShapeCasts ⟨2, ![50000, 96]⟩)
    (a b c : (⟨2, ![50000, 32]⟩ : Shape).Idx → EReal) : (⟨2, ![50000, 96]⟩ : Shape).Idx → EReal :=
  shapeCast ⟨2, ![50000, 96]⟩
    (concatenate ⟨3, ![50000, 3, 32]⟩ 1
      [⟨⟨3, ![50000, 1, 32]⟩, broadcastInDim ⟨3, ![50000, 1, 32]⟩ ![0, 2] hb a⟩,
       ⟨⟨3, ![50000, 1, 32]⟩, broadcastInDim ⟨3, ![50000, 1, 32]⟩ ![0, 2] hb b⟩,
       ⟨⟨3, ![50000, 1, 32]⟩, broadcastInDim ⟨3, ![50000, 1, 32]⟩ ![0, 2] hb c⟩] hcat) hc

/-- An operation of three literal operands leaves its result at its function of the three operands' contents, each at
    its own reference. -/
theorem nary3_result {τ : Topo} {sig : RefSig} {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl
end Cert.Proof.Value

namespace Cert.KernelIdeal.Body
open Cert.KernelIdeal Cert.KernelIdeal.Gen Idealize.ShloMosaic Idealize.ShloMosaic.TcCoe Idealize.SL.Sem Idealize.ShloMosaic.StableHlo
variable (m : (ℓ : Loc nD τ sig) → Buf (Elt Ideal) ℓ)

set_option maxHeartbeats 4000000 in
/-- The last stretch leaves the three results side by side, from any contents before it. -/
theorem host_final (V : Valuation τ sig (Elt Ideal)) :
    (after (hostOps18_2 (F := Ideal)) V (main_v322 : DevRef τ sig) : S50000x96.Idx → EReal)
      = Cert.Proof.Value.catOf bcast_S50000x32_S50000x1x32_0_2 concatenates_S50000x1x32_S50000x1x32_S50000x1x32_S50000x3x32_d1 shapeCasts_S50000x3x32_S50000x96
          (V (main_v105 : DevRef τ sig)) (V (main_v211 : DevRef τ sig)) (V (main_v317 : DevRef τ sig)) := by
  dsimp only [hostOps18_2]
  simp only [after_cons, after_nil]
  rw [reshape_result, Cert.Proof.Value.nary3_result]
  repeat (first
    | rw [unary_result]
    | (rw [unary_result_ne]; rotate_left; decide))
  rfl

/-- Relation 0's result reaches the last stretch as the stretch after region 5 left it. -/
theorem W42_emb0 (c : Dev nD) : W42 (F := Ideal) m c main_v105 = W14 (F := Ideal) m c main_v105 :=
  (congrFun (hV42 m c) _).symm.trans <|
    (GenP.V42_of m (outs m) c main_v105 (by decide)).trans <|
      (GenP.V41_of m (outs m) c main_v105 (by decide)).trans <|
      (GenP.V40_of m (outs m) c main_v105 (by decide)).trans <|
      (GenP.V39_of m (outs m) c main_v105 (by decide)).trans <|
      (GenP.V38_of m (outs m) c main_v105 (by decide)).trans <|
      (GenP.V37_of m (outs m) c main_v105 (by decide)).trans <|
      (GenP.V36_of m (outs m) c main_v105 (by decide)).trans <|
      (GenP.V35_of m (outs m) c main_v105 (by decide)).trans <|
      (GenP.V34_of m (outs m) c main_v105 (by decide)).trans <|
      (GenP.V33_of m (outs m) c main_v105 (by decide)).trans <|
      (GenP.V32_of m (outs m) c main_v105 (by decide)).trans <|
      (GenP.V31_of m (outs m) c main_v105 (by decide)).trans <|
      (GenP.V30_of m (outs m) c main_v105 (by decide)).trans <|
      (GenP.V29_of m (outs m) c main_v105 (by decide)).trans <|
      (GenP.V28_of m (outs m) c main_v105 (by decide)).trans <|
      (GenP.V27_of m (outs m) c main_v105 (by decide)).trans <|
      (GenP.V26_of m (outs m) c main_v105 (by decide)).trans <|
      (GenP.V25_of m (outs m) c main_v105 (by decide)).trans <|
      (GenP.V24_of m (outs m) c main_v105 (by decide)).trans <|
      (GenP.V23_of m (outs m) c main_v105 (by decide)).trans <|
      (GenP.V22_of m (outs m) c main_v105 (by decide)).trans <|
      (GenP.V21_of m (outs m) c main_v105 (by decide)).trans <|
      (GenP.V20_of m (outs m) c main_v105 (by decide)).trans <|
      (GenP.V19_of m (outs m) c main_v105 (by decide)).trans <|
      (GenP.V18_of m (outs m) c main_v105 (by decide)).trans <|
      (GenP.V17_of m (outs m) c main_v105 (by decide)).trans <|
      (GenP.V16_of m (outs m) c main_v105 (by decide)).trans <|
      (GenP.V15_of m (outs m) c main_v105 (by decide)).trans <|
    (congrFun (hV14 m c) _)

/-- Relation 1's result reaches the last stretch as the stretch after region 11 left it. -/
theorem W42_emb1 (c : Dev nD) : W42 (F := Ideal) m c main_v211 = W28 (F := Ideal) m c main_v211 :=
  (congrFun (hV42 m c) _).symm.trans <|
    (GenP.V42_of m (outs m) c main_v211 (by decide)).trans <|
      (GenP.V41_of m (outs m) c main_v211 (by decide)).trans <|
      (GenP.V40_of m (outs m) c main_v211 (by decide)).trans <|
      (GenP.V39_of m (outs m) c main_v211 (by decide)).trans <|
      (GenP.V38_of m (outs m) c main_v211 (by decide)).trans <|
      (GenP.V37_of m (outs m) c main_v211 (by decide)).trans <|
      (GenP.V36_of m (outs m) c main_v211 (by decide)).trans <|
      (GenP.V35_of m (outs m) c main_v211 (by decide)).trans <|
      (GenP.V34_of m (outs m) c main_v211 (by decide)).trans <|
      (GenP.V33_of m (outs m) c main_v211 (by decide)).trans <|
      (GenP.V32_of m (outs m) c main_v211 (by decide)).trans <|
      (GenP.V31_of m (outs m) c main_v211 (by decide)).trans <|
      (GenP.V30_of m (outs m) c main_v211 (by decide)).trans <|
      (GenP.V29_of m (outs m) c main_v211 (by decide)).trans <|
    (congrFun (hV28 m c) _)

/-- The kernel program's output array: its three results side by side. -/
theorem ker_final (c : Dev nD) :
    (W43 (F := Ideal) m c main_v322 : S50000x96.Idx → EReal)
      = Cert.Proof.Value.catOf bcast_S50000x32_S50000x1x32_0_2 concatenates_S50000x1x32_S50000x1x32_S50000x1x32_S50000x3x32_d1 shapeCasts_S50000x3x32_S50000x96
          (W14 (F := Ideal) m c main_v105) (W28 (F := Ideal) m c main_v211) (W42 (F := Ideal) m c main_v317) := by
  refine (host_final (W42 m c)).trans ?_
  rw [W42_emb0, W42_emb1]
end Cert.KernelIdeal.Body

namespace Cert.ReferenceIdeal.RefRun
open Cert.ReferenceIdeal Cert.ReferenceIdeal.Gen Idealize.ShloMosaic Idealize.ShloMosaic.TcCoe Idealize.SL.Sem Idealize.ShloMosaic.StableHlo

/-- The last window's first 79 operations write neither of the first two relations' results. -/
theorem ops9_take79_keeps (V : Valuation τ sig (Elt Ideal)) (r : Ref sig .tc) (hr : r ∉ (ops9_W : List (Ref sig .tc))) :
    after ((ops9 (F := Ideal)).take 79) V (Proc.devRef .tc r) = V (Proc.devRef .tc r) :=
  after_of_writes_sub (W := ops9_W) _ V
    (List.forall_iff_forall_mem.mpr fun op hop => List.forall_iff_forall_mem.mp ops9_writes op (List.mem_of_mem_take hop)) hr

set_option maxHeartbeats 4000000 in
/-- The reference's output array: its three results side by side — the first two as the window finds them, the third
    as the window itself leaves it. The window is cut at the first of its last five operations. -/
theorem ref_final (V : Valuation τ sig (Elt Ideal)) :
    (after (ops9 (F := Ideal)) V (main_v490 : DevRef τ sig) : S50000x96.Idx → EReal)
      = Cert.Proof.Value.catOf bcast_S50000x32_S50000x1x32_0_2 concatenates_S50000x1x32_S50000x1x32_S50000x1x32_S50000x3x32_d1 shapeCasts_S50000x3x32_S50000x96
          (V (main_v161 : DevRef τ sig)) (V (main_v323 : DevRef τ sig)) (after (ops9 (F := Ideal)) V (main_v485 : DevRef τ sig)) := by
  rw [← ops9_take79_keeps V main_v161 (by decide), ← ops9_take79_keeps V main_v323 (by decide),
    ← List.take_append_drop 79 (ops9 (F := Ideal)), after_append]
  simp only [List.take_append_drop]
  generalize after ((ops9 (F := Ideal)).take 79) V = X
  dsimp only [ops9]
  simp only [List.drop_succ_cons, List.drop_zero]
  simp only [after_cons, after_nil]
  rw [reshape_result, Cert.Proof.Value.nary3_result]
  repeat (first
    | rw [unary_result]
    | (rw [unary_result_ne]; rotate_left; decide)
    | (rw [nary_result_ne]; rotate_left; decide)
    | (rw [reshape_result_ne]; rotate_left; decide))
  rfl
end Cert.ReferenceIdeal.RefRun

namespace Cert.Proof.Value
open Idealize.ShloMosaic Idealize.ShloMosaic.TcCoe Idealize.SL.Sem Idealize.ShloMosaic.StableHlo

/-- The two programs' output arrays are equal when their three relations' results are: the first two as the contents
    before the reference's last window hold them, the third as that window leaves it. -/
theorem stageFinal
    (m : (ℓ : Loc Cert.KernelIdeal.nD Cert.KernelIdeal.τ Cert.KernelIdeal.sig) → Buf (Elt Ideal) ℓ)
    (V : Valuation Cert.ReferenceIdeal.τ Cert.ReferenceIdeal.sig (Elt Ideal))
    (c : Dev Cert.KernelIdeal.nD)
    (e0 : (V (Proc.devRef .tc Cert.ReferenceIdeal.main_v161) : (⟨2, ![50000, 32]⟩ : Shape).Idx → EReal)
      = (Cert.KernelIdeal.Body.W14 (F := Ideal) m c (Cert.KernelIdeal.main_v105 : DevRef Cert.KernelIdeal.τ Cert.KernelIdeal.sig) : (⟨2, ![50000, 32]⟩ : Shape).Idx → EReal))
    (e1 : (V (Proc.devRef .tc Cert.ReferenceIdeal.main_v323) : (⟨2, ![50000, 32]⟩ : Shape).Idx → EReal)
      = (Cert.KernelIdeal.Body.W28 (F := Ideal) m c (Cert.KernelIdeal.main_v211 : DevRef Cert.KernelIdeal.τ Cert.KernelIdeal.sig) : (⟨2, ![50000, 32]⟩ : Shape).Idx → EReal))
    (e2 : (after (Cert.ReferenceIdeal.RefRun.ops9 (F := Ideal)) V (Cert.ReferenceIdeal.main_v485 : DevRef Cert.ReferenceIdeal.τ Cert.ReferenceIdeal.sig) : (⟨2, ![50000, 32]⟩ : Shape).Idx → EReal)
      = (Cert.KernelIdeal.Body.W42 (F := Ideal) m c (Cert.KernelIdeal.main_v317 : DevRef Cert.KernelIdeal.τ Cert.KernelIdeal.sig) : (⟨2, ![50000, 32]⟩ : Shape).Idx → EReal)) :
    (after (Cert.ReferenceIdeal.RefRun.ops9 (F := Ideal)) V (Cert.ReferenceIdeal.main_v490 : DevRef Cert.ReferenceIdeal.τ Cert.ReferenceIdeal.sig) : (⟨2, ![50000, 96]⟩ : Shape).Idx → EReal)
      = (Cert.KernelIdeal.Body.W43 (F := Ideal) m c (Cert.KernelIdeal.main_v322 : DevRef Cert.KernelIdeal.τ Cert.KernelIdeal.sig) : (⟨2, ![50000, 96]⟩ : Shape).Idx → EReal) := by
  rw [Cert.ReferenceIdeal.RefRun.ref_final, Cert.KernelIdeal.Body.ker_final, e0, e1, e2]
end Cert.Proof.Value

end
-- ==== Proof.KIValueTop.lean ====
/-
  The value equation from the three relations' results.

  The reference's operations are its ten windows one after the other, so its fold is the ten folds in a row. The
  embeddings of relations 0 and 1 are complete after the fourth and the seventh window and no later window writes them;
  relation 2's is complete in the last window, where the three are concatenated and reshaped into the result. Given the
  three embeddings agree with the kernel program's, the two results agree (Proof/KIStageFinal.lean).
-/
import proofs.«140713_j1864015806535_2_alg».proof.Proof.KIStageFinal
import proofs.«140713_j1864015806535_2_alg».proof.Proof.RefFrame

set_option maxRecDepth 65536

noncomputable section

namespace Cert.Proof.Value

open Idealize.ShloMosaic Idealize.ShloMosaic.TcCoe Idealize.SL.Sem Idealize.ShloMosaic.StableHlo
open Cert.ReferenceIdeal.RefRun

/-- The reference's buffers after its first k + 1 windows, from V. -/
abbrev R0 (V : Valuation Cert.ReferenceIdeal.τ Cert.ReferenceIdeal.sig (Elt Ideal)) := after (ops0 (F := Ideal)) V
abbrev R1 (V : Valuation Cert.ReferenceIdeal.τ Cert.ReferenceIdeal.sig (Elt Ideal)) := after (ops1 (F := Ideal)) (R0 V)
abbrev R2 (V : Valuation Cert.ReferenceIdeal.τ Cert.ReferenceIdeal.sig (Elt Ideal)) := after (ops2 (F := Ideal)) (R1 V)
abbrev R3 (V : Valuation Cert.ReferenceIdeal.τ Cert.ReferenceIdeal.sig (Elt Ideal)) := after (ops3 (F := Ideal)) (R2 V)
abbrev R4 (V : Valuation Cert.ReferenceIdeal.τ Cert.ReferenceIdeal.sig (Elt Ideal)) := after (ops4 (F := Ideal)) (R3 V)
abbrev R5 (V : Valuation Cert.ReferenceIdeal.τ Cert.ReferenceIdeal.sig (Elt Ideal)) := after (ops5 (F := Ideal)) (R4 V)
abbrev R6 (V : Valuation Cert.ReferenceIdeal.τ Cert.ReferenceIdeal.sig (Elt Ideal)) := after (ops6 (F := Ideal)) (R5 V)
abbrev R7 (V : Valuation Cert.ReferenceIdeal.τ Cert.ReferenceIdeal.sig (Elt Ideal)) := after (ops7 (F := Ideal)) (R6 V)
abbrev R8 (V : Valuation Cert.ReferenceIdeal.τ Cert.ReferenceIdeal.sig (Elt Ideal)) := after (ops8 (F := Ideal)) (R7 V)

/-- The fold of all the operations is the ten windows' folds in a row. -/
theorem after_ops (V : Valuation Cert.ReferenceIdeal.τ Cert.ReferenceIdeal.sig (Elt Ideal)) :
    after (ops (F := Ideal)) V = after (ops9 (F := Ideal)) (R8 V) := by
  simp only [ops, after_append]

theorem value_eq_of
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (e0 : (R3 (launchContents m' c) (Cert.ReferenceIdeal.main_v161 : DevRef Cert.ReferenceIdeal.τ Cert.ReferenceIdeal.sig) : (⟨2, ![50000, 32]⟩ : Shape).Idx → EReal)
      = (Cert.KernelIdeal.Body.W14 (F := Ideal) m c Cert.KernelIdeal.main_v105 : (⟨2, ![50000, 32]⟩ : Shape).Idx → EReal))
    (e1 : (R6 (launchContents m' c) (Cert.ReferenceIdeal.main_v323 : DevRef Cert.ReferenceIdeal.τ Cert.ReferenceIdeal.sig) : (⟨2, ![50000, 32]⟩ : Shape).Idx → EReal)
      = (Cert.KernelIdeal.Body.W28 (F := Ideal) m c Cert.KernelIdeal.main_v211 : (⟨2, ![50000, 32]⟩ : Shape).Idx → EReal))
    (e2 : (after (ops9 (F := Ideal)) (R8 (launchContents m' c)) (Cert.ReferenceIdeal.main_v485 : DevRef Cert.ReferenceIdeal.τ Cert.ReferenceIdeal.sig) : (⟨2, ![50000, 32]⟩ : Shape).Idx → EReal)
      = (Cert.KernelIdeal.Body.W42 (F := Ideal) m c Cert.KernelIdeal.main_v317 : (⟨2, ![50000, 32]⟩ : Shape).Idx → EReal)) :
    (after (ops (F := Ideal)) (launchContents m' c) (Cert.ReferenceIdeal.main_v490 : DevRef Cert.ReferenceIdeal.τ Cert.ReferenceIdeal.sig) : (⟨2, ![50000, 96]⟩ : Shape).Idx → EReal)
      = (Cert.KernelIdeal.Body.W43 (F := Ideal) m c Cert.KernelIdeal.main_v322 : (⟨2, ![50000, 96]⟩ : Shape).Idx → EReal) := by
  rw [after_ops]
  refine stageFinal m (R8 (launchContents m' c)) c ?_ ?_ e2
  · refine Eq.trans ?_ e0
    show R8 (launchContents m' c) (Proc.devRef .tc Cert.ReferenceIdeal.main_v161) = R3 (launchContents m' c) (Proc.devRef .tc Cert.ReferenceIdeal.main_v161)
    dsimp only [R8, R7, R6, R5, R4]
    rw [after_of_writes_sub ops8 _ ops8_writes (by decide), after_of_writes_sub ops7 _ ops7_writes (by decide),
      after_of_writes_sub ops6 _ ops6_writes (by decide), after_of_writes_sub ops5 _ ops5_writes (by decide),
      after_of_writes_sub ops4 _ ops4_writes (by decide)]
  · refine Eq.trans ?_ e1
    show R8 (launchContents m' c) (Proc.devRef .tc Cert.ReferenceIdeal.main_v323) = R6 (launchContents m' c) (Proc.devRef .tc Cert.ReferenceIdeal.main_v323)
    dsimp only [R8, R7]
    rw [after_of_writes_sub ops8 _ ops8_writes (by decide), after_of_writes_sub ops7 _ ops7_writes (by decide)]

end Cert.Proof.Value

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.LibDenseStage.lean ====
/-
  A dense stage on the extended reals, in the two spellings that lower from "x @ w + b, then relu".
  For an M×K array x, a K×N weight w and a bias given as a one-row array b (shape [1, N]), the stage is
      (a, c) ↦ max (Σ_{k<K} x(a,k)·w(k,c) + b(0,c)) 0 .
  * stage_of_matmul: a matrix unit's product over the plain M×K by K×N dimension numbers into a zero accumulator, both
    operands first narrowed to a 16-bit float format (the identity on the extended reals), plus the bias row (shape-cast to
    its own shape) broadcast over the rows, then a maximum with a splat of the scalar word 0, is the stage.
  * stage_of_dotGeneral: the host's product over the same dimension numbers, plus the bias row broadcast along the axes
    [0, 1], then a maximum with a rank-0 constant 0 broadcast along no axis, is the stage.
  * stage_rows: a stage's value in a row depends on x only through that row, so a block of rows of x gives that block of
    the stage (for kernels that tile the rows over a grid).
  * row_broadcastTo, row_broadcastInDim: a one-row array spread over M rows reads its entry of the same column.
  Over the library and the plain-product lemmas only; every extent is a variable.
-/
import Idealize.ShloMosaic.PureOps.Ideal.Laws
import Idealize.ShloMosaic.Lib.ValueIdx
import Idealize.ShloMosaic.Lib.Pipeline.Value
import proofs.«140713_j1864015806535_2_alg».proof.Proof.LibPlainDot

noncomputable section

namespace Cert.LibDenseStage

open Idealize.ShloMosaic Idealize.ShloMosaic.ValueIdx

variable (M K N : Nat)

/-- x·w plus the bias row, cut off below at 0. -/
def stage (x : FVec Ideal ⟨2, ![M, K]⟩ .f32) (w : FVec Ideal ⟨2, ![K, N]⟩ .f32) (b : FVec Ideal ⟨2, ![1, N]⟩ .f32) :
    FVec Ideal ⟨2, ![M, N]⟩ .f32 :=
  fun i => max (∑ k : Fin K, x (ix2 (i 0) k) * w (ix2 k (i 1)) + b (ix2 (0 : Fin 1) (i 1))) 0

theorem stage_apply (x : FVec Ideal ⟨2, ![M, K]⟩ .f32) (w : FVec Ideal ⟨2, ![K, N]⟩ .f32) (b : FVec Ideal ⟨2, ![1, N]⟩ .f32)
    (a : Fin M) (c : Fin N) :
    stage M K N x w b (ix2 a c) = max (∑ k : Fin K, x (ix2 a k) * w (ix2 k c) + b (ix2 (0 : Fin 1) c)) 0 := rfl

/-- The stage in row a' of a block is the stage in row a of the whole, when the block's row a' is the whole's row a. -/
theorem stage_rows (M' : Nat) (X : FVec Ideal ⟨2, ![M, K]⟩ .f32) (x : FVec Ideal ⟨2, ![M', K]⟩ .f32)
    (w : FVec Ideal ⟨2, ![K, N]⟩ .f32) (b : FVec Ideal ⟨2, ![1, N]⟩ .f32) (a : Fin M) (a' : Fin M')
    (h : ∀ k : Fin K, x (ix2 a' k) = X (ix2 a k)) (c : Fin N) :
    stage M' K N x w b (ix2 a' c) = stage M K N X w b (ix2 a c) := by
  rw [stage_apply, stage_apply]
  exact congrArg (fun s => max (s + b (ix2 (0 : Fin 1) c)) 0) (Finset.sum_congr rfl fun k _ => by rw [h k])

/-- The bias row spread over M rows reads, at (a, c), the row's entry c. -/
theorem row_broadcastTo (b : FVec Ideal ⟨2, ![1, N]⟩ .f32) (hb : (⟨2, ![1, N]⟩ : Shape).Broadcasts ⟨2, ![M, N]⟩) (a : Fin M) (c : Fin N) :
    broadcastTo ⟨2, ![M, N]⟩ b hb (ix2 a c) = b (ix2 (0 : Fin 1) c) :=
  broadcastTo_apply b hb (ix2 a c) (ix2 (0 : Fin 1) c) fun ax => by
    match ax with
    | ⟨0, _⟩ => show (0 : Nat) = if (1 : Nat) = 1 then 0 else a.val; rw [if_pos rfl]
    | ⟨1, _⟩ =>
      show c.val = if N = 1 then 0 else c.val
      split
      · have := c.isLt; omega
      · rfl

/-- The same by a broadcast along the two named axes. -/
theorem row_broadcastInDim (b : FVec Ideal ⟨2, ![1, N]⟩ .f32)
    (hb : (⟨2, ![1, N]⟩ : Shape).BroadcastsInDim ⟨2, ![M, N]⟩ (![0, 1] : Fin 2 → Fin 2)) (a : Fin M) (c : Fin N) :
    broadcastInDim ⟨2, ![M, N]⟩ ![0, 1] hb b (ix2 a c) = b (ix2 (0 : Fin 1) c) :=
  broadcastInDim_apply (![0, 1] : Fin 2 → Fin 2) hb b (ix2 a c) (ix2 (0 : Fin 1) c) fun ax => by
    match ax with
    | ⟨0, _⟩ => show (0 : Nat) = if (1 : Nat) = 1 then 0 else a.val; rw [if_pos rfl]
    | ⟨1, _⟩ =>
      show c.val = if N = 1 then 0 else c.val
      split
      · have := c.isLt; omega
      · rfl

/-- The matrix unit's spelling of a stage. -/
theorem stage_of_matmul (x : FVec Ideal ⟨2, ![M, K]⟩ .f32) (w : FVec Ideal ⟨2, ![K, N]⟩ .f32) (b : FVec Ideal ⟨2, ![1, N]⟩ .f32)
    (h1 : FTy.bf16.bits < FTy.f32.bits) (h2 : FTy.bf16.bits < FTy.f32.bits)
    (hc : (⟨2, ![1, N]⟩ : Shape).ShapeCasts ⟨2, ![1, N]⟩) (hb : (⟨2, ![1, N]⟩ : Shape).Broadcasts ⟨2, ![M, N]⟩) :
    maximumf (addf (matmul (F := Ideal) (DotDims.plain M K N) none (truncf .bf16 x h1) (truncf .bf16 w h2)
          (constant ⟨2, ![M, N]⟩ .f32 0x00000000#32))
        (broadcastTo ⟨2, ![M, N]⟩ (shapeCast ⟨2, ![1, N]⟩ b hc) hb))
      (broadcast ⟨2, ![M, N]⟩ (Scalar.ofBits (F := Ideal) .f32 0x00000000#32))
      = stage M K N x w b := by
  funext i
  obtain ⟨a, c, rfl⟩ : ∃ (a : Fin M) (c : Fin N), i = ix2 a c := ⟨i 0, i 1, eq_ix2 i⟩
  rw [maximumf_apply, addf_apply, broadcast_apply, Cert.LibPlainDot.matmul_plain, shapeCast_self, row_broadcastTo, stage_apply]
  exact congrArg (max _) Ideal.ofBits_zero_f32

/-- The host's spelling of a stage. -/
theorem stage_of_dotGeneral (x : FVec Ideal ⟨2, ![M, K]⟩ .f32) (w : FVec Ideal ⟨2, ![K, N]⟩ .f32) (b : FVec Ideal ⟨2, ![1, N]⟩ .f32)
    (hb : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) :
    maximumf (addf (Host.dotGeneral (F := Ideal) (DotDims.plain M K N) none x w) (broadcastInDim ⟨2, ![M, N]⟩ ![0, 1] hb b))
      (broadcastInDim ⟨2, ![M, N]⟩ ![] h0 (constant (F := Ideal) ⟨0, ![]⟩ .f32 0x00000000#32))
      = stage M K N x w b := by
  funext i
  obtain ⟨a, c, rfl⟩ : ∃ (a : Fin M) (c : Fin N), i = ix2 a c := ⟨i 0, i 1, eq_ix2 i⟩
  rw [maximumf_apply, addf_apply, Cert.LibPlainDot.dotGeneral_plain, row_broadcastInDim, stage_apply,
    broadcastInDim_apply (![] : Fin 0 → Fin 2) h0 _ (ix2 a c) ix0 (fun ax => ax.elim0), constant_apply]
  exact congrArg (max _) Ideal.ofBits_zero_f32

end Cert.LibDenseStage

end
-- ==== Proof.LibHostBroadcast.lean ====
/-
  The host's broadcasts of small shapes, read at one position.

  jnp spreads a vector along a new axis in two steps, each a `broadcast_in_dim`:
  * a column: `v[:, None]` makes an `[a]` vector an `[a, 1]` array (axis 0 kept), and multiplying it with an `[a, b]` array spreads
    it along the `b` columns (axes 0 and 1 kept): entry `(p, c)` is `v p`;
  * a row: adding a `[b]` vector to an `[a, b]` array makes it a `[1, b]` array (axis 1 kept) and spreads it along the `a` rows:
    entry `(p, c)` is `v c`;
  * a scalar spread over any shape (no axis kept) reads the scalar everywhere.
  Each step is read by the library's `broadcastInDim_apply`; an axis of extent one contributes the coordinate 0, and a
  coordinate below an extent that happens to be one is 0 anyway.
-/
import Idealize.ShloMosaic.Lib.Pipeline.Value
import Idealize.ShloMosaic.Lib.ValueIdx

noncomputable section

namespace Cert.LibHostBroadcast

open Idealize.ShloMosaic Idealize.ShloMosaic.ValueIdx

variable {α : Type}

/-- An `[a]` vector made an `[a, 1]` column reads, at `(p, u)`, the vector at `p`. -/
theorem vec_to_col {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply (![0] : Fin 1 → Fin 2) h v (ix2 p u) (ix1 p) fun ax => by
    match ax with
    | ⟨0, _⟩ =>
      show p.val = if a = 1 then 0 else p.val
      split
      · have := p.isLt; omega
      · rfl

/-- An `[a, 1]` column spread along `b` columns reads, at `(p, c)`, the column at `(p, 0)`. -/
theorem col_to_mat {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply (![0, 1] : Fin 2 → Fin 2) h v (ix2 p c) (ix2 p (0 : Fin 1)) fun ax => by
    match ax with
    | ⟨0, _⟩ =>
      show p.val = if a = 1 then 0 else p.val
      split
      · have := p.isLt; omega
      · rfl
    | ⟨1, _⟩ => show (0 : Nat) = if (1 : Nat) = 1 then 0 else c.val; rw [if_pos rfl]

/-- The two steps together: an `[a]` vector spread over the columns of an `[a, b]` array reads, at `(p, c)`, the vector at `p`. -/
theorem vec_along_rows {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![a, 1]⟩ ![0] h1 v) (ix2 p c) = v (ix1 p) :=
  (col_to_mat _ h2 p c).trans (vec_to_col v h1 p 0)

/-- A `[b]` vector made a `[1, b]` row reads, at `(u, c)`, the vector at `c`. -/
theorem vec_to_row {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h v (ix2 u c) = v (ix1 c) :=
  broadcastInDim_apply (![1] : Fin 1 → Fin 2) h v (ix2 u c) (ix1 c) fun ax => by
    match ax with
    | ⟨0, _⟩ =>
      show c.val = if b = 1 then 0 else c.val
      split
      · have := c.isLt; omega
      · rfl

/-- A `[1, b]` row spread along `a` rows reads, at `(p, c)`, the row at `(0, c)`. -/
theorem row_to_mat {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) :=
  broadcastInDim_apply (![0, 1] : Fin 2 → Fin 2) h v (ix2 p c) (ix2 (0 : Fin 1) c) fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl

/-- The two steps together: a `[b]` vector spread over the rows of an `[a, b]` array reads, at `(p, c)`, the vector at `c`. -/
theorem vec_along_cols {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![1, b]⟩ ![1] h1 v) (ix2 p c) = v (ix1 c) :=
  (row_to_mat _ h2 p c).trans (vec_to_row v h1 0 c)

/-- A scalar spread over a shape reads the scalar at every position. -/
theorem scalar_to_any {t : Shape} (v : (⟨0, ![]⟩ : Shape).Idx → α)
    (h : (⟨0, ![]⟩ : Shape).BroadcastsInDim t (![] : Fin 0 → Fin t.rank)) (i : t.Idx) :
    broadcastInDim t ![] h v i = v ix0 :=
  broadcastInDim_apply (![] : Fin 0 → Fin t.rank) h v i ix0 fun ax => ax.elim0

end Cert.LibHostBroadcast

end
-- ==== Proof.LibAffineStage.lean ====
/-
  A dense layer without a cut-off on the extended reals, in the two spellings that lower from "x @ w + b".
  For an M×K array x, a K×N weight w and a bias given as a one-row array b (shape [1, N]), the layer is
      (a, c) ↦ Σ_{k<K} x(a,k)·w(k,c) + b(0,c) .
  * affine_of_matmul: a matrix unit's product over the plain M×K by K×N dimension numbers into a zero accumulator, both
    operands first narrowed to a 16-bit float format (the identity on the extended reals), plus the bias row (shape-cast to
    its own shape) broadcast over the rows, is the layer.
  * affine_of_dotGeneral: the host's product over the same dimension numbers, plus the bias row broadcast along the axes
    [0, 1], is the layer.
  * affine_rows: the layer's value in a row depends on x only through that row, so a block of rows of x gives that block
    of the layer (for kernels that tile the rows over a grid).
  * stage_eq_max_affine: the dense stage with a cut-off at 0 is the maximum of this layer and 0, entry by entry.
  * bias rows: a [N] vector reshaped to [1, N] (a row-major shape cast) and the same vector broadcast to [1, N] along
    axis 1 are one row, entry c of the vector at (0, c).
  Over the library, the plain-product lemmas and the dense-stage lemmas only; every extent is a variable.
-/
import Idealize.ShloMosaic.PureOps.Ideal.Laws
import Idealize.ShloMosaic.Lib.ValueIdx
import Idealize.ShloMosaic.Lib.Pipeline.Value
import proofs.«140713_j1864015806535_2_alg».proof.Proof.LibPlainDot
import proofs.«140713_j1864015806535_2_alg».proof.Proof.LibDenseStage
import proofs.«140713_j1864015806535_2_alg».proof.Proof.LibHostBroadcast

noncomputable section

namespace Cert.LibAffineStage

open Idealize.ShloMosaic Idealize.ShloMosaic.ValueIdx

variable (M K N : Nat)

/-- x·w plus the bias row. -/
def affine (x : FVec Ideal ⟨2, ![M, K]⟩ .f32) (w : FVec Ideal ⟨2, ![K, N]⟩ .f32) (b : FVec Ideal ⟨2, ![1, N]⟩ .f32) :
    FVec Ideal ⟨2, ![M, N]⟩ .f32 :=
  fun i => ∑ k : Fin K, x (ix2 (i 0) k) * w (ix2 k (i 1)) + b (ix2 (0 : Fin 1) (i 1))

theorem affine_apply (x : FVec Ideal ⟨2, ![M, K]⟩ .f32) (w : FVec Ideal ⟨2, ![K, N]⟩ .f32) (b : FVec Ideal ⟨2, ![1, N]⟩ .f32)
    (a : Fin M) (c : Fin N) :
    affine M K N x w b (ix2 a c) = ∑ k : Fin K, x (ix2 a k) * w (ix2 k c) + b (ix2 (0 : Fin 1) c) := rfl

/-- The layer in row a' of a block is the layer in row a of the whole, when the block's row a' is the whole's row a. -/
theorem affine_rows (M' : Nat) (X : FVec Ideal ⟨2, ![M, K]⟩ .f32) (x : FVec Ideal ⟨2, ![M', K]⟩ .f32)
    (w : FVec Ideal ⟨2, ![K, N]⟩ .f32) (b : FVec Ideal ⟨2, ![1, N]⟩ .f32) (a : Fin M) (a' : Fin M')
    (h : ∀ k : Fin K, x (ix2 a' k) = X (ix2 a k)) (c : Fin N) :
    affine M' K N x w b (ix2 a' c) = affine M K N X w b (ix2 a c) := by
  rw [affine_apply, affine_apply]
  exact congrArg (fun s => s + b (ix2 (0 : Fin 1) c)) (Finset.sum_congr rfl fun k _ => by rw [h k])

/-- The dense stage with a cut-off at 0 is the maximum of the layer and 0. -/
theorem stage_eq_max_affine (x : FVec Ideal ⟨2, ![M, K]⟩ .f32) (w : FVec Ideal ⟨2, ![K, N]⟩ .f32) (b : FVec Ideal ⟨2, ![1, N]⟩ .f32)
    (i : (⟨2, ![M, N]⟩ : Shape).Idx) :
    Cert.LibDenseStage.stage M K N x w b i = max (affine M K N x w b i) 0 := rfl

/-- The matrix unit's spelling of the layer. -/
theorem affine_of_matmul (x : FVec Ideal ⟨2, ![M, K]⟩ .f32) (w : FVec Ideal ⟨2, ![K, N]⟩ .f32) (b : FVec Ideal ⟨2, ![1, N]⟩ .f32)
    (h1 : FTy.bf16.bits < FTy.f32.bits) (h2 : FTy.bf16.bits < FTy.f32.bits)
    (hc : (⟨2, ![1, N]⟩ : Shape).ShapeCasts ⟨2, ![1, N]⟩) (hb : (⟨2, ![1, N]⟩ : Shape).Broadcasts ⟨2, ![M, N]⟩) :
    addf (matmul (F := Ideal) (DotDims.plain M K N) none (truncf .bf16 x h1) (truncf .bf16 w h2)
          (constant ⟨2, ![M, N]⟩ .f32 0x00000000#32))
        (broadcastTo ⟨2, ![M, N]⟩ (shapeCast ⟨2, ![1, N]⟩ b hc) hb)
      = affine M K N x w b := by
  funext i
  obtain ⟨a, c, rfl⟩ : ∃ (a : Fin M) (c : Fin N), i = ix2 a c := ⟨i 0, i 1, eq_ix2 i⟩
  rw [addf_apply, Cert.LibPlainDot.matmul_plain, shapeCast_self, Cert.LibDenseStage.row_broadcastTo, affine_apply]
  rfl

/-- The host's spelling of the layer. -/
theorem affine_of_dotGeneral (x : FVec Ideal ⟨2, ![M, K]⟩ .f32) (w : FVec Ideal ⟨2, ![K, N]⟩ .f32) (b : FVec Ideal ⟨2, ![1, N]⟩ .f32)
    (hb : (⟨2, ![1, N]⟩ : Shape).BroadcastsInDim ⟨2, ![M, N]⟩ (![0, 1] : Fin 2 → Fin 2)) :
    addf (Host.dotGeneral (F := Ideal) (DotDims.plain M K N) none x w) (broadcastInDim ⟨2, ![M, N]⟩ ![0, 1] hb b)
      = affine M K N x w b := by
  funext i
  obtain ⟨a, c, rfl⟩ : ∃ (a : Fin M) (c : Fin N), i = ix2 a c := ⟨i 0, i 1, eq_ix2 i⟩
  rw [addf_apply, Cert.LibPlainDot.dotGeneral_plain, Cert.LibDenseStage.row_broadcastInDim, affine_apply]
  rfl

/-- A [N] vector reshaped to a [1, N] row reads, at (0, c), the vector at c. -/
theorem reshape_row {α : Type} (v : (⟨1, ![N]⟩ : Shape).Idx → α) (h : (⟨1, ![N]⟩ : Shape).ShapeCasts ⟨2, ![1, N]⟩) (u : Fin 1) (c : Fin N) :
    shapeCast ⟨2, ![1, N]⟩ v h (ix2 u c) = v (ix1 c) :=
  shapeCast_apply v h (ix2 u c) (ix1 c) (by
    rw [Shape.rowMajor_val_one, Shape.rowMajor_val_two]
    have hu : u.val = 0 := by have := u.isLt; omega
    show c.val = u.val * N + c.val
    rw [hu]; omega)

/-- The reshaped row and the broadcast row of one vector are the same [1, N] array. -/
theorem reshape_row_eq_broadcast_row {α : Type} (v : (⟨1, ![N]⟩ : Shape).Idx → α) (h : (⟨1, ![N]⟩ : Shape).ShapeCasts ⟨2, ![1, N]⟩)
    (hb : (⟨1, ![N]⟩ : Shape).BroadcastsInDim ⟨2, ![1, N]⟩ (![1] : Fin 1 → Fin 2)) :
    shapeCast ⟨2, ![1, N]⟩ v h = broadcastInDim ⟨2, ![1, N]⟩ ![1] hb v := by
  funext i
  obtain ⟨u, c, rfl⟩ : ∃ (u : Fin 1) (c : Fin N), i = ix2 u c := ⟨i 0, i 1, eq_ix2 i⟩
  rw [reshape_row, Cert.LibHostBroadcast.vec_to_row]

end Cert.LibAffineStage

end
-- ==== Proof.KIValDense0.lean ====
/-
  Region 0, the first dense layer, read index by index on the extended reals.

  Each of the ten grid points takes 10000 rows of the 100000×128 node features, the whole 128×64 weight and the 1×64 bias
  row, and writes the 10000 rows of the product plus the bias row into its block of the 100000×64 output. A row of the
  layer depends on the features through that row alone, and the ten blocks tile the output, so the output array ends at
      (p, q) ↦ Σ_{k<128} x(p, k) · w(k, q) + b(0, q)
  of the arrays as the region finds them.
-/
import proofs.«140713_j1864015806535_2_alg».proof.Proof.KIFrameBase
import proofs.«140713_j1864015806535_2_alg».proof.Proof.LibAffineStage
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Body

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.LibAffineStage (affine affine_apply affine_rows affine_of_matmul)

variable (m : (ℓ : Loc nD τ sig) → Buf (Elt Ideal) ℓ)

/-! ## The body's arithmetic: the layer of a tile -/

theorem hz_d0 : (![0, 0] : Fin 2 → Nat) = fun _ => 0 := funext fun a => by fin_cases a <;> rfl

/-- The body's payload is the dense layer of its tile of rows: the tile against the weight, plus the bias row. The
    narrowing of the two operands and the shape casts to the same shape are the identity on the extended reals. -/
theorem pay0_eq (x : Vec Ideal S10000x128 .f32) (w : Vec Ideal S128x64 .f32) (b : Vec Ideal S1x64 .f32) :
    k0_pay1 x w b = affine 10000 128 64 x w b := by
  unfold k0_pay1
  rw [shapeCast_self w]
  exact affine_of_matmul 10000 128 64 x w b _ _ _ _

/-! ## From the ten blocks to the array -/

variable (V : (c : Dev nD) → (b : Ref sig .tc) → Buf (Elt Ideal) ((c : Thread nD τ).loc b))

/-- The printed index maps over the grid: point t's feature block and output block are row block t in the one column
    block; the weight and the bias row are their whole arrays at every point. -/
theorem idx_facts_d0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature block at point t is rows 10000·t … 10000·t + 9999 of the feature array. -/
theorem iblk0_0_apply (c : Dev nD) (t : Fin cfg0.N) (y : S10000x128.Idx) (z : S100000x128.Idx)
    (h0 : (z 0).val = t.val * 10000 + (y 0).val) (h1 : (z 1).val = (y 1).val) :
    (iblk0 V c 0 t : Vec Ideal S10000x128 .f32) y = (V c main_arg0 : S100000x128.Idx → EReal) z := by
  obtain ⟨e0, e1, -⟩ := idx_facts_d0 t
  unfold iblk0
  rw [View.read_apply]
  show V c main_arg0 _ = V c main_arg0 _
  congr 1
  funext a
  apply Fin.ext
  match a with
  | ⟨0, _⟩ => show win0_0.index t (0 : Fin 2) * 10000 + 1 * (y 0).val = (z 0).val; omega
  | ⟨1, _⟩ => show win0_0.index t (1 : Fin 2) * 128 + 1 * (y 1).val = (z 1).val; omega

/-- The weight block at every point is the weight array. -/
theorem iblk0_1_eq (c : Dev nD) (t : Fin cfg0.N) :
    (iblk0 V c 1 t : Vec Ideal S128x64 .f32) = (V c main_v27 : S128x64.Idx → EReal) := by
  obtain ⟨-, -, e2, e3, -⟩ := idx_facts_d0 t
  funext y
  unfold iblk0
  rw [View.read_apply]
  show V c main_v27 _ = V c main_v27 y
  congr 1
  funext a
  apply Fin.ext
  match a with
  | ⟨0, _⟩ => show win0_1.index t (0 : Fin 2) * 128 + 1 * (y 0).val = (y 0).val; omega
  | ⟨1, _⟩ => show win0_1.index t (1 : Fin 2) * 64 + 1 * (y 1).val = (y 1).val; omega

/-- The bias block at every point is the bias row. -/
theorem iblk0_2_eq (c : Dev nD) (t : Fin cfg0.N) :
    (iblk0 V c 2 t : Vec Ideal S1x64 .f32) = (V c main_v30 : S1x64.Idx → EReal) := by
  obtain ⟨-, -, -, -, e4, e5, -⟩ := idx_facts_d0 t
  funext y
  unfold iblk0
  rw [View.read_apply]
  show V c main_v30 _ = V c main_v30 y
  congr 1
  funext a
  apply Fin.ext
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- Row p, column q of the output block at point t is row 10000·t + p, column q of the output array. -/
theorem emb0_3 (t : Fin cfg0.N) (p : Fin 10000) (q : Fin 64) (r : Fin 100000) (hr : r.val = t.val * 10000 + p.val) :
    ((cfg0.win 3).blk t).view.emb (ix2 p q) = (ix2 r q : S100000x64.Idx) := by
  obtain ⟨-, -, -, -, -, -, e6, e7⟩ := idx_facts_d0 t
  funext a
  apply Fin.ext
  match a with
  | ⟨0, _⟩ => show win0_3.index t (0 : Fin 2) * 10000 + 1 * p.val = r.val; omega
  | ⟨1, _⟩ => show win0_3.index t (1 : Fin 2) * 64 + 1 * q.val = q.val; omega

/-- What point t writes back is block t of the layer of the three arrays as the region finds them. -/
theorem flushed0_3_eq (c : Dev nD) (t : Fin cfg0.N) :
    (dat0 V c).flushed 3 t = ((cfg0.win 3).blk t).view.read (Elt Ideal)
      (affine 100000 128 64 (V c main_arg0) (V c main_v27) (V c main_v30)) := by
  show (cfg0.win 3).cut (grid0.coords t) ((dat0 V c).after 3 t) = _
  rw [after0_3]
  unfold out0_3
  rw [View.canon_unit_zero hz_d0]
  simp only [View.ld_unit_zero (S := S10000x128) hz_d0, View.ld_unit_zero (S := S128x64) hz_d0, View.ld_unit_zero (S := S1x64) hz_d0]
  rw [iblk0_1_eq, iblk0_2_eq, pay0_eq]
  have ht : t.val < 10 := lt_of_lt_of_eq t.isLt N_0
  funext j
  obtain ⟨p, q, rfl⟩ : ∃ (p : Fin 10000) (q : Fin 64), j = ix2 p q := ⟨j 0, j 1, eq_ix2 j⟩
  rw [View.read_apply, emb0_3 t p q ⟨t.val * 10000 + p.val, by have := p.isLt; omega⟩ rfl]
  exact affine_rows 100000 128 64 10000 _ _ _ _ _ p (fun k => iblk0_0_apply V c t _ _ rfl rfl) q

/-- An index of the output array is in point t's block iff each coordinate is in the block's range on its axis. -/
theorem mem_blk0_3 (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v31).slice (win0_3.rect t)).set ↔ _
  rw [View.set_slice_whole, Rect.mem_set_unit]
  exact Iff.rfl

/-- The ten blocks tile the output: row r is in the block of point r / 10000. -/
theorem cover_d0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : grid0.N = 10 := N_0
  have htN : (i 0).val / 10000 < grid0.N := by rw [hN]; omega
  obtain ⟨-, -, -, -, -, -, e6, e7⟩ := idx_facts_d0 ⟨(i 0).val / 10000, htN⟩
  refine ⟨⟨(i 0).val / 10000, htN⟩, flush0_3 _, ?_⟩
  rw [mem_blk0_3]
  intro a
  match a with
  | ⟨0, _⟩ =>
    show win0_3.index ⟨(i 0).val / 10000, htN⟩ (0 : Fin 2) * 10000 ≤ (i 0).val ∧ (i 0).val < win0_3.index ⟨(i 0).val / 10000, htN⟩ (0 : Fin 2) * 10000 + 10000
    rw [e6]
    show (i 0).val / 10000 * 10000 ≤ (i 0).val ∧ (i 0).val < (i 0).val / 10000 * 10000 + 10000
    omega
  | ⟨1, _⟩ =>
    show win0_3.index ⟨(i 0).val / 10000, htN⟩ (1 : Fin 2) * 64 ≤ (i 1).val ∧ (i 1).val < win0_3.index ⟨(i 0).val / 10000, htN⟩ (1 : Fin 2) * 64 + 64
    rw [e7]
    omega

/-- The output array after the region: the layer of the three arrays as the region finds them. -/
theorem region0_value (c : Dev nD) :
    (dat0 V c).arrAt 3 cfg0.N = affine 100000 128 64 (V c main_arg0) (V c main_v27) (V c main_v30) :=
  (dat0 V c).arrAt_eq_of_cover 3 _ (fun t _ => flushed0_3_eq V c t) cover_d0

/-! ## The region's output between the items of the program -/

/-- What region 0 leaves in its output array: the layer of the feature array, the weight and the bias row as they stand
    after the first host stretch. -/
theorem O0_0_eq_affine (c : Dev nD) :
    O0_0 (F := Ideal) m c
      = affine 100000 128 64 (W1 (F := Ideal) m c main_arg0) (W1 (F := Ideal) m c main_v27) (W1 (F := Ideal) m c main_v30) := by
  unfold O0_0
  exact region0_value (E1 m) c

/-- The same entry by entry: the feature row against the weight column, plus the bias row's entry. -/
theorem O0_0_eq (c : Dev nD) (p : Fin 100000) (q : Fin 64) :
    (O0_0 (F := Ideal) m c : S100000x64.Idx → EReal) (ix2 p q)
      = @HAdd.hAdd EReal EReal EReal _
          (∑ k : Fin 128, @HMul.hMul EReal EReal EReal _
            ((W1 (F := Ideal) m c main_arg0 : S100000x128.Idx → EReal) (ix2 p k))
            ((W1 (F := Ideal) m c main_v27 : S128x64.Idx → EReal) (ix2 k q)))
          ((W1 (F := Ideal) m c main_v30 : S1x64.Idx → EReal) (ix2 0 q)) := by
  rw [O0_0_eq_affine, affine_apply]

end Cert.KernelIdeal.Body

end
-- ==== Proof.KIStage1.lean ====
/-
  Stage 1 of relation 0: the first dense layer, in both programs.

  The kernel program computes h = x·W[0] + b[0] tile by tile in its first region; the reference computes it with one
  matrix product and a broadcast of the bias. Both read the weight as the relation's slab of the weights argument and
  the bias as the relation's row of the bias argument (the same functions of the arguments, wOf and bOf), and both
  arrays are the one function affine of (x, weight, bias row): so when the two memories agree on the three arguments,
  what the first region leaves in its output array is the reference's array.
-/
import proofs.«140713_j1864015806535_2_alg».proof.Proof.KIFrameBase
import proofs.«140713_j1864015806535_2_alg».proof.Proof.RefFrame
import proofs.«140713_j1864015806535_2_alg».proof.Proof.LibAffineStage
import proofs.«140713_j1864015806535_2_alg».proof.Proof.KIValDense0
import Idealize.ShloMosaic.Lib.StableHlo.Run
import Idealize.ShloMosaic.PureOps.Ideal.Laws

set_option maxRecDepth 65536

noncomputable section

namespace Cert.Proof.Value
open Idealize.ShloMosaic
/-- The weight of a relation's first layer as a function of the weights argument: the relation's slab, as a matrix. -/
def wOf (a : (⟨3, ![3, 128, 64]⟩ : Shape).Idx → EReal)
    (hs : (⟨3, ![3, 128, 64]⟩ : Shape).Slices ![0, 0, 0] ⟨3, ![1, 128, 64]⟩) (hc : (⟨3, ![1, 128, 64]⟩ : Shape).ShapeCasts ⟨2, ![128, 64]⟩) :
    (⟨2, ![128, 64]⟩ : Shape).Idx → EReal :=
  shapeCast ⟨2, ![128, 64]⟩ (extractStridedSlice ⟨3, ![1, 128, 64]⟩ ![0, 0, 0] a hs) hc
/-- The bias of a relation's first layer as a function of the bias argument: the relation's row, as a vector. -/
def bOf (a : (⟨2, ![3, 64]⟩ : Shape).Idx → EReal)
    (hs : (⟨2, ![3, 64]⟩ : Shape).Slices ![0, 0] ⟨2, ![1, 64]⟩) (hc : (⟨2, ![1, 64]⟩ : Shape).ShapeCasts ⟨1, ![64]⟩) :
    (⟨1, ![64]⟩ : Shape).Idx → EReal :=
  shapeCast ⟨1, ![64]⟩ (extractStridedSlice ⟨2, ![1, 64]⟩ ![0, 0] a hs) hc
end Cert.Proof.Value

namespace Cert.ReferenceIdeal.RefRun
open Cert.ReferenceIdeal Cert.ReferenceIdeal.Gen Idealize.ShloMosaic Idealize.ShloMosaic.TcCoe Idealize.SL.Sem Idealize.ShloMosaic.StableHlo

set_option maxHeartbeats 2000000 in
theorem ref_w1 (V : Valuation τ sig (Elt Ideal)) :
    (after (ops0 (F := Ideal)) V (main_v5 : DevRef τ sig) : S128x64.Idx → EReal)
      = Cert.Proof.Value.wOf (V (main_arg3 : DevRef τ sig)) slices_S3x128x64_S1x128x64_0_0_0 shapeCasts_S1x128x64_S128x64 := by
  dsimp only [ops0]
  after_results
  rfl

set_option maxHeartbeats 2000000 in
/-- The reference's first dense layer of relation 0 is x·w + b of the three arguments. -/
theorem ref_h1 (V : Valuation τ sig (Elt Ideal)) :
    (after (ops0 (F := Ideal)) V (main_v13 : DevRef τ sig) : S100000x64.Idx → EReal)
      = Cert.LibAffineStage.affine 100000 128 64 (V (main_arg0 : DevRef τ sig))
          (Cert.Proof.Value.wOf (V (main_arg3 : DevRef τ sig)) slices_S3x128x64_S1x128x64_0_0_0 shapeCasts_S1x128x64_S128x64)
          (broadcastInDim S1x64 ![1] bcast_S64_S1x64_1 (Cert.Proof.Value.bOf (V (main_arg4 : DevRef τ sig)) slices_S3x64_S1x64_0_0 shapeCasts_S1x64_S64)) := by
  dsimp only [ops0]
  after_results
  exact Cert.LibAffineStage.affine_of_dotGeneral 100000 128 64 _ _ _ bcast_S1x64_S100000x64_0_1
end Cert.ReferenceIdeal.RefRun

namespace Cert.KernelIdeal.Body
open Cert.KernelIdeal Cert.KernelIdeal.Gen Idealize.ShloMosaic Idealize.ShloMosaic.TcCoe Idealize.SL.Sem Idealize.ShloMosaic.StableHlo
variable (m : (ℓ : Loc nD τ sig) → Buf (Elt Ideal) ℓ)

set_option maxHeartbeats 2000000 in
theorem ker_w1 (c : Dev nD) :
    (W1 (F := Ideal) m c main_v27 : S128x64.Idx → EReal)
      = Cert.Proof.Value.wOf (m ((c.tc : Thread nD τ).loc main_arg3)) slices_S3x128x64_S1x128x64_0_0_0 shapeCasts_S1x128x64_S128x64 := by
  dsimp only [W1, W0, hostOps0]
  after_results
  rfl

set_option maxHeartbeats 2000000 in
/-- The kernel program's bias row of relation 0, layer 1: the bias vector as a 1×64 row. -/
theorem ker_b1 (c : Dev nD) (hb : S64.BroadcastsInDim S1x64 (![1] : Fin 1 → Fin S1x64.rank)) :
    (W1 (F := Ideal) m c main_v30 : S1x64.Idx → EReal)
      = broadcastInDim S1x64 ![1] hb (Cert.Proof.Value.bOf (m ((c.tc : Thread nD τ).loc main_arg4)) slices_S3x64_S1x64_0_0 shapeCasts_S1x64_S64) := by
  dsimp only [W1, W0, hostOps0]
  after_results
  exact Cert.LibAffineStage.reshape_row_eq_broadcast_row 64 _ shapeCasts_S64_S1x64 hb

/-- The kernel program reads the node features unchanged at the first region. -/
theorem ker_x1 (c : Dev nD) : W1 (F := Ideal) m c main_arg0 = m ((c.tc : Thread nD τ).loc main_arg0) :=
  StableHlo.after_of_writes_sub hostOps0 _ GenP.hostOps0_writes (by decide)
end Cert.KernelIdeal.Body

namespace Cert.Proof.Value
open Idealize.ShloMosaic Idealize.ShloMosaic.TcCoe Idealize.SL.Sem Idealize.ShloMosaic.StableHlo

/-- STAGE 1, relation 0: the kernel program's first dense layer (what region 0 leaves in its output array) is the
    reference's, when the two memories agree on the node features, the weights and the biases. -/
theorem stage1_rel0
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    (after (Cert.ReferenceIdeal.RefRun.ops0 (F := Ideal)) (launchContents m' c) (Cert.ReferenceIdeal.main_v13 : DevRef Cert.ReferenceIdeal.τ Cert.ReferenceIdeal.sig) : (⟨2, ![100000, 64]⟩ : Shape).Idx → EReal)
      = (Cert.KernelIdeal.Body.O0_0 (F := Ideal) m c : (⟨2, ![100000, 64]⟩ : Shape).Idx → EReal) := by
  rw [Cert.ReferenceIdeal.RefRun.ref_h1, Cert.KernelIdeal.Body.O0_0_eq_affine, Cert.KernelIdeal.Body.ker_x1, Cert.KernelIdeal.Body.ker_w1,
    Cert.KernelIdeal.Body.ker_b1 m c Cert.ReferenceIdeal.Gen.bcast_S64_S1x64_1]
  have e0 : launchContents m' c (Proc.devRef .tc Cert.ReferenceIdeal.main_arg0) = m ((c.tc : Thread Cert.KernelIdeal.nD Cert.KernelIdeal.τ).loc Cert.KernelIdeal.main_arg0) := h0
  have e3 : launchContents m' c (Proc.devRef .tc Cert.ReferenceIdeal.main_arg3) = m ((c.tc : Thread Cert.KernelIdeal.nD Cert.KernelIdeal.τ).loc Cert.KernelIdeal.main_arg3) := h3
  have e4 : launchContents m' c (Proc.devRef .tc Cert.ReferenceIdeal.main_arg4) = m ((c.tc : Thread Cert.KernelIdeal.nD Cert.KernelIdeal.τ).loc Cert.KernelIdeal.main_arg4) := h4
  rw [e0, e3, e4]

end Cert.Proof.Value

end
-- ==== Proof.KIStageAgg0.lean ====
/-
  The graph aggregation of relation 0, layer 1, which both programs compute on the host with the same operations.

  From the dense layer's output h (100000 × 64) and the edge argument (3 relations × 2 rows × 1600000 node numbers):
  src and dst are the relation's two rows; deg counts the edges into each node, d = 1/sqrt(max(deg, 1)); edge e weighs
  d(src e) · d(dst e); and row n of agg is the sum over the edges e into n of weight(e) · h(src e). The functions below
  name these over the literal shapes, each program's aggregation array is read as that function of its own h and edge
  argument, and the last lemmas conclude: if the two programs' h arrays are equal and their memories agree on the edge
  argument, their agg arrays are equal; and the 1×1 mixing weight the kernel program's second region reads is the
  reference's scalar mixing weight, when the memories agree on the weights argument.
-/
import proofs.«140713_j1864015806535_2_alg».proof.Proof.KIFrameBase
import proofs.«140713_j1864015806535_2_alg».proof.Proof.RefFrame
import Idealize.ShloMosaic.Lib.StableHlo.Run
import Idealize.ShloMosaic.PureOps.Ideal.Laws

set_option maxRecDepth 16384

noncomputable section

namespace Cert.Proof.Value
open Idealize.ShloMosaic

/-- Row k of relation r of the edge argument, as a vector of 1600000 node numbers. -/
def edgeRowOf (e : (⟨3, ![3, 2, 1600000]⟩ : Shape).Idx → BitVec 32) (o : Fin 3 → Nat)
    (hs : (⟨3, ![3, 2, 1600000]⟩ : Shape).Slices o ⟨3, ![1, 1, 1600000]⟩)
    (hc : (⟨3, ![1, 1, 1600000]⟩ : Shape).ShapeCasts ⟨1, ![1600000]⟩) :
    (⟨1, ![1600000]⟩ : Shape).Idx → BitVec 32 :=
  shapeCast ⟨1, ![1600000]⟩ (extractStridedSlice ⟨3, ![1, 1, 1600000]⟩ o e hs) hc

/-- A node number read as an index: a negative one counts from the end. -/
def wrapOf (hb : (⟨0, ![]⟩ : Shape).BroadcastsInDim ⟨1, ![1600000]⟩ (![] : Fin 0 → Fin 1))
    (s : (⟨1, ![1600000]⟩ : Shape).Idx → BitVec 32) : (⟨1, ![1600000]⟩ : Shape).Idx → BitVec 32 :=
  select (cmpi CmpIPredicate.slt s (broadcastInDim ⟨1, ![1600000]⟩ ![] hb (constantI ⟨0, ![]⟩ 32 0#32)))
    (addi s (broadcastInDim ⟨1, ![1600000]⟩ ![] hb (constantI ⟨0, ![]⟩ 32 100000#32))) s

/-- The edge weights: with deg the number of edges into each node and d = 1/sqrt(max(deg, 1)), edge e weighs d(src e) · d(dst e). -/
def normOf (sd : ScatterDims ⟨1, ![100000]⟩ ⟨2, ![1600000, 1]⟩ ⟨1, ![1600000]⟩)
    (gd : GatherDims ⟨1, ![100000]⟩ ⟨2, ![1600000, 1]⟩ ⟨1, ![1600000]⟩)
    (hbE : (⟨0, ![]⟩ : Shape).BroadcastsInDim ⟨1, ![1600000]⟩ (![] : Fin 0 → Fin 1))
    (hbN : (⟨0, ![]⟩ : Shape).BroadcastsInDim ⟨1, ![100000]⟩ (![] : Fin 0 → Fin 1))
    (hbC : (⟨1, ![1600000]⟩ : Shape).BroadcastsInDim ⟨2, ![1600000, 1]⟩ (![0] : Fin 1 → Fin 2))
    (src dst : (⟨1, ![1600000]⟩ : Shape).Idx → BitVec 32) : (⟨1, ![1600000]⟩ : Shape).Idx → EReal :=
  mulf (F := Ideal) (φ := .f32)
    (Host.gather gd
      (Host.rsqrt (F := Ideal) (φ := .f32)
        (maximumf (F := Ideal) (φ := .f32)
          (Host.scatterAdd sd (broadcastInDim ⟨1, ![100000]⟩ ![] hbN (constant (F := Ideal) ⟨0, ![]⟩ .f32 0#32))
            (broadcastInDim ⟨2, ![1600000, 1]⟩ ![0] hbC dst)
            (broadcastInDim ⟨1, ![1600000]⟩ ![] hbE (constant (F := Ideal) ⟨0, ![]⟩ .f32 1065353216#32)))
          (broadcastInDim ⟨1, ![100000]⟩ ![] hbN (constant (F := Ideal) ⟨0, ![]⟩ .f32 1065353216#32))))
      (broadcastInDim ⟨2, ![1600000, 1]⟩ ![0] hbC (wrapOf hbE src)))
    (Host.gather gd
      (Host.rsqrt (F := Ideal) (φ := .f32)
        (maximumf (F := Ideal) (φ := .f32)
          (Host.scatterAdd sd (broadcastInDim ⟨1, ![100000]⟩ ![] hbN (constant (F := Ideal) ⟨0, ![]⟩ .f32 0#32))
            (broadcastInDim ⟨2, ![1600000, 1]⟩ ![0] hbC dst)
            (broadcastInDim ⟨1, ![1600000]⟩ ![] hbE (constant (F := Ideal) ⟨0, ![]⟩ .f32 1065353216#32)))
          (broadcastInDim ⟨1, ![100000]⟩ ![] hbN (constant (F := Ideal) ⟨0, ![]⟩ .f32 1065353216#32))))
      (broadcastInDim ⟨2, ![1600000, 1]⟩ ![0] hbC (wrapOf hbE dst)))

/-- The graph aggregation: row n of the result is the sum over the edges e into n of weight(e) · h(src e). -/
def aggOf (sd : ScatterDims ⟨2, ![100000, 64]⟩ ⟨2, ![1600000, 1]⟩ ⟨2, ![1600000, 64]⟩)
    (gd : GatherDims ⟨2, ![100000, 64]⟩ ⟨2, ![1600000, 1]⟩ ⟨2, ![1600000, 64]⟩)
    (hbE : (⟨0, ![]⟩ : Shape).BroadcastsInDim ⟨1, ![1600000]⟩ (![] : Fin 0 → Fin 1))
    (hbZ : (⟨0, ![]⟩ : Shape).BroadcastsInDim ⟨2, ![100000, 64]⟩ (![] : Fin 0 → Fin 2))
    (hbC : (⟨1, ![1600000]⟩ : Shape).BroadcastsInDim ⟨2, ![1600000, 1]⟩ (![0] : Fin 1 → Fin 2))
    (hbW : (⟨2, ![1600000, 1]⟩ : Shape).BroadcastsInDim ⟨2, ![1600000, 64]⟩ (![0, 1] : Fin 2 → Fin 2))
    (h : (⟨2, ![100000, 64]⟩ : Shape).Idx → EReal)
    (src dst : (⟨1, ![1600000]⟩ : Shape).Idx → BitVec 32)
    (nrm : (⟨1, ![1600000]⟩ : Shape).Idx → EReal) : (⟨2, ![100000, 64]⟩ : Shape).Idx → EReal :=
  Host.scatterAdd sd (broadcastInDim ⟨2, ![100000, 64]⟩ ![] hbZ (constant (F := Ideal) ⟨0, ![]⟩ .f32 0#32))
    (broadcastInDim ⟨2, ![1600000, 1]⟩ ![0] hbC dst)
    (mulf (F := Ideal) (φ := .f32)
      (Host.gather gd h (broadcastInDim ⟨2, ![1600000, 1]⟩ ![0] hbC (wrapOf hbE src)))
      (broadcastInDim ⟨2, ![1600000, 64]⟩ ![0, 1] hbW (broadcastInDim ⟨2, ![1600000, 1]⟩ ![0] hbC nrm)))

/-- The mixing weight of a relation as a 1×1 array: entry r of the weights argument. -/
def gammaOf (a : (⟨1, ![3]⟩ : Shape).Idx → EReal) (o : Fin 1 → Nat)
    (hs : (⟨1, ![3]⟩ : Shape).Slices o ⟨1, ![1]⟩) (hc : (⟨1, ![1]⟩ : Shape).ShapeCasts ⟨0, ![]⟩) :
    (⟨0, ![]⟩ : Shape).Idx → EReal :=
  shapeCast ⟨0, ![]⟩ (extractStridedSlice ⟨1, ![1]⟩ o a hs) hc
end Cert.Proof.Value

namespace Cert.KernelIdeal.Body
open Cert.KernelIdeal Cert.KernelIdeal.Gen Idealize.ShloMosaic Idealize.ShloMosaic.TcCoe Idealize.SL.Sem Idealize.ShloMosaic.StableHlo
variable (m : (ℓ : Loc nD τ sig) → Buf (Elt Ideal) ℓ)

/-- After region 0 the dense layer's output array holds what the region left there. -/
theorem W2_h0 (c : Dev nD) : W2 (F := Ideal) m c (main_v31 : DevRef τ sig) = O0_0 m c := by
  unfold W2
  exact Function.update_self ..

/-- Region 0 leaves every other buffer as it was. -/
theorem W2_keep0 (c : Dev nD) (r : Ref sig .tc) (hr : r ≠ main_v31) :
    W2 (F := Ideal) m c (Proc.devRef .tc r) = W1 m c (Proc.devRef .tc r) := by
  unfold W2
  exact Function.update_of_ne (StableHlo.devRef_ne_of_ne hr) ..

set_option maxHeartbeats 2000000 in
/-- The source row of relation 0's edges. -/
theorem ker_src0 (c : Dev nD) :
    (W1 (F := Ideal) m c main_v1 : S1600000.Idx → BitVec 32)
      = Cert.Proof.Value.edgeRowOf (m ((c.tc : Thread nD τ).loc main_arg1)) ![0, 0, 0]
          slices_S3x2x1600000_S1x1x1600000_0_0_0 shapeCasts_S1x1x1600000_S1600000 := by
  dsimp only [W1, W0, hostOps0]
  after_results
  rfl

set_option maxHeartbeats 2000000 in
/-- The destination row of relation 0's edges. -/
theorem ker_dst0 (c : Dev nD) :
    (W1 (F := Ideal) m c main_v3 : S1600000.Idx → BitVec 32)
      = Cert.Proof.Value.edgeRowOf (m ((c.tc : Thread nD τ).loc main_arg1)) ![0, 1, 0]
          slices_S3x2x1600000_S1x1x1600000_0_1_0 shapeCasts_S1x1x1600000_S1600000 := by
  dsimp only [W1, W0, hostOps0]
  after_results
  rfl

set_option maxHeartbeats 4000000 in
/-- The edge weights of relation 0 as a function of its two edge rows. -/
theorem ker_norm0 (c : Dev nD) :
    (W1 (F := Ideal) m c main_v25 : S1600000.Idx → EReal)
      = Cert.Proof.Value.normOf scatter_S100000_S1600000x1_S1600000_n_0_0_1 gather_S100000_S1600000x1_S1600000_n_0_n_n_0_1_1
          bcast_S_S1600000 bcast_S_S100000 bcast_S1600000_S1600000x1_0
          (Cert.Proof.Value.edgeRowOf (m ((c.tc : Thread nD τ).loc main_arg1)) ![0, 0, 0]
            slices_S3x2x1600000_S1x1x1600000_0_0_0 shapeCasts_S1x1x1600000_S1600000)
          (Cert.Proof.Value.edgeRowOf (m ((c.tc : Thread nD τ).loc main_arg1)) ![0, 1, 0]
            slices_S3x2x1600000_S1x1x1600000_0_1_0 shapeCasts_S1x1x1600000_S1600000) := by
  dsimp only [W1, W0, hostOps0]
  after_results
  rfl

set_option maxHeartbeats 4000000 in
/-- The aggregation of relation 0, layer 1, over the contents region 0 leaves. -/
theorem ker_agg0_raw (c : Dev nD) :
    (W3 (F := Ideal) m c main_v44 : S100000x64.Idx → EReal)
      = Cert.Proof.Value.aggOf scatter_S100000x64_S1600000x1_S1600000x64_1_0_0_1 gather_S100000x64_S1600000x1_S1600000x64_1_0_n_n_0_1_164
          bcast_S_S1600000 bcast_S_S100000x64 bcast_S1600000_S1600000x1_0 bcast_S1600000x1_S1600000x64_0_1
          (W2 m c (main_v31 : DevRef τ sig)) (W2 m c (main_v1 : DevRef τ sig)) (W2 m c (main_v3 : DevRef τ sig)) (W2 m c (main_v25 : DevRef τ sig)) := by
  dsimp only [W3, hostOps1]
  after_results
  rfl

/-- The aggregation of relation 0, layer 1, as a function of what region 0 leaves and of the edge argument. -/
theorem ker_agg0 (c : Dev nD) :
    (W3 (F := Ideal) m c main_v44 : S100000x64.Idx → EReal)
      = Cert.Proof.Value.aggOf scatter_S100000x64_S1600000x1_S1600000x64_1_0_0_1 gather_S100000x64_S1600000x1_S1600000x64_1_0_n_n_0_1_164
          bcast_S_S1600000 bcast_S_S100000x64 bcast_S1600000_S1600000x1_0 bcast_S1600000x1_S1600000x64_0_1
          (O0_0 m c)
          (Cert.Proof.Value.edgeRowOf (m ((c.tc : Thread nD τ).loc main_arg1)) ![0, 0, 0]
            slices_S3x2x1600000_S1x1x1600000_0_0_0 shapeCasts_S1x1x1600000_S1600000)
          (Cert.Proof.Value.edgeRowOf (m ((c.tc : Thread nD τ).loc main_arg1)) ![0, 1, 0]
            slices_S3x2x1600000_S1x1x1600000_0_1_0 shapeCasts_S1x1x1600000_S1600000)
          (Cert.Proof.Value.normOf scatter_S100000_S1600000x1_S1600000_n_0_0_1 gather_S100000_S1600000x1_S1600000_n_0_n_n_0_1_1
            bcast_S_S1600000 bcast_S_S100000 bcast_S1600000_S1600000x1_0
            (Cert.Proof.Value.edgeRowOf (m ((c.tc : Thread nD τ).loc main_arg1)) ![0, 0, 0]
              slices_S3x2x1600000_S1x1x1600000_0_0_0 shapeCasts_S1x1x1600000_S1600000)
            (Cert.Proof.Value.edgeRowOf (m ((c.tc : Thread nD τ).loc main_arg1)) ![0, 1, 0]
              slices_S3x2x1600000_S1x1x1600000_0_1_0 shapeCasts_S1x1x1600000_S1600000)) := by
  rw [ker_agg0_raw, W2_h0, W2_keep0 m c main_v1 (by decide), W2_keep0 m c main_v3 (by decide), W2_keep0 m c main_v25 (by decide),
    ker_src0, ker_dst0, ker_norm0]

/-- The weights argument is as launched when region 1 is entered. -/
theorem ker_arg7_0 (c : Dev nD) : W2 (F := Ideal) m c (main_arg7 : DevRef τ sig) = m ((c.tc : Thread nD τ).loc main_arg7) := by
  rw [W2_keep0 m c main_arg7 (by decide)]
  exact StableHlo.after_of_writes_sub hostOps0 _ GenP.hostOps0_writes (by decide)

set_option maxHeartbeats 2000000 in
/-- The mixing weight region 1 reads: relation 0's entry of the weights argument, as a 1×1 array. -/
theorem ker_gamma0 (c : Dev nD) :
    (W3 (F := Ideal) m c main_v51 : S1x1.Idx → EReal)
      = shapeCast S1x1 (Cert.Proof.Value.gammaOf (m ((c.tc : Thread nD τ).loc main_arg7)) ![0] slices_S3_S1_0 shapeCasts_S1_S_) shapeCasts_S_S1x1 := by
  have e : (W3 (F := Ideal) m c main_v51 : S1x1.Idx → EReal)
      = shapeCast S1x1 (Cert.Proof.Value.gammaOf (W2 m c (main_arg7 : DevRef τ sig)) ![0] slices_S3_S1_0 shapeCasts_S1_S_) shapeCasts_S_S1x1 := by
    dsimp only [W3, hostOps1]
    after_results
    rfl
  rw [e, ker_arg7_0]
end Cert.KernelIdeal.Body

namespace Cert.ReferenceIdeal.RefRun
open Cert.ReferenceIdeal Cert.ReferenceIdeal.Gen Idealize.ShloMosaic Idealize.ShloMosaic.TcCoe Idealize.SL.Sem Idealize.ShloMosaic.StableHlo

set_option maxHeartbeats 4000000 in
/-- The reference's aggregation of relation 0, layer 1, as a function of its dense layer's output and of the edge argument. -/
theorem ref_agg0 (V : Valuation τ sig (Elt Ideal)) :
    (after (ops0 (F := Ideal)) V (main_v48 : DevRef τ sig) : S100000x64.Idx → EReal)
      = Cert.Proof.Value.aggOf scatter_S100000x64_S1600000x1_S1600000x64_1_0_0_1 gather_S100000x64_S1600000x1_S1600000x64_1_0_n_n_0_1_164
          bcast_S_S1600000 bcast_S_S100000x64 bcast_S1600000_S1600000x1_0 bcast_S1600000x1_S1600000x64_0_1
          (after (ops0 (F := Ideal)) V (main_v13 : DevRef τ sig))
          (Cert.Proof.Value.edgeRowOf (V (main_arg1 : DevRef τ sig)) ![0, 0, 0]
            slices_S3x2x1600000_S1x1x1600000_0_0_0 shapeCasts_S1x1x1600000_S1600000)
          (Cert.Proof.Value.edgeRowOf (V (main_arg1 : DevRef τ sig)) ![0, 1, 0]
            slices_S3x2x1600000_S1x1x1600000_0_1_0 shapeCasts_S1x1x1600000_S1600000)
          (Cert.Proof.Value.normOf scatter_S100000_S1600000x1_S1600000_n_0_0_1 gather_S100000_S1600000x1_S1600000_n_0_n_n_0_1_1
            bcast_S_S1600000 bcast_S_S100000 bcast_S1600000_S1600000x1_0
            (Cert.Proof.Value.edgeRowOf (V (main_arg1 : DevRef τ sig)) ![0, 0, 0]
              slices_S3x2x1600000_S1x1x1600000_0_0_0 shapeCasts_S1x1x1600000_S1600000)
            (Cert.Proof.Value.edgeRowOf (V (main_arg1 : DevRef τ sig)) ![0, 1, 0]
              slices_S3x2x1600000_S1x1x1600000_0_1_0 shapeCasts_S1x1x1600000_S1600000)) := by
  dsimp only [ops0]
  after_results_simp
  rfl

set_option maxHeartbeats 2000000 in
/-- The reference's mixing weight of relation 0: that entry of the weights argument, as a scalar. -/
theorem ref_gamma0 (V : Valuation τ sig (Elt Ideal)) :
    (after (ops0 (F := Ideal)) V (main_v9 : DevRef τ sig) : S_.Idx → EReal)
      = Cert.Proof.Value.gammaOf (V (main_arg7 : DevRef τ sig)) ![0] slices_S3_S1_0 shapeCasts_S1_S_ := by
  dsimp only [ops0]
  after_results_simp
  rfl
end Cert.ReferenceIdeal.RefRun

namespace Cert.Proof.Value
open Idealize.ShloMosaic Idealize.ShloMosaic.TcCoe Idealize.SL.Sem Idealize.ShloMosaic.StableHlo

/-- Relation 0, layer 1: the two programs' aggregations are equal when their dense layers' outputs are and
    their memories agree on the edge argument. -/
theorem stageAgg_rel0
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (hh : (after (Cert.ReferenceIdeal.RefRun.ops0 (F := Ideal)) (launchContents m' c) (Cert.ReferenceIdeal.main_v13 : DevRef Cert.ReferenceIdeal.τ Cert.ReferenceIdeal.sig) : (⟨2, ![100000, 64]⟩ : Shape).Idx → EReal)
      = (Cert.KernelIdeal.Body.O0_0 (F := Ideal) m c : (⟨2, ![100000, 64]⟩ : Shape).Idx → EReal)) :
    (after (Cert.ReferenceIdeal.RefRun.ops0 (F := Ideal)) (launchContents m' c) (Cert.ReferenceIdeal.main_v48 : DevRef Cert.ReferenceIdeal.τ Cert.ReferenceIdeal.sig) : (⟨2, ![100000, 64]⟩ : Shape).Idx → EReal)
      = (Cert.KernelIdeal.Body.W3 (F := Ideal) m c (Cert.KernelIdeal.main_v44 : DevRef Cert.KernelIdeal.τ Cert.KernelIdeal.sig) : (⟨2, ![100000, 64]⟩ : Shape).Idx → EReal) := by
  have h1' : launchContents m' c (Cert.ReferenceIdeal.main_arg1 : DevRef Cert.ReferenceIdeal.τ Cert.ReferenceIdeal.sig)
      = m ((c.tc : Thread Cert.KernelIdeal.nD Cert.KernelIdeal.τ).loc Cert.KernelIdeal.main_arg1) := h1
  rw [Cert.ReferenceIdeal.RefRun.ref_agg0, Cert.KernelIdeal.Body.ker_agg0, hh, h1']
  rfl

/-- The mixing weight region 1 reads is the reference's scalar of relation 0 as a 1×1 array, when the two memories
    agree on the weights argument. -/
theorem stageGamma_rel0
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    (Cert.KernelIdeal.Body.W3 (F := Ideal) m c (Cert.KernelIdeal.main_v51 : DevRef Cert.KernelIdeal.τ Cert.KernelIdeal.sig) : (⟨2, ![1, 1]⟩ : Shape).Idx → EReal)
      = shapeCast ⟨2, ![1, 1]⟩ (after (Cert.ReferenceIdeal.RefRun.ops0 (F := Ideal)) (launchContents m' c) (Cert.ReferenceIdeal.main_v9 : DevRef Cert.ReferenceIdeal.τ Cert.ReferenceIdeal.sig) : (⟨0, ![]⟩ : Shape).Idx → EReal)
          Cert.KernelIdeal.Gen.shapeCasts_S_S1x1 := by
  have h7' : launchContents m' c (Cert.ReferenceIdeal.main_arg7 : DevRef Cert.ReferenceIdeal.τ Cert.ReferenceIdeal.sig)
      = m ((c.tc : Thread Cert.KernelIdeal.nD Cert.KernelIdeal.τ).loc Cert.KernelIdeal.main_arg7) := h7
  rw [Cert.ReferenceIdeal.RefRun.ref_gamma0, Cert.KernelIdeal.Body.ker_gamma0, h7']
end Cert.Proof.Value

end
-- ==== Proof.KIValMix1.lean ====
/-
  Region 1, the mix-and-accumulate tile kernel, read as values over the extended reals.

  At each of the ten grid points the body takes its tile of 10000 rows of h and of agg and the 1×1 mixing weight g,
  writes xm = g·agg + (1 − g)·h into its tile of the first output, and adds the tile's column sums of xm and of xm·xm
  to two one-row outputs that are zeroed at the first point and written back after the last. The lemmas here say what
  the three output arrays end holding, index by index, as functions of the region's entry contents: the first output is
  xm at every row and column, the two rows are the sums over all 100000 rows of xm and of xm·xm.
-/
import proofs.«140713_j1864015806535_2_alg».proof.Proof.KIFrameBase
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Body

open Cert.KernelIdeal Cert.KernelIdeal.Gen Idealize.ShloMosaic Idealize.ShloMosaic.TcCoe Idealize.ShloMosaic.ValueIdx Idealize.SL.Sem
open Idealize.ShloMosaic.Pipeline (Dat Cfg Window)
open Idealize.ShloMosaic.Tactic

variable (m : (ℓ : Loc nD τ sig) → Buf (Elt Ideal) ℓ)

section Pieces
variable (V : (c : Dev nD) → (b : Ref sig .tc) → Buf (Elt Ideal) ((c : Thread nD τ).loc b))

theorem hz1 : (![0, 0] : Fin 2 → Nat) = fun _ => 0 := funext fun a => by fin_cases a <;> rfl

theorem outA1_3 (c : Dev nD) (t : Fin cfg1.N) (h : cond1_0 (grid1.coords t)) :
    (readBack1 (runA1 V c t h).1).1 = k1_pay3 (iblk1 V c 2 t) (iblk1 V c 0 t) (iblk1 V c 1 t) := by
  unfold readBack1
  dsimp only
  rw [View.read_writes_junk_eq_canon]
  unfold runA1 kernelRun1_A
  dsimp only
  rw [View.canon_unit_zero (S := S10000x64) hz1]
  simp only [View.readAt_eq_ld, (hs1_0 t).read_unread, (hs1_1 t).read_unread, (hs1_2 t).read_unread,
    View.ld_unit_zero (S := S10000x64) hz1, View.ld_unit_zero (S := S1x1) hz1]

theorem outB1_3 (c : Dev nD) (t : Fin cfg1.N) (h : ¬cond1_0 (grid1.coords t)) (xo4 xo5 : Vec Ideal S1x64 .f32) :
    (readBack1 (runB1 V c t h xo4 xo5).1).1 = k1_pay3 (iblk1 V c 2 t) (iblk1 V c 0 t) (iblk1 V c 1 t) := by
  unfold readBack1
  dsimp only
  rw [View.read_writes_junk_eq_canon]
  unfold runB1 kernelRun1_B
  dsimp only
  rw [View.canon_unit_zero (S := S10000x64) hz1]
  simp only [View.readAt_eq_ld, (hs1_0 t).read_unread, (hs1_1 t).read_unread, (hs1_2 t).read_unread,
    View.ld_unit_zero (S := S10000x64) hz1, View.ld_unit_zero (S := S1x1) hz1]

theorem outA1_4 (c : Dev nD) (t : Fin cfg1.N) (h : cond1_0 (grid1.coords t)) :
    (readBack1 (runA1 V c t h).1).2.1 = k1_pay4 (iblk1 V c 2 t) (iblk1 V c 0 t) (iblk1 V c 1 t) (k1_pay1 (F := Ideal)) := by
  unfold readBack1
  dsimp only
  rw [View.read_writes_junk_eq_canon]
  unfold runA1 kernelRun1_A
  dsimp only
  sl_unfold_words
  rw [View.canon_cons_unit_zero (S := S1x64) hz1, View.readCov_unit_zero (S := S1x64) _ hz1]
  simp only [View.readAt_eq_ld, (hs1_0 t).read_unread, (hs1_1 t).read_unread, (hs1_2 t).read_unread,
    View.ld_unit_zero (S := S10000x64) hz1, View.ld_unit_zero (S := S1x1) hz1, View.ld_unit_zero (S := S1x64) hz1]

theorem outB1_4 (c : Dev nD) (t : Fin cfg1.N) (h : ¬cond1_0 (grid1.coords t)) (xo4 xo5 : Vec Ideal S1x64 .f32) :
    (readBack1 (runB1 V c t h xo4 xo5).1).2.1 = k1_pay4 (iblk1 V c 2 t) (iblk1 V c 0 t) (iblk1 V c 1 t) xo4 := by
  unfold readBack1
  dsimp only
  rw [View.read_writes_junk_eq_canon]
  unfold runB1 kernelRun1_B
  dsimp only
  rw [View.canon_unit_zero (S := S1x64) hz1]
  simp only [View.readAt_eq_ld, (hs1_0 t).read_unread, (hs1_1 t).read_unread, (hs1_2 t).read_unread,
    (hs1_4 t).read_unread, (hs1_5 t).read_unread,
    View.ld_unit_zero (S := S10000x64) hz1, View.ld_unit_zero (S := S1x1) hz1, View.ld_unit_zero (S := S1x64) hz1]

theorem outA1_5 (c : Dev nD) (t : Fin cfg1.N) (h : cond1_0 (grid1.coords t)) :
    (readBack1 (runA1 V c t h).1).2.2 = k1_pay5 (iblk1 V c 2 t) (iblk1 V c 0 t) (iblk1 V c 1 t) (k1_pay2 (F := Ideal)) := by
  unfold readBack1
  dsimp only
  rw [View.read_writes_junk_eq_canon]
  unfold runA1 kernelRun1_A
  dsimp only
  sl_unfold_words
  rw [View.canon_cons_unit_zero (S := S1x64) hz1, View.readCov_unit_zero (S := S1x64) _ hz1]
  simp only [View.readAt_eq_ld, (hs1_0 t).read_unread, (hs1_1 t).read_unread, (hs1_2 t).read_unread,
    View.ld_unit_zero (S := S10000x64) hz1, View.ld_unit_zero (S := S1x1) hz1, View.ld_unit_zero (S := S1x64) hz1]

theorem outB1_5 (c : Dev nD) (t : Fin cfg1.N) (h : ¬cond1_0 (grid1.coords t)) (xo4 xo5 : Vec Ideal S1x64 .f32) :
    (readBack1 (runB1 V c t h xo4 xo5).1).2.2 = k1_pay5 (iblk1 V c 2 t) (iblk1 V c 0 t) (iblk1 V c 1 t) xo5 := by
  unfold readBack1
  dsimp only
  rw [View.read_writes_junk_eq_canon]
  unfold runB1 kernelRun1_B
  dsimp only
  rw [View.canon_unit_zero (S := S1x64) hz1]
  simp only [View.readAt_eq_ld, (hs1_0 t).read_unread, (hs1_1 t).read_unread, (hs1_2 t).read_unread,
    (hs1_4 t).read_unread, (hs1_5 t).read_unread,
    View.ld_unit_zero (S := S10000x64) hz1, View.ld_unit_zero (S := S1x1) hz1, View.ld_unit_zero (S := S1x64) hz1]

end Pieces

/-! ## The payload at an index -/

/-- The mixed tile at row p, column q: the weight times agg plus one minus the weight times h. -/
theorem pay3_apply (g : Vec Ideal S1x1 .f32) (h agg : Vec Ideal S10000x64 .f32) (p : Fin 10000) (q : Fin 64) :
    (k1_pay3 g h agg : S10000x64.Idx → EReal) (ix2 p q)
      = (g : S1x1.Idx → EReal) (ix2 0 0) * (agg : S10000x64.Idx → EReal) (ix2 p q)
        + (Ideal.ofBits .f32 0x3F800000#32 - (g : S1x1.Idx → EReal) (ix2 0 0)) * (h : S10000x64.Idx → EReal) (ix2 p q) := by
  unfold k1_pay3
  simp only [shapeCast_self]
  rw [addf_apply, mulf_apply, mulf_apply,
    broadcastTo_apply (s := S1x1) (t := S10000x64) _ _ (ix2 p q) (ix2 0 0)
      (fun a => by match a with | ⟨0, _⟩ => rfl | ⟨1, _⟩ => rfl),
    broadcastTo_apply (s := S1x1) (t := S10000x64) _ _ (ix2 p q) (ix2 0 0)
      (fun a => by match a with | ⟨0, _⟩ => rfl | ⟨1, _⟩ => rfl),
    subf_apply, broadcast_apply]
  rfl

/-- The same at any index of the tile. -/
theorem pay3_at (g : Vec Ideal S1x1 .f32) (h agg : Vec Ideal S10000x64 .f32) (j : S10000x64.Idx) :
    (k1_pay3 g h agg : S10000x64.Idx → EReal) j
      = (g : S1x1.Idx → EReal) (ix2 0 0) * (agg : S10000x64.Idx → EReal) j
        + (Ideal.ofBits .f32 0x3F800000#32 - (g : S1x1.Idx → EReal) (ix2 0 0)) * (h : S10000x64.Idx → EReal) j := by
  obtain ⟨p, q, rfl⟩ : ∃ (p : Fin 10000) (q : Fin 64), j = ix2 p q := ⟨j 0, j 1, eq_ix2 j⟩
  exact pay3_apply g h agg p q

/-- A tile's column reduction, stored as a one-row block, at column q: the sum of the tile down column q. -/
theorem colsum_apply (x : Vec Ideal S10000x64 .f32) (q : Fin 64) :
    (shapeCast S1x64 (multiReduction (F := Ideal) .add [0] S64 x 0x00000000#32 reduces_S10000x64_S64 (.inl rfl) rfl)
        shapeCasts_S64_S1x64 : S1x64.Idx → EReal) (ix2 0 q)
      = ∑ r : Fin 10000, (x : S10000x64.Idx → EReal) (ix2 r q) := by
  refine (shapeCast_addUnit_apply ![64] _ _ (ix2 0 q)).trans ?_
  refine (Ideal.multiReduction_add_single x 0x00000000#32 reduces_S10000x64_S64 (.inl rfl) rfl _).trans ?_
  show ∑ r : Fin 10000, _ = _
  refine Finset.sum_congr rfl fun r _ => congrArg _ ?_
  funext a
  apply Fin.ext
  match a with
  | ⟨0, _⟩ => rfl
  | ⟨1, _⟩ => rfl

/-- The column sums' row at column q: the row entered plus the sum of the mixed tile down column q. -/
theorem pay4_apply (g : Vec Ideal S1x1 .f32) (h agg : Vec Ideal S10000x64 .f32) (row : Vec Ideal S1x64 .f32) (q : Fin 64) :
    (k1_pay4 g h agg row : S1x64.Idx → EReal) (ix2 0 q)
      = (row : S1x64.Idx → EReal) (ix2 0 q) + ∑ r : Fin 10000, (k1_pay3 g h agg : S10000x64.Idx → EReal) (ix2 r q) := by
  unfold k1_pay4
  simp only [shapeCast_self]
  rw [addf_apply]
  congr 1
  exact colsum_apply _ q

/-- The squares' row at column q: the row entered plus the sum of the mixed tile's squares down column q. -/
theorem pay5_apply (g : Vec Ideal S1x1 .f32) (h agg : Vec Ideal S10000x64 .f32) (row : Vec Ideal S1x64 .f32) (q : Fin 64) :
    (k1_pay5 g h agg row : S1x64.Idx → EReal) (ix2 0 q)
      = (row : S1x64.Idx → EReal) (ix2 0 q)
        + ∑ r : Fin 10000, (k1_pay3 g h agg : S10000x64.Idx → EReal) (ix2 r q) * (k1_pay3 g h agg : S10000x64.Idx → EReal) (ix2 r q) := by
  unfold k1_pay5
  simp only [shapeCast_self]
  rw [addf_apply]
  congr 1
  exact colsum_apply (mulf (k1_pay3 g h agg) (k1_pay3 g h agg)) q

/-- The rows entered at the first point are zero. -/
theorem pay1_apply (q : Fin 64) : (k1_pay1 (F := Ideal) : S1x64.Idx → EReal) (ix2 0 q) = 0 := by
  unfold k1_pay1
  rw [broadcast_apply]
  exact Ideal.ofBits_zero_f32
theorem pay2_apply (q : Fin 64) : (k1_pay2 (F := Ideal) : S1x64.Idx → EReal) (ix2 0 q) = 0 := by
  unfold k1_pay2
  rw [broadcast_apply]
  exact Ideal.ofBits_zero_f32

section Blocks
variable (V : (c : Dev nD) → (b : Ref sig .tc) → Buf (Elt Ideal) ((c : Thread nD τ).loc b))

/-! ## The first output: the mixed tile, at every point -/

/-- After the body at any point the first output's staging buffer holds the mixed tile of the point's blocks. -/
theorem outs1_3 (c : Dev nD) (t : Fin cfg1.N) :
    (outsAt1 V c t.val t.isLt).1 = k1_pay3 (iblk1 V c 2 t) (iblk1 V c 0 t) (iblk1 V c 1 t) := by
  by_cases h0 : t.val % 10 = 0
  · rw [outsAt1_A V c t h0]; exact outA1_3 V c t _
  · rw [outsAt1_B V c t h0]; exact outB1_3 V c t _ _ _

/-- The region's three input arrays as it finds them: the weight, h, agg. -/
abbrev arrG (c : Dev nD) : S1x1.Idx → EReal := V c main_v51
abbrev arrH (c : Dev nD) : S100000x64.Idx → EReal := V c main_v31
abbrev arrAgg (c : Dev nD) : S100000x64.Idx → EReal := V c main_v44

/-- The mix of whole arrays, index by index. -/
abbrev mixG (g : S1x1.Idx → EReal) (h agg : S100000x64.Idx → EReal) : S100000x64.Idx → EReal :=
  fun i => g (ix2 0 0) * agg i + (Ideal.ofBits .f32 0x3F800000#32 - g (ix2 0 0)) * h i

/-- The windows' index maps, decided over the grid: the tiles of h and agg move with the output's tile, whose row
    block is the point itself; the weight's block never moves. -/
theorem idx_facts1 : ∀ t : Fin cfg1.N,
    win1_0.index t (0 : Fin 2) = win1_3.index t (0 : Fin 2) ∧ win1_0.index t (1 : Fin 2) = win1_3.index t (1 : Fin 2)
    ∧ win1_1.index t (0 : Fin 2) = win1_3.index t (0 : Fin 2) ∧ win1_1.index t (1 : Fin 2) = win1_3.index t (1 : Fin 2)
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back to the first output is block t of the mix of the three arrays. -/
theorem flushed1_3_eq (c : Dev nD) (t : Fin cfg1.N) :
    (dat1 V c).flushed 3 t = ((cfg1.win 3).blk t).view.read (Elt Ideal) (mixG (arrG V c) (arrH V c) (arrAgg V c)) := by
  show (cfg1.win 3).cut (grid1.coords t) ((dat1 V c).after 3 t) = _
  rw [after1_3, outs1_3]
  funext j
  refine (pay3_at _ _ _ j).trans ?_
  obtain ⟨e0, e1, e2, e3, e4, e5, e6, e7⟩ := idx_facts1 t
  show arrG V c (((cfg1.win 2).blk t).view.emb (ix2 0 0)) * arrAgg V c (((cfg1.win 1).blk t).view.emb j)
      + (Ideal.ofBits .f32 0x3F800000#32 - arrG V c (((cfg1.win 2).blk t).view.emb (ix2 0 0))) * arrH V c (((cfg1.win 0).blk t).view.emb j)
    = arrG V c (ix2 0 0) * arrAgg V c (((cfg1.win 3).blk t).view.emb j)
      + (Ideal.ofBits .f32 0x3F800000#32 - arrG V c (ix2 0 0)) * arrH V c (((cfg1.win 3).blk t).view.emb j)
  have h2 : ((cfg1.win 2).blk t).view.emb (ix2 0 0) = ix2 0 0 := by
    funext a; apply Fin.ext
    match a with
    | ⟨0, _⟩ => show win1_2.index t (0 : Fin 2) * 1 + 1 * 0 = 0; omega
    | ⟨1, _⟩ => show win1_2.index t (1 : Fin 2) * 1 + 1 * 0 = 0; omega
  have h0 : ((cfg1.win 0).blk t).view.emb j = ((cfg1.win 3).blk t).view.emb j := by
    funext a; apply Fin.ext
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 64 + 1 * (j 1).val = win1_3.index t (1 : Fin 2) * 64 + 1 * (j 1).val; omega
  have h1 : ((cfg1.win 1).blk t).view.emb j = ((cfg1.win 3).blk t).view.emb j := by
    funext a; apply Fin.ext
    match a with
    | ⟨0, _⟩ => show win1_1.index t (0 : Fin 2) * 10000 + 1 * (j 0).val = win1_3.index t (0 : Fin 2) * 10000 + 1 * (j 0).val; omega
    | ⟨1, _⟩ => show win1_1.index t (1 : Fin 2) * 64 + 1 * (j 1).val = win1_3.index t (1 : Fin 2) * 64 + 1 * (j 1).val; omega
  rw [h2, h0, h1]

/-- An index of the first output is in point t's block iff each coordinate is in the block's range on its axis. -/
theorem mem_blk1_3 (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v52_0).slice (win1_3.rect t)).set ↔ _
  rw [View.set_slice_whole, Rect.mem_set_unit]
  exact Iff.rfl

/-- Row r of the first output is in the block of point r / 10000, which writes it back. -/
theorem cover1_3 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 10 := N_1
  obtain ⟨t, ht⟩ : ∃ t : Fin cfg1.N, t.val = (i 0).val / 10000 := ⟨⟨(i 0).val / 10000, by rw [hN]; omega⟩, rfl⟩
  refine ⟨t, flush1_3 t, ?_⟩
  rw [mem_blk1_3]
  obtain ⟨e0, e1, e2, e3, e4, e5, e6, e7⟩ := idx_facts1 t
  intro a
  match a with
  | ⟨0, _⟩ =>
    show win1_3.index t (0 : Fin 2) * 10000 ≤ (i 0).val ∧ (i 0).val < win1_3.index t (0 : Fin 2) * 10000 + 10000
    rw [e6, ht]; omega
  | ⟨1, _⟩ =>
    show win1_3.index t (1 : Fin 2) * 64 ≤ (i 1).val ∧ (i 1).val < win1_3.index t (1 : Fin 2) * 64 + 64
    rw [e7]; omega

/-- So the first output array ends holding the mix of the three arrays as the region finds them. -/
theorem final1_3 (c : Dev nD) : (dat1 V c).arrAt 3 cfg1.N = mixG (arrG V c) (arrH V c) (arrAgg V c) :=
  (dat1 V c).arrAt_eq_of_cover 3 (mixG (arrG V c) (arrH V c) (arrAgg V c)) (fun t _ => flushed1_3_eq V c t) cover1_3

/-! ## The two rows: sums carried across the grid -/

/-- The mixed tile of point t at row r, column q is the mix of the arrays at row t·10000 + r. -/
theorem tile_at (c : Dev nD) (t : Fin cfg1.N) (r : Fin 10000) (q : Fin 64) (hr : t.val * 10000 + r.val < 100000) :
    (k1_pay3 (iblk1 V c 2 t) (iblk1 V c 0 t) (iblk1 V c 1 t) : S10000x64.Idx → EReal) (ix2 r q)
      = mixG (arrG V c) (arrH V c) (arrAgg V c) (ix2 ⟨t.val * 10000 + r.val, hr⟩ q) := by
  have e : (dat1 V c).flushed 3 t = k1_pay3 (iblk1 V c 2 t) (iblk1 V c 0 t) (iblk1 V c 1 t) := by
    show (cfg1.win 3).cut (grid1.coords t) ((dat1 V c).after 3 t) = _
    rw [after1_3, outs1_3]
    funext j
    rfl
  refine (congrFun e.symm (ix2 r q)).trans ?_
  refine (congrFun (flushed1_3_eq V c t) (ix2 r q)).trans ?_
  show mixG (arrG V c) (arrH V c) (arrAgg V c) (((cfg1.win 3).blk t).view.emb (ix2 r q)) = _
  refine congrArg _ ?_
  obtain ⟨e0, e1, e2, e3, e4, e5, e6, e7⟩ := idx_facts1 t
  funext a; apply Fin.ext
  match a with
  | ⟨0, _⟩ => show win1_3.index t (0 : Fin 2) * 10000 + 1 * r.val = t.val * 10000 + r.val; rw [e6]; omega
  | ⟨1, _⟩ => show win1_3.index t (1 : Fin 2) * 64 + 1 * q.val = q.val; rw [e7]; omega

/-- The sum of the mix down column q over the rows of tile k (zero past the grid). -/
def tileN (c : Dev nD) (q : Fin 64) (k : ℕ) : EReal :=
  if h : k < 10 then ∑ r : Fin 10000, mixG (arrG V c) (arrH V c) (arrAgg V c) (ix2 ⟨k * 10000 + r.val, by omega⟩ q) else 0

/-- The column sum of point t's mixed tile is that sum. -/
theorem tile_sum (c : Dev nD) (t : Fin cfg1.N) (q : Fin 64) :
    ∑ r : Fin 10000, (k1_pay3 (iblk1 V c 2 t) (iblk1 V c 0 t) (iblk1 V c 1 t) : S10000x64.Idx → EReal) (ix2 r q)
      = tileN V c q t.val := by
  have hN : t.val < 10 := lt_of_lt_of_eq t.isLt (show cfg1.N = 10 from N_1)
  unfold tileN
  rw [dif_pos hN]
  exact Finset.sum_congr rfl fun r _ => tile_at V c t r q (by have := r.isLt; omega)

/-- After point n the first row holds, at column q, the column sums of tiles 0 to n added in order. -/
theorem row4_inv (c : Dev nD) (q : Fin 64) : ∀ (n : ℕ) (hn : n < cfg1.N),
    ((outsAt1 V c n hn).2.1 : S1x64.Idx → EReal) (ix2 0 q) = ∑ k ∈ Finset.range (n + 1), tileN V c q k
  | 0, hn => by
    have e : (outsAt1 V c 0 hn).2.1 = k1_pay4 (iblk1 V c 2 ⟨0, hn⟩) (iblk1 V c 0 ⟨0, hn⟩) (iblk1 V c 1 ⟨0, hn⟩) (k1_pay1 (F := Ideal)) :=
      (congrArg (fun o => o.2.1) (outsAt1_A V c ⟨0, hn⟩ rfl)).trans (outA1_4 V c ⟨0, hn⟩ _)
    refine (congrFun e (ix2 0 q)).trans ?_
    refine (pay4_apply _ _ _ _ q).trans ?_
    rw [pay1_apply, zero_add, tile_sum V c ⟨0, hn⟩ q, Finset.sum_range_one]
  | n + 1, hn => by
    have hN : cfg1.N = 10 := N_1
    have hB : ¬(⟨n + 1, hn⟩ : Fin cfg1.N).val % 10 = 0 := by
      have : n + 1 < 10 := hN ▸ hn
      dsimp only; omega
    have e : (outsAt1 V c (n + 1) hn).2.1 = k1_pay4 (iblk1 V c 2 ⟨n + 1, hn⟩) (iblk1 V c 0 ⟨n + 1, hn⟩) (iblk1 V c 1 ⟨n + 1, hn⟩)
        (outsAt1 V c n (Nat.lt_of_succ_lt hn)).2.1 :=
      (congrArg (fun o => o.2.1) (outsAt1_B V c ⟨n + 1, hn⟩ hB)).trans (outB1_4 V c ⟨n + 1, hn⟩ _ _ _)
    refine (congrFun e (ix2 0 q)).trans ?_
    refine (pay4_apply _ _ _ _ q).trans ?_
    rw [row4_inv c q n (Nat.lt_of_succ_lt hn), tile_sum V c ⟨n + 1, hn⟩ q, Finset.sum_range_succ _ (n + 1)]

/-- The two rows' index maps never move. -/
theorem idx_facts1_rows : ∀ t : Fin cfg1.N, win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- The first row as a function of the arrays: at column q, the column sums of the ten tiles. -/
def rowG4 (c : Dev nD) : S1x64.Idx → EReal := fun i => ∑ k ∈ Finset.range 10, tileN V c (i 1) k

/-- What the last point writes back to row output 1 is the whole row of sums. -/
theorem flushed1_4_eq (c : Dev nD) (t : Fin cfg1.N) (hf : (cfg1.win 4).flush t = true) :
    (dat1 V c).flushed 4 t = ((cfg1.win 4).blk t).view.read (Elt Ideal) (rowG4 V c) := by
  have hN : t.val < 10 := lt_of_lt_of_eq t.isLt (show cfg1.N = 10 from N_1)
  have h9 : t.val = 9 := by have := (flush1_4 t).mp hf; omega
  show (cfg1.win 4).cut (grid1.coords t) ((dat1 V c).after 4 t) = _
  rw [after1_4]
  funext j
  obtain ⟨p, q, rfl⟩ : ∃ (p : Fin 1) (q : Fin 64), j = ix2 p q := ⟨j 0, j 1, eq_ix2 j⟩
  obtain rfl : p = 0 := Subsingleton.elim _ _
  show ((outsAt1 V c t.val t.isLt).2.1 : S1x64.Idx → EReal) (ix2 0 q) = rowG4 V c (((cfg1.win 4).blk t).view.emb (ix2 0 q))
  obtain ⟨e0, e1, e2, e3⟩ := idx_facts1_rows t
  have hemb : ((cfg1.win 4).blk t).view.emb (ix2 0 q) = ix2 0 q := by
    funext a; apply Fin.ext
    match a with
    | ⟨0, _⟩ => show win1_4.index t (0 : Fin 2) * 1 + 1 * 0 = 0; omega
    | ⟨1, _⟩ => show win1_4.index t (1 : Fin 2) * 64 + 1 * q.val = q.val; omega
  rw [hemb, row4_inv V c q t.val t.isLt, h9]
  rfl

theorem mem_blk1_4 (t : Fin cfg1.N) (i : S1x64.Idx) :
    i ∈ ((cfg1.win 4).blk t).view.set ↔ ∀ a : Fin 2, win1_4.index t a * S1x64.size a ≤ (i a).val
      ∧ (i a).val < win1_4.index t a * S1x64.size a + S1x64.size a := by
  show i ∈ ((View.whole main_v52_1).slice (win1_4.rect t)).set ↔ _
  rw [View.set_slice_whole, Rect.mem_set_unit]
  exact Iff.rfl

/-- The last point's block is the whole row. -/
theorem cover1_4 (i : S1x64.Idx) :
    ∃ t : Fin cfg1.N, (cfg1.win 4).flush t = true ∧ i ∈ ((cfg1.win 4).blk t).view.set := by
  have hi0 : (i 0).val < 1 := (i 0).isLt
  have hi1 : (i 1).val < 64 := (i 1).isLt
  have hN : cfg1.N = 10 := N_1
  obtain ⟨t, ht⟩ : ∃ t : Fin cfg1.N, t.val = 9 := ⟨⟨9, by rw [hN]; omega⟩, rfl⟩
  refine ⟨t, (flush1_4 t).mpr (by rw [ht]), ?_⟩
  rw [mem_blk1_4]
  obtain ⟨e0, e1, e2, e3⟩ := idx_facts1_rows t
  intro a
  match a with
  | ⟨0, _⟩ =>
    show win1_4.index t (0 : Fin 2) * 1 ≤ (i 0).val ∧ (i 0).val < win1_4.index t (0 : Fin 2) * 1 + 1
    omega
  | ⟨1, _⟩ =>
    show win1_4.index t (1 : Fin 2) * 64 ≤ (i 1).val ∧ (i 1).val < win1_4.index t (1 : Fin 2) * 64 + 64
    omega

theorem final1_4 (c : Dev nD) : (dat1 V c).arrAt 4 cfg1.N = rowG4 V c :=
  (dat1 V c).arrAt_eq_of_cover 4 (rowG4 V c) (flushed1_4_eq V c) cover1_4

/-- The sum of the mix's squares down column q over the rows of tile k (zero past the grid). -/
def sqN (c : Dev nD) (q : Fin 64) (k : ℕ) : EReal :=
  if h : k < 10 then ∑ r : Fin 10000, mixG (arrG V c) (arrH V c) (arrAgg V c) (ix2 ⟨k * 10000 + r.val, by omega⟩ q)
    * mixG (arrG V c) (arrH V c) (arrAgg V c) (ix2 ⟨k * 10000 + r.val, by omega⟩ q) else 0

theorem tile_sq_sum (c : Dev nD) (t : Fin cfg1.N) (q : Fin 64) :
    ∑ r : Fin 10000, (k1_pay3 (iblk1 V c 2 t) (iblk1 V c 0 t) (iblk1 V c 1 t) : S10000x64.Idx → EReal) (ix2 r q)
        * (k1_pay3 (iblk1 V c 2 t) (iblk1 V c 0 t) (iblk1 V c 1 t) : S10000x64.Idx → EReal) (ix2 r q)
      = sqN V c q t.val := by
  have hN : t.val < 10 := lt_of_lt_of_eq t.isLt (show cfg1.N = 10 from N_1)
  unfold sqN
  rw [dif_pos hN]
  exact Finset.sum_congr rfl fun r _ => by rw [tile_at V c t r q (by have := r.isLt; omega)]

/-- After point n the second row holds, at column q, the sums of squares of tiles 0 to n added in order. -/
theorem row5_inv (c : Dev nD) (q : Fin 64) : ∀ (n : ℕ) (hn : n < cfg1.N),
    ((outsAt1 V c n hn).2.2 : S1x64.Idx → EReal) (ix2 0 q) = ∑ k ∈ Finset.range (n + 1), sqN V c q k
  | 0, hn => by
    have e : (outsAt1 V c 0 hn).2.2 = k1_pay5 (iblk1 V c 2 ⟨0, hn⟩) (iblk1 V c 0 ⟨0, hn⟩) (iblk1 V c 1 ⟨0, hn⟩) (k1_pay2 (F := Ideal)) :=
      (congrArg (fun o => o.2.2) (outsAt1_A V c ⟨0, hn⟩ rfl)).trans (outA1_5 V c ⟨0, hn⟩ _)
    refine (congrFun e (ix2 0 q)).trans ?_
    refine (pay5_apply _ _ _ _ q).trans ?_
    rw [pay2_apply, zero_add, tile_sq_sum V c ⟨0, hn⟩ q, Finset.sum_range_one]
  | n + 1, hn => by
    have hN : cfg1.N = 10 := N_1
    have hB : ¬(⟨n + 1, hn⟩ : Fin cfg1.N).val % 10 = 0 := by
      have : n + 1 < 10 := hN ▸ hn
      dsimp only; omega
    have e : (outsAt1 V c (n + 1) hn).2.2 = k1_pay5 (iblk1 V c 2 ⟨n + 1, hn⟩) (iblk1 V c 0 ⟨n + 1, hn⟩) (iblk1 V c 1 ⟨n + 1, hn⟩)
        (outsAt1 V c n (Nat.lt_of_succ_lt hn)).2.2 :=
      (congrArg (fun o => o.2.2) (outsAt1_B V c ⟨n + 1, hn⟩ hB)).trans (outB1_5 V c ⟨n + 1, hn⟩ _ _ _)
    refine (congrFun e (ix2 0 q)).trans ?_
    refine (pay5_apply _ _ _ _ q).trans ?_
    rw [row5_inv c q n (Nat.lt_of_succ_lt hn), tile_sq_sum V c ⟨n + 1, hn⟩ q, Finset.sum_range_succ _ (n + 1)]

/-- The second row as a function of the arrays: at column q, the sums of squares of the ten tiles. -/
def rowG5 (c : Dev nD) : S1x64.Idx → EReal := fun i => ∑ k ∈ Finset.range 10, sqN V c (i 1) k

/-- What the last point writes back to row output 2 is the whole row of sums. -/
theorem flushed1_5_eq (c : Dev nD) (t : Fin cfg1.N) (hf : (cfg1.win 5).flush t = true) :
    (dat1 V c).flushed 5 t = ((cfg1.win 5).blk t).view.read (Elt Ideal) (rowG5 V c) := by
  have hN : t.val < 10 := lt_of_lt_of_eq t.isLt (show cfg1.N = 10 from N_1)
  have h9 : t.val = 9 := by have := (flush1_5 t).mp hf; omega
  show (cfg1.win 5).cut (grid1.coords t) ((dat1 V c).after 5 t) = _
  rw [after1_5]
  funext j
  obtain ⟨p, q, rfl⟩ : ∃ (p : Fin 1) (q : Fin 64), j = ix2 p q := ⟨j 0, j 1, eq_ix2 j⟩
  obtain rfl : p = 0 := Subsingleton.elim _ _
  show ((outsAt1 V c t.val t.isLt).2.2 : S1x64.Idx → EReal) (ix2 0 q) = rowG5 V c (((cfg1.win 5).blk t).view.emb (ix2 0 q))
  obtain ⟨e0, e1, e2, e3⟩ := idx_facts1_rows t
  have hemb : ((cfg1.win 5).blk t).view.emb (ix2 0 q) = ix2 0 q := by
    funext a; apply Fin.ext
    match a with
    | ⟨0, _⟩ => show win1_5.index t (0 : Fin 2) * 1 + 1 * 0 = 0; omega
    | ⟨1, _⟩ => show win1_5.index t (1 : Fin 2) * 64 + 1 * q.val = q.val; omega
  rw [hemb, row5_inv V c q t.val t.isLt, h9]
  rfl

theorem mem_blk1_5 (t : Fin cfg1.N) (i : S1x64.Idx) :
    i ∈ ((cfg1.win 5).blk t).view.set ↔ ∀ a : Fin 2, win1_5.index t a * S1x64.size a ≤ (i a).val
      ∧ (i a).val < win1_5.index t a * S1x64.size a + S1x64.size a := by
  show i ∈ ((View.whole main_v52_2).slice (win1_5.rect t)).set ↔ _
  rw [View.set_slice_whole, Rect.mem_set_unit]
  exact Iff.rfl

/-- The last point's block is the whole row. -/
theorem cover1_5 (i : S1x64.Idx) :
    ∃ t : Fin cfg1.N, (cfg1.win 5).flush t = true ∧ i ∈ ((cfg1.win 5).blk t).view.set := by
  have hi0 : (i 0).val < 1 := (i 0).isLt
  have hi1 : (i 1).val < 64 := (i 1).isLt
  have hN : cfg1.N = 10 := N_1
  obtain ⟨t, ht⟩ : ∃ t : Fin cfg1.N, t.val = 9 := ⟨⟨9, by rw [hN]; omega⟩, rfl⟩
  refine ⟨t, (flush1_5 t).mpr (by rw [ht]), ?_⟩
  rw [mem_blk1_5]
  obtain ⟨e0, e1, e2, e3⟩ := idx_facts1_rows t
  intro a
  match a with
  | ⟨0, _⟩ =>
    show win1_5.index t (0 : Fin 2) * 1 ≤ (i 0).val ∧ (i 0).val < win1_5.index t (0 : Fin 2) * 1 + 1
    omega
  | ⟨1, _⟩ =>
    show win1_5.index t (1 : Fin 2) * 64 ≤ (i 1).val ∧ (i 1).val < win1_5.index t (1 : Fin 2) * 64 + 64
    omega

theorem final1_5 (c : Dev nD) : (dat1 V c).arrAt 5 cfg1.N = rowG5 V c :=
  (dat1 V c).arrAt_eq_of_cover 5 (rowG5 V c) (flushed1_5_eq V c) cover1_5

end Blocks

/-! ## The region's outputs, as functions of its entry contents -/

/-- The mixed value at row p, column q of the arrays the region finds. -/
abbrev xm1 (c : Dev nD) (p : Fin 100000) (q : Fin 64) : EReal :=
  mixG (W3 (F := Ideal) m c main_v51) (W3 (F := Ideal) m c main_v31) (W3 (F := Ideal) m c main_v44) (ix2 p q)

/-- The first output holds the mixed value at every row and column. -/
theorem O1_0_eq (c : Dev nD) (p : Fin 100000) (q : Fin 64) :
    (O1_0 (F := Ideal) m c : S100000x64.Idx → EReal) (ix2 p q) = xm1 m c p q := by
  unfold O1_0
  rw [final1_3 (E3 m) c]

/-- The first row holds, at column q, the sum of the mixed value over all 100000 rows. -/
theorem O1_1_eq (c : Dev nD) (q : Fin 64) :
    (O1_1 (F := Ideal) m c : S1x64.Idx → EReal) (ix2 0 q)
      = ∑ t : Fin 10, ∑ r : Fin 10000, xm1 m c ⟨t.val * 10000 + r.val, by omega⟩ q := by
  unfold O1_1
  rw [final1_4 (E3 m) c]
  show ∑ k ∈ Finset.range 10, tileN (E3 m) c q k = _
  rw [← Fin.sum_univ_eq_sum_range (fun k => tileN (E3 m) c q k) 10]
  refine Finset.sum_congr rfl fun t _ => ?_
  unfold tileN
  rw [dif_pos t.isLt]

/-- The second row holds, at column q, the sum of the mixed value's square over all 100000 rows. -/
theorem O1_2_eq (c : Dev nD) (q : Fin 64) :
    (O1_2 (F := Ideal) m c : S1x64.Idx → EReal) (ix2 0 q)
      = ∑ t : Fin 10, ∑ r : Fin 10000, xm1 m c ⟨t.val * 10000 + r.val, by omega⟩ q * xm1 m c ⟨t.val * 10000 + r.val, by omega⟩ q := by
  unfold O1_2
  rw [final1_5 (E3 m) c]
  show ∑ k ∈ Finset.range 10, sqN (E3 m) c q k = _
  rw [← Fin.sum_univ_eq_sum_range (fun k => sqN (E3 m) c q k) 10]
  refine Finset.sum_congr rfl fun t _ => ?_
  unfold sqN
  rw [dif_pos t.isLt]

end Cert.KernelIdeal.Body

end
-- ==== Proof.KIStageMix1.lean ====
/-
  The mix stage of relation 0, layer 1, in both programs.

  The kernel program computes xm = g·agg + (1 − g)·h tile by tile in its second region, with the mixing weight g a
  1×1 array; the reference computes it over the whole arrays at the start of its second window, with the weight a
  scalar spread over the array (once for g·agg, before the window, and once for 1 − g). Both are the one function of
  (weight, h, agg), entry by entry: so when the two programs hold the same h, the same agg and the same weight on
  entering the stage, what the second region leaves in its first output array is the reference's array.
-/
import proofs.«140713_j1864015806535_2_alg».proof.Proof.KIValMix1
import proofs.«140713_j1864015806535_2_alg».proof.Proof.RefFrame
import proofs.«140713_j1864015806535_2_alg».proof.Proof.LibHostBroadcast
import Idealize.ShloMosaic.Lib.StableHlo.Run
import Idealize.ShloMosaic.Lib.ValueIdx

set_option maxRecDepth 65536

noncomputable section

namespace Cert.Proof.Value
open Idealize.ShloMosaic Idealize.ShloMosaic.ValueIdx

/-- The mix as the reference computes it: the spread weight times agg, plus one minus the weight, spread, times h. -/
def refMix (gs : (⟨2, ![100000, 64]⟩ : Shape).Idx → EReal) (agg : (⟨2, ![100000, 64]⟩ : Shape).Idx → EReal)
    (g : (⟨0, ![]⟩ : Shape).Idx → EReal) (h : (⟨2, ![100000, 64]⟩ : Shape).Idx → EReal)
    (hb : (⟨0, ![]⟩ : Shape).BroadcastsInDim ⟨2, ![100000, 64]⟩ (![] : Fin 0 → Fin 2)) :
    (⟨2, ![100000, 64]⟩ : Shape).Idx → EReal :=
  addf (F := Ideal) (φ := .f32) (mulf (F := Ideal) (φ := .f32) gs agg)
    (mulf (F := Ideal) (φ := .f32)
      (broadcastInDim ⟨2, ![100000, 64]⟩ ![] hb (subf (F := Ideal) (φ := .f32) (constant (F := Ideal) ⟨0, ![]⟩ .f32 0x3F800000#32) g)) h)

/-- At row p, column q. -/
theorem refMix_apply (gs agg : (⟨2, ![100000, 64]⟩ : Shape).Idx → EReal) (g : (⟨0, ![]⟩ : Shape).Idx → EReal)
    (h : (⟨2, ![100000, 64]⟩ : Shape).Idx → EReal)
    (hb : (⟨0, ![]⟩ : Shape).BroadcastsInDim ⟨2, ![100000, 64]⟩ (![] : Fin 0 → Fin 2)) (p : Fin 100000) (q : Fin 64) :
    refMix gs agg g h hb (ix2 p q)
      = gs (ix2 p q) * agg (ix2 p q) + (Ideal.ofBits .f32 0x3F800000#32 - g ix0) * h (ix2 p q) := by
  unfold refMix
  rw [addf_apply, mulf_apply, mulf_apply, Cert.LibHostBroadcast.scalar_to_any, subf_apply, constant_apply]
end Cert.Proof.Value

namespace Cert.ReferenceIdeal.RefRun
open Cert.ReferenceIdeal Cert.ReferenceIdeal.Gen Idealize.ShloMosaic Idealize.ShloMosaic.TcCoe Idealize.SL.Sem Idealize.ShloMosaic.StableHlo

set_option maxHeartbeats 2000000 in
/-- The reference's mix of relation 0, layer 1, over the buffers as its second window finds them. -/
theorem ref_mix1 (V : Valuation τ sig (Elt Ideal)) :
    (after (ops1 (F := Ideal)) V (main_v54 : DevRef τ sig) : S100000x64.Idx → EReal)
      = Cert.Proof.Value.refMix (V (main_v49 : DevRef τ sig)) (V (main_v48 : DevRef τ sig)) (V (main_v9 : DevRef τ sig))
          (V (main_v13 : DevRef τ sig)) bcast_S_S100000x64 := by
  dsimp only [ops1]
  after_results
  rfl
end Cert.ReferenceIdeal.RefRun

namespace Cert.Proof.Value
open Idealize.ShloMosaic Idealize.ShloMosaic.TcCoe Idealize.ShloMosaic.ValueIdx Idealize.SL.Sem Idealize.ShloMosaic.StableHlo

/-- THE MIX STAGE, relation 0, layer 1: the kernel program's mixed array (what region 1 leaves in its first output) is
    the reference's, when on entering the stage the reference holds the kernel program's h and agg, its scalar weight
    is the kernel program's 1×1 weight, and its spread weight is that scalar spread. -/
theorem stageMix1_rel0
    (m : (ℓ : Loc Cert.KernelIdeal.nD Cert.KernelIdeal.τ Cert.KernelIdeal.sig) → Buf (Elt Ideal) ℓ)
    (R : Valuation Cert.ReferenceIdeal.τ Cert.ReferenceIdeal.sig (Elt Ideal))
    (c : Dev Cert.KernelIdeal.nD)
    (h13 : (R (Cert.ReferenceIdeal.main_v13 : DevRef Cert.ReferenceIdeal.τ Cert.ReferenceIdeal.sig) : (⟨2, ![100000, 64]⟩ : Shape).Idx → EReal)
      = Cert.KernelIdeal.Body.W3 (F := Ideal) m c Cert.KernelIdeal.main_v31)
    (h48 : (R (Cert.ReferenceIdeal.main_v48 : DevRef Cert.ReferenceIdeal.τ Cert.ReferenceIdeal.sig) : (⟨2, ![100000, 64]⟩ : Shape).Idx → EReal)
      = Cert.KernelIdeal.Body.W3 (F := Ideal) m c Cert.KernelIdeal.main_v44)
    (h9 : (R (Cert.ReferenceIdeal.main_v9 : DevRef Cert.ReferenceIdeal.τ Cert.ReferenceIdeal.sig) : (⟨0, ![]⟩ : Shape).Idx → EReal) ix0
      = (Cert.KernelIdeal.Body.W3 (F := Ideal) m c Cert.KernelIdeal.main_v51 : (⟨2, ![1, 1]⟩ : Shape).Idx → EReal) (ix2 0 0))
    (h49 : (R (Cert.ReferenceIdeal.main_v49 : DevRef Cert.ReferenceIdeal.τ Cert.ReferenceIdeal.sig) : (⟨2, ![100000, 64]⟩ : Shape).Idx → EReal)
      = broadcastInDim ⟨2, ![100000, 64]⟩ ![] Cert.ReferenceIdeal.Gen.bcast_S_S100000x64
          (R (Cert.ReferenceIdeal.main_v9 : DevRef Cert.ReferenceIdeal.τ Cert.ReferenceIdeal.sig))) :
    (after (Cert.ReferenceIdeal.RefRun.ops1 (F := Ideal)) R (Cert.ReferenceIdeal.main_v54 : DevRef Cert.ReferenceIdeal.τ Cert.ReferenceIdeal.sig) : (⟨2, ![100000, 64]⟩ : Shape).Idx → EReal)
      = (Cert.KernelIdeal.Body.O1_0 (F := Ideal) m c : (⟨2, ![100000, 64]⟩ : Shape).Idx → EReal) := by
  rw [Cert.ReferenceIdeal.RefRun.ref_mix1]
  funext i
  obtain ⟨p, q, rfl⟩ : ∃ (p : Fin 100000) (q : Fin 64), i = ix2 p q := ⟨i 0, i 1, eq_ix2 i⟩
  refine (refMix_apply _ _ _ _ _ p q).trans ?_
  refine Eq.trans ?_ (Cert.KernelIdeal.Body.O1_0_eq m c p q).symm
  rw [h49, Cert.LibHostBroadcast.scalar_to_any, h9, h48, h13]

end Cert.Proof.Value

end
-- ==== Proof.KIStageMix1Glue.lean ====
/-
  The mix stage of relation 0, layer 1, from the arguments.

  Both programs take the mixing weight from the same place: entry 0 of the mixing-weights argument, as a scalar. The
  reference spreads that scalar over the array; the kernel program views it as a 1×1 array for its second region. So
  when the two memories agree on that argument, the reference's scalar is the kernel program's 1×1 weight, and the
  join of the mix stage needs only that the two programs hold the same h and the same agg on entering it.
-/
import proofs.«140713_j1864015806535_2_alg».proof.Proof.KIStageMix1

set_option maxRecDepth 65536

noncomputable section

namespace Cert.Proof.Value
open Idealize.ShloMosaic
/-- The mixing weight of a relation's first layer as a function of the mixing-weights argument: the relation's entry,
    as a scalar. -/
def gOf (a : (⟨1, ![3]⟩ : Shape).Idx → EReal) (hs : (⟨1, ![3]⟩ : Shape).Slices ![0] ⟨1, ![1]⟩)
    (hc : (⟨1, ![1]⟩ : Shape).ShapeCasts ⟨0, ![]⟩) : (⟨0, ![]⟩ : Shape).Idx → EReal :=
  shapeCast ⟨0, ![]⟩ (extractStridedSlice ⟨1, ![1]⟩ ![0] a hs) hc
end Cert.Proof.Value

namespace Cert.ReferenceIdeal.RefRun
open Cert.ReferenceIdeal Cert.ReferenceIdeal.Gen Idealize.ShloMosaic Idealize.ShloMosaic.TcCoe Idealize.SL.Sem Idealize.ShloMosaic.StableHlo

set_option maxHeartbeats 2000000 in
/-- The reference's scalar mixing weight of relation 0, layer 1. -/
theorem ref_g1 (V : Valuation τ sig (Elt Ideal)) :
    (after (ops0 (F := Ideal)) V (main_v9 : DevRef τ sig) : S_.Idx → EReal)
      = Cert.Proof.Value.gOf (V (main_arg7 : DevRef τ sig)) slices_S3_S1_0 shapeCasts_S1_S_ := by
  dsimp only [ops0]
  after_results
  rfl

set_option maxHeartbeats 2000000 in
/-- The reference's spread weight is that scalar spread over the array. -/
theorem ref_gs1 (V : Valuation τ sig (Elt Ideal)) :
    (after (ops0 (F := Ideal)) V (main_v49 : DevRef τ sig) : S100000x64.Idx → EReal)
      = broadcastInDim S100000x64 ![] bcast_S_S100000x64
          (Cert.Proof.Value.gOf (V (main_arg7 : DevRef τ sig)) slices_S3_S1_0 shapeCasts_S1_S_) := by
  dsimp only [ops0]
  after_results
  rfl
end Cert.ReferenceIdeal.RefRun

namespace Cert.KernelIdeal.Body
open Cert.KernelIdeal Cert.KernelIdeal.Gen Idealize.ShloMosaic Idealize.ShloMosaic.TcCoe Idealize.SL.Sem Idealize.ShloMosaic.StableHlo
variable (m : (ℓ : Loc nD τ sig) → Buf (Elt Ideal) ℓ)

/-- The kernel program reads the mixing-weights argument unchanged on entering its second host stretch. -/
theorem ker_arg7 (c : Dev nD) : W2 (F := Ideal) m c main_arg7 = m ((c.tc : Thread nD τ).loc main_arg7) := by
  unfold W2
  rw [Function.update_of_ne (StableHlo.devRef_ne_of_ne (by decide : main_arg7 ≠ main_v31) : (Proc.devRef .tc main_arg7 : DevRef τ sig) ≠ Proc.devRef .tc main_v31)]
  exact StableHlo.after_of_writes_sub hostOps0 _ GenP.hostOps0_writes (by decide)

set_option maxHeartbeats 4000000 in
/-- The kernel program's 1×1 mixing weight of relation 0, layer 1: the same scalar, as a 1×1 array. -/
theorem ker_g1 (c : Dev nD) :
    (W3 (F := Ideal) m c main_v51 : S1x1.Idx → EReal)
      = shapeCast S1x1 (Cert.Proof.Value.gOf (m ((c.tc : Thread nD τ).loc main_arg7)) slices_S3_S1_0 shapeCasts_S1_S_) shapeCasts_S_S1x1 := by
  rw [← ker_arg7 m c]
  dsimp only [W3, hostOps1]
  after_results
  rfl

/-- On entering the second region h is what the first region left. -/
theorem ker_h1 (c : Dev nD) : W3 (F := Ideal) m c main_v31 = O0_0 (F := Ideal) m c := by
  refine (StableHlo.after_of_writes_sub hostOps1 _ GenP.hostOps1_writes (by decide)).trans ?_
  unfold W2
  simp only [Function.update_self]
end Cert.KernelIdeal.Body

namespace Cert.Proof.Value
open Idealize.ShloMosaic Idealize.ShloMosaic.TcCoe Idealize.ShloMosaic.ValueIdx Idealize.SL.Sem Idealize.ShloMosaic.StableHlo

/-- After the reference's first window its scalar weight is the kernel program's 1×1 weight, when the two memories
    agree on the mixing-weights argument. -/
theorem mix1_weight
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    ((after (Cert.ReferenceIdeal.RefRun.ops0 (F := Ideal)) (launchContents m' c)) (Cert.ReferenceIdeal.main_v9 : DevRef Cert.ReferenceIdeal.τ Cert.ReferenceIdeal.sig) : (⟨0, ![]⟩ : Shape).Idx → EReal) ix0
      = (Cert.KernelIdeal.Body.W3 (F := Ideal) m c Cert.KernelIdeal.main_v51 : (⟨2, ![1, 1]⟩ : Shape).Idx → EReal) (ix2 0 0) := by
  rw [Cert.ReferenceIdeal.RefRun.ref_g1, Cert.KernelIdeal.Body.ker_g1]
  have e7 : launchContents m' c (Proc.devRef .tc Cert.ReferenceIdeal.main_arg7) = m ((c.tc : Thread Cert.KernelIdeal.nD Cert.KernelIdeal.τ).loc Cert.KernelIdeal.main_arg7) := h7
  rw [e7]
  exact (shapeCast_apply _ _ (ix2 0 0) ix0 rfl).symm

/-- After the reference's first window its spread weight is its scalar weight spread over the array. -/
theorem mix1_spread
    (m' : (ℓ : Loc Cert.ReferenceIdeal.nD Cert.ReferenceIdeal.τ Cert.ReferenceIdeal.sig) → Buf (Elt Ideal) ℓ)
    (c : Dev Cert.KernelIdeal.nD) :
    ((after (Cert.ReferenceIdeal.RefRun.ops0 (F := Ideal)) (launchContents m' c)) (Cert.ReferenceIdeal.main_v49 : DevRef Cert.ReferenceIdeal.τ Cert.ReferenceIdeal.sig) : (⟨2, ![100000, 64]⟩ : Shape).Idx → EReal)
      = broadcastInDim ⟨2, ![100000, 64]⟩ ![] Cert.ReferenceIdeal.Gen.bcast_S_S100000x64 ((after (Cert.ReferenceIdeal.RefRun.ops0 (F := Ideal)) (launchContents m' c)) (Cert.ReferenceIdeal.main_v9 : DevRef Cert.ReferenceIdeal.τ Cert.ReferenceIdeal.sig)) := by
  rw [Cert.ReferenceIdeal.RefRun.ref_gs1, Cert.ReferenceIdeal.RefRun.ref_g1]

/-- THE MIX STAGE, relation 0, layer 1, from the arguments: when the two memories agree on the mixing-weights
    argument and, after the reference's first window, the reference holds the kernel program's h (what the first region
    left) and agg, the kernel program's mixed array is the reference's. -/
theorem mix1_rel0
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (hh : ((after (Cert.ReferenceIdeal.RefRun.ops0 (F := Ideal)) (launchContents m' c)) (Cert.ReferenceIdeal.main_v13 : DevRef Cert.ReferenceIdeal.τ Cert.ReferenceIdeal.sig) : (⟨2, ![100000, 64]⟩ : Shape).Idx → EReal) = (Cert.KernelIdeal.Body.O0_0 (F := Ideal) m c : (⟨2, ![100000, 64]⟩ : Shape).Idx → EReal))
    (hagg : ((after (Cert.ReferenceIdeal.RefRun.ops0 (F := Ideal)) (launchContents m' c)) (Cert.ReferenceIdeal.main_v48 : DevRef Cert.ReferenceIdeal.τ Cert.ReferenceIdeal.sig) : (⟨2, ![100000, 64]⟩ : Shape).Idx → EReal) = Cert.KernelIdeal.Body.W3 (F := Ideal) m c Cert.KernelIdeal.main_v44) :
    (after (Cert.ReferenceIdeal.RefRun.ops1 (F := Ideal)) (after (Cert.ReferenceIdeal.RefRun.ops0 (F := Ideal)) (launchContents m' c)) (Cert.ReferenceIdeal.main_v54 : DevRef Cert.ReferenceIdeal.τ Cert.ReferenceIdeal.sig) : (⟨2, ![100000, 64]⟩ : Shape).Idx → EReal)
      = (Cert.KernelIdeal.Body.O1_0 (F := Ideal) m c : (⟨2, ![100000, 64]⟩ : Shape).Idx → EReal) :=
  stageMix1_rel0 m (after (Cert.ReferenceIdeal.RefRun.ops0 (F := Ideal)) (launchContents m' c)) c (hh.trans (Cert.KernelIdeal.Body.ker_h1 m c).symm) hagg (mix1_weight m m' c h7) (mix1_spread m' c)

end Cert.Proof.Value

end
-- ==== Proof.KIChainRel0.lean ====
/-
  Relation 0, layer 1, as far as the mix array: when the two memories agree on the node features, the edges, the first
  layer's weights and biases and the mixing weights, the mix array the kernel program's second region leaves is the
  reference's. It is the three stage lemmas in a row: the dense layers agree (Proof/KIStage1.lean), so the aggregated
  arrays agree (Proof/KIStageAgg0.lean), so the mixes agree (Proof/KIStageMix1Glue.lean).
-/
import proofs.«140713_j1864015806535_2_alg».proof.Proof.KIStage1
import proofs.«140713_j1864015806535_2_alg».proof.Proof.KIStageAgg0
import proofs.«140713_j1864015806535_2_alg».proof.Proof.KIStageMix1Glue

noncomputable section

namespace Cert.Proof.Value

open Idealize.ShloMosaic Idealize.ShloMosaic.TcCoe Idealize.SL.Sem Idealize.ShloMosaic.StableHlo

theorem xm1_rel0
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    (after (Cert.ReferenceIdeal.RefRun.ops1 (F := Ideal)) (after (Cert.ReferenceIdeal.RefRun.ops0 (F := Ideal)) (launchContents m' c))
        (Cert.ReferenceIdeal.main_v54 : DevRef Cert.ReferenceIdeal.τ Cert.ReferenceIdeal.sig) : (⟨2, ![100000, 64]⟩ : Shape).Idx → EReal)
      = (Cert.KernelIdeal.Body.O1_0 (F := Ideal) m c : (⟨2, ![100000, 64]⟩ : Shape).Idx → EReal) :=
  mix1_rel0 m m' c h7 (stage1_rel0 m m' c h0 h3 h4) (stageAgg_rel0 m m' c h1 (stage1_rel0 m m' c h0 h3 h4))

end Cert.Proof.Value

end
-- ==== Proof.KIValBn2.lean ====
/-
  Region 2 normalises a 100000×64 array tile by tile: at each entry (p, q) it takes x(p, q), subtracts the mean row at q,
  multiplies by the reciprocal square root of the variance row at q cut off below at 0 and shifted by a small constant,
  multiplies by the scale row at q, adds the bias row at q, and cuts the result off below at 0. The four rows are the same
  at every tile, and the ten tiles of 10000 rows fill the array, so the array the region leaves is that one function of the
  region's entry contents, index by index.
-/
import proofs.«140713_j1864015806535_2_alg».proof.Proof.KIFrameBase
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Body

open Cert.KernelIdeal Cert.KernelIdeal.Gen Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- The zero offsets of a whole-buffer rectangle, however spelt. -/
theorem zeroOff2 : (![0, 0] : Fin 2 → Nat) = fun _ => 0 := funext fun a => by fin_cases a <;> rfl

/-- The reciprocal square root of a vector reads elementwise. -/
theorem rsqrt_at {s : Shape} {φ : FTy} (a : FVec Ideal s φ) (i : s.Idx) : rsqrt a i = Ideal.rsqrt (a i) := rfl

/-- The row index (0, q) under an index (p, q) of the array. -/
abbrev rowOf2 (i : S100000x64.Idx) : S1x64.Idx := ix2 (0 : Fin 1) (⟨(i 1).val, idx2_lt1 i⟩ : Fin 64)

/-- What the region leaves, as one function of the array it normalises and of the four rows: at (p, q) the entry less the
    mean at q, times the reciprocal square root of the variance at q cut off below at 0 plus the small constant, times the
    scale at q, plus the bias at q, cut off below at 0. -/
def bnRelu2 (X : S100000x64.Idx → EReal) (mean var scale bias : S1x64.Idx → EReal) : S100000x64.Idx → EReal :=
  fun i => max ((((X i - mean (rowOf2 i)) * Ideal.rsqrt (max (var (rowOf2 i)) 0 + Ideal.ofBits .f32 0x3727C5AC#32))
              * scale (rowOf2 i) + bias (rowOf2 i))) 0

/-- That function at explicit coordinates. -/
theorem bnRelu2_apply (X : S100000x64.Idx → EReal) (mean var scale bias : S1x64.Idx → EReal) (p : Fin 100000) (q : Fin 64) :
    bnRelu2 X mean var scale bias (ix2 p q)
      = max ((((X (ix2 p q) - mean (ix2 0 q)) * Ideal.rsqrt (max (var (ix2 0 q)) 0 + Ideal.ofBits .f32 0x3727C5AC#32))
              * scale (ix2 0 q) + bias (ix2 0 q))) 0 := rfl

/-- The body's arithmetic at entry (p, q) of a tile: the rows are read at (0, q). -/
theorem bnPay2_apply (x : Vec Ideal S10000x64 .f32) (mean var scale bias : Vec Ideal S1x64 .f32) (p : Fin 10000) (q : Fin 64) :
    (k2_pay1 x mean var scale bias : S10000x64.Idx → EReal) (ix2 p q)
      = max ((((x (ix2 p q) - mean (ix2 0 q)) * Ideal.rsqrt (max (var (ix2 0 q)) 0 + Ideal.ofBits .f32 0x3727C5AC#32))
              * scale (ix2 0 q) + bias (ix2 0 q))) 0 := by
  unfold k2_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply,
    rsqrt_at, addf_apply, maximumf_apply, broadcast_apply, broadcast_apply]
  simp only [Ideal.ofBits_def, Ideal.ofBits_zero_f32]

/-- The printed index maps over the grid: the array's window and the output's sit at block (t, 0), the four rows' at (0, 0). -/
theorem idx_facts2 : ∀ t : Fin cfg2.N, win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- Entry (p, q) of point t's block of the array read is the array's entry (t·10000 + p, q). -/
theorem emb2_0 (t : Fin cfg2.N) (p : Fin 10000) (q : Fin 64) (P : Fin 100000) (hP : P.val = t.val * 10000 + p.val) :
    ((cfg2.win 0).blk t).view.emb (ix2 p q) = ix2 P q := by
  obtain ⟨e0, e1, -⟩ := idx_facts2 t
  funext a; apply Fin.ext
  match a with
  | ⟨0, _⟩ => show win2_0.index t (0 : Fin 2) * 10000 + 1 * p.val = P.val; rw [e0, hP]; omega
  | ⟨1, _⟩ => show win2_0.index t (1 : Fin 2) * 64 + 1 * q.val = q.val; rw [e1]; omega

/-- The same for the output's block. -/
theorem emb2_5 (t : Fin cfg2.N) (p : Fin 10000) (q : Fin 64) (P : Fin 100000) (hP : P.val = t.val * 10000 + p.val) :
    ((cfg2.win 5).blk t).view.emb (ix2 p q) = ix2 P q := by
  obtain ⟨-, -, e0, e1, -⟩ := idx_facts2 t
  funext a; apply Fin.ext
  match a with
  | ⟨0, _⟩ => show win2_5.index t (0 : Fin 2) * 10000 + 1 * p.val = P.val; rw [e0, hP]; omega
  | ⟨1, _⟩ => show win2_5.index t (1 : Fin 2) * 64 + 1 * q.val = q.val; rw [e1]; omega

/-- Each row's block is the row itself at every point. -/
theorem emb2_1 (t : Fin cfg2.N) (q : Fin 64) : ((cfg2.win 1).blk t).view.emb (ix2 (0 : Fin 1) q) = ix2 (0 : Fin 1) q := by
  obtain ⟨-, -, -, -, e0, e1, -⟩ := idx_facts2 t
  funext a; apply Fin.ext
  match a with
  | ⟨0, _⟩ => show win2_1.index t (0 : Fin 2) * 1 + 1 * 0 = 0; rw [e0]
  | ⟨1, _⟩ => show win2_1.index t (1 : Fin 2) * 64 + 1 * q.val = q.val; rw [e1]; omega
theorem emb2_2 (t : Fin cfg2.N) (q : Fin 64) : ((cfg2.win 2).blk t).view.emb (ix2 (0 : Fin 1) q) = ix2 (0 : Fin 1) q := by
  obtain ⟨-, -, -, -, -, -, e0, e1, -⟩ := idx_facts2 t
  funext a; apply Fin.ext
  match a with
  | ⟨0, _⟩ => show win2_2.index t (0 : Fin 2) * 1 + 1 * 0 = 0; rw [e0]
  | ⟨1, _⟩ => show win2_2.index t (1 : Fin 2) * 64 + 1 * q.val = q.val; rw [e1]; omega
theorem emb2_3 (t : Fin cfg2.N) (q : Fin 64) : ((cfg2.win 3).blk t).view.emb (ix2 (0 : Fin 1) q) = ix2 (0 : Fin 1) q := by
  obtain ⟨-, -, -, -, -, -, -, -, e0, e1, -⟩ := idx_facts2 t
  funext a; apply Fin.ext
  match a with
  | ⟨0, _⟩ => show win2_3.index t (0 : Fin 2) * 1 + 1 * 0 = 0; rw [e0]
  | ⟨1, _⟩ => show win2_3.index t (1 : Fin 2) * 64 + 1 * q.val = q.val; rw [e1]; omega
theorem emb2_4 (t : Fin cfg2.N) (q : Fin 64) : ((cfg2.win 4).blk t).view.emb (ix2 (0 : Fin 1) q) = ix2 (0 : Fin 1) q := by
  obtain ⟨-, -, -, -, -, -, -, -, -, -, e0, e1⟩ := idx_facts2 t
  funext a; apply Fin.ext
  match a with
  | ⟨0, _⟩ => show win2_4.index t (0 : Fin 2) * 1 + 1 * 0 = 0; rw [e0]
  | ⟨1, _⟩ => show win2_4.index t (1 : Fin 2) * 64 + 1 * q.val = q.val; rw [e1]; omega

variable (V : (c : Dev nD) → (b : Ref sig .tc) → Buf (Elt Ideal) ((c : Thread nD τ).loc b))

/-- Point t's block of the array read, at (p, q): the array at (t·10000 + p, q). -/
theorem iblk2_0_at (c : Dev nD) (t : Fin cfg2.N) (p : Fin 10000) (q : Fin 64) (P : Fin 100000) (hP : P.val = t.val * 10000 + p.val) :
    (iblk2 V c 0 t : S10000x64.Idx → EReal) (ix2 p q) = (V c (Pipeline.arrRef spec2 0) : S100000x64.Idx → EReal) (ix2 P q) := by
  unfold iblk2
  rw [View.read_apply, emb2_0 t p q P hP]
  rfl
/-- Each row's block at (0, q): the row at (0, q). -/
theorem iblk2_1_at (c : Dev nD) (t : Fin cfg2.N) (q : Fin 64) :
    (iblk2 V c 1 t : S1x64.Idx → EReal) (ix2 0 q) = (V c (Pipeline.arrRef spec2 1) : S1x64.Idx → EReal) (ix2 0 q) := by
  unfold iblk2
  rw [View.read_apply, emb2_1 t q]
  rfl
theorem iblk2_2_at (c : Dev nD) (t : Fin cfg2.N) (q : Fin 64) :
    (iblk2 V c 2 t : S1x64.Idx → EReal) (ix2 0 q) = (V c (Pipeline.arrRef spec2 2) : S1x64.Idx → EReal) (ix2 0 q) := by
  unfold iblk2
  rw [View.read_apply, emb2_2 t q]
  rfl
theorem iblk2_3_at (c : Dev nD) (t : Fin cfg2.N) (q : Fin 64) :
    (iblk2 V c 3 t : S1x64.Idx → EReal) (ix2 0 q) = (V c (Pipeline.arrRef spec2 3) : S1x64.Idx → EReal) (ix2 0 q) := by
  unfold iblk2
  rw [View.read_apply, emb2_3 t q]
  rfl
theorem iblk2_4_at (c : Dev nD) (t : Fin cfg2.N) (q : Fin 64) :
    (iblk2 V c 4 t : S1x64.Idx → EReal) (ix2 0 q) = (V c (Pipeline.arrRef spec2 4) : S1x64.Idx → EReal) (ix2 0 q) := by
  unfold iblk2
  rw [View.read_apply, emb2_4 t q]
  rfl
/-- Point t's block of a whole-array function read back at (p, q): the function at (t·10000 + p, q). -/
theorem read_blk2_5_at (G : S100000x64.Idx → EReal) (t : Fin cfg2.N) (p : Fin 10000) (q : Fin 64) (P : Fin 100000) (hP : P.val = t.val * 10000 + p.val) :
    (((cfg2.win 5).blk t).view.read (Elt Ideal) G : S10000x64.Idx → EReal) (ix2 p q) = G (ix2 P q) := by
  rw [View.read_apply, emb2_5 t p q P hP]
  rfl

set_option maxHeartbeats 1000000 in
/-- What point t writes back is its block of that one function of the region's entry contents. -/
theorem flushed2_5_eq (c : Dev nD) (t : Fin cfg2.N) :
    (dat2 V c).flushed 5 t = ((cfg2.win 5).blk t).view.read (Elt Ideal)
      (bnRelu2 (V c (Pipeline.arrRef spec2 0)) (V c (Pipeline.arrRef spec2 1)) (V c (Pipeline.arrRef spec2 2)) (V c (Pipeline.arrRef spec2 3)) (V c (Pipeline.arrRef spec2 4))) := by
  show (cfg2.win 5).cut (grid2.coords t) ((dat2 V c).after 5 t) = _
  rw [after2_5]
  unfold out2_5
  rw [View.canon_unit_zero zeroOff2]
  simp only [View.ld_unit_zero (S := S10000x64) zeroOff2, View.ld_unit_zero (S := S1x64) zeroOff2]
  funext j
  obtain ⟨p, q, rfl⟩ : ∃ (p : Fin 10000) (q : Fin 64), j = ix2 p q := ⟨j 0, j 1, eq_ix2 j⟩
  have ht : t.val < 10 := lt_of_lt_of_eq t.isLt N_2
  have hP : t.val * 10000 + p.val < 100000 := by omega
  refine (bnPay2_apply (iblk2 V c 0 t) (iblk2 V c 1 t) (iblk2 V c 2 t) (iblk2 V c 3 t) (iblk2 V c 4 t) p q).trans ?_
  refine Eq.trans ?_ (read_blk2_5_at _ t p q ⟨t.val * 10000 + p.val, hP⟩ rfl).symm
  rw [bnRelu2_apply, iblk2_0_at V c t p q ⟨t.val * 10000 + p.val, hP⟩ rfl, iblk2_1_at V c t q, iblk2_2_at V c t q, iblk2_3_at V c t q, iblk2_4_at V c t q]

/-- An index of the array is in point t's block iff each coordinate is in the block's range on its axis. -/
theorem mem_blk2_5 (t : Fin cfg2.N) (i : S100000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole main_v61).slice (win2_5.rect t)).set ↔ _
  rw [View.set_slice_whole, Rect.mem_set_unit]
  exact Iff.rfl

/-- Row r of the array is in the block of point r / 10000: the ten blocks fill the array. -/
theorem covered2_5 (i : S100000x64.Idx) : ∃ t : Fin cfg2.N, (cfg2.win 5).flush t = true ∧ i ∈ ((cfg2.win 5).blk t).view.set := by
  have hi0 : (i 0).val < 100000 := idx2_lt0 i
  have hi1 : (i 1).val < 64 := idx2_lt1 i
  have hN : grid2.N = 10 := N_2
  have hlt : (i 0).val / 10000 < grid2.N := by rw [hN]; omega
  obtain ⟨-, -, e0, e1, -⟩ := idx_facts2 ⟨(i 0).val / 10000, hlt⟩
  refine ⟨⟨(i 0).val / 10000, hlt⟩, flush2_5 _, ?_⟩
  rw [mem_blk2_5]
  intro a
  match a with
  | ⟨0, _⟩ =>
    show win2_5.index ⟨(i 0).val / 10000, hlt⟩ (0 : Fin 2) * 10000 ≤ (i 0).val ∧ (i 0).val < win2_5.index ⟨(i 0).val / 10000, hlt⟩ (0 : Fin 2) * 10000 + 10000
    rw [e0]; show (i 0).val / 10000 * 10000 ≤ (i 0).val ∧ (i 0).val < (i 0).val / 10000 * 10000 + 10000; omega
  | ⟨1, _⟩ =>
    show win2_5.index ⟨(i 0).val / 10000, hlt⟩ (1 : Fin 2) * 64 ≤ (i 1).val ∧ (i 1).val < win2_5.index ⟨(i 0).val / 10000, hlt⟩ (1 : Fin 2) * 64 + 64
    rw [e1]; omega

/-- The array the region leaves is that function of its entry contents. -/
theorem final2_5 (c : Dev nD) : (dat2 V c).arrAt 5 cfg2.N
    = bnRelu2 (V c (Pipeline.arrRef spec2 0)) (V c (Pipeline.arrRef spec2 1)) (V c (Pipeline.arrRef spec2 2)) (V c (Pipeline.arrRef spec2 3)) (V c (Pipeline.arrRef spec2 4)) :=
  (dat2 V c).arrAt_eq_of_cover 5 _ (fun t _ => flushed2_5_eq V c t) covered2_5

/-- Region 2's output as one function of the buffers at the region's entry. -/
theorem O2_0_fun (c : Dev nD) :
    O2_0 (F := Ideal) m c = bnRelu2 (W5 (F := Ideal) m c main_v52_0) (W5 (F := Ideal) m c main_v54) (W5 (F := Ideal) m c main_v58)
      (W5 (F := Ideal) m c main_v59) (W5 (F := Ideal) m c main_v60) :=
  final2_5 (E5 m) c

/-- Region 2's output at (p, q): the entry of main_v52_0 less the mean row, times the reciprocal square root of the
    variance row cut off at 0 and shifted, times the scale row, plus the bias row, cut off at 0; rows read at (0, q). -/
theorem O2_0_eq (c : Dev nD) (p : Fin 100000) (q : Fin 64) :
    (O2_0 (F := Ideal) m c : S100000x64.Idx → EReal) (ix2 p q)
      = bnRelu2 (W5 (F := Ideal) m c main_v52_0) (W5 (F := Ideal) m c main_v54) (W5 (F := Ideal) m c main_v58)
          (W5 (F := Ideal) m c main_v59) (W5 (F := Ideal) m c main_v60) (ix2 p q) :=
  congrFun (O2_0_fun m c) (ix2 p q)

/-- The same with the five entry buffers named: for arrays equal to them, the output at (p, q) written out. -/
theorem O2_0_at (c : Dev nD) (X : S100000x64.Idx → EReal) (mean var scale bias : S1x64.Idx → EReal)
    (hX : W5 (F := Ideal) m c main_v52_0 = X) (hmean : W5 (F := Ideal) m c main_v54 = mean) (hvar : W5 (F := Ideal) m c main_v58 = var)
    (hscale : W5 (F := Ideal) m c main_v59 = scale) (hbias : W5 (F := Ideal) m c main_v60 = bias) (p : Fin 100000) (q : Fin 64) :
    (O2_0 (F := Ideal) m c : S100000x64.Idx → EReal) (ix2 p q)
      = max ((((X (ix2 p q) - mean (ix2 0 q)) * Ideal.rsqrt (max (var (ix2 0 q)) 0 + Ideal.ofBits .f32 0x3727C5AC#32))
              * scale (ix2 0 q) + bias (ix2 0 q))) 0 := by
  rw [O2_0_eq, hX, hmean, hvar, hscale, hbias, bnRelu2_apply]

end Cert.KernelIdeal.Body

end
-- ==== Proof.KIStageBnKer1.lean ====
/-
  Between the mix region and the normalise region of relation 0, layer 1, the kernel program computes on the host the
  mean row (the accumulated column sums divided by 100000), the variance row (the accumulated sums of squares divided
  by 100000, minus the squared mean), and lays the scale and bias vectors out as rows. This module reads those four
  rows, and the mix array, off the valuation the normalise region is entered from.
-/
import proofs.«140713_j1864015806535_2_alg».proof.Proof.KIFrameBase
import Idealize.ShloMosaic.Lib.StableHlo.Run
import Idealize.ShloMosaic.PureOps.Ideal.Laws

set_option maxRecDepth 65536

noncomputable section

namespace Cert.KernelIdeal.Body

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- After the mix region its three outputs hold what it leaves. -/
theorem W4_v52_0 (c : Dev nD) : W4 (F := Ideal) m c main_v52_0 = O1_0 m c := by
  unfold W4
  simp only [Function.update_self,
    Function.update_of_ne (StableHlo.devRef_ne_of_ne (by decide : main_v52_0 ≠ main_v52_2) : (Proc.devRef .tc main_v52_0 : DevRef τ sig) ≠ Proc.devRef .tc main_v52_2),
    Function.update_of_ne (StableHlo.devRef_ne_of_ne (by decide : main_v52_0 ≠ main_v52_1) : (Proc.devRef .tc main_v52_0 : DevRef τ sig) ≠ Proc.devRef .tc main_v52_1)]
theorem W4_v52_1 (c : Dev nD) : W4 (F := Ideal) m c main_v52_1 = O1_1 m c := by
  unfold W4
  simp only [Function.update_self,
    Function.update_of_ne (StableHlo.devRef_ne_of_ne (by decide : main_v52_1 ≠ main_v52_2) : (Proc.devRef .tc main_v52_1 : DevRef τ sig) ≠ Proc.devRef .tc main_v52_2)]
theorem W4_v52_2 (c : Dev nD) : W4 (F := Ideal) m c main_v52_2 = O1_2 m c := by
  unfold W4
  simp only [Function.update_self]

set_option maxHeartbeats 2000000 in
/-- The mean row: the accumulated column sums over 100000. -/
theorem ker_mean1 (c : Dev nD) :
    (W5 (F := Ideal) m c main_v54 : S1x64.Idx → EReal)
      = Host.divf (F := Ideal) (O1_1 m c : S1x64.Idx → EReal) (broadcastInDim S1x64 ![] bcast_S_S1x64 (constant (F := Ideal) S_ .f32 0x47C35000#32)) := by
  dsimp only [W5, hostOps2]
  after_results
  rw [W4_v52_1]

set_option maxHeartbeats 2000000 in
/-- The variance row: the accumulated sums of squares over 100000, minus the squared mean. -/
theorem ker_var1 (c : Dev nD) :
    (W5 (F := Ideal) m c main_v58 : S1x64.Idx → EReal)
      = subf (Host.divf (F := Ideal) (O1_2 m c : S1x64.Idx → EReal) (broadcastInDim S1x64 ![] bcast_S_S1x64 (constant (F := Ideal) S_ .f32 0x47C35000#32)))
          (mulf (W5 (F := Ideal) m c main_v54 : S1x64.Idx → EReal) (W5 (F := Ideal) m c main_v54 : S1x64.Idx → EReal)) := by
  rw [ker_mean1]
  dsimp only [W5, hostOps2]
  after_results
  rw [W4_v52_1, W4_v52_2]

/-- The mix array is untouched by the host stretch. -/
theorem ker_xm1 (c : Dev nD) : W5 (F := Ideal) m c main_v52_0 = O1_0 m c :=
  (StableHlo.after_of_writes_sub hostOps2 _ GenP.hostOps2_writes (by decide)).trans (W4_v52_0 m c)

end Cert.KernelIdeal.Body

end
-- ==== Proof.LibVarianceForms.lean ====
/-
  Two ways to compute the variance of a column, on the extended reals.

  For a column of n > 0 entries with mean μ = (Σᵢ xᵢ) / n, the biased variance is the mean of the squared
  deviations, (Σᵢ (xᵢ − μ)²) / n. A single sweep computes instead the mean of the squares minus the squared mean,
  (Σᵢ xᵢ²) / n − μ², and cuts the result off at 0 from below. When every entry is a real number the two agree:
  expanding the square gives Σᵢ (xᵢ − μ)² = Σᵢ xᵢ² − 2μ Σᵢ xᵢ + n μ² = Σᵢ xᵢ² − n μ² because Σᵢ xᵢ = n μ, and a mean
  of squares is nonnegative, so the cut-off changes nothing. The count must be the number of entries, and the
  entries must be real: with an infinite entry the single sweep meets ⊤ − ⊤ and the two sides part.
  Quotients are the ideal instance's; a quotient by a nonzero real is the product with its reciprocal.
-/
import Idealize.ShloMosaic.PureOps.Ideal

noncomputable section

namespace Cert.LibVarianceForms

open Idealize.ShloMosaic

/-- The coercion of a finite sum of reals is the sum of the coercions. -/
theorem coe_sum {ι : Type*} (s : Finset ι) (f : ι → ℝ) :
    ((∑ i ∈ s, f i : ℝ) : EReal) = ∑ i ∈ s, (f i : EReal) := by
  induction s using Finset.cons_induction_on with
  | empty => simp
  | cons a s ha ih => rw [Finset.sum_cons, Finset.sum_cons, EReal.coe_add, ih]

/-- Over the reals: the mean of the squares minus the squared mean is the mean of the squared deviations
    (a quotient by n written as the product with 1/n). -/
theorem real_forms {n : ℕ} (hn : 0 < n) (x : Fin n → ℝ) :
    (∑ i, x i * x i) * (1 / (n : ℝ)) - ((∑ i, x i) * (1 / (n : ℝ))) * ((∑ i, x i) * (1 / (n : ℝ)))
      = (∑ i, (x i - (∑ j, x j) * (1 / (n : ℝ))) * (x i - (∑ j, x j) * (1 / (n : ℝ)))) * (1 / (n : ℝ)) := by
  have hn' : (n : ℝ) ≠ 0 := Nat.cast_ne_zero.mpr hn.ne'
  generalize hμ : (∑ j, x j) * (1 / (n : ℝ)) = μ
  have hS : ∑ i, x i = n * μ := by rw [← hμ]; field_simp
  have hexp : ∀ i, (x i - μ) * (x i - μ) = x i * x i - 2 * μ * x i + μ * μ := fun i => by ring
  simp only [hexp, Finset.sum_add_distrib, Finset.sum_sub_distrib, ← Finset.mul_sum, Finset.sum_const,
    Finset.card_univ, Fintype.card_fin, nsmul_eq_mul, hS]
  field_simp
  ring

/-- Over the reals the mean of the squared deviations is nonnegative. -/
theorem real_var_nonneg {n : ℕ} (x : Fin n → ℝ) (μ : ℝ) : 0 ≤ (∑ i, (x i - μ) * (x i - μ)) * (1 / (n : ℝ)) :=
  mul_nonneg (Finset.sum_nonneg fun i _ => mul_self_nonneg _) (by positivity)

/-- On the extended reals, for a column of real entries and the count its number of entries: the single-sweep
    variance, cut off at 0, is the mean of the squared deviations from the mean. -/
theorem single_sweep_eq {n : ℕ} (hn : 0 < n) (col : Fin n → EReal) (hreal : ∀ i, ∃ r : ℝ, col i = (r : EReal)) :
    max (Ideal.div (∑ i, col i * col i) ((n : ℝ) : EReal)
          - Ideal.div (∑ i, col i) ((n : ℝ) : EReal) * Ideal.div (∑ i, col i) ((n : ℝ) : EReal)) 0
      = Ideal.div (∑ i, (col i - Ideal.div (∑ j, col j) ((n : ℝ) : EReal))
            * (col i - Ideal.div (∑ j, col j) ((n : ℝ) : EReal))) ((n : ℝ) : EReal) := by
  have hn' : (n : ℝ) ≠ 0 := Nat.cast_ne_zero.mpr hn.ne'
  choose x hx using hreal
  obtain rfl : col = fun i => (x i : EReal) := funext hx
  simp only [Ideal.div_coe hn', ← EReal.coe_mul, ← coe_sum, ← EReal.coe_sub]
  rw [real_forms hn x, max_eq_left]
  exact_mod_cast real_var_nonneg x ((∑ j, x j) * (1 / (n : ℝ)))

/-- The mean of a column of real entries is real. -/
theorem mean_real {n : ℕ} (hn : 0 < n) (col : Fin n → EReal) (hreal : ∀ i, ∃ r : ℝ, col i = (r : EReal)) :
    ∃ r : ℝ, Ideal.div (∑ i, col i) ((n : ℝ) : EReal) = (r : EReal) := by
  have hn' : (n : ℝ) ≠ 0 := Nat.cast_ne_zero.mpr hn.ne'
  choose x hx using hreal
  obtain rfl : col = fun i => (x i : EReal) := funext hx
  exact ⟨(∑ i, x i) * (1 / n), by rw [Ideal.div_coe hn', ← coe_sum, ← EReal.coe_mul]⟩

/-- The variance of a column of real entries is a nonnegative real. -/
theorem var_real {n : ℕ} (hn : 0 < n) (col : Fin n → EReal) (hreal : ∀ i, ∃ r : ℝ, col i = (r : EReal)) :
    ∃ r : ℝ, 0 ≤ r ∧ Ideal.div (∑ i, (col i - Ideal.div (∑ j, col j) ((n : ℝ) : EReal))
            * (col i - Ideal.div (∑ j, col j) ((n : ℝ) : EReal))) ((n : ℝ) : EReal) = (r : EReal) := by
  have hn' : (n : ℝ) ≠ 0 := Nat.cast_ne_zero.mpr hn.ne'
  choose x hx using hreal
  obtain rfl : col = fun i => (x i : EReal) := funext hx
  refine ⟨(∑ i, (x i - (∑ j, x j) * (1 / n)) * (x i - (∑ j, x j) * (1 / n))) * (1 / n), ?_, ?_⟩
  · exact real_var_nonneg x ((∑ j, x j) * (1 / n))
  · simp only [Ideal.div_coe hn', ← EReal.coe_mul, ← coe_sum, ← EReal.coe_sub]

end Cert.LibVarianceForms

end
-- ==== Proof.LibRealEntries.lean ====
/-
  Real entries stay real.

  On the extended reals most algebraic laws (distributivity, cancelling, expanding a square) hold only away from the
  infinities, so a proof that needs one first shows that the values it is applied to are real numbers. This file is
  that bookkeeping: an extended real "is real" when it is the image of a real number, and sums, differences,
  products, maxima, finite sums, a quotient by a nonzero real, the reciprocal square root of a positive real, the
  host's float sum with a real initial value, the host's accumulating scatter of real updates into a real array, and a
  vector reduction by sum, all of real values, are real. Starting from arrays of finite inputs, every intermediate
  array of a program built from these operations is therefore real, entry by entry.
-/
import Idealize.ShloMosaic.PureOps.Ideal

noncomputable section

namespace Cert.LibRealEntries

open Idealize.ShloMosaic

/-- An extended real that is (the image of) a real number. -/
def IsReal (x : EReal) : Prop := ∃ r : ℝ, x = (r : EReal)

theorem isReal_coe (r : ℝ) : IsReal (r : EReal) := ⟨r, rfl⟩
theorem isReal_zero : IsReal 0 := ⟨0, EReal.coe_zero.symm⟩
theorem isReal_one : IsReal 1 := ⟨1, EReal.coe_one.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases le_total x y with h | h
  · rw [max_eq_right h]; exact hy
  · rw [max_eq_left h]; exact hx

/-- A real value is neither infinity. -/
theorem IsReal.ne_top {x : EReal} (hx : IsReal x) : x ≠ ⊤ := by
  obtain ⟨a, rfl⟩ := hx; exact EReal.coe_ne_top a
theorem IsReal.ne_bot {x : EReal} (hx : IsReal x) : x ≠ ⊥ := by
  obtain ⟨a, rfl⟩ := hx; exact EReal.coe_ne_bot a

/-- A finite sum of real values is real. -/
theorem IsReal.sum {ι : Type*} (s : Finset ι) (f : ι → EReal) (h : ∀ i ∈ s, IsReal (f i)) : IsReal (∑ i ∈ s, f i) := by
  induction s using Finset.cons_induction_on with
  | empty => rw [Finset.sum_empty]; exact isReal_zero
  | cons a s ha ih =>
    rw [Finset.sum_cons]
    exact (h a (Finset.mem_cons_self a s)).add (ih fun i hi => h i (Finset.mem_cons_of_mem hi))

/-- The ideal quotient of a real value by a nonzero real is real. -/
theorem IsReal.div_coe {x : EReal} (hx : IsReal x) {y : ℝ} (hy : y ≠ 0) : IsReal (Ideal.div x (y : EReal)) := by
  rw [Ideal.div_coe hy]; exact hx.mul (isReal_coe _)

/-- The reciprocal square root of a positive real is a positive real. -/
theorem rsqrt_pos_real {v : ℝ} (hv : 0 < v) : ∃ r : ℝ, 0 < r ∧ Ideal.rsqrt (v : EReal) = (r : EReal) := by
  refine ⟨(Real.sqrt v)⁻¹, inv_pos.mpr (Real.sqrt_pos.mpr hv), ?_⟩
  rw [Ideal.rsqrt_coe, if_neg (not_lt.mpr hv.le), if_neg hv.ne']

theorem isReal_rsqrt_of_pos {v : ℝ} (hv : 0 < v) : IsReal (Ideal.rsqrt (v : EReal)) := by
  obtain ⟨r, -, h⟩ := rsqrt_pos_real hv; exact ⟨r, h⟩

/-- An extended real that is neither infinity is real (how the precondition "every input is finite" is used). -/
theorem isReal_of_ne {x : EReal} (h1 : x ≠ ⊤) (h2 : x ≠ ⊥) : IsReal x := by
  induction x using EReal.rec with
  | bot => exact absurd rfl h2
  | top => exact absurd rfl h1
  | coe r => exact ⟨r, rfl⟩

/-- A real value cut off at 1 from below is a real that is at least 1. -/
theorem max_one_real {x : EReal} (hx : IsReal x) : ∃ r : ℝ, 1 ≤ r ∧ max x 1 = (r : EReal) := by
  obtain ⟨a, rfl⟩ := hx
  rcases le_total a 1 with h | h
  · exact ⟨1, le_refl _, by rw [max_eq_right (by exact_mod_cast h)]; exact EReal.coe_one.symm⟩
  · exact ⟨a, h, max_eq_left (by exact_mod_cast h)⟩

/-- The degree normaliser rsqrt(max(x, 1)) of a real value is real. -/
theorem isReal_rsqrt_max_one {x : EReal} (hx : IsReal x) : IsReal (Ideal.rsqrt (max x 1)) := by
  obtain ⟨r, hr, h⟩ := max_one_real hx
  rw [h]
  exact isReal_rsqrt_of_pos (lt_of_lt_of_le one_pos hr)

/-- The host's float sum of real entries from a real initial value is real at every index. -/
theorem hostReduceAdd_isReal {s : Shape} {axes : List (Fin s.rank)} {t : Shape} (h : s.ReducesTo axes t)
    (x : s.Idx → EReal) (init : EReal) (hinit : IsReal init) (hx : ∀ i, IsReal (x i)) (j : t.Idx) :
    IsReal (Ideal.hostReduceAdd h x init j) :=
  hinit.add (IsReal.sum _ _ fun i _ => hx i)

/-- The host's accumulating scatter of real updates into a real array is real at every index. -/
theorem hostScatterAdd_isReal {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) :=
  (hx i).add (IsReal.sum _ _ fun j _ => hu j)

/-- A vector reduction by sum of real entries is real at every index. -/
theorem reduceAdd_isReal {s : Shape} {axes : List (Fin s.rank)} {t : Shape} (h : s.Reduces axes t)
    (x : s.Idx → EReal) (hx : ∀ i, IsReal (x i)) (j : t.Idx) : IsReal (Ideal.reduceAdd h x j) :=
  IsReal.sum _ _ fun i _ => hx i

/-- A sum over a finite index type of products of real values (an entry of a matrix product) is real. -/
theorem sum_mul_isReal {ι : Type*} [Fintype ι] (l r : ι → EReal) (hl : ∀ k, IsReal (l k)) (hr : ∀ k, IsReal (r k)) :
    IsReal (∑ k, l k * r k) :=
  IsReal.sum _ _ fun k _ => (hl k).mul (hr k)

end Cert.LibRealEntries

end
-- ==== Proof.LibNormJoin.lean ====
/-
  The two normalisations of a column agree on reals.

  A column x of n > 0 real entries is normalised entry by entry as ((x_p − μ) · rsqrt(σ² + ε)) · s + b, cut off at 0.
  One program takes μ = S / n and σ² = max(SS / n − μ², 0) from a sum S of the entries and a sum SS of their squares
  that it accumulated on the way; the other takes μ = (0 + Σ x) / n and σ² = (0 + Σ (x_i − μ)²) / n. When S and SS are
  those sums the two results are the same extended real, for any ε, s and b: the means are the same quotient, and the
  two variances agree by the identity of Proof/LibVarianceForms.lean, which is where the entries must be real.
-/
import proofs.«140713_j1864015806535_2_alg».proof.Proof.LibVarianceForms
import proofs.«140713_j1864015806535_2_alg».proof.Proof.LibRealEntries

noncomputable section

namespace Cert.LibNormJoin

open Idealize.ShloMosaic Cert.LibRealEntries

/-- The normalised entry from a mean and a variance. -/
def normEntry (x μ v e s b : EReal) : EReal := max (((x - μ) * Ideal.rsqrt (v + e)) * s + b) 0

/-- The single-sweep normalisation (sums accumulated on the way, variance cut off at 0) is the two-pass one. -/
theorem norm_join {n : ℕ} (hn : 0 < n) (x : Fin n → EReal) (hx : ∀ i, IsReal (x i)) (S SS : EReal)
    (hS : S = ∑ i, x i) (hSS : SS = ∑ i, x i * x i) (e s b : EReal) (p : Fin n) :
    normEntry (x p) (Ideal.div S ((n : ℝ) : EReal))
        (max (Ideal.div SS ((n : ℝ) : EReal) - Ideal.div S ((n : ℝ) : EReal) * Ideal.div S ((n : ℝ) : EReal)) 0) e s b
      = normEntry (x p) (Ideal.div (0 + ∑ i, x i) ((n : ℝ) : EReal))
          (Ideal.div (0 + ∑ i, (x i - Ideal.div (0 + ∑ j, x j) ((n : ℝ) : EReal)) * (x i - Ideal.div (0 + ∑ j, x j) ((n : ℝ) : EReal))) ((n : ℝ) : EReal)) e s b := by
  subst hS; subst hSS
  rw [zero_add, zero_add, Cert.LibVarianceForms.single_sweep_eq hn x hx]

/-- The float words the two programs spell, as the extended reals they denote. -/
theorem ofBits_one : Ideal.ofBits .f32 0x3F800000#32 = 1 := by
  simp [Ideal.ofBits, Ideal.ieee, -EReal.coe_mul]; norm_num

theorem ofBits_100000 : Ideal.ofBits .f32 0x47C35000#32 = (((100000 : ℕ) : ℝ) : EReal) := by
  simp [Ideal.ofBits, Ideal.ieee, -EReal.coe_mul]; norm_num

end Cert.LibNormJoin

end
-- ==== Proof.LibTiles.lean ====
/-
  Finite sums re-indexed. A sum over m · n indices is the sum over m blocks of n consecutive ones; a running sum of
  finitely many steps is its start plus the sum of the steps so far; a sum over the indices of a one-axis array is the
  sum over its one coordinate. All in any commutative additive monoid (the extended reals among them: no finiteness
  of the terms is used).
-/
import Idealize.ShloMosaic.Lib.ValueIdx
import Mathlib.Algebra.BigOperators.Fin
import Mathlib.Logic.Equiv.Fin.Basic

namespace Cert.LibTiles

open Idealize.ShloMosaic Idealize.ShloMosaic.ValueIdx

/-- A sum over `m · n` indices is the sum over `m` blocks of `n` consecutive ones: index `n · i + a` is entry `a` of
    block `i`. -/
theorem sum_blocks {M : Type*} [AddCommMonoid M] (m n N : ℕ) (h : m * n = N) (f : Fin N → M)
    (hb : ∀ (i : Fin m) (a : Fin n), n * i.val + a.val < N) :
    ∑ p : Fin N, f p = ∑ i : Fin m, ∑ a : Fin n, f ⟨n * i.val + a.val, hb i a⟩ := by
  subst h
  rw [← Equiv.sum_comp finProdFinEquiv f, Fintype.sum_prod_type]
  refine Finset.sum_congr rfl fun i _ => Finset.sum_congr rfl fun a _ => congrArg f (Fin.ext ?_)
  show a.val + n * i.val = n * i.val + a.val
  exact Nat.add_comm _ _

/-- A running sum of `N` steps started at `z + h 0` and fed `h (n + 1)` at step `n + 1` is `z` plus the sum of `h` so far. -/
theorem running_sum_lt {M : Type*} [AddCommMonoid M] (N : ℕ) (z : M) (h acc : ℕ → M) (h0 : acc 0 = z + h 0)
    (hs : ∀ n, n + 1 < N → acc (n + 1) = acc n + h (n + 1)) (n : ℕ) (hn : n < N) :
    acc n = z + ∑ t ∈ Finset.range (n + 1), h t := by
  induction n with
  | zero => rw [h0]; simp
  | succ n ih => rw [hs n hn, ih (by omega), Finset.sum_range_succ _ (n + 1), add_assoc]

/-- A sum over the indices of a one-axis array is the sum over its coordinate. -/
theorem sum_idx1 {M : Type*} [AddCommMonoid M] {n : ℕ} (f : (⟨1, ![n]⟩ : Shape).Idx → M) : ∑ i, f i = ∑ k : Fin n, f (ix1 k) := by
  let e : (⟨1, ![n]⟩ : Shape).Idx ≃ Fin n := ⟨fun i => i 0, fun k => ix1 k, fun i => (eq_ix1 i).symm, fun _ => rfl⟩
  rw [← Equiv.sum_comp e.symm f]
  rfl

end Cert.LibTiles
-- ==== Proof.KIStageBn1.lean ====
/-
  The normalise stage of relation 0, layer 1, on the kernel program's side, in the reference's form.

  The normalise region's output at (p, q) is the normalised entry of the mix array's column q, with the mean and the
  variance the host computed from the sums the mix region accumulated: mean = S/100000, variance = SS/100000 − mean²,
  cut off at 0. The accumulated sums are the column's sum and the sum of its squares (ten tiles of 10000 rows are the
  100000 rows), so for a column of real entries this is the two-pass normalisation: mean (0 + Σ x)/100000, variance
  (0 + Σ (x − mean)²)/100000, no cut-off (Proof/LibNormJoin.lean).
-/
import proofs.«140713_j1864015806535_2_alg».proof.Proof.KIValMix1
import proofs.«140713_j1864015806535_2_alg».proof.Proof.KIValBn2
import proofs.«140713_j1864015806535_2_alg».proof.Proof.KIStageBnKer1
import proofs.«140713_j1864015806535_2_alg».proof.Proof.LibNormJoin
import proofs.«140713_j1864015806535_2_alg».proof.Proof.LibTiles

set_option maxRecDepth 65536

noncomputable section

namespace Cert.KernelIdeal.Body

open Cert.KernelIdeal Cert.KernelIdeal.Gen Idealize.ShloMosaic Idealize.ShloMosaic.TcCoe Idealize.ShloMosaic.ValueIdx Idealize.SL.Sem
open Cert.LibRealEntries Cert.LibNormJoin

variable (m : (ℓ : Loc nD τ sig) → Buf (Elt Ideal) ℓ)

/-- An entry of a two-axis array of extended reals. -/
abbrev at2 {a b : ℕ} (x : (⟨2, ![a, b]⟩ : Shape).Idx → EReal) (p : Fin a) (q : Fin b) : EReal := x (ix2 p q)

/-- Column q of the mix array, as a function of the row. -/
abbrev xcol1 (c : Dev nD) (q : Fin 64) : Fin 100000 → EReal := fun p => at2 (O1_0 (F := Ideal) m c) p q

/-- Ten tiles of 10000 rows are the 100000 rows. -/
theorem sum_tiles (f : Fin 100000 → EReal) :
    ∑ t : Fin 10, ∑ r : Fin 10000, f ⟨t.val * 10000 + r.val, by omega⟩ = ∑ p, f p := by
  rw [Cert.LibTiles.sum_blocks 10 10000 100000 rfl f (fun i a => by omega)]
  exact Finset.sum_congr rfl fun t _ => Finset.sum_congr rfl fun r _ => congrArg f (Fin.ext (by show t.val * 10000 + r.val = 10000 * t.val + r.val; omega))

/-- The first accumulated row is the column sums of the mix array. -/
theorem col_sum1 (c : Dev nD) (q : Fin 64) : at2 (O1_1 (F := Ideal) m c) 0 q = ∑ p, xcol1 m c q p := by
  rw [show at2 (O1_1 (F := Ideal) m c) 0 q = (O1_1 (F := Ideal) m c : S1x64.Idx → EReal) (ix2 0 q) from rfl, O1_1_eq, ← sum_tiles (xcol1 m c q)]
  exact Finset.sum_congr rfl fun t _ => Finset.sum_congr rfl fun r _ => (O1_0_eq m c _ q).symm

/-- The second is the column sums of its squares. -/
theorem col_sumsq1 (c : Dev nD) (q : Fin 64) : at2 (O1_2 (F := Ideal) m c) 0 q = ∑ p, xcol1 m c q p * xcol1 m c q p := by
  rw [show at2 (O1_2 (F := Ideal) m c) 0 q = (O1_2 (F := Ideal) m c : S1x64.Idx → EReal) (ix2 0 q) from rfl, O1_2_eq, ← sum_tiles (fun p => xcol1 m c q p * xcol1 m c q p)]
  exact Finset.sum_congr rfl fun t _ => Finset.sum_congr rfl fun r _ => by rw [← O1_0_eq m c _ q]

/-- The mean row at q. -/
theorem ker_mean1_at (c : Dev nD) (q : Fin 64) :
    at2 (W5 (F := Ideal) m c main_v54) 0 q
      = Ideal.div (at2 (O1_1 (F := Ideal) m c) 0 q) (Ideal.ofBits .f32 0x47C35000#32) := by
  rw [ker_mean1]; rfl

/-- The variance row at q. -/
theorem ker_var1_at (c : Dev nD) (q : Fin 64) :
    at2 (W5 (F := Ideal) m c main_v58) 0 q
      = Ideal.div (at2 (O1_2 (F := Ideal) m c) 0 q) (Ideal.ofBits .f32 0x47C35000#32)
        - at2 (W5 (F := Ideal) m c main_v54) 0 q * at2 (W5 (F := Ideal) m c main_v54) 0 q := by
  rw [ker_var1]; rfl

/-- THE NORMALISE REGION'S OUTPUT in the two-pass form, for a mix array of real entries. -/
theorem ker_y1 (c : Dev nD) (hreal : ∀ p q, IsReal (xcol1 m c q p)) (p : Fin 100000) (q : Fin 64) :
    at2 (O2_0 (F := Ideal) m c) p q
      = normEntry (xcol1 m c q p)
          (Ideal.div (0 + ∑ i, xcol1 m c q i) (((100000 : ℕ) : ℝ) : EReal))
          (Ideal.div (0 + ∑ i, (xcol1 m c q i - Ideal.div (0 + ∑ j, xcol1 m c q j) (((100000 : ℕ) : ℝ) : EReal))
              * (xcol1 m c q i - Ideal.div (0 + ∑ j, xcol1 m c q j) (((100000 : ℕ) : ℝ) : EReal))) (((100000 : ℕ) : ℝ) : EReal))
          (Ideal.ofBits .f32 0x3727C5AC#32)
          (at2 (W5 (F := Ideal) m c main_v59) 0 q) (at2 (W5 (F := Ideal) m c main_v60) 0 q) := by
  rw [← norm_join (n := 100000) (by norm_num) (xcol1 m c q) (fun i => hreal i q) _ _ (col_sum1 m c q) (col_sumsq1 m c q)]
  rw [show at2 (O2_0 (F := Ideal) m c) p q = (O2_0 (F := Ideal) m c : S100000x64.Idx → EReal) (ix2 p q) from rfl, O2_0_eq, bnRelu2_apply]
  rw [show (W5 (F := Ideal) m c main_v58 : S1x64.Idx → EReal) (ix2 0 q) = at2 (W5 (F := Ideal) m c main_v58) 0 q from rfl,
    show (W5 (F := Ideal) m c main_v54 : S1x64.Idx → EReal) (ix2 0 q) = at2 (W5 (F := Ideal) m c main_v54) 0 q from rfl,
    ker_var1_at, ker_mean1_at, ofBits_100000, ker_xm1]
  rfl

end Cert.KernelIdeal.Body

end
-- ==== Proof.KIStageBnRef1.lean ====
/-
  The reference's normalise-and-cut-off of relation 0, layer 1, read at one entry: the mixed array less its column mean,
  times the reciprocal square root of the column variance shifted by a small constant, times the scale, plus the bias,
  cut off below at 0; the column mean is the column's sum over its 100000 entries divided by 100000.
-/
import proofs.«140713_j1864015806535_2_alg».proof.Proof.RefFrame
import proofs.«140713_j1864015806535_2_alg».proof.Proof.LibHostBroadcast
import Idealize.ShloMosaic.Lib.StableHlo.Run
import Idealize.ShloMosaic.Lib.ValueIdx
import Idealize.ShloMosaic.Lib.IdealHost
import Idealize.ShloMosaic.Lib.Pipeline.Value
import Idealize.ShloMosaic.Lib.ValueLayout
import Idealize.ShloMosaic.PureOps.Ideal.Laws

set_option maxRecDepth 65536

noncomputable section

namespace Cert.ReferenceIdeal.RefRun
open Cert.ReferenceIdeal Cert.ReferenceIdeal.Gen Idealize.ShloMosaic Idealize.ShloMosaic.TcCoe Idealize.SL.Sem Idealize.ShloMosaic.StableHlo
open Idealize.ShloMosaic.ValueIdx

/-- A relation's row of a three-row argument, as a vector. -/
def rowVec1 (a : S3x64.Idx → EReal) : S64.Idx → EReal :=
  shapeCast S64 (extractStridedSlice S1x64 ![0, 0] a slices_S3x64_S1x64_0_0) shapeCasts_S1x64_S64

/-- A vector spread over the rows of the array: first as a row, then along the rows. -/
def spread1 (v : S64.Idx → EReal) : S100000x64.Idx → EReal :=
  broadcastInDim S100000x64 ![0, 1] bcast_S1x64_S100000x64_0_1 (broadcastInDim S1x64 ![1] bcast_S64_S1x64_1 v)

/-- The column means: each column's sum from the zero word, divided by the count's word. -/
def refMeanVec (X : S100000x64.Idx → EReal) : S64.Idx → EReal :=
  Host.divf (F := Ideal) (Host.reduceAdd (F := Ideal) X (constant (F := Ideal) S_ .f32 0x00000000#32) reducesTo_S100000x64_S64_d0 h_S_)
    (broadcastInDim S64 ![] bcast_S_S64 (constant (F := Ideal) S_ .f32 0x47C35000#32))

/-- The count less the correction, as the outlined variance computes it. -/
def refCount : S_.Idx → EReal :=
  subf (F := Ideal) (constant (F := Ideal) S_ .f32 0x47C35000#32) (sitofp (F := Ideal) .f32 (constantI S_ 32 0#32))

/-- The array less its column means, the means computed as a row. -/
def refCentred (X : S100000x64.Idx → EReal) : S100000x64.Idx → EReal :=
  subf (F := Ideal) X (broadcastInDim S100000x64 ![0, 1] bcast_S1x64_S100000x64_0_1
    (Host.divf (F := Ideal)
      (broadcastInDim S1x64 ![1] bcast_S64_S1x64_1 (Host.reduceAdd (F := Ideal) X (constant (F := Ideal) S_ .f32 0x00000000#32) reducesTo_S100000x64_S64_d0 h_S_))
      (broadcastInDim S1x64 ![] bcast_S_S1x64 (constant (F := Ideal) S_ .f32 0x47C35000#32))))

/-- The column variances as the outlined function yields them: the sum of squared centred entries over the count, where the count is positive. -/
def refVarVec (X : S100000x64.Idx → EReal) : S64.Idx → EReal :=
  select (broadcastInDim S64 ![] bcast_S_S64 (cmpf (F := Ideal) .ogt refCount (constant (F := Ideal) S_ .f32 0x00000000#32)))
    (Host.divf (F := Ideal)
      (Host.reduceAdd (F := Ideal) (mulf (F := Ideal) (refCentred X) (refCentred X)) (constant (F := Ideal) S_ .f32 0x00000000#32) reducesTo_S100000x64_S64_d0 h_S_)
      (broadcastInDim S64 ![] bcast_S_S64 refCount))
    (broadcastInDim S64 ![] bcast_S_S64 (id (constant (F := Ideal) S_ .f32 0x7FC00000#32)))

/-- The stage as the reference composes it. -/
def refBn (X : S100000x64.Idx → EReal) (a9 a10 : S3x64.Idx → EReal) : S100000x64.Idx → EReal :=
  maximumf (F := Ideal)
    (addf (F := Ideal)
      (mulf (F := Ideal)
        (mulf (F := Ideal) (subf (F := Ideal) X (spread1 (refMeanVec X)))
          (spread1 (Host.rsqrt (F := Ideal) (addf (F := Ideal) (refVarVec X) (broadcastInDim S64 ![] bcast_S_S64 (constant (F := Ideal) S_ .f32 0x3727C5AC#32))))))
        (spread1 (rowVec1 a9)))
      (spread1 (rowVec1 a10)))
    (broadcastInDim S100000x64 ![] bcast_S_S100000x64 (constant (F := Ideal) S_ .f32 0x00000000#32))

open Cert.LibHostBroadcast in
/-- A spread vector at (p, q) is the vector at q. -/
theorem spread1_apply (v : S64.Idx → EReal) (p : Fin 100000) (q : Fin 64) : spread1 v (ix2 p q) = v (ix1 q) :=
  vec_along_cols v bcast_S64_S1x64_1 bcast_S1x64_S100000x64_0_1 p q

/-- A relation-0 row of the argument at q is the argument at (0, q). -/
theorem rowVec1_apply (a : S3x64.Idx → EReal) (q : Fin 64) : rowVec1 a (ix1 q) = a (ix2 (0 : Fin 3) q) := by
  unfold rowVec1
  rw [shapeCast_1a_a_apply]
  exact slice2_axis0_apply 0 a slices_S3x64_S1x64_0_0 (0 : Fin 1) q (0 : Fin 3) rfl

/-- A column's sum from the zero word. -/
def colSum (X : S100000x64.Idx → EReal) (q : Fin 64) : EReal :=
  Ideal.ofBits .f32 0x00000000#32 + ∑ p' : Fin 100000, X (ix2 p' q)

/-- A column's mean: its sum divided by the count's word. -/
def colMean (X : S100000x64.Idx → EReal) (q : Fin 64) : EReal :=
  Ideal.div (colSum X q) (Ideal.ofBits .f32 0x47C35000#32)

/-- The count less the correction, as a scalar: the count's word less the integer zero read as a float. -/
def cnt1 : EReal := Ideal.ofBits .f32 0x47C35000#32 - Scalar.sitofp (F := Ideal) .f32 (0#32 : BitVec 32)

/-- A column's variance as the outlined function yields it: where the count is positive, the column's sum of squared
    centred entries divided by the count; the not-a-number word's value otherwise. -/
def colVar (X : S100000x64.Idx → EReal) (q : Fin 64) : EReal :=
  Scalar.select (Scalar.cmpf (F := Ideal) .ogt cnt1 (Ideal.ofBits .f32 0x00000000#32))
    (Ideal.div (Ideal.ofBits .f32 0x00000000#32 + ∑ p' : Fin 100000, (X (ix2 p' q) - colMean X q) * (X (ix2 p' q) - colMean X q)) cnt1)
    (Ideal.ofBits .f32 0x7FC00000#32)

/-- The host's sum down the rows, from the zero word, at column q. -/
theorem reduce0_apply (X : S100000x64.Idx → EReal) (q : Fin 64) :
    Host.reduceAdd (F := Ideal) X (constant (F := Ideal) S_ .f32 0x00000000#32) reducesTo_S100000x64_S64_d0 h_S_ (ix1 q) = colSum X q := by
  refine (hostReduceAdd_apply X _ reducesTo_S100000x64_S64_d0 h_S_ (ix1 q)).trans ?_
  refine (Ideal.hostReduceAdd_single reducesTo_S100000x64_S64_d0 (by decide) X _ (ix1 q)).trans ?_
  unfold colSum
  rw [constant_apply]
  refine congrArg _ (Finset.sum_congr rfl fun k _ => congrArg X (funext fun a => Fin.ext ?_))
  match a with
  | ⟨0, _⟩ => rfl
  | ⟨1, _⟩ => rfl

theorem refMeanVec_apply (X : S100000x64.Idx → EReal) (q : Fin 64) : refMeanVec X (ix1 q) = colMean X q := by
  unfold refMeanVec colMean
  rw [hostDivf_apply, reduce0_apply, broadcastInDim_scalar_apply, constant_apply]

theorem refCount_apply : refCount ix0 = cnt1 := rfl

open Cert.LibHostBroadcast in
theorem refCentred_apply (X : S100000x64.Idx → EReal) (p : Fin 100000) (q : Fin 64) :
    refCentred X (ix2 p q) = X (ix2 p q) - colMean X q := by
  unfold refCentred colMean
  rw [subf_apply, row_to_mat, hostDivf_apply, vec_to_row, reduce0_apply, broadcastInDim_scalar_apply, constant_apply]

theorem refVarVec_apply (X : S100000x64.Idx → EReal) (q : Fin 64) : refVarVec X (ix1 q) = colVar X q := by
  unfold refVarVec colVar
  rw [select_apply, broadcastInDim_scalar_apply, broadcastInDim_scalar_apply, hostDivf_apply, reduce0_apply, broadcastInDim_scalar_apply,
    cmpf_apply, refCount_apply, constant_apply]
  unfold colSum
  simp only [mulf_apply, refCentred_apply]
  rfl

/-- THE STAGE AT (p, q). -/
theorem refBn_apply (X : S100000x64.Idx → EReal) (a9 a10 : S3x64.Idx → EReal) (p : Fin 100000) (q : Fin 64) :
    refBn X a9 a10 (ix2 p q)
      = max (((X (ix2 p q) - colMean X q) * Ideal.rsqrt (colVar X q + Ideal.ofBits .f32 0x3727C5AC#32)) * a9 (ix2 (0 : Fin 3) q)
          + a10 (ix2 (0 : Fin 3) q)) 0 := by
  unfold refBn
  rw [maximumf_apply, addf_apply, mulf_apply, mulf_apply, subf_apply, spread1_apply, spread1_apply, spread1_apply, spread1_apply,
    rowVec1_apply, rowVec1_apply, refMeanVec_apply, broadcastInDim_scalar_apply, constant_apply]
  show max (_ * Ideal.rsqrt (addf (F := Ideal) (refVarVec X) _ (ix1 q)) * _ + _) _ = _
  rw [addf_apply, refVarVec_apply, broadcastInDim_scalar_apply, constant_apply, Ideal.ofBits_zero_f32]

/-- The count's word is 100000. -/
theorem ofBits_count1 : Ideal.ofBits .f32 0x47C35000#32 = ((100000 : ℝ) : EReal) := by
  simp [Ideal.ofBits, Ideal.ieee, -EReal.coe_mul]; norm_num

/-- The count less the correction is 100000: the correction is the integer zero. -/
theorem cnt1_eq : cnt1 = ((100000 : ℝ) : EReal) := by
  unfold cnt1
  rw [ofBits_count1, Ideal.scalar_sitofp_def]
  simp

/-- The count is positive, so a column's variance is its sum of squared centred entries over 100000. -/
theorem colVar_eq (X : S100000x64.Idx → EReal) (q : Fin 64) :
    colVar X q = Ideal.div (Ideal.ofBits .f32 0x00000000#32 + ∑ p' : Fin 100000, (X (ix2 p' q) - colMean X q) * (X (ix2 p' q) - colMean X q)) ((100000 : ℝ) : EReal) := by
  unfold colVar
  rw [cnt1_eq, Ideal.scalar_cmpf_def, Ideal.ofBits_zero_f32]
  have h : Ideal.cmp .ogt ((100000 : ℝ) : EReal) 0 = 1#1 := by
    unfold Ideal.cmp
    have : (0 : EReal) < ((100000 : ℝ) : EReal) := by exact_mod_cast (by norm_num : (0 : ℝ) < 100000)
    simp [this]
  rw [h, select_one]

/-- A column's mean is its sum over 100000. -/
theorem colMean_eq (X : S100000x64.Idx → EReal) (q : Fin 64) :
    colMean X q = Ideal.div (∑ p' : Fin 100000, X (ix2 p' q)) ((100000 : ℝ) : EReal) := by
  unfold colMean colSum
  rw [ofBits_count1, Ideal.ofBits_zero_f32, zero_add]

/-- The window's operations up to the mix write neither the scale argument nor the bias argument. -/
theorem ops1_take6_keeps (V : Valuation τ sig (Elt Ideal)) (r : Ref sig .tc) (hr : r ∉ (ops1_W : List (Ref sig .tc))) :
    after ((ops1 (F := Ideal)).take 6) V (Proc.devRef .tc r) = V (Proc.devRef .tc r) :=
  after_of_writes_sub (W := ops1_W) _ V
    (List.forall_iff_forall_mem.mpr fun op hop => List.forall_iff_forall_mem.mp ops1_writes op (List.mem_of_mem_take hop)) hr

set_option maxHeartbeats 4000000 in
/-- The reference's normalised array of relation 0, layer 1, is that composition of the mixed array the operations up to
    the mix leave and of the scale and bias arguments, from any contents before the window. The window is cut after the mix. -/
theorem ref_bn1 (V : Valuation τ sig (Elt Ideal)) :
    (after (ops1 (F := Ideal)) V (main_v78 : DevRef τ sig) : S100000x64.Idx → EReal)
      = refBn (after (ops1 (F := Ideal)) V (main_v54 : DevRef τ sig)) (V (main_arg9 : DevRef τ sig)) (V (main_arg10 : DevRef τ sig)) := by
  rw [← ops1_take6_keeps V main_arg9 (by decide), ← ops1_take6_keeps V main_arg10 (by decide),
    ← List.take_append_drop 6 (ops1 (F := Ideal)), after_append]
  simp only [List.take_append_drop]
  generalize after ((ops1 (F := Ideal)).take 6) V = R'
  dsimp only [ops1]
  simp only [List.drop_succ_cons, List.drop_zero]
  after_results_simp
  rfl

/-- The reference's normalise-and-cut-off of relation 0, layer 1, at (p, q), with the mixed array and the two arguments
    named: the entry less its column's mean, times the reciprocal square root of the column's variance plus the small
    constant, times the scale at q, plus the bias at q, cut off below at 0. -/
theorem ref_bn1_at (V : Valuation τ sig (Elt Ideal)) (X : S100000x64.Idx → EReal) (a9 a10 : S3x64.Idx → EReal)
    (hX : (after (ops1 (F := Ideal)) V (main_v54 : DevRef τ sig) : S100000x64.Idx → EReal) = X)
    (h9 : (V (main_arg9 : DevRef τ sig) : S3x64.Idx → EReal) = a9) (h10 : (V (main_arg10 : DevRef τ sig) : S3x64.Idx → EReal) = a10)
    (p : Fin 100000) (q : Fin 64) :
    (after (ops1 (F := Ideal)) V (main_v78 : DevRef τ sig) : S100000x64.Idx → EReal) (ix2 p q)
      = max (((X (ix2 p q) - colMean X q) * Ideal.rsqrt (colVar X q + Ideal.ofBits .f32 0x3727C5AC#32)) * a9 (ix2 (0 : Fin 3) q)
          + a10 (ix2 (0 : Fin 3) q)) 0 := by
  rw [ref_bn1, hX, h9, h10, refBn_apply]

end Cert.ReferenceIdeal.RefRun

end
-- ==== Proof.KIStageBn1Glue.lean ====
/-
  The normalise stage of relation 0, layer 1: the scale row and the shift row, in both programs.

  Both programs take row 0 of the scale argument and of the shift argument as a vector of 64 entries. The kernel program
  then reshapes each vector to a 1×64 row for its normalise region; the reference broadcasts each along axis 1 to a
  1×64 row. A vector reshaped to one row and the same vector broadcast to one row are the same array, so when the two
  memories agree on the two arguments the kernel program's rows are the reference's vectors broadcast.
-/
import proofs.«140713_j1864015806535_2_alg».proof.Proof.KIFrameBase
import proofs.«140713_j1864015806535_2_alg».proof.Proof.RefFrame
import proofs.«140713_j1864015806535_2_alg».proof.Proof.LibAffineStage
import Idealize.ShloMosaic.Lib.StableHlo.Run
import Idealize.ShloMosaic.PureOps.Ideal.Laws

set_option maxRecDepth 65536

noncomputable section

namespace Cert.Proof.Value
open Idealize.ShloMosaic
/-- Row 0 of a 3×64 argument, as a vector of 64 entries. -/
def bnVec1 (a : (⟨2, ![3, 64]⟩ : Shape).Idx → EReal)
    (hs : (⟨2, ![3, 64]⟩ : Shape).Slices ![0, 0] ⟨2, ![1, 64]⟩) (hc : (⟨2, ![1, 64]⟩ : Shape).ShapeCasts ⟨1, ![64]⟩) :
    (⟨1, ![64]⟩ : Shape).Idx → EReal :=
  shapeCast ⟨1, ![64]⟩ (extractStridedSlice ⟨2, ![1, 64]⟩ ![0, 0] a hs) hc
end Cert.Proof.Value

namespace Cert.ReferenceIdeal.RefRun
open Cert.ReferenceIdeal Cert.ReferenceIdeal.Gen Idealize.ShloMosaic Idealize.ShloMosaic.TcCoe Idealize.SL.Sem Idealize.ShloMosaic.StableHlo

set_option maxHeartbeats 4000000 in
/-- The reference's scale vector of relation 0, layer 1, from any contents before its window. -/
theorem ref_scale1 (V : Valuation τ sig (Elt Ideal)) :
    (after (ops1 (F := Ideal)) V (main_v56 : DevRef τ sig) : S64.Idx → EReal)
      = Cert.Proof.Value.bnVec1 (V (main_arg9 : DevRef τ sig)) slices_S3x64_S1x64_0_0 shapeCasts_S1x64_S64 := by
  dsimp only [ops1]
  after_results
  rfl

set_option maxHeartbeats 4000000 in
/-- The reference's shift vector of relation 0, layer 1, from any contents before its window. -/
theorem ref_shift1 (V : Valuation τ sig (Elt Ideal)) :
    (after (ops1 (F := Ideal)) V (main_v58 : DevRef τ sig) : S64.Idx → EReal)
      = Cert.Proof.Value.bnVec1 (V (main_arg10 : DevRef τ sig)) slices_S3x64_S1x64_0_0 shapeCasts_S1x64_S64 := by
  dsimp only [ops1]
  after_results
  rfl
end Cert.ReferenceIdeal.RefRun

namespace Cert.KernelIdeal.Body
open Cert.KernelIdeal Cert.KernelIdeal.Gen Idealize.ShloMosaic Idealize.ShloMosaic.TcCoe Idealize.SL.Sem Idealize.ShloMosaic.StableHlo
variable (m : (ℓ : Loc nD τ sig) → Buf (Elt Ideal) ℓ)

/-- The scale argument reaches the host stretch after region 0 as launched. -/
theorem W2_main_arg9 (c : Dev nD) : W2 (F := Ideal) m c main_arg9 = m ((c.tc : Thread nD τ).loc main_arg9) :=
  (congrFun (hV2 m c) _).symm.trans <|
    (GenP.V2_of m (outs m) c main_arg9 (by decide)).trans <| (GenP.V1_of m c main_arg9 (by decide)).trans rfl

/-- The shift argument reaches the host stretch after region 0 as launched. -/
theorem W2_main_arg10 (c : Dev nD) : W2 (F := Ideal) m c main_arg10 = m ((c.tc : Thread nD τ).loc main_arg10) :=
  (congrFun (hV2 m c) _).symm.trans <|
    (GenP.V2_of m (outs m) c main_arg10 (by decide)).trans <| (GenP.V1_of m c main_arg10 (by decide)).trans rfl

set_option maxHeartbeats 4000000 in
/-- The stretch after region 0 leaves the scale vector: row 0 of the scale argument. -/
theorem host_scale1 (V : Valuation τ sig (Elt Ideal)) :
    (after (hostOps1 (F := Ideal)) V (main_v48 : DevRef τ sig) : S64.Idx → EReal)
      = Cert.Proof.Value.bnVec1 (V (main_arg9 : DevRef τ sig)) slices_S3x64_S1x64_0_0 shapeCasts_S1x64_S64 := by
  dsimp only [hostOps1]
  after_results
  rfl

set_option maxHeartbeats 4000000 in
/-- The stretch after region 0 leaves the shift vector: row 0 of the shift argument. -/
theorem host_shift1 (V : Valuation τ sig (Elt Ideal)) :
    (after (hostOps1 (F := Ideal)) V (main_v50 : DevRef τ sig) : S64.Idx → EReal)
      = Cert.Proof.Value.bnVec1 (V (main_arg10 : DevRef τ sig)) slices_S3x64_S1x64_0_0 shapeCasts_S1x64_S64 := by
  dsimp only [hostOps1]
  after_results
  rfl

set_option maxHeartbeats 4000000 in
/-- The stretch before the normalise region reshapes the scale vector to a row. -/
theorem host_scaleRow1 (V : Valuation τ sig (Elt Ideal)) :
    (after (hostOps2 (F := Ideal)) V (main_v59 : DevRef τ sig) : S1x64.Idx → EReal)
      = shapeCast S1x64 (V (main_v48 : DevRef τ sig) : S64.Idx → EReal) shapeCasts_S64_S1x64 := by
  dsimp only [hostOps2]
  after_results
  rfl

set_option maxHeartbeats 4000000 in
/-- The stretch before the normalise region reshapes the shift vector to a row. -/
theorem host_shiftRow1 (V : Valuation τ sig (Elt Ideal)) :
    (after (hostOps2 (F := Ideal)) V (main_v60 : DevRef τ sig) : S1x64.Idx → EReal)
      = shapeCast S1x64 (V (main_v50 : DevRef τ sig) : S64.Idx → EReal) shapeCasts_S64_S1x64 := by
  dsimp only [hostOps2]
  after_results
  rfl

/-- The aggregation region between the two stretches leaves the scale vector as it was. -/
theorem W4_main_v48 (c : Dev nD) : W4 (F := Ideal) m c main_v48 = W3 (F := Ideal) m c main_v48 :=
  (congrFun (hV4 m c) _).symm.trans <| (GenP.V4_of m (outs m) c main_v48 (by decide)).trans (congrFun (hV3 m c) _)

/-- The aggregation region between the two stretches leaves the shift vector as it was. -/
theorem W4_main_v50 (c : Dev nD) : W4 (F := Ideal) m c main_v50 = W3 (F := Ideal) m c main_v50 :=
  (congrFun (hV4 m c) _).symm.trans <| (GenP.V4_of m (outs m) c main_v50 (by decide)).trans (congrFun (hV3 m c) _)

/-- The kernel program's scale row at the normalise region: row 0 of the scale argument, broadcast to a 1×64 row. -/
theorem ker_scaleRow1 (c : Dev nD) (hb : S64.BroadcastsInDim S1x64 (![1] : Fin 1 → Fin S1x64.rank)) :
    (W5 (F := Ideal) m c main_v59 : S1x64.Idx → EReal)
      = broadcastInDim S1x64 ![1] hb (Cert.Proof.Value.bnVec1 (m ((c.tc : Thread nD τ).loc main_arg9)) slices_S3x64_S1x64_0_0 shapeCasts_S1x64_S64) := by
  refine (host_scaleRow1 (W4 m c)).trans ?_
  rw [W4_main_v48, show (W3 (F := Ideal) m c main_v48 : S64.Idx → EReal) = _ from host_scale1 (W2 m c), W2_main_arg9]
  exact Cert.LibAffineStage.reshape_row_eq_broadcast_row 64 _ shapeCasts_S64_S1x64 hb

/-- The kernel program's shift row at the normalise region: row 0 of the shift argument, broadcast to a 1×64 row. -/
theorem ker_shiftRow1 (c : Dev nD) (hb : S64.BroadcastsInDim S1x64 (![1] : Fin 1 → Fin S1x64.rank)) :
    (W5 (F := Ideal) m c main_v60 : S1x64.Idx → EReal)
      = broadcastInDim S1x64 ![1] hb (Cert.Proof.Value.bnVec1 (m ((c.tc : Thread nD τ).loc main_arg10)) slices_S3x64_S1x64_0_0 shapeCasts_S1x64_S64) := by
  refine (host_shiftRow1 (W4 m c)).trans ?_
  rw [W4_main_v50, show (W3 (F := Ideal) m c main_v50 : S64.Idx → EReal) = _ from host_shift1 (W2 m c), W2_main_arg10]
  exact Cert.LibAffineStage.reshape_row_eq_broadcast_row 64 _ shapeCasts_S64_S1x64 hb
end Cert.KernelIdeal.Body

namespace Cert.Proof.Value
open Idealize.ShloMosaic Idealize.ShloMosaic.TcCoe Idealize.SL.Sem Idealize.ShloMosaic.StableHlo

/-- The kernel program's scale row at the normalise region of relation 0, layer 1 is the reference's scale vector
    broadcast to a row, from any contents before the reference's window that agree with the kernel program's launch
    memory on the scale argument. -/
theorem bn1_scale_glue
    (m : (ℓ : Loc Cert.KernelIdeal.nD Cert.KernelIdeal.τ Cert.KernelIdeal.sig) → Buf (Elt Ideal) ℓ)
    (V : Valuation Cert.ReferenceIdeal.τ Cert.ReferenceIdeal.sig (Elt Ideal))
    (c : Dev Cert.KernelIdeal.nD)
    (h9 : V (Proc.devRef .tc Cert.ReferenceIdeal.main_arg9) = m ((c.tc : Thread Cert.KernelIdeal.nD Cert.KernelIdeal.τ).loc Cert.KernelIdeal.main_arg9)) :
    (Cert.KernelIdeal.Body.W5 (F := Ideal) m c Cert.KernelIdeal.main_v59 : (⟨2, ![1, 64]⟩ : Shape).Idx → EReal)
      = broadcastInDim ⟨2, ![1, 64]⟩ ![1] Cert.ReferenceIdeal.Gen.bcast_S64_S1x64_1
          (after (Cert.ReferenceIdeal.RefRun.ops1 (F := Ideal)) V (Cert.ReferenceIdeal.main_v56 : DevRef Cert.ReferenceIdeal.τ Cert.ReferenceIdeal.sig) : (⟨1, ![64]⟩ : Shape).Idx → EReal) := by
  rw [Cert.ReferenceIdeal.RefRun.ref_scale1, Cert.KernelIdeal.Body.ker_scaleRow1 m c Cert.ReferenceIdeal.Gen.bcast_S64_S1x64_1, h9]

/-- The same for the shift row and the shift argument. -/
theorem bn1_shift_glue
    (m : (ℓ : Loc Cert.KernelIdeal.nD Cert.KernelIdeal.τ Cert.KernelIdeal.sig) → Buf (Elt Ideal) ℓ)
    (V : Valuation Cert.ReferenceIdeal.τ Cert.ReferenceIdeal.sig (Elt Ideal))
    (c : Dev Cert.KernelIdeal.nD)
    (h10 : V (Proc.devRef .tc Cert.ReferenceIdeal.main_arg10) = m ((c.tc : Thread Cert.KernelIdeal.nD Cert.KernelIdeal.τ).loc Cert.KernelIdeal.main_arg10)) :
    (Cert.KernelIdeal.Body.W5 (F := Ideal) m c Cert.KernelIdeal.main_v60 : (⟨2, ![1, 64]⟩ : Shape).Idx → EReal)
      = broadcastInDim ⟨2, ![1, 64]⟩ ![1] Cert.ReferenceIdeal.Gen.bcast_S64_S1x64_1
          (after (Cert.ReferenceIdeal.RefRun.ops1 (F := Ideal)) V (Cert.ReferenceIdeal.main_v58 : DevRef Cert.ReferenceIdeal.τ Cert.ReferenceIdeal.sig) : (⟨1, ![64]⟩ : Shape).Idx → EReal) := by
  rw [Cert.ReferenceIdeal.RefRun.ref_shift1, Cert.KernelIdeal.Body.ker_shiftRow1 m c Cert.ReferenceIdeal.Gen.bcast_S64_S1x64_1, h10]

end Cert.Proof.Value

end
-- ==== Proof.LibRealArrays.lean ====
/-
  Arrays of real entries stay arrays of real entries.

  An array over the extended reals is "all real" when each of its entries is the image of a real number. This file
  carries that property through the operations of a program over the extended reals, for arbitrary extents:
  * the dense layer x·w + b of all-real x, w, b is all real;
  * entrywise sums, differences, products, maxima and negations of all-real arrays are all real, and so is a constant
    array of a real literal (the words of 0, 1 and 100000 in the 32-bit format are real);
  * an array each of whose entries is an entry of an all-real array is all real: broadcasts, row-major reshapes,
    slices and gathers;
  * the host's accumulating scatter of all-real updates into an all-real array, the host's float sum of an all-real
    array from a real initial value, the host's quotient by a constant array of a nonzero real, and the host's
    reciprocal square root of an all-real array cut off at 1 from below are all real;
  * an array x for which "all of |x| < +infinity", printed as a reduction by "and" of the entrywise comparison against
    the word of +infinity, is 1, is all real.
-/
import Idealize.ShloMosaic.PureOps.Ideal.Laws
import Idealize.ShloMosaic.Lib.ValueIdx
import Idealize.ShloMosaic.Lib.Pipeline.Value
import Idealize.ShloMosaic.Lib.ValueLayout
import Idealize.ShloMosaic.Lib.ReduceAll
import proofs.«140713_j1864015806535_2_alg».proof.Proof.LibRealEntries
import proofs.«140713_j1864015806535_2_alg».proof.Proof.LibAffineStage

noncomputable section

namespace Cert.LibRealArrays

open Idealize.ShloMosaic Idealize.ShloMosaic.ValueIdx Cert.LibRealEntries Cert.LibAffineStage

/-- Every entry of the array is (the image of) a real number. -/
def AllReal {S : Shape} (x : S.Idx → EReal) : Prop := ∀ i, IsReal (x i)

/-! ## Entries read from an all-real array -/

/-- An array each of whose entries is some entry of an all-real array is all real. -/
theorem AllReal.of_entries {S T : Shape} {x : S.Idx → EReal} (hx : AllReal x) {y : T.Idx → EReal}
    (h : ∀ j, ∃ i, y j = x i) : AllReal y := by
  intro j; obtain ⟨i, e⟩ := h j; rw [e]; exact hx i

/-- Reading an all-real array through any index map gives an all-real array. -/
theorem AllReal.comp {S T : Shape} {x : S.Idx → EReal} (hx : AllReal x) (f : T.Idx → S.Idx) :
    AllReal (fun j => x (f j)) := fun j => hx (f j)

theorem AllReal.broadcastInDim {S T : Shape} {x : S.Idx → EReal} (hx : AllReal x) (dims : Fin S.rank → Fin T.rank)
    (h : S.BroadcastsInDim T dims) : AllReal (broadcastInDim T dims h x) := fun _ => hx _

theorem AllReal.broadcastTo {S T : Shape} {x : S.Idx → EReal} (hx : AllReal x) (h : S.Broadcasts T) :
    AllReal (broadcastTo T x h) := fun _ => hx _

theorem AllReal.shapeCast {S T : Shape} {x : S.Idx → EReal} (hx : AllReal x) (h : S.ShapeCasts T) :
    AllReal (shapeCast T x h) := fun _ => hx _

theorem AllReal.extractStridedSlice {S T : Shape} {x : S.Idx → EReal} (hx : AllReal x) (off : Fin S.rank → Nat)
    (h : S.Slices off T) : AllReal (extractStridedSlice T off x h) := fun _ => hx _

theorem AllReal.gather {S SI T : Shape} {w : Nat} {x : S.Idx → EReal} (hx : AllReal x) (d : GatherDims S SI T)
    (idx : IVec SI w) : AllReal (Host.gather d x idx) := fun _ => hx _

/-- A constant array of a real value is all real. -/
theorem AllReal.broadcast {T : Shape} {v : EReal} (hv : IsReal v) : AllReal (broadcast T v) := fun _ => hv

/-! ## Entrywise operations -/

section Pointwise
variable {S : Shape} {φ : FTy}

theorem AllReal.addf {x y : FVec Ideal S φ} (hx : AllReal x) (hy : AllReal y) : AllReal (addf x y) :=
  fun i => by rw [addf_apply]; exact (hx i).add (hy i)

theorem AllReal.subf {x y : FVec Ideal S φ} (hx : AllReal x) (hy : AllReal y) : AllReal (subf x y) :=
  fun i => by rw [subf_apply]; exact (hx i).sub (hy i)

theorem AllReal.mulf {x y : FVec Ideal S φ} (hx : AllReal x) (hy : AllReal y) : AllReal (mulf x y) :=
  fun i => by rw [mulf_apply]; exact (hx i).mul (hy i)

theorem AllReal.maximumf {x y : FVec Ideal S φ} (hx : AllReal x) (hy : AllReal y) : AllReal (maximumf x y) :=
  fun i => by rw [maximumf_apply]; exact (hx i).max (hy i)

theorem AllReal.negf {x : FVec Ideal S φ} (hx : AllReal x) : AllReal (negf x) :=
  fun i => by rw [negf_apply]; exact (hx i).neg

/-- A constant array of a word that denotes a real is all real. -/
theorem AllReal.constant (b : BitVec φ.bits) (hb : IsReal (Ideal.ofBits φ b)) :
    AllReal (constant (F := Ideal) S φ b) := fun _ => hb

end Pointwise

/-- The 32-bit word of zero denotes 0. -/
theorem isReal_ofBits_zero_f32 : IsReal (Ideal.ofBits .f32 0x00000000#32) := by
  rw [Ideal.ofBits_zero_f32]; exact isReal_zero

/-- The constant array of the 32-bit word of zero is all real. -/
theorem allReal_constant_zero_f32 (S : Shape) : AllReal (constant (F := Ideal) S .f32 0x00000000#32) :=
  AllReal.constant _ isReal_ofBits_zero_f32

/-! ## The dense layer -/

/-- x·w + b of all-real arrays is all real. -/
theorem AllReal.affine (M K N : Nat) {x : FVec Ideal ⟨2, ![M, K]⟩ .f32} {w : FVec Ideal ⟨2, ![K, N]⟩ .f32}
    {b : FVec Ideal ⟨2, ![1, N]⟩ .f32} (hx : AllReal x) (hw : AllReal w) (hb : AllReal b) :
    AllReal (affine M K N x w b) := by
  intro i
  obtain ⟨a, c, rfl⟩ : ∃ (a : Fin M) (c : Fin N), i = ix2 a c := ⟨i 0, i 1, eq_ix2 i⟩
  rw [affine_apply]
  exact (sum_mul_isReal _ _ (fun k => hx _) (fun k => hw _)).add (hb _)

/-! ## The host's operations -/

section HostOps
variable {S : Shape} {φ : FTy}

/-- The host's accumulating scatter of all-real updates into an all-real array is all real. -/
theorem AllReal.scatterAdd {SI SU : Shape} {w : Nat} (d : ScatterDims S SI SU) {x : FVec Ideal S φ} (idx : IVec SI w)
    {upd : FVec Ideal SU φ} (hx : AllReal x) (hu : AllReal upd) : AllReal (Host.scatterAdd (F := Ideal) d x idx upd) := by
  intro i
  unfold Host.scatterAdd
  rw [Ideal.hostScatterAdd_def]
  exact hostScatterAdd_isReal d x idx upd hx hu i

/-- The host's float sum of an all-real array from an all-real initial value is all real. -/
theorem AllReal.reduceAdd {axes : List (Fin S.rank)} {T U : Shape} {x : FVec Ideal S φ} {init : U.Idx → Ideal φ}
    (hx : AllReal x) (hinit : AllReal init) (h : S.ReducesTo axes T) (hu : 0 < U.numel) :
    AllReal (Host.reduceAdd (F := Ideal) x init h hu) := by
  intro j
  unfold Host.reduceAdd
  rw [Ideal.hostReduceAdd_def]
  exact hostReduceAdd_isReal h x _ (hinit _) hx j

/-- The host's quotient of an all-real array by an array whose entries are one nonzero real is all real. -/
theorem AllReal.hostDivf_const {x y : FVec Ideal S φ} (hx : AllReal x) {r : ℝ} (hr : r ≠ 0) (hy : ∀ i, y i = (r : EReal)) :
    AllReal (Host.divf x y) := by
  intro i
  show IsReal (FloatOps.hostDivf (x i) (y i))
  rw [Ideal.hostDivf_def, hy i]
  exact (hx i).div_coe hr

/-- The host's reciprocal square root of the entrywise maximum of an all-real array and 1 is all real. -/
theorem AllReal.hostRsqrt_max_one {x y : FVec Ideal S φ} (hx : AllReal x) (hy : ∀ i, y i = 1) :
    AllReal (Host.rsqrt (Idealize.ShloMosaic.maximumf x y)) := by
  intro i
  show IsReal (FloatOps.hostUnary .rsqrt (Idealize.ShloMosaic.maximumf x y i))
  rw [Ideal.hostUnary_rsqrt_def, maximumf_apply, hy i]
  exact isReal_rsqrt_max_one (hx i)

end HostOps

/-! ## From "all of |x| < +infinity" -/

/-- The 32-bit word 0x7F800000 denotes +infinity. -/
theorem ofBits_inf_f32 : Ideal.ofBits .f32 0x7F800000#32 = ⊤ := by simp [Ideal.ofBits, Ideal.ieee]

/-- An extended real whose absolute value compares below +infinity is real. -/
theorem isReal_of_abs_lt_inf {x : EReal}
    (h : Ideal.cmp .olt (max x (-x)) (Ideal.ofBits .f32 0x7F800000#32) = 1#1) : IsReal x := by
  rw [ofBits_inf_f32] at h
  have hlt : max x (-x) < ⊤ := by
    by_contra hn
    simp [Ideal.cmp, hn] at h
  refine isReal_of_ne ?_ ?_
  · rintro rfl; simp at hlt
  · rintro rfl; simp at hlt

/-- An array whose printed "all of |x| < +infinity" is 1 is all real. -/
theorem allReal_of_all_abs_lt_inf {S T0 U : Shape} [Subsingleton T0.Idx] {axes : List (Fin S.rank)}
    (x : FVec Ideal S .f32) (inf : FVec Ideal S .f32) (hinf : ∀ i, inf i = Ideal.ofBits .f32 0x7F800000#32)
    (init : IVec U 1) (h : S.ReducesTo axes T0) (hu : 0 < U.numel) (j : T0.Idx)
    (e : Host.reduce IntOp.andi (cmpf .olt (Host.absf x) inf) init h hu j = 1#1) : AllReal x := by
  intro i
  have hi := Host.reduce_andi_all _ init h hu j e i
  apply isReal_of_abs_lt_inf
  rw [← hinf i]
  exact hi

/-! ## Literals of the 32-bit format -/

/-- The 32-bit word 0x3F800000 denotes 1. -/
theorem ofBits_one_f32 : Ideal.ofBits .f32 0x3F800000#32 = 1 := by
  simp [Ideal.ofBits, Ideal.ieee]
  rw [← EReal.coe_mul, ← EReal.coe_one]
  congr 1
  norm_num

/-- The 32-bit word 0x47C35000 denotes 100000. -/
theorem ofBits_1e5_f32 : Ideal.ofBits .f32 0x47C35000#32 = ((100000 : ℝ) : EReal) := by
  simp [Ideal.ofBits, Ideal.ieee]
  rw [← EReal.coe_mul]
  congr 1
  norm_num

/-- The 32-bit word 0x3727C5AC (the float nearest 1e-5) denotes a positive real. -/
theorem ofBits_eps_f32 : ∃ e : ℝ, 0 < e ∧ Ideal.ofBits .f32 0x3727C5AC#32 = (e : EReal) := by
  refine ⟨10995116 * ((2 : ℝ) ^ 40)⁻¹, by positivity, ?_⟩
  simp [Ideal.ofBits, Ideal.ieee]

theorem isReal_ofBits_one_f32 : IsReal (Ideal.ofBits .f32 0x3F800000#32) := by
  rw [ofBits_one_f32]; exact isReal_one

theorem isReal_ofBits_1e5_f32 : IsReal (Ideal.ofBits .f32 0x47C35000#32) := ⟨100000, ofBits_1e5_f32⟩

theorem isReal_ofBits_eps_f32 : IsReal (Ideal.ofBits .f32 0x3727C5AC#32) := by
  obtain ⟨e, -, h⟩ := ofBits_eps_f32; exact ⟨e, h⟩

/-- Every entry of a broadcast of a constant array is the constant's value. -/
theorem broadcastInDim_constant_apply {S T : Shape} {φ : FTy} (dims : Fin S.rank → Fin T.rank) (h : S.BroadcastsInDim T dims)
    (b : BitVec φ.bits) (j : T.Idx) :
    Idealize.ShloMosaic.broadcastInDim T dims h (Idealize.ShloMosaic.constant (F := Ideal) S φ b) j = Ideal.ofBits φ b := rfl

/-- A broadcast of a constant array of a word that denotes a real is all real. -/
theorem allReal_broadcastInDim_constant {S T : Shape} {φ : FTy} (dims : Fin S.rank → Fin T.rank) (h : S.BroadcastsInDim T dims)
    (b : BitVec φ.bits) (hb : IsReal (Ideal.ofBits φ b)) :
    AllReal (Idealize.ShloMosaic.broadcastInDim T dims h (Idealize.ShloMosaic.constant (F := Ideal) S φ b)) := fun _ => hb

/-! ## The host's quotient and reciprocal square root against broadcast literals -/

section HostLiterals
variable {S0 S : Shape}

/-- The host's quotient of an all-real array by the broadcast of a constant whose word denotes a nonzero real. -/
theorem allReal_hostDivf_constant {φ : FTy} {x : FVec Ideal S φ} (hx : AllReal x) (dims : Fin S0.rank → Fin S.rank)
    (h : S0.BroadcastsInDim S dims) (b : BitVec φ.bits) {r : ℝ} (hr : r ≠ 0) (hb : Ideal.ofBits φ b = (r : EReal)) :
    AllReal (Host.divf x (Idealize.ShloMosaic.broadcastInDim S dims h (Idealize.ShloMosaic.constant (F := Ideal) S0 φ b))) :=
  AllReal.hostDivf_const hx hr fun _ => hb

/-- The host's quotient of an all-real array by the broadcast of the constant 100000. -/
theorem allReal_hostDivf_1e5 {x : FVec Ideal S .f32} (hx : AllReal x) (dims : Fin S0.rank → Fin S.rank)
    (h : S0.BroadcastsInDim S dims) :
    AllReal (Host.divf x (Idealize.ShloMosaic.broadcastInDim S dims h
      (Idealize.ShloMosaic.constant (F := Ideal) S0 .f32 0x47C35000#32))) :=
  allReal_hostDivf_constant hx dims h _ (by norm_num) ofBits_1e5_f32

/-- The host's reciprocal square root of the maximum of an all-real array and the broadcast of the constant 1. -/
theorem allReal_hostRsqrt_max_const_one {x : FVec Ideal S .f32} (hx : AllReal x) (dims : Fin S0.rank → Fin S.rank)
    (h : S0.BroadcastsInDim S dims) :
    AllReal (Host.rsqrt (Idealize.ShloMosaic.maximumf x (Idealize.ShloMosaic.broadcastInDim S dims h
      (Idealize.ShloMosaic.constant (F := Ideal) S0 .f32 0x3F800000#32)))) :=
  AllReal.hostRsqrt_max_one hx fun _ => ofBits_one_f32

end HostLiterals

/-! ## A vector unit's operations -/

section VectorOps
variable {S : Shape} {φ : FTy}

/-- A vector reduction by sum of an all-real array is all real. -/
theorem allReal_multiReduction_add {T : Shape} {axes : List (Fin S.rank)} {x : FVec Ideal S φ} (hx : AllReal x)
    (acc : BitVec φ.bits) (h : S.Reduces axes T) (hφ : FKind.Formats φ) (hacc : acc = FKind.add.neutral φ hφ) :
    AllReal (multiReduction .add axes T x acc h hφ hacc) := by
  intro j
  show IsReal (FloatOps.reduceAdd axes h x j)
  rw [Ideal.reduceAdd_def]
  exact reduceAdd_isReal h x hx j

/-- Narrowing or widening the float format is the identity on the extended reals. -/
theorem allReal_truncf {ψ : FTy} {x : FVec Ideal S φ} (hx : AllReal x) (h : ψ.bits < φ.bits) :
    AllReal (truncf ψ x h : FVec Ideal S ψ) := fun i => hx i

theorem allReal_extf {ψ : FTy} {x : FVec Ideal S φ} (hx : AllReal x) (h : φ.bits < ψ.bits) :
    AllReal (extf ψ x h : FVec Ideal S ψ) := fun i => hx i

/-- The reciprocal square root of a real cut off at 0 from below plus a positive real is real. -/
theorem isReal_rsqrt_max_zero_add_pos {x : EReal} (hx : IsReal x) {e : ℝ} (he : 0 < e) :
    IsReal (Ideal.rsqrt (max x 0 + (e : EReal))) := by
  obtain ⟨a, rfl⟩ := hx
  have h0 : max ((a : ℝ) : EReal) 0 = ((max a 0 : ℝ) : EReal) := by
    rcases le_total a 0 with h | h
    · rw [max_eq_right h, max_eq_right (by exact_mod_cast h)]; exact EReal.coe_zero.symm
    · rw [max_eq_left h, max_eq_left (by exact_mod_cast h)]
  rw [h0, ← EReal.coe_add]
  exact isReal_rsqrt_of_pos (add_pos_of_nonneg_of_pos (le_max_right a 0) he)

/-- The entrywise reciprocal square root of (max(x, 0) + e) for an all-real x and a positive real e is all real. -/
theorem allReal_rsqrt_max_zero_add_pos {x z e : FVec Ideal S φ} (hx : AllReal x) (hz : ∀ i, z i = 0) {ε : ℝ} (hε : 0 < ε)
    (he : ∀ i, e i = (ε : EReal)) :
    AllReal (Idealize.ShloMosaic.rsqrt (Idealize.ShloMosaic.addf (Idealize.ShloMosaic.maximumf x z) e)) := by
  intro i
  show IsReal (FloatOps.rsqrt (Idealize.ShloMosaic.addf (Idealize.ShloMosaic.maximumf x z) e i))
  rw [Ideal.rsqrt_def, addf_apply, maximumf_apply, hz i, he i]
  exact isReal_rsqrt_max_zero_add_pos (hx i) hε

end VectorOps

end Cert.LibRealArrays

end
-- ==== Proof.KIPreReal.lean ====
/-
  The float inputs are real.

  The precondition says that on every core "all of |x| < +infinity" holds of each of the eleven float argument arrays
  (the conjunction of eleven reductions by "and", read at the one index of a rank-0 result). Hence every entry of each
  of these arrays is a real number: neither infinity, nor the junk value at the bottom of the extended reals.
-/
import proofs.«140713_j1864015806535_2_alg».proof.Proof.KIFrameBase
import proofs.«140713_j1864015806535_2_alg».proof.Defs
import proofs.«140713_j1864015806535_2_alg».proof.Proof.Gen.Pre_finite_inputs
import proofs.«140713_j1864015806535_2_alg».proof.Proof.LibRealArrays
import Idealize.ShloMosaic.Lib.ReduceAll
import Idealize.ShloMosaic.Lib.ValueIdx

set_option maxRecDepth 16384

noncomputable section

namespace Cert.KernelIdeal.Body

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.LibRealArrays Cert.LibRealEntries

variable (m : (ℓ : Loc nD τ sig) → Buf (Elt Ideal) ℓ)

/-- The rank-0 shape has one index. -/
instance subsingleton_idx_rank0 : Subsingleton (Cert.Pre_finite_inputs.S_).Idx := ⟨fun a b => funext fun d => d.elim0⟩

/-- An entrywise "and" of one-bit arrays is 1 at an index exactly when both are 1 there. -/
theorem vec_andi_eq_one {s : Shape} (a b : IVec s 1) (i : s.Idx) : andi a b i = 1#1 ↔ a i = 1#1 ∧ b i = 1#1 :=
  IntOp.andi_eq_one

/-- On every core each of the eleven float inputs is all real: the precondition's conjunction, split, and each
    "all of |x| < +infinity" read entry by entry. -/
theorem inputs_allReal (hpre : Cert.Pre_KernelIdeal m) (c : Dev nD) :
    AllReal (m ((c.tc : Thread nD τ).loc main_arg0))
    ∧ AllReal (m ((c.tc : Thread nD τ).loc main_arg3))
    ∧ AllReal (m ((c.tc : Thread nD τ).loc main_arg4))
    ∧ AllReal (m ((c.tc : Thread nD τ).loc main_arg5))
    ∧ AllReal (m ((c.tc : Thread nD τ).loc main_arg6))
    ∧ AllReal (m ((c.tc : Thread nD τ).loc main_arg7))
    ∧ AllReal (m ((c.tc : Thread nD τ).loc main_arg8))
    ∧ AllReal (m ((c.tc : Thread nD τ).loc main_arg9))
    ∧ AllReal (m ((c.tc : Thread nD τ).loc main_arg10))
    ∧ AllReal (m ((c.tc : Thread nD τ).loc main_arg11))
    ∧ AllReal (m ((c.tc : Thread nD τ).loc main_arg12)) := by
  have h := congrFun (hpre c) ix0
  dsimp only [Cert.Pre_finite_inputs.fn, Cert.Pre_finite_inputs.fn_part1, Cert.Pre_finite_inputs.fn_part2,
    Cert.Pre_finite_inputs.fn_part3] at h
  obtain ⟨g12, h12⟩ := (vec_andi_eq_one _ _ _).1 h
  obtain ⟨g11, h11⟩ := (vec_andi_eq_one _ _ _).1 g12
  obtain ⟨g10, h10⟩ := (vec_andi_eq_one _ _ _).1 g11
  obtain ⟨g9, h9⟩ := (vec_andi_eq_one _ _ _).1 g10
  obtain ⟨g8, h8⟩ := (vec_andi_eq_one _ _ _).1 g9
  obtain ⟨g7, h7⟩ := (vec_andi_eq_one _ _ _).1 g8
  obtain ⟨g6, h6⟩ := (vec_andi_eq_one _ _ _).1 g7
  obtain ⟨g5, h5⟩ := (vec_andi_eq_one _ _ _).1 g6
  obtain ⟨g4, h4⟩ := (vec_andi_eq_one _ _ _).1 g5
  obtain ⟨h0, h3⟩ := (vec_andi_eq_one _ _ _).1 g4
  exact ⟨allReal_of_all_abs_lt_inf _ _ (fun _ => rfl) _ _ _ _ h0,
    allReal_of_all_abs_lt_inf _ _ (fun _ => rfl) _ _ _ _ h3,
    allReal_of_all_abs_lt_inf _ _ (fun _ => rfl) _ _ _ _ h4,
    allReal_of_all_abs_lt_inf _ _ (fun _ => rfl) _ _ _ _ h5,
    allReal_of_all_abs_lt_inf _ _ (fun _ => rfl) _ _ _ _ h6,
    allReal_of_all_abs_lt_inf _ _ (fun _ => rfl) _ _ _ _ h7,
    allReal_of_all_abs_lt_inf _ _ (fun _ => rfl) _ _ _ _ h8,
    allReal_of_all_abs_lt_inf _ _ (fun _ => rfl) _ _ _ _ h9,
    allReal_of_all_abs_lt_inf _ _ (fun _ => rfl) _ _ _ _ h10,
    allReal_of_all_abs_lt_inf _ _ (fun _ => rfl) _ _ _ _ h11,
    allReal_of_all_abs_lt_inf _ _ (fun _ => rfl) _ _ _ _ h12⟩

/-- Every entry of the float input main_arg0 is real, on every core. -/
theorem main_arg0_allReal (hpre : Cert.Pre_KernelIdeal m) (c : Dev nD) : AllReal (m ((c.tc : Thread nD τ).loc main_arg0)) :=
  (inputs_allReal m hpre c).1

/-- Every entry of the float input main_arg3 is real, on every core. -/
theorem main_arg3_allReal (hpre : Cert.Pre_KernelIdeal m) (c : Dev nD) : AllReal (m ((c.tc : Thread nD τ).loc main_arg3)) :=
  (inputs_allReal m hpre c).2.1

/-- Every entry of the float input main_arg4 is real, on every core. -/
theorem main_arg4_allReal (hpre : Cert.Pre_KernelIdeal m) (c : Dev nD) : AllReal (m ((c.tc : Thread nD τ).loc main_arg4)) :=
  (inputs_allReal m hpre c).2.2.1

/-- Every entry of the float input main_arg5 is real, on every core. -/
theorem main_arg5_allReal (hpre : Cert.Pre_KernelIdeal m) (c : Dev nD) : AllReal (m ((c.tc : Thread nD τ).loc main_arg5)) :=
  (inputs_allReal m hpre c).2.2.2.1

/-- Every entry of the float input main_arg6 is real, on every core. -/
theorem main_arg6_allReal (hpre : Cert.Pre_KernelIdeal m) (c : Dev nD) : AllReal (m ((c.tc : Thread nD τ).loc main_arg6)) :=
  (inputs_allReal m hpre c).2.2.2.2.1

/-- Every entry of the float input main_arg7 is real, on every core. -/
theorem main_arg7_allReal (hpre : Cert.Pre_KernelIdeal m) (c : Dev nD) : AllReal (m ((c.tc : Thread nD τ).loc main_arg7)) :=
  (inputs_allReal m hpre c).2.2.2.2.2.1

/-- Every entry of the float input main_arg8 is real, on every core. -/
theorem main_arg8_allReal (hpre : Cert.Pre_KernelIdeal m) (c : Dev nD) : AllReal (m ((c.tc : Thread nD τ).loc main_arg8)) :=
  (inputs_allReal m hpre c).2.2.2.2.2.2.1

/-- Every entry of the float input main_arg9 is real, on every core. -/
theorem main_arg9_allReal (hpre : Cert.Pre_KernelIdeal m) (c : Dev nD) : AllReal (m ((c.tc : Thread nD τ).loc main_arg9)) :=
  (inputs_allReal m hpre c).2.2.2.2.2.2.2.1

/-- Every entry of the float input main_arg10 is real, on every core. -/
theorem main_arg10_allReal (hpre : Cert.Pre_KernelIdeal m) (c : Dev nD) : AllReal (m ((c.tc : Thread nD τ).loc main_arg10)) :=
  (inputs_allReal m hpre c).2.2.2.2.2.2.2.2.1

/-- Every entry of the float input main_arg11 is real, on every core. -/
theorem main_arg11_allReal (hpre : Cert.Pre_KernelIdeal m) (c : Dev nD) : AllReal (m ((c.tc : Thread nD τ).loc main_arg11)) :=
  (inputs_allReal m hpre c).2.2.2.2.2.2.2.2.2.1

/-- Every entry of the float input main_arg12 is real, on every core. -/
theorem main_arg12_allReal (hpre : Cert.Pre_KernelIdeal m) (c : Dev nD) : AllReal (m ((c.tc : Thread nD τ).loc main_arg12)) :=
  (inputs_allReal m hpre c).2.2.2.2.2.2.2.2.2.2

end Cert.KernelIdeal.Body

end
-- ==== Proof.KIRealMix1.lean ====
/-
  The arrays the first mixing region of relation 0 reads are real, and so is what it leaves.

  From the precondition (every float input is finite): the first dense layer x·W + b is a finite sum of products of
  reals plus a real; the degree normaliser rsqrt(max(deg, 1)) of a count of edges is real, so each edge's norm (a
  product of two gathered normalisers) is real; the aggregated array, an accumulating scatter into zeros of gathered
  rows of the layer scaled by the edge norms, is real; the mixing weight is an entry of a float input. The mixing
  region's output g·agg + (1 - g)·h of these is therefore real, entry by entry.
-/
import proofs.«140713_j1864015806535_2_alg».proof.Proof.KIFrameBase
import proofs.«140713_j1864015806535_2_alg».proof.Proof.KIPreReal
import proofs.«140713_j1864015806535_2_alg».proof.Proof.KIStage1
import proofs.«140713_j1864015806535_2_alg».proof.Proof.KIValDense0
import proofs.«140713_j1864015806535_2_alg».proof.Proof.LibRealArrays
import Idealize.ShloMosaic.Lib.StableHlo.Run
import Idealize.ShloMosaic.Lib.ValueIdx
import Idealize.ShloMosaic.PureOps.Ideal.Laws

set_option maxRecDepth 65536

noncomputable section

namespace Cert.KernelIdeal.Body

open Cert.KernelIdeal Cert.KernelIdeal.Gen Idealize.ShloMosaic Idealize.ShloMosaic.TcCoe Idealize.ShloMosaic.ValueIdx Idealize.SL.Sem
open Idealize.ShloMosaic.StableHlo
open Idealize.ShloMosaic.Pipeline (Dat Cfg Window)
open Cert.LibRealArrays Cert.LibRealEntries Cert.LibAffineStage

variable (m : (ℓ : Loc nD τ sig) → Buf (Elt Ideal) ℓ)

/-- The first dense layer of relation 0, as the first region leaves it, is all real. -/
theorem O0_0_allReal (hpre : Cert.Pre_KernelIdeal m) (c : Dev nD) :
    AllReal (O0_0 (F := Ideal) m c : S100000x64.Idx → EReal) := by
  rw [O0_0_eq_affine, ker_x1, ker_w1, ker_b1 m c (by decide)]
  refine AllReal.affine 100000 128 64 (main_arg0_allReal m hpre c) ?_ ?_
  · unfold Cert.Proof.Value.wOf
    exact ((main_arg3_allReal m hpre c).extractStridedSlice _ _).shapeCast _
  · refine AllReal.broadcastInDim ?_ _ _
    unfold Cert.Proof.Value.bOf
    exact ((main_arg4_allReal m hpre c).extractStridedSlice _ _).shapeCast _

/-! ## The edge norms -/

set_option maxHeartbeats 4000000 in
/-- Each edge's norm, the product of the two gathered degree normalisers rsqrt(max(deg, 1)), is real. -/
theorem W1_v25_allReal (c : Dev nD) :
    AllReal (W1 (F := Ideal) m c main_v25 : S1600000.Idx → EReal) := by
  dsimp only [W1, W0, hostOps0]
  after_results
  refine AllReal.mulf (AllReal.gather ?_ _ _) (AllReal.gather ?_ _ _) <;>
  · refine allReal_hostRsqrt_max_const_one (AllReal.scatterAdd _ _ ?_ ?_) _ _
    · exact allReal_broadcastInDim_constant _ _ _ isReal_ofBits_zero_f32
    · exact allReal_broadcastInDim_constant _ _ _ isReal_ofBits_one_f32

/-! ## What the first region's successor stretch reads -/

/-- After the first region its output array holds what the region left. -/
theorem W2_v31 (c : Dev nD) : W2 (F := Ideal) m c (Proc.devRef .tc main_v31) = O0_0 (F := Ideal) m c := by
  unfold W2; exact Function.update_self _ _ _

/-- The first region leaves the edge norms as the first host stretch computed them. -/
theorem W2_v25 (c : Dev nD) : W2 (F := Ideal) m c (Proc.devRef .tc main_v25) = W1 (F := Ideal) m c main_v25 := by
  unfold W2
  exact Function.update_of_ne (StableHlo.devRef_ne_of_ne (by decide : main_v25 ≠ main_v31) :
    (Proc.devRef .tc main_v25 : DevRef τ sig) ≠ Proc.devRef .tc main_v31) _ _

/-- The mixing weights argument is as launched when the second host stretch reads it. -/
theorem W2_arg7 (c : Dev nD) :
    W2 (F := Ideal) m c (Proc.devRef .tc main_arg7) = m ((c.tc : Thread nD τ).loc main_arg7) := by
  unfold W2
  rw [Function.update_of_ne (StableHlo.devRef_ne_of_ne (by decide : main_arg7 ≠ main_v31) :
    (Proc.devRef .tc main_arg7 : DevRef τ sig) ≠ Proc.devRef .tc main_v31)]
  exact StableHlo.after_of_writes_sub hostOps0 _ GenP.hostOps0_writes (by decide)

/-! ## The aggregated array -/

set_option maxHeartbeats 4000000 in
/-- The aggregated array (the accumulating scatter, into zeros, of the gathered rows of the layer scaled by the edge
    norms) is all real. -/
theorem W3_v44_allReal (hpre : Cert.Pre_KernelIdeal m) (c : Dev nD) :
    AllReal (W3 (F := Ideal) m c main_v44 : S100000x64.Idx → EReal) := by
  dsimp only [W3, hostOps1]
  after_results
  refine AllReal.scatterAdd _ _ (allReal_broadcastInDim_constant _ _ _ isReal_ofBits_zero_f32) ?_
  refine AllReal.mulf (AllReal.gather ?_ _ _) (AllReal.broadcastInDim (AllReal.broadcastInDim ?_ _ _) _ _)
  · rw [W2_v31]; exact O0_0_allReal m hpre c
  · rw [W2_v25]; exact W1_v25_allReal m c

/-! ## The mixing weight -/

set_option maxHeartbeats 4000000 in
/-- The mixing weight the region reads (one entry of the mixing weights argument, as a 1×1 array) is real. -/
theorem W3_v51_allReal (hpre : Cert.Pre_KernelIdeal m) (c : Dev nD) :
    AllReal (W3 (F := Ideal) m c main_v51 : S1x1.Idx → EReal) := by
  dsimp only [W3, hostOps1]
  after_results
  rw [W2_arg7]
  exact (((main_arg7_allReal m hpre c).extractStridedSlice _ _).shapeCast _).shapeCast _

/-- The same at every index. -/
theorem W3_v51_isReal (hpre : Cert.Pre_KernelIdeal m) (c : Dev nD) (i : S1x1.Idx) :
    IsReal ((W3 (F := Ideal) m c main_v51 : S1x1.Idx → EReal) i) := W3_v51_allReal m hpre c i

/-! ## The layer as the mixing region finds it -/

/-- The second host stretch leaves the first region's output array alone. -/
theorem W3_v31 (c : Dev nD) : (W3 (F := Ideal) m c main_v31 : S100000x64.Idx → EReal) = O0_0 (F := Ideal) m c := by
  show StableHlo.after hostOps1 (W2 (F := Ideal) m c) (Proc.devRef .tc main_v31) = _
  rw [StableHlo.after_of_writes_sub hostOps1 _ GenP.hostOps1_writes (by decide)]
  exact W2_v31 m c

theorem W3_v31_allReal (hpre : Cert.Pre_KernelIdeal m) (c : Dev nD) :
    AllReal (W3 (F := Ideal) m c main_v31 : S100000x64.Idx → EReal) := by
  rw [W3_v31]; exact O0_0_allReal m hpre c

/-! ## The mixed array -/

/-- The mix of whole arrays, index by index: g·agg + (1 - g)·h, with g the one entry of the 1×1 weight. -/
abbrev mixOf (g : S1x1.Idx → EReal) (h agg : S100000x64.Idx → EReal) : S100000x64.Idx → EReal :=
  fun i => g (ix2 0 0) * agg i + (Ideal.ofBits .f32 0x3F800000#32 - g (ix2 0 0)) * h i

/-- g·agg + (1 - g)·h of all-real g, h, agg is all real. -/
theorem mix_allReal {g : S1x1.Idx → EReal} {h agg : S100000x64.Idx → EReal} (hg : AllReal g) (hh : AllReal h)
    (hagg : AllReal agg) : AllReal (mixOf g h agg) :=
  fun i => ((hg _).mul (hagg i)).add ((isReal_ofBits_one_f32.sub (hg _)).mul (hh i))

/-- What the mixing region leaves in its first output is all real, given that it is the mix of the three arrays the
    region finds (the region's value lemma). -/
theorem O1_0_allReal_of (hpre : Cert.Pre_KernelIdeal m) (c : Dev nD)
    (hO : (O1_0 (F := Ideal) m c : S100000x64.Idx → EReal)
      = mixOf (W3 (F := Ideal) m c main_v51) (W3 (F := Ideal) m c main_v31) (W3 (F := Ideal) m c main_v44)) :
    AllReal (O1_0 (F := Ideal) m c : S100000x64.Idx → EReal) := by
  rw [hO]
  exact mix_allReal (W3_v51_allReal m hpre c) (W3_v31_allReal m hpre c) (W3_v44_allReal m hpre c)

end Cert.KernelIdeal.Body

end
-- ==== Proof.KIRealMix1b.lean ====
/-
  What the first mixing region of relation 0 leaves in its first output is real.

  The region's value lemma says the output is g·agg + (1 - g)·h of the three arrays the region finds: the mixing
  weight, the first dense layer, and the aggregated array. Each is real, entry by entry, under the precondition, so the
  output is.
-/
import proofs.«140713_j1864015806535_2_alg».proof.Proof.KIFrameBase
import proofs.«140713_j1864015806535_2_alg».proof.Proof.KIValMix1
import proofs.«140713_j1864015806535_2_alg».proof.Proof.KIRealMix1

set_option maxRecDepth 65536

noncomputable section

namespace Cert.KernelIdeal.Body

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.LibRealArrays Cert.LibRealEntries

variable (m : (ℓ : Loc nD τ sig) → Buf (Elt Ideal) ℓ)

/-- The mixed array of relation 0, layer 1, as the mixing region leaves it, is all real. -/
theorem O1_0_allReal (hpre : Cert.Pre_KernelIdeal m) (c : Dev nD) :
    AllReal (O1_0 (F := Ideal) m c : S100000x64.Idx → EReal) :=
  O1_0_allReal_of m hpre c (by unfold O1_0; exact final1_3 (E3 m) c)

end Cert.KernelIdeal.Body

end
-- ==== Proof.KILayer1Rel0.lean ====
/-
  Relation 0, layer 1, complete: when the two memories agree on the arguments the layer reads and the inputs are finite,
  what the kernel program's third region leaves (the normalised, cut-off array) is the reference's array.

  The mix arrays agree (Proof/KIChainRel0.lean) and every entry of the mix array is real (Proof/KIRealMix1b.lean, from
  the finiteness precondition). The reference normalises a column with its two-pass mean and variance
  (Proof/KIStageBnRef1.lean); the kernel program's region does the same from the sums its mix region accumulated, which
  for real entries is the two-pass form as well (Proof/KIStageBn1.lean, by the variance identity). The scale and bias
  rows are the same rows of the same arguments.
-/
import proofs.«140713_j1864015806535_2_alg».proof.Proof.KIChainRel0
import proofs.«140713_j1864015806535_2_alg».proof.Proof.KIStageBn1
import proofs.«140713_j1864015806535_2_alg».proof.Proof.KIStageBnRef1
import proofs.«140713_j1864015806535_2_alg».proof.Proof.KIStageBn1Glue
import proofs.«140713_j1864015806535_2_alg».proof.Proof.KIRealMix1b

set_option maxRecDepth 65536

noncomputable section

namespace Cert.KernelIdeal.Body
open Cert.KernelIdeal Cert.KernelIdeal.Gen Idealize.ShloMosaic Idealize.ShloMosaic.TcCoe Idealize.ShloMosaic.ValueIdx Idealize.SL.Sem
variable (m : (ℓ : Loc nD τ sig) → Buf (Elt Ideal) ℓ)

/-- The scale row the normalise region reads, at (0, q): row 0 of the scale argument at q. -/
theorem ker_scale1_at (c : Dev nD) (hb : S64.BroadcastsInDim S1x64 (![1] : Fin 1 → Fin S1x64.rank)) (q : Fin 64) :
    at2 (W5 (F := Ideal) m c main_v59) 0 q = (m ((c.tc : Thread nD τ).loc main_arg9) : S3x64.Idx → EReal) (ix2 (0 : Fin 3) q) := by
  show (W5 (F := Ideal) m c main_v59 : S1x64.Idx → EReal) (ix2 0 q) = _
  rw [ker_scaleRow1 m c hb, Cert.LibHostBroadcast.vec_to_row]
  exact Cert.ReferenceIdeal.RefRun.rowVec1_apply _ q

theorem ker_shift1_at (c : Dev nD) (hb : S64.BroadcastsInDim S1x64 (![1] : Fin 1 → Fin S1x64.rank)) (q : Fin 64) :
    at2 (W5 (F := Ideal) m c main_v60) 0 q = (m ((c.tc : Thread nD τ).loc main_arg10) : S3x64.Idx → EReal) (ix2 (0 : Fin 3) q) := by
  show (W5 (F := Ideal) m c main_v60 : S1x64.Idx → EReal) (ix2 0 q) = _
  rw [ker_shiftRow1 m c hb, Cert.LibHostBroadcast.vec_to_row]
  exact Cert.ReferenceIdeal.RefRun.rowVec1_apply _ q
end Cert.KernelIdeal.Body

namespace Cert.Proof.Value

open Idealize.ShloMosaic Idealize.ShloMosaic.TcCoe Idealize.ShloMosaic.ValueIdx Idealize.SL.Sem Idealize.ShloMosaic.StableHlo

/-- THE NORMALISE STAGE'S JOIN, from any contents of the reference's buffers before its window: if the mix arrays agree
    and the scale and bias arguments agree, the normalised arrays agree (for finite inputs). -/
theorem stageBn1
    (m : (ℓ : Loc Cert.KernelIdeal.nD Cert.KernelIdeal.τ Cert.KernelIdeal.sig) → Buf (Elt Ideal) ℓ)
    (V : Valuation Cert.ReferenceIdeal.τ Cert.ReferenceIdeal.sig (Elt Ideal))
    (c : Dev Cert.KernelIdeal.nD) (hpre : Cert.Pre_KernelIdeal m)
    (hX : (after (Cert.ReferenceIdeal.RefRun.ops1 (F := Ideal)) V (Cert.ReferenceIdeal.main_v54 : DevRef Cert.ReferenceIdeal.τ Cert.ReferenceIdeal.sig) : (⟨2, ![100000, 64]⟩ : Shape).Idx → EReal)
      = (Cert.KernelIdeal.Body.O1_0 (F := Ideal) m c : (⟨2, ![100000, 64]⟩ : Shape).Idx → EReal))
    (e9 : (V (Cert.ReferenceIdeal.main_arg9 : DevRef Cert.ReferenceIdeal.τ Cert.ReferenceIdeal.sig) : (⟨2, ![3, 64]⟩ : Shape).Idx → EReal)
      = m ((c.tc : Thread Cert.KernelIdeal.nD Cert.KernelIdeal.τ).loc Cert.KernelIdeal.main_arg9))
    (e10 : (V (Cert.ReferenceIdeal.main_arg10 : DevRef Cert.ReferenceIdeal.τ Cert.ReferenceIdeal.sig) : (⟨2, ![3, 64]⟩ : Shape).Idx → EReal)
      = m ((c.tc : Thread Cert.KernelIdeal.nD Cert.KernelIdeal.τ).loc Cert.KernelIdeal.main_arg10)) :
    (after (Cert.ReferenceIdeal.RefRun.ops1 (F := Ideal)) V (Cert.ReferenceIdeal.main_v78 : DevRef Cert.ReferenceIdeal.τ Cert.ReferenceIdeal.sig) : (⟨2, ![100000, 64]⟩ : Shape).Idx → EReal)
      = (Cert.KernelIdeal.Body.O2_0 (F := Ideal) m c : (⟨2, ![100000, 64]⟩ : Shape).Idx → EReal) := by
  funext i
  obtain ⟨p, q, rfl⟩ : ∃ (p : Fin 100000) (q : Fin 64), i = ix2 p q := ⟨i 0, i 1, eq_ix2 i⟩
  rw [Cert.ReferenceIdeal.RefRun.ref_bn1_at _ _ _ _ hX e9 e10 p q]
  have hk := Cert.KernelIdeal.Body.ker_y1 m c (fun p q => Cert.KernelIdeal.Body.O1_0_allReal m hpre c (ix2 p q)) p q
  refine Eq.trans ?_ hk.symm
  rw [Cert.KernelIdeal.Body.ker_scale1_at m c Cert.ReferenceIdeal.Gen.bcast_S64_S1x64_1 q,
    Cert.KernelIdeal.Body.ker_shift1_at m c Cert.ReferenceIdeal.Gen.bcast_S64_S1x64_1 q,
    Cert.ReferenceIdeal.RefRun.colVar_eq]
  unfold Cert.LibNormJoin.normEntry Cert.ReferenceIdeal.RefRun.colMean Cert.ReferenceIdeal.RefRun.colSum
  rw [Idealize.ShloMosaic.Ideal.ofBits_zero_f32, Cert.ReferenceIdeal.RefRun.ofBits_count1]
  simp only [Nat.cast_ofNat]

theorem y1_rel0
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hpre : Cert.Pre_KernelIdeal m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    (after (Cert.ReferenceIdeal.RefRun.ops1 (F := Ideal)) (after (Cert.ReferenceIdeal.RefRun.ops0 (F := Ideal)) (launchContents m' c))
        (Cert.ReferenceIdeal.main_v78 : DevRef Cert.ReferenceIdeal.τ Cert.ReferenceIdeal.sig) : (⟨2, ![100000, 64]⟩ : Shape).Idx → EReal)
      = (Cert.KernelIdeal.Body.O2_0 (F := Ideal) m c : (⟨2, ![100000, 64]⟩ : Shape).Idx → EReal) := by
  have e9 : (after (Cert.ReferenceIdeal.RefRun.ops0 (F := Ideal)) (launchContents m' c) (Cert.ReferenceIdeal.main_arg9 : DevRef Cert.ReferenceIdeal.τ Cert.ReferenceIdeal.sig) : (⟨2, ![3, 64]⟩ : Shape).Idx → EReal)
      = m ((c.tc : Thread Cert.KernelIdeal.nD Cert.KernelIdeal.τ).loc Cert.KernelIdeal.main_arg9) :=
    (after_of_writes_sub (Cert.ReferenceIdeal.RefRun.ops0 (F := Ideal)) _ Cert.ReferenceIdeal.RefRun.ops0_writes (by decide)).trans h9
  have e10 : (after (Cert.ReferenceIdeal.RefRun.ops0 (F := Ideal)) (launchContents m' c) (Cert.ReferenceIdeal.main_arg10 : DevRef Cert.ReferenceIdeal.τ Cert.ReferenceIdeal.sig) : (⟨2, ![3, 64]⟩ : Shape).Idx → EReal)
      = m ((c.tc : Thread Cert.KernelIdeal.nD Cert.KernelIdeal.τ).loc Cert.KernelIdeal.main_arg10) :=
    (after_of_writes_sub (Cert.ReferenceIdeal.RefRun.ops0 (F := Ideal)) _ Cert.ReferenceIdeal.RefRun.ops0_writes (by decide)).trans h10
  exact stageBn1 m _ c hpre (xm1_rel0 m m' c h0 h1 h3 h4 h7) e9 e10

end Cert.Proof.Value

end
-- ==== Proof.KIValDense3.lean ====
/-
  Region 3, the second dense layer, read index by index on the extended reals.

  Each of the ten grid points takes 10000 rows of the 100000×64 input features, the whole 64×32 weight and the 1×32 bias
  row, and writes the 10000 rows of the product plus the bias row into its block of the 100000×32 output. A row of the
  layer depends on the features through that row alone, and the ten blocks tile the output, so the output array ends at
      (p, q) ↦ Σ_{k<64} x(p, k) · w(k, q) + b(0, q)
  of the arrays as the region finds them.
-/
import proofs.«140713_j1864015806535_2_alg».proof.Proof.KIFrameBase
import proofs.«140713_j1864015806535_2_alg».proof.Proof.LibAffineStage
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Body

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.LibAffineStage (affine affine_apply affine_rows affine_of_matmul)

variable (m : (ℓ : Loc nD τ sig) → Buf (Elt Ideal) ℓ)

/-! ## The body's arithmetic: the layer of a tile -/

theorem hz_d3 : (![0, 0] : Fin 2 → Nat) = fun _ => 0 := funext fun a => by fin_cases a <;> rfl

/-- The body's payload is the dense layer of its tile of rows: the tile against the weight, plus the bias row. The
    narrowing of the two operands and the shape casts to the same shape are the identity on the extended reals. -/
theorem pay3_eq (x : Vec Ideal S10000x64 .f32) (w : Vec Ideal S64x32 .f32) (b : Vec Ideal S1x32 .f32) :
    k3_pay1 x w b = affine 10000 64 32 x w b := by
  unfold k3_pay1
  rw [shapeCast_self x, shapeCast_self w]
  exact affine_of_matmul 10000 64 32 x w b _ _ _ _

/-! ## From the ten blocks to the array -/

variable (V : (c : Dev nD) → (b : Ref sig .tc) → Buf (Elt Ideal) ((c : Thread nD τ).loc b))

/-- The printed index maps over the grid: point t's feature block and output block are row block t in the one column
    block; the weight and the bias row are their whole arrays at every point. -/
theorem idx_facts_d3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The feature block at point t is rows 10000·t … 10000·t + 9999 of the feature array. -/
theorem iblk3_0_apply (c : Dev nD) (t : Fin cfg3.N) (y : S10000x64.Idx) (z : S100000x64.Idx)
    (h0 : (z 0).val = t.val * 10000 + (y 0).val) (h1 : (z 1).val = (y 1).val) :
    (iblk3 V c 0 t : Vec Ideal S10000x64 .f32) y = (V c main_v61 : S100000x64.Idx → EReal) z := by
  obtain ⟨e0, e1, -⟩ := idx_facts_d3 t
  unfold iblk3
  rw [View.read_apply]
  show V c main_v61 _ = V c main_v61 _
  congr 1
  funext a
  apply Fin.ext
  match a with
  | ⟨0, _⟩ => show win3_0.index t (0 : Fin 2) * 10000 + 1 * (y 0).val = (z 0).val; omega
  | ⟨1, _⟩ => show win3_0.index t (1 : Fin 2) * 64 + 1 * (y 1).val = (z 1).val; omega

/-- The weight block at every point is the weight array. -/
theorem iblk3_1_eq (c : Dev nD) (t : Fin cfg3.N) :
    (iblk3 V c 1 t : Vec Ideal S64x32 .f32) = (V c main_v63 : S64x32.Idx → EReal) := by
  obtain ⟨-, -, e2, e3, -⟩ := idx_facts_d3 t
  funext y
  unfold iblk3
  rw [View.read_apply]
  show V c main_v63 _ = V c main_v63 y
  congr 1
  funext a
  apply Fin.ext
  match a with
  | ⟨0, _⟩ => show win3_1.index t (0 : Fin 2) * 64 + 1 * (y 0).val = (y 0).val; omega
  | ⟨1, _⟩ => show win3_1.index t (1 : Fin 2) * 32 + 1 * (y 1).val = (y 1).val; omega

/-- The bias block at every point is the bias row. -/
theorem iblk3_2_eq (c : Dev nD) (t : Fin cfg3.N) :
    (iblk3 V c 2 t : Vec Ideal S1x32 .f32) = (V c main_v66 : S1x32.Idx → EReal) := by
  obtain ⟨-, -, -, -, e4, e5, -⟩ := idx_facts_d3 t
  funext y
  unfold iblk3
  rw [View.read_apply]
  show V c main_v66 _ = V c main_v66 y
  congr 1
  funext a
  apply Fin.ext
  match a with
  | ⟨0, _⟩ => show win3_2.index t (0 : Fin 2) * 1 + 1 * (y 0).val = (y 0).val; omega
  | ⟨1, _⟩ => show win3_2.index t (1 : Fin 2) * 32 + 1 * (y 1).val = (y 1).val; omega

/-- Row p, column q of the output block at point t is row 10000·t + p, column q of the output array. -/
theorem emb3_3 (t : Fin cfg3.N) (p : Fin 10000) (q : Fin 32) (r : Fin 100000) (hr : r.val = t.val * 10000 + p.val) :
    ((cfg3.win 3).blk t).view.emb (ix2 p q) = (ix2 r q : S100000x32.Idx) := by
  obtain ⟨-, -, -, -, -, -, e6, e7⟩ := idx_facts_d3 t
  funext a
  apply Fin.ext
  match a with
  | ⟨0, _⟩ => show win3_3.index t (0 : Fin 2) * 10000 + 1 * p.val = r.val; omega
  | ⟨1, _⟩ => show win3_3.index t (1 : Fin 2) * 32 + 1 * q.val = q.val; omega

/-- What point t writes back is block t of the layer of the three arrays as the region finds them. -/
theorem flushed3_3_eq (c : Dev nD) (t : Fin cfg3.N) :
    (dat3 V c).flushed 3 t = ((cfg3.win 3).blk t).view.read (Elt Ideal)
      (affine 100000 64 32 (V c main_v61) (V c main_v63) (V c main_v66)) := by
  show (cfg3.win 3).cut (grid3.coords t) ((dat3 V c).after 3 t) = _
  rw [after3_3]
  unfold out3_3
  rw [View.canon_unit_zero hz_d3]
  simp only [View.ld_unit_zero (S := S10000x64) hz_d3, View.ld_unit_zero (S := S64x32) hz_d3, View.ld_unit_zero (S := S1x32) hz_d3]
  rw [iblk3_1_eq, iblk3_2_eq, pay3_eq]
  have ht : t.val < 10 := lt_of_lt_of_eq t.isLt N_3
  funext j
  obtain ⟨p, q, rfl⟩ : ∃ (p : Fin 10000) (q : Fin 32), j = ix2 p q := ⟨j 0, j 1, eq_ix2 j⟩
  rw [View.read_apply, emb3_3 t p q ⟨t.val * 10000 + p.val, by have := p.isLt; omega⟩ rfl]
  exact affine_rows 100000 64 32 10000 _ _ _ _ _ p (fun k => iblk3_0_apply V c t _ _ rfl rfl) q

/-- An index of the output array is in point t's block iff each coordinate is in the block's range on its axis. -/
theorem mem_blk3_3 (t : Fin cfg3.N) (i : S100000x32.Idx) :
    i ∈ ((cfg3.win 3).blk t).view.set ↔ ∀ a : Fin 2, win3_3.index t a * S10000x32.size a ≤ (i a).val ∧ (i a).val < win3_3.index t a * S10000x32.size a + S10000x32.size a := by
  show i ∈ ((View.whole main_v67).slice (win3_3.rect t)).set ↔ _
  rw [View.set_slice_whole, Rect.mem_set_unit]
  exact Iff.rfl

/-- The ten blocks tile the output: row r is in the block of point r / 10000. -/
theorem cover_d3 (i : S100000x32.Idx) :
    ∃ t : Fin cfg3.N, (cfg3.win 3).flush t = true ∧ i ∈ ((cfg3.win 3).blk t).view.set := by
  have hi0 : (i 0).val < 100000 := (i 0).isLt
  have hi1 : (i 1).val < 32 := (i 1).isLt
  have hN : grid3.N = 10 := N_3
  have htN : (i 0).val / 10000 < grid3.N := by rw [hN]; omega
  obtain ⟨-, -, -, -, -, -, e6, e7⟩ := idx_facts_d3 ⟨(i 0).val / 10000, htN⟩
  refine ⟨⟨(i 0).val / 10000, htN⟩, flush3_3 _, ?_⟩
  rw [mem_blk3_3]
  intro a
  match a with
  | ⟨0, _⟩ =>
    show win3_3.index ⟨(i 0).val / 10000, htN⟩ (0 : Fin 2) * 10000 ≤ (i 0).val ∧ (i 0).val < win3_3.index ⟨(i 0).val / 10000, htN⟩ (0 : Fin 2) * 10000 + 10000
    rw [e6]
    show (i 0).val / 10000 * 10000 ≤ (i 0).val ∧ (i 0).val < (i 0).val / 10000 * 10000 + 10000
    omega
  | ⟨1, _⟩ =>
    show win3_3.index ⟨(i 0).val / 10000, htN⟩ (1 : Fin 2) * 32 ≤ (i 1).val ∧ (i 1).val < win3_3.index ⟨(i 0).val / 10000, htN⟩ (1 : Fin 2) * 32 + 32
    rw [e7]
    omega

/-- The output array after the region: the layer of the three arrays as the region finds them. -/
theorem region3_value (c : Dev nD) :
    (dat3 V c).arrAt 3 cfg3.N = affine 100000 64 32 (V c main_v61) (V c main_v63) (V c main_v66) :=
  (dat3 V c).arrAt_eq_of_cover 3 _ (fun t _ => flushed3_3_eq V c t) cover_d3

/-! ## The region's output between the items of the program -/

/-- What region 3 leaves in its output array: the layer of the feature array, the weight and the bias row as they stand
    after the host stretch before the region. -/
theorem O3_0_eq_affine (c : Dev nD) :
    O3_0 (F := Ideal) m c
      = affine 100000 64 32 (W7 (F := Ideal) m c main_v61) (W7 (F := Ideal) m c main_v63) (W7 (F := Ideal) m c main_v66) := by
  unfold O3_0
  exact region3_value (E7 m) c

/-- The same entry by entry: the feature row against the weight column, plus the bias row's entry. -/
theorem O3_0_eq (c : Dev nD) (p : Fin 100000) (q : Fin 32) :
    (O3_0 (F := Ideal) m c : S100000x32.Idx → EReal) (ix2 p q)
      = @HAdd.hAdd EReal EReal EReal _
          (∑ k : Fin 64, @HMul.hMul EReal EReal EReal _
            ((W7 (F := Ideal) m c main_v61 : S100000x64.Idx → EReal) (ix2 p k))
            ((W7 (F := Ideal) m c main_v63 : S64x32.Idx → EReal) (ix2 k q)))
          ((W7 (F := Ideal) m c main_v66 : S1x32.Idx → EReal) (ix2 0 q)) := by
  rw [O3_0_eq_affine, affine_apply]

end Cert.KernelIdeal.Body

end
-- ==== Proof.KIStageDense3.lean ====
/-
  The second dense layer of relation 0, in both programs.

  The kernel program computes h = x·W[0] + b[0] tile by tile in region 3, where x is the array the stage before left; the
  reference computes it with one matrix product and a broadcast of the bias, of the array its own stage before left in
  the same window. Both read the weight as the relation's slab of the second weights argument and the bias as the
  relation's row of the second bias argument (the same functions of the arguments, wOf3 and bOf3), and both arrays are the
  one function affine of (x, weight, bias row): so when the two inputs are equal and the two memories agree on the two
  arguments, what the region leaves in its output array is the reference's array.
-/
import proofs.«140713_j1864015806535_2_alg».proof.Proof.KIFrameBase
import proofs.«140713_j1864015806535_2_alg».proof.Proof.RefFrame
import proofs.«140713_j1864015806535_2_alg».proof.Proof.LibAffineStage
import proofs.«140713_j1864015806535_2_alg».proof.Proof.KIValDense3
import Idealize.ShloMosaic.Lib.StableHlo.Run
import Idealize.ShloMosaic.PureOps.Ideal.Laws

set_option maxRecDepth 65536

noncomputable section

namespace Cert.Proof.Value
open Idealize.ShloMosaic
/-- The weight of relation 0's second layer as a function of the weights argument: the relation's slab, as a matrix. -/
def wOf3 (a : (⟨3, ![3, 64, 32]⟩ : Shape).Idx → EReal)
    (hs : (⟨3, ![3, 64, 32]⟩ : Shape).Slices ![0, 0, 0] ⟨3, ![1, 64, 32]⟩) (hc : (⟨3, ![1, 64, 32]⟩ : Shape).ShapeCasts ⟨2, ![64, 32]⟩) :
    (⟨2, ![64, 32]⟩ : Shape).Idx → EReal :=
  shapeCast ⟨2, ![64, 32]⟩ (extractStridedSlice ⟨3, ![1, 64, 32]⟩ ![0, 0, 0] a hs) hc
/-- The bias of relation 0's second layer as a function of the bias argument: the relation's row, as a vector. -/
def bOf3 (a : (⟨2, ![3, 32]⟩ : Shape).Idx → EReal)
    (hs : (⟨2, ![3, 32]⟩ : Shape).Slices ![0, 0] ⟨2, ![1, 32]⟩) (hc : (⟨2, ![1, 32]⟩ : Shape).ShapeCasts ⟨1, ![32]⟩) :
    (⟨1, ![32]⟩ : Shape).Idx → EReal :=
  shapeCast ⟨1, ![32]⟩ (extractStridedSlice ⟨2, ![1, 32]⟩ ![0, 0] a hs) hc
end Cert.Proof.Value

namespace Cert.ReferenceIdeal.RefRun
open Cert.ReferenceIdeal Cert.ReferenceIdeal.Gen Idealize.ShloMosaic Idealize.ShloMosaic.TcCoe Idealize.SL.Sem Idealize.ShloMosaic.StableHlo

/-- The window's first 57 operations write neither weights argument nor bias argument. -/
theorem ops1_take_keeps (V : Valuation τ sig (Elt Ideal)) (r : Ref sig .tc) (hr : r ∉ (ops1_W : List (Ref sig .tc))) :
    after ((ops1 (F := Ideal)).take 57) V (Proc.devRef .tc r) = V (Proc.devRef .tc r) :=
  after_of_writes_sub (W := ops1_W) _ V
    (List.forall_iff_forall_mem.mpr fun op hop => List.forall_iff_forall_mem.mp ops1_writes op (List.mem_of_mem_take hop)) hr

set_option maxHeartbeats 4000000 in
/-- The reference's second dense layer of relation 0 is x·w + b of the array its stage before left in the same window and
    of the two arguments, from any contents before the window. The window is cut at the layer's first operation: the
    operations before it are read only through what they leave. -/
theorem ref_h3 (V : Valuation τ sig (Elt Ideal)) :
    (after (ops1 (F := Ideal)) V (main_v88 : DevRef τ sig) : S100000x32.Idx → EReal)
      = Cert.LibAffineStage.affine 100000 64 32 (after (ops1 (F := Ideal)) V (main_v78 : DevRef τ sig))
          (Cert.Proof.Value.wOf3 (V (main_arg5 : DevRef τ sig)) slices_S3x64x32_S1x64x32_0_0_0 shapeCasts_S1x64x32_S64x32)
          (broadcastInDim S1x32 ![1] bcast_S32_S1x32_1 (Cert.Proof.Value.bOf3 (V (main_arg6 : DevRef τ sig)) slices_S3x32_S1x32_0_0 shapeCasts_S1x32_S32)) := by
  rw [← ops1_take_keeps V main_arg5 (by decide), ← ops1_take_keeps V main_arg6 (by decide),
    ← List.take_append_drop 57 (ops1 (F := Ideal)), after_append]
  simp only [List.take_append_drop]
  generalize after ((ops1 (F := Ideal)).take 57) V = X
  dsimp only [ops1]
  simp only [List.drop_succ_cons, List.drop_zero]
  after_results
  exact Cert.LibAffineStage.affine_of_dotGeneral 100000 64 32 _ _ _ bcast_S1x32_S100000x32_0_1
end Cert.ReferenceIdeal.RefRun

namespace Cert.KernelIdeal.Body
open Cert.KernelIdeal Cert.KernelIdeal.Gen Idealize.ShloMosaic Idealize.ShloMosaic.TcCoe Idealize.SL.Sem Idealize.ShloMosaic.StableHlo
variable (m : (ℓ : Loc nD τ sig) → Buf (Elt Ideal) ℓ)

/-- The weights argument reaches the host stretch before region 3 as launched. -/
theorem W6_main_arg5 (c : Dev nD) : W6 (F := Ideal) m c main_arg5 = m ((c.tc : Thread nD τ).loc main_arg5) :=
  (congrFun (hV6 m c) _).symm.trans <|
    (GenP.V6_of m (outs m) c main_arg5 (by decide)).trans <| (GenP.V5_of m (outs m) c main_arg5 (by decide)).trans <|
      (GenP.V4_of m (outs m) c main_arg5 (by decide)).trans <|
      (GenP.V3_of m (outs m) c main_arg5 (by decide)).trans <|
      (GenP.V2_of m (outs m) c main_arg5 (by decide)).trans <| (GenP.V1_of m c main_arg5 (by decide)).trans rfl

/-- The bias argument reaches the host stretch before region 3 as launched. -/
theorem W6_main_arg6 (c : Dev nD) : W6 (F := Ideal) m c main_arg6 = m ((c.tc : Thread nD τ).loc main_arg6) :=
  (congrFun (hV6 m c) _).symm.trans <|
    (GenP.V6_of m (outs m) c main_arg6 (by decide)).trans <| (GenP.V5_of m (outs m) c main_arg6 (by decide)).trans <|
      (GenP.V4_of m (outs m) c main_arg6 (by decide)).trans <|
      (GenP.V3_of m (outs m) c main_arg6 (by decide)).trans <|
      (GenP.V2_of m (outs m) c main_arg6 (by decide)).trans <| (GenP.V1_of m c main_arg6 (by decide)).trans rfl

set_option maxHeartbeats 4000000 in
/-- The stretch's weight, from any contents before it: the relation's slab of the weights argument. -/
theorem host_w3 (V : Valuation τ sig (Elt Ideal)) :
    (after (hostOps3 (F := Ideal)) V (main_v63 : DevRef τ sig) : S64x32.Idx → EReal)
      = Cert.Proof.Value.wOf3 (V (main_arg5 : DevRef τ sig)) slices_S3x64x32_S1x64x32_0_0_0 shapeCasts_S1x64x32_S64x32 := by
  dsimp only [hostOps3]
  after_results
  rfl

set_option maxHeartbeats 4000000 in
/-- The stretch's bias row, from any contents before it: the relation's row of the bias argument as a 1×32 row. -/
theorem host_b3 (V : Valuation τ sig (Elt Ideal)) (hb : S32.BroadcastsInDim S1x32 (![1] : Fin 1 → Fin S1x32.rank)) :
    (after (hostOps3 (F := Ideal)) V (main_v66 : DevRef τ sig) : S1x32.Idx → EReal)
      = broadcastInDim S1x32 ![1] hb (Cert.Proof.Value.bOf3 (V (main_arg6 : DevRef τ sig)) slices_S3x32_S1x32_0_0 shapeCasts_S1x32_S32) := by
  dsimp only [hostOps3]
  after_results
  exact Cert.LibAffineStage.reshape_row_eq_broadcast_row 32 _ shapeCasts_S32_S1x32 hb

/-- The kernel program's weight of relation 0, layer 2, at region 3. -/
theorem ker_w3 (c : Dev nD) :
    (W7 (F := Ideal) m c main_v63 : S64x32.Idx → EReal)
      = Cert.Proof.Value.wOf3 (m ((c.tc : Thread nD τ).loc main_arg5)) slices_S3x64x32_S1x64x32_0_0_0 shapeCasts_S1x64x32_S64x32 :=
  (host_w3 (W6 m c)).trans (by rw [W6_main_arg5])

/-- The kernel program's bias row of relation 0, layer 2, at region 3. -/
theorem ker_b3 (c : Dev nD) (hb : S32.BroadcastsInDim S1x32 (![1] : Fin 1 → Fin S1x32.rank)) :
    (W7 (F := Ideal) m c main_v66 : S1x32.Idx → EReal)
      = broadcastInDim S1x32 ![1] hb (Cert.Proof.Value.bOf3 (m ((c.tc : Thread nD τ).loc main_arg6)) slices_S3x32_S1x32_0_0 shapeCasts_S1x32_S32) :=
  (host_b3 (W6 m c) hb).trans (by rw [W6_main_arg6])
end Cert.KernelIdeal.Body

namespace Cert.Proof.Value
open Idealize.ShloMosaic Idealize.ShloMosaic.TcCoe Idealize.SL.Sem Idealize.ShloMosaic.StableHlo

/-- Relation 0, layer 2: the kernel program's dense layer (what region 3 leaves in its output array) is the reference's,
    from any contents before the reference's window that agree with the kernel program's launch memory on the weights
    and the biases, when the reference's input array is the kernel program's. -/
theorem stageDense3
    (m : (ℓ : Loc Cert.KernelIdeal.nD Cert.KernelIdeal.τ Cert.KernelIdeal.sig) → Buf (Elt Ideal) ℓ)
    (V : Valuation Cert.ReferenceIdeal.τ Cert.ReferenceIdeal.sig (Elt Ideal))
    (c : Dev Cert.KernelIdeal.nD)
    (hx : (after (Cert.ReferenceIdeal.RefRun.ops1 (F := Ideal)) V (Cert.ReferenceIdeal.main_v78 : DevRef Cert.ReferenceIdeal.τ Cert.ReferenceIdeal.sig) : (⟨2, ![100000, 64]⟩ : Shape).Idx → EReal)
      = (Cert.KernelIdeal.Body.W7 (F := Ideal) m c Cert.KernelIdeal.main_v61 : (⟨2, ![100000, 64]⟩ : Shape).Idx → EReal))
    (h5 : V (Proc.devRef .tc Cert.ReferenceIdeal.main_arg5) = m ((c.tc : Thread Cert.KernelIdeal.nD Cert.KernelIdeal.τ).loc Cert.KernelIdeal.main_arg5))
    (h6 : V (Proc.devRef .tc Cert.ReferenceIdeal.main_arg6) = m ((c.tc : Thread Cert.KernelIdeal.nD Cert.KernelIdeal.τ).loc Cert.KernelIdeal.main_arg6)) :
    (after (Cert.ReferenceIdeal.RefRun.ops1 (F := Ideal)) V (Cert.ReferenceIdeal.main_v88 : DevRef Cert.ReferenceIdeal.τ Cert.ReferenceIdeal.sig) : (⟨2, ![100000, 32]⟩ : Shape).Idx → EReal)
      = (Cert.KernelIdeal.Body.O3_0 (F := Ideal) m c : (⟨2, ![100000, 32]⟩ : Shape).Idx → EReal) := by
  rw [Cert.ReferenceIdeal.RefRun.ref_h3, Cert.KernelIdeal.Body.O3_0_eq_affine, Cert.KernelIdeal.Body.ker_w3,
    Cert.KernelIdeal.Body.ker_b3 m c Cert.ReferenceIdeal.Gen.bcast_S32_S1x32_1, hx, h5, h6]

end Cert.Proof.Value

end
-- ==== Proof.KIValMix4.lean ====
/-
  Region 4, the mix-and-accumulate tile kernel, read as values over the extended reals.

  At each of the ten grid points the body takes its tile of 10000 rows of h and of agg and the 1×1 mixing weight g,
  writes xm = g·agg + (1 − g)·h into its tile of the first output, and adds the tile's column sums of xm and of xm·xm
  to two one-row outputs that are zeroed at the first point and written back after the last. The lemmas here say what
  the three output arrays end holding, index by index, as functions of the region's entry contents: the first output is
  xm at every row and column, the two rows are the sums over all 100000 rows of xm and of xm·xm.
-/
import proofs.«140713_j1864015806535_2_alg».proof.Proof.KIFrameBase
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Body

open Cert.KernelIdeal Cert.KernelIdeal.Gen Idealize.ShloMosaic Idealize.ShloMosaic.TcCoe Idealize.ShloMosaic.ValueIdx Idealize.SL.Sem
open Idealize.ShloMosaic.Pipeline (Dat Cfg Window)
open Idealize.ShloMosaic.Tactic

variable (m : (ℓ : Loc nD τ sig) → Buf (Elt Ideal) ℓ)

section Pieces
variable (V : (c : Dev nD) → (b : Ref sig .tc) → Buf (Elt Ideal) ((c : Thread nD τ).loc b))

theorem hz4 : (![0, 0] : Fin 2 → Nat) = fun _ => 0 := funext fun a => by fin_cases a <;> rfl

theorem outA4_3 (c : Dev nD) (t : Fin cfg4.N) (h : cond4_0 (grid4.coords t)) :
    (readBack4 (runA4 V c t h).1).1 = k4_pay3 (iblk4 V c 2 t) (iblk4 V c 0 t) (iblk4 V c 1 t) := by
  unfold readBack4
  dsimp only
  rw [View.read_writes_junk_eq_canon]
  unfold runA4 kernelRun4_A
  dsimp only
  rw [View.canon_unit_zero (S := S10000x32) hz4]
  simp only [View.readAt_eq_ld, (hs4_0 t).read_unread, (hs4_1 t).read_unread, (hs4_2 t).read_unread,
    View.ld_unit_zero (S := S10000x32) hz4, View.ld_unit_zero (S := S1x1) hz4]

theorem outB4_3 (c : Dev nD) (t : Fin cfg4.N) (h : ¬cond4_0 (grid4.coords t)) (xo4 xo5 : Vec Ideal S1x32 .f32) :
    (readBack4 (runB4 V c t h xo4 xo5).1).1 = k4_pay3 (iblk4 V c 2 t) (iblk4 V c 0 t) (iblk4 V c 1 t) := by
  unfold readBack4
  dsimp only
  rw [View.read_writes_junk_eq_canon]
  unfold runB4 kernelRun4_B
  dsimp only
  rw [View.canon_unit_zero (S := S10000x32) hz4]
  simp only [View.readAt_eq_ld, (hs4_0 t).read_unread, (hs4_1 t).read_unread, (hs4_2 t).read_unread,
    View.ld_unit_zero (S := S10000x32) hz4, View.ld_unit_zero (S := S1x1) hz4]

theorem outA4_4 (c : Dev nD) (t : Fin cfg4.N) (h : cond4_0 (grid4.coords t)) :
    (readBack4 (runA4 V c t h).1).2.1 = k4_pay4 (iblk4 V c 2 t) (iblk4 V c 0 t) (iblk4 V c 1 t) (k4_pay1 (F := Ideal)) := by
  unfold readBack4
  dsimp only
  rw [View.read_writes_junk_eq_canon]
  unfold runA4 kernelRun4_A
  dsimp only
  sl_unfold_words
  rw [View.canon_cons_unit_zero (S := S1x32) hz4, View.readCov_unit_zero (S := S1x32) _ hz4]
  simp only [View.readAt_eq_ld, (hs4_0 t).read_unread, (hs4_1 t).read_unread, (hs4_2 t).read_unread,
    View.ld_unit_zero (S := S10000x32) hz4, View.ld_unit_zero (S := S1x1) hz4, View.ld_unit_zero (S := S1x32) hz4]

theorem outB4_4 (c : Dev nD) (t : Fin cfg4.N) (h : ¬cond4_0 (grid4.coords t)) (xo4 xo5 : Vec Ideal S1x32 .f32) :
    (readBack4 (runB4 V c t h xo4 xo5).1).2.1 = k4_pay4 (iblk4 V c 2 t) (iblk4 V c 0 t) (iblk4 V c 1 t) xo4 := by
  unfold readBack4
  dsimp only
  rw [View.read_writes_junk_eq_canon]
  unfold runB4 kernelRun4_B
  dsimp only
  rw [View.canon_unit_zero (S := S1x32) hz4]
  simp only [View.readAt_eq_ld, (hs4_0 t).read_unread, (hs4_1 t).read_unread, (hs4_2 t).read_unread,
    (hs4_4 t).read_unread, (hs4_5 t).read_unread,
    View.ld_unit_zero (S := S10000x32) hz4, View.ld_unit_zero (S := S1x1) hz4, View.ld_unit_zero (S := S1x32) hz4]

theorem outA4_5 (c : Dev nD) (t : Fin cfg4.N) (h : cond4_0 (grid4.coords t)) :
    (readBack4 (runA4 V c t h).1).2.2 = k4_pay5 (iblk4 V c 2 t) (iblk4 V c 0 t) (iblk4 V c 1 t) (k4_pay2 (F := Ideal)) := by
  unfold readBack4
  dsimp only
  rw [View.read_writes_junk_eq_canon]
  unfold runA4 kernelRun4_A
  dsimp only
  sl_unfold_words
  rw [View.canon_cons_unit_zero (S := S1x32) hz4, View.readCov_unit_zero (S := S1x32) _ hz4]
  simp only [View.readAt_eq_ld, (hs4_0 t).read_unread, (hs4_1 t).read_unread, (hs4_2 t).read_unread,
    View.ld_unit_zero (S := S10000x32) hz4, View.ld_unit_zero (S := S1x1) hz4, View.ld_unit_zero (S := S1x32) hz4]

theorem outB4_5 (c : Dev nD) (t : Fin cfg4.N) (h : ¬cond4_0 (grid4.coords t)) (xo4 xo5 : Vec Ideal S1x32 .f32) :
    (readBack4 (runB4 V c t h xo4 xo5).1).2.2 = k4_pay5 (iblk4 V c 2 t) (iblk4 V c 0 t) (iblk4 V c 1 t) xo5 := by
  unfold readBack4
  dsimp only
  rw [View.read_writes_junk_eq_canon]
  unfold runB4 kernelRun4_B
  dsimp only
  rw [View.canon_unit_zero (S := S1x32) hz4]
  simp only [View.readAt_eq_ld, (hs4_0 t).read_unread, (hs4_1 t).read_unread, (hs4_2 t).read_unread,
    (hs4_4 t).read_unread, (hs4_5 t).read_unread,
    View.ld_unit_zero (S := S10000x32) hz4, View.ld_unit_zero (S := S1x1) hz4, View.ld_unit_zero (S := S1x32) hz4]

end Pieces

/-! ## The payload at an index -/

/-- The mixed tile at row p, column q: the weight times agg plus one minus the weight times h. -/
theorem pay3_apply_4 (g : Vec Ideal S1x1 .f32) (h agg : Vec Ideal S10000x32 .f32) (p : Fin 10000) (q : Fin 32) :
    (k4_pay3 g h agg : S10000x32.Idx → EReal) (ix2 p q)
      = (g : S1x1.Idx → EReal) (ix2 0 0) * (agg : S10000x32.Idx → EReal) (ix2 p q)
        + (Ideal.ofBits .f32 0x3F800000#32 - (g : S1x1.Idx → EReal) (ix2 0 0)) * (h : S10000x32.Idx → EReal) (ix2 p q) := by
  unfold k4_pay3
  simp only [shapeCast_self]
  rw [addf_apply, mulf_apply, mulf_apply,
    broadcastTo_apply (s := S1x1) (t := S10000x32) _ _ (ix2 p q) (ix2 0 0)
      (fun a => by match a with | ⟨0, _⟩ => rfl | ⟨1, _⟩ => rfl),
    broadcastTo_apply (s := S1x1) (t := S10000x32) _ _ (ix2 p q) (ix2 0 0)
      (fun a => by match a with | ⟨0, _⟩ => rfl | ⟨1, _⟩ => rfl),
    subf_apply, broadcast_apply]
  rfl

/-- The same at any index of the tile. -/
theorem pay3_at_4 (g : Vec Ideal S1x1 .f32) (h agg : Vec Ideal S10000x32 .f32) (j : S10000x32.Idx) :
    (k4_pay3 g h agg : S10000x32.Idx → EReal) j
      = (g : S1x1.Idx → EReal) (ix2 0 0) * (agg : S10000x32.Idx → EReal) j
        + (Ideal.ofBits .f32 0x3F800000#32 - (g : S1x1.Idx → EReal) (ix2 0 0)) * (h : S10000x32.Idx → EReal) j := by
  obtain ⟨p, q, rfl⟩ : ∃ (p : Fin 10000) (q : Fin 32), j = ix2 p q := ⟨j 0, j 1, eq_ix2 j⟩
  exact pay3_apply_4 g h agg p q

/-- A tile's column reduction, stored as a one-row block, at column q: the sum of the tile down column q. -/
theorem colsum_apply_4 (x : Vec Ideal S10000x32 .f32) (q : Fin 32) :
    (shapeCast S1x32 (multiReduction (F := Ideal) .add [0] S32 x 0x00000000#32 reduces_S10000x32_S32 (.inl rfl) rfl)
        shapeCasts_S32_S1x32 : S1x32.Idx → EReal) (ix2 0 q)
      = ∑ r : Fin 10000, (x : S10000x32.Idx → EReal) (ix2 r q) := by
  refine (shapeCast_addUnit_apply ![32] _ _ (ix2 0 q)).trans ?_
  refine (Ideal.multiReduction_add_single x 0x00000000#32 reduces_S10000x32_S32 (.inl rfl) rfl _).trans ?_
  show ∑ r : Fin 10000, _ = _
  refine Finset.sum_congr rfl fun r _ => congrArg _ ?_
  funext a
  apply Fin.ext
  match a with
  | ⟨0, _⟩ => rfl
  | ⟨1, _⟩ => rfl

/-- The column sums' row at column q: the row entered plus the sum of the mixed tile down column q. -/
theorem pay4_apply_4 (g : Vec Ideal S1x1 .f32) (h agg : Vec Ideal S10000x32 .f32) (row : Vec Ideal S1x32 .f32) (q : Fin 32) :
    (k4_pay4 g h agg row : S1x32.Idx → EReal) (ix2 0 q)
      = (row : S1x32.Idx → EReal) (ix2 0 q) + ∑ r : Fin 10000, (k4_pay3 g h agg : S10000x32.Idx → EReal) (ix2 r q) := by
  unfold k4_pay4
  simp only [shapeCast_self]
  rw [addf_apply]
  congr 1
  exact colsum_apply_4 _ q

/-- The squares' row at column q: the row entered plus the sum of the mixed tile's squares down column q. -/
theorem pay5_apply_4 (g : Vec Ideal S1x1 .f32) (h agg : Vec Ideal S10000x32 .f32) (row : Vec Ideal S1x32 .f32) (q : Fin 32) :
    (k4_pay5 g h agg row : S1x32.Idx → EReal) (ix2 0 q)
      = (row : S1x32.Idx → EReal) (ix2 0 q)
        + ∑ r : Fin 10000, (k4_pay3 g h agg : S10000x32.Idx → EReal) (ix2 r q) * (k4_pay3 g h agg : S10000x32.Idx → EReal) (ix2 r q) := by
  unfold k4_pay5
  simp only [shapeCast_self]
  rw [addf_apply]
  congr 1
  exact colsum_apply_4 (mulf (k4_pay3 g h agg) (k4_pay3 g h agg)) q

/-- The rows entered at the first point are zero. -/
theorem pay1_apply_4 (q : Fin 32) : (k4_pay1 (F := Ideal) : S1x32.Idx → EReal) (ix2 0 q) = 0 := by
  unfold k4_pay1
  rw [broadcast_apply]
  exact Ideal.ofBits_zero_f32
theorem pay2_apply_4 (q : Fin 32) : (k4_pay2 (F := Ideal) : S1x32.Idx → EReal) (ix2 0 q) = 0 := by
  unfold k4_pay2
  rw [broadcast_apply]
  exact Ideal.ofBits_zero_f32

section Blocks
variable (V : (c : Dev nD) → (b : Ref sig .tc) → Buf (Elt Ideal) ((c : Thread nD τ).loc b))

/-! ## The first output: the mixed tile, at every point -/

/-- After the body at any point the first output's staging buffer holds the mixed tile of the point's blocks. -/
theorem outs4_3 (c : Dev nD) (t : Fin cfg4.N) :
    (outsAt4 V c t.val t.isLt).1 = k4_pay3 (iblk4 V c 2 t) (iblk4 V c 0 t) (iblk4 V c 1 t) := by
  by_cases h0 : t.val % 10 = 0
  · rw [outsAt4_A V c t h0]; exact outA4_3 V c t _
  · rw [outsAt4_B V c t h0]; exact outB4_3 V c t _ _ _

/-- The region's three input arrays as it finds them: the weight, h, agg. -/
abbrev arrG_4 (c : Dev nD) : S1x1.Idx → EReal := V c main_v87
abbrev arrH_4 (c : Dev nD) : S100000x32.Idx → EReal := V c main_v67
abbrev arrAgg_4 (c : Dev nD) : S100000x32.Idx → EReal := V c main_v80

/-- The mix of whole arrays, index by index. -/
abbrev mixG_4 (g : S1x1.Idx → EReal) (h agg : S100000x32.Idx → EReal) : S100000x32.Idx → EReal :=
  fun i => g (ix2 0 0) * agg i + (Ideal.ofBits .f32 0x3F800000#32 - g (ix2 0 0)) * h i

/-- The windows' index maps, decided over the grid: the tiles of h and agg move with the output's tile, whose row
    block is the point itself; the weight's block never moves. -/
theorem idx_facts4 : ∀ t : Fin cfg4.N,
    win4_0.index t (0 : Fin 2) = win4_3.index t (0 : Fin 2) ∧ win4_0.index t (1 : Fin 2) = win4_3.index t (1 : Fin 2)
    ∧ win4_1.index t (0 : Fin 2) = win4_3.index t (0 : Fin 2) ∧ win4_1.index t (1 : Fin 2) = win4_3.index t (1 : Fin 2)
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point t writes back to the first output is block t of the mix of the three arrays. -/
theorem flushed4_3_eq (c : Dev nD) (t : Fin cfg4.N) :
    (dat4 V c).flushed 3 t = ((cfg4.win 3).blk t).view.read (Elt Ideal) (mixG_4 (arrG_4 V c) (arrH_4 V c) (arrAgg_4 V c)) := by
  show (cfg4.win 3).cut (grid4.coords t) ((dat4 V c).after 3 t) = _
  rw [after4_3, outs4_3]
  funext j
  refine (pay3_at_4 _ _ _ j).trans ?_
  obtain ⟨e0, e1, e2, e3, e4, e5, e6, e7⟩ := idx_facts4 t
  show arrG_4 V c (((cfg4.win 2).blk t).view.emb (ix2 0 0)) * arrAgg_4 V c (((cfg4.win 1).blk t).view.emb j)
      + (Ideal.ofBits .f32 0x3F800000#32 - arrG_4 V c (((cfg4.win 2).blk t).view.emb (ix2 0 0))) * arrH_4 V c (((cfg4.win 0).blk t).view.emb j)
    = arrG_4 V c (ix2 0 0) * arrAgg_4 V c (((cfg4.win 3).blk t).view.emb j)
      + (Ideal.ofBits .f32 0x3F800000#32 - arrG_4 V c (ix2 0 0)) * arrH_4 V c (((cfg4.win 3).blk t).view.emb j)
  have h2 : ((cfg4.win 2).blk t).view.emb (ix2 0 0) = ix2 0 0 := by
    funext a; apply Fin.ext
    match a with
    | ⟨0, _⟩ => show win4_2.index t (0 : Fin 2) * 1 + 1 * 0 = 0; omega
    | ⟨1, _⟩ => show win4_2.index t (1 : Fin 2) * 1 + 1 * 0 = 0; omega
  have h0 : ((cfg4.win 0).blk t).view.emb j = ((cfg4.win 3).blk t).view.emb j := by
    funext a; apply Fin.ext
    match a with
    | ⟨0, _⟩ => show win4_0.index t (0 : Fin 2) * 10000 + 1 * (j 0).val = win4_3.index t (0 : Fin 2) * 10000 + 1 * (j 0).val; omega
    | ⟨1, _⟩ => show win4_0.index t (1 : Fin 2) * 32 + 1 * (j 1).val = win4_3.index t (1 : Fin 2) * 32 + 1 * (j 1).val; omega
  have h1 : ((cfg4.win 1).blk t).view.emb j = ((cfg4.win 3).blk t).view.emb j := by
    funext a; apply Fin.ext
    match a with
    | ⟨0, _⟩ => show win4_1.index t (0 : Fin 2) * 10000 + 1 * (j 0).val = win4_3.index t (0 : Fin 2) * 10000 + 1 * (j 0).val; omega
    | ⟨1, _⟩ => show win4_1.index t (1 : Fin 2) * 32 + 1 * (j 1).val = win4_3.index t (1 : Fin 2) * 32 + 1 * (j 1).val; omega
  rw [h2, h0, h1]

/-- An index of the first output is in point t's block iff each coordinate is in the block's range on its axis. -/
theorem mem_blk4_3 (t : Fin cfg4.N) (i : S100000x32.Idx) :
    i ∈ ((cfg4.win 3).blk t).view.set ↔ ∀ a : Fin 2, win4_3.index t a * S10000x32.size a ≤ (i a).val
      ∧ (i a).val < win4_3.index t a * S10000x32.size a + S10000x32.size a := by
  show i ∈ ((View.whole main_v88_0).slice (win4_3.rect t)).set ↔ _
  rw [View.set_slice_whole, Rect.mem_set_unit]
  exact Iff.rfl

/-- Row r of the first output is in the block of point r / 10000, which writes it back. -/
theorem cover4_3 (i : S100000x32.Idx) :
    ∃ t : Fin cfg4.N, (cfg4.win 3).flush t = true ∧ i ∈ ((cfg4.win 3).blk t).view.set := by
  have hi0 : (i 0).val < 100000 := (i 0).isLt
  have hi1 : (i 1).val < 32 := (i 1).isLt
  have hN : cfg4.N = 10 := N_4
  obtain ⟨t, ht⟩ : ∃ t : Fin cfg4.N, t.val = (i 0).val / 10000 := ⟨⟨(i 0).val / 10000, by rw [hN]; omega⟩, rfl⟩
  refine ⟨t, flush4_3 t, ?_⟩
  rw [mem_blk4_3]
  obtain ⟨e0, e1, e2, e3, e4, e5, e6, e7⟩ := idx_facts4 t
  intro a
  match a with
  | ⟨0, _⟩ =>
    show win4_3.index t (0 : Fin 2) * 10000 ≤ (i 0).val ∧ (i 0).val < win4_3.index t (0 : Fin 2) * 10000 + 10000
    rw [e6, ht]; omega
  | ⟨1, _⟩ =>
    show win4_3.index t (1 : Fin 2) * 32 ≤ (i 1).val ∧ (i 1).val < win4_3.index t (1 : Fin 2) * 32 + 32
    rw [e7]; omega

/-- So the first output array ends holding the mix of the three arrays as the region finds them. -/
theorem final4_3 (c : Dev nD) : (dat4 V c).arrAt 3 cfg4.N = mixG_4 (arrG_4 V c) (arrH_4 V c) (arrAgg_4 V c) :=
  (dat4 V c).arrAt_eq_of_cover 3 (mixG_4 (arrG_4 V c) (arrH_4 V c) (arrAgg_4 V c)) (fun t _ => flushed4_3_eq V c t) cover4_3

/-! ## The two rows: sums carried across the grid -/

/-- The mixed tile of point t at row r, column q is the mix of the arrays at row t·10000 + r. -/
theorem tile_at_4 (c : Dev nD) (t : Fin cfg4.N) (r : Fin 10000) (q : Fin 32) (hr : t.val * 10000 + r.val < 100000) :
    (k4_pay3 (iblk4 V c 2 t) (iblk4 V c 0 t) (iblk4 V c 1 t) : S10000x32.Idx → EReal) (ix2 r q)
      = mixG_4 (arrG_4 V c) (arrH_4 V c) (arrAgg_4 V c) (ix2 ⟨t.val * 10000 + r.val, hr⟩ q) := by
  have e : (dat4 V c).flushed 3 t = k4_pay3 (iblk4 V c 2 t) (iblk4 V c 0 t) (iblk4 V c 1 t) := by
    show (cfg4.win 3).cut (grid4.coords t) ((dat4 V c).after 3 t) = _
    rw [after4_3, outs4_3]
    funext j
    rfl
  refine (congrFun e.symm (ix2 r q)).trans ?_
  refine (congrFun (flushed4_3_eq V c t) (ix2 r q)).trans ?_
  show mixG_4 (arrG_4 V c) (arrH_4 V c) (arrAgg_4 V c) (((cfg4.win 3).blk t).view.emb (ix2 r q)) = _
  refine congrArg _ ?_
  obtain ⟨e0, e1, e2, e3, e4, e5, e6, e7⟩ := idx_facts4 t
  funext a; apply Fin.ext
  match a with
  | ⟨0, _⟩ => show win4_3.index t (0 : Fin 2) * 10000 + 1 * r.val = t.val * 10000 + r.val; rw [e6]; omega
  | ⟨1, _⟩ => show win4_3.index t (1 : Fin 2) * 32 + 1 * q.val = q.val; rw [e7]; omega

/-- The sum of the mix down column q over the rows of tile k (zero past the grid). -/
def tileN_4 (c : Dev nD) (q : Fin 32) (k : ℕ) : EReal :=
  if h : k < 10 then ∑ r : Fin 10000, mixG_4 (arrG_4 V c) (arrH_4 V c) (arrAgg_4 V c) (ix2 ⟨k * 10000 + r.val, by omega⟩ q) else 0

/-- The column sum of point t's mixed tile is that sum. -/
theorem tile_sum_4 (c : Dev nD) (t : Fin cfg4.N) (q : Fin 32) :
    ∑ r : Fin 10000, (k4_pay3 (iblk4 V c 2 t) (iblk4 V c 0 t) (iblk4 V c 1 t) : S10000x32.Idx → EReal) (ix2 r q)
      = tileN_4 V c q t.val := by
  have hN : t.val < 10 := lt_of_lt_of_eq t.isLt (show cfg4.N = 10 from N_4)
  unfold tileN_4
  rw [dif_pos hN]
  exact Finset.sum_congr rfl fun r _ => tile_at_4 V c t r q (by have := r.isLt; omega)

/-- After point n the first row holds, at column q, the column sums of tiles 0 to n added in order. -/
theorem row4_inv_4 (c : Dev nD) (q : Fin 32) : ∀ (n : ℕ) (hn : n < cfg4.N),
    ((outsAt4 V c n hn).2.1 : S1x32.Idx → EReal) (ix2 0 q) = ∑ k ∈ Finset.range (n + 1), tileN_4 V c q k
  | 0, hn => by
    have e : (outsAt4 V c 0 hn).2.1 = k4_pay4 (iblk4 V c 2 ⟨0, hn⟩) (iblk4 V c 0 ⟨0, hn⟩) (iblk4 V c 1 ⟨0, hn⟩) (k4_pay1 (F := Ideal)) :=
      (congrArg (fun o => o.2.1) (outsAt4_A V c ⟨0, hn⟩ rfl)).trans (outA4_4 V c ⟨0, hn⟩ _)
    refine (congrFun e (ix2 0 q)).trans ?_
    refine (pay4_apply_4 _ _ _ _ q).trans ?_
    rw [pay1_apply_4, zero_add, tile_sum_4 V c ⟨0, hn⟩ q, Finset.sum_range_one]
  | n + 1, hn => by
    have hN : cfg4.N = 10 := N_4
    have hB : ¬(⟨n + 1, hn⟩ : Fin cfg4.N).val % 10 = 0 := by
      have : n + 1 < 10 := hN ▸ hn
      dsimp only; omega
    have e : (outsAt4 V c (n + 1) hn).2.1 = k4_pay4 (iblk4 V c 2 ⟨n + 1, hn⟩) (iblk4 V c 0 ⟨n + 1, hn⟩) (iblk4 V c 1 ⟨n + 1, hn⟩)
        (outsAt4 V c n (Nat.lt_of_succ_lt hn)).2.1 :=
      (congrArg (fun o => o.2.1) (outsAt4_B V c ⟨n + 1, hn⟩ hB)).trans (outB4_4 V c ⟨n + 1, hn⟩ _ _ _)
    refine (congrFun e (ix2 0 q)).trans ?_
    refine (pay4_apply_4 _ _ _ _ q).trans ?_
    rw [row4_inv_4 c q n (Nat.lt_of_succ_lt hn), tile_sum_4 V c ⟨n + 1, hn⟩ q, Finset.sum_range_succ _ (n + 1)]

/-- The two rows' index maps never move. -/
theorem idx_facts4_rows : ∀ t : Fin cfg4.N, win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- The first row as a function of the arrays: at column q, the column sums of the ten tiles. -/
def rowG4_4 (c : Dev nD) : S1x32.Idx → EReal := fun i => ∑ k ∈ Finset.range 10, tileN_4 V c (i 1) k

/-- What the last point writes back to row output 1 is the whole row of sums. -/
theorem flushed4_4_eq (c : Dev nD) (t : Fin cfg4.N) (hf : (cfg4.win 4).flush t = true) :
    (dat4 V c).flushed 4 t = ((cfg4.win 4).blk t).view.read (Elt Ideal) (rowG4_4 V c) := by
  have hN : t.val < 10 := lt_of_lt_of_eq t.isLt (show cfg4.N = 10 from N_4)
  have h9 : t.val = 9 := by have := (flush4_4 t).mp hf; omega
  show (cfg4.win 4).cut (grid4.coords t) ((dat4 V c).after 4 t) = _
  rw [after4_4]
  funext j
  obtain ⟨p, q, rfl⟩ : ∃ (p : Fin 1) (q : Fin 32), j = ix2 p q := ⟨j 0, j 1, eq_ix2 j⟩
  obtain rfl : p = 0 := Subsingleton.elim _ _
  show ((outsAt4 V c t.val t.isLt).2.1 : S1x32.Idx → EReal) (ix2 0 q) = rowG4_4 V c (((cfg4.win 4).blk t).view.emb (ix2 0 q))
  obtain ⟨e0, e1, e2, e3⟩ := idx_facts4_rows t
  have hemb : ((cfg4.win 4).blk t).view.emb (ix2 0 q) = ix2 0 q := by
    funext a; apply Fin.ext
    match a with
    | ⟨0, _⟩ => show win4_4.index t (0 : Fin 2) * 1 + 1 * 0 = 0; omega
    | ⟨1, _⟩ => show win4_4.index t (1 : Fin 2) * 32 + 1 * q.val = q.val; omega
  rw [hemb, row4_inv_4 V c q t.val t.isLt, h9]
  rfl

theorem mem_blk4_4 (t : Fin cfg4.N) (i : S1x32.Idx) :
    i ∈ ((cfg4.win 4).blk t).view.set ↔ ∀ a : Fin 2, win4_4.index t a * S1x32.size a ≤ (i a).val
      ∧ (i a).val < win4_4.index t a * S1x32.size a + S1x32.size a := by
  show i ∈ ((View.whole main_v88_1).slice (win4_4.rect t)).set ↔ _
  rw [View.set_slice_whole, Rect.mem_set_unit]
  exact Iff.rfl

/-- The last point's block is the whole row. -/
theorem cover4_4 (i : S1x32.Idx) :
    ∃ t : Fin cfg4.N, (cfg4.win 4).flush t = true ∧ i ∈ ((cfg4.win 4).blk t).view.set := by
  have hi0 : (i 0).val < 1 := (i 0).isLt
  have hi1 : (i 1).val < 32 := (i 1).isLt
  have hN : cfg4.N = 10 := N_4
  obtain ⟨t, ht⟩ : ∃ t : Fin cfg4.N, t.val = 9 := ⟨⟨9, by rw [hN]; omega⟩, rfl⟩
  refine ⟨t, (flush4_4 t).mpr (by rw [ht]), ?_⟩
  rw [mem_blk4_4]
  obtain ⟨e0, e1, e2, e3⟩ := idx_facts4_rows t
  intro a
  match a with
  | ⟨0, _⟩ =>
    show win4_4.index t (0 : Fin 2) * 1 ≤ (i 0).val ∧ (i 0).val < win4_4.index t (0 : Fin 2) * 1 + 1
    omega
  | ⟨1, _⟩ =>
    show win4_4.index t (1 : Fin 2) * 32 ≤ (i 1).val ∧ (i 1).val < win4_4.index t (1 : Fin 2) * 32 + 32
    omega

theorem final4_4 (c : Dev nD) : (dat4 V c).arrAt 4 cfg4.N = rowG4_4 V c :=
  (dat4 V c).arrAt_eq_of_cover 4 (rowG4_4 V c) (flushed4_4_eq V c) cover4_4

/-- The sum of the mix's squares down column q over the rows of tile k (zero past the grid). -/
def sqN_4 (c : Dev nD) (q : Fin 32) (k : ℕ) : EReal :=
  if h : k < 10 then ∑ r : Fin 10000, mixG_4 (arrG_4 V c) (arrH_4 V c) (arrAgg_4 V c) (ix2 ⟨k * 10000 + r.val, by omega⟩ q)
    * mixG_4 (arrG_4 V c) (arrH_4 V c) (arrAgg_4 V c) (ix2 ⟨k * 10000 + r.val, by omega⟩ q) else 0

theorem tile_sq_sum_4 (c : Dev nD) (t : Fin cfg4.N) (q : Fin 32) :
    ∑ r : Fin 10000, (k4_pay3 (iblk4 V c 2 t) (iblk4 V c 0 t) (iblk4 V c 1 t) : S10000x32.Idx → EReal) (ix2 r q)
        * (k4_pay3 (iblk4 V c 2 t) (iblk4 V c 0 t) (iblk4 V c 1 t) : S10000x32.Idx → EReal) (ix2 r q)
      = sqN_4 V c q t.val := by
  have hN : t.val < 10 := lt_of_lt_of_eq t.isLt (show cfg4.N = 10 from N_4)
  unfold sqN_4
  rw [dif_pos hN]
  exact Finset.sum_congr rfl fun r _ => by rw [tile_at_4 V c t r q (by have := r.isLt; omega)]

/-- After point n the second row holds, at column q, the sums of squares of tiles 0 to n added in order. -/
theorem row5_inv_4 (c : Dev nD) (q : Fin 32) : ∀ (n : ℕ) (hn : n < cfg4.N),
    ((outsAt4 V c n hn).2.2 : S1x32.Idx → EReal) (ix2 0 q) = ∑ k ∈ Finset.range (n + 1), sqN_4 V c q k
  | 0, hn => by
    have e : (outsAt4 V c 0 hn).2.2 = k4_pay5 (iblk4 V c 2 ⟨0, hn⟩) (iblk4 V c 0 ⟨0, hn⟩) (iblk4 V c 1 ⟨0, hn⟩) (k4_pay2 (F := Ideal)) :=
      (congrArg (fun o => o.2.2) (outsAt4_A V c ⟨0, hn⟩ rfl)).trans (outA4_5 V c ⟨0, hn⟩ _)
    refine (congrFun e (ix2 0 q)).trans ?_
    refine (pay5_apply_4 _ _ _ _ q).trans ?_
    rw [pay2_apply_4, zero_add, tile_sq_sum_4 V c ⟨0, hn⟩ q, Finset.sum_range_one]
  | n + 1, hn => by
    have hN : cfg4.N = 10 := N_4
    have hB : ¬(⟨n + 1, hn⟩ : Fin cfg4.N).val % 10 = 0 := by
      have : n + 1 < 10 := hN ▸ hn
      dsimp only; omega
    have e : (outsAt4 V c (n + 1) hn).2.2 = k4_pay5 (iblk4 V c 2 ⟨n + 1, hn⟩) (iblk4 V c 0 ⟨n + 1, hn⟩) (iblk4 V c 1 ⟨n + 1, hn⟩)
        (outsAt4 V c n (Nat.lt_of_succ_lt hn)).2.2 :=
      (congrArg (fun o => o.2.2) (outsAt4_B V c ⟨n + 1, hn⟩ hB)).trans (outB4_5 V c ⟨n + 1, hn⟩ _ _ _)
    refine (congrFun e (ix2 0 q)).trans ?_
    refine (pay5_apply_4 _ _ _ _ q).trans ?_
    rw [row5_inv_4 c q n (Nat.lt_of_succ_lt hn), tile_sq_sum_4 V c ⟨n + 1, hn⟩ q, Finset.sum_range_succ _ (n + 1)]

/-- The second row as a function of the arrays: at column q, the sums of squares of the ten tiles. -/
def rowG5_4 (c : Dev nD) : S1x32.Idx → EReal := fun i => ∑ k ∈ Finset.range 10, sqN_4 V c (i 1) k

/-- What the last point writes back to row output 2 is the whole row of sums. -/
theorem flushed4_5_eq (c : Dev nD) (t : Fin cfg4.N) (hf : (cfg4.win 5).flush t = true) :
    (dat4 V c).flushed 5 t = ((cfg4.win 5).blk t).view.read (Elt Ideal) (rowG5_4 V c) := by
  have hN : t.val < 10 := lt_of_lt_of_eq t.isLt (show cfg4.N = 10 from N_4)
  have h9 : t.val = 9 := by have := (flush4_5 t).mp hf; omega
  show (cfg4.win 5).cut (grid4.coords t) ((dat4 V c).after 5 t) = _
  rw [after4_5]
  funext j
  obtain ⟨p, q, rfl⟩ : ∃ (p : Fin 1) (q : Fin 32), j = ix2 p q := ⟨j 0, j 1, eq_ix2 j⟩
  obtain rfl : p = 0 := Subsingleton.elim _ _
  show ((outsAt4 V c t.val t.isLt).2.2 : S1x32.Idx → EReal) (ix2 0 q) = rowG5_4 V c (((cfg4.win 5).blk t).view.emb (ix2 0 q))
  obtain ⟨e0, e1, e2, e3⟩ := idx_facts4_rows t
  have hemb : ((cfg4.win 5).blk t).view.emb (ix2 0 q) = ix2 0 q := by
    funext a; apply Fin.ext
    match a with
    | ⟨0, _⟩ => show win4_5.index t (0 : Fin 2) * 1 + 1 * 0 = 0; omega
    | ⟨1, _⟩ => show win4_5.index t (1 : Fin 2) * 32 + 1 * q.val = q.val; omega
  rw [hemb, row5_inv_4 V c q t.val t.isLt, h9]
  rfl

theorem mem_blk4_5 (t : Fin cfg4.N) (i : S1x32.Idx) :
    i ∈ ((cfg4.win 5).blk t).view.set ↔ ∀ a : Fin 2, win4_5.index t a * S1x32.size a ≤ (i a).val
      ∧ (i a).val < win4_5.index t a * S1x32.size a + S1x32.size a := by
  show i ∈ ((View.whole main_v88_2).slice (win4_5.rect t)).set ↔ _
  rw [View.set_slice_whole, Rect.mem_set_unit]
  exact Iff.rfl

/-- The last point's block is the whole row. -/
theorem cover4_5 (i : S1x32.Idx) :
    ∃ t : Fin cfg4.N, (cfg4.win 5).flush t = true ∧ i ∈ ((cfg4.win 5).blk t).view.set := by
  have hi0 : (i 0).val < 1 := (i 0).isLt
  have hi1 : (i 1).val < 32 := (i 1).isLt
  have hN : cfg4.N = 10 := N_4
  obtain ⟨t, ht⟩ : ∃ t : Fin cfg4.N, t.val = 9 := ⟨⟨9, by rw [hN]; omega⟩, rfl⟩
  refine ⟨t, (flush4_5 t).mpr (by rw [ht]), ?_⟩
  rw [mem_blk4_5]
  obtain ⟨e0, e1, e2, e3⟩ := idx_facts4_rows t
  intro a
  match a with
  | ⟨0, _⟩ =>
    show win4_5.index t (0 : Fin 2) * 1 ≤ (i 0).val ∧ (i 0).val < win4_5.index t (0 : Fin 2) * 1 + 1
    omega
  | ⟨1, _⟩ =>
    show win4_5.index t (1 : Fin 2) * 32 ≤ (i 1).val ∧ (i 1).val < win4_5.index t (1 : Fin 2) * 32 + 32
    omega

theorem final4_5 (c : Dev nD) : (dat4 V c).arrAt 5 cfg4.N = rowG5_4 V c :=
  (dat4 V c).arrAt_eq_of_cover 5 (rowG5_4 V c) (flushed4_5_eq V c) cover4_5

end Blocks

/-! ## The region's outputs, as functions of its entry contents -/

/-- The mixed value at row p, column q of the arrays the region finds. -/
abbrev xm4 (c : Dev nD) (p : Fin 100000) (q : Fin 32) : EReal :=
  mixG_4 (W9 (F := Ideal) m c main_v87) (W9 (F := Ideal) m c main_v67) (W9 (F := Ideal) m c main_v80) (ix2 p q)

/-- The first output holds the mixed value at every row and column. -/
theorem O4_0_eq (c : Dev nD) (p : Fin 100000) (q : Fin 32) :
    (O4_0 (F := Ideal) m c : S100000x32.Idx → EReal) (ix2 p q) = xm4 m c p q := by
  unfold O4_0
  rw [final4_3 (E9 m) c]

/-- The first row holds, at column q, the sum of the mixed value over all 100000 rows. -/
theorem O4_1_eq (c : Dev nD) (q : Fin 32) :
    (O4_1 (F := Ideal) m c : S1x32.Idx → EReal) (ix2 0 q)
      = ∑ t : Fin 10, ∑ r : Fin 10000, xm4 m c ⟨t.val * 10000 + r.val, by omega⟩ q := by
  unfold O4_1
  rw [final4_4 (E9 m) c]
  show ∑ k ∈ Finset.range 10, tileN_4 (E9 m) c q k = _
  rw [← Fin.sum_univ_eq_sum_range (fun k => tileN_4 (E9 m) c q k) 10]
  refine Finset.sum_congr rfl fun t _ => ?_
  unfold tileN_4
  rw [dif_pos t.isLt]

/-- The second row holds, at column q, the sum of the mixed value's square over all 100000 rows. -/
theorem O4_2_eq (c : Dev nD) (q : Fin 32) :
    (O4_2 (F := Ideal) m c : S1x32.Idx → EReal) (ix2 0 q)
      = ∑ t : Fin 10, ∑ r : Fin 10000, xm4 m c ⟨t.val * 10000 + r.val, by omega⟩ q * xm4 m c ⟨t.val * 10000 + r.val, by omega⟩ q := by
  unfold O4_2
  rw [final4_5 (E9 m) c]
  show ∑ k ∈ Finset.range 10, sqN_4 (E9 m) c q k = _
  rw [← Fin.sum_univ_eq_sum_range (fun k => sqN_4 (E9 m) c q k) 10]
  refine Finset.sum_congr rfl fun t _ => ?_
  unfold sqN_4
  rw [dif_pos t.isLt]

end Cert.KernelIdeal.Body

end
-- ==== Proof.KIValBn5.lean ====
/-
  Region 5 normalises a 100000×32 array tile by tile: at each entry (p, q) it takes x(p, q), subtracts the mean row at q,
  multiplies by the reciprocal square root of the variance row at q cut off below at 0 and shifted by a small constant,
  multiplies by the scale row at q, adds the bias row at q, and cuts the result off below at 0. The four rows are the same
  at every tile, and the ten tiles of 10000 rows fill the array, so the array the region leaves is that one function of the
  region's entry contents, index by index.
-/
import proofs.«140713_j1864015806535_2_alg».proof.Proof.KIFrameBase
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Body

open Cert.KernelIdeal Cert.KernelIdeal.Gen Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- The zero offsets of a whole-buffer rectangle, however spelt. -/
theorem zeroOff5 : (![0, 0] : Fin 2 → Nat) = fun _ => 0 := funext fun a => by fin_cases a <;> rfl

/-- The reciprocal square root of a vector reads elementwise. -/
theorem rsqrt_at5 {s : Shape} {φ : FTy} (a : FVec Ideal s φ) (i : s.Idx) : rsqrt a i = Ideal.rsqrt (a i) := rfl

/-- The row index (0, q) under an index (p, q) of the array. -/
abbrev rowOf5 (i : S100000x32.Idx) : S1x32.Idx := ix2 (0 : Fin 1) (⟨(i 1).val, idx2_lt1 i⟩ : Fin 32)

/-- What the region leaves, as one function of the array it normalises and of the four rows: at (p, q) the entry less the
    mean at q, times the reciprocal square root of the variance at q cut off below at 0 plus the small constant, times the
    scale at q, plus the bias at q, cut off below at 0. -/
def bnRelu5 (X : S100000x32.Idx → EReal) (mean var scale bias : S1x32.Idx → EReal) : S100000x32.Idx → EReal :=
  fun i => max ((((X i - mean (rowOf5 i)) * Ideal.rsqrt (max (var (rowOf5 i)) 0 + Ideal.ofBits .f32 0x3727C5AC#32))
              * scale (rowOf5 i) + bias (rowOf5 i))) 0

/-- That function at explicit coordinates. -/
theorem bnRelu5_apply (X : S100000x32.Idx → EReal) (mean var scale bias : S1x32.Idx → EReal) (p : Fin 100000) (q : Fin 32) :
    bnRelu5 X mean var scale bias (ix2 p q)
      = max ((((X (ix2 p q) - mean (ix2 0 q)) * Ideal.rsqrt (max (var (ix2 0 q)) 0 + Ideal.ofBits .f32 0x3727C5AC#32))
              * scale (ix2 0 q) + bias (ix2 0 q))) 0 := rfl

/-- The body's arithmetic at entry (p, q) of a tile: the rows are read at (0, q). -/
theorem bnPay5_apply (x : Vec Ideal S10000x32 .f32) (mean var scale bias : Vec Ideal S1x32 .f32) (p : Fin 10000) (q : Fin 32) :
    (k5_pay1 x mean var scale bias : S10000x32.Idx → EReal) (ix2 p q)
      = max ((((x (ix2 p q) - mean (ix2 0 q)) * Ideal.rsqrt (max (var (ix2 0 q)) 0 + Ideal.ofBits .f32 0x3727C5AC#32))
              * scale (ix2 0 q) + bias (ix2 0 q))) 0 := by
  unfold k5_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply,
    rsqrt_at5, addf_apply, maximumf_apply, broadcast_apply, broadcast_apply]
  simp only [Ideal.ofBits_def, Ideal.ofBits_zero_f32]

/-- The printed index maps over the grid: the array's window and the output's sit at block (t, 0), the four rows' at (0, 0). -/
theorem idx_facts5 : ∀ t : Fin cfg5.N, win5_0.index t (0 : Fin 2) = t.val ∧ win5_0.index t (1 : Fin 2) = 0
    ∧ win5_5.index t (0 : Fin 2) = t.val ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- Entry (p, q) of point t's block of the array read is the array's entry (t·10000 + p, q). -/
theorem emb5_0 (t : Fin cfg5.N) (p : Fin 10000) (q : Fin 32) (P : Fin 100000) (hP : P.val = t.val * 10000 + p.val) :
    ((cfg5.win 0).blk t).view.emb (ix2 p q) = ix2 P q := by
  obtain ⟨e0, e1, -⟩ := idx_facts5 t
  funext a; apply Fin.ext
  match a with
  | ⟨0, _⟩ => show win5_0.index t (0 : Fin 2) * 10000 + 1 * p.val = P.val; rw [e0, hP]; omega
  | ⟨1, _⟩ => show win5_0.index t (1 : Fin 2) * 32 + 1 * q.val = q.val; rw [e1]; omega

/-- The same for the output's block. -/
theorem emb5_5 (t : Fin cfg5.N) (p : Fin 10000) (q : Fin 32) (P : Fin 100000) (hP : P.val = t.val * 10000 + p.val) :
    ((cfg5.win 5).blk t).view.emb (ix2 p q) = ix2 P q := by
  obtain ⟨-, -, e0, e1, -⟩ := idx_facts5 t
  funext a; apply Fin.ext
  match a with
  | ⟨0, _⟩ => show win5_5.index t (0 : Fin 2) * 10000 + 1 * p.val = P.val; rw [e0, hP]; omega
  | ⟨1, _⟩ => show win5_5.index t (1 : Fin 2) * 32 + 1 * q.val = q.val; rw [e1]; omega

/-- Each row's block is the row itself at every point. -/
theorem emb5_1 (t : Fin cfg5.N) (q : Fin 32) : ((cfg5.win 1).blk t).view.emb (ix2 (0 : Fin 1) q) = ix2 (0 : Fin 1) q := by
  obtain ⟨-, -, -, -, e0, e1, -⟩ := idx_facts5 t
  funext a; apply Fin.ext
  match a with
  | ⟨0, _⟩ => show win5_1.index t (0 : Fin 2) * 1 + 1 * 0 = 0; rw [e0]
  | ⟨1, _⟩ => show win5_1.index t (1 : Fin 2) * 32 + 1 * q.val = q.val; rw [e1]; omega
theorem emb5_2 (t : Fin cfg5.N) (q : Fin 32) : ((cfg5.win 2).blk t).view.emb (ix2 (0 : Fin 1) q) = ix2 (0 : Fin 1) q := by
  obtain ⟨-, -, -, -, -, -, e0, e1, -⟩ := idx_facts5 t
  funext a; apply Fin.ext
  match a with
  | ⟨0, _⟩ => show win5_2.index t (0 : Fin 2) * 1 + 1 * 0 = 0; rw [e0]
  | ⟨1, _⟩ => show win5_2.index t (1 : Fin 2) * 32 + 1 * q.val = q.val; rw [e1]; omega
theorem emb5_3 (t : Fin cfg5.N) (q : Fin 32) : ((cfg5.win 3).blk t).view.emb (ix2 (0 : Fin 1) q) = ix2 (0 : Fin 1) q := by
  obtain ⟨-, -, -, -, -, -, -, -, e0, e1, -⟩ := idx_facts5 t
  funext a; apply Fin.ext
  match a with
  | ⟨0, _⟩ => show win5_3.index t (0 : Fin 2) * 1 + 1 * 0 = 0; rw [e0]
  | ⟨1, _⟩ => show win5_3.index t (1 : Fin 2) * 32 + 1 * q.val = q.val; rw [e1]; omega
theorem emb5_4 (t : Fin cfg5.N) (q : Fin 32) : ((cfg5.win 4).blk t).view.emb (ix2 (0 : Fin 1) q) = ix2 (0 : Fin 1) q := by
  obtain ⟨-, -, -, -, -, -, -, -, -, -, e0, e1⟩ := idx_facts5 t
  funext a; apply Fin.ext
  match a with
  | ⟨0, _⟩ => show win5_4.index t (0 : Fin 2) * 1 + 1 * 0 = 0; rw [e0]
  | ⟨1, _⟩ => show win5_4.index t (1 : Fin 2) * 32 + 1 * q.val = q.val; rw [e1]; omega

variable (V : (c : Dev nD) → (b : Ref sig .tc) → Buf (Elt Ideal) ((c : Thread nD τ).loc b))

/-- Point t's block of the array read, at (p, q): the array at (t·10000 + p, q). -/
theorem iblk5_0_at (c : Dev nD) (t : Fin cfg5.N) (p : Fin 10000) (q : Fin 32) (P : Fin 100000) (hP : P.val = t.val * 10000 + p.val) :
    (iblk5 V c 0 t : S10000x32.Idx → EReal) (ix2 p q) = (V c (Pipeline.arrRef spec5 0) : S100000x32.Idx → EReal) (ix2 P q) := by
  unfold iblk5
  rw [View.read_apply, emb5_0 t p q P hP]
  rfl
/-- Each row's block at (0, q): the row at (0, q). -/
theorem iblk5_1_at (c : Dev nD) (t : Fin cfg5.N) (q : Fin 32) :
    (iblk5 V c 1 t : S1x32.Idx → EReal) (ix2 0 q) = (V c (Pipeline.arrRef spec5 1) : S1x32.Idx → EReal) (ix2 0 q) := by
  unfold iblk5
  rw [View.read_apply, emb5_1 t q]
  rfl
theorem iblk5_2_at (c : Dev nD) (t : Fin cfg5.N) (q : Fin 32) :
    (iblk5 V c 2 t : S1x32.Idx → EReal) (ix2 0 q) = (V c (Pipeline.arrRef spec5 2) : S1x32.Idx → EReal) (ix2 0 q) := by
  unfold iblk5
  rw [View.read_apply, emb5_2 t q]
  rfl
theorem iblk5_3_at (c : Dev nD) (t : Fin cfg5.N) (q : Fin 32) :
    (iblk5 V c 3 t : S1x32.Idx → EReal) (ix2 0 q) = (V c (Pipeline.arrRef spec5 3) : S1x32.Idx → EReal) (ix2 0 q) := by
  unfold iblk5
  rw [View.read_apply, emb5_3 t q]
  rfl
theorem iblk5_4_at (c : Dev nD) (t : Fin cfg5.N) (q : Fin 32) :
    (iblk5 V c 4 t : S1x32.Idx → EReal) (ix2 0 q) = (V c (Pipeline.arrRef spec5 4) : S1x32.Idx → EReal) (ix2 0 q) := by
  unfold iblk5
  rw [View.read_apply, emb5_4 t q]
  rfl
/-- Point t's block of a whole-array function read back at (p, q): the function at (t·10000 + p, q). -/
theorem read_blk5_5_at (G : S100000x32.Idx → EReal) (t : Fin cfg5.N) (p : Fin 10000) (q : Fin 32) (P : Fin 100000) (hP : P.val = t.val * 10000 + p.val) :
    (((cfg5.win 5).blk t).view.read (Elt Ideal) G : S10000x32.Idx → EReal) (ix2 p q) = G (ix2 P q) := by
  rw [View.read_apply, emb5_5 t p q P hP]
  rfl

set_option maxHeartbeats 1000000 in
/-- What point t writes back is its block of that one function of the region's entry contents. -/
theorem flushed5_5_eq (c : Dev nD) (t : Fin cfg5.N) :
    (dat5 V c).flushed 5 t = ((cfg5.win 5).blk t).view.read (Elt Ideal)
      (bnRelu5 (V c (Pipeline.arrRef spec5 0)) (V c (Pipeline.arrRef spec5 1)) (V c (Pipeline.arrRef spec5 2)) (V c (Pipeline.arrRef spec5 3)) (V c (Pipeline.arrRef spec5 4))) := by
  show (cfg5.win 5).cut (grid5.coords t) ((dat5 V c).after 5 t) = _
  rw [after5_5]
  unfold out5_5
  rw [View.canon_unit_zero zeroOff5]
  simp only [View.ld_unit_zero (S := S10000x32) zeroOff5, View.ld_unit_zero (S := S1x32) zeroOff5]
  funext j
  obtain ⟨p, q, rfl⟩ : ∃ (p : Fin 10000) (q : Fin 32), j = ix2 p q := ⟨j 0, j 1, eq_ix2 j⟩
  have ht : t.val < 10 := lt_of_lt_of_eq t.isLt N_5
  have hP : t.val * 10000 + p.val < 100000 := by omega
  refine (bnPay5_apply (iblk5 V c 0 t) (iblk5 V c 1 t) (iblk5 V c 2 t) (iblk5 V c 3 t) (iblk5 V c 4 t) p q).trans ?_
  refine Eq.trans ?_ (read_blk5_5_at _ t p q ⟨t.val * 10000 + p.val, hP⟩ rfl).symm
  rw [bnRelu5_apply, iblk5_0_at V c t p q ⟨t.val * 10000 + p.val, hP⟩ rfl, iblk5_1_at V c t q, iblk5_2_at V c t q, iblk5_3_at V c t q, iblk5_4_at V c t q]

/-- An index of the array is in point t's block iff each coordinate is in the block's range on its axis. -/
theorem mem_blk5_5 (t : Fin cfg5.N) (i : S100000x32.Idx) :
    i ∈ ((cfg5.win 5).blk t).view.set ↔ ∀ a : Fin 2, win5_5.index t a * S10000x32.size a ≤ (i a).val ∧ (i a).val < win5_5.index t a * S10000x32.size a + S10000x32.size a := by
  show i ∈ ((View.whole main_v97).slice (win5_5.rect t)).set ↔ _
  rw [View.set_slice_whole, Rect.mem_set_unit]
  exact Iff.rfl

/-- Row r of the array is in the block of point r / 10000: the ten blocks fill the array. -/
theorem covered5_5 (i : S100000x32.Idx) : ∃ t : Fin cfg5.N, (cfg5.win 5).flush t = true ∧ i ∈ ((cfg5.win 5).blk t).view.set := by
  have hi0 : (i 0).val < 100000 := idx2_lt0 i
  have hi1 : (i 1).val < 32 := idx2_lt1 i
  have hN : grid5.N = 10 := N_5
  have hlt : (i 0).val / 10000 < grid5.N := by rw [hN]; omega
  obtain ⟨-, -, e0, e1, -⟩ := idx_facts5 ⟨(i 0).val / 10000, hlt⟩
  refine ⟨⟨(i 0).val / 10000, hlt⟩, flush5_5 _, ?_⟩
  rw [mem_blk5_5]
  intro a
  match a with
  | ⟨0, _⟩ =>
    show win5_5.index ⟨(i 0).val / 10000, hlt⟩ (0 : Fin 2) * 10000 ≤ (i 0).val ∧ (i 0).val < win5_5.index ⟨(i 0).val / 10000, hlt⟩ (0 : Fin 2) * 10000 + 10000
    rw [e0]; show (i 0).val / 10000 * 10000 ≤ (i 0).val ∧ (i 0).val < (i 0).val / 10000 * 10000 + 10000; omega
  | ⟨1, _⟩ =>
    show win5_5.index ⟨(i 0).val / 10000, hlt⟩ (1 : Fin 2) * 32 ≤ (i 1).val ∧ (i 1).val < win5_5.index ⟨(i 0).val / 10000, hlt⟩ (1 : Fin 2) * 32 + 32
    rw [e1]; omega

/-- The array the region leaves is that function of its entry contents. -/
theorem final5_5 (c : Dev nD) : (dat5 V c).arrAt 5 cfg5.N
    = bnRelu5 (V c (Pipeline.arrRef spec5 0)) (V c (Pipeline.arrRef spec5 1)) (V c (Pipeline.arrRef spec5 2)) (V c (Pipeline.arrRef spec5 3)) (V c (Pipeline.arrRef spec5 4)) :=
  (dat5 V c).arrAt_eq_of_cover 5 _ (fun t _ => flushed5_5_eq V c t) covered5_5

/-- Region 5's output as one function of the buffers at the region's entry. -/
theorem O5_0_fun (c : Dev nD) :
    O5_0 (F := Ideal) m c = bnRelu5 (W11 (F := Ideal) m c main_v88_0) (W11 (F := Ideal) m c main_v90) (W11 (F := Ideal) m c main_v94)
      (W11 (F := Ideal) m c main_v95) (W11 (F := Ideal) m c main_v96) :=
  final5_5 (E11 m) c

/-- Region 5's output at (p, q): the entry of main_v88_0 less the mean row, times the reciprocal square root of the
    variance row cut off at 0 and shifted, times the scale row, plus the bias row, cut off at 0; rows read at (0, q). -/
theorem O5_0_eq (c : Dev nD) (p : Fin 100000) (q : Fin 32) :
    (O5_0 (F := Ideal) m c : S100000x32.Idx → EReal) (ix2 p q)
      = bnRelu5 (W11 (F := Ideal) m c main_v88_0) (W11 (F := Ideal) m c main_v90) (W11 (F := Ideal) m c main_v94)
          (W11 (F := Ideal) m c main_v95) (W11 (F := Ideal) m c main_v96) (ix2 p q) :=
  congrFun (O5_0_fun m c) (ix2 p q)

/-- The same with the five entry buffers named: for arrays equal to them, the output at (p, q) written out. -/
theorem O5_0_at (c : Dev nD) (X : S100000x32.Idx → EReal) (mean var scale bias : S1x32.Idx → EReal)
    (hX : W11 (F := Ideal) m c main_v88_0 = X) (hmean : W11 (F := Ideal) m c main_v90 = mean) (hvar : W11 (F := Ideal) m c main_v94 = var)
    (hscale : W11 (F := Ideal) m c main_v95 = scale) (hbias : W11 (F := Ideal) m c main_v96 = bias) (p : Fin 100000) (q : Fin 32) :
    (O5_0 (F := Ideal) m c : S100000x32.Idx → EReal) (ix2 p q)
      = max ((((X (ix2 p q) - mean (ix2 0 q)) * Ideal.rsqrt (max (var (ix2 0 q)) 0 + Ideal.ofBits .f32 0x3727C5AC#32))
              * scale (ix2 0 q) + bias (ix2 0 q))) 0 := by
  rw [O5_0_eq, hX, hmean, hvar, hscale, hbias, bnRelu5_apply]

end Cert.KernelIdeal.Body

end
-- ==== Proof.KIRealBn1.lean ====
/-
  The normalise region's output of relation 0, layer 1, is real.

  The mixing region's two accumulated rows are, column by column, the sum of the mixed array's column and the sum of
  its squares: finite sums of reals. The mean row is the first over 100000, the variance row the second over 100000
  less the squared mean: real. The scale and bias rows are rows of float inputs: real. The normalise region leaves,
  at (p, q), max(((x − mean)·rsqrt(max(var, 0) + ε))·scale + bias, 0) with ε a positive real: real, because the
  reciprocal square root is taken of a positive real.
-/
import proofs.«140713_j1864015806535_2_alg».proof.Proof.KIFrameBase
import proofs.«140713_j1864015806535_2_alg».proof.Proof.KIValBn2
import proofs.«140713_j1864015806535_2_alg».proof.Proof.KIStageBnKer1
import proofs.«140713_j1864015806535_2_alg».proof.Proof.KIStageBn1
import proofs.«140713_j1864015806535_2_alg».proof.Proof.KIRealMix1
import proofs.«140713_j1864015806535_2_alg».proof.Proof.KIRealMix1b
import proofs.«140713_j1864015806535_2_alg».proof.Proof.LibRealArrays
import Idealize.ShloMosaic.Lib.StableHlo.Run

set_option maxRecDepth 65536

noncomputable section

namespace Cert.KernelIdeal.Body

open Cert.KernelIdeal Cert.KernelIdeal.Gen Idealize.ShloMosaic Idealize.ShloMosaic.TcCoe Idealize.ShloMosaic.ValueIdx Idealize.SL.Sem
open Idealize.ShloMosaic.StableHlo
open Idealize.ShloMosaic.Pipeline (Dat Cfg Window)
open Cert.LibRealArrays Cert.LibRealEntries

variable (m : (ℓ : Loc nD τ sig) → Buf (Elt Ideal) ℓ)

/-! ## The accumulated rows -/

/-- The row of column sums the mixing region accumulates is all real. -/
theorem O1_1_allReal (hpre : Cert.Pre_KernelIdeal m) (c : Dev nD) :
    AllReal (O1_1 (F := Ideal) m c : S1x64.Idx → EReal) := by
  intro i
  obtain ⟨a, q, rfl⟩ : ∃ (a : Fin 1) (q : Fin 64), i = ix2 a q := ⟨i 0, i 1, eq_ix2 i⟩
  obtain rfl : a = 0 := Subsingleton.elim _ _
  rw [show (O1_1 (F := Ideal) m c : S1x64.Idx → EReal) (ix2 0 q) = ∑ p, xcol1 m c q p from col_sum1 m c q]
  exact IsReal.sum _ _ fun p _ => O1_0_allReal m hpre c _

/-- The row of column sums of squares the mixing region accumulates is all real. -/
theorem O1_2_allReal (hpre : Cert.Pre_KernelIdeal m) (c : Dev nD) :
    AllReal (O1_2 (F := Ideal) m c : S1x64.Idx → EReal) := by
  intro i
  obtain ⟨a, q, rfl⟩ : ∃ (a : Fin 1) (q : Fin 64), i = ix2 a q := ⟨i 0, i 1, eq_ix2 i⟩
  obtain rfl : a = 0 := Subsingleton.elim _ _
  rw [show (O1_2 (F := Ideal) m c : S1x64.Idx → EReal) (ix2 0 q) = ∑ p, xcol1 m c q p * xcol1 m c q p from col_sumsq1 m c q]
  exact IsReal.sum _ _ fun p _ => (O1_0_allReal m hpre c _).mul (O1_0_allReal m hpre c _)

/-! ## The mean and variance rows -/

/-- The mean row, the column sums over 100000, is all real. -/
theorem W5_v54_allReal (hpre : Cert.Pre_KernelIdeal m) (c : Dev nD) :
    AllReal (W5 (F := Ideal) m c main_v54 : S1x64.Idx → EReal) := by
  rw [ker_mean1]
  exact allReal_hostDivf_1e5 (O1_1_allReal m hpre c) _ _

/-- The variance row, the column sums of squares over 100000 less the squared mean, is all real. -/
theorem W5_v58_allReal (hpre : Cert.Pre_KernelIdeal m) (c : Dev nD) :
    AllReal (W5 (F := Ideal) m c main_v58 : S1x64.Idx → EReal) := by
  rw [ker_var1]
  exact AllReal.subf (allReal_hostDivf_1e5 (O1_2_allReal m hpre c) _ _)
    (AllReal.mulf (W5_v54_allReal m hpre c) (W5_v54_allReal m hpre c))

/-! ## The scale and bias rows -/

/-- The scale argument is as launched when the second host stretch reads it. -/
theorem W2_arg9 (c : Dev nD) :
    W2 (F := Ideal) m c (Proc.devRef .tc main_arg9) = m ((c.tc : Thread nD τ).loc main_arg9) := by
  unfold W2
  rw [Function.update_of_ne (StableHlo.devRef_ne_of_ne (by decide : main_arg9 ≠ main_v31) :
    (Proc.devRef .tc main_arg9 : DevRef τ sig) ≠ Proc.devRef .tc main_v31)]
  exact StableHlo.after_of_writes_sub hostOps0 _ GenP.hostOps0_writes (by decide)

/-- The bias argument likewise. -/
theorem W2_arg10 (c : Dev nD) :
    W2 (F := Ideal) m c (Proc.devRef .tc main_arg10) = m ((c.tc : Thread nD τ).loc main_arg10) := by
  unfold W2
  rw [Function.update_of_ne (StableHlo.devRef_ne_of_ne (by decide : main_arg10 ≠ main_v31) :
    (Proc.devRef .tc main_arg10 : DevRef τ sig) ≠ Proc.devRef .tc main_v31)]
  exact StableHlo.after_of_writes_sub hostOps0 _ GenP.hostOps0_writes (by decide)

/-- The mixing region leaves the scale vector as the second host stretch computed it. -/
theorem W4_v48 (c : Dev nD) : W4 (F := Ideal) m c (Proc.devRef .tc main_v48) = W3 (F := Ideal) m c main_v48 := by
  unfold W4
  rw [Function.update_of_ne (StableHlo.devRef_ne_of_ne (by decide : main_v48 ≠ main_v52_2) :
      (Proc.devRef .tc main_v48 : DevRef τ sig) ≠ Proc.devRef .tc main_v52_2),
    Function.update_of_ne (StableHlo.devRef_ne_of_ne (by decide : main_v48 ≠ main_v52_1) :
      (Proc.devRef .tc main_v48 : DevRef τ sig) ≠ Proc.devRef .tc main_v52_1),
    Function.update_of_ne (StableHlo.devRef_ne_of_ne (by decide : main_v48 ≠ main_v52_0) :
      (Proc.devRef .tc main_v48 : DevRef τ sig) ≠ Proc.devRef .tc main_v52_0)]

/-- The mixing region leaves the bias vector as the second host stretch computed it. -/
theorem W4_v50 (c : Dev nD) : W4 (F := Ideal) m c (Proc.devRef .tc main_v50) = W3 (F := Ideal) m c main_v50 := by
  unfold W4
  rw [Function.update_of_ne (StableHlo.devRef_ne_of_ne (by decide : main_v50 ≠ main_v52_2) :
      (Proc.devRef .tc main_v50 : DevRef τ sig) ≠ Proc.devRef .tc main_v52_2),
    Function.update_of_ne (StableHlo.devRef_ne_of_ne (by decide : main_v50 ≠ main_v52_1) :
      (Proc.devRef .tc main_v50 : DevRef τ sig) ≠ Proc.devRef .tc main_v52_1),
    Function.update_of_ne (StableHlo.devRef_ne_of_ne (by decide : main_v50 ≠ main_v52_0) :
      (Proc.devRef .tc main_v50 : DevRef τ sig) ≠ Proc.devRef .tc main_v52_0)]

set_option maxHeartbeats 4000000 in
/-- The scale row (a row of the scale argument, as a 1×64 array) is all real. -/
theorem W5_v59_allReal (hpre : Cert.Pre_KernelIdeal m) (c : Dev nD) :
    AllReal (W5 (F := Ideal) m c main_v59 : S1x64.Idx → EReal) := by
  dsimp only [W5, hostOps2]
  after_results
  rw [W4_v48]
  dsimp only [W3, hostOps1]
  after_results
  rw [W2_arg9]
  exact (((main_arg9_allReal m hpre c).extractStridedSlice _ _).shapeCast _).shapeCast _

set_option maxHeartbeats 4000000 in
/-- The bias row (a row of the bias argument, as a 1×64 array) is all real. -/
theorem W5_v60_allReal (hpre : Cert.Pre_KernelIdeal m) (c : Dev nD) :
    AllReal (W5 (F := Ideal) m c main_v60 : S1x64.Idx → EReal) := by
  dsimp only [W5, hostOps2]
  after_results
  rw [W4_v50]
  dsimp only [W3, hostOps1]
  after_results
  rw [W2_arg10]
  exact (((main_arg10_allReal m hpre c).extractStridedSlice _ _).shapeCast _).shapeCast _

/-! ## The normalised array -/

/-- The normalisation of an all-real array by all-real mean, variance, scale and bias rows is all real. -/
theorem bnRelu2_allReal {X : S100000x64.Idx → EReal} {mean var scale bias : S1x64.Idx → EReal} (hX : AllReal X)
    (hm : AllReal mean) (hv : AllReal var) (hs : AllReal scale) (hb : AllReal bias) :
    AllReal (bnRelu2 X mean var scale bias) := by
  intro i
  obtain ⟨e, he, hε⟩ := ofBits_eps_f32
  show IsReal (max ((((X i - mean (rowOf2 i)) * Ideal.rsqrt (max (var (rowOf2 i)) 0 + Ideal.ofBits .f32 0x3727C5AC#32))
    * scale (rowOf2 i) + bias (rowOf2 i))) 0)
  rw [hε]
  exact (((((hX i).sub (hm _)).mul (isReal_rsqrt_max_zero_add_pos (hv _) he)).mul (hs _)).add (hb _)).max isReal_zero

/-- What the normalise region of relation 0, layer 1 leaves (the input of layer 2) is all real. -/
theorem O2_0_allReal (hpre : Cert.Pre_KernelIdeal m) (c : Dev nD) :
    AllReal (O2_0 (F := Ideal) m c : S100000x64.Idx → EReal) := by
  rw [O2_0_fun]
  refine bnRelu2_allReal ?_ (W5_v54_allReal m hpre c) (W5_v58_allReal m hpre c) (W5_v59_allReal m hpre c)
    (W5_v60_allReal m hpre c)
  rw [ker_xm1]
  exact O1_0_allReal m hpre c

end Cert.KernelIdeal.Body

end
-- ==== Proof.KIRealLayer2.lean ====
/-
  The arrays of relation 0, layer 2, are real.

  The second dense layer is x·W + b of the normalised array of layer 1 (real) and of a slab and a row of float inputs.
  The second aggregated array is an accumulating scatter into zeros of gathered rows of that layer scaled by the edge
  norms; the mixing weight is an entry of a float input; the mixed array g·agg + (1 - g)·h is real. Its two accumulated
  rows are finite sums of reals and of products of reals; the mean and variance rows are quotients by 100000 and a
  difference of reals; the scale and bias rows are rows of float inputs. The normalised array of layer 2,
  max(((x − mean)·rsqrt(max(var, 0) + ε))·scale + bias, 0) with ε a positive real, is real.
-/
import proofs.«140713_j1864015806535_2_alg».proof.Proof.KIFrameBase
import proofs.«140713_j1864015806535_2_alg».proof.Proof.KIValDense3
import proofs.«140713_j1864015806535_2_alg».proof.Proof.KIValMix4
import proofs.«140713_j1864015806535_2_alg».proof.Proof.KIValBn5
import proofs.«140713_j1864015806535_2_alg».proof.Proof.KIRealMix1
import proofs.«140713_j1864015806535_2_alg».proof.Proof.KIRealBn1
import proofs.«140713_j1864015806535_2_alg».proof.Proof.LibRealArrays
import Idealize.ShloMosaic.Lib.StableHlo.Run

set_option maxRecDepth 65536

noncomputable section

namespace Cert.KernelIdeal.Body

open Cert.KernelIdeal Cert.KernelIdeal.Gen Idealize.ShloMosaic Idealize.ShloMosaic.TcCoe Idealize.ShloMosaic.ValueIdx Idealize.SL.Sem
open Idealize.ShloMosaic.StableHlo
open Idealize.ShloMosaic.Pipeline (Dat Cfg Window)
open Cert.LibRealArrays Cert.LibRealEntries Cert.LibAffineStage

variable (m : (ℓ : Loc nD τ sig) → Buf (Elt Ideal) ℓ)

/-! ## Buffers no item has written yet -/

/-- A buffer none of the first six items writes holds, after them, what it held at launch. -/
theorem rl2_W6_of (c : Dev nD) (r : Ref sig .tc) (h1 : r ∉ GenP.hostOps0_W) (h2 : r ∉ ([main_v31] : List (Ref sig .tc)))
    (h3 : r ∉ GenP.hostOps1_W) (h4 : r ∉ ([main_v52_0, main_v52_1, main_v52_2] : List (Ref sig .tc))) (h5 : r ∉ GenP.hostOps2_W)
    (h6 : r ∉ ([main_v61] : List (Ref sig .tc))) :
    W6 (F := Ideal) m c r = m ((c.tc : Thread nD τ).loc r) :=
  (congrFun (hV6 m c) _).symm.trans <|
    (GenP.V6_of m (outs m) c r h6).trans <| (GenP.V5_of m (outs m) c r h5).trans <|
      (GenP.V4_of m (outs m) c r h4).trans <| (GenP.V3_of m (outs m) c r h3).trans <|
      (GenP.V2_of m (outs m) c r h2).trans <| (GenP.V1_of m c r h1).trans rfl

/-- A buffer none of the first eight items writes holds, after them, what it held at launch. -/
theorem rl2_W8_of (c : Dev nD) (r : Ref sig .tc) (h1 : r ∉ GenP.hostOps0_W) (h2 : r ∉ ([main_v31] : List (Ref sig .tc)))
    (h3 : r ∉ GenP.hostOps1_W) (h4 : r ∉ ([main_v52_0, main_v52_1, main_v52_2] : List (Ref sig .tc))) (h5 : r ∉ GenP.hostOps2_W)
    (h6 : r ∉ ([main_v61] : List (Ref sig .tc))) (h7 : r ∉ GenP.hostOps3_W) (h8 : r ∉ ([main_v67] : List (Ref sig .tc))) :
    W8 (F := Ideal) m c r = m ((c.tc : Thread nD τ).loc r) :=
  (congrFun (hV8 m c) _).symm.trans <|
    (GenP.V8_of m (outs m) c r h8).trans <| (GenP.V7_of m (outs m) c r h7).trans <|
      (congrFun (hV6 m c) _).trans (rl2_W6_of m c r h1 h2 h3 h4 h5 h6)

/-- The edge norms, computed in the first host stretch, reach the fifth host stretch unchanged. -/
theorem rl2_W8_v25 (c : Dev nD) : W8 (F := Ideal) m c main_v25 = W1 (F := Ideal) m c main_v25 :=
  (congrFun (hV8 m c) _).symm.trans <|
    (GenP.V8_of m (outs m) c main_v25 (by decide)).trans <| (GenP.V7_of m (outs m) c main_v25 (by decide)).trans <|
    (GenP.V6_of m (outs m) c main_v25 (by decide)).trans <| (GenP.V5_of m (outs m) c main_v25 (by decide)).trans <|
      (GenP.V4_of m (outs m) c main_v25 (by decide)).trans <| (GenP.V3_of m (outs m) c main_v25 (by decide)).trans <|
      (GenP.V2_of m (outs m) c main_v25 (by decide)).trans (congrFun (hV1 m c) _)

/-- After the normalise region of layer 1 its output array holds what the region left. -/
theorem rl2_W6_v61 (c : Dev nD) : W6 (F := Ideal) m c (Proc.devRef .tc main_v61) = O2_0 (F := Ideal) m c := by
  unfold W6; exact Function.update_self _ _ _

/-- The fourth host stretch leaves that array alone. -/
theorem rl2_W7_v61 (c : Dev nD) : (W7 (F := Ideal) m c main_v61 : S100000x64.Idx → EReal) = O2_0 (F := Ideal) m c := by
  show StableHlo.after hostOps3 (W6 (F := Ideal) m c) (Proc.devRef .tc main_v61) = _
  rw [StableHlo.after_of_writes_sub hostOps3 _ GenP.hostOps3_writes (by decide)]
  exact rl2_W6_v61 m c

/-- After the dense region of layer 2 its output array holds what the region left. -/
theorem rl2_W8_v67 (c : Dev nD) : W8 (F := Ideal) m c (Proc.devRef .tc main_v67) = O3_0 (F := Ideal) m c := by
  unfold W8; exact Function.update_self _ _ _

/-- The fifth host stretch leaves that array alone. -/
theorem rl2_W9_v67 (c : Dev nD) : (W9 (F := Ideal) m c main_v67 : S100000x32.Idx → EReal) = O3_0 (F := Ideal) m c := by
  show StableHlo.after hostOps4 (W8 (F := Ideal) m c) (Proc.devRef .tc main_v67) = _
  rw [StableHlo.after_of_writes_sub hostOps4 _ GenP.hostOps4_writes (by decide)]
  exact rl2_W8_v67 m c

/-- What the mixing region of layer 2 leaves in its three outputs is there after it. -/
theorem rl2_W10_v88_0 (c : Dev nD) : W10 (F := Ideal) m c (Proc.devRef .tc main_v88_0) = O4_0 (F := Ideal) m c := by
  unfold W10
  simp only [Function.update_self,
    Function.update_of_ne (StableHlo.devRef_ne_of_ne (by decide : main_v88_0 ≠ main_v88_2) : (Proc.devRef .tc main_v88_0 : DevRef τ sig) ≠ Proc.devRef .tc main_v88_2),
    Function.update_of_ne (StableHlo.devRef_ne_of_ne (by decide : main_v88_0 ≠ main_v88_1) : (Proc.devRef .tc main_v88_0 : DevRef τ sig) ≠ Proc.devRef .tc main_v88_1)]
theorem rl2_W10_v88_1 (c : Dev nD) : W10 (F := Ideal) m c (Proc.devRef .tc main_v88_1) = O4_1 (F := Ideal) m c := by
  unfold W10
  simp only [Function.update_self,
    Function.update_of_ne (StableHlo.devRef_ne_of_ne (by decide : main_v88_1 ≠ main_v88_2) : (Proc.devRef .tc main_v88_1 : DevRef τ sig) ≠ Proc.devRef .tc main_v88_2)]
theorem rl2_W10_v88_2 (c : Dev nD) : W10 (F := Ideal) m c (Proc.devRef .tc main_v88_2) = O4_2 (F := Ideal) m c := by
  unfold W10
  simp only [Function.update_self]

/-- The mixing region of layer 2 leaves every other buffer alone. -/
theorem rl2_W10_of (c : Dev nD) (r : Ref sig .tc) (h : r ∉ ([main_v88_0, main_v88_1, main_v88_2] : List (Ref sig .tc))) :
    W10 (F := Ideal) m c r = W9 (F := Ideal) m c r :=
  (congrFun (hV10 m c) _).symm.trans <| (GenP.V10_of m (outs m) c r h).trans (congrFun (hV9 m c) _)

/-! ## The second dense layer -/

set_option maxHeartbeats 4000000 in
/-- The weight of layer 2 (a slab of the second weights argument, as a matrix) is all real. -/
theorem W7_v63_allReal (hpre : Cert.Pre_KernelIdeal m) (c : Dev nD) :
    AllReal (W7 (F := Ideal) m c main_v63 : S64x32.Idx → EReal) := by
  dsimp only [W7, hostOps3]
  after_results
  rw [rl2_W6_of m c main_arg5 (by decide) (by decide) (by decide) (by decide) (by decide) (by decide)]
  exact ((main_arg5_allReal m hpre c).extractStridedSlice _ _).shapeCast _

set_option maxHeartbeats 4000000 in
/-- The bias row of layer 2 (a row of the second bias argument, as a 1×32 array) is all real. -/
theorem W7_v66_allReal (hpre : Cert.Pre_KernelIdeal m) (c : Dev nD) :
    AllReal (W7 (F := Ideal) m c main_v66 : S1x32.Idx → EReal) := by
  dsimp only [W7, hostOps3]
  after_results
  rw [rl2_W6_of m c main_arg6 (by decide) (by decide) (by decide) (by decide) (by decide) (by decide)]
  exact (((main_arg6_allReal m hpre c).extractStridedSlice _ _).shapeCast _).shapeCast _

/-- The second dense layer of relation 0, as its region leaves it, is all real. -/
theorem O3_0_allReal (hpre : Cert.Pre_KernelIdeal m) (c : Dev nD) :
    AllReal (O3_0 (F := Ideal) m c : S100000x32.Idx → EReal) := by
  rw [O3_0_eq_affine, rl2_W7_v61]
  exact AllReal.affine 100000 64 32 (O2_0_allReal m hpre c) (W7_v63_allReal m hpre c) (W7_v66_allReal m hpre c)

/-! ## The second aggregated array, the mixing weight, the scale and bias vectors -/

set_option maxHeartbeats 4000000 in
/-- The aggregated array of layer 2 is all real. -/
theorem W9_v80_allReal (hpre : Cert.Pre_KernelIdeal m) (c : Dev nD) :
    AllReal (W9 (F := Ideal) m c main_v80 : S100000x32.Idx → EReal) := by
  dsimp only [W9, hostOps4]
  after_results
  refine AllReal.scatterAdd _ _ (allReal_broadcastInDim_constant _ _ _ isReal_ofBits_zero_f32) ?_
  refine AllReal.mulf (AllReal.gather ?_ _ _) (AllReal.broadcastInDim (AllReal.broadcastInDim ?_ _ _) _ _)
  · rw [rl2_W8_v67]; exact O3_0_allReal m hpre c
  · rw [rl2_W8_v25]; exact W1_v25_allReal m c

set_option maxHeartbeats 4000000 in
/-- The mixing weight of layer 2 (one entry of the second mixing weights argument, as a 1×1 array) is all real. -/
theorem W9_v87_allReal (hpre : Cert.Pre_KernelIdeal m) (c : Dev nD) :
    AllReal (W9 (F := Ideal) m c main_v87 : S1x1.Idx → EReal) := by
  dsimp only [W9, hostOps4]
  after_results
  rw [rl2_W8_of m c main_arg8 (by decide) (by decide) (by decide) (by decide) (by decide) (by decide) (by decide) (by decide)]
  exact (((main_arg8_allReal m hpre c).extractStridedSlice _ _).shapeCast _).shapeCast _

set_option maxHeartbeats 4000000 in
/-- The scale vector of layer 2 (a row of the second scale argument) is all real. -/
theorem W9_v84_allReal (hpre : Cert.Pre_KernelIdeal m) (c : Dev nD) :
    AllReal (W9 (F := Ideal) m c main_v84 : S32.Idx → EReal) := by
  dsimp only [W9, hostOps4]
  after_results
  rw [rl2_W8_of m c main_arg11 (by decide) (by decide) (by decide) (by decide) (by decide) (by decide) (by decide) (by decide)]
  exact ((main_arg11_allReal m hpre c).extractStridedSlice _ _).shapeCast _

set_option maxHeartbeats 4000000 in
/-- The bias vector of layer 2's normalisation (a row of the second bias argument of the normalisation) is all real. -/
theorem W9_v86_allReal (hpre : Cert.Pre_KernelIdeal m) (c : Dev nD) :
    AllReal (W9 (F := Ideal) m c main_v86 : S32.Idx → EReal) := by
  dsimp only [W9, hostOps4]
  after_results
  rw [rl2_W8_of m c main_arg12 (by decide) (by decide) (by decide) (by decide) (by decide) (by decide) (by decide) (by decide)]
  exact ((main_arg12_allReal m hpre c).extractStridedSlice _ _).shapeCast _

/-- The second dense layer as the mixing region finds it. -/
theorem W9_v67_allReal (hpre : Cert.Pre_KernelIdeal m) (c : Dev nD) :
    AllReal (W9 (F := Ideal) m c main_v67 : S100000x32.Idx → EReal) := by
  rw [rl2_W9_v67]; exact O3_0_allReal m hpre c

/-! ## The mixed array and its two accumulated rows -/

/-- g·agg + (1 - g)·h of all-real g, h, agg (width 32) is all real. -/
theorem mix4_allReal {g : S1x1.Idx → EReal} {h agg : S100000x32.Idx → EReal} (hg : AllReal g) (hh : AllReal h)
    (hagg : AllReal agg) : AllReal (mixG_4 g h agg) :=
  fun i => ((hg _).mul (hagg i)).add ((isReal_ofBits_one_f32.sub (hg _)).mul (hh i))

/-- The mixed value at every row and column is real. -/
theorem xm4_isReal (hpre : Cert.Pre_KernelIdeal m) (c : Dev nD) (p : Fin 100000) (q : Fin 32) : IsReal (xm4 m c p q) :=
  mix4_allReal (W9_v87_allReal m hpre c) (W9_v67_allReal m hpre c) (W9_v80_allReal m hpre c) (ix2 p q)

/-- The mixed array of layer 2, as the mixing region leaves it, is all real. -/
theorem O4_0_allReal (hpre : Cert.Pre_KernelIdeal m) (c : Dev nD) :
    AllReal (O4_0 (F := Ideal) m c : S100000x32.Idx → EReal) := by
  intro i
  obtain ⟨p, q, rfl⟩ : ∃ (p : Fin 100000) (q : Fin 32), i = ix2 p q := ⟨i 0, i 1, eq_ix2 i⟩
  rw [O4_0_eq]
  exact xm4_isReal m hpre c p q

/-- The row of column sums the mixing region of layer 2 accumulates is all real. -/
theorem O4_1_allReal (hpre : Cert.Pre_KernelIdeal m) (c : Dev nD) :
    AllReal (O4_1 (F := Ideal) m c : S1x32.Idx → EReal) := by
  intro i
  obtain ⟨a, q, rfl⟩ : ∃ (a : Fin 1) (q : Fin 32), i = ix2 a q := ⟨i 0, i 1, eq_ix2 i⟩
  obtain rfl : a = 0 := Subsingleton.elim _ _
  rw [O4_1_eq]
  exact IsReal.sum _ _ fun t _ => IsReal.sum _ _ fun r _ => xm4_isReal m hpre c _ q

/-- The row of column sums of squares the mixing region of layer 2 accumulates is all real. -/
theorem O4_2_allReal (hpre : Cert.Pre_KernelIdeal m) (c : Dev nD) :
    AllReal (O4_2 (F := Ideal) m c : S1x32.Idx → EReal) := by
  intro i
  obtain ⟨a, q, rfl⟩ : ∃ (a : Fin 1) (q : Fin 32), i = ix2 a q := ⟨i 0, i 1, eq_ix2 i⟩
  obtain rfl : a = 0 := Subsingleton.elim _ _
  rw [O4_2_eq]
  exact IsReal.sum _ _ fun t _ => IsReal.sum _ _ fun r _ => (xm4_isReal m hpre c _ q).mul (xm4_isReal m hpre c _ q)

/-! ## The rows the normalise region of layer 2 reads -/

set_option maxHeartbeats 4000000 in
/-- The mean row of layer 2, the column sums over 100000, is all real. -/
theorem W11_v90_allReal (hpre : Cert.Pre_KernelIdeal m) (c : Dev nD) :
    AllReal (W11 (F := Ideal) m c main_v90 : S1x32.Idx → EReal) := by
  dsimp only [W11, hostOps5]
  after_results
  rw [rl2_W10_v88_1]
  exact allReal_hostDivf_1e5 (O4_1_allReal m hpre c) _ _

set_option maxHeartbeats 4000000 in
/-- The variance row of layer 2, the column sums of squares over 100000 less the squared mean, is all real. -/
theorem W11_v94_allReal (hpre : Cert.Pre_KernelIdeal m) (c : Dev nD) :
    AllReal (W11 (F := Ideal) m c main_v94 : S1x32.Idx → EReal) := by
  dsimp only [W11, hostOps5]
  after_results
  rw [rl2_W10_v88_1, rl2_W10_v88_2]
  exact AllReal.subf (allReal_hostDivf_1e5 (O4_2_allReal m hpre c) _ _)
    (AllReal.mulf (allReal_hostDivf_1e5 (O4_1_allReal m hpre c) _ _) (allReal_hostDivf_1e5 (O4_1_allReal m hpre c) _ _))

set_option maxHeartbeats 4000000 in
/-- The scale row of layer 2 is all real. -/
theorem W11_v95_allReal (hpre : Cert.Pre_KernelIdeal m) (c : Dev nD) :
    AllReal (W11 (F := Ideal) m c main_v95 : S1x32.Idx → EReal) := by
  dsimp only [W11, hostOps5]
  after_results
  rw [rl2_W10_of m c main_v84 (by decide)]
  exact (W9_v84_allReal m hpre c).shapeCast _

set_option maxHeartbeats 4000000 in
/-- The bias row of layer 2's normalisation is all real. -/
theorem W11_v96_allReal (hpre : Cert.Pre_KernelIdeal m) (c : Dev nD) :
    AllReal (W11 (F := Ideal) m c main_v96 : S1x32.Idx → EReal) := by
  dsimp only [W11, hostOps5]
  after_results
  rw [rl2_W10_of m c main_v86 (by decide)]
  exact (W9_v86_allReal m hpre c).shapeCast _

/-- The mixed array as the normalise region of layer 2 finds it. -/
theorem W11_v88_0_allReal (hpre : Cert.Pre_KernelIdeal m) (c : Dev nD) :
    AllReal (W11 (F := Ideal) m c main_v88_0 : S100000x32.Idx → EReal) := by
  show AllReal (StableHlo.after hostOps5 (W10 (F := Ideal) m c) (Proc.devRef .tc main_v88_0) : S100000x32.Idx → EReal)
  rw [StableHlo.after_of_writes_sub hostOps5 _ GenP.hostOps5_writes (by decide), rl2_W10_v88_0]
  exact O4_0_allReal m hpre c

/-! ## The normalised array of layer 2 -/

/-- The normalisation (width 32) of an all-real array by all-real mean, variance, scale and bias rows is all real. -/
theorem bnRelu5_allReal {X : S100000x32.Idx → EReal} {mean var scale bias : S1x32.Idx → EReal} (hX : AllReal X)
    (hm : AllReal mean) (hv : AllReal var) (hs : AllReal scale) (hb : AllReal bias) :
    AllReal (bnRelu5 X mean var scale bias) := by
  intro i
  obtain ⟨e, he, hε⟩ := ofBits_eps_f32
  show IsReal (max ((((X i - mean (rowOf5 i)) * Ideal.rsqrt (max (var (rowOf5 i)) 0 + Ideal.ofBits .f32 0x3727C5AC#32))
    * scale (rowOf5 i) + bias (rowOf5 i))) 0)
  rw [hε]
  exact (((((hX i).sub (hm _)).mul (isReal_rsqrt_max_zero_add_pos (hv _) he)).mul (hs _)).add (hb _)).max isReal_zero

/-- What the normalise region of relation 0, layer 2 leaves is all real. -/
theorem O5_0_allReal (hpre : Cert.Pre_KernelIdeal m) (c : Dev nD) :
    AllReal (O5_0 (F := Ideal) m c : S100000x32.Idx → EReal) := by
  rw [O5_0_fun]
  exact bnRelu5_allReal (W11_v88_0_allReal m hpre c) (W11_v90_allReal m hpre c) (W11_v94_allReal m hpre c)
    (W11_v95_allReal m hpre c) (W11_v96_allReal m hpre c)

end Cert.KernelIdeal.Body

end
-- ==== Proof.KIStageAgg3.lean ====
/-
  The graph aggregation of relation 0, layer 2 (width 32), which both programs compute on the host with the same
  operations.

  With h the second dense layer's output (100000 × 32), src and dst the relation's two rows of the edge argument and
  weight(e) = d(src e) · d(dst e), d = 1/sqrt(max(deg, 1)), row n of agg is the sum over the edges e into n of
  weight(e) · h(src e). The kernel program reads the edge rows and the weights its first stretch left; the reference
  computes the weights again from the edge rows its first window left. Each program's agg array is read as the one
  function aggOf32 of (h, src, dst, weights), and the last lemmas conclude that the two agg arrays are equal when the two
  h arrays are equal and the edge rows agree, and that the 1×1 mixing weight the kernel program's region reads is the
  reference's scalar mixing weight when the memories agree on the second weights argument.
-/
import proofs.«140713_j1864015806535_2_alg».proof.Proof.KIStageAgg0

set_option maxRecDepth 16384

noncomputable section

namespace Cert.Proof.Value
open Idealize.ShloMosaic

/-- The graph aggregation at width 32: row n of the result is the sum over the edges e into n of weight(e) · h(src e). -/
def aggOf32 (sd : ScatterDims ⟨2, ![100000, 32]⟩ ⟨2, ![1600000, 1]⟩ ⟨2, ![1600000, 32]⟩)
    (gd : GatherDims ⟨2, ![100000, 32]⟩ ⟨2, ![1600000, 1]⟩ ⟨2, ![1600000, 32]⟩)
    (hbE : (⟨0, ![]⟩ : Shape).BroadcastsInDim ⟨1, ![1600000]⟩ (![] : Fin 0 → Fin 1))
    (hbZ : (⟨0, ![]⟩ : Shape).BroadcastsInDim ⟨2, ![100000, 32]⟩ (![] : Fin 0 → Fin 2))
    (hbC : (⟨1, ![1600000]⟩ : Shape).BroadcastsInDim ⟨2, ![1600000, 1]⟩ (![0] : Fin 1 → Fin 2))
    (hbW : (⟨2, ![1600000, 1]⟩ : Shape).BroadcastsInDim ⟨2, ![1600000, 32]⟩ (![0, 1] : Fin 2 → Fin 2))
    (h : (⟨2, ![100000, 32]⟩ : Shape).Idx → EReal)
    (src dst : (⟨1, ![1600000]⟩ : Shape).Idx → BitVec 32)
    (nrm : (⟨1, ![1600000]⟩ : Shape).Idx → EReal) : (⟨2, ![100000, 32]⟩ : Shape).Idx → EReal :=
  Host.scatterAdd sd (broadcastInDim ⟨2, ![100000, 32]⟩ ![] hbZ (constant (F := Ideal) ⟨0, ![]⟩ .f32 0#32))
    (broadcastInDim ⟨2, ![1600000, 1]⟩ ![0] hbC dst)
    (mulf (F := Ideal) (φ := .f32)
      (Host.gather gd h (broadcastInDim ⟨2, ![1600000, 1]⟩ ![0] hbC (wrapOf hbE src)))
      (broadcastInDim ⟨2, ![1600000, 32]⟩ ![0, 1] hbW (broadcastInDim ⟨2, ![1600000, 1]⟩ ![0] hbC nrm)))
end Cert.Proof.Value

namespace Cert.KernelIdeal.Body
open Cert.KernelIdeal Cert.KernelIdeal.Gen Idealize.ShloMosaic Idealize.ShloMosaic.TcCoe Idealize.SL.Sem Idealize.ShloMosaic.StableHlo
variable (m : (ℓ : Loc nD τ sig) → Buf (Elt Ideal) ℓ)

/-- After region 3 the second dense layer's output array holds what the region left there. -/
theorem W8_h3 (c : Dev nD) : W8 (F := Ideal) m c (main_v67 : DevRef τ sig) = O3_0 m c := by
  unfold W8
  exact Function.update_self ..

/-- A buffer that nothing writes from the first stretch's end to region 3's end holds there what the first stretch left. -/
theorem W8_of_W1 (c : Dev nD) (r : Ref sig .tc)
    (h2 : r ∉ ([main_v31] : List (Ref sig .tc))) (h3 : r ∉ GenP.hostOps1_W)
    (h4 : r ∉ ([main_v52_0, main_v52_1, main_v52_2] : List (Ref sig .tc))) (h5 : r ∉ GenP.hostOps2_W)
    (h6 : r ∉ ([main_v61] : List (Ref sig .tc))) (h7 : r ∉ GenP.hostOps3_W)
    (h8 : r ∉ ([main_v67] : List (Ref sig .tc))) :
    W8 (F := Ideal) m c (Proc.devRef .tc r) = W1 m c (Proc.devRef .tc r) :=
  (congrFun (hV8 m c) _).symm.trans <|
    (GenP.V8_of m (outs m) c r h8).trans <| (GenP.V7_of m (outs m) c r h7).trans <|
    (GenP.V6_of m (outs m) c r h6).trans <| (GenP.V5_of m (outs m) c r h5).trans <|
    (GenP.V4_of m (outs m) c r h4).trans <| (GenP.V3_of m (outs m) c r h3).trans <|
    (GenP.V2_of m (outs m) c r h2).trans <| congrFun (hV1 m c) _

set_option maxHeartbeats 4000000 in
/-- The aggregation of relation 0, layer 2, over the contents region 3 leaves. -/
theorem ker_agg3_raw (c : Dev nD) :
    (W9 (F := Ideal) m c main_v80 : S100000x32.Idx → EReal)
      = Cert.Proof.Value.aggOf32 scatter_S100000x32_S1600000x1_S1600000x32_1_0_0_1 gather_S100000x32_S1600000x1_S1600000x32_1_0_n_n_0_1_132
          bcast_S_S1600000 bcast_S_S100000x32 bcast_S1600000_S1600000x1_0 bcast_S1600000x1_S1600000x32_0_1
          (W8 m c (main_v67 : DevRef τ sig))
          (W8 m c (main_v1 : DevRef τ sig))
          (W8 m c (main_v3 : DevRef τ sig))
          (W8 m c (main_v25 : DevRef τ sig)) := by
  dsimp only [W9, hostOps4]
  after_results
  rfl

/-- The aggregation of relation 0, layer 2, as a function of what region 3 leaves and of the edge argument. -/
theorem ker_agg3 (c : Dev nD) :
    (W9 (F := Ideal) m c main_v80 : S100000x32.Idx → EReal)
      = Cert.Proof.Value.aggOf32 scatter_S100000x32_S1600000x1_S1600000x32_1_0_0_1 gather_S100000x32_S1600000x1_S1600000x32_1_0_n_n_0_1_132
          bcast_S_S1600000 bcast_S_S100000x32 bcast_S1600000_S1600000x1_0 bcast_S1600000x1_S1600000x32_0_1
          (O3_0 m c)
          (Cert.Proof.Value.edgeRowOf (m ((c.tc : Thread nD τ).loc main_arg1)) ![0, 0, 0] slices_S3x2x1600000_S1x1x1600000_0_0_0 shapeCasts_S1x1x1600000_S1600000)
          (Cert.Proof.Value.edgeRowOf (m ((c.tc : Thread nD τ).loc main_arg1)) ![0, 1, 0] slices_S3x2x1600000_S1x1x1600000_0_1_0 shapeCasts_S1x1x1600000_S1600000)
          (Cert.Proof.Value.normOf scatter_S100000_S1600000x1_S1600000_n_0_0_1 gather_S100000_S1600000x1_S1600000_n_0_n_n_0_1_1
            bcast_S_S1600000 bcast_S_S100000 bcast_S1600000_S1600000x1_0
            (Cert.Proof.Value.edgeRowOf (m ((c.tc : Thread nD τ).loc main_arg1)) ![0, 0, 0] slices_S3x2x1600000_S1x1x1600000_0_0_0 shapeCasts_S1x1x1600000_S1600000)
            (Cert.Proof.Value.edgeRowOf (m ((c.tc : Thread nD τ).loc main_arg1)) ![0, 1, 0] slices_S3x2x1600000_S1x1x1600000_0_1_0 shapeCasts_S1x1x1600000_S1600000)) := by
  rw [ker_agg3_raw, W8_h3,
    W8_of_W1 m c main_v1 (by decide) (by decide) (by decide) (by decide) (by decide) (by decide) (by decide),
    W8_of_W1 m c main_v3 (by decide) (by decide) (by decide) (by decide) (by decide) (by decide) (by decide),
    W8_of_W1 m c main_v25 (by decide) (by decide) (by decide) (by decide) (by decide) (by decide) (by decide),
    ker_src0, ker_dst0, ker_norm0]

/-- The second weights argument is as launched when region 4 is entered. -/
theorem ker_arg8_3 (c : Dev nD) : W8 (F := Ideal) m c (main_arg8 : DevRef τ sig) = m ((c.tc : Thread nD τ).loc main_arg8) := by
  rw [W8_of_W1 m c main_arg8 (by decide) (by decide) (by decide) (by decide) (by decide) (by decide) (by decide)]
  exact StableHlo.after_of_writes_sub hostOps0 _ GenP.hostOps0_writes (by decide)

set_option maxHeartbeats 2000000 in
/-- The mixing weight region 4 reads: relation 0's entry of the second weights argument, as a 1×1 array. -/
theorem ker_gamma3 (c : Dev nD) :
    (W9 (F := Ideal) m c main_v87 : S1x1.Idx → EReal)
      = shapeCast S1x1 (Cert.Proof.Value.gammaOf (m ((c.tc : Thread nD τ).loc main_arg8)) ![0] slices_S3_S1_0 shapeCasts_S1_S_) shapeCasts_S_S1x1 := by
  have e : (W9 (F := Ideal) m c main_v87 : S1x1.Idx → EReal)
      = shapeCast S1x1 (Cert.Proof.Value.gammaOf (W8 m c (main_arg8 : DevRef τ sig)) ![0] slices_S3_S1_0 shapeCasts_S1_S_) shapeCasts_S_S1x1 := by
    dsimp only [W9, hostOps4]
    after_results
    rfl
  rw [e, ker_arg8_3]
end Cert.KernelIdeal.Body

namespace Cert.ReferenceIdeal.RefRun
open Cert.ReferenceIdeal Cert.ReferenceIdeal.Gen Idealize.ShloMosaic Idealize.ShloMosaic.TcCoe Idealize.SL.Sem Idealize.ShloMosaic.StableHlo

/-- The first n operations of the second window leave a buffer the window does not write as it was. -/
theorem ops1_take_keepsAgg (n : Nat) (V : Valuation τ sig (Elt Ideal)) (r : Ref sig .tc) (hr : r ∉ (ops1_W : List (Ref sig .tc))) :
    after ((ops1 (F := Ideal)).take n) V (Proc.devRef .tc r) = V (Proc.devRef .tc r) :=
  after_of_writes_sub (W := ops1_W) _ V
    (List.forall_iff_forall_mem.mpr fun op hop => List.forall_iff_forall_mem.mp ops1_writes op (List.mem_of_mem_take hop)) hr

set_option maxHeartbeats 2000000 in
/-- The source row of relation 0's edges, as the first window leaves it. -/
theorem ref_src0 (V : Valuation τ sig (Elt Ideal)) :
    (after (ops0 (F := Ideal)) V (main_v1 : DevRef τ sig) : S1600000.Idx → BitVec 32) = Cert.Proof.Value.edgeRowOf (V (main_arg1 : DevRef τ sig)) ![0, 0, 0] slices_S3x2x1600000_S1x1x1600000_0_0_0 shapeCasts_S1x1x1600000_S1600000 := by
  dsimp only [ops0]
  after_results_simp
  rfl

set_option maxHeartbeats 2000000 in
/-- The destination row of relation 0's edges, as the first window leaves it. -/
theorem ref_dst0 (V : Valuation τ sig (Elt Ideal)) :
    (after (ops0 (F := Ideal)) V (main_v3 : DevRef τ sig) : S1600000.Idx → BitVec 32) = Cert.Proof.Value.edgeRowOf (V (main_arg1 : DevRef τ sig)) ![0, 1, 0] slices_S3x2x1600000_S1x1x1600000_0_1_0 shapeCasts_S1x1x1600000_S1600000 := by
  dsimp only [ops0]
  after_results_simp
  rfl

set_option maxHeartbeats 8000000 in
/-- The reference's aggregation of relation 0, layer 2, from any contents V before the second window: a function of the
    dense layer's output the second window computes and of the two edge rows V holds. The second window is cut after the
    dense layer's last operation, and the operations before the cut are read only through what they leave. -/
theorem ref_agg3 (V : Valuation τ sig (Elt Ideal)) :
    (after (ops2 (F := Ideal)) (after (ops1 (F := Ideal)) V) (main_v123 : DevRef τ sig) : S100000x32.Idx → EReal)
      = Cert.Proof.Value.aggOf32 scatter_S100000x32_S1600000x1_S1600000x32_1_0_0_1 gather_S100000x32_S1600000x1_S1600000x32_1_0_n_n_0_1_132
          bcast_S_S1600000 bcast_S_S100000x32 bcast_S1600000_S1600000x1_0 bcast_S1600000x1_S1600000x32_0_1
          (after (ops1 (F := Ideal)) V (main_v88 : DevRef τ sig))
          (V (main_v1 : DevRef τ sig))
          (V (main_v3 : DevRef τ sig))
          (Cert.Proof.Value.normOf scatter_S100000_S1600000x1_S1600000_n_0_0_1 gather_S100000_S1600000x1_S1600000_n_0_n_n_0_1_1
            bcast_S_S1600000 bcast_S_S100000 bcast_S1600000_S1600000x1_0
            (V (main_v1 : DevRef τ sig))
            (V (main_v3 : DevRef τ sig))) := by
  rw [← ops1_take_keepsAgg 67 V main_v1 (by decide), ← ops1_take_keepsAgg 67 V main_v3 (by decide),
    ← List.take_append_drop 67 (ops1 (F := Ideal)), after_append]
  simp only [List.take_append_drop]
  generalize after ((ops1 (F := Ideal)).take 67) V = X
  dsimp only [ops1, ops2]
  simp only [List.drop_succ_cons, List.drop_zero]
  after_results_simp
  rfl

set_option maxHeartbeats 4000000 in
/-- The reference's mixing weight of relation 0, layer 2: that entry of the second weights argument, as a scalar. -/
theorem ref_gamma3 (V : Valuation τ sig (Elt Ideal)) :
    (after (ops1 (F := Ideal)) V (main_v84 : DevRef τ sig) : S_.Idx → EReal)
      = Cert.Proof.Value.gammaOf (V (main_arg8 : DevRef τ sig)) ![0] slices_S3_S1_0 shapeCasts_S1_S_ := by
  dsimp only [ops1]
  after_results_simp
  rfl
end Cert.ReferenceIdeal.RefRun

namespace Cert.Proof.Value
open Idealize.ShloMosaic Idealize.ShloMosaic.TcCoe Idealize.SL.Sem Idealize.ShloMosaic.StableHlo

/-- Relation 0, layer 2: from any contents V before the reference's second window whose two edge rows are the relation's
    rows of the kernel program's edge argument, the two programs' aggregations are equal when their dense layers'
    outputs are. -/
theorem stageAgg3
    (m : (ℓ : Loc Cert.KernelIdeal.nD Cert.KernelIdeal.τ Cert.KernelIdeal.sig) → Buf (Elt Ideal) ℓ)
    (V : Valuation Cert.ReferenceIdeal.τ Cert.ReferenceIdeal.sig (Elt Ideal))
    (c : Dev Cert.KernelIdeal.nD)
    (hsrc : (V (Cert.ReferenceIdeal.main_v1 : DevRef Cert.ReferenceIdeal.τ Cert.ReferenceIdeal.sig) : (⟨1, ![1600000]⟩ : Shape).Idx → BitVec 32) = edgeRowOf (m ((c.tc : Thread Cert.KernelIdeal.nD Cert.KernelIdeal.τ).loc Cert.KernelIdeal.main_arg1)) ![0, 0, 0] Cert.KernelIdeal.Gen.slices_S3x2x1600000_S1x1x1600000_0_0_0 Cert.KernelIdeal.Gen.shapeCasts_S1x1x1600000_S1600000)
    (hdst : (V (Cert.ReferenceIdeal.main_v3 : DevRef Cert.ReferenceIdeal.τ Cert.ReferenceIdeal.sig) : (⟨1, ![1600000]⟩ : Shape).Idx → BitVec 32) = edgeRowOf (m ((c.tc : Thread Cert.KernelIdeal.nD Cert.KernelIdeal.τ).loc Cert.KernelIdeal.main_arg1)) ![0, 1, 0] Cert.KernelIdeal.Gen.slices_S3x2x1600000_S1x1x1600000_0_1_0 Cert.KernelIdeal.Gen.shapeCasts_S1x1x1600000_S1600000)
    (hh : (after (Cert.ReferenceIdeal.RefRun.ops1 (F := Ideal)) V (Cert.ReferenceIdeal.main_v88 : DevRef Cert.ReferenceIdeal.τ Cert.ReferenceIdeal.sig) : (⟨2, ![100000, 32]⟩ : Shape).Idx → EReal)
      = (Cert.KernelIdeal.Body.O3_0 (F := Ideal) m c : (⟨2, ![100000, 32]⟩ : Shape).Idx → EReal)) :
    (after (Cert.ReferenceIdeal.RefRun.ops2 (F := Ideal)) (after (Cert.ReferenceIdeal.RefRun.ops1 (F := Ideal)) V) (Cert.ReferenceIdeal.main_v123 : DevRef Cert.ReferenceIdeal.τ Cert.ReferenceIdeal.sig) : (⟨2, ![100000, 32]⟩ : Shape).Idx → EReal)
      = (Cert.KernelIdeal.Body.W9 (F := Ideal) m c (Cert.KernelIdeal.main_v80 : DevRef Cert.KernelIdeal.τ Cert.KernelIdeal.sig) : (⟨2, ![100000, 32]⟩ : Shape).Idx → EReal) := by
  rw [Cert.ReferenceIdeal.RefRun.ref_agg3, Cert.KernelIdeal.Body.ker_agg3, hh, hsrc, hdst]
  rfl

/-- The same from the launch: the contents before the second window are what the first window leaves. -/
theorem stageAgg3_launch
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (hh : (after (Cert.ReferenceIdeal.RefRun.ops1 (F := Ideal)) (after (Cert.ReferenceIdeal.RefRun.ops0 (F := Ideal)) (launchContents m' c)) (Cert.ReferenceIdeal.main_v88 : DevRef Cert.ReferenceIdeal.τ Cert.ReferenceIdeal.sig) : (⟨2, ![100000, 32]⟩ : Shape).Idx → EReal)
      = (Cert.KernelIdeal.Body.O3_0 (F := Ideal) m c : (⟨2, ![100000, 32]⟩ : Shape).Idx → EReal)) :
    (after (Cert.ReferenceIdeal.RefRun.ops2 (F := Ideal)) (after (Cert.ReferenceIdeal.RefRun.ops1 (F := Ideal)) (after (Cert.ReferenceIdeal.RefRun.ops0 (F := Ideal)) (launchContents m' c))) (Cert.ReferenceIdeal.main_v123 : DevRef Cert.ReferenceIdeal.τ Cert.ReferenceIdeal.sig) : (⟨2, ![100000, 32]⟩ : Shape).Idx → EReal)
      = (Cert.KernelIdeal.Body.W9 (F := Ideal) m c (Cert.KernelIdeal.main_v80 : DevRef Cert.KernelIdeal.τ Cert.KernelIdeal.sig) : (⟨2, ![100000, 32]⟩ : Shape).Idx → EReal) := by
  have h1' : launchContents m' c (Cert.ReferenceIdeal.main_arg1 : DevRef Cert.ReferenceIdeal.τ Cert.ReferenceIdeal.sig) = m ((c.tc : Thread Cert.KernelIdeal.nD Cert.KernelIdeal.τ).loc Cert.KernelIdeal.main_arg1) := h1
  exact stageAgg3 m _ c ((Cert.ReferenceIdeal.RefRun.ref_src0 _).trans (by rw [h1'])) ((Cert.ReferenceIdeal.RefRun.ref_dst0 _).trans (by rw [h1'])) hh

/-- The mixing weight region 4 reads is the reference's scalar of relation 0, layer 2, as a 1×1 array, from any contents V
    before the reference's second window that agree with the kernel program's memory on the second weights argument. -/
theorem stageGamma3
    (m : (ℓ : Loc Cert.KernelIdeal.nD Cert.KernelIdeal.τ Cert.KernelIdeal.sig) → Buf (Elt Ideal) ℓ)
    (V : Valuation Cert.ReferenceIdeal.τ Cert.ReferenceIdeal.sig (Elt Ideal))
    (c : Dev Cert.KernelIdeal.nD)
    (h8 : V (Proc.devRef .tc Cert.ReferenceIdeal.main_arg8) = m ((c.tc : Thread Cert.KernelIdeal.nD Cert.KernelIdeal.τ).loc Cert.KernelIdeal.main_arg8)) :
    (Cert.KernelIdeal.Body.W9 (F := Ideal) m c (Cert.KernelIdeal.main_v87 : DevRef Cert.KernelIdeal.τ Cert.KernelIdeal.sig) : (⟨2, ![1, 1]⟩ : Shape).Idx → EReal)
      = shapeCast ⟨2, ![1, 1]⟩ (after (Cert.ReferenceIdeal.RefRun.ops1 (F := Ideal)) V (Cert.ReferenceIdeal.main_v84 : DevRef Cert.ReferenceIdeal.τ Cert.ReferenceIdeal.sig) : (⟨0, ![]⟩ : Shape).Idx → EReal)
          Cert.KernelIdeal.Gen.shapeCasts_S_S1x1 := by
  rw [Cert.ReferenceIdeal.RefRun.ref_gamma3, Cert.KernelIdeal.Body.ker_gamma3, h8]
end Cert.Proof.Value

end
-- ==== Proof.KIStageMix4.lean ====
/-
  The mix stage of relation 0, layer 2, in both programs.

  The kernel program computes xm = g·agg + (1 − g)·h tile by tile in region 4, with the mixing weight g a 1×1 array; the
  reference computes it over the whole arrays in one window, with the weight a scalar spread over the array (once for
  g·agg and once for 1 − g), of the agg it computed earlier in the same window. Both are the one function of (weight, h, agg), entry by
  entry: so when the two programs hold the same h, the same agg and the same weight, what the region leaves in its
  first output array is the reference's array.
-/
import proofs.«140713_j1864015806535_2_alg».proof.Proof.KIValMix4
import proofs.«140713_j1864015806535_2_alg».proof.Proof.RefFrame
import proofs.«140713_j1864015806535_2_alg».proof.Proof.LibHostBroadcast
import Idealize.ShloMosaic.Lib.StableHlo.Run
import Idealize.ShloMosaic.Lib.ValueIdx

set_option maxRecDepth 65536

noncomputable section

namespace Cert.Proof.Value
open Idealize.ShloMosaic Idealize.ShloMosaic.ValueIdx

/-- The mix as the reference computes it: the spread weight times agg, plus one minus the weight, spread, times h. -/
def refMix_4 (gs : (⟨2, ![100000, 32]⟩ : Shape).Idx → EReal) (agg : (⟨2, ![100000, 32]⟩ : Shape).Idx → EReal)
    (g : (⟨0, ![]⟩ : Shape).Idx → EReal) (h : (⟨2, ![100000, 32]⟩ : Shape).Idx → EReal)
    (hb : (⟨0, ![]⟩ : Shape).BroadcastsInDim ⟨2, ![100000, 32]⟩ (![] : Fin 0 → Fin 2)) :
    (⟨2, ![100000, 32]⟩ : Shape).Idx → EReal :=
  addf (F := Ideal) (φ := .f32) (mulf (F := Ideal) (φ := .f32) gs agg)
    (mulf (F := Ideal) (φ := .f32)
      (broadcastInDim ⟨2, ![100000, 32]⟩ ![] hb (subf (F := Ideal) (φ := .f32) (constant (F := Ideal) ⟨0, ![]⟩ .f32 0x3F800000#32) g)) h)

/-- At row p, column q. -/
theorem refMix_4_apply (gs agg : (⟨2, ![100000, 32]⟩ : Shape).Idx → EReal) (g : (⟨0, ![]⟩ : Shape).Idx → EReal)
    (h : (⟨2, ![100000, 32]⟩ : Shape).Idx → EReal)
    (hb : (⟨0, ![]⟩ : Shape).BroadcastsInDim ⟨2, ![100000, 32]⟩ (![] : Fin 0 → Fin 2)) (p : Fin 100000) (q : Fin 32) :
    refMix_4 gs agg g h hb (ix2 p q)
      = gs (ix2 p q) * agg (ix2 p q) + (Ideal.ofBits .f32 0x3F800000#32 - g ix0) * h (ix2 p q) := by
  unfold refMix_4
  rw [addf_apply, mulf_apply, mulf_apply, Cert.LibHostBroadcast.scalar_to_any, subf_apply, constant_apply]
end Cert.Proof.Value

namespace Cert.ReferenceIdeal.RefRun
open Cert.ReferenceIdeal Cert.ReferenceIdeal.Gen Idealize.ShloMosaic Idealize.ShloMosaic.TcCoe Idealize.SL.Sem Idealize.ShloMosaic.StableHlo

/-- The window's operations before the mix write no buffer of an earlier window. -/
theorem ops2_mix_keeps (V : Valuation τ sig (Elt Ideal)) (r : Ref sig .tc) (hr : r ∉ (ops2_W : List (Ref sig .tc))) :
    after ((ops2 (F := Ideal)).take 29) V (Proc.devRef .tc r) = V (Proc.devRef .tc r) :=
  after_of_writes_sub (W := ops2_W) _ V
    (List.forall_iff_forall_mem.mpr fun op hop => List.forall_iff_forall_mem.mp ops2_writes op (List.mem_of_mem_take hop)) hr

set_option maxHeartbeats 8000000 in
/-- The reference's mix of relation 0, layer 2, over the buffers as its window finds them. The window is cut at the mix's first operation: the operations before it, the agg's among them, are read only through what they leave. -/
theorem ref_mix4 (V : Valuation τ sig (Elt Ideal)) :
    (after (ops2 (F := Ideal)) V (main_v129 : DevRef τ sig) : S100000x32.Idx → EReal)
      = Cert.Proof.Value.refMix_4 (broadcastInDim S100000x32 ![] bcast_S_S100000x32 (V (main_v84 : DevRef τ sig)))
          (after (ops2 (F := Ideal)) V (main_v123 : DevRef τ sig)) (V (main_v84 : DevRef τ sig))
          (V (main_v88 : DevRef τ sig)) bcast_S_S100000x32 := by
  rw [← ops2_mix_keeps V main_v84 (by decide), ← ops2_mix_keeps V main_v88 (by decide),
    ← List.take_append_drop 29 (ops2 (F := Ideal)), after_append]
  simp only [List.take_append_drop]
  generalize after ((ops2 (F := Ideal)).take 29) V = X
  dsimp only [ops2]
  simp only [List.drop_succ_cons, List.drop_zero]
  after_results
  rfl
end Cert.ReferenceIdeal.RefRun

namespace Cert.Proof.Value
open Idealize.ShloMosaic Idealize.ShloMosaic.TcCoe Idealize.ShloMosaic.ValueIdx Idealize.SL.Sem Idealize.ShloMosaic.StableHlo

/-- THE MIX STAGE, relation 0, layer 2: the kernel program's mixed array (what region 4 leaves in its first output) is the
    reference's, from any contents before the reference's window: when they hold the kernel program's h, the window's agg is the kernel program's agg,
    and the reference's scalar weight is the kernel program's 1×1 weight. -/
theorem stageMix4
    (m : (ℓ : Loc Cert.KernelIdeal.nD Cert.KernelIdeal.τ Cert.KernelIdeal.sig) → Buf (Elt Ideal) ℓ)
    (R : Valuation Cert.ReferenceIdeal.τ Cert.ReferenceIdeal.sig (Elt Ideal))
    (c : Dev Cert.KernelIdeal.nD)
    (hh : (R (Cert.ReferenceIdeal.main_v88 : DevRef Cert.ReferenceIdeal.τ Cert.ReferenceIdeal.sig) : (⟨2, ![100000, 32]⟩ : Shape).Idx → EReal)
      = Cert.KernelIdeal.Body.W9 (F := Ideal) m c Cert.KernelIdeal.main_v67)
    (hagg : (after (Cert.ReferenceIdeal.RefRun.ops2 (F := Ideal)) R (Cert.ReferenceIdeal.main_v123 : DevRef Cert.ReferenceIdeal.τ Cert.ReferenceIdeal.sig) : (⟨2, ![100000, 32]⟩ : Shape).Idx → EReal)
      = Cert.KernelIdeal.Body.W9 (F := Ideal) m c Cert.KernelIdeal.main_v80)
    (hg : (R (Cert.ReferenceIdeal.main_v84 : DevRef Cert.ReferenceIdeal.τ Cert.ReferenceIdeal.sig) : (⟨0, ![]⟩ : Shape).Idx → EReal) ix0
      = (Cert.KernelIdeal.Body.W9 (F := Ideal) m c Cert.KernelIdeal.main_v87 : (⟨2, ![1, 1]⟩ : Shape).Idx → EReal) (ix2 0 0)) :
    (after (Cert.ReferenceIdeal.RefRun.ops2 (F := Ideal)) R (Cert.ReferenceIdeal.main_v129 : DevRef Cert.ReferenceIdeal.τ Cert.ReferenceIdeal.sig) : (⟨2, ![100000, 32]⟩ : Shape).Idx → EReal)
      = (Cert.KernelIdeal.Body.O4_0 (F := Ideal) m c : (⟨2, ![100000, 32]⟩ : Shape).Idx → EReal) := by
  rw [Cert.ReferenceIdeal.RefRun.ref_mix4]
  funext i
  obtain ⟨p, q, rfl⟩ : ∃ (p : Fin 100000) (q : Fin 32), i = ix2 p q := ⟨i 0, i 1, eq_ix2 i⟩
  refine (refMix_4_apply _ _ _ _ _ p q).trans ?_
  refine Eq.trans ?_ (Cert.KernelIdeal.Body.O4_0_eq m c p q).symm
  rw [Cert.LibHostBroadcast.scalar_to_any, hg, hagg, hh]

end Cert.Proof.Value

end
-- ==== Proof.KIStageMix4Glue.lean ====
/-
  The mix stage of relation 0, layer 2, from the arguments.

  Both programs take the mixing weight from the same place: entry 0 of the same mixing-weights argument, as a scalar.
  The reference spreads that scalar over the array; the kernel program views it as a 1×1 array for region 4. So when the
  contents before the reference's window that computes the weight agree with the kernel program's launch memory on that
  argument, the reference's scalar is the kernel program's 1×1 weight, and the join of the mix stage needs only that the
  two programs hold the same h and the same agg.
-/
import proofs.«140713_j1864015806535_2_alg».proof.Proof.KIStageMix4

set_option maxRecDepth 65536

noncomputable section

namespace Cert.Proof.Value
open Idealize.ShloMosaic
/-- The mixing weight of relation 0, layer 2, as a function of the mixing-weights argument: entry 0, as a scalar. -/
def gOf_4 (a : (⟨1, ![3]⟩ : Shape).Idx → EReal) (hs : (⟨1, ![3]⟩ : Shape).Slices ![0] ⟨1, ![1]⟩)
    (hc : (⟨1, ![1]⟩ : Shape).ShapeCasts ⟨0, ![]⟩) : (⟨0, ![]⟩ : Shape).Idx → EReal :=
  shapeCast ⟨0, ![]⟩ (extractStridedSlice ⟨1, ![1]⟩ ![0] a hs) hc
end Cert.Proof.Value

namespace Cert.ReferenceIdeal.RefRun
open Cert.ReferenceIdeal Cert.ReferenceIdeal.Gen Idealize.ShloMosaic Idealize.ShloMosaic.TcCoe Idealize.SL.Sem Idealize.ShloMosaic.StableHlo

set_option maxHeartbeats 4000000 in
/-- The reference's scalar mixing weight of relation 0, layer 2, from any contents before the window that computes it. -/
theorem ref_g4 (V : Valuation τ sig (Elt Ideal)) :
    (after (ops1 (F := Ideal)) V (main_v84 : DevRef τ sig) : S_.Idx → EReal)
      = Cert.Proof.Value.gOf_4 (V (main_arg8 : DevRef τ sig)) slices_S3_S1_0 shapeCasts_S1_S_ := by
  dsimp only [ops1]
  after_results
  rfl
end Cert.ReferenceIdeal.RefRun

namespace Cert.KernelIdeal.Body
open Cert.KernelIdeal Cert.KernelIdeal.Gen Idealize.ShloMosaic Idealize.ShloMosaic.TcCoe Idealize.SL.Sem Idealize.ShloMosaic.StableHlo
variable (m : (ℓ : Loc nD τ sig) → Buf (Elt Ideal) ℓ)

/-- The mixing-weights argument reaches the host stretch before region 4 as launched. -/
theorem ker_mixarg4 (c : Dev nD) : W8 (F := Ideal) m c main_arg8 = m ((c.tc : Thread nD τ).loc main_arg8) :=
  (congrFun (hV8 m c) _).symm.trans <|
    (GenP.V8_of m (outs m) c main_arg8 (by decide)).trans <|
      (GenP.V7_of m (outs m) c main_arg8 (by decide)).trans <|
      (GenP.V6_of m (outs m) c main_arg8 (by decide)).trans <|
      (GenP.V5_of m (outs m) c main_arg8 (by decide)).trans <|
      (GenP.V4_of m (outs m) c main_arg8 (by decide)).trans <|
      (GenP.V3_of m (outs m) c main_arg8 (by decide)).trans <|
      (GenP.V2_of m (outs m) c main_arg8 (by decide)).trans <|
      (GenP.V1_of m c main_arg8 (by decide)).trans rfl

set_option maxHeartbeats 4000000 in
/-- The kernel program's 1×1 mixing weight of relation 0, layer 2: the same scalar, as a 1×1 array. -/
theorem ker_g4 (c : Dev nD) :
    (W9 (F := Ideal) m c main_v87 : S1x1.Idx → EReal)
      = shapeCast S1x1 (Cert.Proof.Value.gOf_4 (m ((c.tc : Thread nD τ).loc main_arg8)) slices_S3_S1_0 shapeCasts_S1_S_) shapeCasts_S_S1x1 := by
  rw [← ker_mixarg4 m c]
  dsimp only [W9, hostOps4]
  after_results
  rfl

/-- On entering region 4 h is what region 3 left. -/
theorem ker_h4 (c : Dev nD) : W9 (F := Ideal) m c main_v67 = O3_0 (F := Ideal) m c := by
  refine (StableHlo.after_of_writes_sub hostOps4 _ GenP.hostOps4_writes (by decide)).trans ?_
  unfold W8
  simp only [Function.update_self]
end Cert.KernelIdeal.Body

namespace Cert.Proof.Value
open Idealize.ShloMosaic Idealize.ShloMosaic.TcCoe Idealize.ShloMosaic.ValueIdx Idealize.SL.Sem Idealize.ShloMosaic.StableHlo

/-- After the reference's window that computes it, its scalar weight is the kernel program's 1×1 weight, when the contents
    before that window agree with the kernel program's launch memory on the mixing-weights argument. -/
theorem mix4_weight
    (m : (ℓ : Loc Cert.KernelIdeal.nD Cert.KernelIdeal.τ Cert.KernelIdeal.sig) → Buf (Elt Ideal) ℓ)
    (V : Valuation Cert.ReferenceIdeal.τ Cert.ReferenceIdeal.sig (Elt Ideal))
    (c : Dev Cert.KernelIdeal.nD)
    (ha : V (Proc.devRef .tc Cert.ReferenceIdeal.main_arg8) = m ((c.tc : Thread Cert.KernelIdeal.nD Cert.KernelIdeal.τ).loc Cert.KernelIdeal.main_arg8)) :
    ((after (Cert.ReferenceIdeal.RefRun.ops1 (F := Ideal)) V) (Cert.ReferenceIdeal.main_v84 : DevRef Cert.ReferenceIdeal.τ Cert.ReferenceIdeal.sig) : (⟨0, ![]⟩ : Shape).Idx → EReal) ix0
      = (Cert.KernelIdeal.Body.W9 (F := Ideal) m c Cert.KernelIdeal.main_v87 : (⟨2, ![1, 1]⟩ : Shape).Idx → EReal) (ix2 0 0) := by
  rw [Cert.ReferenceIdeal.RefRun.ref_g4, Cert.KernelIdeal.Body.ker_g4, ha]
  exact (shapeCast_apply _ _ (ix2 0 0) ix0 rfl).symm

/-- THE MIX STAGE, relation 0, layer 2, from the arguments: when the contents before the reference's window 1 agree with the kernel
    program's launch memory on the mixing-weights argument and, after that window, the reference holds the kernel program's
    h (what region 3 left) and its window 2 computes the kernel program's agg, the kernel program's mixed array is the reference's. -/
theorem mix4
    (m : (ℓ : Loc Cert.KernelIdeal.nD Cert.KernelIdeal.τ Cert.KernelIdeal.sig) → Buf (Elt Ideal) ℓ)
    (V : Valuation Cert.ReferenceIdeal.τ Cert.ReferenceIdeal.sig (Elt Ideal))
    (c : Dev Cert.KernelIdeal.nD)
    (ha : V (Proc.devRef .tc Cert.ReferenceIdeal.main_arg8) = m ((c.tc : Thread Cert.KernelIdeal.nD Cert.KernelIdeal.τ).loc Cert.KernelIdeal.main_arg8))
    (hh : ((after (Cert.ReferenceIdeal.RefRun.ops1 (F := Ideal)) V) (Cert.ReferenceIdeal.main_v88 : DevRef Cert.ReferenceIdeal.τ Cert.ReferenceIdeal.sig) : (⟨2, ![100000, 32]⟩ : Shape).Idx → EReal) = (Cert.KernelIdeal.Body.O3_0 (F := Ideal) m c : (⟨2, ![100000, 32]⟩ : Shape).Idx → EReal))
    (hagg : (after (Cert.ReferenceIdeal.RefRun.ops2 (F := Ideal)) (after (Cert.ReferenceIdeal.RefRun.ops1 (F := Ideal)) V) (Cert.ReferenceIdeal.main_v123 : DevRef Cert.ReferenceIdeal.τ Cert.ReferenceIdeal.sig) : (⟨2, ![100000, 32]⟩ : Shape).Idx → EReal) = Cert.KernelIdeal.Body.W9 (F := Ideal) m c Cert.KernelIdeal.main_v80) :
    (after (Cert.ReferenceIdeal.RefRun.ops2 (F := Ideal)) (after (Cert.ReferenceIdeal.RefRun.ops1 (F := Ideal)) V) (Cert.ReferenceIdeal.main_v129 : DevRef Cert.ReferenceIdeal.τ Cert.ReferenceIdeal.sig) : (⟨2, ![100000, 32]⟩ : Shape).Idx → EReal)
      = (Cert.KernelIdeal.Body.O4_0 (F := Ideal) m c : (⟨2, ![100000, 32]⟩ : Shape).Idx → EReal) :=
  stageMix4 m (after (Cert.ReferenceIdeal.RefRun.ops1 (F := Ideal)) V) c (hh.trans (Cert.KernelIdeal.Body.ker_h4 m c).symm) hagg (mix4_weight m V c ha)

end Cert.Proof.Value

end
-- ==== Proof.KIStageEmb0.lean ====
/-
  The last stage of relation 0, which both programs compute on the host with the same operations: the rows of the
  second layer's output at the batch nodes, then log_softmax along each row.

  From the 100000×32 array h the stage before left and the batch argument (50000 node numbers, a negative one counting
  from the end): rows = h at the batch nodes (50000×32); and with M the row maximum (taken against −∞),
      out = (rows − M) − log Σ_j exp(rows_j − M).
  The functions below name these over the literal shapes, each program's result array is read as that function of its own h
  and batch argument, and the last lemma concludes: if the two programs' h arrays are equal and their memories agree on
  the batch argument, their result arrays are equal.
-/
import proofs.«140713_j1864015806535_2_alg».proof.Proof.KIFrameBase
import proofs.«140713_j1864015806535_2_alg».proof.Proof.RefFrame
import Idealize.ShloMosaic.Lib.StableHlo.Run
import Idealize.ShloMosaic.PureOps.Ideal.Laws

set_option maxRecDepth 65536

noncomputable section

namespace Cert.Proof.Value
open Idealize.ShloMosaic

/-- A batch node number read as an index: a negative one counts from the end. -/
def wrapBatch (hb : (⟨0, ![]⟩ : Shape).BroadcastsInDim ⟨1, ![50000]⟩ (![] : Fin 0 → Fin 1))
    (s : (⟨1, ![50000]⟩ : Shape).Idx → BitVec 32) : (⟨1, ![50000]⟩ : Shape).Idx → BitVec 32 :=
  select (cmpi CmpIPredicate.slt s (broadcastInDim ⟨1, ![50000]⟩ ![] hb (constantI ⟨0, ![]⟩ 32 0#32)))
    (addi s (broadcastInDim ⟨1, ![50000]⟩ ![] hb (constantI ⟨0, ![]⟩ 32 100000#32))) s

/-- The rows of a 100000×32 array at the batch nodes. -/
def batchRows (gd : GatherDims ⟨2, ![100000, 32]⟩ ⟨2, ![50000, 1]⟩ ⟨2, ![50000, 32]⟩)
    (hb : (⟨0, ![]⟩ : Shape).BroadcastsInDim ⟨1, ![50000]⟩ (![] : Fin 0 → Fin 1))
    (hbC : (⟨1, ![50000]⟩ : Shape).BroadcastsInDim ⟨2, ![50000, 1]⟩ (![0] : Fin 1 → Fin 2))
    (h : (⟨2, ![100000, 32]⟩ : Shape).Idx → EReal) (batch : (⟨1, ![50000]⟩ : Shape).Idx → BitVec 32) :
    (⟨2, ![50000, 32]⟩ : Shape).Idx → EReal :=
  Host.gather gd h (broadcastInDim ⟨2, ![50000, 1]⟩ ![0] hbC (wrapBatch hb batch))

/-- Each row's maximum (taken against −∞), repeated along the row. -/
def rowMaxOf (hr : (⟨2, ![50000, 32]⟩ : Shape).ReducesTo ([1] : List (Fin 2)) ⟨1, ![50000]⟩) (h0 : 0 < (⟨0, ![]⟩ : Shape).numel)
    (hbF : (⟨0, ![]⟩ : Shape).BroadcastsInDim ⟨1, ![50000]⟩ (![] : Fin 0 → Fin 1))
    (hbC : (⟨1, ![50000]⟩ : Shape).BroadcastsInDim ⟨2, ![50000, 1]⟩ (![0] : Fin 1 → Fin 2))
    (hbW : (⟨2, ![50000, 1]⟩ : Shape).BroadcastsInDim ⟨2, ![50000, 32]⟩ (![0, 1] : Fin 2 → Fin 2))
    (x : (⟨2, ![50000, 32]⟩ : Shape).Idx → EReal) : (⟨2, ![50000, 32]⟩ : Shape).Idx → EReal :=
  broadcastInDim ⟨2, ![50000, 32]⟩ ![0, 1] hbW
    (broadcastInDim ⟨2, ![50000, 1]⟩ ![0] hbC
      (maximumf (F := Ideal) (φ := .f32)
        (broadcastInDim ⟨1, ![50000]⟩ ![] hbF (constant (F := Ideal) ⟨0, ![]⟩ .f32 0xFF800000#32))
        (Host.reduce (FloatOps.maximumf (F := Ideal) (φ := .f32)) x (constant (F := Ideal) ⟨0, ![]⟩ .f32 0xFF800000#32) hr h0)))

/-- log_softmax along each row: (x − M) − log Σ exp(x − M), M the row's maximum. -/
def logSoftmaxRows (hr : (⟨2, ![50000, 32]⟩ : Shape).ReducesTo ([1] : List (Fin 2)) ⟨1, ![50000]⟩) (h0 : 0 < (⟨0, ![]⟩ : Shape).numel)
    (hbF : (⟨0, ![]⟩ : Shape).BroadcastsInDim ⟨1, ![50000]⟩ (![] : Fin 0 → Fin 1))
    (hbC : (⟨1, ![50000]⟩ : Shape).BroadcastsInDim ⟨2, ![50000, 1]⟩ (![0] : Fin 1 → Fin 2))
    (hbW : (⟨2, ![50000, 1]⟩ : Shape).BroadcastsInDim ⟨2, ![50000, 32]⟩ (![0, 1] : Fin 2 → Fin 2))
    (x : (⟨2, ![50000, 32]⟩ : Shape).Idx → EReal) : (⟨2, ![50000, 32]⟩ : Shape).Idx → EReal :=
  subf (F := Ideal) (φ := .f32)
    (subf (F := Ideal) (φ := .f32) x (rowMaxOf hr h0 hbF hbC hbW x))
    (broadcastInDim ⟨2, ![50000, 32]⟩ ![0, 1] hbW
      (Host.log (F := Ideal) (φ := .f32)
        (broadcastInDim ⟨2, ![50000, 1]⟩ ![0] hbC
          (Host.reduceAdd (F := Ideal) (φ := .f32)
            (Host.exp (F := Ideal) (φ := .f32) (subf (F := Ideal) (φ := .f32) x (rowMaxOf hr h0 hbF hbC hbW x)))
            (constant (F := Ideal) ⟨0, ![]⟩ .f32 0x00000000#32) hr h0))))

/-- Contents moved to a buffer's own type and back are unchanged (the outlined function's buffers are read this way). -/
theorem ofBuf_toBuf_id {sig : RefSig} {T : BufTy} (x : StableHlo.TRef sig T) (v : T.Contents (Elt Ideal)) :
    x.ofBuf (x.toBuf v) = v := by
  simp only [StableHlo.TRef.ofBuf, StableHlo.TRef.toBuf, cast_cast, cast_eq]
end Cert.Proof.Value

namespace Cert.KernelIdeal.Body
open Cert.KernelIdeal Cert.KernelIdeal.Gen Idealize.ShloMosaic Idealize.ShloMosaic.TcCoe Idealize.SL.Sem Idealize.ShloMosaic.StableHlo
variable (m : (ℓ : Loc nD τ sig) → Buf (Elt Ideal) ℓ)

/-- After region 5 the second layer's output array holds what the region left there. -/
theorem W12_h0e (c : Dev nD) : W12 (F := Ideal) m c (main_v97 : DevRef τ sig) = O5_0 m c := by
  unfold W12
  exact Function.update_self ..

/-- The batch argument reaches the stretch after region 5 as launched. -/
theorem W12_main_arg2 (c : Dev nD) : W12 (F := Ideal) m c main_arg2 = m ((c.tc : Thread nD τ).loc main_arg2) :=
  (congrFun (hV12 m c) _).symm.trans <|
    (GenP.V12_of m (outs m) c main_arg2 (by decide)).trans <|
      (GenP.V11_of m (outs m) c main_arg2 (by decide)).trans <|
      (GenP.V10_of m (outs m) c main_arg2 (by decide)).trans <|
      (GenP.V9_of m (outs m) c main_arg2 (by decide)).trans <|
      (GenP.V8_of m (outs m) c main_arg2 (by decide)).trans <|
      (GenP.V7_of m (outs m) c main_arg2 (by decide)).trans <|
      (GenP.V6_of m (outs m) c main_arg2 (by decide)).trans <|
      (GenP.V5_of m (outs m) c main_arg2 (by decide)).trans <|
      (GenP.V4_of m (outs m) c main_arg2 (by decide)).trans <|
      (GenP.V3_of m (outs m) c main_arg2 (by decide)).trans <|
      (GenP.V2_of m (outs m) c main_arg2 (by decide)).trans <| (GenP.V1_of m c main_arg2 (by decide)).trans rfl

set_option maxHeartbeats 4000000 in
/-- The stretch after region 5 leaves the rows at the batch nodes, from any contents before it. -/
theorem host_rows0 (V : Valuation τ sig (Elt Ideal)) :
    (after (hostOps6 (F := Ideal)) V (main_v104 : DevRef τ sig) : S50000x32.Idx → EReal)
      = Cert.Proof.Value.batchRows gather_S100000x32_S50000x1_S50000x32_1_0_n_n_0_1_132 bcast_S_S50000 bcast_S50000_S50000x1_0
          (V (main_v97 : DevRef τ sig)) (V (main_arg2 : DevRef τ sig)) := by
  dsimp only [hostOps6]
  after_results
  rfl

set_option maxHeartbeats 4000000 in
/-- The next stretch is log_softmax of those rows, from any contents before it. -/
theorem host_lsm0 (V : Valuation τ sig (Elt Ideal)) :
    (after (hostOps6_1 (F := Ideal)) V (main_v105 : DevRef τ sig) : S50000x32.Idx → EReal)
      = Cert.Proof.Value.logSoftmaxRows reducesTo_S50000x32_S50000_d1 h_S_ bcast_S_S50000 bcast_S50000_S50000x1_0 bcast_S50000x1_S50000x32_0_1
          (V (main_v104 : DevRef τ sig)) := by
  dsimp only [hostOps6_1]
  after_results
  simp only [Cert.Proof.Value.ofBuf_toBuf_id]
  rfl

/-- The kernel program's result of relation 0: log_softmax of the rows of what region 5 leaves at the batch nodes. -/
theorem ker_emb0 (c : Dev nD) :
    (W14 (F := Ideal) m c main_v105 : S50000x32.Idx → EReal)
      = Cert.Proof.Value.logSoftmaxRows reducesTo_S50000x32_S50000_d1 h_S_ bcast_S_S50000 bcast_S50000_S50000x1_0 bcast_S50000x1_S50000x32_0_1
          (Cert.Proof.Value.batchRows gather_S100000x32_S50000x1_S50000x32_1_0_n_n_0_1_132 bcast_S_S50000 bcast_S50000_S50000x1_0
            (O5_0 m c) (m ((c.tc : Thread nD τ).loc main_arg2))) := by
  refine (host_lsm0 (W13 m c)).trans ?_
  rw [show (W13 (F := Ideal) m c main_v104 : S50000x32.Idx → EReal) = _ from host_rows0 (W12 m c), W12_h0e, W12_main_arg2]

/-- The stretch after that leaves the result as it is. -/
theorem W15_emb0 (c : Dev nD) : W15 (F := Ideal) m c main_v105 = W14 (F := Ideal) m c main_v105 :=
  StableHlo.after_of_writes_sub hostOps6_2 _ GenP.hostOps6_2_writes (by decide)
end Cert.KernelIdeal.Body

namespace Cert.ReferenceIdeal.RefRun
open Cert.ReferenceIdeal Cert.ReferenceIdeal.Gen Idealize.ShloMosaic Idealize.ShloMosaic.TcCoe Idealize.SL.Sem Idealize.ShloMosaic.StableHlo

/-- The window's first 6 operations do not write the batch argument. -/
theorem ops3_take6_keeps (V : Valuation τ sig (Elt Ideal)) (r : Ref sig .tc) (hr : r ∉ (ops3_W : List (Ref sig .tc))) :
    after ((ops3 (F := Ideal)).take 6) V (Proc.devRef .tc r) = V (Proc.devRef .tc r) :=
  after_of_writes_sub (W := ops3_W) _ V
    (List.forall_iff_forall_mem.mpr fun op hop => List.forall_iff_forall_mem.mp ops3_writes op (List.mem_of_mem_take hop)) hr

set_option maxHeartbeats 4000000 in
/-- The reference's result of relation 0: log_softmax of the rows, at the batch nodes, of the array its second layer left in
    the same window, from any contents before the window. The window is cut at the stage's first operation. -/
theorem ref_emb0 (V : Valuation τ sig (Elt Ideal)) :
    (after (ops3 (F := Ideal)) V (main_v161 : DevRef τ sig) : S50000x32.Idx → EReal)
      = Cert.Proof.Value.logSoftmaxRows reducesTo_S50000x32_S50000_d1 h_S_ bcast_S_S50000 bcast_S50000_S50000x1_0 bcast_S50000x1_S50000x32_0_1
          (Cert.Proof.Value.batchRows gather_S100000x32_S50000x1_S50000x32_1_0_n_n_0_1_132 bcast_S_S50000 bcast_S50000_S50000x1_0
            (after (ops3 (F := Ideal)) V (main_v153 : DevRef τ sig)) (V (main_arg2 : DevRef τ sig))) := by
  rw [← ops3_take6_keeps V main_arg2 (by decide), ← List.take_append_drop 6 (ops3 (F := Ideal)), after_append]
  simp only [List.take_append_drop]
  generalize after ((ops3 (F := Ideal)).take 6) V = X
  dsimp only [ops3]
  simp only [List.drop_succ_cons, List.drop_zero]
  after_results
  simp only [Cert.Proof.Value.ofBuf_toBuf_id]
  rfl
end Cert.ReferenceIdeal.RefRun

namespace Cert.Proof.Value
open Idealize.ShloMosaic Idealize.ShloMosaic.TcCoe Idealize.SL.Sem Idealize.ShloMosaic.StableHlo

/-- Relation 0, the last stage: the two programs' result arrays are equal when their second layers' outputs are and the
    contents before the reference's window agree with the kernel program's launch memory on the batch argument. -/
theorem stageEmb0
    (m : (ℓ : Loc Cert.KernelIdeal.nD Cert.KernelIdeal.τ Cert.KernelIdeal.sig) → Buf (Elt Ideal) ℓ)
    (V : Valuation Cert.ReferenceIdeal.τ Cert.ReferenceIdeal.sig (Elt Ideal))
    (c : Dev Cert.KernelIdeal.nD)
    (h2 : V (Proc.devRef .tc Cert.ReferenceIdeal.main_arg2) = m ((c.tc : Thread Cert.KernelIdeal.nD Cert.KernelIdeal.τ).loc Cert.KernelIdeal.main_arg2))
    (hh : (after (Cert.ReferenceIdeal.RefRun.ops3 (F := Ideal)) V (Cert.ReferenceIdeal.main_v153 : DevRef Cert.ReferenceIdeal.τ Cert.ReferenceIdeal.sig) : (⟨2, ![100000, 32]⟩ : Shape).Idx → EReal)
      = (Cert.KernelIdeal.Body.O5_0 (F := Ideal) m c : (⟨2, ![100000, 32]⟩ : Shape).Idx → EReal)) :
    (after (Cert.ReferenceIdeal.RefRun.ops3 (F := Ideal)) V (Cert.ReferenceIdeal.main_v161 : DevRef Cert.ReferenceIdeal.τ Cert.ReferenceIdeal.sig) : (⟨2, ![50000, 32]⟩ : Shape).Idx → EReal)
      = (Cert.KernelIdeal.Body.W14 (F := Ideal) m c (Cert.KernelIdeal.main_v105 : DevRef Cert.KernelIdeal.τ Cert.KernelIdeal.sig) : (⟨2, ![50000, 32]⟩ : Shape).Idx → EReal) := by
  rw [Cert.ReferenceIdeal.RefRun.ref_emb0, Cert.KernelIdeal.Body.ker_emb0, hh, h2]
  rfl
end Cert.Proof.Value

end
-- ==== Proof.KIRel0.lean ====
/-
  Relation 0, to the end: when the two memories agree on the arguments the relation reads and the inputs are finite,
  the embedding the kernel program holds after its second layer is the reference's.

  The links, in the order the programs run: the first layer (the normalised array of layer 1), the second dense layer,
  the second aggregation and its mixing weight, the second mix, the second normalisation, and the selection of the batch
  rows with the row-wise normalising step. Each link is stated over the contents before the reference's window; here
  each is taken at what the windows before it leave of the launch memory, and an argument array is still as launched
  there because no window writes it.
-/
import proofs.«140713_j1864015806535_2_alg».proof.Proof.KILayer1Rel0
import proofs.«140713_j1864015806535_2_alg».proof.Proof.KIStageDense3
import proofs.«140713_j1864015806535_2_alg».proof.Proof.KIRealLayer2
import proofs.«140713_j1864015806535_2_alg».proof.Proof.KIStageAgg3
import proofs.«140713_j1864015806535_2_alg».proof.Proof.KIStageMix4Glue
import proofs.«140713_j1864015806535_2_alg».proof.Proof.KIStageEmb0

set_option maxRecDepth 65536

noncomputable section

namespace Cert.Proof.Value

open Idealize.ShloMosaic Idealize.ShloMosaic.TcCoe Idealize.ShloMosaic.ValueIdx Idealize.SL.Sem Idealize.ShloMosaic.StableHlo

/-- RELATION 0: the reference's embedding after its first four windows is the kernel program's, from the agreement of the
    two memories on the arguments and the finiteness precondition. The second normalisation's join is a hypothesis here,
    in the form of the first one's: from any contents before the window that computes the mix, if the mix arrays agree
    and the scale and bias arguments agree, the normalised arrays agree. -/
theorem emb_rel0
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hpre : Cert.Pre_KernelIdeal m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (hBn4 : ∀ V : Valuation Cert.ReferenceIdeal.τ Cert.ReferenceIdeal.sig (Elt Ideal),
      (after (Cert.ReferenceIdeal.RefRun.ops2 (F := Ideal)) V (Cert.ReferenceIdeal.main_v129 : DevRef Cert.ReferenceIdeal.τ Cert.ReferenceIdeal.sig) : (⟨2, ![100000, 32]⟩ : Shape).Idx → EReal) = (Cert.KernelIdeal.Body.O4_0 (F := Ideal) m c : (⟨2, ![100000, 32]⟩ : Shape).Idx → EReal) →
      (V (Cert.ReferenceIdeal.main_arg11 : DevRef Cert.ReferenceIdeal.τ Cert.ReferenceIdeal.sig) : (⟨2, ![3, 32]⟩ : Shape).Idx → EReal) = m ((c.tc : Thread Cert.KernelIdeal.nD Cert.KernelIdeal.τ).loc Cert.KernelIdeal.main_arg11) →
      (V (Cert.ReferenceIdeal.main_arg12 : DevRef Cert.ReferenceIdeal.τ Cert.ReferenceIdeal.sig) : (⟨2, ![3, 32]⟩ : Shape).Idx → EReal) = m ((c.tc : Thread Cert.KernelIdeal.nD Cert.KernelIdeal.τ).loc Cert.KernelIdeal.main_arg12) →
      (after (Cert.ReferenceIdeal.RefRun.ops3 (F := Ideal)) (after (Cert.ReferenceIdeal.RefRun.ops2 (F := Ideal)) V) (Cert.ReferenceIdeal.main_v153 : DevRef Cert.ReferenceIdeal.τ Cert.ReferenceIdeal.sig) : (⟨2, ![100000, 32]⟩ : Shape).Idx → EReal) = (Cert.KernelIdeal.Body.O5_0 (F := Ideal) m c : (⟨2, ![100000, 32]⟩ : Shape).Idx → EReal)) :
    (after (Cert.ReferenceIdeal.RefRun.ops3 (F := Ideal)) (after (Cert.ReferenceIdeal.RefRun.ops2 (F := Ideal)) (after (Cert.ReferenceIdeal.RefRun.ops1 (F := Ideal)) (after (Cert.ReferenceIdeal.RefRun.ops0 (F := Ideal)) (launchContents m' c)))) (Cert.ReferenceIdeal.main_v161 : DevRef Cert.ReferenceIdeal.τ Cert.ReferenceIdeal.sig) : (⟨2, ![50000, 32]⟩ : Shape).Idx → EReal)
      = (Cert.KernelIdeal.Body.W14 (F := Ideal) m c (Cert.KernelIdeal.main_v105 : DevRef Cert.KernelIdeal.τ Cert.KernelIdeal.sig) : (⟨2, ![50000, 32]⟩ : Shape).Idx → EReal) := by
  -- the first layer
  have y1 := y1_rel0 m m' c hpre h0 h1 h3 h4 h7 h9 h10
  -- an argument array after the first window is as launched
  have k0 : ∀ (r : Ref Cert.ReferenceIdeal.sig .tc), r ∉ (Cert.ReferenceIdeal.RefRun.ops0_W : List (Ref Cert.ReferenceIdeal.sig .tc)) →
      (after (Cert.ReferenceIdeal.RefRun.ops0 (F := Ideal)) (launchContents m' c)) (Proc.devRef .tc r) = launchContents m' c (Proc.devRef .tc r) :=
    fun r hr => after_of_writes_sub (Cert.ReferenceIdeal.RefRun.ops0 (F := Ideal)) _ Cert.ReferenceIdeal.RefRun.ops0_writes hr
  have k1 : ∀ (r : Ref Cert.ReferenceIdeal.sig .tc), r ∉ (Cert.ReferenceIdeal.RefRun.ops1_W : List (Ref Cert.ReferenceIdeal.sig .tc)) →
      (after (Cert.ReferenceIdeal.RefRun.ops1 (F := Ideal)) (after (Cert.ReferenceIdeal.RefRun.ops0 (F := Ideal)) (launchContents m' c))) (Proc.devRef .tc r) = (after (Cert.ReferenceIdeal.RefRun.ops0 (F := Ideal)) (launchContents m' c)) (Proc.devRef .tc r) :=
    fun r hr => after_of_writes_sub (Cert.ReferenceIdeal.RefRun.ops1 (F := Ideal)) _ Cert.ReferenceIdeal.RefRun.ops1_writes hr
  have k2 : ∀ (r : Ref Cert.ReferenceIdeal.sig .tc), r ∉ (Cert.ReferenceIdeal.RefRun.ops2_W : List (Ref Cert.ReferenceIdeal.sig .tc)) →
      (after (Cert.ReferenceIdeal.RefRun.ops2 (F := Ideal)) (after (Cert.ReferenceIdeal.RefRun.ops1 (F := Ideal)) (after (Cert.ReferenceIdeal.RefRun.ops0 (F := Ideal)) (launchContents m' c)))) (Proc.devRef .tc r) = (after (Cert.ReferenceIdeal.RefRun.ops1 (F := Ideal)) (after (Cert.ReferenceIdeal.RefRun.ops0 (F := Ideal)) (launchContents m' c))) (Proc.devRef .tc r) :=
    fun r hr => after_of_writes_sub (Cert.ReferenceIdeal.RefRun.ops2 (F := Ideal)) _ Cert.ReferenceIdeal.RefRun.ops2_writes hr
  -- the second dense layer
  have hx := y1.trans (Cert.KernelIdeal.Body.rl2_W7_v61 m c).symm
  have h88 := stageDense3 m (after (Cert.ReferenceIdeal.RefRun.ops0 (F := Ideal)) (launchContents m' c)) c hx ((k0 Cert.ReferenceIdeal.main_arg5 (by decide)).trans h5) ((k0 Cert.ReferenceIdeal.main_arg6 (by decide)).trans h6)
  -- the second aggregation, and the second mix with its weight
  have hagg := stageAgg3_launch m m' c h1 h88
  have hmix := mix4 m (after (Cert.ReferenceIdeal.RefRun.ops0 (F := Ideal)) (launchContents m' c)) c ((k0 Cert.ReferenceIdeal.main_arg8 (by decide)).trans h8) h88 hagg
  -- the second normalisation (the hypothesis), then the embedding
  have h153 := hBn4 (after (Cert.ReferenceIdeal.RefRun.ops1 (F := Ideal)) (after (Cert.ReferenceIdeal.RefRun.ops0 (F := Ideal)) (launchContents m' c))) hmix
    ((k1 Cert.ReferenceIdeal.main_arg11 (by decide)).trans ((k0 Cert.ReferenceIdeal.main_arg11 (by decide)).trans h11))
    ((k1 Cert.ReferenceIdeal.main_arg12 (by decide)).trans ((k0 Cert.ReferenceIdeal.main_arg12 (by decide)).trans h12))
  exact stageEmb0 m (after (Cert.ReferenceIdeal.RefRun.ops2 (F := Ideal)) (after (Cert.ReferenceIdeal.RefRun.ops1 (F := Ideal)) (after (Cert.ReferenceIdeal.RefRun.ops0 (F := Ideal)) (launchContents m' c)))) c
    ((k2 Cert.ReferenceIdeal.main_arg2 (by decide)).trans ((k1 Cert.ReferenceIdeal.main_arg2 (by decide)).trans ((k0 Cert.ReferenceIdeal.main_arg2 (by decide)).trans h2))) h153

end Cert.Proof.Value

end
-- ==== Proof.KIValDense6.lean ====
/-
  Region 6, the third dense layer, read index by index on the extended reals.

  Each of the ten grid points takes 10000 rows of the 100000×128 node features, the whole 128×64 weight and the 1×64 bias
  row, and writes the 10000 rows of the product plus the bias row into its block of the 100000×64 output. A row of the
  layer depends on the features through that row alone, and the ten blocks tile the output, so the output array ends at
      (p, q) ↦ Σ_{k<128} x(p, k) · w(k, q) + b(0, q)
  of the arrays as the region finds them.
-/
import proofs.«140713_j1864015806535_2_alg».proof.Proof.KIFrameBase
import proofs.«140713_j1864015806535_2_alg».proof.Proof.LibAffineStage
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Body

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.LibAffineStage (affine affine_apply affine_rows affine_of_matmul)

variable (m : (ℓ : Loc nD τ sig) → Buf (Elt Ideal) ℓ)

/-! ## The body's arithmetic: the layer of a tile -/

theorem hz_d6 : (![0, 0] : Fin 2 → Nat) = fun _ => 0 := funext fun a => by fin_cases a <;> rfl

/-- The body's payload is the dense layer of its tile of rows: the tile against the weight, plus the bias row. The
    narrowing of the two operands and the shape casts to the same shape are the identity on the extended reals. -/
theorem pay6_eq (x : Vec Ideal S10000x128 .f32) (w : Vec Ideal S128x64 .f32) (b : Vec Ideal S1x64 .f32) :
    k6_pay1 x w b = affine 10000 128 64 x w b := by
  unfold k6_pay1
  rw [shapeCast_self w]
  exact affine_of_matmul 10000 128 64 x w b _ _ _ _

/-! ## From the ten blocks to the array -/

variable (V : (c : Dev nD) → (b : Ref sig .tc) → Buf (Elt Ideal) ((c : Thread nD τ).loc b))

/-- The printed index maps over the grid: point t's feature block and output block are row block t in the one column
    block; the weight and the bias row are their whole arrays at every point. -/
theorem idx_facts_d6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- The feature block at point t is rows 10000·t … 10000·t + 9999 of the feature array. -/
theorem iblk6_0_apply (c : Dev nD) (t : Fin cfg6.N) (y : S10000x128.Idx) (z : S100000x128.Idx)
    (h0 : (z 0).val = t.val * 10000 + (y 0).val) (h1 : (z 1).val = (y 1).val) :
    (iblk6 V c 0 t : Vec Ideal S10000x128 .f32) y = (V c main_arg0 : S100000x128.Idx → EReal) z := by
  obtain ⟨e0, e1, -⟩ := idx_facts_d6 t
  unfold iblk6
  rw [View.read_apply]
  show V c main_arg0 _ = V c main_arg0 _
  congr 1
  funext a
  apply Fin.ext
  match a with
  | ⟨0, _⟩ => show win6_0.index t (0 : Fin 2) * 10000 + 1 * (y 0).val = (z 0).val; omega
  | ⟨1, _⟩ => show win6_0.index t (1 : Fin 2) * 128 + 1 * (y 1).val = (z 1).val; omega

/-- The weight block at every point is the weight array. -/
theorem iblk6_1_eq (c : Dev nD) (t : Fin cfg6.N) :
    (iblk6 V c 1 t : Vec Ideal S128x64 .f32) = (V c main_v133 : S128x64.Idx → EReal) := by
  obtain ⟨-, -, e2, e3, -⟩ := idx_facts_d6 t
  funext y
  unfold iblk6
  rw [View.read_apply]
  show V c main_v133 _ = V c main_v133 y
  congr 1
  funext a
  apply Fin.ext
  match a with
  | ⟨0, _⟩ => show win6_1.index t (0 : Fin 2) * 128 + 1 * (y 0).val = (y 0).val; omega
  | ⟨1, _⟩ => show win6_1.index t (1 : Fin 2) * 64 + 1 * (y 1).val = (y 1).val; omega

/-- The bias block at every point is the bias row. -/
theorem iblk6_2_eq (c : Dev nD) (t : Fin cfg6.N) :
    (iblk6 V c 2 t : Vec Ideal S1x64 .f32) = (V c main_v136 : S1x64.Idx → EReal) := by
  obtain ⟨-, -, -, -, e4, e5, -⟩ := idx_facts_d6 t
  funext y
  unfold iblk6
  rw [View.read_apply]
  show V c main_v136 _ = V c main_v136 y
  congr 1
  funext a
  apply Fin.ext
  match a with
  | ⟨0, _⟩ => show win6_2.index t (0 : Fin 2) * 1 + 1 * (y 0).val = (y 0).val; omega
  | ⟨1, _⟩ => show win6_2.index t (1 : Fin 2) * 64 + 1 * (y 1).val = (y 1).val; omega

/-- Row p, column q of the output block at point t is row 10000·t + p, column q of the output array. -/
theorem emb6_3 (t : Fin cfg6.N) (p : Fin 10000) (q : Fin 64) (r : Fin 100000) (hr : r.val = t.val * 10000 + p.val) :
    ((cfg6.win 3).blk t).view.emb (ix2 p q) = (ix2 r q : S100000x64.Idx) := by
  obtain ⟨-, -, -, -, -, -, e6, e7⟩ := idx_facts_d6 t
  funext a
  apply Fin.ext
  match a with
  | ⟨0, _⟩ => show win6_3.index t (0 : Fin 2) * 10000 + 1 * p.val = r.val; omega
  | ⟨1, _⟩ => show win6_3.index t (1 : Fin 2) * 64 + 1 * q.val = q.val; omega

/-- What point t writes back is block t of the layer of the three arrays as the region finds them. -/
theorem flushed6_3_eq (c : Dev nD) (t : Fin cfg6.N) :
    (dat6 V c).flushed 3 t = ((cfg6.win 3).blk t).view.read (Elt Ideal)
      (affine 100000 128 64 (V c main_arg0) (V c main_v133) (V c main_v136)) := by
  show (cfg6.win 3).cut (grid6.coords t) ((dat6 V c).after 3 t) = _
  rw [after6_3]
  unfold out6_3
  rw [View.canon_unit_zero hz_d6]
  simp only [View.ld_unit_zero (S := S10000x128) hz_d6, View.ld_unit_zero (S := S128x64) hz_d6, View.ld_unit_zero (S := S1x64) hz_d6]
  rw [iblk6_1_eq, iblk6_2_eq, pay6_eq]
  have ht : t.val < 10 := lt_of_lt_of_eq t.isLt N_6
  funext j
  obtain ⟨p, q, rfl⟩ : ∃ (p : Fin 10000) (q : Fin 64), j = ix2 p q := ⟨j 0, j 1, eq_ix2 j⟩
  rw [View.read_apply, emb6_3 t p q ⟨t.val * 10000 + p.val, by have := p.isLt; omega⟩ rfl]
  exact affine_rows 100000 128 64 10000 _ _ _ _ _ p (fun k => iblk6_0_apply V c t _ _ rfl rfl) q

/-- An index of the output array is in point t's block iff each coordinate is in the block's range on its axis. -/
theorem mem_blk6_3 (t : Fin cfg6.N) (i : S100000x64.Idx) :
    i ∈ ((cfg6.win 3).blk t).view.set ↔ ∀ a : Fin 2, win6_3.index t a * S10000x64.size a ≤ (i a).val ∧ (i a).val < win6_3.index t a * S10000x64.size a + S10000x64.size a := by
  show i ∈ ((View.whole main_v137).slice (win6_3.rect t)).set ↔ _
  rw [View.set_slice_whole, Rect.mem_set_unit]
  exact Iff.rfl

/-- The ten blocks tile the output: row r is in the block of point r / 10000. -/
theorem cover_d6 (i : S100000x64.Idx) :
    ∃ t : Fin cfg6.N, (cfg6.win 3).flush t = true ∧ i ∈ ((cfg6.win 3).blk t).view.set := by
  have hi0 : (i 0).val < 100000 := (i 0).isLt
  have hi1 : (i 1).val < 64 := (i 1).isLt
  have hN : grid6.N = 10 := N_6
  have htN : (i 0).val / 10000 < grid6.N := by rw [hN]; omega
  obtain ⟨-, -, -, -, -, -, e6, e7⟩ := idx_facts_d6 ⟨(i 0).val / 10000, htN⟩
  refine ⟨⟨(i 0).val / 10000, htN⟩, flush6_3 _, ?_⟩
  rw [mem_blk6_3]
  intro a
  match a with
  | ⟨0, _⟩ =>
    show win6_3.index ⟨(i 0).val / 10000, htN⟩ (0 : Fin 2) * 10000 ≤ (i 0).val ∧ (i 0).val < win6_3.index ⟨(i 0).val / 10000, htN⟩ (0 : Fin 2) * 10000 + 10000
    rw [e6]
    show (i 0).val / 10000 * 10000 ≤ (i 0).val ∧ (i 0).val < (i 0).val / 10000 * 10000 + 10000
    omega
  | ⟨1, _⟩ =>
    show win6_3.index ⟨(i 0).val / 10000, htN⟩ (1 : Fin 2) * 64 ≤ (i 1).val ∧ (i 1).val < win6_3.index ⟨(i 0).val / 10000, htN⟩ (1 : Fin 2) * 64 + 64
    rw [e7]
    omega

/-- The output array after the region: the layer of the three arrays as the region finds them. -/
theorem region6_value (c : Dev nD) :
    (dat6 V c).arrAt 3 cfg6.N = affine 100000 128 64 (V c main_arg0) (V c main_v133) (V c main_v136) :=
  (dat6 V c).arrAt_eq_of_cover 3 _ (fun t _ => flushed6_3_eq V c t) cover_d6

/-! ## The region's output between the items of the program -/

/-- What region 6 leaves in its output array: the layer of the feature array, the weight and the bias row as they stand
    after the host stretch before the region. -/
theorem O6_0_eq_affine (c : Dev nD) :
    O6_0 (F := Ideal) m c
      = affine 100000 128 64 (W15 (F := Ideal) m c main_arg0) (W15 (F := Ideal) m c main_v133) (W15 (F := Ideal) m c main_v136) := by
  unfold O6_0
  exact region6_value (E15 m) c

/-- The same entry by entry: the feature row against the weight column, plus the bias row's entry. -/
theorem O6_0_eq (c : Dev nD) (p : Fin 100000) (q : Fin 64) :
    (O6_0 (F := Ideal) m c : S100000x64.Idx → EReal) (ix2 p q)
      = @HAdd.hAdd EReal EReal EReal _
          (∑ k : Fin 128, @HMul.hMul EReal EReal EReal _
            ((W15 (F := Ideal) m c main_arg0 : S100000x128.Idx → EReal) (ix2 p k))
            ((W15 (F := Ideal) m c main_v133 : S128x64.Idx → EReal) (ix2 k q)))
          ((W15 (F := Ideal) m c main_v136 : S1x64.Idx → EReal) (ix2 0 q)) := by
  rw [O6_0_eq_affine, affine_apply]

end Cert.KernelIdeal.Body

end
-- ==== Proof.KIStageDense6.lean ====
/-
  The first dense layer of relation 1, in both programs.

  The kernel program computes h = x·W[1] + b[1] tile by tile in region 6; the reference computes it with one matrix
  product and a broadcast of the bias. Both read the weight as the relation's slab of the weights argument and the bias
  as the relation's row of the bias argument (the same functions of the arguments, wOf6 and bOf6), and both arrays are
  the one function affine of (x, weight, bias row): so when the two memories agree on the three arguments, what the
  region leaves in its output array is the reference's array.
-/
import proofs.«140713_j1864015806535_2_alg».proof.Proof.KIFrameBase
import proofs.«140713_j1864015806535_2_alg».proof.Proof.RefFrame
import proofs.«140713_j1864015806535_2_alg».proof.Proof.LibAffineStage
import proofs.«140713_j1864015806535_2_alg».proof.Proof.KIValDense6
import Idealize.ShloMosaic.Lib.StableHlo.Run
import Idealize.ShloMosaic.PureOps.Ideal.Laws

set_option maxRecDepth 65536

noncomputable section

namespace Cert.Proof.Value
open Idealize.ShloMosaic
/-- The weight of relation 1's first layer as a function of the weights argument: the relation's slab, as a matrix. -/
def wOf6 (a : (⟨3, ![3, 128, 64]⟩ : Shape).Idx → EReal)
    (hs : (⟨3, ![3, 128, 64]⟩ : Shape).Slices ![1, 0, 0] ⟨3, ![1, 128, 64]⟩) (hc : (⟨3, ![1, 128, 64]⟩ : Shape).ShapeCasts ⟨2, ![128, 64]⟩) :
    (⟨2, ![128, 64]⟩ : Shape).Idx → EReal :=
  shapeCast ⟨2, ![128, 64]⟩ (extractStridedSlice ⟨3, ![1, 128, 64]⟩ ![1, 0, 0] a hs) hc
/-- The bias of relation 1's first layer as a function of the bias argument: the relation's row, as a vector. -/
def bOf6 (a : (⟨2, ![3, 64]⟩ : Shape).Idx → EReal)
    (hs : (⟨2, ![3, 64]⟩ : Shape).Slices ![1, 0] ⟨2, ![1, 64]⟩) (hc : (⟨2, ![1, 64]⟩ : Shape).ShapeCasts ⟨1, ![64]⟩) :
    (⟨1, ![64]⟩ : Shape).Idx → EReal :=
  shapeCast ⟨1, ![64]⟩ (extractStridedSlice ⟨2, ![1, 64]⟩ ![1, 0] a hs) hc
end Cert.Proof.Value

namespace Cert.ReferenceIdeal.RefRun
open Cert.ReferenceIdeal Cert.ReferenceIdeal.Gen Idealize.ShloMosaic Idealize.ShloMosaic.TcCoe Idealize.SL.Sem Idealize.ShloMosaic.StableHlo

set_option maxHeartbeats 4000000 in
/-- The reference's first dense layer of relation 1 is x·w + b of the three arguments, from any contents before its window. -/
theorem ref_h6 (V : Valuation τ sig (Elt Ideal)) :
    (after (ops3 (F := Ideal)) V (main_v175 : DevRef τ sig) : S100000x64.Idx → EReal)
      = Cert.LibAffineStage.affine 100000 128 64 (V (main_arg0 : DevRef τ sig))
          (Cert.Proof.Value.wOf6 (V (main_arg3 : DevRef τ sig)) slices_S3x128x64_S1x128x64_1_0_0 shapeCasts_S1x128x64_S128x64)
          (broadcastInDim S1x64 ![1] bcast_S64_S1x64_1 (Cert.Proof.Value.bOf6 (V (main_arg4 : DevRef τ sig)) slices_S3x64_S1x64_1_0 shapeCasts_S1x64_S64)) := by
  dsimp only [ops3]
  after_results
  exact Cert.LibAffineStage.affine_of_dotGeneral 100000 128 64 _ _ _ bcast_S1x64_S100000x64_0_1
end Cert.ReferenceIdeal.RefRun

namespace Cert.KernelIdeal.Body
open Cert.KernelIdeal Cert.KernelIdeal.Gen Idealize.ShloMosaic Idealize.ShloMosaic.TcCoe Idealize.SL.Sem Idealize.ShloMosaic.StableHlo
variable (m : (ℓ : Loc nD τ sig) → Buf (Elt Ideal) ℓ)

/-- The weights argument reaches the host stretch before region 6 as launched. -/
theorem W14_main_arg3 (c : Dev nD) : W14 (F := Ideal) m c main_arg3 = m ((c.tc : Thread nD τ).loc main_arg3) :=
  (congrFun (hV14 m c) _).symm.trans <|
    (GenP.V14_of m (outs m) c main_arg3 (by decide)).trans <|
      (GenP.V13_of m (outs m) c main_arg3 (by decide)).trans <|
      (GenP.V12_of m (outs m) c main_arg3 (by decide)).trans <|
      (GenP.V11_of m (outs m) c main_arg3 (by decide)).trans <|
      (GenP.V10_of m (outs m) c main_arg3 (by decide)).trans <|
      (GenP.V9_of m (outs m) c main_arg3 (by decide)).trans <|
      (GenP.V8_of m (outs m) c main_arg3 (by decide)).trans <|
      (GenP.V7_of m (outs m) c main_arg3 (by decide)).trans <|
      (GenP.V6_of m (outs m) c main_arg3 (by decide)).trans <|
      (GenP.V5_of m (outs m) c main_arg3 (by decide)).trans <|
      (GenP.V4_of m (outs m) c main_arg3 (by decide)).trans <|
      (GenP.V3_of m (outs m) c main_arg3 (by decide)).trans <|
      (GenP.V2_of m (outs m) c main_arg3 (by decide)).trans <| (GenP.V1_of m c main_arg3 (by decide)).trans rfl

/-- The bias argument reaches the host stretch before region 6 as launched. -/
theorem W14_main_arg4 (c : Dev nD) : W14 (F := Ideal) m c main_arg4 = m ((c.tc : Thread nD τ).loc main_arg4) :=
  (congrFun (hV14 m c) _).symm.trans <|
    (GenP.V14_of m (outs m) c main_arg4 (by decide)).trans <|
      (GenP.V13_of m (outs m) c main_arg4 (by decide)).trans <|
      (GenP.V12_of m (outs m) c main_arg4 (by decide)).trans <|
      (GenP.V11_of m (outs m) c main_arg4 (by decide)).trans <|
      (GenP.V10_of m (outs m) c main_arg4 (by decide)).trans <|
      (GenP.V9_of m (outs m) c main_arg4 (by decide)).trans <|
      (GenP.V8_of m (outs m) c main_arg4 (by decide)).trans <|
      (GenP.V7_of m (outs m) c main_arg4 (by decide)).trans <|
      (GenP.V6_of m (outs m) c main_arg4 (by decide)).trans <|
      (GenP.V5_of m (outs m) c main_arg4 (by decide)).trans <|
      (GenP.V4_of m (outs m) c main_arg4 (by decide)).trans <|
      (GenP.V3_of m (outs m) c main_arg4 (by decide)).trans <|
      (GenP.V2_of m (outs m) c main_arg4 (by decide)).trans <| (GenP.V1_of m c main_arg4 (by decide)).trans rfl

set_option maxHeartbeats 4000000 in
/-- The stretch's weight, from any contents before it: the relation's slab of the weights argument. -/
theorem host_w6 (V : Valuation τ sig (Elt Ideal)) :
    (after (hostOps6_2 (F := Ideal)) V (main_v133 : DevRef τ sig) : S128x64.Idx → EReal)
      = Cert.Proof.Value.wOf6 (V (main_arg3 : DevRef τ sig)) slices_S3x128x64_S1x128x64_1_0_0 shapeCasts_S1x128x64_S128x64 := by
  dsimp only [hostOps6_2]
  after_results
  rfl

set_option maxHeartbeats 4000000 in
/-- The stretch's bias row, from any contents before it: the relation's row of the bias argument as a 1×64 row. -/
theorem host_b6 (V : Valuation τ sig (Elt Ideal)) (hb : S64.BroadcastsInDim S1x64 (![1] : Fin 1 → Fin S1x64.rank)) :
    (after (hostOps6_2 (F := Ideal)) V (main_v136 : DevRef τ sig) : S1x64.Idx → EReal)
      = broadcastInDim S1x64 ![1] hb (Cert.Proof.Value.bOf6 (V (main_arg4 : DevRef τ sig)) slices_S3x64_S1x64_1_0 shapeCasts_S1x64_S64) := by
  dsimp only [hostOps6_2]
  after_results
  exact Cert.LibAffineStage.reshape_row_eq_broadcast_row 64 _ shapeCasts_S64_S1x64 hb

/-- The kernel program's weight of relation 1, layer 1, at region 6. -/
theorem ker_w6 (c : Dev nD) :
    (W15 (F := Ideal) m c main_v133 : S128x64.Idx → EReal)
      = Cert.Proof.Value.wOf6 (m ((c.tc : Thread nD τ).loc main_arg3)) slices_S3x128x64_S1x128x64_1_0_0 shapeCasts_S1x128x64_S128x64 :=
  (host_w6 (W14 m c)).trans (by rw [W14_main_arg3])

/-- The kernel program's bias row of relation 1, layer 1, at region 6. -/
theorem ker_b6 (c : Dev nD) (hb : S64.BroadcastsInDim S1x64 (![1] : Fin 1 → Fin S1x64.rank)) :
    (W15 (F := Ideal) m c main_v136 : S1x64.Idx → EReal)
      = broadcastInDim S1x64 ![1] hb (Cert.Proof.Value.bOf6 (m ((c.tc : Thread nD τ).loc main_arg4)) slices_S3x64_S1x64_1_0 shapeCasts_S1x64_S64) :=
  (host_b6 (W14 m c) hb).trans (by rw [W14_main_arg4])

/-- The kernel program reads the node features unchanged at region 6. -/
theorem ker_x6 (c : Dev nD) : W15 (F := Ideal) m c main_arg0 = m ((c.tc : Thread nD τ).loc main_arg0) :=
  (congrFun (hV15 m c) _).symm.trans <|
    (GenP.V15_of m (outs m) c main_arg0 (by decide)).trans <|
      (GenP.V14_of m (outs m) c main_arg0 (by decide)).trans <|
      (GenP.V13_of m (outs m) c main_arg0 (by decide)).trans <|
      (GenP.V12_of m (outs m) c main_arg0 (by decide)).trans <|
      (GenP.V11_of m (outs m) c main_arg0 (by decide)).trans <|
      (GenP.V10_of m (outs m) c main_arg0 (by decide)).trans <|
      (GenP.V9_of m (outs m) c main_arg0 (by decide)).trans <|
      (GenP.V8_of m (outs m) c main_arg0 (by decide)).trans <|
      (GenP.V7_of m (outs m) c main_arg0 (by decide)).trans <|
      (GenP.V6_of m (outs m) c main_arg0 (by decide)).trans <|
      (GenP.V5_of m (outs m) c main_arg0 (by decide)).trans <|
      (GenP.V4_of m (outs m) c main_arg0 (by decide)).trans <|
      (GenP.V3_of m (outs m) c main_arg0 (by decide)).trans <|
      (GenP.V2_of m (outs m) c main_arg0 (by decide)).trans <| (GenP.V1_of m c main_arg0 (by decide)).trans rfl
end Cert.KernelIdeal.Body

namespace Cert.Proof.Value
open Idealize.ShloMosaic Idealize.ShloMosaic.TcCoe Idealize.SL.Sem Idealize.ShloMosaic.StableHlo

/-- Relation 1, layer 1: the kernel program's dense layer (what region 6 leaves in its output array) is the reference's,
    from any contents before the reference's window that agree with the kernel program's launch memory on the node
    features, the weights and the biases. -/
theorem stageDense6
    (m : (ℓ : Loc Cert.KernelIdeal.nD Cert.KernelIdeal.τ Cert.KernelIdeal.sig) → Buf (Elt Ideal) ℓ)
    (V : Valuation Cert.ReferenceIdeal.τ Cert.ReferenceIdeal.sig (Elt Ideal))
    (c : Dev Cert.KernelIdeal.nD)
    (h0 : V (Proc.devRef .tc Cert.ReferenceIdeal.main_arg0) = m ((c.tc : Thread Cert.KernelIdeal.nD Cert.KernelIdeal.τ).loc Cert.KernelIdeal.main_arg0))
    (h3 : V (Proc.devRef .tc Cert.ReferenceIdeal.main_arg3) = m ((c.tc : Thread Cert.KernelIdeal.nD Cert.KernelIdeal.τ).loc Cert.KernelIdeal.main_arg3))
    (h4 : V (Proc.devRef .tc Cert.ReferenceIdeal.main_arg4) = m ((c.tc : Thread Cert.KernelIdeal.nD Cert.KernelIdeal.τ).loc Cert.KernelIdeal.main_arg4)) :
    (after (Cert.ReferenceIdeal.RefRun.ops3 (F := Ideal)) V (Cert.ReferenceIdeal.main_v175 : DevRef Cert.ReferenceIdeal.τ Cert.ReferenceIdeal.sig) : (⟨2, ![100000, 64]⟩ : Shape).Idx → EReal)
      = (Cert.KernelIdeal.Body.O6_0 (F := Ideal) m c : (⟨2, ![100000, 64]⟩ : Shape).Idx → EReal) := by
  rw [Cert.ReferenceIdeal.RefRun.ref_h6, Cert.KernelIdeal.Body.O6_0_eq_affine, Cert.KernelIdeal.Body.ker_x6, Cert.KernelIdeal.Body.ker_w6,
    Cert.KernelIdeal.Body.ker_b6 m c Cert.ReferenceIdeal.Gen.bcast_S64_S1x64_1, h0, h3, h4]

end Cert.Proof.Value

end
-- ==== Proof.KIStageAgg6.lean ====
/-
  The graph aggregation of relation 1, layer 1 (width 64), which both programs compute on the host with the same
  operations.

  With h the relation's first dense layer's output (100000 × 64), src and dst the relation's two rows of the edge argument
  and weight(e) = d(src e) · d(dst e), d = 1/sqrt(max(deg, 1)), row n of agg is the sum over the edges e into n of
  weight(e) · h(src e). Each program's agg array is read as the one function aggOf of (h, src, dst, weights) with src, dst
  and the weights the same functions of the edge argument, and the last lemmas conclude that the two agg arrays are equal
  when the two h arrays are equal and the edge arguments agree, and that the 1×1 mixing weight the kernel program's region
  reads is the reference's scalar mixing weight when the weights arguments agree.
-/
import proofs.«140713_j1864015806535_2_alg».proof.Proof.KIStageAgg0

set_option maxRecDepth 16384

noncomputable section

namespace Cert.KernelIdeal.Body
open Cert.KernelIdeal Cert.KernelIdeal.Gen Idealize.ShloMosaic Idealize.ShloMosaic.TcCoe Idealize.SL.Sem Idealize.ShloMosaic.StableHlo
variable (m : (ℓ : Loc nD τ sig) → Buf (Elt Ideal) ℓ)

/-- After region 6 the dense layer's output array holds what the region left there. -/
theorem W16_h6 (c : Dev nD) : W16 (F := Ideal) m c (main_v137 : DevRef τ sig) = O6_0 m c := by
  unfold W16
  exact Function.update_self ..

/-- Region 6 leaves every other buffer as it was. -/
theorem W16_keep6 (c : Dev nD) (r : Ref sig .tc) (hr : r ≠ main_v137) :
    W16 (F := Ideal) m c (Proc.devRef .tc r) = W15 m c (Proc.devRef .tc r) := by
  unfold W16
  exact Function.update_of_ne (StableHlo.devRef_ne_of_ne hr) ..

/-- The edge argument reaches the stretch before region 6 as launched. -/
theorem W14_main_arg1_agg (c : Dev nD) : W14 (F := Ideal) m c main_arg1 = m ((c.tc : Thread nD τ).loc main_arg1) :=
  (congrFun (hV14 m c) _).symm.trans <|
    (GenP.V14_of m (outs m) c main_arg1 (by decide)).trans <| (GenP.V13_of m (outs m) c main_arg1 (by decide)).trans <| (GenP.V12_of m (outs m) c main_arg1 (by decide)).trans <| (GenP.V11_of m (outs m) c main_arg1 (by decide)).trans <| (GenP.V10_of m (outs m) c main_arg1 (by decide)).trans <| (GenP.V9_of m (outs m) c main_arg1 (by decide)).trans <| (GenP.V8_of m (outs m) c main_arg1 (by decide)).trans <| (GenP.V7_of m (outs m) c main_arg1 (by decide)).trans <| (GenP.V6_of m (outs m) c main_arg1 (by decide)).trans <| (GenP.V5_of m (outs m) c main_arg1 (by decide)).trans <| (GenP.V4_of m (outs m) c main_arg1 (by decide)).trans <| (GenP.V3_of m (outs m) c main_arg1 (by decide)).trans <| (GenP.V2_of m (outs m) c main_arg1 (by decide)).trans <| (GenP.V1_of m c main_arg1 (by decide)).trans rfl

/-- The weights argument reaches the stretch after region 6 as launched. -/
theorem W16_main_arg7_agg (c : Dev nD) : W16 (F := Ideal) m c main_arg7 = m ((c.tc : Thread nD τ).loc main_arg7) :=
  (W16_keep6 m c main_arg7 (by decide)).trans <|
  (congrFun (hV15 m c) _).symm.trans <|
    (GenP.V15_of m (outs m) c main_arg7 (by decide)).trans <| (GenP.V14_of m (outs m) c main_arg7 (by decide)).trans <| (GenP.V13_of m (outs m) c main_arg7 (by decide)).trans <| (GenP.V12_of m (outs m) c main_arg7 (by decide)).trans <| (GenP.V11_of m (outs m) c main_arg7 (by decide)).trans <| (GenP.V10_of m (outs m) c main_arg7 (by decide)).trans <| (GenP.V9_of m (outs m) c main_arg7 (by decide)).trans <| (GenP.V8_of m (outs m) c main_arg7 (by decide)).trans <| (GenP.V7_of m (outs m) c main_arg7 (by decide)).trans <| (GenP.V6_of m (outs m) c main_arg7 (by decide)).trans <| (GenP.V5_of m (outs m) c main_arg7 (by decide)).trans <| (GenP.V4_of m (outs m) c main_arg7 (by decide)).trans <| (GenP.V3_of m (outs m) c main_arg7 (by decide)).trans <| (GenP.V2_of m (outs m) c main_arg7 (by decide)).trans <| (GenP.V1_of m c main_arg7 (by decide)).trans rfl

set_option maxHeartbeats 4000000 in
/-- The source row of relation 1's edges. -/
theorem ker_src6 (c : Dev nD) :
    (W15 (F := Ideal) m c main_v107 : S1600000.Idx → BitVec 32) = Cert.Proof.Value.edgeRowOf (m ((c.tc : Thread nD τ).loc main_arg1)) ![1, 0, 0] slices_S3x2x1600000_S1x1x1600000_1_0_0 shapeCasts_S1x1x1600000_S1600000 := by
  have e : (W15 (F := Ideal) m c main_v107 : S1600000.Idx → BitVec 32) = Cert.Proof.Value.edgeRowOf (W14 m c (main_arg1 : DevRef τ sig)) ![1, 0, 0] slices_S3x2x1600000_S1x1x1600000_1_0_0 shapeCasts_S1x1x1600000_S1600000 := by
    dsimp only [W15, hostOps6_2]
    after_results
    rfl
  rw [e, W14_main_arg1_agg]

set_option maxHeartbeats 4000000 in
/-- The destination row of relation 1's edges. -/
theorem ker_dst6 (c : Dev nD) :
    (W15 (F := Ideal) m c main_v109 : S1600000.Idx → BitVec 32) = Cert.Proof.Value.edgeRowOf (m ((c.tc : Thread nD τ).loc main_arg1)) ![1, 1, 0] slices_S3x2x1600000_S1x1x1600000_1_1_0 shapeCasts_S1x1x1600000_S1600000 := by
  have e : (W15 (F := Ideal) m c main_v109 : S1600000.Idx → BitVec 32) = Cert.Proof.Value.edgeRowOf (W14 m c (main_arg1 : DevRef τ sig)) ![1, 1, 0] slices_S3x2x1600000_S1x1x1600000_1_1_0 shapeCasts_S1x1x1600000_S1600000 := by
    dsimp only [W15, hostOps6_2]
    after_results
    rfl
  rw [e, W14_main_arg1_agg]

set_option maxHeartbeats 8000000 in
/-- The edge weights of relation 1 as a function of its two edge rows. -/
theorem ker_norm6 (c : Dev nD) :
    (W15 (F := Ideal) m c main_v131 : S1600000.Idx → EReal)
      = Cert.Proof.Value.normOf scatter_S100000_S1600000x1_S1600000_n_0_0_1 gather_S100000_S1600000x1_S1600000_n_0_n_n_0_1_1
            bcast_S_S1600000 bcast_S_S100000 bcast_S1600000_S1600000x1_0
            (Cert.Proof.Value.edgeRowOf (m ((c.tc : Thread nD τ).loc main_arg1)) ![1, 0, 0] slices_S3x2x1600000_S1x1x1600000_1_0_0 shapeCasts_S1x1x1600000_S1600000)
            (Cert.Proof.Value.edgeRowOf (m ((c.tc : Thread nD τ).loc main_arg1)) ![1, 1, 0] slices_S3x2x1600000_S1x1x1600000_1_1_0 shapeCasts_S1x1x1600000_S1600000) := by
  have e : (W15 (F := Ideal) m c main_v131 : S1600000.Idx → EReal)
      = Cert.Proof.Value.normOf scatter_S100000_S1600000x1_S1600000_n_0_0_1 gather_S100000_S1600000x1_S1600000_n_0_n_n_0_1_1
            bcast_S_S1600000 bcast_S_S100000 bcast_S1600000_S1600000x1_0
            (Cert.Proof.Value.edgeRowOf (W14 m c (main_arg1 : DevRef τ sig)) ![1, 0, 0] slices_S3x2x1600000_S1x1x1600000_1_0_0 shapeCasts_S1x1x1600000_S1600000)
            (Cert.Proof.Value.edgeRowOf (W14 m c (main_arg1 : DevRef τ sig)) ![1, 1, 0] slices_S3x2x1600000_S1x1x1600000_1_1_0 shapeCasts_S1x1x1600000_S1600000) := by
    dsimp only [W15, hostOps6_2]
    after_results
    rfl
  rw [e, W14_main_arg1_agg]

set_option maxHeartbeats 4000000 in
/-- The aggregation of relation 1, layer 1, over the contents region 6 leaves. -/
theorem ker_agg6_raw (c : Dev nD) :
    (W17 (F := Ideal) m c main_v150 : S100000x64.Idx → EReal)
      = Cert.Proof.Value.aggOf scatter_S100000x64_S1600000x1_S1600000x64_1_0_0_1 gather_S100000x64_S1600000x1_S1600000x64_1_0_n_n_0_1_164
          bcast_S_S1600000 bcast_S_S100000x64 bcast_S1600000_S1600000x1_0 bcast_S1600000x1_S1600000x64_0_1
          (W16 m c (main_v137 : DevRef τ sig))
          (W16 m c (main_v107 : DevRef τ sig))
          (W16 m c (main_v109 : DevRef τ sig))
          (W16 m c (main_v131 : DevRef τ sig)) := by
  dsimp only [W17, hostOps7]
  after_results
  rfl

/-- The aggregation of relation 1, layer 1, as a function of what region 6 leaves and of the edge argument. -/
theorem ker_agg6 (c : Dev nD) :
    (W17 (F := Ideal) m c main_v150 : S100000x64.Idx → EReal)
      = Cert.Proof.Value.aggOf scatter_S100000x64_S1600000x1_S1600000x64_1_0_0_1 gather_S100000x64_S1600000x1_S1600000x64_1_0_n_n_0_1_164
          bcast_S_S1600000 bcast_S_S100000x64 bcast_S1600000_S1600000x1_0 bcast_S1600000x1_S1600000x64_0_1
          (O6_0 m c)
          (Cert.Proof.Value.edgeRowOf (m ((c.tc : Thread nD τ).loc main_arg1)) ![1, 0, 0] slices_S3x2x1600000_S1x1x1600000_1_0_0 shapeCasts_S1x1x1600000_S1600000)
          (Cert.Proof.Value.edgeRowOf (m ((c.tc : Thread nD τ).loc main_arg1)) ![1, 1, 0] slices_S3x2x1600000_S1x1x1600000_1_1_0 shapeCasts_S1x1x1600000_S1600000)
          (Cert.Proof.Value.normOf scatter_S100000_S1600000x1_S1600000_n_0_0_1 gather_S100000_S1600000x1_S1600000_n_0_n_n_0_1_1
            bcast_S_S1600000 bcast_S_S100000 bcast_S1600000_S1600000x1_0
            (Cert.Proof.Value.edgeRowOf (m ((c.tc : Thread nD τ).loc main_arg1)) ![1, 0, 0] slices_S3x2x1600000_S1x1x1600000_1_0_0 shapeCasts_S1x1x1600000_S1600000)
            (Cert.Proof.Value.edgeRowOf (m ((c.tc : Thread nD τ).loc main_arg1)) ![1, 1, 0] slices_S3x2x1600000_S1x1x1600000_1_1_0 shapeCasts_S1x1x1600000_S1600000)) := by
  rw [ker_agg6_raw, W16_h6, W16_keep6 m c main_v107 (by decide), W16_keep6 m c main_v109 (by decide), W16_keep6 m c main_v131 (by decide),
    ker_src6, ker_dst6, ker_norm6]

set_option maxHeartbeats 2000000 in
/-- The mixing weight region 7 reads: relation 1's entry of the weights argument, as a 1×1 array. -/
theorem ker_gamma6 (c : Dev nD) :
    (W17 (F := Ideal) m c main_v157 : S1x1.Idx → EReal)
      = shapeCast S1x1 (Cert.Proof.Value.gammaOf (m ((c.tc : Thread nD τ).loc main_arg7)) ![1] slices_S3_S1_1 shapeCasts_S1_S_) shapeCasts_S_S1x1 := by
  have e : (W17 (F := Ideal) m c main_v157 : S1x1.Idx → EReal)
      = shapeCast S1x1 (Cert.Proof.Value.gammaOf (W16 m c (main_arg7 : DevRef τ sig)) ![1] slices_S3_S1_1 shapeCasts_S1_S_) shapeCasts_S_S1x1 := by
    dsimp only [W17, hostOps7]
    after_results
    rfl
  rw [e, W16_main_arg7_agg]
end Cert.KernelIdeal.Body

namespace Cert.ReferenceIdeal.RefRun
open Cert.ReferenceIdeal Cert.ReferenceIdeal.Gen Idealize.ShloMosaic Idealize.ShloMosaic.TcCoe Idealize.SL.Sem Idealize.ShloMosaic.StableHlo

set_option maxHeartbeats 4000000 in
/-- The source row of relation 1's edges, from any contents before the fourth window. -/
theorem ref_src6 (V : Valuation τ sig (Elt Ideal)) :
    (after (ops3 (F := Ideal)) V (main_v163 : DevRef τ sig) : S1600000.Idx → BitVec 32) = Cert.Proof.Value.edgeRowOf (V (main_arg1 : DevRef τ sig)) ![1, 0, 0] slices_S3x2x1600000_S1x1x1600000_1_0_0 shapeCasts_S1x1x1600000_S1600000 := by
  dsimp only [ops3]
  after_results_simp
  rfl

set_option maxHeartbeats 4000000 in
/-- The destination row of relation 1's edges, from any contents before the fourth window. -/
theorem ref_dst6 (V : Valuation τ sig (Elt Ideal)) :
    (after (ops3 (F := Ideal)) V (main_v165 : DevRef τ sig) : S1600000.Idx → BitVec 32) = Cert.Proof.Value.edgeRowOf (V (main_arg1 : DevRef τ sig)) ![1, 1, 0] slices_S3x2x1600000_S1x1x1600000_1_1_0 shapeCasts_S1x1x1600000_S1600000 := by
  dsimp only [ops3]
  after_results_simp
  rfl

set_option maxHeartbeats 8000000 in
/-- The reference's aggregation of relation 1, layer 1, from any contents V before the fourth window: a function of the
    dense layer's output and of the two edge rows that window computes. The window is cut after the dense layer's last
    operation, and the operations before the cut are read only through what they leave. -/
theorem ref_agg6 (V : Valuation τ sig (Elt Ideal)) :
    (after (ops4 (F := Ideal)) (after (ops3 (F := Ideal)) V) (main_v210 : DevRef τ sig) : S100000x64.Idx → EReal)
      = Cert.Proof.Value.aggOf scatter_S100000x64_S1600000x1_S1600000x64_1_0_0_1 gather_S100000x64_S1600000x1_S1600000x64_1_0_n_n_0_1_164
          bcast_S_S1600000 bcast_S_S100000x64 bcast_S1600000_S1600000x1_0 bcast_S1600000x1_S1600000x64_0_1
          (after (ops3 (F := Ideal)) V (main_v175 : DevRef τ sig))
          (after (ops3 (F := Ideal)) V (main_v163 : DevRef τ sig))
          (after (ops3 (F := Ideal)) V (main_v165 : DevRef τ sig))
          (Cert.Proof.Value.normOf scatter_S100000_S1600000x1_S1600000_n_0_0_1 gather_S100000_S1600000x1_S1600000_n_0_n_n_0_1_1
            bcast_S_S1600000 bcast_S_S100000 bcast_S1600000_S1600000x1_0
            (after (ops3 (F := Ideal)) V (main_v163 : DevRef τ sig))
            (after (ops3 (F := Ideal)) V (main_v165 : DevRef τ sig))) := by
  rw [← List.take_append_drop 44 (ops3 (F := Ideal)), after_append]
  generalize after ((ops3 (F := Ideal)).take 44) V = X
  dsimp only [ops3, ops4]
  simp only [List.drop_succ_cons, List.drop_zero]
  after_results_simp
  rfl

set_option maxHeartbeats 4000000 in
/-- The reference's mixing weight of relation 1, layer 1: that entry of the weights argument, as a scalar. -/
theorem ref_gamma6 (V : Valuation τ sig (Elt Ideal)) :
    (after (ops3 (F := Ideal)) V (main_v171 : DevRef τ sig) : S_.Idx → EReal)
      = Cert.Proof.Value.gammaOf (V (main_arg7 : DevRef τ sig)) ![1] slices_S3_S1_1 shapeCasts_S1_S_ := by
  dsimp only [ops3]
  after_results_simp
  rfl
end Cert.ReferenceIdeal.RefRun

namespace Cert.Proof.Value
open Idealize.ShloMosaic Idealize.ShloMosaic.TcCoe Idealize.SL.Sem Idealize.ShloMosaic.StableHlo

/-- Relation 1, layer 1: from any contents V before the reference's fourth window that agree with the kernel program's
    memory on the edge argument, the two programs' aggregations are equal when their dense layers' outputs are. -/
theorem stageAgg6
    (m : (ℓ : Loc Cert.KernelIdeal.nD Cert.KernelIdeal.τ Cert.KernelIdeal.sig) → Buf (Elt Ideal) ℓ)
    (V : Valuation Cert.ReferenceIdeal.τ Cert.ReferenceIdeal.sig (Elt Ideal))
    (c : Dev Cert.KernelIdeal.nD)
    (h1 : V (Proc.devRef .tc Cert.ReferenceIdeal.main_arg1) = m ((c.tc : Thread Cert.KernelIdeal.nD Cert.KernelIdeal.τ).loc Cert.KernelIdeal.main_arg1))
    (hh : (after (Cert.ReferenceIdeal.RefRun.ops3 (F := Ideal)) V (Cert.ReferenceIdeal.main_v175 : DevRef Cert.ReferenceIdeal.τ Cert.ReferenceIdeal.sig) : (⟨2, ![100000, 64]⟩ : Shape).Idx → EReal)
      = (Cert.KernelIdeal.Body.O6_0 (F := Ideal) m c : (⟨2, ![100000, 64]⟩ : Shape).Idx → EReal)) :
    (after (Cert.ReferenceIdeal.RefRun.ops4 (F := Ideal)) (after (Cert.ReferenceIdeal.RefRun.ops3 (F := Ideal)) V) (Cert.ReferenceIdeal.main_v210 : DevRef Cert.ReferenceIdeal.τ Cert.ReferenceIdeal.sig) : (⟨2, ![100000, 64]⟩ : Shape).Idx → EReal)
      = (Cert.KernelIdeal.Body.W17 (F := Ideal) m c (Cert.KernelIdeal.main_v150 : DevRef Cert.KernelIdeal.τ Cert.KernelIdeal.sig) : (⟨2, ![100000, 64]⟩ : Shape).Idx → EReal) := by
  rw [Cert.ReferenceIdeal.RefRun.ref_agg6, Cert.ReferenceIdeal.RefRun.ref_src6, Cert.ReferenceIdeal.RefRun.ref_dst6, Cert.KernelIdeal.Body.ker_agg6, hh, h1]
  rfl

/-- The mixing weight region 7 reads is the reference's scalar of relation 1, layer 1, as a 1×1 array, from any contents V
    before the reference's fourth window that agree with the kernel program's memory on the weights argument. -/
theorem stageGamma6
    (m : (ℓ : Loc Cert.KernelIdeal.nD Cert.KernelIdeal.τ Cert.KernelIdeal.sig) → Buf (Elt Ideal) ℓ)
    (V : Valuation Cert.ReferenceIdeal.τ Cert.ReferenceIdeal.sig (Elt Ideal))
    (c : Dev Cert.KernelIdeal.nD)
    (h7 : V (Proc.devRef .tc Cert.ReferenceIdeal.main_arg7) = m ((c.tc : Thread Cert.KernelIdeal.nD Cert.KernelIdeal.τ).loc Cert.KernelIdeal.main_arg7)) :
    (Cert.KernelIdeal.Body.W17 (F := Ideal) m c (Cert.KernelIdeal.main_v157 : DevRef Cert.KernelIdeal.τ Cert.KernelIdeal.sig) : (⟨2, ![1, 1]⟩ : Shape).Idx → EReal)
      = shapeCast ⟨2, ![1, 1]⟩ (after (Cert.ReferenceIdeal.RefRun.ops3 (F := Ideal)) V (Cert.ReferenceIdeal.main_v171 : DevRef Cert.ReferenceIdeal.τ Cert.ReferenceIdeal.sig) : (⟨0, ![]⟩ : Shape).Idx → EReal)
          Cert.KernelIdeal.Gen.shapeCasts_S_S1x1 := by
  rw [Cert.ReferenceIdeal.RefRun.ref_gamma6, Cert.KernelIdeal.Body.ker_gamma6, h7]
end Cert.Proof.Value

end
-- ==== Proof.KIValMix7.lean ====
/-
  Region 7, the mix-and-accumulate tile kernel, read as values over the extended reals.

  At each of the ten grid points the body takes its tile of 10000 rows of h and of agg and the 1×1 mixing weight g,
  writes xm = g·agg + (1 − g)·h into its tile of the first output, and adds the tile's column sums of xm and of xm·xm
  to two one-row outputs that are zeroed at the first point and written back after the last. The lemmas here say what
  the three output arrays end holding, index by index, as functions of the region's entry contents: the first output is
  xm at every row and column, the two rows are the sums over all 100000 rows of xm and of xm·xm.
-/
import proofs.«140713_j1864015806535_2_alg».proof.Proof.KIFrameBase
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Body

open Cert.KernelIdeal Cert.KernelIdeal.Gen Idealize.ShloMosaic Idealize.ShloMosaic.TcCoe Idealize.ShloMosaic.ValueIdx Idealize.SL.Sem
open Idealize.ShloMosaic.Pipeline (Dat Cfg Window)
open Idealize.ShloMosaic.Tactic

variable (m : (ℓ : Loc nD τ sig) → Buf (Elt Ideal) ℓ)

section Pieces
variable (V : (c : Dev nD) → (b : Ref sig .tc) → Buf (Elt Ideal) ((c : Thread nD τ).loc b))

theorem hz7 : (![0, 0] : Fin 2 → Nat) = fun _ => 0 := funext fun a => by fin_cases a <;> rfl

theorem outA7_3 (c : Dev nD) (t : Fin cfg7.N) (h : cond7_0 (grid7.coords t)) :
    (readBack7 (runA7 V c t h).1).1 = k7_pay3 (iblk7 V c 2 t) (iblk7 V c 0 t) (iblk7 V c 1 t) := by
  unfold readBack7
  dsimp only
  rw [View.read_writes_junk_eq_canon]
  unfold runA7 kernelRun7_A
  dsimp only
  rw [View.canon_unit_zero (S := S10000x64) hz7]
  simp only [View.readAt_eq_ld, (hs7_0 t).read_unread, (hs7_1 t).read_unread, (hs7_2 t).read_unread,
    View.ld_unit_zero (S := S10000x64) hz7, View.ld_unit_zero (S := S1x1) hz7]

theorem outB7_3 (c : Dev nD) (t : Fin cfg7.N) (h : ¬cond7_0 (grid7.coords t)) (xo4 xo5 : Vec Ideal S1x64 .f32) :
    (readBack7 (runB7 V c t h xo4 xo5).1).1 = k7_pay3 (iblk7 V c 2 t) (iblk7 V c 0 t) (iblk7 V c 1 t) := by
  unfold readBack7
  dsimp only
  rw [View.read_writes_junk_eq_canon]
  unfold runB7 kernelRun7_B
  dsimp only
  rw [View.canon_unit_zero (S := S10000x64) hz7]
  simp only [View.readAt_eq_ld, (hs7_0 t).read_unread, (hs7_1 t).read_unread, (hs7_2 t).read_unread,
    View.ld_unit_zero (S := S10000x64) hz7, View.ld_unit_zero (S := S1x1) hz7]

theorem outA7_4 (c : Dev nD) (t : Fin cfg7.N) (h : cond7_0 (grid7.coords t)) :
    (readBack7 (runA7 V c t h).1).2.1 = k7_pay4 (iblk7 V c 2 t) (iblk7 V c 0 t) (iblk7 V c 1 t) (k7_pay1 (F := Ideal)) := by
  unfold readBack7
  dsimp only
  rw [View.read_writes_junk_eq_canon]
  unfold runA7 kernelRun7_A
  dsimp only
  sl_unfold_words
  rw [View.canon_cons_unit_zero (S := S1x64) hz7, View.readCov_unit_zero (S := S1x64) _ hz7]
  simp only [View.readAt_eq_ld, (hs7_0 t).read_unread, (hs7_1 t).read_unread, (hs7_2 t).read_unread,
    View.ld_unit_zero (S := S10000x64) hz7, View.ld_unit_zero (S := S1x1) hz7, View.ld_unit_zero (S := S1x64) hz7]

theorem outB7_4 (c : Dev nD) (t : Fin cfg7.N) (h : ¬cond7_0 (grid7.coords t)) (xo4 xo5 : Vec Ideal S1x64 .f32) :
    (readBack7 (runB7 V c t h xo4 xo5).1).2.1 = k7_pay4 (iblk7 V c 2 t) (iblk7 V c 0 t) (iblk7 V c 1 t) xo4 := by
  unfold readBack7
  dsimp only
  rw [View.read_writes_junk_eq_canon]
  unfold runB7 kernelRun7_B
  dsimp only
  rw [View.canon_unit_zero (S := S1x64) hz7]
  simp only [View.readAt_eq_ld, (hs7_0 t).read_unread, (hs7_1 t).read_unread, (hs7_2 t).read_unread,
    (hs7_4 t).read_unread, (hs7_5 t).read_unread,
    View.ld_unit_zero (S := S10000x64) hz7, View.ld_unit_zero (S := S1x1) hz7, View.ld_unit_zero (S := S1x64) hz7]

theorem outA7_5 (c : Dev nD) (t : Fin cfg7.N) (h : cond7_0 (grid7.coords t)) :
    (readBack7 (runA7 V c t h).1).2.2 = k7_pay5 (iblk7 V c 2 t) (iblk7 V c 0 t) (iblk7 V c 1 t) (k7_pay2 (F := Ideal)) := by
  unfold readBack7
  dsimp only
  rw [View.read_writes_junk_eq_canon]
  unfold runA7 kernelRun7_A
  dsimp only
  sl_unfold_words
  rw [View.canon_cons_unit_zero (S := S1x64) hz7, View.readCov_unit_zero (S := S1x64) _ hz7]
  simp only [View.readAt_eq_ld, (hs7_0 t).read_unread, (hs7_1 t).read_unread, (hs7_2 t).read_unread,
    View.ld_unit_zero (S := S10000x64) hz7, View.ld_unit_zero (S := S1x1) hz7, View.ld_unit_zero (S := S1x64) hz7]

theorem outB7_5 (c : Dev nD) (t : Fin cfg7.N) (h : ¬cond7_0 (grid7.coords t)) (xo4 xo5 : Vec Ideal S1x64 .f32) :
    (readBack7 (runB7 V c t h xo4 xo5).1).2.2 = k7_pay5 (iblk7 V c 2 t) (iblk7 V c 0 t) (iblk7 V c 1 t) xo5 := by
  unfold readBack7
  dsimp only
  rw [View.read_writes_junk_eq_canon]
  unfold runB7 kernelRun7_B
  dsimp only
  rw [View.canon_unit_zero (S := S1x64) hz7]
  simp only [View.readAt_eq_ld, (hs7_0 t).read_unread, (hs7_1 t).read_unread, (hs7_2 t).read_unread,
    (hs7_4 t).read_unread, (hs7_5 t).read_unread,
    View.ld_unit_zero (S := S10000x64) hz7, View.ld_unit_zero (S := S1x1) hz7, View.ld_unit_zero (S := S1x64) hz7]

end Pieces

/-! ## The payload at an index -/

/-- The mixed tile at row p, column q: the weight times agg plus one minus the weight times h. -/
theorem pay3_apply_7 (g : Vec Ideal S1x1 .f32) (h agg : Vec Ideal S10000x64 .f32) (p : Fin 10000) (q : Fin 64) :
    (k7_pay3 g h agg : S10000x64.Idx → EReal) (ix2 p q)
      = (g : S1x1.Idx → EReal) (ix2 0 0) * (agg : S10000x64.Idx → EReal) (ix2 p q)
        + (Ideal.ofBits .f32 0x3F800000#32 - (g : S1x1.Idx → EReal) (ix2 0 0)) * (h : S10000x64.Idx → EReal) (ix2 p q) := by
  unfold k7_pay3
  simp only [shapeCast_self]
  rw [addf_apply, mulf_apply, mulf_apply,
    broadcastTo_apply (s := S1x1) (t := S10000x64) _ _ (ix2 p q) (ix2 0 0)
      (fun a => by match a with | ⟨0, _⟩ => rfl | ⟨1, _⟩ => rfl),
    broadcastTo_apply (s := S1x1) (t := S10000x64) _ _ (ix2 p q) (ix2 0 0)
      (fun a => by match a with | ⟨0, _⟩ => rfl | ⟨1, _⟩ => rfl),
    subf_apply, broadcast_apply]
  rfl

/-- The same at any index of the tile. -/
theorem pay3_at_7 (g : Vec Ideal S1x1 .f32) (h agg : Vec Ideal S10000x64 .f32) (j : S10000x64.Idx) :
    (k7_pay3 g h agg : S10000x64.Idx → EReal) j
      = (g : S1x1.Idx → EReal) (ix2 0 0) * (agg : S10000x64.Idx → EReal) j
        + (Ideal.ofBits .f32 0x3F800000#32 - (g : S1x1.Idx → EReal) (ix2 0 0)) * (h : S10000x64.Idx → EReal) j := by
  obtain ⟨p, q, rfl⟩ : ∃ (p : Fin 10000) (q : Fin 64), j = ix2 p q := ⟨j 0, j 1, eq_ix2 j⟩
  exact pay3_apply_7 g h agg p q

/-- A tile's column reduction, stored as a one-row block, at column q: the sum of the tile down column q. -/
theorem colsum_apply_7 (x : Vec Ideal S10000x64 .f32) (q : Fin 64) :
    (shapeCast S1x64 (multiReduction (F := Ideal) .add [0] S64 x 0x00000000#32 reduces_S10000x64_S64 (.inl rfl) rfl)
        shapeCasts_S64_S1x64 : S1x64.Idx → EReal) (ix2 0 q)
      = ∑ r : Fin 10000, (x : S10000x64.Idx → EReal) (ix2 r q) := by
  refine (shapeCast_addUnit_apply ![64] _ _ (ix2 0 q)).trans ?_
  refine (Ideal.multiReduction_add_single x 0x00000000#32 reduces_S10000x64_S64 (.inl rfl) rfl _).trans ?_
  show ∑ r : Fin 10000, _ = _
  refine Finset.sum_congr rfl fun r _ => congrArg _ ?_
  funext a
  apply Fin.ext
  match a with
  | ⟨0, _⟩ => rfl
  | ⟨1, _⟩ => rfl

/-- The column sums' row at column q: the row entered plus the sum of the mixed tile down column q. -/
theorem pay4_apply_7 (g : Vec Ideal S1x1 .f32) (h agg : Vec Ideal S10000x64 .f32) (row : Vec Ideal S1x64 .f32) (q : Fin 64) :
    (k7_pay4 g h agg row : S1x64.Idx → EReal) (ix2 0 q)
      = (row : S1x64.Idx → EReal) (ix2 0 q) + ∑ r : Fin 10000, (k7_pay3 g h agg : S10000x64.Idx → EReal) (ix2 r q) := by
  unfold k7_pay4
  simp only [shapeCast_self]
  rw [addf_apply]
  congr 1
  exact colsum_apply_7 _ q

/-- The squares' row at column q: the row entered plus the sum of the mixed tile's squares down column q. -/
theorem pay5_apply_7 (g : Vec Ideal S1x1 .f32) (h agg : Vec Ideal S10000x64 .f32) (row : Vec Ideal S1x64 .f32) (q : Fin 64) :
    (k7_pay5 g h agg row : S1x64.Idx → EReal) (ix2 0 q)
      = (row : S1x64.Idx → EReal) (ix2 0 q)
        + ∑ r : Fin 10000, (k7_pay3 g h agg : S10000x64.Idx → EReal) (ix2 r q) * (k7_pay3 g h agg : S10000x64.Idx → EReal) (ix2 r q) := by
  unfold k7_pay5
  simp only [shapeCast_self]
  rw [addf_apply]
  congr 1
  exact colsum_apply_7 (mulf (k7_pay3 g h agg) (k7_pay3 g h agg)) q

/-- The rows entered at the first point are zero. -/
theorem pay1_apply_7 (q : Fin 64) : (k7_pay1 (F := Ideal) : S1x64.Idx → EReal) (ix2 0 q) = 0 := by
  unfold k7_pay1
  rw [broadcast_apply]
  exact Ideal.ofBits_zero_f32
theorem pay2_apply_7 (q : Fin 64) : (k7_pay2 (F := Ideal) : S1x64.Idx → EReal) (ix2 0 q) = 0 := by
  unfold k7_pay2
  rw [broadcast_apply]
  exact Ideal.ofBits_zero_f32

section Blocks
variable (V : (c : Dev nD) → (b : Ref sig .tc) → Buf (Elt Ideal) ((c : Thread nD τ).loc b))

/-! ## The first output: the mixed tile, at every point -/

/-- After the body at any point the first output's staging buffer holds the mixed tile of the point's blocks. -/
theorem outs7_3 (c : Dev nD) (t : Fin cfg7.N) :
    (outsAt7 V c t.val t.isLt).1 = k7_pay3 (iblk7 V c 2 t) (iblk7 V c 0 t) (iblk7 V c 1 t) := by
  by_cases h0 : t.val % 10 = 0
  · rw [outsAt7_A V c t h0]; exact outA7_3 V c t _
  · rw [outsAt7_B V c t h0]; exact outB7_3 V c t _ _ _

/-- The region's three input arrays as it finds them: the weight, h, agg. -/
abbrev arrG_7 (c : Dev nD) : S1x1.Idx → EReal := V c main_v157
abbrev arrH_7 (c : Dev nD) : S100000x64.Idx → EReal := V c main_v137
abbrev arrAgg_7 (c : Dev nD) : S100000x64.Idx → EReal := V c main_v150

/-- The mix of whole arrays, index by index. -/
abbrev mixG_7 (g : S1x1.Idx → EReal) (h agg : S100000x64.Idx → EReal) : S100000x64.Idx → EReal :=
  fun i => g (ix2 0 0) * agg i + (Ideal.ofBits .f32 0x3F800000#32 - g (ix2 0 0)) * h i

/-- The windows' index maps, decided over the grid: the tiles of h and agg move with the output's tile, whose row
    block is the point itself; the weight's block never moves. -/
theorem idx_facts7 : ∀ t : Fin cfg7.N,
    win7_0.index t (0 : Fin 2) = win7_3.index t (0 : Fin 2) ∧ win7_0.index t (1 : Fin 2) = win7_3.index t (1 : Fin 2)
    ∧ win7_1.index t (0 : Fin 2) = win7_3.index t (0 : Fin 2) ∧ win7_1.index t (1 : Fin 2) = win7_3.index t (1 : Fin 2)
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- What point t writes back to the first output is block t of the mix of the three arrays. -/
theorem flushed7_3_eq (c : Dev nD) (t : Fin cfg7.N) :
    (dat7 V c).flushed 3 t = ((cfg7.win 3).blk t).view.read (Elt Ideal) (mixG_7 (arrG_7 V c) (arrH_7 V c) (arrAgg_7 V c)) := by
  show (cfg7.win 3).cut (grid7.coords t) ((dat7 V c).after 3 t) = _
  rw [after7_3, outs7_3]
  funext j
  refine (pay3_at_7 _ _ _ j).trans ?_
  obtain ⟨e0, e1, e2, e3, e4, e5, e6, e7⟩ := idx_facts7 t
  show arrG_7 V c (((cfg7.win 2).blk t).view.emb (ix2 0 0)) * arrAgg_7 V c (((cfg7.win 1).blk t).view.emb j)
      + (Ideal.ofBits .f32 0x3F800000#32 - arrG_7 V c (((cfg7.win 2).blk t).view.emb (ix2 0 0))) * arrH_7 V c (((cfg7.win 0).blk t).view.emb j)
    = arrG_7 V c (ix2 0 0) * arrAgg_7 V c (((cfg7.win 3).blk t).view.emb j)
      + (Ideal.ofBits .f32 0x3F800000#32 - arrG_7 V c (ix2 0 0)) * arrH_7 V c (((cfg7.win 3).blk t).view.emb j)
  have h2 : ((cfg7.win 2).blk t).view.emb (ix2 0 0) = ix2 0 0 := by
    funext a; apply Fin.ext
    match a with
    | ⟨0, _⟩ => show win7_2.index t (0 : Fin 2) * 1 + 1 * 0 = 0; omega
    | ⟨1, _⟩ => show win7_2.index t (1 : Fin 2) * 1 + 1 * 0 = 0; omega
  have h0 : ((cfg7.win 0).blk t).view.emb j = ((cfg7.win 3).blk t).view.emb j := by
    funext a; apply Fin.ext
    match a with
    | ⟨0, _⟩ => show win7_0.index t (0 : Fin 2) * 10000 + 1 * (j 0).val = win7_3.index t (0 : Fin 2) * 10000 + 1 * (j 0).val; omega
    | ⟨1, _⟩ => show win7_0.index t (1 : Fin 2) * 64 + 1 * (j 1).val = win7_3.index t (1 : Fin 2) * 64 + 1 * (j 1).val; omega
  have h1 : ((cfg7.win 1).blk t).view.emb j = ((cfg7.win 3).blk t).view.emb j := by
    funext a; apply Fin.ext
    match a with
    | ⟨0, _⟩ => show win7_1.index t (0 : Fin 2) * 10000 + 1 * (j 0).val = win7_3.index t (0 : Fin 2) * 10000 + 1 * (j 0).val; omega
    | ⟨1, _⟩ => show win7_1.index t (1 : Fin 2) * 64 + 1 * (j 1).val = win7_3.index t (1 : Fin 2) * 64 + 1 * (j 1).val; omega
  rw [h2, h0, h1]

/-- An index of the first output is in point t's block iff each coordinate is in the block's range on its axis. -/
theorem mem_blk7_3 (t : Fin cfg7.N) (i : S100000x64.Idx) :
    i ∈ ((cfg7.win 3).blk t).view.set ↔ ∀ a : Fin 2, win7_3.index t a * S10000x64.size a ≤ (i a).val
      ∧ (i a).val < win7_3.index t a * S10000x64.size a + S10000x64.size a := by
  show i ∈ ((View.whole main_v158_0).slice (win7_3.rect t)).set ↔ _
  rw [View.set_slice_whole, Rect.mem_set_unit]
  exact Iff.rfl

/-- Row r of the first output is in the block of point r / 10000, which writes it back. -/
theorem cover7_3 (i : S100000x64.Idx) :
    ∃ t : Fin cfg7.N, (cfg7.win 3).flush t = true ∧ i ∈ ((cfg7.win 3).blk t).view.set := by
  have hi0 : (i 0).val < 100000 := (i 0).isLt
  have hi1 : (i 1).val < 64 := (i 1).isLt
  have hN : cfg7.N = 10 := N_7
  obtain ⟨t, ht⟩ : ∃ t : Fin cfg7.N, t.val = (i 0).val / 10000 := ⟨⟨(i 0).val / 10000, by rw [hN]; omega⟩, rfl⟩
  refine ⟨t, flush7_3 t, ?_⟩
  rw [mem_blk7_3]
  obtain ⟨e0, e1, e2, e3, e4, e5, e6, e7⟩ := idx_facts7 t
  intro a
  match a with
  | ⟨0, _⟩ =>
    show win7_3.index t (0 : Fin 2) * 10000 ≤ (i 0).val ∧ (i 0).val < win7_3.index t (0 : Fin 2) * 10000 + 10000
    rw [e6, ht]; omega
  | ⟨1, _⟩ =>
    show win7_3.index t (1 : Fin 2) * 64 ≤ (i 1).val ∧ (i 1).val < win7_3.index t (1 : Fin 2) * 64 + 64
    rw [e7]; omega

/-- So the first output array ends holding the mix of the three arrays as the region finds them. -/
theorem final7_3 (c : Dev nD) : (dat7 V c).arrAt 3 cfg7.N = mixG_7 (arrG_7 V c) (arrH_7 V c) (arrAgg_7 V c) :=
  (dat7 V c).arrAt_eq_of_cover 3 (mixG_7 (arrG_7 V c) (arrH_7 V c) (arrAgg_7 V c)) (fun t _ => flushed7_3_eq V c t) cover7_3

/-! ## The two rows: sums carried across the grid -/

/-- The mixed tile of point t at row r, column q is the mix of the arrays at row t·10000 + r. -/
theorem tile_at_7 (c : Dev nD) (t : Fin cfg7.N) (r : Fin 10000) (q : Fin 64) (hr : t.val * 10000 + r.val < 100000) :
    (k7_pay3 (iblk7 V c 2 t) (iblk7 V c 0 t) (iblk7 V c 1 t) : S10000x64.Idx → EReal) (ix2 r q)
      = mixG_7 (arrG_7 V c) (arrH_7 V c) (arrAgg_7 V c) (ix2 ⟨t.val * 10000 + r.val, hr⟩ q) := by
  have e : (dat7 V c).flushed 3 t = k7_pay3 (iblk7 V c 2 t) (iblk7 V c 0 t) (iblk7 V c 1 t) := by
    show (cfg7.win 3).cut (grid7.coords t) ((dat7 V c).after 3 t) = _
    rw [after7_3, outs7_3]
    funext j
    rfl
  refine (congrFun e.symm (ix2 r q)).trans ?_
  refine (congrFun (flushed7_3_eq V c t) (ix2 r q)).trans ?_
  show mixG_7 (arrG_7 V c) (arrH_7 V c) (arrAgg_7 V c) (((cfg7.win 3).blk t).view.emb (ix2 r q)) = _
  refine congrArg _ ?_
  obtain ⟨e0, e1, e2, e3, e4, e5, e6, e7⟩ := idx_facts7 t
  funext a; apply Fin.ext
  match a with
  | ⟨0, _⟩ => show win7_3.index t (0 : Fin 2) * 10000 + 1 * r.val = t.val * 10000 + r.val; rw [e6]; omega
  | ⟨1, _⟩ => show win7_3.index t (1 : Fin 2) * 64 + 1 * q.val = q.val; rw [e7]; omega

/-- The sum of the mix down column q over the rows of tile k (zero past the grid). -/
def tileN_7 (c : Dev nD) (q : Fin 64) (k : ℕ) : EReal :=
  if h : k < 10 then ∑ r : Fin 10000, mixG_7 (arrG_7 V c) (arrH_7 V c) (arrAgg_7 V c) (ix2 ⟨k * 10000 + r.val, by omega⟩ q) else 0

/-- The column sum of point t's mixed tile is that sum. -/
theorem tile_sum_7 (c : Dev nD) (t : Fin cfg7.N) (q : Fin 64) :
    ∑ r : Fin 10000, (k7_pay3 (iblk7 V c 2 t) (iblk7 V c 0 t) (iblk7 V c 1 t) : S10000x64.Idx → EReal) (ix2 r q)
      = tileN_7 V c q t.val := by
  have hN : t.val < 10 := lt_of_lt_of_eq t.isLt (show cfg7.N = 10 from N_7)
  unfold tileN_7
  rw [dif_pos hN]
  exact Finset.sum_congr rfl fun r _ => tile_at_7 V c t r q (by have := r.isLt; omega)

/-- After point n the first row holds, at column q, the column sums of tiles 0 to n added in order. -/
theorem row4_inv_7 (c : Dev nD) (q : Fin 64) : ∀ (n : ℕ) (hn : n < cfg7.N),
    ((outsAt7 V c n hn).2.1 : S1x64.Idx → EReal) (ix2 0 q) = ∑ k ∈ Finset.range (n + 1), tileN_7 V c q k
  | 0, hn => by
    have e : (outsAt7 V c 0 hn).2.1 = k7_pay4 (iblk7 V c 2 ⟨0, hn⟩) (iblk7 V c 0 ⟨0, hn⟩) (iblk7 V c 1 ⟨0, hn⟩) (k7_pay1 (F := Ideal)) :=
      (congrArg (fun o => o.2.1) (outsAt7_A V c ⟨0, hn⟩ rfl)).trans (outA7_4 V c ⟨0, hn⟩ _)
    refine (congrFun e (ix2 0 q)).trans ?_
    refine (pay4_apply_7 _ _ _ _ q).trans ?_
    rw [pay1_apply_7, zero_add, tile_sum_7 V c ⟨0, hn⟩ q, Finset.sum_range_one]
  | n + 1, hn => by
    have hN : cfg7.N = 10 := N_7
    have hB : ¬(⟨n + 1, hn⟩ : Fin cfg7.N).val % 10 = 0 := by
      have : n + 1 < 10 := hN ▸ hn
      dsimp only; omega
    have e : (outsAt7 V c (n + 1) hn).2.1 = k7_pay4 (iblk7 V c 2 ⟨n + 1, hn⟩) (iblk7 V c 0 ⟨n + 1, hn⟩) (iblk7 V c 1 ⟨n + 1, hn⟩)
        (outsAt7 V c n (Nat.lt_of_succ_lt hn)).2.1 :=
      (congrArg (fun o => o.2.1) (outsAt7_B V c ⟨n + 1, hn⟩ hB)).trans (outB7_4 V c ⟨n + 1, hn⟩ _ _ _)
    refine (congrFun e (ix2 0 q)).trans ?_
    refine (pay4_apply_7 _ _ _ _ q).trans ?_
    rw [row4_inv_7 c q n (Nat.lt_of_succ_lt hn), tile_sum_7 V c ⟨n + 1, hn⟩ q, Finset.sum_range_succ _ (n + 1)]

/-- The two rows' index maps never move. -/
theorem idx_facts7_rows : ∀ t : Fin cfg7.N, win7_4.index t (0 : Fin 2) = 0 ∧ win7_4.index t (1 : Fin 2) = 0
    ∧ win7_5.index t (0 : Fin 2) = 0 ∧ win7_5.index t (1 : Fin 2) = 0 :=
  (by decide +kernel : ∀ t : Fin grid7.N, _)

/-- The first row as a function of the arrays: at column q, the column sums of the ten tiles. -/
def rowG4_7 (c : Dev nD) : S1x64.Idx → EReal := fun i => ∑ k ∈ Finset.range 10, tileN_7 V c (i 1) k

/-- What the last point writes back to row output 1 is the whole row of sums. -/
theorem flushed7_4_eq (c : Dev nD) (t : Fin cfg7.N) (hf : (cfg7.win 4).flush t = true) :
    (dat7 V c).flushed 4 t = ((cfg7.win 4).blk t).view.read (Elt Ideal) (rowG4_7 V c) := by
  have hN : t.val < 10 := lt_of_lt_of_eq t.isLt (show cfg7.N = 10 from N_7)
  have h9 : t.val = 9 := by have := (flush7_4 t).mp hf; omega
  show (cfg7.win 4).cut (grid7.coords t) ((dat7 V c).after 4 t) = _
  rw [after7_4]
  funext j
  obtain ⟨p, q, rfl⟩ : ∃ (p : Fin 1) (q : Fin 64), j = ix2 p q := ⟨j 0, j 1, eq_ix2 j⟩
  obtain rfl : p = 0 := Subsingleton.elim _ _
  show ((outsAt7 V c t.val t.isLt).2.1 : S1x64.Idx → EReal) (ix2 0 q) = rowG4_7 V c (((cfg7.win 4).blk t).view.emb (ix2 0 q))
  obtain ⟨e0, e1, e2, e3⟩ := idx_facts7_rows t
  have hemb : ((cfg7.win 4).blk t).view.emb (ix2 0 q) = ix2 0 q := by
    funext a; apply Fin.ext
    match a with
    | ⟨0, _⟩ => show win7_4.index t (0 : Fin 2) * 1 + 1 * 0 = 0; omega
    | ⟨1, _⟩ => show win7_4.index t (1 : Fin 2) * 64 + 1 * q.val = q.val; omega
  rw [hemb, row4_inv_7 V c q t.val t.isLt, h9]
  rfl

theorem mem_blk7_4 (t : Fin cfg7.N) (i : S1x64.Idx) :
    i ∈ ((cfg7.win 4).blk t).view.set ↔ ∀ a : Fin 2, win7_4.index t a * S1x64.size a ≤ (i a).val
      ∧ (i a).val < win7_4.index t a * S1x64.size a + S1x64.size a := by
  show i ∈ ((View.whole main_v158_1).slice (win7_4.rect t)).set ↔ _
  rw [View.set_slice_whole, Rect.mem_set_unit]
  exact Iff.rfl

/-- The last point's block is the whole row. -/
theorem cover7_4 (i : S1x64.Idx) :
    ∃ t : Fin cfg7.N, (cfg7.win 4).flush t = true ∧ i ∈ ((cfg7.win 4).blk t).view.set := by
  have hi0 : (i 0).val < 1 := (i 0).isLt
  have hi1 : (i 1).val < 64 := (i 1).isLt
  have hN : cfg7.N = 10 := N_7
  obtain ⟨t, ht⟩ : ∃ t : Fin cfg7.N, t.val = 9 := ⟨⟨9, by rw [hN]; omega⟩, rfl⟩
  refine ⟨t, (flush7_4 t).mpr (by rw [ht]), ?_⟩
  rw [mem_blk7_4]
  obtain ⟨e0, e1, e2, e3⟩ := idx_facts7_rows t
  intro a
  match a with
  | ⟨0, _⟩ =>
    show win7_4.index t (0 : Fin 2) * 1 ≤ (i 0).val ∧ (i 0).val < win7_4.index t (0 : Fin 2) * 1 + 1
    omega
  | ⟨1, _⟩ =>
    show win7_4.index t (1 : Fin 2) * 64 ≤ (i 1).val ∧ (i 1).val < win7_4.index t (1 : Fin 2) * 64 + 64
    omega

theorem final7_4 (c : Dev nD) : (dat7 V c).arrAt 4 cfg7.N = rowG4_7 V c :=
  (dat7 V c).arrAt_eq_of_cover 4 (rowG4_7 V c) (flushed7_4_eq V c) cover7_4

/-- The sum of the mix's squares down column q over the rows of tile k (zero past the grid). -/
def sqN_7 (c : Dev nD) (q : Fin 64) (k : ℕ) : EReal :=
  if h : k < 10 then ∑ r : Fin 10000, mixG_7 (arrG_7 V c) (arrH_7 V c) (arrAgg_7 V c) (ix2 ⟨k * 10000 + r.val, by omega⟩ q)
    * mixG_7 (arrG_7 V c) (arrH_7 V c) (arrAgg_7 V c) (ix2 ⟨k * 10000 + r.val, by omega⟩ q) else 0

theorem tile_sq_sum_7 (c : Dev nD) (t : Fin cfg7.N) (q : Fin 64) :
    ∑ r : Fin 10000, (k7_pay3 (iblk7 V c 2 t) (iblk7 V c 0 t) (iblk7 V c 1 t) : S10000x64.Idx → EReal) (ix2 r q)
        * (k7_pay3 (iblk7 V c 2 t) (iblk7 V c 0 t) (iblk7 V c 1 t) : S10000x64.Idx → EReal) (ix2 r q)
      = sqN_7 V c q t.val := by
  have hN : t.val < 10 := lt_of_lt_of_eq t.isLt (show cfg7.N = 10 from N_7)
  unfold sqN_7
  rw [dif_pos hN]
  exact Finset.sum_congr rfl fun r _ => by rw [tile_at_7 V c t r q (by have := r.isLt; omega)]

/-- After point n the second row holds, at column q, the sums of squares of tiles 0 to n added in order. -/
theorem row5_inv_7 (c : Dev nD) (q : Fin 64) : ∀ (n : ℕ) (hn : n < cfg7.N),
    ((outsAt7 V c n hn).2.2 : S1x64.Idx → EReal) (ix2 0 q) = ∑ k ∈ Finset.range (n + 1), sqN_7 V c q k
  | 0, hn => by
    have e : (outsAt7 V c 0 hn).2.2 = k7_pay5 (iblk7 V c 2 ⟨0, hn⟩) (iblk7 V c 0 ⟨0, hn⟩) (iblk7 V c 1 ⟨0, hn⟩) (k7_pay2 (F := Ideal)) :=
      (congrArg (fun o => o.2.2) (outsAt7_A V c ⟨0, hn⟩ rfl)).trans (outA7_5 V c ⟨0, hn⟩ _)
    refine (congrFun e (ix2 0 q)).trans ?_
    refine (pay5_apply_7 _ _ _ _ q).trans ?_
    rw [pay2_apply_7, zero_add, tile_sq_sum_7 V c ⟨0, hn⟩ q, Finset.sum_range_one]
  | n + 1, hn => by
    have hN : cfg7.N = 10 := N_7
    have hB : ¬(⟨n + 1, hn⟩ : Fin cfg7.N).val % 10 = 0 := by
      have : n + 1 < 10 := hN ▸ hn
      dsimp only; omega
    have e : (outsAt7 V c (n + 1) hn).2.2 = k7_pay5 (iblk7 V c 2 ⟨n + 1, hn⟩) (iblk7 V c 0 ⟨n + 1, hn⟩) (iblk7 V c 1 ⟨n + 1, hn⟩)
        (outsAt7 V c n (Nat.lt_of_succ_lt hn)).2.2 :=
      (congrArg (fun o => o.2.2) (outsAt7_B V c ⟨n + 1, hn⟩ hB)).trans (outB7_5 V c ⟨n + 1, hn⟩ _ _ _)
    refine (congrFun e (ix2 0 q)).trans ?_
    refine (pay5_apply_7 _ _ _ _ q).trans ?_
    rw [row5_inv_7 c q n (Nat.lt_of_succ_lt hn), tile_sq_sum_7 V c ⟨n + 1, hn⟩ q, Finset.sum_range_succ _ (n + 1)]

/-- The second row as a function of the arrays: at column q, the sums of squares of the ten tiles. -/
def rowG5_7 (c : Dev nD) : S1x64.Idx → EReal := fun i => ∑ k ∈ Finset.range 10, sqN_7 V c (i 1) k

/-- What the last point writes back to row output 2 is the whole row of sums. -/
theorem flushed7_5_eq (c : Dev nD) (t : Fin cfg7.N) (hf : (cfg7.win 5).flush t = true) :
    (dat7 V c).flushed 5 t = ((cfg7.win 5).blk t).view.read (Elt Ideal) (rowG5_7 V c) := by
  have hN : t.val < 10 := lt_of_lt_of_eq t.isLt (show cfg7.N = 10 from N_7)
  have h9 : t.val = 9 := by have := (flush7_5 t).mp hf; omega
  show (cfg7.win 5).cut (grid7.coords t) ((dat7 V c).after 5 t) = _
  rw [after7_5]
  funext j
  obtain ⟨p, q, rfl⟩ : ∃ (p : Fin 1) (q : Fin 64), j = ix2 p q := ⟨j 0, j 1, eq_ix2 j⟩
  obtain rfl : p = 0 := Subsingleton.elim _ _
  show ((outsAt7 V c t.val t.isLt).2.2 : S1x64.Idx → EReal) (ix2 0 q) = rowG5_7 V c (((cfg7.win 5).blk t).view.emb (ix2 0 q))
  obtain ⟨e0, e1, e2, e3⟩ := idx_facts7_rows t
  have hemb : ((cfg7.win 5).blk t).view.emb (ix2 0 q) = ix2 0 q := by
    funext a; apply Fin.ext
    match a with
    | ⟨0, _⟩ => show win7_5.index t (0 : Fin 2) * 1 + 1 * 0 = 0; omega
    | ⟨1, _⟩ => show win7_5.index t (1 : Fin 2) * 64 + 1 * q.val = q.val; omega
  rw [hemb, row5_inv_7 V c q t.val t.isLt, h9]
  rfl

theorem mem_blk7_5 (t : Fin cfg7.N) (i : S1x64.Idx) :
    i ∈ ((cfg7.win 5).blk t).view.set ↔ ∀ a : Fin 2, win7_5.index t a * S1x64.size a ≤ (i a).val
      ∧ (i a).val < win7_5.index t a * S1x64.size a + S1x64.size a := by
  show i ∈ ((View.whole main_v158_2).slice (win7_5.rect t)).set ↔ _
  rw [View.set_slice_whole, Rect.mem_set_unit]
  exact Iff.rfl

/-- The last point's block is the whole row. -/
theorem cover7_5 (i : S1x64.Idx) :
    ∃ t : Fin cfg7.N, (cfg7.win 5).flush t = true ∧ i ∈ ((cfg7.win 5).blk t).view.set := by
  have hi0 : (i 0).val < 1 := (i 0).isLt
  have hi1 : (i 1).val < 64 := (i 1).isLt
  have hN : cfg7.N = 10 := N_7
  obtain ⟨t, ht⟩ : ∃ t : Fin cfg7.N, t.val = 9 := ⟨⟨9, by rw [hN]; omega⟩, rfl⟩
  refine ⟨t, (flush7_5 t).mpr (by rw [ht]), ?_⟩
  rw [mem_blk7_5]
  obtain ⟨e0, e1, e2, e3⟩ := idx_facts7_rows t
  intro a
  match a with
  | ⟨0, _⟩ =>
    show win7_5.index t (0 : Fin 2) * 1 ≤ (i 0).val ∧ (i 0).val < win7_5.index t (0 : Fin 2) * 1 + 1
    omega
  | ⟨1, _⟩ =>
    show win7_5.index t (1 : Fin 2) * 64 ≤ (i 1).val ∧ (i 1).val < win7_5.index t (1 : Fin 2) * 64 + 64
    omega

theorem final7_5 (c : Dev nD) : (dat7 V c).arrAt 5 cfg7.N = rowG5_7 V c :=
  (dat7 V c).arrAt_eq_of_cover 5 (rowG5_7 V c) (flushed7_5_eq V c) cover7_5

end Blocks

/-! ## The region's outputs, as functions of its entry contents -/

/-- The mixed value at row p, column q of the arrays the region finds. -/
abbrev xm7 (c : Dev nD) (p : Fin 100000) (q : Fin 64) : EReal :=
  mixG_7 (W17 (F := Ideal) m c main_v157) (W17 (F := Ideal) m c main_v137) (W17 (F := Ideal) m c main_v150) (ix2 p q)

/-- The first output holds the mixed value at every row and column. -/
theorem O7_0_eq (c : Dev nD) (p : Fin 100000) (q : Fin 64) :
    (O7_0 (F := Ideal) m c : S100000x64.Idx → EReal) (ix2 p q) = xm7 m c p q := by
  unfold O7_0
  rw [final7_3 (E17 m) c]

/-- The first row holds, at column q, the sum of the mixed value over all 100000 rows. -/
theorem O7_1_eq (c : Dev nD) (q : Fin 64) :
    (O7_1 (F := Ideal) m c : S1x64.Idx → EReal) (ix2 0 q)
      = ∑ t : Fin 10, ∑ r : Fin 10000, xm7 m c ⟨t.val * 10000 + r.val, by omega⟩ q := by
  unfold O7_1
  rw [final7_4 (E17 m) c]
  show ∑ k ∈ Finset.range 10, tileN_7 (E17 m) c q k = _
  rw [← Fin.sum_univ_eq_sum_range (fun k => tileN_7 (E17 m) c q k) 10]
  refine Finset.sum_congr rfl fun t _ => ?_
  unfold tileN_7
  rw [dif_pos t.isLt]

/-- The second row holds, at column q, the sum of the mixed value's square over all 100000 rows. -/
theorem O7_2_eq (c : Dev nD) (q : Fin 64) :
    (O7_2 (F := Ideal) m c : S1x64.Idx → EReal) (ix2 0 q)
      = ∑ t : Fin 10, ∑ r : Fin 10000, xm7 m c ⟨t.val * 10000 + r.val, by omega⟩ q * xm7 m c ⟨t.val * 10000 + r.val, by omega⟩ q := by
  unfold O7_2
  rw [final7_5 (E17 m) c]
  show ∑ k ∈ Finset.range 10, sqN_7 (E17 m) c q k = _
  rw [← Fin.sum_univ_eq_sum_range (fun k => sqN_7 (E17 m) c q k) 10]
  refine Finset.sum_congr rfl fun t _ => ?_
  unfold sqN_7
  rw [dif_pos t.isLt]

end Cert.KernelIdeal.Body

end
-- ==== Proof.KIStageMix7.lean ====
/-
  The mix stage of relation 1, layer 1, in both programs.

  The kernel program computes xm = g·agg + (1 − g)·h tile by tile in region 7, with the mixing weight g a 1×1 array; the
  reference computes it over the whole arrays in one window, with the weight a scalar spread over the array (once for
  g·agg and once for 1 − g), of the agg it computed earlier in the same window. Both are the one function of (weight, h, agg), entry by
  entry: so when the two programs hold the same h, the same agg and the same weight, what the region leaves in its
  first output array is the reference's array.
-/
import proofs.«140713_j1864015806535_2_alg».proof.Proof.KIValMix7
import proofs.«140713_j1864015806535_2_alg».proof.Proof.RefFrame
import proofs.«140713_j1864015806535_2_alg».proof.Proof.LibHostBroadcast
import Idealize.ShloMosaic.Lib.StableHlo.Run
import Idealize.ShloMosaic.Lib.ValueIdx

set_option maxRecDepth 65536

noncomputable section

namespace Cert.Proof.Value
open Idealize.ShloMosaic Idealize.ShloMosaic.ValueIdx

/-- The mix as the reference computes it: the spread weight times agg, plus one minus the weight, spread, times h. -/
def refMix_7 (gs : (⟨2, ![100000, 64]⟩ : Shape).Idx → EReal) (agg : (⟨2, ![100000, 64]⟩ : Shape).Idx → EReal)
    (g : (⟨0, ![]⟩ : Shape).Idx → EReal) (h : (⟨2, ![100000, 64]⟩ : Shape).Idx → EReal)
    (hb : (⟨0, ![]⟩ : Shape).BroadcastsInDim ⟨2, ![100000, 64]⟩ (![] : Fin 0 → Fin 2)) :
    (⟨2, ![100000, 64]⟩ : Shape).Idx → EReal :=
  addf (F := Ideal) (φ := .f32) (mulf (F := Ideal) (φ := .f32) gs agg)
    (mulf (F := Ideal) (φ := .f32)
      (broadcastInDim ⟨2, ![100000, 64]⟩ ![] hb (subf (F := Ideal) (φ := .f32) (constant (F := Ideal) ⟨0, ![]⟩ .f32 0x3F800000#32) g)) h)

/-- At row p, column q. -/
theorem refMix_7_apply (gs agg : (⟨2, ![100000, 64]⟩ : Shape).Idx → EReal) (g : (⟨0, ![]⟩ : Shape).Idx → EReal)
    (h : (⟨2, ![100000, 64]⟩ : Shape).Idx → EReal)
    (hb : (⟨0, ![]⟩ : Shape).BroadcastsInDim ⟨2, ![100000, 64]⟩ (![] : Fin 0 → Fin 2)) (p : Fin 100000) (q : Fin 64) :
    refMix_7 gs agg g h hb (ix2 p q)
      = gs (ix2 p q) * agg (ix2 p q) + (Ideal.ofBits .f32 0x3F800000#32 - g ix0) * h (ix2 p q) := by
  unfold refMix_7
  rw [addf_apply, mulf_apply, mulf_apply, Cert.LibHostBroadcast.scalar_to_any, subf_apply, constant_apply]
end Cert.Proof.Value

namespace Cert.ReferenceIdeal.RefRun
open Cert.ReferenceIdeal Cert.ReferenceIdeal.Gen Idealize.ShloMosaic Idealize.ShloMosaic.TcCoe Idealize.SL.Sem Idealize.ShloMosaic.StableHlo

/-- The window's operations before the mix write no buffer of an earlier window. -/
theorem ops4_mix_keeps (V : Valuation τ sig (Elt Ideal)) (r : Ref sig .tc) (hr : r ∉ (ops4_W : List (Ref sig .tc))) :
    after ((ops4 (F := Ideal)).take 13) V (Proc.devRef .tc r) = V (Proc.devRef .tc r) :=
  after_of_writes_sub (W := ops4_W) _ V
    (List.forall_iff_forall_mem.mpr fun op hop => List.forall_iff_forall_mem.mp ops4_writes op (List.mem_of_mem_take hop)) hr

set_option maxHeartbeats 8000000 in
/-- The reference's mix of relation 1, layer 1, over the buffers as its window finds them. The window is cut at the mix's first operation: the operations before it, the agg's among them, are read only through what they leave. -/
theorem ref_mix7 (V : Valuation τ sig (Elt Ideal)) :
    (after (ops4 (F := Ideal)) V (main_v216 : DevRef τ sig) : S100000x64.Idx → EReal)
      = Cert.Proof.Value.refMix_7 (broadcastInDim S100000x64 ![] bcast_S_S100000x64 (V (main_v171 : DevRef τ sig)))
          (after (ops4 (F := Ideal)) V (main_v210 : DevRef τ sig)) (V (main_v171 : DevRef τ sig))
          (V (main_v175 : DevRef τ sig)) bcast_S_S100000x64 := by
  rw [← ops4_mix_keeps V main_v171 (by decide), ← ops4_mix_keeps V main_v175 (by decide),
    ← List.take_append_drop 13 (ops4 (F := Ideal)), after_append]
  simp only [List.take_append_drop]
  generalize after ((ops4 (F := Ideal)).take 13) V = X
  dsimp only [ops4]
  simp only [List.drop_succ_cons, List.drop_zero]
  after_results
  rfl
end Cert.ReferenceIdeal.RefRun

namespace Cert.Proof.Value
open Idealize.ShloMosaic Idealize.ShloMosaic.TcCoe Idealize.ShloMosaic.ValueIdx Idealize.SL.Sem Idealize.ShloMosaic.StableHlo

/-- THE MIX STAGE, relation 1, layer 1: the kernel program's mixed array (what region 7 leaves in its first output) is the
    reference's, from any contents before the reference's window: when they hold the kernel program's h, the window's agg is the kernel program's agg,
    and the reference's scalar weight is the kernel program's 1×1 weight. -/
theorem stageMix7
    (m : (ℓ : Loc Cert.KernelIdeal.nD Cert.KernelIdeal.τ Cert.KernelIdeal.sig) → Buf (Elt Ideal) ℓ)
    (R : Valuation Cert.ReferenceIdeal.τ Cert.ReferenceIdeal.sig (Elt Ideal))
    (c : Dev Cert.KernelIdeal.nD)
    (hh : (R (Cert.ReferenceIdeal.main_v175 : DevRef Cert.ReferenceIdeal.τ Cert.ReferenceIdeal.sig) : (⟨2, ![100000, 64]⟩ : Shape).Idx → EReal)
      = Cert.KernelIdeal.Body.W17 (F := Ideal) m c Cert.KernelIdeal.main_v137)
    (hagg : (after (Cert.ReferenceIdeal.RefRun.ops4 (F := Ideal)) R (Cert.ReferenceIdeal.main_v210 : DevRef Cert.ReferenceIdeal.τ Cert.ReferenceIdeal.sig) : (⟨2, ![100000, 64]⟩ : Shape).Idx → EReal)
      = Cert.KernelIdeal.Body.W17 (F := Ideal) m c Cert.KernelIdeal.main_v150)
    (hg : (R (Cert.ReferenceIdeal.main_v171 : DevRef Cert.ReferenceIdeal.τ Cert.ReferenceIdeal.sig) : (⟨0, ![]⟩ : Shape).Idx → EReal) ix0
      = (Cert.KernelIdeal.Body.W17 (F := Ideal) m c Cert.KernelIdeal.main_v157 : (⟨2, ![1, 1]⟩ : Shape).Idx → EReal) (ix2 0 0)) :
    (after (Cert.ReferenceIdeal.RefRun.ops4 (F := Ideal)) R (Cert.ReferenceIdeal.main_v216 : DevRef Cert.ReferenceIdeal.τ Cert.ReferenceIdeal.sig) : (⟨2, ![100000, 64]⟩ : Shape).Idx → EReal)
      = (Cert.KernelIdeal.Body.O7_0 (F := Ideal) m c : (⟨2, ![100000, 64]⟩ : Shape).Idx → EReal) := by
  rw [Cert.ReferenceIdeal.RefRun.ref_mix7]
  funext i
  obtain ⟨p, q, rfl⟩ : ∃ (p : Fin 100000) (q : Fin 64), i = ix2 p q := ⟨i 0, i 1, eq_ix2 i⟩
  refine (refMix_7_apply _ _ _ _ _ p q).trans ?_
  refine Eq.trans ?_ (Cert.KernelIdeal.Body.O7_0_eq m c p q).symm
  rw [Cert.LibHostBroadcast.scalar_to_any, hg, hagg, hh]

end Cert.Proof.Value

end
-- ==== Proof.KIStageMix7Glue.lean ====
/-
  The mix stage of relation 1, layer 1, from the arguments.

  Both programs take the mixing weight from the same place: entry 1 of the same mixing-weights argument, as a scalar.
  The reference spreads that scalar over the array; the kernel program views it as a 1×1 array for region 7. So when the
  contents before the reference's window that computes the weight agree with the kernel program's launch memory on that
  argument, the reference's scalar is the kernel program's 1×1 weight, and the join of the mix stage needs only that the
  two programs hold the same h and the same agg.
-/
import proofs.«140713_j1864015806535_2_alg».proof.Proof.KIStageMix7

set_option maxRecDepth 65536

noncomputable section

namespace Cert.Proof.Value
open Idealize.ShloMosaic
/-- The mixing weight of relation 1, layer 1, as a function of the mixing-weights argument: entry 1, as a scalar. -/
def gOf_7 (a : (⟨1, ![3]⟩ : Shape).Idx → EReal) (hs : (⟨1, ![3]⟩ : Shape).Slices ![1] ⟨1, ![1]⟩)
    (hc : (⟨1, ![1]⟩ : Shape).ShapeCasts ⟨0, ![]⟩) : (⟨0, ![]⟩ : Shape).Idx → EReal :=
  shapeCast ⟨0, ![]⟩ (extractStridedSlice ⟨1, ![1]⟩ ![1] a hs) hc
end Cert.Proof.Value

namespace Cert.ReferenceIdeal.RefRun
open Cert.ReferenceIdeal Cert.ReferenceIdeal.Gen Idealize.ShloMosaic Idealize.ShloMosaic.TcCoe Idealize.SL.Sem Idealize.ShloMosaic.StableHlo

set_option maxHeartbeats 4000000 in
/-- The reference's scalar mixing weight of relation 1, layer 1, from any contents before the window that computes it. -/
theorem ref_g7 (V : Valuation τ sig (Elt Ideal)) :
    (after (ops3 (F := Ideal)) V (main_v171 : DevRef τ sig) : S_.Idx → EReal)
      = Cert.Proof.Value.gOf_7 (V (main_arg7 : DevRef τ sig)) slices_S3_S1_1 shapeCasts_S1_S_ := by
  dsimp only [ops3]
  after_results
  rfl
end Cert.ReferenceIdeal.RefRun

namespace Cert.KernelIdeal.Body
open Cert.KernelIdeal Cert.KernelIdeal.Gen Idealize.ShloMosaic Idealize.ShloMosaic.TcCoe Idealize.SL.Sem Idealize.ShloMosaic.StableHlo
variable (m : (ℓ : Loc nD τ sig) → Buf (Elt Ideal) ℓ)

/-- The mixing-weights argument reaches the host stretch before region 7 as launched. -/
theorem ker_mixarg7 (c : Dev nD) : W16 (F := Ideal) m c main_arg7 = m ((c.tc : Thread nD τ).loc main_arg7) :=
  (congrFun (hV16 m c) _).symm.trans <|
    (GenP.V16_of m (outs m) c main_arg7 (by decide)).trans <|
      (GenP.V15_of m (outs m) c main_arg7 (by decide)).trans <|
      (GenP.V14_of m (outs m) c main_arg7 (by decide)).trans <|
      (GenP.V13_of m (outs m) c main_arg7 (by decide)).trans <|
      (GenP.V12_of m (outs m) c main_arg7 (by decide)).trans <|
      (GenP.V11_of m (outs m) c main_arg7 (by decide)).trans <|
      (GenP.V10_of m (outs m) c main_arg7 (by decide)).trans <|
      (GenP.V9_of m (outs m) c main_arg7 (by decide)).trans <|
      (GenP.V8_of m (outs m) c main_arg7 (by decide)).trans <|
      (GenP.V7_of m (outs m) c main_arg7 (by decide)).trans <|
      (GenP.V6_of m (outs m) c main_arg7 (by decide)).trans <|
      (GenP.V5_of m (outs m) c main_arg7 (by decide)).trans <|
      (GenP.V4_of m (outs m) c main_arg7 (by decide)).trans <|
      (GenP.V3_of m (outs m) c main_arg7 (by decide)).trans <|
      (GenP.V2_of m (outs m) c main_arg7 (by decide)).trans <|
      (GenP.V1_of m c main_arg7 (by decide)).trans rfl

set_option maxHeartbeats 4000000 in
/-- The kernel program's 1×1 mixing weight of relation 1, layer 1: the same scalar, as a 1×1 array. -/
theorem ker_g7 (c : Dev nD) :
    (W17 (F := Ideal) m c main_v157 : S1x1.Idx → EReal)
      = shapeCast S1x1 (Cert.Proof.Value.gOf_7 (m ((c.tc : Thread nD τ).loc main_arg7)) slices_S3_S1_1 shapeCasts_S1_S_) shapeCasts_S_S1x1 := by
  rw [← ker_mixarg7 m c]
  dsimp only [W17, hostOps7]
  after_results
  rfl

/-- On entering region 7 h is what region 6 left. -/
theorem ker_h7 (c : Dev nD) : W17 (F := Ideal) m c main_v137 = O6_0 (F := Ideal) m c := by
  refine (StableHlo.after_of_writes_sub hostOps7 _ GenP.hostOps7_writes (by decide)).trans ?_
  unfold W16
  simp only [Function.update_self]
end Cert.KernelIdeal.Body

namespace Cert.Proof.Value
open Idealize.ShloMosaic Idealize.ShloMosaic.TcCoe Idealize.ShloMosaic.ValueIdx Idealize.SL.Sem Idealize.ShloMosaic.StableHlo

/-- After the reference's window that computes it, its scalar weight is the kernel program's 1×1 weight, when the contents
    before that window agree with the kernel program's launch memory on the mixing-weights argument. -/
theorem mix7_weight
    (m : (ℓ : Loc Cert.KernelIdeal.nD Cert.KernelIdeal.τ Cert.KernelIdeal.sig) → Buf (Elt Ideal) ℓ)
    (V : Valuation Cert.ReferenceIdeal.τ Cert.ReferenceIdeal.sig (Elt Ideal))
    (c : Dev Cert.KernelIdeal.nD)
    (ha : V (Proc.devRef .tc Cert.ReferenceIdeal.main_arg7) = m ((c.tc : Thread Cert.KernelIdeal.nD Cert.KernelIdeal.τ).loc Cert.KernelIdeal.main_arg7)) :
    ((after (Cert.ReferenceIdeal.RefRun.ops3 (F := Ideal)) V) (Cert.ReferenceIdeal.main_v171 : DevRef Cert.ReferenceIdeal.τ Cert.ReferenceIdeal.sig) : (⟨0, ![]⟩ : Shape).Idx → EReal) ix0
      = (Cert.KernelIdeal.Body.W17 (F := Ideal) m c Cert.KernelIdeal.main_v157 : (⟨2, ![1, 1]⟩ : Shape).Idx → EReal) (ix2 0 0) := by
  rw [Cert.ReferenceIdeal.RefRun.ref_g7, Cert.KernelIdeal.Body.ker_g7, ha]
  exact (shapeCast_apply _ _ (ix2 0 0) ix0 rfl).symm

/-- THE MIX STAGE, relation 1, layer 1, from the arguments: when the contents before the reference's window 3 agree with the kernel
    program's launch memory on the mixing-weights argument and, after that window, the reference holds the kernel program's
    h (what region 6 left) and its window 4 computes the kernel program's agg, the kernel program's mixed array is the reference's. -/
theorem mix7
    (m : (ℓ : Loc Cert.KernelIdeal.nD Cert.KernelIdeal.τ Cert.KernelIdeal.sig) → Buf (Elt Ideal) ℓ)
    (V : Valuation Cert.ReferenceIdeal.τ Cert.ReferenceIdeal.sig (Elt Ideal))
    (c : Dev Cert.KernelIdeal.nD)
    (ha : V (Proc.devRef .tc Cert.ReferenceIdeal.main_arg7) = m ((c.tc : Thread Cert.KernelIdeal.nD Cert.KernelIdeal.τ).loc Cert.KernelIdeal.main_arg7))
    (hh : ((after (Cert.ReferenceIdeal.RefRun.ops3 (F := Ideal)) V) (Cert.ReferenceIdeal.main_v175 : DevRef Cert.ReferenceIdeal.τ Cert.ReferenceIdeal.sig) : (⟨2, ![100000, 64]⟩ : Shape).Idx → EReal) = (Cert.KernelIdeal.Body.O6_0 (F := Ideal) m c : (⟨2, ![100000, 64]⟩ : Shape).Idx → EReal))
    (hagg : (after (Cert.ReferenceIdeal.RefRun.ops4 (F := Ideal)) (after (Cert.ReferenceIdeal.RefRun.ops3 (F := Ideal)) V) (Cert.ReferenceIdeal.main_v210 : DevRef Cert.ReferenceIdeal.τ Cert.ReferenceIdeal.sig) : (⟨2, ![100000, 64]⟩ : Shape).Idx → EReal) = Cert.KernelIdeal.Body.W17 (F := Ideal) m c Cert.KernelIdeal.main_v150) :
    (after (Cert.ReferenceIdeal.RefRun.ops4 (F := Ideal)) (after (Cert.ReferenceIdeal.RefRun.ops3 (F := Ideal)) V) (Cert.ReferenceIdeal.main_v216 : DevRef Cert.ReferenceIdeal.τ Cert.ReferenceIdeal.sig) : (⟨2, ![100000, 64]⟩ : Shape).Idx → EReal)
      = (Cert.KernelIdeal.Body.O7_0 (F := Ideal) m c : (⟨2, ![100000, 64]⟩ : Shape).Idx → EReal) :=
  stageMix7 m (after (Cert.ReferenceIdeal.RefRun.ops3 (F := Ideal)) V) c (hh.trans (Cert.KernelIdeal.Body.ker_h7 m c).symm) hagg (mix7_weight m V c ha)

end Cert.Proof.Value

end
-- ==== Proof.KIValDense9.lean ====
/-
  Region 9, the fourth dense layer, read index by index on the extended reals.

  Each of the ten grid points takes 10000 rows of the 100000×64 input features, the whole 64×32 weight and the 1×32 bias
  row, and writes the 10000 rows of the product plus the bias row into its block of the 100000×32 output. A row of the
  layer depends on the features through that row alone, and the ten blocks tile the output, so the output array ends at
      (p, q) ↦ Σ_{k<64} x(p, k) · w(k, q) + b(0, q)
  of the arrays as the region finds them.
-/
import proofs.«140713_j1864015806535_2_alg».proof.Proof.KIFrameBase
import proofs.«140713_j1864015806535_2_alg».proof.Proof.LibAffineStage
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Body

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.LibAffineStage (affine affine_apply affine_rows affine_of_matmul)

variable (m : (ℓ : Loc nD τ sig) → Buf (Elt Ideal) ℓ)

/-! ## The body's arithmetic: the layer of a tile -/

theorem hz_d9 : (![0, 0] : Fin 2 → Nat) = fun _ => 0 := funext fun a => by fin_cases a <;> rfl

/-- The body's payload is the dense layer of its tile of rows: the tile against the weight, plus the bias row. The
    narrowing of the two operands and the shape casts to the same shape are the identity on the extended reals. -/
theorem pay9_eq (x : Vec Ideal S10000x64 .f32) (w : Vec Ideal S64x32 .f32) (b : Vec Ideal S1x32 .f32) :
    k9_pay1 x w b = affine 10000 64 32 x w b := by
  unfold k9_pay1
  rw [shapeCast_self x, shapeCast_self w]
  exact affine_of_matmul 10000 64 32 x w b _ _ _ _

/-! ## From the ten blocks to the array -/

variable (V : (c : Dev nD) → (b : Ref sig .tc) → Buf (Elt Ideal) ((c : Thread nD τ).loc b))

/-- The printed index maps over the grid: point t's feature block and output block are row block t in the one column
    block; the weight and the bias row are their whole arrays at every point. -/
theorem idx_facts_d9 : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

/-- The feature block at point t is rows 10000·t … 10000·t + 9999 of the feature array. -/
theorem iblk9_0_apply (c : Dev nD) (t : Fin cfg9.N) (y : S10000x64.Idx) (z : S100000x64.Idx)
    (h0 : (z 0).val = t.val * 10000 + (y 0).val) (h1 : (z 1).val = (y 1).val) :
    (iblk9 V c 0 t : Vec Ideal S10000x64 .f32) y = (V c main_v167 : S100000x64.Idx → EReal) z := by
  obtain ⟨e0, e1, -⟩ := idx_facts_d9 t
  unfold iblk9
  rw [View.read_apply]
  show V c main_v167 _ = V c main_v167 _
  congr 1
  funext a
  apply Fin.ext
  match a with
  | ⟨0, _⟩ => show win9_0.index t (0 : Fin 2) * 10000 + 1 * (y 0).val = (z 0).val; omega
  | ⟨1, _⟩ => show win9_0.index t (1 : Fin 2) * 64 + 1 * (y 1).val = (z 1).val; omega

/-- The weight block at every point is the weight array. -/
theorem iblk9_1_eq (c : Dev nD) (t : Fin cfg9.N) :
    (iblk9 V c 1 t : Vec Ideal S64x32 .f32) = (V c main_v169 : S64x32.Idx → EReal) := by
  obtain ⟨-, -, e2, e3, -⟩ := idx_facts_d9 t
  funext y
  unfold iblk9
  rw [View.read_apply]
  show V c main_v169 _ = V c main_v169 y
  congr 1
  funext a
  apply Fin.ext
  match a with
  | ⟨0, _⟩ => show win9_1.index t (0 : Fin 2) * 64 + 1 * (y 0).val = (y 0).val; omega
  | ⟨1, _⟩ => show win9_1.index t (1 : Fin 2) * 32 + 1 * (y 1).val = (y 1).val; omega

/-- The bias block at every point is the bias row. -/
theorem iblk9_2_eq (c : Dev nD) (t : Fin cfg9.N) :
    (iblk9 V c 2 t : Vec Ideal S1x32 .f32) = (V c main_v172 : S1x32.Idx → EReal) := by
  obtain ⟨-, -, -, -, e4, e5, -⟩ := idx_facts_d9 t
  funext y
  unfold iblk9
  rw [View.read_apply]
  show V c main_v172 _ = V c main_v172 y
  congr 1
  funext a
  apply Fin.ext
  match a with
  | ⟨0, _⟩ => show win9_2.index t (0 : Fin 2) * 1 + 1 * (y 0).val = (y 0).val; omega
  | ⟨1, _⟩ => show win9_2.index t (1 : Fin 2) * 32 + 1 * (y 1).val = (y 1).val; omega

/-- Row p, column q of the output block at point t is row 10000·t + p, column q of the output array. -/
theorem emb9_3 (t : Fin cfg9.N) (p : Fin 10000) (q : Fin 32) (r : Fin 100000) (hr : r.val = t.val * 10000 + p.val) :
    ((cfg9.win 3).blk t).view.emb (ix2 p q) = (ix2 r q : S100000x32.Idx) := by
  obtain ⟨-, -, -, -, -, -, e6, e7⟩ := idx_facts_d9 t
  funext a
  apply Fin.ext
  match a with
  | ⟨0, _⟩ => show win9_3.index t (0 : Fin 2) * 10000 + 1 * p.val = r.val; omega
  | ⟨1, _⟩ => show win9_3.index t (1 : Fin 2) * 32 + 1 * q.val = q.val; omega

/-- What point t writes back is block t of the layer of the three arrays as the region finds them. -/
theorem flushed9_3_eq (c : Dev nD) (t : Fin cfg9.N) :
    (dat9 V c).flushed 3 t = ((cfg9.win 3).blk t).view.read (Elt Ideal)
      (affine 100000 64 32 (V c main_v167) (V c main_v169) (V c main_v172)) := by
  show (cfg9.win 3).cut (grid9.coords t) ((dat9 V c).after 3 t) = _
  rw [after9_3]
  unfold out9_3
  rw [View.canon_unit_zero hz_d9]
  simp only [View.ld_unit_zero (S := S10000x64) hz_d9, View.ld_unit_zero (S := S64x32) hz_d9, View.ld_unit_zero (S := S1x32) hz_d9]
  rw [iblk9_1_eq, iblk9_2_eq, pay9_eq]
  have ht : t.val < 10 := lt_of_lt_of_eq t.isLt N_9
  funext j
  obtain ⟨p, q, rfl⟩ : ∃ (p : Fin 10000) (q : Fin 32), j = ix2 p q := ⟨j 0, j 1, eq_ix2 j⟩
  rw [View.read_apply, emb9_3 t p q ⟨t.val * 10000 + p.val, by have := p.isLt; omega⟩ rfl]
  exact affine_rows 100000 64 32 10000 _ _ _ _ _ p (fun k => iblk9_0_apply V c t _ _ rfl rfl) q

/-- An index of the output array is in point t's block iff each coordinate is in the block's range on its axis. -/
theorem mem_blk9_3 (t : Fin cfg9.N) (i : S100000x32.Idx) :
    i ∈ ((cfg9.win 3).blk t).view.set ↔ ∀ a : Fin 2, win9_3.index t a * S10000x32.size a ≤ (i a).val ∧ (i a).val < win9_3.index t a * S10000x32.size a + S10000x32.size a := by
  show i ∈ ((View.whole main_v173).slice (win9_3.rect t)).set ↔ _
  rw [View.set_slice_whole, Rect.mem_set_unit]
  exact Iff.rfl

/-- The ten blocks tile the output: row r is in the block of point r / 10000. -/
theorem cover_d9 (i : S100000x32.Idx) :
    ∃ t : Fin cfg9.N, (cfg9.win 3).flush t = true ∧ i ∈ ((cfg9.win 3).blk t).view.set := by
  have hi0 : (i 0).val < 100000 := (i 0).isLt
  have hi1 : (i 1).val < 32 := (i 1).isLt
  have hN : grid9.N = 10 := N_9
  have htN : (i 0).val / 10000 < grid9.N := by rw [hN]; omega
  obtain ⟨-, -, -, -, -, -, e6, e7⟩ := idx_facts_d9 ⟨(i 0).val / 10000, htN⟩
  refine ⟨⟨(i 0).val / 10000, htN⟩, flush9_3 _, ?_⟩
  rw [mem_blk9_3]
  intro a
  match a with
  | ⟨0, _⟩ =>
    show win9_3.index ⟨(i 0).val / 10000, htN⟩ (0 : Fin 2) * 10000 ≤ (i 0).val ∧ (i 0).val < win9_3.index ⟨(i 0).val / 10000, htN⟩ (0 : Fin 2) * 10000 + 10000
    rw [e6]
    show (i 0).val / 10000 * 10000 ≤ (i 0).val ∧ (i 0).val < (i 0).val / 10000 * 10000 + 10000
    omega
  | ⟨1, _⟩ =>
    show win9_3.index ⟨(i 0).val / 10000, htN⟩ (1 : Fin 2) * 32 ≤ (i 1).val ∧ (i 1).val < win9_3.index ⟨(i 0).val / 10000, htN⟩ (1 : Fin 2) * 32 + 32
    rw [e7]
    omega

/-- The output array after the region: the layer of the three arrays as the region finds them. -/
theorem region9_value (c : Dev nD) :
    (dat9 V c).arrAt 3 cfg9.N = affine 100000 64 32 (V c main_v167) (V c main_v169) (V c main_v172) :=
  (dat9 V c).arrAt_eq_of_cover 3 _ (fun t _ => flushed9_3_eq V c t) cover_d9

/-! ## The region's output between the items of the program -/

/-- What region 9 leaves in its output array: the layer of the feature array, the weight and the bias row as they stand
    after the host stretch before the region. -/
theorem O9_0_eq_affine (c : Dev nD) :
    O9_0 (F := Ideal) m c
      = affine 100000 64 32 (W21 (F := Ideal) m c main_v167) (W21 (F := Ideal) m c main_v169) (W21 (F := Ideal) m c main_v172) := by
  unfold O9_0
  exact region9_value (E21 m) c

/-- The same entry by entry: the feature row against the weight column, plus the bias row's entry. -/
theorem O9_0_eq (c : Dev nD) (p : Fin 100000) (q : Fin 32) :
    (O9_0 (F := Ideal) m c : S100000x32.Idx → EReal) (ix2 p q)
      = @HAdd.hAdd EReal EReal EReal _
          (∑ k : Fin 64, @HMul.hMul EReal EReal EReal _
            ((W21 (F := Ideal) m c main_v167 : S100000x64.Idx → EReal) (ix2 p k))
            ((W21 (F := Ideal) m c main_v169 : S64x32.Idx → EReal) (ix2 k q)))
          ((W21 (F := Ideal) m c main_v172 : S1x32.Idx → EReal) (ix2 0 q)) := by
  rw [O9_0_eq_affine, affine_apply]

end Cert.KernelIdeal.Body

end
-- ==== Proof.KIStageDense9.lean ====
/-
  The second dense layer of relation 1, in both programs.

  The kernel program computes h = x·W[1] + b[1] tile by tile in region 9, where x is the array the stage before left; the
  reference computes it with one matrix product and a broadcast of the bias, of the array its own stage before left in
  the same window. Both read the weight as the relation's slab of the second weights argument and the bias as the
  relation's row of the second bias argument (the same functions of the arguments, wOf9 and bOf9), and both arrays are the
  one function affine of (x, weight, bias row): so when the two inputs are equal and the two memories agree on the two
  arguments, what the region leaves in its output array is the reference's array.
-/
import proofs.«140713_j1864015806535_2_alg».proof.Proof.KIFrameBase
import proofs.«140713_j1864015806535_2_alg».proof.Proof.RefFrame
import proofs.«140713_j1864015806535_2_alg».proof.Proof.LibAffineStage
import proofs.«140713_j1864015806535_2_alg».proof.Proof.KIValDense9
import Idealize.ShloMosaic.Lib.StableHlo.Run
import Idealize.ShloMosaic.PureOps.Ideal.Laws

set_option maxRecDepth 65536

noncomputable section

namespace Cert.Proof.Value
open Idealize.ShloMosaic
/-- The weight of relation 1's second layer as a function of the weights argument: the relation's slab, as a matrix. -/
def wOf9 (a : (⟨3, ![3, 64, 32]⟩ : Shape).Idx → EReal)
    (hs : (⟨3, ![3, 64, 32]⟩ : Shape).Slices ![1, 0, 0] ⟨3, ![1, 64, 32]⟩) (hc : (⟨3, ![1, 64, 32]⟩ : Shape).ShapeCasts ⟨2, ![64, 32]⟩) :
    (⟨2, ![64, 32]⟩ : Shape).Idx → EReal :=
  shapeCast ⟨2, ![64, 32]⟩ (extractStridedSlice ⟨3, ![1, 64, 32]⟩ ![1, 0, 0] a hs) hc
/-- The bias of relation 1's second layer as a function of the bias argument: the relation's row, as a vector. -/
def bOf9 (a : (⟨2, ![3, 32]⟩ : Shape).Idx → EReal)
    (hs : (⟨2, ![3, 32]⟩ : Shape).Slices ![1, 0] ⟨2, ![1, 32]⟩) (hc : (⟨2, ![1, 32]⟩ : Shape).ShapeCasts ⟨1, ![32]⟩) :
    (⟨1, ![32]⟩ : Shape).Idx → EReal :=
  shapeCast ⟨1, ![32]⟩ (extractStridedSlice ⟨2, ![1, 32]⟩ ![1, 0] a hs) hc
end Cert.Proof.Value

namespace Cert.ReferenceIdeal.RefRun
open Cert.ReferenceIdeal Cert.ReferenceIdeal.Gen Idealize.ShloMosaic Idealize.ShloMosaic.TcCoe Idealize.SL.Sem Idealize.ShloMosaic.StableHlo

/-- The window's first 71 operations write neither weights argument nor bias argument. -/
theorem ops4_take_keeps (V : Valuation τ sig (Elt Ideal)) (r : Ref sig .tc) (hr : r ∉ (ops4_W : List (Ref sig .tc))) :
    after ((ops4 (F := Ideal)).take 71) V (Proc.devRef .tc r) = V (Proc.devRef .tc r) :=
  after_of_writes_sub (W := ops4_W) _ V
    (List.forall_iff_forall_mem.mpr fun op hop => List.forall_iff_forall_mem.mp ops4_writes op (List.mem_of_mem_take hop)) hr

set_option maxHeartbeats 4000000 in
/-- The reference's second dense layer of relation 1 is x·w + b of the array its stage before left in the same window and
    of the two arguments, from any contents before the window. The window is cut at the layer's first operation: the
    operations before it are read only through what they leave. -/
theorem ref_h9 (V : Valuation τ sig (Elt Ideal)) :
    (after (ops4 (F := Ideal)) V (main_v250 : DevRef τ sig) : S100000x32.Idx → EReal)
      = Cert.LibAffineStage.affine 100000 64 32 (after (ops4 (F := Ideal)) V (main_v240 : DevRef τ sig))
          (Cert.Proof.Value.wOf9 (V (main_arg5 : DevRef τ sig)) slices_S3x64x32_S1x64x32_1_0_0 shapeCasts_S1x64x32_S64x32)
          (broadcastInDim S1x32 ![1] bcast_S32_S1x32_1 (Cert.Proof.Value.bOf9 (V (main_arg6 : DevRef τ sig)) slices_S3x32_S1x32_1_0 shapeCasts_S1x32_S32)) := by
  rw [← ops4_take_keeps V main_arg5 (by decide), ← ops4_take_keeps V main_arg6 (by decide),
    ← List.take_append_drop 71 (ops4 (F := Ideal)), after_append]
  simp only [List.take_append_drop]
  generalize after ((ops4 (F := Ideal)).take 71) V = X
  dsimp only [ops4]
  simp only [List.drop_succ_cons, List.drop_zero]
  after_results
  exact Cert.LibAffineStage.affine_of_dotGeneral 100000 64 32 _ _ _ bcast_S1x32_S100000x32_0_1
end Cert.ReferenceIdeal.RefRun

namespace Cert.KernelIdeal.Body
open Cert.KernelIdeal Cert.KernelIdeal.Gen Idealize.ShloMosaic Idealize.ShloMosaic.TcCoe Idealize.SL.Sem Idealize.ShloMosaic.StableHlo
variable (m : (ℓ : Loc nD τ sig) → Buf (Elt Ideal) ℓ)

/-- The weights argument reaches the host stretch before region 9 as launched. -/
theorem W20_main_arg5 (c : Dev nD) : W20 (F := Ideal) m c main_arg5 = m ((c.tc : Thread nD τ).loc main_arg5) :=
  (congrFun (hV20 m c) _).symm.trans <|
    (GenP.V20_of m (outs m) c main_arg5 (by decide)).trans <|
      (GenP.V19_of m (outs m) c main_arg5 (by decide)).trans <|
      (GenP.V18_of m (outs m) c main_arg5 (by decide)).trans <|
      (GenP.V17_of m (outs m) c main_arg5 (by decide)).trans <|
      (GenP.V16_of m (outs m) c main_arg5 (by decide)).trans <|
      (GenP.V15_of m (outs m) c main_arg5 (by decide)).trans <|
      (GenP.V14_of m (outs m) c main_arg5 (by decide)).trans <|
      (GenP.V13_of m (outs m) c main_arg5 (by decide)).trans <|
      (GenP.V12_of m (outs m) c main_arg5 (by decide)).trans <|
      (GenP.V11_of m (outs m) c main_arg5 (by decide)).trans <|
      (GenP.V10_of m (outs m) c main_arg5 (by decide)).trans <|
      (GenP.V9_of m (outs m) c main_arg5 (by decide)).trans <|
      (GenP.V8_of m (outs m) c main_arg5 (by decide)).trans <|
      (GenP.V7_of m (outs m) c main_arg5 (by decide)).trans <|
      (GenP.V6_of m (outs m) c main_arg5 (by decide)).trans <|
      (GenP.V5_of m (outs m) c main_arg5 (by decide)).trans <|
      (GenP.V4_of m (outs m) c main_arg5 (by decide)).trans <|
      (GenP.V3_of m (outs m) c main_arg5 (by decide)).trans <|
      (GenP.V2_of m (outs m) c main_arg5 (by decide)).trans <| (GenP.V1_of m c main_arg5 (by decide)).trans rfl

/-- The bias argument reaches the host stretch before region 9 as launched. -/
theorem W20_main_arg6 (c : Dev nD) : W20 (F := Ideal) m c main_arg6 = m ((c.tc : Thread nD τ).loc main_arg6) :=
  (congrFun (hV20 m c) _).symm.trans <|
    (GenP.V20_of m (outs m) c main_arg6 (by decide)).trans <|
      (GenP.V19_of m (outs m) c main_arg6 (by decide)).trans <|
      (GenP.V18_of m (outs m) c main_arg6 (by decide)).trans <|
      (GenP.V17_of m (outs m) c main_arg6 (by decide)).trans <|
      (GenP.V16_of m (outs m) c main_arg6 (by decide)).trans <|
      (GenP.V15_of m (outs m) c main_arg6 (by decide)).trans <|
      (GenP.V14_of m (outs m) c main_arg6 (by decide)).trans <|
      (GenP.V13_of m (outs m) c main_arg6 (by decide)).trans <|
      (GenP.V12_of m (outs m) c main_arg6 (by decide)).trans <|
      (GenP.V11_of m (outs m) c main_arg6 (by decide)).trans <|
      (GenP.V10_of m (outs m) c main_arg6 (by decide)).trans <|
      (GenP.V9_of m (outs m) c main_arg6 (by decide)).trans <|
      (GenP.V8_of m (outs m) c main_arg6 (by decide)).trans <|
      (GenP.V7_of m (outs m) c main_arg6 (by decide)).trans <|
      (GenP.V6_of m (outs m) c main_arg6 (by decide)).trans <|
      (GenP.V5_of m (outs m) c main_arg6 (by decide)).trans <|
      (GenP.V4_of m (outs m) c main_arg6 (by decide)).trans <|
      (GenP.V3_of m (outs m) c main_arg6 (by decide)).trans <|
      (GenP.V2_of m (outs m) c main_arg6 (by decide)).trans <| (GenP.V1_of m c main_arg6 (by decide)).trans rfl

set_option maxHeartbeats 4000000 in
/-- The stretch's weight, from any contents before it: the relation's slab of the weights argument. -/
theorem host_w9 (V : Valuation τ sig (Elt Ideal)) :
    (after (hostOps9 (F := Ideal)) V (main_v169 : DevRef τ sig) : S64x32.Idx → EReal)
      = Cert.Proof.Value.wOf9 (V (main_arg5 : DevRef τ sig)) slices_S3x64x32_S1x64x32_1_0_0 shapeCasts_S1x64x32_S64x32 := by
  dsimp only [hostOps9]
  after_results
  rfl

set_option maxHeartbeats 4000000 in
/-- The stretch's bias row, from any contents before it: the relation's row of the bias argument as a 1×32 row. -/
theorem host_b9 (V : Valuation τ sig (Elt Ideal)) (hb : S32.BroadcastsInDim S1x32 (![1] : Fin 1 → Fin S1x32.rank)) :
    (after (hostOps9 (F := Ideal)) V (main_v172 : DevRef τ sig) : S1x32.Idx → EReal)
      = broadcastInDim S1x32 ![1] hb (Cert.Proof.Value.bOf9 (V (main_arg6 : DevRef τ sig)) slices_S3x32_S1x32_1_0 shapeCasts_S1x32_S32) := by
  dsimp only [hostOps9]
  after_results
  exact Cert.LibAffineStage.reshape_row_eq_broadcast_row 32 _ shapeCasts_S32_S1x32 hb

/-- The kernel program's weight of relation 1, layer 2, at region 9. -/
theorem ker_w9 (c : Dev nD) :
    (W21 (F := Ideal) m c main_v169 : S64x32.Idx → EReal)
      = Cert.Proof.Value.wOf9 (m ((c.tc : Thread nD τ).loc main_arg5)) slices_S3x64x32_S1x64x32_1_0_0 shapeCasts_S1x64x32_S64x32 :=
  (host_w9 (W20 m c)).trans (by rw [W20_main_arg5])

/-- The kernel program's bias row of relation 1, layer 2, at region 9. -/
theorem ker_b9 (c : Dev nD) (hb : S32.BroadcastsInDim S1x32 (![1] : Fin 1 → Fin S1x32.rank)) :
    (W21 (F := Ideal) m c main_v172 : S1x32.Idx → EReal)
      = broadcastInDim S1x32 ![1] hb (Cert.Proof.Value.bOf9 (m ((c.tc : Thread nD τ).loc main_arg6)) slices_S3x32_S1x32_1_0 shapeCasts_S1x32_S32) :=
  (host_b9 (W20 m c) hb).trans (by rw [W20_main_arg6])
end Cert.KernelIdeal.Body

namespace Cert.Proof.Value
open Idealize.ShloMosaic Idealize.ShloMosaic.TcCoe Idealize.SL.Sem Idealize.ShloMosaic.StableHlo

/-- Relation 1, layer 2: the kernel program's dense layer (what region 9 leaves in its output array) is the reference's,
    from any contents before the reference's window that agree with the kernel program's launch memory on the weights
    and the biases, when the reference's input array is the kernel program's. -/
theorem stageDense9
    (m : (ℓ : Loc Cert.KernelIdeal.nD Cert.KernelIdeal.τ Cert.KernelIdeal.sig) → Buf (Elt Ideal) ℓ)
    (V : Valuation Cert.ReferenceIdeal.τ Cert.ReferenceIdeal.sig (Elt Ideal))
    (c : Dev Cert.KernelIdeal.nD)
    (hx : (after (Cert.ReferenceIdeal.RefRun.ops4 (F := Ideal)) V (Cert.ReferenceIdeal.main_v240 : DevRef Cert.ReferenceIdeal.τ Cert.ReferenceIdeal.sig) : (⟨2, ![100000, 64]⟩ : Shape).Idx → EReal)
      = (Cert.KernelIdeal.Body.W21 (F := Ideal) m c Cert.KernelIdeal.main_v167 : (⟨2, ![100000, 64]⟩ : Shape).Idx → EReal))
    (h5 : V (Proc.devRef .tc Cert.ReferenceIdeal.main_arg5) = m ((c.tc : Thread Cert.KernelIdeal.nD Cert.KernelIdeal.τ).loc Cert.KernelIdeal.main_arg5))
    (h6 : V (Proc.devRef .tc Cert.ReferenceIdeal.main_arg6) = m ((c.tc : Thread Cert.KernelIdeal.nD Cert.KernelIdeal.τ).loc Cert.KernelIdeal.main_arg6)) :
    (after (Cert.ReferenceIdeal.RefRun.ops4 (F := Ideal)) V (Cert.ReferenceIdeal.main_v250 : DevRef Cert.ReferenceIdeal.τ Cert.ReferenceIdeal.sig) : (⟨2, ![100000, 32]⟩ : Shape).Idx → EReal)
      = (Cert.KernelIdeal.Body.O9_0 (F := Ideal) m c : (⟨2, ![100000, 32]⟩ : Shape).Idx → EReal) := by
  rw [Cert.ReferenceIdeal.RefRun.ref_h9, Cert.KernelIdeal.Body.O9_0_eq_affine, Cert.KernelIdeal.Body.ker_w9,
    Cert.KernelIdeal.Body.ker_b9 m c Cert.ReferenceIdeal.Gen.bcast_S32_S1x32_1, hx, h5, h6]

end Cert.Proof.Value

end
-- ==== Proof.KIStageAgg9.lean ====
/-
  The graph aggregation of relation 1, layer 2 (width 32), which both programs compute on the host with the same
  operations.

  With h the relation's second dense layer's output (100000 × 32), src and dst the relation's two rows of the edge
  argument and weight(e) = d(src e) · d(dst e), d = 1/sqrt(max(deg, 1)), row n of agg is the sum over the edges e into n
  of weight(e) · h(src e). The kernel program reads the edge rows and the weights an earlier stretch left; the reference
  computes the weights again from the edge rows an earlier window left. Each program's agg array is read as the one
  function aggOf32 of (h, src, dst, weights), and the last lemmas conclude that the two agg arrays are equal when the two
  h arrays are equal and the edge rows agree, and that the 1×1 mixing weight the kernel program's region reads is the
  reference's scalar mixing weight when the second weights arguments agree.
-/
import proofs.«140713_j1864015806535_2_alg».proof.Proof.KIStageAgg3
import proofs.«140713_j1864015806535_2_alg».proof.Proof.KIStageAgg6

set_option maxRecDepth 16384

noncomputable section

namespace Cert.KernelIdeal.Body
open Cert.KernelIdeal Cert.KernelIdeal.Gen Idealize.ShloMosaic Idealize.ShloMosaic.TcCoe Idealize.SL.Sem Idealize.ShloMosaic.StableHlo
variable (m : (ℓ : Loc nD τ sig) → Buf (Elt Ideal) ℓ)

/-- After region 9 the dense layer's output array holds what the region left there. -/
theorem W22_h9 (c : Dev nD) : W22 (F := Ideal) m c (main_v173 : DevRef τ sig) = O9_0 m c := by
  unfold W22
  exact Function.update_self ..

/-- The relation's source row is, after region 9, what the stretch before region 6 left. -/
theorem W22_main_v107_agg (c : Dev nD) : W22 (F := Ideal) m c main_v107 = W15 m c main_v107 :=
  (congrFun (hV22 m c) _).symm.trans <|
    (GenP.V22_of m (outs m) c main_v107 (by decide)).trans <| (GenP.V21_of m (outs m) c main_v107 (by decide)).trans <| (GenP.V20_of m (outs m) c main_v107 (by decide)).trans <| (GenP.V19_of m (outs m) c main_v107 (by decide)).trans <| (GenP.V18_of m (outs m) c main_v107 (by decide)).trans <| (GenP.V17_of m (outs m) c main_v107 (by decide)).trans <| (GenP.V16_of m (outs m) c main_v107 (by decide)).trans <| congrFun (hV15 m c) _

/-- The relation's destination row is, after region 9, what the stretch before region 6 left. -/
theorem W22_main_v109_agg (c : Dev nD) : W22 (F := Ideal) m c main_v109 = W15 m c main_v109 :=
  (congrFun (hV22 m c) _).symm.trans <|
    (GenP.V22_of m (outs m) c main_v109 (by decide)).trans <| (GenP.V21_of m (outs m) c main_v109 (by decide)).trans <| (GenP.V20_of m (outs m) c main_v109 (by decide)).trans <| (GenP.V19_of m (outs m) c main_v109 (by decide)).trans <| (GenP.V18_of m (outs m) c main_v109 (by decide)).trans <| (GenP.V17_of m (outs m) c main_v109 (by decide)).trans <| (GenP.V16_of m (outs m) c main_v109 (by decide)).trans <| congrFun (hV15 m c) _

/-- The relation's edge weights are, after region 9, what the stretch before region 6 left. -/
theorem W22_main_v131_agg (c : Dev nD) : W22 (F := Ideal) m c main_v131 = W15 m c main_v131 :=
  (congrFun (hV22 m c) _).symm.trans <|
    (GenP.V22_of m (outs m) c main_v131 (by decide)).trans <| (GenP.V21_of m (outs m) c main_v131 (by decide)).trans <| (GenP.V20_of m (outs m) c main_v131 (by decide)).trans <| (GenP.V19_of m (outs m) c main_v131 (by decide)).trans <| (GenP.V18_of m (outs m) c main_v131 (by decide)).trans <| (GenP.V17_of m (outs m) c main_v131 (by decide)).trans <| (GenP.V16_of m (outs m) c main_v131 (by decide)).trans <| congrFun (hV15 m c) _

/-- The second weights argument reaches the stretch after region 9 as launched. -/
theorem W22_main_arg8_agg (c : Dev nD) : W22 (F := Ideal) m c main_arg8 = m ((c.tc : Thread nD τ).loc main_arg8) :=
  (congrFun (hV22 m c) _).symm.trans <|
    (GenP.V22_of m (outs m) c main_arg8 (by decide)).trans <| (GenP.V21_of m (outs m) c main_arg8 (by decide)).trans <| (GenP.V20_of m (outs m) c main_arg8 (by decide)).trans <| (GenP.V19_of m (outs m) c main_arg8 (by decide)).trans <| (GenP.V18_of m (outs m) c main_arg8 (by decide)).trans <| (GenP.V17_of m (outs m) c main_arg8 (by decide)).trans <| (GenP.V16_of m (outs m) c main_arg8 (by decide)).trans <| (GenP.V15_of m (outs m) c main_arg8 (by decide)).trans <| (GenP.V14_of m (outs m) c main_arg8 (by decide)).trans <| (GenP.V13_of m (outs m) c main_arg8 (by decide)).trans <| (GenP.V12_of m (outs m) c main_arg8 (by decide)).trans <| (GenP.V11_of m (outs m) c main_arg8 (by decide)).trans <| (GenP.V10_of m (outs m) c main_arg8 (by decide)).trans <| (GenP.V9_of m (outs m) c main_arg8 (by decide)).trans <| (GenP.V8_of m (outs m) c main_arg8 (by decide)).trans <| (GenP.V7_of m (outs m) c main_arg8 (by decide)).trans <| (GenP.V6_of m (outs m) c main_arg8 (by decide)).trans <| (GenP.V5_of m (outs m) c main_arg8 (by decide)).trans <| (GenP.V4_of m (outs m) c main_arg8 (by decide)).trans <| (GenP.V3_of m (outs m) c main_arg8 (by decide)).trans <| (GenP.V2_of m (outs m) c main_arg8 (by decide)).trans <| (GenP.V1_of m c main_arg8 (by decide)).trans rfl

set_option maxHeartbeats 4000000 in
/-- The aggregation of relation 1, layer 2, over the contents region 9 leaves. -/
theorem ker_agg9_raw (c : Dev nD) :
    (W23 (F := Ideal) m c main_v186 : S100000x32.Idx → EReal)
      = Cert.Proof.Value.aggOf32 scatter_S100000x32_S1600000x1_S1600000x32_1_0_0_1 gather_S100000x32_S1600000x1_S1600000x32_1_0_n_n_0_1_132
          bcast_S_S1600000 bcast_S_S100000x32 bcast_S1600000_S1600000x1_0 bcast_S1600000x1_S1600000x32_0_1
          (W22 m c (main_v173 : DevRef τ sig))
          (W22 m c (main_v107 : DevRef τ sig))
          (W22 m c (main_v109 : DevRef τ sig))
          (W22 m c (main_v131 : DevRef τ sig)) := by
  dsimp only [W23, hostOps10]
  after_results
  rfl

/-- The aggregation of relation 1, layer 2, as a function of what region 9 leaves and of the edge argument. -/
theorem ker_agg9 (c : Dev nD) :
    (W23 (F := Ideal) m c main_v186 : S100000x32.Idx → EReal)
      = Cert.Proof.Value.aggOf32 scatter_S100000x32_S1600000x1_S1600000x32_1_0_0_1 gather_S100000x32_S1600000x1_S1600000x32_1_0_n_n_0_1_132
          bcast_S_S1600000 bcast_S_S100000x32 bcast_S1600000_S1600000x1_0 bcast_S1600000x1_S1600000x32_0_1
          (O9_0 m c)
          (Cert.Proof.Value.edgeRowOf (m ((c.tc : Thread nD τ).loc main_arg1)) ![1, 0, 0] slices_S3x2x1600000_S1x1x1600000_1_0_0 shapeCasts_S1x1x1600000_S1600000)
          (Cert.Proof.Value.edgeRowOf (m ((c.tc : Thread nD τ).loc main_arg1)) ![1, 1, 0] slices_S3x2x1600000_S1x1x1600000_1_1_0 shapeCasts_S1x1x1600000_S1600000)
          (Cert.Proof.Value.normOf scatter_S100000_S1600000x1_S1600000_n_0_0_1 gather_S100000_S1600000x1_S1600000_n_0_n_n_0_1_1
            bcast_S_S1600000 bcast_S_S100000 bcast_S1600000_S1600000x1_0
            (Cert.Proof.Value.edgeRowOf (m ((c.tc : Thread nD τ).loc main_arg1)) ![1, 0, 0] slices_S3x2x1600000_S1x1x1600000_1_0_0 shapeCasts_S1x1x1600000_S1600000)
            (Cert.Proof.Value.edgeRowOf (m ((c.tc : Thread nD τ).loc main_arg1)) ![1, 1, 0] slices_S3x2x1600000_S1x1x1600000_1_1_0 shapeCasts_S1x1x1600000_S1600000)) := by
  rw [ker_agg9_raw, W22_h9, W22_main_v107_agg, W22_main_v109_agg, W22_main_v131_agg, ker_src6, ker_dst6, ker_norm6]

set_option maxHeartbeats 2000000 in
/-- The mixing weight region 10 reads: relation 1's entry of the second weights argument, as a 1×1 array. -/
theorem ker_gamma9 (c : Dev nD) :
    (W23 (F := Ideal) m c main_v193 : S1x1.Idx → EReal)
      = shapeCast S1x1 (Cert.Proof.Value.gammaOf (m ((c.tc : Thread nD τ).loc main_arg8)) ![1] slices_S3_S1_1 shapeCasts_S1_S_) shapeCasts_S_S1x1 := by
  have e : (W23 (F := Ideal) m c main_v193 : S1x1.Idx → EReal)
      = shapeCast S1x1 (Cert.Proof.Value.gammaOf (W22 m c (main_arg8 : DevRef τ sig)) ![1] slices_S3_S1_1 shapeCasts_S1_S_) shapeCasts_S_S1x1 := by
    dsimp only [W23, hostOps10]
    after_results
    rfl
  rw [e, W22_main_arg8_agg]
end Cert.KernelIdeal.Body

namespace Cert.ReferenceIdeal.RefRun
open Cert.ReferenceIdeal Cert.ReferenceIdeal.Gen Idealize.ShloMosaic Idealize.ShloMosaic.TcCoe Idealize.SL.Sem Idealize.ShloMosaic.StableHlo

/-- The first n operations of the fifth window leave a buffer the window does not write as it was. -/
theorem ops4_take_keepsAgg (n : Nat) (V : Valuation τ sig (Elt Ideal)) (r : Ref sig .tc) (hr : r ∉ (ops4_W : List (Ref sig .tc))) :
    after ((ops4 (F := Ideal)).take n) V (Proc.devRef .tc r) = V (Proc.devRef .tc r) :=
  after_of_writes_sub (W := ops4_W) _ V
    (List.forall_iff_forall_mem.mpr fun op hop => List.forall_iff_forall_mem.mp ops4_writes op (List.mem_of_mem_take hop)) hr

set_option maxHeartbeats 8000000 in
/-- The reference's aggregation of relation 1, layer 2, from any contents V before the fifth window: a function of the
    dense layer's output that window computes and of the two edge rows V holds. The window is cut after the dense layer's
    last operation, and the operations before the cut are read only through what they leave. -/
theorem ref_agg9 (V : Valuation τ sig (Elt Ideal)) :
    (after (ops5 (F := Ideal)) (after (ops4 (F := Ideal)) V) (main_v285 : DevRef τ sig) : S100000x32.Idx → EReal)
      = Cert.Proof.Value.aggOf32 scatter_S100000x32_S1600000x1_S1600000x32_1_0_0_1 gather_S100000x32_S1600000x1_S1600000x32_1_0_n_n_0_1_132
          bcast_S_S1600000 bcast_S_S100000x32 bcast_S1600000_S1600000x1_0 bcast_S1600000x1_S1600000x32_0_1
          (after (ops4 (F := Ideal)) V (main_v250 : DevRef τ sig))
          (V (main_v163 : DevRef τ sig))
          (V (main_v165 : DevRef τ sig))
          (Cert.Proof.Value.normOf scatter_S100000_S1600000x1_S1600000_n_0_0_1 gather_S100000_S1600000x1_S1600000_n_0_n_n_0_1_1
            bcast_S_S1600000 bcast_S_S100000 bcast_S1600000_S1600000x1_0
            (V (main_v163 : DevRef τ sig))
            (V (main_v165 : DevRef τ sig))) := by
  rw [← ops4_take_keepsAgg 81 V main_v163 (by decide), ← ops4_take_keepsAgg 81 V main_v165 (by decide),
    ← List.take_append_drop 81 (ops4 (F := Ideal)), after_append]
  simp only [List.take_append_drop]
  generalize after ((ops4 (F := Ideal)).take 81) V = X
  dsimp only [ops4, ops5]
  simp only [List.drop_succ_cons, List.drop_zero]
  after_results_simp
  rfl

set_option maxHeartbeats 4000000 in
/-- The reference's mixing weight of relation 1, layer 2: that entry of the second weights argument, as a scalar. -/
theorem ref_gamma9 (V : Valuation τ sig (Elt Ideal)) :
    (after (ops4 (F := Ideal)) V (main_v246 : DevRef τ sig) : S_.Idx → EReal)
      = Cert.Proof.Value.gammaOf (V (main_arg8 : DevRef τ sig)) ![1] slices_S3_S1_1 shapeCasts_S1_S_ := by
  dsimp only [ops4]
  after_results_simp
  rfl
end Cert.ReferenceIdeal.RefRun

namespace Cert.Proof.Value
open Idealize.ShloMosaic Idealize.ShloMosaic.TcCoe Idealize.SL.Sem Idealize.ShloMosaic.StableHlo

/-- Relation 1, layer 2: from any contents V before the reference's fifth window whose two edge rows are the relation's
    rows of the kernel program's edge argument, the two programs' aggregations are equal when their dense layers'
    outputs are. -/
theorem stageAgg9
    (m : (ℓ : Loc Cert.KernelIdeal.nD Cert.KernelIdeal.τ Cert.KernelIdeal.sig) → Buf (Elt Ideal) ℓ)
    (V : Valuation Cert.ReferenceIdeal.τ Cert.ReferenceIdeal.sig (Elt Ideal))
    (c : Dev Cert.KernelIdeal.nD)
    (hsrc : (V (Cert.ReferenceIdeal.main_v163 : DevRef Cert.ReferenceIdeal.τ Cert.ReferenceIdeal.sig) : (⟨1, ![1600000]⟩ : Shape).Idx → BitVec 32) = edgeRowOf (m ((c.tc : Thread Cert.KernelIdeal.nD Cert.KernelIdeal.τ).loc Cert.KernelIdeal.main_arg1)) ![1, 0, 0] Cert.KernelIdeal.Gen.slices_S3x2x1600000_S1x1x1600000_1_0_0 Cert.KernelIdeal.Gen.shapeCasts_S1x1x1600000_S1600000)
    (hdst : (V (Cert.ReferenceIdeal.main_v165 : DevRef Cert.ReferenceIdeal.τ Cert.ReferenceIdeal.sig) : (⟨1, ![1600000]⟩ : Shape).Idx → BitVec 32) = edgeRowOf (m ((c.tc : Thread Cert.KernelIdeal.nD Cert.KernelIdeal.τ).loc Cert.KernelIdeal.main_arg1)) ![1, 1, 0] Cert.KernelIdeal.Gen.slices_S3x2x1600000_S1x1x1600000_1_1_0 Cert.KernelIdeal.Gen.shapeCasts_S1x1x1600000_S1600000)
    (hh : (after (Cert.ReferenceIdeal.RefRun.ops4 (F := Ideal)) V (Cert.ReferenceIdeal.main_v250 : DevRef Cert.ReferenceIdeal.τ Cert.ReferenceIdeal.sig) : (⟨2, ![100000, 32]⟩ : Shape).Idx → EReal)
      = (Cert.KernelIdeal.Body.O9_0 (F := Ideal) m c : (⟨2, ![100000, 32]⟩ : Shape).Idx → EReal)) :
    (after (Cert.ReferenceIdeal.RefRun.ops5 (F := Ideal)) (after (Cert.ReferenceIdeal.RefRun.ops4 (F := Ideal)) V) (Cert.ReferenceIdeal.main_v285 : DevRef Cert.ReferenceIdeal.τ Cert.ReferenceIdeal.sig) : (⟨2, ![100000, 32]⟩ : Shape).Idx → EReal)
      = (Cert.KernelIdeal.Body.W23 (F := Ideal) m c (Cert.KernelIdeal.main_v186 : DevRef Cert.KernelIdeal.τ Cert.KernelIdeal.sig) : (⟨2, ![100000, 32]⟩ : Shape).Idx → EReal) := by
  rw [Cert.ReferenceIdeal.RefRun.ref_agg9, Cert.KernelIdeal.Body.ker_agg9, hh, hsrc, hdst]
  rfl

/-- The mixing weight region 10 reads is the reference's scalar of relation 1, layer 2, as a 1×1 array, from any contents V
    before the reference's fifth window that agree with the kernel program's memory on the second weights argument. -/
theorem stageGamma9
    (m : (ℓ : Loc Cert.KernelIdeal.nD Cert.KernelIdeal.τ Cert.KernelIdeal.sig) → Buf (Elt Ideal) ℓ)
    (V : Valuation Cert.ReferenceIdeal.τ Cert.ReferenceIdeal.sig (Elt Ideal))
    (c : Dev Cert.KernelIdeal.nD)
    (h8 : V (Proc.devRef .tc Cert.ReferenceIdeal.main_arg8) = m ((c.tc : Thread Cert.KernelIdeal.nD Cert.KernelIdeal.τ).loc Cert.KernelIdeal.main_arg8)) :
    (Cert.KernelIdeal.Body.W23 (F := Ideal) m c (Cert.KernelIdeal.main_v193 : DevRef Cert.KernelIdeal.τ Cert.KernelIdeal.sig) : (⟨2, ![1, 1]⟩ : Shape).Idx → EReal)
      = shapeCast ⟨2, ![1, 1]⟩ (after (Cert.ReferenceIdeal.RefRun.ops4 (F := Ideal)) V (Cert.ReferenceIdeal.main_v246 : DevRef Cert.ReferenceIdeal.τ Cert.ReferenceIdeal.sig) : (⟨0, ![]⟩ : Shape).Idx → EReal)
          Cert.KernelIdeal.Gen.shapeCasts_S_S1x1 := by
  rw [Cert.ReferenceIdeal.RefRun.ref_gamma9, Cert.KernelIdeal.Body.ker_gamma9, h8]
end Cert.Proof.Value

end
-- ==== Proof.KIValMix10.lean ====
/-
  Region 10, the mix-and-accumulate tile kernel, read as values over the extended reals.

  At each of the ten grid points the body takes its tile of 10000 rows of h and of agg and the 1×1 mixing weight g,
  writes xm = g·agg + (1 − g)·h into its tile of the first output, and adds the tile's column sums of xm and of xm·xm
  to two one-row outputs that are zeroed at the first point and written back after the last. The lemmas here say what
  the three output arrays end holding, index by index, as functions of the region's entry contents: the first output is
  xm at every row and column, the two rows are the sums over all 100000 rows of xm and of xm·xm.
-/
import proofs.«140713_j1864015806535_2_alg».proof.Proof.KIFrameBase
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Body

open Cert.KernelIdeal Cert.KernelIdeal.Gen Idealize.ShloMosaic Idealize.ShloMosaic.TcCoe Idealize.ShloMosaic.ValueIdx Idealize.SL.Sem
open Idealize.ShloMosaic.Pipeline (Dat Cfg Window)
open Idealize.ShloMosaic.Tactic

variable (m : (ℓ : Loc nD τ sig) → Buf (Elt Ideal) ℓ)

section Pieces
variable (V : (c : Dev nD) → (b : Ref sig .tc) → Buf (Elt Ideal) ((c : Thread nD τ).loc b))

theorem hz10 : (![0, 0] : Fin 2 → Nat) = fun _ => 0 := funext fun a => by fin_cases a <;> rfl

theorem outA10_3 (c : Dev nD) (t : Fin cfg10.N) (h : cond10_0 (grid10.coords t)) :
    (readBack10 (runA10 V c t h).1).1 = k10_pay3 (iblk10 V c 2 t) (iblk10 V c 0 t) (iblk10 V c 1 t) := by
  unfold readBack10
  dsimp only
  rw [View.read_writes_junk_eq_canon]
  unfold runA10 kernelRun10_A
  dsimp only
  rw [View.canon_unit_zero (S := S10000x32) hz10]
  simp only [View.readAt_eq_ld, (hs10_0 t).read_unread, (hs10_1 t).read_unread, (hs10_2 t).read_unread,
    View.ld_unit_zero (S := S10000x32) hz10, View.ld_unit_zero (S := S1x1) hz10]

theorem outB10_3 (c : Dev nD) (t : Fin cfg10.N) (h : ¬cond10_0 (grid10.coords t)) (xo4 xo5 : Vec Ideal S1x32 .f32) :
    (readBack10 (runB10 V c t h xo4 xo5).1).1 = k10_pay3 (iblk10 V c 2 t) (iblk10 V c 0 t) (iblk10 V c 1 t) := by
  unfold readBack10
  dsimp only
  rw [View.read_writes_junk_eq_canon]
  unfold runB10 kernelRun10_B
  dsimp only
  rw [View.canon_unit_zero (S := S10000x32) hz10]
  simp only [View.readAt_eq_ld, (hs10_0 t).read_unread, (hs10_1 t).read_unread, (hs10_2 t).read_unread,
    View.ld_unit_zero (S := S10000x32) hz10, View.ld_unit_zero (S := S1x1) hz10]

theorem outA10_4 (c : Dev nD) (t : Fin cfg10.N) (h : cond10_0 (grid10.coords t)) :
    (readBack10 (runA10 V c t h).1).2.1 = k10_pay4 (iblk10 V c 2 t) (iblk10 V c 0 t) (iblk10 V c 1 t) (k10_pay1 (F := Ideal)) := by
  unfold readBack10
  dsimp only
  rw [View.read_writes_junk_eq_canon]
  unfold runA10 kernelRun10_A
  dsimp only
  sl_unfold_words
  rw [View.canon_cons_unit_zero (S := S1x32) hz10, View.readCov_unit_zero (S := S1x32) _ hz10]
  simp only [View.readAt_eq_ld, (hs10_0 t).read_unread, (hs10_1 t).read_unread, (hs10_2 t).read_unread,
    View.ld_unit_zero (S := S10000x32) hz10, View.ld_unit_zero (S := S1x1) hz10, View.ld_unit_zero (S := S1x32) hz10]

theorem outB10_4 (c : Dev nD) (t : Fin cfg10.N) (h : ¬cond10_0 (grid10.coords t)) (xo4 xo5 : Vec Ideal S1x32 .f32) :
    (readBack10 (runB10 V c t h xo4 xo5).1).2.1 = k10_pay4 (iblk10 V c 2 t) (iblk10 V c 0 t) (iblk10 V c 1 t) xo4 := by
  unfold readBack10
  dsimp only
  rw [View.read_writes_junk_eq_canon]
  unfold runB10 kernelRun10_B
  dsimp only
  rw [View.canon_unit_zero (S := S1x32) hz10]
  simp only [View.readAt_eq_ld, (hs10_0 t).read_unread, (hs10_1 t).read_unread, (hs10_2 t).read_unread,
    (hs10_4 t).read_unread, (hs10_5 t).read_unread,
    View.ld_unit_zero (S := S10000x32) hz10, View.ld_unit_zero (S := S1x1) hz10, View.ld_unit_zero (S := S1x32) hz10]

theorem outA10_5 (c : Dev nD) (t : Fin cfg10.N) (h : cond10_0 (grid10.coords t)) :
    (readBack10 (runA10 V c t h).1).2.2 = k10_pay5 (iblk10 V c 2 t) (iblk10 V c 0 t) (iblk10 V c 1 t) (k10_pay2 (F := Ideal)) := by
  unfold readBack10
  dsimp only
  rw [View.read_writes_junk_eq_canon]
  unfold runA10 kernelRun10_A
  dsimp only
  sl_unfold_words
  rw [View.canon_cons_unit_zero (S := S1x32) hz10, View.readCov_unit_zero (S := S1x32) _ hz10]
  simp only [View.readAt_eq_ld, (hs10_0 t).read_unread, (hs10_1 t).read_unread, (hs10_2 t).read_unread,
    View.ld_unit_zero (S := S10000x32) hz10, View.ld_unit_zero (S := S1x1) hz10, View.ld_unit_zero (S := S1x32) hz10]

theorem outB10_5 (c : Dev nD) (t : Fin cfg10.N) (h : ¬cond10_0 (grid10.coords t)) (xo4 xo5 : Vec Ideal S1x32 .f32) :
    (readBack10 (runB10 V c t h xo4 xo5).1).2.2 = k10_pay5 (iblk10 V c 2 t) (iblk10 V c 0 t) (iblk10 V c 1 t) xo5 := by
  unfold readBack10
  dsimp only
  rw [View.read_writes_junk_eq_canon]
  unfold runB10 kernelRun10_B
  dsimp only
  rw [View.canon_unit_zero (S := S1x32) hz10]
  simp only [View.readAt_eq_ld, (hs10_0 t).read_unread, (hs10_1 t).read_unread, (hs10_2 t).read_unread,
    (hs10_4 t).read_unread, (hs10_5 t).read_unread,
    View.ld_unit_zero (S := S10000x32) hz10, View.ld_unit_zero (S := S1x1) hz10, View.ld_unit_zero (S := S1x32) hz10]

end Pieces

/-! ## The payload at an index -/

/-- The mixed tile at row p, column q: the weight times agg plus one minus the weight times h. -/
theorem pay3_apply_10 (g : Vec Ideal S1x1 .f32) (h agg : Vec Ideal S10000x32 .f32) (p : Fin 10000) (q : Fin 32) :
    (k10_pay3 g h agg : S10000x32.Idx → EReal) (ix2 p q)
      = (g : S1x1.Idx → EReal) (ix2 0 0) * (agg : S10000x32.Idx → EReal) (ix2 p q)
        + (Ideal.ofBits .f32 0x3F800000#32 - (g : S1x1.Idx → EReal) (ix2 0 0)) * (h : S10000x32.Idx → EReal) (ix2 p q) := by
  unfold k10_pay3
  simp only [shapeCast_self]
  rw [addf_apply, mulf_apply, mulf_apply,
    broadcastTo_apply (s := S1x1) (t := S10000x32) _ _ (ix2 p q) (ix2 0 0)
      (fun a => by match a with | ⟨0, _⟩ => rfl | ⟨1, _⟩ => rfl),
    broadcastTo_apply (s := S1x1) (t := S10000x32) _ _ (ix2 p q) (ix2 0 0)
      (fun a => by match a with | ⟨0, _⟩ => rfl | ⟨1, _⟩ => rfl),
    subf_apply, broadcast_apply]
  rfl

/-- The same at any index of the tile. -/
theorem pay3_at_10 (g : Vec Ideal S1x1 .f32) (h agg : Vec Ideal S10000x32 .f32) (j : S10000x32.Idx) :
    (k10_pay3 g h agg : S10000x32.Idx → EReal) j
      = (g : S1x1.Idx → EReal) (ix2 0 0) * (agg : S10000x32.Idx → EReal) j
        + (Ideal.ofBits .f32 0x3F800000#32 - (g : S1x1.Idx → EReal) (ix2 0 0)) * (h : S10000x32.Idx → EReal) j := by
  obtain ⟨p, q, rfl⟩ : ∃ (p : Fin 10000) (q : Fin 32), j = ix2 p q := ⟨j 0, j 1, eq_ix2 j⟩
  exact pay3_apply_10 g h agg p q

/-- A tile's column reduction, stored as a one-row block, at column q: the sum of the tile down column q. -/
theorem colsum_apply_10 (x : Vec Ideal S10000x32 .f32) (q : Fin 32) :
    (shapeCast S1x32 (multiReduction (F := Ideal) .add [0] S32 x 0x00000000#32 reduces_S10000x32_S32 (.inl rfl) rfl)
        shapeCasts_S32_S1x32 : S1x32.Idx → EReal) (ix2 0 q)
      = ∑ r : Fin 10000, (x : S10000x32.Idx → EReal) (ix2 r q) := by
  refine (shapeCast_addUnit_apply ![32] _ _ (ix2 0 q)).trans ?_
  refine (Ideal.multiReduction_add_single x 0x00000000#32 reduces_S10000x32_S32 (.inl rfl) rfl _).trans ?_
  show ∑ r : Fin 10000, _ = _
  refine Finset.sum_congr rfl fun r _ => congrArg _ ?_
  funext a
  apply Fin.ext
  match a with
  | ⟨0, _⟩ => rfl
  | ⟨1, _⟩ => rfl

/-- The column sums' row at column q: the row entered plus the sum of the mixed tile down column q. -/
theorem pay4_apply_10 (g : Vec Ideal S1x1 .f32) (h agg : Vec Ideal S10000x32 .f32) (row : Vec Ideal S1x32 .f32) (q : Fin 32) :
    (k10_pay4 g h agg row : S1x32.Idx → EReal) (ix2 0 q)
      = (row : S1x32.Idx → EReal) (ix2 0 q) + ∑ r : Fin 10000, (k10_pay3 g h agg : S10000x32.Idx → EReal) (ix2 r q) := by
  unfold k10_pay4
  simp only [shapeCast_self]
  rw [addf_apply]
  congr 1
  exact colsum_apply_10 _ q

/-- The squares' row at column q: the row entered plus the sum of the mixed tile's squares down column q. -/
theorem pay5_apply_10 (g : Vec Ideal S1x1 .f32) (h agg : Vec Ideal S10000x32 .f32) (row : Vec Ideal S1x32 .f32) (q : Fin 32) :
    (k10_pay5 g h agg row : S1x32.Idx → EReal) (ix2 0 q)
      = (row : S1x32.Idx → EReal) (ix2 0 q)
        + ∑ r : Fin 10000, (k10_pay3 g h agg : S10000x32.Idx → EReal) (ix2 r q) * (k10_pay3 g h agg : S10000x32.Idx → EReal) (ix2 r q) := by
  unfold k10_pay5
  simp only [shapeCast_self]
  rw [addf_apply]
  congr 1
  exact colsum_apply_10 (mulf (k10_pay3 g h agg) (k10_pay3 g h agg)) q

/-- The rows entered at the first point are zero. -/
theorem pay1_apply_10 (q : Fin 32) : (k10_pay1 (F := Ideal) : S1x32.Idx → EReal) (ix2 0 q) = 0 := by
  unfold k10_pay1
  rw [broadcast_apply]
  exact Ideal.ofBits_zero_f32
theorem pay2_apply_10 (q : Fin 32) : (k10_pay2 (F := Ideal) : S1x32.Idx → EReal) (ix2 0 q) = 0 := by
  unfold k10_pay2
  rw [broadcast_apply]
  exact Ideal.ofBits_zero_f32

section Blocks
variable (V : (c : Dev nD) → (b : Ref sig .tc) → Buf (Elt Ideal) ((c : Thread nD τ).loc b))

/-! ## The first output: the mixed tile, at every point -/

/-- After the body at any point the first output's staging buffer holds the mixed tile of the point's blocks. -/
theorem outs10_3 (c : Dev nD) (t : Fin cfg10.N) :
    (outsAt10 V c t.val t.isLt).1 = k10_pay3 (iblk10 V c 2 t) (iblk10 V c 0 t) (iblk10 V c 1 t) := by
  by_cases h0 : t.val % 10 = 0
  · rw [outsAt10_A V c t h0]; exact outA10_3 V c t _
  · rw [outsAt10_B V c t h0]; exact outB10_3 V c t _ _ _

/-- The region's three input arrays as it finds them: the weight, h, agg. -/
abbrev arrG_10 (c : Dev nD) : S1x1.Idx → EReal := V c main_v193
abbrev arrH_10 (c : Dev nD) : S100000x32.Idx → EReal := V c main_v173
abbrev arrAgg_10 (c : Dev nD) : S100000x32.Idx → EReal := V c main_v186

/-- The mix of whole arrays, index by index. -/
abbrev mixG_10 (g : S1x1.Idx → EReal) (h agg : S100000x32.Idx → EReal) : S100000x32.Idx → EReal :=
  fun i => g (ix2 0 0) * agg i + (Ideal.ofBits .f32 0x3F800000#32 - g (ix2 0 0)) * h i

/-- The windows' index maps, decided over the grid: the tiles of h and agg move with the output's tile, whose row
    block is the point itself; the weight's block never moves. -/
theorem idx_facts10 : ∀ t : Fin cfg10.N,
    win10_0.index t (0 : Fin 2) = win10_3.index t (0 : Fin 2) ∧ win10_0.index t (1 : Fin 2) = win10_3.index t (1 : Fin 2)
    ∧ win10_1.index t (0 : Fin 2) = win10_3.index t (0 : Fin 2) ∧ win10_1.index t (1 : Fin 2) = win10_3.index t (1 : Fin 2)
    ∧ win10_2.index t (0 : Fin 2) = 0 ∧ win10_2.index t (1 : Fin 2) = 0
    ∧ win10_3.index t (0 : Fin 2) = t.val ∧ win10_3.index t (1 : Fin 2) = 0 :=
  (by decide +kernel : ∀ t : Fin grid10.N, _)

/-- What point t writes back to the first output is block t of the mix of the three arrays. -/
theorem flushed10_3_eq (c : Dev nD) (t : Fin cfg10.N) :
    (dat10 V c).flushed 3 t = ((cfg10.win 3).blk t).view.read (Elt Ideal) (mixG_10 (arrG_10 V c) (arrH_10 V c) (arrAgg_10 V c)) := by
  show (cfg10.win 3).cut (grid10.coords t) ((dat10 V c).after 3 t) = _
  rw [after10_3, outs10_3]
  funext j
  refine (pay3_at_10 _ _ _ j).trans ?_
  obtain ⟨e0, e1, e2, e3, e4, e5, e6, e7⟩ := idx_facts10 t
  show arrG_10 V c (((cfg10.win 2).blk t).view.emb (ix2 0 0)) * arrAgg_10 V c (((cfg10.win 1).blk t).view.emb j)
      + (Ideal.ofBits .f32 0x3F800000#32 - arrG_10 V c (((cfg10.win 2).blk t).view.emb (ix2 0 0))) * arrH_10 V c (((cfg10.win 0).blk t).view.emb j)
    = arrG_10 V c (ix2 0 0) * arrAgg_10 V c (((cfg10.win 3).blk t).view.emb j)
      + (Ideal.ofBits .f32 0x3F800000#32 - arrG_10 V c (ix2 0 0)) * arrH_10 V c (((cfg10.win 3).blk t).view.emb j)
  have h2 : ((cfg10.win 2).blk t).view.emb (ix2 0 0) = ix2 0 0 := by
    funext a; apply Fin.ext
    match a with
    | ⟨0, _⟩ => show win10_2.index t (0 : Fin 2) * 1 + 1 * 0 = 0; omega
    | ⟨1, _⟩ => show win10_2.index t (1 : Fin 2) * 1 + 1 * 0 = 0; omega
  have h0 : ((cfg10.win 0).blk t).view.emb j = ((cfg10.win 3).blk t).view.emb j := by
    funext a; apply Fin.ext
    match a with
    | ⟨0, _⟩ => show win10_0.index t (0 : Fin 2) * 10000 + 1 * (j 0).val = win10_3.index t (0 : Fin 2) * 10000 + 1 * (j 0).val; omega
    | ⟨1, _⟩ => show win10_0.index t (1 : Fin 2) * 32 + 1 * (j 1).val = win10_3.index t (1 : Fin 2) * 32 + 1 * (j 1).val; omega
  have h1 : ((cfg10.win 1).blk t).view.emb j = ((cfg10.win 3).blk t).view.emb j := by
    funext a; apply Fin.ext
    match a with
    | ⟨0, _⟩ => show win10_1.index t (0 : Fin 2) * 10000 + 1 * (j 0).val = win10_3.index t (0 : Fin 2) * 10000 + 1 * (j 0).val; omega
    | ⟨1, _⟩ => show win10_1.index t (1 : Fin 2) * 32 + 1 * (j 1).val = win10_3.index t (1 : Fin 2) * 32 + 1 * (j 1).val; omega
  rw [h2, h0, h1]

/-- An index of the first output is in point t's block iff each coordinate is in the block's range on its axis. -/
theorem mem_blk10_3 (t : Fin cfg10.N) (i : S100000x32.Idx) :
    i ∈ ((cfg10.win 3).blk t).view.set ↔ ∀ a : Fin 2, win10_3.index t a * S10000x32.size a ≤ (i a).val
      ∧ (i a).val < win10_3.index t a * S10000x32.size a + S10000x32.size a := by
  show i ∈ ((View.whole main_v194_0).slice (win10_3.rect t)).set ↔ _
  rw [View.set_slice_whole, Rect.mem_set_unit]
  exact Iff.rfl

/-- Row r of the first output is in the block of point r / 10000, which writes it back. -/
theorem cover10_3 (i : S100000x32.Idx) :
    ∃ t : Fin cfg10.N, (cfg10.win 3).flush t = true ∧ i ∈ ((cfg10.win 3).blk t).view.set := by
  have hi0 : (i 0).val < 100000 := (i 0).isLt
  have hi1 : (i 1).val < 32 := (i 1).isLt
  have hN : cfg10.N = 10 := N_10
  obtain ⟨t, ht⟩ : ∃ t : Fin cfg10.N, t.val = (i 0).val / 10000 := ⟨⟨(i 0).val / 10000, by rw [hN]; omega⟩, rfl⟩
  refine ⟨t, flush10_3 t, ?_⟩
  rw [mem_blk10_3]
  obtain ⟨e0, e1, e2, e3, e4, e5, e6, e7⟩ := idx_facts10 t
  intro a
  match a with
  | ⟨0, _⟩ =>
    show win10_3.index t (0 : Fin 2) * 10000 ≤ (i 0).val ∧ (i 0).val < win10_3.index t (0 : Fin 2) * 10000 + 10000
    rw [e6, ht]; omega
  | ⟨1, _⟩ =>
    show win10_3.index t (1 : Fin 2) * 32 ≤ (i 1).val ∧ (i 1).val < win10_3.index t (1 : Fin 2) * 32 + 32
    rw [e7]; omega

/-- So the first output array ends holding the mix of the three arrays as the region finds them. -/
theorem final10_3 (c : Dev nD) : (dat10 V c).arrAt 3 cfg10.N = mixG_10 (arrG_10 V c) (arrH_10 V c) (arrAgg_10 V c) :=
  (dat10 V c).arrAt_eq_of_cover 3 (mixG_10 (arrG_10 V c) (arrH_10 V c) (arrAgg_10 V c)) (fun t _ => flushed10_3_eq V c t) cover10_3

/-! ## The two rows: sums carried across the grid -/

/-- The mixed tile of point t at row r, column q is the mix of the arrays at row t·10000 + r. -/
theorem tile_at_10 (c : Dev nD) (t : Fin cfg10.N) (r : Fin 10000) (q : Fin 32) (hr : t.val * 10000 + r.val < 100000) :
    (k10_pay3 (iblk10 V c 2 t) (iblk10 V c 0 t) (iblk10 V c 1 t) : S10000x32.Idx → EReal) (ix2 r q)
      = mixG_10 (arrG_10 V c) (arrH_10 V c) (arrAgg_10 V c) (ix2 ⟨t.val * 10000 + r.val, hr⟩ q) := by
  have e : (dat10 V c).flushed 3 t = k10_pay3 (iblk10 V c 2 t) (iblk10 V c 0 t) (iblk10 V c 1 t) := by
    show (cfg10.win 3).cut (grid10.coords t) ((dat10 V c).after 3 t) = _
    rw [after10_3, outs10_3]
    funext j
    rfl
  refine (congrFun e.symm (ix2 r q)).trans ?_
  refine (congrFun (flushed10_3_eq V c t) (ix2 r q)).trans ?_
  show mixG_10 (arrG_10 V c) (arrH_10 V c) (arrAgg_10 V c) (((cfg10.win 3).blk t).view.emb (ix2 r q)) = _
  refine congrArg _ ?_
  obtain ⟨e0, e1, e2, e3, e4, e5, e6, e7⟩ := idx_facts10 t
  funext a; apply Fin.ext
  match a with
  | ⟨0, _⟩ => show win10_3.index t (0 : Fin 2) * 10000 + 1 * r.val = t.val * 10000 + r.val; rw [e6]; omega
  | ⟨1, _⟩ => show win10_3.index t (1 : Fin 2) * 32 + 1 * q.val = q.val; rw [e7]; omega

/-- The sum of the mix down column q over the rows of tile k (zero past the grid). -/
def tileN_10 (c : Dev nD) (q : Fin 32) (k : ℕ) : EReal :=
  if h : k < 10 then ∑ r : Fin 10000, mixG_10 (arrG_10 V c) (arrH_10 V c) (arrAgg_10 V c) (ix2 ⟨k * 10000 + r.val, by omega⟩ q) else 0

/-- The column sum of point t's mixed tile is that sum. -/
theorem tile_sum_10 (c : Dev nD) (t : Fin cfg10.N) (q : Fin 32) :
    ∑ r : Fin 10000, (k10_pay3 (iblk10 V c 2 t) (iblk10 V c 0 t) (iblk10 V c 1 t) : S10000x32.Idx → EReal) (ix2 r q)
      = tileN_10 V c q t.val := by
  have hN : t.val < 10 := lt_of_lt_of_eq t.isLt (show cfg10.N = 10 from N_10)
  unfold tileN_10
  rw [dif_pos hN]
  exact Finset.sum_congr rfl fun r _ => tile_at_10 V c t r q (by have := r.isLt; omega)

/-- After point n the first row holds, at column q, the column sums of tiles 0 to n added in order. -/
theorem row4_inv_10 (c : Dev nD) (q : Fin 32) : ∀ (n : ℕ) (hn : n < cfg10.N),
    ((outsAt10 V c n hn).2.1 : S1x32.Idx → EReal) (ix2 0 q) = ∑ k ∈ Finset.range (n + 1), tileN_10 V c q k
  | 0, hn => by
    have e : (outsAt10 V c 0 hn).2.1 = k10_pay4 (iblk10 V c 2 ⟨0, hn⟩) (iblk10 V c 0 ⟨0, hn⟩) (iblk10 V c 1 ⟨0, hn⟩) (k10_pay1 (F := Ideal)) :=
      (congrArg (fun o => o.2.1) (outsAt10_A V c ⟨0, hn⟩ rfl)).trans (outA10_4 V c ⟨0, hn⟩ _)
    refine (congrFun e (ix2 0 q)).trans ?_
    refine (pay4_apply_10 _ _ _ _ q).trans ?_
    rw [pay1_apply_10, zero_add, tile_sum_10 V c ⟨0, hn⟩ q, Finset.sum_range_one]
  | n + 1, hn => by
    have hN : cfg10.N = 10 := N_10
    have hB : ¬(⟨n + 1, hn⟩ : Fin cfg10.N).val % 10 = 0 := by
      have : n + 1 < 10 := hN ▸ hn
      dsimp only; omega
    have e : (outsAt10 V c (n + 1) hn).2.1 = k10_pay4 (iblk10 V c 2 ⟨n + 1, hn⟩) (iblk10 V c 0 ⟨n + 1, hn⟩) (iblk10 V c 1 ⟨n + 1, hn⟩)
        (outsAt10 V c n (Nat.lt_of_succ_lt hn)).2.1 :=
      (congrArg (fun o => o.2.1) (outsAt10_B V c ⟨n + 1, hn⟩ hB)).trans (outB10_4 V c ⟨n + 1, hn⟩ _ _ _)
    refine (congrFun e (ix2 0 q)).trans ?_
    refine (pay4_apply_10 _ _ _ _ q).trans ?_
    rw [row4_inv_10 c q n (Nat.lt_of_succ_lt hn), tile_sum_10 V c ⟨n + 1, hn⟩ q, Finset.sum_range_succ _ (n + 1)]

/-- The two rows' index maps never move. -/
theorem idx_facts10_rows : ∀ t : Fin cfg10.N, win10_4.index t (0 : Fin 2) = 0 ∧ win10_4.index t (1 : Fin 2) = 0
    ∧ win10_5.index t (0 : Fin 2) = 0 ∧ win10_5.index t (1 : Fin 2) = 0 :=
  (by decide +kernel : ∀ t : Fin grid10.N, _)

/-- The first row as a function of the arrays: at column q, the column sums of the ten tiles. -/
def rowG4_10 (c : Dev nD) : S1x32.Idx → EReal := fun i => ∑ k ∈ Finset.range 10, tileN_10 V c (i 1) k

/-- What the last point writes back to row output 1 is the whole row of sums. -/
theorem flushed10_4_eq (c : Dev nD) (t : Fin cfg10.N) (hf : (cfg10.win 4).flush t = true) :
    (dat10 V c).flushed 4 t = ((cfg10.win 4).blk t).view.read (Elt Ideal) (rowG4_10 V c) := by
  have hN : t.val < 10 := lt_of_lt_of_eq t.isLt (show cfg10.N = 10 from N_10)
  have h9 : t.val = 9 := by have := (flush10_4 t).mp hf; omega
  show (cfg10.win 4).cut (grid10.coords t) ((dat10 V c).after 4 t) = _
  rw [after10_4]
  funext j
  obtain ⟨p, q, rfl⟩ : ∃ (p : Fin 1) (q : Fin 32), j = ix2 p q := ⟨j 0, j 1, eq_ix2 j⟩
  obtain rfl : p = 0 := Subsingleton.elim _ _
  show ((outsAt10 V c t.val t.isLt).2.1 : S1x32.Idx → EReal) (ix2 0 q) = rowG4_10 V c (((cfg10.win 4).blk t).view.emb (ix2 0 q))
  obtain ⟨e0, e1, e2, e3⟩ := idx_facts10_rows t
  have hemb : ((cfg10.win 4).blk t).view.emb (ix2 0 q) = ix2 0 q := by
    funext a; apply Fin.ext
    match a with
    | ⟨0, _⟩ => show win10_4.index t (0 : Fin 2) * 1 + 1 * 0 = 0; omega
    | ⟨1, _⟩ => show win10_4.index t (1 : Fin 2) * 32 + 1 * q.val = q.val; omega
  rw [hemb, row4_inv_10 V c q t.val t.isLt, h9]
  rfl

theorem mem_blk10_4 (t : Fin cfg10.N) (i : S1x32.Idx) :
    i ∈ ((cfg10.win 4).blk t).view.set ↔ ∀ a : Fin 2, win10_4.index t a * S1x32.size a ≤ (i a).val
      ∧ (i a).val < win10_4.index t a * S1x32.size a + S1x32.size a := by
  show i ∈ ((View.whole main_v194_1).slice (win10_4.rect t)).set ↔ _
  rw [View.set_slice_whole, Rect.mem_set_unit]
  exact Iff.rfl

/-- The last point's block is the whole row. -/
theorem cover10_4 (i : S1x32.Idx) :
    ∃ t : Fin cfg10.N, (cfg10.win 4).flush t = true ∧ i ∈ ((cfg10.win 4).blk t).view.set := by
  have hi0 : (i 0).val < 1 := (i 0).isLt
  have hi1 : (i 1).val < 32 := (i 1).isLt
  have hN : cfg10.N = 10 := N_10
  obtain ⟨t, ht⟩ : ∃ t : Fin cfg10.N, t.val = 9 := ⟨⟨9, by rw [hN]; omega⟩, rfl⟩
  refine ⟨t, (flush10_4 t).mpr (by rw [ht]), ?_⟩
  rw [mem_blk10_4]
  obtain ⟨e0, e1, e2, e3⟩ := idx_facts10_rows t
  intro a
  match a with
  | ⟨0, _⟩ =>
    show win10_4.index t (0 : Fin 2) * 1 ≤ (i 0).val ∧ (i 0).val < win10_4.index t (0 : Fin 2) * 1 + 1
    omega
  | ⟨1, _⟩ =>
    show win10_4.index t (1 : Fin 2) * 32 ≤ (i 1).val ∧ (i 1).val < win10_4.index t (1 : Fin 2) * 32 + 32
    omega

theorem final10_4 (c : Dev nD) : (dat10 V c).arrAt 4 cfg10.N = rowG4_10 V c :=
  (dat10 V c).arrAt_eq_of_cover 4 (rowG4_10 V c) (flushed10_4_eq V c) cover10_4

/-- The sum of the mix's squares down column q over the rows of tile k (zero past the grid). -/
def sqN_10 (c : Dev nD) (q : Fin 32) (k : ℕ) : EReal :=
  if h : k < 10 then ∑ r : Fin 10000, mixG_10 (arrG_10 V c) (arrH_10 V c) (arrAgg_10 V c) (ix2 ⟨k * 10000 + r.val, by omega⟩ q)
    * mixG_10 (arrG_10 V c) (arrH_10 V c) (arrAgg_10 V c) (ix2 ⟨k * 10000 + r.val, by omega⟩ q) else 0

theorem tile_sq_sum_10 (c : Dev nD) (t : Fin cfg10.N) (q : Fin 32) :
    ∑ r : Fin 10000, (k10_pay3 (iblk10 V c 2 t) (iblk10 V c 0 t) (iblk10 V c 1 t) : S10000x32.Idx → EReal) (ix2 r q)
        * (k10_pay3 (iblk10 V c 2 t) (iblk10 V c 0 t) (iblk10 V c 1 t) : S10000x32.Idx → EReal) (ix2 r q)
      = sqN_10 V c q t.val := by
  have hN : t.val < 10 := lt_of_lt_of_eq t.isLt (show cfg10.N = 10 from N_10)
  unfold sqN_10
  rw [dif_pos hN]
  exact Finset.sum_congr rfl fun r _ => by rw [tile_at_10 V c t r q (by have := r.isLt; omega)]

/-- After point n the second row holds, at column q, the sums of squares of tiles 0 to n added in order. -/
theorem row5_inv_10 (c : Dev nD) (q : Fin 32) : ∀ (n : ℕ) (hn : n < cfg10.N),
    ((outsAt10 V c n hn).2.2 : S1x32.Idx → EReal) (ix2 0 q) = ∑ k ∈ Finset.range (n + 1), sqN_10 V c q k
  | 0, hn => by
    have e : (outsAt10 V c 0 hn).2.2 = k10_pay5 (iblk10 V c 2 ⟨0, hn⟩) (iblk10 V c 0 ⟨0, hn⟩) (iblk10 V c 1 ⟨0, hn⟩) (k10_pay2 (F := Ideal)) :=
      (congrArg (fun o => o.2.2) (outsAt10_A V c ⟨0, hn⟩ rfl)).trans (outA10_5 V c ⟨0, hn⟩ _)
    refine (congrFun e (ix2 0 q)).trans ?_
    refine (pay5_apply_10 _ _ _ _ q).trans ?_
    rw [pay2_apply_10, zero_add, tile_sq_sum_10 V c ⟨0, hn⟩ q, Finset.sum_range_one]
  | n + 1, hn => by
    have hN : cfg10.N = 10 := N_10
    have hB : ¬(⟨n + 1, hn⟩ : Fin cfg10.N).val % 10 = 0 := by
      have : n + 1 < 10 := hN ▸ hn
      dsimp only; omega
    have e : (outsAt10 V c (n + 1) hn).2.2 = k10_pay5 (iblk10 V c 2 ⟨n + 1, hn⟩) (iblk10 V c 0 ⟨n + 1, hn⟩) (iblk10 V c 1 ⟨n + 1, hn⟩)
        (outsAt10 V c n (Nat.lt_of_succ_lt hn)).2.2 :=
      (congrArg (fun o => o.2.2) (outsAt10_B V c ⟨n + 1, hn⟩ hB)).trans (outB10_5 V c ⟨n + 1, hn⟩ _ _ _)
    refine (congrFun e (ix2 0 q)).trans ?_
    refine (pay5_apply_10 _ _ _ _ q).trans ?_
    rw [row5_inv_10 c q n (Nat.lt_of_succ_lt hn), tile_sq_sum_10 V c ⟨n + 1, hn⟩ q, Finset.sum_range_succ _ (n + 1)]

/-- The second row as a function of the arrays: at column q, the sums of squares of the ten tiles. -/
def rowG5_10 (c : Dev nD) : S1x32.Idx → EReal := fun i => ∑ k ∈ Finset.range 10, sqN_10 V c (i 1) k

/-- What the last point writes back to row output 2 is the whole row of sums. -/
theorem flushed10_5_eq (c : Dev nD) (t : Fin cfg10.N) (hf : (cfg10.win 5).flush t = true) :
    (dat10 V c).flushed 5 t = ((cfg10.win 5).blk t).view.read (Elt Ideal) (rowG5_10 V c) := by
  have hN : t.val < 10 := lt_of_lt_of_eq t.isLt (show cfg10.N = 10 from N_10)
  have h9 : t.val = 9 := by have := (flush10_5 t).mp hf; omega
  show (cfg10.win 5).cut (grid10.coords t) ((dat10 V c).after 5 t) = _
  rw [after10_5]
  funext j
  obtain ⟨p, q, rfl⟩ : ∃ (p : Fin 1) (q : Fin 32), j = ix2 p q := ⟨j 0, j 1, eq_ix2 j⟩
  obtain rfl : p = 0 := Subsingleton.elim _ _
  show ((outsAt10 V c t.val t.isLt).2.2 : S1x32.Idx → EReal) (ix2 0 q) = rowG5_10 V c (((cfg10.win 5).blk t).view.emb (ix2 0 q))
  obtain ⟨e0, e1, e2, e3⟩ := idx_facts10_rows t
  have hemb : ((cfg10.win 5).blk t).view.emb (ix2 0 q) = ix2 0 q := by
    funext a; apply Fin.ext
    match a with
    | ⟨0, _⟩ => show win10_5.index t (0 : Fin 2) * 1 + 1 * 0 = 0; omega
    | ⟨1, _⟩ => show win10_5.index t (1 : Fin 2) * 32 + 1 * q.val = q.val; omega
  rw [hemb, row5_inv_10 V c q t.val t.isLt, h9]
  rfl

theorem mem_blk10_5 (t : Fin cfg10.N) (i : S1x32.Idx) :
    i ∈ ((cfg10.win 5).blk t).view.set ↔ ∀ a : Fin 2, win10_5.index t a * S1x32.size a ≤ (i a).val
      ∧ (i a).val < win10_5.index t a * S1x32.size a + S1x32.size a := by
  show i ∈ ((View.whole main_v194_2).slice (win10_5.rect t)).set ↔ _
  rw [View.set_slice_whole, Rect.mem_set_unit]
  exact Iff.rfl

/-- The last point's block is the whole row. -/
theorem cover10_5 (i : S1x32.Idx) :
    ∃ t : Fin cfg10.N, (cfg10.win 5).flush t = true ∧ i ∈ ((cfg10.win 5).blk t).view.set := by
  have hi0 : (i 0).val < 1 := (i 0).isLt
  have hi1 : (i 1).val < 32 := (i 1).isLt
  have hN : cfg10.N = 10 := N_10
  obtain ⟨t, ht⟩ : ∃ t : Fin cfg10.N, t.val = 9 := ⟨⟨9, by rw [hN]; omega⟩, rfl⟩
  refine ⟨t, (flush10_5 t).mpr (by rw [ht]), ?_⟩
  rw [mem_blk10_5]
  obtain ⟨e0, e1, e2, e3⟩ := idx_facts10_rows t
  intro a
  match a with
  | ⟨0, _⟩ =>
    show win10_5.index t (0 : Fin 2) * 1 ≤ (i 0).val ∧ (i 0).val < win10_5.index t (0 : Fin 2) * 1 + 1
    omega
  | ⟨1, _⟩ =>
    show win10_5.index t (1 : Fin 2) * 32 ≤ (i 1).val ∧ (i 1).val < win10_5.index t (1 : Fin 2) * 32 + 32
    omega

theorem final10_5 (c : Dev nD) : (dat10 V c).arrAt 5 cfg10.N = rowG5_10 V c :=
  (dat10 V c).arrAt_eq_of_cover 5 (rowG5_10 V c) (flushed10_5_eq V c) cover10_5

end Blocks

/-! ## The region's outputs, as functions of its entry contents -/

/-- The mixed value at row p, column q of the arrays the region finds. -/
abbrev xm10 (c : Dev nD) (p : Fin 100000) (q : Fin 32) : EReal :=
  mixG_10 (W23 (F := Ideal) m c main_v193) (W23 (F := Ideal) m c main_v173) (W23 (F := Ideal) m c main_v186) (ix2 p q)

/-- The first output holds the mixed value at every row and column. -/
theorem O10_0_eq (c : Dev nD) (p : Fin 100000) (q : Fin 32) :
    (O10_0 (F := Ideal) m c : S100000x32.Idx → EReal) (ix2 p q) = xm10 m c p q := by
  unfold O10_0
  rw [final10_3 (E23 m) c]

/-- The first row holds, at column q, the sum of the mixed value over all 100000 rows. -/
theorem O10_1_eq (c : Dev nD) (q : Fin 32) :
    (O10_1 (F := Ideal) m c : S1x32.Idx → EReal) (ix2 0 q)
      = ∑ t : Fin 10, ∑ r : Fin 10000, xm10 m c ⟨t.val * 10000 + r.val, by omega⟩ q := by
  unfold O10_1
  rw [final10_4 (E23 m) c]
  show ∑ k ∈ Finset.range 10, tileN_10 (E23 m) c q k = _
  rw [← Fin.sum_univ_eq_sum_range (fun k => tileN_10 (E23 m) c q k) 10]
  refine Finset.sum_congr rfl fun t _ => ?_
  unfold tileN_10
  rw [dif_pos t.isLt]

/-- The second row holds, at column q, the sum of the mixed value's square over all 100000 rows. -/
theorem O10_2_eq (c : Dev nD) (q : Fin 32) :
    (O10_2 (F := Ideal) m c : S1x32.Idx → EReal) (ix2 0 q)
      = ∑ t : Fin 10, ∑ r : Fin 10000, xm10 m c ⟨t.val * 10000 + r.val, by omega⟩ q * xm10 m c ⟨t.val * 10000 + r.val, by omega⟩ q := by
  unfold O10_2
  rw [final10_5 (E23 m) c]
  show ∑ k ∈ Finset.range 10, sqN_10 (E23 m) c q k = _
  rw [← Fin.sum_univ_eq_sum_range (fun k => sqN_10 (E23 m) c q k) 10]
  refine Finset.sum_congr rfl fun t _ => ?_
  unfold sqN_10
  rw [dif_pos t.isLt]

end Cert.KernelIdeal.Body

end
-- ==== Proof.KIStageMix10.lean ====
/-
  The mix stage of relation 1, layer 2, in both programs.

  The kernel program computes xm = g·agg + (1 − g)·h tile by tile in region 10, with the mixing weight g a 1×1 array; the
  reference computes it over the whole arrays in one window, with the weight a scalar spread over the array (once for
  g·agg and once for 1 − g), of the agg it computed earlier in the same window. Both are the one function of (weight, h, agg), entry by
  entry: so when the two programs hold the same h, the same agg and the same weight, what the region leaves in its
  first output array is the reference's array.
-/
import proofs.«140713_j1864015806535_2_alg».proof.Proof.KIValMix10
import proofs.«140713_j1864015806535_2_alg».proof.Proof.RefFrame
import proofs.«140713_j1864015806535_2_alg».proof.Proof.LibHostBroadcast
import Idealize.ShloMosaic.Lib.StableHlo.Run
import Idealize.ShloMosaic.Lib.ValueIdx

set_option maxRecDepth 65536

noncomputable section

namespace Cert.Proof.Value
open Idealize.ShloMosaic Idealize.ShloMosaic.ValueIdx

/-- The mix as the reference computes it: the spread weight times agg, plus one minus the weight, spread, times h. -/
def refMix_10 (gs : (⟨2, ![100000, 32]⟩ : Shape).Idx → EReal) (agg : (⟨2, ![100000, 32]⟩ : Shape).Idx → EReal)
    (g : (⟨0, ![]⟩ : Shape).Idx → EReal) (h : (⟨2, ![100000, 32]⟩ : Shape).Idx → EReal)
    (hb : (⟨0, ![]⟩ : Shape).BroadcastsInDim ⟨2, ![100000, 32]⟩ (![] : Fin 0 → Fin 2)) :
    (⟨2, ![100000, 32]⟩ : Shape).Idx → EReal :=
  addf (F := Ideal) (φ := .f32) (mulf (F := Ideal) (φ := .f32) gs agg)
    (mulf (F := Ideal) (φ := .f32)
      (broadcastInDim ⟨2, ![100000, 32]⟩ ![] hb (subf (F := Ideal) (φ := .f32) (constant (F := Ideal) ⟨0, ![]⟩ .f32 0x3F800000#32) g)) h)

/-- At row p, column q. -/
theorem refMix_10_apply (gs agg : (⟨2, ![100000, 32]⟩ : Shape).Idx → EReal) (g : (⟨0, ![]⟩ : Shape).Idx → EReal)
    (h : (⟨2, ![100000, 32]⟩ : Shape).Idx → EReal)
    (hb : (⟨0, ![]⟩ : Shape).BroadcastsInDim ⟨2, ![100000, 32]⟩ (![] : Fin 0 → Fin 2)) (p : Fin 100000) (q : Fin 32) :
    refMix_10 gs agg g h hb (ix2 p q)
      = gs (ix2 p q) * agg (ix2 p q) + (Ideal.ofBits .f32 0x3F800000#32 - g ix0) * h (ix2 p q) := by
  unfold refMix_10
  rw [addf_apply, mulf_apply, mulf_apply, Cert.LibHostBroadcast.scalar_to_any, subf_apply, constant_apply]
end Cert.Proof.Value

namespace Cert.ReferenceIdeal.RefRun
open Cert.ReferenceIdeal Cert.ReferenceIdeal.Gen Idealize.ShloMosaic Idealize.ShloMosaic.TcCoe Idealize.SL.Sem Idealize.ShloMosaic.StableHlo

/-- The window's operations before the mix write no buffer of an earlier window. -/
theorem ops5_mix_keeps (V : Valuation τ sig (Elt Ideal)) (r : Ref sig .tc) (hr : r ∉ (ops5_W : List (Ref sig .tc))) :
    after ((ops5 (F := Ideal)).take 43) V (Proc.devRef .tc r) = V (Proc.devRef .tc r) :=
  after_of_writes_sub (W := ops5_W) _ V
    (List.forall_iff_forall_mem.mpr fun op hop => List.forall_iff_forall_mem.mp ops5_writes op (List.mem_of_mem_take hop)) hr

set_option maxHeartbeats 8000000 in
/-- The reference's mix of relation 1, layer 2, over the buffers as its window finds them. The window is cut at the mix's first operation: the operations before it, the agg's among them, are read only through what they leave. -/
theorem ref_mix10 (V : Valuation τ sig (Elt Ideal)) :
    (after (ops5 (F := Ideal)) V (main_v291 : DevRef τ sig) : S100000x32.Idx → EReal)
      = Cert.Proof.Value.refMix_10 (broadcastInDim S100000x32 ![] bcast_S_S100000x32 (V (main_v246 : DevRef τ sig)))
          (after (ops5 (F := Ideal)) V (main_v285 : DevRef τ sig)) (V (main_v246 : DevRef τ sig))
          (V (main_v250 : DevRef τ sig)) bcast_S_S100000x32 := by
  rw [← ops5_mix_keeps V main_v246 (by decide), ← ops5_mix_keeps V main_v250 (by decide),
    ← List.take_append_drop 43 (ops5 (F := Ideal)), after_append]
  simp only [List.take_append_drop]
  generalize after ((ops5 (F := Ideal)).take 43) V = X
  dsimp only [ops5]
  simp only [List.drop_succ_cons, List.drop_zero]
  after_results
  rfl
end Cert.ReferenceIdeal.RefRun

namespace Cert.Proof.Value
open Idealize.ShloMosaic Idealize.ShloMosaic.TcCoe Idealize.ShloMosaic.ValueIdx Idealize.SL.Sem Idealize.ShloMosaic.StableHlo

/-- THE MIX STAGE, relation 1, layer 2: the kernel program's mixed array (what region 10 leaves in its first output) is the
    reference's, from any contents before the reference's window: when they hold the kernel program's h, the window's agg is the kernel program's agg,
    and the reference's scalar weight is the kernel program's 1×1 weight. -/
theorem stageMix10
    (m : (ℓ : Loc Cert.KernelIdeal.nD Cert.KernelIdeal.τ Cert.KernelIdeal.sig) → Buf (Elt Ideal) ℓ)
    (R : Valuation Cert.ReferenceIdeal.τ Cert.ReferenceIdeal.sig (Elt Ideal))
    (c : Dev Cert.KernelIdeal.nD)
    (hh : (R (Cert.ReferenceIdeal.main_v250 : DevRef Cert.ReferenceIdeal.τ Cert.ReferenceIdeal.sig) : (⟨2, ![100000, 32]⟩ : Shape).Idx → EReal)
      = Cert.KernelIdeal.Body.W23 (F := Ideal) m c Cert.KernelIdeal.main_v173)
    (hagg : (after (Cert.ReferenceIdeal.RefRun.ops5 (F := Ideal)) R (Cert.ReferenceIdeal.main_v285 : DevRef Cert.ReferenceIdeal.τ Cert.ReferenceIdeal.sig) : (⟨2, ![100000, 32]⟩ : Shape).Idx → EReal)
      = Cert.KernelIdeal.Body.W23 (F := Ideal) m c Cert.KernelIdeal.main_v186)
    (hg : (R (Cert.ReferenceIdeal.main_v246 : DevRef Cert.ReferenceIdeal.τ Cert.ReferenceIdeal.sig) : (⟨0, ![]⟩ : Shape).Idx → EReal) ix0
      = (Cert.KernelIdeal.Body.W23 (F := Ideal) m c Cert.KernelIdeal.main_v193 : (⟨2, ![1, 1]⟩ : Shape).Idx → EReal) (ix2 0 0)) :
    (after (Cert.ReferenceIdeal.RefRun.ops5 (F := Ideal)) R (Cert.ReferenceIdeal.main_v291 : DevRef Cert.ReferenceIdeal.τ Cert.ReferenceIdeal.sig) : (⟨2, ![100000, 32]⟩ : Shape).Idx → EReal)
      = (Cert.KernelIdeal.Body.O10_0 (F := Ideal) m c : (⟨2, ![100000, 32]⟩ : Shape).Idx → EReal) := by
  rw [Cert.ReferenceIdeal.RefRun.ref_mix10]
  funext i
  obtain ⟨p, q, rfl⟩ : ∃ (p : Fin 100000) (q : Fin 32), i = ix2 p q := ⟨i 0, i 1, eq_ix2 i⟩
  refine (refMix_10_apply _ _ _ _ _ p q).trans ?_
  refine Eq.trans ?_ (Cert.KernelIdeal.Body.O10_0_eq m c p q).symm
  rw [Cert.LibHostBroadcast.scalar_to_any, hg, hagg, hh]

end Cert.Proof.Value

end
-- ==== Proof.KIStageMix10Glue.lean ====
/-
  The mix stage of relation 1, layer 2, from the arguments.

  Both programs take the mixing weight from the same place: entry 1 of the same mixing-weights argument, as a scalar.
  The reference spreads that scalar over the array; the kernel program views it as a 1×1 array for region 10. So when the
  contents before the reference's window that computes the weight agree with the kernel program's launch memory on that
  argument, the reference's scalar is the kernel program's 1×1 weight, and the join of the mix stage needs only that the
  two programs hold the same h and the same agg.
-/
import proofs.«140713_j1864015806535_2_alg».proof.Proof.KIStageMix10

set_option maxRecDepth 65536

noncomputable section

namespace Cert.Proof.Value
open Idealize.ShloMosaic
/-- The mixing weight of relation 1, layer 2, as a function of the mixing-weights argument: entry 1, as a scalar. -/
def gOf_10 (a : (⟨1, ![3]⟩ : Shape).Idx → EReal) (hs : (⟨1, ![3]⟩ : Shape).Slices ![1] ⟨1, ![1]⟩)
    (hc : (⟨1, ![1]⟩ : Shape).ShapeCasts ⟨0, ![]⟩) : (⟨0, ![]⟩ : Shape).Idx → EReal :=
  shapeCast ⟨0, ![]⟩ (extractStridedSlice ⟨1, ![1]⟩ ![1] a hs) hc
end Cert.Proof.Value

namespace Cert.ReferenceIdeal.RefRun
open Cert.ReferenceIdeal Cert.ReferenceIdeal.Gen Idealize.ShloMosaic Idealize.ShloMosaic.TcCoe Idealize.SL.Sem Idealize.ShloMosaic.StableHlo

set_option maxHeartbeats 4000000 in
/-- The reference's scalar mixing weight of relation 1, layer 2, from any contents before the window that computes it. -/
theorem ref_g10 (V : Valuation τ sig (Elt Ideal)) :
    (after (ops4 (F := Ideal)) V (main_v246 : DevRef τ sig) : S_.Idx → EReal)
      = Cert.Proof.Value.gOf_10 (V (main_arg8 : DevRef τ sig)) slices_S3_S1_1 shapeCasts_S1_S_ := by
  dsimp only [ops4]
  after_results
  rfl
end Cert.ReferenceIdeal.RefRun

namespace Cert.KernelIdeal.Body
open Cert.KernelIdeal Cert.KernelIdeal.Gen Idealize.ShloMosaic Idealize.ShloMosaic.TcCoe Idealize.SL.Sem Idealize.ShloMosaic.StableHlo
variable (m : (ℓ : Loc nD τ sig) → Buf (Elt Ideal) ℓ)

/-- The mixing-weights argument reaches the host stretch before region 10 as launched. -/
theorem ker_mixarg10 (c : Dev nD) : W22 (F := Ideal) m c main_arg8 = m ((c.tc : Thread nD τ).loc main_arg8) :=
  (congrFun (hV22 m c) _).symm.trans <|
    (GenP.V22_of m (outs m) c main_arg8 (by decide)).trans <|
      (GenP.V21_of m (outs m) c main_arg8 (by decide)).trans <|
      (GenP.V20_of m (outs m) c main_arg8 (by decide)).trans <|
      (GenP.V19_of m (outs m) c main_arg8 (by decide)).trans <|
      (GenP.V18_of m (outs m) c main_arg8 (by decide)).trans <|
      (GenP.V17_of m (outs m) c main_arg8 (by decide)).trans <|
      (GenP.V16_of m (outs m) c main_arg8 (by decide)).trans <|
      (GenP.V15_of m (outs m) c main_arg8 (by decide)).trans <|
      (GenP.V14_of m (outs m) c main_arg8 (by decide)).trans <|
      (GenP.V13_of m (outs m) c main_arg8 (by decide)).trans <|
      (GenP.V12_of m (outs m) c main_arg8 (by decide)).trans <|
      (GenP.V11_of m (outs m) c main_arg8 (by decide)).trans <|
      (GenP.V10_of m (outs m) c main_arg8 (by decide)).trans <|
      (GenP.V9_of m (outs m) c main_arg8 (by decide)).trans <|
      (GenP.V8_of m (outs m) c main_arg8 (by decide)).trans <|
      (GenP.V7_of m (outs m) c main_arg8 (by decide)).trans <|
      (GenP.V6_of m (outs m) c main_arg8 (by decide)).trans <|
      (GenP.V5_of m (outs m) c main_arg8 (by decide)).trans <|
      (GenP.V4_of m (outs m) c main_arg8 (by decide)).trans <|
      (GenP.V3_of m (outs m) c main_arg8 (by decide)).trans <|
      (GenP.V2_of m (outs m) c main_arg8 (by decide)).trans <|
      (GenP.V1_of m c main_arg8 (by decide)).trans rfl

set_option maxHeartbeats 4000000 in
/-- The kernel program's 1×1 mixing weight of relation 1, layer 2: the same scalar, as a 1×1 array. -/
theorem ker_g10 (c : Dev nD) :
    (W23 (F := Ideal) m c main_v193 : S1x1.Idx → EReal)
      = shapeCast S1x1 (Cert.Proof.Value.gOf_10 (m ((c.tc : Thread nD τ).loc main_arg8)) slices_S3_S1_1 shapeCasts_S1_S_) shapeCasts_S_S1x1 := by
  rw [← ker_mixarg10 m c]
  dsimp only [W23, hostOps10]
  after_results
  rfl

/-- On entering region 10 h is what region 9 left. -/
theorem ker_h10 (c : Dev nD) : W23 (F := Ideal) m c main_v173 = O9_0 (F := Ideal) m c := by
  refine (StableHlo.after_of_writes_sub hostOps10 _ GenP.hostOps10_writes (by decide)).trans ?_
  unfold W22
  simp only [Function.update_self]
end Cert.KernelIdeal.Body

namespace Cert.Proof.Value
open Idealize.ShloMosaic Idealize.ShloMosaic.TcCoe Idealize.ShloMosaic.ValueIdx Idealize.SL.Sem Idealize.ShloMosaic.StableHlo

/-- After the reference's window that computes it, its scalar weight is the kernel program's 1×1 weight, when the contents
    before that window agree with the kernel program's launch memory on the mixing-weights argument. -/
theorem mix10_weight
    (m : (ℓ : Loc Cert.KernelIdeal.nD Cert.KernelIdeal.τ Cert.KernelIdeal.sig) → Buf (Elt Ideal) ℓ)
    (V : Valuation Cert.ReferenceIdeal.τ Cert.ReferenceIdeal.sig (Elt Ideal))
    (c : Dev Cert.KernelIdeal.nD)
    (ha : V (Proc.devRef .tc Cert.ReferenceIdeal.main_arg8) = m ((c.tc : Thread Cert.KernelIdeal.nD Cert.KernelIdeal.τ).loc Cert.KernelIdeal.main_arg8)) :
    ((after (Cert.ReferenceIdeal.RefRun.ops4 (F := Ideal)) V) (Cert.ReferenceIdeal.main_v246 : DevRef Cert.ReferenceIdeal.τ Cert.ReferenceIdeal.sig) : (⟨0, ![]⟩ : Shape).Idx → EReal) ix0
      = (Cert.KernelIdeal.Body.W23 (F := Ideal) m c Cert.KernelIdeal.main_v193 : (⟨2, ![1, 1]⟩ : Shape).Idx → EReal) (ix2 0 0) := by
  rw [Cert.ReferenceIdeal.RefRun.ref_g10, Cert.KernelIdeal.Body.ker_g10, ha]
  exact (shapeCast_apply _ _ (ix2 0 0) ix0 rfl).symm

/-- THE MIX STAGE, relation 1, layer 2, from the arguments: when the contents before the reference's window 4 agree with the kernel
    program's launch memory on the mixing-weights argument and, after that window, the reference holds the kernel program's
    h (what region 9 left) and its window 5 computes the kernel program's agg, the kernel program's mixed array is the reference's. -/
theorem mix10
    (m : (ℓ : Loc Cert.KernelIdeal.nD Cert.KernelIdeal.τ Cert.KernelIdeal.sig) → Buf (Elt Ideal) ℓ)
    (V : Valuation Cert.ReferenceIdeal.τ Cert.ReferenceIdeal.sig (Elt Ideal))
    (c : Dev Cert.KernelIdeal.nD)
    (ha : V (Proc.devRef .tc Cert.ReferenceIdeal.main_arg8) = m ((c.tc : Thread Cert.KernelIdeal.nD Cert.KernelIdeal.τ).loc Cert.KernelIdeal.main_arg8))
    (hh : ((after (Cert.ReferenceIdeal.RefRun.ops4 (F := Ideal)) V) (Cert.ReferenceIdeal.main_v250 : DevRef Cert.ReferenceIdeal.τ Cert.ReferenceIdeal.sig) : (⟨2, ![100000, 32]⟩ : Shape).Idx → EReal) = (Cert.KernelIdeal.Body.O9_0 (F := Ideal) m c : (⟨2, ![100000, 32]⟩ : Shape).Idx → EReal))
    (hagg : (after (Cert.ReferenceIdeal.RefRun.ops5 (F := Ideal)) (after (Cert.ReferenceIdeal.RefRun.ops4 (F := Ideal)) V) (Cert.ReferenceIdeal.main_v285 : DevRef Cert.ReferenceIdeal.τ Cert.ReferenceIdeal.sig) : (⟨2, ![100000, 32]⟩ : Shape).Idx → EReal) = Cert.KernelIdeal.Body.W23 (F := Ideal) m c Cert.KernelIdeal.main_v186) :
    (after (Cert.ReferenceIdeal.RefRun.ops5 (F := Ideal)) (after (Cert.ReferenceIdeal.RefRun.ops4 (F := Ideal)) V) (Cert.ReferenceIdeal.main_v291 : DevRef Cert.ReferenceIdeal.τ Cert.ReferenceIdeal.sig) : (⟨2, ![100000, 32]⟩ : Shape).Idx → EReal)
      = (Cert.KernelIdeal.Body.O10_0 (F := Ideal) m c : (⟨2, ![100000, 32]⟩ : Shape).Idx → EReal) :=
  stageMix10 m (after (Cert.ReferenceIdeal.RefRun.ops4 (F := Ideal)) V) c (hh.trans (Cert.KernelIdeal.Body.ker_h10 m c).symm) hagg (mix10_weight m V c ha)

end Cert.Proof.Value

end
-- ==== Proof.KIStageEmb1.lean ====
/-
  The last stage of relation 1, which both programs compute on the host with the same operations: the rows of the
  second layer's output at the batch nodes, then log_softmax along each row.

  From the 100000×32 array h the stage before left and the batch argument (50000 node numbers, a negative one counting
  from the end): rows = h at the batch nodes (50000×32); and with M the row maximum (taken against −∞),
      out = (rows − M) − log Σ_j exp(rows_j − M).
  The functions below name these over the literal shapes, each program's result array is read as that function of its own h
  and batch argument, and the last lemma concludes: if the two programs' h arrays are equal and their memories agree on
  the batch argument, their result arrays are equal.
-/
import proofs.«140713_j1864015806535_2_alg».proof.Proof.KIFrameBase
import proofs.«140713_j1864015806535_2_alg».proof.Proof.RefFrame
import Idealize.ShloMosaic.Lib.StableHlo.Run
import Idealize.ShloMosaic.PureOps.Ideal.Laws

set_option maxRecDepth 65536

noncomputable section

namespace Cert.Proof.Value
open Idealize.ShloMosaic

/-- A batch node number read as an index: a negative one counts from the end. -/
def wrapBatch1 (hb : (⟨0, ![]⟩ : Shape).BroadcastsInDim ⟨1, ![50000]⟩ (![] : Fin 0 → Fin 1))
    (s : (⟨1, ![50000]⟩ : Shape).Idx → BitVec 32) : (⟨1, ![50000]⟩ : Shape).Idx → BitVec 32 :=
  select (cmpi CmpIPredicate.slt s (broadcastInDim ⟨1, ![50000]⟩ ![] hb (constantI ⟨0, ![]⟩ 32 0#32)))
    (addi s (broadcastInDim ⟨1, ![50000]⟩ ![] hb (constantI ⟨0, ![]⟩ 32 100000#32))) s

/-- The rows of a 100000×32 array at the batch nodes. -/
def batchRows1 (gd : GatherDims ⟨2, ![100000, 32]⟩ ⟨2, ![50000, 1]⟩ ⟨2, ![50000, 32]⟩)
    (hb : (⟨0, ![]⟩ : Shape).BroadcastsInDim ⟨1, ![50000]⟩ (![] : Fin 0 → Fin 1))
    (hbC : (⟨1, ![50000]⟩ : Shape).BroadcastsInDim ⟨2, ![50000, 1]⟩ (![0] : Fin 1 → Fin 2))
    (h : (⟨2, ![100000, 32]⟩ : Shape).Idx → EReal) (batch : (⟨1, ![50000]⟩ : Shape).Idx → BitVec 32) :
    (⟨2, ![50000, 32]⟩ : Shape).Idx → EReal :=
  Host.gather gd h (broadcastInDim ⟨2, ![50000, 1]⟩ ![0] hbC (wrapBatch1 hb batch))

/-- Each row's maximum (taken against −∞), repeated along the row. -/
def rowMaxOf1 (hr : (⟨2, ![50000, 32]⟩ : Shape).ReducesTo ([1] : List (Fin 2)) ⟨1, ![50000]⟩) (h0 : 0 < (⟨0, ![]⟩ : Shape).numel)
    (hbF : (⟨0, ![]⟩ : Shape).BroadcastsInDim ⟨1, ![50000]⟩ (![] : Fin 0 → Fin 1))
    (hbC : (⟨1, ![50000]⟩ : Shape).BroadcastsInDim ⟨2, ![50000, 1]⟩ (![0] : Fin 1 → Fin 2))
    (hbW : (⟨2, ![50000, 1]⟩ : Shape).BroadcastsInDim ⟨2, ![50000, 32]⟩ (![0, 1] : Fin 2 → Fin 2))
    (x : (⟨2, ![50000, 32]⟩ : Shape).Idx → EReal) : (⟨2, ![50000, 32]⟩ : Shape).Idx → EReal :=
  broadcastInDim ⟨2, ![50000, 32]⟩ ![0, 1] hbW
    (broadcastInDim ⟨2, ![50000, 1]⟩ ![0] hbC
      (maximumf (F := Ideal) (φ := .f32)
        (broadcastInDim ⟨1, ![50000]⟩ ![] hbF (constant (F := Ideal) ⟨0, ![]⟩ .f32 0xFF800000#32))
        (Host.reduce (FloatOps.maximumf (F := Ideal) (φ := .f32)) x (constant (F := Ideal) ⟨0, ![]⟩ .f32 0xFF800000#32) hr h0)))

/-- log_softmax along each row: (x − M) − log Σ exp(x − M), M the row's maximum. -/
def logSoftmaxRows1 (hr : (⟨2, ![50000, 32]⟩ : Shape).ReducesTo ([1] : List (Fin 2)) ⟨1, ![50000]⟩) (h0 : 0 < (⟨0, ![]⟩ : Shape).numel)
    (hbF : (⟨0, ![]⟩ : Shape).BroadcastsInDim ⟨1, ![50000]⟩ (![] : Fin 0 → Fin 1))
    (hbC : (⟨1, ![50000]⟩ : Shape).BroadcastsInDim ⟨2, ![50000, 1]⟩ (![0] : Fin 1 → Fin 2))
    (hbW : (⟨2, ![50000, 1]⟩ : Shape).BroadcastsInDim ⟨2, ![50000, 32]⟩ (![0, 1] : Fin 2 → Fin 2))
    (x : (⟨2, ![50000, 32]⟩ : Shape).Idx → EReal) : (⟨2, ![50000, 32]⟩ : Shape).Idx → EReal :=
  subf (F := Ideal) (φ := .f32)
    (subf (F := Ideal) (φ := .f32) x (rowMaxOf1 hr h0 hbF hbC hbW x))
    (broadcastInDim ⟨2, ![50000, 32]⟩ ![0, 1] hbW
      (Host.log (F := Ideal) (φ := .f32)
        (broadcastInDim ⟨2, ![50000, 1]⟩ ![0] hbC
          (Host.reduceAdd (F := Ideal) (φ := .f32)
            (Host.exp (F := Ideal) (φ := .f32) (subf (F := Ideal) (φ := .f32) x (rowMaxOf1 hr h0 hbF hbC hbW x)))
            (constant (F := Ideal) ⟨0, ![]⟩ .f32 0x00000000#32) hr h0))))

/-- Contents moved to a buffer's own type and back are unchanged (the outlined function's buffers are read this way). -/
theorem ofBuf_toBuf_id1 {sig : RefSig} {T : BufTy} (x : StableHlo.TRef sig T) (v : T.Contents (Elt Ideal)) :
    x.ofBuf (x.toBuf v) = v := by
  simp only [StableHlo.TRef.ofBuf, StableHlo.TRef.toBuf, cast_cast, cast_eq]
end Cert.Proof.Value

namespace Cert.KernelIdeal.Body
open Cert.KernelIdeal Cert.KernelIdeal.Gen Idealize.ShloMosaic Idealize.ShloMosaic.TcCoe Idealize.SL.Sem Idealize.ShloMosaic.StableHlo
variable (m : (ℓ : Loc nD τ sig) → Buf (Elt Ideal) ℓ)

/-- After region 11 the second layer's output array holds what the region left there. -/
theorem W26_h1e (c : Dev nD) : W26 (F := Ideal) m c (main_v203 : DevRef τ sig) = O11_0 m c := by
  unfold W26
  exact Function.update_self ..

/-- The batch argument reaches the stretch after region 11 as launched. -/
theorem W26_main_arg2 (c : Dev nD) : W26 (F := Ideal) m c main_arg2 = m ((c.tc : Thread nD τ).loc main_arg2) :=
  (congrFun (hV26 m c) _).symm.trans <|
    (GenP.V26_of m (outs m) c main_arg2 (by decide)).trans <|
      (GenP.V25_of m (outs m) c main_arg2 (by decide)).trans <|
      (GenP.V24_of m (outs m) c main_arg2 (by decide)).trans <|
      (GenP.V23_of m (outs m) c main_arg2 (by decide)).trans <|
      (GenP.V22_of m (outs m) c main_arg2 (by decide)).trans <|
      (GenP.V21_of m (outs m) c main_arg2 (by decide)).trans <|
      (GenP.V20_of m (outs m) c main_arg2 (by decide)).trans <|
      (GenP.V19_of m (outs m) c main_arg2 (by decide)).trans <|
      (GenP.V18_of m (outs m) c main_arg2 (by decide)).trans <|
      (GenP.V17_of m (outs m) c main_arg2 (by decide)).trans <|
      (GenP.V16_of m (outs m) c main_arg2 (by decide)).trans <|
      (GenP.V15_of m (outs m) c main_arg2 (by decide)).trans <|
      (GenP.V14_of m (outs m) c main_arg2 (by decide)).trans <|
      (GenP.V13_of m (outs m) c main_arg2 (by decide)).trans <|
      (GenP.V12_of m (outs m) c main_arg2 (by decide)).trans <|
      (GenP.V11_of m (outs m) c main_arg2 (by decide)).trans <|
      (GenP.V10_of m (outs m) c main_arg2 (by decide)).trans <|
      (GenP.V9_of m (outs m) c main_arg2 (by decide)).trans <|
      (GenP.V8_of m (outs m) c main_arg2 (by decide)).trans <|
      (GenP.V7_of m (outs m) c main_arg2 (by decide)).trans <|
      (GenP.V6_of m (outs m) c main_arg2 (by decide)).trans <|
      (GenP.V5_of m (outs m) c main_arg2 (by decide)).trans <|
      (GenP.V4_of m (outs m) c main_arg2 (by decide)).trans <|
      (GenP.V3_of m (outs m) c main_arg2 (by decide)).trans <|
      (GenP.V2_of m (outs m) c main_arg2 (by decide)).trans <| (GenP.V1_of m c main_arg2 (by decide)).trans rfl

set_option maxHeartbeats 4000000 in
/-- The stretch after region 11 leaves the rows at the batch nodes, from any contents before it. -/
theorem host_rows1 (V : Valuation τ sig (Elt Ideal)) :
    (after (hostOps12 (F := Ideal)) V (main_v210 : DevRef τ sig) : S50000x32.Idx → EReal)
      = Cert.Proof.Value.batchRows1 gather_S100000x32_S50000x1_S50000x32_1_0_n_n_0_1_132 bcast_S_S50000 bcast_S50000_S50000x1_0
          (V (main_v203 : DevRef τ sig)) (V (main_arg2 : DevRef τ sig)) := by
  dsimp only [hostOps12]
  after_results
  rfl

set_option maxHeartbeats 4000000 in
/-- The next stretch is log_softmax of those rows, from any contents before it. -/
theorem host_lsm1 (V : Valuation τ sig (Elt Ideal)) :
    (after (hostOps12_1 (F := Ideal)) V (main_v211 : DevRef τ sig) : S50000x32.Idx → EReal)
      = Cert.Proof.Value.logSoftmaxRows1 reducesTo_S50000x32_S50000_d1 h_S_ bcast_S_S50000 bcast_S50000_S50000x1_0 bcast_S50000x1_S50000x32_0_1
          (V (main_v210 : DevRef τ sig)) := by
  dsimp only [hostOps12_1]
  after_results
  simp only [Cert.Proof.Value.ofBuf_toBuf_id1]
  rfl

/-- The kernel program's result of relation 1: log_softmax of the rows of what region 11 leaves at the batch nodes. -/
theorem ker_emb1 (c : Dev nD) :
    (W28 (F := Ideal) m c main_v211 : S50000x32.Idx → EReal)
      = Cert.Proof.Value.logSoftmaxRows1 reducesTo_S50000x32_S50000_d1 h_S_ bcast_S_S50000 bcast_S50000_S50000x1_0 bcast_S50000x1_S50000x32_0_1
          (Cert.Proof.Value.batchRows1 gather_S100000x32_S50000x1_S50000x32_1_0_n_n_0_1_132 bcast_S_S50000 bcast_S50000_S50000x1_0
            (O11_0 m c) (m ((c.tc : Thread nD τ).loc main_arg2))) := by
  refine (host_lsm1 (W27 m c)).trans ?_
  rw [show (W27 (F := Ideal) m c main_v210 : S50000x32.Idx → EReal) = _ from host_rows1 (W26 m c), W26_h1e, W26_main_arg2]

/-- The stretch after that leaves the result as it is. -/
theorem W29_emb1 (c : Dev nD) : W29 (F := Ideal) m c main_v211 = W28 (F := Ideal) m c main_v211 :=
  StableHlo.after_of_writes_sub hostOps12_2 _ GenP.hostOps12_2_writes (by decide)
end Cert.KernelIdeal.Body

namespace Cert.ReferenceIdeal.RefRun
open Cert.ReferenceIdeal Cert.ReferenceIdeal.Gen Idealize.ShloMosaic Idealize.ShloMosaic.TcCoe Idealize.SL.Sem Idealize.ShloMosaic.StableHlo

/-- The window's first 41 operations do not write the batch argument. -/
theorem ops6_take41_keeps (V : Valuation τ sig (Elt Ideal)) (r : Ref sig .tc) (hr : r ∉ (ops6_W : List (Ref sig .tc))) :
    after ((ops6 (F := Ideal)).take 41) V (Proc.devRef .tc r) = V (Proc.devRef .tc r) :=
  after_of_writes_sub (W := ops6_W) _ V
    (List.forall_iff_forall_mem.mpr fun op hop => List.forall_iff_forall_mem.mp ops6_writes op (List.mem_of_mem_take hop)) hr

set_option maxHeartbeats 4000000 in
/-- The reference's result of relation 1: log_softmax of the rows, at the batch nodes, of the array its second layer left in
    the same window, from any contents before the window. The window is cut at the stage's first operation. -/
theorem ref_emb1 (V : Valuation τ sig (Elt Ideal)) :
    (after (ops6 (F := Ideal)) V (main_v323 : DevRef τ sig) : S50000x32.Idx → EReal)
      = Cert.Proof.Value.logSoftmaxRows1 reducesTo_S50000x32_S50000_d1 h_S_ bcast_S_S50000 bcast_S50000_S50000x1_0 bcast_S50000x1_S50000x32_0_1
          (Cert.Proof.Value.batchRows1 gather_S100000x32_S50000x1_S50000x32_1_0_n_n_0_1_132 bcast_S_S50000 bcast_S50000_S50000x1_0
            (after (ops6 (F := Ideal)) V (main_v315 : DevRef τ sig)) (V (main_arg2 : DevRef τ sig))) := by
  rw [← ops6_take41_keeps V main_arg2 (by decide), ← List.take_append_drop 41 (ops6 (F := Ideal)), after_append]
  simp only [List.take_append_drop]
  generalize after ((ops6 (F := Ideal)).take 41) V = X
  dsimp only [ops6]
  simp only [List.drop_succ_cons, List.drop_zero]
  after_results
  simp only [Cert.Proof.Value.ofBuf_toBuf_id1]
  rfl
end Cert.ReferenceIdeal.RefRun

namespace Cert.Proof.Value
open Idealize.ShloMosaic Idealize.ShloMosaic.TcCoe Idealize.SL.Sem Idealize.ShloMosaic.StableHlo

/-- Relation 1, the last stage: the two programs' result arrays are equal when their second layers' outputs are and the
    contents before the reference's window agree with the kernel program's launch memory on the batch argument. -/
theorem stageEmb1
    (m : (ℓ : Loc Cert.KernelIdeal.nD Cert.KernelIdeal.τ Cert.KernelIdeal.sig) → Buf (Elt Ideal) ℓ)
    (V : Valuation Cert.ReferenceIdeal.τ Cert.ReferenceIdeal.sig (Elt Ideal))
    (c : Dev Cert.KernelIdeal.nD)
    (h2 : V (Proc.devRef .tc Cert.ReferenceIdeal.main_arg2) = m ((c.tc : Thread Cert.KernelIdeal.nD Cert.KernelIdeal.τ).loc Cert.KernelIdeal.main_arg2))
    (hh : (after (Cert.ReferenceIdeal.RefRun.ops6 (F := Ideal)) V (Cert.ReferenceIdeal.main_v315 : DevRef Cert.ReferenceIdeal.τ Cert.ReferenceIdeal.sig) : (⟨2, ![100000, 32]⟩ : Shape).Idx → EReal)
      = (Cert.KernelIdeal.Body.O11_0 (F := Ideal) m c : (⟨2, ![100000, 32]⟩ : Shape).Idx → EReal)) :
    (after (Cert.ReferenceIdeal.RefRun.ops6 (F := Ideal)) V (Cert.ReferenceIdeal.main_v323 : DevRef Cert.ReferenceIdeal.τ Cert.ReferenceIdeal.sig) : (⟨2, ![50000, 32]⟩ : Shape).Idx → EReal)
      = (Cert.KernelIdeal.Body.W28 (F := Ideal) m c (Cert.KernelIdeal.main_v211 : DevRef Cert.KernelIdeal.τ Cert.KernelIdeal.sig) : (⟨2, ![50000, 32]⟩ : Shape).Idx → EReal) := by
  rw [Cert.ReferenceIdeal.RefRun.ref_emb1, Cert.KernelIdeal.Body.ker_emb1, hh, h2]
  rfl
end Cert.Proof.Value

end
-- ==== Proof.KIValBn8.lean ====
/-
  Region 8 normalises a 100000×64 array tile by tile: at each entry (p, q) it takes x(p, q), subtracts the mean row at q,
  multiplies by the reciprocal square root of the variance row at q cut off below at 0 and shifted by a small constant,
  multiplies by the scale row at q, adds the bias row at q, and cuts the result off below at 0. The four rows are the same
  at every tile, and the ten tiles of 10000 rows fill the array, so the array the region leaves is that one function of the
  region's entry contents, index by index.
-/
import proofs.«140713_j1864015806535_2_alg».proof.Proof.KIFrameBase
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Body

open Cert.KernelIdeal Cert.KernelIdeal.Gen Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- The zero offsets of a whole-buffer rectangle, however spelt. -/
theorem zeroOff8 : (![0, 0] : Fin 2 → Nat) = fun _ => 0 := funext fun a => by fin_cases a <;> rfl

/-- The reciprocal square root of a vector reads elementwise. -/
theorem rsqrt_at8 {s : Shape} {φ : FTy} (a : FVec Ideal s φ) (i : s.Idx) : rsqrt a i = Ideal.rsqrt (a i) := rfl

/-- The row index (0, q) under an index (p, q) of the array. -/
abbrev rowOf8 (i : S100000x64.Idx) : S1x64.Idx := ix2 (0 : Fin 1) (⟨(i 1).val, idx2_lt1 i⟩ : Fin 64)

/-- What the region leaves, as one function of the array it normalises and of the four rows: at (p, q) the entry less the
    mean at q, times the reciprocal square root of the variance at q cut off below at 0 plus the small constant, times the
    scale at q, plus the bias at q, cut off below at 0. -/
def bnRelu8 (X : S100000x64.Idx → EReal) (mean var scale bias : S1x64.Idx → EReal) : S100000x64.Idx → EReal :=
  fun i => max ((((X i - mean (rowOf8 i)) * Ideal.rsqrt (max (var (rowOf8 i)) 0 + Ideal.ofBits .f32 0x3727C5AC#32))
              * scale (rowOf8 i) + bias (rowOf8 i))) 0

/-- That function at explicit coordinates. -/
theorem bnRelu8_apply (X : S100000x64.Idx → EReal) (mean var scale bias : S1x64.Idx → EReal) (p : Fin 100000) (q : Fin 64) :
    bnRelu8 X mean var scale bias (ix2 p q)
      = max ((((X (ix2 p q) - mean (ix2 0 q)) * Ideal.rsqrt (max (var (ix2 0 q)) 0 + Ideal.ofBits .f32 0x3727C5AC#32))
              * scale (ix2 0 q) + bias (ix2 0 q))) 0 := rfl

/-- The body's arithmetic at entry (p, q) of a tile: the rows are read at (0, q). -/
theorem bnPay8_apply (x : Vec Ideal S10000x64 .f32) (mean var scale bias : Vec Ideal S1x64 .f32) (p : Fin 10000) (q : Fin 64) :
    (k8_pay1 x mean var scale bias : S10000x64.Idx → EReal) (ix2 p q)
      = max ((((x (ix2 p q) - mean (ix2 0 q)) * Ideal.rsqrt (max (var (ix2 0 q)) 0 + Ideal.ofBits .f32 0x3727C5AC#32))
              * scale (ix2 0 q) + bias (ix2 0 q))) 0 := by
  unfold k8_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply,
    rsqrt_at8, addf_apply, maximumf_apply, broadcast_apply, broadcast_apply]
  simp only [Ideal.ofBits_def, Ideal.ofBits_zero_f32]

/-- The printed index maps over the grid: the array's window and the output's sit at block (t, 0), the four rows' at (0, 0). -/
theorem idx_facts8 : ∀ t : Fin cfg8.N, win8_0.index t (0 : Fin 2) = t.val ∧ win8_0.index t (1 : Fin 2) = 0
    ∧ win8_5.index t (0 : Fin 2) = t.val ∧ win8_5.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0 :=
  (by decide +kernel : ∀ t : Fin grid8.N, _)

/-- Entry (p, q) of point t's block of the array read is the array's entry (t·10000 + p, q). -/
theorem emb8_0 (t : Fin cfg8.N) (p : Fin 10000) (q : Fin 64) (P : Fin 100000) (hP : P.val = t.val * 10000 + p.val) :
    ((cfg8.win 0).blk t).view.emb (ix2 p q) = ix2 P q := by
  obtain ⟨e0, e1, -⟩ := idx_facts8 t
  funext a; apply Fin.ext
  match a with
  | ⟨0, _⟩ => show win8_0.index t (0 : Fin 2) * 10000 + 1 * p.val = P.val; rw [e0, hP]; omega
  | ⟨1, _⟩ => show win8_0.index t (1 : Fin 2) * 64 + 1 * q.val = q.val; rw [e1]; omega

/-- The same for the output's block. -/
theorem emb8_5 (t : Fin cfg8.N) (p : Fin 10000) (q : Fin 64) (P : Fin 100000) (hP : P.val = t.val * 10000 + p.val) :
    ((cfg8.win 5).blk t).view.emb (ix2 p q) = ix2 P q := by
  obtain ⟨-, -, e0, e1, -⟩ := idx_facts8 t
  funext a; apply Fin.ext
  match a with
  | ⟨0, _⟩ => show win8_5.index t (0 : Fin 2) * 10000 + 1 * p.val = P.val; rw [e0, hP]; omega
  | ⟨1, _⟩ => show win8_5.index t (1 : Fin 2) * 64 + 1 * q.val = q.val; rw [e1]; omega

/-- Each row's block is the row itself at every point. -/
theorem emb8_1 (t : Fin cfg8.N) (q : Fin 64) : ((cfg8.win 1).blk t).view.emb (ix2 (0 : Fin 1) q) = ix2 (0 : Fin 1) q := by
  obtain ⟨-, -, -, -, e0, e1, -⟩ := idx_facts8 t
  funext a; apply Fin.ext
  match a with
  | ⟨0, _⟩ => show win8_1.index t (0 : Fin 2) * 1 + 1 * 0 = 0; rw [e0]
  | ⟨1, _⟩ => show win8_1.index t (1 : Fin 2) * 64 + 1 * q.val = q.val; rw [e1]; omega
theorem emb8_2 (t : Fin cfg8.N) (q : Fin 64) : ((cfg8.win 2).blk t).view.emb (ix2 (0 : Fin 1) q) = ix2 (0 : Fin 1) q := by
  obtain ⟨-, -, -, -, -, -, e0, e1, -⟩ := idx_facts8 t
  funext a; apply Fin.ext
  match a with
  | ⟨0, _⟩ => show win8_2.index t (0 : Fin 2) * 1 + 1 * 0 = 0; rw [e0]
  | ⟨1, _⟩ => show win8_2.index t (1 : Fin 2) * 64 + 1 * q.val = q.val; rw [e1]; omega
theorem emb8_3 (t : Fin cfg8.N) (q : Fin 64) : ((cfg8.win 3).blk t).view.emb (ix2 (0 : Fin 1) q) = ix2 (0 : Fin 1) q := by
  obtain ⟨-, -, -, -, -, -, -, -, e0, e1, -⟩ := idx_facts8 t
  funext a; apply Fin.ext
  match a with
  | ⟨0, _⟩ => show win8_3.index t (0 : Fin 2) * 1 + 1 * 0 = 0; rw [e0]
  | ⟨1, _⟩ => show win8_3.index t (1 : Fin 2) * 64 + 1 * q.val = q.val; rw [e1]; omega
theorem emb8_4 (t : Fin cfg8.N) (q : Fin 64) : ((cfg8.win 4).blk t).view.emb (ix2 (0 : Fin 1) q) = ix2 (0 : Fin 1) q := by
  obtain ⟨-, -, -, -, -, -, -, -, -, -, e0, e1⟩ := idx_facts8 t
  funext a; apply Fin.ext
  match a with
  | ⟨0, _⟩ => show win8_4.index t (0 : Fin 2) * 1 + 1 * 0 = 0; rw [e0]
  | ⟨1, _⟩ => show win8_4.index t (1 : Fin 2) * 64 + 1 * q.val = q.val; rw [e1]; omega

variable (V : (c : Dev nD) → (b : Ref sig .tc) → Buf (Elt Ideal) ((c : Thread nD τ).loc b))

/-- Point t's block of the array read, at (p, q): the array at (t·10000 + p, q). -/
theorem iblk8_0_at (c : Dev nD) (t : Fin cfg8.N) (p : Fin 10000) (q : Fin 64) (P : Fin 100000) (hP : P.val = t.val * 10000 + p.val) :
    (iblk8 V c 0 t : S10000x64.Idx → EReal) (ix2 p q) = (V c (Pipeline.arrRef spec8 0) : S100000x64.Idx → EReal) (ix2 P q) := by
  unfold iblk8
  rw [View.read_apply, emb8_0 t p q P hP]
  rfl
/-- Each row's block at (0, q): the row at (0, q). -/
theorem iblk8_1_at (c : Dev nD) (t : Fin cfg8.N) (q : Fin 64) :
    (iblk8 V c 1 t : S1x64.Idx → EReal) (ix2 0 q) = (V c (Pipeline.arrRef spec8 1) : S1x64.Idx → EReal) (ix2 0 q) := by
  unfold iblk8
  rw [View.read_apply, emb8_1 t q]
  rfl
theorem iblk8_2_at (c : Dev nD) (t : Fin cfg8.N) (q : Fin 64) :
    (iblk8 V c 2 t : S1x64.Idx → EReal) (ix2 0 q) = (V c (Pipeline.arrRef spec8 2) : S1x64.Idx → EReal) (ix2 0 q) := by
  unfold iblk8
  rw [View.read_apply, emb8_2 t q]
  rfl
theorem iblk8_3_at (c : Dev nD) (t : Fin cfg8.N) (q : Fin 64) :
    (iblk8 V c 3 t : S1x64.Idx → EReal) (ix2 0 q) = (V c (Pipeline.arrRef spec8 3) : S1x64.Idx → EReal) (ix2 0 q) := by
  unfold iblk8
  rw [View.read_apply, emb8_3 t q]
  rfl
theorem iblk8_4_at (c : Dev nD) (t : Fin cfg8.N) (q : Fin 64) :
    (iblk8 V c 4 t : S1x64.Idx → EReal) (ix2 0 q) = (V c (Pipeline.arrRef spec8 4) : S1x64.Idx → EReal) (ix2 0 q) := by
  unfold iblk8
  rw [View.read_apply, emb8_4 t q]
  rfl
/-- Point t's block of a whole-array function read back at (p, q): the function at (t·10000 + p, q). -/
theorem read_blk8_5_at (G : S100000x64.Idx → EReal) (t : Fin cfg8.N) (p : Fin 10000) (q : Fin 64) (P : Fin 100000) (hP : P.val = t.val * 10000 + p.val) :
    (((cfg8.win 5).blk t).view.read (Elt Ideal) G : S10000x64.Idx → EReal) (ix2 p q) = G (ix2 P q) := by
  rw [View.read_apply, emb8_5 t p q P hP]
  rfl

set_option maxHeartbeats 1000000 in
/-- What point t writes back is its block of that one function of the region's entry contents. -/
theorem flushed8_5_eq (c : Dev nD) (t : Fin cfg8.N) :
    (dat8 V c).flushed 5 t = ((cfg8.win 5).blk t).view.read (Elt Ideal)
      (bnRelu8 (V c (Pipeline.arrRef spec8 0)) (V c (Pipeline.arrRef spec8 1)) (V c (Pipeline.arrRef spec8 2)) (V c (Pipeline.arrRef spec8 3)) (V c (Pipeline.arrRef spec8 4))) := by
  show (cfg8.win 5).cut (grid8.coords t) ((dat8 V c).after 5 t) = _
  rw [after8_5]
  unfold out8_5
  rw [View.canon_unit_zero zeroOff8]
  simp only [View.ld_unit_zero (S := S10000x64) zeroOff8, View.ld_unit_zero (S := S1x64) zeroOff8]
  funext j
  obtain ⟨p, q, rfl⟩ : ∃ (p : Fin 10000) (q : Fin 64), j = ix2 p q := ⟨j 0, j 1, eq_ix2 j⟩
  have ht : t.val < 10 := lt_of_lt_of_eq t.isLt N_8
  have hP : t.val * 10000 + p.val < 100000 := by omega
  refine (bnPay8_apply (iblk8 V c 0 t) (iblk8 V c 1 t) (iblk8 V c 2 t) (iblk8 V c 3 t) (iblk8 V c 4 t) p q).trans ?_
  refine Eq.trans ?_ (read_blk8_5_at _ t p q ⟨t.val * 10000 + p.val, hP⟩ rfl).symm
  rw [bnRelu8_apply, iblk8_0_at V c t p q ⟨t.val * 10000 + p.val, hP⟩ rfl, iblk8_1_at V c t q, iblk8_2_at V c t q, iblk8_3_at V c t q, iblk8_4_at V c t q]

/-- An index of the array is in point t's block iff each coordinate is in the block's range on its axis. -/
theorem mem_blk8_5 (t : Fin cfg8.N) (i : S100000x64.Idx) :
    i ∈ ((cfg8.win 5).blk t).view.set ↔ ∀ a : Fin 2, win8_5.index t a * S10000x64.size a ≤ (i a).val ∧ (i a).val < win8_5.index t a * S10000x64.size a + S10000x64.size a := by
  show i ∈ ((View.whole main_v167).slice (win8_5.rect t)).set ↔ _
  rw [View.set_slice_whole, Rect.mem_set_unit]
  exact Iff.rfl

/-- Row r of the array is in the block of point r / 10000: the ten blocks fill the array. -/
theorem covered8_5 (i : S100000x64.Idx) : ∃ t : Fin cfg8.N, (cfg8.win 5).flush t = true ∧ i ∈ ((cfg8.win 5).blk t).view.set := by
  have hi0 : (i 0).val < 100000 := idx2_lt0 i
  have hi1 : (i 1).val < 64 := idx2_lt1 i
  have hN : grid8.N = 10 := N_8
  have hlt : (i 0).val / 10000 < grid8.N := by rw [hN]; omega
  obtain ⟨-, -, e0, e1, -⟩ := idx_facts8 ⟨(i 0).val / 10000, hlt⟩
  refine ⟨⟨(i 0).val / 10000, hlt⟩, flush8_5 _, ?_⟩
  rw [mem_blk8_5]
  intro a
  match a with
  | ⟨0, _⟩ =>
    show win8_5.index ⟨(i 0).val / 10000, hlt⟩ (0 : Fin 2) * 10000 ≤ (i 0).val ∧ (i 0).val < win8_5.index ⟨(i 0).val / 10000, hlt⟩ (0 : Fin 2) * 10000 + 10000
    rw [e0]; show (i 0).val / 10000 * 10000 ≤ (i 0).val ∧ (i 0).val < (i 0).val / 10000 * 10000 + 10000; omega
  | ⟨1, _⟩ =>
    show win8_5.index ⟨(i 0).val / 10000, hlt⟩ (1 : Fin 2) * 64 ≤ (i 1).val ∧ (i 1).val < win8_5.index ⟨(i 0).val / 10000, hlt⟩ (1 : Fin 2) * 64 + 64
    rw [e1]; omega

/-- The array the region leaves is that function of its entry contents. -/
theorem final8_5 (c : Dev nD) : (dat8 V c).arrAt 5 cfg8.N
    = bnRelu8 (V c (Pipeline.arrRef spec8 0)) (V c (Pipeline.arrRef spec8 1)) (V c (Pipeline.arrRef spec8 2)) (V c (Pipeline.arrRef spec8 3)) (V c (Pipeline.arrRef spec8 4)) :=
  (dat8 V c).arrAt_eq_of_cover 5 _ (fun t _ => flushed8_5_eq V c t) covered8_5

/-- Region 8's output as one function of the buffers at the region's entry. -/
theorem O8_0_fun (c : Dev nD) :
    O8_0 (F := Ideal) m c = bnRelu8 (W19 (F := Ideal) m c main_v158_0) (W19 (F := Ideal) m c main_v160) (W19 (F := Ideal) m c main_v164)
      (W19 (F := Ideal) m c main_v165) (W19 (F := Ideal) m c main_v166) :=
  final8_5 (E19 m) c

/-- Region 8's output at (p, q): the entry of main_v158_0 less the mean row, times the reciprocal square root of the
    variance row cut off at 0 and shifted, times the scale row, plus the bias row, cut off at 0; rows read at (0, q). -/
theorem O8_0_eq (c : Dev nD) (p : Fin 100000) (q : Fin 64) :
    (O8_0 (F := Ideal) m c : S100000x64.Idx → EReal) (ix2 p q)
      = bnRelu8 (W19 (F := Ideal) m c main_v158_0) (W19 (F := Ideal) m c main_v160) (W19 (F := Ideal) m c main_v164)
          (W19 (F := Ideal) m c main_v165) (W19 (F := Ideal) m c main_v166) (ix2 p q) :=
  congrFun (O8_0_fun m c) (ix2 p q)

/-- The same with the five entry buffers named: for arrays equal to them, the output at (p, q) written out. -/
theorem O8_0_at (c : Dev nD) (X : S100000x64.Idx → EReal) (mean var scale bias : S1x64.Idx → EReal)
    (hX : W19 (F := Ideal) m c main_v158_0 = X) (hmean : W19 (F := Ideal) m c main_v160 = mean) (hvar : W19 (F := Ideal) m c main_v164 = var)
    (hscale : W19 (F := Ideal) m c main_v165 = scale) (hbias : W19 (F := Ideal) m c main_v166 = bias) (p : Fin 100000) (q : Fin 64) :
    (O8_0 (F := Ideal) m c : S100000x64.Idx → EReal) (ix2 p q)
      = max ((((X (ix2 p q) - mean (ix2 0 q)) * Ideal.rsqrt (max (var (ix2 0 q)) 0 + Ideal.ofBits .f32 0x3727C5AC#32))
              * scale (ix2 0 q) + bias (ix2 0 q))) 0 := by
  rw [O8_0_eq, hX, hmean, hvar, hscale, hbias, bnRelu8_apply]

end Cert.KernelIdeal.Body

end
-- ==== Proof.KIValBn11.lean ====
/-
  Region 11 normalises a 100000×32 array tile by tile: at each entry (p, q) it takes x(p, q), subtracts the mean row at q,
  multiplies by the reciprocal square root of the variance row at q cut off below at 0 and shifted by a small constant,
  multiplies by the scale row at q, adds the bias row at q, and cuts the result off below at 0. The four rows are the same
  at every tile, and the ten tiles of 10000 rows fill the array, so the array the region leaves is that one function of the
  region's entry contents, index by index.
-/
import proofs.«140713_j1864015806535_2_alg».proof.Proof.KIFrameBase
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Body

open Cert.KernelIdeal Cert.KernelIdeal.Gen Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- The zero offsets of a whole-buffer rectangle, however spelt. -/
theorem zeroOff11 : (![0, 0] : Fin 2 → Nat) = fun _ => 0 := funext fun a => by fin_cases a <;> rfl

/-- The reciprocal square root of a vector reads elementwise. -/
theorem rsqrt_at11 {s : Shape} {φ : FTy} (a : FVec Ideal s φ) (i : s.Idx) : rsqrt a i = Ideal.rsqrt (a i) := rfl

/-- The row index (0, q) under an index (p, q) of the array. -/
abbrev rowOf11 (i : S100000x32.Idx) : S1x32.Idx := ix2 (0 : Fin 1) (⟨(i 1).val, idx2_lt1 i⟩ : Fin 32)

/-- What the region leaves, as one function of the array it normalises and of the four rows: at (p, q) the entry less the
    mean at q, times the reciprocal square root of the variance at q cut off below at 0 plus the small constant, times the
    scale at q, plus the bias at q, cut off below at 0. -/
def bnRelu11 (X : S100000x32.Idx → EReal) (mean var scale bias : S1x32.Idx → EReal) : S100000x32.Idx → EReal :=
  fun i => max ((((X i - mean (rowOf11 i)) * Ideal.rsqrt (max (var (rowOf11 i)) 0 + Ideal.ofBits .f32 0x3727C5AC#32))
              * scale (rowOf11 i) + bias (rowOf11 i))) 0

/-- That function at explicit coordinates. -/
theorem bnRelu11_apply (X : S100000x32.Idx → EReal) (mean var scale bias : S1x32.Idx → EReal) (p : Fin 100000) (q : Fin 32) :
    bnRelu11 X mean var scale bias (ix2 p q)
      = max ((((X (ix2 p q) - mean (ix2 0 q)) * Ideal.rsqrt (max (var (ix2 0 q)) 0 + Ideal.ofBits .f32 0x3727C5AC#32))
              * scale (ix2 0 q) + bias (ix2 0 q))) 0 := rfl

/-- The body's arithmetic at entry (p, q) of a tile: the rows are read at (0, q). -/
theorem bnPay11_apply (x : Vec Ideal S10000x32 .f32) (mean var scale bias : Vec Ideal S1x32 .f32) (p : Fin 10000) (q : Fin 32) :
    (k11_pay1 x mean var scale bias : S10000x32.Idx → EReal) (ix2 p q)
      = max ((((x (ix2 p q) - mean (ix2 0 q)) * Ideal.rsqrt (max (var (ix2 0 q)) 0 + Ideal.ofBits .f32 0x3727C5AC#32))
              * scale (ix2 0 q) + bias (ix2 0 q))) 0 := by
  unfold k11_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply,
    rsqrt_at11, addf_apply, maximumf_apply, broadcast_apply, broadcast_apply]
  simp only [Ideal.ofBits_def, Ideal.ofBits_zero_f32]

/-- The printed index maps over the grid: the array's window and the output's sit at block (t, 0), the four rows' at (0, 0). -/
theorem idx_facts11 : ∀ t : Fin cfg11.N, win11_0.index t (0 : Fin 2) = t.val ∧ win11_0.index t (1 : Fin 2) = 0
    ∧ win11_5.index t (0 : Fin 2) = t.val ∧ win11_5.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0 :=
  (by decide +kernel : ∀ t : Fin grid11.N, _)

/-- Entry (p, q) of point t's block of the array read is the array's entry (t·10000 + p, q). -/
theorem emb11_0 (t : Fin cfg11.N) (p : Fin 10000) (q : Fin 32) (P : Fin 100000) (hP : P.val = t.val * 10000 + p.val) :
    ((cfg11.win 0).blk t).view.emb (ix2 p q) = ix2 P q := by
  obtain ⟨e0, e1, -⟩ := idx_facts11 t
  funext a; apply Fin.ext
  match a with
  | ⟨0, _⟩ => show win11_0.index t (0 : Fin 2) * 10000 + 1 * p.val = P.val; rw [e0, hP]; omega
  | ⟨1, _⟩ => show win11_0.index t (1 : Fin 2) * 32 + 1 * q.val = q.val; rw [e1]; omega

/-- The same for the output's block. -/
theorem emb11_5 (t : Fin cfg11.N) (p : Fin 10000) (q : Fin 32) (P : Fin 100000) (hP : P.val = t.val * 10000 + p.val) :
    ((cfg11.win 5).blk t).view.emb (ix2 p q) = ix2 P q := by
  obtain ⟨-, -, e0, e1, -⟩ := idx_facts11 t
  funext a; apply Fin.ext
  match a with
  | ⟨0, _⟩ => show win11_5.index t (0 : Fin 2) * 10000 + 1 * p.val = P.val; rw [e0, hP]; omega
  | ⟨1, _⟩ => show win11_5.index t (1 : Fin 2) * 32 + 1 * q.val = q.val; rw [e1]; omega

/-- Each row's block is the row itself at every point. -/
theorem emb11_1 (t : Fin cfg11.N) (q : Fin 32) : ((cfg11.win 1).blk t).view.emb (ix2 (0 : Fin 1) q) = ix2 (0 : Fin 1) q := by
  obtain ⟨-, -, -, -, e0, e1, -⟩ := idx_facts11 t
  funext a; apply Fin.ext
  match a with
  | ⟨0, _⟩ => show win11_1.index t (0 : Fin 2) * 1 + 1 * 0 = 0; rw [e0]
  | ⟨1, _⟩ => show win11_1.index t (1 : Fin 2) * 32 + 1 * q.val = q.val; rw [e1]; omega
theorem emb11_2 (t : Fin cfg11.N) (q : Fin 32) : ((cfg11.win 2).blk t).view.emb (ix2 (0 : Fin 1) q) = ix2 (0 : Fin 1) q := by
  obtain ⟨-, -, -, -, -, -, e0, e1, -⟩ := idx_facts11 t
  funext a; apply Fin.ext
  match a with
  | ⟨0, _⟩ => show win11_2.index t (0 : Fin 2) * 1 + 1 * 0 = 0; rw [e0]
  | ⟨1, _⟩ => show win11_2.index t (1 : Fin 2) * 32 + 1 * q.val = q.val; rw [e1]; omega
theorem emb11_3 (t : Fin cfg11.N) (q : Fin 32) : ((cfg11.win 3).blk t).view.emb (ix2 (0 : Fin 1) q) = ix2 (0 : Fin 1) q := by
  obtain ⟨-, -, -, -, -, -, -, -, e0, e1, -⟩ := idx_facts11 t
  funext a; apply Fin.ext
  match a with
  | ⟨0, _⟩ => show win11_3.index t (0 : Fin 2) * 1 + 1 * 0 = 0; rw [e0]
  | ⟨1, _⟩ => show win11_3.index t (1 : Fin 2) * 32 + 1 * q.val = q.val; rw [e1]; omega
theorem emb11_4 (t : Fin cfg11.N) (q : Fin 32) : ((cfg11.win 4).blk t).view.emb (ix2 (0 : Fin 1) q) = ix2 (0 : Fin 1) q := by
  obtain ⟨-, -, -, -, -, -, -, -, -, -, e0, e1⟩ := idx_facts11 t
  funext a; apply Fin.ext
  match a with
  | ⟨0, _⟩ => show win11_4.index t (0 : Fin 2) * 1 + 1 * 0 = 0; rw [e0]
  | ⟨1, _⟩ => show win11_4.index t (1 : Fin 2) * 32 + 1 * q.val = q.val; rw [e1]; omega

variable (V : (c : Dev nD) → (b : Ref sig .tc) → Buf (Elt Ideal) ((c : Thread nD τ).loc b))

/-- Point t's block of the array read, at (p, q): the array at (t·10000 + p, q). -/
theorem iblk11_0_at (c : Dev nD) (t : Fin cfg11.N) (p : Fin 10000) (q : Fin 32) (P : Fin 100000) (hP : P.val = t.val * 10000 + p.val) :
    (iblk11 V c 0 t : S10000x32.Idx → EReal) (ix2 p q) = (V c (Pipeline.arrRef spec11 0) : S100000x32.Idx → EReal) (ix2 P q) := by
  unfold iblk11
  rw [View.read_apply, emb11_0 t p q P hP]
  rfl
/-- Each row's block at (0, q): the row at (0, q). -/
theorem iblk11_1_at (c : Dev nD) (t : Fin cfg11.N) (q : Fin 32) :
    (iblk11 V c 1 t : S1x32.Idx → EReal) (ix2 0 q) = (V c (Pipeline.arrRef spec11 1) : S1x32.Idx → EReal) (ix2 0 q) := by
  unfold iblk11
  rw [View.read_apply, emb11_1 t q]
  rfl
theorem iblk11_2_at (c : Dev nD) (t : Fin cfg11.N) (q : Fin 32) :
    (iblk11 V c 2 t : S1x32.Idx → EReal) (ix2 0 q) = (V c (Pipeline.arrRef spec11 2) : S1x32.Idx → EReal) (ix2 0 q) := by
  unfold iblk11
  rw [View.read_apply, emb11_2 t q]
  rfl
theorem iblk11_3_at (c : Dev nD) (t : Fin cfg11.N) (q : Fin 32) :
    (iblk11 V c 3 t : S1x32.Idx → EReal) (ix2 0 q) = (V c (Pipeline.arrRef spec11 3) : S1x32.Idx → EReal) (ix2 0 q) := by
  unfold iblk11
  rw [View.read_apply, emb11_3 t q]
  rfl
theorem iblk11_4_at (c : Dev nD) (t : Fin cfg11.N) (q : Fin 32) :
    (iblk11 V c 4 t : S1x32.Idx → EReal) (ix2 0 q) = (V c (Pipeline.arrRef spec11 4) : S1x32.Idx → EReal) (ix2 0 q) := by
  unfold iblk11
  rw [View.read_apply, emb11_4 t q]
  rfl
/-- Point t's block of a whole-array function read back at (p, q): the function at (t·10000 + p, q). -/
theorem read_blk11_5_at (G : S100000x32.Idx → EReal) (t : Fin cfg11.N) (p : Fin 10000) (q : Fin 32) (P : Fin 100000) (hP : P.val = t.val * 10000 + p.val) :
    (((cfg11.win 5).blk t).view.read (Elt Ideal) G : S10000x32.Idx → EReal) (ix2 p q) = G (ix2 P q) := by
  rw [View.read_apply, emb11_5 t p q P hP]
  rfl

set_option maxHeartbeats 1000000 in
/-- What point t writes back is its block of that one function of the region's entry contents. -/
theorem flushed11_5_eq (c : Dev nD) (t : Fin cfg11.N) :
    (dat11 V c).flushed 5 t = ((cfg11.win 5).blk t).view.read (Elt Ideal)
      (bnRelu11 (V c (Pipeline.arrRef spec11 0)) (V c (Pipeline.arrRef spec11 1)) (V c (Pipeline.arrRef spec11 2)) (V c (Pipeline.arrRef spec11 3)) (V c (Pipeline.arrRef spec11 4))) := by
  show (cfg11.win 5).cut (grid11.coords t) ((dat11 V c).after 5 t) = _
  rw [after11_5]
  unfold out11_5
  rw [View.canon_unit_zero zeroOff11]
  simp only [View.ld_unit_zero (S := S10000x32) zeroOff11, View.ld_unit_zero (S := S1x32) zeroOff11]
  funext j
  obtain ⟨p, q, rfl⟩ : ∃ (p : Fin 10000) (q : Fin 32), j = ix2 p q := ⟨j 0, j 1, eq_ix2 j⟩
  have ht : t.val < 10 := lt_of_lt_of_eq t.isLt N_11
  have hP : t.val * 10000 + p.val < 100000 := by omega
  refine (bnPay11_apply (iblk11 V c 0 t) (iblk11 V c 1 t) (iblk11 V c 2 t) (iblk11 V c 3 t) (iblk11 V c 4 t) p q).trans ?_
  refine Eq.trans ?_ (read_blk11_5_at _ t p q ⟨t.val * 10000 + p.val, hP⟩ rfl).symm
  rw [bnRelu11_apply, iblk11_0_at V c t p q ⟨t.val * 10000 + p.val, hP⟩ rfl, iblk11_1_at V c t q, iblk11_2_at V c t q, iblk11_3_at V c t q, iblk11_4_at V c t q]

/-- An index of the array is in point t's block iff each coordinate is in the block's range on its axis. -/
theorem mem_blk11_5 (t : Fin cfg11.N) (i : S100000x32.Idx) :
    i ∈ ((cfg11.win 5).blk t).view.set ↔ ∀ a : Fin 2, win11_5.index t a * S10000x32.size a ≤ (i a).val ∧ (i a).val < win11_5.index t a * S10000x32.size a + S10000x32.size a := by
  show i ∈ ((View.whole main_v203).slice (win11_5.rect t)).set ↔ _
  rw [View.set_slice_whole, Rect.mem_set_unit]
  exact Iff.rfl

/-- Row r of the array is in the block of point r / 10000: the ten blocks fill the array. -/
theorem covered11_5 (i : S100000x32.Idx) : ∃ t : Fin cfg11.N, (cfg11.win 5).flush t = true ∧ i ∈ ((cfg11.win 5).blk t).view.set := by
  have hi0 : (i 0).val < 100000 := idx2_lt0 i
  have hi1 : (i 1).val < 32 := idx2_lt1 i
  have hN : grid11.N = 10 := N_11
  have hlt : (i 0).val / 10000 < grid11.N := by rw [hN]; omega
  obtain ⟨-, -, e0, e1, -⟩ := idx_facts11 ⟨(i 0).val / 10000, hlt⟩
  refine ⟨⟨(i 0).val / 10000, hlt⟩, flush11_5 _, ?_⟩
  rw [mem_blk11_5]
  intro a
  match a with
  | ⟨0, _⟩ =>
    show win11_5.index ⟨(i 0).val / 10000, hlt⟩ (0 : Fin 2) * 10000 ≤ (i 0).val ∧ (i 0).val < win11_5.index ⟨(i 0).val / 10000, hlt⟩ (0 : Fin 2) * 10000 + 10000
    rw [e0]; show (i 0).val / 10000 * 10000 ≤ (i 0).val ∧ (i 0).val < (i 0).val / 10000 * 10000 + 10000; omega
  | ⟨1, _⟩ =>
    show win11_5.index ⟨(i 0).val / 10000, hlt⟩ (1 : Fin 2) * 32 ≤ (i 1).val ∧ (i 1).val < win11_5.index ⟨(i 0).val / 10000, hlt⟩ (1 : Fin 2) * 32 + 32
    rw [e1]; omega

/-- The array the region leaves is that function of its entry contents. -/
theorem final11_5 (c : Dev nD) : (dat11 V c).arrAt 5 cfg11.N
    = bnRelu11 (V c (Pipeline.arrRef spec11 0)) (V c (Pipeline.arrRef spec11 1)) (V c (Pipeline.arrRef spec11 2)) (V c (Pipeline.arrRef spec11 3)) (V c (Pipeline.arrRef spec11 4)) :=
  (dat11 V c).arrAt_eq_of_cover 5 _ (fun t _ => flushed11_5_eq V c t) covered11_5

/-- Region 11's output as one function of the buffers at the region's entry. -/
theorem O11_0_fun (c : Dev nD) :
    O11_0 (F := Ideal) m c = bnRelu11 (W25 (F := Ideal) m c main_v194_0) (W25 (F := Ideal) m c main_v196) (W25 (F := Ideal) m c main_v200)
      (W25 (F := Ideal) m c main_v201) (W25 (F := Ideal) m c main_v202) :=
  final11_5 (E25 m) c

/-- Region 11's output at (p, q): the entry of main_v194_0 less the mean row, times the reciprocal square root of the
    variance row cut off at 0 and shifted, times the scale row, plus the bias row, cut off at 0; rows read at (0, q). -/
theorem O11_0_eq (c : Dev nD) (p : Fin 100000) (q : Fin 32) :
    (O11_0 (F := Ideal) m c : S100000x32.Idx → EReal) (ix2 p q)
      = bnRelu11 (W25 (F := Ideal) m c main_v194_0) (W25 (F := Ideal) m c main_v196) (W25 (F := Ideal) m c main_v200)
          (W25 (F := Ideal) m c main_v201) (W25 (F := Ideal) m c main_v202) (ix2 p q) :=
  congrFun (O11_0_fun m c) (ix2 p q)

/-- The same with the five entry buffers named: for arrays equal to them, the output at (p, q) written out. -/
theorem O11_0_at (c : Dev nD) (X : S100000x32.Idx → EReal) (mean var scale bias : S1x32.Idx → EReal)
    (hX : W25 (F := Ideal) m c main_v194_0 = X) (hmean : W25 (F := Ideal) m c main_v196 = mean) (hvar : W25 (F := Ideal) m c main_v200 = var)
    (hscale : W25 (F := Ideal) m c main_v201 = scale) (hbias : W25 (F := Ideal) m c main_v202 = bias) (p : Fin 100000) (q : Fin 32) :
    (O11_0 (F := Ideal) m c : S100000x32.Idx → EReal) (ix2 p q)
      = max ((((X (ix2 p q) - mean (ix2 0 q)) * Ideal.rsqrt (max (var (ix2 0 q)) 0 + Ideal.ofBits .f32 0x3727C5AC#32))
              * scale (ix2 0 q) + bias (ix2 0 q))) 0 := by
  rw [O11_0_eq, hX, hmean, hvar, hscale, hbias, bnRelu11_apply]

end Cert.KernelIdeal.Body

end
-- ==== Proof.KIRealRel1.lean ====
/-
  The arrays of relation 1 are real.

  Under the precondition every float input is real, entry by entry. Relation 1's first dense layer x·W + b is then real;
  its degree normalisers rsqrt(max(deg, 1)) are real, so its edge norms are; the aggregated array (an accumulating scatter
  into zeros of gathered rows of the layer scaled by the edge norms) is real; the mixing weight is an entry of a float
  input; the mixed array g·agg + (1 - g)·h is real, and so are its two accumulated rows (finite sums of reals and of
  products of reals), the mean and variance rows (quotients by 100000 and a difference), the scale and bias rows (rows
  of float inputs), and the normalised array max(((x − mean)·rsqrt(max(var, 0) + ε))·scale + bias, 0), ε a positive real.
  The second layer repeats the argument from the normalised array of the first.
-/
import proofs.«140713_j1864015806535_2_alg».proof.Proof.KIFrameBase
import proofs.«140713_j1864015806535_2_alg».proof.Proof.KIValDense6
import proofs.«140713_j1864015806535_2_alg».proof.Proof.KIValMix7
import proofs.«140713_j1864015806535_2_alg».proof.Proof.KIValBn8
import proofs.«140713_j1864015806535_2_alg».proof.Proof.KIValDense9
import proofs.«140713_j1864015806535_2_alg».proof.Proof.KIValMix10
import proofs.«140713_j1864015806535_2_alg».proof.Proof.KIValBn11
import proofs.«140713_j1864015806535_2_alg».proof.Proof.KIPreReal
import proofs.«140713_j1864015806535_2_alg».proof.Proof.LibRealArrays
import Idealize.ShloMosaic.Lib.StableHlo.Run

set_option maxRecDepth 65536

noncomputable section

namespace Cert.KernelIdeal.Body

open Cert.KernelIdeal Cert.KernelIdeal.Gen Idealize.ShloMosaic Idealize.ShloMosaic.TcCoe Idealize.ShloMosaic.ValueIdx Idealize.SL.Sem
open Idealize.ShloMosaic.StableHlo
open Idealize.ShloMosaic.Pipeline (Dat Cfg Window)
open Cert.LibRealArrays Cert.LibRealEntries Cert.LibAffineStage

variable (m : (ℓ : Loc nD τ sig) → Buf (Elt Ideal) ℓ)

/-! ## Argument arrays no item has written: as launched -/

theorem rl1_W12_arg3 (c : Dev nD) :
    W12 (F := Ideal) m c main_arg3 = m ((c.tc : Thread nD τ).loc main_arg3) :=
  (congrFun (hV12 m c) _).symm.trans <|
    (GenP.V12_of m (outs m) c main_arg3 (by decide)).trans <|
    (GenP.V11_of m (outs m) c main_arg3 (by decide)).trans <|
    (GenP.V10_of m (outs m) c main_arg3 (by decide)).trans <|
    (GenP.V9_of m (outs m) c main_arg3 (by decide)).trans <|
    (GenP.V8_of m (outs m) c main_arg3 (by decide)).trans <|
    (GenP.V7_of m (outs m) c main_arg3 (by decide)).trans <|
    (GenP.V6_of m (outs m) c main_arg3 (by decide)).trans <|
    (GenP.V5_of m (outs m) c main_arg3 (by decide)).trans <|
    (GenP.V4_of m (outs m) c main_arg3 (by decide)).trans <|
    (GenP.V3_of m (outs m) c main_arg3 (by decide)).trans <|
    (GenP.V2_of m (outs m) c main_arg3 (by decide)).trans <|
    (GenP.V1_of m c main_arg3 (by decide)).trans rfl
theorem rl1_W12_arg4 (c : Dev nD) :
    W12 (F := Ideal) m c main_arg4 = m ((c.tc : Thread nD τ).loc main_arg4) :=
  (congrFun (hV12 m c) _).symm.trans <|
    (GenP.V12_of m (outs m) c main_arg4 (by decide)).trans <|
    (GenP.V11_of m (outs m) c main_arg4 (by decide)).trans <|
    (GenP.V10_of m (outs m) c main_arg4 (by decide)).trans <|
    (GenP.V9_of m (outs m) c main_arg4 (by decide)).trans <|
    (GenP.V8_of m (outs m) c main_arg4 (by decide)).trans <|
    (GenP.V7_of m (outs m) c main_arg4 (by decide)).trans <|
    (GenP.V6_of m (outs m) c main_arg4 (by decide)).trans <|
    (GenP.V5_of m (outs m) c main_arg4 (by decide)).trans <|
    (GenP.V4_of m (outs m) c main_arg4 (by decide)).trans <|
    (GenP.V3_of m (outs m) c main_arg4 (by decide)).trans <|
    (GenP.V2_of m (outs m) c main_arg4 (by decide)).trans <|
    (GenP.V1_of m c main_arg4 (by decide)).trans rfl
theorem rl1_W15_arg0 (c : Dev nD) :
    W15 (F := Ideal) m c main_arg0 = m ((c.tc : Thread nD τ).loc main_arg0) :=
  (congrFun (hV15 m c) _).symm.trans <|
    (GenP.V15_of m (outs m) c main_arg0 (by decide)).trans <|
    (GenP.V14_of m (outs m) c main_arg0 (by decide)).trans <|
    (GenP.V13_of m (outs m) c main_arg0 (by decide)).trans <|
    (GenP.V12_of m (outs m) c main_arg0 (by decide)).trans <|
    (GenP.V11_of m (outs m) c main_arg0 (by decide)).trans <|
    (GenP.V10_of m (outs m) c main_arg0 (by decide)).trans <|
    (GenP.V9_of m (outs m) c main_arg0 (by decide)).trans <|
    (GenP.V8_of m (outs m) c main_arg0 (by decide)).trans <|
    (GenP.V7_of m (outs m) c main_arg0 (by decide)).trans <|
    (GenP.V6_of m (outs m) c main_arg0 (by decide)).trans <|
    (GenP.V5_of m (outs m) c main_arg0 (by decide)).trans <|
    (GenP.V4_of m (outs m) c main_arg0 (by decide)).trans <|
    (GenP.V3_of m (outs m) c main_arg0 (by decide)).trans <|
    (GenP.V2_of m (outs m) c main_arg0 (by decide)).trans <|
    (GenP.V1_of m c main_arg0 (by decide)).trans rfl
theorem rl1_W16_arg7 (c : Dev nD) :
    W16 (F := Ideal) m c main_arg7 = m ((c.tc : Thread nD τ).loc main_arg7) :=
  (congrFun (hV16 m c) _).symm.trans <|
    (GenP.V16_of m (outs m) c main_arg7 (by decide)).trans <|
    (GenP.V15_of m (outs m) c main_arg7 (by decide)).trans <|
    (GenP.V14_of m (outs m) c main_arg7 (by decide)).trans <|
    (GenP.V13_of m (outs m) c main_arg7 (by decide)).trans <|
    (GenP.V12_of m (outs m) c main_arg7 (by decide)).trans <|
    (GenP.V11_of m (outs m) c main_arg7 (by decide)).trans <|
    (GenP.V10_of m (outs m) c main_arg7 (by decide)).trans <|
    (GenP.V9_of m (outs m) c main_arg7 (by decide)).trans <|
    (GenP.V8_of m (outs m) c main_arg7 (by decide)).trans <|
    (GenP.V7_of m (outs m) c main_arg7 (by decide)).trans <|
    (GenP.V6_of m (outs m) c main_arg7 (by decide)).trans <|
    (GenP.V5_of m (outs m) c main_arg7 (by decide)).trans <|
    (GenP.V4_of m (outs m) c main_arg7 (by decide)).trans <|
    (GenP.V3_of m (outs m) c main_arg7 (by decide)).trans <|
    (GenP.V2_of m (outs m) c main_arg7 (by decide)).trans <|
    (GenP.V1_of m c main_arg7 (by decide)).trans rfl
theorem rl1_W16_arg9 (c : Dev nD) :
    W16 (F := Ideal) m c main_arg9 = m ((c.tc : Thread nD τ).loc main_arg9) :=
  (congrFun (hV16 m c) _).symm.trans <|
    (GenP.V16_of m (outs m) c main_arg9 (by decide)).trans <|
    (GenP.V15_of m (outs m) c main_arg9 (by decide)).trans <|
    (GenP.V14_of m (outs m) c main_arg9 (by decide)).trans <|
    (GenP.V13_of m (outs m) c main_arg9 (by decide)).trans <|
    (GenP.V12_of m (outs m) c main_arg9 (by decide)).trans <|
    (GenP.V11_of m (outs m) c main_arg9 (by decide)).trans <|
    (GenP.V10_of m (outs m) c main_arg9 (by decide)).trans <|
    (GenP.V9_of m (outs m) c main_arg9 (by decide)).trans <|
    (GenP.V8_of m (outs m) c main_arg9 (by decide)).trans <|
    (GenP.V7_of m (outs m) c main_arg9 (by decide)).trans <|
    (GenP.V6_of m (outs m) c main_arg9 (by decide)).trans <|
    (GenP.V5_of m (outs m) c main_arg9 (by decide)).trans <|
    (GenP.V4_of m (outs m) c main_arg9 (by decide)).trans <|
    (GenP.V3_of m (outs m) c main_arg9 (by decide)).trans <|
    (GenP.V2_of m (outs m) c main_arg9 (by decide)).trans <|
    (GenP.V1_of m c main_arg9 (by decide)).trans rfl
theorem rl1_W16_arg10 (c : Dev nD) :
    W16 (F := Ideal) m c main_arg10 = m ((c.tc : Thread nD τ).loc main_arg10) :=
  (congrFun (hV16 m c) _).symm.trans <|
    (GenP.V16_of m (outs m) c main_arg10 (by decide)).trans <|
    (GenP.V15_of m (outs m) c main_arg10 (by decide)).trans <|
    (GenP.V14_of m (outs m) c main_arg10 (by decide)).trans <|
    (GenP.V13_of m (outs m) c main_arg10 (by decide)).trans <|
    (GenP.V12_of m (outs m) c main_arg10 (by decide)).trans <|
    (GenP.V11_of m (outs m) c main_arg10 (by decide)).trans <|
    (GenP.V10_of m (outs m) c main_arg10 (by decide)).trans <|
    (GenP.V9_of m (outs m) c main_arg10 (by decide)).trans <|
    (GenP.V8_of m (outs m) c main_arg10 (by decide)).trans <|
    (GenP.V7_of m (outs m) c main_arg10 (by decide)).trans <|
    (GenP.V6_of m (outs m) c main_arg10 (by decide)).trans <|
    (GenP.V5_of m (outs m) c main_arg10 (by decide)).trans <|
    (GenP.V4_of m (outs m) c main_arg10 (by decide)).trans <|
    (GenP.V3_of m (outs m) c main_arg10 (by decide)).trans <|
    (GenP.V2_of m (outs m) c main_arg10 (by decide)).trans <|
    (GenP.V1_of m c main_arg10 (by decide)).trans rfl
theorem rl1_W20_arg5 (c : Dev nD) :
    W20 (F := Ideal) m c main_arg5 = m ((c.tc : Thread nD τ).loc main_arg5) :=
  (congrFun (hV20 m c) _).symm.trans <|
    (GenP.V20_of m (outs m) c main_arg5 (by decide)).trans <|
    (GenP.V19_of m (outs m) c main_arg5 (by decide)).trans <|
    (GenP.V18_of m (outs m) c main_arg5 (by decide)).trans <|
    (GenP.V17_of m (outs m) c main_arg5 (by decide)).trans <|
    (GenP.V16_of m (outs m) c main_arg5 (by decide)).trans <|
    (GenP.V15_of m (outs m) c main_arg5 (by decide)).trans <|
    (GenP.V14_of m (outs m) c main_arg5 (by decide)).trans <|
    (GenP.V13_of m (outs m) c main_arg5 (by decide)).trans <|
    (GenP.V12_of m (outs m) c main_arg5 (by decide)).trans <|
    (GenP.V11_of m (outs m) c main_arg5 (by decide)).trans <|
    (GenP.V10_of m (outs m) c main_arg5 (by decide)).trans <|
    (GenP.V9_of m (outs m) c main_arg5 (by decide)).trans <|
    (GenP.V8_of m (outs m) c main_arg5 (by decide)).trans <|
    (GenP.V7_of m (outs m) c main_arg5 (by decide)).trans <|
    (GenP.V6_of m (outs m) c main_arg5 (by decide)).trans <|
    (GenP.V5_of m (outs m) c main_arg5 (by decide)).trans <|
    (GenP.V4_of m (outs m) c main_arg5 (by decide)).trans <|
    (GenP.V3_of m (outs m) c main_arg5 (by decide)).trans <|
    (GenP.V2_of m (outs m) c main_arg5 (by decide)).trans <|
    (GenP.V1_of m c main_arg5 (by decide)).trans rfl
theorem rl1_W20_arg6 (c : Dev nD) :
    W20 (F := Ideal) m c main_arg6 = m ((c.tc : Thread nD τ).loc main_arg6) :=
  (congrFun (hV20 m c) _).symm.trans <|
    (GenP.V20_of m (outs m) c main_arg6 (by decide)).trans <|
    (GenP.V19_of m (outs m) c main_arg6 (by decide)).trans <|
    (GenP.V18_of m (outs m) c main_arg6 (by decide)).trans <|
    (GenP.V17_of m (outs m) c main_arg6 (by decide)).trans <|
    (GenP.V16_of m (outs m) c main_arg6 (by decide)).trans <|
    (GenP.V15_of m (outs m) c main_arg6 (by decide)).trans <|
    (GenP.V14_of m (outs m) c main_arg6 (by decide)).trans <|
    (GenP.V13_of m (outs m) c main_arg6 (by decide)).trans <|
    (GenP.V12_of m (outs m) c main_arg6 (by decide)).trans <|
    (GenP.V11_of m (outs m) c main_arg6 (by decide)).trans <|
    (GenP.V10_of m (outs m) c main_arg6 (by decide)).trans <|
    (GenP.V9_of m (outs m) c main_arg6 (by decide)).trans <|
    (GenP.V8_of m (outs m) c main_arg6 (by decide)).trans <|
    (GenP.V7_of m (outs m) c main_arg6 (by decide)).trans <|
    (GenP.V6_of m (outs m) c main_arg6 (by decide)).trans <|
    (GenP.V5_of m (outs m) c main_arg6 (by decide)).trans <|
    (GenP.V4_of m (outs m) c main_arg6 (by decide)).trans <|
    (GenP.V3_of m (outs m) c main_arg6 (by decide)).trans <|
    (GenP.V2_of m (outs m) c main_arg6 (by decide)).trans <|
    (GenP.V1_of m c main_arg6 (by decide)).trans rfl
theorem rl1_W22_arg8 (c : Dev nD) :
    W22 (F := Ideal) m c main_arg8 = m ((c.tc : Thread nD τ).loc main_arg8) :=
  (congrFun (hV22 m c) _).symm.trans <|
    (GenP.V22_of m (outs m) c main_arg8 (by decide)).trans <|
    (GenP.V21_of m (outs m) c main_arg8 (by decide)).trans <|
    (GenP.V20_of m (outs m) c main_arg8 (by decide)).trans <|
    (GenP.V19_of m (outs m) c main_arg8 (by decide)).trans <|
    (GenP.V18_of m (outs m) c main_arg8 (by decide)).trans <|
    (GenP.V17_of m (outs m) c main_arg8 (by decide)).trans <|
    (GenP.V16_of m (outs m) c main_arg8 (by decide)).trans <|
    (GenP.V15_of m (outs m) c main_arg8 (by decide)).trans <|
    (GenP.V14_of m (outs m) c main_arg8 (by decide)).trans <|
    (GenP.V13_of m (outs m) c main_arg8 (by decide)).trans <|
    (GenP.V12_of m (outs m) c main_arg8 (by decide)).trans <|
    (GenP.V11_of m (outs m) c main_arg8 (by decide)).trans <|
    (GenP.V10_of m (outs m) c main_arg8 (by decide)).trans <|
    (GenP.V9_of m (outs m) c main_arg8 (by decide)).trans <|
    (GenP.V8_of m (outs m) c main_arg8 (by decide)).trans <|
    (GenP.V7_of m (outs m) c main_arg8 (by decide)).trans <|
    (GenP.V6_of m (outs m) c main_arg8 (by decide)).trans <|
    (GenP.V5_of m (outs m) c main_arg8 (by decide)).trans <|
    (GenP.V4_of m (outs m) c main_arg8 (by decide)).trans <|
    (GenP.V3_of m (outs m) c main_arg8 (by decide)).trans <|
    (GenP.V2_of m (outs m) c main_arg8 (by decide)).trans <|
    (GenP.V1_of m c main_arg8 (by decide)).trans rfl
theorem rl1_W22_arg11 (c : Dev nD) :
    W22 (F := Ideal) m c main_arg11 = m ((c.tc : Thread nD τ).loc main_arg11) :=
  (congrFun (hV22 m c) _).symm.trans <|
    (GenP.V22_of m (outs m) c main_arg11 (by decide)).trans <|
    (GenP.V21_of m (outs m) c main_arg11 (by decide)).trans <|
    (GenP.V20_of m (outs m) c main_arg11 (by decide)).trans <|
    (GenP.V19_of m (outs m) c main_arg11 (by decide)).trans <|
    (GenP.V18_of m (outs m) c main_arg11 (by decide)).trans <|
    (GenP.V17_of m (outs m) c main_arg11 (by decide)).trans <|
    (GenP.V16_of m (outs m) c main_arg11 (by decide)).trans <|
    (GenP.V15_of m (outs m) c main_arg11 (by decide)).trans <|
    (GenP.V14_of m (outs m) c main_arg11 (by decide)).trans <|
    (GenP.V13_of m (outs m) c main_arg11 (by decide)).trans <|
    (GenP.V12_of m (outs m) c main_arg11 (by decide)).trans <|
    (GenP.V11_of m (outs m) c main_arg11 (by decide)).trans <|
    (GenP.V10_of m (outs m) c main_arg11 (by decide)).trans <|
    (GenP.V9_of m (outs m) c main_arg11 (by decide)).trans <|
    (GenP.V8_of m (outs m) c main_arg11 (by decide)).trans <|
    (GenP.V7_of m (outs m) c main_arg11 (by decide)).trans <|
    (GenP.V6_of m (outs m) c main_arg11 (by decide)).trans <|
    (GenP.V5_of m (outs m) c main_arg11 (by decide)).trans <|
    (GenP.V4_of m (outs m) c main_arg11 (by decide)).trans <|
    (GenP.V3_of m (outs m) c main_arg11 (by decide)).trans <|
    (GenP.V2_of m (outs m) c main_arg11 (by decide)).trans <|
    (GenP.V1_of m c main_arg11 (by decide)).trans rfl
theorem rl1_W22_arg12 (c : Dev nD) :
    W22 (F := Ideal) m c main_arg12 = m ((c.tc : Thread nD τ).loc main_arg12) :=
  (congrFun (hV22 m c) _).symm.trans <|
    (GenP.V22_of m (outs m) c main_arg12 (by decide)).trans <|
    (GenP.V21_of m (outs m) c main_arg12 (by decide)).trans <|
    (GenP.V20_of m (outs m) c main_arg12 (by decide)).trans <|
    (GenP.V19_of m (outs m) c main_arg12 (by decide)).trans <|
    (GenP.V18_of m (outs m) c main_arg12 (by decide)).trans <|
    (GenP.V17_of m (outs m) c main_arg12 (by decide)).trans <|
    (GenP.V16_of m (outs m) c main_arg12 (by decide)).trans <|
    (GenP.V15_of m (outs m) c main_arg12 (by decide)).trans <|
    (GenP.V14_of m (outs m) c main_arg12 (by decide)).trans <|
    (GenP.V13_of m (outs m) c main_arg12 (by decide)).trans <|
    (GenP.V12_of m (outs m) c main_arg12 (by decide)).trans <|
    (GenP.V11_of m (outs m) c main_arg12 (by decide)).trans <|
    (GenP.V10_of m (outs m) c main_arg12 (by decide)).trans <|
    (GenP.V9_of m (outs m) c main_arg12 (by decide)).trans <|
    (GenP.V8_of m (outs m) c main_arg12 (by decide)).trans <|
    (GenP.V7_of m (outs m) c main_arg12 (by decide)).trans <|
    (GenP.V6_of m (outs m) c main_arg12 (by decide)).trans <|
    (GenP.V5_of m (outs m) c main_arg12 (by decide)).trans <|
    (GenP.V4_of m (outs m) c main_arg12 (by decide)).trans <|
    (GenP.V3_of m (outs m) c main_arg12 (by decide)).trans <|
    (GenP.V2_of m (outs m) c main_arg12 (by decide)).trans <|
    (GenP.V1_of m c main_arg12 (by decide)).trans rfl

/-! ## The relation's edge norms and region outputs, where later items read them -/

theorem rl1_W16_v131 (c : Dev nD) : W16 (F := Ideal) m c main_v131 = W15 (F := Ideal) m c main_v131 :=
  (congrFun (hV16 m c) _).symm.trans <|
    (GenP.V16_of m (outs m) c main_v131 (by decide)).trans (congrFun (hV15 m c) _)
theorem rl1_W22_v131 (c : Dev nD) : W22 (F := Ideal) m c main_v131 = W15 (F := Ideal) m c main_v131 :=
  (congrFun (hV22 m c) _).symm.trans <|
    (GenP.V22_of m (outs m) c main_v131 (by decide)).trans <|
    (GenP.V21_of m (outs m) c main_v131 (by decide)).trans <|
    (GenP.V20_of m (outs m) c main_v131 (by decide)).trans <|
    (GenP.V19_of m (outs m) c main_v131 (by decide)).trans <|
    (GenP.V18_of m (outs m) c main_v131 (by decide)).trans <|
    (GenP.V17_of m (outs m) c main_v131 (by decide)).trans <|
    (GenP.V16_of m (outs m) c main_v131 (by decide)).trans (congrFun (hV15 m c) _)
theorem rl1_W16_v137 (c : Dev nD) : W16 (F := Ideal) m c (Proc.devRef .tc main_v137) = O6_0 (F := Ideal) m c := by
  unfold W16; exact Function.update_self _ _ _
theorem rl1_W17_v137 (c : Dev nD) : (W17 (F := Ideal) m c main_v137 : S100000x64.Idx → EReal) = O6_0 (F := Ideal) m c := by
  show StableHlo.after hostOps7 (W16 (F := Ideal) m c) (Proc.devRef .tc main_v137) = _
  rw [StableHlo.after_of_writes_sub hostOps7 _ GenP.hostOps7_writes (by decide)]
  exact rl1_W16_v137 m c
theorem rl1_W18_v158_0 (c : Dev nD) : W18 (F := Ideal) m c (Proc.devRef .tc main_v158_0) = O7_0 (F := Ideal) m c := by
  unfold W18
  simp only [Function.update_self,
    Function.update_of_ne (StableHlo.devRef_ne_of_ne (by decide : main_v158_0 ≠ main_v158_2) : (Proc.devRef .tc main_v158_0 : DevRef τ sig) ≠ Proc.devRef .tc main_v158_2),
    Function.update_of_ne (StableHlo.devRef_ne_of_ne (by decide : main_v158_0 ≠ main_v158_1) : (Proc.devRef .tc main_v158_0 : DevRef τ sig) ≠ Proc.devRef .tc main_v158_1)]
theorem rl1_W18_v158_1 (c : Dev nD) : W18 (F := Ideal) m c (Proc.devRef .tc main_v158_1) = O7_1 (F := Ideal) m c := by
  unfold W18
  simp only [Function.update_self,
    Function.update_of_ne (StableHlo.devRef_ne_of_ne (by decide : main_v158_1 ≠ main_v158_2) : (Proc.devRef .tc main_v158_1 : DevRef τ sig) ≠ Proc.devRef .tc main_v158_2)]
theorem rl1_W18_v158_2 (c : Dev nD) : W18 (F := Ideal) m c (Proc.devRef .tc main_v158_2) = O7_2 (F := Ideal) m c := by
  unfold W18
  simp only [Function.update_self]
theorem rl1_W18_of (c : Dev nD) (r : Ref sig .tc) (h : r ∉ ([main_v158_0, main_v158_1, main_v158_2] : List (Ref sig .tc))) :
    W18 (F := Ideal) m c r = W17 (F := Ideal) m c r :=
  (congrFun (hV18 m c) _).symm.trans <| (GenP.V18_of m (outs m) c r h).trans (congrFun (hV17 m c) _)
theorem rl1_W20_v167 (c : Dev nD) : W20 (F := Ideal) m c (Proc.devRef .tc main_v167) = O8_0 (F := Ideal) m c := by
  unfold W20; exact Function.update_self _ _ _
theorem rl1_W21_v167 (c : Dev nD) : (W21 (F := Ideal) m c main_v167 : S100000x64.Idx → EReal) = O8_0 (F := Ideal) m c := by
  show StableHlo.after hostOps9 (W20 (F := Ideal) m c) (Proc.devRef .tc main_v167) = _
  rw [StableHlo.after_of_writes_sub hostOps9 _ GenP.hostOps9_writes (by decide)]
  exact rl1_W20_v167 m c
theorem rl1_W22_v173 (c : Dev nD) : W22 (F := Ideal) m c (Proc.devRef .tc main_v173) = O9_0 (F := Ideal) m c := by
  unfold W22; exact Function.update_self _ _ _
theorem rl1_W23_v173 (c : Dev nD) : (W23 (F := Ideal) m c main_v173 : S100000x32.Idx → EReal) = O9_0 (F := Ideal) m c := by
  show StableHlo.after hostOps10 (W22 (F := Ideal) m c) (Proc.devRef .tc main_v173) = _
  rw [StableHlo.after_of_writes_sub hostOps10 _ GenP.hostOps10_writes (by decide)]
  exact rl1_W22_v173 m c
theorem rl1_W24_v194_0 (c : Dev nD) : W24 (F := Ideal) m c (Proc.devRef .tc main_v194_0) = O10_0 (F := Ideal) m c := by
  unfold W24
  simp only [Function.update_self,
    Function.update_of_ne (StableHlo.devRef_ne_of_ne (by decide : main_v194_0 ≠ main_v194_2) : (Proc.devRef .tc main_v194_0 : DevRef τ sig) ≠ Proc.devRef .tc main_v194_2),
    Function.update_of_ne (StableHlo.devRef_ne_of_ne (by decide : main_v194_0 ≠ main_v194_1) : (Proc.devRef .tc main_v194_0 : DevRef τ sig) ≠ Proc.devRef .tc main_v194_1)]
theorem rl1_W24_v194_1 (c : Dev nD) : W24 (F := Ideal) m c (Proc.devRef .tc main_v194_1) = O10_1 (F := Ideal) m c := by
  unfold W24
  simp only [Function.update_self,
    Function.update_of_ne (StableHlo.devRef_ne_of_ne (by decide : main_v194_1 ≠ main_v194_2) : (Proc.devRef .tc main_v194_1 : DevRef τ sig) ≠ Proc.devRef .tc main_v194_2)]
theorem rl1_W24_v194_2 (c : Dev nD) : W24 (F := Ideal) m c (Proc.devRef .tc main_v194_2) = O10_2 (F := Ideal) m c := by
  unfold W24
  simp only [Function.update_self]
theorem rl1_W24_of (c : Dev nD) (r : Ref sig .tc) (h : r ∉ ([main_v194_0, main_v194_1, main_v194_2] : List (Ref sig .tc))) :
    W24 (F := Ideal) m c r = W23 (F := Ideal) m c r :=
  (congrFun (hV24 m c) _).symm.trans <| (GenP.V24_of m (outs m) c r h).trans (congrFun (hV23 m c) _)

/-! ## Layer 1: the dense layer -/

set_option maxHeartbeats 4000000 in
/-- Each edge's norm, the product of the two gathered degree normalisers rsqrt(max(deg, 1)), is real. -/
theorem W15_v131_allReal (c : Dev nD) :
    AllReal (W15 (F := Ideal) m c main_v131 : S1600000.Idx → EReal) := by
  dsimp only [W15, hostOps6_2]
  after_results
  refine AllReal.mulf (AllReal.gather ?_ _ _) (AllReal.gather ?_ _ _) <;>
  · refine allReal_hostRsqrt_max_const_one (AllReal.scatterAdd _ _ ?_ ?_) _ _
    · exact allReal_broadcastInDim_constant _ _ _ isReal_ofBits_zero_f32
    · exact allReal_broadcastInDim_constant _ _ _ isReal_ofBits_one_f32

set_option maxHeartbeats 4000000 in
/-- The weight of layer 1 (the relation's slab of the weights argument, as a matrix) is all real. -/
theorem W15_v133_allReal (hpre : Cert.Pre_KernelIdeal m) (c : Dev nD) :
    AllReal (W15 (F := Ideal) m c main_v133 : S128x64.Idx → EReal) := by
  dsimp only [W15, hostOps6_2]
  after_results
  rw [rl1_W12_arg3]
  exact ((main_arg3_allReal m hpre c).extractStridedSlice _ _).shapeCast _

set_option maxHeartbeats 4000000 in
/-- The bias row of layer 1 (the relation's row of the bias argument, as a 1×64 array) is all real. -/
theorem W15_v136_allReal (hpre : Cert.Pre_KernelIdeal m) (c : Dev nD) :
    AllReal (W15 (F := Ideal) m c main_v136 : S1x64.Idx → EReal) := by
  dsimp only [W15, hostOps6_2]
  after_results
  rw [rl1_W12_arg4]
  exact (((main_arg4_allReal m hpre c).extractStridedSlice _ _).shapeCast _).shapeCast _

/-- The first dense layer of the relation, as its region leaves it, is all real. -/
theorem O6_0_allReal (hpre : Cert.Pre_KernelIdeal m) (c : Dev nD) :
    AllReal (O6_0 (F := Ideal) m c : S100000x64.Idx → EReal) := by
  rw [O6_0_eq_affine, rl1_W15_arg0]
  exact AllReal.affine 100000 128 64 (main_arg0_allReal m hpre c) (W15_v133_allReal m hpre c) (W15_v136_allReal m hpre c)

/-! ## Layer 1: what the mixing region reads -/

set_option maxHeartbeats 4000000 in
/-- The aggregated array of layer 1 is all real. -/
theorem W17_v150_allReal (hpre : Cert.Pre_KernelIdeal m) (c : Dev nD) :
    AllReal (W17 (F := Ideal) m c main_v150 : S100000x64.Idx → EReal) := by
  dsimp only [W17, hostOps7]
  after_results
  refine AllReal.scatterAdd _ _ (allReal_broadcastInDim_constant _ _ _ isReal_ofBits_zero_f32) ?_
  refine AllReal.mulf (AllReal.gather ?_ _ _) (AllReal.broadcastInDim (AllReal.broadcastInDim ?_ _ _) _ _)
  · rw [rl1_W16_v137]; exact O6_0_allReal m hpre c
  · rw [rl1_W16_v131]; exact W15_v131_allReal m c

set_option maxHeartbeats 4000000 in
/-- The mixing weight of layer 1 (one entry of the mixing weights argument, as a 1×1 array) is all real. -/
theorem W17_v157_allReal (hpre : Cert.Pre_KernelIdeal m) (c : Dev nD) :
    AllReal (W17 (F := Ideal) m c main_v157 : S1x1.Idx → EReal) := by
  dsimp only [W17, hostOps7]
  after_results
  rw [rl1_W16_arg7]
  exact (((main_arg7_allReal m hpre c).extractStridedSlice _ _).shapeCast _).shapeCast _

set_option maxHeartbeats 4000000 in
/-- The scale vector of layer 1 is all real. -/
theorem W17_v154_allReal (hpre : Cert.Pre_KernelIdeal m) (c : Dev nD) :
    AllReal (W17 (F := Ideal) m c main_v154 : S64.Idx → EReal) := by
  dsimp only [W17, hostOps7]
  after_results
  rw [rl1_W16_arg9]
  exact ((main_arg9_allReal m hpre c).extractStridedSlice _ _).shapeCast _

set_option maxHeartbeats 4000000 in
/-- The bias vector of layer 1's normalisation is all real. -/
theorem W17_v156_allReal (hpre : Cert.Pre_KernelIdeal m) (c : Dev nD) :
    AllReal (W17 (F := Ideal) m c main_v156 : S64.Idx → EReal) := by
  dsimp only [W17, hostOps7]
  after_results
  rw [rl1_W16_arg10]
  exact ((main_arg10_allReal m hpre c).extractStridedSlice _ _).shapeCast _

/-- The dense layer as the mixing region finds it. -/
theorem W17_v137_allReal (hpre : Cert.Pre_KernelIdeal m) (c : Dev nD) :
    AllReal (W17 (F := Ideal) m c main_v137 : S100000x64.Idx → EReal) := by
  rw [rl1_W17_v137]; exact O6_0_allReal m hpre c

/-! ## Layer 1: the mixed array and its two accumulated rows -/

/-- g·agg + (1 - g)·h of all-real g, h, agg is all real. -/
theorem mix7_allReal {g : S1x1.Idx → EReal} {h agg : S100000x64.Idx → EReal} (hg : AllReal g) (hh : AllReal h)
    (hagg : AllReal agg) : AllReal (mixG_7 g h agg) :=
  fun i => ((hg _).mul (hagg i)).add ((isReal_ofBits_one_f32.sub (hg _)).mul (hh i))

/-- The mixed value at every row and column is real. -/
theorem xm7_isReal (hpre : Cert.Pre_KernelIdeal m) (c : Dev nD) (p : Fin 100000) (q : Fin 64) : IsReal (xm7 m c p q) :=
  mix7_allReal (W17_v157_allReal m hpre c) (W17_v137_allReal m hpre c) (W17_v150_allReal m hpre c) (ix2 p q)

/-- The mixed array, as the mixing region leaves it, is all real. -/
theorem O7_0_allReal (hpre : Cert.Pre_KernelIdeal m) (c : Dev nD) :
    AllReal (O7_0 (F := Ideal) m c : S100000x64.Idx → EReal) := by
  intro i
  obtain ⟨p, q, rfl⟩ : ∃ (p : Fin 100000) (q : Fin 64), i = ix2 p q := ⟨i 0, i 1, eq_ix2 i⟩
  rw [O7_0_eq]
  exact xm7_isReal m hpre c p q

/-- The row of column sums the mixing region accumulates is all real. -/
theorem O7_1_allReal (hpre : Cert.Pre_KernelIdeal m) (c : Dev nD) :
    AllReal (O7_1 (F := Ideal) m c : S1x64.Idx → EReal) := by
  intro i
  obtain ⟨a, q, rfl⟩ : ∃ (a : Fin 1) (q : Fin 64), i = ix2 a q := ⟨i 0, i 1, eq_ix2 i⟩
  obtain rfl : a = 0 := Subsingleton.elim _ _
  rw [O7_1_eq]
  exact IsReal.sum _ _ fun t _ => IsReal.sum _ _ fun r _ => xm7_isReal m hpre c _ q

/-- The row of column sums of squares the mixing region accumulates is all real. -/
theorem O7_2_allReal (hpre : Cert.Pre_KernelIdeal m) (c : Dev nD) :
    AllReal (O7_2 (F := Ideal) m c : S1x64.Idx → EReal) := by
  intro i
  obtain ⟨a, q, rfl⟩ : ∃ (a : Fin 1) (q : Fin 64), i = ix2 a q := ⟨i 0, i 1, eq_ix2 i⟩
  obtain rfl : a = 0 := Subsingleton.elim _ _
  rw [O7_2_eq]
  exact IsReal.sum _ _ fun t _ => IsReal.sum _ _ fun r _ => (xm7_isReal m hpre c _ q).mul (xm7_isReal m hpre c _ q)

/-! ## Layer 1: the normalise region -/

set_option maxHeartbeats 4000000 in
/-- The mean row, the column sums over 100000, is all real. -/
theorem W19_v160_allReal (hpre : Cert.Pre_KernelIdeal m) (c : Dev nD) :
    AllReal (W19 (F := Ideal) m c main_v160 : S1x64.Idx → EReal) := by
  dsimp only [W19, hostOps8]
  after_results
  rw [rl1_W18_v158_1]
  exact allReal_hostDivf_1e5 (O7_1_allReal m hpre c) _ _

set_option maxHeartbeats 4000000 in
/-- The variance row, the column sums of squares over 100000 less the squared mean, is all real. -/
theorem W19_v164_allReal (hpre : Cert.Pre_KernelIdeal m) (c : Dev nD) :
    AllReal (W19 (F := Ideal) m c main_v164 : S1x64.Idx → EReal) := by
  dsimp only [W19, hostOps8]
  after_results
  rw [rl1_W18_v158_1, rl1_W18_v158_2]
  exact AllReal.subf (allReal_hostDivf_1e5 (O7_2_allReal m hpre c) _ _)
    (AllReal.mulf (allReal_hostDivf_1e5 (O7_1_allReal m hpre c) _ _) (allReal_hostDivf_1e5 (O7_1_allReal m hpre c) _ _))

set_option maxHeartbeats 4000000 in
/-- The scale row is all real. -/
theorem W19_v165_allReal (hpre : Cert.Pre_KernelIdeal m) (c : Dev nD) :
    AllReal (W19 (F := Ideal) m c main_v165 : S1x64.Idx → EReal) := by
  dsimp only [W19, hostOps8]
  after_results
  rw [rl1_W18_of m c main_v154 (by decide)]
  exact (W17_v154_allReal m hpre c).shapeCast _

set_option maxHeartbeats 4000000 in
/-- The bias row of the normalisation is all real. -/
theorem W19_v166_allReal (hpre : Cert.Pre_KernelIdeal m) (c : Dev nD) :
    AllReal (W19 (F := Ideal) m c main_v166 : S1x64.Idx → EReal) := by
  dsimp only [W19, hostOps8]
  after_results
  rw [rl1_W18_of m c main_v156 (by decide)]
  exact (W17_v156_allReal m hpre c).shapeCast _

/-- The mixed array as the normalise region finds it. -/
theorem W19_v158_0_allReal (hpre : Cert.Pre_KernelIdeal m) (c : Dev nD) :
    AllReal (W19 (F := Ideal) m c main_v158_0 : S100000x64.Idx → EReal) := by
  show AllReal (StableHlo.after hostOps8 (W18 (F := Ideal) m c) (Proc.devRef .tc main_v158_0) : S100000x64.Idx → EReal)
  rw [StableHlo.after_of_writes_sub hostOps8 _ GenP.hostOps8_writes (by decide), rl1_W18_v158_0]
  exact O7_0_allReal m hpre c

/-- The normalisation of an all-real array by all-real mean, variance, scale and bias rows is all real. -/
theorem bnRelu8_allReal {X : S100000x64.Idx → EReal} {mean var scale bias : S1x64.Idx → EReal} (hX : AllReal X)
    (hm : AllReal mean) (hv : AllReal var) (hs : AllReal scale) (hb : AllReal bias) :
    AllReal (bnRelu8 X mean var scale bias) := by
  intro i
  obtain ⟨e, he, hε⟩ := ofBits_eps_f32
  show IsReal (max ((((X i - mean (rowOf8 i)) * Ideal.rsqrt (max (var (rowOf8 i)) 0 + Ideal.ofBits .f32 0x3727C5AC#32))
    * scale (rowOf8 i) + bias (rowOf8 i))) 0)
  rw [hε]
  exact (((((hX i).sub (hm _)).mul (isReal_rsqrt_max_zero_add_pos (hv _) he)).mul (hs _)).add (hb _)).max isReal_zero

/-- What the normalise region leaves is all real. -/
theorem O8_0_allReal (hpre : Cert.Pre_KernelIdeal m) (c : Dev nD) :
    AllReal (O8_0 (F := Ideal) m c : S100000x64.Idx → EReal) := by
  rw [O8_0_fun]
  exact bnRelu8_allReal (W19_v158_0_allReal m hpre c) (W19_v160_allReal m hpre c) (W19_v164_allReal m hpre c)
    (W19_v165_allReal m hpre c) (W19_v166_allReal m hpre c)

/-! ## Layer 2: the dense layer -/

set_option maxHeartbeats 4000000 in
/-- The weight of layer 2 is all real. -/
theorem W21_v169_allReal (hpre : Cert.Pre_KernelIdeal m) (c : Dev nD) :
    AllReal (W21 (F := Ideal) m c main_v169 : S64x32.Idx → EReal) := by
  dsimp only [W21, hostOps9]
  after_results
  rw [rl1_W20_arg5]
  exact ((main_arg5_allReal m hpre c).extractStridedSlice _ _).shapeCast _

set_option maxHeartbeats 4000000 in
/-- The bias row of layer 2 is all real. -/
theorem W21_v172_allReal (hpre : Cert.Pre_KernelIdeal m) (c : Dev nD) :
    AllReal (W21 (F := Ideal) m c main_v172 : S1x32.Idx → EReal) := by
  dsimp only [W21, hostOps9]
  after_results
  rw [rl1_W20_arg6]
  exact (((main_arg6_allReal m hpre c).extractStridedSlice _ _).shapeCast _).shapeCast _

/-- The second dense layer of the relation, as its region leaves it, is all real. -/
theorem O9_0_allReal (hpre : Cert.Pre_KernelIdeal m) (c : Dev nD) :
    AllReal (O9_0 (F := Ideal) m c : S100000x32.Idx → EReal) := by
  rw [O9_0_eq_affine, rl1_W21_v167]
  exact AllReal.affine 100000 64 32 (O8_0_allReal m hpre c) (W21_v169_allReal m hpre c) (W21_v172_allReal m hpre c)

/-! ## Layer 2: what the mixing region reads -/

set_option maxHeartbeats 4000000 in
/-- The aggregated array of layer 2 is all real. -/
theorem W23_v186_allReal (hpre : Cert.Pre_KernelIdeal m) (c : Dev nD) :
    AllReal (W23 (F := Ideal) m c main_v186 : S100000x32.Idx → EReal) := by
  dsimp only [W23, hostOps10]
  after_results
  refine AllReal.scatterAdd _ _ (allReal_broadcastInDim_constant _ _ _ isReal_ofBits_zero_f32) ?_
  refine AllReal.mulf (AllReal.gather ?_ _ _) (AllReal.broadcastInDim (AllReal.broadcastInDim ?_ _ _) _ _)
  · rw [rl1_W22_v173]; exact O9_0_allReal m hpre c
  · rw [rl1_W22_v131]; exact W15_v131_allReal m c

set_option maxHeartbeats 4000000 in
/-- The mixing weight of layer 2 is all real. -/
theorem W23_v193_allReal (hpre : Cert.Pre_KernelIdeal m) (c : Dev nD) :
    AllReal (W23 (F := Ideal) m c main_v193 : S1x1.Idx → EReal) := by
  dsimp only [W23, hostOps10]
  after_results
  rw [rl1_W22_arg8]
  exact (((main_arg8_allReal m hpre c).extractStridedSlice _ _).shapeCast _).shapeCast _

set_option maxHeartbeats 4000000 in
/-- The scale vector of layer 2 is all real. -/
theorem W23_v190_allReal (hpre : Cert.Pre_KernelIdeal m) (c : Dev nD) :
    AllReal (W23 (F := Ideal) m c main_v190 : S32.Idx → EReal) := by
  dsimp only [W23, hostOps10]
  after_results
  rw [rl1_W22_arg11]
  exact ((main_arg11_allReal m hpre c).extractStridedSlice _ _).shapeCast _

set_option maxHeartbeats 4000000 in
/-- The bias vector of layer 2's normalisation is all real. -/
theorem W23_v192_allReal (hpre : Cert.Pre_KernelIdeal m) (c : Dev nD) :
    AllReal (W23 (F := Ideal) m c main_v192 : S32.Idx → EReal) := by
  dsimp only [W23, hostOps10]
  after_results
  rw [rl1_W22_arg12]
  exact ((main_arg12_allReal m hpre c).extractStridedSlice _ _).shapeCast _

/-- The second dense layer as the mixing region finds it. -/
theorem W23_v173_allReal (hpre : Cert.Pre_KernelIdeal m) (c : Dev nD) :
    AllReal (W23 (F := Ideal) m c main_v173 : S100000x32.Idx → EReal) := by
  rw [rl1_W23_v173]; exact O9_0_allReal m hpre c

/-! ## Layer 2: the mixed array and its two accumulated rows -/

/-- g·agg + (1 - g)·h of all-real g, h, agg is all real. -/
theorem mix10_allReal {g : S1x1.Idx → EReal} {h agg : S100000x32.Idx → EReal} (hg : AllReal g) (hh : AllReal h)
    (hagg : AllReal agg) : AllReal (mixG_10 g h agg) :=
  fun i => ((hg _).mul (hagg i)).add ((isReal_ofBits_one_f32.sub (hg _)).mul (hh i))

/-- The mixed value at every row and column is real. -/
theorem xm10_isReal (hpre : Cert.Pre_KernelIdeal m) (c : Dev nD) (p : Fin 100000) (q : Fin 32) : IsReal (xm10 m c p q) :=
  mix10_allReal (W23_v193_allReal m hpre c) (W23_v173_allReal m hpre c) (W23_v186_allReal m hpre c) (ix2 p q)

/-- The mixed array, as the mixing region leaves it, is all real. -/
theorem O10_0_allReal (hpre : Cert.Pre_KernelIdeal m) (c : Dev nD) :
    AllReal (O10_0 (F := Ideal) m c : S100000x32.Idx → EReal) := by
  intro i
  obtain ⟨p, q, rfl⟩ : ∃ (p : Fin 100000) (q : Fin 32), i = ix2 p q := ⟨i 0, i 1, eq_ix2 i⟩
  rw [O10_0_eq]
  exact xm10_isReal m hpre c p q

/-- The row of column sums the mixing region accumulates is all real. -/
theorem O10_1_allReal (hpre : Cert.Pre_KernelIdeal m) (c : Dev nD) :
    AllReal (O10_1 (F := Ideal) m c : S1x32.Idx → EReal) := by
  intro i
  obtain ⟨a, q, rfl⟩ : ∃ (a : Fin 1) (q : Fin 32), i = ix2 a q := ⟨i 0, i 1, eq_ix2 i⟩
  obtain rfl : a = 0 := Subsingleton.elim _ _
  rw [O10_1_eq]
  exact IsReal.sum _ _ fun t _ => IsReal.sum _ _ fun r _ => xm10_isReal m hpre c _ q

/-- The row of column sums of squares the mixing region accumulates is all real. -/
theorem O10_2_allReal (hpre : Cert.Pre_KernelIdeal m) (c : Dev nD) :
    AllReal (O10_2 (F := Ideal) m c : S1x32.Idx → EReal) := by
  intro i
  obtain ⟨a, q, rfl⟩ : ∃ (a : Fin 1) (q : Fin 32), i = ix2 a q := ⟨i 0, i 1, eq_ix2 i⟩
  obtain rfl : a = 0 := Subsingleton.elim _ _
  rw [O10_2_eq]
  exact IsReal.sum _ _ fun t _ => IsReal.sum _ _ fun r _ => (xm10_isReal m hpre c _ q).mul (xm10_isReal m hpre c _ q)

/-! ## Layer 2: the normalise region -/

set_option maxHeartbeats 4000000 in
/-- The mean row, the column sums over 100000, is all real. -/
theorem W25_v196_allReal (hpre : Cert.Pre_KernelIdeal m) (c : Dev nD) :
    AllReal (W25 (F := Ideal) m c main_v196 : S1x32.Idx → EReal) := by
  dsimp only [W25, hostOps11]
  after_results
  rw [rl1_W24_v194_1]
  exact allReal_hostDivf_1e5 (O10_1_allReal m hpre c) _ _

set_option maxHeartbeats 4000000 in
/-- The variance row, the column sums of squares over 100000 less the squared mean, is all real. -/
theorem W25_v200_allReal (hpre : Cert.Pre_KernelIdeal m) (c : Dev nD) :
    AllReal (W25 (F := Ideal) m c main_v200 : S1x32.Idx → EReal) := by
  dsimp only [W25, hostOps11]
  after_results
  rw [rl1_W24_v194_1, rl1_W24_v194_2]
  exact AllReal.subf (allReal_hostDivf_1e5 (O10_2_allReal m hpre c) _ _)
    (AllReal.mulf (allReal_hostDivf_1e5 (O10_1_allReal m hpre c) _ _) (allReal_hostDivf_1e5 (O10_1_allReal m hpre c) _ _))

set_option maxHeartbeats 4000000 in
/-- The scale row is all real. -/
theorem W25_v201_allReal (hpre : Cert.Pre_KernelIdeal m) (c : Dev nD) :
    AllReal (W25 (F := Ideal) m c main_v201 : S1x32.Idx → EReal) := by
  dsimp only [W25, hostOps11]
  after_results
  rw [rl1_W24_of m c main_v190 (by decide)]
  exact (W23_v190_allReal m hpre c).shapeCast _

set_option maxHeartbeats 4000000 in
/-- The bias row of the normalisation is all real. -/
theorem W25_v202_allReal (hpre : Cert.Pre_KernelIdeal m) (c : Dev nD) :
    AllReal (W25 (F := Ideal) m c main_v202 : S1x32.Idx → EReal) := by
  dsimp only [W25, hostOps11]
  after_results
  rw [rl1_W24_of m c main_v192 (by decide)]
  exact (W23_v192_allReal m hpre c).shapeCast _

/-- The mixed array as the normalise region finds it. -/
theorem W25_v194_0_allReal (hpre : Cert.Pre_KernelIdeal m) (c : Dev nD) :
    AllReal (W25 (F := Ideal) m c main_v194_0 : S100000x32.Idx → EReal) := by
  show AllReal (StableHlo.after hostOps11 (W24 (F := Ideal) m c) (Proc.devRef .tc main_v194_0) : S100000x32.Idx → EReal)
  rw [StableHlo.after_of_writes_sub hostOps11 _ GenP.hostOps11_writes (by decide), rl1_W24_v194_0]
  exact O10_0_allReal m hpre c

/-- The normalisation of an all-real array by all-real mean, variance, scale and bias rows is all real. -/
theorem bnRelu11_allReal {X : S100000x32.Idx → EReal} {mean var scale bias : S1x32.Idx → EReal} (hX : AllReal X)
    (hm : AllReal mean) (hv : AllReal var) (hs : AllReal scale) (hb : AllReal bias) :
    AllReal (bnRelu11 X mean var scale bias) := by
  intro i
  obtain ⟨e, he, hε⟩ := ofBits_eps_f32
  show IsReal (max ((((X i - mean (rowOf11 i)) * Ideal.rsqrt (max (var (rowOf11 i)) 0 + Ideal.ofBits .f32 0x3727C5AC#32))
    * scale (rowOf11 i) + bias (rowOf11 i))) 0)
  rw [hε]
  exact (((((hX i).sub (hm _)).mul (isReal_rsqrt_max_zero_add_pos (hv _) he)).mul (hs _)).add (hb _)).max isReal_zero

/-- What the normalise region leaves is all real. -/
theorem O11_0_allReal (hpre : Cert.Pre_KernelIdeal m) (c : Dev nD) :
    AllReal (O11_0 (F := Ideal) m c : S100000x32.Idx → EReal) := by
  rw [O11_0_fun]
  exact bnRelu11_allReal (W25_v194_0_allReal m hpre c) (W25_v196_allReal m hpre c) (W25_v200_allReal m hpre c)
    (W25_v201_allReal m hpre c) (W25_v202_allReal m hpre c)

end Cert.KernelIdeal.Body

end
-- ==== Proof.KIRel1.lean ====
/-
  Relation 1, to the end: when the two memories agree on the arguments the relation reads and the inputs are finite,
  the embedding the kernel program holds after the relation's second layer is the reference's.

  The links, in the order the programs run: the first dense layer, the first aggregation, the first mix with its weight,
  the first normalisation, the second dense layer, the second aggregation, the second mix with its weight, the second
  normalisation, and the selection of the batch rows with the row-wise normalising step. Each link is stated over the
  contents before the reference's window; here each is taken at what the windows before it leave of the launch memory,
  and an argument array is still as launched there because no window writes it. The two normalisations' joins are
  hypotheses, in the form of relation 0's first one.
-/
import proofs.«140713_j1864015806535_2_alg».proof.Proof.KIStageDense6
import proofs.«140713_j1864015806535_2_alg».proof.Proof.KIStageAgg6
import proofs.«140713_j1864015806535_2_alg».proof.Proof.KIStageMix7Glue
import proofs.«140713_j1864015806535_2_alg».proof.Proof.KIStageDense9
import proofs.«140713_j1864015806535_2_alg».proof.Proof.KIStageAgg9
import proofs.«140713_j1864015806535_2_alg».proof.Proof.KIStageMix10Glue
import proofs.«140713_j1864015806535_2_alg».proof.Proof.KIStageEmb1
import proofs.«140713_j1864015806535_2_alg».proof.Proof.KIRealRel1

set_option maxRecDepth 65536

noncomputable section

namespace Cert.Proof.Value

open Idealize.ShloMosaic Idealize.ShloMosaic.TcCoe Idealize.ShloMosaic.ValueIdx Idealize.SL.Sem Idealize.ShloMosaic.StableHlo

/-- RELATION 1: the reference's embedding after its first seven windows is the kernel program's, from the agreement of the
    two memories on the arguments and the finiteness precondition. The two normalisations' joins are hypotheses: from any
    contents before the window that computes the mix, if the mix arrays agree and the scale and bias arguments agree, the
    normalised arrays agree. -/
theorem emb_rel1
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hpre : Cert.Pre_KernelIdeal m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (hBn7 : ∀ V : Valuation Cert.ReferenceIdeal.τ Cert.ReferenceIdeal.sig (Elt Ideal),
      (after (Cert.ReferenceIdeal.RefRun.ops4 (F := Ideal)) V (Cert.ReferenceIdeal.main_v216 : DevRef Cert.ReferenceIdeal.τ Cert.ReferenceIdeal.sig) : (⟨2, ![100000, 64]⟩ : Shape).Idx → EReal) = (Cert.KernelIdeal.Body.O7_0 (F := Ideal) m c : (⟨2, ![100000, 64]⟩ : Shape).Idx → EReal) →
      (V (Cert.ReferenceIdeal.main_arg9 : DevRef Cert.ReferenceIdeal.τ Cert.ReferenceIdeal.sig) : (⟨2, ![3, 64]⟩ : Shape).Idx → EReal) = m ((c.tc : Thread Cert.KernelIdeal.nD Cert.KernelIdeal.τ).loc Cert.KernelIdeal.main_arg9) →
      (V (Cert.ReferenceIdeal.main_arg10 : DevRef Cert.ReferenceIdeal.τ Cert.ReferenceIdeal.sig) : (⟨2, ![3, 64]⟩ : Shape).Idx → EReal) = m ((c.tc : Thread Cert.KernelIdeal.nD Cert.KernelIdeal.τ).loc Cert.KernelIdeal.main_arg10) →
      (after (Cert.ReferenceIdeal.RefRun.ops4 (F := Ideal)) V (Cert.ReferenceIdeal.main_v240 : DevRef Cert.ReferenceIdeal.τ Cert.ReferenceIdeal.sig) : (⟨2, ![100000, 64]⟩ : Shape).Idx → EReal) = (Cert.KernelIdeal.Body.O8_0 (F := Ideal) m c : (⟨2, ![100000, 64]⟩ : Shape).Idx → EReal))
    (hBn10 : ∀ V : Valuation Cert.ReferenceIdeal.τ Cert.ReferenceIdeal.sig (Elt Ideal),
      (after (Cert.ReferenceIdeal.RefRun.ops5 (F := Ideal)) V (Cert.ReferenceIdeal.main_v291 : DevRef Cert.ReferenceIdeal.τ Cert.ReferenceIdeal.sig) : (⟨2, ![100000, 32]⟩ : Shape).Idx → EReal) = (Cert.KernelIdeal.Body.O10_0 (F := Ideal) m c : (⟨2, ![100000, 32]⟩ : Shape).Idx → EReal) →
      (V (Cert.ReferenceIdeal.main_arg11 : DevRef Cert.ReferenceIdeal.τ Cert.ReferenceIdeal.sig) : (⟨2, ![3, 32]⟩ : Shape).Idx → EReal) = m ((c.tc : Thread Cert.KernelIdeal.nD Cert.KernelIdeal.τ).loc Cert.KernelIdeal.main_arg11) →
      (V (Cert.ReferenceIdeal.main_arg12 : DevRef Cert.ReferenceIdeal.τ Cert.ReferenceIdeal.sig) : (⟨2, ![3, 32]⟩ : Shape).Idx → EReal) = m ((c.tc : Thread Cert.KernelIdeal.nD Cert.KernelIdeal.τ).loc Cert.KernelIdeal.main_arg12) →
      (after (Cert.ReferenceIdeal.RefRun.ops6 (F := Ideal)) (after (Cert.ReferenceIdeal.RefRun.ops5 (F := Ideal)) V) (Cert.ReferenceIdeal.main_v315 : DevRef Cert.ReferenceIdeal.τ Cert.ReferenceIdeal.sig) : (⟨2, ![100000, 32]⟩ : Shape).Idx → EReal) = (Cert.KernelIdeal.Body.O11_0 (F := Ideal) m c : (⟨2, ![100000, 32]⟩ : Shape).Idx → EReal)) :
    (after (Cert.ReferenceIdeal.RefRun.ops6 (F := Ideal)) (after (Cert.ReferenceIdeal.RefRun.ops5 (F := Ideal)) (after (Cert.ReferenceIdeal.RefRun.ops4 (F := Ideal)) (after (Cert.ReferenceIdeal.RefRun.ops3 (F := Ideal)) (after (Cert.ReferenceIdeal.RefRun.ops2 (F := Ideal)) (after (Cert.ReferenceIdeal.RefRun.ops1 (F := Ideal)) (after (Cert.ReferenceIdeal.RefRun.ops0 (F := Ideal)) (launchContents m' c))))))) (Cert.ReferenceIdeal.main_v323 : DevRef Cert.ReferenceIdeal.τ Cert.ReferenceIdeal.sig) : (⟨2, ![50000, 32]⟩ : Shape).Idx → EReal)
      = (Cert.KernelIdeal.Body.W28 (F := Ideal) m c (Cert.KernelIdeal.main_v211 : DevRef Cert.KernelIdeal.τ Cert.KernelIdeal.sig) : (⟨2, ![50000, 32]⟩ : Shape).Idx → EReal) := by
  -- an argument array after each window is what it was before it
  have k0 : ∀ (r : Ref Cert.ReferenceIdeal.sig .tc), r ∉ (Cert.ReferenceIdeal.RefRun.ops0_W : List (Ref Cert.ReferenceIdeal.sig .tc)) →
      (after (Cert.ReferenceIdeal.RefRun.ops0 (F := Ideal)) (launchContents m' c)) (Proc.devRef .tc r) = (launchContents m' c) (Proc.devRef .tc r) :=
    fun r hr => after_of_writes_sub (Cert.ReferenceIdeal.RefRun.ops0 (F := Ideal)) _ Cert.ReferenceIdeal.RefRun.ops0_writes hr
  have k1 : ∀ (r : Ref Cert.ReferenceIdeal.sig .tc), r ∉ (Cert.ReferenceIdeal.RefRun.ops1_W : List (Ref Cert.ReferenceIdeal.sig .tc)) →
      (after (Cert.ReferenceIdeal.RefRun.ops1 (F := Ideal)) (after (Cert.ReferenceIdeal.RefRun.ops0 (F := Ideal)) (launchContents m' c))) (Proc.devRef .tc r) = (after (Cert.ReferenceIdeal.RefRun.ops0 (F := Ideal)) (launchContents m' c)) (Proc.devRef .tc r) :=
    fun r hr => after_of_writes_sub (Cert.ReferenceIdeal.RefRun.ops1 (F := Ideal)) _ Cert.ReferenceIdeal.RefRun.ops1_writes hr
  have k2 : ∀ (r : Ref Cert.ReferenceIdeal.sig .tc), r ∉ (Cert.ReferenceIdeal.RefRun.ops2_W : List (Ref Cert.ReferenceIdeal.sig .tc)) →
      (after (Cert.ReferenceIdeal.RefRun.ops2 (F := Ideal)) (after (Cert.ReferenceIdeal.RefRun.ops1 (F := Ideal)) (after (Cert.ReferenceIdeal.RefRun.ops0 (F := Ideal)) (launchContents m' c)))) (Proc.devRef .tc r) = (after (Cert.ReferenceIdeal.RefRun.ops1 (F := Ideal)) (after (Cert.ReferenceIdeal.RefRun.ops0 (F := Ideal)) (launchContents m' c))) (Proc.devRef .tc r) :=
    fun r hr => after_of_writes_sub (Cert.ReferenceIdeal.RefRun.ops2 (F := Ideal)) _ Cert.ReferenceIdeal.RefRun.ops2_writes hr
  have k3 : ∀ (r : Ref Cert.ReferenceIdeal.sig .tc), r ∉ (Cert.ReferenceIdeal.RefRun.ops3_W : List (Ref Cert.ReferenceIdeal.sig .tc)) →
      (after (Cert.ReferenceIdeal.RefRun.ops3 (F := Ideal)) (after (Cert.ReferenceIdeal.RefRun.ops2 (F := Ideal)) (after (Cert.ReferenceIdeal.RefRun.ops1 (F := Ideal)) (after (Cert.ReferenceIdeal.RefRun.ops0 (F := Ideal)) (launchContents m' c))))) (Proc.devRef .tc r) = (after (Cert.ReferenceIdeal.RefRun.ops2 (F := Ideal)) (after (Cert.ReferenceIdeal.RefRun.ops1 (F := Ideal)) (after (Cert.ReferenceIdeal.RefRun.ops0 (F := Ideal)) (launchContents m' c)))) (Proc.devRef .tc r) :=
    fun r hr => after_of_writes_sub (Cert.ReferenceIdeal.RefRun.ops3 (F := Ideal)) _ Cert.ReferenceIdeal.RefRun.ops3_writes hr
  have k4 : ∀ (r : Ref Cert.ReferenceIdeal.sig .tc), r ∉ (Cert.ReferenceIdeal.RefRun.ops4_W : List (Ref Cert.ReferenceIdeal.sig .tc)) →
      (after (Cert.ReferenceIdeal.RefRun.ops4 (F := Ideal)) (after (Cert.ReferenceIdeal.RefRun.ops3 (F := Ideal)) (after (Cert.ReferenceIdeal.RefRun.ops2 (F := Ideal)) (after (Cert.ReferenceIdeal.RefRun.ops1 (F := Ideal)) (after (Cert.ReferenceIdeal.RefRun.ops0 (F := Ideal)) (launchContents m' c)))))) (Proc.devRef .tc r) = (after (Cert.ReferenceIdeal.RefRun.ops3 (F := Ideal)) (after (Cert.ReferenceIdeal.RefRun.ops2 (F := Ideal)) (after (Cert.ReferenceIdeal.RefRun.ops1 (F := Ideal)) (after (Cert.ReferenceIdeal.RefRun.ops0 (F := Ideal)) (launchContents m' c))))) (Proc.devRef .tc r) :=
    fun r hr => after_of_writes_sub (Cert.ReferenceIdeal.RefRun.ops4 (F := Ideal)) _ Cert.ReferenceIdeal.RefRun.ops4_writes hr
  have k5 : ∀ (r : Ref Cert.ReferenceIdeal.sig .tc), r ∉ (Cert.ReferenceIdeal.RefRun.ops5_W : List (Ref Cert.ReferenceIdeal.sig .tc)) →
      (after (Cert.ReferenceIdeal.RefRun.ops5 (F := Ideal)) (after (Cert.ReferenceIdeal.RefRun.ops4 (F := Ideal)) (after (Cert.ReferenceIdeal.RefRun.ops3 (F := Ideal)) (after (Cert.ReferenceIdeal.RefRun.ops2 (F := Ideal)) (after (Cert.ReferenceIdeal.RefRun.ops1 (F := Ideal)) (after (Cert.ReferenceIdeal.RefRun.ops0 (F := Ideal)) (launchContents m' c))))))) (Proc.devRef .tc r) = (after (Cert.ReferenceIdeal.RefRun.ops4 (F := Ideal)) (after (Cert.ReferenceIdeal.RefRun.ops3 (F := Ideal)) (after (Cert.ReferenceIdeal.RefRun.ops2 (F := Ideal)) (after (Cert.ReferenceIdeal.RefRun.ops1 (F := Ideal)) (after (Cert.ReferenceIdeal.RefRun.ops0 (F := Ideal)) (launchContents m' c)))))) (Proc.devRef .tc r) :=
    fun r hr => after_of_writes_sub (Cert.ReferenceIdeal.RefRun.ops5 (F := Ideal)) _ Cert.ReferenceIdeal.RefRun.ops5_writes hr
  -- the first dense layer
  have h175 := stageDense6 m (after (Cert.ReferenceIdeal.RefRun.ops2 (F := Ideal)) (after (Cert.ReferenceIdeal.RefRun.ops1 (F := Ideal)) (after (Cert.ReferenceIdeal.RefRun.ops0 (F := Ideal)) (launchContents m' c)))) c ((k2 Cert.ReferenceIdeal.main_arg0 (by decide)).trans ((k1 Cert.ReferenceIdeal.main_arg0 (by decide)).trans ((k0 Cert.ReferenceIdeal.main_arg0 (by decide)).trans h0))) ((k2 Cert.ReferenceIdeal.main_arg3 (by decide)).trans ((k1 Cert.ReferenceIdeal.main_arg3 (by decide)).trans ((k0 Cert.ReferenceIdeal.main_arg3 (by decide)).trans h3))) ((k2 Cert.ReferenceIdeal.main_arg4 (by decide)).trans ((k1 Cert.ReferenceIdeal.main_arg4 (by decide)).trans ((k0 Cert.ReferenceIdeal.main_arg4 (by decide)).trans h4)))
  -- the first aggregation, and the first mix with its weight
  have hagg6 := stageAgg6 m (after (Cert.ReferenceIdeal.RefRun.ops2 (F := Ideal)) (after (Cert.ReferenceIdeal.RefRun.ops1 (F := Ideal)) (after (Cert.ReferenceIdeal.RefRun.ops0 (F := Ideal)) (launchContents m' c)))) c ((k2 Cert.ReferenceIdeal.main_arg1 (by decide)).trans ((k1 Cert.ReferenceIdeal.main_arg1 (by decide)).trans ((k0 Cert.ReferenceIdeal.main_arg1 (by decide)).trans h1))) h175
  have h216 := mix7 m (after (Cert.ReferenceIdeal.RefRun.ops2 (F := Ideal)) (after (Cert.ReferenceIdeal.RefRun.ops1 (F := Ideal)) (after (Cert.ReferenceIdeal.RefRun.ops0 (F := Ideal)) (launchContents m' c)))) c ((k2 Cert.ReferenceIdeal.main_arg7 (by decide)).trans ((k1 Cert.ReferenceIdeal.main_arg7 (by decide)).trans ((k0 Cert.ReferenceIdeal.main_arg7 (by decide)).trans h7))) h175 hagg6
  -- the first normalisation (the hypothesis), then the second dense layer
  have h240 := hBn7 (after (Cert.ReferenceIdeal.RefRun.ops3 (F := Ideal)) (after (Cert.ReferenceIdeal.RefRun.ops2 (F := Ideal)) (after (Cert.ReferenceIdeal.RefRun.ops1 (F := Ideal)) (after (Cert.ReferenceIdeal.RefRun.ops0 (F := Ideal)) (launchContents m' c))))) h216 ((k3 Cert.ReferenceIdeal.main_arg9 (by decide)).trans ((k2 Cert.ReferenceIdeal.main_arg9 (by decide)).trans ((k1 Cert.ReferenceIdeal.main_arg9 (by decide)).trans ((k0 Cert.ReferenceIdeal.main_arg9 (by decide)).trans h9)))) ((k3 Cert.ReferenceIdeal.main_arg10 (by decide)).trans ((k2 Cert.ReferenceIdeal.main_arg10 (by decide)).trans ((k1 Cert.ReferenceIdeal.main_arg10 (by decide)).trans ((k0 Cert.ReferenceIdeal.main_arg10 (by decide)).trans h10))))
  have h250 := stageDense9 m (after (Cert.ReferenceIdeal.RefRun.ops3 (F := Ideal)) (after (Cert.ReferenceIdeal.RefRun.ops2 (F := Ideal)) (after (Cert.ReferenceIdeal.RefRun.ops1 (F := Ideal)) (after (Cert.ReferenceIdeal.RefRun.ops0 (F := Ideal)) (launchContents m' c))))) c (h240.trans (Cert.KernelIdeal.Body.rl1_W21_v167 m c).symm) ((k3 Cert.ReferenceIdeal.main_arg5 (by decide)).trans ((k2 Cert.ReferenceIdeal.main_arg5 (by decide)).trans ((k1 Cert.ReferenceIdeal.main_arg5 (by decide)).trans ((k0 Cert.ReferenceIdeal.main_arg5 (by decide)).trans h5)))) ((k3 Cert.ReferenceIdeal.main_arg6 (by decide)).trans ((k2 Cert.ReferenceIdeal.main_arg6 (by decide)).trans ((k1 Cert.ReferenceIdeal.main_arg6 (by decide)).trans ((k0 Cert.ReferenceIdeal.main_arg6 (by decide)).trans h6))))
  -- the second aggregation: the relation's edge rows are those the fourth window computed from the edge argument
  have e1 : (after (Cert.ReferenceIdeal.RefRun.ops2 (F := Ideal)) (after (Cert.ReferenceIdeal.RefRun.ops1 (F := Ideal)) (after (Cert.ReferenceIdeal.RefRun.ops0 (F := Ideal)) (launchContents m' c)))) (Proc.devRef .tc Cert.ReferenceIdeal.main_arg1) = m ((c.tc : Thread Cert.KernelIdeal.nD Cert.KernelIdeal.τ).loc Cert.KernelIdeal.main_arg1) := ((k2 Cert.ReferenceIdeal.main_arg1 (by decide)).trans ((k1 Cert.ReferenceIdeal.main_arg1 (by decide)).trans ((k0 Cert.ReferenceIdeal.main_arg1 (by decide)).trans h1)))
  have hagg9 := stageAgg9 m (after (Cert.ReferenceIdeal.RefRun.ops3 (F := Ideal)) (after (Cert.ReferenceIdeal.RefRun.ops2 (F := Ideal)) (after (Cert.ReferenceIdeal.RefRun.ops1 (F := Ideal)) (after (Cert.ReferenceIdeal.RefRun.ops0 (F := Ideal)) (launchContents m' c))))) c ((Cert.ReferenceIdeal.RefRun.ref_src6 (after (Cert.ReferenceIdeal.RefRun.ops2 (F := Ideal)) (after (Cert.ReferenceIdeal.RefRun.ops1 (F := Ideal)) (after (Cert.ReferenceIdeal.RefRun.ops0 (F := Ideal)) (launchContents m' c))))).trans (by rw [e1])) ((Cert.ReferenceIdeal.RefRun.ref_dst6 (after (Cert.ReferenceIdeal.RefRun.ops2 (F := Ideal)) (after (Cert.ReferenceIdeal.RefRun.ops1 (F := Ideal)) (after (Cert.ReferenceIdeal.RefRun.ops0 (F := Ideal)) (launchContents m' c))))).trans (by rw [e1])) h250
  -- the second mix with its weight
  have h291 := mix10 m (after (Cert.ReferenceIdeal.RefRun.ops3 (F := Ideal)) (after (Cert.ReferenceIdeal.RefRun.ops2 (F := Ideal)) (after (Cert.ReferenceIdeal.RefRun.ops1 (F := Ideal)) (after (Cert.ReferenceIdeal.RefRun.ops0 (F := Ideal)) (launchContents m' c))))) c ((k3 Cert.ReferenceIdeal.main_arg8 (by decide)).trans ((k2 Cert.ReferenceIdeal.main_arg8 (by decide)).trans ((k1 Cert.ReferenceIdeal.main_arg8 (by decide)).trans ((k0 Cert.ReferenceIdeal.main_arg8 (by decide)).trans h8)))) h250 hagg9
  -- the second normalisation (the hypothesis), then the embedding
  have h315 := hBn10 (after (Cert.ReferenceIdeal.RefRun.ops4 (F := Ideal)) (after (Cert.ReferenceIdeal.RefRun.ops3 (F := Ideal)) (after (Cert.ReferenceIdeal.RefRun.ops2 (F := Ideal)) (after (Cert.ReferenceIdeal.RefRun.ops1 (F := Ideal)) (after (Cert.ReferenceIdeal.RefRun.ops0 (F := Ideal)) (launchContents m' c)))))) h291 ((k4 Cert.ReferenceIdeal.main_arg11 (by decide)).trans ((k3 Cert.ReferenceIdeal.main_arg11 (by decide)).trans ((k2 Cert.ReferenceIdeal.main_arg11 (by decide)).trans ((k1 Cert.ReferenceIdeal.main_arg11 (by decide)).trans ((k0 Cert.ReferenceIdeal.main_arg11 (by decide)).trans h11))))) ((k4 Cert.ReferenceIdeal.main_arg12 (by decide)).trans ((k3 Cert.ReferenceIdeal.main_arg12 (by decide)).trans ((k2 Cert.ReferenceIdeal.main_arg12 (by decide)).trans ((k1 Cert.ReferenceIdeal.main_arg12 (by decide)).trans ((k0 Cert.ReferenceIdeal.main_arg12 (by decide)).trans h12)))))
  exact stageEmb1 m (after (Cert.ReferenceIdeal.RefRun.ops5 (F := Ideal)) (after (Cert.ReferenceIdeal.RefRun.ops4 (F := Ideal)) (after (Cert.ReferenceIdeal.RefRun.ops3 (F := Ideal)) (after (Cert.ReferenceIdeal.RefRun.ops2 (F := Ideal)) (after (Cert.ReferenceIdeal.RefRun.ops1 (F := Ideal)) (after (Cert.ReferenceIdeal.RefRun.ops0 (F := Ideal)) (launchContents m' c))))))) c ((k5 Cert.ReferenceIdeal.main_arg2 (by decide)).trans ((k4 Cert.ReferenceIdeal.main_arg2 (by decide)).trans ((k3 Cert.ReferenceIdeal.main_arg2 (by decide)).trans ((k2 Cert.ReferenceIdeal.main_arg2 (by decide)).trans ((k1 Cert.ReferenceIdeal.main_arg2 (by decide)).trans ((k0 Cert.ReferenceIdeal.main_arg2 (by decide)).trans h2)))))) h315

end Cert.Proof.Value

end
-- ==== Proof.KIValDense12.lean ====
/-
  Region 12, the fifth dense layer, read index by index on the extended reals.

  Each of the ten grid points takes 10000 rows of the 100000×128 node features, the whole 128×64 weight and the 1×64 bias
  row, and writes the 10000 rows of the product plus the bias row into its block of the 100000×64 output. A row of the
  layer depends on the features through that row alone, and the ten blocks tile the output, so the output array ends at
      (p, q) ↦ Σ_{k<128} x(p, k) · w(k, q) + b(0, q)
  of the arrays as the region finds them.
-/
import proofs.«140713_j1864015806535_2_alg».proof.Proof.KIFrameBase
import proofs.«140713_j1864015806535_2_alg».proof.Proof.LibAffineStage
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Body

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.LibAffineStage (affine affine_apply affine_rows affine_of_matmul)

variable (m : (ℓ : Loc nD τ sig) → Buf (Elt Ideal) ℓ)

/-! ## The body's arithmetic: the layer of a tile -/

theorem hz_d12 : (![0, 0] : Fin 2 → Nat) = fun _ => 0 := funext fun a => by fin_cases a <;> rfl

/-- The body's payload is the dense layer of its tile of rows: the tile against the weight, plus the bias row. The
    narrowing of the two operands and the shape casts to the same shape are the identity on the extended reals. -/
theorem pay12_eq (x : Vec Ideal S10000x128 .f32) (w : Vec Ideal S128x64 .f32) (b : Vec Ideal S1x64 .f32) :
    k12_pay1 x w b = affine 10000 128 64 x w b := by
  unfold k12_pay1
  rw [shapeCast_self w]
  exact affine_of_matmul 10000 128 64 x w b _ _ _ _

/-! ## From the ten blocks to the array -/

variable (V : (c : Dev nD) → (b : Ref sig .tc) → Buf (Elt Ideal) ((c : Thread nD τ).loc b))

/-- The printed index maps over the grid: point t's feature block and output block are row block t in the one column
    block; the weight and the bias row are their whole arrays at every point. -/
theorem idx_facts_d12 : ∀ t : Fin cfg12.N,
    win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = t.val ∧ win12_3.index t (1 : Fin 2) = 0 :=
  (by decide +kernel : ∀ t : Fin grid12.N, _)

/-- The feature block at point t is rows 10000·t … 10000·t + 9999 of the feature array. -/
theorem iblk12_0_apply (c : Dev nD) (t : Fin cfg12.N) (y : S10000x128.Idx) (z : S100000x128.Idx)
    (h0 : (z 0).val = t.val * 10000 + (y 0).val) (h1 : (z 1).val = (y 1).val) :
    (iblk12 V c 0 t : Vec Ideal S10000x128 .f32) y = (V c main_arg0 : S100000x128.Idx → EReal) z := by
  obtain ⟨e0, e1, -⟩ := idx_facts_d12 t
  unfold iblk12
  rw [View.read_apply]
  show V c main_arg0 _ = V c main_arg0 _
  congr 1
  funext a
  apply Fin.ext
  match a with
  | ⟨0, _⟩ => show win12_0.index t (0 : Fin 2) * 10000 + 1 * (y 0).val = (z 0).val; omega
  | ⟨1, _⟩ => show win12_0.index t (1 : Fin 2) * 128 + 1 * (y 1).val = (z 1).val; omega

/-- The weight block at every point is the weight array. -/
theorem iblk12_1_eq (c : Dev nD) (t : Fin cfg12.N) :
    (iblk12 V c 1 t : Vec Ideal S128x64 .f32) = (V c main_v239 : S128x64.Idx → EReal) := by
  obtain ⟨-, -, e2, e3, -⟩ := idx_facts_d12 t
  funext y
  unfold iblk12
  rw [View.read_apply]
  show V c main_v239 _ = V c main_v239 y
  congr 1
  funext a
  apply Fin.ext
  match a with
  | ⟨0, _⟩ => show win12_1.index t (0 : Fin 2) * 128 + 1 * (y 0).val = (y 0).val; omega
  | ⟨1, _⟩ => show win12_1.index t (1 : Fin 2) * 64 + 1 * (y 1).val = (y 1).val; omega

/-- The bias block at every point is the bias row. -/
theorem iblk12_2_eq (c : Dev nD) (t : Fin cfg12.N) :
    (iblk12 V c 2 t : Vec Ideal S1x64 .f32) = (V c main_v242 : S1x64.Idx → EReal) := by
  obtain ⟨-, -, -, -, e4, e5, -⟩ := idx_facts_d12 t
  funext y
  unfold iblk12
  rw [View.read_apply]
  show V c main_v242 _ = V c main_v242 y
  congr 1
  funext a
  apply Fin.ext
  match a with
  | ⟨0, _⟩ => show win12_2.index t (0 : Fin 2) * 1 + 1 * (y 0).val = (y 0).val; omega
  | ⟨1, _⟩ => show win12_2.index t (1 : Fin 2) * 64 + 1 * (y 1).val = (y 1).val; omega

/-- Row p, column q of the output block at point t is row 10000·t + p, column q of the output array. -/
theorem emb12_3 (t : Fin cfg12.N) (p : Fin 10000) (q : Fin 64) (r : Fin 100000) (hr : r.val = t.val * 10000 + p.val) :
    ((cfg12.win 3).blk t).view.emb (ix2 p q) = (ix2 r q : S100000x64.Idx) := by
  obtain ⟨-, -, -, -, -, -, e6, e7⟩ := idx_facts_d12 t
  funext a
  apply Fin.ext
  match a with
  | ⟨0, _⟩ => show win12_3.index t (0 : Fin 2) * 10000 + 1 * p.val = r.val; omega
  | ⟨1, _⟩ => show win12_3.index t (1 : Fin 2) * 64 + 1 * q.val = q.val; omega

/-- What point t writes back is block t of the layer of the three arrays as the region finds them. -/
theorem flushed12_3_eq (c : Dev nD) (t : Fin cfg12.N) :
    (dat12 V c).flushed 3 t = ((cfg12.win 3).blk t).view.read (Elt Ideal)
      (affine 100000 128 64 (V c main_arg0) (V c main_v239) (V c main_v242)) := by
  show (cfg12.win 3).cut (grid12.coords t) ((dat12 V c).after 3 t) = _
  rw [after12_3]
  unfold out12_3
  rw [View.canon_unit_zero hz_d12]
  simp only [View.ld_unit_zero (S := S10000x128) hz_d12, View.ld_unit_zero (S := S128x64) hz_d12, View.ld_unit_zero (S := S1x64) hz_d12]
  rw [iblk12_1_eq, iblk12_2_eq, pay12_eq]
  have ht : t.val < 10 := lt_of_lt_of_eq t.isLt N_12
  funext j
  obtain ⟨p, q, rfl⟩ : ∃ (p : Fin 10000) (q : Fin 64), j = ix2 p q := ⟨j 0, j 1, eq_ix2 j⟩
  rw [View.read_apply, emb12_3 t p q ⟨t.val * 10000 + p.val, by have := p.isLt; omega⟩ rfl]
  exact affine_rows 100000 128 64 10000 _ _ _ _ _ p (fun k => iblk12_0_apply V c t _ _ rfl rfl) q

/-- An index of the output array is in point t's block iff each coordinate is in the block's range on its axis. -/
theorem mem_blk12_3 (t : Fin cfg12.N) (i : S100000x64.Idx) :
    i ∈ ((cfg12.win 3).blk t).view.set ↔ ∀ a : Fin 2, win12_3.index t a * S10000x64.size a ≤ (i a).val ∧ (i a).val < win12_3.index t a * S10000x64.size a + S10000x64.size a := by
  show i ∈ ((View.whole main_v243).slice (win12_3.rect t)).set ↔ _
  rw [View.set_slice_whole, Rect.mem_set_unit]
  exact Iff.rfl

/-- The ten blocks tile the output: row r is in the block of point r / 10000. -/
theorem cover_d12 (i : S100000x64.Idx) :
    ∃ t : Fin cfg12.N, (cfg12.win 3).flush t = true ∧ i ∈ ((cfg12.win 3).blk t).view.set := by
  have hi0 : (i 0).val < 100000 := (i 0).isLt
  have hi1 : (i 1).val < 64 := (i 1).isLt
  have hN : grid12.N = 10 := N_12
  have htN : (i 0).val / 10000 < grid12.N := by rw [hN]; omega
  obtain ⟨-, -, -, -, -, -, e6, e7⟩ := idx_facts_d12 ⟨(i 0).val / 10000, htN⟩
  refine ⟨⟨(i 0).val / 10000, htN⟩, flush12_3 _, ?_⟩
  rw [mem_blk12_3]
  intro a
  match a with
  | ⟨0, _⟩ =>
    show win12_3.index ⟨(i 0).val / 10000, htN⟩ (0 : Fin 2) * 10000 ≤ (i 0).val ∧ (i 0).val < win12_3.index ⟨(i 0).val / 10000, htN⟩ (0 : Fin 2) * 10000 + 10000
    rw [e6]
    show (i 0).val / 10000 * 10000 ≤ (i 0).val ∧ (i 0).val < (i 0).val / 10000 * 10000 + 10000
    omega
  | ⟨1, _⟩ =>
    show win12_3.index ⟨(i 0).val / 10000, htN⟩ (1 : Fin 2) * 64 ≤ (i 1).val ∧ (i 1).val < win12_3.index ⟨(i 0).val / 10000, htN⟩ (1 : Fin 2) * 64 + 64
    rw [e7]
    omega

/-- The output array after the region: the layer of the three arrays as the region finds them. -/
theorem region12_value (c : Dev nD) :
    (dat12 V c).arrAt 3 cfg12.N = affine 100000 128 64 (V c main_arg0) (V c main_v239) (V c main_v242) :=
  (dat12 V c).arrAt_eq_of_cover 3 _ (fun t _ => flushed12_3_eq V c t) cover_d12

/-! ## The region's output between the items of the program -/

/-- What region 12 leaves in its output array: the layer of the feature array, the weight and the bias row as they stand
    after the host stretch before the region. -/
theorem O12_0_eq_affine (c : Dev nD) :
    O12_0 (F := Ideal) m c
      = affine 100000 128 64 (W29 (F := Ideal) m c main_arg0) (W29 (F := Ideal) m c main_v239) (W29 (F := Ideal) m c main_v242) := by
  unfold O12_0
  exact region12_value (E29 m) c

/-- The same entry by entry: the feature row against the weight column, plus the bias row's entry. -/
theorem O12_0_eq (c : Dev nD) (p : Fin 100000) (q : Fin 64) :
    (O12_0 (F := Ideal) m c : S100000x64.Idx → EReal) (ix2 p q)
      = @HAdd.hAdd EReal EReal EReal _
          (∑ k : Fin 128, @HMul.hMul EReal EReal EReal _
            ((W29 (F := Ideal) m c main_arg0 : S100000x128.Idx → EReal) (ix2 p k))
            ((W29 (F := Ideal) m c main_v239 : S128x64.Idx → EReal) (ix2 k q)))
          ((W29 (F := Ideal) m c main_v242 : S1x64.Idx → EReal) (ix2 0 q)) := by
  rw [O12_0_eq_affine, affine_apply]

end Cert.KernelIdeal.Body

end
-- ==== Proof.KIStageDense12.lean ====
/-
  The first dense layer of relation 2, in both programs.

  The kernel program computes h = x·W[2] + b[2] tile by tile in region 12; the reference computes it with one matrix
  product and a broadcast of the bias. Both read the weight as the relation's slab of the weights argument and the bias
  as the relation's row of the bias argument (the same functions of the arguments, wOf12 and bOf12), and both arrays are
  the one function affine of (x, weight, bias row): so when the two memories agree on the three arguments, what the
  region leaves in its output array is the reference's array.
-/
import proofs.«140713_j1864015806535_2_alg».proof.Proof.KIFrameBase
import proofs.«140713_j1864015806535_2_alg».proof.Proof.RefFrame
import proofs.«140713_j1864015806535_2_alg».proof.Proof.LibAffineStage
import proofs.«140713_j1864015806535_2_alg».proof.Proof.KIValDense12
import Idealize.ShloMosaic.Lib.StableHlo.Run
import Idealize.ShloMosaic.PureOps.Ideal.Laws

set_option maxRecDepth 65536

noncomputable section

namespace Cert.Proof.Value
open Idealize.ShloMosaic
/-- The weight of relation 2's first layer as a function of the weights argument: the relation's slab, as a matrix. -/
def wOf12 (a : (⟨3, ![3, 128, 64]⟩ : Shape).Idx → EReal)
    (hs : (⟨3, ![3, 128, 64]⟩ : Shape).Slices ![2, 0, 0] ⟨3, ![1, 128, 64]⟩) (hc : (⟨3, ![1, 128, 64]⟩ : Shape).ShapeCasts ⟨2, ![128, 64]⟩) :
    (⟨2, ![128, 64]⟩ : Shape).Idx → EReal :=
  shapeCast ⟨2, ![128, 64]⟩ (extractStridedSlice ⟨3, ![1, 128, 64]⟩ ![2, 0, 0] a hs) hc
/-- The bias of relation 2's first layer as a function of the bias argument: the relation's row, as a vector. -/
def bOf12 (a : (⟨2, ![3, 64]⟩ : Shape).Idx → EReal)
    (hs : (⟨2, ![3, 64]⟩ : Shape).Slices ![2, 0] ⟨2, ![1, 64]⟩) (hc : (⟨2, ![1, 64]⟩ : Shape).ShapeCasts ⟨1, ![64]⟩) :
    (⟨1, ![64]⟩ : Shape).Idx → EReal :=
  shapeCast ⟨1, ![64]⟩ (extractStridedSlice ⟨2, ![1, 64]⟩ ![2, 0] a hs) hc
end Cert.Proof.Value

namespace Cert.ReferenceIdeal.RefRun
open Cert.ReferenceIdeal Cert.ReferenceIdeal.Gen Idealize.ShloMosaic Idealize.ShloMosaic.TcCoe Idealize.SL.Sem Idealize.ShloMosaic.StableHlo

set_option maxHeartbeats 4000000 in
/-- The reference's first dense layer of relation 2 is x·w + b of the three arguments, from any contents before its window. -/
theorem ref_h12 (V : Valuation τ sig (Elt Ideal)) :
    (after (ops6 (F := Ideal)) V (main_v337 : DevRef τ sig) : S100000x64.Idx → EReal)
      = Cert.LibAffineStage.affine 100000 128 64 (V (main_arg0 : DevRef τ sig))
          (Cert.Proof.Value.wOf12 (V (main_arg3 : DevRef τ sig)) slices_S3x128x64_S1x128x64_2_0_0 shapeCasts_S1x128x64_S128x64)
          (broadcastInDim S1x64 ![1] bcast_S64_S1x64_1 (Cert.Proof.Value.bOf12 (V (main_arg4 : DevRef τ sig)) slices_S3x64_S1x64_2_0 shapeCasts_S1x64_S64)) := by
  dsimp only [ops6]
  after_results
  exact Cert.LibAffineStage.affine_of_dotGeneral 100000 128 64 _ _ _ bcast_S1x64_S100000x64_0_1
end Cert.ReferenceIdeal.RefRun

namespace Cert.KernelIdeal.Body
open Cert.KernelIdeal Cert.KernelIdeal.Gen Idealize.ShloMosaic Idealize.ShloMosaic.TcCoe Idealize.SL.Sem Idealize.ShloMosaic.StableHlo
variable (m : (ℓ : Loc nD τ sig) → Buf (Elt Ideal) ℓ)

/-- The weights argument reaches the host stretch before region 12 as launched. -/
theorem W28_main_arg3 (c : Dev nD) : W28 (F := Ideal) m c main_arg3 = m ((c.tc : Thread nD τ).loc main_arg3) :=
  (congrFun (hV28 m c) _).symm.trans <|
    (GenP.V28_of m (outs m) c main_arg3 (by decide)).trans <|
      (GenP.V27_of m (outs m) c main_arg3 (by decide)).trans <|
      (GenP.V26_of m (outs m) c main_arg3 (by decide)).trans <|
      (GenP.V25_of m (outs m) c main_arg3 (by decide)).trans <|
      (GenP.V24_of m (outs m) c main_arg3 (by decide)).trans <|
      (GenP.V23_of m (outs m) c main_arg3 (by decide)).trans <|
      (GenP.V22_of m (outs m) c main_arg3 (by decide)).trans <|
      (GenP.V21_of m (outs m) c main_arg3 (by decide)).trans <|
      (GenP.V20_of m (outs m) c main_arg3 (by decide)).trans <|
      (GenP.V19_of m (outs m) c main_arg3 (by decide)).trans <|
      (GenP.V18_of m (outs m) c main_arg3 (by decide)).trans <|
      (GenP.V17_of m (outs m) c main_arg3 (by decide)).trans <|
      (GenP.V16_of m (outs m) c main_arg3 (by decide)).trans <|
      (GenP.V15_of m (outs m) c main_arg3 (by decide)).trans <|
      (GenP.V14_of m (outs m) c main_arg3 (by decide)).trans <|
      (GenP.V13_of m (outs m) c main_arg3 (by decide)).trans <|
      (GenP.V12_of m (outs m) c main_arg3 (by decide)).trans <|
      (GenP.V11_of m (outs m) c main_arg3 (by decide)).trans <|
      (GenP.V10_of m (outs m) c main_arg3 (by decide)).trans <|
      (GenP.V9_of m (outs m) c main_arg3 (by decide)).trans <|
      (GenP.V8_of m (outs m) c main_arg3 (by decide)).trans <|
      (GenP.V7_of m (outs m) c main_arg3 (by decide)).trans <|
      (GenP.V6_of m (outs m) c main_arg3 (by decide)).trans <|
      (GenP.V5_of m (outs m) c main_arg3 (by decide)).trans <|
      (GenP.V4_of m (outs m) c main_arg3 (by decide)).trans <|
      (GenP.V3_of m (outs m) c main_arg3 (by decide)).trans <|
      (GenP.V2_of m (outs m) c main_arg3 (by decide)).trans <| (GenP.V1_of m c main_arg3 (by decide)).trans rfl

/-- The bias argument reaches the host stretch before region 12 as launched. -/
theorem W28_main_arg4 (c : Dev nD) : W28 (F := Ideal) m c main_arg4 = m ((c.tc : Thread nD τ).loc main_arg4) :=
  (congrFun (hV28 m c) _).symm.trans <|
    (GenP.V28_of m (outs m) c main_arg4 (by decide)).trans <|
      (GenP.V27_of m (outs m) c main_arg4 (by decide)).trans <|
      (GenP.V26_of m (outs m) c main_arg4 (by decide)).trans <|
      (GenP.V25_of m (outs m) c main_arg4 (by decide)).trans <|
      (GenP.V24_of m (outs m) c main_arg4 (by decide)).trans <|
      (GenP.V23_of m (outs m) c main_arg4 (by decide)).trans <|
      (GenP.V22_of m (outs m) c main_arg4 (by decide)).trans <|
      (GenP.V21_of m (outs m) c main_arg4 (by decide)).trans <|
      (GenP.V20_of m (outs m) c main_arg4 (by decide)).trans <|
      (GenP.V19_of m (outs m) c main_arg4 (by decide)).trans <|
      (GenP.V18_of m (outs m) c main_arg4 (by decide)).trans <|
      (GenP.V17_of m (outs m) c main_arg4 (by decide)).trans <|
      (GenP.V16_of m (outs m) c main_arg4 (by decide)).trans <|
      (GenP.V15_of m (outs m) c main_arg4 (by decide)).trans <|
      (GenP.V14_of m (outs m) c main_arg4 (by decide)).trans <|
      (GenP.V13_of m (outs m) c main_arg4 (by decide)).trans <|
      (GenP.V12_of m (outs m) c main_arg4 (by decide)).trans <|
      (GenP.V11_of m (outs m) c main_arg4 (by decide)).trans <|
      (GenP.V10_of m (outs m) c main_arg4 (by decide)).trans <|
      (GenP.V9_of m (outs m) c main_arg4 (by decide)).trans <|
      (GenP.V8_of m (outs m) c main_arg4 (by decide)).trans <|
      (GenP.V7_of m (outs m) c main_arg4 (by decide)).trans <|
      (GenP.V6_of m (outs m) c main_arg4 (by decide)).trans <|
      (GenP.V5_of m (outs m) c main_arg4 (by decide)).trans <|
      (GenP.V4_of m (outs m) c main_arg4 (by decide)).trans <|
      (GenP.V3_of m (outs m) c main_arg4 (by decide)).trans <|
      (GenP.V2_of m (outs m) c main_arg4 (by decide)).trans <| (GenP.V1_of m c main_arg4 (by decide)).trans rfl

set_option maxHeartbeats 4000000 in
/-- The stretch's weight, from any contents before it: the relation's slab of the weights argument. -/
theorem host_w12 (V : Valuation τ sig (Elt Ideal)) :
    (after (hostOps12_2 (F := Ideal)) V (main_v239 : DevRef τ sig) : S128x64.Idx → EReal)
      = Cert.Proof.Value.wOf12 (V (main_arg3 : DevRef τ sig)) slices_S3x128x64_S1x128x64_2_0_0 shapeCasts_S1x128x64_S128x64 := by
  dsimp only [hostOps12_2]
  after_results
  rfl

set_option maxHeartbeats 4000000 in
/-- The stretch's bias row, from any contents before it: the relation's row of the bias argument as a 1×64 row. -/
theorem host_b12 (V : Valuation τ sig (Elt Ideal)) (hb : S64.BroadcastsInDim S1x64 (![1] : Fin 1 → Fin S1x64.rank)) :
    (after (hostOps12_2 (F := Ideal)) V (main_v242 : DevRef τ sig) : S1x64.Idx → EReal)
      = broadcastInDim S1x64 ![1] hb (Cert.Proof.Value.bOf12 (V (main_arg4 : DevRef τ sig)) slices_S3x64_S1x64_2_0 shapeCasts_S1x64_S64) := by
  dsimp only [hostOps12_2]
  after_results
  exact Cert.LibAffineStage.reshape_row_eq_broadcast_row 64 _ shapeCasts_S64_S1x64 hb

/-- The kernel program's weight of relation 2, layer 1, at region 12. -/
theorem ker_w12 (c : Dev nD) :
    (W29 (F := Ideal) m c main_v239 : S128x64.Idx → EReal)
      = Cert.Proof.Value.wOf12 (m ((c.tc : Thread nD τ).loc main_arg3)) slices_S3x128x64_S1x128x64_2_0_0 shapeCasts_S1x128x64_S128x64 :=
  (host_w12 (W28 m c)).trans (by rw [W28_main_arg3])

/-- The kernel program's bias row of relation 2, layer 1, at region 12. -/
theorem ker_b12 (c : Dev nD) (hb : S64.BroadcastsInDim S1x64 (![1] : Fin 1 → Fin S1x64.rank)) :
    (W29 (F := Ideal) m c main_v242 : S1x64.Idx → EReal)
      = broadcastInDim S1x64 ![1] hb (Cert.Proof.Value.bOf12 (m ((c.tc : Thread nD τ).loc main_arg4)) slices_S3x64_S1x64_2_0 shapeCasts_S1x64_S64) :=
  (host_b12 (W28 m c) hb).trans (by rw [W28_main_arg4])

/-- The kernel program reads the node features unchanged at region 12. -/
theorem ker_x12 (c : Dev nD) : W29 (F := Ideal) m c main_arg0 = m ((c.tc : Thread nD τ).loc main_arg0) :=
  (congrFun (hV29 m c) _).symm.trans <|
    (GenP.V29_of m (outs m) c main_arg0 (by decide)).trans <|
      (GenP.V28_of m (outs m) c main_arg0 (by decide)).trans <|
      (GenP.V27_of m (outs m) c main_arg0 (by decide)).trans <|
      (GenP.V26_of m (outs m) c main_arg0 (by decide)).trans <|
      (GenP.V25_of m (outs m) c main_arg0 (by decide)).trans <|
      (GenP.V24_of m (outs m) c main_arg0 (by decide)).trans <|
      (GenP.V23_of m (outs m) c main_arg0 (by decide)).trans <|
      (GenP.V22_of m (outs m) c main_arg0 (by decide)).trans <|
      (GenP.V21_of m (outs m) c main_arg0 (by decide)).trans <|
      (GenP.V20_of m (outs m) c main_arg0 (by decide)).trans <|
      (GenP.V19_of m (outs m) c main_arg0 (by decide)).trans <|
      (GenP.V18_of m (outs m) c main_arg0 (by decide)).trans <|
      (GenP.V17_of m (outs m) c main_arg0 (by decide)).trans <|
      (GenP.V16_of m (outs m) c main_arg0 (by decide)).trans <|
      (GenP.V15_of m (outs m) c main_arg0 (by decide)).trans <|
      (GenP.V14_of m (outs m) c main_arg0 (by decide)).trans <|
      (GenP.V13_of m (outs m) c main_arg0 (by decide)).trans <|
      (GenP.V12_of m (outs m) c main_arg0 (by decide)).trans <|
      (GenP.V11_of m (outs m) c main_arg0 (by decide)).trans <|
      (GenP.V10_of m (outs m) c main_arg0 (by decide)).trans <|
      (GenP.V9_of m (outs m) c main_arg0 (by decide)).trans <|
      (GenP.V8_of m (outs m) c main_arg0 (by decide)).trans <|
      (GenP.V7_of m (outs m) c main_arg0 (by decide)).trans <|
      (GenP.V6_of m (outs m) c main_arg0 (by decide)).trans <|
      (GenP.V5_of m (outs m) c main_arg0 (by decide)).trans <|
      (GenP.V4_of m (outs m) c main_arg0 (by decide)).trans <|
      (GenP.V3_of m (outs m) c main_arg0 (by decide)).trans <|
      (GenP.V2_of m (outs m) c main_arg0 (by decide)).trans <| (GenP.V1_of m c main_arg0 (by decide)).trans rfl
end Cert.KernelIdeal.Body

namespace Cert.Proof.Value
open Idealize.ShloMosaic Idealize.ShloMosaic.TcCoe Idealize.SL.Sem Idealize.ShloMosaic.StableHlo

/-- Relation 2, layer 1: the kernel program's dense layer (what region 12 leaves in its output array) is the reference's,
    from any contents before the reference's window that agree with the kernel program's launch memory on the node
    features, the weights and the biases. -/
theorem stageDense12
    (m : (ℓ : Loc Cert.KernelIdeal.nD Cert.KernelIdeal.τ Cert.KernelIdeal.sig) → Buf (Elt Ideal) ℓ)
    (V : Valuation Cert.ReferenceIdeal.τ Cert.ReferenceIdeal.sig (Elt Ideal))
    (c : Dev Cert.KernelIdeal.nD)
    (h0 : V (Proc.devRef .tc Cert.ReferenceIdeal.main_arg0) = m ((c.tc : Thread Cert.KernelIdeal.nD Cert.KernelIdeal.τ).loc Cert.KernelIdeal.main_arg0))
    (h3 : V (Proc.devRef .tc Cert.ReferenceIdeal.main_arg3) = m ((c.tc : Thread Cert.KernelIdeal.nD Cert.KernelIdeal.τ).loc Cert.KernelIdeal.main_arg3))
    (h4 : V (Proc.devRef .tc Cert.ReferenceIdeal.main_arg4) = m ((c.tc : Thread Cert.KernelIdeal.nD Cert.KernelIdeal.τ).loc Cert.KernelIdeal.main_arg4)) :
    (after (Cert.ReferenceIdeal.RefRun.ops6 (F := Ideal)) V (Cert.ReferenceIdeal.main_v337 : DevRef Cert.ReferenceIdeal.τ Cert.ReferenceIdeal.sig) : (⟨2, ![100000, 64]⟩ : Shape).Idx → EReal)
      = (Cert.KernelIdeal.Body.O12_0 (F := Ideal) m c : (⟨2, ![100000, 64]⟩ : Shape).Idx → EReal) := by
  rw [Cert.ReferenceIdeal.RefRun.ref_h12, Cert.KernelIdeal.Body.O12_0_eq_affine, Cert.KernelIdeal.Body.ker_x12, Cert.KernelIdeal.Body.ker_w12,
    Cert.KernelIdeal.Body.ker_b12 m c Cert.ReferenceIdeal.Gen.bcast_S64_S1x64_1, h0, h3, h4]

end Cert.Proof.Value

end
-- ==== Proof.KIValDense15.lean ====
/-
  Region 15, the sixth dense layer, read index by index on the extended reals.

  Each of the ten grid points takes 10000 rows of the 100000×64 input features, the whole 64×32 weight and the 1×32 bias
  row, and writes the 10000 rows of the product plus the bias row into its block of the 100000×32 output. A row of the
  layer depends on the features through that row alone, and the ten blocks tile the output, so the output array ends at
      (p, q) ↦ Σ_{k<64} x(p, k) · w(k, q) + b(0, q)
  of the arrays as the region finds them.
-/
import proofs.«140713_j1864015806535_2_alg».proof.Proof.KIFrameBase
import proofs.«140713_j1864015806535_2_alg».proof.Proof.LibAffineStage
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Body

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.LibAffineStage (affine affine_apply affine_rows affine_of_matmul)

variable (m : (ℓ : Loc nD τ sig) → Buf (Elt Ideal) ℓ)

/-! ## The body's arithmetic: the layer of a tile -/

theorem hz_d15 : (![0, 0] : Fin 2 → Nat) = fun _ => 0 := funext fun a => by fin_cases a <;> rfl

/-- The body's payload is the dense layer of its tile of rows: the tile against the weight, plus the bias row. The
    narrowing of the two operands and the shape casts to the same shape are the identity on the extended reals. -/
theorem pay15_eq (x : Vec Ideal S10000x64 .f32) (w : Vec Ideal S64x32 .f32) (b : Vec Ideal S1x32 .f32) :
    k15_pay1 x w b = affine 10000 64 32 x w b := by
  unfold k15_pay1
  rw [shapeCast_self x, shapeCast_self w]
  exact affine_of_matmul 10000 64 32 x w b _ _ _ _

/-! ## From the ten blocks to the array -/

variable (V : (c : Dev nD) → (b : Ref sig .tc) → Buf (Elt Ideal) ((c : Thread nD τ).loc b))

/-- The printed index maps over the grid: point t's feature block and output block are row block t in the one column
    block; the weight and the bias row are their whole arrays at every point. -/
theorem idx_facts_d15 : ∀ t : Fin cfg15.N,
    win15_0.index t (0 : Fin 2) = t.val ∧ win15_0.index t (1 : Fin 2) = 0
    ∧ win15_1.index t (0 : Fin 2) = 0 ∧ win15_1.index t (1 : Fin 2) = 0
    ∧ win15_2.index t (0 : Fin 2) = 0 ∧ win15_2.index t (1 : Fin 2) = 0
    ∧ win15_3.index t (0 : Fin 2) = t.val ∧ win15_3.index t (1 : Fin 2) = 0 :=
  (by decide +kernel : ∀ t : Fin grid15.N, _)

/-- The feature block at point t is rows 10000·t … 10000·t + 9999 of the feature array. -/
theorem iblk15_0_apply (c : Dev nD) (t : Fin cfg15.N) (y : S10000x64.Idx) (z : S100000x64.Idx)
    (h0 : (z 0).val = t.val * 10000 + (y 0).val) (h1 : (z 1).val = (y 1).val) :
    (iblk15 V c 0 t : Vec Ideal S10000x64 .f32) y = (V c main_v273 : S100000x64.Idx → EReal) z := by
  obtain ⟨e0, e1, -⟩ := idx_facts_d15 t
  unfold iblk15
  rw [View.read_apply]
  show V c main_v273 _ = V c main_v273 _
  congr 1
  funext a
  apply Fin.ext
  match a with
  | ⟨0, _⟩ => show win15_0.index t (0 : Fin 2) * 10000 + 1 * (y 0).val = (z 0).val; omega
  | ⟨1, _⟩ => show win15_0.index t (1 : Fin 2) * 64 + 1 * (y 1).val = (z 1).val; omega

/-- The weight block at every point is the weight array. -/
theorem iblk15_1_eq (c : Dev nD) (t : Fin cfg15.N) :
    (iblk15 V c 1 t : Vec Ideal S64x32 .f32) = (V c main_v275 : S64x32.Idx → EReal) := by
  obtain ⟨-, -, e2, e3, -⟩ := idx_facts_d15 t
  funext y
  unfold iblk15
  rw [View.read_apply]
  show V c main_v275 _ = V c main_v275 y
  congr 1
  funext a
  apply Fin.ext
  match a with
  | ⟨0, _⟩ => show win15_1.index t (0 : Fin 2) * 64 + 1 * (y 0).val = (y 0).val; omega
  | ⟨1, _⟩ => show win15_1.index t (1 : Fin 2) * 32 + 1 * (y 1).val = (y 1).val; omega

/-- The bias block at every point is the bias row. -/
theorem iblk15_2_eq (c : Dev nD) (t : Fin cfg15.N) :
    (iblk15 V c 2 t : Vec Ideal S1x32 .f32) = (V c main_v278 : S1x32.Idx → EReal) := by
  obtain ⟨-, -, -, -, e4, e5, -⟩ := idx_facts_d15 t
  funext y
  unfold iblk15
  rw [View.read_apply]
  show V c main_v278 _ = V c main_v278 y
  congr 1
  funext a
  apply Fin.ext
  match a with
  | ⟨0, _⟩ => show win15_2.index t (0 : Fin 2) * 1 + 1 * (y 0).val = (y 0).val; omega
  | ⟨1, _⟩ => show win15_2.index t (1 : Fin 2) * 32 + 1 * (y 1).val = (y 1).val; omega

/-- Row p, column q of the output block at point t is row 10000·t + p, column q of the output array. -/
theorem emb15_3 (t : Fin cfg15.N) (p : Fin 10000) (q : Fin 32) (r : Fin 100000) (hr : r.val = t.val * 10000 + p.val) :
    ((cfg15.win 3).blk t).view.emb (ix2 p q) = (ix2 r q : S100000x32.Idx) := by
  obtain ⟨-, -, -, -, -, -, e6, e7⟩ := idx_facts_d15 t
  funext a
  apply Fin.ext
  match a with
  | ⟨0, _⟩ => show win15_3.index t (0 : Fin 2) * 10000 + 1 * p.val = r.val; omega
  | ⟨1, _⟩ => show win15_3.index t (1 : Fin 2) * 32 + 1 * q.val = q.val; omega

/-- What point t writes back is block t of the layer of the three arrays as the region finds them. -/
theorem flushed15_3_eq (c : Dev nD) (t : Fin cfg15.N) :
    (dat15 V c).flushed 3 t = ((cfg15.win 3).blk t).view.read (Elt Ideal)
      (affine 100000 64 32 (V c main_v273) (V c main_v275) (V c main_v278)) := by
  show (cfg15.win 3).cut (grid15.coords t) ((dat15 V c).after 3 t) = _
  rw [after15_3]
  unfold out15_3
  rw [View.canon_unit_zero hz_d15]
  simp only [View.ld_unit_zero (S := S10000x64) hz_d15, View.ld_unit_zero (S := S64x32) hz_d15, View.ld_unit_zero (S := S1x32) hz_d15]
  rw [iblk15_1_eq, iblk15_2_eq, pay15_eq]
  have ht : t.val < 10 := lt_of_lt_of_eq t.isLt N_15
  funext j
  obtain ⟨p, q, rfl⟩ : ∃ (p : Fin 10000) (q : Fin 32), j = ix2 p q := ⟨j 0, j 1, eq_ix2 j⟩
  rw [View.read_apply, emb15_3 t p q ⟨t.val * 10000 + p.val, by have := p.isLt; omega⟩ rfl]
  exact affine_rows 100000 64 32 10000 _ _ _ _ _ p (fun k => iblk15_0_apply V c t _ _ rfl rfl) q

/-- An index of the output array is in point t's block iff each coordinate is in the block's range on its axis. -/
theorem mem_blk15_3 (t : Fin cfg15.N) (i : S100000x32.Idx) :
    i ∈ ((cfg15.win 3).blk t).view.set ↔ ∀ a : Fin 2, win15_3.index t a * S10000x32.size a ≤ (i a).val ∧ (i a).val < win15_3.index t a * S10000x32.size a + S10000x32.size a := by
  show i ∈ ((View.whole main_v279).slice (win15_3.rect t)).set ↔ _
  rw [View.set_slice_whole, Rect.mem_set_unit]
  exact Iff.rfl

/-- The ten blocks tile the output: row r is in the block of point r / 10000. -/
theorem cover_d15 (i : S100000x32.Idx) :
    ∃ t : Fin cfg15.N, (cfg15.win 3).flush t = true ∧ i ∈ ((cfg15.win 3).blk t).view.set := by
  have hi0 : (i 0).val < 100000 := (i 0).isLt
  have hi1 : (i 1).val < 32 := (i 1).isLt
  have hN : grid15.N = 10 := N_15
  have htN : (i 0).val / 10000 < grid15.N := by rw [hN]; omega
  obtain ⟨-, -, -, -, -, -, e6, e7⟩ := idx_facts_d15 ⟨(i 0).val / 10000, htN⟩
  refine ⟨⟨(i 0).val / 10000, htN⟩, flush15_3 _, ?_⟩
  rw [mem_blk15_3]
  intro a
  match a with
  | ⟨0, _⟩ =>
    show win15_3.index ⟨(i 0).val / 10000, htN⟩ (0 : Fin 2) * 10000 ≤ (i 0).val ∧ (i 0).val < win15_3.index ⟨(i 0).val / 10000, htN⟩ (0 : Fin 2) * 10000 + 10000
    rw [e6]
    show (i 0).val / 10000 * 10000 ≤ (i 0).val ∧ (i 0).val < (i 0).val / 10000 * 10000 + 10000
    omega
  | ⟨1, _⟩ =>
    show win15_3.index ⟨(i 0).val / 10000, htN⟩ (1 : Fin 2) * 32 ≤ (i 1).val ∧ (i 1).val < win15_3.index ⟨(i 0).val / 10000, htN⟩ (1 : Fin 2) * 32 + 32
    rw [e7]
    omega

/-- The output array after the region: the layer of the three arrays as the region finds them. -/
theorem region15_value (c : Dev nD) :
    (dat15 V c).arrAt 3 cfg15.N = affine 100000 64 32 (V c main_v273) (V c main_v275) (V c main_v278) :=
  (dat15 V c).arrAt_eq_of_cover 3 _ (fun t _ => flushed15_3_eq V c t) cover_d15

/-! ## The region's output between the items of the program -/

/-- What region 15 leaves in its output array: the layer of the feature array, the weight and the bias row as they stand
    after the host stretch before the region. -/
theorem O15_0_eq_affine (c : Dev nD) :
    O15_0 (F := Ideal) m c
      = affine 100000 64 32 (W35 (F := Ideal) m c main_v273) (W35 (F := Ideal) m c main_v275) (W35 (F := Ideal) m c main_v278) := by
  unfold O15_0
  exact region15_value (E35 m) c

/-- The same entry by entry: the feature row against the weight column, plus the bias row's entry. -/
theorem O15_0_eq (c : Dev nD) (p : Fin 100000) (q : Fin 32) :
    (O15_0 (F := Ideal) m c : S100000x32.Idx → EReal) (ix2 p q)
      = @HAdd.hAdd EReal EReal EReal _
          (∑ k : Fin 64, @HMul.hMul EReal EReal EReal _
            ((W35 (F := Ideal) m c main_v273 : S100000x64.Idx → EReal) (ix2 p k))
            ((W35 (F := Ideal) m c main_v275 : S64x32.Idx → EReal) (ix2 k q)))
          ((W35 (F := Ideal) m c main_v278 : S1x32.Idx → EReal) (ix2 0 q)) := by
  rw [O15_0_eq_affine, affine_apply]

end Cert.KernelIdeal.Body

end
-- ==== Proof.KIStageDense15.lean ====
/-
  The second dense layer of relation 2, in both programs.

  The kernel program computes h = x·W[2] + b[2] tile by tile in region 15, where x is the array the stage before left; the
  reference computes it with one matrix product and a broadcast of the bias, of the array its own stage before left in
  the same window. Both read the weight as the relation's slab of the second weights argument and the bias as the
  relation's row of the second bias argument (the same functions of the arguments, wOf15 and bOf15), and both arrays are the
  one function affine of (x, weight, bias row): so when the two inputs are equal and the two memories agree on the two
  arguments, what the region leaves in its output array is the reference's array.
-/
import proofs.«140713_j1864015806535_2_alg».proof.Proof.KIFrameBase
import proofs.«140713_j1864015806535_2_alg».proof.Proof.RefFrame
import proofs.«140713_j1864015806535_2_alg».proof.Proof.LibAffineStage
import proofs.«140713_j1864015806535_2_alg».proof.Proof.KIValDense15
import Idealize.ShloMosaic.Lib.StableHlo.Run
import Idealize.ShloMosaic.PureOps.Ideal.Laws

set_option maxRecDepth 65536

noncomputable section

namespace Cert.Proof.Value
open Idealize.ShloMosaic
/-- The weight of relation 2's second layer as a function of the weights argument: the relation's slab, as a matrix. -/
def wOf15 (a : (⟨3, ![3, 64, 32]⟩ : Shape).Idx → EReal)
    (hs : (⟨3, ![3, 64, 32]⟩ : Shape).Slices ![2, 0, 0] ⟨3, ![1, 64, 32]⟩) (hc : (⟨3, ![1, 64, 32]⟩ : Shape).ShapeCasts ⟨2, ![64, 32]⟩) :
    (⟨2, ![64, 32]⟩ : Shape).Idx → EReal :=
  shapeCast ⟨2, ![64, 32]⟩ (extractStridedSlice ⟨3, ![1, 64, 32]⟩ ![2, 0, 0] a hs) hc
/-- The bias of relation 2's second layer as a function of the bias argument: the relation's row, as a vector. -/
def bOf15 (a : (⟨2, ![3, 32]⟩ : Shape).Idx → EReal)
    (hs : (⟨2, ![3, 32]⟩ : Shape).Slices ![2, 0] ⟨2, ![1, 32]⟩) (hc : (⟨2, ![1, 32]⟩ : Shape).ShapeCasts ⟨1, ![32]⟩) :
    (⟨1, ![32]⟩ : Shape).Idx → EReal :=
  shapeCast ⟨1, ![32]⟩ (extractStridedSlice ⟨2, ![1, 32]⟩ ![2, 0] a hs) hc
end Cert.Proof.Value

namespace Cert.ReferenceIdeal.RefRun
open Cert.ReferenceIdeal Cert.ReferenceIdeal.Gen Idealize.ShloMosaic Idealize.ShloMosaic.TcCoe Idealize.SL.Sem Idealize.ShloMosaic.StableHlo

/-- The window's first 4 operations write neither weights argument nor bias argument. -/
theorem ops8_take_keeps (V : Valuation τ sig (Elt Ideal)) (r : Ref sig .tc) (hr : r ∉ (ops8_W : List (Ref sig .tc))) :
    after ((ops8 (F := Ideal)).take 4) V (Proc.devRef .tc r) = V (Proc.devRef .tc r) :=
  after_of_writes_sub (W := ops8_W) _ V
    (List.forall_iff_forall_mem.mpr fun op hop => List.forall_iff_forall_mem.mp ops8_writes op (List.mem_of_mem_take hop)) hr

set_option maxHeartbeats 4000000 in
/-- The reference's second dense layer of relation 2 is x·w + b of the array its stage before left in the same window and
    of the two arguments, from any contents before the window. The window is cut at the layer's first operation: the
    operations before it are read only through what they leave. -/
theorem ref_h15 (V : Valuation τ sig (Elt Ideal)) :
    (after (ops8 (F := Ideal)) V (main_v412 : DevRef τ sig) : S100000x32.Idx → EReal)
      = Cert.LibAffineStage.affine 100000 64 32 (after (ops8 (F := Ideal)) V (main_v402 : DevRef τ sig))
          (Cert.Proof.Value.wOf15 (V (main_arg5 : DevRef τ sig)) slices_S3x64x32_S1x64x32_2_0_0 shapeCasts_S1x64x32_S64x32)
          (broadcastInDim S1x32 ![1] bcast_S32_S1x32_1 (Cert.Proof.Value.bOf15 (V (main_arg6 : DevRef τ sig)) slices_S3x32_S1x32_2_0 shapeCasts_S1x32_S32)) := by
  rw [← ops8_take_keeps V main_arg5 (by decide), ← ops8_take_keeps V main_arg6 (by decide),
    ← List.take_append_drop 4 (ops8 (F := Ideal)), after_append]
  simp only [List.take_append_drop]
  generalize after ((ops8 (F := Ideal)).take 4) V = X
  dsimp only [ops8]
  simp only [List.drop_succ_cons, List.drop_zero]
  after_results
  exact Cert.LibAffineStage.affine_of_dotGeneral 100000 64 32 _ _ _ bcast_S1x32_S100000x32_0_1
end Cert.ReferenceIdeal.RefRun

namespace Cert.KernelIdeal.Body
open Cert.KernelIdeal Cert.KernelIdeal.Gen Idealize.ShloMosaic Idealize.ShloMosaic.TcCoe Idealize.SL.Sem Idealize.ShloMosaic.StableHlo
variable (m : (ℓ : Loc nD τ sig) → Buf (Elt Ideal) ℓ)

/-- The weights argument reaches the host stretch before region 15 as launched. -/
theorem W34_main_arg5 (c : Dev nD) : W34 (F := Ideal) m c main_arg5 = m ((c.tc : Thread nD τ).loc main_arg5) :=
  (congrFun (hV34 m c) _).symm.trans <|
    (GenP.V34_of m (outs m) c main_arg5 (by decide)).trans <|
      (GenP.V33_of m (outs m) c main_arg5 (by decide)).trans <|
      (GenP.V32_of m (outs m) c main_arg5 (by decide)).trans <|
      (GenP.V31_of m (outs m) c main_arg5 (by decide)).trans <|
      (GenP.V30_of m (outs m) c main_arg5 (by decide)).trans <|
      (GenP.V29_of m (outs m) c main_arg5 (by decide)).trans <|
      (GenP.V28_of m (outs m) c main_arg5 (by decide)).trans <|
      (GenP.V27_of m (outs m) c main_arg5 (by decide)).trans <|
      (GenP.V26_of m (outs m) c main_arg5 (by decide)).trans <|
      (GenP.V25_of m (outs m) c main_arg5 (by decide)).trans <|
      (GenP.V24_of m (outs m) c main_arg5 (by decide)).trans <|
      (GenP.V23_of m (outs m) c main_arg5 (by decide)).trans <|
      (GenP.V22_of m (outs m) c main_arg5 (by decide)).trans <|
      (GenP.V21_of m (outs m) c main_arg5 (by decide)).trans <|
      (GenP.V20_of m (outs m) c main_arg5 (by decide)).trans <|
      (GenP.V19_of m (outs m) c main_arg5 (by decide)).trans <|
      (GenP.V18_of m (outs m) c main_arg5 (by decide)).trans <|
      (GenP.V17_of m (outs m) c main_arg5 (by decide)).trans <|
      (GenP.V16_of m (outs m) c main_arg5 (by decide)).trans <|
      (GenP.V15_of m (outs m) c main_arg5 (by decide)).trans <|
      (GenP.V14_of m (outs m) c main_arg5 (by decide)).trans <|
      (GenP.V13_of m (outs m) c main_arg5 (by decide)).trans <|
      (GenP.V12_of m (outs m) c main_arg5 (by decide)).trans <|
      (GenP.V11_of m (outs m) c main_arg5 (by decide)).trans <|
      (GenP.V10_of m (outs m) c main_arg5 (by decide)).trans <|
      (GenP.V9_of m (outs m) c main_arg5 (by decide)).trans <|
      (GenP.V8_of m (outs m) c main_arg5 (by decide)).trans <|
      (GenP.V7_of m (outs m) c main_arg5 (by decide)).trans <|
      (GenP.V6_of m (outs m) c main_arg5 (by decide)).trans <|
      (GenP.V5_of m (outs m) c main_arg5 (by decide)).trans <|
      (GenP.V4_of m (outs m) c main_arg5 (by decide)).trans <|
      (GenP.V3_of m (outs m) c main_arg5 (by decide)).trans <|
      (GenP.V2_of m (outs m) c main_arg5 (by decide)).trans <| (GenP.V1_of m c main_arg5 (by decide)).trans rfl

/-- The bias argument reaches the host stretch before region 15 as launched. -/
theorem W34_main_arg6 (c : Dev nD) : W34 (F := Ideal) m c main_arg6 = m ((c.tc : Thread nD τ).loc main_arg6) :=
  (congrFun (hV34 m c) _).symm.trans <|
    (GenP.V34_of m (outs m) c main_arg6 (by decide)).trans <|
      (GenP.V33_of m (outs m) c main_arg6 (by decide)).trans <|
      (GenP.V32_of m (outs m) c main_arg6 (by decide)).trans <|
      (GenP.V31_of m (outs m) c main_arg6 (by decide)).trans <|
      (GenP.V30_of m (outs m) c main_arg6 (by decide)).trans <|
      (GenP.V29_of m (outs m) c main_arg6 (by decide)).trans <|
      (GenP.V28_of m (outs m) c main_arg6 (by decide)).trans <|
      (GenP.V27_of m (outs m) c main_arg6 (by decide)).trans <|
      (GenP.V26_of m (outs m) c main_arg6 (by decide)).trans <|
      (GenP.V25_of m (outs m) c main_arg6 (by decide)).trans <|
      (GenP.V24_of m (outs m) c main_arg6 (by decide)).trans <|
      (GenP.V23_of m (outs m) c main_arg6 (by decide)).trans <|
      (GenP.V22_of m (outs m) c main_arg6 (by decide)).trans <|
      (GenP.V21_of m (outs m) c main_arg6 (by decide)).trans <|
      (GenP.V20_of m (outs m) c main_arg6 (by decide)).trans <|
      (GenP.V19_of m (outs m) c main_arg6 (by decide)).trans <|
      (GenP.V18_of m (outs m) c main_arg6 (by decide)).trans <|
      (GenP.V17_of m (outs m) c main_arg6 (by decide)).trans <|
      (GenP.V16_of m (outs m) c main_arg6 (by decide)).trans <|
      (GenP.V15_of m (outs m) c main_arg6 (by decide)).trans <|
      (GenP.V14_of m (outs m) c main_arg6 (by decide)).trans <|
      (GenP.V13_of m (outs m) c main_arg6 (by decide)).trans <|
      (GenP.V12_of m (outs m) c main_arg6 (by decide)).trans <|
      (GenP.V11_of m (outs m) c main_arg6 (by decide)).trans <|
      (GenP.V10_of m (outs m) c main_arg6 (by decide)).trans <|
      (GenP.V9_of m (outs m) c main_arg6 (by decide)).trans <|
      (GenP.V8_of m (outs m) c main_arg6 (by decide)).trans <|
      (GenP.V7_of m (outs m) c main_arg6 (by decide)).trans <|
      (GenP.V6_of m (outs m) c main_arg6 (by decide)).trans <|
      (GenP.V5_of m (outs m) c main_arg6 (by decide)).trans <|
      (GenP.V4_of m (outs m) c main_arg6 (by decide)).trans <|
      (GenP.V3_of m (outs m) c main_arg6 (by decide)).trans <|
      (GenP.V2_of m (outs m) c main_arg6 (by decide)).trans <| (GenP.V1_of m c main_arg6 (by decide)).trans rfl

set_option maxHeartbeats 4000000 in
/-- The stretch's weight, from any contents before it: the relation's slab of the weights argument. -/
theorem host_w15 (V : Valuation τ sig (Elt Ideal)) :
    (after (hostOps15 (F := Ideal)) V (main_v275 : DevRef τ sig) : S64x32.Idx → EReal)
      = Cert.Proof.Value.wOf15 (V (main_arg5 : DevRef τ sig)) slices_S3x64x32_S1x64x32_2_0_0 shapeCasts_S1x64x32_S64x32 := by
  dsimp only [hostOps15]
  after_results
  rfl

set_option maxHeartbeats 4000000 in
/-- The stretch's bias row, from any contents before it: the relation's row of the bias argument as a 1×32 row. -/
theorem host_b15 (V : Valuation τ sig (Elt Ideal)) (hb : S32.BroadcastsInDim S1x32 (![1] : Fin 1 → Fin S1x32.rank)) :
    (after (hostOps15 (F := Ideal)) V (main_v278 : DevRef τ sig) : S1x32.Idx → EReal)
      = broadcastInDim S1x32 ![1] hb (Cert.Proof.Value.bOf15 (V (main_arg6 : DevRef τ sig)) slices_S3x32_S1x32_2_0 shapeCasts_S1x32_S32) := by
  dsimp only [hostOps15]
  after_results
  exact Cert.LibAffineStage.reshape_row_eq_broadcast_row 32 _ shapeCasts_S32_S1x32 hb

/-- The kernel program's weight of relation 2, layer 2, at region 15. -/
theorem ker_w15 (c : Dev nD) :
    (W35 (F := Ideal) m c main_v275 : S64x32.Idx → EReal)
      = Cert.Proof.Value.wOf15 (m ((c.tc : Thread nD τ).loc main_arg5)) slices_S3x64x32_S1x64x32_2_0_0 shapeCasts_S1x64x32_S64x32 :=
  (host_w15 (W34 m c)).trans (by rw [W34_main_arg5])

/-- The kernel program's bias row of relation 2, layer 2, at region 15. -/
theorem ker_b15 (c : Dev nD) (hb : S32.BroadcastsInDim S1x32 (![1] : Fin 1 → Fin S1x32.rank)) :
    (W35 (F := Ideal) m c main_v278 : S1x32.Idx → EReal)
      = broadcastInDim S1x32 ![1] hb (Cert.Proof.Value.bOf15 (m ((c.tc : Thread nD τ).loc main_arg6)) slices_S3x32_S1x32_2_0 shapeCasts_S1x32_S32) :=
  (host_b15 (W34 m c) hb).trans (by rw [W34_main_arg6])
end Cert.KernelIdeal.Body

namespace Cert.Proof.Value
open Idealize.ShloMosaic Idealize.ShloMosaic.TcCoe Idealize.SL.Sem Idealize.ShloMosaic.StableHlo

/-- Relation 2, layer 2: the kernel program's dense layer (what region 15 leaves in its output array) is the reference's,
    from any contents before the reference's window that agree with the kernel program's launch memory on the weights
    and the biases, when the reference's input array is the kernel program's. -/
theorem stageDense15
    (m : (ℓ : Loc Cert.KernelIdeal.nD Cert.KernelIdeal.τ Cert.KernelIdeal.sig) → Buf (Elt Ideal) ℓ)
    (V : Valuation Cert.ReferenceIdeal.τ Cert.ReferenceIdeal.sig (Elt Ideal))
    (c : Dev Cert.KernelIdeal.nD)
    (hx : (after (Cert.ReferenceIdeal.RefRun.ops8 (F := Ideal)) V (Cert.ReferenceIdeal.main_v402 : DevRef Cert.ReferenceIdeal.τ Cert.ReferenceIdeal.sig) : (⟨2, ![100000, 64]⟩ : Shape).Idx → EReal)
      = (Cert.KernelIdeal.Body.W35 (F := Ideal) m c Cert.KernelIdeal.main_v273 : (⟨2, ![100000, 64]⟩ : Shape).Idx → EReal))
    (h5 : V (Proc.devRef .tc Cert.ReferenceIdeal.main_arg5) = m ((c.tc : Thread Cert.KernelIdeal.nD Cert.KernelIdeal.τ).loc Cert.KernelIdeal.main_arg5))
    (h6 : V (Proc.devRef .tc Cert.ReferenceIdeal.main_arg6) = m ((c.tc : Thread Cert.KernelIdeal.nD Cert.KernelIdeal.τ).loc Cert.KernelIdeal.main_arg6)) :
    (after (Cert.ReferenceIdeal.RefRun.ops8 (F := Ideal)) V (Cert.ReferenceIdeal.main_v412 : DevRef Cert.ReferenceIdeal.τ Cert.ReferenceIdeal.sig) : (⟨2, ![100000, 32]⟩ : Shape).Idx → EReal)
      = (Cert.KernelIdeal.Body.O15_0 (F := Ideal) m c : (⟨2, ![100000, 32]⟩ : Shape).Idx → EReal) := by
  rw [Cert.ReferenceIdeal.RefRun.ref_h15, Cert.KernelIdeal.Body.O15_0_eq_affine, Cert.KernelIdeal.Body.ker_w15,
    Cert.KernelIdeal.Body.ker_b15 m c Cert.ReferenceIdeal.Gen.bcast_S32_S1x32_1, hx, h5, h6]

end Cert.Proof.Value

end
-- ==== Proof.KIStageAgg12.lean ====
/-
  The graph aggregation of relation 2, layer 1 (width 64), which both programs compute on the host with the same
  operations.

  With h the relation's first dense layer's output (100000 × 64), src and dst the relation's two rows of the edge argument
  and weight(e) = d(src e) · d(dst e), d = 1/sqrt(max(deg, 1)), row n of agg is the sum over the edges e into n of
  weight(e) · h(src e). Each program's agg array is read as the one function aggOf of (h, src, dst, weights) with src, dst
  and the weights the same functions of the edge argument, and the last lemmas conclude that the two agg arrays are equal
  when the two h arrays are equal and the edge arguments agree, and that the 1×1 mixing weight the kernel program's region
  reads is the reference's scalar mixing weight when the weights arguments agree.
-/
import proofs.«140713_j1864015806535_2_alg».proof.Proof.KIStageAgg0

set_option maxRecDepth 16384

noncomputable section

namespace Cert.KernelIdeal.Body
open Cert.KernelIdeal Cert.KernelIdeal.Gen Idealize.ShloMosaic Idealize.ShloMosaic.TcCoe Idealize.SL.Sem Idealize.ShloMosaic.StableHlo
variable (m : (ℓ : Loc nD τ sig) → Buf (Elt Ideal) ℓ)

/-- After region 12 the dense layer's output array holds what the region left there. -/
theorem W30_h12 (c : Dev nD) : W30 (F := Ideal) m c (main_v243 : DevRef τ sig) = O12_0 m c := by
  unfold W30
  exact Function.update_self ..

/-- Region 12 leaves every other buffer as it was. -/
theorem W30_keep12 (c : Dev nD) (r : Ref sig .tc) (hr : r ≠ main_v243) :
    W30 (F := Ideal) m c (Proc.devRef .tc r) = W29 m c (Proc.devRef .tc r) := by
  unfold W30
  exact Function.update_of_ne (StableHlo.devRef_ne_of_ne hr) ..

/-- The edge argument reaches the stretch before region 12 as launched. -/
theorem W28_main_arg1_agg (c : Dev nD) : W28 (F := Ideal) m c main_arg1 = m ((c.tc : Thread nD τ).loc main_arg1) :=
  (congrFun (hV28 m c) _).symm.trans <|
    (GenP.V28_of m (outs m) c main_arg1 (by decide)).trans <| (GenP.V27_of m (outs m) c main_arg1 (by decide)).trans <| (GenP.V26_of m (outs m) c main_arg1 (by decide)).trans <| (GenP.V25_of m (outs m) c main_arg1 (by decide)).trans <| (GenP.V24_of m (outs m) c main_arg1 (by decide)).trans <| (GenP.V23_of m (outs m) c main_arg1 (by decide)).trans <| (GenP.V22_of m (outs m) c main_arg1 (by decide)).trans <| (GenP.V21_of m (outs m) c main_arg1 (by decide)).trans <| (GenP.V20_of m (outs m) c main_arg1 (by decide)).trans <| (GenP.V19_of m (outs m) c main_arg1 (by decide)).trans <| (GenP.V18_of m (outs m) c main_arg1 (by decide)).trans <| (GenP.V17_of m (outs m) c main_arg1 (by decide)).trans <| (GenP.V16_of m (outs m) c main_arg1 (by decide)).trans <| (GenP.V15_of m (outs m) c main_arg1 (by decide)).trans <| (GenP.V14_of m (outs m) c main_arg1 (by decide)).trans <| (GenP.V13_of m (outs m) c main_arg1 (by decide)).trans <| (GenP.V12_of m (outs m) c main_arg1 (by decide)).trans <| (GenP.V11_of m (outs m) c main_arg1 (by decide)).trans <| (GenP.V10_of m (outs m) c main_arg1 (by decide)).trans <| (GenP.V9_of m (outs m) c main_arg1 (by decide)).trans <| (GenP.V8_of m (outs m) c main_arg1 (by decide)).trans <| (GenP.V7_of m (outs m) c main_arg1 (by decide)).trans <| (GenP.V6_of m (outs m) c main_arg1 (by decide)).trans <| (GenP.V5_of m (outs m) c main_arg1 (by decide)).trans <| (GenP.V4_of m (outs m) c main_arg1 (by decide)).trans <| (GenP.V3_of m (outs m) c main_arg1 (by decide)).trans <| (GenP.V2_of m (outs m) c main_arg1 (by decide)).trans <| (GenP.V1_of m c main_arg1 (by decide)).trans rfl

/-- The weights argument reaches the stretch after region 12 as launched. -/
theorem W30_main_arg7_agg (c : Dev nD) : W30 (F := Ideal) m c main_arg7 = m ((c.tc : Thread nD τ).loc main_arg7) :=
  (W30_keep12 m c main_arg7 (by decide)).trans <|
  (congrFun (hV29 m c) _).symm.trans <|
    (GenP.V29_of m (outs m) c main_arg7 (by decide)).trans <| (GenP.V28_of m (outs m) c main_arg7 (by decide)).trans <| (GenP.V27_of m (outs m) c main_arg7 (by decide)).trans <| (GenP.V26_of m (outs m) c main_arg7 (by decide)).trans <| (GenP.V25_of m (outs m) c main_arg7 (by decide)).trans <| (GenP.V24_of m (outs m) c main_arg7 (by decide)).trans <| (GenP.V23_of m (outs m) c main_arg7 (by decide)).trans <| (GenP.V22_of m (outs m) c main_arg7 (by decide)).trans <| (GenP.V21_of m (outs m) c main_arg7 (by decide)).trans <| (GenP.V20_of m (outs m) c main_arg7 (by decide)).trans <| (GenP.V19_of m (outs m) c main_arg7 (by decide)).trans <| (GenP.V18_of m (outs m) c main_arg7 (by decide)).trans <| (GenP.V17_of m (outs m) c main_arg7 (by decide)).trans <| (GenP.V16_of m (outs m) c main_arg7 (by decide)).trans <| (GenP.V15_of m (outs m) c main_arg7 (by decide)).trans <| (GenP.V14_of m (outs m) c main_arg7 (by decide)).trans <| (GenP.V13_of m (outs m) c main_arg7 (by decide)).trans <| (GenP.V12_of m (outs m) c main_arg7 (by decide)).trans <| (GenP.V11_of m (outs m) c main_arg7 (by decide)).trans <| (GenP.V10_of m (outs m) c main_arg7 (by decide)).trans <| (GenP.V9_of m (outs m) c main_arg7 (by decide)).trans <| (GenP.V8_of m (outs m) c main_arg7 (by decide)).trans <| (GenP.V7_of m (outs m) c main_arg7 (by decide)).trans <| (GenP.V6_of m (outs m) c main_arg7 (by decide)).trans <| (GenP.V5_of m (outs m) c main_arg7 (by decide)).trans <| (GenP.V4_of m (outs m) c main_arg7 (by decide)).trans <| (GenP.V3_of m (outs m) c main_arg7 (by decide)).trans <| (GenP.V2_of m (outs m) c main_arg7 (by decide)).trans <| (GenP.V1_of m c main_arg7 (by decide)).trans rfl

set_option maxHeartbeats 4000000 in
/-- The source row of relation 2's edges. -/
theorem ker_src12 (c : Dev nD) :
    (W29 (F := Ideal) m c main_v213 : S1600000.Idx → BitVec 32) = Cert.Proof.Value.edgeRowOf (m ((c.tc : Thread nD τ).loc main_arg1)) ![2, 0, 0] slices_S3x2x1600000_S1x1x1600000_2_0_0 shapeCasts_S1x1x1600000_S1600000 := by
  have e : (W29 (F := Ideal) m c main_v213 : S1600000.Idx → BitVec 32) = Cert.Proof.Value.edgeRowOf (W28 m c (main_arg1 : DevRef τ sig)) ![2, 0, 0] slices_S3x2x1600000_S1x1x1600000_2_0_0 shapeCasts_S1x1x1600000_S1600000 := by
    dsimp only [W29, hostOps12_2]
    after_results
    rfl
  rw [e, W28_main_arg1_agg]

set_option maxHeartbeats 4000000 in
/-- The destination row of relation 2's edges. -/
theorem ker_dst12 (c : Dev nD) :
    (W29 (F := Ideal) m c main_v215 : S1600000.Idx → BitVec 32) = Cert.Proof.Value.edgeRowOf (m ((c.tc : Thread nD τ).loc main_arg1)) ![2, 1, 0] slices_S3x2x1600000_S1x1x1600000_2_1_0 shapeCasts_S1x1x1600000_S1600000 := by
  have e : (W29 (F := Ideal) m c main_v215 : S1600000.Idx → BitVec 32) = Cert.Proof.Value.edgeRowOf (W28 m c (main_arg1 : DevRef τ sig)) ![2, 1, 0] slices_S3x2x1600000_S1x1x1600000_2_1_0 shapeCasts_S1x1x1600000_S1600000 := by
    dsimp only [W29, hostOps12_2]
    after_results
    rfl
  rw [e, W28_main_arg1_agg]

set_option maxHeartbeats 8000000 in
/-- The edge weights of relation 2 as a function of its two edge rows. -/
theorem ker_norm12 (c : Dev nD) :
    (W29 (F := Ideal) m c main_v237 : S1600000.Idx → EReal)
      = Cert.Proof.Value.normOf scatter_S100000_S1600000x1_S1600000_n_0_0_1 gather_S100000_S1600000x1_S1600000_n_0_n_n_0_1_1
            bcast_S_S1600000 bcast_S_S100000 bcast_S1600000_S1600000x1_0
            (Cert.Proof.Value.edgeRowOf (m ((c.tc : Thread nD τ).loc main_arg1)) ![2, 0, 0] slices_S3x2x1600000_S1x1x1600000_2_0_0 shapeCasts_S1x1x1600000_S1600000)
            (Cert.Proof.Value.edgeRowOf (m ((c.tc : Thread nD τ).loc main_arg1)) ![2, 1, 0] slices_S3x2x1600000_S1x1x1600000_2_1_0 shapeCasts_S1x1x1600000_S1600000) := by
  have e : (W29 (F := Ideal) m c main_v237 : S1600000.Idx → EReal)
      = Cert.Proof.Value.normOf scatter_S100000_S1600000x1_S1600000_n_0_0_1 gather_S100000_S1600000x1_S1600000_n_0_n_n_0_1_1
            bcast_S_S1600000 bcast_S_S100000 bcast_S1600000_S1600000x1_0
            (Cert.Proof.Value.edgeRowOf (W28 m c (main_arg1 : DevRef τ sig)) ![2, 0, 0] slices_S3x2x1600000_S1x1x1600000_2_0_0 shapeCasts_S1x1x1600000_S1600000)
            (Cert.Proof.Value.edgeRowOf (W28 m c (main_arg1 : DevRef τ sig)) ![2, 1, 0] slices_S3x2x1600000_S1x1x1600000_2_1_0 shapeCasts_S1x1x1600000_S1600000) := by
    dsimp only [W29, hostOps12_2]
    after_results
    rfl
  rw [e, W28_main_arg1_agg]

set_option maxHeartbeats 4000000 in
/-- The aggregation of relation 2, layer 1, over the contents region 12 leaves. -/
theorem ker_agg12_raw (c : Dev nD) :
    (W31 (F := Ideal) m c main_v256 : S100000x64.Idx → EReal)
      = Cert.Proof.Value.aggOf scatter_S100000x64_S1600000x1_S1600000x64_1_0_0_1 gather_S100000x64_S1600000x1_S1600000x64_1_0_n_n_0_1_164
          bcast_S_S1600000 bcast_S_S100000x64 bcast_S1600000_S1600000x1_0 bcast_S1600000x1_S1600000x64_0_1
          (W30 m c (main_v243 : DevRef τ sig))
          (W30 m c (main_v213 : DevRef τ sig))
          (W30 m c (main_v215 : DevRef τ sig))
          (W30 m c (main_v237 : DevRef τ sig)) := by
  dsimp only [W31, hostOps13]
  after_results
  rfl

/-- The aggregation of relation 2, layer 1, as a function of what region 12 leaves and of the edge argument. -/
theorem ker_agg12 (c : Dev nD) :
    (W31 (F := Ideal) m c main_v256 : S100000x64.Idx → EReal)
      = Cert.Proof.Value.aggOf scatter_S100000x64_S1600000x1_S1600000x64_1_0_0_1 gather_S100000x64_S1600000x1_S1600000x64_1_0_n_n_0_1_164
          bcast_S_S1600000 bcast_S_S100000x64 bcast_S1600000_S1600000x1_0 bcast_S1600000x1_S1600000x64_0_1
          (O12_0 m c)
          (Cert.Proof.Value.edgeRowOf (m ((c.tc : Thread nD τ).loc main_arg1)) ![2, 0, 0] slices_S3x2x1600000_S1x1x1600000_2_0_0 shapeCasts_S1x1x1600000_S1600000)
          (Cert.Proof.Value.edgeRowOf (m ((c.tc : Thread nD τ).loc main_arg1)) ![2, 1, 0] slices_S3x2x1600000_S1x1x1600000_2_1_0 shapeCasts_S1x1x1600000_S1600000)
          (Cert.Proof.Value.normOf scatter_S100000_S1600000x1_S1600000_n_0_0_1 gather_S100000_S1600000x1_S1600000_n_0_n_n_0_1_1
            bcast_S_S1600000 bcast_S_S100000 bcast_S1600000_S1600000x1_0
            (Cert.Proof.Value.edgeRowOf (m ((c.tc : Thread nD τ).loc main_arg1)) ![2, 0, 0] slices_S3x2x1600000_S1x1x1600000_2_0_0 shapeCasts_S1x1x1600000_S1600000)
            (Cert.Proof.Value.edgeRowOf (m ((c.tc : Thread nD τ).loc main_arg1)) ![2, 1, 0] slices_S3x2x1600000_S1x1x1600000_2_1_0 shapeCasts_S1x1x1600000_S1600000)) := by
  rw [ker_agg12_raw, W30_h12, W30_keep12 m c main_v213 (by decide), W30_keep12 m c main_v215 (by decide), W30_keep12 m c main_v237 (by decide),
    ker_src12, ker_dst12, ker_norm12]

set_option maxHeartbeats 2000000 in
/-- The mixing weight region 13 reads: relation 2's entry of the weights argument, as a 1×1 array. -/
theorem ker_gamma12 (c : Dev nD) :
    (W31 (F := Ideal) m c main_v263 : S1x1.Idx → EReal)
      = shapeCast S1x1 (Cert.Proof.Value.gammaOf (m ((c.tc : Thread nD τ).loc main_arg7)) ![2] slices_S3_S1_2 shapeCasts_S1_S_) shapeCasts_S_S1x1 := by
  have e : (W31 (F := Ideal) m c main_v263 : S1x1.Idx → EReal)
      = shapeCast S1x1 (Cert.Proof.Value.gammaOf (W30 m c (main_arg7 : DevRef τ sig)) ![2] slices_S3_S1_2 shapeCasts_S1_S_) shapeCasts_S_S1x1 := by
    dsimp only [W31, hostOps13]
    after_results
    rfl
  rw [e, W30_main_arg7_agg]
end Cert.KernelIdeal.Body

namespace Cert.ReferenceIdeal.RefRun
open Cert.ReferenceIdeal Cert.ReferenceIdeal.Gen Idealize.ShloMosaic Idealize.ShloMosaic.TcCoe Idealize.SL.Sem Idealize.ShloMosaic.StableHlo

set_option maxHeartbeats 4000000 in
/-- The source row of relation 2's edges, from any contents before the seventh window. -/
theorem ref_src12 (V : Valuation τ sig (Elt Ideal)) :
    (after (ops6 (F := Ideal)) V (main_v325 : DevRef τ sig) : S1600000.Idx → BitVec 32) = Cert.Proof.Value.edgeRowOf (V (main_arg1 : DevRef τ sig)) ![2, 0, 0] slices_S3x2x1600000_S1x1x1600000_2_0_0 shapeCasts_S1x1x1600000_S1600000 := by
  dsimp only [ops6]
  after_results_simp
  rfl

set_option maxHeartbeats 4000000 in
/-- The destination row of relation 2's edges, from any contents before the seventh window. -/
theorem ref_dst12 (V : Valuation τ sig (Elt Ideal)) :
    (after (ops6 (F := Ideal)) V (main_v327 : DevRef τ sig) : S1600000.Idx → BitVec 32) = Cert.Proof.Value.edgeRowOf (V (main_arg1 : DevRef τ sig)) ![2, 1, 0] slices_S3x2x1600000_S1x1x1600000_2_1_0 shapeCasts_S1x1x1600000_S1600000 := by
  dsimp only [ops6]
  after_results_simp
  rfl

set_option maxHeartbeats 8000000 in
/-- The reference's aggregation of relation 2, layer 1, from any contents V before the seventh window: a function of the
    dense layer's output and of the two edge rows that window computes. The window is cut after the dense layer's last
    operation, and the operations before the cut are read only through what they leave. -/
theorem ref_agg12 (V : Valuation τ sig (Elt Ideal)) :
    (after (ops7 (F := Ideal)) (after (ops6 (F := Ideal)) V) (main_v372 : DevRef τ sig) : S100000x64.Idx → EReal)
      = Cert.Proof.Value.aggOf scatter_S100000x64_S1600000x1_S1600000x64_1_0_0_1 gather_S100000x64_S1600000x1_S1600000x64_1_0_n_n_0_1_164
          bcast_S_S1600000 bcast_S_S100000x64 bcast_S1600000_S1600000x1_0 bcast_S1600000x1_S1600000x64_0_1
          (after (ops6 (F := Ideal)) V (main_v337 : DevRef τ sig))
          (after (ops6 (F := Ideal)) V (main_v325 : DevRef τ sig))
          (after (ops6 (F := Ideal)) V (main_v327 : DevRef τ sig))
          (Cert.Proof.Value.normOf scatter_S100000_S1600000x1_S1600000_n_0_0_1 gather_S100000_S1600000x1_S1600000_n_0_n_n_0_1_1
            bcast_S_S1600000 bcast_S_S100000 bcast_S1600000_S1600000x1_0
            (after (ops6 (F := Ideal)) V (main_v325 : DevRef τ sig))
            (after (ops6 (F := Ideal)) V (main_v327 : DevRef τ sig))) := by
  rw [← List.take_append_drop 79 (ops6 (F := Ideal)), after_append]
  generalize after ((ops6 (F := Ideal)).take 79) V = X
  dsimp only [ops6, ops7]
  simp only [List.drop_succ_cons, List.drop_zero]
  after_results_simp
  rfl

set_option maxHeartbeats 4000000 in
/-- The reference's mixing weight of relation 2, layer 1: that entry of the weights argument, as a scalar. -/
theorem ref_gamma12 (V : Valuation τ sig (Elt Ideal)) :
    (after (ops6 (F := Ideal)) V (main_v333 : DevRef τ sig) : S_.Idx → EReal)
      = Cert.Proof.Value.gammaOf (V (main_arg7 : DevRef τ sig)) ![2] slices_S3_S1_2 shapeCasts_S1_S_ := by
  dsimp only [ops6]
  after_results_simp
  rfl
end Cert.ReferenceIdeal.RefRun

namespace Cert.Proof.Value
open Idealize.ShloMosaic Idealize.ShloMosaic.TcCoe Idealize.SL.Sem Idealize.ShloMosaic.StableHlo

/-- Relation 2, layer 1: from any contents V before the reference's seventh window that agree with the kernel program's
    memory on the edge argument, the two programs' aggregations are equal when their dense layers' outputs are. -/
theorem stageAgg12
    (m : (ℓ : Loc Cert.KernelIdeal.nD Cert.KernelIdeal.τ Cert.KernelIdeal.sig) → Buf (Elt Ideal) ℓ)
    (V : Valuation Cert.ReferenceIdeal.τ Cert.ReferenceIdeal.sig (Elt Ideal))
    (c : Dev Cert.KernelIdeal.nD)
    (h1 : V (Proc.devRef .tc Cert.ReferenceIdeal.main_arg1) = m ((c.tc : Thread Cert.KernelIdeal.nD Cert.KernelIdeal.τ).loc Cert.KernelIdeal.main_arg1))
    (hh : (after (Cert.ReferenceIdeal.RefRun.ops6 (F := Ideal)) V (Cert.ReferenceIdeal.main_v337 : DevRef Cert.ReferenceIdeal.τ Cert.ReferenceIdeal.sig) : (⟨2, ![100000, 64]⟩ : Shape).Idx → EReal)
      = (Cert.KernelIdeal.Body.O12_0 (F := Ideal) m c : (⟨2, ![100000, 64]⟩ : Shape).Idx → EReal)) :
    (after (Cert.ReferenceIdeal.RefRun.ops7 (F := Ideal)) (after (Cert.ReferenceIdeal.RefRun.ops6 (F := Ideal)) V) (Cert.ReferenceIdeal.main_v372 : DevRef Cert.ReferenceIdeal.τ Cert.ReferenceIdeal.sig) : (⟨2, ![100000, 64]⟩ : Shape).Idx → EReal)
      = (Cert.KernelIdeal.Body.W31 (F := Ideal) m c (Cert.KernelIdeal.main_v256 : DevRef Cert.KernelIdeal.τ Cert.KernelIdeal.sig) : (⟨2, ![100000, 64]⟩ : Shape).Idx → EReal) := by
  rw [Cert.ReferenceIdeal.RefRun.ref_agg12, Cert.ReferenceIdeal.RefRun.ref_src12, Cert.ReferenceIdeal.RefRun.ref_dst12, Cert.KernelIdeal.Body.ker_agg12, hh, h1]
  rfl

/-- The mixing weight region 13 reads is the reference's scalar of relation 2, layer 1, as a 1×1 array, from any contents V
    before the reference's seventh window that agree with the kernel program's memory on the weights argument. -/
theorem stageGamma12
    (m : (ℓ : Loc Cert.KernelIdeal.nD Cert.KernelIdeal.τ Cert.KernelIdeal.sig) → Buf (Elt Ideal) ℓ)
    (V : Valuation Cert.ReferenceIdeal.τ Cert.ReferenceIdeal.sig (Elt Ideal))
    (c : Dev Cert.KernelIdeal.nD)
    (h7 : V (Proc.devRef .tc Cert.ReferenceIdeal.main_arg7) = m ((c.tc : Thread Cert.KernelIdeal.nD Cert.KernelIdeal.τ).loc Cert.KernelIdeal.main_arg7)) :
    (Cert.KernelIdeal.Body.W31 (F := Ideal) m c (Cert.KernelIdeal.main_v263 : DevRef Cert.KernelIdeal.τ Cert.KernelIdeal.sig) : (⟨2, ![1, 1]⟩ : Shape).Idx → EReal)
      = shapeCast ⟨2, ![1, 1]⟩ (after (Cert.ReferenceIdeal.RefRun.ops6 (F := Ideal)) V (Cert.ReferenceIdeal.main_v333 : DevRef Cert.ReferenceIdeal.τ Cert.ReferenceIdeal.sig) : (⟨0, ![]⟩ : Shape).Idx → EReal)
          Cert.KernelIdeal.Gen.shapeCasts_S_S1x1 := by
  rw [Cert.ReferenceIdeal.RefRun.ref_gamma12, Cert.KernelIdeal.Body.ker_gamma12, h7]
end Cert.Proof.Value

end
-- ==== Proof.KIStageAgg15.lean ====
/-
  The graph aggregation of relation 2, layer 2 (width 32), which both programs compute on the host with the same
  operations.

  With h the relation's second dense layer's output (100000 × 32), src and dst the relation's two rows of the edge
  argument and weight(e) = d(src e) · d(dst e), d = 1/sqrt(max(deg, 1)), row n of agg is the sum over the edges e into n
  of weight(e) · h(src e). The kernel program reads the edge rows and the weights an earlier stretch left; the reference
  computes the weights again from the edge rows an earlier window left. Each program's agg array is read as the one
  function aggOf32 of (h, src, dst, weights), and the last lemmas conclude that the two agg arrays are equal when the two
  h arrays are equal and the edge rows agree, and that the 1×1 mixing weight the kernel program's region reads is the
  reference's scalar mixing weight when the second weights arguments agree.
-/
import proofs.«140713_j1864015806535_2_alg».proof.Proof.KIStageAgg3
import proofs.«140713_j1864015806535_2_alg».proof.Proof.KIStageAgg12

set_option maxRecDepth 16384

noncomputable section

namespace Cert.KernelIdeal.Body
open Cert.KernelIdeal Cert.KernelIdeal.Gen Idealize.ShloMosaic Idealize.ShloMosaic.TcCoe Idealize.SL.Sem Idealize.ShloMosaic.StableHlo
variable (m : (ℓ : Loc nD τ sig) → Buf (Elt Ideal) ℓ)

/-- After region 15 the dense layer's output array holds what the region left there. -/
theorem W36_h15 (c : Dev nD) : W36 (F := Ideal) m c (main_v279 : DevRef τ sig) = O15_0 m c := by
  unfold W36
  exact Function.update_self ..

/-- The relation's source row is, after region 15, what the stretch before region 12 left. -/
theorem W36_main_v213_agg (c : Dev nD) : W36 (F := Ideal) m c main_v213 = W29 m c main_v213 :=
  (congrFun (hV36 m c) _).symm.trans <|
    (GenP.V36_of m (outs m) c main_v213 (by decide)).trans <| (GenP.V35_of m (outs m) c main_v213 (by decide)).trans <| (GenP.V34_of m (outs m) c main_v213 (by decide)).trans <| (GenP.V33_of m (outs m) c main_v213 (by decide)).trans <| (GenP.V32_of m (outs m) c main_v213 (by decide)).trans <| (GenP.V31_of m (outs m) c main_v213 (by decide)).trans <| (GenP.V30_of m (outs m) c main_v213 (by decide)).trans <| congrFun (hV29 m c) _

/-- The relation's destination row is, after region 15, what the stretch before region 12 left. -/
theorem W36_main_v215_agg (c : Dev nD) : W36 (F := Ideal) m c main_v215 = W29 m c main_v215 :=
  (congrFun (hV36 m c) _).symm.trans <|
    (GenP.V36_of m (outs m) c main_v215 (by decide)).trans <| (GenP.V35_of m (outs m) c main_v215 (by decide)).trans <| (GenP.V34_of m (outs m) c main_v215 (by decide)).trans <| (GenP.V33_of m (outs m) c main_v215 (by decide)).trans <| (GenP.V32_of m (outs m) c main_v215 (by decide)).trans <| (GenP.V31_of m (outs m) c main_v215 (by decide)).trans <| (GenP.V30_of m (outs m) c main_v215 (by decide)).trans <| congrFun (hV29 m c) _

/-- The relation's edge weights are, after region 15, what the stretch before region 12 left. -/
theorem W36_main_v237_agg (c : Dev nD) : W36 (F := Ideal) m c main_v237 = W29 m c main_v237 :=
  (congrFun (hV36 m c) _).symm.trans <|
    (GenP.V36_of m (outs m) c main_v237 (by decide)).trans <| (GenP.V35_of m (outs m) c main_v237 (by decide)).trans <| (GenP.V34_of m (outs m) c main_v237 (by decide)).trans <| (GenP.V33_of m (outs m) c main_v237 (by decide)).trans <| (GenP.V32_of m (outs m) c main_v237 (by decide)).trans <| (GenP.V31_of m (outs m) c main_v237 (by decide)).trans <| (GenP.V30_of m (outs m) c main_v237 (by decide)).trans <| congrFun (hV29 m c) _

/-- The second weights argument reaches the stretch after region 15 as launched. -/
theorem W36_main_arg8_agg (c : Dev nD) : W36 (F := Ideal) m c main_arg8 = m ((c.tc : Thread nD τ).loc main_arg8) :=
  (congrFun (hV36 m c) _).symm.trans <|
    (GenP.V36_of m (outs m) c main_arg8 (by decide)).trans <| (GenP.V35_of m (outs m) c main_arg8 (by decide)).trans <| (GenP.V34_of m (outs m) c main_arg8 (by decide)).trans <| (GenP.V33_of m (outs m) c main_arg8 (by decide)).trans <| (GenP.V32_of m (outs m) c main_arg8 (by decide)).trans <| (GenP.V31_of m (outs m) c main_arg8 (by decide)).trans <| (GenP.V30_of m (outs m) c main_arg8 (by decide)).trans <| (GenP.V29_of m (outs m) c main_arg8 (by decide)).trans <| (GenP.V28_of m (outs m) c main_arg8 (by decide)).trans <| (GenP.V27_of m (outs m) c main_arg8 (by decide)).trans <| (GenP.V26_of m (outs m) c main_arg8 (by decide)).trans <| (GenP.V25_of m (outs m) c main_arg8 (by decide)).trans <| (GenP.V24_of m (outs m) c main_arg8 (by decide)).trans <| (GenP.V23_of m (outs m) c main_arg8 (by decide)).trans <| (GenP.V22_of m (outs m) c main_arg8 (by decide)).trans <| (GenP.V21_of m (outs m) c main_arg8 (by decide)).trans <| (GenP.V20_of m (outs m) c main_arg8 (by decide)).trans <| (GenP.V19_of m (outs m) c main_arg8 (by decide)).trans <| (GenP.V18_of m (outs m) c main_arg8 (by decide)).trans <| (GenP.V17_of m (outs m) c main_arg8 (by decide)).trans <| (GenP.V16_of m (outs m) c main_arg8 (by decide)).trans <| (GenP.V15_of m (outs m) c main_arg8 (by decide)).trans <| (GenP.V14_of m (outs m) c main_arg8 (by decide)).trans <| (GenP.V13_of m (outs m) c main_arg8 (by decide)).trans <| (GenP.V12_of m (outs m) c main_arg8 (by decide)).trans <| (GenP.V11_of m (outs m) c main_arg8 (by decide)).trans <| (GenP.V10_of m (outs m) c main_arg8 (by decide)).trans <| (GenP.V9_of m (outs m) c main_arg8 (by decide)).trans <| (GenP.V8_of m (outs m) c main_arg8 (by decide)).trans <| (GenP.V7_of m (outs m) c main_arg8 (by decide)).trans <| (GenP.V6_of m (outs m) c main_arg8 (by decide)).trans <| (GenP.V5_of m (outs m) c main_arg8 (by decide)).trans <| (GenP.V4_of m (outs m) c main_arg8 (by decide)).trans <| (GenP.V3_of m (outs m) c main_arg8 (by decide)).trans <| (GenP.V2_of m (outs m) c main_arg8 (by decide)).trans <| (GenP.V1_of m c main_arg8 (by decide)).trans rfl

set_option maxHeartbeats 4000000 in
/-- The aggregation of relation 2, layer 2, over the contents region 15 leaves. -/
theorem ker_agg15_raw (c : Dev nD) :
    (W37 (F := Ideal) m c main_v292 : S100000x32.Idx → EReal)
      = Cert.Proof.Value.aggOf32 scatter_S100000x32_S1600000x1_S1600000x32_1_0_0_1 gather_S100000x32_S1600000x1_S1600000x32_1_0_n_n_0_1_132
          bcast_S_S1600000 bcast_S_S100000x32 bcast_S1600000_S1600000x1_0 bcast_S1600000x1_S1600000x32_0_1
          (W36 m c (main_v279 : DevRef τ sig))
          (W36 m c (main_v213 : DevRef τ sig))
          (W36 m c (main_v215 : DevRef τ sig))
          (W36 m c (main_v237 : DevRef τ sig)) := by
  dsimp only [W37, hostOps16]
  after_results
  rfl

/-- The aggregation of relation 2, layer 2, as a function of what region 15 leaves and of the edge argument. -/
theorem ker_agg15 (c : Dev nD) :
    (W37 (F := Ideal) m c main_v292 : S100000x32.Idx → EReal)
      = Cert.Proof.Value.aggOf32 scatter_S100000x32_S1600000x1_S1600000x32_1_0_0_1 gather_S100000x32_S1600000x1_S1600000x32_1_0_n_n_0_1_132
          bcast_S_S1600000 bcast_S_S100000x32 bcast_S1600000_S1600000x1_0 bcast_S1600000x1_S1600000x32_0_1
          (O15_0 m c)
          (Cert.Proof.Value.edgeRowOf (m ((c.tc : Thread nD τ).loc main_arg1)) ![2, 0, 0] slices_S3x2x1600000_S1x1x1600000_2_0_0 shapeCasts_S1x1x1600000_S1600000)
          (Cert.Proof.Value.edgeRowOf (m ((c.tc : Thread nD τ).loc main_arg1)) ![2, 1, 0] slices_S3x2x1600000_S1x1x1600000_2_1_0 shapeCasts_S1x1x1600000_S1600000)
          (Cert.Proof.Value.normOf scatter_S100000_S1600000x1_S1600000_n_0_0_1 gather_S100000_S1600000x1_S1600000_n_0_n_n_0_1_1
            bcast_S_S1600000 bcast_S_S100000 bcast_S1600000_S1600000x1_0
            (Cert.Proof.Value.edgeRowOf (m ((c.tc : Thread nD τ).loc main_arg1)) ![2, 0, 0] slices_S3x2x1600000_S1x1x1600000_2_0_0 shapeCasts_S1x1x1600000_S1600000)
            (Cert.Proof.Value.edgeRowOf (m ((c.tc : Thread nD τ).loc main_arg1)) ![2, 1, 0] slices_S3x2x1600000_S1x1x1600000_2_1_0 shapeCasts_S1x1x1600000_S1600000)) := by
  rw [ker_agg15_raw, W36_h15, W36_main_v213_agg, W36_main_v215_agg, W36_main_v237_agg, ker_src12, ker_dst12, ker_norm12]

set_option maxHeartbeats 2000000 in
/-- The mixing weight region 16 reads: relation 2's entry of the second weights argument, as a 1×1 array. -/
theorem ker_gamma15 (c : Dev nD) :
    (W37 (F := Ideal) m c main_v299 : S1x1.Idx → EReal)
      = shapeCast S1x1 (Cert.Proof.Value.gammaOf (m ((c.tc : Thread nD τ).loc main_arg8)) ![2] slices_S3_S1_2 shapeCasts_S1_S_) shapeCasts_S_S1x1 := by
  have e : (W37 (F := Ideal) m c main_v299 : S1x1.Idx → EReal)
      = shapeCast S1x1 (Cert.Proof.Value.gammaOf (W36 m c (main_arg8 : DevRef τ sig)) ![2] slices_S3_S1_2 shapeCasts_S1_S_) shapeCasts_S_S1x1 := by
    dsimp only [W37, hostOps16]
    after_results
    rfl
  rw [e, W36_main_arg8_agg]
end Cert.KernelIdeal.Body

namespace Cert.ReferenceIdeal.RefRun
open Cert.ReferenceIdeal Cert.ReferenceIdeal.Gen Idealize.ShloMosaic Idealize.ShloMosaic.TcCoe Idealize.SL.Sem Idealize.ShloMosaic.StableHlo

/-- The first n operations of the ninth window leave a buffer the window does not write as it was. -/
theorem ops8_take_keepsAgg (n : Nat) (V : Valuation τ sig (Elt Ideal)) (r : Ref sig .tc) (hr : r ∉ (ops8_W : List (Ref sig .tc))) :
    after ((ops8 (F := Ideal)).take n) V (Proc.devRef .tc r) = V (Proc.devRef .tc r) :=
  after_of_writes_sub (W := ops8_W) _ V
    (List.forall_iff_forall_mem.mpr fun op hop => List.forall_iff_forall_mem.mp ops8_writes op (List.mem_of_mem_take hop)) hr

set_option maxHeartbeats 8000000 in
/-- The reference's aggregation of relation 2, layer 2, from any contents V before the ninth window: a function of the
    dense layer's output that window computes and of the two edge rows V holds. The window is cut after the dense layer's
    last operation, and the operations before the cut are read only through what they leave. -/
theorem ref_agg15 (V : Valuation τ sig (Elt Ideal)) :
    (after (ops8 (F := Ideal)) V (main_v447 : DevRef τ sig) : S100000x32.Idx → EReal)
      = Cert.Proof.Value.aggOf32 scatter_S100000x32_S1600000x1_S1600000x32_1_0_0_1 gather_S100000x32_S1600000x1_S1600000x32_1_0_n_n_0_1_132
          bcast_S_S1600000 bcast_S_S100000x32 bcast_S1600000_S1600000x1_0 bcast_S1600000x1_S1600000x32_0_1
          (after (ops8 (F := Ideal)) V (main_v412 : DevRef τ sig))
          (V (main_v325 : DevRef τ sig))
          (V (main_v327 : DevRef τ sig))
          (Cert.Proof.Value.normOf scatter_S100000_S1600000x1_S1600000_n_0_0_1 gather_S100000_S1600000x1_S1600000_n_0_n_n_0_1_1
            bcast_S_S1600000 bcast_S_S100000 bcast_S1600000_S1600000x1_0
            (V (main_v325 : DevRef τ sig))
            (V (main_v327 : DevRef τ sig))) := by
  rw [← ops8_take_keepsAgg 14 V main_v325 (by decide), ← ops8_take_keepsAgg 14 V main_v327 (by decide),
    ← List.take_append_drop 14 (ops8 (F := Ideal)), after_append]
  simp only [List.take_append_drop]
  generalize after ((ops8 (F := Ideal)).take 14) V = X
  dsimp only [ops8]
  simp only [List.drop_succ_cons, List.drop_zero]
  after_results_simp
  rfl

set_option maxHeartbeats 4000000 in
/-- The reference's mixing weight of relation 2, layer 2: that entry of the second weights argument, as a scalar. -/
theorem ref_gamma15 (V : Valuation τ sig (Elt Ideal)) :
    (after (ops8 (F := Ideal)) V (main_v408 : DevRef τ sig) : S_.Idx → EReal)
      = Cert.Proof.Value.gammaOf (V (main_arg8 : DevRef τ sig)) ![2] slices_S3_S1_2 shapeCasts_S1_S_ := by
  dsimp only [ops8]
  after_results_simp
  rfl
end Cert.ReferenceIdeal.RefRun

namespace Cert.Proof.Value
open Idealize.ShloMosaic Idealize.ShloMosaic.TcCoe Idealize.SL.Sem Idealize.ShloMosaic.StableHlo

/-- Relation 2, layer 2: from any contents V before the reference's ninth window whose two edge rows are the relation's
    rows of the kernel program's edge argument, the two programs' aggregations are equal when their dense layers'
    outputs are. -/
theorem stageAgg15
    (m : (ℓ : Loc Cert.KernelIdeal.nD Cert.KernelIdeal.τ Cert.KernelIdeal.sig) → Buf (Elt Ideal) ℓ)
    (V : Valuation Cert.ReferenceIdeal.τ Cert.ReferenceIdeal.sig (Elt Ideal))
    (c : Dev Cert.KernelIdeal.nD)
    (hsrc : (V (Cert.ReferenceIdeal.main_v325 : DevRef Cert.ReferenceIdeal.τ Cert.ReferenceIdeal.sig) : (⟨1, ![1600000]⟩ : Shape).Idx → BitVec 32) = edgeRowOf (m ((c.tc : Thread Cert.KernelIdeal.nD Cert.KernelIdeal.τ).loc Cert.KernelIdeal.main_arg1)) ![2, 0, 0] Cert.KernelIdeal.Gen.slices_S3x2x1600000_S1x1x1600000_2_0_0 Cert.KernelIdeal.Gen.shapeCasts_S1x1x1600000_S1600000)
    (hdst : (V (Cert.ReferenceIdeal.main_v327 : DevRef Cert.ReferenceIdeal.τ Cert.ReferenceIdeal.sig) : (⟨1, ![1600000]⟩ : Shape).Idx → BitVec 32) = edgeRowOf (m ((c.tc : Thread Cert.KernelIdeal.nD Cert.KernelIdeal.τ).loc Cert.KernelIdeal.main_arg1)) ![2, 1, 0] Cert.KernelIdeal.Gen.slices_S3x2x1600000_S1x1x1600000_2_1_0 Cert.KernelIdeal.Gen.shapeCasts_S1x1x1600000_S1600000)
    (hh : (after (Cert.ReferenceIdeal.RefRun.ops8 (F := Ideal)) V (Cert.ReferenceIdeal.main_v412 : DevRef Cert.ReferenceIdeal.τ Cert.ReferenceIdeal.sig) : (⟨2, ![100000, 32]⟩ : Shape).Idx → EReal)
      = (Cert.KernelIdeal.Body.O15_0 (F := Ideal) m c : (⟨2, ![100000, 32]⟩ : Shape).Idx → EReal)) :
    (after (Cert.ReferenceIdeal.RefRun.ops8 (F := Ideal)) V (Cert.ReferenceIdeal.main_v447 : DevRef Cert.ReferenceIdeal.τ Cert.ReferenceIdeal.sig) : (⟨2, ![100000, 32]⟩ : Shape).Idx → EReal)
      = (Cert.KernelIdeal.Body.W37 (F := Ideal) m c (Cert.KernelIdeal.main_v292 : DevRef Cert.KernelIdeal.τ Cert.KernelIdeal.sig) : (⟨2, ![100000, 32]⟩ : Shape).Idx → EReal) := by
  rw [Cert.ReferenceIdeal.RefRun.ref_agg15, Cert.KernelIdeal.Body.ker_agg15, hh, hsrc, hdst]
  rfl

/-- The mixing weight region 16 reads is the reference's scalar of relation 2, layer 2, as a 1×1 array, from any contents V
    before the reference's ninth window that agree with the kernel program's memory on the second weights argument. -/
theorem stageGamma15
    (m : (ℓ : Loc Cert.KernelIdeal.nD Cert.KernelIdeal.τ Cert.KernelIdeal.sig) → Buf (Elt Ideal) ℓ)
    (V : Valuation Cert.ReferenceIdeal.τ Cert.ReferenceIdeal.sig (Elt Ideal))
    (c : Dev Cert.KernelIdeal.nD)
    (h8 : V (Proc.devRef .tc Cert.ReferenceIdeal.main_arg8) = m ((c.tc : Thread Cert.KernelIdeal.nD Cert.KernelIdeal.τ).loc Cert.KernelIdeal.main_arg8)) :
    (Cert.KernelIdeal.Body.W37 (F := Ideal) m c (Cert.KernelIdeal.main_v299 : DevRef Cert.KernelIdeal.τ Cert.KernelIdeal.sig) : (⟨2, ![1, 1]⟩ : Shape).Idx → EReal)
      = shapeCast ⟨2, ![1, 1]⟩ (after (Cert.ReferenceIdeal.RefRun.ops8 (F := Ideal)) V (Cert.ReferenceIdeal.main_v408 : DevRef Cert.ReferenceIdeal.τ Cert.ReferenceIdeal.sig) : (⟨0, ![]⟩ : Shape).Idx → EReal)
          Cert.KernelIdeal.Gen.shapeCasts_S_S1x1 := by
  rw [Cert.ReferenceIdeal.RefRun.ref_gamma15, Cert.KernelIdeal.Body.ker_gamma15, h8]
end Cert.Proof.Value

end
-- ==== Proof.KIValMix13.lean ====
/-
  Region 13, the mix-and-accumulate tile kernel, read as values over the extended reals.

  At each of the ten grid points the body takes its tile of 10000 rows of h and of agg and the 1×1 mixing weight g,
  writes xm = g·agg + (1 − g)·h into its tile of the first output, and adds the tile's column sums of xm and of xm·xm
  to two one-row outputs that are zeroed at the first point and written back after the last. The lemmas here say what
  the three output arrays end holding, index by index, as functions of the region's entry contents: the first output is
  xm at every row and column, the two rows are the sums over all 100000 rows of xm and of xm·xm.
-/
import proofs.«140713_j1864015806535_2_alg».proof.Proof.KIFrameBase
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Body

open Cert.KernelIdeal Cert.KernelIdeal.Gen Idealize.ShloMosaic Idealize.ShloMosaic.TcCoe Idealize.ShloMosaic.ValueIdx Idealize.SL.Sem
open Idealize.ShloMosaic.Pipeline (Dat Cfg Window)
open Idealize.ShloMosaic.Tactic

variable (m : (ℓ : Loc nD τ sig) → Buf (Elt Ideal) ℓ)

section Pieces
variable (V : (c : Dev nD) → (b : Ref sig .tc) → Buf (Elt Ideal) ((c : Thread nD τ).loc b))

theorem hz13 : (![0, 0] : Fin 2 → Nat) = fun _ => 0 := funext fun a => by fin_cases a <;> rfl

theorem outA13_3 (c : Dev nD) (t : Fin cfg13.N) (h : cond13_0 (grid13.coords t)) :
    (readBack13 (runA13 V c t h).1).1 = k13_pay3 (iblk13 V c 2 t) (iblk13 V c 0 t) (iblk13 V c 1 t) := by
  unfold readBack13
  dsimp only
  rw [View.read_writes_junk_eq_canon]
  unfold runA13 kernelRun13_A
  dsimp only
  rw [View.canon_unit_zero (S := S10000x64) hz13]
  simp only [View.readAt_eq_ld, (hs13_0 t).read_unread, (hs13_1 t).read_unread, (hs13_2 t).read_unread,
    View.ld_unit_zero (S := S10000x64) hz13, View.ld_unit_zero (S := S1x1) hz13]

theorem outB13_3 (c : Dev nD) (t : Fin cfg13.N) (h : ¬cond13_0 (grid13.coords t)) (xo4 xo5 : Vec Ideal S1x64 .f32) :
    (readBack13 (runB13 V c t h xo4 xo5).1).1 = k13_pay3 (iblk13 V c 2 t) (iblk13 V c 0 t) (iblk13 V c 1 t) := by
  unfold readBack13
  dsimp only
  rw [View.read_writes_junk_eq_canon]
  unfold runB13 kernelRun13_B
  dsimp only
  rw [View.canon_unit_zero (S := S10000x64) hz13]
  simp only [View.readAt_eq_ld, (hs13_0 t).read_unread, (hs13_1 t).read_unread, (hs13_2 t).read_unread,
    View.ld_unit_zero (S := S10000x64) hz13, View.ld_unit_zero (S := S1x1) hz13]

theorem outA13_4 (c : Dev nD) (t : Fin cfg13.N) (h : cond13_0 (grid13.coords t)) :
    (readBack13 (runA13 V c t h).1).2.1 = k13_pay4 (iblk13 V c 2 t) (iblk13 V c 0 t) (iblk13 V c 1 t) (k13_pay1 (F := Ideal)) := by
  unfold readBack13
  dsimp only
  rw [View.read_writes_junk_eq_canon]
  unfold runA13 kernelRun13_A
  dsimp only
  sl_unfold_words
  rw [View.canon_cons_unit_zero (S := S1x64) hz13, View.readCov_unit_zero (S := S1x64) _ hz13]
  simp only [View.readAt_eq_ld, (hs13_0 t).read_unread, (hs13_1 t).read_unread, (hs13_2 t).read_unread,
    View.ld_unit_zero (S := S10000x64) hz13, View.ld_unit_zero (S := S1x1) hz13, View.ld_unit_zero (S := S1x64) hz13]

theorem outB13_4 (c : Dev nD) (t : Fin cfg13.N) (h : ¬cond13_0 (grid13.coords t)) (xo4 xo5 : Vec Ideal S1x64 .f32) :
    (readBack13 (runB13 V c t h xo4 xo5).1).2.1 = k13_pay4 (iblk13 V c 2 t) (iblk13 V c 0 t) (iblk13 V c 1 t) xo4 := by
  unfold readBack13
  dsimp only
  rw [View.read_writes_junk_eq_canon]
  unfold runB13 kernelRun13_B
  dsimp only
  rw [View.canon_unit_zero (S := S1x64) hz13]
  simp only [View.readAt_eq_ld, (hs13_0 t).read_unread, (hs13_1 t).read_unread, (hs13_2 t).read_unread,
    (hs13_4 t).read_unread, (hs13_5 t).read_unread,
    View.ld_unit_zero (S := S10000x64) hz13, View.ld_unit_zero (S := S1x1) hz13, View.ld_unit_zero (S := S1x64) hz13]

theorem outA13_5 (c : Dev nD) (t : Fin cfg13.N) (h : cond13_0 (grid13.coords t)) :
    (readBack13 (runA13 V c t h).1).2.2 = k13_pay5 (iblk13 V c 2 t) (iblk13 V c 0 t) (iblk13 V c 1 t) (k13_pay2 (F := Ideal)) := by
  unfold readBack13
  dsimp only
  rw [View.read_writes_junk_eq_canon]
  unfold runA13 kernelRun13_A
  dsimp only
  sl_unfold_words
  rw [View.canon_cons_unit_zero (S := S1x64) hz13, View.readCov_unit_zero (S := S1x64) _ hz13]
  simp only [View.readAt_eq_ld, (hs13_0 t).read_unread, (hs13_1 t).read_unread, (hs13_2 t).read_unread,
    View.ld_unit_zero (S := S10000x64) hz13, View.ld_unit_zero (S := S1x1) hz13, View.ld_unit_zero (S := S1x64) hz13]

theorem outB13_5 (c : Dev nD) (t : Fin cfg13.N) (h : ¬cond13_0 (grid13.coords t)) (xo4 xo5 : Vec Ideal S1x64 .f32) :
    (readBack13 (runB13 V c t h xo4 xo5).1).2.2 = k13_pay5 (iblk13 V c 2 t) (iblk13 V c 0 t) (iblk13 V c 1 t) xo5 := by
  unfold readBack13
  dsimp only
  rw [View.read_writes_junk_eq_canon]
  unfold runB13 kernelRun13_B
  dsimp only
  rw [View.canon_unit_zero (S := S1x64) hz13]
  simp only [View.readAt_eq_ld, (hs13_0 t).read_unread, (hs13_1 t).read_unread, (hs13_2 t).read_unread,
    (hs13_4 t).read_unread, (hs13_5 t).read_unread,
    View.ld_unit_zero (S := S10000x64) hz13, View.ld_unit_zero (S := S1x1) hz13, View.ld_unit_zero (S := S1x64) hz13]

end Pieces

/-! ## The payload at an index -/

/-- The mixed tile at row p, column q: the weight times agg plus one minus the weight times h. -/
theorem pay3_apply_13 (g : Vec Ideal S1x1 .f32) (h agg : Vec Ideal S10000x64 .f32) (p : Fin 10000) (q : Fin 64) :
    (k13_pay3 g h agg : S10000x64.Idx → EReal) (ix2 p q)
      = (g : S1x1.Idx → EReal) (ix2 0 0) * (agg : S10000x64.Idx → EReal) (ix2 p q)
        + (Ideal.ofBits .f32 0x3F800000#32 - (g : S1x1.Idx → EReal) (ix2 0 0)) * (h : S10000x64.Idx → EReal) (ix2 p q) := by
  unfold k13_pay3
  simp only [shapeCast_self]
  rw [addf_apply, mulf_apply, mulf_apply,
    broadcastTo_apply (s := S1x1) (t := S10000x64) _ _ (ix2 p q) (ix2 0 0)
      (fun a => by match a with | ⟨0, _⟩ => rfl | ⟨1, _⟩ => rfl),
    broadcastTo_apply (s := S1x1) (t := S10000x64) _ _ (ix2 p q) (ix2 0 0)
      (fun a => by match a with | ⟨0, _⟩ => rfl | ⟨1, _⟩ => rfl),
    subf_apply, broadcast_apply]
  rfl

/-- The same at any index of the tile. -/
theorem pay3_at_13 (g : Vec Ideal S1x1 .f32) (h agg : Vec Ideal S10000x64 .f32) (j : S10000x64.Idx) :
    (k13_pay3 g h agg : S10000x64.Idx → EReal) j
      = (g : S1x1.Idx → EReal) (ix2 0 0) * (agg : S10000x64.Idx → EReal) j
        + (Ideal.ofBits .f32 0x3F800000#32 - (g : S1x1.Idx → EReal) (ix2 0 0)) * (h : S10000x64.Idx → EReal) j := by
  obtain ⟨p, q, rfl⟩ : ∃ (p : Fin 10000) (q : Fin 64), j = ix2 p q := ⟨j 0, j 1, eq_ix2 j⟩
  exact pay3_apply_13 g h agg p q

/-- A tile's column reduction, stored as a one-row block, at column q: the sum of the tile down column q. -/
theorem colsum_apply_13 (x : Vec Ideal S10000x64 .f32) (q : Fin 64) :
    (shapeCast S1x64 (multiReduction (F := Ideal) .add [0] S64 x 0x00000000#32 reduces_S10000x64_S64 (.inl rfl) rfl)
        shapeCasts_S64_S1x64 : S1x64.Idx → EReal) (ix2 0 q)
      = ∑ r : Fin 10000, (x : S10000x64.Idx → EReal) (ix2 r q) := by
  refine (shapeCast_addUnit_apply ![64] _ _ (ix2 0 q)).trans ?_
  refine (Ideal.multiReduction_add_single x 0x00000000#32 reduces_S10000x64_S64 (.inl rfl) rfl _).trans ?_
  show ∑ r : Fin 10000, _ = _
  refine Finset.sum_congr rfl fun r _ => congrArg _ ?_
  funext a
  apply Fin.ext
  match a with
  | ⟨0, _⟩ => rfl
  | ⟨1, _⟩ => rfl

/-- The column sums' row at column q: the row entered plus the sum of the mixed tile down column q. -/
theorem pay4_apply_13 (g : Vec Ideal S1x1 .f32) (h agg : Vec Ideal S10000x64 .f32) (row : Vec Ideal S1x64 .f32) (q : Fin 64) :
    (k13_pay4 g h agg row : S1x64.Idx → EReal) (ix2 0 q)
      = (row : S1x64.Idx → EReal) (ix2 0 q) + ∑ r : Fin 10000, (k13_pay3 g h agg : S10000x64.Idx → EReal) (ix2 r q) := by
  unfold k13_pay4
  simp only [shapeCast_self]
  rw [addf_apply]
  congr 1
  exact colsum_apply_13 _ q

/-- The squares' row at column q: the row entered plus the sum of the mixed tile's squares down column q. -/
theorem pay5_apply_13 (g : Vec Ideal S1x1 .f32) (h agg : Vec Ideal S10000x64 .f32) (row : Vec Ideal S1x64 .f32) (q : Fin 64) :
    (k13_pay5 g h agg row : S1x64.Idx → EReal) (ix2 0 q)
      = (row : S1x64.Idx → EReal) (ix2 0 q)
        + ∑ r : Fin 10000, (k13_pay3 g h agg : S10000x64.Idx → EReal) (ix2 r q) * (k13_pay3 g h agg : S10000x64.Idx → EReal) (ix2 r q) := by
  unfold k13_pay5
  simp only [shapeCast_self]
  rw [addf_apply]
  congr 1
  exact colsum_apply_13 (mulf (k13_pay3 g h agg) (k13_pay3 g h agg)) q

/-- The rows entered at the first point are zero. -/
theorem pay1_apply_13 (q : Fin 64) : (k13_pay1 (F := Ideal) : S1x64.Idx → EReal) (ix2 0 q) = 0 := by
  unfold k13_pay1
  rw [broadcast_apply]
  exact Ideal.ofBits_zero_f32
theorem pay2_apply_13 (q : Fin 64) : (k13_pay2 (F := Ideal) : S1x64.Idx → EReal) (ix2 0 q) = 0 := by
  unfold k13_pay2
  rw [broadcast_apply]
  exact Ideal.ofBits_zero_f32

section Blocks
variable (V : (c : Dev nD) → (b : Ref sig .tc) → Buf (Elt Ideal) ((c : Thread nD τ).loc b))

/-! ## The first output: the mixed tile, at every point -/

/-- After the body at any point the first output's staging buffer holds the mixed tile of the point's blocks. -/
theorem outs13_3 (c : Dev nD) (t : Fin cfg13.N) :
    (outsAt13 V c t.val t.isLt).1 = k13_pay3 (iblk13 V c 2 t) (iblk13 V c 0 t) (iblk13 V c 1 t) := by
  by_cases h0 : t.val % 10 = 0
  · rw [outsAt13_A V c t h0]; exact outA13_3 V c t _
  · rw [outsAt13_B V c t h0]; exact outB13_3 V c t _ _ _

/-- The region's three input arrays as it finds them: the weight, h, agg. -/
abbrev arrG_13 (c : Dev nD) : S1x1.Idx → EReal := V c main_v263
abbrev arrH_13 (c : Dev nD) : S100000x64.Idx → EReal := V c main_v243
abbrev arrAgg_13 (c : Dev nD) : S100000x64.Idx → EReal := V c main_v256

/-- The mix of whole arrays, index by index. -/
abbrev mixG_13 (g : S1x1.Idx → EReal) (h agg : S100000x64.Idx → EReal) : S100000x64.Idx → EReal :=
  fun i => g (ix2 0 0) * agg i + (Ideal.ofBits .f32 0x3F800000#32 - g (ix2 0 0)) * h i

/-- The windows' index maps, decided over the grid: the tiles of h and agg move with the output's tile, whose row
    block is the point itself; the weight's block never moves. -/
theorem idx_facts13 : ∀ t : Fin cfg13.N,
    win13_0.index t (0 : Fin 2) = win13_3.index t (0 : Fin 2) ∧ win13_0.index t (1 : Fin 2) = win13_3.index t (1 : Fin 2)
    ∧ win13_1.index t (0 : Fin 2) = win13_3.index t (0 : Fin 2) ∧ win13_1.index t (1 : Fin 2) = win13_3.index t (1 : Fin 2)
    ∧ win13_2.index t (0 : Fin 2) = 0 ∧ win13_2.index t (1 : Fin 2) = 0
    ∧ win13_3.index t (0 : Fin 2) = t.val ∧ win13_3.index t (1 : Fin 2) = 0 :=
  (by decide +kernel : ∀ t : Fin grid13.N, _)

/-- What point t writes back to the first output is block t of the mix of the three arrays. -/
theorem flushed13_3_eq (c : Dev nD) (t : Fin cfg13.N) :
    (dat13 V c).flushed 3 t = ((cfg13.win 3).blk t).view.read (Elt Ideal) (mixG_13 (arrG_13 V c) (arrH_13 V c) (arrAgg_13 V c)) := by
  show (cfg13.win 3).cut (grid13.coords t) ((dat13 V c).after 3 t) = _
  rw [after13_3, outs13_3]
  funext j
  refine (pay3_at_13 _ _ _ j).trans ?_
  obtain ⟨e0, e1, e2, e3, e4, e5, e6, e7⟩ := idx_facts13 t
  show arrG_13 V c (((cfg13.win 2).blk t).view.emb (ix2 0 0)) * arrAgg_13 V c (((cfg13.win 1).blk t).view.emb j)
      + (Ideal.ofBits .f32 0x3F800000#32 - arrG_13 V c (((cfg13.win 2).blk t).view.emb (ix2 0 0))) * arrH_13 V c (((cfg13.win 0).blk t).view.emb j)
    = arrG_13 V c (ix2 0 0) * arrAgg_13 V c (((cfg13.win 3).blk t).view.emb j)
      + (Ideal.ofBits .f32 0x3F800000#32 - arrG_13 V c (ix2 0 0)) * arrH_13 V c (((cfg13.win 3).blk t).view.emb j)
  have h2 : ((cfg13.win 2).blk t).view.emb (ix2 0 0) = ix2 0 0 := by
    funext a; apply Fin.ext
    match a with
    | ⟨0, _⟩ => show win13_2.index t (0 : Fin 2) * 1 + 1 * 0 = 0; omega
    | ⟨1, _⟩ => show win13_2.index t (1 : Fin 2) * 1 + 1 * 0 = 0; omega
  have h0 : ((cfg13.win 0).blk t).view.emb j = ((cfg13.win 3).blk t).view.emb j := by
    funext a; apply Fin.ext
    match a with
    | ⟨0, _⟩ => show win13_0.index t (0 : Fin 2) * 10000 + 1 * (j 0).val = win13_3.index t (0 : Fin 2) * 10000 + 1 * (j 0).val; omega
    | ⟨1, _⟩ => show win13_0.index t (1 : Fin 2) * 64 + 1 * (j 1).val = win13_3.index t (1 : Fin 2) * 64 + 1 * (j 1).val; omega
  have h1 : ((cfg13.win 1).blk t).view.emb j = ((cfg13.win 3).blk t).view.emb j := by
    funext a; apply Fin.ext
    match a with
    | ⟨0, _⟩ => show win13_1.index t (0 : Fin 2) * 10000 + 1 * (j 0).val = win13_3.index t (0 : Fin 2) * 10000 + 1 * (j 0).val; omega
    | ⟨1, _⟩ => show win13_1.index t (1 : Fin 2) * 64 + 1 * (j 1).val = win13_3.index t (1 : Fin 2) * 64 + 1 * (j 1).val; omega
  rw [h2, h0, h1]

/-- An index of the first output is in point t's block iff each coordinate is in the block's range on its axis. -/
theorem mem_blk13_3 (t : Fin cfg13.N) (i : S100000x64.Idx) :
    i ∈ ((cfg13.win 3).blk t).view.set ↔ ∀ a : Fin 2, win13_3.index t a * S10000x64.size a ≤ (i a).val
      ∧ (i a).val < win13_3.index t a * S10000x64.size a + S10000x64.size a := by
  show i ∈ ((View.whole main_v264_0).slice (win13_3.rect t)).set ↔ _
  rw [View.set_slice_whole, Rect.mem_set_unit]
  exact Iff.rfl

/-- Row r of the first output is in the block of point r / 10000, which writes it back. -/
theorem cover13_3 (i : S100000x64.Idx) :
    ∃ t : Fin cfg13.N, (cfg13.win 3).flush t = true ∧ i ∈ ((cfg13.win 3).blk t).view.set := by
  have hi0 : (i 0).val < 100000 := (i 0).isLt
  have hi1 : (i 1).val < 64 := (i 1).isLt
  have hN : cfg13.N = 10 := N_13
  obtain ⟨t, ht⟩ : ∃ t : Fin cfg13.N, t.val = (i 0).val / 10000 := ⟨⟨(i 0).val / 10000, by rw [hN]; omega⟩, rfl⟩
  refine ⟨t, flush13_3 t, ?_⟩
  rw [mem_blk13_3]
  obtain ⟨e0, e1, e2, e3, e4, e5, e6, e7⟩ := idx_facts13 t
  intro a
  match a with
  | ⟨0, _⟩ =>
    show win13_3.index t (0 : Fin 2) * 10000 ≤ (i 0).val ∧ (i 0).val < win13_3.index t (0 : Fin 2) * 10000 + 10000
    rw [e6, ht]; omega
  | ⟨1, _⟩ =>
    show win13_3.index t (1 : Fin 2) * 64 ≤ (i 1).val ∧ (i 1).val < win13_3.index t (1 : Fin 2) * 64 + 64
    rw [e7]; omega

/-- So the first output array ends holding the mix of the three arrays as the region finds them. -/
theorem final13_3 (c : Dev nD) : (dat13 V c).arrAt 3 cfg13.N = mixG_13 (arrG_13 V c) (arrH_13 V c) (arrAgg_13 V c) :=
  (dat13 V c).arrAt_eq_of_cover 3 (mixG_13 (arrG_13 V c) (arrH_13 V c) (arrAgg_13 V c)) (fun t _ => flushed13_3_eq V c t) cover13_3

/-! ## The two rows: sums carried across the grid -/

/-- The mixed tile of point t at row r, column q is the mix of the arrays at row t·10000 + r. -/
theorem tile_at_13 (c : Dev nD) (t : Fin cfg13.N) (r : Fin 10000) (q : Fin 64) (hr : t.val * 10000 + r.val < 100000) :
    (k13_pay3 (iblk13 V c 2 t) (iblk13 V c 0 t) (iblk13 V c 1 t) : S10000x64.Idx → EReal) (ix2 r q)
      = mixG_13 (arrG_13 V c) (arrH_13 V c) (arrAgg_13 V c) (ix2 ⟨t.val * 10000 + r.val, hr⟩ q) := by
  have e : (dat13 V c).flushed 3 t = k13_pay3 (iblk13 V c 2 t) (iblk13 V c 0 t) (iblk13 V c 1 t) := by
    show (cfg13.win 3).cut (grid13.coords t) ((dat13 V c).after 3 t) = _
    rw [after13_3, outs13_3]
    funext j
    rfl
  refine (congrFun e.symm (ix2 r q)).trans ?_
  refine (congrFun (flushed13_3_eq V c t) (ix2 r q)).trans ?_
  show mixG_13 (arrG_13 V c) (arrH_13 V c) (arrAgg_13 V c) (((cfg13.win 3).blk t).view.emb (ix2 r q)) = _
  refine congrArg _ ?_
  obtain ⟨e0, e1, e2, e3, e4, e5, e6, e7⟩ := idx_facts13 t
  funext a; apply Fin.ext
  match a with
  | ⟨0, _⟩ => show win13_3.index t (0 : Fin 2) * 10000 + 1 * r.val = t.val * 10000 + r.val; rw [e6]; omega
  | ⟨1, _⟩ => show win13_3.index t (1 : Fin 2) * 64 + 1 * q.val = q.val; rw [e7]; omega

/-- The sum of the mix down column q over the rows of tile k (zero past the grid). -/
def tileN_13 (c : Dev nD) (q : Fin 64) (k : ℕ) : EReal :=
  if h : k < 10 then ∑ r : Fin 10000, mixG_13 (arrG_13 V c) (arrH_13 V c) (arrAgg_13 V c) (ix2 ⟨k * 10000 + r.val, by omega⟩ q) else 0

/-- The column sum of point t's mixed tile is that sum. -/
theorem tile_sum_13 (c : Dev nD) (t : Fin cfg13.N) (q : Fin 64) :
    ∑ r : Fin 10000, (k13_pay3 (iblk13 V c 2 t) (iblk13 V c 0 t) (iblk13 V c 1 t) : S10000x64.Idx → EReal) (ix2 r q)
      = tileN_13 V c q t.val := by
  have hN : t.val < 10 := lt_of_lt_of_eq t.isLt (show cfg13.N = 10 from N_13)
  unfold tileN_13
  rw [dif_pos hN]
  exact Finset.sum_congr rfl fun r _ => tile_at_13 V c t r q (by have := r.isLt; omega)

/-- After point n the first row holds, at column q, the column sums of tiles 0 to n added in order. -/
theorem row4_inv_13 (c : Dev nD) (q : Fin 64) : ∀ (n : ℕ) (hn : n < cfg13.N),
    ((outsAt13 V c n hn).2.1 : S1x64.Idx → EReal) (ix2 0 q) = ∑ k ∈ Finset.range (n + 1), tileN_13 V c q k
  | 0, hn => by
    have e : (outsAt13 V c 0 hn).2.1 = k13_pay4 (iblk13 V c 2 ⟨0, hn⟩) (iblk13 V c 0 ⟨0, hn⟩) (iblk13 V c 1 ⟨0, hn⟩) (k13_pay1 (F := Ideal)) :=
      (congrArg (fun o => o.2.1) (outsAt13_A V c ⟨0, hn⟩ rfl)).trans (outA13_4 V c ⟨0, hn⟩ _)
    refine (congrFun e (ix2 0 q)).trans ?_
    refine (pay4_apply_13 _ _ _ _ q).trans ?_
    rw [pay1_apply_13, zero_add, tile_sum_13 V c ⟨0, hn⟩ q, Finset.sum_range_one]
  | n + 1, hn => by
    have hN : cfg13.N = 10 := N_13
    have hB : ¬(⟨n + 1, hn⟩ : Fin cfg13.N).val % 10 = 0 := by
      have : n + 1 < 10 := hN ▸ hn
      dsimp only; omega
    have e : (outsAt13 V c (n + 1) hn).2.1 = k13_pay4 (iblk13 V c 2 ⟨n + 1, hn⟩) (iblk13 V c 0 ⟨n + 1, hn⟩) (iblk13 V c 1 ⟨n + 1, hn⟩)
        (outsAt13 V c n (Nat.lt_of_succ_lt hn)).2.1 :=
      (congrArg (fun o => o.2.1) (outsAt13_B V c ⟨n + 1, hn⟩ hB)).trans (outB13_4 V c ⟨n + 1, hn⟩ _ _ _)
    refine (congrFun e (ix2 0 q)).trans ?_
    refine (pay4_apply_13 _ _ _ _ q).trans ?_
    rw [row4_inv_13 c q n (Nat.lt_of_succ_lt hn), tile_sum_13 V c ⟨n + 1, hn⟩ q, Finset.sum_range_succ _ (n + 1)]

/-- The two rows' index maps never move. -/
theorem idx_facts13_rows : ∀ t : Fin cfg13.N, win13_4.index t (0 : Fin 2) = 0 ∧ win13_4.index t (1 : Fin 2) = 0
    ∧ win13_5.index t (0 : Fin 2) = 0 ∧ win13_5.index t (1 : Fin 2) = 0 :=
  (by decide +kernel : ∀ t : Fin grid13.N, _)

/-- The first row as a function of the arrays: at column q, the column sums of the ten tiles. -/
def rowG4_13 (c : Dev nD) : S1x64.Idx → EReal := fun i => ∑ k ∈ Finset.range 10, tileN_13 V c (i 1) k

/-- What the last point writes back to row output 1 is the whole row of sums. -/
theorem flushed13_4_eq (c : Dev nD) (t : Fin cfg13.N) (hf : (cfg13.win 4).flush t = true) :
    (dat13 V c).flushed 4 t = ((cfg13.win 4).blk t).view.read (Elt Ideal) (rowG4_13 V c) := by
  have hN : t.val < 10 := lt_of_lt_of_eq t.isLt (show cfg13.N = 10 from N_13)
  have h9 : t.val = 9 := by have := (flush13_4 t).mp hf; omega
  show (cfg13.win 4).cut (grid13.coords t) ((dat13 V c).after 4 t) = _
  rw [after13_4]
  funext j
  obtain ⟨p, q, rfl⟩ : ∃ (p : Fin 1) (q : Fin 64), j = ix2 p q := ⟨j 0, j 1, eq_ix2 j⟩
  obtain rfl : p = 0 := Subsingleton.elim _ _
  show ((outsAt13 V c t.val t.isLt).2.1 : S1x64.Idx → EReal) (ix2 0 q) = rowG4_13 V c (((cfg13.win 4).blk t).view.emb (ix2 0 q))
  obtain ⟨e0, e1, e2, e3⟩ := idx_facts13_rows t
  have hemb : ((cfg13.win 4).blk t).view.emb (ix2 0 q) = ix2 0 q := by
    funext a; apply Fin.ext
    match a with
    | ⟨0, _⟩ => show win13_4.index t (0 : Fin 2) * 1 + 1 * 0 = 0; omega
    | ⟨1, _⟩ => show win13_4.index t (1 : Fin 2) * 64 + 1 * q.val = q.val; omega
  rw [hemb, row4_inv_13 V c q t.val t.isLt, h9]
  rfl

theorem mem_blk13_4 (t : Fin cfg13.N) (i : S1x64.Idx) :
    i ∈ ((cfg13.win 4).blk t).view.set ↔ ∀ a : Fin 2, win13_4.index t a * S1x64.size a ≤ (i a).val
      ∧ (i a).val < win13_4.index t a * S1x64.size a + S1x64.size a := by
  show i ∈ ((View.whole main_v264_1).slice (win13_4.rect t)).set ↔ _
  rw [View.set_slice_whole, Rect.mem_set_unit]
  exact Iff.rfl

/-- The last point's block is the whole row. -/
theorem cover13_4 (i : S1x64.Idx) :
    ∃ t : Fin cfg13.N, (cfg13.win 4).flush t = true ∧ i ∈ ((cfg13.win 4).blk t).view.set := by
  have hi0 : (i 0).val < 1 := (i 0).isLt
  have hi1 : (i 1).val < 64 := (i 1).isLt
  have hN : cfg13.N = 10 := N_13
  obtain ⟨t, ht⟩ : ∃ t : Fin cfg13.N, t.val = 9 := ⟨⟨9, by rw [hN]; omega⟩, rfl⟩
  refine ⟨t, (flush13_4 t).mpr (by rw [ht]), ?_⟩
  rw [mem_blk13_4]
  obtain ⟨e0, e1, e2, e3⟩ := idx_facts13_rows t
  intro a
  match a with
  | ⟨0, _⟩ =>
    show win13_4.index t (0 : Fin 2) * 1 ≤ (i 0).val ∧ (i 0).val < win13_4.index t (0 : Fin 2) * 1 + 1
    omega
  | ⟨1, _⟩ =>
    show win13_4.index t (1 : Fin 2) * 64 ≤ (i 1).val ∧ (i 1).val < win13_4.index t (1 : Fin 2) * 64 + 64
    omega

theorem final13_4 (c : Dev nD) : (dat13 V c).arrAt 4 cfg13.N = rowG4_13 V c :=
  (dat13 V c).arrAt_eq_of_cover 4 (rowG4_13 V c) (flushed13_4_eq V c) cover13_4

/-- The sum of the mix's squares down column q over the rows of tile k (zero past the grid). -/
def sqN_13 (c : Dev nD) (q : Fin 64) (k : ℕ) : EReal :=
  if h : k < 10 then ∑ r : Fin 10000, mixG_13 (arrG_13 V c) (arrH_13 V c) (arrAgg_13 V c) (ix2 ⟨k * 10000 + r.val, by omega⟩ q)
    * mixG_13 (arrG_13 V c) (arrH_13 V c) (arrAgg_13 V c) (ix2 ⟨k * 10000 + r.val, by omega⟩ q) else 0

theorem tile_sq_sum_13 (c : Dev nD) (t : Fin cfg13.N) (q : Fin 64) :
    ∑ r : Fin 10000, (k13_pay3 (iblk13 V c 2 t) (iblk13 V c 0 t) (iblk13 V c 1 t) : S10000x64.Idx → EReal) (ix2 r q)
        * (k13_pay3 (iblk13 V c 2 t) (iblk13 V c 0 t) (iblk13 V c 1 t) : S10000x64.Idx → EReal) (ix2 r q)
      = sqN_13 V c q t.val := by
  have hN : t.val < 10 := lt_of_lt_of_eq t.isLt (show cfg13.N = 10 from N_13)
  unfold sqN_13
  rw [dif_pos hN]
  exact Finset.sum_congr rfl fun r _ => by rw [tile_at_13 V c t r q (by have := r.isLt; omega)]

/-- After point n the second row holds, at column q, the sums of squares of tiles 0 to n added in order. -/
theorem row5_inv_13 (c : Dev nD) (q : Fin 64) : ∀ (n : ℕ) (hn : n < cfg13.N),
    ((outsAt13 V c n hn).2.2 : S1x64.Idx → EReal) (ix2 0 q) = ∑ k ∈ Finset.range (n + 1), sqN_13 V c q k
  | 0, hn => by
    have e : (outsAt13 V c 0 hn).2.2 = k13_pay5 (iblk13 V c 2 ⟨0, hn⟩) (iblk13 V c 0 ⟨0, hn⟩) (iblk13 V c 1 ⟨0, hn⟩) (k13_pay2 (F := Ideal)) :=
      (congrArg (fun o => o.2.2) (outsAt13_A V c ⟨0, hn⟩ rfl)).trans (outA13_5 V c ⟨0, hn⟩ _)
    refine (congrFun e (ix2 0 q)).trans ?_
    refine (pay5_apply_13 _ _ _ _ q).trans ?_
    rw [pay2_apply_13, zero_add, tile_sq_sum_13 V c ⟨0, hn⟩ q, Finset.sum_range_one]
  | n + 1, hn => by
    have hN : cfg13.N = 10 := N_13
    have hB : ¬(⟨n + 1, hn⟩ : Fin cfg13.N).val % 10 = 0 := by
      have : n + 1 < 10 := hN ▸ hn
      dsimp only; omega
    have e : (outsAt13 V c (n + 1) hn).2.2 = k13_pay5 (iblk13 V c 2 ⟨n + 1, hn⟩) (iblk13 V c 0 ⟨n + 1, hn⟩) (iblk13 V c 1 ⟨n + 1, hn⟩)
        (outsAt13 V c n (Nat.lt_of_succ_lt hn)).2.2 :=
      (congrArg (fun o => o.2.2) (outsAt13_B V c ⟨n + 1, hn⟩ hB)).trans (outB13_5 V c ⟨n + 1, hn⟩ _ _ _)
    refine (congrFun e (ix2 0 q)).trans ?_
    refine (pay5_apply_13 _ _ _ _ q).trans ?_
    rw [row5_inv_13 c q n (Nat.lt_of_succ_lt hn), tile_sq_sum_13 V c ⟨n + 1, hn⟩ q, Finset.sum_range_succ _ (n + 1)]

/-- The second row as a function of the arrays: at column q, the sums of squares of the ten tiles. -/
def rowG5_13 (c : Dev nD) : S1x64.Idx → EReal := fun i => ∑ k ∈ Finset.range 10, sqN_13 V c (i 1) k

/-- What the last point writes back to row output 2 is the whole row of sums. -/
theorem flushed13_5_eq (c : Dev nD) (t : Fin cfg13.N) (hf : (cfg13.win 5).flush t = true) :
    (dat13 V c).flushed 5 t = ((cfg13.win 5).blk t).view.read (Elt Ideal) (rowG5_13 V c) := by
  have hN : t.val < 10 := lt_of_lt_of_eq t.isLt (show cfg13.N = 10 from N_13)
  have h9 : t.val = 9 := by have := (flush13_5 t).mp hf; omega
  show (cfg13.win 5).cut (grid13.coords t) ((dat13 V c).after 5 t) = _
  rw [after13_5]
  funext j
  obtain ⟨p, q, rfl⟩ : ∃ (p : Fin 1) (q : Fin 64), j = ix2 p q := ⟨j 0, j 1, eq_ix2 j⟩
  obtain rfl : p = 0 := Subsingleton.elim _ _
  show ((outsAt13 V c t.val t.isLt).2.2 : S1x64.Idx → EReal) (ix2 0 q) = rowG5_13 V c (((cfg13.win 5).blk t).view.emb (ix2 0 q))
  obtain ⟨e0, e1, e2, e3⟩ := idx_facts13_rows t
  have hemb : ((cfg13.win 5).blk t).view.emb (ix2 0 q) = ix2 0 q := by
    funext a; apply Fin.ext
    match a with
    | ⟨0, _⟩ => show win13_5.index t (0 : Fin 2) * 1 + 1 * 0 = 0; omega
    | ⟨1, _⟩ => show win13_5.index t (1 : Fin 2) * 64 + 1 * q.val = q.val; omega
  rw [hemb, row5_inv_13 V c q t.val t.isLt, h9]
  rfl

theorem mem_blk13_5 (t : Fin cfg13.N) (i : S1x64.Idx) :
    i ∈ ((cfg13.win 5).blk t).view.set ↔ ∀ a : Fin 2, win13_5.index t a * S1x64.size a ≤ (i a).val
      ∧ (i a).val < win13_5.index t a * S1x64.size a + S1x64.size a := by
  show i ∈ ((View.whole main_v264_2).slice (win13_5.rect t)).set ↔ _
  rw [View.set_slice_whole, Rect.mem_set_unit]
  exact Iff.rfl

/-- The last point's block is the whole row. -/
theorem cover13_5 (i : S1x64.Idx) :
    ∃ t : Fin cfg13.N, (cfg13.win 5).flush t = true ∧ i ∈ ((cfg13.win 5).blk t).view.set := by
  have hi0 : (i 0).val < 1 := (i 0).isLt
  have hi1 : (i 1).val < 64 := (i 1).isLt
  have hN : cfg13.N = 10 := N_13
  obtain ⟨t, ht⟩ : ∃ t : Fin cfg13.N, t.val = 9 := ⟨⟨9, by rw [hN]; omega⟩, rfl⟩
  refine ⟨t, (flush13_5 t).mpr (by rw [ht]), ?_⟩
  rw [mem_blk13_5]
  obtain ⟨e0, e1, e2, e3⟩ := idx_facts13_rows t
  intro a
  match a with
  | ⟨0, _⟩ =>
    show win13_5.index t (0 : Fin 2) * 1 ≤ (i 0).val ∧ (i 0).val < win13_5.index t (0 : Fin 2) * 1 + 1
    omega
  | ⟨1, _⟩ =>
    show win13_5.index t (1 : Fin 2) * 64 ≤ (i 1).val ∧ (i 1).val < win13_5.index t (1 : Fin 2) * 64 + 64
    omega

theorem final13_5 (c : Dev nD) : (dat13 V c).arrAt 5 cfg13.N = rowG5_13 V c :=
  (dat13 V c).arrAt_eq_of_cover 5 (rowG5_13 V c) (flushed13_5_eq V c) cover13_5

end Blocks

/-! ## The region's outputs, as functions of its entry contents -/

/-- The mixed value at row p, column q of the arrays the region finds. -/
abbrev xm13 (c : Dev nD) (p : Fin 100000) (q : Fin 64) : EReal :=
  mixG_13 (W31 (F := Ideal) m c main_v263) (W31 (F := Ideal) m c main_v243) (W31 (F := Ideal) m c main_v256) (ix2 p q)

/-- The first output holds the mixed value at every row and column. -/
theorem O13_0_eq (c : Dev nD) (p : Fin 100000) (q : Fin 64) :
    (O13_0 (F := Ideal) m c : S100000x64.Idx → EReal) (ix2 p q) = xm13 m c p q := by
  unfold O13_0
  rw [final13_3 (E31 m) c]

/-- The first row holds, at column q, the sum of the mixed value over all 100000 rows. -/
theorem O13_1_eq (c : Dev nD) (q : Fin 64) :
    (O13_1 (F := Ideal) m c : S1x64.Idx → EReal) (ix2 0 q)
      = ∑ t : Fin 10, ∑ r : Fin 10000, xm13 m c ⟨t.val * 10000 + r.val, by omega⟩ q := by
  unfold O13_1
  rw [final13_4 (E31 m) c]
  show ∑ k ∈ Finset.range 10, tileN_13 (E31 m) c q k = _
  rw [← Fin.sum_univ_eq_sum_range (fun k => tileN_13 (E31 m) c q k) 10]
  refine Finset.sum_congr rfl fun t _ => ?_
  unfold tileN_13
  rw [dif_pos t.isLt]

/-- The second row holds, at column q, the sum of the mixed value's square over all 100000 rows. -/
theorem O13_2_eq (c : Dev nD) (q : Fin 64) :
    (O13_2 (F := Ideal) m c : S1x64.Idx → EReal) (ix2 0 q)
      = ∑ t : Fin 10, ∑ r : Fin 10000, xm13 m c ⟨t.val * 10000 + r.val, by omega⟩ q * xm13 m c ⟨t.val * 10000 + r.val, by omega⟩ q := by
  unfold O13_2
  rw [final13_5 (E31 m) c]
  show ∑ k ∈ Finset.range 10, sqN_13 (E31 m) c q k = _
  rw [← Fin.sum_univ_eq_sum_range (fun k => sqN_13 (E31 m) c q k) 10]
  refine Finset.sum_congr rfl fun t _ => ?_
  unfold sqN_13
  rw [dif_pos t.isLt]

end Cert.KernelIdeal.Body

end
-- ==== Proof.KIStageMix13.lean ====
/-
  The mix stage of relation 2, layer 1, in both programs.

  The kernel program computes xm = g·agg + (1 − g)·h tile by tile in region 13, with the mixing weight g a 1×1 array; the
  reference computes it over the whole arrays in one window, with the weight a scalar spread over the array (once for
  g·agg and once for 1 − g), of the agg it computed earlier in the same window. Both are the one function of (weight, h, agg), entry by
  entry: so when the two programs hold the same h, the same agg and the same weight, what the region leaves in its
  first output array is the reference's array.
-/
import proofs.«140713_j1864015806535_2_alg».proof.Proof.KIValMix13
import proofs.«140713_j1864015806535_2_alg».proof.Proof.RefFrame
import proofs.«140713_j1864015806535_2_alg».proof.Proof.LibHostBroadcast
import Idealize.ShloMosaic.Lib.StableHlo.Run
import Idealize.ShloMosaic.Lib.ValueIdx

set_option maxRecDepth 65536

noncomputable section

namespace Cert.Proof.Value
open Idealize.ShloMosaic Idealize.ShloMosaic.ValueIdx

/-- The mix as the reference computes it: the spread weight times agg, plus one minus the weight, spread, times h. -/
def refMix_13 (gs : (⟨2, ![100000, 64]⟩ : Shape).Idx → EReal) (agg : (⟨2, ![100000, 64]⟩ : Shape).Idx → EReal)
    (g : (⟨0, ![]⟩ : Shape).Idx → EReal) (h : (⟨2, ![100000, 64]⟩ : Shape).Idx → EReal)
    (hb : (⟨0, ![]⟩ : Shape).BroadcastsInDim ⟨2, ![100000, 64]⟩ (![] : Fin 0 → Fin 2)) :
    (⟨2, ![100000, 64]⟩ : Shape).Idx → EReal :=
  addf (F := Ideal) (φ := .f32) (mulf (F := Ideal) (φ := .f32) gs agg)
    (mulf (F := Ideal) (φ := .f32)
      (broadcastInDim ⟨2, ![100000, 64]⟩ ![] hb (subf (F := Ideal) (φ := .f32) (constant (F := Ideal) ⟨0, ![]⟩ .f32 0x3F800000#32) g)) h)

/-- At row p, column q. -/
theorem refMix_13_apply (gs agg : (⟨2, ![100000, 64]⟩ : Shape).Idx → EReal) (g : (⟨0, ![]⟩ : Shape).Idx → EReal)
    (h : (⟨2, ![100000, 64]⟩ : Shape).Idx → EReal)
    (hb : (⟨0, ![]⟩ : Shape).BroadcastsInDim ⟨2, ![100000, 64]⟩ (![] : Fin 0 → Fin 2)) (p : Fin 100000) (q : Fin 64) :
    refMix_13 gs agg g h hb (ix2 p q)
      = gs (ix2 p q) * agg (ix2 p q) + (Ideal.ofBits .f32 0x3F800000#32 - g ix0) * h (ix2 p q) := by
  unfold refMix_13
  rw [addf_apply, mulf_apply, mulf_apply, Cert.LibHostBroadcast.scalar_to_any, subf_apply, constant_apply]
end Cert.Proof.Value

namespace Cert.ReferenceIdeal.RefRun
open Cert.ReferenceIdeal Cert.ReferenceIdeal.Gen Idealize.ShloMosaic Idealize.ShloMosaic.TcCoe Idealize.SL.Sem Idealize.ShloMosaic.StableHlo

/-- The window's operations before the mix write no buffer of an earlier window. -/
theorem ops7_mix_keeps (V : Valuation τ sig (Elt Ideal)) (r : Ref sig .tc) (hr : r ∉ (ops7_W : List (Ref sig .tc))) :
    after ((ops7 (F := Ideal)).take 27) V (Proc.devRef .tc r) = V (Proc.devRef .tc r) :=
  after_of_writes_sub (W := ops7_W) _ V
    (List.forall_iff_forall_mem.mpr fun op hop => List.forall_iff_forall_mem.mp ops7_writes op (List.mem_of_mem_take hop)) hr

set_option maxHeartbeats 8000000 in
/-- The reference's mix of relation 2, layer 1, over the buffers as its window finds them. The window is cut at the mix's first operation: the operations before it, the agg's among them, are read only through what they leave. -/
theorem ref_mix13 (V : Valuation τ sig (Elt Ideal)) :
    (after (ops7 (F := Ideal)) V (main_v378 : DevRef τ sig) : S100000x64.Idx → EReal)
      = Cert.Proof.Value.refMix_13 (broadcastInDim S100000x64 ![] bcast_S_S100000x64 (V (main_v333 : DevRef τ sig)))
          (after (ops7 (F := Ideal)) V (main_v372 : DevRef τ sig)) (V (main_v333 : DevRef τ sig))
          (V (main_v337 : DevRef τ sig)) bcast_S_S100000x64 := by
  rw [← ops7_mix_keeps V main_v333 (by decide), ← ops7_mix_keeps V main_v337 (by decide),
    ← List.take_append_drop 27 (ops7 (F := Ideal)), after_append]
  simp only [List.take_append_drop]
  generalize after ((ops7 (F := Ideal)).take 27) V = X
  dsimp only [ops7]
  simp only [List.drop_succ_cons, List.drop_zero]
  after_results
  rfl
end Cert.ReferenceIdeal.RefRun

namespace Cert.Proof.Value
open Idealize.ShloMosaic Idealize.ShloMosaic.TcCoe Idealize.ShloMosaic.ValueIdx Idealize.SL.Sem Idealize.ShloMosaic.StableHlo

/-- THE MIX STAGE, relation 2, layer 1: the kernel program's mixed array (what region 13 leaves in its first output) is the
    reference's, from any contents before the reference's window: when they hold the kernel program's h, the window's agg is the kernel program's agg,
    and the reference's scalar weight is the kernel program's 1×1 weight. -/
theorem stageMix13
    (m : (ℓ : Loc Cert.KernelIdeal.nD Cert.KernelIdeal.τ Cert.KernelIdeal.sig) → Buf (Elt Ideal) ℓ)
    (R : Valuation Cert.ReferenceIdeal.τ Cert.ReferenceIdeal.sig (Elt Ideal))
    (c : Dev Cert.KernelIdeal.nD)
    (hh : (R (Cert.ReferenceIdeal.main_v337 : DevRef Cert.ReferenceIdeal.τ Cert.ReferenceIdeal.sig) : (⟨2, ![100000, 64]⟩ : Shape).Idx → EReal)
      = Cert.KernelIdeal.Body.W31 (F := Ideal) m c Cert.KernelIdeal.main_v243)
    (hagg : (after (Cert.ReferenceIdeal.RefRun.ops7 (F := Ideal)) R (Cert.ReferenceIdeal.main_v372 : DevRef Cert.ReferenceIdeal.τ Cert.ReferenceIdeal.sig) : (⟨2, ![100000, 64]⟩ : Shape).Idx → EReal)
      = Cert.KernelIdeal.Body.W31 (F := Ideal) m c Cert.KernelIdeal.main_v256)
    (hg : (R (Cert.ReferenceIdeal.main_v333 : DevRef Cert.ReferenceIdeal.τ Cert.ReferenceIdeal.sig) : (⟨0, ![]⟩ : Shape).Idx → EReal) ix0
      = (Cert.KernelIdeal.Body.W31 (F := Ideal) m c Cert.KernelIdeal.main_v263 : (⟨2, ![1, 1]⟩ : Shape).Idx → EReal) (ix2 0 0)) :
    (after (Cert.ReferenceIdeal.RefRun.ops7 (F := Ideal)) R (Cert.ReferenceIdeal.main_v378 : DevRef Cert.ReferenceIdeal.τ Cert.ReferenceIdeal.sig) : (⟨2, ![100000, 64]⟩ : Shape).Idx → EReal)
      = (Cert.KernelIdeal.Body.O13_0 (F := Ideal) m c : (⟨2, ![100000, 64]⟩ : Shape).Idx → EReal) := by
  rw [Cert.ReferenceIdeal.RefRun.ref_mix13]
  funext i
  obtain ⟨p, q, rfl⟩ : ∃ (p : Fin 100000) (q : Fin 64), i = ix2 p q := ⟨i 0, i 1, eq_ix2 i⟩
  refine (refMix_13_apply _ _ _ _ _ p q).trans ?_
  refine Eq.trans ?_ (Cert.KernelIdeal.Body.O13_0_eq m c p q).symm
  rw [Cert.LibHostBroadcast.scalar_to_any, hg, hagg, hh]

end Cert.Proof.Value

end
-- ==== Proof.KIStageMix13Glue.lean ====
/-
  The mix stage of relation 2, layer 1, from the arguments.

  Both programs take the mixing weight from the same place: entry 2 of the same mixing-weights argument, as a scalar.
  The reference spreads that scalar over the array; the kernel program views it as a 1×1 array for region 13. So when the
  contents before the reference's window that computes the weight agree with the kernel program's launch memory on that
  argument, the reference's scalar is the kernel program's 1×1 weight, and the join of the mix stage needs only that the
  two programs hold the same h and the same agg.
-/
import proofs.«140713_j1864015806535_2_alg».proof.Proof.KIStageMix13

set_option maxRecDepth 65536

noncomputable section

namespace Cert.Proof.Value
open Idealize.ShloMosaic
/-- The mixing weight of relation 2, layer 1, as a function of the mixing-weights argument: entry 2, as a scalar. -/
def gOf_13 (a : (⟨1, ![3]⟩ : Shape).Idx → EReal) (hs : (⟨1, ![3]⟩ : Shape).Slices ![2] ⟨1, ![1]⟩)
    (hc : (⟨1, ![1]⟩ : Shape).ShapeCasts ⟨0, ![]⟩) : (⟨0, ![]⟩ : Shape).Idx → EReal :=
  shapeCast ⟨0, ![]⟩ (extractStridedSlice ⟨1, ![1]⟩ ![2] a hs) hc
end Cert.Proof.Value

namespace Cert.ReferenceIdeal.RefRun
open Cert.ReferenceIdeal Cert.ReferenceIdeal.Gen Idealize.ShloMosaic Idealize.ShloMosaic.TcCoe Idealize.SL.Sem Idealize.ShloMosaic.StableHlo

set_option maxHeartbeats 4000000 in
/-- The reference's scalar mixing weight of relation 2, layer 1, from any contents before the window that computes it. -/
theorem ref_g13 (V : Valuation τ sig (Elt Ideal)) :
    (after (ops6 (F := Ideal)) V (main_v333 : DevRef τ sig) : S_.Idx → EReal)
      = Cert.Proof.Value.gOf_13 (V (main_arg7 : DevRef τ sig)) slices_S3_S1_2 shapeCasts_S1_S_ := by
  dsimp only [ops6]
  after_results
  rfl
end Cert.ReferenceIdeal.RefRun

namespace Cert.KernelIdeal.Body
open Cert.KernelIdeal Cert.KernelIdeal.Gen Idealize.ShloMosaic Idealize.ShloMosaic.TcCoe Idealize.SL.Sem Idealize.ShloMosaic.StableHlo
variable (m : (ℓ : Loc nD τ sig) → Buf (Elt Ideal) ℓ)

/-- The mixing-weights argument reaches the host stretch before region 13 as launched. -/
theorem ker_mixarg13 (c : Dev nD) : W30 (F := Ideal) m c main_arg7 = m ((c.tc : Thread nD τ).loc main_arg7) :=
  (congrFun (hV30 m c) _).symm.trans <|
    (GenP.V30_of m (outs m) c main_arg7 (by decide)).trans <|
      (GenP.V29_of m (outs m) c main_arg7 (by decide)).trans <|
      (GenP.V28_of m (outs m) c main_arg7 (by decide)).trans <|
      (GenP.V27_of m (outs m) c main_arg7 (by decide)).trans <|
      (GenP.V26_of m (outs m) c main_arg7 (by decide)).trans <|
      (GenP.V25_of m (outs m) c main_arg7 (by decide)).trans <|
      (GenP.V24_of m (outs m) c main_arg7 (by decide)).trans <|
      (GenP.V23_of m (outs m) c main_arg7 (by decide)).trans <|
      (GenP.V22_of m (outs m) c main_arg7 (by decide)).trans <|
      (GenP.V21_of m (outs m) c main_arg7 (by decide)).trans <|
      (GenP.V20_of m (outs m) c main_arg7 (by decide)).trans <|
      (GenP.V19_of m (outs m) c main_arg7 (by decide)).trans <|
      (GenP.V18_of m (outs m) c main_arg7 (by decide)).trans <|
      (GenP.V17_of m (outs m) c main_arg7 (by decide)).trans <|
      (GenP.V16_of m (outs m) c main_arg7 (by decide)).trans <|
      (GenP.V15_of m (outs m) c main_arg7 (by decide)).trans <|
      (GenP.V14_of m (outs m) c main_arg7 (by decide)).trans <|
      (GenP.V13_of m (outs m) c main_arg7 (by decide)).trans <|
      (GenP.V12_of m (outs m) c main_arg7 (by decide)).trans <|
      (GenP.V11_of m (outs m) c main_arg7 (by decide)).trans <|
      (GenP.V10_of m (outs m) c main_arg7 (by decide)).trans <|
      (GenP.V9_of m (outs m) c main_arg7 (by decide)).trans <|
      (GenP.V8_of m (outs m) c main_arg7 (by decide)).trans <|
      (GenP.V7_of m (outs m) c main_arg7 (by decide)).trans <|
      (GenP.V6_of m (outs m) c main_arg7 (by decide)).trans <|
      (GenP.V5_of m (outs m) c main_arg7 (by decide)).trans <|
      (GenP.V4_of m (outs m) c main_arg7 (by decide)).trans <|
      (GenP.V3_of m (outs m) c main_arg7 (by decide)).trans <|
      (GenP.V2_of m (outs m) c main_arg7 (by decide)).trans <|
      (GenP.V1_of m c main_arg7 (by decide)).trans rfl

set_option maxHeartbeats 4000000 in
/-- The kernel program's 1×1 mixing weight of relation 2, layer 1: the same scalar, as a 1×1 array. -/
theorem ker_g13 (c : Dev nD) :
    (W31 (F := Ideal) m c main_v263 : S1x1.Idx → EReal)
      = shapeCast S1x1 (Cert.Proof.Value.gOf_13 (m ((c.tc : Thread nD τ).loc main_arg7)) slices_S3_S1_2 shapeCasts_S1_S_) shapeCasts_S_S1x1 := by
  rw [← ker_mixarg13 m c]
  dsimp only [W31, hostOps13]
  after_results
  rfl

/-- On entering region 13 h is what region 12 left. -/
theorem ker_h13 (c : Dev nD) : W31 (F := Ideal) m c main_v243 = O12_0 (F := Ideal) m c := by
  refine (StableHlo.after_of_writes_sub hostOps13 _ GenP.hostOps13_writes (by decide)).trans ?_
  unfold W30
  simp only [Function.update_self]
end Cert.KernelIdeal.Body

namespace Cert.Proof.Value
open Idealize.ShloMosaic Idealize.ShloMosaic.TcCoe Idealize.ShloMosaic.ValueIdx Idealize.SL.Sem Idealize.ShloMosaic.StableHlo

/-- After the reference's window that computes it, its scalar weight is the kernel program's 1×1 weight, when the contents
    before that window agree with the kernel program's launch memory on the mixing-weights argument. -/
theorem mix13_weight
    (m : (ℓ : Loc Cert.KernelIdeal.nD Cert.KernelIdeal.τ Cert.KernelIdeal.sig) → Buf (Elt Ideal) ℓ)
    (V : Valuation Cert.ReferenceIdeal.τ Cert.ReferenceIdeal.sig (Elt Ideal))
    (c : Dev Cert.KernelIdeal.nD)
    (ha : V (Proc.devRef .tc Cert.ReferenceIdeal.main_arg7) = m ((c.tc : Thread Cert.KernelIdeal.nD Cert.KernelIdeal.τ).loc Cert.KernelIdeal.main_arg7)) :
    ((after (Cert.ReferenceIdeal.RefRun.ops6 (F := Ideal)) V) (Cert.ReferenceIdeal.main_v333 : DevRef Cert.ReferenceIdeal.τ Cert.ReferenceIdeal.sig) : (⟨0, ![]⟩ : Shape).Idx → EReal) ix0
      = (Cert.KernelIdeal.Body.W31 (F := Ideal) m c Cert.KernelIdeal.main_v263 : (⟨2, ![1, 1]⟩ : Shape).Idx → EReal) (ix2 0 0) := by
  rw [Cert.ReferenceIdeal.RefRun.ref_g13, Cert.KernelIdeal.Body.ker_g13, ha]
  exact (shapeCast_apply _ _ (ix2 0 0) ix0 rfl).symm

/-- THE MIX STAGE, relation 2, layer 1, from the arguments: when the contents before the reference's window 6 agree with the kernel
    program's launch memory on the mixing-weights argument and, after that window, the reference holds the kernel program's
    h (what region 12 left) and its window 7 computes the kernel program's agg, the kernel program's mixed array is the reference's. -/
theorem mix13
    (m : (ℓ : Loc Cert.KernelIdeal.nD Cert.KernelIdeal.τ Cert.KernelIdeal.sig) → Buf (Elt Ideal) ℓ)
    (V : Valuation Cert.ReferenceIdeal.τ Cert.ReferenceIdeal.sig (Elt Ideal))
    (c : Dev Cert.KernelIdeal.nD)
    (ha : V (Proc.devRef .tc Cert.ReferenceIdeal.main_arg7) = m ((c.tc : Thread Cert.KernelIdeal.nD Cert.KernelIdeal.τ).loc Cert.KernelIdeal.main_arg7))
    (hh : ((after (Cert.ReferenceIdeal.RefRun.ops6 (F := Ideal)) V) (Cert.ReferenceIdeal.main_v337 : DevRef Cert.ReferenceIdeal.τ Cert.ReferenceIdeal.sig) : (⟨2, ![100000, 64]⟩ : Shape).Idx → EReal) = (Cert.KernelIdeal.Body.O12_0 (F := Ideal) m c : (⟨2, ![100000, 64]⟩ : Shape).Idx → EReal))
    (hagg : (after (Cert.ReferenceIdeal.RefRun.ops7 (F := Ideal)) (after (Cert.ReferenceIdeal.RefRun.ops6 (F := Ideal)) V) (Cert.ReferenceIdeal.main_v372 : DevRef Cert.ReferenceIdeal.τ Cert.ReferenceIdeal.sig) : (⟨2, ![100000, 64]⟩ : Shape).Idx → EReal) = Cert.KernelIdeal.Body.W31 (F := Ideal) m c Cert.KernelIdeal.main_v256) :
    (after (Cert.ReferenceIdeal.RefRun.ops7 (F := Ideal)) (after (Cert.ReferenceIdeal.RefRun.ops6 (F := Ideal)) V) (Cert.ReferenceIdeal.main_v378 : DevRef Cert.ReferenceIdeal.τ Cert.ReferenceIdeal.sig) : (⟨2, ![100000, 64]⟩ : Shape).Idx → EReal)
      = (Cert.KernelIdeal.Body.O13_0 (F := Ideal) m c : (⟨2, ![100000, 64]⟩ : Shape).Idx → EReal) :=
  stageMix13 m (after (Cert.ReferenceIdeal.RefRun.ops6 (F := Ideal)) V) c (hh.trans (Cert.KernelIdeal.Body.ker_h13 m c).symm) hagg (mix13_weight m V c ha)

end Cert.Proof.Value

end
-- ==== Proof.KIStageEmb2.lean ====
/-
  The last stage of relation 2, which both programs compute on the host with the same operations: the rows of the
  second layer's output at the batch nodes, then log_softmax along each row.

  From the 100000×32 array h the stage before left and the batch argument (50000 node numbers, a negative one counting
  from the end): rows = h at the batch nodes (50000×32); and with M the row maximum (taken against −∞),
      out = (rows − M) − log Σ_j exp(rows_j − M).
  The functions below name these over the literal shapes, each program's result array is read as that function of its own h
  and batch argument, and the last lemma concludes: if the two programs' h arrays are equal and their memories agree on
  the batch argument, their result arrays are equal.
-/
import proofs.«140713_j1864015806535_2_alg».proof.Proof.KIFrameBase
import proofs.«140713_j1864015806535_2_alg».proof.Proof.RefFrame
import Idealize.ShloMosaic.Lib.StableHlo.Run
import Idealize.ShloMosaic.PureOps.Ideal.Laws

set_option maxRecDepth 65536

noncomputable section

namespace Cert.Proof.Value
open Idealize.ShloMosaic

/-- A batch node number read as an index: a negative one counts from the end. -/
def wrapBatch2 (hb : (⟨0, ![]⟩ : Shape).BroadcastsInDim ⟨1, ![50000]⟩ (![] : Fin 0 → Fin 1))
    (s : (⟨1, ![50000]⟩ : Shape).Idx → BitVec 32) : (⟨1, ![50000]⟩ : Shape).Idx → BitVec 32 :=
  select (cmpi CmpIPredicate.slt s (broadcastInDim ⟨1, ![50000]⟩ ![] hb (constantI ⟨0, ![]⟩ 32 0#32)))
    (addi s (broadcastInDim ⟨1, ![50000]⟩ ![] hb (constantI ⟨0, ![]⟩ 32 100000#32))) s

/-- The rows of a 100000×32 array at the batch nodes. -/
def batchRows2 (gd : GatherDims ⟨2, ![100000, 32]⟩ ⟨2, ![50000, 1]⟩ ⟨2, ![50000, 32]⟩)
    (hb : (⟨0, ![]⟩ : Shape).BroadcastsInDim ⟨1, ![50000]⟩ (![] : Fin 0 → Fin 1))
    (hbC : (⟨1, ![50000]⟩ : Shape).BroadcastsInDim ⟨2, ![50000, 1]⟩ (![0] : Fin 1 → Fin 2))
    (h : (⟨2, ![100000, 32]⟩ : Shape).Idx → EReal) (batch : (⟨1, ![50000]⟩ : Shape).Idx → BitVec 32) :
    (⟨2, ![50000, 32]⟩ : Shape).Idx → EReal :=
  Host.gather gd h (broadcastInDim ⟨2, ![50000, 1]⟩ ![0] hbC (wrapBatch2 hb batch))

/-- Each row's maximum (taken against −∞), repeated along the row. -/
def rowMaxOf2 (hr : (⟨2, ![50000, 32]⟩ : Shape).ReducesTo ([1] : List (Fin 2)) ⟨1, ![50000]⟩) (h0 : 0 < (⟨0, ![]⟩ : Shape).numel)
    (hbF : (⟨0, ![]⟩ : Shape).BroadcastsInDim ⟨1, ![50000]⟩ (![] : Fin 0 → Fin 1))
    (hbC : (⟨1, ![50000]⟩ : Shape).BroadcastsInDim ⟨2, ![50000, 1]⟩ (![0] : Fin 1 → Fin 2))
    (hbW : (⟨2, ![50000, 1]⟩ : Shape).BroadcastsInDim ⟨2, ![50000, 32]⟩ (![0, 1] : Fin 2 → Fin 2))
    (x : (⟨2, ![50000, 32]⟩ : Shape).Idx → EReal) : (⟨2, ![50000, 32]⟩ : Shape).Idx → EReal :=
  broadcastInDim ⟨2, ![50000, 32]⟩ ![0, 1] hbW
    (broadcastInDim ⟨2, ![50000, 1]⟩ ![0] hbC
      (maximumf (F := Ideal) (φ := .f32)
        (broadcastInDim ⟨1, ![50000]⟩ ![] hbF (constant (F := Ideal) ⟨0, ![]⟩ .f32 0xFF800000#32))
        (Host.reduce (FloatOps.maximumf (F := Ideal) (φ := .f32)) x (constant (F := Ideal) ⟨0, ![]⟩ .f32 0xFF800000#32) hr h0)))

/-- log_softmax along each row: (x − M) − log Σ exp(x − M), M the row's maximum. -/
def logSoftmaxRows2 (hr : (⟨2, ![50000, 32]⟩ : Shape).ReducesTo ([1] : List (Fin 2)) ⟨1, ![50000]⟩) (h0 : 0 < (⟨0, ![]⟩ : Shape).numel)
    (hbF : (⟨0, ![]⟩ : Shape).BroadcastsInDim ⟨1, ![50000]⟩ (![] : Fin 0 → Fin 1))
    (hbC : (⟨1, ![50000]⟩ : Shape).BroadcastsInDim ⟨2, ![50000, 1]⟩ (![0] : Fin 1 → Fin 2))
    (hbW : (⟨2, ![50000, 1]⟩ : Shape).BroadcastsInDim ⟨2, ![50000, 32]⟩ (![0, 1] : Fin 2 → Fin 2))
    (x : (⟨2, ![50000, 32]⟩ : Shape).Idx → EReal) : (⟨2, ![50000, 32]⟩ : Shape).Idx → EReal :=
  subf (F := Ideal) (φ := .f32)
    (subf (F := Ideal) (φ := .f32) x (rowMaxOf2 hr h0 hbF hbC hbW x))
    (broadcastInDim ⟨2, ![50000, 32]⟩ ![0, 1] hbW
      (Host.log (F := Ideal) (φ := .f32)
        (broadcastInDim ⟨2, ![50000, 1]⟩ ![0] hbC
          (Host.reduceAdd (F := Ideal) (φ := .f32)
            (Host.exp (F := Ideal) (φ := .f32) (subf (F := Ideal) (φ := .f32) x (rowMaxOf2 hr h0 hbF hbC hbW x)))
            (constant (F := Ideal) ⟨0, ![]⟩ .f32 0x00000000#32) hr h0))))

/-- Contents moved to a buffer's own type and back are unchanged (the outlined function's buffers are read this way). -/
theorem ofBuf_toBuf_id2 {sig : RefSig} {T : BufTy} (x : StableHlo.TRef sig T) (v : T.Contents (Elt Ideal)) :
    x.ofBuf (x.toBuf v) = v := by
  simp only [StableHlo.TRef.ofBuf, StableHlo.TRef.toBuf, cast_cast, cast_eq]
end Cert.Proof.Value

namespace Cert.KernelIdeal.Body
open Cert.KernelIdeal Cert.KernelIdeal.Gen Idealize.ShloMosaic Idealize.ShloMosaic.TcCoe Idealize.SL.Sem Idealize.ShloMosaic.StableHlo
variable (m : (ℓ : Loc nD τ sig) → Buf (Elt Ideal) ℓ)

/-- After region 17 the second layer's output array holds what the region left there. -/
theorem W40_h2e (c : Dev nD) : W40 (F := Ideal) m c (main_v309 : DevRef τ sig) = O17_0 m c := by
  unfold W40
  exact Function.update_self ..

/-- The batch argument reaches the stretch after region 17 as launched. -/
theorem W40_main_arg2 (c : Dev nD) : W40 (F := Ideal) m c main_arg2 = m ((c.tc : Thread nD τ).loc main_arg2) :=
  (congrFun (hV40 m c) _).symm.trans <|
    (GenP.V40_of m (outs m) c main_arg2 (by decide)).trans <|
      (GenP.V39_of m (outs m) c main_arg2 (by decide)).trans <|
      (GenP.V38_of m (outs m) c main_arg2 (by decide)).trans <|
      (GenP.V37_of m (outs m) c main_arg2 (by decide)).trans <|
      (GenP.V36_of m (outs m) c main_arg2 (by decide)).trans <|
      (GenP.V35_of m (outs m) c main_arg2 (by decide)).trans <|
      (GenP.V34_of m (outs m) c main_arg2 (by decide)).trans <|
      (GenP.V33_of m (outs m) c main_arg2 (by decide)).trans <|
      (GenP.V32_of m (outs m) c main_arg2 (by decide)).trans <|
      (GenP.V31_of m (outs m) c main_arg2 (by decide)).trans <|
      (GenP.V30_of m (outs m) c main_arg2 (by decide)).trans <|
      (GenP.V29_of m (outs m) c main_arg2 (by decide)).trans <|
      (GenP.V28_of m (outs m) c main_arg2 (by decide)).trans <|
      (GenP.V27_of m (outs m) c main_arg2 (by decide)).trans <|
      (GenP.V26_of m (outs m) c main_arg2 (by decide)).trans <|
      (GenP.V25_of m (outs m) c main_arg2 (by decide)).trans <|
      (GenP.V24_of m (outs m) c main_arg2 (by decide)).trans <|
      (GenP.V23_of m (outs m) c main_arg2 (by decide)).trans <|
      (GenP.V22_of m (outs m) c main_arg2 (by decide)).trans <|
      (GenP.V21_of m (outs m) c main_arg2 (by decide)).trans <|
      (GenP.V20_of m (outs m) c main_arg2 (by decide)).trans <|
      (GenP.V19_of m (outs m) c main_arg2 (by decide)).trans <|
      (GenP.V18_of m (outs m) c main_arg2 (by decide)).trans <|
      (GenP.V17_of m (outs m) c main_arg2 (by decide)).trans <|
      (GenP.V16_of m (outs m) c main_arg2 (by decide)).trans <|
      (GenP.V15_of m (outs m) c main_arg2 (by decide)).trans <|
      (GenP.V14_of m (outs m) c main_arg2 (by decide)).trans <|
      (GenP.V13_of m (outs m) c main_arg2 (by decide)).trans <|
      (GenP.V12_of m (outs m) c main_arg2 (by decide)).trans <|
      (GenP.V11_of m (outs m) c main_arg2 (by decide)).trans <|
      (GenP.V10_of m (outs m) c main_arg2 (by decide)).trans <|
      (GenP.V9_of m (outs m) c main_arg2 (by decide)).trans <|
      (GenP.V8_of m (outs m) c main_arg2 (by decide)).trans <|
      (GenP.V7_of m (outs m) c main_arg2 (by decide)).trans <|
      (GenP.V6_of m (outs m) c main_arg2 (by decide)).trans <|
      (GenP.V5_of m (outs m) c main_arg2 (by decide)).trans <|
      (GenP.V4_of m (outs m) c main_arg2 (by decide)).trans <|
      (GenP.V3_of m (outs m) c main_arg2 (by decide)).trans <|
      (GenP.V2_of m (outs m) c main_arg2 (by decide)).trans <| (GenP.V1_of m c main_arg2 (by decide)).trans rfl

set_option maxHeartbeats 4000000 in
/-- The stretch after region 17 leaves the rows at the batch nodes, from any contents before it. -/
theorem host_rows2 (V : Valuation τ sig (Elt Ideal)) :
    (after (hostOps18 (F := Ideal)) V (main_v316 : DevRef τ sig) : S50000x32.Idx → EReal)
      = Cert.Proof.Value.batchRows2 gather_S100000x32_S50000x1_S50000x32_1_0_n_n_0_1_132 bcast_S_S50000 bcast_S50000_S50000x1_0
          (V (main_v309 : DevRef τ sig)) (V (main_arg2 : DevRef τ sig)) := by
  dsimp only [hostOps18]
  after_results
  rfl

set_option maxHeartbeats 4000000 in
/-- The next stretch is log_softmax of those rows, from any contents before it. -/
theorem host_lsm2 (V : Valuation τ sig (Elt Ideal)) :
    (after (hostOps18_1 (F := Ideal)) V (main_v317 : DevRef τ sig) : S50000x32.Idx → EReal)
      = Cert.Proof.Value.logSoftmaxRows2 reducesTo_S50000x32_S50000_d1 h_S_ bcast_S_S50000 bcast_S50000_S50000x1_0 bcast_S50000x1_S50000x32_0_1
          (V (main_v316 : DevRef τ sig)) := by
  dsimp only [hostOps18_1]
  after_results
  simp only [Cert.Proof.Value.ofBuf_toBuf_id2]
  rfl

/-- The kernel program's result of relation 2: log_softmax of the rows of what region 17 leaves at the batch nodes. -/
theorem ker_emb2 (c : Dev nD) :
    (W42 (F := Ideal) m c main_v317 : S50000x32.Idx → EReal)
      = Cert.Proof.Value.logSoftmaxRows2 reducesTo_S50000x32_S50000_d1 h_S_ bcast_S_S50000 bcast_S50000_S50000x1_0 bcast_S50000x1_S50000x32_0_1
          (Cert.Proof.Value.batchRows2 gather_S100000x32_S50000x1_S50000x32_1_0_n_n_0_1_132 bcast_S_S50000 bcast_S50000_S50000x1_0
            (O17_0 m c) (m ((c.tc : Thread nD τ).loc main_arg2))) := by
  refine (host_lsm2 (W41 m c)).trans ?_
  rw [show (W41 (F := Ideal) m c main_v316 : S50000x32.Idx → EReal) = _ from host_rows2 (W40 m c), W40_h2e, W40_main_arg2]
end Cert.KernelIdeal.Body

namespace Cert.ReferenceIdeal.RefRun
open Cert.ReferenceIdeal Cert.ReferenceIdeal.Gen Idealize.ShloMosaic Idealize.ShloMosaic.TcCoe Idealize.SL.Sem Idealize.ShloMosaic.StableHlo

/-- The window's first 55 operations do not write the batch argument. -/
theorem ops9_take55_keeps (V : Valuation τ sig (Elt Ideal)) (r : Ref sig .tc) (hr : r ∉ (ops9_W : List (Ref sig .tc))) :
    after ((ops9 (F := Ideal)).take 55) V (Proc.devRef .tc r) = V (Proc.devRef .tc r) :=
  after_of_writes_sub (W := ops9_W) _ V
    (List.forall_iff_forall_mem.mpr fun op hop => List.forall_iff_forall_mem.mp ops9_writes op (List.mem_of_mem_take hop)) hr

set_option maxHeartbeats 4000000 in
/-- The reference's result of relation 2: log_softmax of the rows, at the batch nodes, of the array its second layer left in
    the same window, from any contents before the window. The window is cut at the stage's first operation. -/
theorem ref_emb2 (V : Valuation τ sig (Elt Ideal)) :
    (after (ops9 (F := Ideal)) V (main_v485 : DevRef τ sig) : S50000x32.Idx → EReal)
      = Cert.Proof.Value.logSoftmaxRows2 reducesTo_S50000x32_S50000_d1 h_S_ bcast_S_S50000 bcast_S50000_S50000x1_0 bcast_S50000x1_S50000x32_0_1
          (Cert.Proof.Value.batchRows2 gather_S100000x32_S50000x1_S50000x32_1_0_n_n_0_1_132 bcast_S_S50000 bcast_S50000_S50000x1_0
            (after (ops9 (F := Ideal)) V (main_v477 : DevRef τ sig)) (V (main_arg2 : DevRef τ sig))) := by
  rw [← ops9_take55_keeps V main_arg2 (by decide), ← List.take_append_drop 55 (ops9 (F := Ideal)), after_append]
  simp only [List.take_append_drop]
  generalize after ((ops9 (F := Ideal)).take 55) V = X
  dsimp only [ops9]
  simp only [List.drop_succ_cons, List.drop_zero]
  after_results
  simp only [Cert.Proof.Value.ofBuf_toBuf_id2]
  rfl
end Cert.ReferenceIdeal.RefRun

namespace Cert.Proof.Value
open Idealize.ShloMosaic Idealize.ShloMosaic.TcCoe Idealize.SL.Sem Idealize.ShloMosaic.StableHlo

/-- Relation 2, the last stage: the two programs' result arrays are equal when their second layers' outputs are and the
    contents before the reference's window agree with the kernel program's launch memory on the batch argument. -/
theorem stageEmb2
    (m : (ℓ : Loc Cert.KernelIdeal.nD Cert.KernelIdeal.τ Cert.KernelIdeal.sig) → Buf (Elt Ideal) ℓ)
    (V : Valuation Cert.ReferenceIdeal.τ Cert.ReferenceIdeal.sig (Elt Ideal))
    (c : Dev Cert.KernelIdeal.nD)
    (h2 : V (Proc.devRef .tc Cert.ReferenceIdeal.main_arg2) = m ((c.tc : Thread Cert.KernelIdeal.nD Cert.KernelIdeal.τ).loc Cert.KernelIdeal.main_arg2))
    (hh : (after (Cert.ReferenceIdeal.RefRun.ops9 (F := Ideal)) V (Cert.ReferenceIdeal.main_v477 : DevRef Cert.ReferenceIdeal.τ Cert.ReferenceIdeal.sig) : (⟨2, ![100000, 32]⟩ : Shape).Idx → EReal)
      = (Cert.KernelIdeal.Body.O17_0 (F := Ideal) m c : (⟨2, ![100000, 32]⟩ : Shape).Idx → EReal)) :
    (after (Cert.ReferenceIdeal.RefRun.ops9 (F := Ideal)) V (Cert.ReferenceIdeal.main_v485 : DevRef Cert.ReferenceIdeal.τ Cert.ReferenceIdeal.sig) : (⟨2, ![50000, 32]⟩ : Shape).Idx → EReal)
      = (Cert.KernelIdeal.Body.W42 (F := Ideal) m c (Cert.KernelIdeal.main_v317 : DevRef Cert.KernelIdeal.τ Cert.KernelIdeal.sig) : (⟨2, ![50000, 32]⟩ : Shape).Idx → EReal) := by
  rw [Cert.ReferenceIdeal.RefRun.ref_emb2, Cert.KernelIdeal.Body.ker_emb2, hh, h2]
  rfl
end Cert.Proof.Value

end
-- ==== Proof.KIRel2.lean ====
/-
  Relation 2, from the launch to its result: the chain of its stages' joins.

  The reference's buffer contents before its windows 6, 7, 8 and 9 are the folds of the windows before them over its launch
  contents; no window writes an argument array, so at each of them every argument is as launched. Relation 2's stages
  are, in order: the first dense layer (window 6), the aggregation and the mix (windows 6 and 7), the first normalise stage
  (windows 7 and 8), the second dense layer, aggregation and mix (windows 8 and 9), the second normalise stage and the
  last stage (window 9). Each join takes the equality the join before it concludes; the two normalise joins and the second mix
  join are taken as hypotheses here. The conclusion is the equality of the two programs' results of relation 2.
-/
import proofs.«140713_j1864015806535_2_alg».proof.Proof.KIStageDense12
import proofs.«140713_j1864015806535_2_alg».proof.Proof.KIStageDense15
import proofs.«140713_j1864015806535_2_alg».proof.Proof.KIStageAgg12
import proofs.«140713_j1864015806535_2_alg».proof.Proof.KIStageAgg15
import proofs.«140713_j1864015806535_2_alg».proof.Proof.KIStageMix13Glue
import proofs.«140713_j1864015806535_2_alg».proof.Proof.KIStageEmb2
import proofs.«140713_j1864015806535_2_alg».proof.Defs
import proofs.«140713_j1864015806535_2_alg».proof.Proof.Gen.Pre_finite_inputs
import Idealize.ShloMosaic.Lib.StableHlo.Run
import Idealize.ShloMosaic.PureOps.Ideal.Laws

set_option maxRecDepth 65536

noncomputable section

namespace Cert.ReferenceIdeal.RefRun
open Cert.ReferenceIdeal Cert.ReferenceIdeal.Gen Idealize.ShloMosaic Idealize.ShloMosaic.TcCoe Idealize.SL.Sem Idealize.ShloMosaic.StableHlo

/-- The reference's buffer contents before window 6, from contents L at the launch. -/
abbrev rel2Pre6 (L : Valuation τ sig (Elt Ideal)) : Valuation τ sig (Elt Ideal) :=
  after (ops5 (F := Ideal)) (after (ops4 (F := Ideal)) (after (ops3 (F := Ideal)) (after (ops2 (F := Ideal))
    (after (ops1 (F := Ideal)) (after (ops0 (F := Ideal)) L)))))
/-- Before window 7. -/
abbrev rel2Pre7 (L : Valuation τ sig (Elt Ideal)) : Valuation τ sig (Elt Ideal) := after (ops6 (F := Ideal)) (rel2Pre6 L)
/-- Before window 8. -/
abbrev rel2Pre8 (L : Valuation τ sig (Elt Ideal)) : Valuation τ sig (Elt Ideal) := after (ops7 (F := Ideal)) (rel2Pre7 L)
/-- Before window 9. -/
abbrev rel2Pre9 (L : Valuation τ sig (Elt Ideal)) : Valuation τ sig (Elt Ideal) := after (ops8 (F := Ideal)) (rel2Pre8 L)

/-- A reference none of the first six windows writes is, before window 6, as at the launch. -/
theorem rel2Pre6_keep (L : Valuation τ sig (Elt Ideal)) (r : Ref sig .tc)
    (h0 : r ∉ (ops0_W : List (Ref sig .tc))) (h1 : r ∉ (ops1_W : List (Ref sig .tc))) (h2 : r ∉ (ops2_W : List (Ref sig .tc)))
    (h3 : r ∉ (ops3_W : List (Ref sig .tc))) (h4 : r ∉ (ops4_W : List (Ref sig .tc))) (h5 : r ∉ (ops5_W : List (Ref sig .tc))) :
    rel2Pre6 L (Proc.devRef .tc r) = L (Proc.devRef .tc r) := by
  dsimp only [rel2Pre6]
  rw [after_of_writes_sub ops5 _ ops5_writes h5, after_of_writes_sub ops4 _ ops4_writes h4, after_of_writes_sub ops3 _ ops3_writes h3,
    after_of_writes_sub ops2 _ ops2_writes h2, after_of_writes_sub ops1 _ ops1_writes h1, after_of_writes_sub ops0 _ ops0_writes h0]

/-- The same before window 7, -/
theorem rel2Pre7_keep (L : Valuation τ sig (Elt Ideal)) (r : Ref sig .tc)
    (h0 : r ∉ (ops0_W : List (Ref sig .tc))) (h1 : r ∉ (ops1_W : List (Ref sig .tc))) (h2 : r ∉ (ops2_W : List (Ref sig .tc)))
    (h3 : r ∉ (ops3_W : List (Ref sig .tc))) (h4 : r ∉ (ops4_W : List (Ref sig .tc))) (h5 : r ∉ (ops5_W : List (Ref sig .tc)))
    (h6 : r ∉ (ops6_W : List (Ref sig .tc))) :
    rel2Pre7 L (Proc.devRef .tc r) = L (Proc.devRef .tc r) :=
  (after_of_writes_sub ops6 _ ops6_writes h6).trans (rel2Pre6_keep L r h0 h1 h2 h3 h4 h5)

/-- before window 8, -/
theorem rel2Pre8_keep (L : Valuation τ sig (Elt Ideal)) (r : Ref sig .tc)
    (h0 : r ∉ (ops0_W : List (Ref sig .tc))) (h1 : r ∉ (ops1_W : List (Ref sig .tc))) (h2 : r ∉ (ops2_W : List (Ref sig .tc)))
    (h3 : r ∉ (ops3_W : List (Ref sig .tc))) (h4 : r ∉ (ops4_W : List (Ref sig .tc))) (h5 : r ∉ (ops5_W : List (Ref sig .tc)))
    (h6 : r ∉ (ops6_W : List (Ref sig .tc))) (h7 : r ∉ (ops7_W : List (Ref sig .tc))) :
    rel2Pre8 L (Proc.devRef .tc r) = L (Proc.devRef .tc r) :=
  (after_of_writes_sub ops7 _ ops7_writes h7).trans (rel2Pre7_keep L r h0 h1 h2 h3 h4 h5 h6)

/-- and before window 9. -/
theorem rel2Pre9_keep (L : Valuation τ sig (Elt Ideal)) (r : Ref sig .tc)
    (h0 : r ∉ (ops0_W : List (Ref sig .tc))) (h1 : r ∉ (ops1_W : List (Ref sig .tc))) (h2 : r ∉ (ops2_W : List (Ref sig .tc)))
    (h3 : r ∉ (ops3_W : List (Ref sig .tc))) (h4 : r ∉ (ops4_W : List (Ref sig .tc))) (h5 : r ∉ (ops5_W : List (Ref sig .tc)))
    (h6 : r ∉ (ops6_W : List (Ref sig .tc))) (h7 : r ∉ (ops7_W : List (Ref sig .tc))) (h8 : r ∉ (ops8_W : List (Ref sig .tc))) :
    rel2Pre9 L (Proc.devRef .tc r) = L (Proc.devRef .tc r) :=
  (after_of_writes_sub ops8 _ ops8_writes h8).trans (rel2Pre8_keep L r h0 h1 h2 h3 h4 h5 h6 h7)
end Cert.ReferenceIdeal.RefRun

namespace Cert.KernelIdeal.Body
open Cert.KernelIdeal Cert.KernelIdeal.Gen Idealize.ShloMosaic Idealize.ShloMosaic.TcCoe Idealize.SL.Sem Idealize.ShloMosaic.StableHlo
variable (m : (ℓ : Loc nD τ sig) → Buf (Elt Ideal) ℓ)

/-- Region 15 finds, as its input, what the normalise region before it left: the stretch between them leaves that array. -/
theorem W35_in15 (c : Dev nD) : W35 (F := Ideal) m c (main_v273 : DevRef τ sig) = O14_0 m c := by
  refine (StableHlo.after_of_writes_sub hostOps15 _ GenP.hostOps15_writes (by decide)).trans ?_
  unfold W34
  exact Function.update_self ..
end Cert.KernelIdeal.Body

namespace Cert.Proof.Value
open Idealize.ShloMosaic Idealize.ShloMosaic.TcCoe Idealize.ShloMosaic.ValueIdx Idealize.SL.Sem Idealize.ShloMosaic.StableHlo

/-- RELATION 2: the reference's result of relation 2, after its nine first windows and the last one from the launch, is
    the kernel program's, when the two launch memories agree on the arguments — given the two normalise stages' joins
    (hbn13: windows 7 and 8, from the mix array to the normalised array the second dense layer reads; hbn16: window 9,
    from the second mix array to the normalised array the last stage reads) and the second mix stage's join (hmix16:
    windows 8 and 9, from the second dense layer's output and its aggregation to the second mix array). -/
theorem emb_rel2
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hpre : Cert.Pre_KernelIdeal m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (hbn13 : ∀ V : Valuation Cert.ReferenceIdeal.τ Cert.ReferenceIdeal.sig (Elt Ideal),
      (after (Cert.ReferenceIdeal.RefRun.ops7 (F := Ideal)) V (Cert.ReferenceIdeal.main_v378 : DevRef Cert.ReferenceIdeal.τ Cert.ReferenceIdeal.sig) : (⟨2, ![100000, 64]⟩ : Shape).Idx → EReal)
        = (Cert.KernelIdeal.Body.O13_0 (F := Ideal) m c : (⟨2, ![100000, 64]⟩ : Shape).Idx → EReal) →
      V (Proc.devRef .tc Cert.ReferenceIdeal.main_arg9) = m ((c.tc : Thread Cert.KernelIdeal.nD Cert.KernelIdeal.τ).loc Cert.KernelIdeal.main_arg9) →
      V (Proc.devRef .tc Cert.ReferenceIdeal.main_arg10) = m ((c.tc : Thread Cert.KernelIdeal.nD Cert.KernelIdeal.τ).loc Cert.KernelIdeal.main_arg10) →
      (after (Cert.ReferenceIdeal.RefRun.ops8 (F := Ideal)) (after (Cert.ReferenceIdeal.RefRun.ops7 (F := Ideal)) V) (Cert.ReferenceIdeal.main_v402 : DevRef Cert.ReferenceIdeal.τ Cert.ReferenceIdeal.sig) : (⟨2, ![100000, 64]⟩ : Shape).Idx → EReal)
        = (Cert.KernelIdeal.Body.O14_0 (F := Ideal) m c : (⟨2, ![100000, 64]⟩ : Shape).Idx → EReal))
    (hmix16 : ∀ V : Valuation Cert.ReferenceIdeal.τ Cert.ReferenceIdeal.sig (Elt Ideal),
      V (Proc.devRef .tc Cert.ReferenceIdeal.main_arg8) = m ((c.tc : Thread Cert.KernelIdeal.nD Cert.KernelIdeal.τ).loc Cert.KernelIdeal.main_arg8) →
      (after (Cert.ReferenceIdeal.RefRun.ops8 (F := Ideal)) V (Cert.ReferenceIdeal.main_v412 : DevRef Cert.ReferenceIdeal.τ Cert.ReferenceIdeal.sig) : (⟨2, ![100000, 32]⟩ : Shape).Idx → EReal)
        = (Cert.KernelIdeal.Body.O15_0 (F := Ideal) m c : (⟨2, ![100000, 32]⟩ : Shape).Idx → EReal) →
      (after (Cert.ReferenceIdeal.RefRun.ops8 (F := Ideal)) V (Cert.ReferenceIdeal.main_v447 : DevRef Cert.ReferenceIdeal.τ Cert.ReferenceIdeal.sig) : (⟨2, ![100000, 32]⟩ : Shape).Idx → EReal)
        = (Cert.KernelIdeal.Body.W37 (F := Ideal) m c (Cert.KernelIdeal.main_v292 : DevRef Cert.KernelIdeal.τ Cert.KernelIdeal.sig) : (⟨2, ![100000, 32]⟩ : Shape).Idx → EReal) →
      (after (Cert.ReferenceIdeal.RefRun.ops9 (F := Ideal)) (after (Cert.ReferenceIdeal.RefRun.ops8 (F := Ideal)) V) (Cert.ReferenceIdeal.main_v453 : DevRef Cert.ReferenceIdeal.τ Cert.ReferenceIdeal.sig) : (⟨2, ![100000, 32]⟩ : Shape).Idx → EReal)
        = (Cert.KernelIdeal.Body.O16_0 (F := Ideal) m c : (⟨2, ![100000, 32]⟩ : Shape).Idx → EReal))
    (hbn16 : ∀ V : Valuation Cert.ReferenceIdeal.τ Cert.ReferenceIdeal.sig (Elt Ideal),
      (after (Cert.ReferenceIdeal.RefRun.ops9 (F := Ideal)) V (Cert.ReferenceIdeal.main_v453 : DevRef Cert.ReferenceIdeal.τ Cert.ReferenceIdeal.sig) : (⟨2, ![100000, 32]⟩ : Shape).Idx → EReal)
        = (Cert.KernelIdeal.Body.O16_0 (F := Ideal) m c : (⟨2, ![100000, 32]⟩ : Shape).Idx → EReal) →
      V (Proc.devRef .tc Cert.ReferenceIdeal.main_arg11) = m ((c.tc : Thread Cert.KernelIdeal.nD Cert.KernelIdeal.τ).loc Cert.KernelIdeal.main_arg11) →
      V (Proc.devRef .tc Cert.ReferenceIdeal.main_arg12) = m ((c.tc : Thread Cert.KernelIdeal.nD Cert.KernelIdeal.τ).loc Cert.KernelIdeal.main_arg12) →
      (after (Cert.ReferenceIdeal.RefRun.ops9 (F := Ideal)) V (Cert.ReferenceIdeal.main_v477 : DevRef Cert.ReferenceIdeal.τ Cert.ReferenceIdeal.sig) : (⟨2, ![100000, 32]⟩ : Shape).Idx → EReal)
        = (Cert.KernelIdeal.Body.O17_0 (F := Ideal) m c : (⟨2, ![100000, 32]⟩ : Shape).Idx → EReal)) :
    (after (Cert.ReferenceIdeal.RefRun.ops9 (F := Ideal))
        (after (Cert.ReferenceIdeal.RefRun.ops8 (F := Ideal)) (after (Cert.ReferenceIdeal.RefRun.ops7 (F := Ideal)) (after (Cert.ReferenceIdeal.RefRun.ops6 (F := Ideal))
          (after (Cert.ReferenceIdeal.RefRun.ops5 (F := Ideal)) (after (Cert.ReferenceIdeal.RefRun.ops4 (F := Ideal)) (after (Cert.ReferenceIdeal.RefRun.ops3 (F := Ideal))
            (after (Cert.ReferenceIdeal.RefRun.ops2 (F := Ideal)) (after (Cert.ReferenceIdeal.RefRun.ops1 (F := Ideal)) (after (Cert.ReferenceIdeal.RefRun.ops0 (F := Ideal))
              (launchContents m' c))))))))))
        (Cert.ReferenceIdeal.main_v485 : DevRef Cert.ReferenceIdeal.τ Cert.ReferenceIdeal.sig) : (⟨2, ![50000, 32]⟩ : Shape).Idx → EReal)
      = (Cert.KernelIdeal.Body.W42 (F := Ideal) m c (Cert.KernelIdeal.main_v317 : DevRef Cert.KernelIdeal.τ Cert.KernelIdeal.sig) : (⟨2, ![50000, 32]⟩ : Shape).Idx → EReal) := by
  -- every argument is as launched before each window
  have a0_6 : Cert.ReferenceIdeal.RefRun.rel2Pre6 (launchContents m' c) (Proc.devRef .tc Cert.ReferenceIdeal.main_arg0)
      = m ((c.tc : Thread Cert.KernelIdeal.nD Cert.KernelIdeal.τ).loc Cert.KernelIdeal.main_arg0) :=
    (Cert.ReferenceIdeal.RefRun.rel2Pre6_keep (launchContents m' c) Cert.ReferenceIdeal.main_arg0 (by decide) (by decide) (by decide) (by decide) (by decide) (by decide)).trans h0
  have a1_6 : Cert.ReferenceIdeal.RefRun.rel2Pre6 (launchContents m' c) (Proc.devRef .tc Cert.ReferenceIdeal.main_arg1)
      = m ((c.tc : Thread Cert.KernelIdeal.nD Cert.KernelIdeal.τ).loc Cert.KernelIdeal.main_arg1) :=
    (Cert.ReferenceIdeal.RefRun.rel2Pre6_keep (launchContents m' c) Cert.ReferenceIdeal.main_arg1 (by decide) (by decide) (by decide) (by decide) (by decide) (by decide)).trans h1
  have a3_6 : Cert.ReferenceIdeal.RefRun.rel2Pre6 (launchContents m' c) (Proc.devRef .tc Cert.ReferenceIdeal.main_arg3)
      = m ((c.tc : Thread Cert.KernelIdeal.nD Cert.KernelIdeal.τ).loc Cert.KernelIdeal.main_arg3) :=
    (Cert.ReferenceIdeal.RefRun.rel2Pre6_keep (launchContents m' c) Cert.ReferenceIdeal.main_arg3 (by decide) (by decide) (by decide) (by decide) (by decide) (by decide)).trans h3
  have a4_6 : Cert.ReferenceIdeal.RefRun.rel2Pre6 (launchContents m' c) (Proc.devRef .tc Cert.ReferenceIdeal.main_arg4)
      = m ((c.tc : Thread Cert.KernelIdeal.nD Cert.KernelIdeal.τ).loc Cert.KernelIdeal.main_arg4) :=
    (Cert.ReferenceIdeal.RefRun.rel2Pre6_keep (launchContents m' c) Cert.ReferenceIdeal.main_arg4 (by decide) (by decide) (by decide) (by decide) (by decide) (by decide)).trans h4
  have a7_6 : Cert.ReferenceIdeal.RefRun.rel2Pre6 (launchContents m' c) (Proc.devRef .tc Cert.ReferenceIdeal.main_arg7)
      = m ((c.tc : Thread Cert.KernelIdeal.nD Cert.KernelIdeal.τ).loc Cert.KernelIdeal.main_arg7) :=
    (Cert.ReferenceIdeal.RefRun.rel2Pre6_keep (launchContents m' c) Cert.ReferenceIdeal.main_arg7 (by decide) (by decide) (by decide) (by decide) (by decide) (by decide)).trans h7
  have a9_7 : Cert.ReferenceIdeal.RefRun.rel2Pre7 (launchContents m' c) (Proc.devRef .tc Cert.ReferenceIdeal.main_arg9)
      = m ((c.tc : Thread Cert.KernelIdeal.nD Cert.KernelIdeal.τ).loc Cert.KernelIdeal.main_arg9) :=
    (Cert.ReferenceIdeal.RefRun.rel2Pre7_keep (launchContents m' c) Cert.ReferenceIdeal.main_arg9 (by decide) (by decide) (by decide) (by decide) (by decide) (by decide) (by decide)).trans h9
  have a10_7 : Cert.ReferenceIdeal.RefRun.rel2Pre7 (launchContents m' c) (Proc.devRef .tc Cert.ReferenceIdeal.main_arg10)
      = m ((c.tc : Thread Cert.KernelIdeal.nD Cert.KernelIdeal.τ).loc Cert.KernelIdeal.main_arg10) :=
    (Cert.ReferenceIdeal.RefRun.rel2Pre7_keep (launchContents m' c) Cert.ReferenceIdeal.main_arg10 (by decide) (by decide) (by decide) (by decide) (by decide) (by decide) (by decide)).trans h10
  have a5_8 : Cert.ReferenceIdeal.RefRun.rel2Pre8 (launchContents m' c) (Proc.devRef .tc Cert.ReferenceIdeal.main_arg5)
      = m ((c.tc : Thread Cert.KernelIdeal.nD Cert.KernelIdeal.τ).loc Cert.KernelIdeal.main_arg5) :=
    (Cert.ReferenceIdeal.RefRun.rel2Pre8_keep (launchContents m' c) Cert.ReferenceIdeal.main_arg5 (by decide) (by decide) (by decide) (by decide) (by decide) (by decide) (by decide) (by decide)).trans h5
  have a6_8 : Cert.ReferenceIdeal.RefRun.rel2Pre8 (launchContents m' c) (Proc.devRef .tc Cert.ReferenceIdeal.main_arg6)
      = m ((c.tc : Thread Cert.KernelIdeal.nD Cert.KernelIdeal.τ).loc Cert.KernelIdeal.main_arg6) :=
    (Cert.ReferenceIdeal.RefRun.rel2Pre8_keep (launchContents m' c) Cert.ReferenceIdeal.main_arg6 (by decide) (by decide) (by decide) (by decide) (by decide) (by decide) (by decide) (by decide)).trans h6
  have a8_8 : Cert.ReferenceIdeal.RefRun.rel2Pre8 (launchContents m' c) (Proc.devRef .tc Cert.ReferenceIdeal.main_arg8)
      = m ((c.tc : Thread Cert.KernelIdeal.nD Cert.KernelIdeal.τ).loc Cert.KernelIdeal.main_arg8) :=
    (Cert.ReferenceIdeal.RefRun.rel2Pre8_keep (launchContents m' c) Cert.ReferenceIdeal.main_arg8 (by decide) (by decide) (by decide) (by decide) (by decide) (by decide) (by decide) (by decide)).trans h8
  have a2_9 : Cert.ReferenceIdeal.RefRun.rel2Pre9 (launchContents m' c) (Proc.devRef .tc Cert.ReferenceIdeal.main_arg2)
      = m ((c.tc : Thread Cert.KernelIdeal.nD Cert.KernelIdeal.τ).loc Cert.KernelIdeal.main_arg2) :=
    (Cert.ReferenceIdeal.RefRun.rel2Pre9_keep (launchContents m' c) Cert.ReferenceIdeal.main_arg2 (by decide) (by decide) (by decide) (by decide) (by decide) (by decide) (by decide) (by decide) (by decide)).trans h2
  have a11_9 : Cert.ReferenceIdeal.RefRun.rel2Pre9 (launchContents m' c) (Proc.devRef .tc Cert.ReferenceIdeal.main_arg11)
      = m ((c.tc : Thread Cert.KernelIdeal.nD Cert.KernelIdeal.τ).loc Cert.KernelIdeal.main_arg11) :=
    (Cert.ReferenceIdeal.RefRun.rel2Pre9_keep (launchContents m' c) Cert.ReferenceIdeal.main_arg11 (by decide) (by decide) (by decide) (by decide) (by decide) (by decide) (by decide) (by decide) (by decide)).trans h11
  have a12_9 : Cert.ReferenceIdeal.RefRun.rel2Pre9 (launchContents m' c) (Proc.devRef .tc Cert.ReferenceIdeal.main_arg12)
      = m ((c.tc : Thread Cert.KernelIdeal.nD Cert.KernelIdeal.τ).loc Cert.KernelIdeal.main_arg12) :=
    (Cert.ReferenceIdeal.RefRun.rel2Pre9_keep (launchContents m' c) Cert.ReferenceIdeal.main_arg12 (by decide) (by decide) (by decide) (by decide) (by decide) (by decide) (by decide) (by decide) (by decide)).trans h12
  -- layer 1: the dense layer, the aggregation, the mix, the normalise stage
  have d12 := stageDense12 m (Cert.ReferenceIdeal.RefRun.rel2Pre6 (launchContents m' c)) c a0_6 a3_6 a4_6
  have g12 := stageAgg12 m (Cert.ReferenceIdeal.RefRun.rel2Pre6 (launchContents m' c)) c a1_6 d12
  have x13 := mix13 m (Cert.ReferenceIdeal.RefRun.rel2Pre6 (launchContents m' c)) c a7_6 d12 g12
  have y13 := hbn13 (Cert.ReferenceIdeal.RefRun.rel2Pre7 (launchContents m' c)) x13 a9_7 a10_7
  -- layer 2: the dense layer on what the normalise region left, the aggregation over the relation's edge rows, the mix
  have d15 := stageDense15 m (Cert.ReferenceIdeal.RefRun.rel2Pre8 (launchContents m' c)) c (y13.trans (Cert.KernelIdeal.Body.W35_in15 m c).symm) a5_8 a6_8
  have hsrc : (Cert.ReferenceIdeal.RefRun.rel2Pre8 (launchContents m' c) (Cert.ReferenceIdeal.main_v325 : DevRef Cert.ReferenceIdeal.τ Cert.ReferenceIdeal.sig) : (⟨1, ![1600000]⟩ : Shape).Idx → BitVec 32)
      = edgeRowOf (m ((c.tc : Thread Cert.KernelIdeal.nD Cert.KernelIdeal.τ).loc Cert.KernelIdeal.main_arg1)) ![2, 0, 0]
          Cert.KernelIdeal.Gen.slices_S3x2x1600000_S1x1x1600000_2_0_0 Cert.KernelIdeal.Gen.shapeCasts_S1x1x1600000_S1600000 := by
    have e : Cert.ReferenceIdeal.RefRun.rel2Pre8 (launchContents m' c) (Proc.devRef .tc Cert.ReferenceIdeal.main_v325)
        = after (Cert.ReferenceIdeal.RefRun.ops6 (F := Ideal)) (Cert.ReferenceIdeal.RefRun.rel2Pre6 (launchContents m' c)) (Proc.devRef .tc Cert.ReferenceIdeal.main_v325) :=
      after_of_writes_sub (Cert.ReferenceIdeal.RefRun.ops7 (F := Ideal)) _ Cert.ReferenceIdeal.RefRun.ops7_writes (by decide)
    rw [e, Cert.ReferenceIdeal.RefRun.ref_src12, a1_6]
  have hdst : (Cert.ReferenceIdeal.RefRun.rel2Pre8 (launchContents m' c) (Cert.ReferenceIdeal.main_v327 : DevRef Cert.ReferenceIdeal.τ Cert.ReferenceIdeal.sig) : (⟨1, ![1600000]⟩ : Shape).Idx → BitVec 32)
      = edgeRowOf (m ((c.tc : Thread Cert.KernelIdeal.nD Cert.KernelIdeal.τ).loc Cert.KernelIdeal.main_arg1)) ![2, 1, 0]
          Cert.KernelIdeal.Gen.slices_S3x2x1600000_S1x1x1600000_2_1_0 Cert.KernelIdeal.Gen.shapeCasts_S1x1x1600000_S1600000 := by
    have e : Cert.ReferenceIdeal.RefRun.rel2Pre8 (launchContents m' c) (Proc.devRef .tc Cert.ReferenceIdeal.main_v327)
        = after (Cert.ReferenceIdeal.RefRun.ops6 (F := Ideal)) (Cert.ReferenceIdeal.RefRun.rel2Pre6 (launchContents m' c)) (Proc.devRef .tc Cert.ReferenceIdeal.main_v327) :=
      after_of_writes_sub (Cert.ReferenceIdeal.RefRun.ops7 (F := Ideal)) _ Cert.ReferenceIdeal.RefRun.ops7_writes (by decide)
    rw [e, Cert.ReferenceIdeal.RefRun.ref_dst12, a1_6]
  have g15 := stageAgg15 m (Cert.ReferenceIdeal.RefRun.rel2Pre8 (launchContents m' c)) c hsrc hdst d15
  have x16 := hmix16 (Cert.ReferenceIdeal.RefRun.rel2Pre8 (launchContents m' c)) a8_8 d15 g15
  have y16 := hbn16 (Cert.ReferenceIdeal.RefRun.rel2Pre9 (launchContents m' c)) x16 a11_9 a12_9
  -- the last stage
  exact stageEmb2 m (Cert.ReferenceIdeal.RefRun.rel2Pre9 (launchContents m' c)) c a2_9 y16

end Cert.Proof.Value

end
-- ==== Proof.KIStageBnKer4.lean ====
/-
  Between the mix region and the normalise region of the stage of mix region 4, the kernel program computes on the host the
  mean row (the accumulated column sums divided by 100000), the variance row (the accumulated sums of squares divided
  by 100000, minus the squared mean), and lays the scale and bias vectors out as rows. This module reads those four
  rows, and the mix array, off the valuation the normalise region is entered from.
-/
import proofs.«140713_j1864015806535_2_alg».proof.Proof.KIFrameBase
import Idealize.ShloMosaic.Lib.StableHlo.Run
import Idealize.ShloMosaic.PureOps.Ideal.Laws

set_option maxRecDepth 65536

noncomputable section

namespace Cert.KernelIdeal.Body

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- After the mix region its three outputs hold what it leaves. -/
theorem W10_pre_0 (c : Dev nD) : W10 (F := Ideal) m c main_v88_0 = O4_0 m c := by
  unfold W10
  simp only [Function.update_self,
    Function.update_of_ne (StableHlo.devRef_ne_of_ne (by decide : main_v88_0 ≠ main_v88_2) : (Proc.devRef .tc main_v88_0 : DevRef τ sig) ≠ Proc.devRef .tc main_v88_2),
    Function.update_of_ne (StableHlo.devRef_ne_of_ne (by decide : main_v88_0 ≠ main_v88_1) : (Proc.devRef .tc main_v88_0 : DevRef τ sig) ≠ Proc.devRef .tc main_v88_1)]
theorem W10_pre_1 (c : Dev nD) : W10 (F := Ideal) m c main_v88_1 = O4_1 m c := by
  unfold W10
  simp only [Function.update_self,
    Function.update_of_ne (StableHlo.devRef_ne_of_ne (by decide : main_v88_1 ≠ main_v88_2) : (Proc.devRef .tc main_v88_1 : DevRef τ sig) ≠ Proc.devRef .tc main_v88_2)]
theorem W10_pre_2 (c : Dev nD) : W10 (F := Ideal) m c main_v88_2 = O4_2 m c := by
  unfold W10
  simp only [Function.update_self]

set_option maxHeartbeats 2000000 in
/-- The mean row: the accumulated column sums over 100000. -/
theorem ker_mean4 (c : Dev nD) :
    (W11 (F := Ideal) m c main_v90 : S1x32.Idx → EReal)
      = Host.divf (F := Ideal) (O4_1 m c : S1x32.Idx → EReal) (broadcastInDim S1x32 ![] bcast_S_S1x32 (constant (F := Ideal) S_ .f32 0x47C35000#32)) := by
  dsimp only [W11, hostOps5]
  after_results
  rw [W10_pre_1]

set_option maxHeartbeats 2000000 in
/-- The variance row: the accumulated sums of squares over 100000, minus the squared mean. -/
theorem ker_var4 (c : Dev nD) :
    (W11 (F := Ideal) m c main_v94 : S1x32.Idx → EReal)
      = subf (Host.divf (F := Ideal) (O4_2 m c : S1x32.Idx → EReal) (broadcastInDim S1x32 ![] bcast_S_S1x32 (constant (F := Ideal) S_ .f32 0x47C35000#32)))
          (mulf (W11 (F := Ideal) m c main_v90 : S1x32.Idx → EReal) (W11 (F := Ideal) m c main_v90 : S1x32.Idx → EReal)) := by
  rw [ker_mean4]
  dsimp only [W11, hostOps5]
  after_results
  rw [W10_pre_1, W10_pre_2]

/-- The mix array is untouched by the host stretch. -/
theorem ker_xm4 (c : Dev nD) : W11 (F := Ideal) m c main_v88_0 = O4_0 m c :=
  (StableHlo.after_of_writes_sub hostOps5 _ GenP.hostOps5_writes (by decide)).trans (W10_pre_0 m c)

end Cert.KernelIdeal.Body

end
-- ==== Proof.KIStageBn4.lean ====
/-
  The normalise stage of the stage of mix region 4, on the kernel program's side, in the reference's form.

  The normalise region's output at (p, q) is the normalised entry of the mix array's column q, with the mean and the
  variance the host computed from the sums the mix region accumulated: mean = S/100000, variance = SS/100000 − mean²,
  cut off at 0. The accumulated sums are the column's sum and the sum of its squares (ten tiles of 10000 rows are the
  100000 rows), so for a column of real entries this is the two-pass normalisation: mean (0 + Σ x)/100000, variance
  (0 + Σ (x − mean)²)/100000, no cut-off (Proof/LibNormJoin.lean).
-/
import proofs.«140713_j1864015806535_2_alg».proof.Proof.KIValMix4
import proofs.«140713_j1864015806535_2_alg».proof.Proof.KIValBn5
import proofs.«140713_j1864015806535_2_alg».proof.Proof.KIStageBnKer4
import proofs.«140713_j1864015806535_2_alg».proof.Proof.LibNormJoin
import proofs.«140713_j1864015806535_2_alg».proof.Proof.LibTiles

set_option maxRecDepth 65536

noncomputable section

namespace Cert.KernelIdeal.Body

open Cert.KernelIdeal Cert.KernelIdeal.Gen Idealize.ShloMosaic Idealize.ShloMosaic.TcCoe Idealize.ShloMosaic.ValueIdx Idealize.SL.Sem
open Cert.LibRealEntries Cert.LibNormJoin

variable (m : (ℓ : Loc nD τ sig) → Buf (Elt Ideal) ℓ)

/-- An entry of a two-axis array of extended reals. -/
abbrev at2_4 {a b : ℕ} (x : (⟨2, ![a, b]⟩ : Shape).Idx → EReal) (p : Fin a) (q : Fin b) : EReal := x (ix2 p q)

/-- Column q of the mix array, as a function of the row. -/
abbrev xcol4 (c : Dev nD) (q : Fin 32) : Fin 100000 → EReal := fun p => at2_4 (O4_0 (F := Ideal) m c) p q

/-- Ten tiles of 10000 rows are the 100000 rows. -/
theorem sum_tiles4 (f : Fin 100000 → EReal) :
    ∑ t : Fin 10, ∑ r : Fin 10000, f ⟨t.val * 10000 + r.val, by omega⟩ = ∑ p, f p := by
  rw [Cert.LibTiles.sum_blocks 10 10000 100000 rfl f (fun i a => by omega)]
  exact Finset.sum_congr rfl fun t _ => Finset.sum_congr rfl fun r _ => congrArg f (Fin.ext (by show t.val * 10000 + r.val = 10000 * t.val + r.val; omega))

/-- The first accumulated row is the column sums of the mix array. -/
theorem col_sum4 (c : Dev nD) (q : Fin 32) : at2_4 (O4_1 (F := Ideal) m c) 0 q = ∑ p, xcol4 m c q p := by
  rw [show at2_4 (O4_1 (F := Ideal) m c) 0 q = (O4_1 (F := Ideal) m c : S1x32.Idx → EReal) (ix2 0 q) from rfl, O4_1_eq, ← sum_tiles4 (xcol4 m c q)]
  exact Finset.sum_congr rfl fun t _ => Finset.sum_congr rfl fun r _ => (O4_0_eq m c _ q).symm

/-- The second is the column sums of its squares. -/
theorem col_sumsq4 (c : Dev nD) (q : Fin 32) : at2_4 (O4_2 (F := Ideal) m c) 0 q = ∑ p, xcol4 m c q p * xcol4 m c q p := by
  rw [show at2_4 (O4_2 (F := Ideal) m c) 0 q = (O4_2 (F := Ideal) m c : S1x32.Idx → EReal) (ix2 0 q) from rfl, O4_2_eq, ← sum_tiles4 (fun p => xcol4 m c q p * xcol4 m c q p)]
  exact Finset.sum_congr rfl fun t _ => Finset.sum_congr rfl fun r _ => by rw [← O4_0_eq m c _ q]

/-- The mean row at q. -/
theorem ker_mean4_at (c : Dev nD) (q : Fin 32) :
    at2_4 (W11 (F := Ideal) m c main_v90) 0 q
      = Ideal.div (at2_4 (O4_1 (F := Ideal) m c) 0 q) (Ideal.ofBits .f32 0x47C35000#32) := by
  rw [ker_mean4]; rfl

/-- The variance row at q. -/
theorem ker_var4_at (c : Dev nD) (q : Fin 32) :
    at2_4 (W11 (F := Ideal) m c main_v94) 0 q
      = Ideal.div (at2_4 (O4_2 (F := Ideal) m c) 0 q) (Ideal.ofBits .f32 0x47C35000#32)
        - at2_4 (W11 (F := Ideal) m c main_v90) 0 q * at2_4 (W11 (F := Ideal) m c main_v90) 0 q := by
  rw [ker_var4]; rfl

/-- THE NORMALISE REGION'S OUTPUT in the two-pass form, for a mix array of real entries. -/
theorem ker_y4 (c : Dev nD) (hreal : ∀ p q, IsReal (xcol4 m c q p)) (p : Fin 100000) (q : Fin 32) :
    at2_4 (O5_0 (F := Ideal) m c) p q
      = normEntry (xcol4 m c q p)
          (Ideal.div (0 + ∑ i, xcol4 m c q i) (((100000 : ℕ) : ℝ) : EReal))
          (Ideal.div (0 + ∑ i, (xcol4 m c q i - Ideal.div (0 + ∑ j, xcol4 m c q j) (((100000 : ℕ) : ℝ) : EReal))
              * (xcol4 m c q i - Ideal.div (0 + ∑ j, xcol4 m c q j) (((100000 : ℕ) : ℝ) : EReal))) (((100000 : ℕ) : ℝ) : EReal))
          (Ideal.ofBits .f32 0x3727C5AC#32)
          (at2_4 (W11 (F := Ideal) m c main_v95) 0 q) (at2_4 (W11 (F := Ideal) m c main_v96) 0 q) := by
  rw [← norm_join (n := 100000) (by norm_num) (xcol4 m c q) (fun i => hreal i q) _ _ (col_sum4 m c q) (col_sumsq4 m c q)]
  rw [show at2_4 (O5_0 (F := Ideal) m c) p q = (O5_0 (F := Ideal) m c : S100000x32.Idx → EReal) (ix2 p q) from rfl, O5_0_eq, bnRelu5_apply]
  rw [show (W11 (F := Ideal) m c main_v94 : S1x32.Idx → EReal) (ix2 0 q) = at2_4 (W11 (F := Ideal) m c main_v94) 0 q from rfl,
    show (W11 (F := Ideal) m c main_v90 : S1x32.Idx → EReal) (ix2 0 q) = at2_4 (W11 (F := Ideal) m c main_v90) 0 q from rfl,
    ker_var4_at, ker_mean4_at, ofBits_100000, ker_xm4]
  rfl

end Cert.KernelIdeal.Body

end
-- ==== Proof.KIStageBnRef4.lean ====
/-
  The reference's normalise-and-cut-off of relation 0, layer 2, read at one entry: the mixed array less its column mean,
  times the reciprocal square root of the column variance shifted by a small constant, times the scale, plus the bias,
  cut off below at 0; the column mean is the column's sum over its 100000 entries divided by 100000.
-/
import proofs.«140713_j1864015806535_2_alg».proof.Proof.RefFrame
import proofs.«140713_j1864015806535_2_alg».proof.Proof.LibHostBroadcast
import Idealize.ShloMosaic.Lib.StableHlo.Run
import Idealize.ShloMosaic.Lib.ValueIdx
import Idealize.ShloMosaic.Lib.IdealHost
import Idealize.ShloMosaic.Lib.Pipeline.Value
import Idealize.ShloMosaic.Lib.ValueLayout
import Idealize.ShloMosaic.PureOps.Ideal.Laws

set_option maxRecDepth 65536

noncomputable section

namespace Cert.ReferenceIdeal.RefRun
open Cert.ReferenceIdeal Cert.ReferenceIdeal.Gen Idealize.ShloMosaic Idealize.ShloMosaic.TcCoe Idealize.SL.Sem Idealize.ShloMosaic.StableHlo
open Idealize.ShloMosaic.ValueIdx

/-- A relation's row of a three-row argument, as a vector. -/
def rowVec4 (a : S3x32.Idx → EReal) : S32.Idx → EReal :=
  shapeCast S32 (extractStridedSlice S1x32 ![0, 0] a slices_S3x32_S1x32_0_0) shapeCasts_S1x32_S32

/-- A vector spread over the rows of the array: first as a row, then along the rows. -/
def spread4 (v : S32.Idx → EReal) : S100000x32.Idx → EReal :=
  broadcastInDim S100000x32 ![0, 1] bcast_S1x32_S100000x32_0_1 (broadcastInDim S1x32 ![1] bcast_S32_S1x32_1 v)

/-- The column means: each column's sum from the zero word, divided by the count's word. -/
def refMeanVec4 (X : S100000x32.Idx → EReal) : S32.Idx → EReal :=
  Host.divf (F := Ideal) (Host.reduceAdd (F := Ideal) X (constant (F := Ideal) S_ .f32 0x00000000#32) reducesTo_S100000x32_S32_d0 h_S_)
    (broadcastInDim S32 ![] bcast_S_S32 (constant (F := Ideal) S_ .f32 0x47C35000#32))

/-- The count less the correction, as the outlined variance computes it. -/
def refCount4 : S_.Idx → EReal :=
  subf (F := Ideal) (constant (F := Ideal) S_ .f32 0x47C35000#32) (sitofp (F := Ideal) .f32 (constantI S_ 32 0#32))

/-- The array less its column means, the means computed as a row. -/
def refCentred4 (X : S100000x32.Idx → EReal) : S100000x32.Idx → EReal :=
  subf (F := Ideal) X (broadcastInDim S100000x32 ![0, 1] bcast_S1x32_S100000x32_0_1
    (Host.divf (F := Ideal)
      (broadcastInDim S1x32 ![1] bcast_S32_S1x32_1 (Host.reduceAdd (F := Ideal) X (constant (F := Ideal) S_ .f32 0x00000000#32) reducesTo_S100000x32_S32_d0 h_S_))
      (broadcastInDim S1x32 ![] bcast_S_S1x32 (constant (F := Ideal) S_ .f32 0x47C35000#32))))

/-- The column variances as the outlined function yields them: the sum of squared centred entries over the count, where the count is positive. -/
def refVarVec4 (X : S100000x32.Idx → EReal) : S32.Idx → EReal :=
  select (broadcastInDim S32 ![] bcast_S_S32 (cmpf (F := Ideal) .ogt refCount4 (constant (F := Ideal) S_ .f32 0x00000000#32)))
    (Host.divf (F := Ideal)
      (Host.reduceAdd (F := Ideal) (mulf (F := Ideal) (refCentred4 X) (refCentred4 X)) (constant (F := Ideal) S_ .f32 0x00000000#32) reducesTo_S100000x32_S32_d0 h_S_)
      (broadcastInDim S32 ![] bcast_S_S32 refCount4))
    (broadcastInDim S32 ![] bcast_S_S32 (id (constant (F := Ideal) S_ .f32 0x7FC00000#32)))

/-- The stage as the reference composes it. -/
def refBn4 (X : S100000x32.Idx → EReal) (a9 a10 : S3x32.Idx → EReal) : S100000x32.Idx → EReal :=
  maximumf (F := Ideal)
    (addf (F := Ideal)
      (mulf (F := Ideal)
        (mulf (F := Ideal) (subf (F := Ideal) X (spread4 (refMeanVec4 X)))
          (spread4 (Host.rsqrt (F := Ideal) (addf (F := Ideal) (refVarVec4 X) (broadcastInDim S32 ![] bcast_S_S32 (constant (F := Ideal) S_ .f32 0x3727C5AC#32))))))
        (spread4 (rowVec4 a9)))
      (spread4 (rowVec4 a10)))
    (broadcastInDim S100000x32 ![] bcast_S_S100000x32 (constant (F := Ideal) S_ .f32 0x00000000#32))

open Cert.LibHostBroadcast in
/-- A spread vector at (p, q) is the vector at q. -/
theorem spread4_apply (v : S32.Idx → EReal) (p : Fin 100000) (q : Fin 32) : spread4 v (ix2 p q) = v (ix1 q) :=
  vec_along_cols v bcast_S32_S1x32_1 bcast_S1x32_S100000x32_0_1 p q

/-- A relation-0 row of the argument at q is the argument at (0, q). -/
theorem rowVec4_apply (a : S3x32.Idx → EReal) (q : Fin 32) : rowVec4 a (ix1 q) = a (ix2 (0 : Fin 3) q) := by
  unfold rowVec4
  rw [shapeCast_1a_a_apply]
  exact slice2_axis0_apply 0 a slices_S3x32_S1x32_0_0 (0 : Fin 1) q (0 : Fin 3) rfl

/-- A column's sum from the zero word. -/
def colSum4 (X : S100000x32.Idx → EReal) (q : Fin 32) : EReal :=
  Ideal.ofBits .f32 0x00000000#32 + ∑ p' : Fin 100000, X (ix2 p' q)

/-- A column's mean: its sum divided by the count's word. -/
def colMean4 (X : S100000x32.Idx → EReal) (q : Fin 32) : EReal :=
  Ideal.div (colSum4 X q) (Ideal.ofBits .f32 0x47C35000#32)

/-- The count less the correction, as a scalar: the count's word less the integer zero read as a float. -/
def cnt4 : EReal := Ideal.ofBits .f32 0x47C35000#32 - Scalar.sitofp (F := Ideal) .f32 (0#32 : BitVec 32)

/-- A column's variance as the outlined function yields it: where the count is positive, the column's sum of squared
    centred entries divided by the count; the not-a-number word's value otherwise. -/
def colVar4 (X : S100000x32.Idx → EReal) (q : Fin 32) : EReal :=
  Scalar.select (Scalar.cmpf (F := Ideal) .ogt cnt4 (Ideal.ofBits .f32 0x00000000#32))
    (Ideal.div (Ideal.ofBits .f32 0x00000000#32 + ∑ p' : Fin 100000, (X (ix2 p' q) - colMean4 X q) * (X (ix2 p' q) - colMean4 X q)) cnt4)
    (Ideal.ofBits .f32 0x7FC00000#32)

/-- The host's sum down the rows, from the zero word, at column q. -/
theorem reduce0_apply4 (X : S100000x32.Idx → EReal) (q : Fin 32) :
    Host.reduceAdd (F := Ideal) X (constant (F := Ideal) S_ .f32 0x00000000#32) reducesTo_S100000x32_S32_d0 h_S_ (ix1 q) = colSum4 X q := by
  refine (hostReduceAdd_apply X _ reducesTo_S100000x32_S32_d0 h_S_ (ix1 q)).trans ?_
  refine (Ideal.hostReduceAdd_single reducesTo_S100000x32_S32_d0 (by decide) X _ (ix1 q)).trans ?_
  unfold colSum4
  rw [constant_apply]
  refine congrArg _ (Finset.sum_congr rfl fun k _ => congrArg X (funext fun a => Fin.ext ?_))
  match a with
  | ⟨0, _⟩ => rfl
  | ⟨1, _⟩ => rfl

theorem refMeanVec4_apply (X : S100000x32.Idx → EReal) (q : Fin 32) : refMeanVec4 X (ix1 q) = colMean4 X q := by
  unfold refMeanVec4 colMean4
  rw [hostDivf_apply, reduce0_apply4, broadcastInDim_scalar_apply, constant_apply]

theorem refCount4_apply : refCount4 ix0 = cnt4 := rfl

open Cert.LibHostBroadcast in
theorem refCentred4_apply (X : S100000x32.Idx → EReal) (p : Fin 100000) (q : Fin 32) :
    refCentred4 X (ix2 p q) = X (ix2 p q) - colMean4 X q := by
  unfold refCentred4 colMean4
  rw [subf_apply, row_to_mat, hostDivf_apply, vec_to_row, reduce0_apply4, broadcastInDim_scalar_apply, constant_apply]

theorem refVarVec4_apply (X : S100000x32.Idx → EReal) (q : Fin 32) : refVarVec4 X (ix1 q) = colVar4 X q := by
  unfold refVarVec4 colVar4
  rw [select_apply, broadcastInDim_scalar_apply, broadcastInDim_scalar_apply, hostDivf_apply, reduce0_apply4, broadcastInDim_scalar_apply,
    cmpf_apply, refCount4_apply, constant_apply]
  unfold colSum4
  simp only [mulf_apply, refCentred4_apply]
  rfl

/-- THE STAGE AT (p, q). -/
theorem refBn4_apply (X : S100000x32.Idx → EReal) (a9 a10 : S3x32.Idx → EReal) (p : Fin 100000) (q : Fin 32) :
    refBn4 X a9 a10 (ix2 p q)
      = max (((X (ix2 p q) - colMean4 X q) * Ideal.rsqrt (colVar4 X q + Ideal.ofBits .f32 0x3727C5AC#32)) * a9 (ix2 (0 : Fin 3) q)
          + a10 (ix2 (0 : Fin 3) q)) 0 := by
  unfold refBn4
  rw [maximumf_apply, addf_apply, mulf_apply, mulf_apply, subf_apply, spread4_apply, spread4_apply, spread4_apply, spread4_apply,
    rowVec4_apply, rowVec4_apply, refMeanVec4_apply, broadcastInDim_scalar_apply, constant_apply]
  show max (_ * Ideal.rsqrt (addf (F := Ideal) (refVarVec4 X) _ (ix1 q)) * _ + _) _ = _
  rw [addf_apply, refVarVec4_apply, broadcastInDim_scalar_apply, constant_apply, Ideal.ofBits_zero_f32]

/-- The count's word is 100000. -/
theorem ofBits_count4 : Ideal.ofBits .f32 0x47C35000#32 = ((100000 : ℝ) : EReal) := by
  simp [Ideal.ofBits, Ideal.ieee, -EReal.coe_mul]; norm_num

/-- The count less the correction is 100000: the correction is the integer zero. -/
theorem cnt4_eq : cnt4 = ((100000 : ℝ) : EReal) := by
  unfold cnt4
  rw [ofBits_count4, Ideal.scalar_sitofp_def]
  simp

/-- The count is positive, so a column's variance is its sum of squared centred entries over 100000. -/
theorem colVar4_eq (X : S100000x32.Idx → EReal) (q : Fin 32) :
    colVar4 X q = Ideal.div (Ideal.ofBits .f32 0x00000000#32 + ∑ p' : Fin 100000, (X (ix2 p' q) - colMean4 X q) * (X (ix2 p' q) - colMean4 X q)) ((100000 : ℝ) : EReal) := by
  unfold colVar4
  rw [cnt4_eq, Ideal.scalar_cmpf_def, Ideal.ofBits_zero_f32]
  have h : Ideal.cmp .ogt ((100000 : ℝ) : EReal) 0 = 1#1 := by
    unfold Ideal.cmp
    have : (0 : EReal) < ((100000 : ℝ) : EReal) := by exact_mod_cast (by norm_num : (0 : ℝ) < 100000)
    simp [this]
  rw [h, select_one]

/-- A column's mean is its sum over 100000. -/
theorem colMean4_eq (X : S100000x32.Idx → EReal) (q : Fin 32) :
    colMean4 X q = Ideal.div (∑ p' : Fin 100000, X (ix2 p' q)) ((100000 : ℝ) : EReal) := by
  unfold colMean4 colSum4
  rw [ofBits_count4, Ideal.ofBits_zero_f32, zero_add]

/-- The window's operations up to the mix write neither the scale argument nor the bias argument. -/
theorem ops2_take36_keeps4 (V : Valuation τ sig (Elt Ideal)) (r : Ref sig .tc) (hr : r ∉ (ops2_W : List (Ref sig .tc))) :
    after ((ops2 (F := Ideal)).take 36) V (Proc.devRef .tc r) = V (Proc.devRef .tc r) :=
  after_of_writes_sub (W := ops2_W) _ V
    (List.forall_iff_forall_mem.mpr fun op hop => List.forall_iff_forall_mem.mp ops2_writes op (List.mem_of_mem_take hop)) hr

set_option maxHeartbeats 4000000 in
/-- The reference's normalised array of relation 0, layer 2, is that composition of the mixed array the operations up to
    the mix leave and of the scale and bias arguments, from any contents before the window. The window is cut after the mix. -/
theorem ref_bn4 (V : Valuation τ sig (Elt Ideal)) :
    (after (ops3 (F := Ideal)) (after (ops2 (F := Ideal)) V) (main_v153 : DevRef τ sig) : S100000x32.Idx → EReal)
      = refBn4 (after (ops2 (F := Ideal)) V (main_v129 : DevRef τ sig)) (V (main_arg11 : DevRef τ sig)) (V (main_arg12 : DevRef τ sig)) := by
  rw [← ops2_take36_keeps4 V main_arg11 (by decide), ← ops2_take36_keeps4 V main_arg12 (by decide),
    ← List.take_append_drop 36 (ops2 (F := Ideal)), after_append]
  simp only [List.take_append_drop]
  generalize after ((ops2 (F := Ideal)).take 36) V = R'
  dsimp only [ops2, ops3]
  simp only [List.drop_succ_cons, List.drop_zero]
  after_results_simp
  rfl

/-- The reference's normalise-and-cut-off of relation 0, layer 2, at (p, q), with the mixed array and the two arguments
    named: the entry less its column's mean, times the reciprocal square root of the column's variance plus the small
    constant, times the scale at q, plus the bias at q, cut off below at 0. -/
theorem ref_bn4_at (V : Valuation τ sig (Elt Ideal)) (X : S100000x32.Idx → EReal) (a9 a10 : S3x32.Idx → EReal)
    (hX : (after (ops2 (F := Ideal)) V (main_v129 : DevRef τ sig) : S100000x32.Idx → EReal) = X)
    (h9 : (V (main_arg11 : DevRef τ sig) : S3x32.Idx → EReal) = a9) (h10 : (V (main_arg12 : DevRef τ sig) : S3x32.Idx → EReal) = a10)
    (p : Fin 100000) (q : Fin 32) :
    (after (ops3 (F := Ideal)) (after (ops2 (F := Ideal)) V) (main_v153 : DevRef τ sig) : S100000x32.Idx → EReal) (ix2 p q)
      = max (((X (ix2 p q) - colMean4 X q) * Ideal.rsqrt (colVar4 X q + Ideal.ofBits .f32 0x3727C5AC#32)) * a9 (ix2 (0 : Fin 3) q)
          + a10 (ix2 (0 : Fin 3) q)) 0 := by
  rw [ref_bn4, hX, h9, h10, refBn4_apply]

end Cert.ReferenceIdeal.RefRun

end
-- ==== Proof.KIValBn14.lean ====
/-
  Region 14 normalises a 100000×64 array tile by tile: at each entry (p, q) it takes x(p, q), subtracts the mean row at q,
  multiplies by the reciprocal square root of the variance row at q cut off below at 0 and shifted by a small constant,
  multiplies by the scale row at q, adds the bias row at q, and cuts the result off below at 0. The four rows are the same
  at every tile, and the ten tiles of 10000 rows fill the array, so the array the region leaves is that one function of the
  region's entry contents, index by index.
-/
import proofs.«140713_j1864015806535_2_alg».proof.Proof.KIFrameBase
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Body

open Cert.KernelIdeal Cert.KernelIdeal.Gen Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- The zero offsets of a whole-buffer rectangle, however spelt. -/
theorem zeroOff14 : (![0, 0] : Fin 2 → Nat) = fun _ => 0 := funext fun a => by fin_cases a <;> rfl

/-- The reciprocal square root of a vector reads elementwise. -/
theorem rsqrt_at14 {s : Shape} {φ : FTy} (a : FVec Ideal s φ) (i : s.Idx) : rsqrt a i = Ideal.rsqrt (a i) := rfl

/-- The row index (0, q) under an index (p, q) of the array. -/
abbrev rowOf14 (i : S100000x64.Idx) : S1x64.Idx := ix2 (0 : Fin 1) (⟨(i 1).val, idx2_lt1 i⟩ : Fin 64)

/-- What the region leaves, as one function of the array it normalises and of the four rows: at (p, q) the entry less the
    mean at q, times the reciprocal square root of the variance at q cut off below at 0 plus the small constant, times the
    scale at q, plus the bias at q, cut off below at 0. -/
def bnRelu14 (X : S100000x64.Idx → EReal) (mean var scale bias : S1x64.Idx → EReal) : S100000x64.Idx → EReal :=
  fun i => max ((((X i - mean (rowOf14 i)) * Ideal.rsqrt (max (var (rowOf14 i)) 0 + Ideal.ofBits .f32 0x3727C5AC#32))
              * scale (rowOf14 i) + bias (rowOf14 i))) 0

/-- That function at explicit coordinates. -/
theorem bnRelu14_apply (X : S100000x64.Idx → EReal) (mean var scale bias : S1x64.Idx → EReal) (p : Fin 100000) (q : Fin 64) :
    bnRelu14 X mean var scale bias (ix2 p q)
      = max ((((X (ix2 p q) - mean (ix2 0 q)) * Ideal.rsqrt (max (var (ix2 0 q)) 0 + Ideal.ofBits .f32 0x3727C5AC#32))
              * scale (ix2 0 q) + bias (ix2 0 q))) 0 := rfl

/-- The body's arithmetic at entry (p, q) of a tile: the rows are read at (0, q). -/
theorem bnPay14_apply (x : Vec Ideal S10000x64 .f32) (mean var scale bias : Vec Ideal S1x64 .f32) (p : Fin 10000) (q : Fin 64) :
    (k14_pay1 x mean var scale bias : S10000x64.Idx → EReal) (ix2 p q)
      = max ((((x (ix2 p q) - mean (ix2 0 q)) * Ideal.rsqrt (max (var (ix2 0 q)) 0 + Ideal.ofBits .f32 0x3727C5AC#32))
              * scale (ix2 0 q) + bias (ix2 0 q))) 0 := by
  unfold k14_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply,
    rsqrt_at14, addf_apply, maximumf_apply, broadcast_apply, broadcast_apply]
  simp only [Ideal.ofBits_def, Ideal.ofBits_zero_f32]

/-- The printed index maps over the grid: the array's window and the output's sit at block (t, 0), the four rows' at (0, 0). -/
theorem idx_facts14 : ∀ t : Fin cfg14.N, win14_0.index t (0 : Fin 2) = t.val ∧ win14_0.index t (1 : Fin 2) = 0
    ∧ win14_5.index t (0 : Fin 2) = t.val ∧ win14_5.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0 :=
  (by decide +kernel : ∀ t : Fin grid14.N, _)

/-- Entry (p, q) of point t's block of the array read is the array's entry (t·10000 + p, q). -/
theorem emb14_0 (t : Fin cfg14.N) (p : Fin 10000) (q : Fin 64) (P : Fin 100000) (hP : P.val = t.val * 10000 + p.val) :
    ((cfg14.win 0).blk t).view.emb (ix2 p q) = ix2 P q := by
  obtain ⟨e0, e1, -⟩ := idx_facts14 t
  funext a; apply Fin.ext
  match a with
  | ⟨0, _⟩ => show win14_0.index t (0 : Fin 2) * 10000 + 1 * p.val = P.val; rw [e0, hP]; omega
  | ⟨1, _⟩ => show win14_0.index t (1 : Fin 2) * 64 + 1 * q.val = q.val; rw [e1]; omega

/-- The same for the output's block. -/
theorem emb14_5 (t : Fin cfg14.N) (p : Fin 10000) (q : Fin 64) (P : Fin 100000) (hP : P.val = t.val * 10000 + p.val) :
    ((cfg14.win 5).blk t).view.emb (ix2 p q) = ix2 P q := by
  obtain ⟨-, -, e0, e1, -⟩ := idx_facts14 t
  funext a; apply Fin.ext
  match a with
  | ⟨0, _⟩ => show win14_5.index t (0 : Fin 2) * 10000 + 1 * p.val = P.val; rw [e0, hP]; omega
  | ⟨1, _⟩ => show win14_5.index t (1 : Fin 2) * 64 + 1 * q.val = q.val; rw [e1]; omega

/-- Each row's block is the row itself at every point. -/
theorem emb14_1 (t : Fin cfg14.N) (q : Fin 64) : ((cfg14.win 1).blk t).view.emb (ix2 (0 : Fin 1) q) = ix2 (0 : Fin 1) q := by
  obtain ⟨-, -, -, -, e0, e1, -⟩ := idx_facts14 t
  funext a; apply Fin.ext
  match a with
  | ⟨0, _⟩ => show win14_1.index t (0 : Fin 2) * 1 + 1 * 0 = 0; rw [e0]
  | ⟨1, _⟩ => show win14_1.index t (1 : Fin 2) * 64 + 1 * q.val = q.val; rw [e1]; omega
theorem emb14_2 (t : Fin cfg14.N) (q : Fin 64) : ((cfg14.win 2).blk t).view.emb (ix2 (0 : Fin 1) q) = ix2 (0 : Fin 1) q := by
  obtain ⟨-, -, -, -, -, -, e0, e1, -⟩ := idx_facts14 t
  funext a; apply Fin.ext
  match a with
  | ⟨0, _⟩ => show win14_2.index t (0 : Fin 2) * 1 + 1 * 0 = 0; rw [e0]
  | ⟨1, _⟩ => show win14_2.index t (1 : Fin 2) * 64 + 1 * q.val = q.val; rw [e1]; omega
theorem emb14_3 (t : Fin cfg14.N) (q : Fin 64) : ((cfg14.win 3).blk t).view.emb (ix2 (0 : Fin 1) q) = ix2 (0 : Fin 1) q := by
  obtain ⟨-, -, -, -, -, -, -, -, e0, e1, -⟩ := idx_facts14 t
  funext a; apply Fin.ext
  match a with
  | ⟨0, _⟩ => show win14_3.index t (0 : Fin 2) * 1 + 1 * 0 = 0; rw [e0]
  | ⟨1, _⟩ => show win14_3.index t (1 : Fin 2) * 64 + 1 * q.val = q.val; rw [e1]; omega
theorem emb14_4 (t : Fin cfg14.N) (q : Fin 64) : ((cfg14.win 4).blk t).view.emb (ix2 (0 : Fin 1) q) = ix2 (0 : Fin 1) q := by
  obtain ⟨-, -, -, -, -, -, -, -, -, -, e0, e1⟩ := idx_facts14 t
  funext a; apply Fin.ext
  match a with
  | ⟨0, _⟩ => show win14_4.index t (0 : Fin 2) * 1 + 1 * 0 = 0; rw [e0]
  | ⟨1, _⟩ => show win14_4.index t (1 : Fin 2) * 64 + 1 * q.val = q.val; rw [e1]; omega

variable (V : (c : Dev nD) → (b : Ref sig .tc) → Buf (Elt Ideal) ((c : Thread nD τ).loc b))

/-- Point t's block of the array read, at (p, q): the array at (t·10000 + p, q). -/
theorem iblk14_0_at (c : Dev nD) (t : Fin cfg14.N) (p : Fin 10000) (q : Fin 64) (P : Fin 100000) (hP : P.val = t.val * 10000 + p.val) :
    (iblk14 V c 0 t : S10000x64.Idx → EReal) (ix2 p q) = (V c (Pipeline.arrRef spec14 0) : S100000x64.Idx → EReal) (ix2 P q) := by
  unfold iblk14
  rw [View.read_apply, emb14_0 t p q P hP]
  rfl
/-- Each row's block at (0, q): the row at (0, q). -/
theorem iblk14_1_at (c : Dev nD) (t : Fin cfg14.N) (q : Fin 64) :
    (iblk14 V c 1 t : S1x64.Idx → EReal) (ix2 0 q) = (V c (Pipeline.arrRef spec14 1) : S1x64.Idx → EReal) (ix2 0 q) := by
  unfold iblk14
  rw [View.read_apply, emb14_1 t q]
  rfl
theorem iblk14_2_at (c : Dev nD) (t : Fin cfg14.N) (q : Fin 64) :
    (iblk14 V c 2 t : S1x64.Idx → EReal) (ix2 0 q) = (V c (Pipeline.arrRef spec14 2) : S1x64.Idx → EReal) (ix2 0 q) := by
  unfold iblk14
  rw [View.read_apply, emb14_2 t q]
  rfl
theorem iblk14_3_at (c : Dev nD) (t : Fin cfg14.N) (q : Fin 64) :
    (iblk14 V c 3 t : S1x64.Idx → EReal) (ix2 0 q) = (V c (Pipeline.arrRef spec14 3) : S1x64.Idx → EReal) (ix2 0 q) := by
  unfold iblk14
  rw [View.read_apply, emb14_3 t q]
  rfl
theorem iblk14_4_at (c : Dev nD) (t : Fin cfg14.N) (q : Fin 64) :
    (iblk14 V c 4 t : S1x64.Idx → EReal) (ix2 0 q) = (V c (Pipeline.arrRef spec14 4) : S1x64.Idx → EReal) (ix2 0 q) := by
  unfold iblk14
  rw [View.read_apply, emb14_4 t q]
  rfl
/-- Point t's block of a whole-array function read back at (p, q): the function at (t·10000 + p, q). -/
theorem read_blk14_5_at (G : S100000x64.Idx → EReal) (t : Fin cfg14.N) (p : Fin 10000) (q : Fin 64) (P : Fin 100000) (hP : P.val = t.val * 10000 + p.val) :
    (((cfg14.win 5).blk t).view.read (Elt Ideal) G : S10000x64.Idx → EReal) (ix2 p q) = G (ix2 P q) := by
  rw [View.read_apply, emb14_5 t p q P hP]
  rfl

set_option maxHeartbeats 1000000 in
/-- What point t writes back is its block of that one function of the region's entry contents. -/
theorem flushed14_5_eq (c : Dev nD) (t : Fin cfg14.N) :
    (dat14 V c).flushed 5 t = ((cfg14.win 5).blk t).view.read (Elt Ideal)
      (bnRelu14 (V c (Pipeline.arrRef spec14 0)) (V c (Pipeline.arrRef spec14 1)) (V c (Pipeline.arrRef spec14 2)) (V c (Pipeline.arrRef spec14 3)) (V c (Pipeline.arrRef spec14 4))) := by
  show (cfg14.win 5).cut (grid14.coords t) ((dat14 V c).after 5 t) = _
  rw [after14_5]
  unfold out14_5
  rw [View.canon_unit_zero zeroOff14]
  simp only [View.ld_unit_zero (S := S10000x64) zeroOff14, View.ld_unit_zero (S := S1x64) zeroOff14]
  funext j
  obtain ⟨p, q, rfl⟩ : ∃ (p : Fin 10000) (q : Fin 64), j = ix2 p q := ⟨j 0, j 1, eq_ix2 j⟩
  have ht : t.val < 10 := lt_of_lt_of_eq t.isLt N_14
  have hP : t.val * 10000 + p.val < 100000 := by omega
  refine (bnPay14_apply (iblk14 V c 0 t) (iblk14 V c 1 t) (iblk14 V c 2 t) (iblk14 V c 3 t) (iblk14 V c 4 t) p q).trans ?_
  refine Eq.trans ?_ (read_blk14_5_at _ t p q ⟨t.val * 10000 + p.val, hP⟩ rfl).symm
  rw [bnRelu14_apply, iblk14_0_at V c t p q ⟨t.val * 10000 + p.val, hP⟩ rfl, iblk14_1_at V c t q, iblk14_2_at V c t q, iblk14_3_at V c t q, iblk14_4_at V c t q]

/-- An index of the array is in point t's block iff each coordinate is in the block's range on its axis. -/
theorem mem_blk14_5 (t : Fin cfg14.N) (i : S100000x64.Idx) :
    i ∈ ((cfg14.win 5).blk t).view.set ↔ ∀ a : Fin 2, win14_5.index t a * S10000x64.size a ≤ (i a).val ∧ (i a).val < win14_5.index t a * S10000x64.size a + S10000x64.size a := by
  show i ∈ ((View.whole main_v273).slice (win14_5.rect t)).set ↔ _
  rw [View.set_slice_whole, Rect.mem_set_unit]
  exact Iff.rfl

/-- Row r of the array is in the block of point r / 10000: the ten blocks fill the array. -/
theorem covered14_5 (i : S100000x64.Idx) : ∃ t : Fin cfg14.N, (cfg14.win 5).flush t = true ∧ i ∈ ((cfg14.win 5).blk t).view.set := by
  have hi0 : (i 0).val < 100000 := idx2_lt0 i
  have hi1 : (i 1).val < 64 := idx2_lt1 i
  have hN : grid14.N = 10 := N_14
  have hlt : (i 0).val / 10000 < grid14.N := by rw [hN]; omega
  obtain ⟨-, -, e0, e1, -⟩ := idx_facts14 ⟨(i 0).val / 10000, hlt⟩
  refine ⟨⟨(i 0).val / 10000, hlt⟩, flush14_5 _, ?_⟩
  rw [mem_blk14_5]
  intro a
  match a with
  | ⟨0, _⟩ =>
    show win14_5.index ⟨(i 0).val / 10000, hlt⟩ (0 : Fin 2) * 10000 ≤ (i 0).val ∧ (i 0).val < win14_5.index ⟨(i 0).val / 10000, hlt⟩ (0 : Fin 2) * 10000 + 10000
    rw [e0]; show (i 0).val / 10000 * 10000 ≤ (i 0).val ∧ (i 0).val < (i 0).val / 10000 * 10000 + 10000; omega
  | ⟨1, _⟩ =>
    show win14_5.index ⟨(i 0).val / 10000, hlt⟩ (1 : Fin 2) * 64 ≤ (i 1).val ∧ (i 1).val < win14_5.index ⟨(i 0).val / 10000, hlt⟩ (1 : Fin 2) * 64 + 64
    rw [e1]; omega

/-- The array the region leaves is that function of its entry contents. -/
theorem final14_5 (c : Dev nD) : (dat14 V c).arrAt 5 cfg14.N
    = bnRelu14 (V c (Pipeline.arrRef spec14 0)) (V c (Pipeline.arrRef spec14 1)) (V c (Pipeline.arrRef spec14 2)) (V c (Pipeline.arrRef spec14 3)) (V c (Pipeline.arrRef spec14 4)) :=
  (dat14 V c).arrAt_eq_of_cover 5 _ (fun t _ => flushed14_5_eq V c t) covered14_5

/-- Region 14's output as one function of the buffers at the region's entry. -/
theorem O14_0_fun (c : Dev nD) :
    O14_0 (F := Ideal) m c = bnRelu14 (W33 (F := Ideal) m c main_v264_0) (W33 (F := Ideal) m c main_v266) (W33 (F := Ideal) m c main_v270)
      (W33 (F := Ideal) m c main_v271) (W33 (F := Ideal) m c main_v272) :=
  final14_5 (E33 m) c

/-- Region 14's output at (p, q): the entry of main_v264_0 less the mean row, times the reciprocal square root of the
    variance row cut off at 0 and shifted, times the scale row, plus the bias row, cut off at 0; rows read at (0, q). -/
theorem O14_0_eq (c : Dev nD) (p : Fin 100000) (q : Fin 64) :
    (O14_0 (F := Ideal) m c : S100000x64.Idx → EReal) (ix2 p q)
      = bnRelu14 (W33 (F := Ideal) m c main_v264_0) (W33 (F := Ideal) m c main_v266) (W33 (F := Ideal) m c main_v270)
          (W33 (F := Ideal) m c main_v271) (W33 (F := Ideal) m c main_v272) (ix2 p q) :=
  congrFun (O14_0_fun m c) (ix2 p q)

/-- The same with the five entry buffers named: for arrays equal to them, the output at (p, q) written out. -/
theorem O14_0_at (c : Dev nD) (X : S100000x64.Idx → EReal) (mean var scale bias : S1x64.Idx → EReal)
    (hX : W33 (F := Ideal) m c main_v264_0 = X) (hmean : W33 (F := Ideal) m c main_v266 = mean) (hvar : W33 (F := Ideal) m c main_v270 = var)
    (hscale : W33 (F := Ideal) m c main_v271 = scale) (hbias : W33 (F := Ideal) m c main_v272 = bias) (p : Fin 100000) (q : Fin 64) :
    (O14_0 (F := Ideal) m c : S100000x64.Idx → EReal) (ix2 p q)
      = max ((((X (ix2 p q) - mean (ix2 0 q)) * Ideal.rsqrt (max (var (ix2 0 q)) 0 + Ideal.ofBits .f32 0x3727C5AC#32))
              * scale (ix2 0 q) + bias (ix2 0 q))) 0 := by
  rw [O14_0_eq, hX, hmean, hvar, hscale, hbias, bnRelu14_apply]

end Cert.KernelIdeal.Body

end
-- ==== Proof.KIValMix16.lean ====
/-
  Region 16, the mix-and-accumulate tile kernel, read as values over the extended reals.

  At each of the ten grid points the body takes its tile of 10000 rows of h and of agg and the 1×1 mixing weight g,
  writes xm = g·agg + (1 − g)·h into its tile of the first output, and adds the tile's column sums of xm and of xm·xm
  to two one-row outputs that are zeroed at the first point and written back after the last. The lemmas here say what
  the three output arrays end holding, index by index, as functions of the region's entry contents: the first output is
  xm at every row and column, the two rows are the sums over all 100000 rows of xm and of xm·xm.
-/
import proofs.«140713_j1864015806535_2_alg».proof.Proof.KIFrameBase
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Body

open Cert.KernelIdeal Cert.KernelIdeal.Gen Idealize.ShloMosaic Idealize.ShloMosaic.TcCoe Idealize.ShloMosaic.ValueIdx Idealize.SL.Sem
open Idealize.ShloMosaic.Pipeline (Dat Cfg Window)
open Idealize.ShloMosaic.Tactic

variable (m : (ℓ : Loc nD τ sig) → Buf (Elt Ideal) ℓ)

section Pieces
variable (V : (c : Dev nD) → (b : Ref sig .tc) → Buf (Elt Ideal) ((c : Thread nD τ).loc b))

theorem hz16 : (![0, 0] : Fin 2 → Nat) = fun _ => 0 := funext fun a => by fin_cases a <;> rfl

theorem outA16_3 (c : Dev nD) (t : Fin cfg16.N) (h : cond16_0 (grid16.coords t)) :
    (readBack16 (runA16 V c t h).1).1 = k16_pay3 (iblk16 V c 2 t) (iblk16 V c 0 t) (iblk16 V c 1 t) := by
  unfold readBack16
  dsimp only
  rw [View.read_writes_junk_eq_canon]
  unfold runA16 kernelRun16_A
  dsimp only
  rw [View.canon_unit_zero (S := S10000x32) hz16]
  simp only [View.readAt_eq_ld, (hs16_0 t).read_unread, (hs16_1 t).read_unread, (hs16_2 t).read_unread,
    View.ld_unit_zero (S := S10000x32) hz16, View.ld_unit_zero (S := S1x1) hz16]

theorem outB16_3 (c : Dev nD) (t : Fin cfg16.N) (h : ¬cond16_0 (grid16.coords t)) (xo4 xo5 : Vec Ideal S1x32 .f32) :
    (readBack16 (runB16 V c t h xo4 xo5).1).1 = k16_pay3 (iblk16 V c 2 t) (iblk16 V c 0 t) (iblk16 V c 1 t) := by
  unfold readBack16
  dsimp only
  rw [View.read_writes_junk_eq_canon]
  unfold runB16 kernelRun16_B
  dsimp only
  rw [View.canon_unit_zero (S := S10000x32) hz16]
  simp only [View.readAt_eq_ld, (hs16_0 t).read_unread, (hs16_1 t).read_unread, (hs16_2 t).read_unread,
    View.ld_unit_zero (S := S10000x32) hz16, View.ld_unit_zero (S := S1x1) hz16]

theorem outA16_4 (c : Dev nD) (t : Fin cfg16.N) (h : cond16_0 (grid16.coords t)) :
    (readBack16 (runA16 V c t h).1).2.1 = k16_pay4 (iblk16 V c 2 t) (iblk16 V c 0 t) (iblk16 V c 1 t) (k16_pay1 (F := Ideal)) := by
  unfold readBack16
  dsimp only
  rw [View.read_writes_junk_eq_canon]
  unfold runA16 kernelRun16_A
  dsimp only
  sl_unfold_words
  rw [View.canon_cons_unit_zero (S := S1x32) hz16, View.readCov_unit_zero (S := S1x32) _ hz16]
  simp only [View.readAt_eq_ld, (hs16_0 t).read_unread, (hs16_1 t).read_unread, (hs16_2 t).read_unread,
    View.ld_unit_zero (S := S10000x32) hz16, View.ld_unit_zero (S := S1x1) hz16, View.ld_unit_zero (S := S1x32) hz16]

theorem outB16_4 (c : Dev nD) (t : Fin cfg16.N) (h : ¬cond16_0 (grid16.coords t)) (xo4 xo5 : Vec Ideal S1x32 .f32) :
    (readBack16 (runB16 V c t h xo4 xo5).1).2.1 = k16_pay4 (iblk16 V c 2 t) (iblk16 V c 0 t) (iblk16 V c 1 t) xo4 := by
  unfold readBack16
  dsimp only
  rw [View.read_writes_junk_eq_canon]
  unfold runB16 kernelRun16_B
  dsimp only
  rw [View.canon_unit_zero (S := S1x32) hz16]
  simp only [View.readAt_eq_ld, (hs16_0 t).read_unread, (hs16_1 t).read_unread, (hs16_2 t).read_unread,
    (hs16_4 t).read_unread, (hs16_5 t).read_unread,
    View.ld_unit_zero (S := S10000x32) hz16, View.ld_unit_zero (S := S1x1) hz16, View.ld_unit_zero (S := S1x32) hz16]

theorem outA16_5 (c : Dev nD) (t : Fin cfg16.N) (h : cond16_0 (grid16.coords t)) :
    (readBack16 (runA16 V c t h).1).2.2 = k16_pay5 (iblk16 V c 2 t) (iblk16 V c 0 t) (iblk16 V c 1 t) (k16_pay2 (F := Ideal)) := by
  unfold readBack16
  dsimp only
  rw [View.read_writes_junk_eq_canon]
  unfold runA16 kernelRun16_A
  dsimp only
  sl_unfold_words
  rw [View.canon_cons_unit_zero (S := S1x32) hz16, View.readCov_unit_zero (S := S1x32) _ hz16]
  simp only [View.readAt_eq_ld, (hs16_0 t).read_unread, (hs16_1 t).read_unread, (hs16_2 t).read_unread,
    View.ld_unit_zero (S := S10000x32) hz16, View.ld_unit_zero (S := S1x1) hz16, View.ld_unit_zero (S := S1x32) hz16]

theorem outB16_5 (c : Dev nD) (t : Fin cfg16.N) (h : ¬cond16_0 (grid16.coords t)) (xo4 xo5 : Vec Ideal S1x32 .f32) :
    (readBack16 (runB16 V c t h xo4 xo5).1).2.2 = k16_pay5 (iblk16 V c 2 t) (iblk16 V c 0 t) (iblk16 V c 1 t) xo5 := by
  unfold readBack16
  dsimp only
  rw [View.read_writes_junk_eq_canon]
  unfold runB16 kernelRun16_B
  dsimp only
  rw [View.canon_unit_zero (S := S1x32) hz16]
  simp only [View.readAt_eq_ld, (hs16_0 t).read_unread, (hs16_1 t).read_unread, (hs16_2 t).read_unread,
    (hs16_4 t).read_unread, (hs16_5 t).read_unread,
    View.ld_unit_zero (S := S10000x32) hz16, View.ld_unit_zero (S := S1x1) hz16, View.ld_unit_zero (S := S1x32) hz16]

end Pieces

/-! ## The payload at an index -/

/-- The mixed tile at row p, column q: the weight times agg plus one minus the weight times h. -/
theorem pay3_apply_16 (g : Vec Ideal S1x1 .f32) (h agg : Vec Ideal S10000x32 .f32) (p : Fin 10000) (q : Fin 32) :
    (k16_pay3 g h agg : S10000x32.Idx → EReal) (ix2 p q)
      = (g : S1x1.Idx → EReal) (ix2 0 0) * (agg : S10000x32.Idx → EReal) (ix2 p q)
        + (Ideal.ofBits .f32 0x3F800000#32 - (g : S1x1.Idx → EReal) (ix2 0 0)) * (h : S10000x32.Idx → EReal) (ix2 p q) := by
  unfold k16_pay3
  simp only [shapeCast_self]
  rw [addf_apply, mulf_apply, mulf_apply,
    broadcastTo_apply (s := S1x1) (t := S10000x32) _ _ (ix2 p q) (ix2 0 0)
      (fun a => by match a with | ⟨0, _⟩ => rfl | ⟨1, _⟩ => rfl),
    broadcastTo_apply (s := S1x1) (t := S10000x32) _ _ (ix2 p q) (ix2 0 0)
      (fun a => by match a with | ⟨0, _⟩ => rfl | ⟨1, _⟩ => rfl),
    subf_apply, broadcast_apply]
  rfl

/-- The same at any index of the tile. -/
theorem pay3_at_16 (g : Vec Ideal S1x1 .f32) (h agg : Vec Ideal S10000x32 .f32) (j : S10000x32.Idx) :
    (k16_pay3 g h agg : S10000x32.Idx → EReal) j
      = (g : S1x1.Idx → EReal) (ix2 0 0) * (agg : S10000x32.Idx → EReal) j
        + (Ideal.ofBits .f32 0x3F800000#32 - (g : S1x1.Idx → EReal) (ix2 0 0)) * (h : S10000x32.Idx → EReal) j := by
  obtain ⟨p, q, rfl⟩ : ∃ (p : Fin 10000) (q : Fin 32), j = ix2 p q := ⟨j 0, j 1, eq_ix2 j⟩
  exact pay3_apply_16 g h agg p q

/-- A tile's column reduction, stored as a one-row block, at column q: the sum of the tile down column q. -/
theorem colsum_apply_16 (x : Vec Ideal S10000x32 .f32) (q : Fin 32) :
    (shapeCast S1x32 (multiReduction (F := Ideal) .add [0] S32 x 0x00000000#32 reduces_S10000x32_S32 (.inl rfl) rfl)
        shapeCasts_S32_S1x32 : S1x32.Idx → EReal) (ix2 0 q)
      = ∑ r : Fin 10000, (x : S10000x32.Idx → EReal) (ix2 r q) := by
  refine (shapeCast_addUnit_apply ![32] _ _ (ix2 0 q)).trans ?_
  refine (Ideal.multiReduction_add_single x 0x00000000#32 reduces_S10000x32_S32 (.inl rfl) rfl _).trans ?_
  show ∑ r : Fin 10000, _ = _
  refine Finset.sum_congr rfl fun r _ => congrArg _ ?_
  funext a
  apply Fin.ext
  match a with
  | ⟨0, _⟩ => rfl
  | ⟨1, _⟩ => rfl

/-- The column sums' row at column q: the row entered plus the sum of the mixed tile down column q. -/
theorem pay4_apply_16 (g : Vec Ideal S1x1 .f32) (h agg : Vec Ideal S10000x32 .f32) (row : Vec Ideal S1x32 .f32) (q : Fin 32) :
    (k16_pay4 g h agg row : S1x32.Idx → EReal) (ix2 0 q)
      = (row : S1x32.Idx → EReal) (ix2 0 q) + ∑ r : Fin 10000, (k16_pay3 g h agg : S10000x32.Idx → EReal) (ix2 r q) := by
  unfold k16_pay4
  simp only [shapeCast_self]
  rw [addf_apply]
  congr 1
  exact colsum_apply_16 _ q

/-- The squares' row at column q: the row entered plus the sum of the mixed tile's squares down column q. -/
theorem pay5_apply_16 (g : Vec Ideal S1x1 .f32) (h agg : Vec Ideal S10000x32 .f32) (row : Vec Ideal S1x32 .f32) (q : Fin 32) :
    (k16_pay5 g h agg row : S1x32.Idx → EReal) (ix2 0 q)
      = (row : S1x32.Idx → EReal) (ix2 0 q)
        + ∑ r : Fin 10000, (k16_pay3 g h agg : S10000x32.Idx → EReal) (ix2 r q) * (k16_pay3 g h agg : S10000x32.Idx → EReal) (ix2 r q) := by
  unfold k16_pay5
  simp only [shapeCast_self]
  rw [addf_apply]
  congr 1
  exact colsum_apply_16 (mulf (k16_pay3 g h agg) (k16_pay3 g h agg)) q

/-- The rows entered at the first point are zero. -/
theorem pay1_apply_16 (q : Fin 32) : (k16_pay1 (F := Ideal) : S1x32.Idx → EReal) (ix2 0 q) = 0 := by
  unfold k16_pay1
  rw [broadcast_apply]
  exact Ideal.ofBits_zero_f32
theorem pay2_apply_16 (q : Fin 32) : (k16_pay2 (F := Ideal) : S1x32.Idx → EReal) (ix2 0 q) = 0 := by
  unfold k16_pay2
  rw [broadcast_apply]
  exact Ideal.ofBits_zero_f32

section Blocks
variable (V : (c : Dev nD) → (b : Ref sig .tc) → Buf (Elt Ideal) ((c : Thread nD τ).loc b))

/-! ## The first output: the mixed tile, at every point -/

/-- After the body at any point the first output's staging buffer holds the mixed tile of the point's blocks. -/
theorem outs16_3 (c : Dev nD) (t : Fin cfg16.N) :
    (outsAt16 V c t.val t.isLt).1 = k16_pay3 (iblk16 V c 2 t) (iblk16 V c 0 t) (iblk16 V c 1 t) := by
  by_cases h0 : t.val % 10 = 0
  · rw [outsAt16_A V c t h0]; exact outA16_3 V c t _
  · rw [outsAt16_B V c t h0]; exact outB16_3 V c t _ _ _

/-- The region's three input arrays as it finds them: the weight, h, agg. -/
abbrev arrG_16 (c : Dev nD) : S1x1.Idx → EReal := V c main_v299
abbrev arrH_16 (c : Dev nD) : S100000x32.Idx → EReal := V c main_v279
abbrev arrAgg_16 (c : Dev nD) : S100000x32.Idx → EReal := V c main_v292

/-- The mix of whole arrays, index by index. -/
abbrev mixG_16 (g : S1x1.Idx → EReal) (h agg : S100000x32.Idx → EReal) : S100000x32.Idx → EReal :=
  fun i => g (ix2 0 0) * agg i + (Ideal.ofBits .f32 0x3F800000#32 - g (ix2 0 0)) * h i

/-- The windows' index maps, decided over the grid: the tiles of h and agg move with the output's tile, whose row
    block is the point itself; the weight's block never moves. -/
theorem idx_facts16 : ∀ t : Fin cfg16.N,
    win16_0.index t (0 : Fin 2) = win16_3.index t (0 : Fin 2) ∧ win16_0.index t (1 : Fin 2) = win16_3.index t (1 : Fin 2)
    ∧ win16_1.index t (0 : Fin 2) = win16_3.index t (0 : Fin 2) ∧ win16_1.index t (1 : Fin 2) = win16_3.index t (1 : Fin 2)
    ∧ win16_2.index t (0 : Fin 2) = 0 ∧ win16_2.index t (1 : Fin 2) = 0
    ∧ win16_3.index t (0 : Fin 2) = t.val ∧ win16_3.index t (1 : Fin 2) = 0 :=
  (by decide +kernel : ∀ t : Fin grid16.N, _)

/-- What point t writes back to the first output is block t of the mix of the three arrays. -/
theorem flushed16_3_eq (c : Dev nD) (t : Fin cfg16.N) :
    (dat16 V c).flushed 3 t = ((cfg16.win 3).blk t).view.read (Elt Ideal) (mixG_16 (arrG_16 V c) (arrH_16 V c) (arrAgg_16 V c)) := by
  show (cfg16.win 3).cut (grid16.coords t) ((dat16 V c).after 3 t) = _
  rw [after16_3, outs16_3]
  funext j
  refine (pay3_at_16 _ _ _ j).trans ?_
  obtain ⟨e0, e1, e2, e3, e4, e5, e6, e7⟩ := idx_facts16 t
  show arrG_16 V c (((cfg16.win 2).blk t).view.emb (ix2 0 0)) * arrAgg_16 V c (((cfg16.win 1).blk t).view.emb j)
      + (Ideal.ofBits .f32 0x3F800000#32 - arrG_16 V c (((cfg16.win 2).blk t).view.emb (ix2 0 0))) * arrH_16 V c (((cfg16.win 0).blk t).view.emb j)
    = arrG_16 V c (ix2 0 0) * arrAgg_16 V c (((cfg16.win 3).blk t).view.emb j)
      + (Ideal.ofBits .f32 0x3F800000#32 - arrG_16 V c (ix2 0 0)) * arrH_16 V c (((cfg16.win 3).blk t).view.emb j)
  have h2 : ((cfg16.win 2).blk t).view.emb (ix2 0 0) = ix2 0 0 := by
    funext a; apply Fin.ext
    match a with
    | ⟨0, _⟩ => show win16_2.index t (0 : Fin 2) * 1 + 1 * 0 = 0; omega
    | ⟨1, _⟩ => show win16_2.index t (1 : Fin 2) * 1 + 1 * 0 = 0; omega
  have h0 : ((cfg16.win 0).blk t).view.emb j = ((cfg16.win 3).blk t).view.emb j := by
    funext a; apply Fin.ext
    match a with
    | ⟨0, _⟩ => show win16_0.index t (0 : Fin 2) * 10000 + 1 * (j 0).val = win16_3.index t (0 : Fin 2) * 10000 + 1 * (j 0).val; omega
    | ⟨1, _⟩ => show win16_0.index t (1 : Fin 2) * 32 + 1 * (j 1).val = win16_3.index t (1 : Fin 2) * 32 + 1 * (j 1).val; omega
  have h1 : ((cfg16.win 1).blk t).view.emb j = ((cfg16.win 3).blk t).view.emb j := by
    funext a; apply Fin.ext
    match a with
    | ⟨0, _⟩ => show win16_1.index t (0 : Fin 2) * 10000 + 1 * (j 0).val = win16_3.index t (0 : Fin 2) * 10000 + 1 * (j 0).val; omega
    | ⟨1, _⟩ => show win16_1.index t (1 : Fin 2) * 32 + 1 * (j 1).val = win16_3.index t (1 : Fin 2) * 32 + 1 * (j 1).val; omega
  rw [h2, h0, h1]

/-- An index of the first output is in point t's block iff each coordinate is in the block's range on its axis. -/
theorem mem_blk16_3 (t : Fin cfg16.N) (i : S100000x32.Idx) :
    i ∈ ((cfg16.win 3).blk t).view.set ↔ ∀ a : Fin 2, win16_3.index t a * S10000x32.size a ≤ (i a).val
      ∧ (i a).val < win16_3.index t a * S10000x32.size a + S10000x32.size a := by
  show i ∈ ((View.whole main_v300_0).slice (win16_3.rect t)).set ↔ _
  rw [View.set_slice_whole, Rect.mem_set_unit]
  exact Iff.rfl

/-- Row r of the first output is in the block of point r / 10000, which writes it back. -/
theorem cover16_3 (i : S100000x32.Idx) :
    ∃ t : Fin cfg16.N, (cfg16.win 3).flush t = true ∧ i ∈ ((cfg16.win 3).blk t).view.set := by
  have hi0 : (i 0).val < 100000 := (i 0).isLt
  have hi1 : (i 1).val < 32 := (i 1).isLt
  have hN : cfg16.N = 10 := N_16
  obtain ⟨t, ht⟩ : ∃ t : Fin cfg16.N, t.val = (i 0).val / 10000 := ⟨⟨(i 0).val / 10000, by rw [hN]; omega⟩, rfl⟩
  refine ⟨t, flush16_3 t, ?_⟩
  rw [mem_blk16_3]
  obtain ⟨e0, e1, e2, e3, e4, e5, e6, e7⟩ := idx_facts16 t
  intro a
  match a with
  | ⟨0, _⟩ =>
    show win16_3.index t (0 : Fin 2) * 10000 ≤ (i 0).val ∧ (i 0).val < win16_3.index t (0 : Fin 2) * 10000 + 10000
    rw [e6, ht]; omega
  | ⟨1, _⟩ =>
    show win16_3.index t (1 : Fin 2) * 32 ≤ (i 1).val ∧ (i 1).val < win16_3.index t (1 : Fin 2) * 32 + 32
    rw [e7]; omega

/-- So the first output array ends holding the mix of the three arrays as the region finds them. -/
theorem final16_3 (c : Dev nD) : (dat16 V c).arrAt 3 cfg16.N = mixG_16 (arrG_16 V c) (arrH_16 V c) (arrAgg_16 V c) :=
  (dat16 V c).arrAt_eq_of_cover 3 (mixG_16 (arrG_16 V c) (arrH_16 V c) (arrAgg_16 V c)) (fun t _ => flushed16_3_eq V c t) cover16_3

/-! ## The two rows: sums carried across the grid -/

/-- The mixed tile of point t at row r, column q is the mix of the arrays at row t·10000 + r. -/
theorem tile_at_16 (c : Dev nD) (t : Fin cfg16.N) (r : Fin 10000) (q : Fin 32) (hr : t.val * 10000 + r.val < 100000) :
    (k16_pay3 (iblk16 V c 2 t) (iblk16 V c 0 t) (iblk16 V c 1 t) : S10000x32.Idx → EReal) (ix2 r q)
      = mixG_16 (arrG_16 V c) (arrH_16 V c) (arrAgg_16 V c) (ix2 ⟨t.val * 10000 + r.val, hr⟩ q) := by
  have e : (dat16 V c).flushed 3 t = k16_pay3 (iblk16 V c 2 t) (iblk16 V c 0 t) (iblk16 V c 1 t) := by
    show (cfg16.win 3).cut (grid16.coords t) ((dat16 V c).after 3 t) = _
    rw [after16_3, outs16_3]
    funext j
    rfl
  refine (congrFun e.symm (ix2 r q)).trans ?_
  refine (congrFun (flushed16_3_eq V c t) (ix2 r q)).trans ?_
  show mixG_16 (arrG_16 V c) (arrH_16 V c) (arrAgg_16 V c) (((cfg16.win 3).blk t).view.emb (ix2 r q)) = _
  refine congrArg _ ?_
  obtain ⟨e0, e1, e2, e3, e4, e5, e6, e7⟩ := idx_facts16 t
  funext a; apply Fin.ext
  match a with
  | ⟨0, _⟩ => show win16_3.index t (0 : Fin 2) * 10000 + 1 * r.val = t.val * 10000 + r.val; rw [e6]; omega
  | ⟨1, _⟩ => show win16_3.index t (1 : Fin 2) * 32 + 1 * q.val = q.val; rw [e7]; omega

/-- The sum of the mix down column q over the rows of tile k (zero past the grid). -/
def tileN_16 (c : Dev nD) (q : Fin 32) (k : ℕ) : EReal :=
  if h : k < 10 then ∑ r : Fin 10000, mixG_16 (arrG_16 V c) (arrH_16 V c) (arrAgg_16 V c) (ix2 ⟨k * 10000 + r.val, by omega⟩ q) else 0

/-- The column sum of point t's mixed tile is that sum. -/
theorem tile_sum_16 (c : Dev nD) (t : Fin cfg16.N) (q : Fin 32) :
    ∑ r : Fin 10000, (k16_pay3 (iblk16 V c 2 t) (iblk16 V c 0 t) (iblk16 V c 1 t) : S10000x32.Idx → EReal) (ix2 r q)
      = tileN_16 V c q t.val := by
  have hN : t.val < 10 := lt_of_lt_of_eq t.isLt (show cfg16.N = 10 from N_16)
  unfold tileN_16
  rw [dif_pos hN]
  exact Finset.sum_congr rfl fun r _ => tile_at_16 V c t r q (by have := r.isLt; omega)

/-- After point n the first row holds, at column q, the column sums of tiles 0 to n added in order. -/
theorem row4_inv_16 (c : Dev nD) (q : Fin 32) : ∀ (n : ℕ) (hn : n < cfg16.N),
    ((outsAt16 V c n hn).2.1 : S1x32.Idx → EReal) (ix2 0 q) = ∑ k ∈ Finset.range (n + 1), tileN_16 V c q k
  | 0, hn => by
    have e : (outsAt16 V c 0 hn).2.1 = k16_pay4 (iblk16 V c 2 ⟨0, hn⟩) (iblk16 V c 0 ⟨0, hn⟩) (iblk16 V c 1 ⟨0, hn⟩) (k16_pay1 (F := Ideal)) :=
      (congrArg (fun o => o.2.1) (outsAt16_A V c ⟨0, hn⟩ rfl)).trans (outA16_4 V c ⟨0, hn⟩ _)
    refine (congrFun e (ix2 0 q)).trans ?_
    refine (pay4_apply_16 _ _ _ _ q).trans ?_
    rw [pay1_apply_16, zero_add, tile_sum_16 V c ⟨0, hn⟩ q, Finset.sum_range_one]
  | n + 1, hn => by
    have hN : cfg16.N = 10 := N_16
    have hB : ¬(⟨n + 1, hn⟩ : Fin cfg16.N).val % 10 = 0 := by
      have : n + 1 < 10 := hN ▸ hn
      dsimp only; omega
    have e : (outsAt16 V c (n + 1) hn).2.1 = k16_pay4 (iblk16 V c 2 ⟨n + 1, hn⟩) (iblk16 V c 0 ⟨n + 1, hn⟩) (iblk16 V c 1 ⟨n + 1, hn⟩)
        (outsAt16 V c n (Nat.lt_of_succ_lt hn)).2.1 :=
      (congrArg (fun o => o.2.1) (outsAt16_B V c ⟨n + 1, hn⟩ hB)).trans (outB16_4 V c ⟨n + 1, hn⟩ _ _ _)
    refine (congrFun e (ix2 0 q)).trans ?_
    refine (pay4_apply_16 _ _ _ _ q).trans ?_
    rw [row4_inv_16 c q n (Nat.lt_of_succ_lt hn), tile_sum_16 V c ⟨n + 1, hn⟩ q, Finset.sum_range_succ _ (n + 1)]

/-- The two rows' index maps never move. -/
theorem idx_facts16_rows : ∀ t : Fin cfg16.N, win16_4.index t (0 : Fin 2) = 0 ∧ win16_4.index t (1 : Fin 2) = 0
    ∧ win16_5.index t (0 : Fin 2) = 0 ∧ win16_5.index t (1 : Fin 2) = 0 :=
  (by decide +kernel : ∀ t : Fin grid16.N, _)

/-- The first row as a function of the arrays: at column q, the column sums of the ten tiles. -/
def rowG4_16 (c : Dev nD) : S1x32.Idx → EReal := fun i => ∑ k ∈ Finset.range 10, tileN_16 V c (i 1) k

/-- What the last point writes back to row output 1 is the whole row of sums. -/
theorem flushed16_4_eq (c : Dev nD) (t : Fin cfg16.N) (hf : (cfg16.win 4).flush t = true) :
    (dat16 V c).flushed 4 t = ((cfg16.win 4).blk t).view.read (Elt Ideal) (rowG4_16 V c) := by
  have hN : t.val < 10 := lt_of_lt_of_eq t.isLt (show cfg16.N = 10 from N_16)
  have h9 : t.val = 9 := by have := (flush16_4 t).mp hf; omega
  show (cfg16.win 4).cut (grid16.coords t) ((dat16 V c).after 4 t) = _
  rw [after16_4]
  funext j
  obtain ⟨p, q, rfl⟩ : ∃ (p : Fin 1) (q : Fin 32), j = ix2 p q := ⟨j 0, j 1, eq_ix2 j⟩
  obtain rfl : p = 0 := Subsingleton.elim _ _
  show ((outsAt16 V c t.val t.isLt).2.1 : S1x32.Idx → EReal) (ix2 0 q) = rowG4_16 V c (((cfg16.win 4).blk t).view.emb (ix2 0 q))
  obtain ⟨e0, e1, e2, e3⟩ := idx_facts16_rows t
  have hemb : ((cfg16.win 4).blk t).view.emb (ix2 0 q) = ix2 0 q := by
    funext a; apply Fin.ext
    match a with
    | ⟨0, _⟩ => show win16_4.index t (0 : Fin 2) * 1 + 1 * 0 = 0; omega
    | ⟨1, _⟩ => show win16_4.index t (1 : Fin 2) * 32 + 1 * q.val = q.val; omega
  rw [hemb, row4_inv_16 V c q t.val t.isLt, h9]
  rfl

theorem mem_blk16_4 (t : Fin cfg16.N) (i : S1x32.Idx) :
    i ∈ ((cfg16.win 4).blk t).view.set ↔ ∀ a : Fin 2, win16_4.index t a * S1x32.size a ≤ (i a).val
      ∧ (i a).val < win16_4.index t a * S1x32.size a + S1x32.size a := by
  show i ∈ ((View.whole main_v300_1).slice (win16_4.rect t)).set ↔ _
  rw [View.set_slice_whole, Rect.mem_set_unit]
  exact Iff.rfl

/-- The last point's block is the whole row. -/
theorem cover16_4 (i : S1x32.Idx) :
    ∃ t : Fin cfg16.N, (cfg16.win 4).flush t = true ∧ i ∈ ((cfg16.win 4).blk t).view.set := by
  have hi0 : (i 0).val < 1 := (i 0).isLt
  have hi1 : (i 1).val < 32 := (i 1).isLt
  have hN : cfg16.N = 10 := N_16
  obtain ⟨t, ht⟩ : ∃ t : Fin cfg16.N, t.val = 9 := ⟨⟨9, by rw [hN]; omega⟩, rfl⟩
  refine ⟨t, (flush16_4 t).mpr (by rw [ht]), ?_⟩
  rw [mem_blk16_4]
  obtain ⟨e0, e1, e2, e3⟩ := idx_facts16_rows t
  intro a
  match a with
  | ⟨0, _⟩ =>
    show win16_4.index t (0 : Fin 2) * 1 ≤ (i 0).val ∧ (i 0).val < win16_4.index t (0 : Fin 2) * 1 + 1
    omega
  | ⟨1, _⟩ =>
    show win16_4.index t (1 : Fin 2) * 32 ≤ (i 1).val ∧ (i 1).val < win16_4.index t (1 : Fin 2) * 32 + 32
    omega

theorem final16_4 (c : Dev nD) : (dat16 V c).arrAt 4 cfg16.N = rowG4_16 V c :=
  (dat16 V c).arrAt_eq_of_cover 4 (rowG4_16 V c) (flushed16_4_eq V c) cover16_4

/-- The sum of the mix's squares down column q over the rows of tile k (zero past the grid). -/
def sqN_16 (c : Dev nD) (q : Fin 32) (k : ℕ) : EReal :=
  if h : k < 10 then ∑ r : Fin 10000, mixG_16 (arrG_16 V c) (arrH_16 V c) (arrAgg_16 V c) (ix2 ⟨k * 10000 + r.val, by omega⟩ q)
    * mixG_16 (arrG_16 V c) (arrH_16 V c) (arrAgg_16 V c) (ix2 ⟨k * 10000 + r.val, by omega⟩ q) else 0

theorem tile_sq_sum_16 (c : Dev nD) (t : Fin cfg16.N) (q : Fin 32) :
    ∑ r : Fin 10000, (k16_pay3 (iblk16 V c 2 t) (iblk16 V c 0 t) (iblk16 V c 1 t) : S10000x32.Idx → EReal) (ix2 r q)
        * (k16_pay3 (iblk16 V c 2 t) (iblk16 V c 0 t) (iblk16 V c 1 t) : S10000x32.Idx → EReal) (ix2 r q)
      = sqN_16 V c q t.val := by
  have hN : t.val < 10 := lt_of_lt_of_eq t.isLt (show cfg16.N = 10 from N_16)
  unfold sqN_16
  rw [dif_pos hN]
  exact Finset.sum_congr rfl fun r _ => by rw [tile_at_16 V c t r q (by have := r.isLt; omega)]

/-- After point n the second row holds, at column q, the sums of squares of tiles 0 to n added in order. -/
theorem row5_inv_16 (c : Dev nD) (q : Fin 32) : ∀ (n : ℕ) (hn : n < cfg16.N),
    ((outsAt16 V c n hn).2.2 : S1x32.Idx → EReal) (ix2 0 q) = ∑ k ∈ Finset.range (n + 1), sqN_16 V c q k
  | 0, hn => by
    have e : (outsAt16 V c 0 hn).2.2 = k16_pay5 (iblk16 V c 2 ⟨0, hn⟩) (iblk16 V c 0 ⟨0, hn⟩) (iblk16 V c 1 ⟨0, hn⟩) (k16_pay2 (F := Ideal)) :=
      (congrArg (fun o => o.2.2) (outsAt16_A V c ⟨0, hn⟩ rfl)).trans (outA16_5 V c ⟨0, hn⟩ _)
    refine (congrFun e (ix2 0 q)).trans ?_
    refine (pay5_apply_16 _ _ _ _ q).trans ?_
    rw [pay2_apply_16, zero_add, tile_sq_sum_16 V c ⟨0, hn⟩ q, Finset.sum_range_one]
  | n + 1, hn => by
    have hN : cfg16.N = 10 := N_16
    have hB : ¬(⟨n + 1, hn⟩ : Fin cfg16.N).val % 10 = 0 := by
      have : n + 1 < 10 := hN ▸ hn
      dsimp only; omega
    have e : (outsAt16 V c (n + 1) hn).2.2 = k16_pay5 (iblk16 V c 2 ⟨n + 1, hn⟩) (iblk16 V c 0 ⟨n + 1, hn⟩) (iblk16 V c 1 ⟨n + 1, hn⟩)
        (outsAt16 V c n (Nat.lt_of_succ_lt hn)).2.2 :=
      (congrArg (fun o => o.2.2) (outsAt16_B V c ⟨n + 1, hn⟩ hB)).trans (outB16_5 V c ⟨n + 1, hn⟩ _ _ _)
    refine (congrFun e (ix2 0 q)).trans ?_
    refine (pay5_apply_16 _ _ _ _ q).trans ?_
    rw [row5_inv_16 c q n (Nat.lt_of_succ_lt hn), tile_sq_sum_16 V c ⟨n + 1, hn⟩ q, Finset.sum_range_succ _ (n + 1)]

/-- The second row as a function of the arrays: at column q, the sums of squares of the ten tiles. -/
def rowG5_16 (c : Dev nD) : S1x32.Idx → EReal := fun i => ∑ k ∈ Finset.range 10, sqN_16 V c (i 1) k

/-- What the last point writes back to row output 2 is the whole row of sums. -/
theorem flushed16_5_eq (c : Dev nD) (t : Fin cfg16.N) (hf : (cfg16.win 5).flush t = true) :
    (dat16 V c).flushed 5 t = ((cfg16.win 5).blk t).view.read (Elt Ideal) (rowG5_16 V c) := by
  have hN : t.val < 10 := lt_of_lt_of_eq t.isLt (show cfg16.N = 10 from N_16)
  have h9 : t.val = 9 := by have := (flush16_5 t).mp hf; omega
  show (cfg16.win 5).cut (grid16.coords t) ((dat16 V c).after 5 t) = _
  rw [after16_5]
  funext j
  obtain ⟨p, q, rfl⟩ : ∃ (p : Fin 1) (q : Fin 32), j = ix2 p q := ⟨j 0, j 1, eq_ix2 j⟩
  obtain rfl : p = 0 := Subsingleton.elim _ _
  show ((outsAt16 V c t.val t.isLt).2.2 : S1x32.Idx → EReal) (ix2 0 q) = rowG5_16 V c (((cfg16.win 5).blk t).view.emb (ix2 0 q))
  obtain ⟨e0, e1, e2, e3⟩ := idx_facts16_rows t
  have hemb : ((cfg16.win 5).blk t).view.emb (ix2 0 q) = ix2 0 q := by
    funext a; apply Fin.ext
    match a with
    | ⟨0, _⟩ => show win16_5.index t (0 : Fin 2) * 1 + 1 * 0 = 0; omega
    | ⟨1, _⟩ => show win16_5.index t (1 : Fin 2) * 32 + 1 * q.val = q.val; omega
  rw [hemb, row5_inv_16 V c q t.val t.isLt, h9]
  rfl

theorem mem_blk16_5 (t : Fin cfg16.N) (i : S1x32.Idx) :
    i ∈ ((cfg16.win 5).blk t).view.set ↔ ∀ a : Fin 2, win16_5.index t a * S1x32.size a ≤ (i a).val
      ∧ (i a).val < win16_5.index t a * S1x32.size a + S1x32.size a := by
  show i ∈ ((View.whole main_v300_2).slice (win16_5.rect t)).set ↔ _
  rw [View.set_slice_whole, Rect.mem_set_unit]
  exact Iff.rfl

/-- The last point's block is the whole row. -/
theorem cover16_5 (i : S1x32.Idx) :
    ∃ t : Fin cfg16.N, (cfg16.win 5).flush t = true ∧ i ∈ ((cfg16.win 5).blk t).view.set := by
  have hi0 : (i 0).val < 1 := (i 0).isLt
  have hi1 : (i 1).val < 32 := (i 1).isLt
  have hN : cfg16.N = 10 := N_16
  obtain ⟨t, ht⟩ : ∃ t : Fin cfg16.N, t.val = 9 := ⟨⟨9, by rw [hN]; omega⟩, rfl⟩
  refine ⟨t, (flush16_5 t).mpr (by rw [ht]), ?_⟩
  rw [mem_blk16_5]
  obtain ⟨e0, e1, e2, e3⟩ := idx_facts16_rows t
  intro a
  match a with
  | ⟨0, _⟩ =>
    show win16_5.index t (0 : Fin 2) * 1 ≤ (i 0).val ∧ (i 0).val < win16_5.index t (0 : Fin 2) * 1 + 1
    omega
  | ⟨1, _⟩ =>
    show win16_5.index t (1 : Fin 2) * 32 ≤ (i 1).val ∧ (i 1).val < win16_5.index t (1 : Fin 2) * 32 + 32
    omega

theorem final16_5 (c : Dev nD) : (dat16 V c).arrAt 5 cfg16.N = rowG5_16 V c :=
  (dat16 V c).arrAt_eq_of_cover 5 (rowG5_16 V c) (flushed16_5_eq V c) cover16_5

end Blocks

/-! ## The region's outputs, as functions of its entry contents -/

/-- The mixed value at row p, column q of the arrays the region finds. -/
abbrev xm16 (c : Dev nD) (p : Fin 100000) (q : Fin 32) : EReal :=
  mixG_16 (W37 (F := Ideal) m c main_v299) (W37 (F := Ideal) m c main_v279) (W37 (F := Ideal) m c main_v292) (ix2 p q)

/-- The first output holds the mixed value at every row and column. -/
theorem O16_0_eq (c : Dev nD) (p : Fin 100000) (q : Fin 32) :
    (O16_0 (F := Ideal) m c : S100000x32.Idx → EReal) (ix2 p q) = xm16 m c p q := by
  unfold O16_0
  rw [final16_3 (E37 m) c]

/-- The first row holds, at column q, the sum of the mixed value over all 100000 rows. -/
theorem O16_1_eq (c : Dev nD) (q : Fin 32) :
    (O16_1 (F := Ideal) m c : S1x32.Idx → EReal) (ix2 0 q)
      = ∑ t : Fin 10, ∑ r : Fin 10000, xm16 m c ⟨t.val * 10000 + r.val, by omega⟩ q := by
  unfold O16_1
  rw [final16_4 (E37 m) c]
  show ∑ k ∈ Finset.range 10, tileN_16 (E37 m) c q k = _
  rw [← Fin.sum_univ_eq_sum_range (fun k => tileN_16 (E37 m) c q k) 10]
  refine Finset.sum_congr rfl fun t _ => ?_
  unfold tileN_16
  rw [dif_pos t.isLt]

/-- The second row holds, at column q, the sum of the mixed value's square over all 100000 rows. -/
theorem O16_2_eq (c : Dev nD) (q : Fin 32) :
    (O16_2 (F := Ideal) m c : S1x32.Idx → EReal) (ix2 0 q)
      = ∑ t : Fin 10, ∑ r : Fin 10000, xm16 m c ⟨t.val * 10000 + r.val, by omega⟩ q * xm16 m c ⟨t.val * 10000 + r.val, by omega⟩ q := by
  unfold O16_2
  rw [final16_5 (E37 m) c]
  show ∑ k ∈ Finset.range 10, sqN_16 (E37 m) c q k = _
  rw [← Fin.sum_univ_eq_sum_range (fun k => sqN_16 (E37 m) c q k) 10]
  refine Finset.sum_congr rfl fun t _ => ?_
  unfold sqN_16
  rw [dif_pos t.isLt]

end Cert.KernelIdeal.Body

end
-- ==== Proof.KIValBn17.lean ====
/-
  Region 17 normalises a 100000×32 array tile by tile: at each entry (p, q) it takes x(p, q), subtracts the mean row at q,
  multiplies by the reciprocal square root of the variance row at q cut off below at 0 and shifted by a small constant,
  multiplies by the scale row at q, adds the bias row at q, and cuts the result off below at 0. The four rows are the same
  at every tile, and the ten tiles of 10000 rows fill the array, so the array the region leaves is that one function of the
  region's entry contents, index by index.
-/
import proofs.«140713_j1864015806535_2_alg».proof.Proof.KIFrameBase
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Body

open Cert.KernelIdeal Cert.KernelIdeal.Gen Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- The zero offsets of a whole-buffer rectangle, however spelt. -/
theorem zeroOff17 : (![0, 0] : Fin 2 → Nat) = fun _ => 0 := funext fun a => by fin_cases a <;> rfl

/-- The reciprocal square root of a vector reads elementwise. -/
theorem rsqrt_at17 {s : Shape} {φ : FTy} (a : FVec Ideal s φ) (i : s.Idx) : rsqrt a i = Ideal.rsqrt (a i) := rfl

/-- The row index (0, q) under an index (p, q) of the array. -/
abbrev rowOf17 (i : S100000x32.Idx) : S1x32.Idx := ix2 (0 : Fin 1) (⟨(i 1).val, idx2_lt1 i⟩ : Fin 32)

/-- What the region leaves, as one function of the array it normalises and of the four rows: at (p, q) the entry less the
    mean at q, times the reciprocal square root of the variance at q cut off below at 0 plus the small constant, times the
    scale at q, plus the bias at q, cut off below at 0. -/
def bnRelu17 (X : S100000x32.Idx → EReal) (mean var scale bias : S1x32.Idx → EReal) : S100000x32.Idx → EReal :=
  fun i => max ((((X i - mean (rowOf17 i)) * Ideal.rsqrt (max (var (rowOf17 i)) 0 + Ideal.ofBits .f32 0x3727C5AC#32))
              * scale (rowOf17 i) + bias (rowOf17 i))) 0

/-- That function at explicit coordinates. -/
theorem bnRelu17_apply (X : S100000x32.Idx → EReal) (mean var scale bias : S1x32.Idx → EReal) (p : Fin 100000) (q : Fin 32) :
    bnRelu17 X mean var scale bias (ix2 p q)
      = max ((((X (ix2 p q) - mean (ix2 0 q)) * Ideal.rsqrt (max (var (ix2 0 q)) 0 + Ideal.ofBits .f32 0x3727C5AC#32))
              * scale (ix2 0 q) + bias (ix2 0 q))) 0 := rfl

/-- The body's arithmetic at entry (p, q) of a tile: the rows are read at (0, q). -/
theorem bnPay17_apply (x : Vec Ideal S10000x32 .f32) (mean var scale bias : Vec Ideal S1x32 .f32) (p : Fin 10000) (q : Fin 32) :
    (k17_pay1 x mean var scale bias : S10000x32.Idx → EReal) (ix2 p q)
      = max ((((x (ix2 p q) - mean (ix2 0 q)) * Ideal.rsqrt (max (var (ix2 0 q)) 0 + Ideal.ofBits .f32 0x3727C5AC#32))
              * scale (ix2 0 q) + bias (ix2 0 q))) 0 := by
  unfold k17_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply,
    rsqrt_at17, addf_apply, maximumf_apply, broadcast_apply, broadcast_apply]
  simp only [Ideal.ofBits_def, Ideal.ofBits_zero_f32]

/-- The printed index maps over the grid: the array's window and the output's sit at block (t, 0), the four rows' at (0, 0). -/
theorem idx_facts17 : ∀ t : Fin cfg17.N, win17_0.index t (0 : Fin 2) = t.val ∧ win17_0.index t (1 : Fin 2) = 0
    ∧ win17_5.index t (0 : Fin 2) = t.val ∧ win17_5.index t (1 : Fin 2) = 0
    ∧ win17_1.index t (0 : Fin 2) = 0 ∧ win17_1.index t (1 : Fin 2) = 0
    ∧ win17_2.index t (0 : Fin 2) = 0 ∧ win17_2.index t (1 : Fin 2) = 0
    ∧ win17_3.index t (0 : Fin 2) = 0 ∧ win17_3.index t (1 : Fin 2) = 0
    ∧ win17_4.index t (0 : Fin 2) = 0 ∧ win17_4.index t (1 : Fin 2) = 0 :=
  (by decide +kernel : ∀ t : Fin grid17.N, _)

/-- Entry (p, q) of point t's block of the array read is the array's entry (t·10000 + p, q). -/
theorem emb17_0 (t : Fin cfg17.N) (p : Fin 10000) (q : Fin 32) (P : Fin 100000) (hP : P.val = t.val * 10000 + p.val) :
    ((cfg17.win 0).blk t).view.emb (ix2 p q) = ix2 P q := by
  obtain ⟨e0, e1, -⟩ := idx_facts17 t
  funext a; apply Fin.ext
  match a with
  | ⟨0, _⟩ => show win17_0.index t (0 : Fin 2) * 10000 + 1 * p.val = P.val; rw [e0, hP]; omega
  | ⟨1, _⟩ => show win17_0.index t (1 : Fin 2) * 32 + 1 * q.val = q.val; rw [e1]; omega

/-- The same for the output's block. -/
theorem emb17_5 (t : Fin cfg17.N) (p : Fin 10000) (q : Fin 32) (P : Fin 100000) (hP : P.val = t.val * 10000 + p.val) :
    ((cfg17.win 5).blk t).view.emb (ix2 p q) = ix2 P q := by
  obtain ⟨-, -, e0, e1, -⟩ := idx_facts17 t
  funext a; apply Fin.ext
  match a with
  | ⟨0, _⟩ => show win17_5.index t (0 : Fin 2) * 10000 + 1 * p.val = P.val; rw [e0, hP]; omega
  | ⟨1, _⟩ => show win17_5.index t (1 : Fin 2) * 32 + 1 * q.val = q.val; rw [e1]; omega

/-- Each row's block is the row itself at every point. -/
theorem emb17_1 (t : Fin cfg17.N) (q : Fin 32) : ((cfg17.win 1).blk t).view.emb (ix2 (0 : Fin 1) q) = ix2 (0 : Fin 1) q := by
  obtain ⟨-, -, -, -, e0, e1, -⟩ := idx_facts17 t
  funext a; apply Fin.ext
  match a with
  | ⟨0, _⟩ => show win17_1.index t (0 : Fin 2) * 1 + 1 * 0 = 0; rw [e0]
  | ⟨1, _⟩ => show win17_1.index t (1 : Fin 2) * 32 + 1 * q.val = q.val; rw [e1]; omega
theorem emb17_2 (t : Fin cfg17.N) (q : Fin 32) : ((cfg17.win 2).blk t).view.emb (ix2 (0 : Fin 1) q) = ix2 (0 : Fin 1) q := by
  obtain ⟨-, -, -, -, -, -, e0, e1, -⟩ := idx_facts17 t
  funext a; apply Fin.ext
  match a with
  | ⟨0, _⟩ => show win17_2.index t (0 : Fin 2) * 1 + 1 * 0 = 0; rw [e0]
  | ⟨1, _⟩ => show win17_2.index t (1 : Fin 2) * 32 + 1 * q.val = q.val; rw [e1]; omega
theorem emb17_3 (t : Fin cfg17.N) (q : Fin 32) : ((cfg17.win 3).blk t).view.emb (ix2 (0 : Fin 1) q) = ix2 (0 : Fin 1) q := by
  obtain ⟨-, -, -, -, -, -, -, -, e0, e1, -⟩ := idx_facts17 t
  funext a; apply Fin.ext
  match a with
  | ⟨0, _⟩ => show win17_3.index t (0 : Fin 2) * 1 + 1 * 0 = 0; rw [e0]
  | ⟨1, _⟩ => show win17_3.index t (1 : Fin 2) * 32 + 1 * q.val = q.val; rw [e1]; omega
theorem emb17_4 (t : Fin cfg17.N) (q : Fin 32) : ((cfg17.win 4).blk t).view.emb (ix2 (0 : Fin 1) q) = ix2 (0 : Fin 1) q := by
  obtain ⟨-, -, -, -, -, -, -, -, -, -, e0, e1⟩ := idx_facts17 t
  funext a; apply Fin.ext
  match a with
  | ⟨0, _⟩ => show win17_4.index t (0 : Fin 2) * 1 + 1 * 0 = 0; rw [e0]
  | ⟨1, _⟩ => show win17_4.index t (1 : Fin 2) * 32 + 1 * q.val = q.val; rw [e1]; omega

variable (V : (c : Dev nD) → (b : Ref sig .tc) → Buf (Elt Ideal) ((c : Thread nD τ).loc b))

/-- Point t's block of the array read, at (p, q): the array at (t·10000 + p, q). -/
theorem iblk17_0_at (c : Dev nD) (t : Fin cfg17.N) (p : Fin 10000) (q : Fin 32) (P : Fin 100000) (hP : P.val = t.val * 10000 + p.val) :
    (iblk17 V c 0 t : S10000x32.Idx → EReal) (ix2 p q) = (V c (Pipeline.arrRef spec17 0) : S100000x32.Idx → EReal) (ix2 P q) := by
  unfold iblk17
  rw [View.read_apply, emb17_0 t p q P hP]
  rfl
/-- Each row's block at (0, q): the row at (0, q). -/
theorem iblk17_1_at (c : Dev nD) (t : Fin cfg17.N) (q : Fin 32) :
    (iblk17 V c 1 t : S1x32.Idx → EReal) (ix2 0 q) = (V c (Pipeline.arrRef spec17 1) : S1x32.Idx → EReal) (ix2 0 q) := by
  unfold iblk17
  rw [View.read_apply, emb17_1 t q]
  rfl
theorem iblk17_2_at (c : Dev nD) (t : Fin cfg17.N) (q : Fin 32) :
    (iblk17 V c 2 t : S1x32.Idx → EReal) (ix2 0 q) = (V c (Pipeline.arrRef spec17 2) : S1x32.Idx → EReal) (ix2 0 q) := by
  unfold iblk17
  rw [View.read_apply, emb17_2 t q]
  rfl
theorem iblk17_3_at (c : Dev nD) (t : Fin cfg17.N) (q : Fin 32) :
    (iblk17 V c 3 t : S1x32.Idx → EReal) (ix2 0 q) = (V c (Pipeline.arrRef spec17 3) : S1x32.Idx → EReal) (ix2 0 q) := by
  unfold iblk17
  rw [View.read_apply, emb17_3 t q]
  rfl
theorem iblk17_4_at (c : Dev nD) (t : Fin cfg17.N) (q : Fin 32) :
    (iblk17 V c 4 t : S1x32.Idx → EReal) (ix2 0 q) = (V c (Pipeline.arrRef spec17 4) : S1x32.Idx → EReal) (ix2 0 q) := by
  unfold iblk17
  rw [View.read_apply, emb17_4 t q]
  rfl
/-- Point t's block of a whole-array function read back at (p, q): the function at (t·10000 + p, q). -/
theorem read_blk17_5_at (G : S100000x32.Idx → EReal) (t : Fin cfg17.N) (p : Fin 10000) (q : Fin 32) (P : Fin 100000) (hP : P.val = t.val * 10000 + p.val) :
    (((cfg17.win 5).blk t).view.read (Elt Ideal) G : S10000x32.Idx → EReal) (ix2 p q) = G (ix2 P q) := by
  rw [View.read_apply, emb17_5 t p q P hP]
  rfl

set_option maxHeartbeats 1000000 in
/-- What point t writes back is its block of that one function of the region's entry contents. -/
theorem flushed17_5_eq (c : Dev nD) (t : Fin cfg17.N) :
    (dat17 V c).flushed 5 t = ((cfg17.win 5).blk t).view.read (Elt Ideal)
      (bnRelu17 (V c (Pipeline.arrRef spec17 0)) (V c (Pipeline.arrRef spec17 1)) (V c (Pipeline.arrRef spec17 2)) (V c (Pipeline.arrRef spec17 3)) (V c (Pipeline.arrRef spec17 4))) := by
  show (cfg17.win 5).cut (grid17.coords t) ((dat17 V c).after 5 t) = _
  rw [after17_5]
  unfold out17_5
  rw [View.canon_unit_zero zeroOff17]
  simp only [View.ld_unit_zero (S := S10000x32) zeroOff17, View.ld_unit_zero (S := S1x32) zeroOff17]
  funext j
  obtain ⟨p, q, rfl⟩ : ∃ (p : Fin 10000) (q : Fin 32), j = ix2 p q := ⟨j 0, j 1, eq_ix2 j⟩
  have ht : t.val < 10 := lt_of_lt_of_eq t.isLt N_17
  have hP : t.val * 10000 + p.val < 100000 := by omega
  refine (bnPay17_apply (iblk17 V c 0 t) (iblk17 V c 1 t) (iblk17 V c 2 t) (iblk17 V c 3 t) (iblk17 V c 4 t) p q).trans ?_
  refine Eq.trans ?_ (read_blk17_5_at _ t p q ⟨t.val * 10000 + p.val, hP⟩ rfl).symm
  rw [bnRelu17_apply, iblk17_0_at V c t p q ⟨t.val * 10000 + p.val, hP⟩ rfl, iblk17_1_at V c t q, iblk17_2_at V c t q, iblk17_3_at V c t q, iblk17_4_at V c t q]

/-- An index of the array is in point t's block iff each coordinate is in the block's range on its axis. -/
theorem mem_blk17_5 (t : Fin cfg17.N) (i : S100000x32.Idx) :
    i ∈ ((cfg17.win 5).blk t).view.set ↔ ∀ a : Fin 2, win17_5.index t a * S10000x32.size a ≤ (i a).val ∧ (i a).val < win17_5.index t a * S10000x32.size a + S10000x32.size a := by
  show i ∈ ((View.whole main_v309).slice (win17_5.rect t)).set ↔ _
  rw [View.set_slice_whole, Rect.mem_set_unit]
  exact Iff.rfl

/-- Row r of the array is in the block of point r / 10000: the ten blocks fill the array. -/
theorem covered17_5 (i : S100000x32.Idx) : ∃ t : Fin cfg17.N, (cfg17.win 5).flush t = true ∧ i ∈ ((cfg17.win 5).blk t).view.set := by
  have hi0 : (i 0).val < 100000 := idx2_lt0 i
  have hi1 : (i 1).val < 32 := idx2_lt1 i
  have hN : grid17.N = 10 := N_17
  have hlt : (i 0).val / 10000 < grid17.N := by rw [hN]; omega
  obtain ⟨-, -, e0, e1, -⟩ := idx_facts17 ⟨(i 0).val / 10000, hlt⟩
  refine ⟨⟨(i 0).val / 10000, hlt⟩, flush17_5 _, ?_⟩
  rw [mem_blk17_5]
  intro a
  match a with
  | ⟨0, _⟩ =>
    show win17_5.index ⟨(i 0).val / 10000, hlt⟩ (0 : Fin 2) * 10000 ≤ (i 0).val ∧ (i 0).val < win17_5.index ⟨(i 0).val / 10000, hlt⟩ (0 : Fin 2) * 10000 + 10000
    rw [e0]; show (i 0).val / 10000 * 10000 ≤ (i 0).val ∧ (i 0).val < (i 0).val / 10000 * 10000 + 10000; omega
  | ⟨1, _⟩ =>
    show win17_5.index ⟨(i 0).val / 10000, hlt⟩ (1 : Fin 2) * 32 ≤ (i 1).val ∧ (i 1).val < win17_5.index ⟨(i 0).val / 10000, hlt⟩ (1 : Fin 2) * 32 + 32
    rw [e1]; omega

/-- The array the region leaves is that function of its entry contents. -/
theorem final17_5 (c : Dev nD) : (dat17 V c).arrAt 5 cfg17.N
    = bnRelu17 (V c (Pipeline.arrRef spec17 0)) (V c (Pipeline.arrRef spec17 1)) (V c (Pipeline.arrRef spec17 2)) (V c (Pipeline.arrRef spec17 3)) (V c (Pipeline.arrRef spec17 4)) :=
  (dat17 V c).arrAt_eq_of_cover 5 _ (fun t _ => flushed17_5_eq V c t) covered17_5

/-- Region 17's output as one function of the buffers at the region's entry. -/
theorem O17_0_fun (c : Dev nD) :
    O17_0 (F := Ideal) m c = bnRelu17 (W39 (F := Ideal) m c main_v300_0) (W39 (F := Ideal) m c main_v302) (W39 (F := Ideal) m c main_v306)
      (W39 (F := Ideal) m c main_v307) (W39 (F := Ideal) m c main_v308) :=
  final17_5 (E39 m) c

/-- Region 17's output at (p, q): the entry of main_v300_0 less the mean row, times the reciprocal square root of the
    variance row cut off at 0 and shifted, times the scale row, plus the bias row, cut off at 0; rows read at (0, q). -/
theorem O17_0_eq (c : Dev nD) (p : Fin 100000) (q : Fin 32) :
    (O17_0 (F := Ideal) m c : S100000x32.Idx → EReal) (ix2 p q)
      = bnRelu17 (W39 (F := Ideal) m c main_v300_0) (W39 (F := Ideal) m c main_v302) (W39 (F := Ideal) m c main_v306)
          (W39 (F := Ideal) m c main_v307) (W39 (F := Ideal) m c main_v308) (ix2 p q) :=
  congrFun (O17_0_fun m c) (ix2 p q)

/-- The same with the five entry buffers named: for arrays equal to them, the output at (p, q) written out. -/
theorem O17_0_at (c : Dev nD) (X : S100000x32.Idx → EReal) (mean var scale bias : S1x32.Idx → EReal)
    (hX : W39 (F := Ideal) m c main_v300_0 = X) (hmean : W39 (F := Ideal) m c main_v302 = mean) (hvar : W39 (F := Ideal) m c main_v306 = var)
    (hscale : W39 (F := Ideal) m c main_v307 = scale) (hbias : W39 (F := Ideal) m c main_v308 = bias) (p : Fin 100000) (q : Fin 32) :
    (O17_0 (F := Ideal) m c : S100000x32.Idx → EReal) (ix2 p q)
      = max ((((X (ix2 p q) - mean (ix2 0 q)) * Ideal.rsqrt (max (var (ix2 0 q)) 0 + Ideal.ofBits .f32 0x3727C5AC#32))
              * scale (ix2 0 q) + bias (ix2 0 q))) 0 := by
  rw [O17_0_eq, hX, hmean, hvar, hscale, hbias, bnRelu17_apply]

end Cert.KernelIdeal.Body

end
-- ==== Proof.KIRealRel2.lean ====
/-
  The arrays of relation 2 are real.

  Under the precondition every float input is real, entry by entry. Relation 2's first dense layer x·W + b is then real;
  its degree normalisers rsqrt(max(deg, 1)) are real, so its edge norms are; the aggregated array (an accumulating scatter
  into zeros of gathered rows of the layer scaled by the edge norms) is real; the mixing weight is an entry of a float
  input; the mixed array g·agg + (1 - g)·h is real, and so are its two accumulated rows (finite sums of reals and of
  products of reals), the mean and variance rows (quotients by 100000 and a difference), the scale and bias rows (rows
  of float inputs), and the normalised array max(((x − mean)·rsqrt(max(var, 0) + ε))·scale + bias, 0), ε a positive real.
  The second layer repeats the argument from the normalised array of the first.
-/
import proofs.«140713_j1864015806535_2_alg».proof.Proof.KIFrameBase
import proofs.«140713_j1864015806535_2_alg».proof.Proof.KIValDense12
import proofs.«140713_j1864015806535_2_alg».proof.Proof.KIValMix13
import proofs.«140713_j1864015806535_2_alg».proof.Proof.KIValBn14
import proofs.«140713_j1864015806535_2_alg».proof.Proof.KIValDense15
import proofs.«140713_j1864015806535_2_alg».proof.Proof.KIValMix16
import proofs.«140713_j1864015806535_2_alg».proof.Proof.KIValBn17
import proofs.«140713_j1864015806535_2_alg».proof.Proof.KIPreReal
import proofs.«140713_j1864015806535_2_alg».proof.Proof.LibRealArrays
import Idealize.ShloMosaic.Lib.StableHlo.Run

set_option maxRecDepth 65536

noncomputable section

namespace Cert.KernelIdeal.Body

open Cert.KernelIdeal Cert.KernelIdeal.Gen Idealize.ShloMosaic Idealize.ShloMosaic.TcCoe Idealize.ShloMosaic.ValueIdx Idealize.SL.Sem
open Idealize.ShloMosaic.StableHlo
open Idealize.ShloMosaic.Pipeline (Dat Cfg Window)
open Cert.LibRealArrays Cert.LibRealEntries Cert.LibAffineStage

variable (m : (ℓ : Loc nD τ sig) → Buf (Elt Ideal) ℓ)

/-! ## Argument arrays no item has written: as launched -/

theorem rl2_W26_arg3 (c : Dev nD) :
    W26 (F := Ideal) m c main_arg3 = m ((c.tc : Thread nD τ).loc main_arg3) :=
  (congrFun (hV26 m c) _).symm.trans <|
    (GenP.V26_of m (outs m) c main_arg3 (by decide)).trans <|
    (GenP.V25_of m (outs m) c main_arg3 (by decide)).trans <|
    (GenP.V24_of m (outs m) c main_arg3 (by decide)).trans <|
    (GenP.V23_of m (outs m) c main_arg3 (by decide)).trans <|
    (GenP.V22_of m (outs m) c main_arg3 (by decide)).trans <|
    (GenP.V21_of m (outs m) c main_arg3 (by decide)).trans <|
    (GenP.V20_of m (outs m) c main_arg3 (by decide)).trans <|
    (GenP.V19_of m (outs m) c main_arg3 (by decide)).trans <|
    (GenP.V18_of m (outs m) c main_arg3 (by decide)).trans <|
    (GenP.V17_of m (outs m) c main_arg3 (by decide)).trans <|
    (GenP.V16_of m (outs m) c main_arg3 (by decide)).trans <|
    (GenP.V15_of m (outs m) c main_arg3 (by decide)).trans <|
    (GenP.V14_of m (outs m) c main_arg3 (by decide)).trans <|
    (GenP.V13_of m (outs m) c main_arg3 (by decide)).trans <|
    (GenP.V12_of m (outs m) c main_arg3 (by decide)).trans <|
    (GenP.V11_of m (outs m) c main_arg3 (by decide)).trans <|
    (GenP.V10_of m (outs m) c main_arg3 (by decide)).trans <|
    (GenP.V9_of m (outs m) c main_arg3 (by decide)).trans <|
    (GenP.V8_of m (outs m) c main_arg3 (by decide)).trans <|
    (GenP.V7_of m (outs m) c main_arg3 (by decide)).trans <|
    (GenP.V6_of m (outs m) c main_arg3 (by decide)).trans <|
    (GenP.V5_of m (outs m) c main_arg3 (by decide)).trans <|
    (GenP.V4_of m (outs m) c main_arg3 (by decide)).trans <|
    (GenP.V3_of m (outs m) c main_arg3 (by decide)).trans <|
    (GenP.V2_of m (outs m) c main_arg3 (by decide)).trans <|
    (GenP.V1_of m c main_arg3 (by decide)).trans rfl
theorem rl2_W26_arg4 (c : Dev nD) :
    W26 (F := Ideal) m c main_arg4 = m ((c.tc : Thread nD τ).loc main_arg4) :=
  (congrFun (hV26 m c) _).symm.trans <|
    (GenP.V26_of m (outs m) c main_arg4 (by decide)).trans <|
    (GenP.V25_of m (outs m) c main_arg4 (by decide)).trans <|
    (GenP.V24_of m (outs m) c main_arg4 (by decide)).trans <|
    (GenP.V23_of m (outs m) c main_arg4 (by decide)).trans <|
    (GenP.V22_of m (outs m) c main_arg4 (by decide)).trans <|
    (GenP.V21_of m (outs m) c main_arg4 (by decide)).trans <|
    (GenP.V20_of m (outs m) c main_arg4 (by decide)).trans <|
    (GenP.V19_of m (outs m) c main_arg4 (by decide)).trans <|
    (GenP.V18_of m (outs m) c main_arg4 (by decide)).trans <|
    (GenP.V17_of m (outs m) c main_arg4 (by decide)).trans <|
    (GenP.V16_of m (outs m) c main_arg4 (by decide)).trans <|
    (GenP.V15_of m (outs m) c main_arg4 (by decide)).trans <|
    (GenP.V14_of m (outs m) c main_arg4 (by decide)).trans <|
    (GenP.V13_of m (outs m) c main_arg4 (by decide)).trans <|
    (GenP.V12_of m (outs m) c main_arg4 (by decide)).trans <|
    (GenP.V11_of m (outs m) c main_arg4 (by decide)).trans <|
    (GenP.V10_of m (outs m) c main_arg4 (by decide)).trans <|
    (GenP.V9_of m (outs m) c main_arg4 (by decide)).trans <|
    (GenP.V8_of m (outs m) c main_arg4 (by decide)).trans <|
    (GenP.V7_of m (outs m) c main_arg4 (by decide)).trans <|
    (GenP.V6_of m (outs m) c main_arg4 (by decide)).trans <|
    (GenP.V5_of m (outs m) c main_arg4 (by decide)).trans <|
    (GenP.V4_of m (outs m) c main_arg4 (by decide)).trans <|
    (GenP.V3_of m (outs m) c main_arg4 (by decide)).trans <|
    (GenP.V2_of m (outs m) c main_arg4 (by decide)).trans <|
    (GenP.V1_of m c main_arg4 (by decide)).trans rfl
theorem rl2_W29_arg0 (c : Dev nD) :
    W29 (F := Ideal) m c main_arg0 = m ((c.tc : Thread nD τ).loc main_arg0) :=
  (congrFun (hV29 m c) _).symm.trans <|
    (GenP.V29_of m (outs m) c main_arg0 (by decide)).trans <|
    (GenP.V28_of m (outs m) c main_arg0 (by decide)).trans <|
    (GenP.V27_of m (outs m) c main_arg0 (by decide)).trans <|
    (GenP.V26_of m (outs m) c main_arg0 (by decide)).trans <|
    (GenP.V25_of m (outs m) c main_arg0 (by decide)).trans <|
    (GenP.V24_of m (outs m) c main_arg0 (by decide)).trans <|
    (GenP.V23_of m (outs m) c main_arg0 (by decide)).trans <|
    (GenP.V22_of m (outs m) c main_arg0 (by decide)).trans <|
    (GenP.V21_of m (outs m) c main_arg0 (by decide)).trans <|
    (GenP.V20_of m (outs m) c main_arg0 (by decide)).trans <|
    (GenP.V19_of m (outs m) c main_arg0 (by decide)).trans <|
    (GenP.V18_of m (outs m) c main_arg0 (by decide)).trans <|
    (GenP.V17_of m (outs m) c main_arg0 (by decide)).trans <|
    (GenP.V16_of m (outs m) c main_arg0 (by decide)).trans <|
    (GenP.V15_of m (outs m) c main_arg0 (by decide)).trans <|
    (GenP.V14_of m (outs m) c main_arg0 (by decide)).trans <|
    (GenP.V13_of m (outs m) c main_arg0 (by decide)).trans <|
    (GenP.V12_of m (outs m) c main_arg0 (by decide)).trans <|
    (GenP.V11_of m (outs m) c main_arg0 (by decide)).trans <|
    (GenP.V10_of m (outs m) c main_arg0 (by decide)).trans <|
    (GenP.V9_of m (outs m) c main_arg0 (by decide)).trans <|
    (GenP.V8_of m (outs m) c main_arg0 (by decide)).trans <|
    (GenP.V7_of m (outs m) c main_arg0 (by decide)).trans <|
    (GenP.V6_of m (outs m) c main_arg0 (by decide)).trans <|
    (GenP.V5_of m (outs m) c main_arg0 (by decide)).trans <|
    (GenP.V4_of m (outs m) c main_arg0 (by decide)).trans <|
    (GenP.V3_of m (outs m) c main_arg0 (by decide)).trans <|
    (GenP.V2_of m (outs m) c main_arg0 (by decide)).trans <|
    (GenP.V1_of m c main_arg0 (by decide)).trans rfl
theorem rl2_W30_arg7 (c : Dev nD) :
    W30 (F := Ideal) m c main_arg7 = m ((c.tc : Thread nD τ).loc main_arg7) :=
  (congrFun (hV30 m c) _).symm.trans <|
    (GenP.V30_of m (outs m) c main_arg7 (by decide)).trans <|
    (GenP.V29_of m (outs m) c main_arg7 (by decide)).trans <|
    (GenP.V28_of m (outs m) c main_arg7 (by decide)).trans <|
    (GenP.V27_of m (outs m) c main_arg7 (by decide)).trans <|
    (GenP.V26_of m (outs m) c main_arg7 (by decide)).trans <|
    (GenP.V25_of m (outs m) c main_arg7 (by decide)).trans <|
    (GenP.V24_of m (outs m) c main_arg7 (by decide)).trans <|
    (GenP.V23_of m (outs m) c main_arg7 (by decide)).trans <|
    (GenP.V22_of m (outs m) c main_arg7 (by decide)).trans <|
    (GenP.V21_of m (outs m) c main_arg7 (by decide)).trans <|
    (GenP.V20_of m (outs m) c main_arg7 (by decide)).trans <|
    (GenP.V19_of m (outs m) c main_arg7 (by decide)).trans <|
    (GenP.V18_of m (outs m) c main_arg7 (by decide)).trans <|
    (GenP.V17_of m (outs m) c main_arg7 (by decide)).trans <|
    (GenP.V16_of m (outs m) c main_arg7 (by decide)).trans <|
    (GenP.V15_of m (outs m) c main_arg7 (by decide)).trans <|
    (GenP.V14_of m (outs m) c main_arg7 (by decide)).trans <|
    (GenP.V13_of m (outs m) c main_arg7 (by decide)).trans <|
    (GenP.V12_of m (outs m) c main_arg7 (by decide)).trans <|
    (GenP.V11_of m (outs m) c main_arg7 (by decide)).trans <|
    (GenP.V10_of m (outs m) c main_arg7 (by decide)).trans <|
    (GenP.V9_of m (outs m) c main_arg7 (by decide)).trans <|
    (GenP.V8_of m (outs m) c main_arg7 (by decide)).trans <|
    (GenP.V7_of m (outs m) c main_arg7 (by decide)).trans <|
    (GenP.V6_of m (outs m) c main_arg7 (by decide)).trans <|
    (GenP.V5_of m (outs m) c main_arg7 (by decide)).trans <|
    (GenP.V4_of m (outs m) c main_arg7 (by decide)).trans <|
    (GenP.V3_of m (outs m) c main_arg7 (by decide)).trans <|
    (GenP.V2_of m (outs m) c main_arg7 (by decide)).trans <|
    (GenP.V1_of m c main_arg7 (by decide)).trans rfl
theorem rl2_W30_arg9 (c : Dev nD) :
    W30 (F := Ideal) m c main_arg9 = m ((c.tc : Thread nD τ).loc main_arg9) :=
  (congrFun (hV30 m c) _).symm.trans <|
    (GenP.V30_of m (outs m) c main_arg9 (by decide)).trans <|
    (GenP.V29_of m (outs m) c main_arg9 (by decide)).trans <|
    (GenP.V28_of m (outs m) c main_arg9 (by decide)).trans <|
    (GenP.V27_of m (outs m) c main_arg9 (by decide)).trans <|
    (GenP.V26_of m (outs m) c main_arg9 (by decide)).trans <|
    (GenP.V25_of m (outs m) c main_arg9 (by decide)).trans <|
    (GenP.V24_of m (outs m) c main_arg9 (by decide)).trans <|
    (GenP.V23_of m (outs m) c main_arg9 (by decide)).trans <|
    (GenP.V22_of m (outs m) c main_arg9 (by decide)).trans <|
    (GenP.V21_of m (outs m) c main_arg9 (by decide)).trans <|
    (GenP.V20_of m (outs m) c main_arg9 (by decide)).trans <|
    (GenP.V19_of m (outs m) c main_arg9 (by decide)).trans <|
    (GenP.V18_of m (outs m) c main_arg9 (by decide)).trans <|
    (GenP.V17_of m (outs m) c main_arg9 (by decide)).trans <|
    (GenP.V16_of m (outs m) c main_arg9 (by decide)).trans <|
    (GenP.V15_of m (outs m) c main_arg9 (by decide)).trans <|
    (GenP.V14_of m (outs m) c main_arg9 (by decide)).trans <|
    (GenP.V13_of m (outs m) c main_arg9 (by decide)).trans <|
    (GenP.V12_of m (outs m) c main_arg9 (by decide)).trans <|
    (GenP.V11_of m (outs m) c main_arg9 (by decide)).trans <|
    (GenP.V10_of m (outs m) c main_arg9 (by decide)).trans <|
    (GenP.V9_of m (outs m) c main_arg9 (by decide)).trans <|
    (GenP.V8_of m (outs m) c main_arg9 (by decide)).trans <|
    (GenP.V7_of m (outs m) c main_arg9 (by decide)).trans <|
    (GenP.V6_of m (outs m) c main_arg9 (by decide)).trans <|
    (GenP.V5_of m (outs m) c main_arg9 (by decide)).trans <|
    (GenP.V4_of m (outs m) c main_arg9 (by decide)).trans <|
    (GenP.V3_of m (outs m) c main_arg9 (by decide)).trans <|
    (GenP.V2_of m (outs m) c main_arg9 (by decide)).trans <|
    (GenP.V1_of m c main_arg9 (by decide)).trans rfl
theorem rl2_W30_arg10 (c : Dev nD) :
    W30 (F := Ideal) m c main_arg10 = m ((c.tc : Thread nD τ).loc main_arg10) :=
  (congrFun (hV30 m c) _).symm.trans <|
    (GenP.V30_of m (outs m) c main_arg10 (by decide)).trans <|
    (GenP.V29_of m (outs m) c main_arg10 (by decide)).trans <|
    (GenP.V28_of m (outs m) c main_arg10 (by decide)).trans <|
    (GenP.V27_of m (outs m) c main_arg10 (by decide)).trans <|
    (GenP.V26_of m (outs m) c main_arg10 (by decide)).trans <|
    (GenP.V25_of m (outs m) c main_arg10 (by decide)).trans <|
    (GenP.V24_of m (outs m) c main_arg10 (by decide)).trans <|
    (GenP.V23_of m (outs m) c main_arg10 (by decide)).trans <|
    (GenP.V22_of m (outs m) c main_arg10 (by decide)).trans <|
    (GenP.V21_of m (outs m) c main_arg10 (by decide)).trans <|
    (GenP.V20_of m (outs m) c main_arg10 (by decide)).trans <|
    (GenP.V19_of m (outs m) c main_arg10 (by decide)).trans <|
    (GenP.V18_of m (outs m) c main_arg10 (by decide)).trans <|
    (GenP.V17_of m (outs m) c main_arg10 (by decide)).trans <|
    (GenP.V16_of m (outs m) c main_arg10 (by decide)).trans <|
    (GenP.V15_of m (outs m) c main_arg10 (by decide)).trans <|
    (GenP.V14_of m (outs m) c main_arg10 (by decide)).trans <|
    (GenP.V13_of m (outs m) c main_arg10 (by decide)).trans <|
    (GenP.V12_of m (outs m) c main_arg10 (by decide)).trans <|
    (GenP.V11_of m (outs m) c main_arg10 (by decide)).trans <|
    (GenP.V10_of m (outs m) c main_arg10 (by decide)).trans <|
    (GenP.V9_of m (outs m) c main_arg10 (by decide)).trans <|
    (GenP.V8_of m (outs m) c main_arg10 (by decide)).trans <|
    (GenP.V7_of m (outs m) c main_arg10 (by decide)).trans <|
    (GenP.V6_of m (outs m) c main_arg10 (by decide)).trans <|
    (GenP.V5_of m (outs m) c main_arg10 (by decide)).trans <|
    (GenP.V4_of m (outs m) c main_arg10 (by decide)).trans <|
    (GenP.V3_of m (outs m) c main_arg10 (by decide)).trans <|
    (GenP.V2_of m (outs m) c main_arg10 (by decide)).trans <|
    (GenP.V1_of m c main_arg10 (by decide)).trans rfl
theorem rl2_W34_arg5 (c : Dev nD) :
    W34 (F := Ideal) m c main_arg5 = m ((c.tc : Thread nD τ).loc main_arg5) :=
  (congrFun (hV34 m c) _).symm.trans <|
    (GenP.V34_of m (outs m) c main_arg5 (by decide)).trans <|
    (GenP.V33_of m (outs m) c main_arg5 (by decide)).trans <|
    (GenP.V32_of m (outs m) c main_arg5 (by decide)).trans <|
    (GenP.V31_of m (outs m) c main_arg5 (by decide)).trans <|
    (GenP.V30_of m (outs m) c main_arg5 (by decide)).trans <|
    (GenP.V29_of m (outs m) c main_arg5 (by decide)).trans <|
    (GenP.V28_of m (outs m) c main_arg5 (by decide)).trans <|
    (GenP.V27_of m (outs m) c main_arg5 (by decide)).trans <|
    (GenP.V26_of m (outs m) c main_arg5 (by decide)).trans <|
    (GenP.V25_of m (outs m) c main_arg5 (by decide)).trans <|
    (GenP.V24_of m (outs m) c main_arg5 (by decide)).trans <|
    (GenP.V23_of m (outs m) c main_arg5 (by decide)).trans <|
    (GenP.V22_of m (outs m) c main_arg5 (by decide)).trans <|
    (GenP.V21_of m (outs m) c main_arg5 (by decide)).trans <|
    (GenP.V20_of m (outs m) c main_arg5 (by decide)).trans <|
    (GenP.V19_of m (outs m) c main_arg5 (by decide)).trans <|
    (GenP.V18_of m (outs m) c main_arg5 (by decide)).trans <|
    (GenP.V17_of m (outs m) c main_arg5 (by decide)).trans <|
    (GenP.V16_of m (outs m) c main_arg5 (by decide)).trans <|
    (GenP.V15_of m (outs m) c main_arg5 (by decide)).trans <|
    (GenP.V14_of m (outs m) c main_arg5 (by decide)).trans <|
    (GenP.V13_of m (outs m) c main_arg5 (by decide)).trans <|
    (GenP.V12_of m (outs m) c main_arg5 (by decide)).trans <|
    (GenP.V11_of m (outs m) c main_arg5 (by decide)).trans <|
    (GenP.V10_of m (outs m) c main_arg5 (by decide)).trans <|
    (GenP.V9_of m (outs m) c main_arg5 (by decide)).trans <|
    (GenP.V8_of m (outs m) c main_arg5 (by decide)).trans <|
    (GenP.V7_of m (outs m) c main_arg5 (by decide)).trans <|
    (GenP.V6_of m (outs m) c main_arg5 (by decide)).trans <|
    (GenP.V5_of m (outs m) c main_arg5 (by decide)).trans <|
    (GenP.V4_of m (outs m) c main_arg5 (by decide)).trans <|
    (GenP.V3_of m (outs m) c main_arg5 (by decide)).trans <|
    (GenP.V2_of m (outs m) c main_arg5 (by decide)).trans <|
    (GenP.V1_of m c main_arg5 (by decide)).trans rfl
theorem rl2_W34_arg6 (c : Dev nD) :
    W34 (F := Ideal) m c main_arg6 = m ((c.tc : Thread nD τ).loc main_arg6) :=
  (congrFun (hV34 m c) _).symm.trans <|
    (GenP.V34_of m (outs m) c main_arg6 (by decide)).trans <|
    (GenP.V33_of m (outs m) c main_arg6 (by decide)).trans <|
    (GenP.V32_of m (outs m) c main_arg6 (by decide)).trans <|
    (GenP.V31_of m (outs m) c main_arg6 (by decide)).trans <|
    (GenP.V30_of m (outs m) c main_arg6 (by decide)).trans <|
    (GenP.V29_of m (outs m) c main_arg6 (by decide)).trans <|
    (GenP.V28_of m (outs m) c main_arg6 (by decide)).trans <|
    (GenP.V27_of m (outs m) c main_arg6 (by decide)).trans <|
    (GenP.V26_of m (outs m) c main_arg6 (by decide)).trans <|
    (GenP.V25_of m (outs m) c main_arg6 (by decide)).trans <|
    (GenP.V24_of m (outs m) c main_arg6 (by decide)).trans <|
    (GenP.V23_of m (outs m) c main_arg6 (by decide)).trans <|
    (GenP.V22_of m (outs m) c main_arg6 (by decide)).trans <|
    (GenP.V21_of m (outs m) c main_arg6 (by decide)).trans <|
    (GenP.V20_of m (outs m) c main_arg6 (by decide)).trans <|
    (GenP.V19_of m (outs m) c main_arg6 (by decide)).trans <|
    (GenP.V18_of m (outs m) c main_arg6 (by decide)).trans <|
    (GenP.V17_of m (outs m) c main_arg6 (by decide)).trans <|
    (GenP.V16_of m (outs m) c main_arg6 (by decide)).trans <|
    (GenP.V15_of m (outs m) c main_arg6 (by decide)).trans <|
    (GenP.V14_of m (outs m) c main_arg6 (by decide)).trans <|
    (GenP.V13_of m (outs m) c main_arg6 (by decide)).trans <|
    (GenP.V12_of m (outs m) c main_arg6 (by decide)).trans <|
    (GenP.V11_of m (outs m) c main_arg6 (by decide)).trans <|
    (GenP.V10_of m (outs m) c main_arg6 (by decide)).trans <|
    (GenP.V9_of m (outs m) c main_arg6 (by decide)).trans <|
    (GenP.V8_of m (outs m) c main_arg6 (by decide)).trans <|
    (GenP.V7_of m (outs m) c main_arg6 (by decide)).trans <|
    (GenP.V6_of m (outs m) c main_arg6 (by decide)).trans <|
    (GenP.V5_of m (outs m) c main_arg6 (by decide)).trans <|
    (GenP.V4_of m (outs m) c main_arg6 (by decide)).trans <|
    (GenP.V3_of m (outs m) c main_arg6 (by decide)).trans <|
    (GenP.V2_of m (outs m) c main_arg6 (by decide)).trans <|
    (GenP.V1_of m c main_arg6 (by decide)).trans rfl
theorem rl2_W36_arg8 (c : Dev nD) :
    W36 (F := Ideal) m c main_arg8 = m ((c.tc : Thread nD τ).loc main_arg8) :=
  (congrFun (hV36 m c) _).symm.trans <|
    (GenP.V36_of m (outs m) c main_arg8 (by decide)).trans <|
    (GenP.V35_of m (outs m) c main_arg8 (by decide)).trans <|
    (GenP.V34_of m (outs m) c main_arg8 (by decide)).trans <|
    (GenP.V33_of m (outs m) c main_arg8 (by decide)).trans <|
    (GenP.V32_of m (outs m) c main_arg8 (by decide)).trans <|
    (GenP.V31_of m (outs m) c main_arg8 (by decide)).trans <|
    (GenP.V30_of m (outs m) c main_arg8 (by decide)).trans <|
    (GenP.V29_of m (outs m) c main_arg8 (by decide)).trans <|
    (GenP.V28_of m (outs m) c main_arg8 (by decide)).trans <|
    (GenP.V27_of m (outs m) c main_arg8 (by decide)).trans <|
    (GenP.V26_of m (outs m) c main_arg8 (by decide)).trans <|
    (GenP.V25_of m (outs m) c main_arg8 (by decide)).trans <|
    (GenP.V24_of m (outs m) c main_arg8 (by decide)).trans <|
    (GenP.V23_of m (outs m) c main_arg8 (by decide)).trans <|
    (GenP.V22_of m (outs m) c main_arg8 (by decide)).trans <|
    (GenP.V21_of m (outs m) c main_arg8 (by decide)).trans <|
    (GenP.V20_of m (outs m) c main_arg8 (by decide)).trans <|
    (GenP.V19_of m (outs m) c main_arg8 (by decide)).trans <|
    (GenP.V18_of m (outs m) c main_arg8 (by decide)).trans <|
    (GenP.V17_of m (outs m) c main_arg8 (by decide)).trans <|
    (GenP.V16_of m (outs m) c main_arg8 (by decide)).trans <|
    (GenP.V15_of m (outs m) c main_arg8 (by decide)).trans <|
    (GenP.V14_of m (outs m) c main_arg8 (by decide)).trans <|
    (GenP.V13_of m (outs m) c main_arg8 (by decide)).trans <|
    (GenP.V12_of m (outs m) c main_arg8 (by decide)).trans <|
    (GenP.V11_of m (outs m) c main_arg8 (by decide)).trans <|
    (GenP.V10_of m (outs m) c main_arg8 (by decide)).trans <|
    (GenP.V9_of m (outs m) c main_arg8 (by decide)).trans <|
    (GenP.V8_of m (outs m) c main_arg8 (by decide)).trans <|
    (GenP.V7_of m (outs m) c main_arg8 (by decide)).trans <|
    (GenP.V6_of m (outs m) c main_arg8 (by decide)).trans <|
    (GenP.V5_of m (outs m) c main_arg8 (by decide)).trans <|
    (GenP.V4_of m (outs m) c main_arg8 (by decide)).trans <|
    (GenP.V3_of m (outs m) c main_arg8 (by decide)).trans <|
    (GenP.V2_of m (outs m) c main_arg8 (by decide)).trans <|
    (GenP.V1_of m c main_arg8 (by decide)).trans rfl
theorem rl2_W36_arg11 (c : Dev nD) :
    W36 (F := Ideal) m c main_arg11 = m ((c.tc : Thread nD τ).loc main_arg11) :=
  (congrFun (hV36 m c) _).symm.trans <|
    (GenP.V36_of m (outs m) c main_arg11 (by decide)).trans <|
    (GenP.V35_of m (outs m) c main_arg11 (by decide)).trans <|
    (GenP.V34_of m (outs m) c main_arg11 (by decide)).trans <|
    (GenP.V33_of m (outs m) c main_arg11 (by decide)).trans <|
    (GenP.V32_of m (outs m) c main_arg11 (by decide)).trans <|
    (GenP.V31_of m (outs m) c main_arg11 (by decide)).trans <|
    (GenP.V30_of m (outs m) c main_arg11 (by decide)).trans <|
    (GenP.V29_of m (outs m) c main_arg11 (by decide)).trans <|
    (GenP.V28_of m (outs m) c main_arg11 (by decide)).trans <|
    (GenP.V27_of m (outs m) c main_arg11 (by decide)).trans <|
    (GenP.V26_of m (outs m) c main_arg11 (by decide)).trans <|
    (GenP.V25_of m (outs m) c main_arg11 (by decide)).trans <|
    (GenP.V24_of m (outs m) c main_arg11 (by decide)).trans <|
    (GenP.V23_of m (outs m) c main_arg11 (by decide)).trans <|
    (GenP.V22_of m (outs m) c main_arg11 (by decide)).trans <|
    (GenP.V21_of m (outs m) c main_arg11 (by decide)).trans <|
    (GenP.V20_of m (outs m) c main_arg11 (by decide)).trans <|
    (GenP.V19_of m (outs m) c main_arg11 (by decide)).trans <|
    (GenP.V18_of m (outs m) c main_arg11 (by decide)).trans <|
    (GenP.V17_of m (outs m) c main_arg11 (by decide)).trans <|
    (GenP.V16_of m (outs m) c main_arg11 (by decide)).trans <|
    (GenP.V15_of m (outs m) c main_arg11 (by decide)).trans <|
    (GenP.V14_of m (outs m) c main_arg11 (by decide)).trans <|
    (GenP.V13_of m (outs m) c main_arg11 (by decide)).trans <|
    (GenP.V12_of m (outs m) c main_arg11 (by decide)).trans <|
    (GenP.V11_of m (outs m) c main_arg11 (by decide)).trans <|
    (GenP.V10_of m (outs m) c main_arg11 (by decide)).trans <|
    (GenP.V9_of m (outs m) c main_arg11 (by decide)).trans <|
    (GenP.V8_of m (outs m) c main_arg11 (by decide)).trans <|
    (GenP.V7_of m (outs m) c main_arg11 (by decide)).trans <|
    (GenP.V6_of m (outs m) c main_arg11 (by decide)).trans <|
    (GenP.V5_of m (outs m) c main_arg11 (by decide)).trans <|
    (GenP.V4_of m (outs m) c main_arg11 (by decide)).trans <|
    (GenP.V3_of m (outs m) c main_arg11 (by decide)).trans <|
    (GenP.V2_of m (outs m) c main_arg11 (by decide)).trans <|
    (GenP.V1_of m c main_arg11 (by decide)).trans rfl
theorem rl2_W36_arg12 (c : Dev nD) :
    W36 (F := Ideal) m c main_arg12 = m ((c.tc : Thread nD τ).loc main_arg12) :=
  (congrFun (hV36 m c) _).symm.trans <|
    (GenP.V36_of m (outs m) c main_arg12 (by decide)).trans <|
    (GenP.V35_of m (outs m) c main_arg12 (by decide)).trans <|
    (GenP.V34_of m (outs m) c main_arg12 (by decide)).trans <|
    (GenP.V33_of m (outs m) c main_arg12 (by decide)).trans <|
    (GenP.V32_of m (outs m) c main_arg12 (by decide)).trans <|
    (GenP.V31_of m (outs m) c main_arg12 (by decide)).trans <|
    (GenP.V30_of m (outs m) c main_arg12 (by decide)).trans <|
    (GenP.V29_of m (outs m) c main_arg12 (by decide)).trans <|
    (GenP.V28_of m (outs m) c main_arg12 (by decide)).trans <|
    (GenP.V27_of m (outs m) c main_arg12 (by decide)).trans <|
    (GenP.V26_of m (outs m) c main_arg12 (by decide)).trans <|
    (GenP.V25_of m (outs m) c main_arg12 (by decide)).trans <|
    (GenP.V24_of m (outs m) c main_arg12 (by decide)).trans <|
    (GenP.V23_of m (outs m) c main_arg12 (by decide)).trans <|
    (GenP.V22_of m (outs m) c main_arg12 (by decide)).trans <|
    (GenP.V21_of m (outs m) c main_arg12 (by decide)).trans <|
    (GenP.V20_of m (outs m) c main_arg12 (by decide)).trans <|
    (GenP.V19_of m (outs m) c main_arg12 (by decide)).trans <|
    (GenP.V18_of m (outs m) c main_arg12 (by decide)).trans <|
    (GenP.V17_of m (outs m) c main_arg12 (by decide)).trans <|
    (GenP.V16_of m (outs m) c main_arg12 (by decide)).trans <|
    (GenP.V15_of m (outs m) c main_arg12 (by decide)).trans <|
    (GenP.V14_of m (outs m) c main_arg12 (by decide)).trans <|
    (GenP.V13_of m (outs m) c main_arg12 (by decide)).trans <|
    (GenP.V12_of m (outs m) c main_arg12 (by decide)).trans <|
    (GenP.V11_of m (outs m) c main_arg12 (by decide)).trans <|
    (GenP.V10_of m (outs m) c main_arg12 (by decide)).trans <|
    (GenP.V9_of m (outs m) c main_arg12 (by decide)).trans <|
    (GenP.V8_of m (outs m) c main_arg12 (by decide)).trans <|
    (GenP.V7_of m (outs m) c main_arg12 (by decide)).trans <|
    (GenP.V6_of m (outs m) c main_arg12 (by decide)).trans <|
    (GenP.V5_of m (outs m) c main_arg12 (by decide)).trans <|
    (GenP.V4_of m (outs m) c main_arg12 (by decide)).trans <|
    (GenP.V3_of m (outs m) c main_arg12 (by decide)).trans <|
    (GenP.V2_of m (outs m) c main_arg12 (by decide)).trans <|
    (GenP.V1_of m c main_arg12 (by decide)).trans rfl

/-! ## The relation's edge norms and region outputs, where later items read them -/

theorem rl2_W30_v237 (c : Dev nD) : W30 (F := Ideal) m c main_v237 = W29 (F := Ideal) m c main_v237 :=
  (congrFun (hV30 m c) _).symm.trans <|
    (GenP.V30_of m (outs m) c main_v237 (by decide)).trans (congrFun (hV29 m c) _)
theorem rl2_W36_v237 (c : Dev nD) : W36 (F := Ideal) m c main_v237 = W29 (F := Ideal) m c main_v237 :=
  (congrFun (hV36 m c) _).symm.trans <|
    (GenP.V36_of m (outs m) c main_v237 (by decide)).trans <|
    (GenP.V35_of m (outs m) c main_v237 (by decide)).trans <|
    (GenP.V34_of m (outs m) c main_v237 (by decide)).trans <|
    (GenP.V33_of m (outs m) c main_v237 (by decide)).trans <|
    (GenP.V32_of m (outs m) c main_v237 (by decide)).trans <|
    (GenP.V31_of m (outs m) c main_v237 (by decide)).trans <|
    (GenP.V30_of m (outs m) c main_v237 (by decide)).trans (congrFun (hV29 m c) _)
theorem rl2_W30_v243 (c : Dev nD) : W30 (F := Ideal) m c (Proc.devRef .tc main_v243) = O12_0 (F := Ideal) m c := by
  unfold W30; exact Function.update_self _ _ _
theorem rl2_W31_v243 (c : Dev nD) : (W31 (F := Ideal) m c main_v243 : S100000x64.Idx → EReal) = O12_0 (F := Ideal) m c := by
  show StableHlo.after hostOps13 (W30 (F := Ideal) m c) (Proc.devRef .tc main_v243) = _
  rw [StableHlo.after_of_writes_sub hostOps13 _ GenP.hostOps13_writes (by decide)]
  exact rl2_W30_v243 m c
theorem rl2_W32_v264_0 (c : Dev nD) : W32 (F := Ideal) m c (Proc.devRef .tc main_v264_0) = O13_0 (F := Ideal) m c := by
  unfold W32
  simp only [Function.update_self,
    Function.update_of_ne (StableHlo.devRef_ne_of_ne (by decide : main_v264_0 ≠ main_v264_2) : (Proc.devRef .tc main_v264_0 : DevRef τ sig) ≠ Proc.devRef .tc main_v264_2),
    Function.update_of_ne (StableHlo.devRef_ne_of_ne (by decide : main_v264_0 ≠ main_v264_1) : (Proc.devRef .tc main_v264_0 : DevRef τ sig) ≠ Proc.devRef .tc main_v264_1)]
theorem rl2_W32_v264_1 (c : Dev nD) : W32 (F := Ideal) m c (Proc.devRef .tc main_v264_1) = O13_1 (F := Ideal) m c := by
  unfold W32
  simp only [Function.update_self,
    Function.update_of_ne (StableHlo.devRef_ne_of_ne (by decide : main_v264_1 ≠ main_v264_2) : (Proc.devRef .tc main_v264_1 : DevRef τ sig) ≠ Proc.devRef .tc main_v264_2)]
theorem rl2_W32_v264_2 (c : Dev nD) : W32 (F := Ideal) m c (Proc.devRef .tc main_v264_2) = O13_2 (F := Ideal) m c := by
  unfold W32
  simp only [Function.update_self]
theorem rl2_W32_of (c : Dev nD) (r : Ref sig .tc) (h : r ∉ ([main_v264_0, main_v264_1, main_v264_2] : List (Ref sig .tc))) :
    W32 (F := Ideal) m c r = W31 (F := Ideal) m c r :=
  (congrFun (hV32 m c) _).symm.trans <| (GenP.V32_of m (outs m) c r h).trans (congrFun (hV31 m c) _)
theorem rl2_W34_v273 (c : Dev nD) : W34 (F := Ideal) m c (Proc.devRef .tc main_v273) = O14_0 (F := Ideal) m c := by
  unfold W34; exact Function.update_self _ _ _
theorem rl2_W35_v273 (c : Dev nD) : (W35 (F := Ideal) m c main_v273 : S100000x64.Idx → EReal) = O14_0 (F := Ideal) m c := by
  show StableHlo.after hostOps15 (W34 (F := Ideal) m c) (Proc.devRef .tc main_v273) = _
  rw [StableHlo.after_of_writes_sub hostOps15 _ GenP.hostOps15_writes (by decide)]
  exact rl2_W34_v273 m c
theorem rl2_W36_v279 (c : Dev nD) : W36 (F := Ideal) m c (Proc.devRef .tc main_v279) = O15_0 (F := Ideal) m c := by
  unfold W36; exact Function.update_self _ _ _
theorem rl2_W37_v279 (c : Dev nD) : (W37 (F := Ideal) m c main_v279 : S100000x32.Idx → EReal) = O15_0 (F := Ideal) m c := by
  show StableHlo.after hostOps16 (W36 (F := Ideal) m c) (Proc.devRef .tc main_v279) = _
  rw [StableHlo.after_of_writes_sub hostOps16 _ GenP.hostOps16_writes (by decide)]
  exact rl2_W36_v279 m c
theorem rl2_W38_v300_0 (c : Dev nD) : W38 (F := Ideal) m c (Proc.devRef .tc main_v300_0) = O16_0 (F := Ideal) m c := by
  unfold W38
  simp only [Function.update_self,
    Function.update_of_ne (StableHlo.devRef_ne_of_ne (by decide : main_v300_0 ≠ main_v300_2) : (Proc.devRef .tc main_v300_0 : DevRef τ sig) ≠ Proc.devRef .tc main_v300_2),
    Function.update_of_ne (StableHlo.devRef_ne_of_ne (by decide : main_v300_0 ≠ main_v300_1) : (Proc.devRef .tc main_v300_0 : DevRef τ sig) ≠ Proc.devRef .tc main_v300_1)]
theorem rl2_W38_v300_1 (c : Dev nD) : W38 (F := Ideal) m c (Proc.devRef .tc main_v300_1) = O16_1 (F := Ideal) m c := by
  unfold W38
  simp only [Function.update_self,
    Function.update_of_ne (StableHlo.devRef_ne_of_ne (by decide : main_v300_1 ≠ main_v300_2) : (Proc.devRef .tc main_v300_1 : DevRef τ sig) ≠ Proc.devRef .tc main_v300_2)]
theorem rl2_W38_v300_2 (c : Dev nD) : W38 (F := Ideal) m c (Proc.devRef .tc main_v300_2) = O16_2 (F := Ideal) m c := by
  unfold W38
  simp only [Function.update_self]
theorem rl2_W38_of (c : Dev nD) (r : Ref sig .tc) (h : r ∉ ([main_v300_0, main_v300_1, main_v300_2] : List (Ref sig .tc))) :
    W38 (F := Ideal) m c r = W37 (F := Ideal) m c r :=
  (congrFun (hV38 m c) _).symm.trans <| (GenP.V38_of m (outs m) c r h).trans (congrFun (hV37 m c) _)

/-! ## Layer 1: the dense layer -/

set_option maxHeartbeats 4000000 in
/-- Each edge's norm, the product of the two gathered degree normalisers rsqrt(max(deg, 1)), is real. -/
theorem W29_v237_allReal (c : Dev nD) :
    AllReal (W29 (F := Ideal) m c main_v237 : S1600000.Idx → EReal) := by
  dsimp only [W29, hostOps12_2]
  after_results
  refine AllReal.mulf (AllReal.gather ?_ _ _) (AllReal.gather ?_ _ _) <;>
  · refine allReal_hostRsqrt_max_const_one (AllReal.scatterAdd _ _ ?_ ?_) _ _
    · exact allReal_broadcastInDim_constant _ _ _ isReal_ofBits_zero_f32
    · exact allReal_broadcastInDim_constant _ _ _ isReal_ofBits_one_f32

set_option maxHeartbeats 4000000 in
/-- The weight of layer 1 (the relation's slab of the weights argument, as a matrix) is all real. -/
theorem W29_v239_allReal (hpre : Cert.Pre_KernelIdeal m) (c : Dev nD) :
    AllReal (W29 (F := Ideal) m c main_v239 : S128x64.Idx → EReal) := by
  dsimp only [W29, hostOps12_2]
  after_results
  rw [rl2_W26_arg3]
  exact ((main_arg3_allReal m hpre c).extractStridedSlice _ _).shapeCast _

set_option maxHeartbeats 4000000 in
/-- The bias row of layer 1 (the relation's row of the bias argument, as a 1×64 array) is all real. -/
theorem W29_v242_allReal (hpre : Cert.Pre_KernelIdeal m) (c : Dev nD) :
    AllReal (W29 (F := Ideal) m c main_v242 : S1x64.Idx → EReal) := by
  dsimp only [W29, hostOps12_2]
  after_results
  rw [rl2_W26_arg4]
  exact (((main_arg4_allReal m hpre c).extractStridedSlice _ _).shapeCast _).shapeCast _

/-- The first dense layer of the relation, as its region leaves it, is all real. -/
theorem O12_0_allReal (hpre : Cert.Pre_KernelIdeal m) (c : Dev nD) :
    AllReal (O12_0 (F := Ideal) m c : S100000x64.Idx → EReal) := by
  rw [O12_0_eq_affine, rl2_W29_arg0]
  exact AllReal.affine 100000 128 64 (main_arg0_allReal m hpre c) (W29_v239_allReal m hpre c) (W29_v242_allReal m hpre c)

/-! ## Layer 1: what the mixing region reads -/

set_option maxHeartbeats 4000000 in
/-- The aggregated array of layer 1 is all real. -/
theorem W31_v256_allReal (hpre : Cert.Pre_KernelIdeal m) (c : Dev nD) :
    AllReal (W31 (F := Ideal) m c main_v256 : S100000x64.Idx → EReal) := by
  dsimp only [W31, hostOps13]
  after_results
  refine AllReal.scatterAdd _ _ (allReal_broadcastInDim_constant _ _ _ isReal_ofBits_zero_f32) ?_
  refine AllReal.mulf (AllReal.gather ?_ _ _) (AllReal.broadcastInDim (AllReal.broadcastInDim ?_ _ _) _ _)
  · rw [rl2_W30_v243]; exact O12_0_allReal m hpre c
  · rw [rl2_W30_v237]; exact W29_v237_allReal m c

set_option maxHeartbeats 4000000 in
/-- The mixing weight of layer 1 (one entry of the mixing weights argument, as a 1×1 array) is all real. -/
theorem W31_v263_allReal (hpre : Cert.Pre_KernelIdeal m) (c : Dev nD) :
    AllReal (W31 (F := Ideal) m c main_v263 : S1x1.Idx → EReal) := by
  dsimp only [W31, hostOps13]
  after_results
  rw [rl2_W30_arg7]
  exact (((main_arg7_allReal m hpre c).extractStridedSlice _ _).shapeCast _).shapeCast _

set_option maxHeartbeats 4000000 in
/-- The scale vector of layer 1 is all real. -/
theorem W31_v260_allReal (hpre : Cert.Pre_KernelIdeal m) (c : Dev nD) :
    AllReal (W31 (F := Ideal) m c main_v260 : S64.Idx → EReal) := by
  dsimp only [W31, hostOps13]
  after_results
  rw [rl2_W30_arg9]
  exact ((main_arg9_allReal m hpre c).extractStridedSlice _ _).shapeCast _

set_option maxHeartbeats 4000000 in
/-- The bias vector of layer 1's normalisation is all real. -/
theorem W31_v262_allReal (hpre : Cert.Pre_KernelIdeal m) (c : Dev nD) :
    AllReal (W31 (F := Ideal) m c main_v262 : S64.Idx → EReal) := by
  dsimp only [W31, hostOps13]
  after_results
  rw [rl2_W30_arg10]
  exact ((main_arg10_allReal m hpre c).extractStridedSlice _ _).shapeCast _

/-- The dense layer as the mixing region finds it. -/
theorem W31_v243_allReal (hpre : Cert.Pre_KernelIdeal m) (c : Dev nD) :
    AllReal (W31 (F := Ideal) m c main_v243 : S100000x64.Idx → EReal) := by
  rw [rl2_W31_v243]; exact O12_0_allReal m hpre c

/-! ## Layer 1: the mixed array and its two accumulated rows -/

/-- g·agg + (1 - g)·h of all-real g, h, agg is all real. -/
theorem mix13_allReal {g : S1x1.Idx → EReal} {h agg : S100000x64.Idx → EReal} (hg : AllReal g) (hh : AllReal h)
    (hagg : AllReal agg) : AllReal (mixG_13 g h agg) :=
  fun i => ((hg _).mul (hagg i)).add ((isReal_ofBits_one_f32.sub (hg _)).mul (hh i))

/-- The mixed value at every row and column is real. -/
theorem xm13_isReal (hpre : Cert.Pre_KernelIdeal m) (c : Dev nD) (p : Fin 100000) (q : Fin 64) : IsReal (xm13 m c p q) :=
  mix13_allReal (W31_v263_allReal m hpre c) (W31_v243_allReal m hpre c) (W31_v256_allReal m hpre c) (ix2 p q)

/-- The mixed array, as the mixing region leaves it, is all real. -/
theorem O13_0_allReal (hpre : Cert.Pre_KernelIdeal m) (c : Dev nD) :
    AllReal (O13_0 (F := Ideal) m c : S100000x64.Idx → EReal) := by
  intro i
  obtain ⟨p, q, rfl⟩ : ∃ (p : Fin 100000) (q : Fin 64), i = ix2 p q := ⟨i 0, i 1, eq_ix2 i⟩
  rw [O13_0_eq]
  exact xm13_isReal m hpre c p q

/-- The row of column sums the mixing region accumulates is all real. -/
theorem O13_1_allReal (hpre : Cert.Pre_KernelIdeal m) (c : Dev nD) :
    AllReal (O13_1 (F := Ideal) m c : S1x64.Idx → EReal) := by
  intro i
  obtain ⟨a, q, rfl⟩ : ∃ (a : Fin 1) (q : Fin 64), i = ix2 a q := ⟨i 0, i 1, eq_ix2 i⟩
  obtain rfl : a = 0 := Subsingleton.elim _ _
  rw [O13_1_eq]
  exact IsReal.sum _ _ fun t _ => IsReal.sum _ _ fun r _ => xm13_isReal m hpre c _ q

/-- The row of column sums of squares the mixing region accumulates is all real. -/
theorem O13_2_allReal (hpre : Cert.Pre_KernelIdeal m) (c : Dev nD) :
    AllReal (O13_2 (F := Ideal) m c : S1x64.Idx → EReal) := by
  intro i
  obtain ⟨a, q, rfl⟩ : ∃ (a : Fin 1) (q : Fin 64), i = ix2 a q := ⟨i 0, i 1, eq_ix2 i⟩
  obtain rfl : a = 0 := Subsingleton.elim _ _
  rw [O13_2_eq]
  exact IsReal.sum _ _ fun t _ => IsReal.sum _ _ fun r _ => (xm13_isReal m hpre c _ q).mul (xm13_isReal m hpre c _ q)

/-! ## Layer 1: the normalise region -/

set_option maxHeartbeats 4000000 in
/-- The mean row, the column sums over 100000, is all real. -/
theorem W33_v266_allReal (hpre : Cert.Pre_KernelIdeal m) (c : Dev nD) :
    AllReal (W33 (F := Ideal) m c main_v266 : S1x64.Idx → EReal) := by
  dsimp only [W33, hostOps14]
  after_results
  rw [rl2_W32_v264_1]
  exact allReal_hostDivf_1e5 (O13_1_allReal m hpre c) _ _

set_option maxHeartbeats 4000000 in
/-- The variance row, the column sums of squares over 100000 less the squared mean, is all real. -/
theorem W33_v270_allReal (hpre : Cert.Pre_KernelIdeal m) (c : Dev nD) :
    AllReal (W33 (F := Ideal) m c main_v270 : S1x64.Idx → EReal) := by
  dsimp only [W33, hostOps14]
  after_results
  rw [rl2_W32_v264_1, rl2_W32_v264_2]
  exact AllReal.subf (allReal_hostDivf_1e5 (O13_2_allReal m hpre c) _ _)
    (AllReal.mulf (allReal_hostDivf_1e5 (O13_1_allReal m hpre c) _ _) (allReal_hostDivf_1e5 (O13_1_allReal m hpre c) _ _))

set_option maxHeartbeats 4000000 in
/-- The scale row is all real. -/
theorem W33_v271_allReal (hpre : Cert.Pre_KernelIdeal m) (c : Dev nD) :
    AllReal (W33 (F := Ideal) m c main_v271 : S1x64.Idx → EReal) := by
  dsimp only [W33, hostOps14]
  after_results
  rw [rl2_W32_of m c main_v260 (by decide)]
  exact (W31_v260_allReal m hpre c).shapeCast _

set_option maxHeartbeats 4000000 in
/-- The bias row of the normalisation is all real. -/
theorem W33_v272_allReal (hpre : Cert.Pre_KernelIdeal m) (c : Dev nD) :
    AllReal (W33 (F := Ideal) m c main_v272 : S1x64.Idx → EReal) := by
  dsimp only [W33, hostOps14]
  after_results
  rw [rl2_W32_of m c main_v262 (by decide)]
  exact (W31_v262_allReal m hpre c).shapeCast _

/-- The mixed array as the normalise region finds it. -/
theorem W33_v264_0_allReal (hpre : Cert.Pre_KernelIdeal m) (c : Dev nD) :
    AllReal (W33 (F := Ideal) m c main_v264_0 : S100000x64.Idx → EReal) := by
  show AllReal (StableHlo.after hostOps14 (W32 (F := Ideal) m c) (Proc.devRef .tc main_v264_0) : S100000x64.Idx → EReal)
  rw [StableHlo.after_of_writes_sub hostOps14 _ GenP.hostOps14_writes (by decide), rl2_W32_v264_0]
  exact O13_0_allReal m hpre c

/-- The normalisation of an all-real array by all-real mean, variance, scale and bias rows is all real. -/
theorem bnRelu14_allReal {X : S100000x64.Idx → EReal} {mean var scale bias : S1x64.Idx → EReal} (hX : AllReal X)
    (hm : AllReal mean) (hv : AllReal var) (hs : AllReal scale) (hb : AllReal bias) :
    AllReal (bnRelu14 X mean var scale bias) := by
  intro i
  obtain ⟨e, he, hε⟩ := ofBits_eps_f32
  show IsReal (max ((((X i - mean (rowOf14 i)) * Ideal.rsqrt (max (var (rowOf14 i)) 0 + Ideal.ofBits .f32 0x3727C5AC#32))
    * scale (rowOf14 i) + bias (rowOf14 i))) 0)
  rw [hε]
  exact (((((hX i).sub (hm _)).mul (isReal_rsqrt_max_zero_add_pos (hv _) he)).mul (hs _)).add (hb _)).max isReal_zero

/-- What the normalise region leaves is all real. -/
theorem O14_0_allReal (hpre : Cert.Pre_KernelIdeal m) (c : Dev nD) :
    AllReal (O14_0 (F := Ideal) m c : S100000x64.Idx → EReal) := by
  rw [O14_0_fun]
  exact bnRelu14_allReal (W33_v264_0_allReal m hpre c) (W33_v266_allReal m hpre c) (W33_v270_allReal m hpre c)
    (W33_v271_allReal m hpre c) (W33_v272_allReal m hpre c)

/-! ## Layer 2: the dense layer -/

set_option maxHeartbeats 4000000 in
/-- The weight of layer 2 is all real. -/
theorem W35_v275_allReal (hpre : Cert.Pre_KernelIdeal m) (c : Dev nD) :
    AllReal (W35 (F := Ideal) m c main_v275 : S64x32.Idx → EReal) := by
  dsimp only [W35, hostOps15]
  after_results
  rw [rl2_W34_arg5]
  exact ((main_arg5_allReal m hpre c).extractStridedSlice _ _).shapeCast _

set_option maxHeartbeats 4000000 in
/-- The bias row of layer 2 is all real. -/
theorem W35_v278_allReal (hpre : Cert.Pre_KernelIdeal m) (c : Dev nD) :
    AllReal (W35 (F := Ideal) m c main_v278 : S1x32.Idx → EReal) := by
  dsimp only [W35, hostOps15]
  after_results
  rw [rl2_W34_arg6]
  exact (((main_arg6_allReal m hpre c).extractStridedSlice _ _).shapeCast _).shapeCast _

/-- The second dense layer of the relation, as its region leaves it, is all real. -/
theorem O15_0_allReal (hpre : Cert.Pre_KernelIdeal m) (c : Dev nD) :
    AllReal (O15_0 (F := Ideal) m c : S100000x32.Idx → EReal) := by
  rw [O15_0_eq_affine, rl2_W35_v273]
  exact AllReal.affine 100000 64 32 (O14_0_allReal m hpre c) (W35_v275_allReal m hpre c) (W35_v278_allReal m hpre c)

/-! ## Layer 2: what the mixing region reads -/

set_option maxHeartbeats 4000000 in
/-- The aggregated array of layer 2 is all real. -/
theorem W37_v292_allReal (hpre : Cert.Pre_KernelIdeal m) (c : Dev nD) :
    AllReal (W37 (F := Ideal) m c main_v292 : S100000x32.Idx → EReal) := by
  dsimp only [W37, hostOps16]
  after_results
  refine AllReal.scatterAdd _ _ (allReal_broadcastInDim_constant _ _ _ isReal_ofBits_zero_f32) ?_
  refine AllReal.mulf (AllReal.gather ?_ _ _) (AllReal.broadcastInDim (AllReal.broadcastInDim ?_ _ _) _ _)
  · rw [rl2_W36_v279]; exact O15_0_allReal m hpre c
  · rw [rl2_W36_v237]; exact W29_v237_allReal m c

set_option maxHeartbeats 4000000 in
/-- The mixing weight of layer 2 is all real. -/
theorem W37_v299_allReal (hpre : Cert.Pre_KernelIdeal m) (c : Dev nD) :
    AllReal (W37 (F := Ideal) m c main_v299 : S1x1.Idx → EReal) := by
  dsimp only [W37, hostOps16]
  after_results
  rw [rl2_W36_arg8]
  exact (((main_arg8_allReal m hpre c).extractStridedSlice _ _).shapeCast _).shapeCast _

set_option maxHeartbeats 4000000 in
/-- The scale vector of layer 2 is all real. -/
theorem W37_v296_allReal (hpre : Cert.Pre_KernelIdeal m) (c : Dev nD) :
    AllReal (W37 (F := Ideal) m c main_v296 : S32.Idx → EReal) := by
  dsimp only [W37, hostOps16]
  after_results
  rw [rl2_W36_arg11]
  exact ((main_arg11_allReal m hpre c).extractStridedSlice _ _).shapeCast _

set_option maxHeartbeats 4000000 in
/-- The bias vector of layer 2's normalisation is all real. -/
theorem W37_v298_allReal (hpre : Cert.Pre_KernelIdeal m) (c : Dev nD) :
    AllReal (W37 (F := Ideal) m c main_v298 : S32.Idx → EReal) := by
  dsimp only [W37, hostOps16]
  after_results
  rw [rl2_W36_arg12]
  exact ((main_arg12_allReal m hpre c).extractStridedSlice _ _).shapeCast _

/-- The second dense layer as the mixing region finds it. -/
theorem W37_v279_allReal (hpre : Cert.Pre_KernelIdeal m) (c : Dev nD) :
    AllReal (W37 (F := Ideal) m c main_v279 : S100000x32.Idx → EReal) := by
  rw [rl2_W37_v279]; exact O15_0_allReal m hpre c

/-! ## Layer 2: the mixed array and its two accumulated rows -/

/-- g·agg + (1 - g)·h of all-real g, h, agg is all real. -/
theorem mix16_allReal {g : S1x1.Idx → EReal} {h agg : S100000x32.Idx → EReal} (hg : AllReal g) (hh : AllReal h)
    (hagg : AllReal agg) : AllReal (mixG_16 g h agg) :=
  fun i => ((hg _).mul (hagg i)).add ((isReal_ofBits_one_f32.sub (hg _)).mul (hh i))

/-- The mixed value at every row and column is real. -/
theorem xm16_isReal (hpre : Cert.Pre_KernelIdeal m) (c : Dev nD) (p : Fin 100000) (q : Fin 32) : IsReal (xm16 m c p q) :=
  mix16_allReal (W37_v299_allReal m hpre c) (W37_v279_allReal m hpre c) (W37_v292_allReal m hpre c) (ix2 p q)

/-- The mixed array, as the mixing region leaves it, is all real. -/
theorem O16_0_allReal (hpre : Cert.Pre_KernelIdeal m) (c : Dev nD) :
    AllReal (O16_0 (F := Ideal) m c : S100000x32.Idx → EReal) := by
  intro i
  obtain ⟨p, q, rfl⟩ : ∃ (p : Fin 100000) (q : Fin 32), i = ix2 p q := ⟨i 0, i 1, eq_ix2 i⟩
  rw [O16_0_eq]
  exact xm16_isReal m hpre c p q

/-- The row of column sums the mixing region accumulates is all real. -/
theorem O16_1_allReal (hpre : Cert.Pre_KernelIdeal m) (c : Dev nD) :
    AllReal (O16_1 (F := Ideal) m c : S1x32.Idx → EReal) := by
  intro i
  obtain ⟨a, q, rfl⟩ : ∃ (a : Fin 1) (q : Fin 32), i = ix2 a q := ⟨i 0, i 1, eq_ix2 i⟩
  obtain rfl : a = 0 := Subsingleton.elim _ _
  rw [O16_1_eq]
  exact IsReal.sum _ _ fun t _ => IsReal.sum _ _ fun r _ => xm16_isReal m hpre c _ q

/-- The row of column sums of squares the mixing region accumulates is all real. -/
theorem O16_2_allReal (hpre : Cert.Pre_KernelIdeal m) (c : Dev nD) :
    AllReal (O16_2 (F := Ideal) m c : S1x32.Idx → EReal) := by
  intro i
  obtain ⟨a, q, rfl⟩ : ∃ (a : Fin 1) (q : Fin 32), i = ix2 a q := ⟨i 0, i 1, eq_ix2 i⟩
  obtain rfl : a = 0 := Subsingleton.elim _ _
  rw [O16_2_eq]
  exact IsReal.sum _ _ fun t _ => IsReal.sum _ _ fun r _ => (xm16_isReal m hpre c _ q).mul (xm16_isReal m hpre c _ q)

/-! ## Layer 2: the normalise region -/

set_option maxHeartbeats 4000000 in
/-- The mean row, the column sums over 100000, is all real. -/
theorem W39_v302_allReal (hpre : Cert.Pre_KernelIdeal m) (c : Dev nD) :
    AllReal (W39 (F := Ideal) m c main_v302 : S1x32.Idx → EReal) := by
  dsimp only [W39, hostOps17]
  after_results
  rw [rl2_W38_v300_1]
  exact allReal_hostDivf_1e5 (O16_1_allReal m hpre c) _ _

set_option maxHeartbeats 4000000 in
/-- The variance row, the column sums of squares over 100000 less the squared mean, is all real. -/
theorem W39_v306_allReal (hpre : Cert.Pre_KernelIdeal m) (c : Dev nD) :
    AllReal (W39 (F := Ideal) m c main_v306 : S1x32.Idx → EReal) := by
  dsimp only [W39, hostOps17]
  after_results
  rw [rl2_W38_v300_1, rl2_W38_v300_2]
  exact AllReal.subf (allReal_hostDivf_1e5 (O16_2_allReal m hpre c) _ _)
    (AllReal.mulf (allReal_hostDivf_1e5 (O16_1_allReal m hpre c) _ _) (allReal_hostDivf_1e5 (O16_1_allReal m hpre c) _ _))

set_option maxHeartbeats 4000000 in
/-- The scale row is all real. -/
theorem W39_v307_allReal (hpre : Cert.Pre_KernelIdeal m) (c : Dev nD) :
    AllReal (W39 (F := Ideal) m c main_v307 : S1x32.Idx → EReal) := by
  dsimp only [W39, hostOps17]
  after_results
  rw [rl2_W38_of m c main_v296 (by decide)]
  exact (W37_v296_allReal m hpre c).shapeCast _

set_option maxHeartbeats 4000000 in
/-- The bias row of the normalisation is all real. -/
theorem W39_v308_allReal (hpre : Cert.Pre_KernelIdeal m) (c : Dev nD) :
    AllReal (W39 (F := Ideal) m c main_v308 : S1x32.Idx → EReal) := by
  dsimp only [W39, hostOps17]
  after_results
  rw [rl2_W38_of m c main_v298 (by decide)]
  exact (W37_v298_allReal m hpre c).shapeCast _

/-- The mixed array as the normalise region finds it. -/
theorem W39_v300_0_allReal (hpre : Cert.Pre_KernelIdeal m) (c : Dev nD) :
    AllReal (W39 (F := Ideal) m c main_v300_0 : S100000x32.Idx → EReal) := by
  show AllReal (StableHlo.after hostOps17 (W38 (F := Ideal) m c) (Proc.devRef .tc main_v300_0) : S100000x32.Idx → EReal)
  rw [StableHlo.after_of_writes_sub hostOps17 _ GenP.hostOps17_writes (by decide), rl2_W38_v300_0]
  exact O16_0_allReal m hpre c

/-- The normalisation of an all-real array by all-real mean, variance, scale and bias rows is all real. -/
theorem bnRelu17_allReal {X : S100000x32.Idx → EReal} {mean var scale bias : S1x32.Idx → EReal} (hX : AllReal X)
    (hm : AllReal mean) (hv : AllReal var) (hs : AllReal scale) (hb : AllReal bias) :
    AllReal (bnRelu17 X mean var scale bias) := by
  intro i
  obtain ⟨e, he, hε⟩ := ofBits_eps_f32
  show IsReal (max ((((X i - mean (rowOf17 i)) * Ideal.rsqrt (max (var (rowOf17 i)) 0 + Ideal.ofBits .f32 0x3727C5AC#32))
    * scale (rowOf17 i) + bias (rowOf17 i))) 0)
  rw [hε]
  exact (((((hX i).sub (hm _)).mul (isReal_rsqrt_max_zero_add_pos (hv _) he)).mul (hs _)).add (hb _)).max isReal_zero

/-- What the normalise region leaves is all real. -/
theorem O17_0_allReal (hpre : Cert.Pre_KernelIdeal m) (c : Dev nD) :
    AllReal (O17_0 (F := Ideal) m c : S100000x32.Idx → EReal) := by
  rw [O17_0_fun]
  exact bnRelu17_allReal (W39_v300_0_allReal m hpre c) (W39_v302_allReal m hpre c) (W39_v306_allReal m hpre c)
    (W39_v307_allReal m hpre c) (W39_v308_allReal m hpre c)

end Cert.KernelIdeal.Body

end
-- ==== Proof.KIScaleRows.lean ====
/-
  The scale and bias rows the normalise regions read are rows of the argument arrays.

  Each normalise region reads a 1×w scale row and a 1×w bias row. The host made each as a vector, the relation's row of
  the scale (bias) argument cut out and reshaped, and reshaped it to a row just before the region. Reading the row at
  (0, q) is therefore reading the argument at (relation, q). Stated for the normalise stages after the mixing regions
  4, 7, 10, 13 and 16.
-/
import proofs.«140713_j1864015806535_2_alg».proof.Proof.KIFrameBase
import proofs.«140713_j1864015806535_2_alg».proof.Proof.KIRealLayer2
import proofs.«140713_j1864015806535_2_alg».proof.Proof.KIRealRel1
import proofs.«140713_j1864015806535_2_alg».proof.Proof.KIRealRel2
import Idealize.ShloMosaic.Lib.StableHlo.Run
import Idealize.ShloMosaic.Lib.ValueIdx
import Idealize.ShloMosaic.Lib.ValueLayout
import Idealize.ShloMosaic.Lib.Pipeline.Value

set_option maxRecDepth 65536

noncomputable section

namespace Cert.KernelIdeal.Body

open Cert.KernelIdeal Cert.KernelIdeal.Gen Idealize.ShloMosaic Idealize.ShloMosaic.TcCoe Idealize.ShloMosaic.ValueIdx Idealize.SL.Sem
open Idealize.ShloMosaic.StableHlo
open Idealize.ShloMosaic.Pipeline (Dat Cfg Window)

variable (m : (ℓ : Loc nD τ sig) → Buf (Elt Ideal) ℓ)

set_option maxHeartbeats 4000000 in
/-- The scale row the normalise region 5 reads, at (0, q): row 0 of the scale argument at q. -/
theorem ker_scale4_at (c : Dev nD) (q : Fin 32) :
    (W11 (F := Ideal) m c main_v95 : S1x32.Idx → EReal) (ix2 0 q)
      = (m ((c.tc : Thread nD τ).loc main_arg11) : S3x32.Idx → EReal) (ix2 (0 : Fin 3) q) := by
  dsimp only [W11, hostOps5]
  after_results
  rw [rl2_W10_of m c main_v84 (by decide)]
  dsimp only [W9, hostOps4]
  after_results
  rw [rl2_W8_of m c main_arg11 (by decide) (by decide) (by decide) (by decide) (by decide) (by decide) (by decide) (by decide)]
  show shapeCast S1x32 (shapeCast S32 (extractStridedSlice S1x32 ![0, 0] (m ((c.tc : Thread nD τ).loc main_arg11) : S3x32.Idx → EReal) _) _) _ (ix2 0 q) = _
  rw [shapeCast_a_1a_apply, shapeCast_1a_a_apply]
  exact slice2_axis0_apply 0 _ _ (0 : Fin 1) q (0 : Fin 3) rfl

set_option maxHeartbeats 4000000 in
/-- The bias row the normalise region 5 reads, at (0, q): row 0 of the bias argument at q. -/
theorem ker_shift4_at (c : Dev nD) (q : Fin 32) :
    (W11 (F := Ideal) m c main_v96 : S1x32.Idx → EReal) (ix2 0 q)
      = (m ((c.tc : Thread nD τ).loc main_arg12) : S3x32.Idx → EReal) (ix2 (0 : Fin 3) q) := by
  dsimp only [W11, hostOps5]
  after_results
  rw [rl2_W10_of m c main_v86 (by decide)]
  dsimp only [W9, hostOps4]
  after_results
  rw [rl2_W8_of m c main_arg12 (by decide) (by decide) (by decide) (by decide) (by decide) (by decide) (by decide) (by decide)]
  show shapeCast S1x32 (shapeCast S32 (extractStridedSlice S1x32 ![0, 0] (m ((c.tc : Thread nD τ).loc main_arg12) : S3x32.Idx → EReal) _) _) _ (ix2 0 q) = _
  rw [shapeCast_a_1a_apply, shapeCast_1a_a_apply]
  exact slice2_axis0_apply 0 _ _ (0 : Fin 1) q (0 : Fin 3) rfl

set_option maxHeartbeats 4000000 in
/-- The scale row the normalise region 8 reads, at (0, q): row 1 of the scale argument at q. -/
theorem ker_scale7_at (c : Dev nD) (q : Fin 64) :
    (W19 (F := Ideal) m c main_v165 : S1x64.Idx → EReal) (ix2 0 q)
      = (m ((c.tc : Thread nD τ).loc main_arg9) : S3x64.Idx → EReal) (ix2 (1 : Fin 3) q) := by
  dsimp only [W19, hostOps8]
  after_results
  rw [rl1_W18_of m c main_v154 (by decide)]
  dsimp only [W17, hostOps7]
  after_results
  rw [rl1_W16_arg9]
  show shapeCast S1x64 (shapeCast S64 (extractStridedSlice S1x64 ![1, 0] (m ((c.tc : Thread nD τ).loc main_arg9) : S3x64.Idx → EReal) _) _) _ (ix2 0 q) = _
  rw [shapeCast_a_1a_apply, shapeCast_1a_a_apply]
  exact slice2_axis0_apply 1 _ _ (0 : Fin 1) q (1 : Fin 3) rfl

set_option maxHeartbeats 4000000 in
/-- The bias row the normalise region 8 reads, at (0, q): row 1 of the bias argument at q. -/
theorem ker_shift7_at (c : Dev nD) (q : Fin 64) :
    (W19 (F := Ideal) m c main_v166 : S1x64.Idx → EReal) (ix2 0 q)
      = (m ((c.tc : Thread nD τ).loc main_arg10) : S3x64.Idx → EReal) (ix2 (1 : Fin 3) q) := by
  dsimp only [W19, hostOps8]
  after_results
  rw [rl1_W18_of m c main_v156 (by decide)]
  dsimp only [W17, hostOps7]
  after_results
  rw [rl1_W16_arg10]
  show shapeCast S1x64 (shapeCast S64 (extractStridedSlice S1x64 ![1, 0] (m ((c.tc : Thread nD τ).loc main_arg10) : S3x64.Idx → EReal) _) _) _ (ix2 0 q) = _
  rw [shapeCast_a_1a_apply, shapeCast_1a_a_apply]
  exact slice2_axis0_apply 1 _ _ (0 : Fin 1) q (1 : Fin 3) rfl

set_option maxHeartbeats 4000000 in
/-- The scale row the normalise region 11 reads, at (0, q): row 1 of the scale argument at q. -/
theorem ker_scale10_at (c : Dev nD) (q : Fin 32) :
    (W25 (F := Ideal) m c main_v201 : S1x32.Idx → EReal) (ix2 0 q)
      = (m ((c.tc : Thread nD τ).loc main_arg11) : S3x32.Idx → EReal) (ix2 (1 : Fin 3) q) := by
  dsimp only [W25, hostOps11]
  after_results
  rw [rl1_W24_of m c main_v190 (by decide)]
  dsimp only [W23, hostOps10]
  after_results
  rw [rl1_W22_arg11]
  show shapeCast S1x32 (shapeCast S32 (extractStridedSlice S1x32 ![1, 0] (m ((c.tc : Thread nD τ).loc main_arg11) : S3x32.Idx → EReal) _) _) _ (ix2 0 q) = _
  rw [shapeCast_a_1a_apply, shapeCast_1a_a_apply]
  exact slice2_axis0_apply 1 _ _ (0 : Fin 1) q (1 : Fin 3) rfl

set_option maxHeartbeats 4000000 in
/-- The bias row the normalise region 11 reads, at (0, q): row 1 of the bias argument at q. -/
theorem ker_shift10_at (c : Dev nD) (q : Fin 32) :
    (W25 (F := Ideal) m c main_v202 : S1x32.Idx → EReal) (ix2 0 q)
      = (m ((c.tc : Thread nD τ).loc main_arg12) : S3x32.Idx → EReal) (ix2 (1 : Fin 3) q) := by
  dsimp only [W25, hostOps11]
  after_results
  rw [rl1_W24_of m c main_v192 (by decide)]
  dsimp only [W23, hostOps10]
  after_results
  rw [rl1_W22_arg12]
  show shapeCast S1x32 (shapeCast S32 (extractStridedSlice S1x32 ![1, 0] (m ((c.tc : Thread nD τ).loc main_arg12) : S3x32.Idx → EReal) _) _) _ (ix2 0 q) = _
  rw [shapeCast_a_1a_apply, shapeCast_1a_a_apply]
  exact slice2_axis0_apply 1 _ _ (0 : Fin 1) q (1 : Fin 3) rfl

set_option maxHeartbeats 4000000 in
/-- The scale row the normalise region 14 reads, at (0, q): row 2 of the scale argument at q. -/
theorem ker_scale13_at (c : Dev nD) (q : Fin 64) :
    (W33 (F := Ideal) m c main_v271 : S1x64.Idx → EReal) (ix2 0 q)
      = (m ((c.tc : Thread nD τ).loc main_arg9) : S3x64.Idx → EReal) (ix2 (2 : Fin 3) q) := by
  dsimp only [W33, hostOps14]
  after_results
  rw [rl2_W32_of m c main_v260 (by decide)]
  dsimp only [W31, hostOps13]
  after_results
  rw [rl2_W30_arg9]
  show shapeCast S1x64 (shapeCast S64 (extractStridedSlice S1x64 ![2, 0] (m ((c.tc : Thread nD τ).loc main_arg9) : S3x64.Idx → EReal) _) _) _ (ix2 0 q) = _
  rw [shapeCast_a_1a_apply, shapeCast_1a_a_apply]
  exact slice2_axis0_apply 2 _ _ (0 : Fin 1) q (2 : Fin 3) rfl

set_option maxHeartbeats 4000000 in
/-- The bias row the normalise region 14 reads, at (0, q): row 2 of the bias argument at q. -/
theorem ker_shift13_at (c : Dev nD) (q : Fin 64) :
    (W33 (F := Ideal) m c main_v272 : S1x64.Idx → EReal) (ix2 0 q)
      = (m ((c.tc : Thread nD τ).loc main_arg10) : S3x64.Idx → EReal) (ix2 (2 : Fin 3) q) := by
  dsimp only [W33, hostOps14]
  after_results
  rw [rl2_W32_of m c main_v262 (by decide)]
  dsimp only [W31, hostOps13]
  after_results
  rw [rl2_W30_arg10]
  show shapeCast S1x64 (shapeCast S64 (extractStridedSlice S1x64 ![2, 0] (m ((c.tc : Thread nD τ).loc main_arg10) : S3x64.Idx → EReal) _) _) _ (ix2 0 q) = _
  rw [shapeCast_a_1a_apply, shapeCast_1a_a_apply]
  exact slice2_axis0_apply 2 _ _ (0 : Fin 1) q (2 : Fin 3) rfl

set_option maxHeartbeats 4000000 in
/-- The scale row the normalise region 17 reads, at (0, q): row 2 of the scale argument at q. -/
theorem ker_scale16_at (c : Dev nD) (q : Fin 32) :
    (W39 (F := Ideal) m c main_v307 : S1x32.Idx → EReal) (ix2 0 q)
      = (m ((c.tc : Thread nD τ).loc main_arg11) : S3x32.Idx → EReal) (ix2 (2 : Fin 3) q) := by
  dsimp only [W39, hostOps17]
  after_results
  rw [rl2_W38_of m c main_v296 (by decide)]
  dsimp only [W37, hostOps16]
  after_results
  rw [rl2_W36_arg11]
  show shapeCast S1x32 (shapeCast S32 (extractStridedSlice S1x32 ![2, 0] (m ((c.tc : Thread nD τ).loc main_arg11) : S3x32.Idx → EReal) _) _) _ (ix2 0 q) = _
  rw [shapeCast_a_1a_apply, shapeCast_1a_a_apply]
  exact slice2_axis0_apply 2 _ _ (0 : Fin 1) q (2 : Fin 3) rfl

set_option maxHeartbeats 4000000 in
/-- The bias row the normalise region 17 reads, at (0, q): row 2 of the bias argument at q. -/
theorem ker_shift16_at (c : Dev nD) (q : Fin 32) :
    (W39 (F := Ideal) m c main_v308 : S1x32.Idx → EReal) (ix2 0 q)
      = (m ((c.tc : Thread nD τ).loc main_arg12) : S3x32.Idx → EReal) (ix2 (2 : Fin 3) q) := by
  dsimp only [W39, hostOps17]
  after_results
  rw [rl2_W38_of m c main_v298 (by decide)]
  dsimp only [W37, hostOps16]
  after_results
  rw [rl2_W36_arg12]
  show shapeCast S1x32 (shapeCast S32 (extractStridedSlice S1x32 ![2, 0] (m ((c.tc : Thread nD τ).loc main_arg12) : S3x32.Idx → EReal) _) _) _ (ix2 0 q) = _
  rw [shapeCast_a_1a_apply, shapeCast_1a_a_apply]
  exact slice2_axis0_apply 2 _ _ (0 : Fin 1) q (2 : Fin 3) rfl

end Cert.KernelIdeal.Body

end
-- ==== Proof.KIStageBnJoin4.lean ====
/-
  The normalise stage after mixing region 4: the two programs' normalised arrays agree.

  The reference normalises each column of the mixed array with its two-pass mean and variance; the kernel program's
  normalise region does so from the sums its mixing region accumulated, which for real entries is the two-pass form as
  well (the variance identity). The mixed array is real, entry by entry, under the finiteness precondition, and the
  scale and bias rows are the same rows of the same arguments. So when the mixed arrays agree and the two memories agree
  on the scale and bias arguments, the normalised, cut-off arrays agree.
-/
import proofs.«140713_j1864015806535_2_alg».proof.Proof.KIStageBn4
import proofs.«140713_j1864015806535_2_alg».proof.Proof.KIStageBnRef4
import proofs.«140713_j1864015806535_2_alg».proof.Proof.KIScaleRows

set_option maxRecDepth 65536

noncomputable section

namespace Cert.Proof.Value

open Idealize.ShloMosaic Idealize.ShloMosaic.TcCoe Idealize.ShloMosaic.ValueIdx Idealize.SL.Sem Idealize.ShloMosaic.StableHlo

/-- THE NORMALISE STAGE'S JOIN after mixing region 4, from any contents of the reference's buffers before its window: if the
    mix arrays agree and the scale and bias arguments agree, the normalised arrays agree (for finite inputs). -/
theorem stageBn4
    (m : (ℓ : Loc Cert.KernelIdeal.nD Cert.KernelIdeal.τ Cert.KernelIdeal.sig) → Buf (Elt Ideal) ℓ)
    (V : Valuation Cert.ReferenceIdeal.τ Cert.ReferenceIdeal.sig (Elt Ideal))
    (c : Dev Cert.KernelIdeal.nD) (hpre : Cert.Pre_KernelIdeal m)
    (hX : (after (Cert.ReferenceIdeal.RefRun.ops2 (F := Ideal)) V (Cert.ReferenceIdeal.main_v129 : DevRef Cert.ReferenceIdeal.τ Cert.ReferenceIdeal.sig) : (⟨2, ![100000, 32]⟩ : Shape).Idx → EReal)
      = (Cert.KernelIdeal.Body.O4_0 (F := Ideal) m c : (⟨2, ![100000, 32]⟩ : Shape).Idx → EReal))
    (e11 : (V (Cert.ReferenceIdeal.main_arg11 : DevRef Cert.ReferenceIdeal.τ Cert.ReferenceIdeal.sig) : (⟨2, ![3, 32]⟩ : Shape).Idx → EReal)
      = m ((c.tc : Thread Cert.KernelIdeal.nD Cert.KernelIdeal.τ).loc Cert.KernelIdeal.main_arg11))
    (e12 : (V (Cert.ReferenceIdeal.main_arg12 : DevRef Cert.ReferenceIdeal.τ Cert.ReferenceIdeal.sig) : (⟨2, ![3, 32]⟩ : Shape).Idx → EReal)
      = m ((c.tc : Thread Cert.KernelIdeal.nD Cert.KernelIdeal.τ).loc Cert.KernelIdeal.main_arg12)) :
    (after (Cert.ReferenceIdeal.RefRun.ops3 (F := Ideal)) (after (Cert.ReferenceIdeal.RefRun.ops2 (F := Ideal)) V) (Cert.ReferenceIdeal.main_v153 : DevRef Cert.ReferenceIdeal.τ Cert.ReferenceIdeal.sig) : (⟨2, ![100000, 32]⟩ : Shape).Idx → EReal)
      = (Cert.KernelIdeal.Body.O5_0 (F := Ideal) m c : (⟨2, ![100000, 32]⟩ : Shape).Idx → EReal) := by
  funext i
  obtain ⟨p, q, rfl⟩ : ∃ (p : Fin 100000) (q : Fin 32), i = ix2 p q := ⟨i 0, i 1, eq_ix2 i⟩
  rw [Cert.ReferenceIdeal.RefRun.ref_bn4_at _ _ _ _ hX e11 e12 p q]
  have hk := Cert.KernelIdeal.Body.ker_y4 m c (fun p q => Cert.KernelIdeal.Body.O4_0_allReal m hpre c (ix2 p q)) p q
  refine Eq.trans ?_ hk.symm
  have hs : Cert.KernelIdeal.Body.at2_4 (Cert.KernelIdeal.Body.W11 (F := Ideal) m c Cert.KernelIdeal.main_v95) 0 q
      = (m ((c.tc : Thread Cert.KernelIdeal.nD Cert.KernelIdeal.τ).loc Cert.KernelIdeal.main_arg11) : (⟨2, ![3, 32]⟩ : Shape).Idx → EReal) (ix2 (0 : Fin 3) q) := Cert.KernelIdeal.Body.ker_scale4_at m c q
  have hb : Cert.KernelIdeal.Body.at2_4 (Cert.KernelIdeal.Body.W11 (F := Ideal) m c Cert.KernelIdeal.main_v96) 0 q
      = (m ((c.tc : Thread Cert.KernelIdeal.nD Cert.KernelIdeal.τ).loc Cert.KernelIdeal.main_arg12) : (⟨2, ![3, 32]⟩ : Shape).Idx → EReal) (ix2 (0 : Fin 3) q) := Cert.KernelIdeal.Body.ker_shift4_at m c q
  rw [hs, hb, Cert.ReferenceIdeal.RefRun.colVar4_eq]
  unfold Cert.LibNormJoin.normEntry Cert.ReferenceIdeal.RefRun.colMean4 Cert.ReferenceIdeal.RefRun.colSum4
  rw [Idealize.ShloMosaic.Ideal.ofBits_zero_f32, Cert.ReferenceIdeal.RefRun.ofBits_count4]
  simp only [Nat.cast_ofNat]

end Cert.Proof.Value

end
-- ==== Proof.KIStageBnKer7.lean ====
/-
  Between the mix region and the normalise region of the stage of mix region 7, the kernel program computes on the host the
  mean row (the accumulated column sums divided by 100000), the variance row (the accumulated sums of squares divided
  by 100000, minus the squared mean), and lays the scale and bias vectors out as rows. This module reads those four
  rows, and the mix array, off the valuation the normalise region is entered from.
-/
import proofs.«140713_j1864015806535_2_alg».proof.Proof.KIFrameBase
import Idealize.ShloMosaic.Lib.StableHlo.Run
import Idealize.ShloMosaic.PureOps.Ideal.Laws

set_option maxRecDepth 65536

noncomputable section

namespace Cert.KernelIdeal.Body

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- After the mix region its three outputs hold what it leaves. -/
theorem W18_pre_0 (c : Dev nD) : W18 (F := Ideal) m c main_v158_0 = O7_0 m c := by
  unfold W18
  simp only [Function.update_self,
    Function.update_of_ne (StableHlo.devRef_ne_of_ne (by decide : main_v158_0 ≠ main_v158_2) : (Proc.devRef .tc main_v158_0 : DevRef τ sig) ≠ Proc.devRef .tc main_v158_2),
    Function.update_of_ne (StableHlo.devRef_ne_of_ne (by decide : main_v158_0 ≠ main_v158_1) : (Proc.devRef .tc main_v158_0 : DevRef τ sig) ≠ Proc.devRef .tc main_v158_1)]
theorem W18_pre_1 (c : Dev nD) : W18 (F := Ideal) m c main_v158_1 = O7_1 m c := by
  unfold W18
  simp only [Function.update_self,
    Function.update_of_ne (StableHlo.devRef_ne_of_ne (by decide : main_v158_1 ≠ main_v158_2) : (Proc.devRef .tc main_v158_1 : DevRef τ sig) ≠ Proc.devRef .tc main_v158_2)]
theorem W18_pre_2 (c : Dev nD) : W18 (F := Ideal) m c main_v158_2 = O7_2 m c := by
  unfold W18
  simp only [Function.update_self]

set_option maxHeartbeats 2000000 in
/-- The mean row: the accumulated column sums over 100000. -/
theorem ker_mean7 (c : Dev nD) :
    (W19 (F := Ideal) m c main_v160 : S1x64.Idx → EReal)
      = Host.divf (F := Ideal) (O7_1 m c : S1x64.Idx → EReal) (broadcastInDim S1x64 ![] bcast_S_S1x64 (constant (F := Ideal) S_ .f32 0x47C35000#32)) := by
  dsimp only [W19, hostOps8]
  after_results
  rw [W18_pre_1]

set_option maxHeartbeats 2000000 in
/-- The variance row: the accumulated sums of squares over 100000, minus the squared mean. -/
theorem ker_var7 (c : Dev nD) :
    (W19 (F := Ideal) m c main_v164 : S1x64.Idx → EReal)
      = subf (Host.divf (F := Ideal) (O7_2 m c : S1x64.Idx → EReal) (broadcastInDim S1x64 ![] bcast_S_S1x64 (constant (F := Ideal) S_ .f32 0x47C35000#32)))
          (mulf (W19 (F := Ideal) m c main_v160 : S1x64.Idx → EReal) (W19 (F := Ideal) m c main_v160 : S1x64.Idx → EReal)) := by
  rw [ker_mean7]
  dsimp only [W19, hostOps8]
  after_results
  rw [W18_pre_1, W18_pre_2]

/-- The mix array is untouched by the host stretch. -/
theorem ker_xm7 (c : Dev nD) : W19 (F := Ideal) m c main_v158_0 = O7_0 m c :=
  (StableHlo.after_of_writes_sub hostOps8 _ GenP.hostOps8_writes (by decide)).trans (W18_pre_0 m c)

end Cert.KernelIdeal.Body

end
-- ==== Proof.KIStageBn7.lean ====
/-
  The normalise stage of the stage of mix region 7, on the kernel program's side, in the reference's form.

  The normalise region's output at (p, q) is the normalised entry of the mix array's column q, with the mean and the
  variance the host computed from the sums the mix region accumulated: mean = S/100000, variance = SS/100000 − mean²,
  cut off at 0. The accumulated sums are the column's sum and the sum of its squares (ten tiles of 10000 rows are the
  100000 rows), so for a column of real entries this is the two-pass normalisation: mean (0 + Σ x)/100000, variance
  (0 + Σ (x − mean)²)/100000, no cut-off (Proof/LibNormJoin.lean).
-/
import proofs.«140713_j1864015806535_2_alg».proof.Proof.KIValMix7
import proofs.«140713_j1864015806535_2_alg».proof.Proof.KIValBn8
import proofs.«140713_j1864015806535_2_alg».proof.Proof.KIStageBnKer7
import proofs.«140713_j1864015806535_2_alg».proof.Proof.LibNormJoin
import proofs.«140713_j1864015806535_2_alg».proof.Proof.LibTiles

set_option maxRecDepth 65536

noncomputable section

namespace Cert.KernelIdeal.Body

open Cert.KernelIdeal Cert.KernelIdeal.Gen Idealize.ShloMosaic Idealize.ShloMosaic.TcCoe Idealize.ShloMosaic.ValueIdx Idealize.SL.Sem
open Cert.LibRealEntries Cert.LibNormJoin

variable (m : (ℓ : Loc nD τ sig) → Buf (Elt Ideal) ℓ)

/-- An entry of a two-axis array of extended reals. -/
abbrev at2_7 {a b : ℕ} (x : (⟨2, ![a, b]⟩ : Shape).Idx → EReal) (p : Fin a) (q : Fin b) : EReal := x (ix2 p q)

/-- Column q of the mix array, as a function of the row. -/
abbrev xcol7 (c : Dev nD) (q : Fin 64) : Fin 100000 → EReal := fun p => at2_7 (O7_0 (F := Ideal) m c) p q

/-- Ten tiles of 10000 rows are the 100000 rows. -/
theorem sum_tiles7 (f : Fin 100000 → EReal) :
    ∑ t : Fin 10, ∑ r : Fin 10000, f ⟨t.val * 10000 + r.val, by omega⟩ = ∑ p, f p := by
  rw [Cert.LibTiles.sum_blocks 10 10000 100000 rfl f (fun i a => by omega)]
  exact Finset.sum_congr rfl fun t _ => Finset.sum_congr rfl fun r _ => congrArg f (Fin.ext (by show t.val * 10000 + r.val = 10000 * t.val + r.val; omega))

/-- The first accumulated row is the column sums of the mix array. -/
theorem col_sum7 (c : Dev nD) (q : Fin 64) : at2_7 (O7_1 (F := Ideal) m c) 0 q = ∑ p, xcol7 m c q p := by
  rw [show at2_7 (O7_1 (F := Ideal) m c) 0 q = (O7_1 (F := Ideal) m c : S1x64.Idx → EReal) (ix2 0 q) from rfl, O7_1_eq, ← sum_tiles7 (xcol7 m c q)]
  exact Finset.sum_congr rfl fun t _ => Finset.sum_congr rfl fun r _ => (O7_0_eq m c _ q).symm

/-- The second is the column sums of its squares. -/
theorem col_sumsq7 (c : Dev nD) (q : Fin 64) : at2_7 (O7_2 (F := Ideal) m c) 0 q = ∑ p, xcol7 m c q p * xcol7 m c q p := by
  rw [show at2_7 (O7_2 (F := Ideal) m c) 0 q = (O7_2 (F := Ideal) m c : S1x64.Idx → EReal) (ix2 0 q) from rfl, O7_2_eq, ← sum_tiles7 (fun p => xcol7 m c q p * xcol7 m c q p)]
  exact Finset.sum_congr rfl fun t _ => Finset.sum_congr rfl fun r _ => by rw [← O7_0_eq m c _ q]

/-- The mean row at q. -/
theorem ker_mean7_at (c : Dev nD) (q : Fin 64) :
    at2_7 (W19 (F := Ideal) m c main_v160) 0 q
      = Ideal.div (at2_7 (O7_1 (F := Ideal) m c) 0 q) (Ideal.ofBits .f32 0x47C35000#32) := by
  rw [ker_mean7]; rfl

/-- The variance row at q. -/
theorem ker_var7_at (c : Dev nD) (q : Fin 64) :
    at2_7 (W19 (F := Ideal) m c main_v164) 0 q
      = Ideal.div (at2_7 (O7_2 (F := Ideal) m c) 0 q) (Ideal.ofBits .f32 0x47C35000#32)
        - at2_7 (W19 (F := Ideal) m c main_v160) 0 q * at2_7 (W19 (F := Ideal) m c main_v160) 0 q := by
  rw [ker_var7]; rfl

/-- THE NORMALISE REGION'S OUTPUT in the two-pass form, for a mix array of real entries. -/
theorem ker_y7 (c : Dev nD) (hreal : ∀ p q, IsReal (xcol7 m c q p)) (p : Fin 100000) (q : Fin 64) :
    at2_7 (O8_0 (F := Ideal) m c) p q
      = normEntry (xcol7 m c q p)
          (Ideal.div (0 + ∑ i, xcol7 m c q i) (((100000 : ℕ) : ℝ) : EReal))
          (Ideal.div (0 + ∑ i, (xcol7 m c q i - Ideal.div (0 + ∑ j, xcol7 m c q j) (((100000 : ℕ) : ℝ) : EReal))
              * (xcol7 m c q i - Ideal.div (0 + ∑ j, xcol7 m c q j) (((100000 : ℕ) : ℝ) : EReal))) (((100000 : ℕ) : ℝ) : EReal))
          (Ideal.ofBits .f32 0x3727C5AC#32)
          (at2_7 (W19 (F := Ideal) m c main_v165) 0 q) (at2_7 (W19 (F := Ideal) m c main_v166) 0 q) := by
  rw [← norm_join (n := 100000) (by norm_num) (xcol7 m c q) (fun i => hreal i q) _ _ (col_sum7 m c q) (col_sumsq7 m c q)]
  rw [show at2_7 (O8_0 (F := Ideal) m c) p q = (O8_0 (F := Ideal) m c : S100000x64.Idx → EReal) (ix2 p q) from rfl, O8_0_eq, bnRelu8_apply]
  rw [show (W19 (F := Ideal) m c main_v164 : S1x64.Idx → EReal) (ix2 0 q) = at2_7 (W19 (F := Ideal) m c main_v164) 0 q from rfl,
    show (W19 (F := Ideal) m c main_v160 : S1x64.Idx → EReal) (ix2 0 q) = at2_7 (W19 (F := Ideal) m c main_v160) 0 q from rfl,
    ker_var7_at, ker_mean7_at, ofBits_100000, ker_xm7]
  rfl

end Cert.KernelIdeal.Body

end
-- ==== Proof.KIStageBnRef7.lean ====
/-
  The reference's normalise-and-cut-off of relation 1, layer 1, read at one entry: the mixed array less its column mean,
  times the reciprocal square root of the column variance shifted by a small constant, times the scale, plus the bias,
  cut off below at 0; the column mean is the column's sum over its 100000 entries divided by 100000.
-/
import proofs.«140713_j1864015806535_2_alg».proof.Proof.RefFrame
import proofs.«140713_j1864015806535_2_alg».proof.Proof.LibHostBroadcast
import Idealize.ShloMosaic.Lib.StableHlo.Run
import Idealize.ShloMosaic.Lib.ValueIdx
import Idealize.ShloMosaic.Lib.IdealHost
import Idealize.ShloMosaic.Lib.Pipeline.Value
import Idealize.ShloMosaic.Lib.ValueLayout
import Idealize.ShloMosaic.PureOps.Ideal.Laws

set_option maxRecDepth 65536

noncomputable section

namespace Cert.ReferenceIdeal.RefRun
open Cert.ReferenceIdeal Cert.ReferenceIdeal.Gen Idealize.ShloMosaic Idealize.ShloMosaic.TcCoe Idealize.SL.Sem Idealize.ShloMosaic.StableHlo
open Idealize.ShloMosaic.ValueIdx

/-- A relation's row of a three-row argument, as a vector. -/
def rowVec7 (a : S3x64.Idx → EReal) : S64.Idx → EReal :=
  shapeCast S64 (extractStridedSlice S1x64 ![1, 0] a slices_S3x64_S1x64_1_0) shapeCasts_S1x64_S64

/-- A vector spread over the rows of the array: first as a row, then along the rows. -/
def spread7 (v : S64.Idx → EReal) : S100000x64.Idx → EReal :=
  broadcastInDim S100000x64 ![0, 1] bcast_S1x64_S100000x64_0_1 (broadcastInDim S1x64 ![1] bcast_S64_S1x64_1 v)

/-- The column means: each column's sum from the zero word, divided by the count's word. -/
def refMeanVec7 (X : S100000x64.Idx → EReal) : S64.Idx → EReal :=
  Host.divf (F := Ideal) (Host.reduceAdd (F := Ideal) X (constant (F := Ideal) S_ .f32 0x00000000#32) reducesTo_S100000x64_S64_d0 h_S_)
    (broadcastInDim S64 ![] bcast_S_S64 (constant (F := Ideal) S_ .f32 0x47C35000#32))

/-- The count less the correction, as the outlined variance computes it. -/
def refCount7 : S_.Idx → EReal :=
  subf (F := Ideal) (constant (F := Ideal) S_ .f32 0x47C35000#32) (sitofp (F := Ideal) .f32 (constantI S_ 32 0#32))

/-- The array less its column means, the means computed as a row. -/
def refCentred7 (X : S100000x64.Idx → EReal) : S100000x64.Idx → EReal :=
  subf (F := Ideal) X (broadcastInDim S100000x64 ![0, 1] bcast_S1x64_S100000x64_0_1
    (Host.divf (F := Ideal)
      (broadcastInDim S1x64 ![1] bcast_S64_S1x64_1 (Host.reduceAdd (F := Ideal) X (constant (F := Ideal) S_ .f32 0x00000000#32) reducesTo_S100000x64_S64_d0 h_S_))
      (broadcastInDim S1x64 ![] bcast_S_S1x64 (constant (F := Ideal) S_ .f32 0x47C35000#32))))

/-- The column variances as the outlined function yields them: the sum of squared centred entries over the count, where the count is positive. -/
def refVarVec7 (X : S100000x64.Idx → EReal) : S64.Idx → EReal :=
  select (broadcastInDim S64 ![] bcast_S_S64 (cmpf (F := Ideal) .ogt refCount7 (constant (F := Ideal) S_ .f32 0x00000000#32)))
    (Host.divf (F := Ideal)
      (Host.reduceAdd (F := Ideal) (mulf (F := Ideal) (refCentred7 X) (refCentred7 X)) (constant (F := Ideal) S_ .f32 0x00000000#32) reducesTo_S100000x64_S64_d0 h_S_)
      (broadcastInDim S64 ![] bcast_S_S64 refCount7))
    (broadcastInDim S64 ![] bcast_S_S64 (id (constant (F := Ideal) S_ .f32 0x7FC00000#32)))

/-- The stage as the reference composes it. -/
def refBn7 (X : S100000x64.Idx → EReal) (a9 a10 : S3x64.Idx → EReal) : S100000x64.Idx → EReal :=
  maximumf (F := Ideal)
    (addf (F := Ideal)
      (mulf (F := Ideal)
        (mulf (F := Ideal) (subf (F := Ideal) X (spread7 (refMeanVec7 X)))
          (spread7 (Host.rsqrt (F := Ideal) (addf (F := Ideal) (refVarVec7 X) (broadcastInDim S64 ![] bcast_S_S64 (constant (F := Ideal) S_ .f32 0x3727C5AC#32))))))
        (spread7 (rowVec7 a9)))
      (spread7 (rowVec7 a10)))
    (broadcastInDim S100000x64 ![] bcast_S_S100000x64 (constant (F := Ideal) S_ .f32 0x00000000#32))

open Cert.LibHostBroadcast in
/-- A spread vector at (p, q) is the vector at q. -/
theorem spread7_apply (v : S64.Idx → EReal) (p : Fin 100000) (q : Fin 64) : spread7 v (ix2 p q) = v (ix1 q) :=
  vec_along_cols v bcast_S64_S1x64_1 bcast_S1x64_S100000x64_0_1 p q

/-- A relation-1 row of the argument at q is the argument at (0, q). -/
theorem rowVec7_apply (a : S3x64.Idx → EReal) (q : Fin 64) : rowVec7 a (ix1 q) = a (ix2 (1 : Fin 3) q) := by
  unfold rowVec7
  rw [shapeCast_1a_a_apply]
  exact slice2_axis0_apply 1 a slices_S3x64_S1x64_1_0 (0 : Fin 1) q (1 : Fin 3) rfl

/-- A column's sum from the zero word. -/
def colSum7 (X : S100000x64.Idx → EReal) (q : Fin 64) : EReal :=
  Ideal.ofBits .f32 0x00000000#32 + ∑ p' : Fin 100000, X (ix2 p' q)

/-- A column's mean: its sum divided by the count's word. -/
def colMean7 (X : S100000x64.Idx → EReal) (q : Fin 64) : EReal :=
  Ideal.div (colSum7 X q) (Ideal.ofBits .f32 0x47C35000#32)

/-- The count less the correction, as a scalar: the count's word less the integer zero read as a float. -/
def cnt7 : EReal := Ideal.ofBits .f32 0x47C35000#32 - Scalar.sitofp (F := Ideal) .f32 (0#32 : BitVec 32)

/-- A column's variance as the outlined function yields it: where the count is positive, the column's sum of squared
    centred entries divided by the count; the not-a-number word's value otherwise. -/
def colVar7 (X : S100000x64.Idx → EReal) (q : Fin 64) : EReal :=
  Scalar.select (Scalar.cmpf (F := Ideal) .ogt cnt7 (Ideal.ofBits .f32 0x00000000#32))
    (Ideal.div (Ideal.ofBits .f32 0x00000000#32 + ∑ p' : Fin 100000, (X (ix2 p' q) - colMean7 X q) * (X (ix2 p' q) - colMean7 X q)) cnt7)
    (Ideal.ofBits .f32 0x7FC00000#32)

/-- The host's sum down the rows, from the zero word, at column q. -/
theorem reduce0_apply7 (X : S100000x64.Idx → EReal) (q : Fin 64) :
    Host.reduceAdd (F := Ideal) X (constant (F := Ideal) S_ .f32 0x00000000#32) reducesTo_S100000x64_S64_d0 h_S_ (ix1 q) = colSum7 X q := by
  refine (hostReduceAdd_apply X _ reducesTo_S100000x64_S64_d0 h_S_ (ix1 q)).trans ?_
  refine (Ideal.hostReduceAdd_single reducesTo_S100000x64_S64_d0 (by decide) X _ (ix1 q)).trans ?_
  unfold colSum7
  rw [constant_apply]
  refine congrArg _ (Finset.sum_congr rfl fun k _ => congrArg X (funext fun a => Fin.ext ?_))
  match a with
  | ⟨0, _⟩ => rfl
  | ⟨1, _⟩ => rfl

theorem refMeanVec7_apply (X : S100000x64.Idx → EReal) (q : Fin 64) : refMeanVec7 X (ix1 q) = colMean7 X q := by
  unfold refMeanVec7 colMean7
  rw [hostDivf_apply, reduce0_apply7, broadcastInDim_scalar_apply, constant_apply]

theorem refCount7_apply : refCount7 ix0 = cnt7 := rfl

open Cert.LibHostBroadcast in
theorem refCentred7_apply (X : S100000x64.Idx → EReal) (p : Fin 100000) (q : Fin 64) :
    refCentred7 X (ix2 p q) = X (ix2 p q) - colMean7 X q := by
  unfold refCentred7 colMean7
  rw [subf_apply, row_to_mat, hostDivf_apply, vec_to_row, reduce0_apply7, broadcastInDim_scalar_apply, constant_apply]

theorem refVarVec7_apply (X : S100000x64.Idx → EReal) (q : Fin 64) : refVarVec7 X (ix1 q) = colVar7 X q := by
  unfold refVarVec7 colVar7
  rw [select_apply, broadcastInDim_scalar_apply, broadcastInDim_scalar_apply, hostDivf_apply, reduce0_apply7, broadcastInDim_scalar_apply,
    cmpf_apply, refCount7_apply, constant_apply]
  unfold colSum7
  simp only [mulf_apply, refCentred7_apply]
  rfl

/-- THE STAGE AT (p, q). -/
theorem refBn7_apply (X : S100000x64.Idx → EReal) (a9 a10 : S3x64.Idx → EReal) (p : Fin 100000) (q : Fin 64) :
    refBn7 X a9 a10 (ix2 p q)
      = max (((X (ix2 p q) - colMean7 X q) * Ideal.rsqrt (colVar7 X q + Ideal.ofBits .f32 0x3727C5AC#32)) * a9 (ix2 (1 : Fin 3) q)
          + a10 (ix2 (1 : Fin 3) q)) 0 := by
  unfold refBn7
  rw [maximumf_apply, addf_apply, mulf_apply, mulf_apply, subf_apply, spread7_apply, spread7_apply, spread7_apply, spread7_apply,
    rowVec7_apply, rowVec7_apply, refMeanVec7_apply, broadcastInDim_scalar_apply, constant_apply]
  show max (_ * Ideal.rsqrt (addf (F := Ideal) (refVarVec7 X) _ (ix1 q)) * _ + _) _ = _
  rw [addf_apply, refVarVec7_apply, broadcastInDim_scalar_apply, constant_apply, Ideal.ofBits_zero_f32]

/-- The count's word is 100000. -/
theorem ofBits_count7 : Ideal.ofBits .f32 0x47C35000#32 = ((100000 : ℝ) : EReal) := by
  simp [Ideal.ofBits, Ideal.ieee, -EReal.coe_mul]; norm_num

/-- The count less the correction is 100000: the correction is the integer zero. -/
theorem cnt7_eq : cnt7 = ((100000 : ℝ) : EReal) := by
  unfold cnt7
  rw [ofBits_count7, Ideal.scalar_sitofp_def]
  simp

/-- The count is positive, so a column's variance is its sum of squared centred entries over 100000. -/
theorem colVar7_eq (X : S100000x64.Idx → EReal) (q : Fin 64) :
    colVar7 X q = Ideal.div (Ideal.ofBits .f32 0x00000000#32 + ∑ p' : Fin 100000, (X (ix2 p' q) - colMean7 X q) * (X (ix2 p' q) - colMean7 X q)) ((100000 : ℝ) : EReal) := by
  unfold colVar7
  rw [cnt7_eq, Ideal.scalar_cmpf_def, Ideal.ofBits_zero_f32]
  have h : Ideal.cmp .ogt ((100000 : ℝ) : EReal) 0 = 1#1 := by
    unfold Ideal.cmp
    have : (0 : EReal) < ((100000 : ℝ) : EReal) := by exact_mod_cast (by norm_num : (0 : ℝ) < 100000)
    simp [this]
  rw [h, select_one]

/-- A column's mean is its sum over 100000. -/
theorem colMean7_eq (X : S100000x64.Idx → EReal) (q : Fin 64) :
    colMean7 X q = Ideal.div (∑ p' : Fin 100000, X (ix2 p' q)) ((100000 : ℝ) : EReal) := by
  unfold colMean7 colSum7
  rw [ofBits_count7, Ideal.ofBits_zero_f32, zero_add]

/-- The window's operations up to the mix write neither the scale argument nor the bias argument. -/
theorem ops4_take20_keeps7 (V : Valuation τ sig (Elt Ideal)) (r : Ref sig .tc) (hr : r ∉ (ops4_W : List (Ref sig .tc))) :
    after ((ops4 (F := Ideal)).take 20) V (Proc.devRef .tc r) = V (Proc.devRef .tc r) :=
  after_of_writes_sub (W := ops4_W) _ V
    (List.forall_iff_forall_mem.mpr fun op hop => List.forall_iff_forall_mem.mp ops4_writes op (List.mem_of_mem_take hop)) hr

set_option maxHeartbeats 4000000 in
/-- The reference's normalised array of relation 1, layer 1, is that composition of the mixed array the operations up to
    the mix leave and of the scale and bias arguments, from any contents before the window. The window is cut after the mix. -/
theorem ref_bn7 (V : Valuation τ sig (Elt Ideal)) :
    (after (ops4 (F := Ideal)) V (main_v240 : DevRef τ sig) : S100000x64.Idx → EReal)
      = refBn7 (after (ops4 (F := Ideal)) V (main_v216 : DevRef τ sig)) (V (main_arg9 : DevRef τ sig)) (V (main_arg10 : DevRef τ sig)) := by
  rw [← ops4_take20_keeps7 V main_arg9 (by decide), ← ops4_take20_keeps7 V main_arg10 (by decide),
    ← List.take_append_drop 20 (ops4 (F := Ideal)), after_append]
  simp only [List.take_append_drop]
  generalize after ((ops4 (F := Ideal)).take 20) V = R'
  dsimp only [ops4]
  simp only [List.drop_succ_cons, List.drop_zero]
  after_results_simp
  rfl

/-- The reference's normalise-and-cut-off of relation 1, layer 1, at (p, q), with the mixed array and the two arguments
    named: the entry less its column's mean, times the reciprocal square root of the column's variance plus the small
    constant, times the scale at q, plus the bias at q, cut off below at 0. -/
theorem ref_bn7_at (V : Valuation τ sig (Elt Ideal)) (X : S100000x64.Idx → EReal) (a9 a10 : S3x64.Idx → EReal)
    (hX : (after (ops4 (F := Ideal)) V (main_v216 : DevRef τ sig) : S100000x64.Idx → EReal) = X)
    (h9 : (V (main_arg9 : DevRef τ sig) : S3x64.Idx → EReal) = a9) (h10 : (V (main_arg10 : DevRef τ sig) : S3x64.Idx → EReal) = a10)
    (p : Fin 100000) (q : Fin 64) :
    (after (ops4 (F := Ideal)) V (main_v240 : DevRef τ sig) : S100000x64.Idx → EReal) (ix2 p q)
      = max (((X (ix2 p q) - colMean7 X q) * Ideal.rsqrt (colVar7 X q + Ideal.ofBits .f32 0x3727C5AC#32)) * a9 (ix2 (1 : Fin 3) q)
          + a10 (ix2 (1 : Fin 3) q)) 0 := by
  rw [ref_bn7, hX, h9, h10, refBn7_apply]

end Cert.ReferenceIdeal.RefRun

end
-- ==== Proof.KIStageBnJoin7.lean ====
/-
  The normalise stage after mixing region 7: the two programs' normalised arrays agree.

  The reference normalises each column of the mixed array with its two-pass mean and variance; the kernel program's
  normalise region does so from the sums its mixing region accumulated, which for real entries is the two-pass form as
  well (the variance identity). The mixed array is real, entry by entry, under the finiteness precondition, and the
  scale and bias rows are the same rows of the same arguments. So when the mixed arrays agree and the two memories agree
  on the scale and bias arguments, the normalised, cut-off arrays agree.
-/
import proofs.«140713_j1864015806535_2_alg».proof.Proof.KIStageBn7
import proofs.«140713_j1864015806535_2_alg».proof.Proof.KIStageBnRef7
import proofs.«140713_j1864015806535_2_alg».proof.Proof.KIScaleRows

set_option maxRecDepth 65536

noncomputable section

namespace Cert.Proof.Value

open Idealize.ShloMosaic Idealize.ShloMosaic.TcCoe Idealize.ShloMosaic.ValueIdx Idealize.SL.Sem Idealize.ShloMosaic.StableHlo

/-- THE NORMALISE STAGE'S JOIN after mixing region 7, from any contents of the reference's buffers before its window: if the
    mix arrays agree and the scale and bias arguments agree, the normalised arrays agree (for finite inputs). -/
theorem stageBn7
    (m : (ℓ : Loc Cert.KernelIdeal.nD Cert.KernelIdeal.τ Cert.KernelIdeal.sig) → Buf (Elt Ideal) ℓ)
    (V : Valuation Cert.ReferenceIdeal.τ Cert.ReferenceIdeal.sig (Elt Ideal))
    (c : Dev Cert.KernelIdeal.nD) (hpre : Cert.Pre_KernelIdeal m)
    (hX : (after (Cert.ReferenceIdeal.RefRun.ops4 (F := Ideal)) V (Cert.ReferenceIdeal.main_v216 : DevRef Cert.ReferenceIdeal.τ Cert.ReferenceIdeal.sig) : (⟨2, ![100000, 64]⟩ : Shape).Idx → EReal)
      = (Cert.KernelIdeal.Body.O7_0 (F := Ideal) m c : (⟨2, ![100000, 64]⟩ : Shape).Idx → EReal))
    (e9 : (V (Cert.ReferenceIdeal.main_arg9 : DevRef Cert.ReferenceIdeal.τ Cert.ReferenceIdeal.sig) : (⟨2, ![3, 64]⟩ : Shape).Idx → EReal)
      = m ((c.tc : Thread Cert.KernelIdeal.nD Cert.KernelIdeal.τ).loc Cert.KernelIdeal.main_arg9))
    (e10 : (V (Cert.ReferenceIdeal.main_arg10 : DevRef Cert.ReferenceIdeal.τ Cert.ReferenceIdeal.sig) : (⟨2, ![3, 64]⟩ : Shape).Idx → EReal)
      = m ((c.tc : Thread Cert.KernelIdeal.nD Cert.KernelIdeal.τ).loc Cert.KernelIdeal.main_arg10)) :
    (after (Cert.ReferenceIdeal.RefRun.ops4 (F := Ideal)) V (Cert.ReferenceIdeal.main_v240 : DevRef Cert.ReferenceIdeal.τ Cert.ReferenceIdeal.sig) : (⟨2, ![100000, 64]⟩ : Shape).Idx → EReal)
      = (Cert.KernelIdeal.Body.O8_0 (F := Ideal) m c : (⟨2, ![100000, 64]⟩ : Shape).Idx → EReal) := by
  funext i
  obtain ⟨p, q, rfl⟩ : ∃ (p : Fin 100000) (q : Fin 64), i = ix2 p q := ⟨i 0, i 1, eq_ix2 i⟩
  rw [Cert.ReferenceIdeal.RefRun.ref_bn7_at _ _ _ _ hX e9 e10 p q]
  have hk := Cert.KernelIdeal.Body.ker_y7 m c (fun p q => Cert.KernelIdeal.Body.O7_0_allReal m hpre c (ix2 p q)) p q
  refine Eq.trans ?_ hk.symm
  have hs : Cert.KernelIdeal.Body.at2_7 (Cert.KernelIdeal.Body.W19 (F := Ideal) m c Cert.KernelIdeal.main_v165) 0 q
      = (m ((c.tc : Thread Cert.KernelIdeal.nD Cert.KernelIdeal.τ).loc Cert.KernelIdeal.main_arg9) : (⟨2, ![3, 64]⟩ : Shape).Idx → EReal) (ix2 (1 : Fin 3) q) := Cert.KernelIdeal.Body.ker_scale7_at m c q
  have hb : Cert.KernelIdeal.Body.at2_7 (Cert.KernelIdeal.Body.W19 (F := Ideal) m c Cert.KernelIdeal.main_v166) 0 q
      = (m ((c.tc : Thread Cert.KernelIdeal.nD Cert.KernelIdeal.τ).loc Cert.KernelIdeal.main_arg10) : (⟨2, ![3, 64]⟩ : Shape).Idx → EReal) (ix2 (1 : Fin 3) q) := Cert.KernelIdeal.Body.ker_shift7_at m c q
  rw [hs, hb, Cert.ReferenceIdeal.RefRun.colVar7_eq]
  unfold Cert.LibNormJoin.normEntry Cert.ReferenceIdeal.RefRun.colMean7 Cert.ReferenceIdeal.RefRun.colSum7
  rw [Idealize.ShloMosaic.Ideal.ofBits_zero_f32, Cert.ReferenceIdeal.RefRun.ofBits_count7]
  simp only [Nat.cast_ofNat]

end Cert.Proof.Value

end
-- ==== Proof.KIStageBnKer10.lean ====
/-
  Between the mix region and the normalise region of the stage of mix region 10, the kernel program computes on the host the
  mean row (the accumulated column sums divided by 100000), the variance row (the accumulated sums of squares divided
  by 100000, minus the squared mean), and lays the scale and bias vectors out as rows. This module reads those four
  rows, and the mix array, off the valuation the normalise region is entered from.
-/
import proofs.«140713_j1864015806535_2_alg».proof.Proof.KIFrameBase
import Idealize.ShloMosaic.Lib.StableHlo.Run
import Idealize.ShloMosaic.PureOps.Ideal.Laws

set_option maxRecDepth 65536

noncomputable section

namespace Cert.KernelIdeal.Body

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- After the mix region its three outputs hold what it leaves. -/
theorem W24_pre_0 (c : Dev nD) : W24 (F := Ideal) m c main_v194_0 = O10_0 m c := by
  unfold W24
  simp only [Function.update_self,
    Function.update_of_ne (StableHlo.devRef_ne_of_ne (by decide : main_v194_0 ≠ main_v194_2) : (Proc.devRef .tc main_v194_0 : DevRef τ sig) ≠ Proc.devRef .tc main_v194_2),
    Function.update_of_ne (StableHlo.devRef_ne_of_ne (by decide : main_v194_0 ≠ main_v194_1) : (Proc.devRef .tc main_v194_0 : DevRef τ sig) ≠ Proc.devRef .tc main_v194_1)]
theorem W24_pre_1 (c : Dev nD) : W24 (F := Ideal) m c main_v194_1 = O10_1 m c := by
  unfold W24
  simp only [Function.update_self,
    Function.update_of_ne (StableHlo.devRef_ne_of_ne (by decide : main_v194_1 ≠ main_v194_2) : (Proc.devRef .tc main_v194_1 : DevRef τ sig) ≠ Proc.devRef .tc main_v194_2)]
theorem W24_pre_2 (c : Dev nD) : W24 (F := Ideal) m c main_v194_2 = O10_2 m c := by
  unfold W24
  simp only [Function.update_self]

set_option maxHeartbeats 2000000 in
/-- The mean row: the accumulated column sums over 100000. -/
theorem ker_mean10 (c : Dev nD) :
    (W25 (F := Ideal) m c main_v196 : S1x32.Idx → EReal)
      = Host.divf (F := Ideal) (O10_1 m c : S1x32.Idx → EReal) (broadcastInDim S1x32 ![] bcast_S_S1x32 (constant (F := Ideal) S_ .f32 0x47C35000#32)) := by
  dsimp only [W25, hostOps11]
  after_results
  rw [W24_pre_1]

set_option maxHeartbeats 2000000 in
/-- The variance row: the accumulated sums of squares over 100000, minus the squared mean. -/
theorem ker_var10 (c : Dev nD) :
    (W25 (F := Ideal) m c main_v200 : S1x32.Idx → EReal)
      = subf (Host.divf (F := Ideal) (O10_2 m c : S1x32.Idx → EReal) (broadcastInDim S1x32 ![] bcast_S_S1x32 (constant (F := Ideal) S_ .f32 0x47C35000#32)))
          (mulf (W25 (F := Ideal) m c main_v196 : S1x32.Idx → EReal) (W25 (F := Ideal) m c main_v196 : S1x32.Idx → EReal)) := by
  rw [ker_mean10]
  dsimp only [W25, hostOps11]
  after_results
  rw [W24_pre_1, W24_pre_2]

/-- The mix array is untouched by the host stretch. -/
theorem ker_xm10 (c : Dev nD) : W25 (F := Ideal) m c main_v194_0 = O10_0 m c :=
  (StableHlo.after_of_writes_sub hostOps11 _ GenP.hostOps11_writes (by decide)).trans (W24_pre_0 m c)

end Cert.KernelIdeal.Body

end
-- ==== Proof.KIStageBn10.lean ====
/-
  The normalise stage of the stage of mix region 10, on the kernel program's side, in the reference's form.

  The normalise region's output at (p, q) is the normalised entry of the mix array's column q, with the mean and the
  variance the host computed from the sums the mix region accumulated: mean = S/100000, variance = SS/100000 − mean²,
  cut off at 0. The accumulated sums are the column's sum and the sum of its squares (ten tiles of 10000 rows are the
  100000 rows), so for a column of real entries this is the two-pass normalisation: mean (0 + Σ x)/100000, variance
  (0 + Σ (x − mean)²)/100000, no cut-off (Proof/LibNormJoin.lean).
-/
import proofs.«140713_j1864015806535_2_alg».proof.Proof.KIValMix10
import proofs.«140713_j1864015806535_2_alg».proof.Proof.KIValBn11
import proofs.«140713_j1864015806535_2_alg».proof.Proof.KIStageBnKer10
import proofs.«140713_j1864015806535_2_alg».proof.Proof.LibNormJoin
import proofs.«140713_j1864015806535_2_alg».proof.Proof.LibTiles

set_option maxRecDepth 65536

noncomputable section

namespace Cert.KernelIdeal.Body

open Cert.KernelIdeal Cert.KernelIdeal.Gen Idealize.ShloMosaic Idealize.ShloMosaic.TcCoe Idealize.ShloMosaic.ValueIdx Idealize.SL.Sem
open Cert.LibRealEntries Cert.LibNormJoin

variable (m : (ℓ : Loc nD τ sig) → Buf (Elt Ideal) ℓ)

/-- An entry of a two-axis array of extended reals. -/
abbrev at2_10 {a b : ℕ} (x : (⟨2, ![a, b]⟩ : Shape).Idx → EReal) (p : Fin a) (q : Fin b) : EReal := x (ix2 p q)

/-- Column q of the mix array, as a function of the row. -/
abbrev xcol10 (c : Dev nD) (q : Fin 32) : Fin 100000 → EReal := fun p => at2_10 (O10_0 (F := Ideal) m c) p q

/-- Ten tiles of 10000 rows are the 100000 rows. -/
theorem sum_tiles10 (f : Fin 100000 → EReal) :
    ∑ t : Fin 10, ∑ r : Fin 10000, f ⟨t.val * 10000 + r.val, by omega⟩ = ∑ p, f p := by
  rw [Cert.LibTiles.sum_blocks 10 10000 100000 rfl f (fun i a => by omega)]
  exact Finset.sum_congr rfl fun t _ => Finset.sum_congr rfl fun r _ => congrArg f (Fin.ext (by show t.val * 10000 + r.val = 10000 * t.val + r.val; omega))

/-- The first accumulated row is the column sums of the mix array. -/
theorem col_sum10 (c : Dev nD) (q : Fin 32) : at2_10 (O10_1 (F := Ideal) m c) 0 q = ∑ p, xcol10 m c q p := by
  rw [show at2_10 (O10_1 (F := Ideal) m c) 0 q = (O10_1 (F := Ideal) m c : S1x32.Idx → EReal) (ix2 0 q) from rfl, O10_1_eq, ← sum_tiles10 (xcol10 m c q)]
  exact Finset.sum_congr rfl fun t _ => Finset.sum_congr rfl fun r _ => (O10_0_eq m c _ q).symm

/-- The second is the column sums of its squares. -/
theorem col_sumsq10 (c : Dev nD) (q : Fin 32) : at2_10 (O10_2 (F := Ideal) m c) 0 q = ∑ p, xcol10 m c q p * xcol10 m c q p := by
  rw [show at2_10 (O10_2 (F := Ideal) m c) 0 q = (O10_2 (F := Ideal) m c : S1x32.Idx → EReal) (ix2 0 q) from rfl, O10_2_eq, ← sum_tiles10 (fun p => xcol10 m c q p * xcol10 m c q p)]
  exact Finset.sum_congr rfl fun t _ => Finset.sum_congr rfl fun r _ => by rw [← O10_0_eq m c _ q]

/-- The mean row at q. -/
theorem ker_mean10_at (c : Dev nD) (q : Fin 32) :
    at2_10 (W25 (F := Ideal) m c main_v196) 0 q
      = Ideal.div (at2_10 (O10_1 (F := Ideal) m c) 0 q) (Ideal.ofBits .f32 0x47C35000#32) := by
  rw [ker_mean10]; rfl

/-- The variance row at q. -/
theorem ker_var10_at (c : Dev nD) (q : Fin 32) :
    at2_10 (W25 (F := Ideal) m c main_v200) 0 q
      = Ideal.div (at2_10 (O10_2 (F := Ideal) m c) 0 q) (Ideal.ofBits .f32 0x47C35000#32)
        - at2_10 (W25 (F := Ideal) m c main_v196) 0 q * at2_10 (W25 (F := Ideal) m c main_v196) 0 q := by
  rw [ker_var10]; rfl

/-- THE NORMALISE REGION'S OUTPUT in the two-pass form, for a mix array of real entries. -/
theorem ker_y10 (c : Dev nD) (hreal : ∀ p q, IsReal (xcol10 m c q p)) (p : Fin 100000) (q : Fin 32) :
    at2_10 (O11_0 (F := Ideal) m c) p q
      = normEntry (xcol10 m c q p)
          (Ideal.div (0 + ∑ i, xcol10 m c q i) (((100000 : ℕ) : ℝ) : EReal))
          (Ideal.div (0 + ∑ i, (xcol10 m c q i - Ideal.div (0 + ∑ j, xcol10 m c q j) (((100000 : ℕ) : ℝ) : EReal))
              * (xcol10 m c q i - Ideal.div (0 + ∑ j, xcol10 m c q j) (((100000 : ℕ) : ℝ) : EReal))) (((100000 : ℕ) : ℝ) : EReal))
          (Ideal.ofBits .f32 0x3727C5AC#32)
          (at2_10 (W25 (F := Ideal) m c main_v201) 0 q) (at2_10 (W25 (F := Ideal) m c main_v202) 0 q) := by
  rw [← norm_join (n := 100000) (by norm_num) (xcol10 m c q) (fun i => hreal i q) _ _ (col_sum10 m c q) (col_sumsq10 m c q)]
  rw [show at2_10 (O11_0 (F := Ideal) m c) p q = (O11_0 (F := Ideal) m c : S100000x32.Idx → EReal) (ix2 p q) from rfl, O11_0_eq, bnRelu11_apply]
  rw [show (W25 (F := Ideal) m c main_v200 : S1x32.Idx → EReal) (ix2 0 q) = at2_10 (W25 (F := Ideal) m c main_v200) 0 q from rfl,
    show (W25 (F := Ideal) m c main_v196 : S1x32.Idx → EReal) (ix2 0 q) = at2_10 (W25 (F := Ideal) m c main_v196) 0 q from rfl,
    ker_var10_at, ker_mean10_at, ofBits_100000, ker_xm10]
  rfl

end Cert.KernelIdeal.Body

end
-- ==== Proof.KIStageBnRef10.lean ====
/-
  The reference's normalise-and-cut-off of relation 1, layer 2, read at one entry: the mixed array less its column mean,
  times the reciprocal square root of the column variance shifted by a small constant, times the scale, plus the bias,
  cut off below at 0; the column mean is the column's sum over its 100000 entries divided by 100000.
-/
import proofs.«140713_j1864015806535_2_alg».proof.Proof.RefFrame
import proofs.«140713_j1864015806535_2_alg».proof.Proof.LibHostBroadcast
import Idealize.ShloMosaic.Lib.StableHlo.Run
import Idealize.ShloMosaic.Lib.ValueIdx
import Idealize.ShloMosaic.Lib.IdealHost
import Idealize.ShloMosaic.Lib.Pipeline.Value
import Idealize.ShloMosaic.Lib.ValueLayout
import Idealize.ShloMosaic.PureOps.Ideal.Laws

set_option maxRecDepth 65536

noncomputable section

namespace Cert.ReferenceIdeal.RefRun
open Cert.ReferenceIdeal Cert.ReferenceIdeal.Gen Idealize.ShloMosaic Idealize.ShloMosaic.TcCoe Idealize.SL.Sem Idealize.ShloMosaic.StableHlo
open Idealize.ShloMosaic.ValueIdx

/-- A relation's row of a three-row argument, as a vector. -/
def rowVec10 (a : S3x32.Idx → EReal) : S32.Idx → EReal :=
  shapeCast S32 (extractStridedSlice S1x32 ![1, 0] a slices_S3x32_S1x32_1_0) shapeCasts_S1x32_S32

/-- A vector spread over the rows of the array: first as a row, then along the rows. -/
def spread10 (v : S32.Idx → EReal) : S100000x32.Idx → EReal :=
  broadcastInDim S100000x32 ![0, 1] bcast_S1x32_S100000x32_0_1 (broadcastInDim S1x32 ![1] bcast_S32_S1x32_1 v)

/-- The column means: each column's sum from the zero word, divided by the count's word. -/
def refMeanVec10 (X : S100000x32.Idx → EReal) : S32.Idx → EReal :=
  Host.divf (F := Ideal) (Host.reduceAdd (F := Ideal) X (constant (F := Ideal) S_ .f32 0x00000000#32) reducesTo_S100000x32_S32_d0 h_S_)
    (broadcastInDim S32 ![] bcast_S_S32 (constant (F := Ideal) S_ .f32 0x47C35000#32))

/-- The count less the correction, as the outlined variance computes it. -/
def refCount10 : S_.Idx → EReal :=
  subf (F := Ideal) (constant (F := Ideal) S_ .f32 0x47C35000#32) (sitofp (F := Ideal) .f32 (constantI S_ 32 0#32))

/-- The array less its column means, the means computed as a row. -/
def refCentred10 (X : S100000x32.Idx → EReal) : S100000x32.Idx → EReal :=
  subf (F := Ideal) X (broadcastInDim S100000x32 ![0, 1] bcast_S1x32_S100000x32_0_1
    (Host.divf (F := Ideal)
      (broadcastInDim S1x32 ![1] bcast_S32_S1x32_1 (Host.reduceAdd (F := Ideal) X (constant (F := Ideal) S_ .f32 0x00000000#32) reducesTo_S100000x32_S32_d0 h_S_))
      (broadcastInDim S1x32 ![] bcast_S_S1x32 (constant (F := Ideal) S_ .f32 0x47C35000#32))))

/-- The column variances as the outlined function yields them: the sum of squared centred entries over the count, where the count is positive. -/
def refVarVec10 (X : S100000x32.Idx → EReal) : S32.Idx → EReal :=
  select (broadcastInDim S32 ![] bcast_S_S32 (cmpf (F := Ideal) .ogt refCount10 (constant (F := Ideal) S_ .f32 0x00000000#32)))
    (Host.divf (F := Ideal)
      (Host.reduceAdd (F := Ideal) (mulf (F := Ideal) (refCentred10 X) (refCentred10 X)) (constant (F := Ideal) S_ .f32 0x00000000#32) reducesTo_S100000x32_S32_d0 h_S_)
      (broadcastInDim S32 ![] bcast_S_S32 refCount10))
    (broadcastInDim S32 ![] bcast_S_S32 (id (constant (F := Ideal) S_ .f32 0x7FC00000#32)))

/-- The stage as the reference composes it. -/
def refBn10 (X : S100000x32.Idx → EReal) (a9 a10 : S3x32.Idx → EReal) : S100000x32.Idx → EReal :=
  maximumf (F := Ideal)
    (addf (F := Ideal)
      (mulf (F := Ideal)
        (mulf (F := Ideal) (subf (F := Ideal) X (spread10 (refMeanVec10 X)))
          (spread10 (Host.rsqrt (F := Ideal) (addf (F := Ideal) (refVarVec10 X) (broadcastInDim S32 ![] bcast_S_S32 (constant (F := Ideal) S_ .f32 0x3727C5AC#32))))))
        (spread10 (rowVec10 a9)))
      (spread10 (rowVec10 a10)))
    (broadcastInDim S100000x32 ![] bcast_S_S100000x32 (constant (F := Ideal) S_ .f32 0x00000000#32))

open Cert.LibHostBroadcast in
/-- A spread vector at (p, q) is the vector at q. -/
theorem spread10_apply (v : S32.Idx → EReal) (p : Fin 100000) (q : Fin 32) : spread10 v (ix2 p q) = v (ix1 q) :=
  vec_along_cols v bcast_S32_S1x32_1 bcast_S1x32_S100000x32_0_1 p q

/-- A relation-1 row of the argument at q is the argument at (0, q). -/
theorem rowVec10_apply (a : S3x32.Idx → EReal) (q : Fin 32) : rowVec10 a (ix1 q) = a (ix2 (1 : Fin 3) q) := by
  unfold rowVec10
  rw [shapeCast_1a_a_apply]
  exact slice2_axis0_apply 1 a slices_S3x32_S1x32_1_0 (0 : Fin 1) q (1 : Fin 3) rfl

/-- A column's sum from the zero word. -/
def colSum10 (X : S100000x32.Idx → EReal) (q : Fin 32) : EReal :=
  Ideal.ofBits .f32 0x00000000#32 + ∑ p' : Fin 100000, X (ix2 p' q)

/-- A column's mean: its sum divided by the count's word. -/
def colMean10 (X : S100000x32.Idx → EReal) (q : Fin 32) : EReal :=
  Ideal.div (colSum10 X q) (Ideal.ofBits .f32 0x47C35000#32)

/-- The count less the correction, as a scalar: the count's word less the integer zero read as a float. -/
def cnt10 : EReal := Ideal.ofBits .f32 0x47C35000#32 - Scalar.sitofp (F := Ideal) .f32 (0#32 : BitVec 32)

/-- A column's variance as the outlined function yields it: where the count is positive, the column's sum of squared
    centred entries divided by the count; the not-a-number word's value otherwise. -/
def colVar10 (X : S100000x32.Idx → EReal) (q : Fin 32) : EReal :=
  Scalar.select (Scalar.cmpf (F := Ideal) .ogt cnt10 (Ideal.ofBits .f32 0x00000000#32))
    (Ideal.div (Ideal.ofBits .f32 0x00000000#32 + ∑ p' : Fin 100000, (X (ix2 p' q) - colMean10 X q) * (X (ix2 p' q) - colMean10 X q)) cnt10)
    (Ideal.ofBits .f32 0x7FC00000#32)

/-- The host's sum down the rows, from the zero word, at column q. -/
theorem reduce0_apply10 (X : S100000x32.Idx → EReal) (q : Fin 32) :
    Host.reduceAdd (F := Ideal) X (constant (F := Ideal) S_ .f32 0x00000000#32) reducesTo_S100000x32_S32_d0 h_S_ (ix1 q) = colSum10 X q := by
  refine (hostReduceAdd_apply X _ reducesTo_S100000x32_S32_d0 h_S_ (ix1 q)).trans ?_
  refine (Ideal.hostReduceAdd_single reducesTo_S100000x32_S32_d0 (by decide) X _ (ix1 q)).trans ?_
  unfold colSum10
  rw [constant_apply]
  refine congrArg _ (Finset.sum_congr rfl fun k _ => congrArg X (funext fun a => Fin.ext ?_))
  match a with
  | ⟨0, _⟩ => rfl
  | ⟨1, _⟩ => rfl

theorem refMeanVec10_apply (X : S100000x32.Idx → EReal) (q : Fin 32) : refMeanVec10 X (ix1 q) = colMean10 X q := by
  unfold refMeanVec10 colMean10
  rw [hostDivf_apply, reduce0_apply10, broadcastInDim_scalar_apply, constant_apply]

theorem refCount10_apply : refCount10 ix0 = cnt10 := rfl

open Cert.LibHostBroadcast in
theorem refCentred10_apply (X : S100000x32.Idx → EReal) (p : Fin 100000) (q : Fin 32) :
    refCentred10 X (ix2 p q) = X (ix2 p q) - colMean10 X q := by
  unfold refCentred10 colMean10
  rw [subf_apply, row_to_mat, hostDivf_apply, vec_to_row, reduce0_apply10, broadcastInDim_scalar_apply, constant_apply]

theorem refVarVec10_apply (X : S100000x32.Idx → EReal) (q : Fin 32) : refVarVec10 X (ix1 q) = colVar10 X q := by
  unfold refVarVec10 colVar10
  rw [select_apply, broadcastInDim_scalar_apply, broadcastInDim_scalar_apply, hostDivf_apply, reduce0_apply10, broadcastInDim_scalar_apply,
    cmpf_apply, refCount10_apply, constant_apply]
  unfold colSum10
  simp only [mulf_apply, refCentred10_apply]
  rfl

/-- THE STAGE AT (p, q). -/
theorem refBn10_apply (X : S100000x32.Idx → EReal) (a9 a10 : S3x32.Idx → EReal) (p : Fin 100000) (q : Fin 32) :
    refBn10 X a9 a10 (ix2 p q)
      = max (((X (ix2 p q) - colMean10 X q) * Ideal.rsqrt (colVar10 X q + Ideal.ofBits .f32 0x3727C5AC#32)) * a9 (ix2 (1 : Fin 3) q)
          + a10 (ix2 (1 : Fin 3) q)) 0 := by
  unfold refBn10
  rw [maximumf_apply, addf_apply, mulf_apply, mulf_apply, subf_apply, spread10_apply, spread10_apply, spread10_apply, spread10_apply,
    rowVec10_apply, rowVec10_apply, refMeanVec10_apply, broadcastInDim_scalar_apply, constant_apply]
  show max (_ * Ideal.rsqrt (addf (F := Ideal) (refVarVec10 X) _ (ix1 q)) * _ + _) _ = _
  rw [addf_apply, refVarVec10_apply, broadcastInDim_scalar_apply, constant_apply, Ideal.ofBits_zero_f32]

/-- The count's word is 100000. -/
theorem ofBits_count10 : Ideal.ofBits .f32 0x47C35000#32 = ((100000 : ℝ) : EReal) := by
  simp [Ideal.ofBits, Ideal.ieee, -EReal.coe_mul]; norm_num

/-- The count less the correction is 100000: the correction is the integer zero. -/
theorem cnt10_eq : cnt10 = ((100000 : ℝ) : EReal) := by
  unfold cnt10
  rw [ofBits_count10, Ideal.scalar_sitofp_def]
  simp

/-- The count is positive, so a column's variance is its sum of squared centred entries over 100000. -/
theorem colVar10_eq (X : S100000x32.Idx → EReal) (q : Fin 32) :
    colVar10 X q = Ideal.div (Ideal.ofBits .f32 0x00000000#32 + ∑ p' : Fin 100000, (X (ix2 p' q) - colMean10 X q) * (X (ix2 p' q) - colMean10 X q)) ((100000 : ℝ) : EReal) := by
  unfold colVar10
  rw [cnt10_eq, Ideal.scalar_cmpf_def, Ideal.ofBits_zero_f32]
  have h : Ideal.cmp .ogt ((100000 : ℝ) : EReal) 0 = 1#1 := by
    unfold Ideal.cmp
    have : (0 : EReal) < ((100000 : ℝ) : EReal) := by exact_mod_cast (by norm_num : (0 : ℝ) < 100000)
    simp [this]
  rw [h, select_one]

/-- A column's mean is its sum over 100000. -/
theorem colMean10_eq (X : S100000x32.Idx → EReal) (q : Fin 32) :
    colMean10 X q = Ideal.div (∑ p' : Fin 100000, X (ix2 p' q)) ((100000 : ℝ) : EReal) := by
  unfold colMean10 colSum10
  rw [ofBits_count10, Ideal.ofBits_zero_f32, zero_add]

/-- The window's operations up to the mix write neither the scale argument nor the bias argument. -/
theorem ops5_take50_keeps10 (V : Valuation τ sig (Elt Ideal)) (r : Ref sig .tc) (hr : r ∉ (ops5_W : List (Ref sig .tc))) :
    after ((ops5 (F := Ideal)).take 50) V (Proc.devRef .tc r) = V (Proc.devRef .tc r) :=
  after_of_writes_sub (W := ops5_W) _ V
    (List.forall_iff_forall_mem.mpr fun op hop => List.forall_iff_forall_mem.mp ops5_writes op (List.mem_of_mem_take hop)) hr

set_option maxHeartbeats 4000000 in
/-- The reference's normalised array of relation 1, layer 2, is that composition of the mixed array the operations up to
    the mix leave and of the scale and bias arguments, from any contents before the window. The window is cut after the mix. -/
theorem ref_bn10 (V : Valuation τ sig (Elt Ideal)) :
    (after (ops6 (F := Ideal)) (after (ops5 (F := Ideal)) V) (main_v315 : DevRef τ sig) : S100000x32.Idx → EReal)
      = refBn10 (after (ops5 (F := Ideal)) V (main_v291 : DevRef τ sig)) (V (main_arg11 : DevRef τ sig)) (V (main_arg12 : DevRef τ sig)) := by
  rw [← ops5_take50_keeps10 V main_arg11 (by decide), ← ops5_take50_keeps10 V main_arg12 (by decide),
    ← List.take_append_drop 50 (ops5 (F := Ideal)), after_append]
  simp only [List.take_append_drop]
  generalize after ((ops5 (F := Ideal)).take 50) V = R'
  dsimp only [ops5, ops6]
  simp only [List.drop_succ_cons, List.drop_zero]
  after_results_simp
  rfl

/-- The reference's normalise-and-cut-off of relation 1, layer 2, at (p, q), with the mixed array and the two arguments
    named: the entry less its column's mean, times the reciprocal square root of the column's variance plus the small
    constant, times the scale at q, plus the bias at q, cut off below at 0. -/
theorem ref_bn10_at (V : Valuation τ sig (Elt Ideal)) (X : S100000x32.Idx → EReal) (a9 a10 : S3x32.Idx → EReal)
    (hX : (after (ops5 (F := Ideal)) V (main_v291 : DevRef τ sig) : S100000x32.Idx → EReal) = X)
    (h9 : (V (main_arg11 : DevRef τ sig) : S3x32.Idx → EReal) = a9) (h10 : (V (main_arg12 : DevRef τ sig) : S3x32.Idx → EReal) = a10)
    (p : Fin 100000) (q : Fin 32) :
    (after (ops6 (F := Ideal)) (after (ops5 (F := Ideal)) V) (main_v315 : DevRef τ sig) : S100000x32.Idx → EReal) (ix2 p q)
      = max (((X (ix2 p q) - colMean10 X q) * Ideal.rsqrt (colVar10 X q + Ideal.ofBits .f32 0x3727C5AC#32)) * a9 (ix2 (1 : Fin 3) q)
          + a10 (ix2 (1 : Fin 3) q)) 0 := by
  rw [ref_bn10, hX, h9, h10, refBn10_apply]

end Cert.ReferenceIdeal.RefRun

end
-- ==== Proof.KIStageBnJoin10.lean ====
/-
  The normalise stage after mixing region 10: the two programs' normalised arrays agree.

  The reference normalises each column of the mixed array with its two-pass mean and variance; the kernel program's
  normalise region does so from the sums its mixing region accumulated, which for real entries is the two-pass form as
  well (the variance identity). The mixed array is real, entry by entry, under the finiteness precondition, and the
  scale and bias rows are the same rows of the same arguments. So when the mixed arrays agree and the two memories agree
  on the scale and bias arguments, the normalised, cut-off arrays agree.
-/
import proofs.«140713_j1864015806535_2_alg».proof.Proof.KIStageBn10
import proofs.«140713_j1864015806535_2_alg».proof.Proof.KIStageBnRef10
import proofs.«140713_j1864015806535_2_alg».proof.Proof.KIScaleRows

set_option maxRecDepth 65536

noncomputable section

namespace Cert.Proof.Value

open Idealize.ShloMosaic Idealize.ShloMosaic.TcCoe Idealize.ShloMosaic.ValueIdx Idealize.SL.Sem Idealize.ShloMosaic.StableHlo

/-- THE NORMALISE STAGE'S JOIN after mixing region 10, from any contents of the reference's buffers before its window: if the
    mix arrays agree and the scale and bias arguments agree, the normalised arrays agree (for finite inputs). -/
theorem stageBn10
    (m : (ℓ : Loc Cert.KernelIdeal.nD Cert.KernelIdeal.τ Cert.KernelIdeal.sig) → Buf (Elt Ideal) ℓ)
    (V : Valuation Cert.ReferenceIdeal.τ Cert.ReferenceIdeal.sig (Elt Ideal))
    (c : Dev Cert.KernelIdeal.nD) (hpre : Cert.Pre_KernelIdeal m)
    (hX : (after (Cert.ReferenceIdeal.RefRun.ops5 (F := Ideal)) V (Cert.ReferenceIdeal.main_v291 : DevRef Cert.ReferenceIdeal.τ Cert.ReferenceIdeal.sig) : (⟨2, ![100000, 32]⟩ : Shape).Idx → EReal)
      = (Cert.KernelIdeal.Body.O10_0 (F := Ideal) m c : (⟨2, ![100000, 32]⟩ : Shape).Idx → EReal))
    (e11 : (V (Cert.ReferenceIdeal.main_arg11 : DevRef Cert.ReferenceIdeal.τ Cert.ReferenceIdeal.sig) : (⟨2, ![3, 32]⟩ : Shape).Idx → EReal)
      = m ((c.tc : Thread Cert.KernelIdeal.nD Cert.KernelIdeal.τ).loc Cert.KernelIdeal.main_arg11))
    (e12 : (V (Cert.ReferenceIdeal.main_arg12 : DevRef Cert.ReferenceIdeal.τ Cert.ReferenceIdeal.sig) : (⟨2, ![3, 32]⟩ : Shape).Idx → EReal)
      = m ((c.tc : Thread Cert.KernelIdeal.nD Cert.KernelIdeal.τ).loc Cert.KernelIdeal.main_arg12)) :
    (after (Cert.ReferenceIdeal.RefRun.ops6 (F := Ideal)) (after (Cert.ReferenceIdeal.RefRun.ops5 (F := Ideal)) V) (Cert.ReferenceIdeal.main_v315 : DevRef Cert.ReferenceIdeal.τ Cert.ReferenceIdeal.sig) : (⟨2, ![100000, 32]⟩ : Shape).Idx → EReal)
      = (Cert.KernelIdeal.Body.O11_0 (F := Ideal) m c : (⟨2, ![100000, 32]⟩ : Shape).Idx → EReal) := by
  funext i
  obtain ⟨p, q, rfl⟩ : ∃ (p : Fin 100000) (q : Fin 32), i = ix2 p q := ⟨i 0, i 1, eq_ix2 i⟩
  rw [Cert.ReferenceIdeal.RefRun.ref_bn10_at _ _ _ _ hX e11 e12 p q]
  have hk := Cert.KernelIdeal.Body.ker_y10 m c (fun p q => Cert.KernelIdeal.Body.O10_0_allReal m hpre c (ix2 p q)) p q
  refine Eq.trans ?_ hk.symm
  have hs : Cert.KernelIdeal.Body.at2_10 (Cert.KernelIdeal.Body.W25 (F := Ideal) m c Cert.KernelIdeal.main_v201) 0 q
      = (m ((c.tc : Thread Cert.KernelIdeal.nD Cert.KernelIdeal.τ).loc Cert.KernelIdeal.main_arg11) : (⟨2, ![3, 32]⟩ : Shape).Idx → EReal) (ix2 (1 : Fin 3) q) := Cert.KernelIdeal.Body.ker_scale10_at m c q
  have hb : Cert.KernelIdeal.Body.at2_10 (Cert.KernelIdeal.Body.W25 (F := Ideal) m c Cert.KernelIdeal.main_v202) 0 q
      = (m ((c.tc : Thread Cert.KernelIdeal.nD Cert.KernelIdeal.τ).loc Cert.KernelIdeal.main_arg12) : (⟨2, ![3, 32]⟩ : Shape).Idx → EReal) (ix2 (1 : Fin 3) q) := Cert.KernelIdeal.Body.ker_shift10_at m c q
  rw [hs, hb, Cert.ReferenceIdeal.RefRun.colVar10_eq]
  unfold Cert.LibNormJoin.normEntry Cert.ReferenceIdeal.RefRun.colMean10 Cert.ReferenceIdeal.RefRun.colSum10
  rw [Idealize.ShloMosaic.Ideal.ofBits_zero_f32, Cert.ReferenceIdeal.RefRun.ofBits_count10]
  simp only [Nat.cast_ofNat]

end Cert.Proof.Value

end
-- ==== Proof.KIStageBnKer13.lean ====
/-
  Between the mix region and the normalise region of the stage of mix region 13, the kernel program computes on the host the
  mean row (the accumulated column sums divided by 100000), the variance row (the accumulated sums of squares divided
  by 100000, minus the squared mean), and lays the scale and bias vectors out as rows. This module reads those four
  rows, and the mix array, off the valuation the normalise region is entered from.
-/
import proofs.«140713_j1864015806535_2_alg».proof.Proof.KIFrameBase
import Idealize.ShloMosaic.Lib.StableHlo.Run
import Idealize.ShloMosaic.PureOps.Ideal.Laws

set_option maxRecDepth 65536

noncomputable section

namespace Cert.KernelIdeal.Body

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- After the mix region its three outputs hold what it leaves. -/
theorem W32_pre_0 (c : Dev nD) : W32 (F := Ideal) m c main_v264_0 = O13_0 m c := by
  unfold W32
  simp only [Function.update_self,
    Function.update_of_ne (StableHlo.devRef_ne_of_ne (by decide : main_v264_0 ≠ main_v264_2) : (Proc.devRef .tc main_v264_0 : DevRef τ sig) ≠ Proc.devRef .tc main_v264_2),
    Function.update_of_ne (StableHlo.devRef_ne_of_ne (by decide : main_v264_0 ≠ main_v264_1) : (Proc.devRef .tc main_v264_0 : DevRef τ sig) ≠ Proc.devRef .tc main_v264_1)]
theorem W32_pre_1 (c : Dev nD) : W32 (F := Ideal) m c main_v264_1 = O13_1 m c := by
  unfold W32
  simp only [Function.update_self,
    Function.update_of_ne (StableHlo.devRef_ne_of_ne (by decide : main_v264_1 ≠ main_v264_2) : (Proc.devRef .tc main_v264_1 : DevRef τ sig) ≠ Proc.devRef .tc main_v264_2)]
theorem W32_pre_2 (c : Dev nD) : W32 (F := Ideal) m c main_v264_2 = O13_2 m c := by
  unfold W32
  simp only [Function.update_self]

set_option maxHeartbeats 2000000 in
/-- The mean row: the accumulated column sums over 100000. -/
theorem ker_mean13 (c : Dev nD) :
    (W33 (F := Ideal) m c main_v266 : S1x64.Idx → EReal)
      = Host.divf (F := Ideal) (O13_1 m c : S1x64.Idx → EReal) (broadcastInDim S1x64 ![] bcast_S_S1x64 (constant (F := Ideal) S_ .f32 0x47C35000#32)) := by
  dsimp only [W33, hostOps14]
  after_results
  rw [W32_pre_1]

set_option maxHeartbeats 2000000 in
/-- The variance row: the accumulated sums of squares over 100000, minus the squared mean. -/
theorem ker_var13 (c : Dev nD) :
    (W33 (F := Ideal) m c main_v270 : S1x64.Idx → EReal)
      = subf (Host.divf (F := Ideal) (O13_2 m c : S1x64.Idx → EReal) (broadcastInDim S1x64 ![] bcast_S_S1x64 (constant (F := Ideal) S_ .f32 0x47C35000#32)))
          (mulf (W33 (F := Ideal) m c main_v266 : S1x64.Idx → EReal) (W33 (F := Ideal) m c main_v266 : S1x64.Idx → EReal)) := by
  rw [ker_mean13]
  dsimp only [W33, hostOps14]
  after_results
  rw [W32_pre_1, W32_pre_2]

/-- The mix array is untouched by the host stretch. -/
theorem ker_xm13 (c : Dev nD) : W33 (F := Ideal) m c main_v264_0 = O13_0 m c :=
  (StableHlo.after_of_writes_sub hostOps14 _ GenP.hostOps14_writes (by decide)).trans (W32_pre_0 m c)

end Cert.KernelIdeal.Body

end
-- ==== Proof.KIStageBn13.lean ====
/-
  The normalise stage of the stage of mix region 13, on the kernel program's side, in the reference's form.

  The normalise region's output at (p, q) is the normalised entry of the mix array's column q, with the mean and the
  variance the host computed from the sums the mix region accumulated: mean = S/100000, variance = SS/100000 − mean²,
  cut off at 0. The accumulated sums are the column's sum and the sum of its squares (ten tiles of 10000 rows are the
  100000 rows), so for a column of real entries this is the two-pass normalisation: mean (0 + Σ x)/100000, variance
  (0 + Σ (x − mean)²)/100000, no cut-off (Proof/LibNormJoin.lean).
-/
import proofs.«140713_j1864015806535_2_alg».proof.Proof.KIValMix13
import proofs.«140713_j1864015806535_2_alg».proof.Proof.KIValBn14
import proofs.«140713_j1864015806535_2_alg».proof.Proof.KIStageBnKer13
import proofs.«140713_j1864015806535_2_alg».proof.Proof.LibNormJoin
import proofs.«140713_j1864015806535_2_alg».proof.Proof.LibTiles

set_option maxRecDepth 65536

noncomputable section

namespace Cert.KernelIdeal.Body

open Cert.KernelIdeal Cert.KernelIdeal.Gen Idealize.ShloMosaic Idealize.ShloMosaic.TcCoe Idealize.ShloMosaic.ValueIdx Idealize.SL.Sem
open Cert.LibRealEntries Cert.LibNormJoin

variable (m : (ℓ : Loc nD τ sig) → Buf (Elt Ideal) ℓ)

/-- An entry of a two-axis array of extended reals. -/
abbrev at2_13 {a b : ℕ} (x : (⟨2, ![a, b]⟩ : Shape).Idx → EReal) (p : Fin a) (q : Fin b) : EReal := x (ix2 p q)

/-- Column q of the mix array, as a function of the row. -/
abbrev xcol13 (c : Dev nD) (q : Fin 64) : Fin 100000 → EReal := fun p => at2_13 (O13_0 (F := Ideal) m c) p q

/-- Ten tiles of 10000 rows are the 100000 rows. -/
theorem sum_tiles13 (f : Fin 100000 → EReal) :
    ∑ t : Fin 10, ∑ r : Fin 10000, f ⟨t.val * 10000 + r.val, by omega⟩ = ∑ p, f p := by
  rw [Cert.LibTiles.sum_blocks 10 10000 100000 rfl f (fun i a => by omega)]
  exact Finset.sum_congr rfl fun t _ => Finset.sum_congr rfl fun r _ => congrArg f (Fin.ext (by show t.val * 10000 + r.val = 10000 * t.val + r.val; omega))

/-- The first accumulated row is the column sums of the mix array. -/
theorem col_sum13 (c : Dev nD) (q : Fin 64) : at2_13 (O13_1 (F := Ideal) m c) 0 q = ∑ p, xcol13 m c q p := by
  rw [show at2_13 (O13_1 (F := Ideal) m c) 0 q = (O13_1 (F := Ideal) m c : S1x64.Idx → EReal) (ix2 0 q) from rfl, O13_1_eq, ← sum_tiles13 (xcol13 m c q)]
  exact Finset.sum_congr rfl fun t _ => Finset.sum_congr rfl fun r _ => (O13_0_eq m c _ q).symm

/-- The second is the column sums of its squares. -/
theorem col_sumsq13 (c : Dev nD) (q : Fin 64) : at2_13 (O13_2 (F := Ideal) m c) 0 q = ∑ p, xcol13 m c q p * xcol13 m c q p := by
  rw [show at2_13 (O13_2 (F := Ideal) m c) 0 q = (O13_2 (F := Ideal) m c : S1x64.Idx → EReal) (ix2 0 q) from rfl, O13_2_eq, ← sum_tiles13 (fun p => xcol13 m c q p * xcol13 m c q p)]
  exact Finset.sum_congr rfl fun t _ => Finset.sum_congr rfl fun r _ => by rw [← O13_0_eq m c _ q]

/-- The mean row at q. -/
theorem ker_mean13_at (c : Dev nD) (q : Fin 64) :
    at2_13 (W33 (F := Ideal) m c main_v266) 0 q
      = Ideal.div (at2_13 (O13_1 (F := Ideal) m c) 0 q) (Ideal.ofBits .f32 0x47C35000#32) := by
  rw [ker_mean13]; rfl

/-- The variance row at q. -/
theorem ker_var13_at (c : Dev nD) (q : Fin 64) :
    at2_13 (W33 (F := Ideal) m c main_v270) 0 q
      = Ideal.div (at2_13 (O13_2 (F := Ideal) m c) 0 q) (Ideal.ofBits .f32 0x47C35000#32)
        - at2_13 (W33 (F := Ideal) m c main_v266) 0 q * at2_13 (W33 (F := Ideal) m c main_v266) 0 q := by
  rw [ker_var13]; rfl

/-- THE NORMALISE REGION'S OUTPUT in the two-pass form, for a mix array of real entries. -/
theorem ker_y13 (c : Dev nD) (hreal : ∀ p q, IsReal (xcol13 m c q p)) (p : Fin 100000) (q : Fin 64) :
    at2_13 (O14_0 (F := Ideal) m c) p q
      = normEntry (xcol13 m c q p)
          (Ideal.div (0 + ∑ i, xcol13 m c q i) (((100000 : ℕ) : ℝ) : EReal))
          (Ideal.div (0 + ∑ i, (xcol13 m c q i - Ideal.div (0 + ∑ j, xcol13 m c q j) (((100000 : ℕ) : ℝ) : EReal))
              * (xcol13 m c q i - Ideal.div (0 + ∑ j, xcol13 m c q j) (((100000 : ℕ) : ℝ) : EReal))) (((100000 : ℕ) : ℝ) : EReal))
          (Ideal.ofBits .f32 0x3727C5AC#32)
          (at2_13 (W33 (F := Ideal) m c main_v271) 0 q) (at2_13 (W33 (F := Ideal) m c main_v272) 0 q) := by
  rw [← norm_join (n := 100000) (by norm_num) (xcol13 m c q) (fun i => hreal i q) _ _ (col_sum13 m c q) (col_sumsq13 m c q)]
  rw [show at2_13 (O14_0 (F := Ideal) m c) p q = (O14_0 (F := Ideal) m c : S100000x64.Idx → EReal) (ix2 p q) from rfl, O14_0_eq, bnRelu14_apply]
  rw [show (W33 (F := Ideal) m c main_v270 : S1x64.Idx → EReal) (ix2 0 q) = at2_13 (W33 (F := Ideal) m c main_v270) 0 q from rfl,
    show (W33 (F := Ideal) m c main_v266 : S1x64.Idx → EReal) (ix2 0 q) = at2_13 (W33 (F := Ideal) m c main_v266) 0 q from rfl,
    ker_var13_at, ker_mean13_at, ofBits_100000, ker_xm13]
  rfl

end Cert.KernelIdeal.Body

end
-- ==== Proof.KIStageBnRef13.lean ====
/-
  The reference's normalise-and-cut-off of relation 2, layer 1, read at one entry: the mixed array less its column mean,
  times the reciprocal square root of the column variance shifted by a small constant, times the scale, plus the bias,
  cut off below at 0; the column mean is the column's sum over its 100000 entries divided by 100000.
-/
import proofs.«140713_j1864015806535_2_alg».proof.Proof.RefFrame
import proofs.«140713_j1864015806535_2_alg».proof.Proof.LibHostBroadcast
import Idealize.ShloMosaic.Lib.StableHlo.Run
import Idealize.ShloMosaic.Lib.ValueIdx
import Idealize.ShloMosaic.Lib.IdealHost
import Idealize.ShloMosaic.Lib.Pipeline.Value
import Idealize.ShloMosaic.Lib.ValueLayout
import Idealize.ShloMosaic.PureOps.Ideal.Laws

set_option maxRecDepth 65536

noncomputable section

namespace Cert.ReferenceIdeal.RefRun
open Cert.ReferenceIdeal Cert.ReferenceIdeal.Gen Idealize.ShloMosaic Idealize.ShloMosaic.TcCoe Idealize.SL.Sem Idealize.ShloMosaic.StableHlo
open Idealize.ShloMosaic.ValueIdx

/-- A relation's row of a three-row argument, as a vector. -/
def rowVec13 (a : S3x64.Idx → EReal) : S64.Idx → EReal :=
  shapeCast S64 (extractStridedSlice S1x64 ![2, 0] a slices_S3x64_S1x64_2_0) shapeCasts_S1x64_S64

/-- A vector spread over the rows of the array: first as a row, then along the rows. -/
def spread13 (v : S64.Idx → EReal) : S100000x64.Idx → EReal :=
  broadcastInDim S100000x64 ![0, 1] bcast_S1x64_S100000x64_0_1 (broadcastInDim S1x64 ![1] bcast_S64_S1x64_1 v)

/-- The column means: each column's sum from the zero word, divided by the count's word. -/
def refMeanVec13 (X : S100000x64.Idx → EReal) : S64.Idx → EReal :=
  Host.divf (F := Ideal) (Host.reduceAdd (F := Ideal) X (constant (F := Ideal) S_ .f32 0x00000000#32) reducesTo_S100000x64_S64_d0 h_S_)
    (broadcastInDim S64 ![] bcast_S_S64 (constant (F := Ideal) S_ .f32 0x47C35000#32))

/-- The count less the correction, as the outlined variance computes it. -/
def refCount13 : S_.Idx → EReal :=
  subf (F := Ideal) (constant (F := Ideal) S_ .f32 0x47C35000#32) (sitofp (F := Ideal) .f32 (constantI S_ 32 0#32))

/-- The array less its column means, the means computed as a row. -/
def refCentred13 (X : S100000x64.Idx → EReal) : S100000x64.Idx → EReal :=
  subf (F := Ideal) X (broadcastInDim S100000x64 ![0, 1] bcast_S1x64_S100000x64_0_1
    (Host.divf (F := Ideal)
      (broadcastInDim S1x64 ![1] bcast_S64_S1x64_1 (Host.reduceAdd (F := Ideal) X (constant (F := Ideal) S_ .f32 0x00000000#32) reducesTo_S100000x64_S64_d0 h_S_))
      (broadcastInDim S1x64 ![] bcast_S_S1x64 (constant (F := Ideal) S_ .f32 0x47C35000#32))))

/-- The column variances as the outlined function yields them: the sum of squared centred entries over the count, where the count is positive. -/
def refVarVec13 (X : S100000x64.Idx → EReal) : S64.Idx → EReal :=
  select (broadcastInDim S64 ![] bcast_S_S64 (cmpf (F := Ideal) .ogt refCount13 (constant (F := Ideal) S_ .f32 0x00000000#32)))
    (Host.divf (F := Ideal)
      (Host.reduceAdd (F := Ideal) (mulf (F := Ideal) (refCentred13 X) (refCentred13 X)) (constant (F := Ideal) S_ .f32 0x00000000#32) reducesTo_S100000x64_S64_d0 h_S_)
      (broadcastInDim S64 ![] bcast_S_S64 refCount13))
    (broadcastInDim S64 ![] bcast_S_S64 (id (constant (F := Ideal) S_ .f32 0x7FC00000#32)))

/-- The stage as the reference composes it. -/
def refBn13 (X : S100000x64.Idx → EReal) (a9 a10 : S3x64.Idx → EReal) : S100000x64.Idx → EReal :=
  maximumf (F := Ideal)
    (addf (F := Ideal)
      (mulf (F := Ideal)
        (mulf (F := Ideal) (subf (F := Ideal) X (spread13 (refMeanVec13 X)))
          (spread13 (Host.rsqrt (F := Ideal) (addf (F := Ideal) (refVarVec13 X) (broadcastInDim S64 ![] bcast_S_S64 (constant (F := Ideal) S_ .f32 0x3727C5AC#32))))))
        (spread13 (rowVec13 a9)))
      (spread13 (rowVec13 a10)))
    (broadcastInDim S100000x64 ![] bcast_S_S100000x64 (constant (F := Ideal) S_ .f32 0x00000000#32))

open Cert.LibHostBroadcast in
/-- A spread vector at (p, q) is the vector at q. -/
theorem spread13_apply (v : S64.Idx → EReal) (p : Fin 100000) (q : Fin 64) : spread13 v (ix2 p q) = v (ix1 q) :=
  vec_along_cols v bcast_S64_S1x64_1 bcast_S1x64_S100000x64_0_1 p q

/-- A relation-2 row of the argument at q is the argument at (0, q). -/
theorem rowVec13_apply (a : S3x64.Idx → EReal) (q : Fin 64) : rowVec13 a (ix1 q) = a (ix2 (2 : Fin 3) q) := by
  unfold rowVec13
  rw [shapeCast_1a_a_apply]
  exact slice2_axis0_apply 2 a slices_S3x64_S1x64_2_0 (0 : Fin 1) q (2 : Fin 3) rfl

/-- A column's sum from the zero word. -/
def colSum13 (X : S100000x64.Idx → EReal) (q : Fin 64) : EReal :=
  Ideal.ofBits .f32 0x00000000#32 + ∑ p' : Fin 100000, X (ix2 p' q)

/-- A column's mean: its sum divided by the count's word. -/
def colMean13 (X : S100000x64.Idx → EReal) (q : Fin 64) : EReal :=
  Ideal.div (colSum13 X q) (Ideal.ofBits .f32 0x47C35000#32)

/-- The count less the correction, as a scalar: the count's word less the integer zero read as a float. -/
def cnt13 : EReal := Ideal.ofBits .f32 0x47C35000#32 - Scalar.sitofp (F := Ideal) .f32 (0#32 : BitVec 32)

/-- A column's variance as the outlined function yields it: where the count is positive, the column's sum of squared
    centred entries divided by the count; the not-a-number word's value otherwise. -/
def colVar13 (X : S100000x64.Idx → EReal) (q : Fin 64) : EReal :=
  Scalar.select (Scalar.cmpf (F := Ideal) .ogt cnt13 (Ideal.ofBits .f32 0x00000000#32))
    (Ideal.div (Ideal.ofBits .f32 0x00000000#32 + ∑ p' : Fin 100000, (X (ix2 p' q) - colMean13 X q) * (X (ix2 p' q) - colMean13 X q)) cnt13)
    (Ideal.ofBits .f32 0x7FC00000#32)

/-- The host's sum down the rows, from the zero word, at column q. -/
theorem reduce0_apply13 (X : S100000x64.Idx → EReal) (q : Fin 64) :
    Host.reduceAdd (F := Ideal) X (constant (F := Ideal) S_ .f32 0x00000000#32) reducesTo_S100000x64_S64_d0 h_S_ (ix1 q) = colSum13 X q := by
  refine (hostReduceAdd_apply X _ reducesTo_S100000x64_S64_d0 h_S_ (ix1 q)).trans ?_
  refine (Ideal.hostReduceAdd_single reducesTo_S100000x64_S64_d0 (by decide) X _ (ix1 q)).trans ?_
  unfold colSum13
  rw [constant_apply]
  refine congrArg _ (Finset.sum_congr rfl fun k _ => congrArg X (funext fun a => Fin.ext ?_))
  match a with
  | ⟨0, _⟩ => rfl
  | ⟨1, _⟩ => rfl

theorem refMeanVec13_apply (X : S100000x64.Idx → EReal) (q : Fin 64) : refMeanVec13 X (ix1 q) = colMean13 X q := by
  unfold refMeanVec13 colMean13
  rw [hostDivf_apply, reduce0_apply13, broadcastInDim_scalar_apply, constant_apply]

theorem refCount13_apply : refCount13 ix0 = cnt13 := rfl

open Cert.LibHostBroadcast in
theorem refCentred13_apply (X : S100000x64.Idx → EReal) (p : Fin 100000) (q : Fin 64) :
    refCentred13 X (ix2 p q) = X (ix2 p q) - colMean13 X q := by
  unfold refCentred13 colMean13
  rw [subf_apply, row_to_mat, hostDivf_apply, vec_to_row, reduce0_apply13, broadcastInDim_scalar_apply, constant_apply]

theorem refVarVec13_apply (X : S100000x64.Idx → EReal) (q : Fin 64) : refVarVec13 X (ix1 q) = colVar13 X q := by
  unfold refVarVec13 colVar13
  rw [select_apply, broadcastInDim_scalar_apply, broadcastInDim_scalar_apply, hostDivf_apply, reduce0_apply13, broadcastInDim_scalar_apply,
    cmpf_apply, refCount13_apply, constant_apply]
  unfold colSum13
  simp only [mulf_apply, refCentred13_apply]
  rfl

/-- THE STAGE AT (p, q). -/
theorem refBn13_apply (X : S100000x64.Idx → EReal) (a9 a10 : S3x64.Idx → EReal) (p : Fin 100000) (q : Fin 64) :
    refBn13 X a9 a10 (ix2 p q)
      = max (((X (ix2 p q) - colMean13 X q) * Ideal.rsqrt (colVar13 X q + Ideal.ofBits .f32 0x3727C5AC#32)) * a9 (ix2 (2 : Fin 3) q)
          + a10 (ix2 (2 : Fin 3) q)) 0 := by
  unfold refBn13
  rw [maximumf_apply, addf_apply, mulf_apply, mulf_apply, subf_apply, spread13_apply, spread13_apply, spread13_apply, spread13_apply,
    rowVec13_apply, rowVec13_apply, refMeanVec13_apply, broadcastInDim_scalar_apply, constant_apply]
  show max (_ * Ideal.rsqrt (addf (F := Ideal) (refVarVec13 X) _ (ix1 q)) * _ + _) _ = _
  rw [addf_apply, refVarVec13_apply, broadcastInDim_scalar_apply, constant_apply, Ideal.ofBits_zero_f32]

/-- The count's word is 100000. -/
theorem ofBits_count13 : Ideal.ofBits .f32 0x47C35000#32 = ((100000 : ℝ) : EReal) := by
  simp [Ideal.ofBits, Ideal.ieee, -EReal.coe_mul]; norm_num

/-- The count less the correction is 100000: the correction is the integer zero. -/
theorem cnt13_eq : cnt13 = ((100000 : ℝ) : EReal) := by
  unfold cnt13
  rw [ofBits_count13, Ideal.scalar_sitofp_def]
  simp

/-- The count is positive, so a column's variance is its sum of squared centred entries over 100000. -/
theorem colVar13_eq (X : S100000x64.Idx → EReal) (q : Fin 64) :
    colVar13 X q = Ideal.div (Ideal.ofBits .f32 0x00000000#32 + ∑ p' : Fin 100000, (X (ix2 p' q) - colMean13 X q) * (X (ix2 p' q) - colMean13 X q)) ((100000 : ℝ) : EReal) := by
  unfold colVar13
  rw [cnt13_eq, Ideal.scalar_cmpf_def, Ideal.ofBits_zero_f32]
  have h : Ideal.cmp .ogt ((100000 : ℝ) : EReal) 0 = 1#1 := by
    unfold Ideal.cmp
    have : (0 : EReal) < ((100000 : ℝ) : EReal) := by exact_mod_cast (by norm_num : (0 : ℝ) < 100000)
    simp [this]
  rw [h, select_one]

/-- A column's mean is its sum over 100000. -/
theorem colMean13_eq (X : S100000x64.Idx → EReal) (q : Fin 64) :
    colMean13 X q = Ideal.div (∑ p' : Fin 100000, X (ix2 p' q)) ((100000 : ℝ) : EReal) := by
  unfold colMean13 colSum13
  rw [ofBits_count13, Ideal.ofBits_zero_f32, zero_add]

/-- The window's operations up to the mix write neither the scale argument nor the bias argument. -/
theorem ops7_take34_keeps13 (V : Valuation τ sig (Elt Ideal)) (r : Ref sig .tc) (hr : r ∉ (ops7_W : List (Ref sig .tc))) :
    after ((ops7 (F := Ideal)).take 34) V (Proc.devRef .tc r) = V (Proc.devRef .tc r) :=
  after_of_writes_sub (W := ops7_W) _ V
    (List.forall_iff_forall_mem.mpr fun op hop => List.forall_iff_forall_mem.mp ops7_writes op (List.mem_of_mem_take hop)) hr

set_option maxHeartbeats 4000000 in
/-- The reference's normalised array of relation 2, layer 1, is that composition of the mixed array the operations up to
    the mix leave and of the scale and bias arguments, from any contents before the window. The window is cut after the mix. -/
theorem ref_bn13 (V : Valuation τ sig (Elt Ideal)) :
    (after (ops8 (F := Ideal)) (after (ops7 (F := Ideal)) V) (main_v402 : DevRef τ sig) : S100000x64.Idx → EReal)
      = refBn13 (after (ops7 (F := Ideal)) V (main_v378 : DevRef τ sig)) (V (main_arg9 : DevRef τ sig)) (V (main_arg10 : DevRef τ sig)) := by
  rw [← ops7_take34_keeps13 V main_arg9 (by decide), ← ops7_take34_keeps13 V main_arg10 (by decide),
    ← List.take_append_drop 34 (ops7 (F := Ideal)), after_append]
  simp only [List.take_append_drop]
  generalize after ((ops7 (F := Ideal)).take 34) V = R'
  dsimp only [ops7, ops8]
  simp only [List.drop_succ_cons, List.drop_zero]
  after_results_simp
  rfl

/-- The reference's normalise-and-cut-off of relation 2, layer 1, at (p, q), with the mixed array and the two arguments
    named: the entry less its column's mean, times the reciprocal square root of the column's variance plus the small
    constant, times the scale at q, plus the bias at q, cut off below at 0. -/
theorem ref_bn13_at (V : Valuation τ sig (Elt Ideal)) (X : S100000x64.Idx → EReal) (a9 a10 : S3x64.Idx → EReal)
    (hX : (after (ops7 (F := Ideal)) V (main_v378 : DevRef τ sig) : S100000x64.Idx → EReal) = X)
    (h9 : (V (main_arg9 : DevRef τ sig) : S3x64.Idx → EReal) = a9) (h10 : (V (main_arg10 : DevRef τ sig) : S3x64.Idx → EReal) = a10)
    (p : Fin 100000) (q : Fin 64) :
    (after (ops8 (F := Ideal)) (after (ops7 (F := Ideal)) V) (main_v402 : DevRef τ sig) : S100000x64.Idx → EReal) (ix2 p q)
      = max (((X (ix2 p q) - colMean13 X q) * Ideal.rsqrt (colVar13 X q + Ideal.ofBits .f32 0x3727C5AC#32)) * a9 (ix2 (2 : Fin 3) q)
          + a10 (ix2 (2 : Fin 3) q)) 0 := by
  rw [ref_bn13, hX, h9, h10, refBn13_apply]

end Cert.ReferenceIdeal.RefRun

end
-- ==== Proof.KIStageBnJoin13.lean ====
/-
  The normalise stage after mixing region 13: the two programs' normalised arrays agree.

  The reference normalises each column of the mixed array with its two-pass mean and variance; the kernel program's
  normalise region does so from the sums its mixing region accumulated, which for real entries is the two-pass form as
  well (the variance identity). The mixed array is real, entry by entry, under the finiteness precondition, and the
  scale and bias rows are the same rows of the same arguments. So when the mixed arrays agree and the two memories agree
  on the scale and bias arguments, the normalised, cut-off arrays agree.
-/
import proofs.«140713_j1864015806535_2_alg».proof.Proof.KIStageBn13
import proofs.«140713_j1864015806535_2_alg».proof.Proof.KIStageBnRef13
import proofs.«140713_j1864015806535_2_alg».proof.Proof.KIScaleRows

set_option maxRecDepth 65536

noncomputable section

namespace Cert.Proof.Value

open Idealize.ShloMosaic Idealize.ShloMosaic.TcCoe Idealize.ShloMosaic.ValueIdx Idealize.SL.Sem Idealize.ShloMosaic.StableHlo

/-- THE NORMALISE STAGE'S JOIN after mixing region 13, from any contents of the reference's buffers before its window: if the
    mix arrays agree and the scale and bias arguments agree, the normalised arrays agree (for finite inputs). -/
theorem stageBn13
    (m : (ℓ : Loc Cert.KernelIdeal.nD Cert.KernelIdeal.τ Cert.KernelIdeal.sig) → Buf (Elt Ideal) ℓ)
    (V : Valuation Cert.ReferenceIdeal.τ Cert.ReferenceIdeal.sig (Elt Ideal))
    (c : Dev Cert.KernelIdeal.nD) (hpre : Cert.Pre_KernelIdeal m)
    (hX : (after (Cert.ReferenceIdeal.RefRun.ops7 (F := Ideal)) V (Cert.ReferenceIdeal.main_v378 : DevRef Cert.ReferenceIdeal.τ Cert.ReferenceIdeal.sig) : (⟨2, ![100000, 64]⟩ : Shape).Idx → EReal)
      = (Cert.KernelIdeal.Body.O13_0 (F := Ideal) m c : (⟨2, ![100000, 64]⟩ : Shape).Idx → EReal))
    (e9 : (V (Cert.ReferenceIdeal.main_arg9 : DevRef Cert.ReferenceIdeal.τ Cert.ReferenceIdeal.sig) : (⟨2, ![3, 64]⟩ : Shape).Idx → EReal)
      = m ((c.tc : Thread Cert.KernelIdeal.nD Cert.KernelIdeal.τ).loc Cert.KernelIdeal.main_arg9))
    (e10 : (V (Cert.ReferenceIdeal.main_arg10 : DevRef Cert.ReferenceIdeal.τ Cert.ReferenceIdeal.sig) : (⟨2, ![3, 64]⟩ : Shape).Idx → EReal)
      = m ((c.tc : Thread Cert.KernelIdeal.nD Cert.KernelIdeal.τ).loc Cert.KernelIdeal.main_arg10)) :
    (after (Cert.ReferenceIdeal.RefRun.ops8 (F := Ideal)) (after (Cert.ReferenceIdeal.RefRun.ops7 (F := Ideal)) V) (Cert.ReferenceIdeal.main_v402 : DevRef Cert.ReferenceIdeal.τ Cert.ReferenceIdeal.sig) : (⟨2, ![100000, 64]⟩ : Shape).Idx → EReal)
      = (Cert.KernelIdeal.Body.O14_0 (F := Ideal) m c : (⟨2, ![100000, 64]⟩ : Shape).Idx → EReal) := by
  funext i
  obtain ⟨p, q, rfl⟩ : ∃ (p : Fin 100000) (q : Fin 64), i = ix2 p q := ⟨i 0, i 1, eq_ix2 i⟩
  rw [Cert.ReferenceIdeal.RefRun.ref_bn13_at _ _ _ _ hX e9 e10 p q]
  have hk := Cert.KernelIdeal.Body.ker_y13 m c (fun p q => Cert.KernelIdeal.Body.O13_0_allReal m hpre c (ix2 p q)) p q
  refine Eq.trans ?_ hk.symm
  have hs : Cert.KernelIdeal.Body.at2_13 (Cert.KernelIdeal.Body.W33 (F := Ideal) m c Cert.KernelIdeal.main_v271) 0 q
      = (m ((c.tc : Thread Cert.KernelIdeal.nD Cert.KernelIdeal.τ).loc Cert.KernelIdeal.main_arg9) : (⟨2, ![3, 64]⟩ : Shape).Idx → EReal) (ix2 (2 : Fin 3) q) := Cert.KernelIdeal.Body.ker_scale13_at m c q
  have hb : Cert.KernelIdeal.Body.at2_13 (Cert.KernelIdeal.Body.W33 (F := Ideal) m c Cert.KernelIdeal.main_v272) 0 q
      = (m ((c.tc : Thread Cert.KernelIdeal.nD Cert.KernelIdeal.τ).loc Cert.KernelIdeal.main_arg10) : (⟨2, ![3, 64]⟩ : Shape).Idx → EReal) (ix2 (2 : Fin 3) q) := Cert.KernelIdeal.Body.ker_shift13_at m c q
  rw [hs, hb, Cert.ReferenceIdeal.RefRun.colVar13_eq]
  unfold Cert.LibNormJoin.normEntry Cert.ReferenceIdeal.RefRun.colMean13 Cert.ReferenceIdeal.RefRun.colSum13
  rw [Idealize.ShloMosaic.Ideal.ofBits_zero_f32, Cert.ReferenceIdeal.RefRun.ofBits_count13]
  simp only [Nat.cast_ofNat]

end Cert.Proof.Value

end
-- ==== Proof.KIStageBnKer16.lean ====
/-
  Between the mix region and the normalise region of the stage of mix region 16, the kernel program computes on the host the
  mean row (the accumulated column sums divided by 100000), the variance row (the accumulated sums of squares divided
  by 100000, minus the squared mean), and lays the scale and bias vectors out as rows. This module reads those four
  rows, and the mix array, off the valuation the normalise region is entered from.
-/
import proofs.«140713_j1864015806535_2_alg».proof.Proof.KIFrameBase
import Idealize.ShloMosaic.Lib.StableHlo.Run
import Idealize.ShloMosaic.PureOps.Ideal.Laws

set_option maxRecDepth 65536

noncomputable section

namespace Cert.KernelIdeal.Body

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- After the mix region its three outputs hold what it leaves. -/
theorem W38_pre_0 (c : Dev nD) : W38 (F := Ideal) m c main_v300_0 = O16_0 m c := by
  unfold W38
  simp only [Function.update_self,
    Function.update_of_ne (StableHlo.devRef_ne_of_ne (by decide : main_v300_0 ≠ main_v300_2) : (Proc.devRef .tc main_v300_0 : DevRef τ sig) ≠ Proc.devRef .tc main_v300_2),
    Function.update_of_ne (StableHlo.devRef_ne_of_ne (by decide : main_v300_0 ≠ main_v300_1) : (Proc.devRef .tc main_v300_0 : DevRef τ sig) ≠ Proc.devRef .tc main_v300_1)]
theorem W38_pre_1 (c : Dev nD) : W38 (F := Ideal) m c main_v300_1 = O16_1 m c := by
  unfold W38
  simp only [Function.update_self,
    Function.update_of_ne (StableHlo.devRef_ne_of_ne (by decide : main_v300_1 ≠ main_v300_2) : (Proc.devRef .tc main_v300_1 : DevRef τ sig) ≠ Proc.devRef .tc main_v300_2)]
theorem W38_pre_2 (c : Dev nD) : W38 (F := Ideal) m c main_v300_2 = O16_2 m c := by
  unfold W38
  simp only [Function.update_self]

set_option maxHeartbeats 2000000 in
/-- The mean row: the accumulated column sums over 100000. -/
theorem ker_mean16 (c : Dev nD) :
    (W39 (F := Ideal) m c main_v302 : S1x32.Idx → EReal)
      = Host.divf (F := Ideal) (O16_1 m c : S1x32.Idx → EReal) (broadcastInDim S1x32 ![] bcast_S_S1x32 (constant (F := Ideal) S_ .f32 0x47C35000#32)) := by
  dsimp only [W39, hostOps17]
  after_results
  rw [W38_pre_1]

set_option maxHeartbeats 2000000 in
/-- The variance row: the accumulated sums of squares over 100000, minus the squared mean. -/
theorem ker_var16 (c : Dev nD) :
    (W39 (F := Ideal) m c main_v306 : S1x32.Idx → EReal)
      = subf (Host.divf (F := Ideal) (O16_2 m c : S1x32.Idx → EReal) (broadcastInDim S1x32 ![] bcast_S_S1x32 (constant (F := Ideal) S_ .f32 0x47C35000#32)))
          (mulf (W39 (F := Ideal) m c main_v302 : S1x32.Idx → EReal) (W39 (F := Ideal) m c main_v302 : S1x32.Idx → EReal)) := by
  rw [ker_mean16]
  dsimp only [W39, hostOps17]
  after_results
  rw [W38_pre_1, W38_pre_2]

/-- The mix array is untouched by the host stretch. -/
theorem ker_xm16 (c : Dev nD) : W39 (F := Ideal) m c main_v300_0 = O16_0 m c :=
  (StableHlo.after_of_writes_sub hostOps17 _ GenP.hostOps17_writes (by decide)).trans (W38_pre_0 m c)

end Cert.KernelIdeal.Body

end
-- ==== Proof.KIStageBn16.lean ====
/-
  The normalise stage of the stage of mix region 16, on the kernel program's side, in the reference's form.

  The normalise region's output at (p, q) is the normalised entry of the mix array's column q, with the mean and the
  variance the host computed from the sums the mix region accumulated: mean = S/100000, variance = SS/100000 − mean²,
  cut off at 0. The accumulated sums are the column's sum and the sum of its squares (ten tiles of 10000 rows are the
  100000 rows), so for a column of real entries this is the two-pass normalisation: mean (0 + Σ x)/100000, variance
  (0 + Σ (x − mean)²)/100000, no cut-off (Proof/LibNormJoin.lean).
-/
import proofs.«140713_j1864015806535_2_alg».proof.Proof.KIValMix16
import proofs.«140713_j1864015806535_2_alg».proof.Proof.KIValBn17
import proofs.«140713_j1864015806535_2_alg».proof.Proof.KIStageBnKer16
import proofs.«140713_j1864015806535_2_alg».proof.Proof.LibNormJoin
import proofs.«140713_j1864015806535_2_alg».proof.Proof.LibTiles

set_option maxRecDepth 65536

noncomputable section

namespace Cert.KernelIdeal.Body

open Cert.KernelIdeal Cert.KernelIdeal.Gen Idealize.ShloMosaic Idealize.ShloMosaic.TcCoe Idealize.ShloMosaic.ValueIdx Idealize.SL.Sem
open Cert.LibRealEntries Cert.LibNormJoin

variable (m : (ℓ : Loc nD τ sig) → Buf (Elt Ideal) ℓ)

/-- An entry of a two-axis array of extended reals. -/
abbrev at2_16 {a b : ℕ} (x : (⟨2, ![a, b]⟩ : Shape).Idx → EReal) (p : Fin a) (q : Fin b) : EReal := x (ix2 p q)

/-- Column q of the mix array, as a function of the row. -/
abbrev xcol16 (c : Dev nD) (q : Fin 32) : Fin 100000 → EReal := fun p => at2_16 (O16_0 (F := Ideal) m c) p q

/-- Ten tiles of 10000 rows are the 100000 rows. -/
theorem sum_tiles16 (f : Fin 100000 → EReal) :
    ∑ t : Fin 10, ∑ r : Fin 10000, f ⟨t.val * 10000 + r.val, by omega⟩ = ∑ p, f p := by
  rw [Cert.LibTiles.sum_blocks 10 10000 100000 rfl f (fun i a => by omega)]
  exact Finset.sum_congr rfl fun t _ => Finset.sum_congr rfl fun r _ => congrArg f (Fin.ext (by show t.val * 10000 + r.val = 10000 * t.val + r.val; omega))

/-- The first accumulated row is the column sums of the mix array. -/
theorem col_sum16 (c : Dev nD) (q : Fin 32) : at2_16 (O16_1 (F := Ideal) m c) 0 q = ∑ p, xcol16 m c q p := by
  rw [show at2_16 (O16_1 (F := Ideal) m c) 0 q = (O16_1 (F := Ideal) m c : S1x32.Idx → EReal) (ix2 0 q) from rfl, O16_1_eq, ← sum_tiles16 (xcol16 m c q)]
  exact Finset.sum_congr rfl fun t _ => Finset.sum_congr rfl fun r _ => (O16_0_eq m c _ q).symm

/-- The second is the column sums of its squares. -/
theorem col_sumsq16 (c : Dev nD) (q : Fin 32) : at2_16 (O16_2 (F := Ideal) m c) 0 q = ∑ p, xcol16 m c q p * xcol16 m c q p := by
  rw [show at2_16 (O16_2 (F := Ideal) m c) 0 q = (O16_2 (F := Ideal) m c : S1x32.Idx → EReal) (ix2 0 q) from rfl, O16_2_eq, ← sum_tiles16 (fun p => xcol16 m c q p * xcol16 m c q p)]
  exact Finset.sum_congr rfl fun t _ => Finset.sum_congr rfl fun r _ => by rw [← O16_0_eq m c _ q]

/-- The mean row at q. -/
theorem ker_mean16_at (c : Dev nD) (q : Fin 32) :
    at2_16 (W39 (F := Ideal) m c main_v302) 0 q
      = Ideal.div (at2_16 (O16_1 (F := Ideal) m c) 0 q) (Ideal.ofBits .f32 0x47C35000#32) := by
  rw [ker_mean16]; rfl

/-- The variance row at q. -/
theorem ker_var16_at (c : Dev nD) (q : Fin 32) :
    at2_16 (W39 (F := Ideal) m c main_v306) 0 q
      = Ideal.div (at2_16 (O16_2 (F := Ideal) m c) 0 q) (Ideal.ofBits .f32 0x47C35000#32)
        - at2_16 (W39 (F := Ideal) m c main_v302) 0 q * at2_16 (W39 (F := Ideal) m c main_v302) 0 q := by
  rw [ker_var16]; rfl

/-- THE NORMALISE REGION'S OUTPUT in the two-pass form, for a mix array of real entries. -/
theorem ker_y16 (c : Dev nD) (hreal : ∀ p q, IsReal (xcol16 m c q p)) (p : Fin 100000) (q : Fin 32) :
    at2_16 (O17_0 (F := Ideal) m c) p q
      = normEntry (xcol16 m c q p)
          (Ideal.div (0 + ∑ i, xcol16 m c q i) (((100000 : ℕ) : ℝ) : EReal))
          (Ideal.div (0 + ∑ i, (xcol16 m c q i - Ideal.div (0 + ∑ j, xcol16 m c q j) (((100000 : ℕ) : ℝ) : EReal))
              * (xcol16 m c q i - Ideal.div (0 + ∑ j, xcol16 m c q j) (((100000 : ℕ) : ℝ) : EReal))) (((100000 : ℕ) : ℝ) : EReal))
          (Ideal.ofBits .f32 0x3727C5AC#32)
          (at2_16 (W39 (F := Ideal) m c main_v307) 0 q) (at2_16 (W39 (F := Ideal) m c main_v308) 0 q) := by
  rw [← norm_join (n := 100000) (by norm_num) (xcol16 m c q) (fun i => hreal i q) _ _ (col_sum16 m c q) (col_sumsq16 m c q)]
  rw [show at2_16 (O17_0 (F := Ideal) m c) p q = (O17_0 (F := Ideal) m c : S100000x32.Idx → EReal) (ix2 p q) from rfl, O17_0_eq, bnRelu17_apply]
  rw [show (W39 (F := Ideal) m c main_v306 : S1x32.Idx → EReal) (ix2 0 q) = at2_16 (W39 (F := Ideal) m c main_v306) 0 q from rfl,
    show (W39 (F := Ideal) m c main_v302 : S1x32.Idx → EReal) (ix2 0 q) = at2_16 (W39 (F := Ideal) m c main_v302) 0 q from rfl,
    ker_var16_at, ker_mean16_at, ofBits_100000, ker_xm16]
  rfl

end Cert.KernelIdeal.Body

end
-- ==== Proof.KIStageBnRef16.lean ====
/-
  The reference's normalise-and-cut-off of relation 2, layer 2, read at one entry: the mixed array less its column mean,
  times the reciprocal square root of the column variance shifted by a small constant, times the scale, plus the bias,
  cut off below at 0; the column mean is the column's sum over its 100000 entries divided by 100000.
-/
import proofs.«140713_j1864015806535_2_alg».proof.Proof.RefFrame
import proofs.«140713_j1864015806535_2_alg».proof.Proof.LibHostBroadcast
import Idealize.ShloMosaic.Lib.StableHlo.Run
import Idealize.ShloMosaic.Lib.ValueIdx
import Idealize.ShloMosaic.Lib.IdealHost
import Idealize.ShloMosaic.Lib.Pipeline.Value
import Idealize.ShloMosaic.Lib.ValueLayout
import Idealize.ShloMosaic.PureOps.Ideal.Laws

set_option maxRecDepth 65536

noncomputable section

namespace Cert.ReferenceIdeal.RefRun
open Cert.ReferenceIdeal Cert.ReferenceIdeal.Gen Idealize.ShloMosaic Idealize.ShloMosaic.TcCoe Idealize.SL.Sem Idealize.ShloMosaic.StableHlo
open Idealize.ShloMosaic.ValueIdx

/-- A relation's row of a three-row argument, as a vector. -/
def rowVec16 (a : S3x32.Idx → EReal) : S32.Idx → EReal :=
  shapeCast S32 (extractStridedSlice S1x32 ![2, 0] a slices_S3x32_S1x32_2_0) shapeCasts_S1x32_S32

/-- A vector spread over the rows of the array: first as a row, then along the rows. -/
def spread16 (v : S32.Idx → EReal) : S100000x32.Idx → EReal :=
  broadcastInDim S100000x32 ![0, 1] bcast_S1x32_S100000x32_0_1 (broadcastInDim S1x32 ![1] bcast_S32_S1x32_1 v)

/-- The column means: each column's sum from the zero word, divided by the count's word. -/
def refMeanVec16 (X : S100000x32.Idx → EReal) : S32.Idx → EReal :=
  Host.divf (F := Ideal) (Host.reduceAdd (F := Ideal) X (constant (F := Ideal) S_ .f32 0x00000000#32) reducesTo_S100000x32_S32_d0 h_S_)
    (broadcastInDim S32 ![] bcast_S_S32 (constant (F := Ideal) S_ .f32 0x47C35000#32))

/-- The count less the correction, as the outlined variance computes it. -/
def refCount16 : S_.Idx → EReal :=
  subf (F := Ideal) (constant (F := Ideal) S_ .f32 0x47C35000#32) (sitofp (F := Ideal) .f32 (constantI S_ 32 0#32))

/-- The array less its column means, the means computed as a row. -/
def refCentred16 (X : S100000x32.Idx → EReal) : S100000x32.Idx → EReal :=
  subf (F := Ideal) X (broadcastInDim S100000x32 ![0, 1] bcast_S1x32_S100000x32_0_1
    (Host.divf (F := Ideal)
      (broadcastInDim S1x32 ![1] bcast_S32_S1x32_1 (Host.reduceAdd (F := Ideal) X (constant (F := Ideal) S_ .f32 0x00000000#32) reducesTo_S100000x32_S32_d0 h_S_))
      (broadcastInDim S1x32 ![] bcast_S_S1x32 (constant (F := Ideal) S_ .f32 0x47C35000#32))))

/-- The column variances as the outlined function yields them: the sum of squared centred entries over the count, where the count is positive. -/
def refVarVec16 (X : S100000x32.Idx → EReal) : S32.Idx → EReal :=
  select (broadcastInDim S32 ![] bcast_S_S32 (cmpf (F := Ideal) .ogt refCount16 (constant (F := Ideal) S_ .f32 0x00000000#32)))
    (Host.divf (F := Ideal)
      (Host.reduceAdd (F := Ideal) (mulf (F := Ideal) (refCentred16 X) (refCentred16 X)) (constant (F := Ideal) S_ .f32 0x00000000#32) reducesTo_S100000x32_S32_d0 h_S_)
      (broadcastInDim S32 ![] bcast_S_S32 refCount16))
    (broadcastInDim S32 ![] bcast_S_S32 (id (constant (F := Ideal) S_ .f32 0x7FC00000#32)))

/-- The stage as the reference composes it. -/
def refBn16 (X : S100000x32.Idx → EReal) (a9 a10 : S3x32.Idx → EReal) : S100000x32.Idx → EReal :=
  maximumf (F := Ideal)
    (addf (F := Ideal)
      (mulf (F := Ideal)
        (mulf (F := Ideal) (subf (F := Ideal) X (spread16 (refMeanVec16 X)))
          (spread16 (Host.rsqrt (F := Ideal) (addf (F := Ideal) (refVarVec16 X) (broadcastInDim S32 ![] bcast_S_S32 (constant (F := Ideal) S_ .f32 0x3727C5AC#32))))))
        (spread16 (rowVec16 a9)))
      (spread16 (rowVec16 a10)))
    (broadcastInDim S100000x32 ![] bcast_S_S100000x32 (constant (F := Ideal) S_ .f32 0x00000000#32))

open Cert.LibHostBroadcast in
/-- A spread vector at (p, q) is the vector at q. -/
theorem spread16_apply (v : S32.Idx → EReal) (p : Fin 100000) (q : Fin 32) : spread16 v (ix2 p q) = v (ix1 q) :=
  vec_along_cols v bcast_S32_S1x32_1 bcast_S1x32_S100000x32_0_1 p q

/-- A relation-2 row of the argument at q is the argument at (0, q). -/
theorem rowVec16_apply (a : S3x32.Idx → EReal) (q : Fin 32) : rowVec16 a (ix1 q) = a (ix2 (2 : Fin 3) q) := by
  unfold rowVec16
  rw [shapeCast_1a_a_apply]
  exact slice2_axis0_apply 2 a slices_S3x32_S1x32_2_0 (0 : Fin 1) q (2 : Fin 3) rfl

/-- A column's sum from the zero word. -/
def colSum16 (X : S100000x32.Idx → EReal) (q : Fin 32) : EReal :=
  Ideal.ofBits .f32 0x00000000#32 + ∑ p' : Fin 100000, X (ix2 p' q)

/-- A column's mean: its sum divided by the count's word. -/
def colMean16 (X : S100000x32.Idx → EReal) (q : Fin 32) : EReal :=
  Ideal.div (colSum16 X q) (Ideal.ofBits .f32 0x47C35000#32)

/-- The count less the correction, as a scalar: the count's word less the integer zero read as a float. -/
def cnt16 : EReal := Ideal.ofBits .f32 0x47C35000#32 - Scalar.sitofp (F := Ideal) .f32 (0#32 : BitVec 32)

/-- A column's variance as the outlined function yields it: where the count is positive, the column's sum of squared
    centred entries divided by the count; the not-a-number word's value otherwise. -/
def colVar16 (X : S100000x32.Idx → EReal) (q : Fin 32) : EReal :=
  Scalar.select (Scalar.cmpf (F := Ideal) .ogt cnt16 (Ideal.ofBits .f32 0x00000000#32))
    (Ideal.div (Ideal.ofBits .f32 0x00000000#32 + ∑ p' : Fin 100000, (X (ix2 p' q) - colMean16 X q) * (X (ix2 p' q) - colMean16 X q)) cnt16)
    (Ideal.ofBits .f32 0x7FC00000#32)

/-- The host's sum down the rows, from the zero word, at column q. -/
theorem reduce0_apply16 (X : S100000x32.Idx → EReal) (q : Fin 32) :
    Host.reduceAdd (F := Ideal) X (constant (F := Ideal) S_ .f32 0x00000000#32) reducesTo_S100000x32_S32_d0 h_S_ (ix1 q) = colSum16 X q := by
  refine (hostReduceAdd_apply X _ reducesTo_S100000x32_S32_d0 h_S_ (ix1 q)).trans ?_
  refine (Ideal.hostReduceAdd_single reducesTo_S100000x32_S32_d0 (by decide) X _ (ix1 q)).trans ?_
  unfold colSum16
  rw [constant_apply]
  refine congrArg _ (Finset.sum_congr rfl fun k _ => congrArg X (funext fun a => Fin.ext ?_))
  match a with
  | ⟨0, _⟩ => rfl
  | ⟨1, _⟩ => rfl

theorem refMeanVec16_apply (X : S100000x32.Idx → EReal) (q : Fin 32) : refMeanVec16 X (ix1 q) = colMean16 X q := by
  unfold refMeanVec16 colMean16
  rw [hostDivf_apply, reduce0_apply16, broadcastInDim_scalar_apply, constant_apply]

theorem refCount16_apply : refCount16 ix0 = cnt16 := rfl

open Cert.LibHostBroadcast in
theorem refCentred16_apply (X : S100000x32.Idx → EReal) (p : Fin 100000) (q : Fin 32) :
    refCentred16 X (ix2 p q) = X (ix2 p q) - colMean16 X q := by
  unfold refCentred16 colMean16
  rw [subf_apply, row_to_mat, hostDivf_apply, vec_to_row, reduce0_apply16, broadcastInDim_scalar_apply, constant_apply]

theorem refVarVec16_apply (X : S100000x32.Idx → EReal) (q : Fin 32) : refVarVec16 X (ix1 q) = colVar16 X q := by
  unfold refVarVec16 colVar16
  rw [select_apply, broadcastInDim_scalar_apply, broadcastInDim_scalar_apply, hostDivf_apply, reduce0_apply16, broadcastInDim_scalar_apply,
    cmpf_apply, refCount16_apply, constant_apply]
  unfold colSum16
  simp only [mulf_apply, refCentred16_apply]
  rfl

/-- THE STAGE AT (p, q). -/
theorem refBn16_apply (X : S100000x32.Idx → EReal) (a9 a10 : S3x32.Idx → EReal) (p : Fin 100000) (q : Fin 32) :
    refBn16 X a9 a10 (ix2 p q)
      = max (((X (ix2 p q) - colMean16 X q) * Ideal.rsqrt (colVar16 X q + Ideal.ofBits .f32 0x3727C5AC#32)) * a9 (ix2 (2 : Fin 3) q)
          + a10 (ix2 (2 : Fin 3) q)) 0 := by
  unfold refBn16
  rw [maximumf_apply, addf_apply, mulf_apply, mulf_apply, subf_apply, spread16_apply, spread16_apply, spread16_apply, spread16_apply,
    rowVec16_apply, rowVec16_apply, refMeanVec16_apply, broadcastInDim_scalar_apply, constant_apply]
  show max (_ * Ideal.rsqrt (addf (F := Ideal) (refVarVec16 X) _ (ix1 q)) * _ + _) _ = _
  rw [addf_apply, refVarVec16_apply, broadcastInDim_scalar_apply, constant_apply, Ideal.ofBits_zero_f32]

/-- The count's word is 100000. -/
theorem ofBits_count16 : Ideal.ofBits .f32 0x47C35000#32 = ((100000 : ℝ) : EReal) := by
  simp [Ideal.ofBits, Ideal.ieee, -EReal.coe_mul]; norm_num

/-- The count less the correction is 100000: the correction is the integer zero. -/
theorem cnt16_eq : cnt16 = ((100000 : ℝ) : EReal) := by
  unfold cnt16
  rw [ofBits_count16, Ideal.scalar_sitofp_def]
  simp

/-- The count is positive, so a column's variance is its sum of squared centred entries over 100000. -/
theorem colVar16_eq (X : S100000x32.Idx → EReal) (q : Fin 32) :
    colVar16 X q = Ideal.div (Ideal.ofBits .f32 0x00000000#32 + ∑ p' : Fin 100000, (X (ix2 p' q) - colMean16 X q) * (X (ix2 p' q) - colMean16 X q)) ((100000 : ℝ) : EReal) := by
  unfold colVar16
  rw [cnt16_eq, Ideal.scalar_cmpf_def, Ideal.ofBits_zero_f32]
  have h : Ideal.cmp .ogt ((100000 : ℝ) : EReal) 0 = 1#1 := by
    unfold Ideal.cmp
    have : (0 : EReal) < ((100000 : ℝ) : EReal) := by exact_mod_cast (by norm_num : (0 : ℝ) < 100000)
    simp [this]
  rw [h, select_one]

/-- A column's mean is its sum over 100000. -/
theorem colMean16_eq (X : S100000x32.Idx → EReal) (q : Fin 32) :
    colMean16 X q = Ideal.div (∑ p' : Fin 100000, X (ix2 p' q)) ((100000 : ℝ) : EReal) := by
  unfold colMean16 colSum16
  rw [ofBits_count16, Ideal.ofBits_zero_f32, zero_add]

/-- The window's operations up to the mix write neither the scale argument nor the bias argument. -/
theorem ops9_take4_keeps16 (V : Valuation τ sig (Elt Ideal)) (r : Ref sig .tc) (hr : r ∉ (ops9_W : List (Ref sig .tc))) :
    after ((ops9 (F := Ideal)).take 4) V (Proc.devRef .tc r) = V (Proc.devRef .tc r) :=
  after_of_writes_sub (W := ops9_W) _ V
    (List.forall_iff_forall_mem.mpr fun op hop => List.forall_iff_forall_mem.mp ops9_writes op (List.mem_of_mem_take hop)) hr

set_option maxHeartbeats 4000000 in
/-- The reference's normalised array of relation 2, layer 2, is that composition of the mixed array the operations up to
    the mix leave and of the scale and bias arguments, from any contents before the window. The window is cut after the mix. -/
theorem ref_bn16 (V : Valuation τ sig (Elt Ideal)) :
    (after (ops9 (F := Ideal)) V (main_v477 : DevRef τ sig) : S100000x32.Idx → EReal)
      = refBn16 (after (ops9 (F := Ideal)) V (main_v453 : DevRef τ sig)) (V (main_arg11 : DevRef τ sig)) (V (main_arg12 : DevRef τ sig)) := by
  rw [← ops9_take4_keeps16 V main_arg11 (by decide), ← ops9_take4_keeps16 V main_arg12 (by decide),
    ← List.take_append_drop 4 (ops9 (F := Ideal)), after_append]
  simp only [List.take_append_drop]
  generalize after ((ops9 (F := Ideal)).take 4) V = R'
  dsimp only [ops9]
  simp only [List.drop_succ_cons, List.drop_zero]
  after_results_simp
  rfl

/-- The reference's normalise-and-cut-off of relation 2, layer 2, at (p, q), with the mixed array and the two arguments
    named: the entry less its column's mean, times the reciprocal square root of the column's variance plus the small
    constant, times the scale at q, plus the bias at q, cut off below at 0. -/
theorem ref_bn16_at (V : Valuation τ sig (Elt Ideal)) (X : S100000x32.Idx → EReal) (a9 a10 : S3x32.Idx → EReal)
    (hX : (after (ops9 (F := Ideal)) V (main_v453 : DevRef τ sig) : S100000x32.Idx → EReal) = X)
    (h9 : (V (main_arg11 : DevRef τ sig) : S3x32.Idx → EReal) = a9) (h10 : (V (main_arg12 : DevRef τ sig) : S3x32.Idx → EReal) = a10)
    (p : Fin 100000) (q : Fin 32) :
    (after (ops9 (F := Ideal)) V (main_v477 : DevRef τ sig) : S100000x32.Idx → EReal) (ix2 p q)
      = max (((X (ix2 p q) - colMean16 X q) * Ideal.rsqrt (colVar16 X q + Ideal.ofBits .f32 0x3727C5AC#32)) * a9 (ix2 (2 : Fin 3) q)
          + a10 (ix2 (2 : Fin 3) q)) 0 := by
  rw [ref_bn16, hX, h9, h10, refBn16_apply]

end Cert.ReferenceIdeal.RefRun

end
-- ==== Proof.KIStageBnJoin16.lean ====
/-
  The normalise stage after mixing region 16: the two programs' normalised arrays agree.

  The reference normalises each column of the mixed array with its two-pass mean and variance; the kernel program's
  normalise region does so from the sums its mixing region accumulated, which for real entries is the two-pass form as
  well (the variance identity). The mixed array is real, entry by entry, under the finiteness precondition, and the
  scale and bias rows are the same rows of the same arguments. So when the mixed arrays agree and the two memories agree
  on the scale and bias arguments, the normalised, cut-off arrays agree.
-/
import proofs.«140713_j1864015806535_2_alg».proof.Proof.KIStageBn16
import proofs.«140713_j1864015806535_2_alg».proof.Proof.KIStageBnRef16
import proofs.«140713_j1864015806535_2_alg».proof.Proof.KIScaleRows

set_option maxRecDepth 65536

noncomputable section

namespace Cert.Proof.Value

open Idealize.ShloMosaic Idealize.ShloMosaic.TcCoe Idealize.ShloMosaic.ValueIdx Idealize.SL.Sem Idealize.ShloMosaic.StableHlo

/-- THE NORMALISE STAGE'S JOIN after mixing region 16, from any contents of the reference's buffers before its window: if the
    mix arrays agree and the scale and bias arguments agree, the normalised arrays agree (for finite inputs). -/
theorem stageBn16
    (m : (ℓ : Loc Cert.KernelIdeal.nD Cert.KernelIdeal.τ Cert.KernelIdeal.sig) → Buf (Elt Ideal) ℓ)
    (V : Valuation Cert.ReferenceIdeal.τ Cert.ReferenceIdeal.sig (Elt Ideal))
    (c : Dev Cert.KernelIdeal.nD) (hpre : Cert.Pre_KernelIdeal m)
    (hX : (after (Cert.ReferenceIdeal.RefRun.ops9 (F := Ideal)) V (Cert.ReferenceIdeal.main_v453 : DevRef Cert.ReferenceIdeal.τ Cert.ReferenceIdeal.sig) : (⟨2, ![100000, 32]⟩ : Shape).Idx → EReal)
      = (Cert.KernelIdeal.Body.O16_0 (F := Ideal) m c : (⟨2, ![100000, 32]⟩ : Shape).Idx → EReal))
    (e11 : (V (Cert.ReferenceIdeal.main_arg11 : DevRef Cert.ReferenceIdeal.τ Cert.ReferenceIdeal.sig) : (⟨2, ![3, 32]⟩ : Shape).Idx → EReal)
      = m ((c.tc : Thread Cert.KernelIdeal.nD Cert.KernelIdeal.τ).loc Cert.KernelIdeal.main_arg11))
    (e12 : (V (Cert.ReferenceIdeal.main_arg12 : DevRef Cert.ReferenceIdeal.τ Cert.ReferenceIdeal.sig) : (⟨2, ![3, 32]⟩ : Shape).Idx → EReal)
      = m ((c.tc : Thread Cert.KernelIdeal.nD Cert.KernelIdeal.τ).loc Cert.KernelIdeal.main_arg12)) :
    (after (Cert.ReferenceIdeal.RefRun.ops9 (F := Ideal)) V (Cert.ReferenceIdeal.main_v477 : DevRef Cert.ReferenceIdeal.τ Cert.ReferenceIdeal.sig) : (⟨2, ![100000, 32]⟩ : Shape).Idx → EReal)
      = (Cert.KernelIdeal.Body.O17_0 (F := Ideal) m c : (⟨2, ![100000, 32]⟩ : Shape).Idx → EReal) := by
  funext i
  obtain ⟨p, q, rfl⟩ : ∃ (p : Fin 100000) (q : Fin 32), i = ix2 p q := ⟨i 0, i 1, eq_ix2 i⟩
  rw [Cert.ReferenceIdeal.RefRun.ref_bn16_at _ _ _ _ hX e11 e12 p q]
  have hk := Cert.KernelIdeal.Body.ker_y16 m c (fun p q => Cert.KernelIdeal.Body.O16_0_allReal m hpre c (ix2 p q)) p q
  refine Eq.trans ?_ hk.symm
  have hs : Cert.KernelIdeal.Body.at2_16 (Cert.KernelIdeal.Body.W39 (F := Ideal) m c Cert.KernelIdeal.main_v307) 0 q
      = (m ((c.tc : Thread Cert.KernelIdeal.nD Cert.KernelIdeal.τ).loc Cert.KernelIdeal.main_arg11) : (⟨2, ![3, 32]⟩ : Shape).Idx → EReal) (ix2 (2 : Fin 3) q) := Cert.KernelIdeal.Body.ker_scale16_at m c q
  have hb : Cert.KernelIdeal.Body.at2_16 (Cert.KernelIdeal.Body.W39 (F := Ideal) m c Cert.KernelIdeal.main_v308) 0 q
      = (m ((c.tc : Thread Cert.KernelIdeal.nD Cert.KernelIdeal.τ).loc Cert.KernelIdeal.main_arg12) : (⟨2, ![3, 32]⟩ : Shape).Idx → EReal) (ix2 (2 : Fin 3) q) := Cert.KernelIdeal.Body.ker_shift16_at m c q
  rw [hs, hb, Cert.ReferenceIdeal.RefRun.colVar16_eq]
  unfold Cert.LibNormJoin.normEntry Cert.ReferenceIdeal.RefRun.colMean16 Cert.ReferenceIdeal.RefRun.colSum16
  rw [Idealize.ShloMosaic.Ideal.ofBits_zero_f32, Cert.ReferenceIdeal.RefRun.ofBits_count16]
  simp only [Nat.cast_ofNat]

end Cert.Proof.Value

end
-- ==== Proof.KIStageMix16.lean ====
/-
  The mix stage of relation 2, layer 2, in both programs.

  The kernel program computes xm = g·agg + (1 − g)·h tile by tile in region 16, with the mixing weight g a 1×1 array; the
  reference computes it over the whole arrays across two of its windows: the spread weight, its product with agg and the
  constant one at the end of one window, and one minus the weight, its spread, the product with h and the sum at the
  start of the next. Both are the one function of (weight, h, agg), entry by entry: so when the two programs hold the
  same h, the same agg and the same weight, what the region leaves in its first output array is the reference's array.
-/
import proofs.«140713_j1864015806535_2_alg».proof.Proof.KIValMix16
import proofs.«140713_j1864015806535_2_alg».proof.Proof.RefFrame
import proofs.«140713_j1864015806535_2_alg».proof.Proof.LibHostBroadcast
import Idealize.ShloMosaic.Lib.StableHlo.Run
import Idealize.ShloMosaic.Lib.ValueIdx

set_option maxRecDepth 65536

noncomputable section

namespace Cert.Proof.Value
open Idealize.ShloMosaic Idealize.ShloMosaic.ValueIdx

/-- The mix as the reference computes it: the spread weight times agg, plus one minus the weight, spread, times h. -/
def refMix_16 (gs : (⟨2, ![100000, 32]⟩ : Shape).Idx → EReal) (agg : (⟨2, ![100000, 32]⟩ : Shape).Idx → EReal)
    (g : (⟨0, ![]⟩ : Shape).Idx → EReal) (h : (⟨2, ![100000, 32]⟩ : Shape).Idx → EReal)
    (hb : (⟨0, ![]⟩ : Shape).BroadcastsInDim ⟨2, ![100000, 32]⟩ (![] : Fin 0 → Fin 2)) :
    (⟨2, ![100000, 32]⟩ : Shape).Idx → EReal :=
  addf (F := Ideal) (φ := .f32) (mulf (F := Ideal) (φ := .f32) gs agg)
    (mulf (F := Ideal) (φ := .f32)
      (broadcastInDim ⟨2, ![100000, 32]⟩ ![] hb (subf (F := Ideal) (φ := .f32) (constant (F := Ideal) ⟨0, ![]⟩ .f32 0x3F800000#32) g)) h)

/-- At row p, column q. -/
theorem refMix_16_apply (gs agg : (⟨2, ![100000, 32]⟩ : Shape).Idx → EReal) (g : (⟨0, ![]⟩ : Shape).Idx → EReal)
    (h : (⟨2, ![100000, 32]⟩ : Shape).Idx → EReal)
    (hb : (⟨0, ![]⟩ : Shape).BroadcastsInDim ⟨2, ![100000, 32]⟩ (![] : Fin 0 → Fin 2)) (p : Fin 100000) (q : Fin 32) :
    refMix_16 gs agg g h hb (ix2 p q)
      = gs (ix2 p q) * agg (ix2 p q) + (Ideal.ofBits .f32 0x3F800000#32 - g ix0) * h (ix2 p q) := by
  unfold refMix_16
  rw [addf_apply, mulf_apply, mulf_apply, Cert.LibHostBroadcast.scalar_to_any, subf_apply, constant_apply]
end Cert.Proof.Value

namespace Cert.ReferenceIdeal.RefRun
open Cert.ReferenceIdeal Cert.ReferenceIdeal.Gen Idealize.ShloMosaic Idealize.ShloMosaic.TcCoe Idealize.SL.Sem Idealize.ShloMosaic.StableHlo

set_option maxHeartbeats 8000000 in
/-- The second window's part of the mix, over the buffers as it finds them. -/
theorem ref_mix16_tail (R : Valuation τ sig (Elt Ideal)) :
    (after (ops9 (F := Ideal)) R (main_v453 : DevRef τ sig) : S100000x32.Idx → EReal)
      = addf (F := Ideal) (φ := .f32) (R (main_v449 : DevRef τ sig))
          (mulf (F := Ideal) (φ := .f32)
            (broadcastInDim S100000x32 ![] bcast_S_S100000x32
              (subf (F := Ideal) (φ := .f32) (R (main_cst_87 : DevRef τ sig)) (R (main_v408 : DevRef τ sig))))
            (R (main_v412 : DevRef τ sig))) := by
  dsimp only [ops9]
  after_results

set_option maxHeartbeats 8000000 in
/-- The first window's part: the spread weight times agg. The window is cut at the spread's operation: the operations
    before it, the agg's among them, are read only through what they leave. -/
theorem ref_mix16_prod (V : Valuation τ sig (Elt Ideal)) :
    (after (ops8 (F := Ideal)) V (main_v449 : DevRef τ sig) : S100000x32.Idx → EReal)
      = mulf (F := Ideal) (φ := .f32)
          (broadcastInDim S100000x32 ![] bcast_S_S100000x32 (after (ops8 (F := Ideal)) V (main_v408 : DevRef τ sig)))
          (after (ops8 (F := Ideal)) V (main_v447 : DevRef τ sig)) := by
  rw [← List.take_append_drop 59 (ops8 (F := Ideal)), after_append]
  generalize after ((ops8 (F := Ideal)).take 59) V = X
  dsimp only [ops8]
  simp only [List.drop_succ_cons, List.drop_zero]
  after_results

set_option maxHeartbeats 8000000 in
/-- and the constant one. -/
theorem ref_mix16_one (V : Valuation τ sig (Elt Ideal)) :
    (after (ops8 (F := Ideal)) V (main_cst_87 : DevRef τ sig) : S_.Idx → EReal)
      = constant (F := Ideal) S_ .f32 0x3F800000#32 := by
  rw [← List.take_append_drop 59 (ops8 (F := Ideal)), after_append]
  generalize after ((ops8 (F := Ideal)).take 59) V = X
  dsimp only [ops8]
  simp only [List.drop_succ_cons, List.drop_zero]
  after_results

/-- The reference's mix of relation 2, layer 2, over the buffers as the first of the two windows finds them. -/
theorem ref_mix16 (V : Valuation τ sig (Elt Ideal)) :
    (after (ops9 (F := Ideal)) (after (ops8 (F := Ideal)) V) (main_v453 : DevRef τ sig) : S100000x32.Idx → EReal)
      = Cert.Proof.Value.refMix_16
          (broadcastInDim S100000x32 ![] bcast_S_S100000x32 (after (ops8 (F := Ideal)) V (main_v408 : DevRef τ sig)))
          (after (ops8 (F := Ideal)) V (main_v447 : DevRef τ sig)) (after (ops8 (F := Ideal)) V (main_v408 : DevRef τ sig))
          (after (ops8 (F := Ideal)) V (main_v412 : DevRef τ sig)) bcast_S_S100000x32 := by
  rw [ref_mix16_tail, ref_mix16_prod, ref_mix16_one]
  rfl
end Cert.ReferenceIdeal.RefRun

namespace Cert.Proof.Value
open Idealize.ShloMosaic Idealize.ShloMosaic.TcCoe Idealize.ShloMosaic.ValueIdx Idealize.SL.Sem Idealize.ShloMosaic.StableHlo

/-- THE MIX STAGE, relation 2, layer 2: the kernel program's mixed array (what region 16 leaves in its first output) is the
    reference's, from any contents before the first of the reference's two windows: when that window leaves the kernel
    program's h and agg, and its scalar weight is the kernel program's 1×1 weight. -/
theorem stageMix16
    (m : (ℓ : Loc Cert.KernelIdeal.nD Cert.KernelIdeal.τ Cert.KernelIdeal.sig) → Buf (Elt Ideal) ℓ)
    (V : Valuation Cert.ReferenceIdeal.τ Cert.ReferenceIdeal.sig (Elt Ideal))
    (c : Dev Cert.KernelIdeal.nD)
    (hh : ((after (Cert.ReferenceIdeal.RefRun.ops8 (F := Ideal)) V) (Cert.ReferenceIdeal.main_v412 : DevRef Cert.ReferenceIdeal.τ Cert.ReferenceIdeal.sig) : (⟨2, ![100000, 32]⟩ : Shape).Idx → EReal)
      = Cert.KernelIdeal.Body.W37 (F := Ideal) m c Cert.KernelIdeal.main_v279)
    (hagg : ((after (Cert.ReferenceIdeal.RefRun.ops8 (F := Ideal)) V) (Cert.ReferenceIdeal.main_v447 : DevRef Cert.ReferenceIdeal.τ Cert.ReferenceIdeal.sig) : (⟨2, ![100000, 32]⟩ : Shape).Idx → EReal)
      = Cert.KernelIdeal.Body.W37 (F := Ideal) m c Cert.KernelIdeal.main_v292)
    (hg : ((after (Cert.ReferenceIdeal.RefRun.ops8 (F := Ideal)) V) (Cert.ReferenceIdeal.main_v408 : DevRef Cert.ReferenceIdeal.τ Cert.ReferenceIdeal.sig) : (⟨0, ![]⟩ : Shape).Idx → EReal) ix0
      = (Cert.KernelIdeal.Body.W37 (F := Ideal) m c Cert.KernelIdeal.main_v299 : (⟨2, ![1, 1]⟩ : Shape).Idx → EReal) (ix2 0 0)) :
    (after (Cert.ReferenceIdeal.RefRun.ops9 (F := Ideal)) (after (Cert.ReferenceIdeal.RefRun.ops8 (F := Ideal)) V) (Cert.ReferenceIdeal.main_v453 : DevRef Cert.ReferenceIdeal.τ Cert.ReferenceIdeal.sig) : (⟨2, ![100000, 32]⟩ : Shape).Idx → EReal)
      = (Cert.KernelIdeal.Body.O16_0 (F := Ideal) m c : (⟨2, ![100000, 32]⟩ : Shape).Idx → EReal) := by
  rw [Cert.ReferenceIdeal.RefRun.ref_mix16]
  funext i
  obtain ⟨p, q, rfl⟩ : ∃ (p : Fin 100000) (q : Fin 32), i = ix2 p q := ⟨i 0, i 1, eq_ix2 i⟩
  refine (refMix_16_apply _ _ _ _ _ p q).trans ?_
  refine Eq.trans ?_ (Cert.KernelIdeal.Body.O16_0_eq m c p q).symm
  rw [Cert.LibHostBroadcast.scalar_to_any, hg, hagg, hh]

end Cert.Proof.Value

end
-- ==== Proof.KIStageMix16Glue.lean ====
/-
  The mix stage of relation 2, layer 2, from the arguments.

  Both programs take the mixing weight from the same place: entry 2 of the same mixing-weights argument, as a scalar.
  The reference spreads that scalar over the array; the kernel program views it as a 1×1 array for region 16. So when the
  contents before the reference's window that computes the weight agree with the kernel program's launch memory on that
  argument, the reference's scalar is the kernel program's 1×1 weight, and the join of the mix stage needs only that the
  two programs hold the same h and the same agg.
-/
import proofs.«140713_j1864015806535_2_alg».proof.Proof.KIStageMix16

set_option maxRecDepth 65536

noncomputable section

namespace Cert.Proof.Value
open Idealize.ShloMosaic
/-- The mixing weight of relation 2, layer 2, as a function of the mixing-weights argument: entry 2, as a scalar. -/
def gOf_16 (a : (⟨1, ![3]⟩ : Shape).Idx → EReal) (hs : (⟨1, ![3]⟩ : Shape).Slices ![2] ⟨1, ![1]⟩)
    (hc : (⟨1, ![1]⟩ : Shape).ShapeCasts ⟨0, ![]⟩) : (⟨0, ![]⟩ : Shape).Idx → EReal :=
  shapeCast ⟨0, ![]⟩ (extractStridedSlice ⟨1, ![1]⟩ ![2] a hs) hc
end Cert.Proof.Value

namespace Cert.ReferenceIdeal.RefRun
open Cert.ReferenceIdeal Cert.ReferenceIdeal.Gen Idealize.ShloMosaic Idealize.ShloMosaic.TcCoe Idealize.SL.Sem Idealize.ShloMosaic.StableHlo

set_option maxHeartbeats 4000000 in
/-- The reference's scalar mixing weight of relation 2, layer 2, from any contents before the window that computes it. -/
theorem ref_g16 (V : Valuation τ sig (Elt Ideal)) :
    (after (ops8 (F := Ideal)) V (main_v408 : DevRef τ sig) : S_.Idx → EReal)
      = Cert.Proof.Value.gOf_16 (V (main_arg8 : DevRef τ sig)) slices_S3_S1_2 shapeCasts_S1_S_ := by
  dsimp only [ops8]
  after_results
  rfl
end Cert.ReferenceIdeal.RefRun

namespace Cert.KernelIdeal.Body
open Cert.KernelIdeal Cert.KernelIdeal.Gen Idealize.ShloMosaic Idealize.ShloMosaic.TcCoe Idealize.SL.Sem Idealize.ShloMosaic.StableHlo
variable (m : (ℓ : Loc nD τ sig) → Buf (Elt Ideal) ℓ)

/-- The mixing-weights argument reaches the host stretch before region 16 as launched. -/
theorem ker_mixarg16 (c : Dev nD) : W36 (F := Ideal) m c main_arg8 = m ((c.tc : Thread nD τ).loc main_arg8) :=
  (congrFun (hV36 m c) _).symm.trans <|
    (GenP.V36_of m (outs m) c main_arg8 (by decide)).trans <|
      (GenP.V35_of m (outs m) c main_arg8 (by decide)).trans <|
      (GenP.V34_of m (outs m) c main_arg8 (by decide)).trans <|
      (GenP.V33_of m (outs m) c main_arg8 (by decide)).trans <|
      (GenP.V32_of m (outs m) c main_arg8 (by decide)).trans <|
      (GenP.V31_of m (outs m) c main_arg8 (by decide)).trans <|
      (GenP.V30_of m (outs m) c main_arg8 (by decide)).trans <|
      (GenP.V29_of m (outs m) c main_arg8 (by decide)).trans <|
      (GenP.V28_of m (outs m) c main_arg8 (by decide)).trans <|
      (GenP.V27_of m (outs m) c main_arg8 (by decide)).trans <|
      (GenP.V26_of m (outs m) c main_arg8 (by decide)).trans <|
      (GenP.V25_of m (outs m) c main_arg8 (by decide)).trans <|
      (GenP.V24_of m (outs m) c main_arg8 (by decide)).trans <|
      (GenP.V23_of m (outs m) c main_arg8 (by decide)).trans <|
      (GenP.V22_of m (outs m) c main_arg8 (by decide)).trans <|
      (GenP.V21_of m (outs m) c main_arg8 (by decide)).trans <|
      (GenP.V20_of m (outs m) c main_arg8 (by decide)).trans <|
      (GenP.V19_of m (outs m) c main_arg8 (by decide)).trans <|
      (GenP.V18_of m (outs m) c main_arg8 (by decide)).trans <|
      (GenP.V17_of m (outs m) c main_arg8 (by decide)).trans <|
      (GenP.V16_of m (outs m) c main_arg8 (by decide)).trans <|
      (GenP.V15_of m (outs m) c main_arg8 (by decide)).trans <|
      (GenP.V14_of m (outs m) c main_arg8 (by decide)).trans <|
      (GenP.V13_of m (outs m) c main_arg8 (by decide)).trans <|
      (GenP.V12_of m (outs m) c main_arg8 (by decide)).trans <|
      (GenP.V11_of m (outs m) c main_arg8 (by decide)).trans <|
      (GenP.V10_of m (outs m) c main_arg8 (by decide)).trans <|
      (GenP.V9_of m (outs m) c main_arg8 (by decide)).trans <|
      (GenP.V8_of m (outs m) c main_arg8 (by decide)).trans <|
      (GenP.V7_of m (outs m) c main_arg8 (by decide)).trans <|
      (GenP.V6_of m (outs m) c main_arg8 (by decide)).trans <|
      (GenP.V5_of m (outs m) c main_arg8 (by decide)).trans <|
      (GenP.V4_of m (outs m) c main_arg8 (by decide)).trans <|
      (GenP.V3_of m (outs m) c main_arg8 (by decide)).trans <|
      (GenP.V2_of m (outs m) c main_arg8 (by decide)).trans <|
      (GenP.V1_of m c main_arg8 (by decide)).trans rfl

set_option maxHeartbeats 4000000 in
/-- The kernel program's 1×1 mixing weight of relation 2, layer 2: the same scalar, as a 1×1 array. -/
theorem ker_g16 (c : Dev nD) :
    (W37 (F := Ideal) m c main_v299 : S1x1.Idx → EReal)
      = shapeCast S1x1 (Cert.Proof.Value.gOf_16 (m ((c.tc : Thread nD τ).loc main_arg8)) slices_S3_S1_2 shapeCasts_S1_S_) shapeCasts_S_S1x1 := by
  rw [← ker_mixarg16 m c]
  dsimp only [W37, hostOps16]
  after_results
  rfl

/-- On entering region 16 h is what region 15 left. -/
theorem ker_h16 (c : Dev nD) : W37 (F := Ideal) m c main_v279 = O15_0 (F := Ideal) m c := by
  refine (StableHlo.after_of_writes_sub hostOps16 _ GenP.hostOps16_writes (by decide)).trans ?_
  unfold W36
  simp only [Function.update_self]
end Cert.KernelIdeal.Body

namespace Cert.Proof.Value
open Idealize.ShloMosaic Idealize.ShloMosaic.TcCoe Idealize.ShloMosaic.ValueIdx Idealize.SL.Sem Idealize.ShloMosaic.StableHlo

/-- After the reference's window that computes it, its scalar weight is the kernel program's 1×1 weight, when the contents
    before that window agree with the kernel program's launch memory on the mixing-weights argument. -/
theorem mix16_weight
    (m : (ℓ : Loc Cert.KernelIdeal.nD Cert.KernelIdeal.τ Cert.KernelIdeal.sig) → Buf (Elt Ideal) ℓ)
    (V : Valuation Cert.ReferenceIdeal.τ Cert.ReferenceIdeal.sig (Elt Ideal))
    (c : Dev Cert.KernelIdeal.nD)
    (ha : V (Proc.devRef .tc Cert.ReferenceIdeal.main_arg8) = m ((c.tc : Thread Cert.KernelIdeal.nD Cert.KernelIdeal.τ).loc Cert.KernelIdeal.main_arg8)) :
    ((after (Cert.ReferenceIdeal.RefRun.ops8 (F := Ideal)) V) (Cert.ReferenceIdeal.main_v408 : DevRef Cert.ReferenceIdeal.τ Cert.ReferenceIdeal.sig) : (⟨0, ![]⟩ : Shape).Idx → EReal) ix0
      = (Cert.KernelIdeal.Body.W37 (F := Ideal) m c Cert.KernelIdeal.main_v299 : (⟨2, ![1, 1]⟩ : Shape).Idx → EReal) (ix2 0 0) := by
  rw [Cert.ReferenceIdeal.RefRun.ref_g16, Cert.KernelIdeal.Body.ker_g16, ha]
  exact (shapeCast_apply _ _ (ix2 0 0) ix0 rfl).symm

/-- THE MIX STAGE, relation 2, layer 2, from the arguments: when the contents before the reference's window 8 agree with the kernel
    program's launch memory on the mixing-weights argument and, after that window, the reference holds the kernel program's
    h (what region 15 left) and agg, the kernel program's mixed array is the reference's. -/
theorem mix16
    (m : (ℓ : Loc Cert.KernelIdeal.nD Cert.KernelIdeal.τ Cert.KernelIdeal.sig) → Buf (Elt Ideal) ℓ)
    (V : Valuation Cert.ReferenceIdeal.τ Cert.ReferenceIdeal.sig (Elt Ideal))
    (c : Dev Cert.KernelIdeal.nD)
    (ha : V (Proc.devRef .tc Cert.ReferenceIdeal.main_arg8) = m ((c.tc : Thread Cert.KernelIdeal.nD Cert.KernelIdeal.τ).loc Cert.KernelIdeal.main_arg8))
    (hh : ((after (Cert.ReferenceIdeal.RefRun.ops8 (F := Ideal)) V) (Cert.ReferenceIdeal.main_v412 : DevRef Cert.ReferenceIdeal.τ Cert.ReferenceIdeal.sig) : (⟨2, ![100000, 32]⟩ : Shape).Idx → EReal) = (Cert.KernelIdeal.Body.O15_0 (F := Ideal) m c : (⟨2, ![100000, 32]⟩ : Shape).Idx → EReal))
    (hagg : ((after (Cert.ReferenceIdeal.RefRun.ops8 (F := Ideal)) V) (Cert.ReferenceIdeal.main_v447 : DevRef Cert.ReferenceIdeal.τ Cert.ReferenceIdeal.sig) : (⟨2, ![100000, 32]⟩ : Shape).Idx → EReal) = Cert.KernelIdeal.Body.W37 (F := Ideal) m c Cert.KernelIdeal.main_v292) :
    (after (Cert.ReferenceIdeal.RefRun.ops9 (F := Ideal)) (after (Cert.ReferenceIdeal.RefRun.ops8 (F := Ideal)) V) (Cert.ReferenceIdeal.main_v453 : DevRef Cert.ReferenceIdeal.τ Cert.ReferenceIdeal.sig) : (⟨2, ![100000, 32]⟩ : Shape).Idx → EReal)
      = (Cert.KernelIdeal.Body.O16_0 (F := Ideal) m c : (⟨2, ![100000, 32]⟩ : Shape).Idx → EReal) :=
  stageMix16 m V c (hh.trans (Cert.KernelIdeal.Body.ker_h16 m c).symm) hagg (mix16_weight m V c ha)

end Cert.Proof.Value

end
-- ==== Proof.KIValueEq.lean ====
/-
  THE VALUE EQUATION: for finite inputs and memories that agree on the thirteen arguments, the reference's result array
  is the kernel program's.

  Each relation's embedding agrees (Proof/KIRel0.lean, KIRel1.lean, KIRel2.lean: the nine stages of a relation in a
  row, each stage's join feeding the next), the normalise stages' joins being the five instances of
  Proof/KILayer1Rel0.lean's (Proof/KIStageBnJoin4.lean … 16.lean); the three embeddings give the result
  (Proof/KIValueTop.lean).
-/
import proofs.«140713_j1864015806535_2_alg».proof.Proof.KIValueTop
import proofs.«140713_j1864015806535_2_alg».proof.Proof.KIRel0
import proofs.«140713_j1864015806535_2_alg».proof.Proof.KIRel1
import proofs.«140713_j1864015806535_2_alg».proof.Proof.KIRel2
import proofs.«140713_j1864015806535_2_alg».proof.Proof.KIStageBnJoin4
import proofs.«140713_j1864015806535_2_alg».proof.Proof.KIStageBnJoin7
import proofs.«140713_j1864015806535_2_alg».proof.Proof.KIStageBnJoin10
import proofs.«140713_j1864015806535_2_alg».proof.Proof.KIStageBnJoin13
import proofs.«140713_j1864015806535_2_alg».proof.Proof.KIStageBnJoin16
import proofs.«140713_j1864015806535_2_alg».proof.Proof.KIStageMix16Glue

set_option maxRecDepth 65536

noncomputable section

namespace Cert.Proof.Value

open Idealize.ShloMosaic Idealize.ShloMosaic.TcCoe Idealize.SL.Sem Idealize.ShloMosaic.StableHlo

theorem value_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hpre : Cert.Pre_KernelIdeal m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    (after (Cert.ReferenceIdeal.RefRun.ops (F := Ideal)) (launchContents m' c) (Cert.ReferenceIdeal.main_v490 : DevRef Cert.ReferenceIdeal.τ Cert.ReferenceIdeal.sig) : (⟨2, ![50000, 96]⟩ : Shape).Idx → EReal)
      = (Cert.KernelIdeal.Body.W43 (F := Ideal) m c Cert.KernelIdeal.main_v322 : (⟨2, ![50000, 96]⟩ : Shape).Idx → EReal) :=
  value_eq_of m m' c
    (emb_rel0 m m' c hpre h0 h1 h2 h3 h4 h5 h6 h7 h8 h9 h10 h11 h12 (fun V hX e11 e12 => stageBn4 m V c hpre hX e11 e12))
    (emb_rel1 m m' c hpre h0 h1 h2 h3 h4 h5 h6 h7 h8 h9 h10 h11 h12 (fun V => stageBn7 m V c hpre) (fun V => stageBn10 m V c hpre))
    (emb_rel2 m m' c hpre h0 h1 h2 h3 h4 h5 h6 h7 h8 h9 h10 h11 h12 (fun V hX e9 e10 => stageBn13 m V c hpre hX e9 e10) (fun V ha hh hagg => mix16 m V c ha hh hagg) (fun V hX e11 e12 => stageBn16 m V c hpre hX e11 e12))

end Cert.Proof.Value

end
-- ==== Proof.lean ====
/-
  The kernel program against its reference, on the extended reals.

  Per relation r of the three, both programs compute two graph-convolution layers, each followed by a batch
  normalisation over the 100000 nodes and a cut-off at 0, and then the log-softmax of the rows picked by the batch:
    h   = x·W[r] + b[r]                                   (a dense layer; the kernel's tiles of 10000 rows each)
    agg = Σ over edges into a node of h[source]·dinv[source]·dinv[target],   dinv = rsqrt(max(degree, 1))
    xm  = γ·agg + (1 − γ)·h
    y   = max((xm − μ)·rsqrt(σ² + ε)·scale + bias, 0),    μ the column mean of xm.
  They differ in one place: the reference takes σ² as the mean of the squared deviations from μ, the kernel as
  max(mean of the squares − μ², 0), the two sums accumulated tile by tile. For real entries these agree
  (Proof/LibVarianceForms.lean): expanding the square gives Σ(xᵢ − μ)² = Σxᵢ² − nμ², and a mean of squares is
  nonnegative, so the cut-off changes nothing; with an infinite entry they part, so the proof needs every intermediate
  array real, which follows from the finite inputs operation by operation (Proof/LibRealEntries.lean). Changes of float
  format are the identity, a tile's matrix product into zeros is the host's product, and sums may be regrouped freely.

  How the proof goes. FRAMES: each kernel program is 43 items in a row, stretches of host operations and 18 pipelined
  regions; every region's body meets its pipeline's obligation (Proof/KRegion0.lean … KRegion17.lean, Proof/KIRegion0.lean
  … KIRegion17.lean), every region is one segment between two valuations of the unscoped buffers
  (Proof/LibClassARegion.lean), and the conditional frames over the segments (Proof/RegionsKernel.lean,
  Proof/RegionsKernelIdeal.lean) give the two frames (Proof/KFrame.lean, Proof/KIFrame.lean); the reference is one
  straight line of host operations, window by window (Proof/RefPart0.lean … RefPart9.lean, Proof/RefFrame.lean).
  VALUE: both programs' runs are stated with their result arrays named (Proof/KIRun.lean, Proof/RefFrame.lean), which
  leaves one equation between the two arrays (Proof/KIValueEq.lean). It is proved stage by stage: what each region
  leaves in its output arrays as a function of what it reads (Proof/KIValDense*.lean, KIValMix*.lean, KIValBn*.lean);
  each stage's array in the reference equals the kernel program's given that the stage's inputs agree — the dense
  layers (Proof/KIStage1.lean, KIStageDense*.lean), the aggregations and mixing weights (KIStageAgg*.lean), the mixes
  (KIStageMix*.lean), the normalisations (KIStageBn*.lean, KIStageBnRef*.lean, KIStageBnJoin*.lean,
  KILayer1Rel0.lean; this is where the variance identity and the realness of every intermediate, Proof/KIReal*.lean
  from the finiteness precondition Proof/KIPreReal.lean, are used), the gather by the batch with the log-softmax
  (KIStageEmb*.lean) and the final concatenation (KIStageFinal.lean); the stages of a relation in a row
  (KIRel0.lean, KIRel1.lean, KIRel2.lean) and the three relations together (KIValueTop.lean).
-/
import proofs.«140713_j1864015806535_2_alg».proof.Defs
import proofs.«140713_j1864015806535_2_alg».proof.Proof.Gen.Kernel
import proofs.«140713_j1864015806535_2_alg».proof.Proof.Gen.Kernel.Skeleton
import proofs.«140713_j1864015806535_2_alg».proof.Proof.Gen.Kernel.Launch
import proofs.«140713_j1864015806535_2_alg».proof.Proof.Gen.Kernel.Points
import proofs.«140713_j1864015806535_2_alg».proof.Proof.Gen.KernelIdeal
import proofs.«140713_j1864015806535_2_alg».proof.Proof.Gen.KernelIdeal.Skeleton
import proofs.«140713_j1864015806535_2_alg».proof.Proof.Gen.KernelIdeal.Launch
import proofs.«140713_j1864015806535_2_alg».proof.Proof.Gen.KernelIdeal.Points
import proofs.«140713_j1864015806535_2_alg».proof.Proof.Gen.ReferenceIdeal
import proofs.«140713_j1864015806535_2_alg».proof.Proof.Gen.Pre_finite_inputs
import proofs.«140713_j1864015806535_2_alg».proof.Proof.RegionsKernel
import proofs.«140713_j1864015806535_2_alg».proof.Proof.RegionsKernelIdeal
import proofs.«140713_j1864015806535_2_alg».proof.Proof.KFrame
import proofs.«140713_j1864015806535_2_alg».proof.Proof.KIFrame
import proofs.«140713_j1864015806535_2_alg».proof.Proof.RefFrame
import proofs.«140713_j1864015806535_2_alg».proof.Proof.KIRun
import proofs.«140713_j1864015806535_2_alg».proof.Proof.KIValueEq
import proofs.«140713_j1864015806535_2_alg».proof.Proof.LibVarianceForms
import proofs.«140713_j1864015806535_2_alg».proof.Proof.LibRealEntries
import Idealize.ShloMosaic.Adequacy
import Idealize.ShloMosaic.Init

noncomputable section

namespace Cert.Proof

open Idealize.ShloMosaic Idealize.ShloMosaic.TcCoe Idealize.SL.Sem Cert.Kernel

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Body.frame m ρ, fun m ρ _ => Cert.KernelIdeal.Body.frame m ρ,
    fun m ρ _ => Cert.ReferenceIdeal.RefRun.frame m ρ, trivial, ?algebraic⟩
  -- the value claim: each run names its result array; the two arrays are equal (Proof/KIValueEq.lean)
  intro m g m' g' hpre hagree
  refine ⟨fun c => Cert.KernelIdeal.Body.W43 (F := Ideal) m c Cert.KernelIdeal.main_v322,
    Cert.KernelIdeal.Body.run_value (F := Ideal) m g, ?_⟩
  refine (θ_run (Cert.ReferenceIdeal.defs (F := Ideal)) _ _).mono (fun r h c => ⟨(h c).1.trans ?_, (h c).2⟩)
    (Cert.ReferenceIdeal.RefRun.run_value (F := Ideal) m' g')
  obtain ⟨h0, h1, h2, h3, h4, h5, h6, h7, h8, h9, h10, h11, h12⟩ := hagree c
  exact Cert.Proof.Value.value_eq m m' c hpre h0 h1 h2 h3 h4 h5 h6 h7 h8 h9 h10 h11 h12⟩

end Cert.Proof

end
